-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S100000 : Shape := ⟨1, ![100000]⟩
abbrev S384x128 : Shape := ⟨2, ![384, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg3 : IVec S100000 32) (main_arg4 : IVec S100000 32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_c_6 : IVec S_ 32 := constantI S_ 32 0#32
  let main_v19 : IVec S100000 32 := broadcastInDim S100000 ![] bcast_S_S100000 main_c_6
  let main_v20 : IVec S100000 1 := cmpi .sge main_arg3 main_v19
  let main_c_7 : IVec S_ 32 := constantI S_ 32 99999#32
  let main_v21 : IVec S100000 32 := broadcastInDim S100000 ![] bcast_S_S100000 main_c_7
  let main_v22 : IVec S100000 1 := cmpi .sle main_arg3 main_v21
  let main_v23 : IVec S100000 1 := andi main_v20 main_v22
  let main_c_8 : IVec S_ 1 := constantI S_ 1 1#1
  let main_v24 : IVec S_ 1 := (fun x v => Host.reduce IntOp.andi x v reducesTo_S100000_S_d0 h_S_) main_v23 main_c_8
  let main_v25 : IVec S_ 1 := andi main_v18 main_v24
  let main_c_9 : IVec S_ 32 := constantI S_ 32 0#32
  let main_v26 : IVec S100000 32 := broadcastInDim S100000 ![] bcast_S_S100000 main_c_9
  let main_v27 : IVec S100000 1 := cmpi .sge main_arg4 main_v26
  let main_c_10 : IVec S_ 32 := constantI S_ 32 99999#32
  let main_v28 : IVec S100000 32 := broadcastInDim S100000 ![] bcast_S_S100000 main_c_10
  let main_v29 : IVec S100000 1 := cmpi .sle main_arg4 main_v28
  let main_v30 : IVec S100000 1 := andi main_v27 main_v29
  let main_c_11 : IVec S_ 1 := constantI S_ 1 1#1
  let main_v31 : IVec S_ 1 := (fun x v => Host.reduce IntOp.andi x v reducesTo_S100000_S_d0 h_S_) main_v30 main_c_11
  let main_v32 : IVec S_ 1 := andi main_v25 main_v31
  main_v32

def fn {F : FTy → Type} [FloatOps F] (main_arg0 : FVec F S100000x128 .f32) (main_arg1 : FVec F S100000x128 .f32) (main_arg2 : FVec F S100000x128 .f32) (main_arg3 : IVec S100000 32) (main_arg4 : IVec S100000 32) (main_arg5 : FVec F S384x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg3 main_arg4 main_v13 main_v16
-- ==== Kernel.lean ====
abbrev S100000x128 : Shape := ⟨2, ![100000, 128]⟩
abbrev S100000 : Shape := ⟨1, ![100000]⟩
abbrev S384x128 : Shape := ⟨2, ![384, 128]⟩
abbrev S_ : Shape := ⟨0, ![]⟩
abbrev S1 : Shape := ⟨1, ![1]⟩
abbrev S2 : Shape := ⟨1, ![2]⟩
abbrev S128 : Shape := ⟨1, ![128]⟩
abbrev S2x1 : Shape := ⟨2, ![2, 1]⟩
abbrev S2x2 : Shape := ⟨2, ![2, 2]⟩
abbrev S1x2 : Shape := ⟨2, ![1, 2]⟩
abbrev S128x128 : Shape := ⟨2, ![128, 128]⟩
abbrev S128x1 : Shape := ⟨2, ![128, 1]⟩
abbrev S102400 : Shape := ⟨1, ![102400]⟩
abbrev S800x128 : Shape := ⟨2, ![800, 128]⟩
abbrev S400x128 : Shape := ⟨2, ![400, 128]⟩
abbrev S32x18x128 : Shape := ⟨3, ![32, 18, 128]⟩
abbrev S288x128 : Shape := ⟨2, ![288, 128]⟩
abbrev S16x18x128 : Shape := ⟨3, ![16, 18, 128]⟩
abbrev S112x128 : Shape := ⟨2, ![112, 128]⟩
abbrev S16x7x128 : Shape := ⟨3, ![16, 7, 128]⟩
abbrev S51200x128 : Shape := ⟨2, ![51200, 128]⟩
abbrev S18x128 : Shape := ⟨2, ![18, 128]⟩
abbrev S1x18x128 : Shape := ⟨3, ![1, 18, 128]⟩
abbrev S1x128 : Shape := ⟨2, ![1, 128]⟩

abbrev nBuf : Table → Nat
  | .hbm => 1098
  | .local .tc .vmem => 18
  | .local .scVector .vmem => 18
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000, .i32⟩
  | 4 => ⟨S100000, .i32⟩
  | 5 => ⟨S384x128, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S128, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S100000x128, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S100000x128, .f32⟩

abbrev hbmTy0_2 (i : Nat) : BufTy := match i % 128 with
  | 0 => ⟨S2, .i32⟩
  | 1 => ⟨S1x2, .i32⟩
  | 2 => ⟨S2, .i32⟩
  | 3 => ⟨S1, .i32⟩
  | 4 => ⟨S_, .i32⟩
  | 5 => ⟨S1, .i32⟩
  | 6 => ⟨S_, .i32⟩
  | 7 => ⟨S128, .i64⟩
  | 8 => ⟨S_, .i64⟩
  | 9 => ⟨S128, .i64⟩
  | 10 => ⟨S128, .i64⟩
  | 11 => ⟨S_, .i64⟩
  | 12 => ⟨S128, .i64⟩
  | 13 => ⟨S128, .i64⟩
  | 14 => ⟨S128, .i32⟩
  | 15 => ⟨S128, .i32⟩
  | 16 => ⟨S_, .i32⟩
  | 17 => ⟨S_, .i32⟩
  | 18 => ⟨S_, .i32⟩
  | 19 => ⟨S128, .i32⟩
  | 20 => ⟨S128, .i32⟩
  | 21 => ⟨S128, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S128, .i32⟩
  | 32 => ⟨S128, .i32⟩
  | 33 => ⟨S_, .i32⟩
  | 34 => ⟨S128, .i32⟩
  | 35 => ⟨S128, .i32⟩
  | 36 => ⟨S_, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S128, .i32⟩
  | 63 => ⟨S_, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S_, .i32⟩
  | 71 => ⟨S128, .i32⟩
  | 72 => ⟨S128, .i32⟩
  | 73 => ⟨S128, .i32⟩
  | 74 => ⟨S128, .i32⟩
  | 75 => ⟨S128, .i32⟩
  | 76 => ⟨S_, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S128, .i32⟩
  | 110 => ⟨S_, .i32⟩
  | 111 => ⟨S128, .i32⟩
  | 112 => ⟨S128, .i32⟩
  | 113 => ⟨S_, .i32⟩
  | 114 => ⟨S128, .i32⟩
  | 115 => ⟨S128, .i32⟩
  | 116 => ⟨S128, .i32⟩
  | 117 => ⟨S128, .i32⟩
  | 118 => ⟨S128, .i32⟩
  | 119 => ⟨S_, .i32⟩
  | 120 => ⟨S128, .i32⟩
  | 121 => ⟨S128, .i32⟩
  | 122 => ⟨S_, .i32⟩
  | 123 => ⟨S128, .i32⟩
  | 124 => ⟨S128, .i32⟩
  | 125 => ⟨S128, .i32⟩
  | 126 => ⟨S128, .i32⟩
  | 127 => ⟨S128, .i32⟩
  | _ => ⟨S100000x128, .f32⟩

abbrev hbmTy0_3 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S128, .i32⟩
  | 8 => ⟨S128, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S128, .i32⟩
  | 25 => ⟨S_, .i32⟩
  | 26 => ⟨S128, .i32⟩
  | 27 => ⟨S128, .i32⟩
  | 28 => ⟨S_, .i32⟩
  | 29 => ⟨S128, .i32⟩
  | 30 => ⟨S128, .i32⟩
  | 31 => ⟨S128, .i32⟩
  | 32 => ⟨S128, .i32⟩
  | 33 => ⟨S128, .i32⟩
  | 34 => ⟨S_, .i32⟩
  | 35 => ⟨S128, .i32⟩
  | 36 => ⟨S128, .i32⟩
  | 37 => ⟨S_, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128, .i32⟩
  | 50 => ⟨S128, .i32⟩
  | 51 => ⟨S128, .i32⟩
  | 52 => ⟨S_, .i32⟩
  | 53 => ⟨S128, .i32⟩
  | 54 => ⟨S128, .i32⟩
  | 55 => ⟨S_, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S128, .i32⟩
  | 68 => ⟨S_, .i32⟩
  | 69 => ⟨S128, .i32⟩
  | 70 => ⟨S128, .i32⟩
  | 71 => ⟨S_, .i32⟩
  | 72 => ⟨S128, .i32⟩
  | 73 => ⟨S128, .i32⟩
  | 74 => ⟨S128, .i32⟩
  | 75 => ⟨S128, .i32⟩
  | 76 => ⟨S128, .i32⟩
  | 77 => ⟨S_, .i32⟩
  | 78 => ⟨S128, .i32⟩
  | 79 => ⟨S128, .i32⟩
  | 80 => ⟨S_, .i32⟩
  | 81 => ⟨S128, .i32⟩
  | 82 => ⟨S128, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S_, .i32⟩
  | 90 => ⟨S128, .i32⟩
  | 91 => ⟨S128, .i32⟩
  | 92 => ⟨S128, .i32⟩
  | 93 => ⟨S128, .i32⟩
  | 94 => ⟨S128, .i32⟩
  | 95 => ⟨S_, .i32⟩
  | 96 => ⟨S128, .i32⟩
  | 97 => ⟨S128, .i32⟩
  | 98 => ⟨S_, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S128, .i32⟩
  | 111 => ⟨S128, .i32⟩
  | 112 => ⟨S128, .i32⟩
  | 113 => ⟨S_, .i32⟩
  | 114 => ⟨S_, .i32⟩
  | 115 => ⟨S_, .i32⟩
  | 116 => ⟨S_, .i32⟩
  | 117 => ⟨S1, .i32⟩
  | 118 => ⟨S_, .i32⟩
  | 119 => ⟨S_, .i32⟩
  | 120 => ⟨S_, .i32⟩
  | 121 => ⟨S1, .i32⟩
  | 122 => ⟨S2, .i32⟩
  | 123 => ⟨S128, .i32⟩
  | 124 => ⟨S1, .i32⟩
  | 125 => ⟨S_, .i32⟩
  | 126 => ⟨S1, .i32⟩
  | 127 => ⟨S_, .i32⟩
  | _ => ⟨S100000x128, .f32⟩

abbrev hbmTy0_4 (i : Nat) : BufTy := match i % 128 with
  | 0 => ⟨S2, .i64⟩
  | 1 => ⟨S_, .i64⟩
  | 2 => ⟨S2, .i64⟩
  | 3 => ⟨S2, .i64⟩
  | 4 => ⟨S_, .i64⟩
  | 5 => ⟨S2, .i64⟩
  | 6 => ⟨S2, .i64⟩
  | 7 => ⟨S2, .i32⟩
  | 8 => ⟨S2, .i32⟩
  | 9 => ⟨S_, .i32⟩
  | 10 => ⟨S_, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S100000x128, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S2x1, .i32⟩
  | 104 => ⟨S2x1, .i32⟩
  | 105 => ⟨S2x2, .i32⟩
  | 106 => ⟨S1x2, .i32⟩
  | 107 => ⟨S2, .i32⟩
  | 108 => ⟨S1x2, .i32⟩
  | 109 => ⟨S2, .i32⟩
  | 110 => ⟨S1, .i32⟩
  | 111 => ⟨S_, .i32⟩
  | 112 => ⟨S1, .i32⟩
  | 113 => ⟨S_, .i32⟩
  | 114 => ⟨S128, .i64⟩
  | 115 => ⟨S_, .i64⟩
  | 116 => ⟨S128, .i64⟩
  | 117 => ⟨S128, .i64⟩
  | 118 => ⟨S_, .i64⟩
  | 119 => ⟨S128, .i64⟩
  | 120 => ⟨S128, .i64⟩
  | 121 => ⟨S128, .i32⟩
  | 122 => ⟨S128, .i32⟩
  | 123 => ⟨S_, .i32⟩
  | 124 => ⟨S_, .i32⟩
  | 125 => ⟨S_, .i32⟩
  | 126 => ⟨S128, .i32⟩
  | 127 => ⟨S128, .i32⟩
  | _ => ⟨S100000x128, .f32⟩

abbrev hbmTy0_6 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S_, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S_, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S_, .i32⟩
  | 25 => ⟨S128, .i32⟩
  | 26 => ⟨S128, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i32⟩
  | 92 => ⟨S_, .i32⟩
  | 93 => ⟨S128, .i32⟩
  | 94 => ⟨S128, .i32⟩
  | 95 => ⟨S128, .i32⟩
  | 96 => ⟨S128, .i32⟩
  | 97 => ⟨S128, .i32⟩
  | 98 => ⟨S_, .i32⟩
  | 99 => ⟨S128, .i32⟩
  | 100 => ⟨S128, .i32⟩
  | 101 => ⟨S_, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S_, .i32⟩
  | 111 => ⟨S128, .i32⟩
  | 112 => ⟨S128, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S128, .i32⟩
  | _ => ⟨S100000x128, .f32⟩

abbrev hbmTy0_7 (i : Nat) : BufTy := match i % 128 with
  | 0 => ⟨S_, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S128, .i32⟩
  | 11 => ⟨S128, .i32⟩
  | 12 => ⟨S128, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S128, .i32⟩
  | 21 => ⟨S128, .i32⟩
  | 22 => ⟨S_, .i32⟩
  | 23 => ⟨S128, .i32⟩
  | 24 => ⟨S128, .i32⟩
  | 25 => ⟨S_, .i32⟩
  | 26 => ⟨S128, .i32⟩
  | 27 => ⟨S128, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S128, .i32⟩
  | 90 => ⟨S128, .i32⟩
  | 91 => ⟨S128, .i32⟩
  | 92 => ⟨S128x128, .f32⟩
  | 93 => ⟨S128x128, .f32⟩
  | 94 => ⟨S128, .i32⟩
  | 95 => ⟨S128, .i32⟩
  | 96 => ⟨S128, .i32⟩
  | 97 => ⟨S_, .i32⟩
  | 98 => ⟨S128, .i32⟩
  | 99 => ⟨S128, .i1⟩
  | 100 => ⟨S_, .i32⟩
  | 101 => ⟨S128, .i32⟩
  | 102 => ⟨S128, .i32⟩
  | 103 => ⟨S128, .i32⟩
  | 104 => ⟨S128x1, .i32⟩
  | 105 => ⟨S128x128, .f32⟩
  | 106 => ⟨S128x128, .f32⟩
  | 107 => ⟨S128, .i32⟩
  | 108 => ⟨S128, .i32⟩
  | 109 => ⟨S128, .i32⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S128x1, .i32⟩
  | 118 => ⟨S128x128, .f32⟩
  | 119 => ⟨S384x128, .f32⟩
  | 120 => ⟨S_, .i32⟩
  | 121 => ⟨S102400, .i32⟩
  | 122 => ⟨S_, .i32⟩
  | 123 => ⟨S1, .i32⟩
  | 124 => ⟨S102400, .i32⟩
  | 125 => ⟨S800x128, .i32⟩
  | 126 => ⟨S400x128, .i32⟩
  | 127 => ⟨S_, .i32⟩
  | _ => ⟨S100000x128, .f32⟩

abbrev hbmTy0_8 (i : Nat) : BufTy := match i % 128 with
  | 0 => ⟨S32x18x128, .i32⟩
  | 1 => ⟨S288x128, .i32⟩
  | 2 => ⟨S16x18x128, .i32⟩
  | 3 => ⟨S_, .i32⟩
  | 4 => ⟨S1, .i32⟩
  | 5 => ⟨S32x18x128, .i32⟩
  | 6 => ⟨S112x128, .i32⟩
  | 7 => ⟨S16x7x128, .i32⟩
  | 8 => ⟨S_, .i32⟩
  | 9 => ⟨S1, .i32⟩
  | 10 => ⟨S_, .i32⟩
  | 11 => ⟨S1, .i32⟩
  | 12 => ⟨S2, .i32⟩
  | 13 => ⟨S32x18x128, .i32⟩
  | 14 => ⟨S400x128, .i32⟩
  | 15 => ⟨S_, .i32⟩
  | 16 => ⟨S32x18x128, .i32⟩
  | 17 => ⟨S288x128, .i32⟩
  | 18 => ⟨S16x18x128, .i32⟩
  | 19 => ⟨S_, .i32⟩
  | 20 => ⟨S1, .i32⟩
  | 21 => ⟨S32x18x128, .i32⟩
  | 22 => ⟨S112x128, .i32⟩
  | 23 => ⟨S16x7x128, .i32⟩
  | 24 => ⟨S_, .i32⟩
  | 25 => ⟨S1, .i32⟩
  | 26 => ⟨S_, .i32⟩
  | 27 => ⟨S1, .i32⟩
  | 28 => ⟨S2, .i32⟩
  | 29 => ⟨S32x18x128, .i32⟩
  | 30 => ⟨S_, .i32⟩
  | 31 => ⟨S102400, .i32⟩
  | 32 => ⟨S_, .i32⟩
  | 33 => ⟨S1, .i32⟩
  | 34 => ⟨S102400, .i32⟩
  | 35 => ⟨S800x128, .i32⟩
  | 36 => ⟨S400x128, .i32⟩
  | 37 => ⟨S_, .i32⟩
  | 38 => ⟨S32x18x128, .i32⟩
  | 39 => ⟨S288x128, .i32⟩
  | 40 => ⟨S16x18x128, .i32⟩
  | 41 => ⟨S_, .i32⟩
  | 42 => ⟨S1, .i32⟩
  | 43 => ⟨S32x18x128, .i32⟩
  | 44 => ⟨S112x128, .i32⟩
  | 45 => ⟨S16x7x128, .i32⟩
  | 46 => ⟨S_, .i32⟩
  | 47 => ⟨S1, .i32⟩
  | 48 => ⟨S_, .i32⟩
  | 49 => ⟨S1, .i32⟩
  | 50 => ⟨S2, .i32⟩
  | 51 => ⟨S32x18x128, .i32⟩
  | 52 => ⟨S400x128, .i32⟩
  | 53 => ⟨S_, .i32⟩
  | 54 => ⟨S32x18x128, .i32⟩
  | 55 => ⟨S288x128, .i32⟩
  | 56 => ⟨S16x18x128, .i32⟩
  | 57 => ⟨S_, .i32⟩
  | 58 => ⟨S1, .i32⟩
  | 59 => ⟨S32x18x128, .i32⟩
  | 60 => ⟨S112x128, .i32⟩
  | 61 => ⟨S16x7x128, .i32⟩
  | 62 => ⟨S_, .i32⟩
  | 63 => ⟨S1, .i32⟩
  | 64 => ⟨S_, .i32⟩
  | 65 => ⟨S1, .i32⟩
  | 66 => ⟨S2, .i32⟩
  | 67 => ⟨S32x18x128, .i32⟩
  | 68 => ⟨S51200x128, .f32⟩
  | 69 => ⟨S51200x128, .f32⟩
  | 70 => ⟨S51200x128, .f32⟩
  | 71 => ⟨S51200x128, .f32⟩
  | 72 => ⟨S100000x128, .f32⟩
  | 73 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S100000x128, .f32⟩

abbrev bufTy : (tb : Table) → Fin (nBuf tb) → BufTy
  | .hbm, ⟨i, _⟩ => hbmTy i
  | .local .tc .vmem, ⟨0, _⟩ => ⟨S800x128, .f32⟩
  | .local .tc .vmem, ⟨1, _⟩ => ⟨S800x128, .f32⟩
  | .local .tc .vmem, ⟨2, _⟩ => ⟨S800x128, .f32⟩
  | .local .tc .vmem, ⟨3, _⟩ => ⟨S800x128, .f32⟩
  | .local .tc .vmem, ⟨4, _⟩ => ⟨S800x128, .f32⟩
  | .local .tc .vmem, ⟨5, _⟩ => ⟨S800x128, .f32⟩
  | .local .tc .vmem, ⟨6, _⟩ => ⟨S384x128, .f32⟩
  | .local .tc .vmem, ⟨7, _⟩ => ⟨S800x128, .f32⟩
  | .local .tc .vmem, ⟨8, _⟩ => ⟨S800x128, .f32⟩
  | .local .tc .vmem, ⟨9, _⟩ => ⟨S800x128, .f32⟩
  | .local .tc .vmem, ⟨10, _⟩ => ⟨S800x128, .f32⟩
  | .local .tc .vmem, ⟨11, _⟩ => ⟨S800x128, .f32⟩
  | .local .tc .vmem, ⟨12, _⟩ => ⟨S800x128, .f32⟩
  | .local .tc .vmem, ⟨13, _⟩ => ⟨S800x128, .f32⟩
  | .local .tc .vmem, ⟨14, _⟩ => ⟨S800x128, .f32⟩
  | .local .tc .vmem, ⟨15, _⟩ => ⟨S384x128, .f32⟩
  | .local .tc .vmem, ⟨16, _⟩ => ⟨S800x128, .f32⟩
  | .local .tc .vmem, ⟨17, _⟩ => ⟨S800x128, .f32⟩
  | .local .scVector .vmem, ⟨0, _⟩ => ⟨S18x128, .i32⟩
  | .local .scVector .vmem, ⟨1, _⟩ => ⟨S18x128, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | .local .scVector .vmem, ⟨9, _⟩ => ⟨S18x128, .i32⟩
  | .local .scVector .vmem, ⟨10, _⟩ => ⟨S18x128, .i32⟩
  | .local .scVector .vmem, ⟨11, _⟩ => ⟨S128x128, .f32⟩
  | .local .scVector .vmem, ⟨12, _⟩ => ⟨S128x128, .f32⟩
  | .local .scVector .vmem, ⟨13, _⟩ => ⟨S128x128, .f32⟩
  | .local .scVector .vmem, ⟨14, _⟩ => ⟨S128x128, .f32⟩
  | .local .scVector .vmem, ⟨15, _⟩ => ⟨S128x128, .f32⟩
  | .local .scVector .vmem, ⟨16, _⟩ => ⟨S128x128, .f32⟩
  | .local .scVector .vmem, ⟨17, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 50 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTables nBuf rfl bufTy 4 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_c : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_c_0 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_call0_v0 : Ref sig .tc := ⟨.hbm, 30, rfl⟩
abbrev main_call0_call0_call0_c : Ref sig .tc := ⟨.hbm, 31, rfl⟩
abbrev main_call0_call0_call0_v1 : Ref sig .tc := ⟨.hbm, 32, rfl⟩
abbrev main_call0_call0_call0_v2 : Ref sig .tc := ⟨.hbm, 33, rfl⟩
abbrev main_call0_call0_call0_v3 : Ref sig .tc := ⟨.hbm, 34, rfl⟩
abbrev main_call0_call0_call0_v4 : Ref sig .tc := ⟨.hbm, 35, rfl⟩
abbrev main_call0_call0_call0_v5 : Ref sig .tc := ⟨.hbm, 36, rfl⟩
abbrev main_call0_call0_call0_v6 : Ref sig .tc := ⟨.hbm, 37, rfl⟩
abbrev main_call0_call0_call0_c_0 : Ref sig .tc := ⟨.hbm, 38, rfl⟩
abbrev main_call0_call0_call0_v7 : Ref sig .tc := ⟨.hbm, 39, rfl⟩
abbrev main_call0_call0_call0_v8 : Ref sig .tc := ⟨.hbm, 40, rfl⟩
abbrev main_call0_call0_call0_c_1 : Ref sig .tc := ⟨.hbm, 41, rfl⟩
abbrev main_call0_call0_call0_v9 : Ref sig .tc := ⟨.hbm, 42, rfl⟩
abbrev main_call0_call0_call0_v10 : Ref sig .tc := ⟨.hbm, 43, rfl⟩
abbrev main_call0_call0_call0_v11 : Ref sig .tc := ⟨.hbm, 44, rfl⟩
abbrev main_call0_call0_call0_v12 : Ref sig .tc := ⟨.hbm, 45, rfl⟩
abbrev main_call0_call0_call0_v13 : Ref sig .tc := ⟨.hbm, 46, rfl⟩
abbrev main_call0_call0_call0_c_2 : Ref sig .tc := ⟨.hbm, 47, rfl⟩
abbrev main_call0_call0_call0_v14 : Ref sig .tc := ⟨.hbm, 48, rfl⟩
abbrev main_call0_call0_call0_v15 : Ref sig .tc := ⟨.hbm, 49, rfl⟩
abbrev main_call0_call0_call0_c_3 : Ref sig .tc := ⟨.hbm, 50, rfl⟩
abbrev main_call0_call0_call0_v16 : Ref sig .tc := ⟨.hbm, 51, rfl⟩
abbrev main_call0_call0_call0_v17 : Ref sig .tc := ⟨.hbm, 52, rfl⟩
abbrev main_call0_call0_call0_v18 : Ref sig .tc := ⟨.hbm, 53, rfl⟩
abbrev main_call0_call0_call0_v19 : Ref sig .tc := ⟨.hbm, 54, rfl⟩
abbrev main_call0_call0_call0_v20 : Ref sig .tc := ⟨.hbm, 55, rfl⟩
abbrev main_call0_call0_call0_c_4 : Ref sig .tc := ⟨.hbm, 56, rfl⟩
abbrev main_call0_call0_call0_v21 : Ref sig .tc := ⟨.hbm, 57, rfl⟩
abbrev main_call0_call0_call0_v22 : Ref sig .tc := ⟨.hbm, 58, rfl⟩
abbrev main_call0_call0_call0_c_5 : Ref sig .tc := ⟨.hbm, 59, rfl⟩
abbrev main_call0_call0_call0_v23 : Ref sig .tc := ⟨.hbm, 60, rfl⟩
abbrev main_call0_call0_call0_v24 : Ref sig .tc := ⟨.hbm, 61, rfl⟩
abbrev main_call0_call0_call0_v25 : Ref sig .tc := ⟨.hbm, 62, rfl⟩
abbrev main_call0_call0_call0_v26 : Ref sig .tc := ⟨.hbm, 63, rfl⟩
abbrev main_call0_call0_call0_v27 : Ref sig .tc := ⟨.hbm, 64, rfl⟩
abbrev main_call0_call0_call0_c_6 : Ref sig .tc := ⟨.hbm, 65, rfl⟩
abbrev main_call0_call0_call0_v28 : Ref sig .tc := ⟨.hbm, 66, rfl⟩
abbrev main_call0_call0_call0_v29 : Ref sig .tc := ⟨.hbm, 67, rfl⟩
abbrev main_call0_call0_call0_c_7 : Ref sig .tc := ⟨.hbm, 68, rfl⟩
abbrev main_call0_call0_call0_v30 : Ref sig .tc := ⟨.hbm, 69, rfl⟩
abbrev main_call0_call0_call0_v31 : Ref sig .tc := ⟨.hbm, 70, rfl⟩
abbrev main_call0_call0_call0_v32 : Ref sig .tc := ⟨.hbm, 71, rfl⟩
abbrev main_call0_call0_call0_v33 : Ref sig .tc := ⟨.hbm, 72, rfl⟩
abbrev main_call0_call0_call0_v34 : Ref sig .tc := ⟨.hbm, 73, rfl⟩
abbrev main_call0_call0_call0_v35 : Ref sig .tc := ⟨.hbm, 74, rfl⟩
abbrev main_call0_call0_call0_v36 : Ref sig .tc := ⟨.hbm, 75, rfl⟩
abbrev main_call0_call0_call0_v37 : Ref sig .tc := ⟨.hbm, 76, rfl⟩
abbrev main_call0_call0_call0_c_8 : Ref sig .tc := ⟨.hbm, 77, rfl⟩
abbrev main_call0_call0_call0_v38 : Ref sig .tc := ⟨.hbm, 78, rfl⟩
abbrev main_call0_call0_call0_v39 : Ref sig .tc := ⟨.hbm, 79, rfl⟩
abbrev main_call0_call0_call0_v40 : Ref sig .tc := ⟨.hbm, 80, rfl⟩
abbrev main_call0_call0_call0_c_9 : Ref sig .tc := ⟨.hbm, 81, rfl⟩
abbrev main_call0_call0_call0_v41 : Ref sig .tc := ⟨.hbm, 82, rfl⟩
abbrev main_call0_call0_call0_v42 : Ref sig .tc := ⟨.hbm, 83, rfl⟩
abbrev main_call0_call0_call0_c_10 : Ref sig .tc := ⟨.hbm, 84, rfl⟩
abbrev main_call0_call0_call0_v43 : Ref sig .tc := ⟨.hbm, 85, rfl⟩
abbrev main_call0_call0_call0_v44 : Ref sig .tc := ⟨.hbm, 86, rfl⟩
abbrev main_call0_call0_call0_v45 : Ref sig .tc := ⟨.hbm, 87, rfl⟩
abbrev main_call0_call0_call0_v46 : Ref sig .tc := ⟨.hbm, 88, rfl⟩
abbrev main_call0_call0_call0_v47 : Ref sig .tc := ⟨.hbm, 89, rfl⟩
abbrev main_call0_call0_call0_c_11 : Ref sig .tc := ⟨.hbm, 90, rfl⟩
abbrev main_call0_call0_call0_v48 : Ref sig .tc := ⟨.hbm, 91, rfl⟩
abbrev main_call0_call0_call0_v49 : Ref sig .tc := ⟨.hbm, 92, rfl⟩
abbrev main_call0_call0_call0_c_12 : Ref sig .tc := ⟨.hbm, 93, rfl⟩
abbrev main_call0_call0_call0_v50 : Ref sig .tc := ⟨.hbm, 94, rfl⟩
abbrev main_call0_call0_call0_v51 : Ref sig .tc := ⟨.hbm, 95, rfl⟩
abbrev main_call0_call0_call0_v52 : Ref sig .tc := ⟨.hbm, 96, rfl⟩
abbrev main_call0_call0_call0_v53 : Ref sig .tc := ⟨.hbm, 97, rfl⟩
abbrev main_call0_call0_call0_v54 : Ref sig .tc := ⟨.hbm, 98, rfl⟩
abbrev main_call0_call0_call0_c_13 : Ref sig .tc := ⟨.hbm, 99, rfl⟩
abbrev main_call0_call0_call0_v55 : Ref sig .tc := ⟨.hbm, 100, rfl⟩
abbrev main_call0_call0_call0_v56 : Ref sig .tc := ⟨.hbm, 101, rfl⟩
abbrev main_call0_call0_call0_c_14 : Ref sig .tc := ⟨.hbm, 102, rfl⟩
abbrev main_call0_call0_call0_v57 : Ref sig .tc := ⟨.hbm, 103, rfl⟩
abbrev main_call0_call0_call0_v58 : Ref sig .tc := ⟨.hbm, 104, rfl⟩
abbrev main_call0_call0_call0_v59 : Ref sig .tc := ⟨.hbm, 105, rfl⟩
abbrev main_call0_call0_call0_v60 : Ref sig .tc := ⟨.hbm, 106, rfl⟩
abbrev main_call0_call0_call0_v61 : Ref sig .tc := ⟨.hbm, 107, rfl⟩
abbrev main_call0_call0_call0_c_15 : Ref sig .tc := ⟨.hbm, 108, rfl⟩
abbrev main_call0_call0_call0_v62 : Ref sig .tc := ⟨.hbm, 109, rfl⟩
abbrev main_call0_call0_call0_v63 : Ref sig .tc := ⟨.hbm, 110, rfl⟩
abbrev main_call0_call0_call0_c_16 : Ref sig .tc := ⟨.hbm, 111, rfl⟩
abbrev main_call0_call0_call0_v64 : Ref sig .tc := ⟨.hbm, 112, rfl⟩
abbrev main_call0_call0_call0_v65 : Ref sig .tc := ⟨.hbm, 113, rfl⟩
abbrev main_call0_call0_call0_v66 : Ref sig .tc := ⟨.hbm, 114, rfl⟩
abbrev main_call0_call0_call0_v67 : Ref sig .tc := ⟨.hbm, 115, rfl⟩
abbrev main_call0_call0_call0_v68 : Ref sig .tc := ⟨.hbm, 116, rfl⟩
abbrev main_call0_call0_call0_v69 : Ref sig .tc := ⟨.hbm, 117, rfl⟩
abbrev main_call0_call0_call0_v70 : Ref sig .tc := ⟨.hbm, 118, rfl⟩
abbrev main_call0_call0_call0_v71 : Ref sig .tc := ⟨.hbm, 119, rfl⟩
abbrev main_call0_call0_call0_c_17 : Ref sig .tc := ⟨.hbm, 120, rfl⟩
abbrev main_call0_call0_call0_v72 : Ref sig .tc := ⟨.hbm, 121, rfl⟩
abbrev main_call0_call0_call0_v73 : Ref sig .tc := ⟨.hbm, 122, rfl⟩
abbrev main_call0_call0_call0_v74 : Ref sig .tc := ⟨.hbm, 123, rfl⟩
abbrev main_call0_call0_call0_c_18 : Ref sig .tc := ⟨.hbm, 124, rfl⟩
abbrev main_call0_call0_call0_v75 : Ref sig .tc := ⟨.hbm, 125, rfl⟩
abbrev main_call0_call0_call0_v76 : Ref sig .tc := ⟨.hbm, 126, rfl⟩
abbrev main_call0_call0_call0_c_19 : Ref sig .tc := ⟨.hbm, 127, rfl⟩
abbrev main_call0_call0_call0_v77 : Ref sig .tc := ⟨.hbm, 128, rfl⟩
abbrev main_call0_call0_call0_v78 : Ref sig .tc := ⟨.hbm, 129, rfl⟩
abbrev main_call0_call0_call0_v79 : Ref sig .tc := ⟨.hbm, 130, rfl⟩
abbrev main_call0_call0_call0_v80 : Ref sig .tc := ⟨.hbm, 131, rfl⟩
abbrev main_call0_call0_call0_v81 : Ref sig .tc := ⟨.hbm, 132, rfl⟩
abbrev main_call0_call0_call0_c_20 : Ref sig .tc := ⟨.hbm, 133, rfl⟩
abbrev main_call0_call0_call0_v82 : Ref sig .tc := ⟨.hbm, 134, rfl⟩
abbrev main_call0_call0_call0_v83 : Ref sig .tc := ⟨.hbm, 135, rfl⟩
abbrev main_call0_call0_call0_c_21 : Ref sig .tc := ⟨.hbm, 136, rfl⟩
abbrev main_call0_call0_call0_v84 : Ref sig .tc := ⟨.hbm, 137, rfl⟩
abbrev main_call0_call0_call0_v85 : Ref sig .tc := ⟨.hbm, 138, rfl⟩
abbrev main_call0_call0_call0_v86 : Ref sig .tc := ⟨.hbm, 139, rfl⟩
abbrev main_call0_call0_call0_v87 : Ref sig .tc := ⟨.hbm, 140, rfl⟩
abbrev main_call0_call0_call0_v88 : Ref sig .tc := ⟨.hbm, 141, rfl⟩
abbrev main_call0_call0_call0_c_22 : Ref sig .tc := ⟨.hbm, 142, rfl⟩
abbrev main_call0_call0_call0_v89 : Ref sig .tc := ⟨.hbm, 143, rfl⟩
abbrev main_call0_call0_call0_v90 : Ref sig .tc := ⟨.hbm, 144, rfl⟩
abbrev main_call0_call0_call0_c_23 : Ref sig .tc := ⟨.hbm, 145, rfl⟩
abbrev main_call0_call0_call0_v91 : Ref sig .tc := ⟨.hbm, 146, rfl⟩
abbrev main_call0_call0_call0_v92 : Ref sig .tc := ⟨.hbm, 147, rfl⟩
abbrev main_call0_call0_call0_v93 : Ref sig .tc := ⟨.hbm, 148, rfl⟩
abbrev main_call0_call0_call0_v94 : Ref sig .tc := ⟨.hbm, 149, rfl⟩
abbrev main_call0_call0_call0_v95 : Ref sig .tc := ⟨.hbm, 150, rfl⟩
abbrev main_call0_call0_call0_c_24 : Ref sig .tc := ⟨.hbm, 151, rfl⟩
abbrev main_call0_call0_call0_v96 : Ref sig .tc := ⟨.hbm, 152, rfl⟩
abbrev main_call0_call0_call0_v97 : Ref sig .tc := ⟨.hbm, 153, rfl⟩
abbrev main_call0_call0_call0_c_25 : Ref sig .tc := ⟨.hbm, 154, rfl⟩
abbrev main_call0_call0_call0_v98 : Ref sig .tc := ⟨.hbm, 155, rfl⟩
abbrev main_call0_call0_call0_v99 : Ref sig .tc := ⟨.hbm, 156, rfl⟩
abbrev main_call0_call0_call0_v100 : Ref sig .tc := ⟨.hbm, 157, rfl⟩
abbrev main_call0_call0_call0_v101 : Ref sig .tc := ⟨.hbm, 158, rfl⟩
abbrev main_call0_call0_call0_v102 : Ref sig .tc := ⟨.hbm, 159, rfl⟩
abbrev main_call0_call0_call0_v103 : Ref sig .tc := ⟨.hbm, 160, rfl⟩
abbrev main_call0_call0_call0_v104 : Ref sig .tc := ⟨.hbm, 161, rfl⟩
abbrev main_call0_call0_call0_v105 : Ref sig .tc := ⟨.hbm, 162, rfl⟩
abbrev main_call0_call0_call0_c_26 : Ref sig .tc := ⟨.hbm, 163, rfl⟩
abbrev main_call0_call0_call0_v106 : Ref sig .tc := ⟨.hbm, 164, rfl⟩
abbrev main_call0_call0_call0_v107 : Ref sig .tc := ⟨.hbm, 165, rfl⟩
abbrev main_call0_call0_call0_v108 : Ref sig .tc := ⟨.hbm, 166, rfl⟩
abbrev main_call0_call0_call0_c_27 : Ref sig .tc := ⟨.hbm, 167, rfl⟩
abbrev main_call0_call0_call0_v109 : Ref sig .tc := ⟨.hbm, 168, rfl⟩
abbrev main_call0_call0_call0_v110 : Ref sig .tc := ⟨.hbm, 169, rfl⟩
abbrev main_call0_call0_call0_c_28 : Ref sig .tc := ⟨.hbm, 170, rfl⟩
abbrev main_call0_call0_call0_v111 : Ref sig .tc := ⟨.hbm, 171, rfl⟩
abbrev main_call0_call0_call0_v112 : Ref sig .tc := ⟨.hbm, 172, rfl⟩
abbrev main_call0_call0_call0_v113 : Ref sig .tc := ⟨.hbm, 173, rfl⟩
abbrev main_call0_call0_call0_v114 : Ref sig .tc := ⟨.hbm, 174, rfl⟩
abbrev main_call0_call0_call0_v115 : Ref sig .tc := ⟨.hbm, 175, rfl⟩
abbrev main_call0_call0_call0_c_29 : Ref sig .tc := ⟨.hbm, 176, rfl⟩
abbrev main_call0_call0_call0_v116 : Ref sig .tc := ⟨.hbm, 177, rfl⟩
abbrev main_call0_call0_call0_v117 : Ref sig .tc := ⟨.hbm, 178, rfl⟩
abbrev main_call0_call0_call0_c_30 : Ref sig .tc := ⟨.hbm, 179, rfl⟩
abbrev main_call0_call0_call0_v118 : Ref sig .tc := ⟨.hbm, 180, rfl⟩
abbrev main_call0_call0_call0_v119 : Ref sig .tc := ⟨.hbm, 181, rfl⟩
abbrev main_call0_call0_call0_v120 : Ref sig .tc := ⟨.hbm, 182, rfl⟩
abbrev main_call0_call0_call0_v121 : Ref sig .tc := ⟨.hbm, 183, rfl⟩
abbrev main_call0_call0_call0_v122 : Ref sig .tc := ⟨.hbm, 184, rfl⟩
abbrev main_call0_call0_call0_c_31 : Ref sig .tc := ⟨.hbm, 185, rfl⟩
abbrev main_call0_call0_call0_v123 : Ref sig .tc := ⟨.hbm, 186, rfl⟩
abbrev main_call0_call0_call0_v124 : Ref sig .tc := ⟨.hbm, 187, rfl⟩
abbrev main_call0_call0_call0_c_32 : Ref sig .tc := ⟨.hbm, 188, rfl⟩
abbrev main_call0_call0_call0_v125 : Ref sig .tc := ⟨.hbm, 189, rfl⟩
abbrev main_call0_call0_call0_v126 : Ref sig .tc := ⟨.hbm, 190, rfl⟩
abbrev main_call0_call0_call0_v127 : Ref sig .tc := ⟨.hbm, 191, rfl⟩
abbrev main_call0_call0_call0_v128 : Ref sig .tc := ⟨.hbm, 192, rfl⟩
abbrev main_call0_call0_call0_v129 : Ref sig .tc := ⟨.hbm, 193, rfl⟩
abbrev main_call0_call0_call0_c_33 : Ref sig .tc := ⟨.hbm, 194, rfl⟩
abbrev main_call0_call0_call0_v130 : Ref sig .tc := ⟨.hbm, 195, rfl⟩
abbrev main_call0_call0_call0_v131 : Ref sig .tc := ⟨.hbm, 196, rfl⟩
abbrev main_call0_call0_call0_c_34 : Ref sig .tc := ⟨.hbm, 197, rfl⟩
abbrev main_call0_call0_call0_v132 : Ref sig .tc := ⟨.hbm, 198, rfl⟩
abbrev main_call0_call0_call0_v133 : Ref sig .tc := ⟨.hbm, 199, rfl⟩
abbrev main_call0_call0_call0_v134 : Ref sig .tc := ⟨.hbm, 200, rfl⟩
abbrev main_call0_call0_call0_v135 : Ref sig .tc := ⟨.hbm, 201, rfl⟩
abbrev main_call0_call0_call0_v136 : Ref sig .tc := ⟨.hbm, 202, rfl⟩
abbrev main_call0_call0_call0_v137 : Ref sig .tc := ⟨.hbm, 203, rfl⟩
abbrev main_call0_call0_call0_v138 : Ref sig .tc := ⟨.hbm, 204, rfl⟩
abbrev main_call0_call0_call0_v139 : Ref sig .tc := ⟨.hbm, 205, rfl⟩
abbrev main_call0_call0_call0_c_35 : Ref sig .tc := ⟨.hbm, 206, rfl⟩
abbrev main_call0_call0_call0_v140 : Ref sig .tc := ⟨.hbm, 207, rfl⟩
abbrev main_call0_call0_call0_v141 : Ref sig .tc := ⟨.hbm, 208, rfl⟩
abbrev main_call0_call0_call0_v142 : Ref sig .tc := ⟨.hbm, 209, rfl⟩
abbrev main_call0_call0_call0_c_36 : Ref sig .tc := ⟨.hbm, 210, rfl⟩
abbrev main_call0_call0_call0_v143 : Ref sig .tc := ⟨.hbm, 211, rfl⟩
abbrev main_call0_call0_call0_v144 : Ref sig .tc := ⟨.hbm, 212, rfl⟩
abbrev main_call0_call0_call0_c_37 : Ref sig .tc := ⟨.hbm, 213, rfl⟩
abbrev main_call0_call0_call0_v145 : Ref sig .tc := ⟨.hbm, 214, rfl⟩
abbrev main_call0_call0_call0_v146 : Ref sig .tc := ⟨.hbm, 215, rfl⟩
abbrev main_call0_call0_call0_v147 : Ref sig .tc := ⟨.hbm, 216, rfl⟩
abbrev main_call0_call0_call0_v148 : Ref sig .tc := ⟨.hbm, 217, rfl⟩
abbrev main_call0_call0_call0_v149 : Ref sig .tc := ⟨.hbm, 218, rfl⟩
abbrev main_call0_call0_call0_c_38 : Ref sig .tc := ⟨.hbm, 219, rfl⟩
abbrev main_call0_call0_call0_v150 : Ref sig .tc := ⟨.hbm, 220, rfl⟩
abbrev main_call0_call0_call0_v151 : Ref sig .tc := ⟨.hbm, 221, rfl⟩
abbrev main_call0_call0_call0_c_39 : Ref sig .tc := ⟨.hbm, 222, rfl⟩
abbrev main_call0_call0_call0_v152 : Ref sig .tc := ⟨.hbm, 223, rfl⟩
abbrev main_call0_call0_call0_v153 : Ref sig .tc := ⟨.hbm, 224, rfl⟩
abbrev main_call0_call0_call0_v154 : Ref sig .tc := ⟨.hbm, 225, rfl⟩
abbrev main_call0_call0_call0_v155 : Ref sig .tc := ⟨.hbm, 226, rfl⟩
abbrev main_call0_call0_call0_v156 : Ref sig .tc := ⟨.hbm, 227, rfl⟩
abbrev main_call0_call0_call0_c_40 : Ref sig .tc := ⟨.hbm, 228, rfl⟩
abbrev main_call0_call0_call0_v157 : Ref sig .tc := ⟨.hbm, 229, rfl⟩
abbrev main_call0_call0_call0_v158 : Ref sig .tc := ⟨.hbm, 230, rfl⟩
abbrev main_call0_call0_call0_c_41 : Ref sig .tc := ⟨.hbm, 231, rfl⟩
abbrev main_call0_call0_call0_v159 : Ref sig .tc := ⟨.hbm, 232, rfl⟩
abbrev main_call0_call0_call0_v160 : Ref sig .tc := ⟨.hbm, 233, rfl⟩
abbrev main_call0_call0_call0_v161 : Ref sig .tc := ⟨.hbm, 234, rfl⟩
abbrev main_call0_call0_call0_v162 : Ref sig .tc := ⟨.hbm, 235, rfl⟩
abbrev main_call0_call0_call0_v163 : Ref sig .tc := ⟨.hbm, 236, rfl⟩
abbrev main_call0_call0_call0_c_42 : Ref sig .tc := ⟨.hbm, 237, rfl⟩
abbrev main_call0_call0_call0_v164 : Ref sig .tc := ⟨.hbm, 238, rfl⟩
abbrev main_call0_call0_call0_v165 : Ref sig .tc := ⟨.hbm, 239, rfl⟩
abbrev main_call0_call0_call0_c_43 : Ref sig .tc := ⟨.hbm, 240, rfl⟩
abbrev main_call0_call0_call0_v166 : Ref sig .tc := ⟨.hbm, 241, rfl⟩
abbrev main_call0_call0_call0_v167 : Ref sig .tc := ⟨.hbm, 242, rfl⟩
abbrev main_call0_call0_call0_v168 : Ref sig .tc := ⟨.hbm, 243, rfl⟩
abbrev main_call0_call0_call0_v169 : Ref sig .tc := ⟨.hbm, 244, rfl⟩
abbrev main_call0_call0_call0_v170 : Ref sig .tc := ⟨.hbm, 245, rfl⟩
abbrev main_call0_call0_v11_0 : Ref sig .tc := ⟨.hbm, 246, rfl⟩
abbrev main_call0_call0_call0_v172 : Ref sig .tc := ⟨.hbm, 247, rfl⟩
abbrev main_call0_call0_call0_v173 : Ref sig .tc := ⟨.hbm, 248, rfl⟩
abbrev main_call0_call0_call0_c_44 : Ref sig .tc := ⟨.hbm, 249, rfl⟩
abbrev main_call0_call0_call0_v174 : Ref sig .tc := ⟨.hbm, 250, rfl⟩
abbrev main_call0_call0_v11_1 : Ref sig .tc := ⟨.hbm, 251, rfl⟩
abbrev main_call0_call0_v12 : Ref sig .tc := ⟨.hbm, 252, rfl⟩
abbrev main_call0_call0_v13 : Ref sig .tc := ⟨.hbm, 253, rfl⟩
abbrev main_call0_v0 : Ref sig .tc := ⟨.hbm, 254, rfl⟩
abbrev main_call0_v1 : Ref sig .tc := ⟨.hbm, 255, rfl⟩
abbrev main_call0_v2 : Ref sig .tc := ⟨.hbm, 256, rfl⟩
abbrev main_call0_v3 : Ref sig .tc := ⟨.hbm, 257, rfl⟩
abbrev main_call0_v4 : Ref sig .tc := ⟨.hbm, 258, rfl⟩
abbrev main_call0_v5 : Ref sig .tc := ⟨.hbm, 259, rfl⟩
abbrev main_call0_v6 : Ref sig .tc := ⟨.hbm, 260, rfl⟩
abbrev main_call0_v7 : Ref sig .tc := ⟨.hbm, 261, rfl⟩
abbrev main_call0_v8 : Ref sig .tc := ⟨.hbm, 262, rfl⟩
abbrev main_call0_v9 : Ref sig .tc := ⟨.hbm, 263, rfl⟩
abbrev main_call0_c : Ref sig .tc := ⟨.hbm, 264, rfl⟩
abbrev main_call0_v10 : Ref sig .tc := ⟨.hbm, 265, rfl⟩
abbrev main_call0_v11 : Ref sig .tc := ⟨.hbm, 266, rfl⟩
abbrev main_call0_c_0 : Ref sig .tc := ⟨.hbm, 267, rfl⟩
abbrev main_call0_v12 : Ref sig .tc := ⟨.hbm, 268, rfl⟩
abbrev main_call0_v13 : Ref sig .tc := ⟨.hbm, 269, rfl⟩
abbrev main_call0_v14 : Ref sig .tc := ⟨.hbm, 270, rfl⟩
abbrev main_call0_v15 : Ref sig .tc := ⟨.hbm, 271, rfl⟩
abbrev main_call0_call1_v0 : Ref sig .tc := ⟨.hbm, 272, rfl⟩
abbrev main_call0_call1_c : Ref sig .tc := ⟨.hbm, 273, rfl⟩
abbrev main_call0_call1_v1 : Ref sig .tc := ⟨.hbm, 274, rfl⟩
abbrev main_call0_call1_v2 : Ref sig .tc := ⟨.hbm, 275, rfl⟩
abbrev main_call0_call1_v3 : Ref sig .tc := ⟨.hbm, 276, rfl⟩
abbrev main_call0_call1_v4 : Ref sig .tc := ⟨.hbm, 277, rfl⟩
abbrev main_call0_call1_v5 : Ref sig .tc := ⟨.hbm, 278, rfl⟩
abbrev main_call0_call1_v6 : Ref sig .tc := ⟨.hbm, 279, rfl⟩
abbrev main_call0_call1_c_0 : Ref sig .tc := ⟨.hbm, 280, rfl⟩
abbrev main_call0_call1_v7 : Ref sig .tc := ⟨.hbm, 281, rfl⟩
abbrev main_call0_call1_v8 : Ref sig .tc := ⟨.hbm, 282, rfl⟩
abbrev main_call0_call1_c_1 : Ref sig .tc := ⟨.hbm, 283, rfl⟩
abbrev main_call0_call1_v9 : Ref sig .tc := ⟨.hbm, 284, rfl⟩
abbrev main_call0_call1_v10 : Ref sig .tc := ⟨.hbm, 285, rfl⟩
abbrev main_call0_call1_v11 : Ref sig .tc := ⟨.hbm, 286, rfl⟩
abbrev main_call0_call1_v12 : Ref sig .tc := ⟨.hbm, 287, rfl⟩
abbrev main_call0_call1_v13 : Ref sig .tc := ⟨.hbm, 288, rfl⟩
abbrev main_call0_call1_c_2 : Ref sig .tc := ⟨.hbm, 289, rfl⟩
abbrev main_call0_call1_v14 : Ref sig .tc := ⟨.hbm, 290, rfl⟩
abbrev main_call0_call1_v15 : Ref sig .tc := ⟨.hbm, 291, rfl⟩
abbrev main_call0_call1_c_3 : Ref sig .tc := ⟨.hbm, 292, rfl⟩
abbrev main_call0_call1_v16 : Ref sig .tc := ⟨.hbm, 293, rfl⟩
abbrev main_call0_call1_v17 : Ref sig .tc := ⟨.hbm, 294, rfl⟩
abbrev main_call0_call1_v18 : Ref sig .tc := ⟨.hbm, 295, rfl⟩
abbrev main_call0_call1_v19 : Ref sig .tc := ⟨.hbm, 296, rfl⟩
abbrev main_call0_call1_v20 : Ref sig .tc := ⟨.hbm, 297, rfl⟩
abbrev main_call0_call1_c_4 : Ref sig .tc := ⟨.hbm, 298, rfl⟩
abbrev main_call0_call1_v21 : Ref sig .tc := ⟨.hbm, 299, rfl⟩
abbrev main_call0_call1_v22 : Ref sig .tc := ⟨.hbm, 300, rfl⟩
abbrev main_call0_call1_c_5 : Ref sig .tc := ⟨.hbm, 301, rfl⟩
abbrev main_call0_call1_v23 : Ref sig .tc := ⟨.hbm, 302, rfl⟩
abbrev main_call0_call1_v24 : Ref sig .tc := ⟨.hbm, 303, rfl⟩
abbrev main_call0_call1_v25 : Ref sig .tc := ⟨.hbm, 304, rfl⟩
abbrev main_call0_call1_v26 : Ref sig .tc := ⟨.hbm, 305, rfl⟩
abbrev main_call0_call1_v27 : Ref sig .tc := ⟨.hbm, 306, rfl⟩
abbrev main_call0_call1_c_6 : Ref sig .tc := ⟨.hbm, 307, rfl⟩
abbrev main_call0_call1_v28 : Ref sig .tc := ⟨.hbm, 308, rfl⟩
abbrev main_call0_call1_v29 : Ref sig .tc := ⟨.hbm, 309, rfl⟩
abbrev main_call0_call1_c_7 : Ref sig .tc := ⟨.hbm, 310, rfl⟩
abbrev main_call0_call1_v30 : Ref sig .tc := ⟨.hbm, 311, rfl⟩
abbrev main_call0_call1_v31 : Ref sig .tc := ⟨.hbm, 312, rfl⟩
abbrev main_call0_call1_v32 : Ref sig .tc := ⟨.hbm, 313, rfl⟩
abbrev main_call0_call1_v33 : Ref sig .tc := ⟨.hbm, 314, rfl⟩
abbrev main_call0_call1_v34 : Ref sig .tc := ⟨.hbm, 315, rfl⟩
abbrev main_call0_call1_v35 : Ref sig .tc := ⟨.hbm, 316, rfl⟩
abbrev main_call0_call1_v36 : Ref sig .tc := ⟨.hbm, 317, rfl⟩
abbrev main_call0_call1_v37 : Ref sig .tc := ⟨.hbm, 318, rfl⟩
abbrev main_call0_call1_c_8 : Ref sig .tc := ⟨.hbm, 319, rfl⟩
abbrev main_call0_call1_v38 : Ref sig .tc := ⟨.hbm, 320, rfl⟩
abbrev main_call0_call1_v39 : Ref sig .tc := ⟨.hbm, 321, rfl⟩
abbrev main_call0_call1_v40 : Ref sig .tc := ⟨.hbm, 322, rfl⟩
abbrev main_call0_call1_c_9 : Ref sig .tc := ⟨.hbm, 323, rfl⟩
abbrev main_call0_call1_v41 : Ref sig .tc := ⟨.hbm, 324, rfl⟩
abbrev main_call0_call1_v42 : Ref sig .tc := ⟨.hbm, 325, rfl⟩
abbrev main_call0_call1_c_10 : Ref sig .tc := ⟨.hbm, 326, rfl⟩
abbrev main_call0_call1_v43 : Ref sig .tc := ⟨.hbm, 327, rfl⟩
abbrev main_call0_call1_v44 : Ref sig .tc := ⟨.hbm, 328, rfl⟩
abbrev main_call0_call1_v45 : Ref sig .tc := ⟨.hbm, 329, rfl⟩
abbrev main_call0_call1_v46 : Ref sig .tc := ⟨.hbm, 330, rfl⟩
abbrev main_call0_call1_v47 : Ref sig .tc := ⟨.hbm, 331, rfl⟩
abbrev main_call0_call1_c_11 : Ref sig .tc := ⟨.hbm, 332, rfl⟩
abbrev main_call0_call1_v48 : Ref sig .tc := ⟨.hbm, 333, rfl⟩
abbrev main_call0_call1_v49 : Ref sig .tc := ⟨.hbm, 334, rfl⟩
abbrev main_call0_call1_c_12 : Ref sig .tc := ⟨.hbm, 335, rfl⟩
abbrev main_call0_call1_v50 : Ref sig .tc := ⟨.hbm, 336, rfl⟩
abbrev main_call0_call1_v51 : Ref sig .tc := ⟨.hbm, 337, rfl⟩
abbrev main_call0_call1_v52 : Ref sig .tc := ⟨.hbm, 338, rfl⟩
abbrev main_call0_call1_v53 : Ref sig .tc := ⟨.hbm, 339, rfl⟩
abbrev main_call0_call1_v54 : Ref sig .tc := ⟨.hbm, 340, rfl⟩
abbrev main_call0_call1_c_13 : Ref sig .tc := ⟨.hbm, 341, rfl⟩
abbrev main_call0_call1_v55 : Ref sig .tc := ⟨.hbm, 342, rfl⟩
abbrev main_call0_call1_v56 : Ref sig .tc := ⟨.hbm, 343, rfl⟩
abbrev main_call0_call1_c_14 : Ref sig .tc := ⟨.hbm, 344, rfl⟩
abbrev main_call0_call1_v57 : Ref sig .tc := ⟨.hbm, 345, rfl⟩
abbrev main_call0_call1_v58 : Ref sig .tc := ⟨.hbm, 346, rfl⟩
abbrev main_call0_call1_v59 : Ref sig .tc := ⟨.hbm, 347, rfl⟩
abbrev main_call0_call1_v60 : Ref sig .tc := ⟨.hbm, 348, rfl⟩
abbrev main_call0_call1_v61 : Ref sig .tc := ⟨.hbm, 349, rfl⟩
abbrev main_call0_call1_c_15 : Ref sig .tc := ⟨.hbm, 350, rfl⟩
abbrev main_call0_call1_v62 : Ref sig .tc := ⟨.hbm, 351, rfl⟩
abbrev main_call0_call1_v63 : Ref sig .tc := ⟨.hbm, 352, rfl⟩
abbrev main_call0_call1_c_16 : Ref sig .tc := ⟨.hbm, 353, rfl⟩
abbrev main_call0_call1_v64 : Ref sig .tc := ⟨.hbm, 354, rfl⟩
abbrev main_call0_call1_v65 : Ref sig .tc := ⟨.hbm, 355, rfl⟩
abbrev main_call0_call1_v66 : Ref sig .tc := ⟨.hbm, 356, rfl⟩
abbrev main_call0_call1_v67 : Ref sig .tc := ⟨.hbm, 357, rfl⟩
abbrev main_call0_call1_v68 : Ref sig .tc := ⟨.hbm, 358, rfl⟩
abbrev main_call0_call1_v69 : Ref sig .tc := ⟨.hbm, 359, rfl⟩
abbrev main_call0_call1_v70 : Ref sig .tc := ⟨.hbm, 360, rfl⟩
abbrev main_call0_call1_v71 : Ref sig .tc := ⟨.hbm, 361, rfl⟩
abbrev main_call0_call1_c_17 : Ref sig .tc := ⟨.hbm, 362, rfl⟩
abbrev main_call0_call1_v72 : Ref sig .tc := ⟨.hbm, 363, rfl⟩
abbrev main_call0_call1_v73 : Ref sig .tc := ⟨.hbm, 364, rfl⟩
abbrev main_call0_call1_v74 : Ref sig .tc := ⟨.hbm, 365, rfl⟩
abbrev main_call0_call1_c_18 : Ref sig .tc := ⟨.hbm, 366, rfl⟩
abbrev main_call0_call1_v75 : Ref sig .tc := ⟨.hbm, 367, rfl⟩
abbrev main_call0_call1_v76 : Ref sig .tc := ⟨.hbm, 368, rfl⟩
abbrev main_call0_call1_c_19 : Ref sig .tc := ⟨.hbm, 369, rfl⟩
abbrev main_call0_call1_v77 : Ref sig .tc := ⟨.hbm, 370, rfl⟩
abbrev main_call0_call1_v78 : Ref sig .tc := ⟨.hbm, 371, rfl⟩
abbrev main_call0_call1_v79 : Ref sig .tc := ⟨.hbm, 372, rfl⟩
abbrev main_call0_call1_v80 : Ref sig .tc := ⟨.hbm, 373, rfl⟩
abbrev main_call0_call1_v81 : Ref sig .tc := ⟨.hbm, 374, rfl⟩
abbrev main_call0_call1_c_20 : Ref sig .tc := ⟨.hbm, 375, rfl⟩
abbrev main_call0_call1_v82 : Ref sig .tc := ⟨.hbm, 376, rfl⟩
abbrev main_call0_call1_v83 : Ref sig .tc := ⟨.hbm, 377, rfl⟩
abbrev main_call0_call1_c_21 : Ref sig .tc := ⟨.hbm, 378, rfl⟩
abbrev main_call0_call1_v84 : Ref sig .tc := ⟨.hbm, 379, rfl⟩
abbrev main_call0_call1_v85 : Ref sig .tc := ⟨.hbm, 380, rfl⟩
abbrev main_call0_call1_v86 : Ref sig .tc := ⟨.hbm, 381, rfl⟩
abbrev main_call0_call1_v87 : Ref sig .tc := ⟨.hbm, 382, rfl⟩
abbrev main_call0_call1_v88 : Ref sig .tc := ⟨.hbm, 383, rfl⟩
abbrev main_call0_call1_c_22 : Ref sig .tc := ⟨.hbm, 384, rfl⟩
abbrev main_call0_call1_v89 : Ref sig .tc := ⟨.hbm, 385, rfl⟩
abbrev main_call0_call1_v90 : Ref sig .tc := ⟨.hbm, 386, rfl⟩
abbrev main_call0_call1_c_23 : Ref sig .tc := ⟨.hbm, 387, rfl⟩
abbrev main_call0_call1_v91 : Ref sig .tc := ⟨.hbm, 388, rfl⟩
abbrev main_call0_call1_v92 : Ref sig .tc := ⟨.hbm, 389, rfl⟩
abbrev main_call0_call1_v93 : Ref sig .tc := ⟨.hbm, 390, rfl⟩
abbrev main_call0_call1_v94 : Ref sig .tc := ⟨.hbm, 391, rfl⟩
abbrev main_call0_call1_v95 : Ref sig .tc := ⟨.hbm, 392, rfl⟩
abbrev main_call0_call1_c_24 : Ref sig .tc := ⟨.hbm, 393, rfl⟩
abbrev main_call0_call1_v96 : Ref sig .tc := ⟨.hbm, 394, rfl⟩
abbrev main_call0_call1_v97 : Ref sig .tc := ⟨.hbm, 395, rfl⟩
abbrev main_call0_call1_c_25 : Ref sig .tc := ⟨.hbm, 396, rfl⟩
abbrev main_call0_call1_v98 : Ref sig .tc := ⟨.hbm, 397, rfl⟩
abbrev main_call0_call1_v99 : Ref sig .tc := ⟨.hbm, 398, rfl⟩
abbrev main_call0_call1_v100 : Ref sig .tc := ⟨.hbm, 399, rfl⟩
abbrev main_call0_call1_v101 : Ref sig .tc := ⟨.hbm, 400, rfl⟩
abbrev main_call0_call1_v102 : Ref sig .tc := ⟨.hbm, 401, rfl⟩
abbrev main_call0_call1_v103 : Ref sig .tc := ⟨.hbm, 402, rfl⟩
abbrev main_call0_call1_v104 : Ref sig .tc := ⟨.hbm, 403, rfl⟩
abbrev main_call0_call1_v105 : Ref sig .tc := ⟨.hbm, 404, rfl⟩
abbrev main_call0_call1_c_26 : Ref sig .tc := ⟨.hbm, 405, rfl⟩
abbrev main_call0_call1_v106 : Ref sig .tc := ⟨.hbm, 406, rfl⟩
abbrev main_call0_call1_v107 : Ref sig .tc := ⟨.hbm, 407, rfl⟩
abbrev main_call0_call1_v108 : Ref sig .tc := ⟨.hbm, 408, rfl⟩
abbrev main_call0_call1_c_27 : Ref sig .tc := ⟨.hbm, 409, rfl⟩
abbrev main_call0_call1_v109 : Ref sig .tc := ⟨.hbm, 410, rfl⟩
abbrev main_call0_call1_v110 : Ref sig .tc := ⟨.hbm, 411, rfl⟩
abbrev main_call0_call1_c_28 : Ref sig .tc := ⟨.hbm, 412, rfl⟩
abbrev main_call0_call1_v111 : Ref sig .tc := ⟨.hbm, 413, rfl⟩
abbrev main_call0_call1_v112 : Ref sig .tc := ⟨.hbm, 414, rfl⟩
abbrev main_call0_call1_v113 : Ref sig .tc := ⟨.hbm, 415, rfl⟩
abbrev main_call0_call1_v114 : Ref sig .tc := ⟨.hbm, 416, rfl⟩
abbrev main_call0_call1_v115 : Ref sig .tc := ⟨.hbm, 417, rfl⟩
abbrev main_call0_call1_c_29 : Ref sig .tc := ⟨.hbm, 418, rfl⟩
abbrev main_call0_call1_v116 : Ref sig .tc := ⟨.hbm, 419, rfl⟩
abbrev main_call0_call1_v117 : Ref sig .tc := ⟨.hbm, 420, rfl⟩
abbrev main_call0_call1_c_30 : Ref sig .tc := ⟨.hbm, 421, rfl⟩
abbrev main_call0_call1_v118 : Ref sig .tc := ⟨.hbm, 422, rfl⟩
abbrev main_call0_call1_v119 : Ref sig .tc := ⟨.hbm, 423, rfl⟩
abbrev main_call0_call1_v120 : Ref sig .tc := ⟨.hbm, 424, rfl⟩
abbrev main_call0_call1_v121 : Ref sig .tc := ⟨.hbm, 425, rfl⟩
abbrev main_call0_call1_v122 : Ref sig .tc := ⟨.hbm, 426, rfl⟩
abbrev main_call0_call1_c_31 : Ref sig .tc := ⟨.hbm, 427, rfl⟩
abbrev main_call0_call1_v123 : Ref sig .tc := ⟨.hbm, 428, rfl⟩
abbrev main_call0_call1_v124 : Ref sig .tc := ⟨.hbm, 429, rfl⟩
abbrev main_call0_call1_c_32 : Ref sig .tc := ⟨.hbm, 430, rfl⟩
abbrev main_call0_call1_v125 : Ref sig .tc := ⟨.hbm, 431, rfl⟩
abbrev main_call0_call1_v126 : Ref sig .tc := ⟨.hbm, 432, rfl⟩
abbrev main_call0_call1_v127 : Ref sig .tc := ⟨.hbm, 433, rfl⟩
abbrev main_call0_call1_v128 : Ref sig .tc := ⟨.hbm, 434, rfl⟩
abbrev main_call0_call1_v129 : Ref sig .tc := ⟨.hbm, 435, rfl⟩
abbrev main_call0_call1_c_33 : Ref sig .tc := ⟨.hbm, 436, rfl⟩
abbrev main_call0_call1_v130 : Ref sig .tc := ⟨.hbm, 437, rfl⟩
abbrev main_call0_call1_v131 : Ref sig .tc := ⟨.hbm, 438, rfl⟩
abbrev main_call0_call1_c_34 : Ref sig .tc := ⟨.hbm, 439, rfl⟩
abbrev main_call0_call1_v132 : Ref sig .tc := ⟨.hbm, 440, rfl⟩
abbrev main_call0_call1_v133 : Ref sig .tc := ⟨.hbm, 441, rfl⟩
abbrev main_call0_call1_v134 : Ref sig .tc := ⟨.hbm, 442, rfl⟩
abbrev main_call0_call1_v135 : Ref sig .tc := ⟨.hbm, 443, rfl⟩
abbrev main_call0_call1_v136 : Ref sig .tc := ⟨.hbm, 444, rfl⟩
abbrev main_call0_call1_v137 : Ref sig .tc := ⟨.hbm, 445, rfl⟩
abbrev main_call0_call1_v138 : Ref sig .tc := ⟨.hbm, 446, rfl⟩
abbrev main_call0_call1_v139 : Ref sig .tc := ⟨.hbm, 447, rfl⟩
abbrev main_call0_call1_c_35 : Ref sig .tc := ⟨.hbm, 448, rfl⟩
abbrev main_call0_call1_v140 : Ref sig .tc := ⟨.hbm, 449, rfl⟩
abbrev main_call0_call1_v141 : Ref sig .tc := ⟨.hbm, 450, rfl⟩
abbrev main_call0_call1_v142 : Ref sig .tc := ⟨.hbm, 451, rfl⟩
abbrev main_call0_call1_c_36 : Ref sig .tc := ⟨.hbm, 452, rfl⟩
abbrev main_call0_call1_v143 : Ref sig .tc := ⟨.hbm, 453, rfl⟩
abbrev main_call0_call1_v144 : Ref sig .tc := ⟨.hbm, 454, rfl⟩
abbrev main_call0_call1_c_37 : Ref sig .tc := ⟨.hbm, 455, rfl⟩
abbrev main_call0_call1_v145 : Ref sig .tc := ⟨.hbm, 456, rfl⟩
abbrev main_call0_call1_v146 : Ref sig .tc := ⟨.hbm, 457, rfl⟩
abbrev main_call0_call1_v147 : Ref sig .tc := ⟨.hbm, 458, rfl⟩
abbrev main_call0_call1_v148 : Ref sig .tc := ⟨.hbm, 459, rfl⟩
abbrev main_call0_call1_v149 : Ref sig .tc := ⟨.hbm, 460, rfl⟩
abbrev main_call0_call1_c_38 : Ref sig .tc := ⟨.hbm, 461, rfl⟩
abbrev main_call0_call1_v150 : Ref sig .tc := ⟨.hbm, 462, rfl⟩
abbrev main_call0_call1_v151 : Ref sig .tc := ⟨.hbm, 463, rfl⟩
abbrev main_call0_call1_c_39 : Ref sig .tc := ⟨.hbm, 464, rfl⟩
abbrev main_call0_call1_v152 : Ref sig .tc := ⟨.hbm, 465, rfl⟩
abbrev main_call0_call1_v153 : Ref sig .tc := ⟨.hbm, 466, rfl⟩
abbrev main_call0_call1_v154 : Ref sig .tc := ⟨.hbm, 467, rfl⟩
abbrev main_call0_call1_v155 : Ref sig .tc := ⟨.hbm, 468, rfl⟩
abbrev main_call0_call1_v156 : Ref sig .tc := ⟨.hbm, 469, rfl⟩
abbrev main_call0_call1_c_40 : Ref sig .tc := ⟨.hbm, 470, rfl⟩
abbrev main_call0_call1_v157 : Ref sig .tc := ⟨.hbm, 471, rfl⟩
abbrev main_call0_call1_v158 : Ref sig .tc := ⟨.hbm, 472, rfl⟩
abbrev main_call0_call1_c_41 : Ref sig .tc := ⟨.hbm, 473, rfl⟩
abbrev main_call0_call1_v159 : Ref sig .tc := ⟨.hbm, 474, rfl⟩
abbrev main_call0_call1_v160 : Ref sig .tc := ⟨.hbm, 475, rfl⟩
abbrev main_call0_call1_v161 : Ref sig .tc := ⟨.hbm, 476, rfl⟩
abbrev main_call0_call1_v162 : Ref sig .tc := ⟨.hbm, 477, rfl⟩
abbrev main_call0_call1_v163 : Ref sig .tc := ⟨.hbm, 478, rfl⟩
abbrev main_call0_call1_c_42 : Ref sig .tc := ⟨.hbm, 479, rfl⟩
abbrev main_call0_call1_v164 : Ref sig .tc := ⟨.hbm, 480, rfl⟩
abbrev main_call0_call1_v165 : Ref sig .tc := ⟨.hbm, 481, rfl⟩
abbrev main_call0_call1_c_43 : Ref sig .tc := ⟨.hbm, 482, rfl⟩
abbrev main_call0_call1_v166 : Ref sig .tc := ⟨.hbm, 483, rfl⟩
abbrev main_call0_call1_v167 : Ref sig .tc := ⟨.hbm, 484, rfl⟩
abbrev main_call0_call1_v168 : Ref sig .tc := ⟨.hbm, 485, rfl⟩
abbrev main_call0_call1_v169 : Ref sig .tc := ⟨.hbm, 486, rfl⟩
abbrev main_call0_call1_v170 : Ref sig .tc := ⟨.hbm, 487, rfl⟩
abbrev main_call0_v16_0 : Ref sig .tc := ⟨.hbm, 488, rfl⟩
abbrev main_call0_call1_v172 : Ref sig .tc := ⟨.hbm, 489, rfl⟩
abbrev main_call0_call1_v173 : Ref sig .tc := ⟨.hbm, 490, rfl⟩
abbrev main_call0_call1_c_44 : Ref sig .tc := ⟨.hbm, 491, rfl⟩
abbrev main_call0_call1_v174 : Ref sig .tc := ⟨.hbm, 492, rfl⟩
abbrev main_call0_v16_1 : Ref sig .tc := ⟨.hbm, 493, rfl⟩
abbrev main_call0_v17 : Ref sig .tc := ⟨.hbm, 494, rfl⟩
abbrev main_call0_v18_0 : Ref sig .tc := ⟨.hbm, 495, rfl⟩
abbrev main_v8 : Ref sig .tc := ⟨.hbm, 496, rfl⟩
abbrev main_c_2 : Ref sig .tc := ⟨.hbm, 497, rfl⟩
abbrev main_c_3 : Ref sig .tc := ⟨.hbm, 498, rfl⟩
abbrev main_v9 : Ref sig .tc := ⟨.hbm, 499, rfl⟩
abbrev main_v10 : Ref sig .tc := ⟨.hbm, 500, rfl⟩
abbrev main_v11 : Ref sig .tc := ⟨.hbm, 501, rfl⟩
abbrev main_c_4 : Ref sig .tc := ⟨.hbm, 502, rfl⟩
abbrev main_v12 : Ref sig .tc := ⟨.hbm, 503, rfl⟩
abbrev main_v13 : Ref sig .tc := ⟨.hbm, 504, rfl⟩
abbrev main_v14 : Ref sig .tc := ⟨.hbm, 505, rfl⟩
abbrev main_v15 : Ref sig .tc := ⟨.hbm, 506, rfl⟩
abbrev main_v16 : Ref sig .tc := ⟨.hbm, 507, rfl⟩
abbrev main_call1_call0_v0 : Ref sig .tc := ⟨.hbm, 508, rfl⟩
abbrev main_call1_call0_v1 : Ref sig .tc := ⟨.hbm, 509, rfl⟩
abbrev main_call1_call0_v2 : Ref sig .tc := ⟨.hbm, 510, rfl⟩
abbrev main_call1_call0_v3 : Ref sig .tc := ⟨.hbm, 511, rfl⟩
abbrev main_call1_call0_v4 : Ref sig .tc := ⟨.hbm, 512, rfl⟩
abbrev main_call1_call0_c : Ref sig .tc := ⟨.hbm, 513, rfl⟩
abbrev main_call1_call0_v5 : Ref sig .tc := ⟨.hbm, 514, rfl⟩
abbrev main_call1_call0_v6 : Ref sig .tc := ⟨.hbm, 515, rfl⟩
abbrev main_call1_call0_c_0 : Ref sig .tc := ⟨.hbm, 516, rfl⟩
abbrev main_call1_call0_v7 : Ref sig .tc := ⟨.hbm, 517, rfl⟩
abbrev main_call1_call0_v8 : Ref sig .tc := ⟨.hbm, 518, rfl⟩
abbrev main_call1_call0_v9 : Ref sig .tc := ⟨.hbm, 519, rfl⟩
abbrev main_call1_call0_v10 : Ref sig .tc := ⟨.hbm, 520, rfl⟩
abbrev main_call1_call0_call0_v0 : Ref sig .tc := ⟨.hbm, 521, rfl⟩
abbrev main_call1_call0_call0_c : Ref sig .tc := ⟨.hbm, 522, rfl⟩
abbrev main_call1_call0_call0_v1 : Ref sig .tc := ⟨.hbm, 523, rfl⟩
abbrev main_call1_call0_call0_v2 : Ref sig .tc := ⟨.hbm, 524, rfl⟩
abbrev main_call1_call0_call0_v3 : Ref sig .tc := ⟨.hbm, 525, rfl⟩
abbrev main_call1_call0_call0_v4 : Ref sig .tc := ⟨.hbm, 526, rfl⟩
abbrev main_call1_call0_call0_v5 : Ref sig .tc := ⟨.hbm, 527, rfl⟩
abbrev main_call1_call0_call0_v6 : Ref sig .tc := ⟨.hbm, 528, rfl⟩
abbrev main_call1_call0_call0_c_0 : Ref sig .tc := ⟨.hbm, 529, rfl⟩
abbrev main_call1_call0_call0_v7 : Ref sig .tc := ⟨.hbm, 530, rfl⟩
abbrev main_call1_call0_call0_v8 : Ref sig .tc := ⟨.hbm, 531, rfl⟩
abbrev main_call1_call0_call0_c_1 : Ref sig .tc := ⟨.hbm, 532, rfl⟩
abbrev main_call1_call0_call0_v9 : Ref sig .tc := ⟨.hbm, 533, rfl⟩
abbrev main_call1_call0_call0_v10 : Ref sig .tc := ⟨.hbm, 534, rfl⟩
abbrev main_call1_call0_call0_v11 : Ref sig .tc := ⟨.hbm, 535, rfl⟩
abbrev main_call1_call0_call0_v12 : Ref sig .tc := ⟨.hbm, 536, rfl⟩
abbrev main_call1_call0_call0_v13 : Ref sig .tc := ⟨.hbm, 537, rfl⟩
abbrev main_call1_call0_call0_c_2 : Ref sig .tc := ⟨.hbm, 538, rfl⟩
abbrev main_call1_call0_call0_v14 : Ref sig .tc := ⟨.hbm, 539, rfl⟩
abbrev main_call1_call0_call0_v15 : Ref sig .tc := ⟨.hbm, 540, rfl⟩
abbrev main_call1_call0_call0_c_3 : Ref sig .tc := ⟨.hbm, 541, rfl⟩
abbrev main_call1_call0_call0_v16 : Ref sig .tc := ⟨.hbm, 542, rfl⟩
abbrev main_call1_call0_call0_v17 : Ref sig .tc := ⟨.hbm, 543, rfl⟩
abbrev main_call1_call0_call0_v18 : Ref sig .tc := ⟨.hbm, 544, rfl⟩
abbrev main_call1_call0_call0_v19 : Ref sig .tc := ⟨.hbm, 545, rfl⟩
abbrev main_call1_call0_call0_v20 : Ref sig .tc := ⟨.hbm, 546, rfl⟩
abbrev main_call1_call0_call0_c_4 : Ref sig .tc := ⟨.hbm, 547, rfl⟩
abbrev main_call1_call0_call0_v21 : Ref sig .tc := ⟨.hbm, 548, rfl⟩
abbrev main_call1_call0_call0_v22 : Ref sig .tc := ⟨.hbm, 549, rfl⟩
abbrev main_call1_call0_call0_c_5 : Ref sig .tc := ⟨.hbm, 550, rfl⟩
abbrev main_call1_call0_call0_v23 : Ref sig .tc := ⟨.hbm, 551, rfl⟩
abbrev main_call1_call0_call0_v24 : Ref sig .tc := ⟨.hbm, 552, rfl⟩
abbrev main_call1_call0_call0_v25 : Ref sig .tc := ⟨.hbm, 553, rfl⟩
abbrev main_call1_call0_call0_v26 : Ref sig .tc := ⟨.hbm, 554, rfl⟩
abbrev main_call1_call0_call0_v27 : Ref sig .tc := ⟨.hbm, 555, rfl⟩
abbrev main_call1_call0_call0_c_6 : Ref sig .tc := ⟨.hbm, 556, rfl⟩
abbrev main_call1_call0_call0_v28 : Ref sig .tc := ⟨.hbm, 557, rfl⟩
abbrev main_call1_call0_call0_v29 : Ref sig .tc := ⟨.hbm, 558, rfl⟩
abbrev main_call1_call0_call0_c_7 : Ref sig .tc := ⟨.hbm, 559, rfl⟩
abbrev main_call1_call0_call0_v30 : Ref sig .tc := ⟨.hbm, 560, rfl⟩
abbrev main_call1_call0_call0_v31 : Ref sig .tc := ⟨.hbm, 561, rfl⟩
abbrev main_call1_call0_call0_v32 : Ref sig .tc := ⟨.hbm, 562, rfl⟩
abbrev main_call1_call0_call0_v33 : Ref sig .tc := ⟨.hbm, 563, rfl⟩
abbrev main_call1_call0_call0_v34 : Ref sig .tc := ⟨.hbm, 564, rfl⟩
abbrev main_call1_call0_call0_v35 : Ref sig .tc := ⟨.hbm, 565, rfl⟩
abbrev main_call1_call0_call0_v36 : Ref sig .tc := ⟨.hbm, 566, rfl⟩
abbrev main_call1_call0_call0_v37 : Ref sig .tc := ⟨.hbm, 567, rfl⟩
abbrev main_call1_call0_call0_c_8 : Ref sig .tc := ⟨.hbm, 568, rfl⟩
abbrev main_call1_call0_call0_v38 : Ref sig .tc := ⟨.hbm, 569, rfl⟩
abbrev main_call1_call0_call0_v39 : Ref sig .tc := ⟨.hbm, 570, rfl⟩
abbrev main_call1_call0_call0_v40 : Ref sig .tc := ⟨.hbm, 571, rfl⟩
abbrev main_call1_call0_call0_c_9 : Ref sig .tc := ⟨.hbm, 572, rfl⟩
abbrev main_call1_call0_call0_v41 : Ref sig .tc := ⟨.hbm, 573, rfl⟩
abbrev main_call1_call0_call0_v42 : Ref sig .tc := ⟨.hbm, 574, rfl⟩
abbrev main_call1_call0_call0_c_10 : Ref sig .tc := ⟨.hbm, 575, rfl⟩
abbrev main_call1_call0_call0_v43 : Ref sig .tc := ⟨.hbm, 576, rfl⟩
abbrev main_call1_call0_call0_v44 : Ref sig .tc := ⟨.hbm, 577, rfl⟩
abbrev main_call1_call0_call0_v45 : Ref sig .tc := ⟨.hbm, 578, rfl⟩
abbrev main_call1_call0_call0_v46 : Ref sig .tc := ⟨.hbm, 579, rfl⟩
abbrev main_call1_call0_call0_v47 : Ref sig .tc := ⟨.hbm, 580, rfl⟩
abbrev main_call1_call0_call0_c_11 : Ref sig .tc := ⟨.hbm, 581, rfl⟩
abbrev main_call1_call0_call0_v48 : Ref sig .tc := ⟨.hbm, 582, rfl⟩
abbrev main_call1_call0_call0_v49 : Ref sig .tc := ⟨.hbm, 583, rfl⟩
abbrev main_call1_call0_call0_c_12 : Ref sig .tc := ⟨.hbm, 584, rfl⟩
abbrev main_call1_call0_call0_v50 : Ref sig .tc := ⟨.hbm, 585, rfl⟩
abbrev main_call1_call0_call0_v51 : Ref sig .tc := ⟨.hbm, 586, rfl⟩
abbrev main_call1_call0_call0_v52 : Ref sig .tc := ⟨.hbm, 587, rfl⟩
abbrev main_call1_call0_call0_v53 : Ref sig .tc := ⟨.hbm, 588, rfl⟩
abbrev main_call1_call0_call0_v54 : Ref sig .tc := ⟨.hbm, 589, rfl⟩
abbrev main_call1_call0_call0_c_13 : Ref sig .tc := ⟨.hbm, 590, rfl⟩
abbrev main_call1_call0_call0_v55 : Ref sig .tc := ⟨.hbm, 591, rfl⟩
abbrev main_call1_call0_call0_v56 : Ref sig .tc := ⟨.hbm, 592, rfl⟩
abbrev main_call1_call0_call0_c_14 : Ref sig .tc := ⟨.hbm, 593, rfl⟩
abbrev main_call1_call0_call0_v57 : Ref sig .tc := ⟨.hbm, 594, rfl⟩
abbrev main_call1_call0_call0_v58 : Ref sig .tc := ⟨.hbm, 595, rfl⟩
abbrev main_call1_call0_call0_v59 : Ref sig .tc := ⟨.hbm, 596, rfl⟩
abbrev main_call1_call0_call0_v60 : Ref sig .tc := ⟨.hbm, 597, rfl⟩
abbrev main_call1_call0_call0_v61 : Ref sig .tc := ⟨.hbm, 598, rfl⟩
abbrev main_call1_call0_call0_c_15 : Ref sig .tc := ⟨.hbm, 599, rfl⟩
abbrev main_call1_call0_call0_v62 : Ref sig .tc := ⟨.hbm, 600, rfl⟩
abbrev main_call1_call0_call0_v63 : Ref sig .tc := ⟨.hbm, 601, rfl⟩
abbrev main_call1_call0_call0_c_16 : Ref sig .tc := ⟨.hbm, 602, rfl⟩
abbrev main_call1_call0_call0_v64 : Ref sig .tc := ⟨.hbm, 603, rfl⟩
abbrev main_call1_call0_call0_v65 : Ref sig .tc := ⟨.hbm, 604, rfl⟩
abbrev main_call1_call0_call0_v66 : Ref sig .tc := ⟨.hbm, 605, rfl⟩
abbrev main_call1_call0_call0_v67 : Ref sig .tc := ⟨.hbm, 606, rfl⟩
abbrev main_call1_call0_call0_v68 : Ref sig .tc := ⟨.hbm, 607, rfl⟩
abbrev main_call1_call0_call0_v69 : Ref sig .tc := ⟨.hbm, 608, rfl⟩
abbrev main_call1_call0_call0_v70 : Ref sig .tc := ⟨.hbm, 609, rfl⟩
abbrev main_call1_call0_call0_v71 : Ref sig .tc := ⟨.hbm, 610, rfl⟩
abbrev main_call1_call0_call0_c_17 : Ref sig .tc := ⟨.hbm, 611, rfl⟩
abbrev main_call1_call0_call0_v72 : Ref sig .tc := ⟨.hbm, 612, rfl⟩
abbrev main_call1_call0_call0_v73 : Ref sig .tc := ⟨.hbm, 613, rfl⟩
abbrev main_call1_call0_call0_v74 : Ref sig .tc := ⟨.hbm, 614, rfl⟩
abbrev main_call1_call0_call0_c_18 : Ref sig .tc := ⟨.hbm, 615, rfl⟩
abbrev main_call1_call0_call0_v75 : Ref sig .tc := ⟨.hbm, 616, rfl⟩
abbrev main_call1_call0_call0_v76 : Ref sig .tc := ⟨.hbm, 617, rfl⟩
abbrev main_call1_call0_call0_c_19 : Ref sig .tc := ⟨.hbm, 618, rfl⟩
abbrev main_call1_call0_call0_v77 : Ref sig .tc := ⟨.hbm, 619, rfl⟩
abbrev main_call1_call0_call0_v78 : Ref sig .tc := ⟨.hbm, 620, rfl⟩
abbrev main_call1_call0_call0_v79 : Ref sig .tc := ⟨.hbm, 621, rfl⟩
abbrev main_call1_call0_call0_v80 : Ref sig .tc := ⟨.hbm, 622, rfl⟩
abbrev main_call1_call0_call0_v81 : Ref sig .tc := ⟨.hbm, 623, rfl⟩
abbrev main_call1_call0_call0_c_20 : Ref sig .tc := ⟨.hbm, 624, rfl⟩
abbrev main_call1_call0_call0_v82 : Ref sig .tc := ⟨.hbm, 625, rfl⟩
abbrev main_call1_call0_call0_v83 : Ref sig .tc := ⟨.hbm, 626, rfl⟩
abbrev main_call1_call0_call0_c_21 : Ref sig .tc := ⟨.hbm, 627, rfl⟩
abbrev main_call1_call0_call0_v84 : Ref sig .tc := ⟨.hbm, 628, rfl⟩
abbrev main_call1_call0_call0_v85 : Ref sig .tc := ⟨.hbm, 629, rfl⟩
abbrev main_call1_call0_call0_v86 : Ref sig .tc := ⟨.hbm, 630, rfl⟩
abbrev main_call1_call0_call0_v87 : Ref sig .tc := ⟨.hbm, 631, rfl⟩
abbrev main_call1_call0_call0_v88 : Ref sig .tc := ⟨.hbm, 632, rfl⟩
abbrev main_call1_call0_call0_c_22 : Ref sig .tc := ⟨.hbm, 633, rfl⟩
abbrev main_call1_call0_call0_v89 : Ref sig .tc := ⟨.hbm, 634, rfl⟩
abbrev main_call1_call0_call0_v90 : Ref sig .tc := ⟨.hbm, 635, rfl⟩
abbrev main_call1_call0_call0_c_23 : Ref sig .tc := ⟨.hbm, 636, rfl⟩
abbrev main_call1_call0_call0_v91 : Ref sig .tc := ⟨.hbm, 637, rfl⟩
abbrev main_call1_call0_call0_v92 : Ref sig .tc := ⟨.hbm, 638, rfl⟩
abbrev main_call1_call0_call0_v93 : Ref sig .tc := ⟨.hbm, 639, rfl⟩
abbrev main_call1_call0_call0_v94 : Ref sig .tc := ⟨.hbm, 640, rfl⟩
abbrev main_call1_call0_call0_v95 : Ref sig .tc := ⟨.hbm, 641, rfl⟩
abbrev main_call1_call0_call0_c_24 : Ref sig .tc := ⟨.hbm, 642, rfl⟩
abbrev main_call1_call0_call0_v96 : Ref sig .tc := ⟨.hbm, 643, rfl⟩
abbrev main_call1_call0_call0_v97 : Ref sig .tc := ⟨.hbm, 644, rfl⟩
abbrev main_call1_call0_call0_c_25 : Ref sig .tc := ⟨.hbm, 645, rfl⟩
abbrev main_call1_call0_call0_v98 : Ref sig .tc := ⟨.hbm, 646, rfl⟩
abbrev main_call1_call0_call0_v99 : Ref sig .tc := ⟨.hbm, 647, rfl⟩
abbrev main_call1_call0_call0_v100 : Ref sig .tc := ⟨.hbm, 648, rfl⟩
abbrev main_call1_call0_call0_v101 : Ref sig .tc := ⟨.hbm, 649, rfl⟩
abbrev main_call1_call0_call0_v102 : Ref sig .tc := ⟨.hbm, 650, rfl⟩
abbrev main_call1_call0_call0_v103 : Ref sig .tc := ⟨.hbm, 651, rfl⟩
abbrev main_call1_call0_call0_v104 : Ref sig .tc := ⟨.hbm, 652, rfl⟩
abbrev main_call1_call0_call0_v105 : Ref sig .tc := ⟨.hbm, 653, rfl⟩
abbrev main_call1_call0_call0_c_26 : Ref sig .tc := ⟨.hbm, 654, rfl⟩
abbrev main_call1_call0_call0_v106 : Ref sig .tc := ⟨.hbm, 655, rfl⟩
abbrev main_call1_call0_call0_v107 : Ref sig .tc := ⟨.hbm, 656, rfl⟩
abbrev main_call1_call0_call0_v108 : Ref sig .tc := ⟨.hbm, 657, rfl⟩
abbrev main_call1_call0_call0_c_27 : Ref sig .tc := ⟨.hbm, 658, rfl⟩
abbrev main_call1_call0_call0_v109 : Ref sig .tc := ⟨.hbm, 659, rfl⟩
abbrev main_call1_call0_call0_v110 : Ref sig .tc := ⟨.hbm, 660, rfl⟩
abbrev main_call1_call0_call0_c_28 : Ref sig .tc := ⟨.hbm, 661, rfl⟩
abbrev main_call1_call0_call0_v111 : Ref sig .tc := ⟨.hbm, 662, rfl⟩
abbrev main_call1_call0_call0_v112 : Ref sig .tc := ⟨.hbm, 663, rfl⟩
abbrev main_call1_call0_call0_v113 : Ref sig .tc := ⟨.hbm, 664, rfl⟩
abbrev main_call1_call0_call0_v114 : Ref sig .tc := ⟨.hbm, 665, rfl⟩
abbrev main_call1_call0_call0_v115 : Ref sig .tc := ⟨.hbm, 666, rfl⟩
abbrev main_call1_call0_call0_c_29 : Ref sig .tc := ⟨.hbm, 667, rfl⟩
abbrev main_call1_call0_call0_v116 : Ref sig .tc := ⟨.hbm, 668, rfl⟩
abbrev main_call1_call0_call0_v117 : Ref sig .tc := ⟨.hbm, 669, rfl⟩
abbrev main_call1_call0_call0_c_30 : Ref sig .tc := ⟨.hbm, 670, rfl⟩
abbrev main_call1_call0_call0_v118 : Ref sig .tc := ⟨.hbm, 671, rfl⟩
abbrev main_call1_call0_call0_v119 : Ref sig .tc := ⟨.hbm, 672, rfl⟩
abbrev main_call1_call0_call0_v120 : Ref sig .tc := ⟨.hbm, 673, rfl⟩
abbrev main_call1_call0_call0_v121 : Ref sig .tc := ⟨.hbm, 674, rfl⟩
abbrev main_call1_call0_call0_v122 : Ref sig .tc := ⟨.hbm, 675, rfl⟩
abbrev main_call1_call0_call0_c_31 : Ref sig .tc := ⟨.hbm, 676, rfl⟩
abbrev main_call1_call0_call0_v123 : Ref sig .tc := ⟨.hbm, 677, rfl⟩
abbrev main_call1_call0_call0_v124 : Ref sig .tc := ⟨.hbm, 678, rfl⟩
abbrev main_call1_call0_call0_c_32 : Ref sig .tc := ⟨.hbm, 679, rfl⟩
abbrev main_call1_call0_call0_v125 : Ref sig .tc := ⟨.hbm, 680, rfl⟩
abbrev main_call1_call0_call0_v126 : Ref sig .tc := ⟨.hbm, 681, rfl⟩
abbrev main_call1_call0_call0_v127 : Ref sig .tc := ⟨.hbm, 682, rfl⟩
abbrev main_call1_call0_call0_v128 : Ref sig .tc := ⟨.hbm, 683, rfl⟩
abbrev main_call1_call0_call0_v129 : Ref sig .tc := ⟨.hbm, 684, rfl⟩
abbrev main_call1_call0_call0_c_33 : Ref sig .tc := ⟨.hbm, 685, rfl⟩
abbrev main_call1_call0_call0_v130 : Ref sig .tc := ⟨.hbm, 686, rfl⟩
abbrev main_call1_call0_call0_v131 : Ref sig .tc := ⟨.hbm, 687, rfl⟩
abbrev main_call1_call0_call0_c_34 : Ref sig .tc := ⟨.hbm, 688, rfl⟩
abbrev main_call1_call0_call0_v132 : Ref sig .tc := ⟨.hbm, 689, rfl⟩
abbrev main_call1_call0_call0_v133 : Ref sig .tc := ⟨.hbm, 690, rfl⟩
abbrev main_call1_call0_call0_v134 : Ref sig .tc := ⟨.hbm, 691, rfl⟩
abbrev main_call1_call0_call0_v135 : Ref sig .tc := ⟨.hbm, 692, rfl⟩
abbrev main_call1_call0_call0_v136 : Ref sig .tc := ⟨.hbm, 693, rfl⟩
abbrev main_call1_call0_call0_v137 : Ref sig .tc := ⟨.hbm, 694, rfl⟩
abbrev main_call1_call0_call0_v138 : Ref sig .tc := ⟨.hbm, 695, rfl⟩
abbrev main_call1_call0_call0_v139 : Ref sig .tc := ⟨.hbm, 696, rfl⟩
abbrev main_call1_call0_call0_c_35 : Ref sig .tc := ⟨.hbm, 697, rfl⟩
abbrev main_call1_call0_call0_v140 : Ref sig .tc := ⟨.hbm, 698, rfl⟩
abbrev main_call1_call0_call0_v141 : Ref sig .tc := ⟨.hbm, 699, rfl⟩
abbrev main_call1_call0_call0_v142 : Ref sig .tc := ⟨.hbm, 700, rfl⟩
abbrev main_call1_call0_call0_c_36 : Ref sig .tc := ⟨.hbm, 701, rfl⟩
abbrev main_call1_call0_call0_v143 : Ref sig .tc := ⟨.hbm, 702, rfl⟩
abbrev main_call1_call0_call0_v144 : Ref sig .tc := ⟨.hbm, 703, rfl⟩
abbrev main_call1_call0_call0_c_37 : Ref sig .tc := ⟨.hbm, 704, rfl⟩
abbrev main_call1_call0_call0_v145 : Ref sig .tc := ⟨.hbm, 705, rfl⟩
abbrev main_call1_call0_call0_v146 : Ref sig .tc := ⟨.hbm, 706, rfl⟩
abbrev main_call1_call0_call0_v147 : Ref sig .tc := ⟨.hbm, 707, rfl⟩
abbrev main_call1_call0_call0_v148 : Ref sig .tc := ⟨.hbm, 708, rfl⟩
abbrev main_call1_call0_call0_v149 : Ref sig .tc := ⟨.hbm, 709, rfl⟩
abbrev main_call1_call0_call0_c_38 : Ref sig .tc := ⟨.hbm, 710, rfl⟩
abbrev main_call1_call0_call0_v150 : Ref sig .tc := ⟨.hbm, 711, rfl⟩
abbrev main_call1_call0_call0_v151 : Ref sig .tc := ⟨.hbm, 712, rfl⟩
abbrev main_call1_call0_call0_c_39 : Ref sig .tc := ⟨.hbm, 713, rfl⟩
abbrev main_call1_call0_call0_v152 : Ref sig .tc := ⟨.hbm, 714, rfl⟩
abbrev main_call1_call0_call0_v153 : Ref sig .tc := ⟨.hbm, 715, rfl⟩
abbrev main_call1_call0_call0_v154 : Ref sig .tc := ⟨.hbm, 716, rfl⟩
abbrev main_call1_call0_call0_v155 : Ref sig .tc := ⟨.hbm, 717, rfl⟩
abbrev main_call1_call0_call0_v156 : Ref sig .tc := ⟨.hbm, 718, rfl⟩
abbrev main_call1_call0_call0_c_40 : Ref sig .tc := ⟨.hbm, 719, rfl⟩
abbrev main_call1_call0_call0_v157 : Ref sig .tc := ⟨.hbm, 720, rfl⟩
abbrev main_call1_call0_call0_v158 : Ref sig .tc := ⟨.hbm, 721, rfl⟩
abbrev main_call1_call0_call0_c_41 : Ref sig .tc := ⟨.hbm, 722, rfl⟩
abbrev main_call1_call0_call0_v159 : Ref sig .tc := ⟨.hbm, 723, rfl⟩
abbrev main_call1_call0_call0_v160 : Ref sig .tc := ⟨.hbm, 724, rfl⟩
abbrev main_call1_call0_call0_v161 : Ref sig .tc := ⟨.hbm, 725, rfl⟩
abbrev main_call1_call0_call0_v162 : Ref sig .tc := ⟨.hbm, 726, rfl⟩
abbrev main_call1_call0_call0_v163 : Ref sig .tc := ⟨.hbm, 727, rfl⟩
abbrev main_call1_call0_call0_c_42 : Ref sig .tc := ⟨.hbm, 728, rfl⟩
abbrev main_call1_call0_call0_v164 : Ref sig .tc := ⟨.hbm, 729, rfl⟩
abbrev main_call1_call0_call0_v165 : Ref sig .tc := ⟨.hbm, 730, rfl⟩
abbrev main_call1_call0_call0_c_43 : Ref sig .tc := ⟨.hbm, 731, rfl⟩
abbrev main_call1_call0_call0_v166 : Ref sig .tc := ⟨.hbm, 732, rfl⟩
abbrev main_call1_call0_call0_v167 : Ref sig .tc := ⟨.hbm, 733, rfl⟩
abbrev main_call1_call0_call0_v168 : Ref sig .tc := ⟨.hbm, 734, rfl⟩
abbrev main_call1_call0_call0_v169 : Ref sig .tc := ⟨.hbm, 735, rfl⟩
abbrev main_call1_call0_call0_v170 : Ref sig .tc := ⟨.hbm, 736, rfl⟩
abbrev main_call1_call0_v11_0 : Ref sig .tc := ⟨.hbm, 737, rfl⟩
abbrev main_call1_call0_call0_v172 : Ref sig .tc := ⟨.hbm, 738, rfl⟩
abbrev main_call1_call0_call0_v173 : Ref sig .tc := ⟨.hbm, 739, rfl⟩
abbrev main_call1_call0_call0_c_44 : Ref sig .tc := ⟨.hbm, 740, rfl⟩
abbrev main_call1_call0_call0_v174 : Ref sig .tc := ⟨.hbm, 741, rfl⟩
abbrev main_call1_call0_v11_1 : Ref sig .tc := ⟨.hbm, 742, rfl⟩
abbrev main_call1_call0_v12 : Ref sig .tc := ⟨.hbm, 743, rfl⟩
abbrev main_call1_call0_v13 : Ref sig .tc := ⟨.hbm, 744, rfl⟩
abbrev main_call1_v0 : Ref sig .tc := ⟨.hbm, 745, rfl⟩
abbrev main_call1_v1 : Ref sig .tc := ⟨.hbm, 746, rfl⟩
abbrev main_call1_v2 : Ref sig .tc := ⟨.hbm, 747, rfl⟩
abbrev main_call1_v3 : Ref sig .tc := ⟨.hbm, 748, rfl⟩
abbrev main_call1_v4 : Ref sig .tc := ⟨.hbm, 749, rfl⟩
abbrev main_call1_v5 : Ref sig .tc := ⟨.hbm, 750, rfl⟩
abbrev main_call1_v6 : Ref sig .tc := ⟨.hbm, 751, rfl⟩
abbrev main_call1_v7 : Ref sig .tc := ⟨.hbm, 752, rfl⟩
abbrev main_call1_v8 : Ref sig .tc := ⟨.hbm, 753, rfl⟩
abbrev main_call1_v9 : Ref sig .tc := ⟨.hbm, 754, rfl⟩
abbrev main_call1_c : Ref sig .tc := ⟨.hbm, 755, rfl⟩
abbrev main_call1_v10 : Ref sig .tc := ⟨.hbm, 756, rfl⟩
abbrev main_call1_v11 : Ref sig .tc := ⟨.hbm, 757, rfl⟩
abbrev main_call1_c_0 : Ref sig .tc := ⟨.hbm, 758, rfl⟩
abbrev main_call1_v12 : Ref sig .tc := ⟨.hbm, 759, rfl⟩
abbrev main_call1_v13 : Ref sig .tc := ⟨.hbm, 760, rfl⟩
abbrev main_call1_v14 : Ref sig .tc := ⟨.hbm, 761, rfl⟩
abbrev main_call1_v15 : Ref sig .tc := ⟨.hbm, 762, rfl⟩
abbrev main_call1_call1_v0 : Ref sig .tc := ⟨.hbm, 763, rfl⟩
abbrev main_call1_call1_c : Ref sig .tc := ⟨.hbm, 764, rfl⟩
abbrev main_call1_call1_v1 : Ref sig .tc := ⟨.hbm, 765, rfl⟩
abbrev main_call1_call1_v2 : Ref sig .tc := ⟨.hbm, 766, rfl⟩
abbrev main_call1_call1_v3 : Ref sig .tc := ⟨.hbm, 767, rfl⟩
abbrev main_call1_call1_v4 : Ref sig .tc := ⟨.hbm, 768, rfl⟩
abbrev main_call1_call1_v5 : Ref sig .tc := ⟨.hbm, 769, rfl⟩
abbrev main_call1_call1_v6 : Ref sig .tc := ⟨.hbm, 770, rfl⟩
abbrev main_call1_call1_c_0 : Ref sig .tc := ⟨.hbm, 771, rfl⟩
abbrev main_call1_call1_v7 : Ref sig .tc := ⟨.hbm, 772, rfl⟩
abbrev main_call1_call1_v8 : Ref sig .tc := ⟨.hbm, 773, rfl⟩
abbrev main_call1_call1_c_1 : Ref sig .tc := ⟨.hbm, 774, rfl⟩
abbrev main_call1_call1_v9 : Ref sig .tc := ⟨.hbm, 775, rfl⟩
abbrev main_call1_call1_v10 : Ref sig .tc := ⟨.hbm, 776, rfl⟩
abbrev main_call1_call1_v11 : Ref sig .tc := ⟨.hbm, 777, rfl⟩
abbrev main_call1_call1_v12 : Ref sig .tc := ⟨.hbm, 778, rfl⟩
abbrev main_call1_call1_v13 : Ref sig .tc := ⟨.hbm, 779, rfl⟩
abbrev main_call1_call1_c_2 : Ref sig .tc := ⟨.hbm, 780, rfl⟩
abbrev main_call1_call1_v14 : Ref sig .tc := ⟨.hbm, 781, rfl⟩
abbrev main_call1_call1_v15 : Ref sig .tc := ⟨.hbm, 782, rfl⟩
abbrev main_call1_call1_c_3 : Ref sig .tc := ⟨.hbm, 783, rfl⟩
abbrev main_call1_call1_v16 : Ref sig .tc := ⟨.hbm, 784, rfl⟩
abbrev main_call1_call1_v17 : Ref sig .tc := ⟨.hbm, 785, rfl⟩
abbrev main_call1_call1_v18 : Ref sig .tc := ⟨.hbm, 786, rfl⟩
abbrev main_call1_call1_v19 : Ref sig .tc := ⟨.hbm, 787, rfl⟩
abbrev main_call1_call1_v20 : Ref sig .tc := ⟨.hbm, 788, rfl⟩
abbrev main_call1_call1_c_4 : Ref sig .tc := ⟨.hbm, 789, rfl⟩
abbrev main_call1_call1_v21 : Ref sig .tc := ⟨.hbm, 790, rfl⟩
abbrev main_call1_call1_v22 : Ref sig .tc := ⟨.hbm, 791, rfl⟩
abbrev main_call1_call1_c_5 : Ref sig .tc := ⟨.hbm, 792, rfl⟩
abbrev main_call1_call1_v23 : Ref sig .tc := ⟨.hbm, 793, rfl⟩
abbrev main_call1_call1_v24 : Ref sig .tc := ⟨.hbm, 794, rfl⟩
abbrev main_call1_call1_v25 : Ref sig .tc := ⟨.hbm, 795, rfl⟩
abbrev main_call1_call1_v26 : Ref sig .tc := ⟨.hbm, 796, rfl⟩
abbrev main_call1_call1_v27 : Ref sig .tc := ⟨.hbm, 797, rfl⟩
abbrev main_call1_call1_c_6 : Ref sig .tc := ⟨.hbm, 798, rfl⟩
abbrev main_call1_call1_v28 : Ref sig .tc := ⟨.hbm, 799, rfl⟩
abbrev main_call1_call1_v29 : Ref sig .tc := ⟨.hbm, 800, rfl⟩
abbrev main_call1_call1_c_7 : Ref sig .tc := ⟨.hbm, 801, rfl⟩
abbrev main_call1_call1_v30 : Ref sig .tc := ⟨.hbm, 802, rfl⟩
abbrev main_call1_call1_v31 : Ref sig .tc := ⟨.hbm, 803, rfl⟩
abbrev main_call1_call1_v32 : Ref sig .tc := ⟨.hbm, 804, rfl⟩
abbrev main_call1_call1_v33 : Ref sig .tc := ⟨.hbm, 805, rfl⟩
abbrev main_call1_call1_v34 : Ref sig .tc := ⟨.hbm, 806, rfl⟩
abbrev main_call1_call1_v35 : Ref sig .tc := ⟨.hbm, 807, rfl⟩
abbrev main_call1_call1_v36 : Ref sig .tc := ⟨.hbm, 808, rfl⟩
abbrev main_call1_call1_v37 : Ref sig .tc := ⟨.hbm, 809, rfl⟩
abbrev main_call1_call1_c_8 : Ref sig .tc := ⟨.hbm, 810, rfl⟩
abbrev main_call1_call1_v38 : Ref sig .tc := ⟨.hbm, 811, rfl⟩
abbrev main_call1_call1_v39 : Ref sig .tc := ⟨.hbm, 812, rfl⟩
abbrev main_call1_call1_v40 : Ref sig .tc := ⟨.hbm, 813, rfl⟩
abbrev main_call1_call1_c_9 : Ref sig .tc := ⟨.hbm, 814, rfl⟩
abbrev main_call1_call1_v41 : Ref sig .tc := ⟨.hbm, 815, rfl⟩
abbrev main_call1_call1_v42 : Ref sig .tc := ⟨.hbm, 816, rfl⟩
abbrev main_call1_call1_c_10 : Ref sig .tc := ⟨.hbm, 817, rfl⟩
abbrev main_call1_call1_v43 : Ref sig .tc := ⟨.hbm, 818, rfl⟩
abbrev main_call1_call1_v44 : Ref sig .tc := ⟨.hbm, 819, rfl⟩
abbrev main_call1_call1_v45 : Ref sig .tc := ⟨.hbm, 820, rfl⟩
abbrev main_call1_call1_v46 : Ref sig .tc := ⟨.hbm, 821, rfl⟩
abbrev main_call1_call1_v47 : Ref sig .tc := ⟨.hbm, 822, rfl⟩
abbrev main_call1_call1_c_11 : Ref sig .tc := ⟨.hbm, 823, rfl⟩
abbrev main_call1_call1_v48 : Ref sig .tc := ⟨.hbm, 824, rfl⟩
abbrev main_call1_call1_v49 : Ref sig .tc := ⟨.hbm, 825, rfl⟩
abbrev main_call1_call1_c_12 : Ref sig .tc := ⟨.hbm, 826, rfl⟩
abbrev main_call1_call1_v50 : Ref sig .tc := ⟨.hbm, 827, rfl⟩
abbrev main_call1_call1_v51 : Ref sig .tc := ⟨.hbm, 828, rfl⟩
abbrev main_call1_call1_v52 : Ref sig .tc := ⟨.hbm, 829, rfl⟩
abbrev main_call1_call1_v53 : Ref sig .tc := ⟨.hbm, 830, rfl⟩
abbrev main_call1_call1_v54 : Ref sig .tc := ⟨.hbm, 831, rfl⟩
abbrev main_call1_call1_c_13 : Ref sig .tc := ⟨.hbm, 832, rfl⟩
abbrev main_call1_call1_v55 : Ref sig .tc := ⟨.hbm, 833, rfl⟩
abbrev main_call1_call1_v56 : Ref sig .tc := ⟨.hbm, 834, rfl⟩
abbrev main_call1_call1_c_14 : Ref sig .tc := ⟨.hbm, 835, rfl⟩
abbrev main_call1_call1_v57 : Ref sig .tc := ⟨.hbm, 836, rfl⟩
abbrev main_call1_call1_v58 : Ref sig .tc := ⟨.hbm, 837, rfl⟩
abbrev main_call1_call1_v59 : Ref sig .tc := ⟨.hbm, 838, rfl⟩
abbrev main_call1_call1_v60 : Ref sig .tc := ⟨.hbm, 839, rfl⟩
abbrev main_call1_call1_v61 : Ref sig .tc := ⟨.hbm, 840, rfl⟩
abbrev main_call1_call1_c_15 : Ref sig .tc := ⟨.hbm, 841, rfl⟩
abbrev main_call1_call1_v62 : Ref sig .tc := ⟨.hbm, 842, rfl⟩
abbrev main_call1_call1_v63 : Ref sig .tc := ⟨.hbm, 843, rfl⟩
abbrev main_call1_call1_c_16 : Ref sig .tc := ⟨.hbm, 844, rfl⟩
abbrev main_call1_call1_v64 : Ref sig .tc := ⟨.hbm, 845, rfl⟩
abbrev main_call1_call1_v65 : Ref sig .tc := ⟨.hbm, 846, rfl⟩
abbrev main_call1_call1_v66 : Ref sig .tc := ⟨.hbm, 847, rfl⟩
abbrev main_call1_call1_v67 : Ref sig .tc := ⟨.hbm, 848, rfl⟩
abbrev main_call1_call1_v68 : Ref sig .tc := ⟨.hbm, 849, rfl⟩
abbrev main_call1_call1_v69 : Ref sig .tc := ⟨.hbm, 850, rfl⟩
abbrev main_call1_call1_v70 : Ref sig .tc := ⟨.hbm, 851, rfl⟩
abbrev main_call1_call1_v71 : Ref sig .tc := ⟨.hbm, 852, rfl⟩
abbrev main_call1_call1_c_17 : Ref sig .tc := ⟨.hbm, 853, rfl⟩
abbrev main_call1_call1_v72 : Ref sig .tc := ⟨.hbm, 854, rfl⟩
abbrev main_call1_call1_v73 : Ref sig .tc := ⟨.hbm, 855, rfl⟩
abbrev main_call1_call1_v74 : Ref sig .tc := ⟨.hbm, 856, rfl⟩
abbrev main_call1_call1_c_18 : Ref sig .tc := ⟨.hbm, 857, rfl⟩
abbrev main_call1_call1_v75 : Ref sig .tc := ⟨.hbm, 858, rfl⟩
abbrev main_call1_call1_v76 : Ref sig .tc := ⟨.hbm, 859, rfl⟩
abbrev main_call1_call1_c_19 : Ref sig .tc := ⟨.hbm, 860, rfl⟩
abbrev main_call1_call1_v77 : Ref sig .tc := ⟨.hbm, 861, rfl⟩
abbrev main_call1_call1_v78 : Ref sig .tc := ⟨.hbm, 862, rfl⟩
abbrev main_call1_call1_v79 : Ref sig .tc := ⟨.hbm, 863, rfl⟩
abbrev main_call1_call1_v80 : Ref sig .tc := ⟨.hbm, 864, rfl⟩
abbrev main_call1_call1_v81 : Ref sig .tc := ⟨.hbm, 865, rfl⟩
abbrev main_call1_call1_c_20 : Ref sig .tc := ⟨.hbm, 866, rfl⟩
abbrev main_call1_call1_v82 : Ref sig .tc := ⟨.hbm, 867, rfl⟩
abbrev main_call1_call1_v83 : Ref sig .tc := ⟨.hbm, 868, rfl⟩
abbrev main_call1_call1_c_21 : Ref sig .tc := ⟨.hbm, 869, rfl⟩
abbrev main_call1_call1_v84 : Ref sig .tc := ⟨.hbm, 870, rfl⟩
abbrev main_call1_call1_v85 : Ref sig .tc := ⟨.hbm, 871, rfl⟩
abbrev main_call1_call1_v86 : Ref sig .tc := ⟨.hbm, 872, rfl⟩
abbrev main_call1_call1_v87 : Ref sig .tc := ⟨.hbm, 873, rfl⟩
abbrev main_call1_call1_v88 : Ref sig .tc := ⟨.hbm, 874, rfl⟩
abbrev main_call1_call1_c_22 : Ref sig .tc := ⟨.hbm, 875, rfl⟩
abbrev main_call1_call1_v89 : Ref sig .tc := ⟨.hbm, 876, rfl⟩
abbrev main_call1_call1_v90 : Ref sig .tc := ⟨.hbm, 877, rfl⟩
abbrev main_call1_call1_c_23 : Ref sig .tc := ⟨.hbm, 878, rfl⟩
abbrev main_call1_call1_v91 : Ref sig .tc := ⟨.hbm, 879, rfl⟩
abbrev main_call1_call1_v92 : Ref sig .tc := ⟨.hbm, 880, rfl⟩
abbrev main_call1_call1_v93 : Ref sig .tc := ⟨.hbm, 881, rfl⟩
abbrev main_call1_call1_v94 : Ref sig .tc := ⟨.hbm, 882, rfl⟩
abbrev main_call1_call1_v95 : Ref sig .tc := ⟨.hbm, 883, rfl⟩
abbrev main_call1_call1_c_24 : Ref sig .tc := ⟨.hbm, 884, rfl⟩
abbrev main_call1_call1_v96 : Ref sig .tc := ⟨.hbm, 885, rfl⟩
abbrev main_call1_call1_v97 : Ref sig .tc := ⟨.hbm, 886, rfl⟩
abbrev main_call1_call1_c_25 : Ref sig .tc := ⟨.hbm, 887, rfl⟩
abbrev main_call1_call1_v98 : Ref sig .tc := ⟨.hbm, 888, rfl⟩
abbrev main_call1_call1_v99 : Ref sig .tc := ⟨.hbm, 889, rfl⟩
abbrev main_call1_call1_v100 : Ref sig .tc := ⟨.hbm, 890, rfl⟩
abbrev main_call1_call1_v101 : Ref sig .tc := ⟨.hbm, 891, rfl⟩
abbrev main_call1_call1_v102 : Ref sig .tc := ⟨.hbm, 892, rfl⟩
abbrev main_call1_call1_v103 : Ref sig .tc := ⟨.hbm, 893, rfl⟩
abbrev main_call1_call1_v104 : Ref sig .tc := ⟨.hbm, 894, rfl⟩
abbrev main_call1_call1_v105 : Ref sig .tc := ⟨.hbm, 895, rfl⟩
abbrev main_call1_call1_c_26 : Ref sig .tc := ⟨.hbm, 896, rfl⟩
abbrev main_call1_call1_v106 : Ref sig .tc := ⟨.hbm, 897, rfl⟩
abbrev main_call1_call1_v107 : Ref sig .tc := ⟨.hbm, 898, rfl⟩
abbrev main_call1_call1_v108 : Ref sig .tc := ⟨.hbm, 899, rfl⟩
abbrev main_call1_call1_c_27 : Ref sig .tc := ⟨.hbm, 900, rfl⟩
abbrev main_call1_call1_v109 : Ref sig .tc := ⟨.hbm, 901, rfl⟩
abbrev main_call1_call1_v110 : Ref sig .tc := ⟨.hbm, 902, rfl⟩
abbrev main_call1_call1_c_28 : Ref sig .tc := ⟨.hbm, 903, rfl⟩
abbrev main_call1_call1_v111 : Ref sig .tc := ⟨.hbm, 904, rfl⟩
abbrev main_call1_call1_v112 : Ref sig .tc := ⟨.hbm, 905, rfl⟩
abbrev main_call1_call1_v113 : Ref sig .tc := ⟨.hbm, 906, rfl⟩
abbrev main_call1_call1_v114 : Ref sig .tc := ⟨.hbm, 907, rfl⟩
abbrev main_call1_call1_v115 : Ref sig .tc := ⟨.hbm, 908, rfl⟩
abbrev main_call1_call1_c_29 : Ref sig .tc := ⟨.hbm, 909, rfl⟩
abbrev main_call1_call1_v116 : Ref sig .tc := ⟨.hbm, 910, rfl⟩
abbrev main_call1_call1_v117 : Ref sig .tc := ⟨.hbm, 911, rfl⟩
abbrev main_call1_call1_c_30 : Ref sig .tc := ⟨.hbm, 912, rfl⟩
abbrev main_call1_call1_v118 : Ref sig .tc := ⟨.hbm, 913, rfl⟩
abbrev main_call1_call1_v119 : Ref sig .tc := ⟨.hbm, 914, rfl⟩
abbrev main_call1_call1_v120 : Ref sig .tc := ⟨.hbm, 915, rfl⟩
abbrev main_call1_call1_v121 : Ref sig .tc := ⟨.hbm, 916, rfl⟩
abbrev main_call1_call1_v122 : Ref sig .tc := ⟨.hbm, 917, rfl⟩
abbrev main_call1_call1_c_31 : Ref sig .tc := ⟨.hbm, 918, rfl⟩
abbrev main_call1_call1_v123 : Ref sig .tc := ⟨.hbm, 919, rfl⟩
abbrev main_call1_call1_v124 : Ref sig .tc := ⟨.hbm, 920, rfl⟩
abbrev main_call1_call1_c_32 : Ref sig .tc := ⟨.hbm, 921, rfl⟩
abbrev main_call1_call1_v125 : Ref sig .tc := ⟨.hbm, 922, rfl⟩
abbrev main_call1_call1_v126 : Ref sig .tc := ⟨.hbm, 923, rfl⟩
abbrev main_call1_call1_v127 : Ref sig .tc := ⟨.hbm, 924, rfl⟩
abbrev main_call1_call1_v128 : Ref sig .tc := ⟨.hbm, 925, rfl⟩
abbrev main_call1_call1_v129 : Ref sig .tc := ⟨.hbm, 926, rfl⟩
abbrev main_call1_call1_c_33 : Ref sig .tc := ⟨.hbm, 927, rfl⟩
abbrev main_call1_call1_v130 : Ref sig .tc := ⟨.hbm, 928, rfl⟩
abbrev main_call1_call1_v131 : Ref sig .tc := ⟨.hbm, 929, rfl⟩
abbrev main_call1_call1_c_34 : Ref sig .tc := ⟨.hbm, 930, rfl⟩
abbrev main_call1_call1_v132 : Ref sig .tc := ⟨.hbm, 931, rfl⟩
abbrev main_call1_call1_v133 : Ref sig .tc := ⟨.hbm, 932, rfl⟩
abbrev main_call1_call1_v134 : Ref sig .tc := ⟨.hbm, 933, rfl⟩
abbrev main_call1_call1_v135 : Ref sig .tc := ⟨.hbm, 934, rfl⟩
abbrev main_call1_call1_v136 : Ref sig .tc := ⟨.hbm, 935, rfl⟩
abbrev main_call1_call1_v137 : Ref sig .tc := ⟨.hbm, 936, rfl⟩
abbrev main_call1_call1_v138 : Ref sig .tc := ⟨.hbm, 937, rfl⟩
abbrev main_call1_call1_v139 : Ref sig .tc := ⟨.hbm, 938, rfl⟩
abbrev main_call1_call1_c_35 : Ref sig .tc := ⟨.hbm, 939, rfl⟩
abbrev main_call1_call1_v140 : Ref sig .tc := ⟨.hbm, 940, rfl⟩
abbrev main_call1_call1_v141 : Ref sig .tc := ⟨.hbm, 941, rfl⟩
abbrev main_call1_call1_v142 : Ref sig .tc := ⟨.hbm, 942, rfl⟩
abbrev main_call1_call1_c_36 : Ref sig .tc := ⟨.hbm, 943, rfl⟩
abbrev main_call1_call1_v143 : Ref sig .tc := ⟨.hbm, 944, rfl⟩
abbrev main_call1_call1_v144 : Ref sig .tc := ⟨.hbm, 945, rfl⟩
abbrev main_call1_call1_c_37 : Ref sig .tc := ⟨.hbm, 946, rfl⟩
abbrev main_call1_call1_v145 : Ref sig .tc := ⟨.hbm, 947, rfl⟩
abbrev main_call1_call1_v146 : Ref sig .tc := ⟨.hbm, 948, rfl⟩
abbrev main_call1_call1_v147 : Ref sig .tc := ⟨.hbm, 949, rfl⟩
abbrev main_call1_call1_v148 : Ref sig .tc := ⟨.hbm, 950, rfl⟩
abbrev main_call1_call1_v149 : Ref sig .tc := ⟨.hbm, 951, rfl⟩
abbrev main_call1_call1_c_38 : Ref sig .tc := ⟨.hbm, 952, rfl⟩
abbrev main_call1_call1_v150 : Ref sig .tc := ⟨.hbm, 953, rfl⟩
abbrev main_call1_call1_v151 : Ref sig .tc := ⟨.hbm, 954, rfl⟩
abbrev main_call1_call1_c_39 : Ref sig .tc := ⟨.hbm, 955, rfl⟩
abbrev main_call1_call1_v152 : Ref sig .tc := ⟨.hbm, 956, rfl⟩
abbrev main_call1_call1_v153 : Ref sig .tc := ⟨.hbm, 957, rfl⟩
abbrev main_call1_call1_v154 : Ref sig .tc := ⟨.hbm, 958, rfl⟩
abbrev main_call1_call1_v155 : Ref sig .tc := ⟨.hbm, 959, rfl⟩
abbrev main_call1_call1_v156 : Ref sig .tc := ⟨.hbm, 960, rfl⟩
abbrev main_call1_call1_c_40 : Ref sig .tc := ⟨.hbm, 961, rfl⟩
abbrev main_call1_call1_v157 : Ref sig .tc := ⟨.hbm, 962, rfl⟩
abbrev main_call1_call1_v158 : Ref sig .tc := ⟨.hbm, 963, rfl⟩
abbrev main_call1_call1_c_41 : Ref sig .tc := ⟨.hbm, 964, rfl⟩
abbrev main_call1_call1_v159 : Ref sig .tc := ⟨.hbm, 965, rfl⟩
abbrev main_call1_call1_v160 : Ref sig .tc := ⟨.hbm, 966, rfl⟩
abbrev main_call1_call1_v161 : Ref sig .tc := ⟨.hbm, 967, rfl⟩
abbrev main_call1_call1_v162 : Ref sig .tc := ⟨.hbm, 968, rfl⟩
abbrev main_call1_call1_v163 : Ref sig .tc := ⟨.hbm, 969, rfl⟩
abbrev main_call1_call1_c_42 : Ref sig .tc := ⟨.hbm, 970, rfl⟩
abbrev main_call1_call1_v164 : Ref sig .tc := ⟨.hbm, 971, rfl⟩
abbrev main_call1_call1_v165 : Ref sig .tc := ⟨.hbm, 972, rfl⟩
abbrev main_call1_call1_c_43 : Ref sig .tc := ⟨.hbm, 973, rfl⟩
abbrev main_call1_call1_v166 : Ref sig .tc := ⟨.hbm, 974, rfl⟩
abbrev main_call1_call1_v167 : Ref sig .tc := ⟨.hbm, 975, rfl⟩
abbrev main_call1_call1_v168 : Ref sig .tc := ⟨.hbm, 976, rfl⟩
abbrev main_call1_call1_v169 : Ref sig .tc := ⟨.hbm, 977, rfl⟩
abbrev main_call1_call1_v170 : Ref sig .tc := ⟨.hbm, 978, rfl⟩
abbrev main_call1_v16_0 : Ref sig .tc := ⟨.hbm, 979, rfl⟩
abbrev main_call1_call1_v172 : Ref sig .tc := ⟨.hbm, 980, rfl⟩
abbrev main_call1_call1_v173 : Ref sig .tc := ⟨.hbm, 981, rfl⟩
abbrev main_call1_call1_c_44 : Ref sig .tc := ⟨.hbm, 982, rfl⟩
abbrev main_call1_call1_v174 : Ref sig .tc := ⟨.hbm, 983, rfl⟩
abbrev main_call1_v16_1 : Ref sig .tc := ⟨.hbm, 984, rfl⟩
abbrev main_call1_v17 : Ref sig .tc := ⟨.hbm, 985, rfl⟩
abbrev main_call1_v18_0 : Ref sig .tc := ⟨.hbm, 986, rfl⟩
abbrev main_v17 : Ref sig .tc := ⟨.hbm, 987, rfl⟩
abbrev main_v18 : Ref sig .tc := ⟨.hbm, 988, rfl⟩
abbrev main_v19 : Ref sig .tc := ⟨.hbm, 989, rfl⟩
abbrev main_call2_v0 : Ref sig .tc := ⟨.hbm, 990, rfl⟩
abbrev main_call2_v1_0 : Ref sig .tc := ⟨.hbm, 991, rfl⟩
abbrev main_v20 : Ref sig .tc := ⟨.hbm, 992, rfl⟩
abbrev main_c_5 : Ref sig .tc := ⟨.hbm, 993, rfl⟩
abbrev main_v21 : Ref sig .tc := ⟨.hbm, 994, rfl⟩
abbrev main_v22 : Ref sig .tc := ⟨.hbm, 995, rfl⟩
abbrev main_c_6 : Ref sig .tc := ⟨.hbm, 996, rfl⟩
abbrev main_v23 : Ref sig .tc := ⟨.hbm, 997, rfl⟩
abbrev main_v24 : Ref sig .tc := ⟨.hbm, 998, rfl⟩
abbrev main_v25 : Ref sig .tc := ⟨.hbm, 999, rfl⟩
abbrev main_v26 : Ref sig .tc := ⟨.hbm, 1000, rfl⟩
abbrev main_v27 : Ref sig .tc := ⟨.hbm, 1001, rfl⟩
abbrev main_v28 : Ref sig .tc := ⟨.hbm, 1002, rfl⟩
abbrev main_call3_v0 : Ref sig .tc := ⟨.hbm, 1003, rfl⟩
abbrev main_call3_v1_0 : Ref sig .tc := ⟨.hbm, 1004, rfl⟩
abbrev main_v29 : Ref sig .tc := ⟨.hbm, 1005, rfl⟩
abbrev main_c_7 : Ref sig .tc := ⟨.hbm, 1006, rfl⟩
abbrev main_v30 : Ref sig .tc := ⟨.hbm, 1007, rfl⟩
abbrev main_v31 : Ref sig .tc := ⟨.hbm, 1008, rfl⟩
abbrev main_c_8 : Ref sig .tc := ⟨.hbm, 1009, rfl⟩
abbrev main_v32 : Ref sig .tc := ⟨.hbm, 1010, rfl⟩
abbrev main_v33 : Ref sig .tc := ⟨.hbm, 1011, rfl⟩
abbrev main_v34 : Ref sig .tc := ⟨.hbm, 1012, rfl⟩
abbrev main_v35 : Ref sig .tc := ⟨.hbm, 1013, rfl⟩
abbrev main_v36 : Ref sig .tc := ⟨.hbm, 1014, rfl⟩
abbrev main_v37 : Ref sig .tc := ⟨.hbm, 1015, rfl⟩
abbrev main_c_9 : Ref sig .tc := ⟨.hbm, 1016, rfl⟩
abbrev main_v38 : Ref sig .tc := ⟨.hbm, 1017, rfl⟩
abbrev main_c_10 : Ref sig .tc := ⟨.hbm, 1018, rfl⟩
abbrev main_v39 : Ref sig .tc := ⟨.hbm, 1019, rfl⟩
abbrev main_v40 : Ref sig .tc := ⟨.hbm, 1020, rfl⟩
abbrev main_v41 : Ref sig .tc := ⟨.hbm, 1021, rfl⟩
abbrev main_v42 : Ref sig .tc := ⟨.hbm, 1022, rfl⟩
abbrev main_c_11 : Ref sig .tc := ⟨.hbm, 1023, rfl⟩
abbrev main_v43 : Ref sig .tc := ⟨.hbm, 1024, rfl⟩
abbrev main_v44 : Ref sig .tc := ⟨.hbm, 1025, rfl⟩
abbrev main_v45 : Ref sig .tc := ⟨.hbm, 1026, rfl⟩
abbrev main_c_12 : Ref sig .tc := ⟨.hbm, 1027, rfl⟩
abbrev main_v46 : Ref sig .tc := ⟨.hbm, 1028, rfl⟩
abbrev main_v47 : Ref sig .tc := ⟨.hbm, 1029, rfl⟩
abbrev main_v48 : Ref sig .tc := ⟨.hbm, 1030, rfl⟩
abbrev main_v49 : Ref sig .tc := ⟨.hbm, 1031, rfl⟩
abbrev main_c_13 : Ref sig .tc := ⟨.hbm, 1032, rfl⟩
abbrev main_v50 : Ref sig .tc := ⟨.hbm, 1033, rfl⟩
abbrev main_c_14 : Ref sig .tc := ⟨.hbm, 1034, rfl⟩
abbrev main_v51 : Ref sig .tc := ⟨.hbm, 1035, rfl⟩
abbrev main_v52 : Ref sig .tc := ⟨.hbm, 1036, rfl⟩
abbrev main_v53 : Ref sig .tc := ⟨.hbm, 1037, rfl⟩
abbrev main_v54 : Ref sig .tc := ⟨.hbm, 1038, rfl⟩
abbrev main_c_15 : Ref sig .tc := ⟨.hbm, 1039, rfl⟩
abbrev main_v55 : Ref sig .tc := ⟨.hbm, 1040, rfl⟩
abbrev main_v56 : Ref sig .tc := ⟨.hbm, 1041, rfl⟩
abbrev main_v57 : Ref sig .tc := ⟨.hbm, 1042, rfl⟩
abbrev main_c_16 : Ref sig .tc := ⟨.hbm, 1043, rfl⟩
abbrev main_v58 : Ref sig .tc := ⟨.hbm, 1044, rfl⟩
abbrev main_v59 : Ref sig .tc := ⟨.hbm, 1045, rfl⟩
abbrev main_v60 : Ref sig .tc := ⟨.hbm, 1046, rfl⟩
abbrev main_v61 : Ref sig .tc := ⟨.hbm, 1047, rfl⟩
abbrev main_c_17 : Ref sig .tc := ⟨.hbm, 1048, rfl⟩
abbrev main_v62 : Ref sig .tc := ⟨.hbm, 1049, rfl⟩
abbrev main_c_18 : Ref sig .tc := ⟨.hbm, 1050, rfl⟩
abbrev main_v63 : Ref sig .tc := ⟨.hbm, 1051, rfl⟩
abbrev main_v64 : Ref sig .tc := ⟨.hbm, 1052, rfl⟩
abbrev main_v65 : Ref sig .tc := ⟨.hbm, 1053, rfl⟩
abbrev main_c_19 : Ref sig .tc := ⟨.hbm, 1054, rfl⟩
abbrev main_v66 : Ref sig .tc := ⟨.hbm, 1055, rfl⟩
abbrev main_c_20 : Ref sig .tc := ⟨.hbm, 1056, rfl⟩
abbrev main_v67 : Ref sig .tc := ⟨.hbm, 1057, rfl⟩
abbrev main_v68 : Ref sig .tc := ⟨.hbm, 1058, rfl⟩
abbrev main_v69 : Ref sig .tc := ⟨.hbm, 1059, rfl⟩
abbrev main_v70 : Ref sig .tc := ⟨.hbm, 1060, rfl⟩
abbrev main_c_21 : Ref sig .tc := ⟨.hbm, 1061, rfl⟩
abbrev main_v71 : Ref sig .tc := ⟨.hbm, 1062, rfl⟩
abbrev main_v72 : Ref sig .tc := ⟨.hbm, 1063, rfl⟩
abbrev main_v73 : Ref sig .tc := ⟨.hbm, 1064, rfl⟩
abbrev main_c_22 : Ref sig .tc := ⟨.hbm, 1065, rfl⟩
abbrev main_v74 : Ref sig .tc := ⟨.hbm, 1066, rfl⟩
abbrev main_v75 : Ref sig .tc := ⟨.hbm, 1067, rfl⟩
abbrev main_v76 : Ref sig .tc := ⟨.hbm, 1068, rfl⟩
abbrev main_v77 : Ref sig .tc := ⟨.hbm, 1069, rfl⟩
abbrev main_c_23 : Ref sig .tc := ⟨.hbm, 1070, rfl⟩
abbrev main_v78 : Ref sig .tc := ⟨.hbm, 1071, rfl⟩
abbrev main_c_24 : Ref sig .tc := ⟨.hbm, 1072, rfl⟩
abbrev main_v79 : Ref sig .tc := ⟨.hbm, 1073, rfl⟩
abbrev main_v80 : Ref sig .tc := ⟨.hbm, 1074, rfl⟩
abbrev main_v81 : Ref sig .tc := ⟨.hbm, 1075, rfl⟩
abbrev main_v82 : Ref sig .tc := ⟨.hbm, 1076, rfl⟩
abbrev main_c_25 : Ref sig .tc := ⟨.hbm, 1077, rfl⟩
abbrev main_v83 : Ref sig .tc := ⟨.hbm, 1078, rfl⟩
abbrev main_v84 : Ref sig .tc := ⟨.hbm, 1079, rfl⟩
abbrev main_v85 : Ref sig .tc := ⟨.hbm, 1080, rfl⟩
abbrev main_c_26 : Ref sig .tc := ⟨.hbm, 1081, rfl⟩
abbrev main_v86 : Ref sig .tc := ⟨.hbm, 1082, rfl⟩
abbrev main_v87 : Ref sig .tc := ⟨.hbm, 1083, rfl⟩
abbrev main_v88 : Ref sig .tc := ⟨.hbm, 1084, rfl⟩
abbrev main_v89 : Ref sig .tc := ⟨.hbm, 1085, rfl⟩
abbrev main_c_27 : Ref sig .tc := ⟨.hbm, 1086, rfl⟩
abbrev main_v90 : Ref sig .tc := ⟨.hbm, 1087, rfl⟩
abbrev main_c_28 : Ref sig .tc := ⟨.hbm, 1088, rfl⟩
abbrev main_v91 : Ref sig .tc := ⟨.hbm, 1089, rfl⟩
abbrev main_v92 : Ref sig .tc := ⟨.hbm, 1090, rfl⟩
abbrev main_v93 : Ref sig .tc := ⟨.hbm, 1091, rfl⟩
abbrev main_v94_0 : Ref sig .tc := ⟨.hbm, 1092, rfl⟩
abbrev main_v94_1 : Ref sig .tc := ⟨.hbm, 1093, rfl⟩
abbrev main_v95_0 : Ref sig .tc := ⟨.hbm, 1094, rfl⟩
abbrev main_v95_1 : Ref sig .tc := ⟨.hbm, 1095, rfl⟩
abbrev main_v96 : Ref sig .tc := ⟨.hbm, 1096, rfl⟩
abbrev main_v97 : Ref sig .tc := ⟨.hbm, 1097, rfl⟩
abbrev main_arg1_scv : Ref sig .scVector := ⟨.hbm, 1, rfl⟩
abbrev main_arg2_scv : Ref sig .scVector := ⟨.hbm, 2, rfl⟩
abbrev main_v53_scv : Ref sig .scVector := ⟨.hbm, 1037, rfl⟩
abbrev main_v81_scv : Ref sig .scVector := ⟨.hbm, 1075, rfl⟩
abbrev main_v94_0_scv : Ref sig .scVector := ⟨.hbm, 1092, rfl⟩
abbrev main_v94_1_scv : Ref sig .scVector := ⟨.hbm, 1093, rfl⟩
abbrev main_v65_scv : Ref sig .scVector := ⟨.hbm, 1053, rfl⟩
abbrev main_v93_scv : Ref sig .scVector := ⟨.hbm, 1091, rfl⟩
abbrev main_v95_0_scv : Ref sig .scVector := ⟨.hbm, 1094, rfl⟩
abbrev main_v95_1_scv : Ref sig .scVector := ⟨.hbm, 1095, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg4_1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg2_1 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg4_1 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_scratch0 : Ref sig .scVector := ⟨.vmem, 9, rfl⟩
abbrev cc1_scratch1 : Ref sig .scVector := ⟨.vmem, 10, rfl⟩
abbrev cc1_scratch2 : Ref sig .scVector := ⟨.vmem, 11, rfl⟩
abbrev cc1_scratch3 : Ref sig .scVector := ⟨.vmem, 12, rfl⟩
abbrev cc1_scratch4 : Ref sig .scVector := ⟨.vmem, 13, rfl⟩
abbrev cc1_scratch5 : Ref sig .scVector := ⟨.vmem, 14, rfl⟩
abbrev cc1_scratch6 : Ref sig .scVector := ⟨.vmem, 15, rfl⟩
abbrev cc1_scratch7 : Ref sig .scVector := ⟨.vmem, 16, rfl⟩
abbrev cc1_scratch8 : Ref sig .scVector := ⟨.vmem, 17, rfl⟩
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem4_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem4_0 : DmaSem sig := 48
abbrev cc3_sem4_1 : DmaSem sig := 49
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_2_r0 : BitVec 32 := 0#32
  let c0_i32_3_r0 : BitVec 32 := 0#32
  ![v1.toNat, 0, 0]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_2 : BitVec 32 := 0#32
  let v10 : BitVec 32 := Scalar.addi v9 c0_i32_2
  v10
def k0_mult2 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_7 : BitVec 32 := 0#32
  let v15 : BitVec 32 := Scalar.addi v9 c0_i32_7
  v15
def k0_mult3 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_12 : BitVec 32 := 128#32
  let v20 : BitVec 32 := Scalar.addi v9 c128_i32_12
  v20
def k0_mult4 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_17 : BitVec 32 := 128#32
  let v25 : BitVec 32 := Scalar.addi v9 c128_i32_17
  v25
def k0_mult5 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32 : BitVec 32 := 256#32
  let v30 : BitVec 32 := Scalar.addi v9 c256_i32
  v30
def k0_mult6 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32_25 : BitVec 32 := 256#32
  let v35 : BitVec 32 := Scalar.addi v9 c256_i32_25
  v35
def k0_mult7 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_30 : BitVec 32 := 0#32
  let v40 : BitVec 32 := Scalar.addi v9 c0_i32_30
  v40
def k0_off2 (i : grid0.Coords) (c0_i32_30 : BitVec 32) : Fin 2 → Nat :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let v40 : BitVec 32 := Scalar.addi v9 c0_i32_30
  let v41 : BitVec 32 := v40
  let c0_i32_35 : BitVec 32 := 0#32
  ![v41.toNat, 0]
def k0_mult8 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32 : BitVec 32 := 384#32
  let v47 : BitVec 32 := Scalar.addi v9 c384_i32
  v47
def k0_mult9 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_40 : BitVec 32 := 0#32
  let v52 : BitVec 32 := Scalar.addi v9 c0_i32_40
  v52
def k0_mult10 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32_49 : BitVec 32 := 384#32
  let v61 : BitVec 32 := Scalar.addi v9 c384_i32_49
  v61
def k0_mult11 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_54 : BitVec 32 := 128#32
  let v66 : BitVec 32 := Scalar.addi v9 c128_i32_54
  v66
def k0_mult12 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32 : BitVec 32 := 512#32
  let v75 : BitVec 32 := Scalar.addi v9 c512_i32
  v75
def k0_mult13 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_66 : BitVec 32 := 128#32
  let v80 : BitVec 32 := Scalar.addi v9 c128_i32_66
  v80
def k0_mult14 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32_75 : BitVec 32 := 512#32
  let v89 : BitVec 32 := Scalar.addi v9 c512_i32_75
  v89
def k0_mult15 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32_80 : BitVec 32 := 256#32
  let v94 : BitVec 32 := Scalar.addi v9 c256_i32_80
  v94
def k0_mult16 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32 : BitVec 32 := 640#32
  let v103 : BitVec 32 := Scalar.addi v9 c640_i32
  v103
def k0_mult17 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32_92 : BitVec 32 := 256#32
  let v108 : BitVec 32 := Scalar.addi v9 c256_i32_92
  v108
def k0_mult18 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32_101 : BitVec 32 := 640#32
  let v117 : BitVec 32 := Scalar.addi v9 c640_i32_101
  v117
def k0_mult19 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32_106 : BitVec 32 := 384#32
  let v122 : BitVec 32 := Scalar.addi v9 c384_i32_106
  v122
def k0_mult20 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32 : BitVec 32 := 768#32
  let v131 : BitVec 32 := Scalar.addi v9 c768_i32
  v131
def k0_mult21 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32_118 : BitVec 32 := 384#32
  let v136 : BitVec 32 := Scalar.addi v9 c384_i32_118
  v136
def k0_mult22 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32_127 : BitVec 32 := 768#32
  let v145 : BitVec 32 := Scalar.addi v9 c768_i32_127
  v145
def k0_mult23 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32_132 : BitVec 32 := 512#32
  let v150 : BitVec 32 := Scalar.addi v9 c512_i32_132
  v150
def k0_mult24 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32 : BitVec 32 := 896#32
  let v159 : BitVec 32 := Scalar.addi v9 c896_i32
  v159
def k0_mult25 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32_144 : BitVec 32 := 512#32
  let v164 : BitVec 32 := Scalar.addi v9 c512_i32_144
  v164
def k0_mult26 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32_153 : BitVec 32 := 896#32
  let v173 : BitVec 32 := Scalar.addi v9 c896_i32_153
  v173
def k0_mult27 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32_158 : BitVec 32 := 640#32
  let v178 : BitVec 32 := Scalar.addi v9 c640_i32_158
  v178
def k0_mult28 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32 : BitVec 32 := 1024#32
  let v187 : BitVec 32 := Scalar.addi v9 c1024_i32
  v187
def k0_mult29 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32_170 : BitVec 32 := 640#32
  let v192 : BitVec 32 := Scalar.addi v9 c640_i32_170
  v192
def k0_mult30 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32_179 : BitVec 32 := 1024#32
  let v201 : BitVec 32 := Scalar.addi v9 c1024_i32_179
  v201
def k0_mult31 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32_184 : BitVec 32 := 768#32
  let v206 : BitVec 32 := Scalar.addi v9 c768_i32_184
  v206
def k0_mult32 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32 : BitVec 32 := 1152#32
  let v215 : BitVec 32 := Scalar.addi v9 c1152_i32
  v215
def k0_mult33 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32_196 : BitVec 32 := 768#32
  let v220 : BitVec 32 := Scalar.addi v9 c768_i32_196
  v220
def k0_mult34 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32_205 : BitVec 32 := 1152#32
  let v229 : BitVec 32 := Scalar.addi v9 c1152_i32_205
  v229
def k0_mult35 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32_210 : BitVec 32 := 896#32
  let v234 : BitVec 32 := Scalar.addi v9 c896_i32_210
  v234
def k0_mult36 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32 : BitVec 32 := 1280#32
  let v243 : BitVec 32 := Scalar.addi v9 c1280_i32
  v243
def k0_mult37 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32_222 : BitVec 32 := 896#32
  let v248 : BitVec 32 := Scalar.addi v9 c896_i32_222
  v248
def k0_mult38 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32_231 : BitVec 32 := 1280#32
  let v257 : BitVec 32 := Scalar.addi v9 c1280_i32_231
  v257
def k0_mult39 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32_236 : BitVec 32 := 1024#32
  let v262 : BitVec 32 := Scalar.addi v9 c1024_i32_236
  v262
def k0_mult40 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32 : BitVec 32 := 1408#32
  let v271 : BitVec 32 := Scalar.addi v9 c1408_i32
  v271
def k0_mult41 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32_248 : BitVec 32 := 1024#32
  let v276 : BitVec 32 := Scalar.addi v9 c1024_i32_248
  v276
def k0_mult42 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32_257 : BitVec 32 := 1408#32
  let v285 : BitVec 32 := Scalar.addi v9 c1408_i32_257
  v285
def k0_mult43 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32_262 : BitVec 32 := 1152#32
  let v290 : BitVec 32 := Scalar.addi v9 c1152_i32_262
  v290
def k0_mult44 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32 : BitVec 32 := 1536#32
  let v299 : BitVec 32 := Scalar.addi v9 c1536_i32
  v299
def k0_mult45 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32_274 : BitVec 32 := 1152#32
  let v304 : BitVec 32 := Scalar.addi v9 c1152_i32_274
  v304
def k0_mult46 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32_283 : BitVec 32 := 1536#32
  let v313 : BitVec 32 := Scalar.addi v9 c1536_i32_283
  v313
def k0_mult47 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32_288 : BitVec 32 := 1280#32
  let v318 : BitVec 32 := Scalar.addi v9 c1280_i32_288
  v318
def k0_mult48 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32 : BitVec 32 := 1664#32
  let v327 : BitVec 32 := Scalar.addi v9 c1664_i32
  v327
def k0_mult49 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32_300 : BitVec 32 := 1280#32
  let v332 : BitVec 32 := Scalar.addi v9 c1280_i32_300
  v332
def k0_mult50 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32_309 : BitVec 32 := 1664#32
  let v341 : BitVec 32 := Scalar.addi v9 c1664_i32_309
  v341
def k0_mult51 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32_314 : BitVec 32 := 1408#32
  let v346 : BitVec 32 := Scalar.addi v9 c1408_i32_314
  v346
def k0_mult52 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32 : BitVec 32 := 1792#32
  let v355 : BitVec 32 := Scalar.addi v9 c1792_i32
  v355
def k0_mult53 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32_326 : BitVec 32 := 1408#32
  let v360 : BitVec 32 := Scalar.addi v9 c1408_i32_326
  v360
def k0_mult54 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32_335 : BitVec 32 := 1792#32
  let v369 : BitVec 32 := Scalar.addi v9 c1792_i32_335
  v369
def k0_mult55 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32_340 : BitVec 32 := 1536#32
  let v374 : BitVec 32 := Scalar.addi v9 c1536_i32_340
  v374
def k0_mult56 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32 : BitVec 32 := 1920#32
  let v383 : BitVec 32 := Scalar.addi v9 c1920_i32
  v383
def k0_mult57 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32_352 : BitVec 32 := 1536#32
  let v388 : BitVec 32 := Scalar.addi v9 c1536_i32_352
  v388
def k0_mult58 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32_361 : BitVec 32 := 1920#32
  let v397 : BitVec 32 := Scalar.addi v9 c1920_i32_361
  v397
def k0_mult59 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32_366 : BitVec 32 := 1664#32
  let v402 : BitVec 32 := Scalar.addi v9 c1664_i32_366
  v402
def k0_mult60 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32 : BitVec 32 := 2048#32
  let v411 : BitVec 32 := Scalar.addi v9 c2048_i32
  v411
def k0_mult61 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32_379 : BitVec 32 := 1664#32
  let v416 : BitVec 32 := Scalar.addi v9 c1664_i32_379
  v416
def k0_mult62 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32_388 : BitVec 32 := 2048#32
  let v425 : BitVec 32 := Scalar.addi v9 c2048_i32_388
  v425
def k0_mult63 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32_393 : BitVec 32 := 1792#32
  let v430 : BitVec 32 := Scalar.addi v9 c1792_i32_393
  v430
def k0_mult64 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32 : BitVec 32 := 2176#32
  let v439 : BitVec 32 := Scalar.addi v9 c2176_i32
  v439
def k0_mult65 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32_405 : BitVec 32 := 1792#32
  let v444 : BitVec 32 := Scalar.addi v9 c1792_i32_405
  v444
def k0_mult66 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32_414 : BitVec 32 := 2176#32
  let v453 : BitVec 32 := Scalar.addi v9 c2176_i32_414
  v453
def k0_mult67 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32_419 : BitVec 32 := 1920#32
  let v458 : BitVec 32 := Scalar.addi v9 c1920_i32_419
  v458
def k0_mult68 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32_426 : BitVec 32 := 1920#32
  let v465 : BitVec 32 := Scalar.addi v9 c1920_i32_426
  v465
def k0_mult69 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32_433 : BitVec 32 := 2048#32
  let v472 : BitVec 32 := Scalar.addi v9 c2048_i32_433
  v472
def k0_mult70 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32_440 : BitVec 32 := 2048#32
  let v479 : BitVec 32 := Scalar.addi v9 c2048_i32_440
  v479
def k0_mult71 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32_447 : BitVec 32 := 2176#32
  let v486 : BitVec 32 := Scalar.addi v9 c2176_i32_447
  v486
def k0_mult72 (i : grid0.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32_454 : BitVec 32 := 2176#32
  let v493 : BitVec 32 := Scalar.addi v9 c2176_i32_454
  v493
def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k0_mult73 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_2 : BitVec 32 := 0#32
  let v11 : BitVec 32 := Scalar.addi v10 c0_i32_2
  v11
def k0_mult74 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_7 : BitVec 32 := 0#32
  let v16 : BitVec 32 := Scalar.addi v10 c0_i32_7
  v16
def k0_mult75 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_12 : BitVec 32 := 128#32
  let v21 : BitVec 32 := Scalar.addi v10 c128_i32_12
  v21
def k0_mult76 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_17 : BitVec 32 := 128#32
  let v26 : BitVec 32 := Scalar.addi v10 c128_i32_17
  v26
def k0_mult77 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32 : BitVec 32 := 256#32
  let v31 : BitVec 32 := Scalar.addi v10 c256_i32
  v31
def k0_mult78 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32_25 : BitVec 32 := 256#32
  let v36 : BitVec 32 := Scalar.addi v10 c256_i32_25
  v36
def k0_mult79 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_30 : BitVec 32 := 0#32
  let v41 : BitVec 32 := Scalar.addi v10 c0_i32_30
  v41
def k0_off3 (i : grid0.Coords) (c0_i32_30 : BitVec 32) : Fin 2 → Nat :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let v41 : BitVec 32 := Scalar.addi v10 c0_i32_30
  let v42 : BitVec 32 := v41
  let c0_i32_35 : BitVec 32 := 0#32
  ![v42.toNat, 0]
def k0_mult80 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32 : BitVec 32 := 384#32
  let v48 : BitVec 32 := Scalar.addi v10 c384_i32
  v48
def k0_mult81 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_40 : BitVec 32 := 0#32
  let v53 : BitVec 32 := Scalar.addi v10 c0_i32_40
  v53
def k0_mult82 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32_49 : BitVec 32 := 384#32
  let v62 : BitVec 32 := Scalar.addi v10 c384_i32_49
  v62
def k0_mult83 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_54 : BitVec 32 := 128#32
  let v67 : BitVec 32 := Scalar.addi v10 c128_i32_54
  v67
def k0_mult84 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32 : BitVec 32 := 512#32
  let v76 : BitVec 32 := Scalar.addi v10 c512_i32
  v76
def k0_mult85 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_66 : BitVec 32 := 128#32
  let v81 : BitVec 32 := Scalar.addi v10 c128_i32_66
  v81
def k0_mult86 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32_75 : BitVec 32 := 512#32
  let v90 : BitVec 32 := Scalar.addi v10 c512_i32_75
  v90
def k0_mult87 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32_80 : BitVec 32 := 256#32
  let v95 : BitVec 32 := Scalar.addi v10 c256_i32_80
  v95
def k0_mult88 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32 : BitVec 32 := 640#32
  let v104 : BitVec 32 := Scalar.addi v10 c640_i32
  v104
def k0_mult89 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32_92 : BitVec 32 := 256#32
  let v109 : BitVec 32 := Scalar.addi v10 c256_i32_92
  v109
def k0_mult90 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32_101 : BitVec 32 := 640#32
  let v118 : BitVec 32 := Scalar.addi v10 c640_i32_101
  v118
def k0_mult91 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32_106 : BitVec 32 := 384#32
  let v123 : BitVec 32 := Scalar.addi v10 c384_i32_106
  v123
def k0_mult92 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32 : BitVec 32 := 768#32
  let v132 : BitVec 32 := Scalar.addi v10 c768_i32
  v132
def k0_mult93 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32_118 : BitVec 32 := 384#32
  let v137 : BitVec 32 := Scalar.addi v10 c384_i32_118
  v137
def k0_mult94 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32_127 : BitVec 32 := 768#32
  let v146 : BitVec 32 := Scalar.addi v10 c768_i32_127
  v146
def k0_mult95 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32_132 : BitVec 32 := 512#32
  let v151 : BitVec 32 := Scalar.addi v10 c512_i32_132
  v151
def k0_mult96 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32_139 : BitVec 32 := 512#32
  let v158 : BitVec 32 := Scalar.addi v10 c512_i32_139
  v158
def k0_mult97 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32_146 : BitVec 32 := 640#32
  let v165 : BitVec 32 := Scalar.addi v10 c640_i32_146
  v165
def k0_mult98 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32_153 : BitVec 32 := 640#32
  let v172 : BitVec 32 := Scalar.addi v10 c640_i32_153
  v172
def k0_mult99 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32_160 : BitVec 32 := 768#32
  let v179 : BitVec 32 := Scalar.addi v10 c768_i32_160
  v179
def k0_mult100 (i : grid0.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32_167 : BitVec 32 := 768#32
  let v186 : BitVec 32 := Scalar.addi v10 c768_i32_167
  v186
abbrev grid1 : Pipeline.Grid := ⟨2, ![2, 16], ![false, false]⟩

def k1_off1 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_2_r0 : BitVec 32 := 0#32
  let c0_i32_3_r0 : BitVec 32 := 0#32
  ![v1.toNat, 0, 0]
def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k1_mult1 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_2 : BitVec 32 := 0#32
  let v10 : BitVec 32 := Scalar.addi v9 c0_i32_2
  v10
def k1_mult2 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_7 : BitVec 32 := 0#32
  let v15 : BitVec 32 := Scalar.addi v9 c0_i32_7
  v15
def k1_mult3 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_12 : BitVec 32 := 128#32
  let v20 : BitVec 32 := Scalar.addi v9 c128_i32_12
  v20
def k1_mult4 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_17 : BitVec 32 := 128#32
  let v25 : BitVec 32 := Scalar.addi v9 c128_i32_17
  v25
def k1_mult5 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32 : BitVec 32 := 256#32
  let v30 : BitVec 32 := Scalar.addi v9 c256_i32
  v30
def k1_mult6 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32_25 : BitVec 32 := 256#32
  let v35 : BitVec 32 := Scalar.addi v9 c256_i32_25
  v35
def k1_mult7 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_30 : BitVec 32 := 0#32
  let v40 : BitVec 32 := Scalar.addi v9 c0_i32_30
  v40
def k1_off2 (i : grid1.Coords) (c0_i32_30 : BitVec 32) : Fin 2 → Nat :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let v40 : BitVec 32 := Scalar.addi v9 c0_i32_30
  let v41 : BitVec 32 := v40
  let c0_i32_35 : BitVec 32 := 0#32
  ![v41.toNat, 0]
def k1_mult8 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32 : BitVec 32 := 384#32
  let v47 : BitVec 32 := Scalar.addi v9 c384_i32
  v47
def k1_mult9 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c0_i32_40 : BitVec 32 := 0#32
  let v52 : BitVec 32 := Scalar.addi v9 c0_i32_40
  v52
def k1_mult10 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32_49 : BitVec 32 := 384#32
  let v61 : BitVec 32 := Scalar.addi v9 c384_i32_49
  v61
def k1_mult11 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_54 : BitVec 32 := 128#32
  let v66 : BitVec 32 := Scalar.addi v9 c128_i32_54
  v66
def k1_mult12 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32 : BitVec 32 := 512#32
  let v75 : BitVec 32 := Scalar.addi v9 c512_i32
  v75
def k1_mult13 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c128_i32_66 : BitVec 32 := 128#32
  let v80 : BitVec 32 := Scalar.addi v9 c128_i32_66
  v80
def k1_mult14 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32_75 : BitVec 32 := 512#32
  let v89 : BitVec 32 := Scalar.addi v9 c512_i32_75
  v89
def k1_mult15 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32_80 : BitVec 32 := 256#32
  let v94 : BitVec 32 := Scalar.addi v9 c256_i32_80
  v94
def k1_mult16 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32 : BitVec 32 := 640#32
  let v103 : BitVec 32 := Scalar.addi v9 c640_i32
  v103
def k1_mult17 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c256_i32_92 : BitVec 32 := 256#32
  let v108 : BitVec 32 := Scalar.addi v9 c256_i32_92
  v108
def k1_mult18 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32_101 : BitVec 32 := 640#32
  let v117 : BitVec 32 := Scalar.addi v9 c640_i32_101
  v117
def k1_mult19 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32_106 : BitVec 32 := 384#32
  let v122 : BitVec 32 := Scalar.addi v9 c384_i32_106
  v122
def k1_mult20 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32 : BitVec 32 := 768#32
  let v131 : BitVec 32 := Scalar.addi v9 c768_i32
  v131
def k1_mult21 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c384_i32_118 : BitVec 32 := 384#32
  let v136 : BitVec 32 := Scalar.addi v9 c384_i32_118
  v136
def k1_mult22 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32_127 : BitVec 32 := 768#32
  let v145 : BitVec 32 := Scalar.addi v9 c768_i32_127
  v145
def k1_mult23 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32_132 : BitVec 32 := 512#32
  let v150 : BitVec 32 := Scalar.addi v9 c512_i32_132
  v150
def k1_mult24 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32 : BitVec 32 := 896#32
  let v159 : BitVec 32 := Scalar.addi v9 c896_i32
  v159
def k1_mult25 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c512_i32_144 : BitVec 32 := 512#32
  let v164 : BitVec 32 := Scalar.addi v9 c512_i32_144
  v164
def k1_mult26 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32_153 : BitVec 32 := 896#32
  let v173 : BitVec 32 := Scalar.addi v9 c896_i32_153
  v173
def k1_mult27 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32_158 : BitVec 32 := 640#32
  let v178 : BitVec 32 := Scalar.addi v9 c640_i32_158
  v178
def k1_mult28 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32 : BitVec 32 := 1024#32
  let v187 : BitVec 32 := Scalar.addi v9 c1024_i32
  v187
def k1_mult29 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c640_i32_170 : BitVec 32 := 640#32
  let v192 : BitVec 32 := Scalar.addi v9 c640_i32_170
  v192
def k1_mult30 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32_179 : BitVec 32 := 1024#32
  let v201 : BitVec 32 := Scalar.addi v9 c1024_i32_179
  v201
def k1_mult31 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32_184 : BitVec 32 := 768#32
  let v206 : BitVec 32 := Scalar.addi v9 c768_i32_184
  v206
def k1_mult32 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32 : BitVec 32 := 1152#32
  let v215 : BitVec 32 := Scalar.addi v9 c1152_i32
  v215
def k1_mult33 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c768_i32_196 : BitVec 32 := 768#32
  let v220 : BitVec 32 := Scalar.addi v9 c768_i32_196
  v220
def k1_mult34 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32_205 : BitVec 32 := 1152#32
  let v229 : BitVec 32 := Scalar.addi v9 c1152_i32_205
  v229
def k1_mult35 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32_210 : BitVec 32 := 896#32
  let v234 : BitVec 32 := Scalar.addi v9 c896_i32_210
  v234
def k1_mult36 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32 : BitVec 32 := 1280#32
  let v243 : BitVec 32 := Scalar.addi v9 c1280_i32
  v243
def k1_mult37 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c896_i32_222 : BitVec 32 := 896#32
  let v248 : BitVec 32 := Scalar.addi v9 c896_i32_222
  v248
def k1_mult38 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32_231 : BitVec 32 := 1280#32
  let v257 : BitVec 32 := Scalar.addi v9 c1280_i32_231
  v257
def k1_mult39 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32_236 : BitVec 32 := 1024#32
  let v262 : BitVec 32 := Scalar.addi v9 c1024_i32_236
  v262
def k1_mult40 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32 : BitVec 32 := 1408#32
  let v271 : BitVec 32 := Scalar.addi v9 c1408_i32
  v271
def k1_mult41 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1024_i32_248 : BitVec 32 := 1024#32
  let v276 : BitVec 32 := Scalar.addi v9 c1024_i32_248
  v276
def k1_mult42 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32_257 : BitVec 32 := 1408#32
  let v285 : BitVec 32 := Scalar.addi v9 c1408_i32_257
  v285
def k1_mult43 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32_262 : BitVec 32 := 1152#32
  let v290 : BitVec 32 := Scalar.addi v9 c1152_i32_262
  v290
def k1_mult44 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32 : BitVec 32 := 1536#32
  let v299 : BitVec 32 := Scalar.addi v9 c1536_i32
  v299
def k1_mult45 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1152_i32_274 : BitVec 32 := 1152#32
  let v304 : BitVec 32 := Scalar.addi v9 c1152_i32_274
  v304
def k1_mult46 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32_283 : BitVec 32 := 1536#32
  let v313 : BitVec 32 := Scalar.addi v9 c1536_i32_283
  v313
def k1_mult47 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32_288 : BitVec 32 := 1280#32
  let v318 : BitVec 32 := Scalar.addi v9 c1280_i32_288
  v318
def k1_mult48 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32 : BitVec 32 := 1664#32
  let v327 : BitVec 32 := Scalar.addi v9 c1664_i32
  v327
def k1_mult49 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1280_i32_300 : BitVec 32 := 1280#32
  let v332 : BitVec 32 := Scalar.addi v9 c1280_i32_300
  v332
def k1_mult50 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32_309 : BitVec 32 := 1664#32
  let v341 : BitVec 32 := Scalar.addi v9 c1664_i32_309
  v341
def k1_mult51 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32_314 : BitVec 32 := 1408#32
  let v346 : BitVec 32 := Scalar.addi v9 c1408_i32_314
  v346
def k1_mult52 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32 : BitVec 32 := 1792#32
  let v355 : BitVec 32 := Scalar.addi v9 c1792_i32
  v355
def k1_mult53 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1408_i32_326 : BitVec 32 := 1408#32
  let v360 : BitVec 32 := Scalar.addi v9 c1408_i32_326
  v360
def k1_mult54 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32_335 : BitVec 32 := 1792#32
  let v369 : BitVec 32 := Scalar.addi v9 c1792_i32_335
  v369
def k1_mult55 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32_340 : BitVec 32 := 1536#32
  let v374 : BitVec 32 := Scalar.addi v9 c1536_i32_340
  v374
def k1_mult56 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32 : BitVec 32 := 1920#32
  let v383 : BitVec 32 := Scalar.addi v9 c1920_i32
  v383
def k1_mult57 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1536_i32_352 : BitVec 32 := 1536#32
  let v388 : BitVec 32 := Scalar.addi v9 c1536_i32_352
  v388
def k1_mult58 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32_361 : BitVec 32 := 1920#32
  let v397 : BitVec 32 := Scalar.addi v9 c1920_i32_361
  v397
def k1_mult59 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32_366 : BitVec 32 := 1664#32
  let v402 : BitVec 32 := Scalar.addi v9 c1664_i32_366
  v402
def k1_mult60 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32 : BitVec 32 := 2048#32
  let v411 : BitVec 32 := Scalar.addi v9 c2048_i32
  v411
def k1_mult61 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1664_i32_379 : BitVec 32 := 1664#32
  let v416 : BitVec 32 := Scalar.addi v9 c1664_i32_379
  v416
def k1_mult62 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32_388 : BitVec 32 := 2048#32
  let v425 : BitVec 32 := Scalar.addi v9 c2048_i32_388
  v425
def k1_mult63 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32_393 : BitVec 32 := 1792#32
  let v430 : BitVec 32 := Scalar.addi v9 c1792_i32_393
  v430
def k1_mult64 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32 : BitVec 32 := 2176#32
  let v439 : BitVec 32 := Scalar.addi v9 c2176_i32
  v439
def k1_mult65 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1792_i32_405 : BitVec 32 := 1792#32
  let v444 : BitVec 32 := Scalar.addi v9 c1792_i32_405
  v444
def k1_mult66 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32_414 : BitVec 32 := 2176#32
  let v453 : BitVec 32 := Scalar.addi v9 c2176_i32_414
  v453
def k1_mult67 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32_419 : BitVec 32 := 1920#32
  let v458 : BitVec 32 := Scalar.addi v9 c1920_i32_419
  v458
def k1_mult68 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c1920_i32_426 : BitVec 32 := 1920#32
  let v465 : BitVec 32 := Scalar.addi v9 c1920_i32_426
  v465
def k1_mult69 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32_433 : BitVec 32 := 2048#32
  let v472 : BitVec 32 := Scalar.addi v9 c2048_i32_433
  v472
def k1_mult70 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2048_i32_440 : BitVec 32 := 2048#32
  let v479 : BitVec 32 := Scalar.addi v9 c2048_i32_440
  v479
def k1_mult71 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32_447 : BitVec 32 := 2176#32
  let v486 : BitVec 32 := Scalar.addi v9 c2176_i32_447
  v486
def k1_mult72 (i : grid1.Coords) : BitVec 32 :=
  let arg1 : BitVec 32 := BitVec.ofNat 32 (i 1).val
  let c18_i32 : BitVec 32 := 18#32
  let v8 : BitVec 32 := Scalar.muli arg1 c18_i32
  let c128_i32 : BitVec 32 := 128#32
  let v9 : BitVec 32 := Scalar.muli v8 c128_i32
  let c2176_i32_454 : BitVec 32 := 2176#32
  let v493 : BitVec 32 := Scalar.addi v9 c2176_i32_454
  v493
def k1_cond2 (i : grid1.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k1_mult73 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_2 : BitVec 32 := 0#32
  let v11 : BitVec 32 := Scalar.addi v10 c0_i32_2
  v11
def k1_mult74 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_7 : BitVec 32 := 0#32
  let v16 : BitVec 32 := Scalar.addi v10 c0_i32_7
  v16
def k1_mult75 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_12 : BitVec 32 := 128#32
  let v21 : BitVec 32 := Scalar.addi v10 c128_i32_12
  v21
def k1_mult76 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_17 : BitVec 32 := 128#32
  let v26 : BitVec 32 := Scalar.addi v10 c128_i32_17
  v26
def k1_mult77 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32 : BitVec 32 := 256#32
  let v31 : BitVec 32 := Scalar.addi v10 c256_i32
  v31
def k1_mult78 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32_25 : BitVec 32 := 256#32
  let v36 : BitVec 32 := Scalar.addi v10 c256_i32_25
  v36
def k1_mult79 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_30 : BitVec 32 := 0#32
  let v41 : BitVec 32 := Scalar.addi v10 c0_i32_30
  v41
def k1_off3 (i : grid1.Coords) (c0_i32_30 : BitVec 32) : Fin 2 → Nat :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let v41 : BitVec 32 := Scalar.addi v10 c0_i32_30
  let v42 : BitVec 32 := v41
  let c0_i32_35 : BitVec 32 := 0#32
  ![v42.toNat, 0]
def k1_mult80 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32 : BitVec 32 := 384#32
  let v48 : BitVec 32 := Scalar.addi v10 c384_i32
  v48
def k1_mult81 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c0_i32_40 : BitVec 32 := 0#32
  let v53 : BitVec 32 := Scalar.addi v10 c0_i32_40
  v53
def k1_mult82 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32_49 : BitVec 32 := 384#32
  let v62 : BitVec 32 := Scalar.addi v10 c384_i32_49
  v62
def k1_mult83 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_54 : BitVec 32 := 128#32
  let v67 : BitVec 32 := Scalar.addi v10 c128_i32_54
  v67
def k1_mult84 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32 : BitVec 32 := 512#32
  let v76 : BitVec 32 := Scalar.addi v10 c512_i32
  v76
def k1_mult85 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c128_i32_66 : BitVec 32 := 128#32
  let v81 : BitVec 32 := Scalar.addi v10 c128_i32_66
  v81
def k1_mult86 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32_75 : BitVec 32 := 512#32
  let v90 : BitVec 32 := Scalar.addi v10 c512_i32_75
  v90
def k1_mult87 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32_80 : BitVec 32 := 256#32
  let v95 : BitVec 32 := Scalar.addi v10 c256_i32_80
  v95
def k1_mult88 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32 : BitVec 32 := 640#32
  let v104 : BitVec 32 := Scalar.addi v10 c640_i32
  v104
def k1_mult89 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c256_i32_92 : BitVec 32 := 256#32
  let v109 : BitVec 32 := Scalar.addi v10 c256_i32_92
  v109
def k1_mult90 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32_101 : BitVec 32 := 640#32
  let v118 : BitVec 32 := Scalar.addi v10 c640_i32_101
  v118
def k1_mult91 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32_106 : BitVec 32 := 384#32
  let v123 : BitVec 32 := Scalar.addi v10 c384_i32_106
  v123
def k1_mult92 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32 : BitVec 32 := 768#32
  let v132 : BitVec 32 := Scalar.addi v10 c768_i32
  v132
def k1_mult93 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c384_i32_118 : BitVec 32 := 384#32
  let v137 : BitVec 32 := Scalar.addi v10 c384_i32_118
  v137
def k1_mult94 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32_127 : BitVec 32 := 768#32
  let v146 : BitVec 32 := Scalar.addi v10 c768_i32_127
  v146
def k1_mult95 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32_132 : BitVec 32 := 512#32
  let v151 : BitVec 32 := Scalar.addi v10 c512_i32_132
  v151
def k1_mult96 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c512_i32_139 : BitVec 32 := 512#32
  let v158 : BitVec 32 := Scalar.addi v10 c512_i32_139
  v158
def k1_mult97 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32_146 : BitVec 32 := 640#32
  let v165 : BitVec 32 := Scalar.addi v10 c640_i32_146
  v165
def k1_mult98 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c640_i32_153 : BitVec 32 := 640#32
  let v172 : BitVec 32 := Scalar.addi v10 c640_i32_153
  v172
def k1_mult99 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32_160 : BitVec 32 := 768#32
  let v179 : BitVec 32 := Scalar.addi v10 c768_i32_160
  v179
def k1_mult100 (i : grid1.Coords) : BitVec 32 :=
  let c288_i32 : BitVec 32 := 288#32
  let arg1 : BitVec 32 := BitVec.ofNat 32 (i 1).val
  let c7_i32 : BitVec 32 := 7#32
  let v8 : BitVec 32 := Scalar.muli arg1 c7_i32
  let v9 : BitVec 32 := Scalar.addi c288_i32 v8
  let c128_i32 : BitVec 32 := 128#32
  let v10 : BitVec 32 := Scalar.muli v9 c128_i32
  let c768_i32_167 : BitVec 32 := 768#32
  let v186 : BitVec 32 := Scalar.addi v10 c768_i32_167
  v186
abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S800x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S800x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S800x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![61], ![false]⟩

def cc3_transform_0 (i : grid3.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

abbrev stage3_0 : Fin 2 → Memref sig .tc .vmem S800x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S800x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S800x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S384x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S800x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  bcast_S_S128 : S_.BroadcastsInDim S128 (![] : Fin 0 → Fin S128.rank)
  slices_S384x128_S128x128_0_0 : S384x128.Slices ![0, 0] S128x128
  slices_S384x128_S128x128_128_0 : S384x128.Slices ![128, 0] S128x128
  bcast_S128_S128x1_0 : S128.BroadcastsInDim S128x1 (![0] : Fin 1 → Fin S128x1.rank)
  slices_S384x128_S128x128_256_0 : S384x128.Slices ![256, 0] S128x128
  concatenates_S128x128_S128x128_S128x128_S384x128_d0 : Shape.Concatenates [S128x128, S128x128, S128x128] S384x128 0
  bcast_S_S102400 : S_.BroadcastsInDim S102400 (![] : Fin 0 → Fin S102400.rank)
  shapeCasts_S102400_S800x128 : S102400.ShapeCasts S800x128
  slices_S800x128_S400x128_0_0 : S800x128.Slices ![0, 0] S400x128
  bcast_S_S32x18x128 : S_.BroadcastsInDim S32x18x128 (![] : Fin 0 → Fin S32x18x128.rank)
  slices_S400x128_S288x128_0_0 : S400x128.Slices ![0, 0] S288x128
  shapeCasts_S288x128_S16x18x128 : S288x128.ShapeCasts S16x18x128
  slices_S400x128_S112x128_288_0 : S400x128.Slices ![288, 0] S112x128
  shapeCasts_S112x128_S16x7x128 : S112x128.ShapeCasts S16x7x128
  slices_S800x128_S400x128_400_0 : S800x128.Slices ![400, 0] S400x128
  squeezes_S1x18x128_S18x128 : S1x18x128.Squeezes S18x128
  inb_S18x128_S1x128_0_0 : ∀ a, (![0, 0] : Fin 2 → Nat) a + S1x128.size a ≤ S18x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S18x128_S1x128_1_0 : ∀ a, (![1, 0] : Fin 2 → Nat) a + S1x128.size a ≤ S18x128.size a
  inb_S18x128_S1x128_2_0 : ∀ a, (![2, 0] : Fin 2 → Nat) a + S1x128.size a ≤ S18x128.size a
  inb_S18x128_S1x128_3_0 : ∀ a, (![3, 0] : Fin 2 → Nat) a + S1x128.size a ≤ S18x128.size a
  inb_S18x128_S1x128_4_0 : ∀ a, (![4, 0] : Fin 2 → Nat) a + S1x128.size a ≤ S18x128.size a
  inb_S18x128_S1x128_5_0 : ∀ a, (![5, 0] : Fin 2 → Nat) a + S1x128.size a ≤ S18x128.size a
  inb_S18x128_S1x128_6_0 : ∀ a, (![6, 0] : Fin 2 → Nat) a + S1x128.size a ≤ S18x128.size a
  inb_S18x128_S1x128_7_0 : ∀ a, (![7, 0] : Fin 2 → Nat) a + S1x128.size a ≤ S18x128.size a
  inb_S18x128_S1x128_8_0 : ∀ a, (![8, 0] : Fin 2 → Nat) a + S1x128.size a ≤ S18x128.size a
  inb_S18x128_S1x128_9_0 : ∀ a, (![9, 0] : Fin 2 → Nat) a + S1x128.size a ≤ S18x128.size a
  inb_S18x128_S1x128_10_0 : ∀ a, (![10, 0] : Fin 2 → Nat) a + S1x128.size a ≤ S18x128.size a
  inb_S18x128_S1x128_11_0 : ∀ a, (![11, 0] : Fin 2 → Nat) a + S1x128.size a ≤ S18x128.size a
  inb_S18x128_S1x128_12_0 : ∀ a, (![12, 0] : Fin 2 → Nat) a + S1x128.size a ≤ S18x128.size a
  inb_S18x128_S1x128_13_0 : ∀ a, (![13, 0] : Fin 2 → Nat) a + S1x128.size a ≤ S18x128.size a
  inb_S18x128_S1x128_14_0 : ∀ a, (![14, 0] : Fin 2 → Nat) a + S1x128.size a ≤ S18x128.size a
  inb_S18x128_S1x128_15_0 : ∀ a, (![15, 0] : Fin 2 → Nat) a + S1x128.size a ≤ S18x128.size a
  inb_S18x128_S1x128_16_0 : ∀ a, (![16, 0] : Fin 2 → Nat) a + S1x128.size a ≤ S18x128.size a
  inb_S18x128_S1x128_17_0 : ∀ a, (![17, 0] : Fin 2 → Nat) a + S1x128.size a ≤ S18x128.size a
  inb_S800x128_S800x128_0_0 : ∀ a, (![0, 0] : Fin 2 → Nat) a + S800x128.size a ≤ S800x128.size a
  h_S800x128 : 0 < S800x128.numel
  inb_S384x128_S128x128_0_0 : ∀ a, (![0, 0] : Fin 2 → Nat) a + S128x128.size a ≤ S384x128.size a
  h_S128x128 : 0 < S128x128.numel
  shapeCasts_S128x128_S128x128 : S128x128.ShapeCasts S128x128
  shapeCasts_S800x128_S800x128 : S800x128.ShapeCasts S800x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  gather_S128x128_S128x1_S128x128_1_0_n_n_0_1_1128_wf : GatherDims.WF S128x128 S128x1 S128x128 [1] [0] [] [0] [] 1 ![1, 128]
  scatter_S102400_S1_S100000_0_n_0_0_wf : ScatterDims.WF S102400 S1 S100000 [0] [] [0] 0
  scatter_S32x18x128_S1_S16x18x128_012_n_0_0_wf : ScatterDims.WF S32x18x128 S1 S16x18x128 [0, 1, 2] [] [0] 0
  scatter_S32x18x128_S2_S16x7x128_012_n_01_0_wf : ScatterDims.WF S32x18x128 S2 S16x7x128 [0, 1, 2] [] [0, 1] 0
  dot_S800x128_S128x128_S800x128_1_0_0_1_n_n_wf : DotDims.WF S800x128 S128x128 S800x128 [1] [0] [0] [1] [] []
  hcc0_scratch9 : 0 + S_.numel ≤ 50
  hcc0_scratch10 : 1 + S_.numel ≤ 50
  hcc0_scratch11 : 2 + S_.numel ≤ 50
  hcc0_scratch12 : 3 + S_.numel ≤ 50
  hcc0_scratch13 : 4 + S_.numel ≤ 50
  hcc0_scratch14 : 5 + S_.numel ≤ 50
  hcc0_scratch15 : 6 + S_.numel ≤ 50
  hcc0_scratch16 : 7 + S_.numel ≤ 50
  hcc0_scratch17 : 8 + S_.numel ≤ 50
  hcc0_scratch18 : 9 + S_.numel ≤ 50
  hcc0_scratch19 : 10 + S_.numel ≤ 50
  hcc0_scratch20 : 11 + S_.numel ≤ 50
  hcc0_scratch21 : 12 + S_.numel ≤ 50
  hcc0_scratch22 : 13 + S_.numel ≤ 50
  hcc0_scoped0 : 14 + S_.numel ≤ 50
  hcc0_scoped1 : 15 + S_.numel ≤ 50
  hcc1_scratch9 : 16 + S_.numel ≤ 50
  hcc1_scratch10 : 17 + S_.numel ≤ 50
  hcc1_scratch11 : 18 + S_.numel ≤ 50
  hcc1_scratch12 : 19 + S_.numel ≤ 50
  hcc1_scratch13 : 20 + S_.numel ≤ 50
  hcc1_scratch14 : 21 + S_.numel ≤ 50
  hcc1_scratch15 : 22 + S_.numel ≤ 50
  hcc1_scratch16 : 23 + S_.numel ≤ 50
  hcc1_scratch17 : 24 + S_.numel ≤ 50
  hcc1_scratch18 : 25 + S_.numel ≤ 50
  hcc1_scratch19 : 26 + S_.numel ≤ 50
  hcc1_scratch20 : 27 + S_.numel ≤ 50
  hcc1_scratch21 : 28 + S_.numel ≤ 50
  hcc1_scratch22 : 29 + S_.numel ≤ 50
  hcc1_scoped0 : 30 + S_.numel ≤ 50
  hcc1_scoped1 : 31 + S_.numel ≤ 50
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x18x128.size a ≤ S32x18x128.size a
  k0_mult1_dvd : ∀ i : grid0.Coords, ∀ (k0_h1 : k0_cond1 i = 1#1), 128 ∣ (k0_mult1 i).toNat
  k0_mult2_dvd : ∀ i : grid0.Coords, ∀ (k0_h1 : k0_cond1 i = 1#1), 128 ∣ (k0_mult2 i).toNat
  k0_mult3_dvd : ∀ i : grid0.Coords, ∀ (k0_h1 : k0_cond1 i = 1#1), 128 ∣ (k0_mult3 i).toNat
  k0_mult4_dvd : ∀ i : grid0.Coords, ∀ (k0_h1 : k0_cond1 i = 1#1), 128 ∣ (k0_mult4 i).toNat
  k0_mult5_dvd : ∀ i : grid0.Coords, ∀ (k0_h1 : k0_cond1 i = 1#1), 128 ∣ (k0_mult5 i).toNat
  k0_mult6_dvd : ∀ i : grid0.Coords, ∀ (k0_h1 : k0_cond1 i = 1#1), 128 ∣ (k0_mult6 i).toNat
  k0_mult7_dvd : ∀ i : grid0.Coords, ∀ (k0_h1 : k0_cond1 i = 1#1), 128 ∣ (k0_mult7 i).toNat
  k0_off2_inb : ∀ i : grid0.Coords, ∀ (k0_h1 : k0_cond1 i = 1#1), ∀ (r : Fin 18), ∀ a, (k0_off2 i (BitVec.ofNat 32 (128 * r.val))) a + S128x128.size a ≤ S51200x128.size a
  k0_mult8_dvd : ∀ i : grid0.Coords, ∀ (k0_h1 : k0_cond1 i = 1#1), 128 ∣ (k0_mult8 i).toNat
  k0_mult9_dvd : ∀ i : grid0.Coords, ∀ (k0_h1 : k0_cond1 i = 1#1), 128 ∣ (k0_mult9 i).toNat
  k0_mult10_dvd : ∀ i : grid0.Coords, ∀ (k0_h1 : k0_cond1 i = 1#1), 128 ∣ (k0_mult10 i).toNat
  k0_mult11_dvd : ∀ i : grid0.Coords, ∀ (k0_h1 : k0_cond1 i = 1#1), 128 ∣ (k0_mult11 i).toNat
  k0_mult12_dvd : ∀ i : grid0.Coords, ∀ (k0_h1 : k0_cond1 i = 1#1), 128 ∣ (k0_mult12 i).toNat
  k0_mult13_dvd : ∀ i : grid0.Coords, ∀ (k0_h1 : k0_cond1 i = 1#1), 128 ∣ (k0_mult13 i).toNat
  k0_mult14_dvd : ∀ i : grid0.Coords, ∀ (k0_h1 : k0_cond1 i = 1#1), 128 ∣ (k0_mult14 i).toNat
  k0_mult15_dvd : ∀ i : grid0.Coords, ∀ (k0_h1 : k0_cond1 i = 1#1), 128 ∣ (k0_mult15 i).toNat
  k0_mult16_dvd : ∀ i : grid0.Coords, ∀ (k0_h1 : k0_cond1 i = 1#1), 128 ∣ (k0_mult16 i).toNat
  k0_mult17_dvd : ∀ i : grid0.Coords, ∀ (k0_h1 : k0_cond1 i = 1#1), 128 ∣ (k0_mult17 i).toNat
  k0_mult18_dvd : ∀ i : grid0.Coords, ∀ (k0_h1 : k0_cond1 i = 1#1), 128 ∣ (k0_mult18 i).toNat
  k0_mult19_dvd : ∀ i : grid0.Coords, ∀ (k0_h1 : k0_cond1 i = 1#1), 128 ∣ (k0_mult19 i).toNat
  k0_mult20_dvd : ∀ i : grid0.Coords, ∀ (k0_h1 : k0_cond1 i = 1#1), 128 ∣ (k0_mult20 i).toNat
  k0_mult21_dvd : ∀ i : grid0.Coords, ∀ (k0_h1 : k0_cond1 i = 1#1), 128 ∣ (k0_mult21 i).toNat
  k0_mult22_dvd : ∀ i : grid0.Coords, ∀ (k0_h1 : k0_cond1 i = 1#1), 128 ∣ (k0_mult22 i).toNat
  k0_mult23_dvd : ∀ i : grid0.Coords, ∀ (k0_h1 : k0_cond1 i = 1#1), 128 ∣ (k0_mult23 i).toNat
  k0_mult24_dvd : ∀ i : grid0.Coords, ∀ (k0_h1 : k0_cond1 i = 1#1), 128 ∣ (k0_mult24 i).toNat
  k0_mult25_dvd : ∀ i : grid0.Coords, ∀ (k0_h1 : k0_cond1 i = 1#1), 128 ∣ (k0_mult25 i).toNat
  k0_mult26_dvd : ∀ i : grid0.Coords, ∀ (k0_h1 : k0_cond1 i = 1#1), 128 ∣ (k0_mult26 i).toNat
  k0_mult27_dvd : ∀ i : grid0.Coords, ∀ (k0_h1 : k0_cond1 i = 1#1), 128 ∣ (k0_mult27 i).toNat
  k0_mult28_dvd : ∀ i : grid0.Coords, ∀ (k0_h1 : k0_cond1 i = 1#1), 128 ∣ (k0_mult28 i).toNat
  k0_mult29_dvd : ∀ i : grid0.Coords, ∀ (k0_h1 : k0_cond1 i = 1#1), 128 ∣ (k0_mult29 i).toNat
  k0_mult30_dvd : ∀ i : grid0.Coords, ∀ (k0_h1 : k0_cond1 i = 1#1), 128 ∣ (k0_mult30 i).toNat
  k0_mult31_dvd : ∀ i : grid0.Coords, ∀ (k0_h1 : k0_cond1 i = 1#1), 128 ∣ (k0_mult31 i).toNat
  k0_mult32_dvd : ∀ i : grid0.Coords, ∀ (k0_h1 : k0_cond1 i = 1#1), 128 ∣ (k0_mult32 i).toNat
  k0_mult33_dvd : ∀ i : grid0.Coords, ∀ (k0_h1 : k0_cond1 i = 1#1), 128 ∣ (k0_mult33 i).toNat
  k0_mult34_dvd : ∀ i : grid0.Coords, ∀ (k0_h1 : k0_cond1 i = 1#1), 128 ∣ (k0_mult34 i).toNat
  k0_mult35_dvd : ∀ i : grid0.Coords, ∀ (k0_h1 : k0_cond1 i = 1#1), 128 ∣ (k0_mult35 i).toNat
  k0_mult36_dvd : ∀ i : grid0.Coords, ∀ (k0_h1 : k0_cond1 i = 1#1), 128 ∣ (k0_mult36 i).toNat
  k0_mult37_dvd : ∀ i : grid0.Coords, ∀ (k0_h1 : k0_cond1 i = 1#1), 128 ∣ (k0_mult37 i).toNat
  k0_mult38_dvd : ∀ i : grid0.Coords, ∀ (k0_h1 : k0_cond1 i = 1#1), 128 ∣ (k0_mult38 i).toNat
  k0_mult39_dvd : ∀ i : grid0.Coords, ∀ (k0_h1 : k0_cond1 i = 1#1), 128 ∣ (k0_mult39 i).toNat
  k0_mult40_dvd : ∀ i : grid0.Coords, ∀ (k0_h1 : k0_cond1 i = 1#1), 128 ∣ (k0_mult40 i).toNat
  k0_mult41_dvd : ∀ i : grid0.Coords, ∀ (k0_h1 : k0_cond1 i = 1#1), 128 ∣ (k0_mult41 i).toNat
  k0_mult42_dvd : ∀ i : grid0.Coords, ∀ (k0_h1 : k0_cond1 i = 1#1), 128 ∣ (k0_mult42 i).toNat
  k0_mult43_dvd : ∀ i : grid0.Coords, ∀ (k0_h1 : k0_cond1 i = 1#1), 128 ∣ (k0_mult43 i).toNat
  k0_mult44_dvd : ∀ i : grid0.Coords, ∀ (k0_h1 : k0_cond1 i = 1#1), 128 ∣ (k0_mult44 i).toNat
  k0_mult45_dvd : ∀ i : grid0.Coords, ∀ (k0_h1 : k0_cond1 i = 1#1), 128 ∣ (k0_mult45 i).toNat
  k0_mult46_dvd : ∀ i : grid0.Coords, ∀ (k0_h1 : k0_cond1 i = 1#1), 128 ∣ (k0_mult46 i).toNat
  k0_mult47_dvd : ∀ i : grid0.Coords, ∀ (k0_h1 : k0_cond1 i = 1#1), 128 ∣ (k0_mult47 i).toNat
  k0_mult48_dvd : ∀ i : grid0.Coords, ∀ (k0_h1 : k0_cond1 i = 1#1), 128 ∣ (k0_mult48 i).toNat
  k0_mult49_dvd : ∀ i : grid0.Coords, ∀ (k0_h1 : k0_cond1 i = 1#1), 128 ∣ (k0_mult49 i).toNat
  k0_mult50_dvd : ∀ i : grid0.Coords, ∀ (k0_h1 : k0_cond1 i = 1#1), 128 ∣ (k0_mult50 i).toNat
  k0_mult51_dvd : ∀ i : grid0.Coords, ∀ (k0_h1 : k0_cond1 i = 1#1), 128 ∣ (k0_mult51 i).toNat
  k0_mult52_dvd : ∀ i : grid0.Coords, ∀ (k0_h1 : k0_cond1 i = 1#1), 128 ∣ (k0_mult52 i).toNat
  k0_mult53_dvd : ∀ i : grid0.Coords, ∀ (k0_h1 : k0_cond1 i = 1#1), 128 ∣ (k0_mult53 i).toNat
  k0_mult54_dvd : ∀ i : grid0.Coords, ∀ (k0_h1 : k0_cond1 i = 1#1), 128 ∣ (k0_mult54 i).toNat
  k0_mult55_dvd : ∀ i : grid0.Coords, ∀ (k0_h1 : k0_cond1 i = 1#1), 128 ∣ (k0_mult55 i).toNat
  k0_mult56_dvd : ∀ i : grid0.Coords, ∀ (k0_h1 : k0_cond1 i = 1#1), 128 ∣ (k0_mult56 i).toNat
  k0_mult57_dvd : ∀ i : grid0.Coords, ∀ (k0_h1 : k0_cond1 i = 1#1), 128 ∣ (k0_mult57 i).toNat
  k0_mult58_dvd : ∀ i : grid0.Coords, ∀ (k0_h1 : k0_cond1 i = 1#1), 128 ∣ (k0_mult58 i).toNat
  k0_mult59_dvd : ∀ i : grid0.Coords, ∀ (k0_h1 : k0_cond1 i = 1#1), 128 ∣ (k0_mult59 i).toNat
  k0_mult60_dvd : ∀ i : grid0.Coords, ∀ (k0_h1 : k0_cond1 i = 1#1), 128 ∣ (k0_mult60 i).toNat
  k0_mult61_dvd : ∀ i : grid0.Coords, ∀ (k0_h1 : k0_cond1 i = 1#1), 128 ∣ (k0_mult61 i).toNat
  k0_mult62_dvd : ∀ i : grid0.Coords, ∀ (k0_h1 : k0_cond1 i = 1#1), 128 ∣ (k0_mult62 i).toNat
  k0_mult63_dvd : ∀ i : grid0.Coords, ∀ (k0_h1 : k0_cond1 i = 1#1), 128 ∣ (k0_mult63 i).toNat
  k0_mult64_dvd : ∀ i : grid0.Coords, ∀ (k0_h1 : k0_cond1 i = 1#1), 128 ∣ (k0_mult64 i).toNat
  k0_mult65_dvd : ∀ i : grid0.Coords, ∀ (k0_h1 : k0_cond1 i = 1#1), 128 ∣ (k0_mult65 i).toNat
  k0_mult66_dvd : ∀ i : grid0.Coords, ∀ (k0_h1 : k0_cond1 i = 1#1), 128 ∣ (k0_mult66 i).toNat
  k0_mult67_dvd : ∀ i : grid0.Coords, ∀ (k0_h1 : k0_cond1 i = 1#1), 128 ∣ (k0_mult67 i).toNat
  k0_mult68_dvd : ∀ i : grid0.Coords, ∀ (k0_h1 : k0_cond1 i = 1#1), 128 ∣ (k0_mult68 i).toNat
  k0_mult69_dvd : ∀ i : grid0.Coords, ∀ (k0_h1 : k0_cond1 i = 1#1), 128 ∣ (k0_mult69 i).toNat
  k0_mult70_dvd : ∀ i : grid0.Coords, ∀ (k0_h1 : k0_cond1 i = 1#1), 128 ∣ (k0_mult70 i).toNat
  k0_mult71_dvd : ∀ i : grid0.Coords, ∀ (k0_h1 : k0_cond1 i = 1#1), 128 ∣ (k0_mult71 i).toNat
  k0_mult72_dvd : ∀ i : grid0.Coords, ∀ (k0_h1 : k0_cond1 i = 1#1), 128 ∣ (k0_mult72 i).toNat
  k0_mult73_dvd : ∀ i : grid0.Coords, ∀ (k0_h2 : k0_cond2 i = 1#1), 128 ∣ (k0_mult73 i).toNat
  k0_mult74_dvd : ∀ i : grid0.Coords, ∀ (k0_h2 : k0_cond2 i = 1#1), 128 ∣ (k0_mult74 i).toNat
  k0_mult75_dvd : ∀ i : grid0.Coords, ∀ (k0_h2 : k0_cond2 i = 1#1), 128 ∣ (k0_mult75 i).toNat
  k0_mult76_dvd : ∀ i : grid0.Coords, ∀ (k0_h2 : k0_cond2 i = 1#1), 128 ∣ (k0_mult76 i).toNat
  k0_mult77_dvd : ∀ i : grid0.Coords, ∀ (k0_h2 : k0_cond2 i = 1#1), 128 ∣ (k0_mult77 i).toNat
  k0_mult78_dvd : ∀ i : grid0.Coords, ∀ (k0_h2 : k0_cond2 i = 1#1), 128 ∣ (k0_mult78 i).toNat
  k0_mult79_dvd : ∀ i : grid0.Coords, ∀ (k0_h2 : k0_cond2 i = 1#1), 128 ∣ (k0_mult79 i).toNat
  k0_off3_inb : ∀ i : grid0.Coords, ∀ (k0_h2 : k0_cond2 i = 1#1), ∀ (r : Fin 7), ∀ a, (k0_off3 i (BitVec.ofNat 32 (128 * r.val))) a + S128x128.size a ≤ S51200x128.size a
  k0_mult80_dvd : ∀ i : grid0.Coords, ∀ (k0_h2 : k0_cond2 i = 1#1), 128 ∣ (k0_mult80 i).toNat
  k0_mult81_dvd : ∀ i : grid0.Coords, ∀ (k0_h2 : k0_cond2 i = 1#1), 128 ∣ (k0_mult81 i).toNat
  k0_mult82_dvd : ∀ i : grid0.Coords, ∀ (k0_h2 : k0_cond2 i = 1#1), 128 ∣ (k0_mult82 i).toNat
  k0_mult83_dvd : ∀ i : grid0.Coords, ∀ (k0_h2 : k0_cond2 i = 1#1), 128 ∣ (k0_mult83 i).toNat
  k0_mult84_dvd : ∀ i : grid0.Coords, ∀ (k0_h2 : k0_cond2 i = 1#1), 128 ∣ (k0_mult84 i).toNat
  k0_mult85_dvd : ∀ i : grid0.Coords, ∀ (k0_h2 : k0_cond2 i = 1#1), 128 ∣ (k0_mult85 i).toNat
  k0_mult86_dvd : ∀ i : grid0.Coords, ∀ (k0_h2 : k0_cond2 i = 1#1), 128 ∣ (k0_mult86 i).toNat
  k0_mult87_dvd : ∀ i : grid0.Coords, ∀ (k0_h2 : k0_cond2 i = 1#1), 128 ∣ (k0_mult87 i).toNat
  k0_mult88_dvd : ∀ i : grid0.Coords, ∀ (k0_h2 : k0_cond2 i = 1#1), 128 ∣ (k0_mult88 i).toNat
  k0_mult89_dvd : ∀ i : grid0.Coords, ∀ (k0_h2 : k0_cond2 i = 1#1), 128 ∣ (k0_mult89 i).toNat
  k0_mult90_dvd : ∀ i : grid0.Coords, ∀ (k0_h2 : k0_cond2 i = 1#1), 128 ∣ (k0_mult90 i).toNat
  k0_mult91_dvd : ∀ i : grid0.Coords, ∀ (k0_h2 : k0_cond2 i = 1#1), 128 ∣ (k0_mult91 i).toNat
  k0_mult92_dvd : ∀ i : grid0.Coords, ∀ (k0_h2 : k0_cond2 i = 1#1), 128 ∣ (k0_mult92 i).toNat
  k0_mult93_dvd : ∀ i : grid0.Coords, ∀ (k0_h2 : k0_cond2 i = 1#1), 128 ∣ (k0_mult93 i).toNat
  k0_mult94_dvd : ∀ i : grid0.Coords, ∀ (k0_h2 : k0_cond2 i = 1#1), 128 ∣ (k0_mult94 i).toNat
  k0_mult95_dvd : ∀ i : grid0.Coords, ∀ (k0_h2 : k0_cond2 i = 1#1), 128 ∣ (k0_mult95 i).toNat
  k0_mult96_dvd : ∀ i : grid0.Coords, ∀ (k0_h2 : k0_cond2 i = 1#1), 128 ∣ (k0_mult96 i).toNat
  k0_mult97_dvd : ∀ i : grid0.Coords, ∀ (k0_h2 : k0_cond2 i = 1#1), 128 ∣ (k0_mult97 i).toNat
  k0_mult98_dvd : ∀ i : grid0.Coords, ∀ (k0_h2 : k0_cond2 i = 1#1), 128 ∣ (k0_mult98 i).toNat
  k0_mult99_dvd : ∀ i : grid0.Coords, ∀ (k0_h2 : k0_cond2 i = 1#1), 128 ∣ (k0_mult99 i).toNat
  k0_mult100_dvd : ∀ i : grid0.Coords, ∀ (k0_h2 : k0_cond2 i = 1#1), 128 ∣ (k0_mult100 i).toNat
  hcore1 : grid1.bound 0 ≤ τ.nSC
  hsub1 : grid1.bound 1 ≤ τ.nSub
  k1_off1_inb : ∀ i : grid1.Coords, ∀ a, (k1_off1 i) a + S1x18x128.size a ≤ S32x18x128.size a
  k1_mult1_dvd : ∀ i : grid1.Coords, ∀ (k1_h1 : k1_cond1 i = 1#1), 128 ∣ (k1_mult1 i).toNat
  k1_mult2_dvd : ∀ i : grid1.Coords, ∀ (k1_h1 : k1_cond1 i = 1#1), 128 ∣ (k1_mult2 i).toNat
  k1_mult3_dvd : ∀ i : grid1.Coords, ∀ (k1_h1 : k1_cond1 i = 1#1), 128 ∣ (k1_mult3 i).toNat
  k1_mult4_dvd : ∀ i : grid1.Coords, ∀ (k1_h1 : k1_cond1 i = 1#1), 128 ∣ (k1_mult4 i).toNat
  k1_mult5_dvd : ∀ i : grid1.Coords, ∀ (k1_h1 : k1_cond1 i = 1#1), 128 ∣ (k1_mult5 i).toNat
  k1_mult6_dvd : ∀ i : grid1.Coords, ∀ (k1_h1 : k1_cond1 i = 1#1), 128 ∣ (k1_mult6 i).toNat
  k1_mult7_dvd : ∀ i : grid1.Coords, ∀ (k1_h1 : k1_cond1 i = 1#1), 128 ∣ (k1_mult7 i).toNat
  k1_off2_inb : ∀ i : grid1.Coords, ∀ (k1_h1 : k1_cond1 i = 1#1), ∀ (r : Fin 18), ∀ a, (k1_off2 i (BitVec.ofNat 32 (128 * r.val))) a + S128x128.size a ≤ S51200x128.size a
  k1_mult8_dvd : ∀ i : grid1.Coords, ∀ (k1_h1 : k1_cond1 i = 1#1), 128 ∣ (k1_mult8 i).toNat
  k1_mult9_dvd : ∀ i : grid1.Coords, ∀ (k1_h1 : k1_cond1 i = 1#1), 128 ∣ (k1_mult9 i).toNat
  k1_mult10_dvd : ∀ i : grid1.Coords, ∀ (k1_h1 : k1_cond1 i = 1#1), 128 ∣ (k1_mult10 i).toNat
  k1_mult11_dvd : ∀ i : grid1.Coords, ∀ (k1_h1 : k1_cond1 i = 1#1), 128 ∣ (k1_mult11 i).toNat
  k1_mult12_dvd : ∀ i : grid1.Coords, ∀ (k1_h1 : k1_cond1 i = 1#1), 128 ∣ (k1_mult12 i).toNat
  k1_mult13_dvd : ∀ i : grid1.Coords, ∀ (k1_h1 : k1_cond1 i = 1#1), 128 ∣ (k1_mult13 i).toNat
  k1_mult14_dvd : ∀ i : grid1.Coords, ∀ (k1_h1 : k1_cond1 i = 1#1), 128 ∣ (k1_mult14 i).toNat
  k1_mult15_dvd : ∀ i : grid1.Coords, ∀ (k1_h1 : k1_cond1 i = 1#1), 128 ∣ (k1_mult15 i).toNat
  k1_mult16_dvd : ∀ i : grid1.Coords, ∀ (k1_h1 : k1_cond1 i = 1#1), 128 ∣ (k1_mult16 i).toNat
  k1_mult17_dvd : ∀ i : grid1.Coords, ∀ (k1_h1 : k1_cond1 i = 1#1), 128 ∣ (k1_mult17 i).toNat
  k1_mult18_dvd : ∀ i : grid1.Coords, ∀ (k1_h1 : k1_cond1 i = 1#1), 128 ∣ (k1_mult18 i).toNat
  k1_mult19_dvd : ∀ i : grid1.Coords, ∀ (k1_h1 : k1_cond1 i = 1#1), 128 ∣ (k1_mult19 i).toNat
  k1_mult20_dvd : ∀ i : grid1.Coords, ∀ (k1_h1 : k1_cond1 i = 1#1), 128 ∣ (k1_mult20 i).toNat
  k1_mult21_dvd : ∀ i : grid1.Coords, ∀ (k1_h1 : k1_cond1 i = 1#1), 128 ∣ (k1_mult21 i).toNat
  k1_mult22_dvd : ∀ i : grid1.Coords, ∀ (k1_h1 : k1_cond1 i = 1#1), 128 ∣ (k1_mult22 i).toNat
  k1_mult23_dvd : ∀ i : grid1.Coords, ∀ (k1_h1 : k1_cond1 i = 1#1), 128 ∣ (k1_mult23 i).toNat
  k1_mult24_dvd : ∀ i : grid1.Coords, ∀ (k1_h1 : k1_cond1 i = 1#1), 128 ∣ (k1_mult24 i).toNat
  k1_mult25_dvd : ∀ i : grid1.Coords, ∀ (k1_h1 : k1_cond1 i = 1#1), 128 ∣ (k1_mult25 i).toNat
  k1_mult26_dvd : ∀ i : grid1.Coords, ∀ (k1_h1 : k1_cond1 i = 1#1), 128 ∣ (k1_mult26 i).toNat
  k1_mult27_dvd : ∀ i : grid1.Coords, ∀ (k1_h1 : k1_cond1 i = 1#1), 128 ∣ (k1_mult27 i).toNat
  k1_mult28_dvd : ∀ i : grid1.Coords, ∀ (k1_h1 : k1_cond1 i = 1#1), 128 ∣ (k1_mult28 i).toNat
  k1_mult29_dvd : ∀ i : grid1.Coords, ∀ (k1_h1 : k1_cond1 i = 1#1), 128 ∣ (k1_mult29 i).toNat
  k1_mult30_dvd : ∀ i : grid1.Coords, ∀ (k1_h1 : k1_cond1 i = 1#1), 128 ∣ (k1_mult30 i).toNat
  k1_mult31_dvd : ∀ i : grid1.Coords, ∀ (k1_h1 : k1_cond1 i = 1#1), 128 ∣ (k1_mult31 i).toNat
  k1_mult32_dvd : ∀ i : grid1.Coords, ∀ (k1_h1 : k1_cond1 i = 1#1), 128 ∣ (k1_mult32 i).toNat
  k1_mult33_dvd : ∀ i : grid1.Coords, ∀ (k1_h1 : k1_cond1 i = 1#1), 128 ∣ (k1_mult33 i).toNat
  k1_mult34_dvd : ∀ i : grid1.Coords, ∀ (k1_h1 : k1_cond1 i = 1#1), 128 ∣ (k1_mult34 i).toNat
  k1_mult35_dvd : ∀ i : grid1.Coords, ∀ (k1_h1 : k1_cond1 i = 1#1), 128 ∣ (k1_mult35 i).toNat
  k1_mult36_dvd : ∀ i : grid1.Coords, ∀ (k1_h1 : k1_cond1 i = 1#1), 128 ∣ (k1_mult36 i).toNat
  k1_mult37_dvd : ∀ i : grid1.Coords, ∀ (k1_h1 : k1_cond1 i = 1#1), 128 ∣ (k1_mult37 i).toNat
  k1_mult38_dvd : ∀ i : grid1.Coords, ∀ (k1_h1 : k1_cond1 i = 1#1), 128 ∣ (k1_mult38 i).toNat
  k1_mult39_dvd : ∀ i : grid1.Coords, ∀ (k1_h1 : k1_cond1 i = 1#1), 128 ∣ (k1_mult39 i).toNat
  k1_mult40_dvd : ∀ i : grid1.Coords, ∀ (k1_h1 : k1_cond1 i = 1#1), 128 ∣ (k1_mult40 i).toNat
  k1_mult41_dvd : ∀ i : grid1.Coords, ∀ (k1_h1 : k1_cond1 i = 1#1), 128 ∣ (k1_mult41 i).toNat
  k1_mult42_dvd : ∀ i : grid1.Coords, ∀ (k1_h1 : k1_cond1 i = 1#1), 128 ∣ (k1_mult42 i).toNat
  k1_mult43_dvd : ∀ i : grid1.Coords, ∀ (k1_h1 : k1_cond1 i = 1#1), 128 ∣ (k1_mult43 i).toNat
  k1_mult44_dvd : ∀ i : grid1.Coords, ∀ (k1_h1 : k1_cond1 i = 1#1), 128 ∣ (k1_mult44 i).toNat
  k1_mult45_dvd : ∀ i : grid1.Coords, ∀ (k1_h1 : k1_cond1 i = 1#1), 128 ∣ (k1_mult45 i).toNat
  k1_mult46_dvd : ∀ i : grid1.Coords, ∀ (k1_h1 : k1_cond1 i = 1#1), 128 ∣ (k1_mult46 i).toNat
  k1_mult47_dvd : ∀ i : grid1.Coords, ∀ (k1_h1 : k1_cond1 i = 1#1), 128 ∣ (k1_mult47 i).toNat
  k1_mult48_dvd : ∀ i : grid1.Coords, ∀ (k1_h1 : k1_cond1 i = 1#1), 128 ∣ (k1_mult48 i).toNat
  k1_mult49_dvd : ∀ i : grid1.Coords, ∀ (k1_h1 : k1_cond1 i = 1#1), 128 ∣ (k1_mult49 i).toNat
  k1_mult50_dvd : ∀ i : grid1.Coords, ∀ (k1_h1 : k1_cond1 i = 1#1), 128 ∣ (k1_mult50 i).toNat
  k1_mult51_dvd : ∀ i : grid1.Coords, ∀ (k1_h1 : k1_cond1 i = 1#1), 128 ∣ (k1_mult51 i).toNat
  k1_mult52_dvd : ∀ i : grid1.Coords, ∀ (k1_h1 : k1_cond1 i = 1#1), 128 ∣ (k1_mult52 i).toNat
  k1_mult53_dvd : ∀ i : grid1.Coords, ∀ (k1_h1 : k1_cond1 i = 1#1), 128 ∣ (k1_mult53 i).toNat
  k1_mult54_dvd : ∀ i : grid1.Coords, ∀ (k1_h1 : k1_cond1 i = 1#1), 128 ∣ (k1_mult54 i).toNat
  k1_mult55_dvd : ∀ i : grid1.Coords, ∀ (k1_h1 : k1_cond1 i = 1#1), 128 ∣ (k1_mult55 i).toNat
  k1_mult56_dvd : ∀ i : grid1.Coords, ∀ (k1_h1 : k1_cond1 i = 1#1), 128 ∣ (k1_mult56 i).toNat
  k1_mult57_dvd : ∀ i : grid1.Coords, ∀ (k1_h1 : k1_cond1 i = 1#1), 128 ∣ (k1_mult57 i).toNat
  k1_mult58_dvd : ∀ i : grid1.Coords, ∀ (k1_h1 : k1_cond1 i = 1#1), 128 ∣ (k1_mult58 i).toNat
  k1_mult59_dvd : ∀ i : grid1.Coords, ∀ (k1_h1 : k1_cond1 i = 1#1), 128 ∣ (k1_mult59 i).toNat
  k1_mult60_dvd : ∀ i : grid1.Coords, ∀ (k1_h1 : k1_cond1 i = 1#1), 128 ∣ (k1_mult60 i).toNat
  k1_mult61_dvd : ∀ i : grid1.Coords, ∀ (k1_h1 : k1_cond1 i = 1#1), 128 ∣ (k1_mult61 i).toNat
  k1_mult62_dvd : ∀ i : grid1.Coords, ∀ (k1_h1 : k1_cond1 i = 1#1), 128 ∣ (k1_mult62 i).toNat
  k1_mult63_dvd : ∀ i : grid1.Coords, ∀ (k1_h1 : k1_cond1 i = 1#1), 128 ∣ (k1_mult63 i).toNat
  k1_mult64_dvd : ∀ i : grid1.Coords, ∀ (k1_h1 : k1_cond1 i = 1#1), 128 ∣ (k1_mult64 i).toNat
  k1_mult65_dvd : ∀ i : grid1.Coords, ∀ (k1_h1 : k1_cond1 i = 1#1), 128 ∣ (k1_mult65 i).toNat
  k1_mult66_dvd : ∀ i : grid1.Coords, ∀ (k1_h1 : k1_cond1 i = 1#1), 128 ∣ (k1_mult66 i).toNat
  k1_mult67_dvd : ∀ i : grid1.Coords, ∀ (k1_h1 : k1_cond1 i = 1#1), 128 ∣ (k1_mult67 i).toNat
  k1_mult68_dvd : ∀ i : grid1.Coords, ∀ (k1_h1 : k1_cond1 i = 1#1), 128 ∣ (k1_mult68 i).toNat
  k1_mult69_dvd : ∀ i : grid1.Coords, ∀ (k1_h1 : k1_cond1 i = 1#1), 128 ∣ (k1_mult69 i).toNat
  k1_mult70_dvd : ∀ i : grid1.Coords, ∀ (k1_h1 : k1_cond1 i = 1#1), 128 ∣ (k1_mult70 i).toNat
  k1_mult71_dvd : ∀ i : grid1.Coords, ∀ (k1_h1 : k1_cond1 i = 1#1), 128 ∣ (k1_mult71 i).toNat
  k1_mult72_dvd : ∀ i : grid1.Coords, ∀ (k1_h1 : k1_cond1 i = 1#1), 128 ∣ (k1_mult72 i).toNat
  k1_mult73_dvd : ∀ i : grid1.Coords, ∀ (k1_h2 : k1_cond2 i = 1#1), 128 ∣ (k1_mult73 i).toNat
  k1_mult74_dvd : ∀ i : grid1.Coords, ∀ (k1_h2 : k1_cond2 i = 1#1), 128 ∣ (k1_mult74 i).toNat
  k1_mult75_dvd : ∀ i : grid1.Coords, ∀ (k1_h2 : k1_cond2 i = 1#1), 128 ∣ (k1_mult75 i).toNat
  k1_mult76_dvd : ∀ i : grid1.Coords, ∀ (k1_h2 : k1_cond2 i = 1#1), 128 ∣ (k1_mult76 i).toNat
  k1_mult77_dvd : ∀ i : grid1.Coords, ∀ (k1_h2 : k1_cond2 i = 1#1), 128 ∣ (k1_mult77 i).toNat
  k1_mult78_dvd : ∀ i : grid1.Coords, ∀ (k1_h2 : k1_cond2 i = 1#1), 128 ∣ (k1_mult78 i).toNat
  k1_mult79_dvd : ∀ i : grid1.Coords, ∀ (k1_h2 : k1_cond2 i = 1#1), 128 ∣ (k1_mult79 i).toNat
  k1_off3_inb : ∀ i : grid1.Coords, ∀ (k1_h2 : k1_cond2 i = 1#1), ∀ (r : Fin 7), ∀ a, (k1_off3 i (BitVec.ofNat 32 (128 * r.val))) a + S128x128.size a ≤ S51200x128.size a
  k1_mult80_dvd : ∀ i : grid1.Coords, ∀ (k1_h2 : k1_cond2 i = 1#1), 128 ∣ (k1_mult80 i).toNat
  k1_mult81_dvd : ∀ i : grid1.Coords, ∀ (k1_h2 : k1_cond2 i = 1#1), 128 ∣ (k1_mult81 i).toNat
  k1_mult82_dvd : ∀ i : grid1.Coords, ∀ (k1_h2 : k1_cond2 i = 1#1), 128 ∣ (k1_mult82 i).toNat
  k1_mult83_dvd : ∀ i : grid1.Coords, ∀ (k1_h2 : k1_cond2 i = 1#1), 128 ∣ (k1_mult83 i).toNat
  k1_mult84_dvd : ∀ i : grid1.Coords, ∀ (k1_h2 : k1_cond2 i = 1#1), 128 ∣ (k1_mult84 i).toNat
  k1_mult85_dvd : ∀ i : grid1.Coords, ∀ (k1_h2 : k1_cond2 i = 1#1), 128 ∣ (k1_mult85 i).toNat
  k1_mult86_dvd : ∀ i : grid1.Coords, ∀ (k1_h2 : k1_cond2 i = 1#1), 128 ∣ (k1_mult86 i).toNat
  k1_mult87_dvd : ∀ i : grid1.Coords, ∀ (k1_h2 : k1_cond2 i = 1#1), 128 ∣ (k1_mult87 i).toNat
  k1_mult88_dvd : ∀ i : grid1.Coords, ∀ (k1_h2 : k1_cond2 i = 1#1), 128 ∣ (k1_mult88 i).toNat
  k1_mult89_dvd : ∀ i : grid1.Coords, ∀ (k1_h2 : k1_cond2 i = 1#1), 128 ∣ (k1_mult89 i).toNat
  k1_mult90_dvd : ∀ i : grid1.Coords, ∀ (k1_h2 : k1_cond2 i = 1#1), 128 ∣ (k1_mult90 i).toNat
  k1_mult91_dvd : ∀ i : grid1.Coords, ∀ (k1_h2 : k1_cond2 i = 1#1), 128 ∣ (k1_mult91 i).toNat
  k1_mult92_dvd : ∀ i : grid1.Coords, ∀ (k1_h2 : k1_cond2 i = 1#1), 128 ∣ (k1_mult92 i).toNat
  k1_mult93_dvd : ∀ i : grid1.Coords, ∀ (k1_h2 : k1_cond2 i = 1#1), 128 ∣ (k1_mult93 i).toNat
  k1_mult94_dvd : ∀ i : grid1.Coords, ∀ (k1_h2 : k1_cond2 i = 1#1), 128 ∣ (k1_mult94 i).toNat
  k1_mult95_dvd : ∀ i : grid1.Coords, ∀ (k1_h2 : k1_cond2 i = 1#1), 128 ∣ (k1_mult95 i).toNat
  k1_mult96_dvd : ∀ i : grid1.Coords, ∀ (k1_h2 : k1_cond2 i = 1#1), 128 ∣ (k1_mult96 i).toNat
  k1_mult97_dvd : ∀ i : grid1.Coords, ∀ (k1_h2 : k1_cond2 i = 1#1), 128 ∣ (k1_mult97 i).toNat
  k1_mult98_dvd : ∀ i : grid1.Coords, ∀ (k1_h2 : k1_cond2 i = 1#1), 128 ∣ (k1_mult98 i).toNat
  k1_mult99_dvd : ∀ i : grid1.Coords, ∀ (k1_h2 : k1_cond2 i = 1#1), 128 ∣ (k1_mult99 i).toNat
  k1_mult100_dvd : ∀ i : grid1.Coords, ∀ (k1_h2 : k1_cond2 i = 1#1), 128 ∣ (k1_mult100 i).toNat
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x128.size a ≤ S100000x128.size a
  hwx2_0 : ∀ i : grid2.Coords, EltTy.bits .f32 = 32 ∨ (Rect.block (s := S100000x128) S800x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S800x128.size a ≤ S51200x128.size a
  hwx2_1 : ∀ i : grid2.Coords, EltTy.bits .f32 = 32 ∨ (Rect.block (s := S51200x128) S800x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x128.size a ≤ S51200x128.size a
  hwx2_2 : ∀ i : grid2.Coords, EltTy.bits .f32 = 32 ∨ (Rect.block (s := S51200x128) S800x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S800x128.size a ≤ S100000x128.size a
  hwx2_4 : ∀ i : grid2.Coords, EltTy.bits .f32 = 32 ∨ (Rect.block (s := S100000x128) S800x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S800x128.size a ≤ S100000x128.size a
  hwx3_0 : ∀ i : grid3.Coords, EltTy.bits .f32 = 32 ∨ (Rect.block (s := S100000x128) S800x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S800x128.size a ≤ S51200x128.size a
  hwx3_1 : ∀ i : grid3.Coords, EltTy.bits .f32 = 32 ∨ (Rect.block (s := S51200x128) S800x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S800x128.size a ≤ S51200x128.size a
  hwx3_2 : ∀ i : grid3.Coords, EltTy.bits .f32 = 32 ∨ (Rect.block (s := S51200x128) S800x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x128.size a ≤ S384x128.size a
  hwx3_3 : ∀ i : grid3.Coords, EltTy.bits .f32 = 32 ∨ (Rect.block (s := S384x128) S384x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_5 i = cc3_transform_5 i'
  hinb3_4 : ∀ (i : grid3.Coords) a, (cc3_transform_5 i a + 1) * S800x128.size a ≤ S100000x128.size a
  hwx3_4 : ∀ i : grid3.Coords, EltTy.bits .f32 = 32 ∨ (Rect.block (s := S100000x128) S800x128.size (cc3_transform_5 i) (hinb3_4 i)).WholeWords (EltTy.packing .f32)

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scratch17 : DmaSems sig S_ := SemArray.consecutive 8 S_ hcc0_scratch17
abbrev cc0_scratch18 : DmaSems sig S_ := SemArray.consecutive 9 S_ hcc0_scratch18
abbrev cc0_scratch19 : DmaSems sig S_ := SemArray.consecutive 10 S_ hcc0_scratch19
abbrev cc0_scratch20 : DmaSems sig S_ := SemArray.consecutive 11 S_ hcc0_scratch20
abbrev cc0_scratch21 : DmaSems sig S_ := SemArray.consecutive 12 S_ hcc0_scratch21
abbrev cc0_scratch22 : DmaSems sig S_ := SemArray.consecutive 13 S_ hcc0_scratch22
abbrev cc0_scoped0 : DmaSems sig S_ := SemArray.consecutive 14 S_ hcc0_scoped0
abbrev cc0_scoped1 : DmaSems sig S_ := SemArray.consecutive 15 S_ hcc0_scoped1
abbrev cc1_scratch9 : DmaSems sig S_ := SemArray.consecutive 16 S_ hcc1_scratch9
abbrev cc1_scratch10 : DmaSems sig S_ := SemArray.consecutive 17 S_ hcc1_scratch10
abbrev cc1_scratch11 : DmaSems sig S_ := SemArray.consecutive 18 S_ hcc1_scratch11
abbrev cc1_scratch12 : DmaSems sig S_ := SemArray.consecutive 19 S_ hcc1_scratch12
abbrev cc1_scratch13 : DmaSems sig S_ := SemArray.consecutive 20 S_ hcc1_scratch13
abbrev cc1_scratch14 : DmaSems sig S_ := SemArray.consecutive 21 S_ hcc1_scratch14
abbrev cc1_scratch15 : DmaSems sig S_ := SemArray.consecutive 22 S_ hcc1_scratch15
abbrev cc1_scratch16 : DmaSems sig S_ := SemArray.consecutive 23 S_ hcc1_scratch16
abbrev cc1_scratch17 : DmaSems sig S_ := SemArray.consecutive 24 S_ hcc1_scratch17
abbrev cc1_scratch18 : DmaSems sig S_ := SemArray.consecutive 25 S_ hcc1_scratch18
abbrev cc1_scratch19 : DmaSems sig S_ := SemArray.consecutive 26 S_ hcc1_scratch19
abbrev cc1_scratch20 : DmaSems sig S_ := SemArray.consecutive 27 S_ hcc1_scratch20
abbrev cc1_scratch21 : DmaSems sig S_ := SemArray.consecutive 28 S_ hcc1_scratch21
abbrev cc1_scratch22 : DmaSems sig S_ := SemArray.consecutive 29 S_ hcc1_scratch22
abbrev cc1_scoped0 : DmaSems sig S_ := SemArray.consecutive 30 S_ hcc1_scoped0
abbrev cc1_scoped1 : DmaSems sig S_ := SemArray.consecutive 31 S_ hcc1_scoped1
def comparator_i32_i32_d0 : BitVec 32 × BitVec 32 → BitVec 32 × BitVec 32 → BitVec 1 :=
  fun l r =>
    let v19 := IntOp.cmpi .ult l.1 r.1
    v19
def comparator_i32_i32_d0_2 : BitVec 32 × BitVec 32 → BitVec 32 × BitVec 32 → BitVec 1 :=
  fun l r =>
    let v2 := IntOp.cmpi .slt l.1 r.1
    v2
def gather_S128x128_S128x1_S128x128_1_0_n_n_0_1_1128 : GatherDims S128x128 S128x1 S128x128 where
  offsetDims := [1]
  collapsedSliceDims := [0]
  operandBatchingDims := []
  startIndicesBatchingDims := []
  startIndexMap := [0]
  indexVectorDim := 1
  sliceSizes := ![1, 128]
  wf := gather_S128x128_S128x1_S128x128_1_0_n_n_0_1_1128_wf
def scatter_S102400_S1_S100000_0_n_0_0 : ScatterDims S102400 S1 S100000 where
  updateWindowDims := [0]
  insertedWindowDims := []
  scatterDimsToOperandDims := [0]
  indexVectorDim := 0
  wf := scatter_S102400_S1_S100000_0_n_0_0_wf
def scatter_S32x18x128_S1_S16x18x128_012_n_0_0 : ScatterDims S32x18x128 S1 S16x18x128 where
  updateWindowDims := [0, 1, 2]
  insertedWindowDims := []
  scatterDimsToOperandDims := [0]
  indexVectorDim := 0
  wf := scatter_S32x18x128_S1_S16x18x128_012_n_0_0_wf
def scatter_S32x18x128_S2_S16x7x128_012_n_01_0 : ScatterDims S32x18x128 S2 S16x7x128 where
  updateWindowDims := [0, 1, 2]
  insertedWindowDims := []
  scatterDimsToOperandDims := [0, 1]
  indexVectorDim := 0
  wf := scatter_S32x18x128_S2_S16x7x128_012_n_01_0_wf
def dot_S800x128_S128x128_S800x128_1_0_0_1_n_n : DotDims S800x128 S128x128 S800x128 where
  lhsContracting := [1]
  rhsContracting := [0]
  lhsNonContracting := [0]
  rhsNonContracting := [1]
  lhsBatch := []
  rhsBatch := []
  wf := dot_S800x128_S128x128_S800x128_1_0_0_1_n_n_wf

abbrev win2_0 : Pipeline.Window sig grid2 :=
  Pipeline.Window.ofSpec (Memref.whole main_arg0) S800x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94_0) S800x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v94_1) S800x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S800x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S800x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95_0) S800x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95_1) S800x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S384x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v97) S800x128.size cc3_transform_5 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S100000 : Shape := ⟨1, ![100000]⟩
abbrev S384x128 : Shape := ⟨2, ![384, 128]⟩
abbrev S_ : Shape := ⟨0, ![]⟩
abbrev S1 : Shape := ⟨1, ![1]⟩
abbrev S2 : Shape := ⟨1, ![2]⟩
abbrev S128 : Shape := ⟨1, ![128]⟩
abbrev S2x1 : Shape := ⟨2, ![2, 1]⟩
abbrev S2x2 : Shape := ⟨2, ![2, 2]⟩
abbrev S1x2 : Shape := ⟨2, ![1, 2]⟩
abbrev S100000x1 : Shape := ⟨2, ![100000, 1]⟩
abbrev S1x1 : Shape := ⟨2, ![1, 1]⟩
abbrev S128x1 : Shape := ⟨2, ![128, 1]⟩
abbrev S100000x384 : Shape := ⟨2, ![100000, 384]⟩

abbrev nBuf : Space → Nat
  | .hbm => 1057
  | .vmem => 0
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000, .i32⟩
  | 4 => ⟨S100000, .i32⟩
  | 5 => ⟨S384x128, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S128, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S100000x128, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S100000x128, .f32⟩

abbrev hbmTy0_2 (i : Nat) : BufTy := match i % 128 with
  | 0 => ⟨S2, .i32⟩
  | 1 => ⟨S1x2, .i32⟩
  | 2 => ⟨S2, .i32⟩
  | 3 => ⟨S1, .i32⟩
  | 4 => ⟨S_, .i32⟩
  | 5 => ⟨S1, .i32⟩
  | 6 => ⟨S_, .i32⟩
  | 7 => ⟨S128, .i64⟩
  | 8 => ⟨S_, .i64⟩
  | 9 => ⟨S128, .i64⟩
  | 10 => ⟨S128, .i64⟩
  | 11 => ⟨S_, .i64⟩
  | 12 => ⟨S128, .i64⟩
  | 13 => ⟨S128, .i64⟩
  | 14 => ⟨S128, .i32⟩
  | 15 => ⟨S128, .i32⟩
  | 16 => ⟨S_, .i32⟩
  | 17 => ⟨S_, .i32⟩
  | 18 => ⟨S_, .i32⟩
  | 19 => ⟨S128, .i32⟩
  | 20 => ⟨S128, .i32⟩
  | 21 => ⟨S128, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S128, .i32⟩
  | 32 => ⟨S128, .i32⟩
  | 33 => ⟨S_, .i32⟩
  | 34 => ⟨S128, .i32⟩
  | 35 => ⟨S128, .i32⟩
  | 36 => ⟨S_, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S128, .i32⟩
  | 63 => ⟨S_, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S_, .i32⟩
  | 71 => ⟨S128, .i32⟩
  | 72 => ⟨S128, .i32⟩
  | 73 => ⟨S128, .i32⟩
  | 74 => ⟨S128, .i32⟩
  | 75 => ⟨S128, .i32⟩
  | 76 => ⟨S_, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S128, .i32⟩
  | 110 => ⟨S_, .i32⟩
  | 111 => ⟨S128, .i32⟩
  | 112 => ⟨S128, .i32⟩
  | 113 => ⟨S_, .i32⟩
  | 114 => ⟨S128, .i32⟩
  | 115 => ⟨S128, .i32⟩
  | 116 => ⟨S128, .i32⟩
  | 117 => ⟨S128, .i32⟩
  | 118 => ⟨S128, .i32⟩
  | 119 => ⟨S_, .i32⟩
  | 120 => ⟨S128, .i32⟩
  | 121 => ⟨S128, .i32⟩
  | 122 => ⟨S_, .i32⟩
  | 123 => ⟨S128, .i32⟩
  | 124 => ⟨S128, .i32⟩
  | 125 => ⟨S128, .i32⟩
  | 126 => ⟨S128, .i32⟩
  | 127 => ⟨S128, .i32⟩
  | _ => ⟨S100000x128, .f32⟩

abbrev hbmTy0_3 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S128, .i32⟩
  | 8 => ⟨S128, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S128, .i32⟩
  | 25 => ⟨S_, .i32⟩
  | 26 => ⟨S128, .i32⟩
  | 27 => ⟨S128, .i32⟩
  | 28 => ⟨S_, .i32⟩
  | 29 => ⟨S128, .i32⟩
  | 30 => ⟨S128, .i32⟩
  | 31 => ⟨S128, .i32⟩
  | 32 => ⟨S128, .i32⟩
  | 33 => ⟨S128, .i32⟩
  | 34 => ⟨S_, .i32⟩
  | 35 => ⟨S128, .i32⟩
  | 36 => ⟨S128, .i32⟩
  | 37 => ⟨S_, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128, .i32⟩
  | 50 => ⟨S128, .i32⟩
  | 51 => ⟨S128, .i32⟩
  | 52 => ⟨S_, .i32⟩
  | 53 => ⟨S128, .i32⟩
  | 54 => ⟨S128, .i32⟩
  | 55 => ⟨S_, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S128, .i32⟩
  | 68 => ⟨S_, .i32⟩
  | 69 => ⟨S128, .i32⟩
  | 70 => ⟨S128, .i32⟩
  | 71 => ⟨S_, .i32⟩
  | 72 => ⟨S128, .i32⟩
  | 73 => ⟨S128, .i32⟩
  | 74 => ⟨S128, .i32⟩
  | 75 => ⟨S128, .i32⟩
  | 76 => ⟨S128, .i32⟩
  | 77 => ⟨S_, .i32⟩
  | 78 => ⟨S128, .i32⟩
  | 79 => ⟨S128, .i32⟩
  | 80 => ⟨S_, .i32⟩
  | 81 => ⟨S128, .i32⟩
  | 82 => ⟨S128, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S_, .i32⟩
  | 90 => ⟨S128, .i32⟩
  | 91 => ⟨S128, .i32⟩
  | 92 => ⟨S128, .i32⟩
  | 93 => ⟨S128, .i32⟩
  | 94 => ⟨S128, .i32⟩
  | 95 => ⟨S_, .i32⟩
  | 96 => ⟨S128, .i32⟩
  | 97 => ⟨S128, .i32⟩
  | 98 => ⟨S_, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S128, .i32⟩
  | 111 => ⟨S128, .i32⟩
  | 112 => ⟨S128, .i32⟩
  | 113 => ⟨S_, .i32⟩
  | 114 => ⟨S_, .i32⟩
  | 115 => ⟨S_, .i32⟩
  | 116 => ⟨S_, .i32⟩
  | 117 => ⟨S1, .i32⟩
  | 118 => ⟨S_, .i32⟩
  | 119 => ⟨S_, .i32⟩
  | 120 => ⟨S_, .i32⟩
  | 121 => ⟨S1, .i32⟩
  | 122 => ⟨S2, .i32⟩
  | 123 => ⟨S128, .i32⟩
  | 124 => ⟨S1, .i32⟩
  | 125 => ⟨S_, .i32⟩
  | 126 => ⟨S1, .i32⟩
  | 127 => ⟨S_, .i32⟩
  | _ => ⟨S100000x128, .f32⟩

abbrev hbmTy0_4 (i : Nat) : BufTy := match i % 128 with
  | 0 => ⟨S2, .i64⟩
  | 1 => ⟨S_, .i64⟩
  | 2 => ⟨S2, .i64⟩
  | 3 => ⟨S2, .i64⟩
  | 4 => ⟨S_, .i64⟩
  | 5 => ⟨S2, .i64⟩
  | 6 => ⟨S2, .i64⟩
  | 7 => ⟨S2, .i32⟩
  | 8 => ⟨S2, .i32⟩
  | 9 => ⟨S_, .i32⟩
  | 10 => ⟨S_, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S100000x128, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S2x1, .i32⟩
  | 104 => ⟨S2x1, .i32⟩
  | 105 => ⟨S2x2, .i32⟩
  | 106 => ⟨S1x2, .i32⟩
  | 107 => ⟨S2, .i32⟩
  | 108 => ⟨S1x2, .i32⟩
  | 109 => ⟨S2, .i32⟩
  | 110 => ⟨S1, .i32⟩
  | 111 => ⟨S_, .i32⟩
  | 112 => ⟨S1, .i32⟩
  | 113 => ⟨S_, .i32⟩
  | 114 => ⟨S128, .i64⟩
  | 115 => ⟨S_, .i64⟩
  | 116 => ⟨S128, .i64⟩
  | 117 => ⟨S128, .i64⟩
  | 118 => ⟨S_, .i64⟩
  | 119 => ⟨S128, .i64⟩
  | 120 => ⟨S128, .i64⟩
  | 121 => ⟨S128, .i32⟩
  | 122 => ⟨S128, .i32⟩
  | 123 => ⟨S_, .i32⟩
  | 124 => ⟨S_, .i32⟩
  | 125 => ⟨S_, .i32⟩
  | 126 => ⟨S128, .i32⟩
  | 127 => ⟨S128, .i32⟩
  | _ => ⟨S100000x128, .f32⟩

abbrev hbmTy0_6 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S_, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S_, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S_, .i32⟩
  | 25 => ⟨S128, .i32⟩
  | 26 => ⟨S128, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i32⟩
  | 92 => ⟨S_, .i32⟩
  | 93 => ⟨S128, .i32⟩
  | 94 => ⟨S128, .i32⟩
  | 95 => ⟨S128, .i32⟩
  | 96 => ⟨S128, .i32⟩
  | 97 => ⟨S128, .i32⟩
  | 98 => ⟨S_, .i32⟩
  | 99 => ⟨S128, .i32⟩
  | 100 => ⟨S128, .i32⟩
  | 101 => ⟨S_, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S_, .i32⟩
  | 111 => ⟨S128, .i32⟩
  | 112 => ⟨S128, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S128, .i32⟩
  | _ => ⟨S100000x128, .f32⟩

abbrev hbmTy0_7 (i : Nat) : BufTy := match i % 128 with
  | 0 => ⟨S_, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S128, .i32⟩
  | 11 => ⟨S128, .i32⟩
  | 12 => ⟨S128, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S128, .i32⟩
  | 21 => ⟨S128, .i32⟩
  | 22 => ⟨S_, .i32⟩
  | 23 => ⟨S128, .i32⟩
  | 24 => ⟨S128, .i32⟩
  | 25 => ⟨S_, .i32⟩
  | 26 => ⟨S128, .i32⟩
  | 27 => ⟨S128, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S128, .i32⟩
  | 90 => ⟨S128, .i32⟩
  | 91 => ⟨S128, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S1, .i32⟩
  | 101 => ⟨S_, .i32⟩
  | 102 => ⟨S100000x1, .i32⟩
  | 103 => ⟨S100000x1, .i1⟩
  | 104 => ⟨S1x1, .i32⟩
  | 105 => ⟨S100000x1, .i32⟩
  | 106 => ⟨S100000x1, .i1⟩
  | 107 => ⟨S100000x1, .i1⟩
  | 108 => ⟨S_, .i1⟩
  | 109 => ⟨S100000, .i1⟩
  | 110 => ⟨S100000x128, .f32⟩
  | 111 => ⟨S100000x128, .i1⟩
  | 112 => ⟨S_, .f32⟩
  | 113 => ⟨S100000x128, .f32⟩
  | 114 => ⟨S100000x128, .f32⟩
  | 115 => ⟨S_, .i32⟩
  | 116 => ⟨S128, .i32⟩
  | 117 => ⟨S128, .i1⟩
  | 118 => ⟨S_, .i32⟩
  | 119 => ⟨S128, .i32⟩
  | 120 => ⟨S128, .i32⟩
  | 121 => ⟨S128, .i32⟩
  | 122 => ⟨S128x1, .i32⟩
  | 123 => ⟨S100000x128, .f32⟩
  | 124 => ⟨S_, .i32⟩
  | 125 => ⟨S100000, .i32⟩
  | 126 => ⟨S100000, .i1⟩
  | 127 => ⟨S_, .i32⟩
  | _ => ⟨S100000x128, .f32⟩

abbrev hbmTy0_8 (i : Nat) : BufTy := match i % 128 with
  | 0 => ⟨S100000, .i32⟩
  | 1 => ⟨S100000, .i32⟩
  | 2 => ⟨S100000, .i32⟩
  | 3 => ⟨S100000x1, .i32⟩
  | 4 => ⟨S1, .i32⟩
  | 5 => ⟨S_, .i32⟩
  | 6 => ⟨S100000x1, .i32⟩
  | 7 => ⟨S100000x1, .i1⟩
  | 8 => ⟨S1x1, .i32⟩
  | 9 => ⟨S100000x1, .i32⟩
  | 10 => ⟨S100000x1, .i1⟩
  | 11 => ⟨S100000x1, .i1⟩
  | 12 => ⟨S_, .i1⟩
  | 13 => ⟨S100000, .i1⟩
  | 14 => ⟨S100000x128, .f32⟩
  | 15 => ⟨S100000x128, .i1⟩
  | 16 => ⟨S_, .f32⟩
  | 17 => ⟨S100000x128, .f32⟩
  | 18 => ⟨S100000x128, .f32⟩
  | 19 => ⟨S_, .i32⟩
  | 20 => ⟨S128, .i32⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S100000x128, .f32⟩
  | 28 => ⟨S100000x384, .f32⟩
  | 29 => ⟨S100000x128, .f32⟩
  | 30 => ⟨S_, .f32⟩
  | 31 => ⟨S100000x128, .f32⟩
  | 32 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_c : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_c_0 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_call0_v0 : Ref sig .tc := ⟨.hbm, 30, rfl⟩
abbrev main_call0_call0_call0_c : Ref sig .tc := ⟨.hbm, 31, rfl⟩
abbrev main_call0_call0_call0_v1 : Ref sig .tc := ⟨.hbm, 32, rfl⟩
abbrev main_call0_call0_call0_v2 : Ref sig .tc := ⟨.hbm, 33, rfl⟩
abbrev main_call0_call0_call0_v3 : Ref sig .tc := ⟨.hbm, 34, rfl⟩
abbrev main_call0_call0_call0_v4 : Ref sig .tc := ⟨.hbm, 35, rfl⟩
abbrev main_call0_call0_call0_v5 : Ref sig .tc := ⟨.hbm, 36, rfl⟩
abbrev main_call0_call0_call0_v6 : Ref sig .tc := ⟨.hbm, 37, rfl⟩
abbrev main_call0_call0_call0_c_0 : Ref sig .tc := ⟨.hbm, 38, rfl⟩
abbrev main_call0_call0_call0_v7 : Ref sig .tc := ⟨.hbm, 39, rfl⟩
abbrev main_call0_call0_call0_v8 : Ref sig .tc := ⟨.hbm, 40, rfl⟩
abbrev main_call0_call0_call0_c_1 : Ref sig .tc := ⟨.hbm, 41, rfl⟩
abbrev main_call0_call0_call0_v9 : Ref sig .tc := ⟨.hbm, 42, rfl⟩
abbrev main_call0_call0_call0_v10 : Ref sig .tc := ⟨.hbm, 43, rfl⟩
abbrev main_call0_call0_call0_v11 : Ref sig .tc := ⟨.hbm, 44, rfl⟩
abbrev main_call0_call0_call0_v12 : Ref sig .tc := ⟨.hbm, 45, rfl⟩
abbrev main_call0_call0_call0_v13 : Ref sig .tc := ⟨.hbm, 46, rfl⟩
abbrev main_call0_call0_call0_c_2 : Ref sig .tc := ⟨.hbm, 47, rfl⟩
abbrev main_call0_call0_call0_v14 : Ref sig .tc := ⟨.hbm, 48, rfl⟩
abbrev main_call0_call0_call0_v15 : Ref sig .tc := ⟨.hbm, 49, rfl⟩
abbrev main_call0_call0_call0_c_3 : Ref sig .tc := ⟨.hbm, 50, rfl⟩
abbrev main_call0_call0_call0_v16 : Ref sig .tc := ⟨.hbm, 51, rfl⟩
abbrev main_call0_call0_call0_v17 : Ref sig .tc := ⟨.hbm, 52, rfl⟩
abbrev main_call0_call0_call0_v18 : Ref sig .tc := ⟨.hbm, 53, rfl⟩
abbrev main_call0_call0_call0_v19 : Ref sig .tc := ⟨.hbm, 54, rfl⟩
abbrev main_call0_call0_call0_v20 : Ref sig .tc := ⟨.hbm, 55, rfl⟩
abbrev main_call0_call0_call0_c_4 : Ref sig .tc := ⟨.hbm, 56, rfl⟩
abbrev main_call0_call0_call0_v21 : Ref sig .tc := ⟨.hbm, 57, rfl⟩
abbrev main_call0_call0_call0_v22 : Ref sig .tc := ⟨.hbm, 58, rfl⟩
abbrev main_call0_call0_call0_c_5 : Ref sig .tc := ⟨.hbm, 59, rfl⟩
abbrev main_call0_call0_call0_v23 : Ref sig .tc := ⟨.hbm, 60, rfl⟩
abbrev main_call0_call0_call0_v24 : Ref sig .tc := ⟨.hbm, 61, rfl⟩
abbrev main_call0_call0_call0_v25 : Ref sig .tc := ⟨.hbm, 62, rfl⟩
abbrev main_call0_call0_call0_v26 : Ref sig .tc := ⟨.hbm, 63, rfl⟩
abbrev main_call0_call0_call0_v27 : Ref sig .tc := ⟨.hbm, 64, rfl⟩
abbrev main_call0_call0_call0_c_6 : Ref sig .tc := ⟨.hbm, 65, rfl⟩
abbrev main_call0_call0_call0_v28 : Ref sig .tc := ⟨.hbm, 66, rfl⟩
abbrev main_call0_call0_call0_v29 : Ref sig .tc := ⟨.hbm, 67, rfl⟩
abbrev main_call0_call0_call0_c_7 : Ref sig .tc := ⟨.hbm, 68, rfl⟩
abbrev main_call0_call0_call0_v30 : Ref sig .tc := ⟨.hbm, 69, rfl⟩
abbrev main_call0_call0_call0_v31 : Ref sig .tc := ⟨.hbm, 70, rfl⟩
abbrev main_call0_call0_call0_v32 : Ref sig .tc := ⟨.hbm, 71, rfl⟩
abbrev main_call0_call0_call0_v33 : Ref sig .tc := ⟨.hbm, 72, rfl⟩
abbrev main_call0_call0_call0_v34 : Ref sig .tc := ⟨.hbm, 73, rfl⟩
abbrev main_call0_call0_call0_v35 : Ref sig .tc := ⟨.hbm, 74, rfl⟩
abbrev main_call0_call0_call0_v36 : Ref sig .tc := ⟨.hbm, 75, rfl⟩
abbrev main_call0_call0_call0_v37 : Ref sig .tc := ⟨.hbm, 76, rfl⟩
abbrev main_call0_call0_call0_c_8 : Ref sig .tc := ⟨.hbm, 77, rfl⟩
abbrev main_call0_call0_call0_v38 : Ref sig .tc := ⟨.hbm, 78, rfl⟩
abbrev main_call0_call0_call0_v39 : Ref sig .tc := ⟨.hbm, 79, rfl⟩
abbrev main_call0_call0_call0_v40 : Ref sig .tc := ⟨.hbm, 80, rfl⟩
abbrev main_call0_call0_call0_c_9 : Ref sig .tc := ⟨.hbm, 81, rfl⟩
abbrev main_call0_call0_call0_v41 : Ref sig .tc := ⟨.hbm, 82, rfl⟩
abbrev main_call0_call0_call0_v42 : Ref sig .tc := ⟨.hbm, 83, rfl⟩
abbrev main_call0_call0_call0_c_10 : Ref sig .tc := ⟨.hbm, 84, rfl⟩
abbrev main_call0_call0_call0_v43 : Ref sig .tc := ⟨.hbm, 85, rfl⟩
abbrev main_call0_call0_call0_v44 : Ref sig .tc := ⟨.hbm, 86, rfl⟩
abbrev main_call0_call0_call0_v45 : Ref sig .tc := ⟨.hbm, 87, rfl⟩
abbrev main_call0_call0_call0_v46 : Ref sig .tc := ⟨.hbm, 88, rfl⟩
abbrev main_call0_call0_call0_v47 : Ref sig .tc := ⟨.hbm, 89, rfl⟩
abbrev main_call0_call0_call0_c_11 : Ref sig .tc := ⟨.hbm, 90, rfl⟩
abbrev main_call0_call0_call0_v48 : Ref sig .tc := ⟨.hbm, 91, rfl⟩
abbrev main_call0_call0_call0_v49 : Ref sig .tc := ⟨.hbm, 92, rfl⟩
abbrev main_call0_call0_call0_c_12 : Ref sig .tc := ⟨.hbm, 93, rfl⟩
abbrev main_call0_call0_call0_v50 : Ref sig .tc := ⟨.hbm, 94, rfl⟩
abbrev main_call0_call0_call0_v51 : Ref sig .tc := ⟨.hbm, 95, rfl⟩
abbrev main_call0_call0_call0_v52 : Ref sig .tc := ⟨.hbm, 96, rfl⟩
abbrev main_call0_call0_call0_v53 : Ref sig .tc := ⟨.hbm, 97, rfl⟩
abbrev main_call0_call0_call0_v54 : Ref sig .tc := ⟨.hbm, 98, rfl⟩
abbrev main_call0_call0_call0_c_13 : Ref sig .tc := ⟨.hbm, 99, rfl⟩
abbrev main_call0_call0_call0_v55 : Ref sig .tc := ⟨.hbm, 100, rfl⟩
abbrev main_call0_call0_call0_v56 : Ref sig .tc := ⟨.hbm, 101, rfl⟩
abbrev main_call0_call0_call0_c_14 : Ref sig .tc := ⟨.hbm, 102, rfl⟩
abbrev main_call0_call0_call0_v57 : Ref sig .tc := ⟨.hbm, 103, rfl⟩
abbrev main_call0_call0_call0_v58 : Ref sig .tc := ⟨.hbm, 104, rfl⟩
abbrev main_call0_call0_call0_v59 : Ref sig .tc := ⟨.hbm, 105, rfl⟩
abbrev main_call0_call0_call0_v60 : Ref sig .tc := ⟨.hbm, 106, rfl⟩
abbrev main_call0_call0_call0_v61 : Ref sig .tc := ⟨.hbm, 107, rfl⟩
abbrev main_call0_call0_call0_c_15 : Ref sig .tc := ⟨.hbm, 108, rfl⟩
abbrev main_call0_call0_call0_v62 : Ref sig .tc := ⟨.hbm, 109, rfl⟩
abbrev main_call0_call0_call0_v63 : Ref sig .tc := ⟨.hbm, 110, rfl⟩
abbrev main_call0_call0_call0_c_16 : Ref sig .tc := ⟨.hbm, 111, rfl⟩
abbrev main_call0_call0_call0_v64 : Ref sig .tc := ⟨.hbm, 112, rfl⟩
abbrev main_call0_call0_call0_v65 : Ref sig .tc := ⟨.hbm, 113, rfl⟩
abbrev main_call0_call0_call0_v66 : Ref sig .tc := ⟨.hbm, 114, rfl⟩
abbrev main_call0_call0_call0_v67 : Ref sig .tc := ⟨.hbm, 115, rfl⟩
abbrev main_call0_call0_call0_v68 : Ref sig .tc := ⟨.hbm, 116, rfl⟩
abbrev main_call0_call0_call0_v69 : Ref sig .tc := ⟨.hbm, 117, rfl⟩
abbrev main_call0_call0_call0_v70 : Ref sig .tc := ⟨.hbm, 118, rfl⟩
abbrev main_call0_call0_call0_v71 : Ref sig .tc := ⟨.hbm, 119, rfl⟩
abbrev main_call0_call0_call0_c_17 : Ref sig .tc := ⟨.hbm, 120, rfl⟩
abbrev main_call0_call0_call0_v72 : Ref sig .tc := ⟨.hbm, 121, rfl⟩
abbrev main_call0_call0_call0_v73 : Ref sig .tc := ⟨.hbm, 122, rfl⟩
abbrev main_call0_call0_call0_v74 : Ref sig .tc := ⟨.hbm, 123, rfl⟩
abbrev main_call0_call0_call0_c_18 : Ref sig .tc := ⟨.hbm, 124, rfl⟩
abbrev main_call0_call0_call0_v75 : Ref sig .tc := ⟨.hbm, 125, rfl⟩
abbrev main_call0_call0_call0_v76 : Ref sig .tc := ⟨.hbm, 126, rfl⟩
abbrev main_call0_call0_call0_c_19 : Ref sig .tc := ⟨.hbm, 127, rfl⟩
abbrev main_call0_call0_call0_v77 : Ref sig .tc := ⟨.hbm, 128, rfl⟩
abbrev main_call0_call0_call0_v78 : Ref sig .tc := ⟨.hbm, 129, rfl⟩
abbrev main_call0_call0_call0_v79 : Ref sig .tc := ⟨.hbm, 130, rfl⟩
abbrev main_call0_call0_call0_v80 : Ref sig .tc := ⟨.hbm, 131, rfl⟩
abbrev main_call0_call0_call0_v81 : Ref sig .tc := ⟨.hbm, 132, rfl⟩
abbrev main_call0_call0_call0_c_20 : Ref sig .tc := ⟨.hbm, 133, rfl⟩
abbrev main_call0_call0_call0_v82 : Ref sig .tc := ⟨.hbm, 134, rfl⟩
abbrev main_call0_call0_call0_v83 : Ref sig .tc := ⟨.hbm, 135, rfl⟩
abbrev main_call0_call0_call0_c_21 : Ref sig .tc := ⟨.hbm, 136, rfl⟩
abbrev main_call0_call0_call0_v84 : Ref sig .tc := ⟨.hbm, 137, rfl⟩
abbrev main_call0_call0_call0_v85 : Ref sig .tc := ⟨.hbm, 138, rfl⟩
abbrev main_call0_call0_call0_v86 : Ref sig .tc := ⟨.hbm, 139, rfl⟩
abbrev main_call0_call0_call0_v87 : Ref sig .tc := ⟨.hbm, 140, rfl⟩
abbrev main_call0_call0_call0_v88 : Ref sig .tc := ⟨.hbm, 141, rfl⟩
abbrev main_call0_call0_call0_c_22 : Ref sig .tc := ⟨.hbm, 142, rfl⟩
abbrev main_call0_call0_call0_v89 : Ref sig .tc := ⟨.hbm, 143, rfl⟩
abbrev main_call0_call0_call0_v90 : Ref sig .tc := ⟨.hbm, 144, rfl⟩
abbrev main_call0_call0_call0_c_23 : Ref sig .tc := ⟨.hbm, 145, rfl⟩
abbrev main_call0_call0_call0_v91 : Ref sig .tc := ⟨.hbm, 146, rfl⟩
abbrev main_call0_call0_call0_v92 : Ref sig .tc := ⟨.hbm, 147, rfl⟩
abbrev main_call0_call0_call0_v93 : Ref sig .tc := ⟨.hbm, 148, rfl⟩
abbrev main_call0_call0_call0_v94 : Ref sig .tc := ⟨.hbm, 149, rfl⟩
abbrev main_call0_call0_call0_v95 : Ref sig .tc := ⟨.hbm, 150, rfl⟩
abbrev main_call0_call0_call0_c_24 : Ref sig .tc := ⟨.hbm, 151, rfl⟩
abbrev main_call0_call0_call0_v96 : Ref sig .tc := ⟨.hbm, 152, rfl⟩
abbrev main_call0_call0_call0_v97 : Ref sig .tc := ⟨.hbm, 153, rfl⟩
abbrev main_call0_call0_call0_c_25 : Ref sig .tc := ⟨.hbm, 154, rfl⟩
abbrev main_call0_call0_call0_v98 : Ref sig .tc := ⟨.hbm, 155, rfl⟩
abbrev main_call0_call0_call0_v99 : Ref sig .tc := ⟨.hbm, 156, rfl⟩
abbrev main_call0_call0_call0_v100 : Ref sig .tc := ⟨.hbm, 157, rfl⟩
abbrev main_call0_call0_call0_v101 : Ref sig .tc := ⟨.hbm, 158, rfl⟩
abbrev main_call0_call0_call0_v102 : Ref sig .tc := ⟨.hbm, 159, rfl⟩
abbrev main_call0_call0_call0_v103 : Ref sig .tc := ⟨.hbm, 160, rfl⟩
abbrev main_call0_call0_call0_v104 : Ref sig .tc := ⟨.hbm, 161, rfl⟩
abbrev main_call0_call0_call0_v105 : Ref sig .tc := ⟨.hbm, 162, rfl⟩
abbrev main_call0_call0_call0_c_26 : Ref sig .tc := ⟨.hbm, 163, rfl⟩
abbrev main_call0_call0_call0_v106 : Ref sig .tc := ⟨.hbm, 164, rfl⟩
abbrev main_call0_call0_call0_v107 : Ref sig .tc := ⟨.hbm, 165, rfl⟩
abbrev main_call0_call0_call0_v108 : Ref sig .tc := ⟨.hbm, 166, rfl⟩
abbrev main_call0_call0_call0_c_27 : Ref sig .tc := ⟨.hbm, 167, rfl⟩
abbrev main_call0_call0_call0_v109 : Ref sig .tc := ⟨.hbm, 168, rfl⟩
abbrev main_call0_call0_call0_v110 : Ref sig .tc := ⟨.hbm, 169, rfl⟩
abbrev main_call0_call0_call0_c_28 : Ref sig .tc := ⟨.hbm, 170, rfl⟩
abbrev main_call0_call0_call0_v111 : Ref sig .tc := ⟨.hbm, 171, rfl⟩
abbrev main_call0_call0_call0_v112 : Ref sig .tc := ⟨.hbm, 172, rfl⟩
abbrev main_call0_call0_call0_v113 : Ref sig .tc := ⟨.hbm, 173, rfl⟩
abbrev main_call0_call0_call0_v114 : Ref sig .tc := ⟨.hbm, 174, rfl⟩
abbrev main_call0_call0_call0_v115 : Ref sig .tc := ⟨.hbm, 175, rfl⟩
abbrev main_call0_call0_call0_c_29 : Ref sig .tc := ⟨.hbm, 176, rfl⟩
abbrev main_call0_call0_call0_v116 : Ref sig .tc := ⟨.hbm, 177, rfl⟩
abbrev main_call0_call0_call0_v117 : Ref sig .tc := ⟨.hbm, 178, rfl⟩
abbrev main_call0_call0_call0_c_30 : Ref sig .tc := ⟨.hbm, 179, rfl⟩
abbrev main_call0_call0_call0_v118 : Ref sig .tc := ⟨.hbm, 180, rfl⟩
abbrev main_call0_call0_call0_v119 : Ref sig .tc := ⟨.hbm, 181, rfl⟩
abbrev main_call0_call0_call0_v120 : Ref sig .tc := ⟨.hbm, 182, rfl⟩
abbrev main_call0_call0_call0_v121 : Ref sig .tc := ⟨.hbm, 183, rfl⟩
abbrev main_call0_call0_call0_v122 : Ref sig .tc := ⟨.hbm, 184, rfl⟩
abbrev main_call0_call0_call0_c_31 : Ref sig .tc := ⟨.hbm, 185, rfl⟩
abbrev main_call0_call0_call0_v123 : Ref sig .tc := ⟨.hbm, 186, rfl⟩
abbrev main_call0_call0_call0_v124 : Ref sig .tc := ⟨.hbm, 187, rfl⟩
abbrev main_call0_call0_call0_c_32 : Ref sig .tc := ⟨.hbm, 188, rfl⟩
abbrev main_call0_call0_call0_v125 : Ref sig .tc := ⟨.hbm, 189, rfl⟩
abbrev main_call0_call0_call0_v126 : Ref sig .tc := ⟨.hbm, 190, rfl⟩
abbrev main_call0_call0_call0_v127 : Ref sig .tc := ⟨.hbm, 191, rfl⟩
abbrev main_call0_call0_call0_v128 : Ref sig .tc := ⟨.hbm, 192, rfl⟩
abbrev main_call0_call0_call0_v129 : Ref sig .tc := ⟨.hbm, 193, rfl⟩
abbrev main_call0_call0_call0_c_33 : Ref sig .tc := ⟨.hbm, 194, rfl⟩
abbrev main_call0_call0_call0_v130 : Ref sig .tc := ⟨.hbm, 195, rfl⟩
abbrev main_call0_call0_call0_v131 : Ref sig .tc := ⟨.hbm, 196, rfl⟩
abbrev main_call0_call0_call0_c_34 : Ref sig .tc := ⟨.hbm, 197, rfl⟩
abbrev main_call0_call0_call0_v132 : Ref sig .tc := ⟨.hbm, 198, rfl⟩
abbrev main_call0_call0_call0_v133 : Ref sig .tc := ⟨.hbm, 199, rfl⟩
abbrev main_call0_call0_call0_v134 : Ref sig .tc := ⟨.hbm, 200, rfl⟩
abbrev main_call0_call0_call0_v135 : Ref sig .tc := ⟨.hbm, 201, rfl⟩
abbrev main_call0_call0_call0_v136 : Ref sig .tc := ⟨.hbm, 202, rfl⟩
abbrev main_call0_call0_call0_v137 : Ref sig .tc := ⟨.hbm, 203, rfl⟩
abbrev main_call0_call0_call0_v138 : Ref sig .tc := ⟨.hbm, 204, rfl⟩
abbrev main_call0_call0_call0_v139 : Ref sig .tc := ⟨.hbm, 205, rfl⟩
abbrev main_call0_call0_call0_c_35 : Ref sig .tc := ⟨.hbm, 206, rfl⟩
abbrev main_call0_call0_call0_v140 : Ref sig .tc := ⟨.hbm, 207, rfl⟩
abbrev main_call0_call0_call0_v141 : Ref sig .tc := ⟨.hbm, 208, rfl⟩
abbrev main_call0_call0_call0_v142 : Ref sig .tc := ⟨.hbm, 209, rfl⟩
abbrev main_call0_call0_call0_c_36 : Ref sig .tc := ⟨.hbm, 210, rfl⟩
abbrev main_call0_call0_call0_v143 : Ref sig .tc := ⟨.hbm, 211, rfl⟩
abbrev main_call0_call0_call0_v144 : Ref sig .tc := ⟨.hbm, 212, rfl⟩
abbrev main_call0_call0_call0_c_37 : Ref sig .tc := ⟨.hbm, 213, rfl⟩
abbrev main_call0_call0_call0_v145 : Ref sig .tc := ⟨.hbm, 214, rfl⟩
abbrev main_call0_call0_call0_v146 : Ref sig .tc := ⟨.hbm, 215, rfl⟩
abbrev main_call0_call0_call0_v147 : Ref sig .tc := ⟨.hbm, 216, rfl⟩
abbrev main_call0_call0_call0_v148 : Ref sig .tc := ⟨.hbm, 217, rfl⟩
abbrev main_call0_call0_call0_v149 : Ref sig .tc := ⟨.hbm, 218, rfl⟩
abbrev main_call0_call0_call0_c_38 : Ref sig .tc := ⟨.hbm, 219, rfl⟩
abbrev main_call0_call0_call0_v150 : Ref sig .tc := ⟨.hbm, 220, rfl⟩
abbrev main_call0_call0_call0_v151 : Ref sig .tc := ⟨.hbm, 221, rfl⟩
abbrev main_call0_call0_call0_c_39 : Ref sig .tc := ⟨.hbm, 222, rfl⟩
abbrev main_call0_call0_call0_v152 : Ref sig .tc := ⟨.hbm, 223, rfl⟩
abbrev main_call0_call0_call0_v153 : Ref sig .tc := ⟨.hbm, 224, rfl⟩
abbrev main_call0_call0_call0_v154 : Ref sig .tc := ⟨.hbm, 225, rfl⟩
abbrev main_call0_call0_call0_v155 : Ref sig .tc := ⟨.hbm, 226, rfl⟩
abbrev main_call0_call0_call0_v156 : Ref sig .tc := ⟨.hbm, 227, rfl⟩
abbrev main_call0_call0_call0_c_40 : Ref sig .tc := ⟨.hbm, 228, rfl⟩
abbrev main_call0_call0_call0_v157 : Ref sig .tc := ⟨.hbm, 229, rfl⟩
abbrev main_call0_call0_call0_v158 : Ref sig .tc := ⟨.hbm, 230, rfl⟩
abbrev main_call0_call0_call0_c_41 : Ref sig .tc := ⟨.hbm, 231, rfl⟩
abbrev main_call0_call0_call0_v159 : Ref sig .tc := ⟨.hbm, 232, rfl⟩
abbrev main_call0_call0_call0_v160 : Ref sig .tc := ⟨.hbm, 233, rfl⟩
abbrev main_call0_call0_call0_v161 : Ref sig .tc := ⟨.hbm, 234, rfl⟩
abbrev main_call0_call0_call0_v162 : Ref sig .tc := ⟨.hbm, 235, rfl⟩
abbrev main_call0_call0_call0_v163 : Ref sig .tc := ⟨.hbm, 236, rfl⟩
abbrev main_call0_call0_call0_c_42 : Ref sig .tc := ⟨.hbm, 237, rfl⟩
abbrev main_call0_call0_call0_v164 : Ref sig .tc := ⟨.hbm, 238, rfl⟩
abbrev main_call0_call0_call0_v165 : Ref sig .tc := ⟨.hbm, 239, rfl⟩
abbrev main_call0_call0_call0_c_43 : Ref sig .tc := ⟨.hbm, 240, rfl⟩
abbrev main_call0_call0_call0_v166 : Ref sig .tc := ⟨.hbm, 241, rfl⟩
abbrev main_call0_call0_call0_v167 : Ref sig .tc := ⟨.hbm, 242, rfl⟩
abbrev main_call0_call0_call0_v168 : Ref sig .tc := ⟨.hbm, 243, rfl⟩
abbrev main_call0_call0_call0_v169 : Ref sig .tc := ⟨.hbm, 244, rfl⟩
abbrev main_call0_call0_call0_v170 : Ref sig .tc := ⟨.hbm, 245, rfl⟩
abbrev main_call0_call0_v11_0 : Ref sig .tc := ⟨.hbm, 246, rfl⟩
abbrev main_call0_call0_call0_v172 : Ref sig .tc := ⟨.hbm, 247, rfl⟩
abbrev main_call0_call0_call0_v173 : Ref sig .tc := ⟨.hbm, 248, rfl⟩
abbrev main_call0_call0_call0_c_44 : Ref sig .tc := ⟨.hbm, 249, rfl⟩
abbrev main_call0_call0_call0_v174 : Ref sig .tc := ⟨.hbm, 250, rfl⟩
abbrev main_call0_call0_v11_1 : Ref sig .tc := ⟨.hbm, 251, rfl⟩
abbrev main_call0_call0_v12 : Ref sig .tc := ⟨.hbm, 252, rfl⟩
abbrev main_call0_call0_v13 : Ref sig .tc := ⟨.hbm, 253, rfl⟩
abbrev main_call0_v0 : Ref sig .tc := ⟨.hbm, 254, rfl⟩
abbrev main_call0_v1 : Ref sig .tc := ⟨.hbm, 255, rfl⟩
abbrev main_call0_v2 : Ref sig .tc := ⟨.hbm, 256, rfl⟩
abbrev main_call0_v3 : Ref sig .tc := ⟨.hbm, 257, rfl⟩
abbrev main_call0_v4 : Ref sig .tc := ⟨.hbm, 258, rfl⟩
abbrev main_call0_v5 : Ref sig .tc := ⟨.hbm, 259, rfl⟩
abbrev main_call0_v6 : Ref sig .tc := ⟨.hbm, 260, rfl⟩
abbrev main_call0_v7 : Ref sig .tc := ⟨.hbm, 261, rfl⟩
abbrev main_call0_v8 : Ref sig .tc := ⟨.hbm, 262, rfl⟩
abbrev main_call0_v9 : Ref sig .tc := ⟨.hbm, 263, rfl⟩
abbrev main_call0_c : Ref sig .tc := ⟨.hbm, 264, rfl⟩
abbrev main_call0_v10 : Ref sig .tc := ⟨.hbm, 265, rfl⟩
abbrev main_call0_v11 : Ref sig .tc := ⟨.hbm, 266, rfl⟩
abbrev main_call0_c_0 : Ref sig .tc := ⟨.hbm, 267, rfl⟩
abbrev main_call0_v12 : Ref sig .tc := ⟨.hbm, 268, rfl⟩
abbrev main_call0_v13 : Ref sig .tc := ⟨.hbm, 269, rfl⟩
abbrev main_call0_v14 : Ref sig .tc := ⟨.hbm, 270, rfl⟩
abbrev main_call0_v15 : Ref sig .tc := ⟨.hbm, 271, rfl⟩
abbrev main_call0_call1_v0 : Ref sig .tc := ⟨.hbm, 272, rfl⟩
abbrev main_call0_call1_c : Ref sig .tc := ⟨.hbm, 273, rfl⟩
abbrev main_call0_call1_v1 : Ref sig .tc := ⟨.hbm, 274, rfl⟩
abbrev main_call0_call1_v2 : Ref sig .tc := ⟨.hbm, 275, rfl⟩
abbrev main_call0_call1_v3 : Ref sig .tc := ⟨.hbm, 276, rfl⟩
abbrev main_call0_call1_v4 : Ref sig .tc := ⟨.hbm, 277, rfl⟩
abbrev main_call0_call1_v5 : Ref sig .tc := ⟨.hbm, 278, rfl⟩
abbrev main_call0_call1_v6 : Ref sig .tc := ⟨.hbm, 279, rfl⟩
abbrev main_call0_call1_c_0 : Ref sig .tc := ⟨.hbm, 280, rfl⟩
abbrev main_call0_call1_v7 : Ref sig .tc := ⟨.hbm, 281, rfl⟩
abbrev main_call0_call1_v8 : Ref sig .tc := ⟨.hbm, 282, rfl⟩
abbrev main_call0_call1_c_1 : Ref sig .tc := ⟨.hbm, 283, rfl⟩
abbrev main_call0_call1_v9 : Ref sig .tc := ⟨.hbm, 284, rfl⟩
abbrev main_call0_call1_v10 : Ref sig .tc := ⟨.hbm, 285, rfl⟩
abbrev main_call0_call1_v11 : Ref sig .tc := ⟨.hbm, 286, rfl⟩
abbrev main_call0_call1_v12 : Ref sig .tc := ⟨.hbm, 287, rfl⟩
abbrev main_call0_call1_v13 : Ref sig .tc := ⟨.hbm, 288, rfl⟩
abbrev main_call0_call1_c_2 : Ref sig .tc := ⟨.hbm, 289, rfl⟩
abbrev main_call0_call1_v14 : Ref sig .tc := ⟨.hbm, 290, rfl⟩
abbrev main_call0_call1_v15 : Ref sig .tc := ⟨.hbm, 291, rfl⟩
abbrev main_call0_call1_c_3 : Ref sig .tc := ⟨.hbm, 292, rfl⟩
abbrev main_call0_call1_v16 : Ref sig .tc := ⟨.hbm, 293, rfl⟩
abbrev main_call0_call1_v17 : Ref sig .tc := ⟨.hbm, 294, rfl⟩
abbrev main_call0_call1_v18 : Ref sig .tc := ⟨.hbm, 295, rfl⟩
abbrev main_call0_call1_v19 : Ref sig .tc := ⟨.hbm, 296, rfl⟩
abbrev main_call0_call1_v20 : Ref sig .tc := ⟨.hbm, 297, rfl⟩
abbrev main_call0_call1_c_4 : Ref sig .tc := ⟨.hbm, 298, rfl⟩
abbrev main_call0_call1_v21 : Ref sig .tc := ⟨.hbm, 299, rfl⟩
abbrev main_call0_call1_v22 : Ref sig .tc := ⟨.hbm, 300, rfl⟩
abbrev main_call0_call1_c_5 : Ref sig .tc := ⟨.hbm, 301, rfl⟩
abbrev main_call0_call1_v23 : Ref sig .tc := ⟨.hbm, 302, rfl⟩
abbrev main_call0_call1_v24 : Ref sig .tc := ⟨.hbm, 303, rfl⟩
abbrev main_call0_call1_v25 : Ref sig .tc := ⟨.hbm, 304, rfl⟩
abbrev main_call0_call1_v26 : Ref sig .tc := ⟨.hbm, 305, rfl⟩
abbrev main_call0_call1_v27 : Ref sig .tc := ⟨.hbm, 306, rfl⟩
abbrev main_call0_call1_c_6 : Ref sig .tc := ⟨.hbm, 307, rfl⟩
abbrev main_call0_call1_v28 : Ref sig .tc := ⟨.hbm, 308, rfl⟩
abbrev main_call0_call1_v29 : Ref sig .tc := ⟨.hbm, 309, rfl⟩
abbrev main_call0_call1_c_7 : Ref sig .tc := ⟨.hbm, 310, rfl⟩
abbrev main_call0_call1_v30 : Ref sig .tc := ⟨.hbm, 311, rfl⟩
abbrev main_call0_call1_v31 : Ref sig .tc := ⟨.hbm, 312, rfl⟩
abbrev main_call0_call1_v32 : Ref sig .tc := ⟨.hbm, 313, rfl⟩
abbrev main_call0_call1_v33 : Ref sig .tc := ⟨.hbm, 314, rfl⟩
abbrev main_call0_call1_v34 : Ref sig .tc := ⟨.hbm, 315, rfl⟩
abbrev main_call0_call1_v35 : Ref sig .tc := ⟨.hbm, 316, rfl⟩
abbrev main_call0_call1_v36 : Ref sig .tc := ⟨.hbm, 317, rfl⟩
abbrev main_call0_call1_v37 : Ref sig .tc := ⟨.hbm, 318, rfl⟩
abbrev main_call0_call1_c_8 : Ref sig .tc := ⟨.hbm, 319, rfl⟩
abbrev main_call0_call1_v38 : Ref sig .tc := ⟨.hbm, 320, rfl⟩
abbrev main_call0_call1_v39 : Ref sig .tc := ⟨.hbm, 321, rfl⟩
abbrev main_call0_call1_v40 : Ref sig .tc := ⟨.hbm, 322, rfl⟩
abbrev main_call0_call1_c_9 : Ref sig .tc := ⟨.hbm, 323, rfl⟩
abbrev main_call0_call1_v41 : Ref sig .tc := ⟨.hbm, 324, rfl⟩
abbrev main_call0_call1_v42 : Ref sig .tc := ⟨.hbm, 325, rfl⟩
abbrev main_call0_call1_c_10 : Ref sig .tc := ⟨.hbm, 326, rfl⟩
abbrev main_call0_call1_v43 : Ref sig .tc := ⟨.hbm, 327, rfl⟩
abbrev main_call0_call1_v44 : Ref sig .tc := ⟨.hbm, 328, rfl⟩
abbrev main_call0_call1_v45 : Ref sig .tc := ⟨.hbm, 329, rfl⟩
abbrev main_call0_call1_v46 : Ref sig .tc := ⟨.hbm, 330, rfl⟩
abbrev main_call0_call1_v47 : Ref sig .tc := ⟨.hbm, 331, rfl⟩
abbrev main_call0_call1_c_11 : Ref sig .tc := ⟨.hbm, 332, rfl⟩
abbrev main_call0_call1_v48 : Ref sig .tc := ⟨.hbm, 333, rfl⟩
abbrev main_call0_call1_v49 : Ref sig .tc := ⟨.hbm, 334, rfl⟩
abbrev main_call0_call1_c_12 : Ref sig .tc := ⟨.hbm, 335, rfl⟩
abbrev main_call0_call1_v50 : Ref sig .tc := ⟨.hbm, 336, rfl⟩
abbrev main_call0_call1_v51 : Ref sig .tc := ⟨.hbm, 337, rfl⟩
abbrev main_call0_call1_v52 : Ref sig .tc := ⟨.hbm, 338, rfl⟩
abbrev main_call0_call1_v53 : Ref sig .tc := ⟨.hbm, 339, rfl⟩
abbrev main_call0_call1_v54 : Ref sig .tc := ⟨.hbm, 340, rfl⟩
abbrev main_call0_call1_c_13 : Ref sig .tc := ⟨.hbm, 341, rfl⟩
abbrev main_call0_call1_v55 : Ref sig .tc := ⟨.hbm, 342, rfl⟩
abbrev main_call0_call1_v56 : Ref sig .tc := ⟨.hbm, 343, rfl⟩
abbrev main_call0_call1_c_14 : Ref sig .tc := ⟨.hbm, 344, rfl⟩
abbrev main_call0_call1_v57 : Ref sig .tc := ⟨.hbm, 345, rfl⟩
abbrev main_call0_call1_v58 : Ref sig .tc := ⟨.hbm, 346, rfl⟩
abbrev main_call0_call1_v59 : Ref sig .tc := ⟨.hbm, 347, rfl⟩
abbrev main_call0_call1_v60 : Ref sig .tc := ⟨.hbm, 348, rfl⟩
abbrev main_call0_call1_v61 : Ref sig .tc := ⟨.hbm, 349, rfl⟩
abbrev main_call0_call1_c_15 : Ref sig .tc := ⟨.hbm, 350, rfl⟩
abbrev main_call0_call1_v62 : Ref sig .tc := ⟨.hbm, 351, rfl⟩
abbrev main_call0_call1_v63 : Ref sig .tc := ⟨.hbm, 352, rfl⟩
abbrev main_call0_call1_c_16 : Ref sig .tc := ⟨.hbm, 353, rfl⟩
abbrev main_call0_call1_v64 : Ref sig .tc := ⟨.hbm, 354, rfl⟩
abbrev main_call0_call1_v65 : Ref sig .tc := ⟨.hbm, 355, rfl⟩
abbrev main_call0_call1_v66 : Ref sig .tc := ⟨.hbm, 356, rfl⟩
abbrev main_call0_call1_v67 : Ref sig .tc := ⟨.hbm, 357, rfl⟩
abbrev main_call0_call1_v68 : Ref sig .tc := ⟨.hbm, 358, rfl⟩
abbrev main_call0_call1_v69 : Ref sig .tc := ⟨.hbm, 359, rfl⟩
abbrev main_call0_call1_v70 : Ref sig .tc := ⟨.hbm, 360, rfl⟩
abbrev main_call0_call1_v71 : Ref sig .tc := ⟨.hbm, 361, rfl⟩
abbrev main_call0_call1_c_17 : Ref sig .tc := ⟨.hbm, 362, rfl⟩
abbrev main_call0_call1_v72 : Ref sig .tc := ⟨.hbm, 363, rfl⟩
abbrev main_call0_call1_v73 : Ref sig .tc := ⟨.hbm, 364, rfl⟩
abbrev main_call0_call1_v74 : Ref sig .tc := ⟨.hbm, 365, rfl⟩
abbrev main_call0_call1_c_18 : Ref sig .tc := ⟨.hbm, 366, rfl⟩
abbrev main_call0_call1_v75 : Ref sig .tc := ⟨.hbm, 367, rfl⟩
abbrev main_call0_call1_v76 : Ref sig .tc := ⟨.hbm, 368, rfl⟩
abbrev main_call0_call1_c_19 : Ref sig .tc := ⟨.hbm, 369, rfl⟩
abbrev main_call0_call1_v77 : Ref sig .tc := ⟨.hbm, 370, rfl⟩
abbrev main_call0_call1_v78 : Ref sig .tc := ⟨.hbm, 371, rfl⟩
abbrev main_call0_call1_v79 : Ref sig .tc := ⟨.hbm, 372, rfl⟩
abbrev main_call0_call1_v80 : Ref sig .tc := ⟨.hbm, 373, rfl⟩
abbrev main_call0_call1_v81 : Ref sig .tc := ⟨.hbm, 374, rfl⟩
abbrev main_call0_call1_c_20 : Ref sig .tc := ⟨.hbm, 375, rfl⟩
abbrev main_call0_call1_v82 : Ref sig .tc := ⟨.hbm, 376, rfl⟩
abbrev main_call0_call1_v83 : Ref sig .tc := ⟨.hbm, 377, rfl⟩
abbrev main_call0_call1_c_21 : Ref sig .tc := ⟨.hbm, 378, rfl⟩
abbrev main_call0_call1_v84 : Ref sig .tc := ⟨.hbm, 379, rfl⟩
abbrev main_call0_call1_v85 : Ref sig .tc := ⟨.hbm, 380, rfl⟩
abbrev main_call0_call1_v86 : Ref sig .tc := ⟨.hbm, 381, rfl⟩
abbrev main_call0_call1_v87 : Ref sig .tc := ⟨.hbm, 382, rfl⟩
abbrev main_call0_call1_v88 : Ref sig .tc := ⟨.hbm, 383, rfl⟩
abbrev main_call0_call1_c_22 : Ref sig .tc := ⟨.hbm, 384, rfl⟩
abbrev main_call0_call1_v89 : Ref sig .tc := ⟨.hbm, 385, rfl⟩
abbrev main_call0_call1_v90 : Ref sig .tc := ⟨.hbm, 386, rfl⟩
abbrev main_call0_call1_c_23 : Ref sig .tc := ⟨.hbm, 387, rfl⟩
abbrev main_call0_call1_v91 : Ref sig .tc := ⟨.hbm, 388, rfl⟩
abbrev main_call0_call1_v92 : Ref sig .tc := ⟨.hbm, 389, rfl⟩
abbrev main_call0_call1_v93 : Ref sig .tc := ⟨.hbm, 390, rfl⟩
abbrev main_call0_call1_v94 : Ref sig .tc := ⟨.hbm, 391, rfl⟩
abbrev main_call0_call1_v95 : Ref sig .tc := ⟨.hbm, 392, rfl⟩
abbrev main_call0_call1_c_24 : Ref sig .tc := ⟨.hbm, 393, rfl⟩
abbrev main_call0_call1_v96 : Ref sig .tc := ⟨.hbm, 394, rfl⟩
abbrev main_call0_call1_v97 : Ref sig .tc := ⟨.hbm, 395, rfl⟩
abbrev main_call0_call1_c_25 : Ref sig .tc := ⟨.hbm, 396, rfl⟩
abbrev main_call0_call1_v98 : Ref sig .tc := ⟨.hbm, 397, rfl⟩
abbrev main_call0_call1_v99 : Ref sig .tc := ⟨.hbm, 398, rfl⟩
abbrev main_call0_call1_v100 : Ref sig .tc := ⟨.hbm, 399, rfl⟩
abbrev main_call0_call1_v101 : Ref sig .tc := ⟨.hbm, 400, rfl⟩
abbrev main_call0_call1_v102 : Ref sig .tc := ⟨.hbm, 401, rfl⟩
abbrev main_call0_call1_v103 : Ref sig .tc := ⟨.hbm, 402, rfl⟩
abbrev main_call0_call1_v104 : Ref sig .tc := ⟨.hbm, 403, rfl⟩
abbrev main_call0_call1_v105 : Ref sig .tc := ⟨.hbm, 404, rfl⟩
abbrev main_call0_call1_c_26 : Ref sig .tc := ⟨.hbm, 405, rfl⟩
abbrev main_call0_call1_v106 : Ref sig .tc := ⟨.hbm, 406, rfl⟩
abbrev main_call0_call1_v107 : Ref sig .tc := ⟨.hbm, 407, rfl⟩
abbrev main_call0_call1_v108 : Ref sig .tc := ⟨.hbm, 408, rfl⟩
abbrev main_call0_call1_c_27 : Ref sig .tc := ⟨.hbm, 409, rfl⟩
abbrev main_call0_call1_v109 : Ref sig .tc := ⟨.hbm, 410, rfl⟩
abbrev main_call0_call1_v110 : Ref sig .tc := ⟨.hbm, 411, rfl⟩
abbrev main_call0_call1_c_28 : Ref sig .tc := ⟨.hbm, 412, rfl⟩
abbrev main_call0_call1_v111 : Ref sig .tc := ⟨.hbm, 413, rfl⟩
abbrev main_call0_call1_v112 : Ref sig .tc := ⟨.hbm, 414, rfl⟩
abbrev main_call0_call1_v113 : Ref sig .tc := ⟨.hbm, 415, rfl⟩
abbrev main_call0_call1_v114 : Ref sig .tc := ⟨.hbm, 416, rfl⟩
abbrev main_call0_call1_v115 : Ref sig .tc := ⟨.hbm, 417, rfl⟩
abbrev main_call0_call1_c_29 : Ref sig .tc := ⟨.hbm, 418, rfl⟩
abbrev main_call0_call1_v116 : Ref sig .tc := ⟨.hbm, 419, rfl⟩
abbrev main_call0_call1_v117 : Ref sig .tc := ⟨.hbm, 420, rfl⟩
abbrev main_call0_call1_c_30 : Ref sig .tc := ⟨.hbm, 421, rfl⟩
abbrev main_call0_call1_v118 : Ref sig .tc := ⟨.hbm, 422, rfl⟩
abbrev main_call0_call1_v119 : Ref sig .tc := ⟨.hbm, 423, rfl⟩
abbrev main_call0_call1_v120 : Ref sig .tc := ⟨.hbm, 424, rfl⟩
abbrev main_call0_call1_v121 : Ref sig .tc := ⟨.hbm, 425, rfl⟩
abbrev main_call0_call1_v122 : Ref sig .tc := ⟨.hbm, 426, rfl⟩
abbrev main_call0_call1_c_31 : Ref sig .tc := ⟨.hbm, 427, rfl⟩
abbrev main_call0_call1_v123 : Ref sig .tc := ⟨.hbm, 428, rfl⟩
abbrev main_call0_call1_v124 : Ref sig .tc := ⟨.hbm, 429, rfl⟩
abbrev main_call0_call1_c_32 : Ref sig .tc := ⟨.hbm, 430, rfl⟩
abbrev main_call0_call1_v125 : Ref sig .tc := ⟨.hbm, 431, rfl⟩
abbrev main_call0_call1_v126 : Ref sig .tc := ⟨.hbm, 432, rfl⟩
abbrev main_call0_call1_v127 : Ref sig .tc := ⟨.hbm, 433, rfl⟩
abbrev main_call0_call1_v128 : Ref sig .tc := ⟨.hbm, 434, rfl⟩
abbrev main_call0_call1_v129 : Ref sig .tc := ⟨.hbm, 435, rfl⟩
abbrev main_call0_call1_c_33 : Ref sig .tc := ⟨.hbm, 436, rfl⟩
abbrev main_call0_call1_v130 : Ref sig .tc := ⟨.hbm, 437, rfl⟩
abbrev main_call0_call1_v131 : Ref sig .tc := ⟨.hbm, 438, rfl⟩
abbrev main_call0_call1_c_34 : Ref sig .tc := ⟨.hbm, 439, rfl⟩
abbrev main_call0_call1_v132 : Ref sig .tc := ⟨.hbm, 440, rfl⟩
abbrev main_call0_call1_v133 : Ref sig .tc := ⟨.hbm, 441, rfl⟩
abbrev main_call0_call1_v134 : Ref sig .tc := ⟨.hbm, 442, rfl⟩
abbrev main_call0_call1_v135 : Ref sig .tc := ⟨.hbm, 443, rfl⟩
abbrev main_call0_call1_v136 : Ref sig .tc := ⟨.hbm, 444, rfl⟩
abbrev main_call0_call1_v137 : Ref sig .tc := ⟨.hbm, 445, rfl⟩
abbrev main_call0_call1_v138 : Ref sig .tc := ⟨.hbm, 446, rfl⟩
abbrev main_call0_call1_v139 : Ref sig .tc := ⟨.hbm, 447, rfl⟩
abbrev main_call0_call1_c_35 : Ref sig .tc := ⟨.hbm, 448, rfl⟩
abbrev main_call0_call1_v140 : Ref sig .tc := ⟨.hbm, 449, rfl⟩
abbrev main_call0_call1_v141 : Ref sig .tc := ⟨.hbm, 450, rfl⟩
abbrev main_call0_call1_v142 : Ref sig .tc := ⟨.hbm, 451, rfl⟩
abbrev main_call0_call1_c_36 : Ref sig .tc := ⟨.hbm, 452, rfl⟩
abbrev main_call0_call1_v143 : Ref sig .tc := ⟨.hbm, 453, rfl⟩
abbrev main_call0_call1_v144 : Ref sig .tc := ⟨.hbm, 454, rfl⟩
abbrev main_call0_call1_c_37 : Ref sig .tc := ⟨.hbm, 455, rfl⟩
abbrev main_call0_call1_v145 : Ref sig .tc := ⟨.hbm, 456, rfl⟩
abbrev main_call0_call1_v146 : Ref sig .tc := ⟨.hbm, 457, rfl⟩
abbrev main_call0_call1_v147 : Ref sig .tc := ⟨.hbm, 458, rfl⟩
abbrev main_call0_call1_v148 : Ref sig .tc := ⟨.hbm, 459, rfl⟩
abbrev main_call0_call1_v149 : Ref sig .tc := ⟨.hbm, 460, rfl⟩
abbrev main_call0_call1_c_38 : Ref sig .tc := ⟨.hbm, 461, rfl⟩
abbrev main_call0_call1_v150 : Ref sig .tc := ⟨.hbm, 462, rfl⟩
abbrev main_call0_call1_v151 : Ref sig .tc := ⟨.hbm, 463, rfl⟩
abbrev main_call0_call1_c_39 : Ref sig .tc := ⟨.hbm, 464, rfl⟩
abbrev main_call0_call1_v152 : Ref sig .tc := ⟨.hbm, 465, rfl⟩
abbrev main_call0_call1_v153 : Ref sig .tc := ⟨.hbm, 466, rfl⟩
abbrev main_call0_call1_v154 : Ref sig .tc := ⟨.hbm, 467, rfl⟩
abbrev main_call0_call1_v155 : Ref sig .tc := ⟨.hbm, 468, rfl⟩
abbrev main_call0_call1_v156 : Ref sig .tc := ⟨.hbm, 469, rfl⟩
abbrev main_call0_call1_c_40 : Ref sig .tc := ⟨.hbm, 470, rfl⟩
abbrev main_call0_call1_v157 : Ref sig .tc := ⟨.hbm, 471, rfl⟩
abbrev main_call0_call1_v158 : Ref sig .tc := ⟨.hbm, 472, rfl⟩
abbrev main_call0_call1_c_41 : Ref sig .tc := ⟨.hbm, 473, rfl⟩
abbrev main_call0_call1_v159 : Ref sig .tc := ⟨.hbm, 474, rfl⟩
abbrev main_call0_call1_v160 : Ref sig .tc := ⟨.hbm, 475, rfl⟩
abbrev main_call0_call1_v161 : Ref sig .tc := ⟨.hbm, 476, rfl⟩
abbrev main_call0_call1_v162 : Ref sig .tc := ⟨.hbm, 477, rfl⟩
abbrev main_call0_call1_v163 : Ref sig .tc := ⟨.hbm, 478, rfl⟩
abbrev main_call0_call1_c_42 : Ref sig .tc := ⟨.hbm, 479, rfl⟩
abbrev main_call0_call1_v164 : Ref sig .tc := ⟨.hbm, 480, rfl⟩
abbrev main_call0_call1_v165 : Ref sig .tc := ⟨.hbm, 481, rfl⟩
abbrev main_call0_call1_c_43 : Ref sig .tc := ⟨.hbm, 482, rfl⟩
abbrev main_call0_call1_v166 : Ref sig .tc := ⟨.hbm, 483, rfl⟩
abbrev main_call0_call1_v167 : Ref sig .tc := ⟨.hbm, 484, rfl⟩
abbrev main_call0_call1_v168 : Ref sig .tc := ⟨.hbm, 485, rfl⟩
abbrev main_call0_call1_v169 : Ref sig .tc := ⟨.hbm, 486, rfl⟩
abbrev main_call0_call1_v170 : Ref sig .tc := ⟨.hbm, 487, rfl⟩
abbrev main_call0_v16_0 : Ref sig .tc := ⟨.hbm, 488, rfl⟩
abbrev main_call0_call1_v172 : Ref sig .tc := ⟨.hbm, 489, rfl⟩
abbrev main_call0_call1_v173 : Ref sig .tc := ⟨.hbm, 490, rfl⟩
abbrev main_call0_call1_c_44 : Ref sig .tc := ⟨.hbm, 491, rfl⟩
abbrev main_call0_call1_v174 : Ref sig .tc := ⟨.hbm, 492, rfl⟩
abbrev main_call0_v16_1 : Ref sig .tc := ⟨.hbm, 493, rfl⟩
abbrev main_call0_v17 : Ref sig .tc := ⟨.hbm, 494, rfl⟩
abbrev main_call0_v18_0 : Ref sig .tc := ⟨.hbm, 495, rfl⟩
abbrev main_v8 : Ref sig .tc := ⟨.hbm, 496, rfl⟩
abbrev main_c_2 : Ref sig .tc := ⟨.hbm, 497, rfl⟩
abbrev main_c_3 : Ref sig .tc := ⟨.hbm, 498, rfl⟩
abbrev main_v9 : Ref sig .tc := ⟨.hbm, 499, rfl⟩
abbrev main_v10 : Ref sig .tc := ⟨.hbm, 500, rfl⟩
abbrev main_v11 : Ref sig .tc := ⟨.hbm, 501, rfl⟩
abbrev main_c_4 : Ref sig .tc := ⟨.hbm, 502, rfl⟩
abbrev main_v12 : Ref sig .tc := ⟨.hbm, 503, rfl⟩
abbrev main_v13 : Ref sig .tc := ⟨.hbm, 504, rfl⟩
abbrev main_v14 : Ref sig .tc := ⟨.hbm, 505, rfl⟩
abbrev main_v15 : Ref sig .tc := ⟨.hbm, 506, rfl⟩
abbrev main_v16 : Ref sig .tc := ⟨.hbm, 507, rfl⟩
abbrev main_call1_call0_v0 : Ref sig .tc := ⟨.hbm, 508, rfl⟩
abbrev main_call1_call0_v1 : Ref sig .tc := ⟨.hbm, 509, rfl⟩
abbrev main_call1_call0_v2 : Ref sig .tc := ⟨.hbm, 510, rfl⟩
abbrev main_call1_call0_v3 : Ref sig .tc := ⟨.hbm, 511, rfl⟩
abbrev main_call1_call0_v4 : Ref sig .tc := ⟨.hbm, 512, rfl⟩
abbrev main_call1_call0_c : Ref sig .tc := ⟨.hbm, 513, rfl⟩
abbrev main_call1_call0_v5 : Ref sig .tc := ⟨.hbm, 514, rfl⟩
abbrev main_call1_call0_v6 : Ref sig .tc := ⟨.hbm, 515, rfl⟩
abbrev main_call1_call0_c_0 : Ref sig .tc := ⟨.hbm, 516, rfl⟩
abbrev main_call1_call0_v7 : Ref sig .tc := ⟨.hbm, 517, rfl⟩
abbrev main_call1_call0_v8 : Ref sig .tc := ⟨.hbm, 518, rfl⟩
abbrev main_call1_call0_v9 : Ref sig .tc := ⟨.hbm, 519, rfl⟩
abbrev main_call1_call0_v10 : Ref sig .tc := ⟨.hbm, 520, rfl⟩
abbrev main_call1_call0_call0_v0 : Ref sig .tc := ⟨.hbm, 521, rfl⟩
abbrev main_call1_call0_call0_c : Ref sig .tc := ⟨.hbm, 522, rfl⟩
abbrev main_call1_call0_call0_v1 : Ref sig .tc := ⟨.hbm, 523, rfl⟩
abbrev main_call1_call0_call0_v2 : Ref sig .tc := ⟨.hbm, 524, rfl⟩
abbrev main_call1_call0_call0_v3 : Ref sig .tc := ⟨.hbm, 525, rfl⟩
abbrev main_call1_call0_call0_v4 : Ref sig .tc := ⟨.hbm, 526, rfl⟩
abbrev main_call1_call0_call0_v5 : Ref sig .tc := ⟨.hbm, 527, rfl⟩
abbrev main_call1_call0_call0_v6 : Ref sig .tc := ⟨.hbm, 528, rfl⟩
abbrev main_call1_call0_call0_c_0 : Ref sig .tc := ⟨.hbm, 529, rfl⟩
abbrev main_call1_call0_call0_v7 : Ref sig .tc := ⟨.hbm, 530, rfl⟩
abbrev main_call1_call0_call0_v8 : Ref sig .tc := ⟨.hbm, 531, rfl⟩
abbrev main_call1_call0_call0_c_1 : Ref sig .tc := ⟨.hbm, 532, rfl⟩
abbrev main_call1_call0_call0_v9 : Ref sig .tc := ⟨.hbm, 533, rfl⟩
abbrev main_call1_call0_call0_v10 : Ref sig .tc := ⟨.hbm, 534, rfl⟩
abbrev main_call1_call0_call0_v11 : Ref sig .tc := ⟨.hbm, 535, rfl⟩
abbrev main_call1_call0_call0_v12 : Ref sig .tc := ⟨.hbm, 536, rfl⟩
abbrev main_call1_call0_call0_v13 : Ref sig .tc := ⟨.hbm, 537, rfl⟩
abbrev main_call1_call0_call0_c_2 : Ref sig .tc := ⟨.hbm, 538, rfl⟩
abbrev main_call1_call0_call0_v14 : Ref sig .tc := ⟨.hbm, 539, rfl⟩
abbrev main_call1_call0_call0_v15 : Ref sig .tc := ⟨.hbm, 540, rfl⟩
abbrev main_call1_call0_call0_c_3 : Ref sig .tc := ⟨.hbm, 541, rfl⟩
abbrev main_call1_call0_call0_v16 : Ref sig .tc := ⟨.hbm, 542, rfl⟩
abbrev main_call1_call0_call0_v17 : Ref sig .tc := ⟨.hbm, 543, rfl⟩
abbrev main_call1_call0_call0_v18 : Ref sig .tc := ⟨.hbm, 544, rfl⟩
abbrev main_call1_call0_call0_v19 : Ref sig .tc := ⟨.hbm, 545, rfl⟩
abbrev main_call1_call0_call0_v20 : Ref sig .tc := ⟨.hbm, 546, rfl⟩
abbrev main_call1_call0_call0_c_4 : Ref sig .tc := ⟨.hbm, 547, rfl⟩
abbrev main_call1_call0_call0_v21 : Ref sig .tc := ⟨.hbm, 548, rfl⟩
abbrev main_call1_call0_call0_v22 : Ref sig .tc := ⟨.hbm, 549, rfl⟩
abbrev main_call1_call0_call0_c_5 : Ref sig .tc := ⟨.hbm, 550, rfl⟩
abbrev main_call1_call0_call0_v23 : Ref sig .tc := ⟨.hbm, 551, rfl⟩
abbrev main_call1_call0_call0_v24 : Ref sig .tc := ⟨.hbm, 552, rfl⟩
abbrev main_call1_call0_call0_v25 : Ref sig .tc := ⟨.hbm, 553, rfl⟩
abbrev main_call1_call0_call0_v26 : Ref sig .tc := ⟨.hbm, 554, rfl⟩
abbrev main_call1_call0_call0_v27 : Ref sig .tc := ⟨.hbm, 555, rfl⟩
abbrev main_call1_call0_call0_c_6 : Ref sig .tc := ⟨.hbm, 556, rfl⟩
abbrev main_call1_call0_call0_v28 : Ref sig .tc := ⟨.hbm, 557, rfl⟩
abbrev main_call1_call0_call0_v29 : Ref sig .tc := ⟨.hbm, 558, rfl⟩
abbrev main_call1_call0_call0_c_7 : Ref sig .tc := ⟨.hbm, 559, rfl⟩
abbrev main_call1_call0_call0_v30 : Ref sig .tc := ⟨.hbm, 560, rfl⟩
abbrev main_call1_call0_call0_v31 : Ref sig .tc := ⟨.hbm, 561, rfl⟩
abbrev main_call1_call0_call0_v32 : Ref sig .tc := ⟨.hbm, 562, rfl⟩
abbrev main_call1_call0_call0_v33 : Ref sig .tc := ⟨.hbm, 563, rfl⟩
abbrev main_call1_call0_call0_v34 : Ref sig .tc := ⟨.hbm, 564, rfl⟩
abbrev main_call1_call0_call0_v35 : Ref sig .tc := ⟨.hbm, 565, rfl⟩
abbrev main_call1_call0_call0_v36 : Ref sig .tc := ⟨.hbm, 566, rfl⟩
abbrev main_call1_call0_call0_v37 : Ref sig .tc := ⟨.hbm, 567, rfl⟩
abbrev main_call1_call0_call0_c_8 : Ref sig .tc := ⟨.hbm, 568, rfl⟩
abbrev main_call1_call0_call0_v38 : Ref sig .tc := ⟨.hbm, 569, rfl⟩
abbrev main_call1_call0_call0_v39 : Ref sig .tc := ⟨.hbm, 570, rfl⟩
abbrev main_call1_call0_call0_v40 : Ref sig .tc := ⟨.hbm, 571, rfl⟩
abbrev main_call1_call0_call0_c_9 : Ref sig .tc := ⟨.hbm, 572, rfl⟩
abbrev main_call1_call0_call0_v41 : Ref sig .tc := ⟨.hbm, 573, rfl⟩
abbrev main_call1_call0_call0_v42 : Ref sig .tc := ⟨.hbm, 574, rfl⟩
abbrev main_call1_call0_call0_c_10 : Ref sig .tc := ⟨.hbm, 575, rfl⟩
abbrev main_call1_call0_call0_v43 : Ref sig .tc := ⟨.hbm, 576, rfl⟩
abbrev main_call1_call0_call0_v44 : Ref sig .tc := ⟨.hbm, 577, rfl⟩
abbrev main_call1_call0_call0_v45 : Ref sig .tc := ⟨.hbm, 578, rfl⟩
abbrev main_call1_call0_call0_v46 : Ref sig .tc := ⟨.hbm, 579, rfl⟩
abbrev main_call1_call0_call0_v47 : Ref sig .tc := ⟨.hbm, 580, rfl⟩
abbrev main_call1_call0_call0_c_11 : Ref sig .tc := ⟨.hbm, 581, rfl⟩
abbrev main_call1_call0_call0_v48 : Ref sig .tc := ⟨.hbm, 582, rfl⟩
abbrev main_call1_call0_call0_v49 : Ref sig .tc := ⟨.hbm, 583, rfl⟩
abbrev main_call1_call0_call0_c_12 : Ref sig .tc := ⟨.hbm, 584, rfl⟩
abbrev main_call1_call0_call0_v50 : Ref sig .tc := ⟨.hbm, 585, rfl⟩
abbrev main_call1_call0_call0_v51 : Ref sig .tc := ⟨.hbm, 586, rfl⟩
abbrev main_call1_call0_call0_v52 : Ref sig .tc := ⟨.hbm, 587, rfl⟩
abbrev main_call1_call0_call0_v53 : Ref sig .tc := ⟨.hbm, 588, rfl⟩
abbrev main_call1_call0_call0_v54 : Ref sig .tc := ⟨.hbm, 589, rfl⟩
abbrev main_call1_call0_call0_c_13 : Ref sig .tc := ⟨.hbm, 590, rfl⟩
abbrev main_call1_call0_call0_v55 : Ref sig .tc := ⟨.hbm, 591, rfl⟩
abbrev main_call1_call0_call0_v56 : Ref sig .tc := ⟨.hbm, 592, rfl⟩
abbrev main_call1_call0_call0_c_14 : Ref sig .tc := ⟨.hbm, 593, rfl⟩
abbrev main_call1_call0_call0_v57 : Ref sig .tc := ⟨.hbm, 594, rfl⟩
abbrev main_call1_call0_call0_v58 : Ref sig .tc := ⟨.hbm, 595, rfl⟩
abbrev main_call1_call0_call0_v59 : Ref sig .tc := ⟨.hbm, 596, rfl⟩
abbrev main_call1_call0_call0_v60 : Ref sig .tc := ⟨.hbm, 597, rfl⟩
abbrev main_call1_call0_call0_v61 : Ref sig .tc := ⟨.hbm, 598, rfl⟩
abbrev main_call1_call0_call0_c_15 : Ref sig .tc := ⟨.hbm, 599, rfl⟩
abbrev main_call1_call0_call0_v62 : Ref sig .tc := ⟨.hbm, 600, rfl⟩
abbrev main_call1_call0_call0_v63 : Ref sig .tc := ⟨.hbm, 601, rfl⟩
abbrev main_call1_call0_call0_c_16 : Ref sig .tc := ⟨.hbm, 602, rfl⟩
abbrev main_call1_call0_call0_v64 : Ref sig .tc := ⟨.hbm, 603, rfl⟩
abbrev main_call1_call0_call0_v65 : Ref sig .tc := ⟨.hbm, 604, rfl⟩
abbrev main_call1_call0_call0_v66 : Ref sig .tc := ⟨.hbm, 605, rfl⟩
abbrev main_call1_call0_call0_v67 : Ref sig .tc := ⟨.hbm, 606, rfl⟩
abbrev main_call1_call0_call0_v68 : Ref sig .tc := ⟨.hbm, 607, rfl⟩
abbrev main_call1_call0_call0_v69 : Ref sig .tc := ⟨.hbm, 608, rfl⟩
abbrev main_call1_call0_call0_v70 : Ref sig .tc := ⟨.hbm, 609, rfl⟩
abbrev main_call1_call0_call0_v71 : Ref sig .tc := ⟨.hbm, 610, rfl⟩
abbrev main_call1_call0_call0_c_17 : Ref sig .tc := ⟨.hbm, 611, rfl⟩
abbrev main_call1_call0_call0_v72 : Ref sig .tc := ⟨.hbm, 612, rfl⟩
abbrev main_call1_call0_call0_v73 : Ref sig .tc := ⟨.hbm, 613, rfl⟩
abbrev main_call1_call0_call0_v74 : Ref sig .tc := ⟨.hbm, 614, rfl⟩
abbrev main_call1_call0_call0_c_18 : Ref sig .tc := ⟨.hbm, 615, rfl⟩
abbrev main_call1_call0_call0_v75 : Ref sig .tc := ⟨.hbm, 616, rfl⟩
abbrev main_call1_call0_call0_v76 : Ref sig .tc := ⟨.hbm, 617, rfl⟩
abbrev main_call1_call0_call0_c_19 : Ref sig .tc := ⟨.hbm, 618, rfl⟩
abbrev main_call1_call0_call0_v77 : Ref sig .tc := ⟨.hbm, 619, rfl⟩
abbrev main_call1_call0_call0_v78 : Ref sig .tc := ⟨.hbm, 620, rfl⟩
abbrev main_call1_call0_call0_v79 : Ref sig .tc := ⟨.hbm, 621, rfl⟩
abbrev main_call1_call0_call0_v80 : Ref sig .tc := ⟨.hbm, 622, rfl⟩
abbrev main_call1_call0_call0_v81 : Ref sig .tc := ⟨.hbm, 623, rfl⟩
abbrev main_call1_call0_call0_c_20 : Ref sig .tc := ⟨.hbm, 624, rfl⟩
abbrev main_call1_call0_call0_v82 : Ref sig .tc := ⟨.hbm, 625, rfl⟩
abbrev main_call1_call0_call0_v83 : Ref sig .tc := ⟨.hbm, 626, rfl⟩
abbrev main_call1_call0_call0_c_21 : Ref sig .tc := ⟨.hbm, 627, rfl⟩
abbrev main_call1_call0_call0_v84 : Ref sig .tc := ⟨.hbm, 628, rfl⟩
abbrev main_call1_call0_call0_v85 : Ref sig .tc := ⟨.hbm, 629, rfl⟩
abbrev main_call1_call0_call0_v86 : Ref sig .tc := ⟨.hbm, 630, rfl⟩
abbrev main_call1_call0_call0_v87 : Ref sig .tc := ⟨.hbm, 631, rfl⟩
abbrev main_call1_call0_call0_v88 : Ref sig .tc := ⟨.hbm, 632, rfl⟩
abbrev main_call1_call0_call0_c_22 : Ref sig .tc := ⟨.hbm, 633, rfl⟩
abbrev main_call1_call0_call0_v89 : Ref sig .tc := ⟨.hbm, 634, rfl⟩
abbrev main_call1_call0_call0_v90 : Ref sig .tc := ⟨.hbm, 635, rfl⟩
abbrev main_call1_call0_call0_c_23 : Ref sig .tc := ⟨.hbm, 636, rfl⟩
abbrev main_call1_call0_call0_v91 : Ref sig .tc := ⟨.hbm, 637, rfl⟩
abbrev main_call1_call0_call0_v92 : Ref sig .tc := ⟨.hbm, 638, rfl⟩
abbrev main_call1_call0_call0_v93 : Ref sig .tc := ⟨.hbm, 639, rfl⟩
abbrev main_call1_call0_call0_v94 : Ref sig .tc := ⟨.hbm, 640, rfl⟩
abbrev main_call1_call0_call0_v95 : Ref sig .tc := ⟨.hbm, 641, rfl⟩
abbrev main_call1_call0_call0_c_24 : Ref sig .tc := ⟨.hbm, 642, rfl⟩
abbrev main_call1_call0_call0_v96 : Ref sig .tc := ⟨.hbm, 643, rfl⟩
abbrev main_call1_call0_call0_v97 : Ref sig .tc := ⟨.hbm, 644, rfl⟩
abbrev main_call1_call0_call0_c_25 : Ref sig .tc := ⟨.hbm, 645, rfl⟩
abbrev main_call1_call0_call0_v98 : Ref sig .tc := ⟨.hbm, 646, rfl⟩
abbrev main_call1_call0_call0_v99 : Ref sig .tc := ⟨.hbm, 647, rfl⟩
abbrev main_call1_call0_call0_v100 : Ref sig .tc := ⟨.hbm, 648, rfl⟩
abbrev main_call1_call0_call0_v101 : Ref sig .tc := ⟨.hbm, 649, rfl⟩
abbrev main_call1_call0_call0_v102 : Ref sig .tc := ⟨.hbm, 650, rfl⟩
abbrev main_call1_call0_call0_v103 : Ref sig .tc := ⟨.hbm, 651, rfl⟩
abbrev main_call1_call0_call0_v104 : Ref sig .tc := ⟨.hbm, 652, rfl⟩
abbrev main_call1_call0_call0_v105 : Ref sig .tc := ⟨.hbm, 653, rfl⟩
abbrev main_call1_call0_call0_c_26 : Ref sig .tc := ⟨.hbm, 654, rfl⟩
abbrev main_call1_call0_call0_v106 : Ref sig .tc := ⟨.hbm, 655, rfl⟩
abbrev main_call1_call0_call0_v107 : Ref sig .tc := ⟨.hbm, 656, rfl⟩
abbrev main_call1_call0_call0_v108 : Ref sig .tc := ⟨.hbm, 657, rfl⟩
abbrev main_call1_call0_call0_c_27 : Ref sig .tc := ⟨.hbm, 658, rfl⟩
abbrev main_call1_call0_call0_v109 : Ref sig .tc := ⟨.hbm, 659, rfl⟩
abbrev main_call1_call0_call0_v110 : Ref sig .tc := ⟨.hbm, 660, rfl⟩
abbrev main_call1_call0_call0_c_28 : Ref sig .tc := ⟨.hbm, 661, rfl⟩
abbrev main_call1_call0_call0_v111 : Ref sig .tc := ⟨.hbm, 662, rfl⟩
abbrev main_call1_call0_call0_v112 : Ref sig .tc := ⟨.hbm, 663, rfl⟩
abbrev main_call1_call0_call0_v113 : Ref sig .tc := ⟨.hbm, 664, rfl⟩
abbrev main_call1_call0_call0_v114 : Ref sig .tc := ⟨.hbm, 665, rfl⟩
abbrev main_call1_call0_call0_v115 : Ref sig .tc := ⟨.hbm, 666, rfl⟩
abbrev main_call1_call0_call0_c_29 : Ref sig .tc := ⟨.hbm, 667, rfl⟩
abbrev main_call1_call0_call0_v116 : Ref sig .tc := ⟨.hbm, 668, rfl⟩
abbrev main_call1_call0_call0_v117 : Ref sig .tc := ⟨.hbm, 669, rfl⟩
abbrev main_call1_call0_call0_c_30 : Ref sig .tc := ⟨.hbm, 670, rfl⟩
abbrev main_call1_call0_call0_v118 : Ref sig .tc := ⟨.hbm, 671, rfl⟩
abbrev main_call1_call0_call0_v119 : Ref sig .tc := ⟨.hbm, 672, rfl⟩
abbrev main_call1_call0_call0_v120 : Ref sig .tc := ⟨.hbm, 673, rfl⟩
abbrev main_call1_call0_call0_v121 : Ref sig .tc := ⟨.hbm, 674, rfl⟩
abbrev main_call1_call0_call0_v122 : Ref sig .tc := ⟨.hbm, 675, rfl⟩
abbrev main_call1_call0_call0_c_31 : Ref sig .tc := ⟨.hbm, 676, rfl⟩
abbrev main_call1_call0_call0_v123 : Ref sig .tc := ⟨.hbm, 677, rfl⟩
abbrev main_call1_call0_call0_v124 : Ref sig .tc := ⟨.hbm, 678, rfl⟩
abbrev main_call1_call0_call0_c_32 : Ref sig .tc := ⟨.hbm, 679, rfl⟩
abbrev main_call1_call0_call0_v125 : Ref sig .tc := ⟨.hbm, 680, rfl⟩
abbrev main_call1_call0_call0_v126 : Ref sig .tc := ⟨.hbm, 681, rfl⟩
abbrev main_call1_call0_call0_v127 : Ref sig .tc := ⟨.hbm, 682, rfl⟩
abbrev main_call1_call0_call0_v128 : Ref sig .tc := ⟨.hbm, 683, rfl⟩
abbrev main_call1_call0_call0_v129 : Ref sig .tc := ⟨.hbm, 684, rfl⟩
abbrev main_call1_call0_call0_c_33 : Ref sig .tc := ⟨.hbm, 685, rfl⟩
abbrev main_call1_call0_call0_v130 : Ref sig .tc := ⟨.hbm, 686, rfl⟩
abbrev main_call1_call0_call0_v131 : Ref sig .tc := ⟨.hbm, 687, rfl⟩
abbrev main_call1_call0_call0_c_34 : Ref sig .tc := ⟨.hbm, 688, rfl⟩
abbrev main_call1_call0_call0_v132 : Ref sig .tc := ⟨.hbm, 689, rfl⟩
abbrev main_call1_call0_call0_v133 : Ref sig .tc := ⟨.hbm, 690, rfl⟩
abbrev main_call1_call0_call0_v134 : Ref sig .tc := ⟨.hbm, 691, rfl⟩
abbrev main_call1_call0_call0_v135 : Ref sig .tc := ⟨.hbm, 692, rfl⟩
abbrev main_call1_call0_call0_v136 : Ref sig .tc := ⟨.hbm, 693, rfl⟩
abbrev main_call1_call0_call0_v137 : Ref sig .tc := ⟨.hbm, 694, rfl⟩
abbrev main_call1_call0_call0_v138 : Ref sig .tc := ⟨.hbm, 695, rfl⟩
abbrev main_call1_call0_call0_v139 : Ref sig .tc := ⟨.hbm, 696, rfl⟩
abbrev main_call1_call0_call0_c_35 : Ref sig .tc := ⟨.hbm, 697, rfl⟩
abbrev main_call1_call0_call0_v140 : Ref sig .tc := ⟨.hbm, 698, rfl⟩
abbrev main_call1_call0_call0_v141 : Ref sig .tc := ⟨.hbm, 699, rfl⟩
abbrev main_call1_call0_call0_v142 : Ref sig .tc := ⟨.hbm, 700, rfl⟩
abbrev main_call1_call0_call0_c_36 : Ref sig .tc := ⟨.hbm, 701, rfl⟩
abbrev main_call1_call0_call0_v143 : Ref sig .tc := ⟨.hbm, 702, rfl⟩
abbrev main_call1_call0_call0_v144 : Ref sig .tc := ⟨.hbm, 703, rfl⟩
abbrev main_call1_call0_call0_c_37 : Ref sig .tc := ⟨.hbm, 704, rfl⟩
abbrev main_call1_call0_call0_v145 : Ref sig .tc := ⟨.hbm, 705, rfl⟩
abbrev main_call1_call0_call0_v146 : Ref sig .tc := ⟨.hbm, 706, rfl⟩
abbrev main_call1_call0_call0_v147 : Ref sig .tc := ⟨.hbm, 707, rfl⟩
abbrev main_call1_call0_call0_v148 : Ref sig .tc := ⟨.hbm, 708, rfl⟩
abbrev main_call1_call0_call0_v149 : Ref sig .tc := ⟨.hbm, 709, rfl⟩
abbrev main_call1_call0_call0_c_38 : Ref sig .tc := ⟨.hbm, 710, rfl⟩
abbrev main_call1_call0_call0_v150 : Ref sig .tc := ⟨.hbm, 711, rfl⟩
abbrev main_call1_call0_call0_v151 : Ref sig .tc := ⟨.hbm, 712, rfl⟩
abbrev main_call1_call0_call0_c_39 : Ref sig .tc := ⟨.hbm, 713, rfl⟩
abbrev main_call1_call0_call0_v152 : Ref sig .tc := ⟨.hbm, 714, rfl⟩
abbrev main_call1_call0_call0_v153 : Ref sig .tc := ⟨.hbm, 715, rfl⟩
abbrev main_call1_call0_call0_v154 : Ref sig .tc := ⟨.hbm, 716, rfl⟩
abbrev main_call1_call0_call0_v155 : Ref sig .tc := ⟨.hbm, 717, rfl⟩
abbrev main_call1_call0_call0_v156 : Ref sig .tc := ⟨.hbm, 718, rfl⟩
abbrev main_call1_call0_call0_c_40 : Ref sig .tc := ⟨.hbm, 719, rfl⟩
abbrev main_call1_call0_call0_v157 : Ref sig .tc := ⟨.hbm, 720, rfl⟩
abbrev main_call1_call0_call0_v158 : Ref sig .tc := ⟨.hbm, 721, rfl⟩
abbrev main_call1_call0_call0_c_41 : Ref sig .tc := ⟨.hbm, 722, rfl⟩
abbrev main_call1_call0_call0_v159 : Ref sig .tc := ⟨.hbm, 723, rfl⟩
abbrev main_call1_call0_call0_v160 : Ref sig .tc := ⟨.hbm, 724, rfl⟩
abbrev main_call1_call0_call0_v161 : Ref sig .tc := ⟨.hbm, 725, rfl⟩
abbrev main_call1_call0_call0_v162 : Ref sig .tc := ⟨.hbm, 726, rfl⟩
abbrev main_call1_call0_call0_v163 : Ref sig .tc := ⟨.hbm, 727, rfl⟩
abbrev main_call1_call0_call0_c_42 : Ref sig .tc := ⟨.hbm, 728, rfl⟩
abbrev main_call1_call0_call0_v164 : Ref sig .tc := ⟨.hbm, 729, rfl⟩
abbrev main_call1_call0_call0_v165 : Ref sig .tc := ⟨.hbm, 730, rfl⟩
abbrev main_call1_call0_call0_c_43 : Ref sig .tc := ⟨.hbm, 731, rfl⟩
abbrev main_call1_call0_call0_v166 : Ref sig .tc := ⟨.hbm, 732, rfl⟩
abbrev main_call1_call0_call0_v167 : Ref sig .tc := ⟨.hbm, 733, rfl⟩
abbrev main_call1_call0_call0_v168 : Ref sig .tc := ⟨.hbm, 734, rfl⟩
abbrev main_call1_call0_call0_v169 : Ref sig .tc := ⟨.hbm, 735, rfl⟩
abbrev main_call1_call0_call0_v170 : Ref sig .tc := ⟨.hbm, 736, rfl⟩
abbrev main_call1_call0_v11_0 : Ref sig .tc := ⟨.hbm, 737, rfl⟩
abbrev main_call1_call0_call0_v172 : Ref sig .tc := ⟨.hbm, 738, rfl⟩
abbrev main_call1_call0_call0_v173 : Ref sig .tc := ⟨.hbm, 739, rfl⟩
abbrev main_call1_call0_call0_c_44 : Ref sig .tc := ⟨.hbm, 740, rfl⟩
abbrev main_call1_call0_call0_v174 : Ref sig .tc := ⟨.hbm, 741, rfl⟩
abbrev main_call1_call0_v11_1 : Ref sig .tc := ⟨.hbm, 742, rfl⟩
abbrev main_call1_call0_v12 : Ref sig .tc := ⟨.hbm, 743, rfl⟩
abbrev main_call1_call0_v13 : Ref sig .tc := ⟨.hbm, 744, rfl⟩
abbrev main_call1_v0 : Ref sig .tc := ⟨.hbm, 745, rfl⟩
abbrev main_call1_v1 : Ref sig .tc := ⟨.hbm, 746, rfl⟩
abbrev main_call1_v2 : Ref sig .tc := ⟨.hbm, 747, rfl⟩
abbrev main_call1_v3 : Ref sig .tc := ⟨.hbm, 748, rfl⟩
abbrev main_call1_v4 : Ref sig .tc := ⟨.hbm, 749, rfl⟩
abbrev main_call1_v5 : Ref sig .tc := ⟨.hbm, 750, rfl⟩
abbrev main_call1_v6 : Ref sig .tc := ⟨.hbm, 751, rfl⟩
abbrev main_call1_v7 : Ref sig .tc := ⟨.hbm, 752, rfl⟩
abbrev main_call1_v8 : Ref sig .tc := ⟨.hbm, 753, rfl⟩
abbrev main_call1_v9 : Ref sig .tc := ⟨.hbm, 754, rfl⟩
abbrev main_call1_c : Ref sig .tc := ⟨.hbm, 755, rfl⟩
abbrev main_call1_v10 : Ref sig .tc := ⟨.hbm, 756, rfl⟩
abbrev main_call1_v11 : Ref sig .tc := ⟨.hbm, 757, rfl⟩
abbrev main_call1_c_0 : Ref sig .tc := ⟨.hbm, 758, rfl⟩
abbrev main_call1_v12 : Ref sig .tc := ⟨.hbm, 759, rfl⟩
abbrev main_call1_v13 : Ref sig .tc := ⟨.hbm, 760, rfl⟩
abbrev main_call1_v14 : Ref sig .tc := ⟨.hbm, 761, rfl⟩
abbrev main_call1_v15 : Ref sig .tc := ⟨.hbm, 762, rfl⟩
abbrev main_call1_call1_v0 : Ref sig .tc := ⟨.hbm, 763, rfl⟩
abbrev main_call1_call1_c : Ref sig .tc := ⟨.hbm, 764, rfl⟩
abbrev main_call1_call1_v1 : Ref sig .tc := ⟨.hbm, 765, rfl⟩
abbrev main_call1_call1_v2 : Ref sig .tc := ⟨.hbm, 766, rfl⟩
abbrev main_call1_call1_v3 : Ref sig .tc := ⟨.hbm, 767, rfl⟩
abbrev main_call1_call1_v4 : Ref sig .tc := ⟨.hbm, 768, rfl⟩
abbrev main_call1_call1_v5 : Ref sig .tc := ⟨.hbm, 769, rfl⟩
abbrev main_call1_call1_v6 : Ref sig .tc := ⟨.hbm, 770, rfl⟩
abbrev main_call1_call1_c_0 : Ref sig .tc := ⟨.hbm, 771, rfl⟩
abbrev main_call1_call1_v7 : Ref sig .tc := ⟨.hbm, 772, rfl⟩
abbrev main_call1_call1_v8 : Ref sig .tc := ⟨.hbm, 773, rfl⟩
abbrev main_call1_call1_c_1 : Ref sig .tc := ⟨.hbm, 774, rfl⟩
abbrev main_call1_call1_v9 : Ref sig .tc := ⟨.hbm, 775, rfl⟩
abbrev main_call1_call1_v10 : Ref sig .tc := ⟨.hbm, 776, rfl⟩
abbrev main_call1_call1_v11 : Ref sig .tc := ⟨.hbm, 777, rfl⟩
abbrev main_call1_call1_v12 : Ref sig .tc := ⟨.hbm, 778, rfl⟩
abbrev main_call1_call1_v13 : Ref sig .tc := ⟨.hbm, 779, rfl⟩
abbrev main_call1_call1_c_2 : Ref sig .tc := ⟨.hbm, 780, rfl⟩
abbrev main_call1_call1_v14 : Ref sig .tc := ⟨.hbm, 781, rfl⟩
abbrev main_call1_call1_v15 : Ref sig .tc := ⟨.hbm, 782, rfl⟩
abbrev main_call1_call1_c_3 : Ref sig .tc := ⟨.hbm, 783, rfl⟩
abbrev main_call1_call1_v16 : Ref sig .tc := ⟨.hbm, 784, rfl⟩
abbrev main_call1_call1_v17 : Ref sig .tc := ⟨.hbm, 785, rfl⟩
abbrev main_call1_call1_v18 : Ref sig .tc := ⟨.hbm, 786, rfl⟩
abbrev main_call1_call1_v19 : Ref sig .tc := ⟨.hbm, 787, rfl⟩
abbrev main_call1_call1_v20 : Ref sig .tc := ⟨.hbm, 788, rfl⟩
abbrev main_call1_call1_c_4 : Ref sig .tc := ⟨.hbm, 789, rfl⟩
abbrev main_call1_call1_v21 : Ref sig .tc := ⟨.hbm, 790, rfl⟩
abbrev main_call1_call1_v22 : Ref sig .tc := ⟨.hbm, 791, rfl⟩
abbrev main_call1_call1_c_5 : Ref sig .tc := ⟨.hbm, 792, rfl⟩
abbrev main_call1_call1_v23 : Ref sig .tc := ⟨.hbm, 793, rfl⟩
abbrev main_call1_call1_v24 : Ref sig .tc := ⟨.hbm, 794, rfl⟩
abbrev main_call1_call1_v25 : Ref sig .tc := ⟨.hbm, 795, rfl⟩
abbrev main_call1_call1_v26 : Ref sig .tc := ⟨.hbm, 796, rfl⟩
abbrev main_call1_call1_v27 : Ref sig .tc := ⟨.hbm, 797, rfl⟩
abbrev main_call1_call1_c_6 : Ref sig .tc := ⟨.hbm, 798, rfl⟩
abbrev main_call1_call1_v28 : Ref sig .tc := ⟨.hbm, 799, rfl⟩
abbrev main_call1_call1_v29 : Ref sig .tc := ⟨.hbm, 800, rfl⟩
abbrev main_call1_call1_c_7 : Ref sig .tc := ⟨.hbm, 801, rfl⟩
abbrev main_call1_call1_v30 : Ref sig .tc := ⟨.hbm, 802, rfl⟩
abbrev main_call1_call1_v31 : Ref sig .tc := ⟨.hbm, 803, rfl⟩
abbrev main_call1_call1_v32 : Ref sig .tc := ⟨.hbm, 804, rfl⟩
abbrev main_call1_call1_v33 : Ref sig .tc := ⟨.hbm, 805, rfl⟩
abbrev main_call1_call1_v34 : Ref sig .tc := ⟨.hbm, 806, rfl⟩
abbrev main_call1_call1_v35 : Ref sig .tc := ⟨.hbm, 807, rfl⟩
abbrev main_call1_call1_v36 : Ref sig .tc := ⟨.hbm, 808, rfl⟩
abbrev main_call1_call1_v37 : Ref sig .tc := ⟨.hbm, 809, rfl⟩
abbrev main_call1_call1_c_8 : Ref sig .tc := ⟨.hbm, 810, rfl⟩
abbrev main_call1_call1_v38 : Ref sig .tc := ⟨.hbm, 811, rfl⟩
abbrev main_call1_call1_v39 : Ref sig .tc := ⟨.hbm, 812, rfl⟩
abbrev main_call1_call1_v40 : Ref sig .tc := ⟨.hbm, 813, rfl⟩
abbrev main_call1_call1_c_9 : Ref sig .tc := ⟨.hbm, 814, rfl⟩
abbrev main_call1_call1_v41 : Ref sig .tc := ⟨.hbm, 815, rfl⟩
abbrev main_call1_call1_v42 : Ref sig .tc := ⟨.hbm, 816, rfl⟩
abbrev main_call1_call1_c_10 : Ref sig .tc := ⟨.hbm, 817, rfl⟩
abbrev main_call1_call1_v43 : Ref sig .tc := ⟨.hbm, 818, rfl⟩
abbrev main_call1_call1_v44 : Ref sig .tc := ⟨.hbm, 819, rfl⟩
abbrev main_call1_call1_v45 : Ref sig .tc := ⟨.hbm, 820, rfl⟩
abbrev main_call1_call1_v46 : Ref sig .tc := ⟨.hbm, 821, rfl⟩
abbrev main_call1_call1_v47 : Ref sig .tc := ⟨.hbm, 822, rfl⟩
abbrev main_call1_call1_c_11 : Ref sig .tc := ⟨.hbm, 823, rfl⟩
abbrev main_call1_call1_v48 : Ref sig .tc := ⟨.hbm, 824, rfl⟩
abbrev main_call1_call1_v49 : Ref sig .tc := ⟨.hbm, 825, rfl⟩
abbrev main_call1_call1_c_12 : Ref sig .tc := ⟨.hbm, 826, rfl⟩
abbrev main_call1_call1_v50 : Ref sig .tc := ⟨.hbm, 827, rfl⟩
abbrev main_call1_call1_v51 : Ref sig .tc := ⟨.hbm, 828, rfl⟩
abbrev main_call1_call1_v52 : Ref sig .tc := ⟨.hbm, 829, rfl⟩
abbrev main_call1_call1_v53 : Ref sig .tc := ⟨.hbm, 830, rfl⟩
abbrev main_call1_call1_v54 : Ref sig .tc := ⟨.hbm, 831, rfl⟩
abbrev main_call1_call1_c_13 : Ref sig .tc := ⟨.hbm, 832, rfl⟩
abbrev main_call1_call1_v55 : Ref sig .tc := ⟨.hbm, 833, rfl⟩
abbrev main_call1_call1_v56 : Ref sig .tc := ⟨.hbm, 834, rfl⟩
abbrev main_call1_call1_c_14 : Ref sig .tc := ⟨.hbm, 835, rfl⟩
abbrev main_call1_call1_v57 : Ref sig .tc := ⟨.hbm, 836, rfl⟩
abbrev main_call1_call1_v58 : Ref sig .tc := ⟨.hbm, 837, rfl⟩
abbrev main_call1_call1_v59 : Ref sig .tc := ⟨.hbm, 838, rfl⟩
abbrev main_call1_call1_v60 : Ref sig .tc := ⟨.hbm, 839, rfl⟩
abbrev main_call1_call1_v61 : Ref sig .tc := ⟨.hbm, 840, rfl⟩
abbrev main_call1_call1_c_15 : Ref sig .tc := ⟨.hbm, 841, rfl⟩
abbrev main_call1_call1_v62 : Ref sig .tc := ⟨.hbm, 842, rfl⟩
abbrev main_call1_call1_v63 : Ref sig .tc := ⟨.hbm, 843, rfl⟩
abbrev main_call1_call1_c_16 : Ref sig .tc := ⟨.hbm, 844, rfl⟩
abbrev main_call1_call1_v64 : Ref sig .tc := ⟨.hbm, 845, rfl⟩
abbrev main_call1_call1_v65 : Ref sig .tc := ⟨.hbm, 846, rfl⟩
abbrev main_call1_call1_v66 : Ref sig .tc := ⟨.hbm, 847, rfl⟩
abbrev main_call1_call1_v67 : Ref sig .tc := ⟨.hbm, 848, rfl⟩
abbrev main_call1_call1_v68 : Ref sig .tc := ⟨.hbm, 849, rfl⟩
abbrev main_call1_call1_v69 : Ref sig .tc := ⟨.hbm, 850, rfl⟩
abbrev main_call1_call1_v70 : Ref sig .tc := ⟨.hbm, 851, rfl⟩
abbrev main_call1_call1_v71 : Ref sig .tc := ⟨.hbm, 852, rfl⟩
abbrev main_call1_call1_c_17 : Ref sig .tc := ⟨.hbm, 853, rfl⟩
abbrev main_call1_call1_v72 : Ref sig .tc := ⟨.hbm, 854, rfl⟩
abbrev main_call1_call1_v73 : Ref sig .tc := ⟨.hbm, 855, rfl⟩
abbrev main_call1_call1_v74 : Ref sig .tc := ⟨.hbm, 856, rfl⟩
abbrev main_call1_call1_c_18 : Ref sig .tc := ⟨.hbm, 857, rfl⟩
abbrev main_call1_call1_v75 : Ref sig .tc := ⟨.hbm, 858, rfl⟩
abbrev main_call1_call1_v76 : Ref sig .tc := ⟨.hbm, 859, rfl⟩
abbrev main_call1_call1_c_19 : Ref sig .tc := ⟨.hbm, 860, rfl⟩
abbrev main_call1_call1_v77 : Ref sig .tc := ⟨.hbm, 861, rfl⟩
abbrev main_call1_call1_v78 : Ref sig .tc := ⟨.hbm, 862, rfl⟩
abbrev main_call1_call1_v79 : Ref sig .tc := ⟨.hbm, 863, rfl⟩
abbrev main_call1_call1_v80 : Ref sig .tc := ⟨.hbm, 864, rfl⟩
abbrev main_call1_call1_v81 : Ref sig .tc := ⟨.hbm, 865, rfl⟩
abbrev main_call1_call1_c_20 : Ref sig .tc := ⟨.hbm, 866, rfl⟩
abbrev main_call1_call1_v82 : Ref sig .tc := ⟨.hbm, 867, rfl⟩
abbrev main_call1_call1_v83 : Ref sig .tc := ⟨.hbm, 868, rfl⟩
abbrev main_call1_call1_c_21 : Ref sig .tc := ⟨.hbm, 869, rfl⟩
abbrev main_call1_call1_v84 : Ref sig .tc := ⟨.hbm, 870, rfl⟩
abbrev main_call1_call1_v85 : Ref sig .tc := ⟨.hbm, 871, rfl⟩
abbrev main_call1_call1_v86 : Ref sig .tc := ⟨.hbm, 872, rfl⟩
abbrev main_call1_call1_v87 : Ref sig .tc := ⟨.hbm, 873, rfl⟩
abbrev main_call1_call1_v88 : Ref sig .tc := ⟨.hbm, 874, rfl⟩
abbrev main_call1_call1_c_22 : Ref sig .tc := ⟨.hbm, 875, rfl⟩
abbrev main_call1_call1_v89 : Ref sig .tc := ⟨.hbm, 876, rfl⟩
abbrev main_call1_call1_v90 : Ref sig .tc := ⟨.hbm, 877, rfl⟩
abbrev main_call1_call1_c_23 : Ref sig .tc := ⟨.hbm, 878, rfl⟩
abbrev main_call1_call1_v91 : Ref sig .tc := ⟨.hbm, 879, rfl⟩
abbrev main_call1_call1_v92 : Ref sig .tc := ⟨.hbm, 880, rfl⟩
abbrev main_call1_call1_v93 : Ref sig .tc := ⟨.hbm, 881, rfl⟩
abbrev main_call1_call1_v94 : Ref sig .tc := ⟨.hbm, 882, rfl⟩
abbrev main_call1_call1_v95 : Ref sig .tc := ⟨.hbm, 883, rfl⟩
abbrev main_call1_call1_c_24 : Ref sig .tc := ⟨.hbm, 884, rfl⟩
abbrev main_call1_call1_v96 : Ref sig .tc := ⟨.hbm, 885, rfl⟩
abbrev main_call1_call1_v97 : Ref sig .tc := ⟨.hbm, 886, rfl⟩
abbrev main_call1_call1_c_25 : Ref sig .tc := ⟨.hbm, 887, rfl⟩
abbrev main_call1_call1_v98 : Ref sig .tc := ⟨.hbm, 888, rfl⟩
abbrev main_call1_call1_v99 : Ref sig .tc := ⟨.hbm, 889, rfl⟩
abbrev main_call1_call1_v100 : Ref sig .tc := ⟨.hbm, 890, rfl⟩
abbrev main_call1_call1_v101 : Ref sig .tc := ⟨.hbm, 891, rfl⟩
abbrev main_call1_call1_v102 : Ref sig .tc := ⟨.hbm, 892, rfl⟩
abbrev main_call1_call1_v103 : Ref sig .tc := ⟨.hbm, 893, rfl⟩
abbrev main_call1_call1_v104 : Ref sig .tc := ⟨.hbm, 894, rfl⟩
abbrev main_call1_call1_v105 : Ref sig .tc := ⟨.hbm, 895, rfl⟩
abbrev main_call1_call1_c_26 : Ref sig .tc := ⟨.hbm, 896, rfl⟩
abbrev main_call1_call1_v106 : Ref sig .tc := ⟨.hbm, 897, rfl⟩
abbrev main_call1_call1_v107 : Ref sig .tc := ⟨.hbm, 898, rfl⟩
abbrev main_call1_call1_v108 : Ref sig .tc := ⟨.hbm, 899, rfl⟩
abbrev main_call1_call1_c_27 : Ref sig .tc := ⟨.hbm, 900, rfl⟩
abbrev main_call1_call1_v109 : Ref sig .tc := ⟨.hbm, 901, rfl⟩
abbrev main_call1_call1_v110 : Ref sig .tc := ⟨.hbm, 902, rfl⟩
abbrev main_call1_call1_c_28 : Ref sig .tc := ⟨.hbm, 903, rfl⟩
abbrev main_call1_call1_v111 : Ref sig .tc := ⟨.hbm, 904, rfl⟩
abbrev main_call1_call1_v112 : Ref sig .tc := ⟨.hbm, 905, rfl⟩
abbrev main_call1_call1_v113 : Ref sig .tc := ⟨.hbm, 906, rfl⟩
abbrev main_call1_call1_v114 : Ref sig .tc := ⟨.hbm, 907, rfl⟩
abbrev main_call1_call1_v115 : Ref sig .tc := ⟨.hbm, 908, rfl⟩
abbrev main_call1_call1_c_29 : Ref sig .tc := ⟨.hbm, 909, rfl⟩
abbrev main_call1_call1_v116 : Ref sig .tc := ⟨.hbm, 910, rfl⟩
abbrev main_call1_call1_v117 : Ref sig .tc := ⟨.hbm, 911, rfl⟩
abbrev main_call1_call1_c_30 : Ref sig .tc := ⟨.hbm, 912, rfl⟩
abbrev main_call1_call1_v118 : Ref sig .tc := ⟨.hbm, 913, rfl⟩
abbrev main_call1_call1_v119 : Ref sig .tc := ⟨.hbm, 914, rfl⟩
abbrev main_call1_call1_v120 : Ref sig .tc := ⟨.hbm, 915, rfl⟩
abbrev main_call1_call1_v121 : Ref sig .tc := ⟨.hbm, 916, rfl⟩
abbrev main_call1_call1_v122 : Ref sig .tc := ⟨.hbm, 917, rfl⟩
abbrev main_call1_call1_c_31 : Ref sig .tc := ⟨.hbm, 918, rfl⟩
abbrev main_call1_call1_v123 : Ref sig .tc := ⟨.hbm, 919, rfl⟩
abbrev main_call1_call1_v124 : Ref sig .tc := ⟨.hbm, 920, rfl⟩
abbrev main_call1_call1_c_32 : Ref sig .tc := ⟨.hbm, 921, rfl⟩
abbrev main_call1_call1_v125 : Ref sig .tc := ⟨.hbm, 922, rfl⟩
abbrev main_call1_call1_v126 : Ref sig .tc := ⟨.hbm, 923, rfl⟩
abbrev main_call1_call1_v127 : Ref sig .tc := ⟨.hbm, 924, rfl⟩
abbrev main_call1_call1_v128 : Ref sig .tc := ⟨.hbm, 925, rfl⟩
abbrev main_call1_call1_v129 : Ref sig .tc := ⟨.hbm, 926, rfl⟩
abbrev main_call1_call1_c_33 : Ref sig .tc := ⟨.hbm, 927, rfl⟩
abbrev main_call1_call1_v130 : Ref sig .tc := ⟨.hbm, 928, rfl⟩
abbrev main_call1_call1_v131 : Ref sig .tc := ⟨.hbm, 929, rfl⟩
abbrev main_call1_call1_c_34 : Ref sig .tc := ⟨.hbm, 930, rfl⟩
abbrev main_call1_call1_v132 : Ref sig .tc := ⟨.hbm, 931, rfl⟩
abbrev main_call1_call1_v133 : Ref sig .tc := ⟨.hbm, 932, rfl⟩
abbrev main_call1_call1_v134 : Ref sig .tc := ⟨.hbm, 933, rfl⟩
abbrev main_call1_call1_v135 : Ref sig .tc := ⟨.hbm, 934, rfl⟩
abbrev main_call1_call1_v136 : Ref sig .tc := ⟨.hbm, 935, rfl⟩
abbrev main_call1_call1_v137 : Ref sig .tc := ⟨.hbm, 936, rfl⟩
abbrev main_call1_call1_v138 : Ref sig .tc := ⟨.hbm, 937, rfl⟩
abbrev main_call1_call1_v139 : Ref sig .tc := ⟨.hbm, 938, rfl⟩
abbrev main_call1_call1_c_35 : Ref sig .tc := ⟨.hbm, 939, rfl⟩
abbrev main_call1_call1_v140 : Ref sig .tc := ⟨.hbm, 940, rfl⟩
abbrev main_call1_call1_v141 : Ref sig .tc := ⟨.hbm, 941, rfl⟩
abbrev main_call1_call1_v142 : Ref sig .tc := ⟨.hbm, 942, rfl⟩
abbrev main_call1_call1_c_36 : Ref sig .tc := ⟨.hbm, 943, rfl⟩
abbrev main_call1_call1_v143 : Ref sig .tc := ⟨.hbm, 944, rfl⟩
abbrev main_call1_call1_v144 : Ref sig .tc := ⟨.hbm, 945, rfl⟩
abbrev main_call1_call1_c_37 : Ref sig .tc := ⟨.hbm, 946, rfl⟩
abbrev main_call1_call1_v145 : Ref sig .tc := ⟨.hbm, 947, rfl⟩
abbrev main_call1_call1_v146 : Ref sig .tc := ⟨.hbm, 948, rfl⟩
abbrev main_call1_call1_v147 : Ref sig .tc := ⟨.hbm, 949, rfl⟩
abbrev main_call1_call1_v148 : Ref sig .tc := ⟨.hbm, 950, rfl⟩
abbrev main_call1_call1_v149 : Ref sig .tc := ⟨.hbm, 951, rfl⟩
abbrev main_call1_call1_c_38 : Ref sig .tc := ⟨.hbm, 952, rfl⟩
abbrev main_call1_call1_v150 : Ref sig .tc := ⟨.hbm, 953, rfl⟩
abbrev main_call1_call1_v151 : Ref sig .tc := ⟨.hbm, 954, rfl⟩
abbrev main_call1_call1_c_39 : Ref sig .tc := ⟨.hbm, 955, rfl⟩
abbrev main_call1_call1_v152 : Ref sig .tc := ⟨.hbm, 956, rfl⟩
abbrev main_call1_call1_v153 : Ref sig .tc := ⟨.hbm, 957, rfl⟩
abbrev main_call1_call1_v154 : Ref sig .tc := ⟨.hbm, 958, rfl⟩
abbrev main_call1_call1_v155 : Ref sig .tc := ⟨.hbm, 959, rfl⟩
abbrev main_call1_call1_v156 : Ref sig .tc := ⟨.hbm, 960, rfl⟩
abbrev main_call1_call1_c_40 : Ref sig .tc := ⟨.hbm, 961, rfl⟩
abbrev main_call1_call1_v157 : Ref sig .tc := ⟨.hbm, 962, rfl⟩
abbrev main_call1_call1_v158 : Ref sig .tc := ⟨.hbm, 963, rfl⟩
abbrev main_call1_call1_c_41 : Ref sig .tc := ⟨.hbm, 964, rfl⟩
abbrev main_call1_call1_v159 : Ref sig .tc := ⟨.hbm, 965, rfl⟩
abbrev main_call1_call1_v160 : Ref sig .tc := ⟨.hbm, 966, rfl⟩
abbrev main_call1_call1_v161 : Ref sig .tc := ⟨.hbm, 967, rfl⟩
abbrev main_call1_call1_v162 : Ref sig .tc := ⟨.hbm, 968, rfl⟩
abbrev main_call1_call1_v163 : Ref sig .tc := ⟨.hbm, 969, rfl⟩
abbrev main_call1_call1_c_42 : Ref sig .tc := ⟨.hbm, 970, rfl⟩
abbrev main_call1_call1_v164 : Ref sig .tc := ⟨.hbm, 971, rfl⟩
abbrev main_call1_call1_v165 : Ref sig .tc := ⟨.hbm, 972, rfl⟩
abbrev main_call1_call1_c_43 : Ref sig .tc := ⟨.hbm, 973, rfl⟩
abbrev main_call1_call1_v166 : Ref sig .tc := ⟨.hbm, 974, rfl⟩
abbrev main_call1_call1_v167 : Ref sig .tc := ⟨.hbm, 975, rfl⟩
abbrev main_call1_call1_v168 : Ref sig .tc := ⟨.hbm, 976, rfl⟩
abbrev main_call1_call1_v169 : Ref sig .tc := ⟨.hbm, 977, rfl⟩
abbrev main_call1_call1_v170 : Ref sig .tc := ⟨.hbm, 978, rfl⟩
abbrev main_call1_v16_0 : Ref sig .tc := ⟨.hbm, 979, rfl⟩
abbrev main_call1_call1_v172 : Ref sig .tc := ⟨.hbm, 980, rfl⟩
abbrev main_call1_call1_v173 : Ref sig .tc := ⟨.hbm, 981, rfl⟩
abbrev main_call1_call1_c_44 : Ref sig .tc := ⟨.hbm, 982, rfl⟩
abbrev main_call1_call1_v174 : Ref sig .tc := ⟨.hbm, 983, rfl⟩
abbrev main_call1_v16_1 : Ref sig .tc := ⟨.hbm, 984, rfl⟩
abbrev main_call1_v17 : Ref sig .tc := ⟨.hbm, 985, rfl⟩
abbrev main_call1_v18_0 : Ref sig .tc := ⟨.hbm, 986, rfl⟩
abbrev main_v17 : Ref sig .tc := ⟨.hbm, 987, rfl⟩
abbrev main_call2_c : Ref sig .tc := ⟨.hbm, 988, rfl⟩
abbrev main_call2_v0 : Ref sig .tc := ⟨.hbm, 989, rfl⟩
abbrev main_call2_v1 : Ref sig .tc := ⟨.hbm, 990, rfl⟩
abbrev main_call2_c_0 : Ref sig .tc := ⟨.hbm, 991, rfl⟩
abbrev main_call2_v2 : Ref sig .tc := ⟨.hbm, 992, rfl⟩
abbrev main_call2_v3 : Ref sig .tc := ⟨.hbm, 993, rfl⟩
abbrev main_call2_v4 : Ref sig .tc := ⟨.hbm, 994, rfl⟩
abbrev main_call2_v5 : Ref sig .tc := ⟨.hbm, 995, rfl⟩
abbrev main_call2_c_1 : Ref sig .tc := ⟨.hbm, 996, rfl⟩
abbrev main_call2_c_2 : Ref sig .tc := ⟨.hbm, 997, rfl⟩
abbrev main_call2_v6 : Ref sig .tc := ⟨.hbm, 998, rfl⟩
abbrev main_call2_v7 : Ref sig .tc := ⟨.hbm, 999, rfl⟩
abbrev main_call2_v8 : Ref sig .tc := ⟨.hbm, 1000, rfl⟩
abbrev main_call2_v9 : Ref sig .tc := ⟨.hbm, 1001, rfl⟩
abbrev main_call2_v10 : Ref sig .tc := ⟨.hbm, 1002, rfl⟩
abbrev main_call2_v11 : Ref sig .tc := ⟨.hbm, 1003, rfl⟩
abbrev main_call2_c_3 : Ref sig .tc := ⟨.hbm, 1004, rfl⟩
abbrev main_call2_v12 : Ref sig .tc := ⟨.hbm, 1005, rfl⟩
abbrev main_call2_v13 : Ref sig .tc := ⟨.hbm, 1006, rfl⟩
abbrev main_call2_v14 : Ref sig .tc := ⟨.hbm, 1007, rfl⟩
abbrev main_call2_cst : Ref sig .tc := ⟨.hbm, 1008, rfl⟩
abbrev main_call2_v15 : Ref sig .tc := ⟨.hbm, 1009, rfl⟩
abbrev main_v18 : Ref sig .tc := ⟨.hbm, 1010, rfl⟩
abbrev main_c_5 : Ref sig .tc := ⟨.hbm, 1011, rfl⟩
abbrev main_v19 : Ref sig .tc := ⟨.hbm, 1012, rfl⟩
abbrev main_v20 : Ref sig .tc := ⟨.hbm, 1013, rfl⟩
abbrev main_c_6 : Ref sig .tc := ⟨.hbm, 1014, rfl⟩
abbrev main_v21 : Ref sig .tc := ⟨.hbm, 1015, rfl⟩
abbrev main_v22 : Ref sig .tc := ⟨.hbm, 1016, rfl⟩
abbrev main_v23 : Ref sig .tc := ⟨.hbm, 1017, rfl⟩
abbrev main_v24 : Ref sig .tc := ⟨.hbm, 1018, rfl⟩
abbrev main_v25 : Ref sig .tc := ⟨.hbm, 1019, rfl⟩
abbrev main_call3_c : Ref sig .tc := ⟨.hbm, 1020, rfl⟩
abbrev main_call3_v0 : Ref sig .tc := ⟨.hbm, 1021, rfl⟩
abbrev main_call3_v1 : Ref sig .tc := ⟨.hbm, 1022, rfl⟩
abbrev main_call3_c_0 : Ref sig .tc := ⟨.hbm, 1023, rfl⟩
abbrev main_call3_v2 : Ref sig .tc := ⟨.hbm, 1024, rfl⟩
abbrev main_call3_v3 : Ref sig .tc := ⟨.hbm, 1025, rfl⟩
abbrev main_call3_v4 : Ref sig .tc := ⟨.hbm, 1026, rfl⟩
abbrev main_call3_v5 : Ref sig .tc := ⟨.hbm, 1027, rfl⟩
abbrev main_call3_c_1 : Ref sig .tc := ⟨.hbm, 1028, rfl⟩
abbrev main_call3_c_2 : Ref sig .tc := ⟨.hbm, 1029, rfl⟩
abbrev main_call3_v6 : Ref sig .tc := ⟨.hbm, 1030, rfl⟩
abbrev main_call3_v7 : Ref sig .tc := ⟨.hbm, 1031, rfl⟩
abbrev main_call3_v8 : Ref sig .tc := ⟨.hbm, 1032, rfl⟩
abbrev main_call3_v9 : Ref sig .tc := ⟨.hbm, 1033, rfl⟩
abbrev main_call3_v10 : Ref sig .tc := ⟨.hbm, 1034, rfl⟩
abbrev main_call3_v11 : Ref sig .tc := ⟨.hbm, 1035, rfl⟩
abbrev main_call3_c_3 : Ref sig .tc := ⟨.hbm, 1036, rfl⟩
abbrev main_call3_v12 : Ref sig .tc := ⟨.hbm, 1037, rfl⟩
abbrev main_call3_v13 : Ref sig .tc := ⟨.hbm, 1038, rfl⟩
abbrev main_call3_v14 : Ref sig .tc := ⟨.hbm, 1039, rfl⟩
abbrev main_call3_cst : Ref sig .tc := ⟨.hbm, 1040, rfl⟩
abbrev main_call3_v15 : Ref sig .tc := ⟨.hbm, 1041, rfl⟩
abbrev main_v26 : Ref sig .tc := ⟨.hbm, 1042, rfl⟩
abbrev main_c_7 : Ref sig .tc := ⟨.hbm, 1043, rfl⟩
abbrev main_v27 : Ref sig .tc := ⟨.hbm, 1044, rfl⟩
abbrev main_v28 : Ref sig .tc := ⟨.hbm, 1045, rfl⟩
abbrev main_c_8 : Ref sig .tc := ⟨.hbm, 1046, rfl⟩
abbrev main_v29 : Ref sig .tc := ⟨.hbm, 1047, rfl⟩
abbrev main_v30 : Ref sig .tc := ⟨.hbm, 1048, rfl⟩
abbrev main_v31 : Ref sig .tc := ⟨.hbm, 1049, rfl⟩
abbrev main_v32 : Ref sig .tc := ⟨.hbm, 1050, rfl⟩
abbrev main_v33 : Ref sig .tc := ⟨.hbm, 1051, rfl⟩
abbrev main_v34 : Ref sig .tc := ⟨.hbm, 1052, rfl⟩
abbrev main_v35 : Ref sig .tc := ⟨.hbm, 1053, rfl⟩
abbrev main_call4_cst : Ref sig .tc := ⟨.hbm, 1054, rfl⟩
abbrev main_call4_v0 : Ref sig .tc := ⟨.hbm, 1055, rfl⟩
abbrev main_v36 : Ref sig .tc := ⟨.hbm, 1056, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  bcast_S_S128 : S_.BroadcastsInDim S128 (![] : Fin 0 → Fin S128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S128_S128x1_0 : S128.BroadcastsInDim S128x1 (![0] : Fin 1 → Fin S128x1.rank)
  concatenates_S100000x128_S100000x128_S100000x128_S100000x384_d1 : Shape.Concatenates [S100000x128, S100000x128, S100000x128] S100000x384 1
  gather_S100000x128_S100000x1_S100000x128_1_0_n_n_0_1_1128_wf : GatherDims.WF S100000x128 S100000x1 S100000x128 [1] [0] [] [0] [] 1 ![1, 128]
  gather_S100000x128_S128x1_S100000x128_0_1_n_n_1_1_1000001_wf : GatherDims.WF S100000x128 S128x1 S100000x128 [0] [1] [] [1] [] 1 ![100000, 1]
  dot_S100000x384_S384x128_S100000x128_1_0_0_1_n_n_wf : DotDims.WF S100000x384 S384x128 S100000x128 [1] [0] [0] [1] [] []

variable [Facts₀]

def comparator_i32_i32_d0 : BitVec 32 × BitVec 32 → BitVec 32 × BitVec 32 → BitVec 1 :=
  fun l r =>
    let v19 := IntOp.cmpi .ult l.1 r.1
    v19
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S128x1_S100000x128_0_1_n_n_1_1_1000001 : GatherDims S100000x128 S128x1 S100000x128 where
  offsetDims := [0]
  collapsedSliceDims := [1]
  operandBatchingDims := []
  startIndicesBatchingDims := []
  startIndexMap := [1]
  indexVectorDim := 1
  sliceSizes := ![100000, 1]
  wf := gather_S100000x128_S128x1_S100000x128_0_1_n_n_1_1_1000001_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.SetupB.lean ====
/-
  The SparseCore program as the launch theorem sees it: the configuration of its two gather calls, the extended body
  table, the variants, and the decided facts about the launch semaphores.
-/
import proofs.«204681_g65575560675685_cont_9to1_m_144_57_alg».proof.Proof.Gen.Kernel
import Idealize.ShloMosaic.Lib.SparseCore.Launch
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by match q with
      | 0 => rfl
      | 1 => rfl⟩

end Cert.Kernel.Setup

end
-- ==== Proof.ScTileDefs0B.lean ====
/-
  The vocabulary of one tile's task of the first gather kernel: where the six operands live, the tile's slab of each
  index operand, the chunks of 128 rows of each output the tile writes (7 on core 1, 18 on core 0) and their union, the
  range condition on the index operands, and the tile's resources.
-/
import proofs.«204681_g65575560675685_cont_9to1_m_144_57_alg».proof.Proof.Gen.Kernel
import Idealize.ShloMosaic.Lib.SparseCore.Launch
import Idealize.ShloMosaic.Lib.Transfers

noncomputable section

namespace Cert.Proof.Kernel.ScTile0

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev 𝒱₀ : Variants := Variants.none

/-! ## The machine's algebra over any user algebra -/

/-- The machine's resource algebra at the float instance F over the user algebra U. -/
abbrev Mach (F : FTy → Type) (U : Type) [URA U] : Type := MT nD τ sig (HIx 2) (Elt F) ℕ U ℕ

variable {U : Type} [URA U]

/-! ## The operands -/

abbrev tuLoc (d : Dev nD) : Loc nD τ sig := (SparseCore.T d).loc main_arg1
abbrev tiLoc (d : Dev nD) : Loc nD τ sig := (SparseCore.T d).loc main_arg2
abbrev iuLoc (d : Dev nD) : Loc nD τ sig := (SparseCore.T d).loc main_v53
abbrev iiLoc (d : Dev nD) : Loc nD τ sig := (SparseCore.T d).loc main_v81
abbrev ouLoc (d : Dev nD) : Loc nD τ sig := (SparseCore.T d).loc main_v94_0
abbrev oiLoc (d : Dev nD) : Loc nD τ sig := (SparseCore.T d).loc main_v94_1

abbrev cV (L : grid0.Coords) : Fin τ.nSC := (L 0).castLE hcore0
abbrev jV (L : grid0.Coords) : Fin τ.nSub := (L 1).castLE hsub0

/-- The tile's slab of an index operand, as the tile addresses it: slab 16 c + s, squeezed to its 18 rows of 128. -/
abbrev iuSlab (L : grid0.Coords) : Memref sig .scVector .hbm S18x128 .i32 :=
  ((Memref.whole main_v53_scv : Memref sig .scVector .hbm S32x18x128 .i32).slice
    (Rect.unit (s := S32x18x128) (k0_off1 L) S1x18x128.size (k0_off1_inb L)) (fun _ => rfl)).squeeze S18x128 squeezes_S1x18x128_S18x128
abbrev iiSlab (L : grid0.Coords) : Memref sig .scVector .hbm S18x128 .i32 :=
  ((Memref.whole main_v81_scv : Memref sig .scVector .hbm S32x18x128 .i32).slice
    (Rect.unit (s := S32x18x128) (k0_off1 L) S1x18x128.size (k0_off1_inb L)) (fun _ => rfl)).squeeze S18x128 squeezes_S1x18x128_S18x128

/-- Chunk r of the tile's rows of an output on core 1: 128 rows from row (288 + 7 s + r) * 128. -/
abbrev ouC1 (L : grid0.Coords) (h2 : k0_cond2 L = 1#1) (r : Fin 7) : Memref sig .scVector .hbm S128x128 .f32 :=
  (Memref.whole main_v94_0_scv : Memref sig .scVector .hbm S51200x128 .f32).slice
    (Rect.unit (s := S51200x128) (k0_off3 L (BitVec.ofNat 32 (128 * r.val))) S128x128.size (k0_off3_inb L h2 r)) (fun _ => rfl)
abbrev oiC1 (L : grid0.Coords) (h2 : k0_cond2 L = 1#1) (r : Fin 7) : Memref sig .scVector .hbm S128x128 .f32 :=
  (Memref.whole main_v94_1_scv : Memref sig .scVector .hbm S51200x128 .f32).slice
    (Rect.unit (s := S51200x128) (k0_off3 L (BitVec.ofNat 32 (128 * r.val))) S128x128.size (k0_off3_inb L h2 r)) (fun _ => rfl)
/-- Chunk r of the tile's rows of an output on core 0: 128 rows from row (18 s + r) * 128. -/
abbrev ouC0 (L : grid0.Coords) (h1 : k0_cond1 L = 1#1) (r : Fin 18) : Memref sig .scVector .hbm S128x128 .f32 :=
  (Memref.whole main_v94_0_scv : Memref sig .scVector .hbm S51200x128 .f32).slice
    (Rect.unit (s := S51200x128) (k0_off2 L (BitVec.ofNat 32 (128 * r.val))) S128x128.size (k0_off2_inb L h1 r)) (fun _ => rfl)
abbrev oiC0 (L : grid0.Coords) (h1 : k0_cond1 L = 1#1) (r : Fin 18) : Memref sig .scVector .hbm S128x128 .f32 :=
  (Memref.whole main_v94_1_scv : Memref sig .scVector .hbm S51200x128 .f32).slice
    (Rect.unit (s := S51200x128) (k0_off2 L (BitVec.ofNat 32 (128 * r.val))) S128x128.size (k0_off2_inb L h1 r)) (fun _ => rfl)

/-- The tile's rows of an output: its chunks' elements (the same index set for both outputs). -/
def outSet1 (L : grid0.Coords) (h2 : k0_cond2 L = 1#1) : Finset S51200x128.Idx := Finset.univ.biUnion fun r : Fin 7 => (ouC1 L h2 r).view.set
def outSet0 (L : grid0.Coords) (h1 : k0_cond1 L = 1#1) : Finset S51200x128.Idx := Finset.univ.biUnion fun r : Fin 18 => (ouC0 L h1 r).view.set

/-- Every word of the two index operands names a row of the tables. -/
def PreOK (d : Dev nD) (gu : Buf (Elt F) (iuLoc d)) (gi : Buf (Elt F) (iiLoc d)) : Prop :=
  (∀ j : S32x18x128.Idx, (gu j).toNat < 100000) ∧ (∀ j : S32x18x128.Idx, (gi j).toNat < 100000)

/-- The tile's resources on core 1: its slab of each index operand, a read share of each table, its rows of each output. -/
abbrev res1 (d : Dev nD) (L : grid0.Coords) (h2 : k0_cond2 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet1 L h2]{fullShare} ou) ∗ (oiLoc d ↦[outSet1 L h2]{fullShare} oi))
/-- The tile's resources on core 0. -/
abbrev res0 (d : Dev nD) (L : grid0.Coords) (h1 : k0_cond1 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet0 L h1]{fullShare} ou) ∗ (oiLoc d ↦[outSet0 L h1]{fullShare} oi))

end Cert.Proof.Kernel.ScTile0

end
-- ==== Proof.ScTileDefs1B.lean ====
/-
  The vocabulary of one tile's task of the second gather kernel: where the six operands live, the tile's slab of each
  index operand, the chunks of 128 rows of each output the tile writes (7 on core 1, 18 on core 0) and their union, the
  range condition on the index operands, and the tile's resources.
-/
import proofs.«204681_g65575560675685_cont_9to1_m_144_57_alg».proof.Proof.Gen.Kernel
import Idealize.ShloMosaic.Lib.SparseCore.Launch
import Idealize.ShloMosaic.Lib.Transfers

noncomputable section

namespace Cert.Proof.Kernel.ScTile1

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev 𝒱₀ : Variants := Variants.none

/-! ## The machine's algebra over any user algebra -/

/-- The machine's resource algebra at the float instance F over the user algebra U. -/
abbrev Mach (F : FTy → Type) (U : Type) [URA U] : Type := MT nD τ sig (HIx 2) (Elt F) ℕ U ℕ

variable {U : Type} [URA U]

/-! ## The operands -/

abbrev tuLoc (d : Dev nD) : Loc nD τ sig := (SparseCore.T d).loc main_arg1
abbrev tiLoc (d : Dev nD) : Loc nD τ sig := (SparseCore.T d).loc main_arg2
abbrev iuLoc (d : Dev nD) : Loc nD τ sig := (SparseCore.T d).loc main_v65
abbrev iiLoc (d : Dev nD) : Loc nD τ sig := (SparseCore.T d).loc main_v93
abbrev ouLoc (d : Dev nD) : Loc nD τ sig := (SparseCore.T d).loc main_v95_0
abbrev oiLoc (d : Dev nD) : Loc nD τ sig := (SparseCore.T d).loc main_v95_1

abbrev cV (L : grid1.Coords) : Fin τ.nSC := (L 0).castLE hcore1
abbrev jV (L : grid1.Coords) : Fin τ.nSub := (L 1).castLE hsub1

/-- The tile's slab of an index operand, as the tile addresses it: slab 16 c + s, squeezed to its 18 rows of 128. -/
abbrev iuSlab (L : grid1.Coords) : Memref sig .scVector .hbm S18x128 .i32 :=
  ((Memref.whole main_v65_scv : Memref sig .scVector .hbm S32x18x128 .i32).slice
    (Rect.unit (s := S32x18x128) (k1_off1 L) S1x18x128.size (k1_off1_inb L)) (fun _ => rfl)).squeeze S18x128 squeezes_S1x18x128_S18x128
abbrev iiSlab (L : grid1.Coords) : Memref sig .scVector .hbm S18x128 .i32 :=
  ((Memref.whole main_v93_scv : Memref sig .scVector .hbm S32x18x128 .i32).slice
    (Rect.unit (s := S32x18x128) (k1_off1 L) S1x18x128.size (k1_off1_inb L)) (fun _ => rfl)).squeeze S18x128 squeezes_S1x18x128_S18x128

/-- Chunk r of the tile's rows of an output on core 1: 128 rows from row (288 + 7 s + r) * 128. -/
abbrev ouC1 (L : grid1.Coords) (h2 : k1_cond2 L = 1#1) (r : Fin 7) : Memref sig .scVector .hbm S128x128 .f32 :=
  (Memref.whole main_v95_0_scv : Memref sig .scVector .hbm S51200x128 .f32).slice
    (Rect.unit (s := S51200x128) (k1_off3 L (BitVec.ofNat 32 (128 * r.val))) S128x128.size (k1_off3_inb L h2 r)) (fun _ => rfl)
abbrev oiC1 (L : grid1.Coords) (h2 : k1_cond2 L = 1#1) (r : Fin 7) : Memref sig .scVector .hbm S128x128 .f32 :=
  (Memref.whole main_v95_1_scv : Memref sig .scVector .hbm S51200x128 .f32).slice
    (Rect.unit (s := S51200x128) (k1_off3 L (BitVec.ofNat 32 (128 * r.val))) S128x128.size (k1_off3_inb L h2 r)) (fun _ => rfl)
/-- Chunk r of the tile's rows of an output on core 0: 128 rows from row (18 s + r) * 128. -/
abbrev ouC0 (L : grid1.Coords) (h1 : k1_cond1 L = 1#1) (r : Fin 18) : Memref sig .scVector .hbm S128x128 .f32 :=
  (Memref.whole main_v95_0_scv : Memref sig .scVector .hbm S51200x128 .f32).slice
    (Rect.unit (s := S51200x128) (k1_off2 L (BitVec.ofNat 32 (128 * r.val))) S128x128.size (k1_off2_inb L h1 r)) (fun _ => rfl)
abbrev oiC0 (L : grid1.Coords) (h1 : k1_cond1 L = 1#1) (r : Fin 18) : Memref sig .scVector .hbm S128x128 .f32 :=
  (Memref.whole main_v95_1_scv : Memref sig .scVector .hbm S51200x128 .f32).slice
    (Rect.unit (s := S51200x128) (k1_off2 L (BitVec.ofNat 32 (128 * r.val))) S128x128.size (k1_off2_inb L h1 r)) (fun _ => rfl)

/-- The tile's rows of an output: its chunks' elements (the same index set for both outputs). -/
def outSet1 (L : grid1.Coords) (h2 : k1_cond2 L = 1#1) : Finset S51200x128.Idx := Finset.univ.biUnion fun r : Fin 7 => (ouC1 L h2 r).view.set
def outSet0 (L : grid1.Coords) (h1 : k1_cond1 L = 1#1) : Finset S51200x128.Idx := Finset.univ.biUnion fun r : Fin 18 => (ouC0 L h1 r).view.set

/-- Every word of the two index operands names a row of the tables. -/
def PreOK (d : Dev nD) (gu : Buf (Elt F) (iuLoc d)) (gi : Buf (Elt F) (iiLoc d)) : Prop :=
  (∀ j : S32x18x128.Idx, (gu j).toNat < 100000) ∧ (∀ j : S32x18x128.Idx, (gi j).toNat < 100000)

/-- The tile's resources on core 1: its slab of each index operand, a read share of each table, its rows of each output. -/
abbrev res1 (d : Dev nD) (L : grid1.Coords) (h2 : k1_cond2 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet1 L h2]{fullShare} ou) ∗ (oiLoc d ↦[outSet1 L h2]{fullShare} oi))
/-- The tile's resources on core 0. -/
abbrev res0 (d : Dev nD) (L : grid1.Coords) (h1 : k1_cond1 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet0 L h1]{fullShare} ou) ∗ (oiLoc d ↦[outSet0 L h1]{fullShare} oi))

end Cert.Proof.Kernel.ScTile1

end
-- ==== Proof.PayB.lean ====
/-
  The launch's resource algebra and what its handshakes carry: each tile's task takes its slab of the two index operands,
  a read share of the two tables and its rows of the two outputs, and brings them back, the outputs' rows rewritten.
-/
import proofs.«204681_g65575560675685_cont_9to1_m_144_57_alg».proof.Proof.SetupB
import proofs.«204681_g65575560675685_cont_9to1_m_144_57_alg».proof.Proof.ScTileDefs0B
import proofs.«204681_g65575560675685_cont_9to1_m_144_57_alg».proof.Proof.ScTileDefs1B
import Idealize.ShloMosaic.Lib.Pipeline.Kit

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the pipelines' rounds, the transfers' counters -/

abbrev UH : Type := URounds (GSem nD τ sig) ℕ
abbrev UPp : Type := URounds (GSem nD τ sig) Unit
abbrev UU : Type := UH × (UPp × Counters)

local notation "𝕄" => MT nD τ sig (HIx 2) (Elt F) ℕ UU ℕ

abbrev EH : Emb UH (MT nD τ sig (HIx 2) (Elt F) ℕ UU ℕ) := embL
abbrev EP : Emb UPp (MT nD τ sig (HIx 2) (Elt F) ℕ UU ℕ) := (Emb.inl : Emb UPp (UPp × Counters)).trans embR
instance EP_landsIn : (EP : Emb UPp (MT nD τ sig (HIx 2) (Elt F) ℕ UU ℕ)).LandsIn (upEmb : UEmb _ (MT nD τ sig (HIx 2) (Elt F) ℕ UU ℕ)) := by
  unfold EP; infer_instance

/-! ## The grid points -/

theorem bound0_0 : grid0.bound 0 = 2 := rfl
theorem bound0_1 : grid0.bound 1 = 16 := rfl
theorem bound1_0 : grid1.bound 0 = 2 := rfl
theorem bound1_1 : grid1.bound 1 = 16 := rfl

/-- Core `c`, subcore `i` as a point of the first call's grid. -/
def pt0 (c : Fin 2) (i : Fin 16) : grid0.Coords :=
  fun | 0 => Fin.cast bound0_0.symm c | 1 => Fin.cast bound0_1.symm i | ⟨_ + 2, h⟩ => absurd h (Nat.not_lt.2 (Nat.le_add_left _ _))
def pt1 (c : Fin 2) (i : Fin 16) : grid1.Coords :=
  fun | 0 => Fin.cast bound1_0.symm c | 1 => Fin.cast bound1_1.symm i | ⟨_ + 2, h⟩ => absurd h (Nat.not_lt.2 (Nat.le_add_left _ _))

theorem cond1_pt0 : ∀ (c : Fin 2) (i : Fin 16), c.val = 0 → k0_cond1 (pt0 c i) = 1#1 := by decide
theorem cond2_pt0 : ∀ (c : Fin 2) (i : Fin 16), ¬ c.val = 0 → k0_cond2 (pt0 c i) = 1#1 := by decide
theorem cond1_pt1 : ∀ (c : Fin 2) (i : Fin 16), c.val = 0 → k1_cond1 (pt1 c i) = 1#1 := by decide
theorem cond2_pt1 : ∀ (c : Fin 2) (i : Fin 16), ¬ c.val = 0 → k1_cond2 (pt1 c i) = 1#1 := by decide

/-- The read share of a table that tile `(c, i)` takes: one of thirty-two cut off the full share. -/
abbrev tq (c : Fin 2) (i : Fin 16) : PosShare TreeShare := Transfers.shareTok fullShare 32 ⟨16 * c.val + i.val, by omega⟩

/-! ## What a call finds in its operands, and what the handshakes carry -/

/-- The contents the first gather call finds in its six operands on device `d`: the two tables, the two index operands, the
    two outputs. -/
structure Ops0 (F : FTy → Type) (d : Dev nD) where
  fu : Buf (Elt F) (Cert.Proof.Kernel.ScTile0.tuLoc d)
  fi : Buf (Elt F) (Cert.Proof.Kernel.ScTile0.tiLoc d)
  gu : Buf (Elt F) (Cert.Proof.Kernel.ScTile0.iuLoc d)
  gi : Buf (Elt F) (Cert.Proof.Kernel.ScTile0.iiLoc d)
  ou : Buf (Elt F) (Cert.Proof.Kernel.ScTile0.ouLoc d)
  oi : Buf (Elt F) (Cert.Proof.Kernel.ScTile0.oiLoc d)
/-- The same for the second gather call. -/
structure Ops1 (F : FTy → Type) (d : Dev nD) where
  fu : Buf (Elt F) (Cert.Proof.Kernel.ScTile1.tuLoc d)
  fi : Buf (Elt F) (Cert.Proof.Kernel.ScTile1.tiLoc d)
  gu : Buf (Elt F) (Cert.Proof.Kernel.ScTile1.iuLoc d)
  gi : Buf (Elt F) (Cert.Proof.Kernel.ScTile1.iiLoc d)
  ou : Buf (Elt F) (Cert.Proof.Kernel.ScTile1.ouLoc d)
  oi : Buf (Elt F) (Cert.Proof.Kernel.ScTile1.oiLoc d)

/-- What tile `(c, i)` is handed for the first call: on core 0 its eighteen chunks of rows, on core 1 its seven. -/
def go0 (d : Dev nD) (A : Ops0 F d) (c : Fin 2) (i : Fin 16) : sProp (MT nD τ sig (HIx 2) (Elt F) ℕ UU ℕ) :=
  if h : c.val = 0 then Cert.Proof.Kernel.ScTile0.res0 d (pt0 c i) (cond1_pt0 c i h) (tq c i) A.fu A.fi A.gu A.gi A.ou A.oi
  else Cert.Proof.Kernel.ScTile0.res1 d (pt0 c i) (cond2_pt0 c i h) (tq c i) A.fu A.fi A.gu A.gi A.ou A.oi
/-- What it brings back: the same, its rows of the outputs at contents of the task's making. -/
def td0 (d : Dev nD) (A : Ops0 F d) (c : Fin 2) (i : Fin 16) : sProp (MT nD τ sig (HIx 2) (Elt F) ℕ UU ℕ) :=
  if h : c.val = 0 then iprop(∃ ou' oi', Cert.Proof.Kernel.ScTile0.res0 d (pt0 c i) (cond1_pt0 c i h) (tq c i) A.fu A.fi A.gu A.gi ou' oi')
  else iprop(∃ ou' oi', Cert.Proof.Kernel.ScTile0.res1 d (pt0 c i) (cond2_pt0 c i h) (tq c i) A.fu A.fi A.gu A.gi ou' oi')
def go1 (d : Dev nD) (A : Ops1 F d) (c : Fin 2) (i : Fin 16) : sProp (MT nD τ sig (HIx 2) (Elt F) ℕ UU ℕ) :=
  if h : c.val = 0 then Cert.Proof.Kernel.ScTile1.res0 d (pt1 c i) (cond1_pt1 c i h) (tq c i) A.fu A.fi A.gu A.gi A.ou A.oi
  else Cert.Proof.Kernel.ScTile1.res1 d (pt1 c i) (cond2_pt1 c i h) (tq c i) A.fu A.fi A.gu A.gi A.ou A.oi
def td1 (d : Dev nD) (A : Ops1 F d) (c : Fin 2) (i : Fin 16) : sProp (MT nD τ sig (HIx 2) (Elt F) ℕ UU ℕ) :=
  if h : c.val = 0 then iprop(∃ ou' oi', Cert.Proof.Kernel.ScTile1.res0 d (pt1 c i) (cond1_pt1 c i h) (tq c i) A.fu A.fi A.gu A.gi ou' oi')
  else iprop(∃ ou' oi', Cert.Proof.Kernel.ScTile1.res1 d (pt1 c i) (cond2_pt1 c i h) (tq c i) A.fu A.fi A.gu A.gi ou' oi')

variable (A0 : (d : Dev nD) → Ops0 F d) (A1 : (d : Dev nD) → Ops1 F d)

/-- A task's hand-out and hand-back at call `q`. -/
def goQ (q : Fin 2) (d : Dev nD) (c : Fin ((K (F := F)).nCore q)) (i : Fin ((K (F := F)).nSub q)) : sProp (MT nD τ sig (HIx 2) (Elt F) ℕ UU ℕ) :=
  match q with
  | 0 => go0 d (A0 d) (Fin.cast (nCore_eq 0) c) (Fin.cast (nSub_eq 0) i)
  | 1 => go1 d (A1 d) (Fin.cast (nCore_eq 1) c) (Fin.cast (nSub_eq 1) i)
def tdQ (q : Fin 2) (d : Dev nD) (c : Fin ((K (F := F)).nCore q)) (i : Fin ((K (F := F)).nSub q)) : sProp (MT nD τ sig (HIx 2) (Elt F) ℕ UU ℕ) :=
  match q with
  | 0 => td0 d (A0 d) (Fin.cast (nCore_eq 0) c) (Fin.cast (nSub_eq 0) i)
  | 1 => td1 d (A1 d) (Fin.cast (nCore_eq 1) c) (Fin.cast (nSub_eq 1) i)

/-- Each call hands a SparseCore its sixteen tasks' resources at once and gets them back at once; the tasks take and
    bring back theirs; nothing else is dealt. -/
def P : (K (F := F)).Pay (nD := nD) (Val := Elt F) (Name := ℕ) (U := UU) where
  st := fun q d c => bigSep Finset.univ fun i => goQ A0 A1 q d c i
  dn := fun q d c => bigSep Finset.univ fun i => tdQ A0 A1 q d c i
  go := goQ A0 A1
  td := tdQ A0 A1
  x := fun _ _ => iprop(emp)

/-- A SparseCore's operands are its tasks' and its results theirs: nothing to split. -/
theorem vecSplit (q : Fin 2) : (K (F := F)).VecSplit' (P A0 A1) q := by
  intro d c
  show (bigSep Finset.univ fun i => goQ A0 A1 q d c i) ⊢ |={Set.univ}=> iprop((bigSep Finset.univ fun i => goQ A0 A1 q d c i)
    ∗ ((bigSep Finset.univ fun i => tdQ A0 A1 q d c i) -∗ bigSep Finset.univ fun i => tdQ A0 A1 q d c i))
  iintro H; imodintro
  isplitl [H]; · iexact H
  iintro H; iexact H

/-! ## The handshakes' payloads can be stored -/

instance go0_storable (d : Dev nD) (A : Ops0 F d) (c : Fin 2) (i : Fin 16) :
    BI.Storable (upEmb : UEmb _ (MT nD τ sig (HIx 2) (Elt F) ℕ UU ℕ)) (go0 d A c i) := by unfold go0; split <;> infer_instance
instance td0_storable (d : Dev nD) (A : Ops0 F d) (c : Fin 2) (i : Fin 16) :
    BI.Storable (upEmb : UEmb _ (MT nD τ sig (HIx 2) (Elt F) ℕ UU ℕ)) (td0 d A c i) := by unfold td0; split <;> infer_instance
instance go1_storable (d : Dev nD) (A : Ops1 F d) (c : Fin 2) (i : Fin 16) :
    BI.Storable (upEmb : UEmb _ (MT nD τ sig (HIx 2) (Elt F) ℕ UU ℕ)) (go1 d A c i) := by unfold go1; split <;> infer_instance
instance td1_storable (d : Dev nD) (A : Ops1 F d) (c : Fin 2) (i : Fin 16) :
    BI.Storable (upEmb : UEmb _ (MT nD τ sig (HIx 2) (Elt F) ℕ UU ℕ)) (td1 d A c i) := by unfold td1; split <;> infer_instance
instance goQ_storable (q : Fin 2) (d : Dev nD) (c : Fin ((K (F := F)).nCore q)) (i : Fin ((K (F := F)).nSub q)) :
    BI.Storable (upEmb : UEmb _ (MT nD τ sig (HIx 2) (Elt F) ℕ UU ℕ)) (goQ A0 A1 q d c i) := by
  match q with
  | 0 => exact go0_storable d (A0 d) _ _
  | 1 => exact go1_storable d (A1 d) _ _
instance tdQ_storable (q : Fin 2) (d : Dev nD) (c : Fin ((K (F := F)).nCore q)) (i : Fin ((K (F := F)).nSub q)) :
    BI.Storable (upEmb : UEmb _ (MT nD τ sig (HIx 2) (Elt F) ℕ UU ℕ)) (tdQ A0 A1 q d c i) := by
  match q with
  | 0 => exact td0_storable d (A0 d) _ _
  | 1 => exact td1_storable d (A1 d) _ _

instance P_storable : (P A0 A1).IsStorable where
  st q d c := by show BI.Storable _ (bigSep Finset.univ fun i => goQ A0 A1 q d c i); infer_instance
  dn q d c := by show BI.Storable _ (bigSep Finset.univ fun i => tdQ A0 A1 q d c i); infer_instance
  go q d c i := goQ_storable A0 A1 q d c i
  td q d c i := tdQ_storable A0 A1 q d c i

end Cert.Kernel.Launch

end
-- ==== Proof.HostOpsB.lean ====
import proofs.«204681_g65575560675685_cont_9to1_m_144_57_alg».proof.Kernel
import Idealize.ShloMosaic.Lib.StableHlo.Run
import Idealize.ShloMosaic.Lib.Pipeline.Regions

noncomputable section

namespace Cert.Kernel.HostOps

open Cert.Kernel Idealize.ShloMosaic Idealize.ShloMosaic.TcCoe Idealize.SL.Sem Idealize.ShloMosaic.StableHlo
open Cert.Kernel.Facts₀ Cert.Kernel.Facts

variable {F : FTy → Type} [FloatOps F] [Cert.Kernel.Facts]

def fn_threefry2x32.ops0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S2 ![] bcast_S_S2),
    StableHlo.TRef.binary arg2 φ.v2 φ.v3 addi,
    StableHlo.TRef.unary arg1 φ.v4 (broadcastInDim S2 ![] bcast_S_S2),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S2 ![] bcast_S_S2),
    StableHlo.TRef.binary φ.v5 φ.v7 φ.v8 Host.shli,
    StableHlo.TRef.nullary φ.c_1 (constantI S_ 32 19#32),
    StableHlo.TRef.unary φ.c_1 φ.v9 (broadcastInDim S2 ![] bcast_S_S2),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S2 ![] bcast_S_S2),
    StableHlo.TRef.binary φ.v12 φ.v14 φ.v15 Host.shli,
    StableHlo.TRef.nullary φ.c_3 (constantI S_ 32 17#32),
    StableHlo.TRef.unary φ.c_3 φ.v16 (broadcastInDim S2 ![] bcast_S_S2),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S2 ![] bcast_S_S2),
    StableHlo.TRef.binary φ.v19 φ.v21 φ.v22 Host.shli,
    StableHlo.TRef.nullary φ.c_5 (constantI S_ 32 6#32),
    StableHlo.TRef.unary φ.c_5 φ.v23 (broadcastInDim S2 ![] bcast_S_S2),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S2 ![] bcast_S_S2),
    StableHlo.TRef.binary φ.v26 φ.v28 φ.v29 Host.shli,
    StableHlo.TRef.nullary φ.c_7 (constantI S_ 32 26#32),
    StableHlo.TRef.unary φ.c_7 φ.v30 (broadcastInDim S2 ![] bcast_S_S2),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S2 ![] bcast_S_S2),
    StableHlo.TRef.binary φ.v27 φ.v34 φ.v35 addi,
    StableHlo.TRef.unary φ.v1 φ.v36 (broadcastInDim S2 ![] bcast_S_S2),
    StableHlo.TRef.binary φ.v33 φ.v36 φ.v37 addi,
    StableHlo.TRef.nullary φ.c_8 (constantI S_ 32 1#32),
    StableHlo.TRef.unary φ.c_8 φ.v38 (broadcastInDim S2 ![] bcast_S_S2),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S2 ![] bcast_S_S2),
    StableHlo.TRef.binary φ.v39 φ.v41 φ.v42 Host.shli,
    StableHlo.TRef.nullary φ.c_10 (constantI S_ 32 15#32),
    StableHlo.TRef.unary φ.c_10 φ.v43 (broadcastInDim S2 ![] bcast_S_S2),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]
theorem fn_threefry2x32.ops0_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops0 (F := F) arg0 arg1 arg2 arg3 φ).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
theorem fn_threefry2x32.ops0_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops0 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part0_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part0 (F := F) arg0 arg1 arg2 arg3 φ = seq (fn_threefry2x32.ops0 arg0 arg1 arg2 arg3 φ) := by chain_rfl

def fn_threefry2x32.ops1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_11 (constantI S_ 32 29#32),
    StableHlo.TRef.unary φ.c_11 φ.v48 (broadcastInDim S2 ![] bcast_S_S2),
    StableHlo.TRef.binary φ.v46 φ.v48 φ.v49 Host.shli,
    StableHlo.TRef.nullary φ.c_12 (constantI S_ 32 3#32),
    StableHlo.TRef.unary φ.c_12 φ.v50 (broadcastInDim S2 ![] bcast_S_S2),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S2 ![] bcast_S_S2),
    StableHlo.TRef.binary φ.v53 φ.v55 φ.v56 Host.shli,
    StableHlo.TRef.nullary φ.c_14 (constantI S_ 32 16#32),
    StableHlo.TRef.unary φ.c_14 φ.v57 (broadcastInDim S2 ![] bcast_S_S2),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S2 ![] bcast_S_S2),
    StableHlo.TRef.binary φ.v60 φ.v62 φ.v63 Host.shli,
    StableHlo.TRef.nullary φ.c_16 (constantI S_ 32 8#32),
    StableHlo.TRef.unary φ.c_16 φ.v64 (broadcastInDim S2 ![] bcast_S_S2),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S2 ![] bcast_S_S2),
    StableHlo.TRef.binary φ.v61 φ.v68 φ.v69 addi,
    StableHlo.TRef.unary arg0 φ.v70 (broadcastInDim S2 ![] bcast_S_S2),
    StableHlo.TRef.binary φ.v67 φ.v70 φ.v71 addi,
    StableHlo.TRef.nullary φ.c_17 (constantI S_ 32 2#32),
    StableHlo.TRef.unary φ.c_17 φ.v72 (broadcastInDim S2 ![] bcast_S_S2),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S2 ![] bcast_S_S2),
    StableHlo.TRef.binary φ.v73 φ.v75 φ.v76 Host.shli,
    StableHlo.TRef.nullary φ.c_19 (constantI S_ 32 19#32),
    StableHlo.TRef.unary φ.c_19 φ.v77 (broadcastInDim S2 ![] bcast_S_S2),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S2 ![] bcast_S_S2),
    StableHlo.TRef.binary φ.v80 φ.v82 φ.v83 Host.shli,
    StableHlo.TRef.nullary φ.c_21 (constantI S_ 32 17#32),
    StableHlo.TRef.unary φ.c_21 φ.v84 (broadcastInDim S2 ![] bcast_S_S2),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S2 ![] bcast_S_S2),
    StableHlo.TRef.binary φ.v87 φ.v89 φ.v90 Host.shli,
    StableHlo.TRef.nullary φ.c_23 (constantI S_ 32 6#32),
    StableHlo.TRef.unary φ.c_23 φ.v91 (broadcastInDim S2 ![] bcast_S_S2),
    StableHlo.TRef.binary φ.v87 φ.v91 φ.v92 Host.shrui,
    StableHlo.TRef.binary φ.v90 φ.v92 φ.v93 ori,
    StableHlo.TRef.binary φ.v88 φ.v93 φ.v94 xori ]
theorem fn_threefry2x32.ops1_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops1 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem fn_threefry2x32.ops1_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops1 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part1_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part1 (F := F) arg0 arg1 arg2 arg3 φ = seq (fn_threefry2x32.ops1 arg0 arg1 arg2 arg3 φ) := by chain_rfl

def fn_threefry2x32.ops2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S2 ![] bcast_S_S2),
    StableHlo.TRef.binary φ.v94 φ.v96 φ.v97 Host.shli,
    StableHlo.TRef.nullary φ.c_25 (constantI S_ 32 26#32),
    StableHlo.TRef.unary φ.c_25 φ.v98 (broadcastInDim S2 ![] bcast_S_S2),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S2 ![] bcast_S_S2),
    StableHlo.TRef.binary φ.v95 φ.v102 φ.v103 addi,
    StableHlo.TRef.unary arg1 φ.v104 (broadcastInDim S2 ![] bcast_S_S2),
    StableHlo.TRef.binary φ.v101 φ.v104 φ.v105 addi,
    StableHlo.TRef.nullary φ.c_26 (constantI S_ 32 3#32),
    StableHlo.TRef.unary φ.c_26 φ.v106 (broadcastInDim S2 ![] bcast_S_S2),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S2 ![] bcast_S_S2),
    StableHlo.TRef.binary φ.v107 φ.v109 φ.v110 Host.shli,
    StableHlo.TRef.nullary φ.c_28 (constantI S_ 32 15#32),
    StableHlo.TRef.unary φ.c_28 φ.v111 (broadcastInDim S2 ![] bcast_S_S2),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S2 ![] bcast_S_S2),
    StableHlo.TRef.binary φ.v114 φ.v116 φ.v117 Host.shli,
    StableHlo.TRef.nullary φ.c_30 (constantI S_ 32 3#32),
    StableHlo.TRef.unary φ.c_30 φ.v118 (broadcastInDim S2 ![] bcast_S_S2),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S2 ![] bcast_S_S2),
    StableHlo.TRef.binary φ.v121 φ.v123 φ.v124 Host.shli,
    StableHlo.TRef.nullary φ.c_32 (constantI S_ 32 16#32),
    StableHlo.TRef.unary φ.c_32 φ.v125 (broadcastInDim S2 ![] bcast_S_S2),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S2 ![] bcast_S_S2),
    StableHlo.TRef.binary φ.v128 φ.v130 φ.v131 Host.shli,
    StableHlo.TRef.nullary φ.c_34 (constantI S_ 32 8#32),
    StableHlo.TRef.unary φ.c_34 φ.v132 (broadcastInDim S2 ![] bcast_S_S2),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S2 ![] bcast_S_S2),
    StableHlo.TRef.binary φ.v129 φ.v136 φ.v137 addi,
    StableHlo.TRef.unary φ.v1 φ.v138 (broadcastInDim S2 ![] bcast_S_S2),
    StableHlo.TRef.binary φ.v135 φ.v138 φ.v139 addi,
    StableHlo.TRef.nullary φ.c_35 (constantI S_ 32 4#32),
    StableHlo.TRef.unary φ.c_35 φ.v140 (broadcastInDim S2 ![] bcast_S_S2),
    StableHlo.TRef.binary φ.v139 φ.v140 φ.v141 addi,
    StableHlo.TRef.binary φ.v137 φ.v141 φ.v142 addi ]
theorem fn_threefry2x32.ops2_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops2 (F := F) arg0 arg1 arg2 arg3 φ).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem fn_threefry2x32.ops2_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops2 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part2_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part2 (F := F) arg0 arg1 arg2 arg3 φ = seq (fn_threefry2x32.ops2 arg0 arg1 arg2 arg3 φ) := by chain_rfl

def fn_threefry2x32.ops3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_36 (constantI S_ 32 13#32),
    StableHlo.TRef.unary φ.c_36 φ.v143 (broadcastInDim S2 ![] bcast_S_S2),
    StableHlo.TRef.binary φ.v141 φ.v143 φ.v144 Host.shli,
    StableHlo.TRef.nullary φ.c_37 (constantI S_ 32 19#32),
    StableHlo.TRef.unary φ.c_37 φ.v145 (broadcastInDim S2 ![] bcast_S_S2),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S2 ![] bcast_S_S2),
    StableHlo.TRef.binary φ.v148 φ.v150 φ.v151 Host.shli,
    StableHlo.TRef.nullary φ.c_39 (constantI S_ 32 17#32),
    StableHlo.TRef.unary φ.c_39 φ.v152 (broadcastInDim S2 ![] bcast_S_S2),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S2 ![] bcast_S_S2),
    StableHlo.TRef.binary φ.v155 φ.v157 φ.v158 Host.shli,
    StableHlo.TRef.nullary φ.c_41 (constantI S_ 32 6#32),
    StableHlo.TRef.unary φ.c_41 φ.v159 (broadcastInDim S2 ![] bcast_S_S2),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S2 ![] bcast_S_S2),
    StableHlo.TRef.binary φ.v162 φ.v164 φ.v165 Host.shli,
    StableHlo.TRef.nullary φ.c_43 (constantI S_ 32 26#32),
    StableHlo.TRef.unary φ.c_43 φ.v166 (broadcastInDim S2 ![] bcast_S_S2),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S2 ![] bcast_S_S2),
    StableHlo.TRef.binary φ.v163 φ.v170 φ.v171 addi,
    StableHlo.TRef.unary arg0 φ.v172 (broadcastInDim S2 ![] bcast_S_S2),
    StableHlo.TRef.binary φ.v169 φ.v172 φ.v173 addi,
    StableHlo.TRef.nullary φ.c_44 (constantI S_ 32 5#32),
    StableHlo.TRef.unary φ.c_44 φ.v174 (broadcastInDim S2 ![] bcast_S_S2),
    StableHlo.TRef.binary φ.v173 φ.v174 φ.v175 addi ]
theorem fn_threefry2x32.ops3_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops3 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem fn_threefry2x32.ops3_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops3 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part3_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part3 (F := F) arg0 arg1 arg2 arg3 φ = seq (fn_threefry2x32.ops3 arg0 arg1 arg2 arg3 φ) := by chain_rfl

def fn_threefry2x32.ops (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  fn_threefry2x32.ops0 arg0 arg1 arg2 arg3 φ ++ fn_threefry2x32.ops1 arg0 arg1 arg2 arg3 φ ++ fn_threefry2x32.ops2 arg0 arg1 arg2 arg3 φ ++ fn_threefry2x32.ops3 arg0 arg1 arg2 arg3 φ
theorem fn_threefry2x32.body_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body (F := F) arg0 arg1 arg2 arg3 φ = seq (fn_threefry2x32.ops arg0 arg1 arg2 arg3 φ) := by
  unfold fn_threefry2x32.body fn_threefry2x32.ops
  rw [fn_threefry2x32.part0_eq, fn_threefry2x32.part1_eq, fn_threefry2x32.part2_eq, fn_threefry2x32.part3_eq]
  simp only [seq_append, bind_assoc]

theorem fn_threefry2x32.ops_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops (F := F) arg0 arg1 arg2 arg3 φ).Forall fun op => op.bufs ⊆ tcRefs τ sig := by
  unfold fn_threefry2x32.ops
  simp only [List.forall_append, and_assoc]
  exact ⟨fn_threefry2x32.ops0_sub arg0 arg1 arg2 arg3 φ, fn_threefry2x32.ops1_sub arg0 arg1 arg2 arg3 φ, fn_threefry2x32.ops2_sub arg0 arg1 arg2 arg3 φ, fn_threefry2x32.ops3_sub arg0 arg1 arg2 arg3 φ⟩
theorem fn_threefry2x32.ops_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops (F := F) arg0 arg1 arg2 arg3 φ).Forall fun op => op.fresh = ∅ := by
  unfold fn_threefry2x32.ops
  simp only [List.forall_append, and_assoc]
  exact ⟨fn_threefry2x32.ops0_fresh arg0 arg1 arg2 arg3 φ, fn_threefry2x32.ops1_fresh arg0 arg1 arg2 arg3 φ, fn_threefry2x32.ops2_fresh arg0 arg1 arg2 arg3 φ, fn_threefry2x32.ops3_fresh arg0 arg1 arg2 arg3 φ⟩

def fn_threefry2x32_0.ops0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S128 ![] bcast_S_S128),
    StableHlo.TRef.binary arg2 φ.v2 φ.v3 addi,
    StableHlo.TRef.unary arg1 φ.v4 (broadcastInDim S128 ![] bcast_S_S128),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S128 ![] bcast_S_S128),
    StableHlo.TRef.binary φ.v5 φ.v7 φ.v8 Host.shli,
    StableHlo.TRef.nullary φ.c_1 (constantI S_ 32 19#32),
    StableHlo.TRef.unary φ.c_1 φ.v9 (broadcastInDim S128 ![] bcast_S_S128),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S128 ![] bcast_S_S128),
    StableHlo.TRef.binary φ.v12 φ.v14 φ.v15 Host.shli,
    StableHlo.TRef.nullary φ.c_3 (constantI S_ 32 17#32),
    StableHlo.TRef.unary φ.c_3 φ.v16 (broadcastInDim S128 ![] bcast_S_S128),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S128 ![] bcast_S_S128),
    StableHlo.TRef.binary φ.v19 φ.v21 φ.v22 Host.shli,
    StableHlo.TRef.nullary φ.c_5 (constantI S_ 32 6#32),
    StableHlo.TRef.unary φ.c_5 φ.v23 (broadcastInDim S128 ![] bcast_S_S128),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S128 ![] bcast_S_S128),
    StableHlo.TRef.binary φ.v26 φ.v28 φ.v29 Host.shli,
    StableHlo.TRef.nullary φ.c_7 (constantI S_ 32 26#32),
    StableHlo.TRef.unary φ.c_7 φ.v30 (broadcastInDim S128 ![] bcast_S_S128),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S128 ![] bcast_S_S128),
    StableHlo.TRef.binary φ.v27 φ.v34 φ.v35 addi,
    StableHlo.TRef.unary φ.v1 φ.v36 (broadcastInDim S128 ![] bcast_S_S128),
    StableHlo.TRef.binary φ.v33 φ.v36 φ.v37 addi,
    StableHlo.TRef.nullary φ.c_8 (constantI S_ 32 1#32),
    StableHlo.TRef.unary φ.c_8 φ.v38 (broadcastInDim S128 ![] bcast_S_S128),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S128 ![] bcast_S_S128),
    StableHlo.TRef.binary φ.v39 φ.v41 φ.v42 Host.shli,
    StableHlo.TRef.nullary φ.c_10 (constantI S_ 32 15#32),
    StableHlo.TRef.unary φ.c_10 φ.v43 (broadcastInDim S128 ![] bcast_S_S128),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]
theorem fn_threefry2x32_0.ops0_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops0 (F := F) arg0 arg1 arg2 arg3 φ).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
theorem fn_threefry2x32_0.ops0_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops0 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part0_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part0 (F := F) arg0 arg1 arg2 arg3 φ = seq (fn_threefry2x32_0.ops0 arg0 arg1 arg2 arg3 φ) := by chain_rfl

def fn_threefry2x32_0.ops1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_11 (constantI S_ 32 29#32),
    StableHlo.TRef.unary φ.c_11 φ.v48 (broadcastInDim S128 ![] bcast_S_S128),
    StableHlo.TRef.binary φ.v46 φ.v48 φ.v49 Host.shli,
    StableHlo.TRef.nullary φ.c_12 (constantI S_ 32 3#32),
    StableHlo.TRef.unary φ.c_12 φ.v50 (broadcastInDim S128 ![] bcast_S_S128),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S128 ![] bcast_S_S128),
    StableHlo.TRef.binary φ.v53 φ.v55 φ.v56 Host.shli,
    StableHlo.TRef.nullary φ.c_14 (constantI S_ 32 16#32),
    StableHlo.TRef.unary φ.c_14 φ.v57 (broadcastInDim S128 ![] bcast_S_S128),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S128 ![] bcast_S_S128),
    StableHlo.TRef.binary φ.v60 φ.v62 φ.v63 Host.shli,
    StableHlo.TRef.nullary φ.c_16 (constantI S_ 32 8#32),
    StableHlo.TRef.unary φ.c_16 φ.v64 (broadcastInDim S128 ![] bcast_S_S128),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S128 ![] bcast_S_S128),
    StableHlo.TRef.binary φ.v61 φ.v68 φ.v69 addi,
    StableHlo.TRef.unary arg0 φ.v70 (broadcastInDim S128 ![] bcast_S_S128),
    StableHlo.TRef.binary φ.v67 φ.v70 φ.v71 addi,
    StableHlo.TRef.nullary φ.c_17 (constantI S_ 32 2#32),
    StableHlo.TRef.unary φ.c_17 φ.v72 (broadcastInDim S128 ![] bcast_S_S128),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S128 ![] bcast_S_S128),
    StableHlo.TRef.binary φ.v73 φ.v75 φ.v76 Host.shli,
    StableHlo.TRef.nullary φ.c_19 (constantI S_ 32 19#32),
    StableHlo.TRef.unary φ.c_19 φ.v77 (broadcastInDim S128 ![] bcast_S_S128),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S128 ![] bcast_S_S128),
    StableHlo.TRef.binary φ.v80 φ.v82 φ.v83 Host.shli,
    StableHlo.TRef.nullary φ.c_21 (constantI S_ 32 17#32),
    StableHlo.TRef.unary φ.c_21 φ.v84 (broadcastInDim S128 ![] bcast_S_S128),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S128 ![] bcast_S_S128),
    StableHlo.TRef.binary φ.v87 φ.v89 φ.v90 Host.shli,
    StableHlo.TRef.nullary φ.c_23 (constantI S_ 32 6#32),
    StableHlo.TRef.unary φ.c_23 φ.v91 (broadcastInDim S128 ![] bcast_S_S128),
    StableHlo.TRef.binary φ.v87 φ.v91 φ.v92 Host.shrui,
    StableHlo.TRef.binary φ.v90 φ.v92 φ.v93 ori,
    StableHlo.TRef.binary φ.v88 φ.v93 φ.v94 xori ]
theorem fn_threefry2x32_0.ops1_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops1 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem fn_threefry2x32_0.ops1_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops1 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part1_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part1 (F := F) arg0 arg1 arg2 arg3 φ = seq (fn_threefry2x32_0.ops1 arg0 arg1 arg2 arg3 φ) := by chain_rfl

def fn_threefry2x32_0.ops2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S128 ![] bcast_S_S128),
    StableHlo.TRef.binary φ.v94 φ.v96 φ.v97 Host.shli,
    StableHlo.TRef.nullary φ.c_25 (constantI S_ 32 26#32),
    StableHlo.TRef.unary φ.c_25 φ.v98 (broadcastInDim S128 ![] bcast_S_S128),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S128 ![] bcast_S_S128),
    StableHlo.TRef.binary φ.v95 φ.v102 φ.v103 addi,
    StableHlo.TRef.unary arg1 φ.v104 (broadcastInDim S128 ![] bcast_S_S128),
    StableHlo.TRef.binary φ.v101 φ.v104 φ.v105 addi,
    StableHlo.TRef.nullary φ.c_26 (constantI S_ 32 3#32),
    StableHlo.TRef.unary φ.c_26 φ.v106 (broadcastInDim S128 ![] bcast_S_S128),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S128 ![] bcast_S_S128),
    StableHlo.TRef.binary φ.v107 φ.v109 φ.v110 Host.shli,
    StableHlo.TRef.nullary φ.c_28 (constantI S_ 32 15#32),
    StableHlo.TRef.unary φ.c_28 φ.v111 (broadcastInDim S128 ![] bcast_S_S128),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S128 ![] bcast_S_S128),
    StableHlo.TRef.binary φ.v114 φ.v116 φ.v117 Host.shli,
    StableHlo.TRef.nullary φ.c_30 (constantI S_ 32 3#32),
    StableHlo.TRef.unary φ.c_30 φ.v118 (broadcastInDim S128 ![] bcast_S_S128),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S128 ![] bcast_S_S128),
    StableHlo.TRef.binary φ.v121 φ.v123 φ.v124 Host.shli,
    StableHlo.TRef.nullary φ.c_32 (constantI S_ 32 16#32),
    StableHlo.TRef.unary φ.c_32 φ.v125 (broadcastInDim S128 ![] bcast_S_S128),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S128 ![] bcast_S_S128),
    StableHlo.TRef.binary φ.v128 φ.v130 φ.v131 Host.shli,
    StableHlo.TRef.nullary φ.c_34 (constantI S_ 32 8#32),
    StableHlo.TRef.unary φ.c_34 φ.v132 (broadcastInDim S128 ![] bcast_S_S128),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S128 ![] bcast_S_S128),
    StableHlo.TRef.binary φ.v129 φ.v136 φ.v137 addi,
    StableHlo.TRef.unary φ.v1 φ.v138 (broadcastInDim S128 ![] bcast_S_S128),
    StableHlo.TRef.binary φ.v135 φ.v138 φ.v139 addi,
    StableHlo.TRef.nullary φ.c_35 (constantI S_ 32 4#32),
    StableHlo.TRef.unary φ.c_35 φ.v140 (broadcastInDim S128 ![] bcast_S_S128),
    StableHlo.TRef.binary φ.v139 φ.v140 φ.v141 addi,
    StableHlo.TRef.binary φ.v137 φ.v141 φ.v142 addi ]
theorem fn_threefry2x32_0.ops2_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops2 (F := F) arg0 arg1 arg2 arg3 φ).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem fn_threefry2x32_0.ops2_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops2 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part2_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part2 (F := F) arg0 arg1 arg2 arg3 φ = seq (fn_threefry2x32_0.ops2 arg0 arg1 arg2 arg3 φ) := by chain_rfl

def fn_threefry2x32_0.ops3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_36 (constantI S_ 32 13#32),
    StableHlo.TRef.unary φ.c_36 φ.v143 (broadcastInDim S128 ![] bcast_S_S128),
    StableHlo.TRef.binary φ.v141 φ.v143 φ.v144 Host.shli,
    StableHlo.TRef.nullary φ.c_37 (constantI S_ 32 19#32),
    StableHlo.TRef.unary φ.c_37 φ.v145 (broadcastInDim S128 ![] bcast_S_S128),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S128 ![] bcast_S_S128),
    StableHlo.TRef.binary φ.v148 φ.v150 φ.v151 Host.shli,
    StableHlo.TRef.nullary φ.c_39 (constantI S_ 32 17#32),
    StableHlo.TRef.unary φ.c_39 φ.v152 (broadcastInDim S128 ![] bcast_S_S128),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S128 ![] bcast_S_S128),
    StableHlo.TRef.binary φ.v155 φ.v157 φ.v158 Host.shli,
    StableHlo.TRef.nullary φ.c_41 (constantI S_ 32 6#32),
    StableHlo.TRef.unary φ.c_41 φ.v159 (broadcastInDim S128 ![] bcast_S_S128),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S128 ![] bcast_S_S128),
    StableHlo.TRef.binary φ.v162 φ.v164 φ.v165 Host.shli,
    StableHlo.TRef.nullary φ.c_43 (constantI S_ 32 26#32),
    StableHlo.TRef.unary φ.c_43 φ.v166 (broadcastInDim S128 ![] bcast_S_S128),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S128 ![] bcast_S_S128),
    StableHlo.TRef.binary φ.v163 φ.v170 φ.v171 addi,
    StableHlo.TRef.unary arg0 φ.v172 (broadcastInDim S128 ![] bcast_S_S128),
    StableHlo.TRef.binary φ.v169 φ.v172 φ.v173 addi,
    StableHlo.TRef.nullary φ.c_44 (constantI S_ 32 5#32),
    StableHlo.TRef.unary φ.c_44 φ.v174 (broadcastInDim S128 ![] bcast_S_S128),
    StableHlo.TRef.binary φ.v173 φ.v174 φ.v175 addi ]
theorem fn_threefry2x32_0.ops3_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops3 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem fn_threefry2x32_0.ops3_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops3 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part3_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part3 (F := F) arg0 arg1 arg2 arg3 φ = seq (fn_threefry2x32_0.ops3 arg0 arg1 arg2 arg3 φ) := by chain_rfl

def fn_threefry2x32_0.ops (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  fn_threefry2x32_0.ops0 arg0 arg1 arg2 arg3 φ ++ fn_threefry2x32_0.ops1 arg0 arg1 arg2 arg3 φ ++ fn_threefry2x32_0.ops2 arg0 arg1 arg2 arg3 φ ++ fn_threefry2x32_0.ops3 arg0 arg1 arg2 arg3 φ
theorem fn_threefry2x32_0.body_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body (F := F) arg0 arg1 arg2 arg3 φ = seq (fn_threefry2x32_0.ops arg0 arg1 arg2 arg3 φ) := by
  unfold fn_threefry2x32_0.body fn_threefry2x32_0.ops
  rw [fn_threefry2x32_0.part0_eq, fn_threefry2x32_0.part1_eq, fn_threefry2x32_0.part2_eq, fn_threefry2x32_0.part3_eq]
  simp only [seq_append, bind_assoc]

theorem fn_threefry2x32_0.ops_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops (F := F) arg0 arg1 arg2 arg3 φ).Forall fun op => op.bufs ⊆ tcRefs τ sig := by
  unfold fn_threefry2x32_0.ops
  simp only [List.forall_append, and_assoc]
  exact ⟨fn_threefry2x32_0.ops0_sub arg0 arg1 arg2 arg3 φ, fn_threefry2x32_0.ops1_sub arg0 arg1 arg2 arg3 φ, fn_threefry2x32_0.ops2_sub arg0 arg1 arg2 arg3 φ, fn_threefry2x32_0.ops3_sub arg0 arg1 arg2 arg3 φ⟩
theorem fn_threefry2x32_0.ops_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops (F := F) arg0 arg1 arg2 arg3 φ).Forall fun op => op.fresh = ∅ := by
  unfold fn_threefry2x32_0.ops
  simp only [List.forall_append, and_assoc]
  exact ⟨fn_threefry2x32_0.ops0_fresh arg0 arg1 arg2 arg3 φ, fn_threefry2x32_0.ops1_fresh arg0 arg1 arg2 arg3 φ, fn_threefry2x32_0.ops2_fresh arg0 arg1 arg2 arg3 φ, fn_threefry2x32_0.ops3_fresh arg0 arg1 arg2 arg3 φ⟩

def fn_threefry_split.seg0 (arg0 : StableHlo.TRef sig ⟨S2, .i32⟩) (φ : fn_threefry_split.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]
theorem fn_threefry_split.seg0_sub (arg0 : StableHlo.TRef sig ⟨S2, .i32⟩) (φ : fn_threefry_split.Bufs) : (fn_threefry_split.seg0 (F := F) arg0 φ).Forall fun op => op.bufs ⊆ tcRefs τ sig :=
  ⟨unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩
theorem fn_threefry_split.seg0_fresh (arg0 : StableHlo.TRef sig ⟨S2, .i32⟩) (φ : fn_threefry_split.Bufs) : (fn_threefry_split.seg0 (F := F) arg0 φ).Forall fun op => op.fresh = ∅ :=
  ⟨rfl, rfl, rfl, rfl, rfl, rfl, rfl, rfl, rfl, rfl, rfl, rfl, rfl⟩

def fn_threefry_split.seg1 (arg0 : StableHlo.TRef sig ⟨S2, .i32⟩) (φ : fn_threefry_split.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]
theorem fn_threefry_split.seg1_sub (arg0 : StableHlo.TRef sig ⟨S2, .i32⟩) (φ : fn_threefry_split.Bufs) : (fn_threefry_split.seg1 (F := F) arg0 φ).Forall fun op => op.bufs ⊆ tcRefs τ sig :=
  ⟨unary_bufs_sub .., unary_bufs_sub .., binary_bufs_sub ..⟩
theorem fn_threefry_split.seg1_fresh (arg0 : StableHlo.TRef sig ⟨S2, .i32⟩) (φ : fn_threefry_split.Bufs) : (fn_threefry_split.seg1 (F := F) arg0 φ).Forall fun op => op.fresh = ∅ :=
  ⟨rfl, rfl, rfl⟩

theorem fn_threefry_split.chain_eq (arg0 : StableHlo.TRef sig ⟨S2, .i32⟩) (φ : fn_threefry_split.Bufs) : fn_threefry_split.body (F := F) arg0 φ = Pipeline.chain [seq (fn_threefry_split.seg0 arg0 φ), fn_threefry2x32.body φ.v1 φ.v3 φ.v10 φ.v9 φ.call0, seq (fn_threefry_split.seg1 arg0 φ)] := by chain_rfl

def fn_threefry_split.ops (arg0 : StableHlo.TRef sig ⟨S2, .i32⟩) (φ : fn_threefry_split.Bufs) : List (HloOp τ sig (Elt F)) :=
  fn_threefry_split.seg0 arg0 φ ++ fn_threefry2x32.ops φ.v1 φ.v3 φ.v10 φ.v9 φ.call0 ++ fn_threefry_split.seg1 arg0 φ
theorem fn_threefry_split.body_eq (arg0 : StableHlo.TRef sig ⟨S2, .i32⟩) (φ : fn_threefry_split.Bufs) : fn_threefry_split.body (F := F) arg0 φ = seq (fn_threefry_split.ops arg0 φ) := by
  rw [fn_threefry_split.chain_eq]; unfold fn_threefry_split.ops
  simp only [fn_threefry2x32.body_eq, Pipeline.chain_cons, Pipeline.chain_nil, seq_append, bind_assoc, bind_pure_unit]

theorem fn_threefry_split.ops_sub (arg0 : StableHlo.TRef sig ⟨S2, .i32⟩) (φ : fn_threefry_split.Bufs) : (fn_threefry_split.ops (F := F) arg0 φ).Forall fun op => op.bufs ⊆ tcRefs τ sig := by
  unfold fn_threefry_split.ops
  simp only [List.forall_append, and_assoc]
  exact ⟨fn_threefry_split.seg0_sub arg0 φ, fn_threefry2x32.ops_sub φ.v1 φ.v3 φ.v10 φ.v9 φ.call0, fn_threefry_split.seg1_sub arg0 φ⟩
theorem fn_threefry_split.ops_fresh (arg0 : StableHlo.TRef sig ⟨S2, .i32⟩) (φ : fn_threefry_split.Bufs) : (fn_threefry_split.ops (F := F) arg0 φ).Forall fun op => op.fresh = ∅ := by
  unfold fn_threefry_split.ops
  simp only [List.forall_append, and_assoc]
  exact ⟨fn_threefry_split.seg0_fresh arg0 φ, fn_threefry2x32.ops_fresh φ.v1 φ.v3 φ.v10 φ.v9 φ.call0, fn_threefry_split.seg1_fresh arg0 φ⟩

def fn_shuffle.seg0 (arg0 : StableHlo.TRef sig ⟨S2, .i32⟩) (arg1 : StableHlo.TRef sig ⟨S128, .i32⟩) (φ : fn_shuffle.Bufs) : List (HloOp τ sig (Elt F)) :=
  [ StableHlo.TRef.unary φ.call0.v14 φ.v1 (extractStridedSlice S1x2 ![0, 0] · slices_S2x2_S1x2_0_0),
    StableHlo.TRef.reshape φ.v1 φ.v2 rfl shapeCasts_S1x2_S2,
    StableHlo.TRef.unary φ.call0.v14 φ.v3 (extractStridedSlice S1x2 ![1, 0] · slices_S2x2_S1x2_1_0),
    StableHlo.TRef.reshape φ.v3 φ.v4 rfl shapeCasts_S1x2_S2,
    StableHlo.TRef.unary φ.v4 φ.v5 (extractStridedSlice S1 ![0] · slices_S2_S1_0),
    StableHlo.TRef.reshape φ.v5 φ.v6 rfl shapeCasts_S1_S_,
    StableHlo.TRef.unary φ.v4 φ.v7 (extractStridedSlice S1 ![1] · slices_S2_S1_1),
    StableHlo.TRef.reshape φ.v7 φ.v8 rfl shapeCasts_S1_S_,
    StableHlo.TRef.nullary φ.v9 (iotaInDim S128 64 0),
    StableHlo.TRef.nullary φ.c (constantI S_ 64 1#64),
    StableHlo.TRef.unary φ.c φ.v10 (broadcastInDim S128 ![] bcast_S_S128),
    StableHlo.TRef.binary φ.v10 φ.v9 φ.v11 muli,
    StableHlo.TRef.nullary φ.c_0 (constantI S_ 64 32#64),
    StableHlo.TRef.unary φ.c_0 φ.v12 (broadcastInDim S128 ![] bcast_S_S128),
    StableHlo.TRef.binary φ.v11 φ.v12 φ.v13 Host.shrui,
    StableHlo.TRef.unary φ.v11 φ.v14 (trunci 32 · natLt_32_64),
    StableHlo.TRef.unary φ.v13 φ.v15 (trunci 32 · natLt_32_64) ]
theorem fn_shuffle.seg0_sub (arg0 : StableHlo.TRef sig ⟨S2, .i32⟩) (arg1 : StableHlo.TRef sig ⟨S128, .i32⟩) (φ : fn_shuffle.Bufs) : (fn_shuffle.seg0 (F := F) arg0 arg1 φ).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩
theorem fn_shuffle.seg0_fresh (arg0 : StableHlo.TRef sig ⟨S2, .i32⟩) (arg1 : StableHlo.TRef sig ⟨S128, .i32⟩) (φ : fn_shuffle.Bufs) : (fn_shuffle.seg0 (F := F) arg0 arg1 φ).Forall fun op => op.fresh = ∅ :=
  ⟨rfl, rfl, rfl, rfl, rfl, rfl, rfl, rfl, rfl, rfl, rfl, rfl, rfl, rfl, rfl, rfl, rfl⟩

def fn_shuffle.seg1 (arg0 : StableHlo.TRef sig ⟨S2, .i32⟩) (arg1 : StableHlo.TRef sig ⟨S128, .i32⟩) (φ : fn_shuffle.Bufs) : List (HloOp τ sig (Elt F)) :=
  [ StableHlo.TRef.binary φ.call1.v171 φ.call1.v175 φ.v17 xori,
    StableHlo.TRef.binary φ.v17 arg1 φ.v18_0 (fun x y => (Host.sort2 S128 0 comparator_i32_i32_d0 x y).1),
    StableHlo.TRef.binary φ.v17 arg1 φ.v18_1 (fun x y => (Host.sort2 S128 0 comparator_i32_i32_d0 x y).2) ]
theorem fn_shuffle.seg1_sub (arg0 : StableHlo.TRef sig ⟨S2, .i32⟩) (arg1 : StableHlo.TRef sig ⟨S128, .i32⟩) (φ : fn_shuffle.Bufs) : (fn_shuffle.seg1 (F := F) arg0 arg1 φ).Forall fun op => op.bufs ⊆ tcRefs τ sig :=
  ⟨binary_bufs_sub .., binary_bufs_sub .., binary_bufs_sub ..⟩
theorem fn_shuffle.seg1_fresh (arg0 : StableHlo.TRef sig ⟨S2, .i32⟩) (arg1 : StableHlo.TRef sig ⟨S128, .i32⟩) (φ : fn_shuffle.Bufs) : (fn_shuffle.seg1 (F := F) arg0 arg1 φ).Forall fun op => op.fresh = ∅ :=
  ⟨rfl, rfl, rfl⟩

theorem fn_shuffle.chain_eq (arg0 : StableHlo.TRef sig ⟨S2, .i32⟩) (arg1 : StableHlo.TRef sig ⟨S128, .i32⟩) (φ : fn_shuffle.Bufs) : fn_shuffle.body (F := F) arg0 arg1 φ = Pipeline.chain [fn_threefry_split.body arg0 φ.call0, seq (fn_shuffle.seg0 arg0 arg1 φ), fn_threefry2x32_0.body φ.v6 φ.v8 φ.v15 φ.v14 φ.call1, seq (fn_shuffle.seg1 arg0 arg1 φ)] := by chain_rfl

def fn_shuffle.ops (arg0 : StableHlo.TRef sig ⟨S2, .i32⟩) (arg1 : StableHlo.TRef sig ⟨S128, .i32⟩) (φ : fn_shuffle.Bufs) : List (HloOp τ sig (Elt F)) :=
  fn_threefry_split.ops arg0 φ.call0 ++ fn_shuffle.seg0 arg0 arg1 φ ++ fn_threefry2x32_0.ops φ.v6 φ.v8 φ.v15 φ.v14 φ.call1 ++ fn_shuffle.seg1 arg0 arg1 φ
theorem fn_shuffle.body_eq (arg0 : StableHlo.TRef sig ⟨S2, .i32⟩) (arg1 : StableHlo.TRef sig ⟨S128, .i32⟩) (φ : fn_shuffle.Bufs) : fn_shuffle.body (F := F) arg0 arg1 φ = seq (fn_shuffle.ops arg0 arg1 φ) := by
  rw [fn_shuffle.chain_eq]; unfold fn_shuffle.ops
  simp only [fn_threefry_split.body_eq, fn_threefry2x32_0.body_eq, Pipeline.chain_cons, Pipeline.chain_nil, seq_append, bind_assoc, bind_pure_unit]

theorem fn_shuffle.ops_sub (arg0 : StableHlo.TRef sig ⟨S2, .i32⟩) (arg1 : StableHlo.TRef sig ⟨S128, .i32⟩) (φ : fn_shuffle.Bufs) : (fn_shuffle.ops (F := F) arg0 arg1 φ).Forall fun op => op.bufs ⊆ tcRefs τ sig := by
  unfold fn_shuffle.ops
  simp only [List.forall_append, and_assoc]
  exact ⟨fn_threefry_split.ops_sub arg0 φ.call0, fn_shuffle.seg0_sub arg0 arg1 φ, fn_threefry2x32_0.ops_sub φ.v6 φ.v8 φ.v15 φ.v14 φ.call1, fn_shuffle.seg1_sub arg0 arg1 φ⟩
theorem fn_shuffle.ops_fresh (arg0 : StableHlo.TRef sig ⟨S2, .i32⟩) (arg1 : StableHlo.TRef sig ⟨S128, .i32⟩) (φ : fn_shuffle.Bufs) : (fn_shuffle.ops (F := F) arg0 arg1 φ).Forall fun op => op.fresh = ∅ := by
  unfold fn_shuffle.ops
  simp only [List.forall_append, and_assoc]
  exact ⟨fn_threefry_split.ops_fresh arg0 φ.call0, fn_shuffle.seg0_fresh arg0 arg1 φ, fn_threefry2x32_0.ops_fresh φ.v6 φ.v8 φ.v15 φ.v14 φ.call1, fn_shuffle.seg1_fresh arg0 arg1 φ⟩

def fn_argsort.seg0 (arg0 : StableHlo.TRef sig ⟨S128, .i32⟩) (φ : fn_argsort.Bufs) : List (HloOp τ sig (Elt F)) :=
  [ StableHlo.TRef.nullary φ.v0 (iotaInDim S128 32 0),
    StableHlo.TRef.binary arg0 φ.v0 φ.v1_0 (fun x y => (Host.sort2 S128 0 comparator_i32_i32_d0_2 x y).1),
    StableHlo.TRef.binary arg0 φ.v0 φ.v1_1 (fun x y => (Host.sort2 S128 0 comparator_i32_i32_d0_2 x y).2) ]
theorem fn_argsort.seg0_sub (arg0 : StableHlo.TRef sig ⟨S128, .i32⟩) (φ : fn_argsort.Bufs) : (fn_argsort.seg0 (F := F) arg0 φ).Forall fun op => op.bufs ⊆ tcRefs τ sig :=
  ⟨nullary_bufs_sub .., binary_bufs_sub .., binary_bufs_sub ..⟩
theorem fn_argsort.seg0_fresh (arg0 : StableHlo.TRef sig ⟨S128, .i32⟩) (φ : fn_argsort.Bufs) : (fn_argsort.seg0 (F := F) arg0 φ).Forall fun op => op.fresh = ∅ :=
  ⟨rfl, rfl, rfl⟩

theorem fn_argsort.chain_eq (arg0 : StableHlo.TRef sig ⟨S128, .i32⟩) (φ : fn_argsort.Bufs) : fn_argsort.body (F := F) arg0 φ = Pipeline.chain [seq (fn_argsort.seg0 arg0 φ)] := by chain_rfl

def fn_argsort.ops (arg0 : StableHlo.TRef sig ⟨S128, .i32⟩) (φ : fn_argsort.Bufs) : List (HloOp τ sig (Elt F)) :=
  fn_argsort.seg0 arg0 φ
theorem fn_argsort.body_eq (arg0 : StableHlo.TRef sig ⟨S128, .i32⟩) (φ : fn_argsort.Bufs) : fn_argsort.body (F := F) arg0 φ = seq (fn_argsort.ops arg0 φ) := by
  rw [fn_argsort.chain_eq]; unfold fn_argsort.ops
  simp only [Pipeline.chain_cons, Pipeline.chain_nil, seq_append, bind_assoc, bind_pure_unit]

theorem fn_argsort.ops_sub (arg0 : StableHlo.TRef sig ⟨S128, .i32⟩) (φ : fn_argsort.Bufs) : (fn_argsort.ops (F := F) arg0 φ).Forall fun op => op.bufs ⊆ tcRefs τ sig := by
  unfold fn_argsort.ops
  exact fn_argsort.seg0_sub arg0 φ
theorem fn_argsort.ops_fresh (arg0 : StableHlo.TRef sig ⟨S128, .i32⟩) (φ : fn_argsort.Bufs) : (fn_argsort.ops (F := F) arg0 φ).Forall fun op => op.fresh = ∅ := by
  unfold fn_argsort.ops
  exact fn_argsort.seg0_fresh arg0 φ

def mainOps0  : List (HloOp τ sig (Elt F)) :=
  [ StableHlo.nullary main_c (constantI S_ 32 1#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v7 (iotaInDim S128 32 0) ]
theorem mainOps0_sub  : (mainOps0 (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub ..⟩
theorem mainOps0_fresh  : (mainOps0 (F := F)).Forall fun op => op.fresh = ∅ :=
  ⟨rfl, rfl, rfl, rfl, rfl, rfl, rfl, rfl, rfl, rfl, rfl⟩

def mainOps1  : List (HloOp τ sig (Elt F)) :=
  [ StableHlo.nullary main_c_2 (constantI S_ 32 2#32),
    StableHlo.nullary main_c_3 (constantI S_ 32 32#32),
    StableHlo.binary main_c_2 main_c_3 main_v9 (Host.shrui : (⟨S_, .i32⟩ : BufTy).Contents (Elt F) → (⟨S_, .i32⟩ : BufTy).Contents (Elt F) → (⟨S_, .i32⟩ : BufTy).Contents (Elt F)),
    StableHlo.unary main_v9 main_v10 (id : (⟨S_, .i32⟩ : BufTy).Contents (Elt F) → (⟨S_, .i32⟩ : BufTy).Contents (Elt F)),
    StableHlo.unary main_v10 main_v11 (broadcastInDim S1 ![] bcast_S_S1 : (⟨S_, .i32⟩ : BufTy).Contents (Elt F) → (⟨S1, .i32⟩ : BufTy).Contents (Elt F)),
    StableHlo.nullary main_c_4 (constantI S_ 32 4294967295#32),
    StableHlo.binary main_c_2 main_c_4 main_v12 (andi : (⟨S_, .i32⟩ : BufTy).Contents (Elt F) → (⟨S_, .i32⟩ : BufTy).Contents (Elt F) → (⟨S_, .i32⟩ : BufTy).Contents (Elt F)),
    StableHlo.unary main_v12 main_v13 (id : (⟨S_, .i32⟩ : BufTy).Contents (Elt F) → (⟨S_, .i32⟩ : BufTy).Contents (Elt F)),
    StableHlo.unary main_v13 main_v14 (broadcastInDim S1 ![] bcast_S_S1 : (⟨S_, .i32⟩ : BufTy).Contents (Elt F) → (⟨S1, .i32⟩ : BufTy).Contents (Elt F)),
    StableHlo.binary main_v11 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v16 (iotaInDim S128 32 0) ]
theorem mainOps1_sub  : (mainOps1 (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub ..⟩
theorem mainOps1_fresh  : (mainOps1 (F := F)).Forall fun op => op.fresh = ∅ :=
  ⟨rfl, rfl, rfl, rfl, rfl, rfl, rfl, rfl, rfl, rfl, rfl⟩

def mainOps2  : List (HloOp τ sig (Elt F)) :=
  [ StableHlo.unary main_arg5 main_v18 ((extractStridedSlice S128x128 ![0, 0] · slices_S384x128_S128x128_0_0) : (⟨S384x128, .f32⟩ : BufTy).Contents (Elt F) → (⟨S128x128, .f32⟩ : BufTy).Contents (Elt F)),
    StableHlo.unary main_arg5 main_v19 ((extractStridedSlice S128x128 ![128, 0] · slices_S384x128_S128x128_128_0) : (⟨S384x128, .f32⟩ : BufTy).Contents (Elt F) → (⟨S128x128, .f32⟩ : BufTy).Contents (Elt F)) ]
theorem mainOps2_sub  : (mainOps2 (F := F)).Forall fun op => op.bufs ⊆ tcRefs τ sig :=
  ⟨unary_bufs_sub .., unary_bufs_sub ..⟩
theorem mainOps2_fresh  : (mainOps2 (F := F)).Forall fun op => op.fresh = ∅ :=
  ⟨rfl, rfl⟩

def mainOps3  : List (HloOp τ sig (Elt F)) :=
  [ StableHlo.nullary main_c_5 (constantI S_ 32 0#32),
    StableHlo.unary main_c_5 main_v21 (broadcastInDim S128 ![] bcast_S_S128 : (⟨S_, .i32⟩ : BufTy).Contents (Elt F) → (⟨S128, .i32⟩ : BufTy).Contents (Elt F)),
    StableHlo.binary main_v20 main_v21 main_v22 (cmpi .slt : (⟨S128, .i32⟩ : BufTy).Contents (Elt F) → (⟨S128, .i32⟩ : BufTy).Contents (Elt F) → (⟨S128, .i1⟩ : BufTy).Contents (Elt F)),
    StableHlo.nullary main_c_6 (constantI S_ 32 128#32),
    StableHlo.unary main_c_6 main_v23 (broadcastInDim S128 ![] bcast_S_S128 : (⟨S_, .i32⟩ : BufTy).Contents (Elt F) → (⟨S128, .i32⟩ : BufTy).Contents (Elt F)),
    StableHlo.binary main_v20 main_v23 main_v24 (addi : (⟨S128, .i32⟩ : BufTy).Contents (Elt F) → (⟨S128, .i32⟩ : BufTy).Contents (Elt F) → (⟨S128, .i32⟩ : BufTy).Contents (Elt F)),
    StableHlo.ternary main_v22 main_v24 main_v20 main_v25 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v25 main_v26 (broadcastInDim S128x1 ![0] bcast_S128_S128x1_0 : (⟨S128, .i32⟩ : BufTy).Contents (Elt F) → (⟨S128x1, .i32⟩ : BufTy).Contents (Elt F)),
    StableHlo.binary main_v19 main_v26 main_v27 ((fun x i => Host.gather gather_S128x128_S128x1_S128x128_1_0_n_n_0_1_1128 x i) : (⟨S128x128, .f32⟩ : BufTy).Contents (Elt F) → (⟨S128x1, .i32⟩ : BufTy).Contents (Elt F) → (⟨S128x128, .f32⟩ : BufTy).Contents (Elt F)),
    StableHlo.unary main_arg5 main_v28 ((extractStridedSlice S128x128 ![256, 0] · slices_S384x128_S128x128_256_0) : (⟨S384x128, .f32⟩ : BufTy).Contents (Elt F) → (⟨S128x128, .f32⟩ : BufTy).Contents (Elt F)) ]
theorem mainOps3_sub  : (mainOps3 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub ..⟩
theorem mainOps3_fresh  : (mainOps3 (F := F)).Forall fun op => op.fresh = ∅ :=
  ⟨rfl, rfl, rfl, rfl, rfl, rfl, rfl, rfl, rfl, rfl⟩

def mainOps4  : List (HloOp τ sig (Elt F)) :=
  [ StableHlo.nullary main_c_7 (constantI S_ 32 0#32),
    StableHlo.unary main_c_7 main_v30 (broadcastInDim S128 ![] bcast_S_S128 : (⟨S_, .i32⟩ : BufTy).Contents (Elt F) → (⟨S128, .i32⟩ : BufTy).Contents (Elt F)),
    StableHlo.binary main_v29 main_v30 main_v31 (cmpi .slt : (⟨S128, .i32⟩ : BufTy).Contents (Elt F) → (⟨S128, .i32⟩ : BufTy).Contents (Elt F) → (⟨S128, .i1⟩ : BufTy).Contents (Elt F)),
    StableHlo.nullary main_c_8 (constantI S_ 32 128#32),
    StableHlo.unary main_c_8 main_v32 (broadcastInDim S128 ![] bcast_S_S128 : (⟨S_, .i32⟩ : BufTy).Contents (Elt F) → (⟨S128, .i32⟩ : BufTy).Contents (Elt F)),
    StableHlo.binary main_v29 main_v32 main_v33 (addi : (⟨S128, .i32⟩ : BufTy).Contents (Elt F) → (⟨S128, .i32⟩ : BufTy).Contents (Elt F) → (⟨S128, .i32⟩ : BufTy).Contents (Elt F)),
    StableHlo.ternary main_v31 main_v33 main_v29 main_v34 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v34 main_v35 (broadcastInDim S128x1 ![0] bcast_S128_S128x1_0 : (⟨S128, .i32⟩ : BufTy).Contents (Elt F) → (⟨S128x1, .i32⟩ : BufTy).Contents (Elt F)),
    StableHlo.binary main_v28 main_v35 main_v36 ((fun x i => Host.gather gather_S128x128_S128x1_S128x128_1_0_n_n_0_1_1128 x i) : (⟨S128x128, .f32⟩ : BufTy).Contents (Elt F) → (⟨S128x1, .i32⟩ : BufTy).Contents (Elt F) → (⟨S128x128, .f32⟩ : BufTy).Contents (Elt F)),
    StableHlo.nary ![main_v18, main_v27, main_v36] main_v37 (fun u => concatenate S384x128 0 [⟨S128x128, u 0⟩, ⟨S128x128, u 1⟩, ⟨S128x128, u 2⟩] concatenates_S128x128_S128x128_S128x128_S384x128_d0),
    StableHlo.nullary main_c_9 (constantI S_ 32 0#32),
    StableHlo.unary main_c_9 main_v38 (broadcastInDim S102400 ![] bcast_S_S102400 : (⟨S_, .i32⟩ : BufTy).Contents (Elt F) → (⟨S102400, .i32⟩ : BufTy).Contents (Elt F)),
    StableHlo.nullary main_c_10 (constantI S_ 32 0#32),
    StableHlo.unary main_c_10 main_v39 (broadcastInDim S1 ![] bcast_S_S1 : (⟨S_, .i32⟩ : BufTy).Contents (Elt F) → (⟨S1, .i32⟩ : BufTy).Contents (Elt F)),
    StableHlo.ternary main_v38 main_v39 main_arg4 main_v40 ((fun x i u => Host.scatter scatter_S102400_S1_S100000_0_n_0_0 (fun _ b => b) x i u) : (⟨S102400, .i32⟩ : BufTy).Contents (Elt F) → (⟨S1, .i32⟩ : BufTy).Contents (Elt F) → (⟨S100000, .i32⟩ : BufTy).Contents (Elt F) → (⟨S102400, .i32⟩ : BufTy).Contents (Elt F)),
    StableHlo.reshape main_v40 main_v41 rfl shapeCasts_S102400_S800x128,
    StableHlo.unary main_v41 main_v42 ((extractStridedSlice S400x128 ![0, 0] · slices_S800x128_S400x128_0_0) : (⟨S800x128, .i32⟩ : BufTy).Contents (Elt F) → (⟨S400x128, .i32⟩ : BufTy).Contents (Elt F)),
    StableHlo.nullary main_c_11 (constantI S_ 32 0#32),
    StableHlo.unary main_c_11 main_v43 (broadcastInDim S32x18x128 ![] bcast_S_S32x18x128 : (⟨S_, .i32⟩ : BufTy).Contents (Elt F) → (⟨S32x18x128, .i32⟩ : BufTy).Contents (Elt F)),
    StableHlo.unary main_v42 main_v44 ((extractStridedSlice S288x128 ![0, 0] · slices_S400x128_S288x128_0_0) : (⟨S400x128, .i32⟩ : BufTy).Contents (Elt F) → (⟨S288x128, .i32⟩ : BufTy).Contents (Elt F)),
    StableHlo.reshape main_v44 main_v45 rfl shapeCasts_S288x128_S16x18x128,
    StableHlo.nullary main_c_12 (constantI S_ 32 0#32),
    StableHlo.unary main_c_12 main_v46 (broadcastInDim S1 ![] bcast_S_S1 : (⟨S_, .i32⟩ : BufTy).Contents (Elt F) → (⟨S1, .i32⟩ : BufTy).Contents (Elt F)),
    StableHlo.ternary main_v43 main_v46 main_v45 main_v47 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)),
    StableHlo.unary main_v42 main_v48 ((extractStridedSlice S112x128 ![288, 0] · slices_S400x128_S112x128_288_0) : (⟨S400x128, .i32⟩ : BufTy).Contents (Elt F) → (⟨S112x128, .i32⟩ : BufTy).Contents (Elt F)),
    StableHlo.reshape main_v48 main_v49 rfl shapeCasts_S112x128_S16x7x128,
    StableHlo.nullary main_c_13 (constantI S_ 32 16#32),
    StableHlo.unary main_c_13 main_v50 (broadcastInDim S1 ![] bcast_S_S1 : (⟨S_, .i32⟩ : BufTy).Contents (Elt F) → (⟨S1, .i32⟩ : BufTy).Contents (Elt F)),
    StableHlo.nullary main_c_14 (constantI S_ 32 0#32),
    StableHlo.unary main_c_14 main_v51 (broadcastInDim S1 ![] bcast_S_S1 : (⟨S_, .i32⟩ : BufTy).Contents (Elt F) → (⟨S1, .i32⟩ : BufTy).Contents (Elt F)),
    StableHlo.binary main_v50 main_v51 main_v52 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v47 main_v52 main_v49 main_v53 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)),
    StableHlo.unary main_v41 main_v54 ((extractStridedSlice S400x128 ![400, 0] · slices_S800x128_S400x128_400_0) : (⟨S800x128, .i32⟩ : BufTy).Contents (Elt F) → (⟨S400x128, .i32⟩ : BufTy).Contents (Elt F)),
    StableHlo.nullary main_c_15 (constantI S_ 32 0#32),
    StableHlo.unary main_c_15 main_v55 (broadcastInDim S32x18x128 ![] bcast_S_S32x18x128 : (⟨S_, .i32⟩ : BufTy).Contents (Elt F) → (⟨S32x18x128, .i32⟩ : BufTy).Contents (Elt F)),
    StableHlo.unary main_v54 main_v56 ((extractStridedSlice S288x128 ![0, 0] · slices_S400x128_S288x128_0_0) : (⟨S400x128, .i32⟩ : BufTy).Contents (Elt F) → (⟨S288x128, .i32⟩ : BufTy).Contents (Elt F)),
    StableHlo.reshape main_v56 main_v57 rfl shapeCasts_S288x128_S16x18x128,
    StableHlo.nullary main_c_16 (constantI S_ 32 0#32),
    StableHlo.unary main_c_16 main_v58 (broadcastInDim S1 ![] bcast_S_S1 : (⟨S_, .i32⟩ : BufTy).Contents (Elt F) → (⟨S1, .i32⟩ : BufTy).Contents (Elt F)),
    StableHlo.ternary main_v55 main_v58 main_v57 main_v59 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)) ]
theorem mainOps4_sub  : (mainOps4 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nary_bufs_sub .., nullary_bufs_sub .., unary_bufs_sub .., nullary_bufs_sub .., unary_bufs_sub .., ternary_bufs_sub .., reshape_bufs_sub .., unary_bufs_sub .., nullary_bufs_sub .., unary_bufs_sub .., unary_bufs_sub .., reshape_bufs_sub .., nullary_bufs_sub .., unary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., nullary_bufs_sub .., unary_bufs_sub .., unary_bufs_sub .., reshape_bufs_sub .., nullary_bufs_sub .., unary_bufs_sub .., ternary_bufs_sub ..⟩
theorem mainOps4_fresh  : (mainOps4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def mainOps5  : List (HloOp τ sig (Elt F)) :=
  [ StableHlo.unary main_v54 main_v60 ((extractStridedSlice S112x128 ![288, 0] · slices_S400x128_S112x128_288_0) : (⟨S400x128, .i32⟩ : BufTy).Contents (Elt F) → (⟨S112x128, .i32⟩ : BufTy).Contents (Elt F)),
    StableHlo.reshape main_v60 main_v61 rfl shapeCasts_S112x128_S16x7x128,
    StableHlo.nullary main_c_17 (constantI S_ 32 16#32),
    StableHlo.unary main_c_17 main_v62 (broadcastInDim S1 ![] bcast_S_S1 : (⟨S_, .i32⟩ : BufTy).Contents (Elt F) → (⟨S1, .i32⟩ : BufTy).Contents (Elt F)),
    StableHlo.nullary main_c_18 (constantI S_ 32 0#32),
    StableHlo.unary main_c_18 main_v63 (broadcastInDim S1 ![] bcast_S_S1 : (⟨S_, .i32⟩ : BufTy).Contents (Elt F) → (⟨S1, .i32⟩ : BufTy).Contents (Elt F)),
    StableHlo.binary main_v62 main_v63 main_v64 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v59 main_v64 main_v61 main_v65 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)),
    StableHlo.nullary main_c_19 (constantI S_ 32 0#32),
    StableHlo.unary main_c_19 main_v66 (broadcastInDim S102400 ![] bcast_S_S102400 : (⟨S_, .i32⟩ : BufTy).Contents (Elt F) → (⟨S102400, .i32⟩ : BufTy).Contents (Elt F)),
    StableHlo.nullary main_c_20 (constantI S_ 32 0#32),
    StableHlo.unary main_c_20 main_v67 (broadcastInDim S1 ![] bcast_S_S1 : (⟨S_, .i32⟩ : BufTy).Contents (Elt F) → (⟨S1, .i32⟩ : BufTy).Contents (Elt F)),
    StableHlo.ternary main_v66 main_v67 main_arg3 main_v68 ((fun x i u => Host.scatter scatter_S102400_S1_S100000_0_n_0_0 (fun _ b => b) x i u) : (⟨S102400, .i32⟩ : BufTy).Contents (Elt F) → (⟨S1, .i32⟩ : BufTy).Contents (Elt F) → (⟨S100000, .i32⟩ : BufTy).Contents (Elt F) → (⟨S102400, .i32⟩ : BufTy).Contents (Elt F)),
    StableHlo.reshape main_v68 main_v69 rfl shapeCasts_S102400_S800x128,
    StableHlo.unary main_v69 main_v70 ((extractStridedSlice S400x128 ![0, 0] · slices_S800x128_S400x128_0_0) : (⟨S800x128, .i32⟩ : BufTy).Contents (Elt F) → (⟨S400x128, .i32⟩ : BufTy).Contents (Elt F)),
    StableHlo.nullary main_c_21 (constantI S_ 32 0#32),
    StableHlo.unary main_c_21 main_v71 (broadcastInDim S32x18x128 ![] bcast_S_S32x18x128 : (⟨S_, .i32⟩ : BufTy).Contents (Elt F) → (⟨S32x18x128, .i32⟩ : BufTy).Contents (Elt F)),
    StableHlo.unary main_v70 main_v72 ((extractStridedSlice S288x128 ![0, 0] · slices_S400x128_S288x128_0_0) : (⟨S400x128, .i32⟩ : BufTy).Contents (Elt F) → (⟨S288x128, .i32⟩ : BufTy).Contents (Elt F)),
    StableHlo.reshape main_v72 main_v73 rfl shapeCasts_S288x128_S16x18x128,
    StableHlo.nullary main_c_22 (constantI S_ 32 0#32),
    StableHlo.unary main_c_22 main_v74 (broadcastInDim S1 ![] bcast_S_S1 : (⟨S_, .i32⟩ : BufTy).Contents (Elt F) → (⟨S1, .i32⟩ : BufTy).Contents (Elt F)),
    StableHlo.ternary main_v71 main_v74 main_v73 main_v75 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)),
    StableHlo.unary main_v70 main_v76 ((extractStridedSlice S112x128 ![288, 0] · slices_S400x128_S112x128_288_0) : (⟨S400x128, .i32⟩ : BufTy).Contents (Elt F) → (⟨S112x128, .i32⟩ : BufTy).Contents (Elt F)),
    StableHlo.reshape main_v76 main_v77 rfl shapeCasts_S112x128_S16x7x128,
    StableHlo.nullary main_c_23 (constantI S_ 32 16#32),
    StableHlo.unary main_c_23 main_v78 (broadcastInDim S1 ![] bcast_S_S1 : (⟨S_, .i32⟩ : BufTy).Contents (Elt F) → (⟨S1, .i32⟩ : BufTy).Contents (Elt F)),
    StableHlo.nullary main_c_24 (constantI S_ 32 0#32),
    StableHlo.unary main_c_24 main_v79 (broadcastInDim S1 ![] bcast_S_S1 : (⟨S_, .i32⟩ : BufTy).Contents (Elt F) → (⟨S1, .i32⟩ : BufTy).Contents (Elt F)),
    StableHlo.binary main_v78 main_v79 main_v80 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v75 main_v80 main_v77 main_v81 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)),
    StableHlo.unary main_v69 main_v82 ((extractStridedSlice S400x128 ![400, 0] · slices_S800x128_S400x128_400_0) : (⟨S800x128, .i32⟩ : BufTy).Contents (Elt F) → (⟨S400x128, .i32⟩ : BufTy).Contents (Elt F)),
    StableHlo.nullary main_c_25 (constantI S_ 32 0#32),
    StableHlo.unary main_c_25 main_v83 (broadcastInDim S32x18x128 ![] bcast_S_S32x18x128 : (⟨S_, .i32⟩ : BufTy).Contents (Elt F) → (⟨S32x18x128, .i32⟩ : BufTy).Contents (Elt F)),
    StableHlo.unary main_v82 main_v84 ((extractStridedSlice S288x128 ![0, 0] · slices_S400x128_S288x128_0_0) : (⟨S400x128, .i32⟩ : BufTy).Contents (Elt F) → (⟨S288x128, .i32⟩ : BufTy).Contents (Elt F)),
    StableHlo.reshape main_v84 main_v85 rfl shapeCasts_S288x128_S16x18x128,
    StableHlo.nullary main_c_26 (constantI S_ 32 0#32),
    StableHlo.unary main_c_26 main_v86 (broadcastInDim S1 ![] bcast_S_S1 : (⟨S_, .i32⟩ : BufTy).Contents (Elt F) → (⟨S1, .i32⟩ : BufTy).Contents (Elt F)),
    StableHlo.ternary main_v83 main_v86 main_v85 main_v87 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)),
    StableHlo.unary main_v82 main_v88 ((extractStridedSlice S112x128 ![288, 0] · slices_S400x128_S112x128_288_0) : (⟨S400x128, .i32⟩ : BufTy).Contents (Elt F) → (⟨S112x128, .i32⟩ : BufTy).Contents (Elt F)),
    StableHlo.reshape main_v88 main_v89 rfl shapeCasts_S112x128_S16x7x128 ]
theorem mainOps5_sub  : (mainOps5 (F := F)).Forall fun op => op.bufs ⊆ tcRefs τ sig :=
  ⟨unary_bufs_sub .., reshape_bufs_sub .., nullary_bufs_sub .., unary_bufs_sub .., nullary_bufs_sub .., unary_bufs_sub .., binary_bufs_sub .., ternary_bufs_sub .., nullary_bufs_sub .., unary_bufs_sub .., nullary_bufs_sub .., unary_bufs_sub .., ternary_bufs_sub .., reshape_bufs_sub .., unary_bufs_sub .., nullary_bufs_sub .., unary_bufs_sub .., unary_bufs_sub .., reshape_bufs_sub .., nullary_bufs_sub .., unary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., nullary_bufs_sub .., unary_bufs_sub .., unary_bufs_sub .., reshape_bufs_sub .., nullary_bufs_sub .., unary_bufs_sub .., ternary_bufs_sub .., unary_bufs_sub .., reshape_bufs_sub ..⟩
theorem mainOps5_fresh  : (mainOps5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def mainOps6  : List (HloOp τ sig (Elt F)) :=
  [ StableHlo.nullary main_c_27 (constantI S_ 32 16#32),
    StableHlo.unary main_c_27 main_v90 (broadcastInDim S1 ![] bcast_S_S1 : (⟨S_, .i32⟩ : BufTy).Contents (Elt F) → (⟨S1, .i32⟩ : BufTy).Contents (Elt F)),
    StableHlo.nullary main_c_28 (constantI S_ 32 0#32),
    StableHlo.unary main_c_28 main_v91 (broadcastInDim S1 ![] bcast_S_S1 : (⟨S_, .i32⟩ : BufTy).Contents (Elt F) → (⟨S1, .i32⟩ : BufTy).Contents (Elt F)),
    StableHlo.binary main_v90 main_v91 main_v92 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v87 main_v92 main_v89 main_v93 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)) ]
theorem mainOps6_sub  : (mainOps6 (F := F)).Forall fun op => op.bufs ⊆ tcRefs τ sig :=
  ⟨nullary_bufs_sub .., unary_bufs_sub .., nullary_bufs_sub .., unary_bufs_sub .., binary_bufs_sub .., ternary_bufs_sub ..⟩
theorem mainOps6_fresh  : (mainOps6 (F := F)).Forall fun op => op.fresh = ∅ :=
  ⟨rfl, rfl, rfl, rfl, rfl, rfl⟩

def mainOps7  : List (HloOp τ sig (Elt F)) :=
  [ StableHlo.unary main_v96 main_v97 id ]
theorem mainOps7_sub  : (mainOps7 (F := F)).Forall fun op => op.bufs ⊆ tcRefs τ sig :=
  unary_bufs_sub ..
theorem mainOps7_fresh  : (mainOps7 (F := F)).Forall fun op => op.fresh = ∅ :=
  rfl

/-- @main as the chain of its stretches of host operations, its calls, the two SparseCore calls and the two TensorCore regions. -/
theorem main_chain (d : Dev nD) : main (F := F) d = Pipeline.chain [seq (mainOps0),
    fn_shuffle.body (.of main_v6) (.of main_v7) main_call0,
    seq (mainOps1),
    fn_shuffle.body (.of main_v15) (.of main_v16) main_call1,
    seq (mainOps2),
    fn_argsort.body (.of main_v17) main_call2,
    seq (mainOps3),
    fn_argsort.body (.of main_v8) main_call3,
    seq (mainOps4 ++ mainOps5 ++ mainOps6),
    sc.run d 0,
    sc.run d 1,
    Prog.lift (.customCall (SparseCore.inner (Pipeline.entry 0)) ()),
    seq (mainOps7),
    Prog.lift (.customCall (SparseCore.inner (Pipeline.entry 1)) ())] := by chain_rfl

/-- Every host operation @main runs before the first SparseCore call, the called functions' inlined, in order. -/
def hostOps : List (HloOp τ sig (Elt F)) :=
  mainOps0 ++
  fn_shuffle.ops (.of main_v6) (.of main_v7) main_call0 ++
  mainOps1 ++
  fn_shuffle.ops (.of main_v15) (.of main_v16) main_call1 ++
  mainOps2 ++
  fn_argsort.ops (.of main_v17) main_call2 ++
  mainOps3 ++
  fn_argsort.ops (.of main_v8) main_call3 ++
  mainOps4 ++ mainOps5 ++ mainOps6

theorem hostOps_sub  : (hostOps (F := F)).Forall fun op => op.bufs ⊆ tcRefs τ sig := by
  unfold hostOps
  simp only [List.forall_append, and_assoc]
  exact ⟨mainOps0_sub, fn_shuffle.ops_sub (.of main_v6) (.of main_v7) main_call0, mainOps1_sub, fn_shuffle.ops_sub (.of main_v15) (.of main_v16) main_call1, mainOps2_sub, fn_argsort.ops_sub (.of main_v17) main_call2, mainOps3_sub, fn_argsort.ops_sub (.of main_v8) main_call3, mainOps4_sub, mainOps5_sub, mainOps6_sub⟩
theorem hostOps_fresh  : (hostOps (F := F)).Forall fun op => op.fresh = ∅ := by
  unfold hostOps
  simp only [List.forall_append, and_assoc]
  exact ⟨mainOps0_fresh, fn_shuffle.ops_fresh (.of main_v6) (.of main_v7) main_call0, mainOps1_fresh, fn_shuffle.ops_fresh (.of main_v15) (.of main_v16) main_call1, mainOps2_fresh, fn_argsort.ops_fresh (.of main_v17) main_call2, mainOps3_fresh, fn_argsort.ops_fresh (.of main_v8) main_call3, mainOps4_fresh, mainOps5_fresh, mainOps6_fresh⟩

/-- @main: the host operations, then the calls and regions. -/
theorem main_eq (d : Dev nD) : main (F := F) d = (seq hostOps >>= fun _ => Pipeline.chain [sc.run d 0, sc.run d 1, Prog.lift (.customCall (SparseCore.inner (Pipeline.entry 0)) ()), seq (mainOps7), Prog.lift (.customCall (SparseCore.inner (Pipeline.entry 1)) ())]) := by
  rw [main_chain]; unfold hostOps
  simp only [fn_shuffle.body_eq, fn_argsort.body_eq, Pipeline.chain_cons, Pipeline.chain_nil, seq_append, bind_assoc, bind_pure_unit]

end Cert.Kernel.HostOps

end
-- ==== Proof.MainB.lean ====
/-
  @main of the SparseCore program on a device's TensorCore, step by step: first the stretch of host operations.
-/
import proofs.«204681_g65575560675685_cont_9to1_m_144_57_alg».proof.Proof.SetupB
import proofs.«204681_g65575560675685_cont_9to1_m_144_57_alg».proof.Proof.HostOpsB
import Idealize.ShloMosaic.Lib.Pipeline.Frame

noncomputable section

namespace Cert.Kernel.MainTc

open Cert.Kernel Cert.Kernel.Gen Cert.Kernel.Setup Cert.Kernel.HostOps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Name : Type} [DecidableEq Name] {U : Type} [URA U]

local notation "𝕄" => MT nD τ sig (HIx 2) (Elt F) Name U ℕ

set_option backward.isDefEq.respectTransparency.types false in
/-- A stretch of host operations over the TensorCore's unscoped buffers, held at a valuation `W`, runs to its end:
    the buffers end at the operations' results over `W`. -/
theorem host_stretch (d : Dev nD) (ops : List (HloOp τ sig (Elt F))) (hsub : ops.Forall fun op => op.bufs ⊆ StableHlo.tcRefs τ sig)
    (hfresh : ops.Forall fun op => op.fresh = ∅) (W : Valuation τ sig (Elt F)) {β : Type}
    (k : PUnit → Prog (TpuEff nD τ sig (Elt F) (SparseCore.Sig (ΛP (F := F)) 2) .tc) β) {Φ : β → sProp 𝕄} (bd : Option 𝒱.V) :
    iprop(boundary (T d) ∗ (StableHlo.held (T d) (Pipeline.ucRefs τ sig) W : sProp 𝕄))
      ⊢ iprop(((boundary (T d) ∗ (StableHlo.held (T d) (Pipeline.ucRefs τ sig) (StableHlo.after ops W) : sProp 𝕄))
                -∗ wp frame (wpE ((K (F := F)).defs (D (F := F))) 𝒱 (T d) bd) Set.univ (k ⟨⟩) Φ)
        -∗ wp frame (wpE ((K (F := F)).defs (D (F := F))) 𝒱 (T d) bd) Set.univ (StableHlo.seq ops >>= k) Φ) :=
  StableHlo.wp_seq (defs := (K (F := F)).defs (D (F := F))) (𝒱 := 𝒱) (bd := bd) (E := Set.univ) d (Pipeline.ucRefs τ sig) k ops
    (fun op h => Pipeline.sub_ucRefs op (List.forall_iff_forall_mem.mp hsub op h))
    (fun op h => List.forall_iff_forall_mem.mp hfresh op h) W

end Cert.Kernel.MainTc

end
-- ==== Proof.HmainB.lean ====
/-
  @main on a device's TensorCore under the launch theorem: the host operations, the two SparseCore calls, the two
  TensorCore regions.
-/
import proofs.«204681_g65575560675685_cont_9to1_m_144_57_alg».proof.Proof.PayB
import proofs.«204681_g65575560675685_cont_9to1_m_144_57_alg».proof.Proof.MainB

noncomputable section

namespace Cert.Kernel.Launch

open Cert.Kernel Cert.Kernel.Gen Cert.Kernel.Setup Cert.Kernel.HostOps Cert.Kernel.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)
variable (A0 : (d : Dev nD) → Ops0 F d) (A1 : (d : Dev nD) → Ops1 F d)

local notation "𝕄" => MT nD τ sig (HIx 2) (Elt F) ℕ UU ℕ

/-- The TensorCore's buffers as the launch finds them, and after the host operations. -/
abbrev V₀ (d : Dev nD) : Valuation τ sig (Elt F) := StableHlo.launchContents m d
def V₁ (d : Dev nD) : Valuation τ sig (Elt F) := StableHlo.after (hostOps (F := F)) (V₀ m d)

/-- What the launch element leaves each TensorCore for its two regions: their staging cells' ghost state and duty tokens. -/
def G (d : Dev nD) : sProp 𝕄 := bigSep Finset.univ fun p : Fin 2 => iprop(Pipeline.cellsGhost cfgs EP p d ∗ Pipeline.toksInit cfgs EP p d)

/-! ## A call's six operands among the TensorCore's held buffers -/

/-- The six operands of the first call, as device buffers. -/
def six0 : Finset (DevRef τ sig) :=
  {Proc.devRef .tc main_arg1, Proc.devRef .tc main_arg2, Proc.devRef .tc main_v53, Proc.devRef .tc main_v81, Proc.devRef .tc main_v94_0, Proc.devRef .tc main_v94_1}
def six1 : Finset (DevRef τ sig) :=
  {Proc.devRef .tc main_arg1, Proc.devRef .tc main_arg2, Proc.devRef .tc main_v65, Proc.devRef .tc main_v93, Proc.devRef .tc main_v95_0, Proc.devRef .tc main_v95_1}

omit [FloatOps F] in
theorem six0_sub : six0 ⊆ Pipeline.ucRefs τ sig := by
  intro b hb
  simp only [six0, Finset.mem_insert, Finset.mem_singleton] at hb
  rcases hb with rfl | rfl | rfl | rfl | rfl | rfl <;>
    exact Finset.mem_filter.mpr ⟨StableHlo.devRef_mem_tcRefs _, by decide⟩
omit [FloatOps F] in
theorem six1_sub : six1 ⊆ Pipeline.ucRefs τ sig := by
  intro b hb
  simp only [six1, Finset.mem_insert, Finset.mem_singleton] at hb
  rcases hb with rfl | rfl | rfl | rfl | rfl | rfl <;>
    exact Finset.mem_filter.mpr ⟨StableHlo.devRef_mem_tcRefs _, by decide⟩

/-- What the first call finds in its operands when the TensorCore's buffers stand at `W`. -/
def ops0Of (d : Dev nD) (W : Valuation τ sig (Elt F)) : Ops0 F d :=
  ⟨W (Proc.devRef .tc main_arg1), W (Proc.devRef .tc main_arg2), W (Proc.devRef .tc main_v53), W (Proc.devRef .tc main_v81),
    W (Proc.devRef .tc main_v94_0), W (Proc.devRef .tc main_v94_1)⟩
def ops1Of (d : Dev nD) (W : Valuation τ sig (Elt F)) : Ops1 F d :=
  ⟨W (Proc.devRef .tc main_arg1), W (Proc.devRef .tc main_arg2), W (Proc.devRef .tc main_v65), W (Proc.devRef .tc main_v93),
    W (Proc.devRef .tc main_v95_0), W (Proc.devRef .tc main_v95_1)⟩

/-- The six operands of a call at contents `A`, each whole. -/
def sixPts0 (d : Dev nD) (A : Ops0 F d) : sProp 𝕄 :=
  iprop((Cert.Proof.Kernel.ScTile0.tuLoc d ↦{fullShare} A.fu) ∗ (Cert.Proof.Kernel.ScTile0.tiLoc d ↦{fullShare} A.fi)
    ∗ (Cert.Proof.Kernel.ScTile0.iuLoc d ↦{fullShare} A.gu) ∗ (Cert.Proof.Kernel.ScTile0.iiLoc d ↦{fullShare} A.gi)
    ∗ (Cert.Proof.Kernel.ScTile0.ouLoc d ↦{fullShare} A.ou) ∗ (Cert.Proof.Kernel.ScTile0.oiLoc d ↦{fullShare} A.oi))
def sixPts1 (d : Dev nD) (A : Ops1 F d) : sProp 𝕄 :=
  iprop((Cert.Proof.Kernel.ScTile1.tuLoc d ↦{fullShare} A.fu) ∗ (Cert.Proof.Kernel.ScTile1.tiLoc d ↦{fullShare} A.fi)
    ∗ (Cert.Proof.Kernel.ScTile1.iuLoc d ↦{fullShare} A.gu) ∗ (Cert.Proof.Kernel.ScTile1.iiLoc d ↦{fullShare} A.gi)
    ∗ (Cert.Proof.Kernel.ScTile1.ouLoc d ↦{fullShare} A.ou) ∗ (Cert.Proof.Kernel.ScTile1.oiLoc d ↦{fullShare} A.oi))

omit [FloatOps F] in
/-- The held buffers are a call's six operands and the rest. -/
theorem held_take0 (d : Dev nD) (W : Valuation τ sig (Elt F)) :
    (StableHlo.held (T d) (Pipeline.ucRefs τ sig) W : sProp 𝕄)
      = iprop(sixPts0 d (ops0Of d W) ∗ StableHlo.held (T d) (Pipeline.ucRefs τ sig \ six0) W) := by
  rw [StableHlo.held_sub_split (T d) six0_sub W]
  congr 1
  unfold StableHlo.held six0 sixPts0 ops0Of
  rw [SparseCore.bigSep_insert' (by decide), SparseCore.bigSep_insert' (by decide), SparseCore.bigSep_insert' (by decide),
    SparseCore.bigSep_insert' (by decide), SparseCore.bigSep_insert' (by decide), bigSep_singleton]
omit [FloatOps F] in
theorem held_take1 (d : Dev nD) (W : Valuation τ sig (Elt F)) :
    (StableHlo.held (T d) (Pipeline.ucRefs τ sig) W : sProp 𝕄)
      = iprop(sixPts1 d (ops1Of d W) ∗ StableHlo.held (T d) (Pipeline.ucRefs τ sig \ six1) W) := by
  rw [StableHlo.held_sub_split (T d) six1_sub W]
  congr 1
  unfold StableHlo.held six1 sixPts1 ops1Of
  rw [SparseCore.bigSep_insert' (by decide), SparseCore.bigSep_insert' (by decide), SparseCore.bigSep_insert' (by decide),
    SparseCore.bigSep_insert' (by decide), SparseCore.bigSep_insert' (by decide), bigSep_singleton]

/-! ## Putting the operands back, the outputs rewritten -/

/-- The buffers' contents after the first call has rewritten its two outputs. -/
def upd0 (W : Valuation τ sig (Elt F)) (ou' : (Proc.devRef (τ := τ) (sig := sig) .tc main_v94_0).ty.Contents (Elt F))
    (oi' : (Proc.devRef (τ := τ) (sig := sig) .tc main_v94_1).ty.Contents (Elt F)) : Valuation τ sig (Elt F) :=
  Function.update (Function.update W (Proc.devRef .tc main_v94_0) ou') (Proc.devRef .tc main_v94_1) oi'
def upd1 (W : Valuation τ sig (Elt F)) (ou' : (Proc.devRef (τ := τ) (sig := sig) .tc main_v95_0).ty.Contents (Elt F))
    (oi' : (Proc.devRef (τ := τ) (sig := sig) .tc main_v95_1).ty.Contents (Elt F)) : Valuation τ sig (Elt F) :=
  Function.update (Function.update W (Proc.devRef .tc main_v95_0) ou') (Proc.devRef .tc main_v95_1) oi'

omit [FloatOps F] in
theorem upd0_of_ne (W : Valuation τ sig (Elt F)) (ou' oi') (b : DevRef τ sig) (h0 : b ≠ Proc.devRef .tc main_v94_0) (h1 : b ≠ Proc.devRef .tc main_v94_1) :
    upd0 W ou' oi' b = W b := by
  unfold upd0; rw [Function.update_of_ne h1, Function.update_of_ne h0]
omit [FloatOps F] in
theorem upd1_of_ne (W : Valuation τ sig (Elt F)) (ou' oi') (b : DevRef τ sig) (h0 : b ≠ Proc.devRef .tc main_v95_0) (h1 : b ≠ Proc.devRef .tc main_v95_1) :
    upd1 W ou' oi' b = W b := by
  unfold upd1; rw [Function.update_of_ne h1, Function.update_of_ne h0]

omit [FloatOps F] in
/-- The six operands, the outputs at new contents, and the rest are the held buffers at the updated contents. -/
theorem held_put0 (d : Dev nD) (W : Valuation τ sig (Elt F)) (ou' oi') :
    iprop(sixPts0 d { ops0Of d W with ou := ou', oi := oi' } ∗ StableHlo.held (T d) (Pipeline.ucRefs τ sig \ six0) W)
      ⊢ (StableHlo.held (T d) (Pipeline.ucRefs τ sig) (upd0 W ou' oi') : sProp 𝕄) := by
  rw [held_take0 d (upd0 W ou' oi')]
  have h4 : upd0 W ou' oi' (Proc.devRef .tc main_v94_0) = ou' := by unfold upd0; rw [Function.update_of_ne (by decide), Function.update_self]
  have h5 : upd0 W ou' oi' (Proc.devRef .tc main_v94_1) = oi' := by unfold upd0; rw [Function.update_self]
  have e : ops0Of d (upd0 W ou' oi') = { ops0Of d W with ou := ou', oi := oi' } := by
    unfold ops0Of
    rw [upd0_of_ne W ou' oi' (Proc.devRef .tc main_arg1) (by decide) (by decide), upd0_of_ne W ou' oi' (Proc.devRef .tc main_arg2) (by decide) (by decide),
      upd0_of_ne W ou' oi' (Proc.devRef .tc main_v53) (by decide) (by decide), upd0_of_ne W ou' oi' (Proc.devRef .tc main_v81) (by decide) (by decide), h4, h5]
  rw [e, StableHlo.held_congr (T d) (V := upd0 W ou' oi') (V' := W) (fun b hb => upd0_of_ne W ou' oi' b
    (fun h => (Finset.mem_sdiff.mp hb).2 (h ▸ by simp [six0])) (fun h => (Finset.mem_sdiff.mp hb).2 (h ▸ by simp [six0])))]

omit [FloatOps F] in
/-- The six operands, the outputs at new contents, and the rest are the held buffers at the updated contents. -/
theorem held_put1 (d : Dev nD) (W : Valuation τ sig (Elt F)) (ou' oi') :
    iprop(sixPts1 d { ops1Of d W with ou := ou', oi := oi' } ∗ StableHlo.held (T d) (Pipeline.ucRefs τ sig \ six1) W)
      ⊢ (StableHlo.held (T d) (Pipeline.ucRefs τ sig) (upd1 W ou' oi') : sProp 𝕄) := by
  rw [held_take1 d (upd1 W ou' oi')]
  have h4 : upd1 W ou' oi' (Proc.devRef .tc main_v95_0) = ou' := by unfold upd1; rw [Function.update_of_ne (by decide), Function.update_self]
  have h5 : upd1 W ou' oi' (Proc.devRef .tc main_v95_1) = oi' := by unfold upd1; rw [Function.update_self]
  have e : ops1Of d (upd1 W ou' oi') = { ops1Of d W with ou := ou', oi := oi' } := by
    unfold ops1Of
    rw [upd1_of_ne W ou' oi' (Proc.devRef .tc main_arg1) (by decide) (by decide), upd1_of_ne W ou' oi' (Proc.devRef .tc main_arg2) (by decide) (by decide),
      upd1_of_ne W ou' oi' (Proc.devRef .tc main_v65) (by decide) (by decide), upd1_of_ne W ou' oi' (Proc.devRef .tc main_v93) (by decide) (by decide), h4, h5]
  rw [e, StableHlo.held_congr (T d) (V := upd1 W ou' oi') (V' := W) (fun b hb => upd1_of_ne W ou' oi' b
    (fun h => (Finset.mem_sdiff.mp hb).2 (h ▸ by simp [six1])) (fun h => (Finset.mem_sdiff.mp hb).2 (h ▸ by simp [six1])))]

end Cert.Kernel.Launch

end
-- ==== Proof.HmainRunB.lean ====
/-
  @main on a device's TensorCore under the launch theorem: each SparseCore call takes its six operands out of the held
  buffers, deals them to the thirty-two tiles, and puts them back with the two outputs rewritten.
-/
import proofs.«204681_g65575560675685_cont_9to1_m_144_57_alg».proof.Proof.HmainB

noncomputable section

namespace Cert.Kernel.Launch

open Cert.Kernel Cert.Kernel.Gen Cert.Kernel.Setup Cert.Kernel.HostOps Cert.Kernel.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

local notation "𝕄" => MT nD τ sig (HIx 2) (Elt F) ℕ UU ℕ

/-- The shares of the two tables that stay with the TensorCore while a call runs. -/
def rem0 (d : Dev nD) (A : Ops0 F d) : sProp 𝕄 :=
  iprop((Cert.Proof.Kernel.ScTile0.tuLoc d ↦{Transfers.shareDrop fullShare 32} A.fu) ∗ (Cert.Proof.Kernel.ScTile0.tiLoc d ↦{Transfers.shareDrop fullShare 32} A.fi))
def rem1 (d : Dev nD) (A : Ops1 F d) : sProp 𝕄 :=
  iprop((Cert.Proof.Kernel.ScTile1.tuLoc d ↦{Transfers.shareDrop fullShare 32} A.fu) ∗ (Cert.Proof.Kernel.ScTile1.tiLoc d ↦{Transfers.shareDrop fullShare 32} A.fi))

/-- A call's six operands deal out to the thirty-two tiles, a share of each table staying behind, -/
def Split0 (F : FTy → Type) : Prop := ∀ (d : Dev nD) (A : Ops0 F d),
  sixPts0 d A ⊢ iprop(rem0 d A ∗ bigSep Finset.univ fun c : Fin 2 => bigSep Finset.univ fun i : Fin 16 => go0 d A c i)
/-- and come back, the outputs at what the tiles left. -/
def Join0 (F : FTy → Type) : Prop := ∀ (d : Dev nD) (A : Ops0 F d),
  iprop(rem0 d A ∗ bigSep Finset.univ fun c : Fin 2 => bigSep Finset.univ fun i : Fin 16 => td0 d A c i)
    ⊢ iprop(∃ ou' oi', sixPts0 d { A with ou := ou', oi := oi' })
def Split1 (F : FTy → Type) : Prop := ∀ (d : Dev nD) (A : Ops1 F d),
  sixPts1 d A ⊢ iprop(rem1 d A ∗ bigSep Finset.univ fun c : Fin 2 => bigSep Finset.univ fun i : Fin 16 => go1 d A c i)
def Join1 (F : FTy → Type) : Prop := ∀ (d : Dev nD) (A : Ops1 F d),
  iprop(rem1 d A ∗ bigSep Finset.univ fun c : Fin 2 => bigSep Finset.univ fun i : Fin 16 => td1 d A c i)
    ⊢ iprop(∃ ou' oi', sixPts1 d { A with ou := ou', oi := oi' })

omit [FloatOps F] in
theorem st0_eq (d : Dev nD) :
    (bigSep Finset.univ fun c : Fin ((K (F := F)).nCore 0) => (P A0 A1).st 0 d c)
      = bigSep Finset.univ fun c : Fin 2 => bigSep Finset.univ fun i : Fin 16 => go0 d (A0 d) c i := rfl
omit [FloatOps F] in
theorem dn0_eq (d : Dev nD) :
    (bigSep Finset.univ fun c : Fin ((K (F := F)).nCore 0) => (P A0 A1).dn 0 d c)
      = bigSep Finset.univ fun c : Fin 2 => bigSep Finset.univ fun i : Fin 16 => td0 d (A0 d) c i := rfl
omit [FloatOps F] in
theorem st1_eq (d : Dev nD) :
    (bigSep Finset.univ fun c : Fin ((K (F := F)).nCore 1) => (P A0 A1).st 1 d c)
      = bigSep Finset.univ fun c : Fin 2 => bigSep Finset.univ fun i : Fin 16 => go1 d (A1 d) c i := rfl
omit [FloatOps F] in
theorem dn1_eq (d : Dev nD) :
    (bigSep Finset.univ fun c : Fin ((K (F := F)).nCore 1) => (P A0 A1).dn 1 d c)
      = bigSep Finset.univ fun c : Fin 2 => bigSep Finset.univ fun i : Fin 16 => td1 d (A1 d) c i := rfl

set_option maxHeartbeats 1000000 in
/-- The first SparseCore call, from the held buffers at `W` to the held buffers with the two outputs rewritten. -/
theorem call0_step (hs : Split0 F) (hj : Join0 F) (κ : GSem nD τ sig → ℕ) (d : Dev nD) (W : Valuation τ sig (Elt F)) (hA : A0 d = ops0Of d W)
    {Φ : PUnit → sProp 𝕄} :
    iprop((K (F := F)).ctx EH (P A0 A1) κ ∗ (K (F := F)).tcSt EH d 0 ∗ (StableHlo.held (T d) (Pipeline.ucRefs τ sig) W : sProp 𝕄)
        ∗ (∀ ou' oi', ((K (F := F)).tcSt EH d 1 ∗ (StableHlo.held (T d) (Pipeline.ucRefs τ sig) (upd0 W ou' oi') : sProp 𝕄)) -∗ Φ ⟨⟩))
      ⊢ wp frame (wpE ((K (F := F)).defs (D (F := F))) 𝒱 (T d) none) Set.univ ((K (F := F)).run d 0) Φ := by
  iintro ⟨#Hctx, Hst, Hheld, Hk⟩
  ihave H := (Entails.of_eq (held_take0 d W)) $$ Hheld
  icases H with ⟨H6, Hrest⟩
  ihave H := (hs d (ops0Of d W)) $$ H6
  icases H with ⟨Hrem, Hgo⟩
  iapply ((K (F := F)).wp_run (D (F := F)) 𝒱 (EH := EH) (P := P A0 A1) κ d 0) $$ [Hst Hgo Hk Hrem Hrest]
  isplitr; · iexact Hctx
  isplitl [Hst]; · iexact Hst
  isplitl [Hgo]
  · rw [st0_eq, hA]; iexact Hgo
  iintro ⟨Hst, Hdn⟩
  ihave Hdn' := (Entails.of_eq (show (bigSep Finset.univ fun c : Fin ((K (F := F)).nCore 0) => (P A0 A1).dn 0 d c)
      = bigSep Finset.univ fun c : Fin 2 => bigSep Finset.univ fun i : Fin 16 => td0 d (ops0Of d W) c i from by rw [dn0_eq, hA])) $$ Hdn
  ihave H := (hj d (ops0Of d W)) $$ [Hrem Hdn']
  · isplitl [Hrem]; · iexact Hrem
    iexact Hdn'
  icases H with ⟨%ou', %oi', H6⟩
  ispecialize Hk $$ %ou' %oi'
  iapply Hk
  isplitl [Hst]; · iexact Hst
  iapply (held_put0 d W ou' oi')
  isplitl [H6]; · iexact H6
  iexact Hrest

set_option maxHeartbeats 1000000 in
/-- The second SparseCore call, from the held buffers at `W` to the held buffers with the two outputs rewritten. -/
theorem call1_step (hs : Split1 F) (hj : Join1 F) (κ : GSem nD τ sig → ℕ) (d : Dev nD) (W : Valuation τ sig (Elt F)) (hA : A1 d = ops1Of d W)
    {Φ : PUnit → sProp 𝕄} :
    iprop((K (F := F)).ctx EH (P A0 A1) κ ∗ (K (F := F)).tcSt EH d 1 ∗ (StableHlo.held (T d) (Pipeline.ucRefs τ sig) W : sProp 𝕄)
        ∗ (∀ ou' oi', ((K (F := F)).tcSt EH d 2 ∗ (StableHlo.held (T d) (Pipeline.ucRefs τ sig) (upd1 W ou' oi') : sProp 𝕄)) -∗ Φ ⟨⟩))
      ⊢ wp frame (wpE ((K (F := F)).defs (D (F := F))) 𝒱 (T d) none) Set.univ ((K (F := F)).run d 1) Φ := by
  iintro ⟨#Hctx, Hst, Hheld, Hk⟩
  ihave H := (Entails.of_eq (held_take1 d W)) $$ Hheld
  icases H with ⟨H6, Hrest⟩
  ihave H := (hs d (ops1Of d W)) $$ H6
  icases H with ⟨Hrem, Hgo⟩
  iapply ((K (F := F)).wp_run (D (F := F)) 𝒱 (EH := EH) (P := P A0 A1) κ d 1) $$ [Hst Hgo Hk Hrem Hrest]
  isplitr; · iexact Hctx
  isplitl [Hst]; · iexact Hst
  isplitl [Hgo]
  · rw [st1_eq, hA]; iexact Hgo
  iintro ⟨Hst, Hdn⟩
  ihave Hdn' := (Entails.of_eq (show (bigSep Finset.univ fun c : Fin ((K (F := F)).nCore 1) => (P A0 A1).dn 1 d c)
      = bigSep Finset.univ fun c : Fin 2 => bigSep Finset.univ fun i : Fin 16 => td1 d (ops1Of d W) c i from by rw [dn1_eq, hA])) $$ Hdn
  ihave H := (hj d (ops1Of d W)) $$ [Hrem Hdn']
  · isplitl [Hrem]; · iexact Hrem
    iexact Hdn'
  icases H with ⟨%ou', %oi', H6⟩
  ispecialize Hk $$ %ou' %oi'
  iapply Hk
  isplitl [Hst]; · iexact Hst
  iapply (held_put1 d W ou' oi')
  isplitl [H6]; · iexact H6
  iexact Hrest

omit [FloatOps F] in
/-- The first call's rewriting of its outputs leaves the second call's operands as they were. -/
theorem ops1Of_upd0 (d : Dev nD) (W : Valuation τ sig (Elt F)) (ou' oi') : ops1Of d (upd0 W ou' oi') = ops1Of d W := by
  unfold ops1Of
  rw [upd0_of_ne W ou' oi' (Proc.devRef .tc main_arg1) (by decide) (by decide), upd0_of_ne W ou' oi' (Proc.devRef .tc main_arg2) (by decide) (by decide),
    upd0_of_ne W ou' oi' (Proc.devRef .tc main_v65) (by decide) (by decide), upd0_of_ne W ou' oi' (Proc.devRef .tc main_v93) (by decide) (by decide),
    upd0_of_ne W ou' oi' (Proc.devRef .tc main_v95_0) (by decide) (by decide), upd0_of_ne W ou' oi' (Proc.devRef .tc main_v95_1) (by decide) (by decide)]

end Cert.Kernel.Launch

end
-- ==== Proof.LaunchElemB.lean ====
/-
  The launch element of the certificate's ghost state: the handshakes' rounds, the two pipelines' staging cells' rounds,
  the transfers' counters; it funds the handshakes and deals each TensorCore its two regions' ghost state.
-/
import proofs.«204681_g65575560675685_cont_9to1_m_144_57_alg».proof.Proof.PayB
import proofs.«204681_g65575560675685_cont_9to1_m_144_57_alg».proof.Proof.Gen.Kernel.Launch

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

local notation "𝕄" => MT nD τ sig (HIx 2) (Elt F) ℕ UU ℕ

/-- What the launch element leaves each TensorCore for its two regions: each pipeline's staging cells' ghost state and
    duty tokens. -/
def Gp (d : Dev nD) : sProp 𝕄 :=
  iprop((Pipeline.cellsGhost cfgs EP 0 d ∗ Pipeline.toksInit cfgs EP 0 d) ∗ (Pipeline.cellsGhost cfgs EP 1 d ∗ Pipeline.toksInit cfgs EP 1 d))

def u₀ : UU :=
  (initOf (K (F := F)).hsCells (K (F := F)).hsToks, (initOf (Pipeline.cells cfgs cellOf_inj) (Pipeline.launchToks cfgs cellOf_inj), 1))

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem bigSep_emp' {I : Type} (s : Finset I) : (bigSep s fun _ => iprop(emp)) = (iprop(emp) : sProp 𝕄) := bigSep_emp_const s

omit [FloatOps F] in
theorem deal_one (c : Dev nD) :
    iprop(((Pipeline.cellsGhost cfgs EP 0 c : sProp 𝕄) ∗ Pipeline.cellsGhost cfgs EP 1 c) ∗ (Pipeline.toksInit cfgs EP 0 c ∗ Pipeline.toksInit cfgs EP 1 c))
      ⊢ (Gp (F := F) c) := by
  unfold Gp
  iintro ⟨⟨G0, G1⟩, ⟨T0, T1⟩⟩
  isplitl [G0 T0]
  · isplitl [G0] <;> iassumption
  · isplitl [G1] <;> iassumption

omit [FloatOps F] in
theorem deal_regions :
    iprop((bigSep Finset.univ fun c : Dev nD => bigSep Finset.univ fun p : Fin 2 => (Pipeline.cellsGhost cfgs EP p c : sProp 𝕄))
        ∗ (bigSep Finset.univ fun c : Dev nD => bigSep Finset.univ fun p : Fin 2 => (Pipeline.toksInit cfgs EP p c : sProp 𝕄)))
      ⊢ bigSep Finset.univ fun c : Dev nD => (Gp (F := F) c) := by
  rw [← bigSep_sep']
  refine bigSep_mono fun c _ => ?_
  rw [bigSep_fin2, bigSep_fin2]
  exact deal_one c

theorem hu₀ : iprop(ownU (u₀ (F := F)) ∗ (P A0 A1).oxCred ∗ (K (F := F)).freeSems0)
    ⊢ |={Set.univ}=> iprop(BI.own (EH (initOf (K (F := F)).hsCells (K (F := F)).hsToks)) ∗ (bigSep Finset.univ fun d : Dev nD => (Gp (F := F) d))
        ∗ bigSep Finset.univ fun thr : Thread nD τ => bigSep Finset.univ fun q : Fin 2 => (P A0 A1).x q thr) := by
  unfold u₀
  iintro ⟨Hu, -, -⟩
  ihave H := (ownU_pair (initOf (K (F := F)).hsCells (K (F := F)).hsToks)
    ((initOf (Pipeline.cells cfgs cellOf_inj) (Pipeline.launchToks cfgs cellOf_inj), (1 : Counters)) : UPp × Counters)) $$ Hu
  icases H with ⟨HH, HR⟩
  ihave H := (own_pair_emb (embR : Emb (UPp × Counters) 𝕄) (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · iapply deal_regions
    isplitl [Hg] <;> iassumption
  · rw [show (bigSep Finset.univ fun thr : Thread nD τ => bigSep Finset.univ fun q : Fin 2 => (P (F := F) A0 A1).x q thr) = bigSep Finset.univ fun _ => iprop(emp) from
      bigSep_congr fun _ _ => bigSep_emp' _, bigSep_emp']
    iempintro

end Cert.Kernel.Launch

end
-- ==== Proof.HmainTopB.lean ====
/-
  @main on a device's TensorCore under the launch theorem, whole: the host operations, the two SparseCore calls, the
  first TensorCore region, the copy of its result into the second region's output, the second region.
-/
import proofs.«204681_g65575560675685_cont_9to1_m_144_57_alg».proof.Proof.HmainRunB
import proofs.«204681_g65575560675685_cont_9to1_m_144_57_alg».proof.Proof.LaunchElemB

noncomputable section

namespace Cert.Kernel.Launch

open Cert.Kernel Cert.Kernel.Gen Cert.Kernel.Setup Cert.Kernel.HostOps Cert.Kernel.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig (HIx 2) (Elt F) ℕ UU ℕ

/-- A TensorCore region as a step of @main: from the region boundary, its pipeline's ghost state, the held buffers at
    `W` and the core owing nothing, it runs to the boundary, the held buffers at the region's exit contents `ex d W`, and
    the core owing nothing, its new recorded waits at no call's index. -/
def RegionStep (p : Fin 2) (ex : Dev nD → Waits sig (HIx 2) → Valuation τ sig (Elt F) → Valuation τ sig (Elt F)) : Prop :=
  ∀ (d : Dev nD) (W : Valuation τ sig (Elt F)) (Wt : Waits sig (HIx 2)) {β : Type}
    (k : PUnit → Prog (TpuEff nD τ sig (Elt F) (SparseCore.Sig (ΛP (F := F)) 2) .tc) β) (Φ : β → sProp 𝕄),
    iprop(levAts (K (F := F)).L (K (F := F)).lev ∗ boundary (T d) ∗ (Pipeline.cellsGhost cfgs EP p d ∗ Pipeline.toksInit cfgs EP p d)
        ∗ (StableHlo.held (T d) (Pipeline.ucRefs τ sig) W : sProp 𝕄) ∗ owes (T d) 0 Wt
        ∗ (∀ Wt', ⌜∀ p ∈ Wt', p ∈ Wt ∨ p.2 = none⌝
            -∗ (boundary (T d) ∗ (StableHlo.held (T d) (Pipeline.ucRefs τ sig) (ex d Wt W) : sProp 𝕄) ∗ owes (T d) 0 Wt')
            -∗ wp frame (wpE ((K (F := F)).defs (D (F := F))) 𝒱 (T d) none) Set.univ (k ⟨⟩) Φ))
      ⊢ wp frame (wpE ((K (F := F)).defs (D (F := F))) 𝒱 (T d) none) Set.univ (Prog.lift (.customCall (SparseCore.inner (Pipeline.entry p)) ()) >>= k) Φ

/-- The six argument arrays, as device buffers. -/
def argRefs : Finset (DevRef τ sig) :=
  {Proc.devRef .tc main_arg0, Proc.devRef .tc main_arg1, Proc.devRef .tc main_arg2, Proc.devRef .tc main_arg3, Proc.devRef .tc main_arg4, Proc.devRef .tc main_arg5}

/-- What @main leaves: the TensorCore's buffers held at contents that agree with the launch's on the argument arrays. -/
def FIN (d : Dev nD) : sProp 𝕄 :=
  iprop(∃ Vf : Valuation τ sig (Elt F), ⌜∀ b ∈ argRefs, Vf b = V₀ m d b⌝ ∗ StableHlo.held (T d) (Pipeline.ucRefs τ sig) Vf)

/-- The copy of the first region's result into the second region's output leaves every other buffer alone. -/
theorem after_copy_ne (W : Valuation τ sig (Elt F)) (b : DevRef τ sig) (h : b ≠ Proc.devRef .tc main_v97) :
    StableHlo.after (mainOps7 (F := F)) W b = W b := by
  unfold mainOps7
  rw [StableHlo.after_cons, StableHlo.after_nil]
  exact HloOp.result_of_not_mem _ _ (by rw [StableHlo.unary_writes, Finset.mem_singleton]; exact h)

omit [FloatOps F] in
/-- No argument array is an output of a call or of a region. -/
theorem argRefs_ne (b : DevRef τ sig) (hb : b ∈ argRefs) :
    b ≠ Proc.devRef .tc main_v96 ∧ b ≠ Proc.devRef .tc main_v97 ∧ b ≠ Proc.devRef .tc main_v94_0 ∧ b ≠ Proc.devRef .tc main_v94_1
      ∧ b ≠ Proc.devRef .tc main_v95_0 ∧ b ≠ Proc.devRef .tc main_v95_1 := by
  simp only [argRefs, Finset.mem_insert, Finset.mem_singleton] at hb
  rcases hb with rfl | rfl | rfl | rfl | rfl | rfl <;> decide

abbrev A0 (d : Dev nD) : Ops0 F d := ops0Of d (V₁ m d)
abbrev A1 (d : Dev nD) : Ops1 F d := ops1Of d (V₁ m d)

set_option maxHeartbeats 4000000 in
theorem hmain (hs0 : Split0 F) (hj0 : Join0 F) (hs1 : Split1 F) (hj1 : Join1 F)
    (ex0 ex1 : Dev nD → Waits sig (HIx 2) → Valuation τ sig (Elt F) → Valuation τ sig (Elt F))
    (hr0 : RegionStep (F := F) 0 ex0) (hr1 : RegionStep (F := F) 1 ex1)
    (hex0 : ∀ d Wt W (b : DevRef τ sig), b ≠ Proc.devRef .tc main_v96 → ex0 d Wt W b = W b)
    (hex1 : ∀ d Wt W (b : DevRef τ sig), b ≠ Proc.devRef .tc main_v97 → ex1 d Wt W b = W b)
    (hkeep : ∀ d, ∀ b ∈ argRefs, V₁ m d b = V₀ m d b)
    (κ : GSem nD τ sig → ℕ) (d : Dev nD) :
    iprop((K (F := F)).ctx EH (P (A0 m) (A1 m)) κ ∗ (K (F := F)).tcSt EH d 0 ∗ (K (F := F)).tcRes m ρ d ∗ Gp d)
      ⊢ wp frame (wpE ((K (F := F)).defs (D (F := F))) 𝒱 (T d) none) Set.univ (main d)
          fun _ => iprop((K (F := F)).tcSt EH d 2 ∗ FIN m d) := by
  unfold SparseCore.Cfg.tcRes Gp
  rw [main_eq, Pipeline.unscopedBufs_held d (V₀ m d)]
  iintro ⟨#Hctx, Hst, ⟨Hb, Hbufs, Hsems, Hprng⟩, HG⟩
  iapply (host_stretch (F := F) d hostOps hostOps_sub hostOps_fresh (V₀ m d) _ none) $$ [Hb Hbufs]
  · isplitl [Hb]; · iexact Hb
    iexact Hbufs
  iintro ⟨Hb, Hbufs⟩
  simp only [Pipeline.chain_cons, Pipeline.chain_nil]
  rw [wp_bind]
  iapply (call0_step (A0 m) (A1 m) hs0 hj0 κ d (V₁ m d) rfl) $$ [Hst Hbufs Hb Hsems Hprng HG]
  isplitr; · iexact Hctx
  isplitl [Hst]; · iexact Hst
  isplitl [Hbufs]; · iexact Hbufs
  iintro %ou0 %oi0 ⟨Hst, Hbufs⟩
  rw [wp_bind]
  iapply (call1_step (A0 m) (A1 m) hs1 hj1 κ d (upd0 (V₁ m d) ou0 oi0) (ops1Of_upd0 d (V₁ m d) ou0 oi0).symm) $$ [Hst Hbufs Hb Hsems Hprng HG]
  isplitr; · iexact Hctx
  isplitl [Hst]; · iexact Hst
  isplitl [Hbufs]; · iexact Hbufs
  iintro %ou1 %oi1
  unfold SparseCore.Cfg.tcSt
  rw [(K (F := F)).Otc_end d (le_refl 2)]
  iintro ⟨⟨⟨%Wt, %hWt, HO⟩, Hrest⟩, Hbufs⟩
  icases HG with ⟨HG0, HG1⟩
  ihave #Hlev := ((K (F := F)).ctx_levAts (EH := EH) (P := P (A0 m) (A1 m)) κ) $$ Hctx
  iapply (hr0 d (upd1 (upd0 (V₁ m d) ou0 oi0) ou1 oi1) Wt _ _) $$ [Hb HG0 HG1 Hbufs HO Hrest Hsems Hprng]
  isplitr; · iexact Hlev
  isplitl [Hb]; · iexact Hb
  isplitl [HG0]; · iexact HG0
  isplitl [Hbufs]; · iexact Hbufs
  isplitl [HO]; · iexact HO
  iintro %Wt1 %hWt1 ⟨Hb, Hbufs, HO⟩
  iapply (host_stretch (F := F) d mainOps7 mainOps7_sub mainOps7_fresh _ _ none) $$ [Hb Hbufs]
  · isplitl [Hb]; · iexact Hb
    iexact Hbufs
  iintro ⟨Hb, Hbufs⟩
  iapply (hr1 d _ Wt1 _ _) $$ [Hb HG1 Hbufs HO Hrest Hsems Hprng]
  isplitr; · iexact Hlev
  isplitl [Hb]; · iexact Hb
  isplitl [HG1]; · iexact HG1
  isplitl [Hbufs]; · iexact Hbufs
  isplitl [HO]; · iexact HO
  iintro %Wt2 %hWt2 ⟨Hb, Hbufs, HO⟩
  rw [wp_pure]
  imodintro
  isplitl [HO Hrest]
  · isplitl [HO]
    · iexists Wt2
      isplitr
      · ipureintro
        intro p hp
        rcases hWt2 p hp with h | h
        · rcases hWt1 p h with h' | h'
          · exact hWt p h'
          · rw [h']; exact Nat.zero_le _
        · rw [h]; exact Nat.zero_le _
      · iexact HO
    · iexact Hrest
  · unfold FIN
    iexists _
    isplitr
    swap; · iexact Hbufs
    ipureintro
    intro b hb
    obtain ⟨h96, h97, h940, h941, h950, h951⟩ := argRefs_ne b hb
    rw [hex1 d _ _ b h97, after_copy_ne _ b h97, hex0 d _ _ b h96, upd1_of_ne _ _ _ b h950 h951, upd0_of_ne _ _ _ b h940 h941, hkeep d b hb]

end Cert.Kernel.Launch

end
-- ==== Proof.ScTileStmt0B.lean ====
/-
  The statements of one tile's task of the first gather kernel, one per core: from the tile's resources, its scoped
  storage and what it owes, the body runs to the same resources with the tile's rows of the two outputs rewritten.
-/
import proofs.«204681_g65575560675685_cont_9to1_m_144_57_alg».proof.Proof.ScTileDefs0B
import Idealize.ShloMosaic.Lib.SparseCore.Launch
import Idealize.ShloMosaic.Lib.Transfers

noncomputable section

namespace Cert.Proof.Kernel.ScTile0

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

/-- The body obligation of a tile of core 1 (seven chunks of each output). -/
def TileBody1 (F : FTy → Type) [FloatOps F] (U : Type) [URA U] [CountersIn U] : Prop :=
  ∀ (d : Dev nD) (L : grid0.Coords) (hF : (K (F := F)).Facts) (h2 : k0_cond2 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res1 (U := U) d L h2 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc0_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch9 cc0_scratch10 cc0_scratch11 cc0_scratch12 cc0_scratch13 cc0_scratch14 cc0_scratch15
            cc0_scratch16 cc0_scratch17 cc0_scratch18 cc0_scratch19 cc0_scratch20 cc0_scratch21 cc0_scratch22 cc0_scoped0 cc0_scoped1)
          fun _ => iprop((∃ ou' oi', res1 (U := U) d L h2 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The body obligation of a tile of core 0 (eighteen chunks of each output). -/
def TileBody0 (F : FTy → Type) [FloatOps F] (U : Type) [URA U] [CountersIn U] : Prop :=
  ∀ (d : Dev nD) (L : grid0.Coords) (hF : (K (F := F)).Facts) (h1 : k0_cond1 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res0 (U := U) d L h1 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc0_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch9 cc0_scratch10 cc0_scratch11 cc0_scratch12 cc0_scratch13 cc0_scratch14 cc0_scratch15
            cc0_scratch16 cc0_scratch17 cc0_scratch18 cc0_scratch19 cc0_scratch20 cc0_scratch21 cc0_scratch22 cc0_scoped0 cc0_scoped1)
          fun _ => iprop((∃ ou' oi', res0 (U := U) d L h1 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.Kernel.ScTile0

end
-- ==== Proof.ScTileStmt1B.lean ====
/-
  The statements of one tile's task of the second gather kernel, one per core: from the tile's resources, its scoped
  storage and what it owes, the body runs to the same resources with the tile's rows of the two outputs rewritten.
-/
import proofs.«204681_g65575560675685_cont_9to1_m_144_57_alg».proof.Proof.ScTileDefs1B
import Idealize.ShloMosaic.Lib.SparseCore.Launch
import Idealize.ShloMosaic.Lib.Transfers

noncomputable section

namespace Cert.Proof.Kernel.ScTile1

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

/-- The body obligation of a tile of core 1 (seven chunks of each output). -/
def TileBody1 (F : FTy → Type) [FloatOps F] (U : Type) [URA U] [CountersIn U] : Prop :=
  ∀ (d : Dev nD) (L : grid1.Coords) (hF : (K (F := F)).Facts) (h2 : k1_cond2 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res1 (U := U) d L h2 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc1_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc1_scratch9 cc1_scratch10 cc1_scratch11 cc1_scratch12 cc1_scratch13 cc1_scratch14 cc1_scratch15
            cc1_scratch16 cc1_scratch17 cc1_scratch18 cc1_scratch19 cc1_scratch20 cc1_scratch21 cc1_scratch22 cc1_scoped0 cc1_scoped1)
          fun _ => iprop((∃ ou' oi', res1 (U := U) d L h2 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The body obligation of a tile of core 0 (eighteen chunks of each output). -/
def TileBody0 (F : FTy → Type) [FloatOps F] (U : Type) [URA U] [CountersIn U] : Prop :=
  ∀ (d : Dev nD) (L : grid1.Coords) (hF : (K (F := F)).Facts) (h1 : k1_cond1 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res0 (U := U) d L h1 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc1_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc1_scratch9 cc1_scratch10 cc1_scratch11 cc1_scratch12 cc1_scratch13 cc1_scratch14 cc1_scratch15
            cc1_scratch16 cc1_scratch17 cc1_scratch18 cc1_scratch19 cc1_scratch20 cc1_scratch21 cc1_scratch22 cc1_scoped0 cc1_scoped1)
          fun _ => iprop((∃ ou' oi', res0 (U := U) d L h1 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.Kernel.ScTile1

end
-- ==== Proof.TileOblB.lean ====
/-
  The tiles' obligations of the launch theorem, from one tile's task on each core of each call.
-/
import proofs.«204681_g65575560675685_cont_9to1_m_144_57_alg».proof.Proof.PayB
import proofs.«204681_g65575560675685_cont_9to1_m_144_57_alg».proof.Proof.ScTileStmt0B
import proofs.«204681_g65575560675685_cont_9to1_m_144_57_alg».proof.Proof.ScTileStmt1B
import Idealize.ShloMosaic.Lib.Pipeline.Kit

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

omit [FloatOps F] in
/-- A task's post, with the waits it recorded at its own index allowed at the call's. -/
theorem obl_post {thr : Thread nD τ} {A B C : sProp (MT nD τ sig (HIx 2) (Elt F) ℕ UU ℕ)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts)
    (hb0 : Cert.Proof.Kernel.ScTile0.TileBody0 F UU) (hb1 : Cert.Proof.Kernel.ScTile0.TileBody1 F UU)
    (hpre : ∀ d, Cert.Proof.Kernel.ScTile0.PreOK d (A0 d).gu (A0 d).gi) :
    (K (F := F)).TileObl (D (F := F)) 𝒱 (P A0 A1) v₀ 0 := by
  intro d c i O W hO _ _
  simp only [show (P A0 A1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  by_cases h : (Fin.cast (nCore_eq (F := F) 0) c).val = 0
  · have e : (P A0 A1).go 0 d c i = Cert.Proof.Kernel.ScTile0.res0 d (pt0 (Fin.cast (nCore_eq (F := F) 0) c) (Fin.cast (nSub_eq (F := F) 0) i)) (cond1_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi (A0 d).ou (A0 d).oi := by
      show go0 d (A0 d) _ _ = _
      unfold go0; rw [dif_pos h]
    have e' : (P A0 A1).td 0 d c i = iprop(∃ ou' oi', Cert.Proof.Kernel.ScTile0.res0 d (pt0 (Fin.cast (nCore_eq (F := F) 0) c) (Fin.cast (nSub_eq (F := F) 0) i)) (cond1_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi ou' oi') := by
      show td0 d (A0 d) _ _ = _
      unfold td0; rw [dif_pos h]
    rw [e, e']
    exact (hb0 d (pt0 (Fin.cast (nCore_eq (F := F) 0) c) (Fin.cast (nSub_eq (F := F) 0) i)) hF (cond1_pt0 (Fin.cast (nCore_eq (F := F) 0) c) (Fin.cast (nSub_eq (F := F) 0) i) h) (tq (Fin.cast (nCore_eq (F := F) 0) c) (Fin.cast (nSub_eq (F := F) 0) i)) _ _ _ _ _ _ (hpre d) O W hO).trans (wp_mono frame _ _ fun _ => obl_post)
  · have e : (P A0 A1).go 0 d c i = Cert.Proof.Kernel.ScTile0.res1 d (pt0 (Fin.cast (nCore_eq (F := F) 0) c) (Fin.cast (nSub_eq (F := F) 0) i)) (cond2_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi (A0 d).ou (A0 d).oi := by
      show go0 d (A0 d) _ _ = _
      unfold go0; rw [dif_neg h]
    have e' : (P A0 A1).td 0 d c i = iprop(∃ ou' oi', Cert.Proof.Kernel.ScTile0.res1 d (pt0 (Fin.cast (nCore_eq (F := F) 0) c) (Fin.cast (nSub_eq (F := F) 0) i)) (cond2_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi ou' oi') := by
      show td0 d (A0 d) _ _ = _
      unfold td0; rw [dif_neg h]
    rw [e, e']
    exact (hb1 d (pt0 (Fin.cast (nCore_eq (F := F) 0) c) (Fin.cast (nSub_eq (F := F) 0) i)) hF (cond2_pt0 (Fin.cast (nCore_eq (F := F) 0) c) (Fin.cast (nSub_eq (F := F) 0) i) h) (tq (Fin.cast (nCore_eq (F := F) 0) c) (Fin.cast (nSub_eq (F := F) 0) i)) _ _ _ _ _ _ (hpre d) O W hO).trans (wp_mono frame _ _ fun _ => obl_post)

set_option maxRecDepth 16384 in
theorem tileObl1 (hF : (K (F := F)).Facts)
    (hb0 : Cert.Proof.Kernel.ScTile1.TileBody0 F UU) (hb1 : Cert.Proof.Kernel.ScTile1.TileBody1 F UU)
    (hpre : ∀ d, Cert.Proof.Kernel.ScTile1.PreOK d (A1 d).gu (A1 d).gi) :
    (K (F := F)).TileObl (D (F := F)) 𝒱 (P A0 A1) v₀ 1 := by
  intro d c i O W hO _ _
  simp only [show (P A0 A1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  by_cases h : (Fin.cast (nCore_eq (F := F) 1) c).val = 0
  · have e : (P A0 A1).go 1 d c i = Cert.Proof.Kernel.ScTile1.res0 d (pt1 (Fin.cast (nCore_eq (F := F) 1) c) (Fin.cast (nSub_eq (F := F) 1) i)) (cond1_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi (A1 d).ou (A1 d).oi := by
      show go1 d (A1 d) _ _ = _
      unfold go1; rw [dif_pos h]
    have e' : (P A0 A1).td 1 d c i = iprop(∃ ou' oi', Cert.Proof.Kernel.ScTile1.res0 d (pt1 (Fin.cast (nCore_eq (F := F) 1) c) (Fin.cast (nSub_eq (F := F) 1) i)) (cond1_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi ou' oi') := by
      show td1 d (A1 d) _ _ = _
      unfold td1; rw [dif_pos h]
    rw [e, e']
    exact (hb0 d (pt1 (Fin.cast (nCore_eq (F := F) 1) c) (Fin.cast (nSub_eq (F := F) 1) i)) hF (cond1_pt1 (Fin.cast (nCore_eq (F := F) 1) c) (Fin.cast (nSub_eq (F := F) 1) i) h) (tq (Fin.cast (nCore_eq (F := F) 1) c) (Fin.cast (nSub_eq (F := F) 1) i)) _ _ _ _ _ _ (hpre d) O W hO).trans (wp_mono frame _ _ fun _ => obl_post)
  · have e : (P A0 A1).go 1 d c i = Cert.Proof.Kernel.ScTile1.res1 d (pt1 (Fin.cast (nCore_eq (F := F) 1) c) (Fin.cast (nSub_eq (F := F) 1) i)) (cond2_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi (A1 d).ou (A1 d).oi := by
      show go1 d (A1 d) _ _ = _
      unfold go1; rw [dif_neg h]
    have e' : (P A0 A1).td 1 d c i = iprop(∃ ou' oi', Cert.Proof.Kernel.ScTile1.res1 d (pt1 (Fin.cast (nCore_eq (F := F) 1) c) (Fin.cast (nSub_eq (F := F) 1) i)) (cond2_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi ou' oi') := by
      show td1 d (A1 d) _ _ = _
      unfold td1; rw [dif_neg h]
    rw [e, e']
    exact (hb1 d (pt1 (Fin.cast (nCore_eq (F := F) 1) c) (Fin.cast (nSub_eq (F := F) 1) i)) hF (cond2_pt1 (Fin.cast (nCore_eq (F := F) 1) c) (Fin.cast (nSub_eq (F := F) 1) i) h) (tq (Fin.cast (nCore_eq (F := F) 1) c) (Fin.cast (nSub_eq (F := F) 1) i)) _ _ _ _ _ _ (hpre d) O W hO).trans (wp_mono frame _ _ fun _ => obl_post)

/-- Every call's tiles meet the launch theorem's obligation. -/
theorem tileObl (hF : (K (F := F)).Facts)
    (hb00 : Cert.Proof.Kernel.ScTile0.TileBody0 F UU) (hb01 : Cert.Proof.Kernel.ScTile0.TileBody1 F UU)
    (hb10 : Cert.Proof.Kernel.ScTile1.TileBody0 F UU) (hb11 : Cert.Proof.Kernel.ScTile1.TileBody1 F UU)
    (hpre0 : ∀ d, Cert.Proof.Kernel.ScTile0.PreOK d (A0 d).gu (A0 d).gi)
    (hpre1 : ∀ d, Cert.Proof.Kernel.ScTile1.PreOK d (A1 d).gu (A1 d).gi) :
    ∀ q, (K (F := F)).kind q = .scVector → (K (F := F)).TileObl (D (F := F)) 𝒱 (P A0 A1) v₀ q := fun q _ =>
  match q with
  | 0 => tileObl0 A0 A1 hF hb00 hb01 hpre0
  | 1 => tileObl1 A0 A1 hF hb10 hb11 hpre1

end Cert.Kernel.Launch

end
-- ==== Proof.RunB.lean ====
/-
  The SparseCore program's run: every weakly fair execution of its thirty-five threads terminates, nothing faulting,
  and leaves the six argument arrays as they were.
-/
import proofs.«204681_g65575560675685_cont_9to1_m_144_57_alg».proof.Proof.HmainTopB
import proofs.«204681_g65575560675685_cont_9to1_m_144_57_alg».proof.Proof.TileOblB

noncomputable section

namespace Cert.Kernel.Launch

open Cert.Kernel Cert.Kernel.Gen Cert.Kernel.Setup Cert.Kernel.HostOps Cert.Kernel.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig (HIx 2) (Elt F) ℕ UU ℕ

omit [FloatOps F] in
theorem argRefs_sub : argRefs ⊆ Pipeline.ucRefs τ sig := by
  intro b hb
  simp only [argRefs, Finset.mem_insert, Finset.mem_singleton] at hb
  rcases hb with rfl | rfl | rfl | rfl | rfl | rfl <;>
    exact Finset.mem_filter.mpr ⟨StableHlo.devRef_mem_tcRefs _, by decide⟩

/-- What the final memory shows of device `d`: its six argument arrays at the launch's contents. -/
def fq (d : Dev nD) (s' : Phys nD τ sig (Elt F)) : Prop := ∀ b ∈ argRefs, s'.mem.mem (d, b) = m (d, b)

omit [FloatOps F] in
theorem hfin (d : Dev nD) (s' : Phys nD τ sig (Elt F)) : iprop(FIN m d ∗ SI s') ⊢ (⌜fq m d s'⌝ : sProp 𝕄) := by
  unfold FIN StableHlo.held
  iintro ⟨⟨%Vf, %hVf, Hheld⟩, HSI⟩
  ihave %h := (SI_pointsTo_bufs_agree (st := s') (c := d) (qs := fun _ => fullShare) (F := Vf) (Pipeline.ucRefs τ sig)) $$ [HSI Hheld]
  · isplitl [HSI]; · iexact HSI
    iexact Hheld
  ipureintro
  intro b hb
  rw [h b (argRefs_sub hb), hVf b hb]

/-- The claim's post: on every device the six argument arrays are unchanged. -/
def QC : PUnit × MemSt nD τ sig (Elt F) → Prop := fun r => ∀ c : Dev nD, ∀ b ∈ argRefs, r.2.mem (c, b) = m (c, b)

/-- The ingredients of the run: one tile's task on each core of each call, the operands' split and join, the two
    TensorCore regions as steps, and that the host stretch leaves the arguments alone and the index operands in range. -/
structure Parts (F : FTy → Type) [FloatOps F] (m : (ℓ : Loc nD τ sig) → Buf (Elt F) ℓ) where
  hb00 : Cert.Proof.Kernel.ScTile0.TileBody0 F UU
  hb01 : Cert.Proof.Kernel.ScTile0.TileBody1 F UU
  hb10 : Cert.Proof.Kernel.ScTile1.TileBody0 F UU
  hb11 : Cert.Proof.Kernel.ScTile1.TileBody1 F UU
  hs0 : Split0 F
  hj0 : Join0 F
  hs1 : Split1 F
  hj1 : Join1 F
  ex0 : Dev nD → Waits sig (HIx 2) → Valuation τ sig (Elt F) → Valuation τ sig (Elt F)
  ex1 : Dev nD → Waits sig (HIx 2) → Valuation τ sig (Elt F) → Valuation τ sig (Elt F)
  hr0 : RegionStep (F := F) 0 ex0
  hr1 : RegionStep (F := F) 1 ex1
  hex0 : ∀ d Wt W (b : DevRef τ sig), b ≠ Proc.devRef .tc main_v96 → ex0 d Wt W b = W b
  hex1 : ∀ d Wt W (b : DevRef τ sig), b ≠ Proc.devRef .tc main_v97 → ex1 d Wt W b = W b
  hkeep : ∀ d, ∀ b ∈ argRefs, V₁ m d b = V₀ m d b
  hpre0 : ∀ d, Cert.Proof.Kernel.ScTile0.PreOK d (A0 m d).gu (A0 m d).gi
  hpre1 : ∀ d, Cert.Proof.Kernel.ScTile1.PreOK d (A1 m d).gu (A1 m d).gi

theorem run_main [∀ e, Nonempty (Elt F e)] (hp : Parts F m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (A0 m) (A1 m)) facts v₀
    (fun q hq => match q with | 0 => nomatch hq | 1 => nomatch hq)
    (tileObl (A0 m) (A1 m) facts hp.hb00 hp.hb01 hp.hb10 hp.hb11 hp.hpre0 hp.hpre1)
    (fun q _ => SparseCore.Cfg.VecSplit.of_plain (vecSplit (A0 m) (A1 m) q))
    m ρ main (fun d => Gp d) (FIN m) (u₀ (F := F)) (hu₀ (A0 m) (A1 m))
    (hmain m ρ hp.hs0 hp.hj0 hp.hs1 hp.hj1 hp.ex0 hp.ex1 hp.hr0 hp.hr1 hp.hex0 hp.hex1 hp.hkeep) (fq m) (hfin m) (QC m) (fun _ h => h)

end Cert.Kernel.Launch

end
-- ==== Proof.PreRange.lean ====
/-
  The precondition decoded: every word of the two adjacency arrays names a row of its table.
-/
import proofs.«204681_g65575560675685_cont_9to1_m_144_57_alg».proof.Pre_input_domain
import Idealize.ShloMosaic.Lib.ReduceAll
import Idealize.ShloMosaic.Lib.ValueIdx

noncomputable section

namespace Cert.Pre_input_domain.Range

open Cert.Pre_input_domain Idealize.ShloMosaic
open Cert.Pre_input_domain.Facts

variable {F : FTy → Type} [FloatOps F] [Cert.Pre_input_domain.Facts]

instance : Subsingleton S_.Idx := ⟨fun a b => funext fun d => d.elim0⟩

theorem ofBool_eq_one (b : Bool) : BitVec.ofBool b = 1#1 ↔ b = true := by cases b <;> decide
theorem and1 : ∀ (a b : BitVec 1), IntOp.andi a b = 1#1 ↔ a = 1#1 ∧ b = 1#1 := by decide

/-- A word between 0 and 99999 as a signed number is below 100000 as an unsigned one. -/
theorem toNat_lt (w : BitVec 32) (h0 : IntOp.cmpi .sge w (0#32) = 1#1) (h1 : IntOp.cmpi .sle w (99999#32) = 1#1) : w.toNat < 100000 := by
  unfold IntOp.cmpi at h0 h1
  rw [ofBool_eq_one] at h0 h1
  simp only [BitVec.sle, decide_eq_true_eq] at h0 h1
  have h32 := w.isLt
  unfold BitVec.toInt at h0 h1
  split at h1 <;> simp at h0 h1 <;> omega

theorem range_of_pre (a0 a1 a2 : FVec F S100000x128 .f32) (a3 a4 : IVec S100000 32) (a5 : FVec F S384x128 .f32)
    (h : fn (F := F) a0 a1 a2 a3 a4 a5 = fun _ => 1#1) : (∀ i, (a3 i).toNat < 100000) ∧ (∀ i, (a4 i).toNat < 100000) := by
  have e := congrFun h ValueIdx.ix0
  unfold fn fn_part1 at e
  simp only [andi] at e
  simp only [and1] at e
  obtain ⟨⟨-, h3⟩, h4⟩ := e
  constructor
  · intro i
    have hi := Host.reduce_andi_all _ _ _ _ _ h3 i
    simp only [andi, cmpi, broadcastInDim, constantI] at hi
    rw [and1] at hi
    exact toNat_lt _ hi.1 hi.2
  · intro i
    have hi := Host.reduce_andi_all _ _ _ _ _ h4 i
    simp only [andi, cmpi, broadcastInDim, constantI] at hi
    rw [and1] at hi
    exact toNat_lt _ hi.1 hi.2

end Cert.Pre_input_domain.Range

end
-- ==== Proof.HostValKeepB.lean ====
import proofs.«204681_g65575560675685_cont_9to1_m_144_57_alg».proof.Proof.HostOpsB
import Idealize.ShloMosaic.Lib.StableHlo.Run
import Idealize.ShloMosaic.Lib.Pipeline.Frame

noncomputable section

namespace Cert.Kernel.HostVal

open Cert.Kernel Cert.Kernel.HostOps Idealize.ShloMosaic Idealize.ShloMosaic.TcCoe Idealize.SL.Sem Idealize.ShloMosaic.StableHlo
open Cert.Kernel.Facts₀ Cert.Kernel.Facts

variable {F : FTy → Type} [FloatOps F] [Cert.Kernel.Facts]

/-! # Buffers the host operations leave alone

Every buffer of the program is written by exactly one operation, and the operations are numbered in program order: a
stretch of operations writes only buffers whose index lies in the stretch's own range. A reference outside that range
therefore keeps its contents across the stretch. The statements are generic in the reference. -/

/-- Two references whose indices differ are different; stated through an index range. -/
theorem ne_of_range {r y : Ref sig .tc} {lo hi : Nat} (hr : r.idx.val < lo ∨ hi < r.idx.val)
    (hy : lo ≤ y.idx.val ∧ y.idx.val ≤ hi) : r ≠ y := by
  intro e; subst e; omega

/-- One pass over a literal list of operations: each leaves a reference outside the range as it was. -/
macro "keeps_simp " hr:term : tactic =>
  `(tactic| simp (disch := exact ne_of_range $hr (by decide)) only [after_cons, after_nil,
      nullary_result_ne', unary_result_ne', binary_result_ne', ternary_result_ne', quaternary_result_ne', reshape_result_ne',
      nary_result_ne', unaryIndexed_result_ne', binaryIndexed_result_ne'])

theorem keeps_c0_split0 (r : Ref sig .tc) (hr : r.idx.val < 17 ∨ 496 < r.idx.val) (a0) (W : Valuation τ sig (Elt F)) :
    after (fn_threefry_split.seg0 (F := F) a0 main_call0.call0) W (Proc.devRef .tc r) = W (Proc.devRef .tc r) := by
  unfold fn_threefry_split.seg0
  keeps_simp hr

theorem keeps_c0_tfA0 (r : Ref sig .tc) (hr : r.idx.val < 17 ∨ 496 < r.idx.val) (a0 a1 a2 a3) (W : Valuation τ sig (Elt F)) :
    after (fn_threefry2x32.ops0 (F := F) a0 a1 a2 a3 main_call0.call0.call0) W (Proc.devRef .tc r) = W (Proc.devRef .tc r) := by
  unfold fn_threefry2x32.ops0
  keeps_simp hr

theorem keeps_c0_tfA1 (r : Ref sig .tc) (hr : r.idx.val < 17 ∨ 496 < r.idx.val) (a0 a1 a2 a3) (W : Valuation τ sig (Elt F)) :
    after (fn_threefry2x32.ops1 (F := F) a0 a1 a2 a3 main_call0.call0.call0) W (Proc.devRef .tc r) = W (Proc.devRef .tc r) := by
  unfold fn_threefry2x32.ops1
  keeps_simp hr

theorem keeps_c0_tfA2 (r : Ref sig .tc) (hr : r.idx.val < 17 ∨ 496 < r.idx.val) (a0 a1 a2 a3) (W : Valuation τ sig (Elt F)) :
    after (fn_threefry2x32.ops2 (F := F) a0 a1 a2 a3 main_call0.call0.call0) W (Proc.devRef .tc r) = W (Proc.devRef .tc r) := by
  unfold fn_threefry2x32.ops2
  keeps_simp hr

theorem keeps_c0_tfA3 (r : Ref sig .tc) (hr : r.idx.val < 17 ∨ 496 < r.idx.val) (a0 a1 a2 a3) (W : Valuation τ sig (Elt F)) :
    after (fn_threefry2x32.ops3 (F := F) a0 a1 a2 a3 main_call0.call0.call0) W (Proc.devRef .tc r) = W (Proc.devRef .tc r) := by
  unfold fn_threefry2x32.ops3
  keeps_simp hr

theorem keeps_c0_split1 (r : Ref sig .tc) (hr : r.idx.val < 17 ∨ 496 < r.idx.val) (a0) (W : Valuation τ sig (Elt F)) :
    after (fn_threefry_split.seg1 (F := F) a0 main_call0.call0) W (Proc.devRef .tc r) = W (Proc.devRef .tc r) := by
  unfold fn_threefry_split.seg1
  keeps_simp hr

theorem keeps_c0_shuf0 (r : Ref sig .tc) (hr : r.idx.val < 17 ∨ 496 < r.idx.val) (a0 a1) (W : Valuation τ sig (Elt F)) :
    after (fn_shuffle.seg0 (F := F) a0 a1 main_call0) W (Proc.devRef .tc r) = W (Proc.devRef .tc r) := by
  unfold fn_shuffle.seg0
  keeps_simp hr

theorem keeps_c0_tfB0 (r : Ref sig .tc) (hr : r.idx.val < 17 ∨ 496 < r.idx.val) (a0 a1 a2 a3) (W : Valuation τ sig (Elt F)) :
    after (fn_threefry2x32_0.ops0 (F := F) a0 a1 a2 a3 main_call0.call1) W (Proc.devRef .tc r) = W (Proc.devRef .tc r) := by
  unfold fn_threefry2x32_0.ops0
  keeps_simp hr

theorem keeps_c0_tfB1 (r : Ref sig .tc) (hr : r.idx.val < 17 ∨ 496 < r.idx.val) (a0 a1 a2 a3) (W : Valuation τ sig (Elt F)) :
    after (fn_threefry2x32_0.ops1 (F := F) a0 a1 a2 a3 main_call0.call1) W (Proc.devRef .tc r) = W (Proc.devRef .tc r) := by
  unfold fn_threefry2x32_0.ops1
  keeps_simp hr

theorem keeps_c0_tfB2 (r : Ref sig .tc) (hr : r.idx.val < 17 ∨ 496 < r.idx.val) (a0 a1 a2 a3) (W : Valuation τ sig (Elt F)) :
    after (fn_threefry2x32_0.ops2 (F := F) a0 a1 a2 a3 main_call0.call1) W (Proc.devRef .tc r) = W (Proc.devRef .tc r) := by
  unfold fn_threefry2x32_0.ops2
  keeps_simp hr

theorem keeps_c0_tfB3 (r : Ref sig .tc) (hr : r.idx.val < 17 ∨ 496 < r.idx.val) (a0 a1 a2 a3) (W : Valuation τ sig (Elt F)) :
    after (fn_threefry2x32_0.ops3 (F := F) a0 a1 a2 a3 main_call0.call1) W (Proc.devRef .tc r) = W (Proc.devRef .tc r) := by
  unfold fn_threefry2x32_0.ops3
  keeps_simp hr

theorem keeps_c0_shuf1 (r : Ref sig .tc) (hr : r.idx.val < 17 ∨ 496 < r.idx.val) (a0 a1) (W : Valuation τ sig (Elt F)) :
    after (fn_shuffle.seg1 (F := F) a0 a1 main_call0) W (Proc.devRef .tc r) = W (Proc.devRef .tc r) := by
  unfold fn_shuffle.seg1
  keeps_simp hr

/-- The whole shuffle (call 0) leaves a reference outside its buffers' range as it was. -/
theorem keeps_shuffle0 (r : Ref sig .tc) (hr : r.idx.val < 17 ∨ 496 < r.idx.val) (a0 a1) (W : Valuation τ sig (Elt F)) :
    after (fn_shuffle.ops (F := F) a0 a1 main_call0) W (Proc.devRef .tc r) = W (Proc.devRef .tc r) := by
  simp only [fn_shuffle.ops, fn_threefry_split.ops, fn_threefry2x32.ops, fn_threefry2x32_0.ops, StableHlo.after_append]
  rw [keeps_c0_shuf1 r hr, keeps_c0_tfB3 r hr, keeps_c0_tfB2 r hr, keeps_c0_tfB1 r hr, keeps_c0_tfB0 r hr,
    keeps_c0_shuf0 r hr, keeps_c0_split1 r hr, keeps_c0_tfA3 r hr, keeps_c0_tfA2 r hr, keeps_c0_tfA1 r hr,
    keeps_c0_tfA0 r hr, keeps_c0_split0 r hr]

theorem keeps_c1_split0 (r : Ref sig .tc) (hr : r.idx.val < 508 ∨ 987 < r.idx.val) (a0) (W : Valuation τ sig (Elt F)) :
    after (fn_threefry_split.seg0 (F := F) a0 main_call1.call0) W (Proc.devRef .tc r) = W (Proc.devRef .tc r) := by
  unfold fn_threefry_split.seg0
  keeps_simp hr

theorem keeps_c1_tfA0 (r : Ref sig .tc) (hr : r.idx.val < 508 ∨ 987 < r.idx.val) (a0 a1 a2 a3) (W : Valuation τ sig (Elt F)) :
    after (fn_threefry2x32.ops0 (F := F) a0 a1 a2 a3 main_call1.call0.call0) W (Proc.devRef .tc r) = W (Proc.devRef .tc r) := by
  unfold fn_threefry2x32.ops0
  keeps_simp hr

theorem keeps_c1_tfA1 (r : Ref sig .tc) (hr : r.idx.val < 508 ∨ 987 < r.idx.val) (a0 a1 a2 a3) (W : Valuation τ sig (Elt F)) :
    after (fn_threefry2x32.ops1 (F := F) a0 a1 a2 a3 main_call1.call0.call0) W (Proc.devRef .tc r) = W (Proc.devRef .tc r) := by
  unfold fn_threefry2x32.ops1
  keeps_simp hr

theorem keeps_c1_tfA2 (r : Ref sig .tc) (hr : r.idx.val < 508 ∨ 987 < r.idx.val) (a0 a1 a2 a3) (W : Valuation τ sig (Elt F)) :
    after (fn_threefry2x32.ops2 (F := F) a0 a1 a2 a3 main_call1.call0.call0) W (Proc.devRef .tc r) = W (Proc.devRef .tc r) := by
  unfold fn_threefry2x32.ops2
  keeps_simp hr

theorem keeps_c1_tfA3 (r : Ref sig .tc) (hr : r.idx.val < 508 ∨ 987 < r.idx.val) (a0 a1 a2 a3) (W : Valuation τ sig (Elt F)) :
    after (fn_threefry2x32.ops3 (F := F) a0 a1 a2 a3 main_call1.call0.call0) W (Proc.devRef .tc r) = W (Proc.devRef .tc r) := by
  unfold fn_threefry2x32.ops3
  keeps_simp hr

theorem keeps_c1_split1 (r : Ref sig .tc) (hr : r.idx.val < 508 ∨ 987 < r.idx.val) (a0) (W : Valuation τ sig (Elt F)) :
    after (fn_threefry_split.seg1 (F := F) a0 main_call1.call0) W (Proc.devRef .tc r) = W (Proc.devRef .tc r) := by
  unfold fn_threefry_split.seg1
  keeps_simp hr

theorem keeps_c1_shuf0 (r : Ref sig .tc) (hr : r.idx.val < 508 ∨ 987 < r.idx.val) (a0 a1) (W : Valuation τ sig (Elt F)) :
    after (fn_shuffle.seg0 (F := F) a0 a1 main_call1) W (Proc.devRef .tc r) = W (Proc.devRef .tc r) := by
  unfold fn_shuffle.seg0
  keeps_simp hr

theorem keeps_c1_tfB0 (r : Ref sig .tc) (hr : r.idx.val < 508 ∨ 987 < r.idx.val) (a0 a1 a2 a3) (W : Valuation τ sig (Elt F)) :
    after (fn_threefry2x32_0.ops0 (F := F) a0 a1 a2 a3 main_call1.call1) W (Proc.devRef .tc r) = W (Proc.devRef .tc r) := by
  unfold fn_threefry2x32_0.ops0
  keeps_simp hr

theorem keeps_c1_tfB1 (r : Ref sig .tc) (hr : r.idx.val < 508 ∨ 987 < r.idx.val) (a0 a1 a2 a3) (W : Valuation τ sig (Elt F)) :
    after (fn_threefry2x32_0.ops1 (F := F) a0 a1 a2 a3 main_call1.call1) W (Proc.devRef .tc r) = W (Proc.devRef .tc r) := by
  unfold fn_threefry2x32_0.ops1
  keeps_simp hr

theorem keeps_c1_tfB2 (r : Ref sig .tc) (hr : r.idx.val < 508 ∨ 987 < r.idx.val) (a0 a1 a2 a3) (W : Valuation τ sig (Elt F)) :
    after (fn_threefry2x32_0.ops2 (F := F) a0 a1 a2 a3 main_call1.call1) W (Proc.devRef .tc r) = W (Proc.devRef .tc r) := by
  unfold fn_threefry2x32_0.ops2
  keeps_simp hr

theorem keeps_c1_tfB3 (r : Ref sig .tc) (hr : r.idx.val < 508 ∨ 987 < r.idx.val) (a0 a1 a2 a3) (W : Valuation τ sig (Elt F)) :
    after (fn_threefry2x32_0.ops3 (F := F) a0 a1 a2 a3 main_call1.call1) W (Proc.devRef .tc r) = W (Proc.devRef .tc r) := by
  unfold fn_threefry2x32_0.ops3
  keeps_simp hr

theorem keeps_c1_shuf1 (r : Ref sig .tc) (hr : r.idx.val < 508 ∨ 987 < r.idx.val) (a0 a1) (W : Valuation τ sig (Elt F)) :
    after (fn_shuffle.seg1 (F := F) a0 a1 main_call1) W (Proc.devRef .tc r) = W (Proc.devRef .tc r) := by
  unfold fn_shuffle.seg1
  keeps_simp hr

/-- The whole shuffle (call 1) leaves a reference outside its buffers' range as it was. -/
theorem keeps_shuffle1 (r : Ref sig .tc) (hr : r.idx.val < 508 ∨ 987 < r.idx.val) (a0 a1) (W : Valuation τ sig (Elt F)) :
    after (fn_shuffle.ops (F := F) a0 a1 main_call1) W (Proc.devRef .tc r) = W (Proc.devRef .tc r) := by
  simp only [fn_shuffle.ops, fn_threefry_split.ops, fn_threefry2x32.ops, fn_threefry2x32_0.ops, StableHlo.after_append]
  rw [keeps_c1_shuf1 r hr, keeps_c1_tfB3 r hr, keeps_c1_tfB2 r hr, keeps_c1_tfB1 r hr, keeps_c1_tfB0 r hr,
    keeps_c1_shuf0 r hr, keeps_c1_split1 r hr, keeps_c1_tfA3 r hr, keeps_c1_tfA2 r hr, keeps_c1_tfA1 r hr,
    keeps_c1_tfA0 r hr, keeps_c1_split0 r hr]

theorem keeps_mainOps0 (r : Ref sig .tc) (hr : r.idx.val < 6 ∨ 16 < r.idx.val)  (W : Valuation τ sig (Elt F)) :
    after (mainOps0 (F := F)) W (Proc.devRef .tc r) = W (Proc.devRef .tc r) := by
  unfold mainOps0
  keeps_simp hr

theorem keeps_mainOps1 (r : Ref sig .tc) (hr : r.idx.val < 497 ∨ 507 < r.idx.val)  (W : Valuation τ sig (Elt F)) :
    after (mainOps1 (F := F)) W (Proc.devRef .tc r) = W (Proc.devRef .tc r) := by
  unfold mainOps1
  keeps_simp hr

theorem keeps_mainOps2 (r : Ref sig .tc) (hr : r.idx.val < 988 ∨ 989 < r.idx.val)  (W : Valuation τ sig (Elt F)) :
    after (mainOps2 (F := F)) W (Proc.devRef .tc r) = W (Proc.devRef .tc r) := by
  unfold mainOps2
  keeps_simp hr

theorem keeps_mainOps3 (r : Ref sig .tc) (hr : r.idx.val < 993 ∨ 1002 < r.idx.val)  (W : Valuation τ sig (Elt F)) :
    after (mainOps3 (F := F)) W (Proc.devRef .tc r) = W (Proc.devRef .tc r) := by
  unfold mainOps3
  keeps_simp hr

theorem keeps_mainOps4 (r : Ref sig .tc) (hr : r.idx.val < 1006 ∨ 1045 < r.idx.val)  (W : Valuation τ sig (Elt F)) :
    after (mainOps4 (F := F)) W (Proc.devRef .tc r) = W (Proc.devRef .tc r) := by
  unfold mainOps4
  keeps_simp hr

theorem keeps_mainOps5 (r : Ref sig .tc) (hr : r.idx.val < 1046 ∨ 1085 < r.idx.val)  (W : Valuation τ sig (Elt F)) :
    after (mainOps5 (F := F)) W (Proc.devRef .tc r) = W (Proc.devRef .tc r) := by
  unfold mainOps5
  keeps_simp hr

theorem keeps_mainOps6 (r : Ref sig .tc) (hr : r.idx.val < 1086 ∨ 1091 < r.idx.val)  (W : Valuation τ sig (Elt F)) :
    after (mainOps6 (F := F)) W (Proc.devRef .tc r) = W (Proc.devRef .tc r) := by
  unfold mainOps6
  keeps_simp hr

theorem keeps_argsort2 (r : Ref sig .tc) (hr : r.idx.val < 990 ∨ 992 < r.idx.val) (a0) (W : Valuation τ sig (Elt F)) :
    after (fn_argsort.ops (F := F) a0 main_call2) W (Proc.devRef .tc r) = W (Proc.devRef .tc r) := by
  unfold fn_argsort.ops fn_argsort.seg0
  keeps_simp hr

theorem keeps_argsort3 (r : Ref sig .tc) (hr : r.idx.val < 1003 ∨ 1005 < r.idx.val) (a0) (W : Valuation τ sig (Elt F)) :
    after (fn_argsort.ops (F := F) a0 main_call3) W (Proc.devRef .tc r) = W (Proc.devRef .tc r) := by
  unfold fn_argsort.ops fn_argsort.seg0
  keeps_simp hr

/-- The host stretch as a composition of its eleven parts, in program order. -/
theorem after_hostOps (V : Valuation τ sig (Elt F)) :
    after (hostOps (F := F)) V =
      after mainOps6 (after mainOps5 (after mainOps4 (after (fn_argsort.ops (.of main_v8) main_call3)
        (after mainOps3 (after (fn_argsort.ops (.of main_v17) main_call2) (after mainOps2
          (after (fn_shuffle.ops (.of main_v15) (.of main_v16) main_call1) (after mainOps1
            (after (fn_shuffle.ops (.of main_v6) (.of main_v7) main_call0) (after mainOps0 V)))))))))) := by
  unfold hostOps
  simp only [StableHlo.after_append]

/-- No host operation writes an argument array (indices 0 to 5), nor anything past the last host result. -/
theorem keeps_hostOps (r : Ref sig .tc) (hr : r.idx.val < 6 ∨ 1091 < r.idx.val) (V : Valuation τ sig (Elt F)) :
    after (hostOps (F := F)) V (Proc.devRef .tc r) = V (Proc.devRef .tc r) := by
  rw [after_hostOps, keeps_mainOps6 r (by omega), keeps_mainOps5 r (by omega), keeps_mainOps4 r (by omega),
    keeps_argsort3 r (by omega), keeps_mainOps3 r (by omega), keeps_argsort2 r (by omega), keeps_mainOps2 r (by omega),
    keeps_shuffle1 r (by omega), keeps_mainOps1 r (by omega), keeps_shuffle0 r (by omega), keeps_mainOps0 r (by omega)]

end Cert.Kernel.HostVal
end
-- ==== Proof.HostValIdxB.lean ====
import proofs.«204681_g65575560675685_cont_9to1_m_144_57_alg».proof.Proof.HostValKeepB

noncomputable section

namespace Cert.Kernel.HostVal

open Cert.Kernel Cert.Kernel.HostOps Idealize.ShloMosaic Idealize.ShloMosaic.TcCoe Idealize.SL.Sem Idealize.ShloMosaic.StableHlo
open Cert.Kernel.Facts₀ Cert.Kernel.Facts

variable {F : FTy → Type} [FloatOps F] [Cert.Kernel.Facts]

/-! # The index operands of the two gather calls, as terms of the adjacency arrays

Each adjacency array (100000 words) is padded with zeros to 102400 words and viewed as 800 rows of 128. Each half of
400 rows is dealt to 32 workers: the first sixteen take eighteen rows each (288 rows), the other sixteen take seven
rows each (112 rows) and keep zeros in their remaining eleven rows. -/

/-- Reads that remain inside the parts of a concatenation after the one-pass evaluation: done by rewriting. -/
macro "after_reads" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- `zeros(102400).at[:100000].set(adj)`, viewed as 800 rows of 128 words. -/
def padRows (adj : IVec S100000 32) : IVec S800x128 32 :=
  fun i => shapeCast S800x128 (Host.scatter scatter_S102400_S1_S100000_0_n_0_0 (fun _ b => b)
    (broadcastInDim S102400 ![] bcast_S_S102400 (constantI S_ 32 0#32))
    (broadcastInDim S1 ![] bcast_S_S1 (constantI S_ 32 0#32)) adj) shapeCasts_S102400_S800x128 i

/-- Rows 0 to 399. -/
def half0 (f : IVec S800x128 32) : IVec S400x128 32 :=
  extractStridedSlice S400x128 ![0, 0] f slices_S800x128_S400x128_0_0

/-- Rows 400 to 799. -/
def half1 (f : IVec S800x128 32) : IVec S400x128 32 :=
  extractStridedSlice S400x128 ![400, 0] f slices_S800x128_S400x128_400_0

/-- The first 288 rows of a half as sixteen blocks of eighteen rows. -/
def upd18 (fh : IVec S400x128 32) : IVec S16x18x128 32 :=
  fun i => shapeCast S16x18x128 (extractStridedSlice S288x128 ![0, 0] fh slices_S400x128_S288x128_0_0) shapeCasts_S288x128_S16x18x128 i

/-- The last 112 rows of a half as sixteen blocks of seven rows. -/
def upd7 (fh : IVec S400x128 32) : IVec S16x7x128 32 :=
  fun i => shapeCast S16x7x128 (extractStridedSlice S112x128 ![288, 0] fh slices_S400x128_S112x128_288_0) shapeCasts_S112x128_S16x7x128 i

/-- Zeros with the sixteen blocks of eighteen rows written at workers 0 to 15. -/
def dealA (u : IVec S16x18x128 32) : IVec S32x18x128 32 :=
  Host.scatter scatter_S32x18x128_S1_S16x18x128_012_n_0_0 (fun _ b => b)
    (broadcastInDim S32x18x128 ![] bcast_S_S32x18x128 (constantI S_ 32 0#32))
    (broadcastInDim S1 ![] bcast_S_S1 (constantI S_ 32 0#32)) u

/-- The sixteen blocks of seven rows written at workers 16 to 31, rows 0 to 6. -/
def dealB (big : IVec S32x18x128 32) (u : IVec S16x7x128 32) : IVec S32x18x128 32 :=
  Host.scatter scatter_S32x18x128_S2_S16x7x128_012_n_01_0 (fun _ b => b) big
    (concatenate S2 0 [⟨S1, broadcastInDim S1 ![] bcast_S_S1 (constantI S_ 32 16#32)⟩,
      ⟨S1, broadcastInDim S1 ![] bcast_S_S1 (constantI S_ 32 0#32)⟩] concatenates_S1_S1_S2_d0) u

/-- One half of the padded array dealt to the 32 workers. -/
def dealHalf (fh : IVec S400x128 32) : IVec S32x18x128 32 := dealB (dealA (upd18 fh)) (upd7 fh)

/-- The index operand of the first gather call (rows 0 to 399 of the padded array). -/
def idxOperand0 (adj : IVec S100000 32) : IVec S32x18x128 32 := dealHalf (half0 (padRows adj))

/-- The index operand of the second gather call (rows 400 to 799). -/
def idxOperand1 (adj : IVec S100000 32) : IVec S32x18x128 32 := dealHalf (half1 (padRows adj))

section Stretch
variable (W : Valuation τ sig (Elt F))

/-! ## The last three stretches of host operations, from any contents `W` -/

theorem val_v53 : after (mainOps4 (F := F)) W (Proc.devRef .tc main_v53) = idxOperand0 (W (Proc.devRef .tc main_arg4)) := by
  unfold mainOps4
  after_results_simp
  after_reads
  rfl

theorem val_v54 : after (mainOps4 (F := F)) W (Proc.devRef .tc main_v54) = half1 (padRows (W (Proc.devRef .tc main_arg4))) := by
  unfold mainOps4
  after_results_simp
  rfl

theorem val_v59 : after (mainOps4 (F := F)) W (Proc.devRef .tc main_v59)
    = dealA (upd18 (half1 (padRows (W (Proc.devRef .tc main_arg4))))) := by
  unfold mainOps4
  after_results_simp
  rfl

theorem val_v65 : after (mainOps5 (F := F)) W (Proc.devRef .tc main_v65)
    = dealB (W (Proc.devRef .tc main_v59)) (upd7 (W (Proc.devRef .tc main_v54))) := by
  unfold mainOps5
  after_results_simp
  after_reads
  rfl

theorem val_v81 : after (mainOps5 (F := F)) W (Proc.devRef .tc main_v81) = idxOperand0 (W (Proc.devRef .tc main_arg3)) := by
  unfold mainOps5
  after_results_simp
  after_reads
  rfl

theorem val_v87 : after (mainOps5 (F := F)) W (Proc.devRef .tc main_v87)
    = dealA (upd18 (half1 (padRows (W (Proc.devRef .tc main_arg3))))) := by
  unfold mainOps5
  after_results_simp
  rfl

theorem val_v89 : after (mainOps5 (F := F)) W (Proc.devRef .tc main_v89)
    = upd7 (half1 (padRows (W (Proc.devRef .tc main_arg3)))) := by
  unfold mainOps5
  after_results_simp
  rfl

theorem val_v93 : after (mainOps6 (F := F)) W (Proc.devRef .tc main_v93)
    = dealB (W (Proc.devRef .tc main_v87)) (W (Proc.devRef .tc main_v89)) := by
  unfold mainOps6
  after_results_simp
  after_reads
  rfl

end Stretch

/-! ## The four index operands after the whole host stretch -/

section Whole
variable (V : Valuation τ sig (Elt F))

/-- The contents when the last three stretches begin: the argument arrays are still the launch's. -/
theorem pre_arg (r : Ref sig .tc) (hr : r.idx.val < 6) :
    after (fn_argsort.ops (F := F) (.of main_v8) main_call3) (after mainOps3 (after (fn_argsort.ops (.of main_v17) main_call2)
      (after mainOps2 (after (fn_shuffle.ops (.of main_v15) (.of main_v16) main_call1) (after mainOps1
        (after (fn_shuffle.ops (.of main_v6) (.of main_v7) main_call0) (after mainOps0 V))))))) (Proc.devRef .tc r)
      = V (Proc.devRef .tc r) := by
  rw [keeps_argsort3 r (by omega), keeps_mainOps3 r (by omega), keeps_argsort2 r (by omega), keeps_mainOps2 r (by omega),
    keeps_shuffle1 r (by omega), keeps_mainOps1 r (by omega), keeps_shuffle0 r (by omega), keeps_mainOps0 r (by omega)]

/-- `idx_u` of the first gather call. -/
theorem idx_u0 : after (hostOps (F := F)) V (Proc.devRef .tc main_v53) = idxOperand0 (V (Proc.devRef .tc main_arg4)) := by
  rw [after_hostOps, keeps_mainOps6 main_v53 (by decide), keeps_mainOps5 main_v53 (by decide), val_v53,
    pre_arg V main_arg4 (by decide)]

/-- `idx_u` of the second gather call. -/
theorem idx_u1 : after (hostOps (F := F)) V (Proc.devRef .tc main_v65) = idxOperand1 (V (Proc.devRef .tc main_arg4)) := by
  rw [after_hostOps, keeps_mainOps6 main_v65 (by decide), val_v65, val_v59, val_v54, pre_arg V main_arg4 (by decide)]
  rfl

/-- `idx_i` of the first gather call. -/
theorem idx_i0 : after (hostOps (F := F)) V (Proc.devRef .tc main_v81) = idxOperand0 (V (Proc.devRef .tc main_arg3)) := by
  rw [after_hostOps, keeps_mainOps6 main_v81 (by decide), val_v81, keeps_mainOps4 main_arg3 (by decide),
    pre_arg V main_arg3 (by decide)]

/-- `idx_i` of the second gather call. -/
theorem idx_i1 : after (hostOps (F := F)) V (Proc.devRef .tc main_v93) = idxOperand1 (V (Proc.devRef .tc main_arg3)) := by
  rw [after_hostOps, val_v93, val_v87, val_v89, keeps_mainOps4 main_arg3 (by decide), pre_arg V main_arg3 (by decide)]
  rfl

end Whole

/-! ## A scatter that writes the update keeps any property of all operand elements and all updates -/

/-- A scatter whose body returns the update leaves every element either an element of the operand or an update:
    a property of all of those holds of every element of the result. -/
theorem scatter_set_forall {α : Type} {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  suffices h : ∀ (l : List (Fin u.numel)) (r : s.Idx → α), (∀ i, P (r i)) →
      ∀ i, P (l.foldl (fun r n => match d.resultIdx? (u.rowMajor.symm n) idx with
        | some i => fun i' => if i' = i then (fun _ b => b) (r i) (upd (u.rowMajor.symm n)) else r i'
        | none => r) r i) from h _ x hx i
  intro l
  induction l with
  | nil => intro r hr i; exact hr i
  | cons n l ih =>
    intro r hr i
    rw [List.foldl_cons]
    apply ih
    intro i'
    cases hres : d.resultIdx? (u.rowMajor.symm n) idx with
    | none => exact hr i'
    | some k =>
      dsimp only
      split
      · exact hu _
      · exact hr _

/-! ## Every word of an index operand is a word of the adjacency array or zero -/

section Range

/-- The range of row numbers the gathers may name. -/
abbrev InRange (w : BitVec 32) : Prop := w.toNat < 100000

theorem zeros_inRange {s : Shape} (h : S_.BroadcastsInDim s ![]) (i : s.Idx) :
    InRange (broadcastInDim s ![] h (constantI S_ 32 0#32) i) := by
  show (0#32 : BitVec 32).toNat < 100000
  decide

theorem half0_mem (f : IVec S800x128 32) (k : S400x128.Idx) : ∃ r, half0 f k = f r := ⟨_, rfl⟩
theorem half1_mem (f : IVec S800x128 32) (k : S400x128.Idx) : ∃ r, half1 f k = f r := ⟨_, rfl⟩
theorem upd18_mem (fh : IVec S400x128 32) (k : S16x18x128.Idx) : ∃ r, upd18 fh k = fh r := ⟨_, rfl⟩
theorem upd7_mem (fh : IVec S400x128 32) (k : S16x7x128.Idx) : ∃ r, upd7 fh k = fh r := ⟨_, rfl⟩

theorem padRows_inRange (adj : IVec S100000 32) (h : ∀ i, InRange (adj i)) (k : S800x128.Idx) : InRange (padRows adj k) := by
  unfold padRows shapeCast
  exact scatter_set_forall _ InRange _ _ _ (fun _ => zeros_inRange _ _) h _

theorem dealHalf_inRange (fh : IVec S400x128 32) (h : ∀ k, InRange (fh k)) (j : S32x18x128.Idx) : InRange (dealHalf fh j) := by
  unfold dealHalf dealB
  refine scatter_set_forall _ InRange _ _ _ (fun i => ?_) (fun k => ?_) j
  · unfold dealA
    refine scatter_set_forall _ InRange _ _ _ (fun _ => zeros_inRange _ _) (fun k => ?_) i
    obtain ⟨r, hr⟩ := upd18_mem fh k
    rw [hr]; exact h r
  · obtain ⟨r, hr⟩ := upd7_mem fh k
    rw [hr]; exact h r

theorem idxOperand0_inRange (adj : IVec S100000 32) (h : ∀ i, InRange (adj i)) (j : S32x18x128.Idx) :
    InRange (idxOperand0 adj j) :=
  dealHalf_inRange _ (fun k => by obtain ⟨r, hr⟩ := half0_mem (padRows adj) k; rw [hr]; exact padRows_inRange adj h r) j

theorem idxOperand1_inRange (adj : IVec S100000 32) (h : ∀ i, InRange (adj i)) (j : S32x18x128.Idx) :
    InRange (idxOperand1 adj j) :=
  dealHalf_inRange _ (fun k => by obtain ⟨r, hr⟩ := half1_mem (padRows adj) k; rw [hr]; exact padRows_inRange adj h r) j

/-- If every word of the two adjacency arrays names a row below 100000, so does every word of the four index operands. -/
theorem idx_words_inRange (V : Valuation τ sig (Elt F))
    (h4 : ∀ i, ((V (Proc.devRef .tc main_arg4) : IVec S100000 32) i).toNat < 100000)
    (h3 : ∀ i, ((V (Proc.devRef .tc main_arg3) : IVec S100000 32) i).toNat < 100000) :
    (∀ j, ((after (hostOps (F := F)) V (Proc.devRef .tc main_v53) : IVec S32x18x128 32) j).toNat < 100000) ∧
    (∀ j, ((after (hostOps (F := F)) V (Proc.devRef .tc main_v81) : IVec S32x18x128 32) j).toNat < 100000) ∧
    (∀ j, ((after (hostOps (F := F)) V (Proc.devRef .tc main_v65) : IVec S32x18x128 32) j).toNat < 100000) ∧
    (∀ j, ((after (hostOps (F := F)) V (Proc.devRef .tc main_v93) : IVec S32x18x128 32) j).toNat < 100000) := by
  rw [idx_u0, idx_i0, idx_u1, idx_i1]
  exact ⟨idxOperand0_inRange _ h4, idxOperand0_inRange _ h3, idxOperand1_inRange _ h4, idxOperand1_inRange _ h3⟩

end Range

end Cert.Kernel.HostVal
end
-- ==== Proof.PartsPreB.lean ====
/-
  From the precondition: the host stretch leaves the argument arrays alone, and every word of the four index operands the
  two SparseCore calls read names a row of its table.
-/
import proofs.«204681_g65575560675685_cont_9to1_m_144_57_alg».proof.Proof.RunB
import proofs.«204681_g65575560675685_cont_9to1_m_144_57_alg».proof.Proof.PreRange
import proofs.«204681_g65575560675685_cont_9to1_m_144_57_alg».proof.Proof.HostValIdxB

noncomputable section

namespace Cert.Kernel.Launch

open Cert.Kernel Cert.Kernel.Gen Cert.Kernel.Setup Cert.Kernel.HostOps Cert.Kernel.HostVal

open Idealize.ShloMosaic
open Idealize.ShloMosaic.SparseCore (S V T)
open Idealize.ShloMosaic.SparseCore.Cfg (HIx Pay)

variable {F : FTy → Type} [FloatOps F] [Cert.Pre_input_domain.Facts]
variable (m : (ℓ : Loc nD τ sig) → Buf (Elt F) ℓ)

/-- The precondition, as Defs.lean states it of a memory: `input_domain` of the six argument arrays is all ones on every device. -/
def PreM : Prop := ∀ c : Dev nD,
  Cert.Pre_input_domain.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = (fun _ => 1#1)

theorem keep_args (d : Dev nD) : ∀ b ∈ argRefs, V₁ m d b = V₀ m d b := by
  intro b hb
  simp only [argRefs, Finset.mem_insert, Finset.mem_singleton] at hb
  unfold V₁
  rcases hb with rfl | rfl | rfl | rfl | rfl | rfl
  · exact keeps_hostOps main_arg0 (Or.inl (by decide)) _
  · exact keeps_hostOps main_arg1 (Or.inl (by decide)) _
  · exact keeps_hostOps main_arg2 (Or.inl (by decide)) _
  · exact keeps_hostOps main_arg3 (Or.inl (by decide)) _
  · exact keeps_hostOps main_arg4 (Or.inl (by decide)) _
  · exact keeps_hostOps main_arg5 (Or.inl (by decide)) _

theorem pre_ok (h : PreM m) (d : Dev nD) :
    Cert.Proof.Kernel.ScTile0.PreOK d (A0 m d).gu (A0 m d).gi ∧ Cert.Proof.Kernel.ScTile1.PreOK d (A1 m d).gu (A1 m d).gi := by
  obtain ⟨h3, h4⟩ := Cert.Pre_input_domain.Range.range_of_pre _ _ _ _ _ _ (h d)
  obtain ⟨a, b, c, e⟩ := idx_words_inRange (F := F) (V₀ m d) h4 h3
  unfold Cert.Proof.Kernel.ScTile0.PreOK Cert.Proof.Kernel.ScTile1.PreOK A0 A1 ops0Of ops1Of V₁
  generalize StableHlo.after (hostOps (F := F)) (V₀ m d) = W at a b c e ⊢
  exact ⟨⟨a, b⟩, ⟨c, e⟩⟩

end Cert.Kernel.Launch

end
-- ==== Proof.SplitB.lean ====
/-
  The six operands of the first gather call split among the 32 tiles and joined back: each index operand into the
  tiles' slabs (slab 16 c + i of 32), each table into 32 read shares and a remainder, each output into the tiles'
  row ranges (core 0: 2304 rows from row 2304 i; core 1: 896 rows from row 36864 + 896 i; 16·2304 = 36864 and
  36864 + 16·896 = 51200, so the ranges tile the 51200 rows exactly).
-/
import proofs.«204681_g65575560675685_cont_9to1_m_144_57_alg».proof.Proof.PayB

noncomputable section

namespace Cert.Kernel.Launch

open Cert.Kernel Cert.Kernel.Gen Cert.Kernel.Setup
open Cert.Proof.Kernel.ScTile0

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The tiles' index sets -/

/-- The two coordinates of a grid point. -/
theorem pt0_val0 (c : Fin 2) (i : Fin 16) : (pt0 c i 0).val = c.val := rfl
theorem pt0_val1 (c : Fin 2) (i : Fin 16) : (pt0 c i 1).val = i.val := rfl

/-- A tile's slab of an index operand is the unit rectangle of its one slab. -/
theorem iuSlab_set (L : grid0.Coords) :
    (iuSlab L).view.set = (Rect.unit (s := S32x18x128) (k0_off1 L) S1x18x128.size (k0_off1_inb L)).set := by
  simp only [Memref.view_squeeze, Memref.view_slice, Memref.view_whole, View.set_reshape, View.set_slice_whole]
theorem iiSlab_set (L : grid0.Coords) :
    (iiSlab L).view.set = (Rect.unit (s := S32x18x128) (k0_off1 L) S1x18x128.size (k0_off1_inb L)).set := by
  simp only [Memref.view_squeeze, Memref.view_slice, Memref.view_whole, View.set_reshape, View.set_slice_whole]

/-- An index of an index operand is in slab 16 c + i exactly when its first coordinate is 16 c + i. -/
theorem mem_slab (L : grid0.Coords) (j : S32x18x128.Idx) :
    j ∈ (Rect.unit (s := S32x18x128) (k0_off1 L) S1x18x128.size (k0_off1_inb L)).set
      ↔ (j 0).val = 16 * (L 0).val + (L 1).val := by
  rw [Rect.mem_set_unit, k0_off1_eq]
  have h1 := (j 1).isLt
  have h2 := (j 2).isLt
  constructor
  · intro h
    have := h 0
    simp at this
    omega
  · intro h a
    match a with
    | ⟨0, _⟩ => simp; omega
    | ⟨1, _⟩ => simp; exact h1
    | ⟨2, _⟩ => simp; exact h2

/-- The slabs of two different tiles are disjoint, and the 32 slabs cover an index operand. -/
theorem slab_disjoint (t t' : Fin 2 × Fin 16) (h : t ≠ t') :
    Disjoint (Rect.unit (s := S32x18x128) (k0_off1 (pt0 t.1 t.2)) S1x18x128.size (k0_off1_inb _)).set
      (Rect.unit (s := S32x18x128) (k0_off1 (pt0 t'.1 t'.2)) S1x18x128.size (k0_off1_inb _)).set := by
  rw [Finset.disjoint_left]
  intro j hj hj'
  rw [mem_slab, pt0_val0, pt0_val1] at hj hj'
  apply h
  have h2 := t.2.isLt
  have h2' := t'.2.isLt
  exact Prod.ext (Fin.ext (by omega)) (Fin.ext (by omega))

theorem slab_cover :
    (Finset.univ : Finset (Fin 2 × Fin 16)).biUnion (fun t =>
      (Rect.unit (s := S32x18x128) (k0_off1 (pt0 t.1 t.2)) S1x18x128.size (k0_off1_inb _)).set) = Finset.univ := by
  ext j
  simp only [Finset.mem_biUnion, Finset.mem_univ, true_and, iff_true]
  have h0 : (j 0).val < 32 := (j 0).isLt
  refine ⟨(⟨(j 0).val / 16, by omega⟩, ⟨(j 0).val % 16, by omega⟩), ?_⟩
  rw [mem_slab, pt0_val0, pt0_val1]
  show (j 0).val = 16 * ((j 0).val / 16) + (j 0).val % 16
  omega

/-- A chunk of a tile's rows of an output is the unit rectangle of its 128 rows. -/
theorem ouC0_set (L : grid0.Coords) (h1 : k0_cond1 L = 1#1) (r : Fin 18) :
    (ouC0 L h1 r).view.set
      = (Rect.unit (s := S51200x128) (k0_off2 L (BitVec.ofNat 32 (128 * r.val))) S128x128.size (k0_off2_inb L h1 r)).set := by
  simp only [Memref.view_slice, Memref.view_whole, View.set_slice_whole]
theorem ouC1_set (L : grid0.Coords) (h2 : k0_cond2 L = 1#1) (r : Fin 7) :
    (ouC1 L h2 r).view.set
      = (Rect.unit (s := S51200x128) (k0_off3 L (BitVec.ofNat 32 (128 * r.val))) S128x128.size (k0_off3_inb L h2 r)).set := by
  simp only [Memref.view_slice, Memref.view_whole, View.set_slice_whole]

theorem mem_chunk0 (L : grid0.Coords) (h1 : k0_cond1 L = 1#1) (r : Fin 18) (j : S51200x128.Idx) :
    j ∈ (Rect.unit (s := S51200x128) (k0_off2 L (BitVec.ofNat 32 (128 * r.val))) S128x128.size (k0_off2_inb L h1 r)).set
      ↔ 2304 * (L 1).val + 128 * r.val ≤ (j 0).val ∧ (j 0).val < 2304 * (L 1).val + 128 * r.val + 128 := by
  rw [Rect.mem_set_unit, k0_off2_eq]
  have h1' := (j 1).isLt
  constructor
  · intro h
    have := h 0
    simpa using this
  · intro h a
    match a with
    | ⟨0, _⟩ => simpa using h
    | ⟨1, _⟩ => simp; exact h1'

theorem mem_chunk1 (L : grid0.Coords) (h2 : k0_cond2 L = 1#1) (r : Fin 7) (j : S51200x128.Idx) :
    j ∈ (Rect.unit (s := S51200x128) (k0_off3 L (BitVec.ofNat 32 (128 * r.val))) S128x128.size (k0_off3_inb L h2 r)).set
      ↔ 896 * (L 1).val + 128 * r.val + 36864 ≤ (j 0).val ∧ (j 0).val < 896 * (L 1).val + 128 * r.val + 36864 + 128 := by
  rw [Rect.mem_set_unit, k0_off3_eq]
  have h1' := (j 1).isLt
  constructor
  · intro h
    have := h 0
    simpa using this
  · intro h a
    match a with
    | ⟨0, _⟩ => simpa using h
    | ⟨1, _⟩ => simp; exact h1'

/-- A tile's rows of an output on core 0: the 2304 rows from row 2304 i; on core 1: the 896 rows from row
    36864 + 896 i. -/
theorem mem_outSet0 (L : grid0.Coords) (h1 : k0_cond1 L = 1#1) (j : S51200x128.Idx) :
    j ∈ outSet0 L h1 ↔ 2304 * (L 1).val ≤ (j 0).val ∧ (j 0).val < 2304 * (L 1).val + 2304 := by
  unfold outSet0
  rw [Finset.mem_biUnion]
  constructor
  · rintro ⟨r, -, hr⟩
    rw [ouC0_set, mem_chunk0 L h1] at hr
    have := r.isLt
    omega
  · intro h
    refine ⟨⟨((j 0).val - 2304 * (L 1).val) / 128, by omega⟩, Finset.mem_univ _, ?_⟩
    rw [ouC0_set, mem_chunk0 L h1]
    show 2304 * (L 1).val + 128 * (((j 0).val - 2304 * (L 1).val) / 128) ≤ (j 0).val
      ∧ (j 0).val < 2304 * (L 1).val + 128 * (((j 0).val - 2304 * (L 1).val) / 128) + 128
    omega

theorem mem_outSet1 (L : grid0.Coords) (h2 : k0_cond2 L = 1#1) (j : S51200x128.Idx) :
    j ∈ outSet1 L h2 ↔ 36864 + 896 * (L 1).val ≤ (j 0).val ∧ (j 0).val < 36864 + 896 * (L 1).val + 896 := by
  unfold outSet1
  rw [Finset.mem_biUnion]
  constructor
  · rintro ⟨r, -, hr⟩
    rw [ouC1_set, mem_chunk1 L h2] at hr
    have := r.isLt
    omega
  · intro h
    refine ⟨⟨((j 0).val - 36864 - 896 * (L 1).val) / 128, by omega⟩, Finset.mem_univ _, ?_⟩
    rw [ouC1_set, mem_chunk1 L h2]
    show 896 * (L 1).val + 128 * (((j 0).val - 36864 - 896 * (L 1).val) / 128) + 36864 ≤ (j 0).val
      ∧ (j 0).val < 896 * (L 1).val + 128 * (((j 0).val - 36864 - 896 * (L 1).val) / 128) + 36864 + 128
    omega

/-- A tile's rows of an output, whichever core it is on. -/
def outSetT (t : Fin 2 × Fin 16) : Finset S51200x128.Idx :=
  if h : t.1.val = 0 then outSet0 (pt0 t.1 t.2) (cond1_pt0 t.1 t.2 h) else outSet1 (pt0 t.1 t.2) (cond2_pt0 t.1 t.2 h)

theorem mem_outSetT (t : Fin 2 × Fin 16) (j : S51200x128.Idx) :
    j ∈ outSetT t ↔ (if t.1.val = 0 then 2304 * t.2.val else 36864 + 896 * t.2.val) ≤ (j 0).val
      ∧ (j 0).val < (if t.1.val = 0 then 2304 * t.2.val + 2304 else 36864 + 896 * t.2.val + 896) := by
  unfold outSetT
  split
  · rename_i h
    rw [mem_outSet0, pt0_val1]
  · rename_i h
    rw [mem_outSet1, pt0_val1]

/-- The row ranges of two different tiles are disjoint, and the 32 ranges cover an output. -/
theorem outSetT_disjoint (t t' : Fin 2 × Fin 16) (h : t ≠ t') : Disjoint (outSetT t) (outSetT t') := by
  rw [Finset.disjoint_left]
  intro j hj hj'
  rw [mem_outSetT] at hj hj'
  apply h
  have h1 := t.1.isLt
  have h1' := t'.1.isLt
  have h2 := t.2.isLt
  have h2' := t'.2.isLt
  refine Prod.ext (Fin.ext ?_) (Fin.ext ?_) <;> (split_ifs at hj hj' <;> omega)

theorem outSetT_cover : (Finset.univ : Finset (Fin 2 × Fin 16)).biUnion outSetT = Finset.univ := by
  ext j
  simp only [Finset.mem_biUnion, Finset.mem_univ, true_and, iff_true]
  have h0 : (j 0).val < 51200 := (j 0).isLt
  by_cases hc : (j 0).val < 36864
  · refine ⟨(⟨0, by omega⟩, ⟨(j 0).val / 2304, by omega⟩), ?_⟩
    rw [mem_outSetT]
    show (if (0 : Nat) = 0 then 2304 * ((j 0).val / 2304) else 36864 + 896 * ((j 0).val / 2304)) ≤ (j 0).val
      ∧ (j 0).val < (if (0 : Nat) = 0 then 2304 * ((j 0).val / 2304) + 2304 else 36864 + 896 * ((j 0).val / 2304) + 896)
    rw [if_pos rfl, if_pos rfl]
    omega
  · refine ⟨(⟨1, by omega⟩, ⟨((j 0).val - 36864) / 896, by omega⟩), ?_⟩
    rw [mem_outSetT]
    show (if (1 : Nat) = 0 then 2304 * (((j 0).val - 36864) / 896) else 36864 + 896 * (((j 0).val - 36864) / 896)) ≤ (j 0).val
      ∧ (j 0).val < (if (1 : Nat) = 0 then 2304 * (((j 0).val - 36864) / 896) + 2304
          else 36864 + 896 * (((j 0).val - 36864) / 896) + 896)
    rw [if_neg Nat.one_ne_zero, if_neg Nat.one_ne_zero]
    omega

/-! ## The 32 tiles as one index type -/

/-- Tile (c, i) is cell 16 c + i of the 32. -/
def tileEquiv : Fin 2 × Fin 16 ≃ Fin 32 where
  toFun t := ⟨16 * t.1.val + t.2.val, by have := t.1.isLt; have := t.2.isLt; omega⟩
  invFun k := (⟨k.val / 16, by have := k.isLt; omega⟩, ⟨k.val % 16, by omega⟩)
  left_inv t := by
    have h1 := t.1.isLt
    have h2 := t.2.isLt
    refine Prod.ext (Fin.ext ?_) (Fin.ext ?_)
    · show (16 * t.1.val + t.2.val) / 16 = t.1.val
      omega
    · show (16 * t.1.val + t.2.val) % 16 = t.2.val
      omega
  right_inv k := by
    refine Fin.ext ?_
    show 16 * (k.val / 16) + k.val % 16 = k.val
    omega

/-- One tile's resources, the outputs' rows at any contents. -/
abbrev resT (d : Dev nD) (t : Fin 2 × Fin 16) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) :
    sProp (MT nD τ sig (HIx 2) (Elt F) ℕ UU ℕ) :=
  iprop((iuLoc d ↦[(iuSlab (pt0 t.1 t.2)).view.set]{fullShare} gu) ∗ (iiLoc d ↦[(iiSlab (pt0 t.1 t.2)).view.set]{fullShare} gi)
    ∗ (tuLoc d ↦{tq t.1 t.2} fu) ∗ (tiLoc d ↦{tq t.1 t.2} fi)
    ∗ (ouLoc d ↦[outSetT t]{fullShare} ou) ∗ (oiLoc d ↦[outSetT t]{fullShare} oi))

theorem go0_eq (d : Dev nD) (A : Ops0 F d) (c : Fin 2) (i : Fin 16) :
    go0 d A c i = resT d (c, i) A.fu A.fi A.gu A.gi A.ou A.oi := by
  by_cases h : c.val = 0
  · have e : outSetT (c, i) = outSet0 (pt0 c i) (cond1_pt0 c i h) := dif_pos h
    unfold go0 resT
    rw [dif_pos h, e]
  · have e : outSetT (c, i) = outSet1 (pt0 c i) (cond2_pt0 c i h) := dif_neg h
    unfold go0 resT
    rw [dif_neg h, e]

theorem td0_eq (d : Dev nD) (A : Ops0 F d) (c : Fin 2) (i : Fin 16) :
    td0 d A c i = iprop(∃ ou' oi', resT d (c, i) A.fu A.fi A.gu A.gi ou' oi') := by
  by_cases h : c.val = 0
  · have e : outSetT (c, i) = outSet0 (pt0 c i) (cond1_pt0 c i h) := dif_pos h
    unfold td0 resT
    rw [dif_pos h, e]
  · have e : outSetT (c, i) = outSet1 (pt0 c i) (cond2_pt0 c i h) := dif_neg h
    unfold td0 resT
    rw [dif_neg h, e]

/-- The 32 tiles' resources at once, regrouped by operand. -/
theorem tiles_eq (d : Dev nD) (fu : Buf (Elt F) (tuLoc d)) (fi : Buf (Elt F) (tiLoc d))
    (gu : Buf (Elt F) (iuLoc d)) (gi : Buf (Elt F) (iiLoc d))
    (ous : Fin 2 × Fin 16 → Buf (Elt F) (ouLoc d)) (ois : Fin 2 × Fin 16 → Buf (Elt F) (oiLoc d)) :
    (bigSep Finset.univ fun c : Fin 2 => bigSep Finset.univ fun i : Fin 16 => resT d (c, i) fu fi gu gi (ous (c, i)) (ois (c, i)))
      = (iprop((bigSep Finset.univ fun t : Fin 2 × Fin 16 => iuLoc d ↦[(iuSlab (pt0 t.1 t.2)).view.set]{fullShare} gu)
        ∗ (bigSep Finset.univ fun t : Fin 2 × Fin 16 => iiLoc d ↦[(iiSlab (pt0 t.1 t.2)).view.set]{fullShare} gi)
        ∗ (bigSep Finset.univ fun t : Fin 2 × Fin 16 => tuLoc d ↦{tq t.1 t.2} fu)
        ∗ (bigSep Finset.univ fun t : Fin 2 × Fin 16 => tiLoc d ↦{tq t.1 t.2} fi)
        ∗ (bigSep Finset.univ fun t : Fin 2 × Fin 16 => ouLoc d ↦[outSetT t]{fullShare} ous t)
        ∗ (bigSep Finset.univ fun t : Fin 2 × Fin 16 => oiLoc d ↦[outSetT t]{fullShare} ois t)) : sProp 𝕄) := by
  rw [← SparseCore.bigSep_product Finset.univ Finset.univ
    (fun t : Fin 2 × Fin 16 => resT d t fu fi gu gi (ous t) (ois t)), Finset.univ_product_univ]
  unfold resT
  rw [bigSep_sep', bigSep_sep', bigSep_sep', bigSep_sep', bigSep_sep']

/-! ## Each operand split and joined -/

/-- The tiles' slabs of the two index operands. -/
abbrev slabU (t : Fin 2 × Fin 16) : Finset S32x18x128.Idx := (iuSlab (pt0 t.1 t.2)).view.set
abbrev slabI (t : Fin 2 × Fin 16) : Finset S32x18x128.Idx := (iiSlab (pt0 t.1 t.2)).view.set

theorem slabU_disjoint : ∀ t ∈ (Finset.univ : Finset (Fin 2 × Fin 16)), ∀ t' ∈ (Finset.univ : Finset (Fin 2 × Fin 16)),
    t ≠ t' → Disjoint (slabU t) (slabU t') :=
  fun t _ t' _ h => by rw [slabU, slabU, iuSlab_set, iuSlab_set]; exact slab_disjoint t t' h
theorem slabI_disjoint : ∀ t ∈ (Finset.univ : Finset (Fin 2 × Fin 16)), ∀ t' ∈ (Finset.univ : Finset (Fin 2 × Fin 16)),
    t ≠ t' → Disjoint (slabI t) (slabI t') :=
  fun t _ t' _ h => by rw [slabI, slabI, iiSlab_set, iiSlab_set]; exact slab_disjoint t t' h
theorem slabU_cover : (Finset.univ : Finset (Fin 2 × Fin 16)).biUnion slabU = Finset.univ :=
  (Finset.biUnion_congr rfl fun t _ => iuSlab_set (pt0 t.1 t.2)).trans slab_cover
theorem slabI_cover : (Finset.univ : Finset (Fin 2 × Fin 16)).biUnion slabI = Finset.univ :=
  (Finset.biUnion_congr rfl fun t _ => iiSlab_set (pt0 t.1 t.2)).trans slab_cover
theorem outSetT_disjoint' : ∀ t ∈ (Finset.univ : Finset (Fin 2 × Fin 16)), ∀ t' ∈ (Finset.univ : Finset (Fin 2 × Fin 16)),
    t ≠ t' → Disjoint (outSetT t) (outSetT t') :=
  fun t _ t' _ h => outSetT_disjoint t t' h

/-- An index operand is its 32 slabs. -/
theorem iu_slabs (d : Dev nD) (gu : Buf (Elt F) (iuLoc d)) :
    (iuLoc d ↦{fullShare} gu : sProp 𝕄) = bigSep Finset.univ fun t : Fin 2 × Fin 16 => iuLoc d ↦[slabU t]{fullShare} gu := by
  rw [← pointsTo_biUnion Finset.univ (ℓ := iuLoc d) slabU slabU_disjoint, slabU_cover]; try rfl
theorem ii_slabs (d : Dev nD) (gi : Buf (Elt F) (iiLoc d)) :
    (iiLoc d ↦{fullShare} gi : sProp 𝕄) = bigSep Finset.univ fun t : Fin 2 × Fin 16 => iiLoc d ↦[slabI t]{fullShare} gi := by
  rw [← pointsTo_biUnion Finset.univ (ℓ := iiLoc d) slabI slabI_disjoint, slabI_cover]; try rfl

/-- An output is the 32 tiles' row ranges. -/
theorem ou_rows (d : Dev nD) (ou : Buf (Elt F) (ouLoc d)) :
    (ouLoc d ↦{fullShare} ou : sProp 𝕄) = bigSep Finset.univ fun t : Fin 2 × Fin 16 => ouLoc d ↦[outSetT t]{fullShare} ou := by
  rw [← pointsTo_biUnion Finset.univ (ℓ := ouLoc d) outSetT outSetT_disjoint', outSetT_cover]; try rfl
theorem oi_rows (d : Dev nD) (oi : Buf (Elt F) (oiLoc d)) :
    (oiLoc d ↦{fullShare} oi : sProp 𝕄) = bigSep Finset.univ fun t : Fin 2 × Fin 16 => oiLoc d ↦[outSetT t]{fullShare} oi := by
  rw [← pointsTo_biUnion Finset.univ (ℓ := oiLoc d) outSetT outSetT_disjoint', outSetT_cover]; try rfl

/-- The tiles' row ranges of an output, held at contents of the tiles' making, join into the output at some contents. -/
theorem ou_join (d : Dev nD) (ous : Fin 2 × Fin 16 → Buf (Elt F) (ouLoc d)) :
    (bigSep Finset.univ fun t : Fin 2 × Fin 16 => ouLoc d ↦[outSetT t]{fullShare} ous t)
      ⊢ (iprop(∃ g, ouLoc d ↦{fullShare} g) : sProp 𝕄) := by
  iintro H
  ihave H' := (pointsTo_biUnion_join (ℓ := ouLoc d) (q := fullShare) (Val := Elt F) Finset.univ outSetT ous
    (ous (0, 0)) outSetT_disjoint') $$ H
  icases H' with ⟨%g, -, Hg⟩
  rw [outSetT_cover]
  iexists g; iexact Hg
theorem oi_join (d : Dev nD) (ois : Fin 2 × Fin 16 → Buf (Elt F) (oiLoc d)) :
    (bigSep Finset.univ fun t : Fin 2 × Fin 16 => oiLoc d ↦[outSetT t]{fullShare} ois t)
      ⊢ (iprop(∃ g, oiLoc d ↦{fullShare} g) : sProp 𝕄) := by
  iintro H
  ihave H' := (pointsTo_biUnion_join (ℓ := oiLoc d) (q := fullShare) (Val := Elt F) Finset.univ outSetT ois
    (ois (0, 0)) outSetT_disjoint') $$ H
  icases H' with ⟨%g, -, Hg⟩
  rw [outSetT_cover]
  iexists g; iexact Hg

/-- A table at the full share is the remainder after 32 read shares and the 32 tiles' read shares. -/
theorem tu_shares (d : Dev nD) (fu : Buf (Elt F) (tuLoc d)) :
    (tuLoc d ↦{fullShare} fu : sProp 𝕄)
      ⊣⊢ iprop((tuLoc d ↦{Transfers.shareDrop fullShare 32} fu) ∗ bigSep Finset.univ fun t : Fin 2 × Fin 16 => tuLoc d ↦{tq t.1 t.2} fu) := by
  have e : (bigSep Finset.univ fun t : Fin 2 × Fin 16 => (tuLoc d ↦{tq t.1 t.2} fu : sProp 𝕄))
      = bigSep Finset.univ fun k : Fin 32 => tuLoc d ↦{Transfers.shareTok fullShare 32 k} fu :=
    (bigSep_univ_equiv tileEquiv fun k : Fin 32 => (tuLoc d ↦{Transfers.shareTok fullShare 32 k} fu : sProp 𝕄)).symm
  rw [e]
  exact Transfers.pointsTo_toks fullShare 32
theorem ti_shares (d : Dev nD) (fi : Buf (Elt F) (tiLoc d)) :
    (tiLoc d ↦{fullShare} fi : sProp 𝕄)
      ⊣⊢ iprop((tiLoc d ↦{Transfers.shareDrop fullShare 32} fi) ∗ bigSep Finset.univ fun t : Fin 2 × Fin 16 => tiLoc d ↦{tq t.1 t.2} fi) := by
  have e : (bigSep Finset.univ fun t : Fin 2 × Fin 16 => (tiLoc d ↦{tq t.1 t.2} fi : sProp 𝕄))
      = bigSep Finset.univ fun k : Fin 32 => tiLoc d ↦{Transfers.shareTok fullShare 32 k} fi :=
    (bigSep_univ_equiv tileEquiv fun k : Fin 32 => (tiLoc d ↦{Transfers.shareTok fullShare 32 k} fi : sProp 𝕄)).symm
  rw [e]
  exact Transfers.pointsTo_toks fullShare 32

/-! ## The call's operands split among the tiles, and joined back -/

/-- A sum over the cores of sums over the subcores is the sum over the 32 tiles. -/
theorem bigSep_tiles (Φ : Fin 2 × Fin 16 → sProp (MT nD τ sig (HIx 2) (Elt F) ℕ UU ℕ)) :
    (bigSep Finset.univ fun c : Fin 2 => bigSep Finset.univ fun i : Fin 16 => Φ (c, i)) = bigSep Finset.univ Φ := by
  rw [← SparseCore.bigSep_product Finset.univ Finset.univ Φ, Finset.univ_product_univ]

theorem split0 (d : Dev nD) (A : Ops0 F d) :
    (iprop((tuLoc d ↦{fullShare} A.fu) ∗ (tiLoc d ↦{fullShare} A.fi) ∗ (iuLoc d ↦{fullShare} A.gu) ∗ (iiLoc d ↦{fullShare} A.gi)
        ∗ (ouLoc d ↦{fullShare} A.ou) ∗ (oiLoc d ↦{fullShare} A.oi)) : sProp 𝕄)
      ⊢ iprop(((tuLoc d ↦{Transfers.shareDrop fullShare 32} A.fu) ∗ (tiLoc d ↦{Transfers.shareDrop fullShare 32} A.fi))
        ∗ bigSep Finset.univ fun c : Fin 2 => bigSep Finset.univ fun i : Fin 16 => go0 d A c i) := by
  have e : (bigSep Finset.univ fun c : Fin 2 => bigSep Finset.univ fun i : Fin 16 => go0 d A c i)
      = bigSep Finset.univ fun c : Fin 2 => bigSep Finset.univ fun i : Fin 16 =>
          resT d (c, i) A.fu A.fi A.gu A.gi A.ou A.oi :=
    bigSep_congr fun c _ => bigSep_congr fun i _ => go0_eq d A c i
  have h6 := tiles_eq d A.fu A.fi A.gu A.gi (fun _ => A.ou) (fun _ => A.oi)
  beta_reduce at h6
  rw [e, h6, ← iu_slabs, ← ii_slabs, ← ou_rows, ← oi_rows]
  iintro ⟨Htu, Hti, Hiu, Hii, Hou, Hoi⟩
  ihave Htu' := (tu_shares d A.fu).1 $$ Htu
  icases Htu' with ⟨HtuD, HtuT⟩
  ihave Hti' := (ti_shares d A.fi).1 $$ Hti
  icases Hti' with ⟨HtiD, HtiT⟩
  isplitl [HtuD HtiD]
  · isplitl [HtuD]; · iexact HtuD
    iexact HtiD
  isplitl [Hiu]; · iexact Hiu
  isplitl [Hii]; · iexact Hii
  isplitl [HtuT]; · iexact HtuT
  isplitl [HtiT]; · iexact HtiT
  isplitl [Hou]; · iexact Hou
  iexact Hoi

/-- The tiles' hand-backs as one choice, per tile, of the contents of its rows of the two outputs. -/
theorem td0_choice (d : Dev nD) (A : Ops0 F d) :
    (bigSep Finset.univ fun c : Fin 2 => bigSep Finset.univ fun i : Fin 16 => td0 d A c i)
      ⊢ (iprop(∃ y : Fin 2 × Fin 16 → Buf (Elt F) (ouLoc d) × Buf (Elt F) (oiLoc d),
          bigSep Finset.univ fun c : Fin 2 => bigSep Finset.univ fun i : Fin 16 =>
            resT d (c, i) A.fu A.fi A.gu A.gi (y (c, i)).1 (y (c, i)).2) : sProp 𝕄) := by
  haveI : Nonempty (Buf (Elt F) (ouLoc d) × Buf (Elt F) (oiLoc d)) := ⟨(A.ou, A.oi)⟩
  rw [bigSep_tiles fun t => td0 d A t.1 t.2]
  refine (bigSep_mono (Ψ := fun t : Fin 2 × Fin 16 =>
      iprop(∃ y : Buf (Elt F) (ouLoc d) × Buf (Elt F) (oiLoc d), resT d t A.fu A.fi A.gu A.gi y.1 y.2)) fun t _ => ?_).trans
    ((bigSep_exists_pi Finset.univ fun (t : Fin 2 × Fin 16) (y : Buf (Elt F) (ouLoc d) × Buf (Elt F) (oiLoc d)) =>
      resT d t A.fu A.fi A.gu A.gi y.1 y.2).trans ?_)
  · rw [td0_eq]
    show (iprop(∃ ou' oi', resT d (t.1, t.2) A.fu A.fi A.gu A.gi ou' oi') : sProp 𝕄)
      ⊢ iprop(∃ y : Buf (Elt F) (ouLoc d) × Buf (Elt F) (oiLoc d), resT d t A.fu A.fi A.gu A.gi y.1 y.2)
    iintro ⟨%ou', %oi', H⟩
    iexists (ou', oi'); iexact H
  · iintro ⟨%y, H⟩
    iexists y
    rw [bigSep_tiles fun t => resT d t A.fu A.fi A.gu A.gi (y t).1 (y t).2]
    iexact H

theorem join0 (d : Dev nD) (A : Ops0 F d) :
    (iprop(((tuLoc d ↦{Transfers.shareDrop fullShare 32} A.fu) ∗ (tiLoc d ↦{Transfers.shareDrop fullShare 32} A.fi))
        ∗ bigSep Finset.univ fun c : Fin 2 => bigSep Finset.univ fun i : Fin 16 => td0 d A c i) : sProp 𝕄)
      ⊢ iprop((tuLoc d ↦{fullShare} A.fu) ∗ (tiLoc d ↦{fullShare} A.fi) ∗ (iuLoc d ↦{fullShare} A.gu) ∗ (iiLoc d ↦{fullShare} A.gi)
        ∗ ∃ ou' oi', (ouLoc d ↦{fullShare} ou') ∗ (oiLoc d ↦{fullShare} oi')) := by
  refine (sep_mono_right (td0_choice d A)).trans ?_
  iintro ⟨⟨HtuD, HtiD⟩, %y, HT⟩
  have h6 := tiles_eq d A.fu A.fi A.gu A.gi (fun t => (y t).1) (fun t => (y t).2)
  beta_reduce at h6
  ihave H6 := (Entails.of_eq h6) $$ HT
  icases H6 with ⟨Hiu, Hii, HtuT, HtiT, Hou, Hoi⟩
  isplitl [HtuD HtuT]
  · iapply (tu_shares d A.fu).2
    isplitl [HtuD]; · iexact HtuD
    iexact HtuT
  isplitl [HtiD HtiT]
  · iapply (ti_shares d A.fi).2
    isplitl [HtiD]; · iexact HtiD
    iexact HtiT
  isplitl [Hiu]
  · rw [iu_slabs]; iexact Hiu
  isplitl [Hii]
  · rw [ii_slabs]; iexact Hii
  ihave Ho := (ou_join d fun t => (y t).1) $$ Hou
  icases Ho with ⟨%gu', Hou⟩
  ihave Ho2 := (oi_join d fun t => (y t).2) $$ Hoi
  icases Ho2 with ⟨%gi', Hoi⟩
  iexists gu'; iexists gi'
  isplitl [Hou]; · iexact Hou
  iexact Hoi

end Cert.Kernel.Launch

end
-- ==== Proof.Split1B.lean ====
/-
  The six operands of the second gather call split among the 32 tiles and joined back: each index operand into the
  tiles' slabs (slab 16 c + i of 32), each table into 32 read shares and a remainder, each output into the tiles'
  row ranges (core 0: 2304 rows from row 2304 i; core 1: 896 rows from row 36864 + 896 i; 16·2304 = 36864 and
  36864 + 16·896 = 51200, so the ranges tile the 51200 rows exactly).
-/
import proofs.«204681_g65575560675685_cont_9to1_m_144_57_alg».proof.Proof.PayB

noncomputable section

namespace Cert.Kernel.Launch

open Cert.Kernel Cert.Kernel.Gen Cert.Kernel.Setup
open Cert.Proof.Kernel.ScTile1

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

namespace Call1

/-! ## The tiles' index sets -/

/-- The two coordinates of a grid point. -/
theorem pt1_val0 (c : Fin 2) (i : Fin 16) : (pt1 c i 0).val = c.val := rfl
theorem pt1_val1 (c : Fin 2) (i : Fin 16) : (pt1 c i 1).val = i.val := rfl

/-- A tile's slab of an index operand is the unit rectangle of its one slab. -/
theorem iuSlab_set (L : grid1.Coords) :
    (iuSlab L).view.set = (Rect.unit (s := S32x18x128) (k1_off1 L) S1x18x128.size (k1_off1_inb L)).set := by
  simp only [Memref.view_squeeze, Memref.view_slice, Memref.view_whole, View.set_reshape, View.set_slice_whole]
theorem iiSlab_set (L : grid1.Coords) :
    (iiSlab L).view.set = (Rect.unit (s := S32x18x128) (k1_off1 L) S1x18x128.size (k1_off1_inb L)).set := by
  simp only [Memref.view_squeeze, Memref.view_slice, Memref.view_whole, View.set_reshape, View.set_slice_whole]

/-- An index of an index operand is in slab 16 c + i exactly when its first coordinate is 16 c + i. -/
theorem mem_slab (L : grid1.Coords) (j : S32x18x128.Idx) :
    j ∈ (Rect.unit (s := S32x18x128) (k1_off1 L) S1x18x128.size (k1_off1_inb L)).set
      ↔ (j 0).val = 16 * (L 0).val + (L 1).val := by
  rw [Rect.mem_set_unit, k1_off1_eq]
  have h1 := (j 1).isLt
  have h2 := (j 2).isLt
  constructor
  · intro h
    have := h 0
    simp at this
    omega
  · intro h a
    match a with
    | ⟨0, _⟩ => simp; omega
    | ⟨1, _⟩ => simp; exact h1
    | ⟨2, _⟩ => simp; exact h2

/-- The slabs of two different tiles are disjoint, and the 32 slabs cover an index operand. -/
theorem slab_disjoint (t t' : Fin 2 × Fin 16) (h : t ≠ t') :
    Disjoint (Rect.unit (s := S32x18x128) (k1_off1 (pt1 t.1 t.2)) S1x18x128.size (k1_off1_inb _)).set
      (Rect.unit (s := S32x18x128) (k1_off1 (pt1 t'.1 t'.2)) S1x18x128.size (k1_off1_inb _)).set := by
  rw [Finset.disjoint_left]
  intro j hj hj'
  rw [mem_slab, pt1_val0, pt1_val1] at hj hj'
  apply h
  have h2 := t.2.isLt
  have h2' := t'.2.isLt
  exact Prod.ext (Fin.ext (by omega)) (Fin.ext (by omega))

theorem slab_cover :
    (Finset.univ : Finset (Fin 2 × Fin 16)).biUnion (fun t =>
      (Rect.unit (s := S32x18x128) (k1_off1 (pt1 t.1 t.2)) S1x18x128.size (k1_off1_inb _)).set) = Finset.univ := by
  ext j
  simp only [Finset.mem_biUnion, Finset.mem_univ, true_and, iff_true]
  have h0 : (j 0).val < 32 := (j 0).isLt
  refine ⟨(⟨(j 0).val / 16, by omega⟩, ⟨(j 0).val % 16, by omega⟩), ?_⟩
  rw [mem_slab, pt1_val0, pt1_val1]
  show (j 0).val = 16 * ((j 0).val / 16) + (j 0).val % 16
  omega

/-- A chunk of a tile's rows of an output is the unit rectangle of its 128 rows. -/
theorem ouC0_set (L : grid1.Coords) (h1 : k1_cond1 L = 1#1) (r : Fin 18) :
    (ouC0 L h1 r).view.set
      = (Rect.unit (s := S51200x128) (k1_off2 L (BitVec.ofNat 32 (128 * r.val))) S128x128.size (k1_off2_inb L h1 r)).set := by
  simp only [Memref.view_slice, Memref.view_whole, View.set_slice_whole]
theorem ouC1_set (L : grid1.Coords) (h2 : k1_cond2 L = 1#1) (r : Fin 7) :
    (ouC1 L h2 r).view.set
      = (Rect.unit (s := S51200x128) (k1_off3 L (BitVec.ofNat 32 (128 * r.val))) S128x128.size (k1_off3_inb L h2 r)).set := by
  simp only [Memref.view_slice, Memref.view_whole, View.set_slice_whole]

theorem mem_chunk0 (L : grid1.Coords) (h1 : k1_cond1 L = 1#1) (r : Fin 18) (j : S51200x128.Idx) :
    j ∈ (Rect.unit (s := S51200x128) (k1_off2 L (BitVec.ofNat 32 (128 * r.val))) S128x128.size (k1_off2_inb L h1 r)).set
      ↔ 2304 * (L 1).val + 128 * r.val ≤ (j 0).val ∧ (j 0).val < 2304 * (L 1).val + 128 * r.val + 128 := by
  rw [Rect.mem_set_unit, k1_off2_eq]
  have h1' := (j 1).isLt
  constructor
  · intro h
    have := h 0
    simpa using this
  · intro h a
    match a with
    | ⟨0, _⟩ => simpa using h
    | ⟨1, _⟩ => simp; exact h1'

theorem mem_chunk1 (L : grid1.Coords) (h2 : k1_cond2 L = 1#1) (r : Fin 7) (j : S51200x128.Idx) :
    j ∈ (Rect.unit (s := S51200x128) (k1_off3 L (BitVec.ofNat 32 (128 * r.val))) S128x128.size (k1_off3_inb L h2 r)).set
      ↔ 896 * (L 1).val + 128 * r.val + 36864 ≤ (j 0).val ∧ (j 0).val < 896 * (L 1).val + 128 * r.val + 36864 + 128 := by
  rw [Rect.mem_set_unit, k1_off3_eq]
  have h1' := (j 1).isLt
  constructor
  · intro h
    have := h 0
    simpa using this
  · intro h a
    match a with
    | ⟨0, _⟩ => simpa using h
    | ⟨1, _⟩ => simp; exact h1'

/-- A tile's rows of an output on core 0: the 2304 rows from row 2304 i; on core 1: the 896 rows from row
    36864 + 896 i. -/
theorem mem_outSet0 (L : grid1.Coords) (h1 : k1_cond1 L = 1#1) (j : S51200x128.Idx) :
    j ∈ outSet0 L h1 ↔ 2304 * (L 1).val ≤ (j 0).val ∧ (j 0).val < 2304 * (L 1).val + 2304 := by
  unfold outSet0
  rw [Finset.mem_biUnion]
  constructor
  · rintro ⟨r, -, hr⟩
    rw [ouC0_set, mem_chunk0 L h1] at hr
    have := r.isLt
    omega
  · intro h
    refine ⟨⟨((j 0).val - 2304 * (L 1).val) / 128, by omega⟩, Finset.mem_univ _, ?_⟩
    rw [ouC0_set, mem_chunk0 L h1]
    show 2304 * (L 1).val + 128 * (((j 0).val - 2304 * (L 1).val) / 128) ≤ (j 0).val
      ∧ (j 0).val < 2304 * (L 1).val + 128 * (((j 0).val - 2304 * (L 1).val) / 128) + 128
    omega

theorem mem_outSet1 (L : grid1.Coords) (h2 : k1_cond2 L = 1#1) (j : S51200x128.Idx) :
    j ∈ outSet1 L h2 ↔ 36864 + 896 * (L 1).val ≤ (j 0).val ∧ (j 0).val < 36864 + 896 * (L 1).val + 896 := by
  unfold outSet1
  rw [Finset.mem_biUnion]
  constructor
  · rintro ⟨r, -, hr⟩
    rw [ouC1_set, mem_chunk1 L h2] at hr
    have := r.isLt
    omega
  · intro h
    refine ⟨⟨((j 0).val - 36864 - 896 * (L 1).val) / 128, by omega⟩, Finset.mem_univ _, ?_⟩
    rw [ouC1_set, mem_chunk1 L h2]
    show 896 * (L 1).val + 128 * (((j 0).val - 36864 - 896 * (L 1).val) / 128) + 36864 ≤ (j 0).val
      ∧ (j 0).val < 896 * (L 1).val + 128 * (((j 0).val - 36864 - 896 * (L 1).val) / 128) + 36864 + 128
    omega

/-- A tile's rows of an output, whichever core it is on. -/
def outSetT (t : Fin 2 × Fin 16) : Finset S51200x128.Idx :=
  if h : t.1.val = 0 then outSet0 (pt1 t.1 t.2) (cond1_pt1 t.1 t.2 h) else outSet1 (pt1 t.1 t.2) (cond2_pt1 t.1 t.2 h)

theorem mem_outSetT (t : Fin 2 × Fin 16) (j : S51200x128.Idx) :
    j ∈ outSetT t ↔ (if t.1.val = 0 then 2304 * t.2.val else 36864 + 896 * t.2.val) ≤ (j 0).val
      ∧ (j 0).val < (if t.1.val = 0 then 2304 * t.2.val + 2304 else 36864 + 896 * t.2.val + 896) := by
  unfold outSetT
  split
  · rename_i h
    rw [mem_outSet0, pt1_val1]
  · rename_i h
    rw [mem_outSet1, pt1_val1]

/-- The row ranges of two different tiles are disjoint, and the 32 ranges cover an output. -/
theorem outSetT_disjoint (t t' : Fin 2 × Fin 16) (h : t ≠ t') : Disjoint (outSetT t) (outSetT t') := by
  rw [Finset.disjoint_left]
  intro j hj hj'
  rw [mem_outSetT] at hj hj'
  apply h
  have h1 := t.1.isLt
  have h1' := t'.1.isLt
  have h2 := t.2.isLt
  have h2' := t'.2.isLt
  refine Prod.ext (Fin.ext ?_) (Fin.ext ?_) <;> (split_ifs at hj hj' <;> omega)

theorem outSetT_cover : (Finset.univ : Finset (Fin 2 × Fin 16)).biUnion outSetT = Finset.univ := by
  ext j
  simp only [Finset.mem_biUnion, Finset.mem_univ, true_and, iff_true]
  have h0 : (j 0).val < 51200 := (j 0).isLt
  by_cases hc : (j 0).val < 36864
  · refine ⟨(⟨0, by omega⟩, ⟨(j 0).val / 2304, by omega⟩), ?_⟩
    rw [mem_outSetT]
    show (if (0 : Nat) = 0 then 2304 * ((j 0).val / 2304) else 36864 + 896 * ((j 0).val / 2304)) ≤ (j 0).val
      ∧ (j 0).val < (if (0 : Nat) = 0 then 2304 * ((j 0).val / 2304) + 2304 else 36864 + 896 * ((j 0).val / 2304) + 896)
    rw [if_pos rfl, if_pos rfl]
    omega
  · refine ⟨(⟨1, by omega⟩, ⟨((j 0).val - 36864) / 896, by omega⟩), ?_⟩
    rw [mem_outSetT]
    show (if (1 : Nat) = 0 then 2304 * (((j 0).val - 36864) / 896) else 36864 + 896 * (((j 0).val - 36864) / 896)) ≤ (j 0).val
      ∧ (j 0).val < (if (1 : Nat) = 0 then 2304 * (((j 0).val - 36864) / 896) + 2304
          else 36864 + 896 * (((j 0).val - 36864) / 896) + 896)
    rw [if_neg Nat.one_ne_zero, if_neg Nat.one_ne_zero]
    omega

/-! ## The 32 tiles as one index type -/

/-- Tile (c, i) is cell 16 c + i of the 32. -/
def tileEquiv : Fin 2 × Fin 16 ≃ Fin 32 where
  toFun t := ⟨16 * t.1.val + t.2.val, by have := t.1.isLt; have := t.2.isLt; omega⟩
  invFun k := (⟨k.val / 16, by have := k.isLt; omega⟩, ⟨k.val % 16, by omega⟩)
  left_inv t := by
    have h1 := t.1.isLt
    have h2 := t.2.isLt
    refine Prod.ext (Fin.ext ?_) (Fin.ext ?_)
    · show (16 * t.1.val + t.2.val) / 16 = t.1.val
      omega
    · show (16 * t.1.val + t.2.val) % 16 = t.2.val
      omega
  right_inv k := by
    refine Fin.ext ?_
    show 16 * (k.val / 16) + k.val % 16 = k.val
    omega

/-- One tile's resources, the outputs' rows at any contents. -/
abbrev resT (d : Dev nD) (t : Fin 2 × Fin 16) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) :
    sProp (MT nD τ sig (HIx 2) (Elt F) ℕ UU ℕ) :=
  iprop((iuLoc d ↦[(iuSlab (pt1 t.1 t.2)).view.set]{fullShare} gu) ∗ (iiLoc d ↦[(iiSlab (pt1 t.1 t.2)).view.set]{fullShare} gi)
    ∗ (tuLoc d ↦{tq t.1 t.2} fu) ∗ (tiLoc d ↦{tq t.1 t.2} fi)
    ∗ (ouLoc d ↦[outSetT t]{fullShare} ou) ∗ (oiLoc d ↦[outSetT t]{fullShare} oi))

theorem go1_eq (d : Dev nD) (A : Ops1 F d) (c : Fin 2) (i : Fin 16) :
    go1 d A c i = resT d (c, i) A.fu A.fi A.gu A.gi A.ou A.oi := by
  by_cases h : c.val = 0
  · have e : outSetT (c, i) = outSet0 (pt1 c i) (cond1_pt1 c i h) := dif_pos h
    unfold go1 resT
    rw [dif_pos h, e]
  · have e : outSetT (c, i) = outSet1 (pt1 c i) (cond2_pt1 c i h) := dif_neg h
    unfold go1 resT
    rw [dif_neg h, e]

theorem td1_eq (d : Dev nD) (A : Ops1 F d) (c : Fin 2) (i : Fin 16) :
    td1 d A c i = iprop(∃ ou' oi', resT d (c, i) A.fu A.fi A.gu A.gi ou' oi') := by
  by_cases h : c.val = 0
  · have e : outSetT (c, i) = outSet0 (pt1 c i) (cond1_pt1 c i h) := dif_pos h
    unfold td1 resT
    rw [dif_pos h, e]
  · have e : outSetT (c, i) = outSet1 (pt1 c i) (cond2_pt1 c i h) := dif_neg h
    unfold td1 resT
    rw [dif_neg h, e]

/-- The 32 tiles' resources at once, regrouped by operand. -/
theorem tiles_eq (d : Dev nD) (fu : Buf (Elt F) (tuLoc d)) (fi : Buf (Elt F) (tiLoc d))
    (gu : Buf (Elt F) (iuLoc d)) (gi : Buf (Elt F) (iiLoc d))
    (ous : Fin 2 × Fin 16 → Buf (Elt F) (ouLoc d)) (ois : Fin 2 × Fin 16 → Buf (Elt F) (oiLoc d)) :
    (bigSep Finset.univ fun c : Fin 2 => bigSep Finset.univ fun i : Fin 16 => resT d (c, i) fu fi gu gi (ous (c, i)) (ois (c, i)))
      = (iprop((bigSep Finset.univ fun t : Fin 2 × Fin 16 => iuLoc d ↦[(iuSlab (pt1 t.1 t.2)).view.set]{fullShare} gu)
        ∗ (bigSep Finset.univ fun t : Fin 2 × Fin 16 => iiLoc d ↦[(iiSlab (pt1 t.1 t.2)).view.set]{fullShare} gi)
        ∗ (bigSep Finset.univ fun t : Fin 2 × Fin 16 => tuLoc d ↦{tq t.1 t.2} fu)
        ∗ (bigSep Finset.univ fun t : Fin 2 × Fin 16 => tiLoc d ↦{tq t.1 t.2} fi)
        ∗ (bigSep Finset.univ fun t : Fin 2 × Fin 16 => ouLoc d ↦[outSetT t]{fullShare} ous t)
        ∗ (bigSep Finset.univ fun t : Fin 2 × Fin 16 => oiLoc d ↦[outSetT t]{fullShare} ois t)) : sProp 𝕄) := by
  rw [← SparseCore.bigSep_product Finset.univ Finset.univ
    (fun t : Fin 2 × Fin 16 => resT d t fu fi gu gi (ous t) (ois t)), Finset.univ_product_univ]
  unfold resT
  rw [bigSep_sep', bigSep_sep', bigSep_sep', bigSep_sep', bigSep_sep']

/-! ## Each operand split and joined -/

/-- The tiles' slabs of the two index operands. -/
abbrev slabU (t : Fin 2 × Fin 16) : Finset S32x18x128.Idx := (iuSlab (pt1 t.1 t.2)).view.set
abbrev slabI (t : Fin 2 × Fin 16) : Finset S32x18x128.Idx := (iiSlab (pt1 t.1 t.2)).view.set

theorem slabU_disjoint : ∀ t ∈ (Finset.univ : Finset (Fin 2 × Fin 16)), ∀ t' ∈ (Finset.univ : Finset (Fin 2 × Fin 16)),
    t ≠ t' → Disjoint (slabU t) (slabU t') :=
  fun t _ t' _ h => by rw [slabU, slabU, iuSlab_set, iuSlab_set]; exact slab_disjoint t t' h
theorem slabI_disjoint : ∀ t ∈ (Finset.univ : Finset (Fin 2 × Fin 16)), ∀ t' ∈ (Finset.univ : Finset (Fin 2 × Fin 16)),
    t ≠ t' → Disjoint (slabI t) (slabI t') :=
  fun t _ t' _ h => by rw [slabI, slabI, iiSlab_set, iiSlab_set]; exact slab_disjoint t t' h
theorem slabU_cover : (Finset.univ : Finset (Fin 2 × Fin 16)).biUnion slabU = Finset.univ :=
  (Finset.biUnion_congr rfl fun t _ => iuSlab_set (pt1 t.1 t.2)).trans slab_cover
theorem slabI_cover : (Finset.univ : Finset (Fin 2 × Fin 16)).biUnion slabI = Finset.univ :=
  (Finset.biUnion_congr rfl fun t _ => iiSlab_set (pt1 t.1 t.2)).trans slab_cover
theorem outSetT_disjoint' : ∀ t ∈ (Finset.univ : Finset (Fin 2 × Fin 16)), ∀ t' ∈ (Finset.univ : Finset (Fin 2 × Fin 16)),
    t ≠ t' → Disjoint (outSetT t) (outSetT t') :=
  fun t _ t' _ h => outSetT_disjoint t t' h

/-- An index operand is its 32 slabs. -/
theorem iu_slabs (d : Dev nD) (gu : Buf (Elt F) (iuLoc d)) :
    (iuLoc d ↦{fullShare} gu : sProp 𝕄) = bigSep Finset.univ fun t : Fin 2 × Fin 16 => iuLoc d ↦[slabU t]{fullShare} gu := by
  rw [← pointsTo_biUnion Finset.univ (ℓ := iuLoc d) slabU slabU_disjoint, slabU_cover]; try rfl
theorem ii_slabs (d : Dev nD) (gi : Buf (Elt F) (iiLoc d)) :
    (iiLoc d ↦{fullShare} gi : sProp 𝕄) = bigSep Finset.univ fun t : Fin 2 × Fin 16 => iiLoc d ↦[slabI t]{fullShare} gi := by
  rw [← pointsTo_biUnion Finset.univ (ℓ := iiLoc d) slabI slabI_disjoint, slabI_cover]; try rfl

/-- An output is the 32 tiles' row ranges. -/
theorem ou_rows (d : Dev nD) (ou : Buf (Elt F) (ouLoc d)) :
    (ouLoc d ↦{fullShare} ou : sProp 𝕄) = bigSep Finset.univ fun t : Fin 2 × Fin 16 => ouLoc d ↦[outSetT t]{fullShare} ou := by
  rw [← pointsTo_biUnion Finset.univ (ℓ := ouLoc d) outSetT outSetT_disjoint', outSetT_cover]; try rfl
theorem oi_rows (d : Dev nD) (oi : Buf (Elt F) (oiLoc d)) :
    (oiLoc d ↦{fullShare} oi : sProp 𝕄) = bigSep Finset.univ fun t : Fin 2 × Fin 16 => oiLoc d ↦[outSetT t]{fullShare} oi := by
  rw [← pointsTo_biUnion Finset.univ (ℓ := oiLoc d) outSetT outSetT_disjoint', outSetT_cover]; try rfl

/-- The tiles' row ranges of an output, held at contents of the tiles' making, join into the output at some contents. -/
theorem ou_join (d : Dev nD) (ous : Fin 2 × Fin 16 → Buf (Elt F) (ouLoc d)) :
    (bigSep Finset.univ fun t : Fin 2 × Fin 16 => ouLoc d ↦[outSetT t]{fullShare} ous t)
      ⊢ (iprop(∃ g, ouLoc d ↦{fullShare} g) : sProp 𝕄) := by
  iintro H
  ihave H' := (pointsTo_biUnion_join (ℓ := ouLoc d) (q := fullShare) (Val := Elt F) Finset.univ outSetT ous
    (ous (0, 0)) outSetT_disjoint') $$ H
  icases H' with ⟨%g, -, Hg⟩
  rw [outSetT_cover]
  iexists g; iexact Hg
theorem oi_join (d : Dev nD) (ois : Fin 2 × Fin 16 → Buf (Elt F) (oiLoc d)) :
    (bigSep Finset.univ fun t : Fin 2 × Fin 16 => oiLoc d ↦[outSetT t]{fullShare} ois t)
      ⊢ (iprop(∃ g, oiLoc d ↦{fullShare} g) : sProp 𝕄) := by
  iintro H
  ihave H' := (pointsTo_biUnion_join (ℓ := oiLoc d) (q := fullShare) (Val := Elt F) Finset.univ outSetT ois
    (ois (0, 0)) outSetT_disjoint') $$ H
  icases H' with ⟨%g, -, Hg⟩
  rw [outSetT_cover]
  iexists g; iexact Hg

/-- A table at the full share is the remainder after 32 read shares and the 32 tiles' read shares. -/
theorem tu_shares (d : Dev nD) (fu : Buf (Elt F) (tuLoc d)) :
    (tuLoc d ↦{fullShare} fu : sProp 𝕄)
      ⊣⊢ iprop((tuLoc d ↦{Transfers.shareDrop fullShare 32} fu) ∗ bigSep Finset.univ fun t : Fin 2 × Fin 16 => tuLoc d ↦{tq t.1 t.2} fu) := by
  have e : (bigSep Finset.univ fun t : Fin 2 × Fin 16 => (tuLoc d ↦{tq t.1 t.2} fu : sProp 𝕄))
      = bigSep Finset.univ fun k : Fin 32 => tuLoc d ↦{Transfers.shareTok fullShare 32 k} fu :=
    (bigSep_univ_equiv tileEquiv fun k : Fin 32 => (tuLoc d ↦{Transfers.shareTok fullShare 32 k} fu : sProp 𝕄)).symm
  rw [e]
  exact Transfers.pointsTo_toks fullShare 32
theorem ti_shares (d : Dev nD) (fi : Buf (Elt F) (tiLoc d)) :
    (tiLoc d ↦{fullShare} fi : sProp 𝕄)
      ⊣⊢ iprop((tiLoc d ↦{Transfers.shareDrop fullShare 32} fi) ∗ bigSep Finset.univ fun t : Fin 2 × Fin 16 => tiLoc d ↦{tq t.1 t.2} fi) := by
  have e : (bigSep Finset.univ fun t : Fin 2 × Fin 16 => (tiLoc d ↦{tq t.1 t.2} fi : sProp 𝕄))
      = bigSep Finset.univ fun k : Fin 32 => tiLoc d ↦{Transfers.shareTok fullShare 32 k} fi :=
    (bigSep_univ_equiv tileEquiv fun k : Fin 32 => (tiLoc d ↦{Transfers.shareTok fullShare 32 k} fi : sProp 𝕄)).symm
  rw [e]
  exact Transfers.pointsTo_toks fullShare 32

/-! ## The call's operands split among the tiles, and joined back -/

/-- A sum over the cores of sums over the subcores is the sum over the 32 tiles. -/
theorem bigSep_tiles (Φ : Fin 2 × Fin 16 → sProp (MT nD τ sig (HIx 2) (Elt F) ℕ UU ℕ)) :
    (bigSep Finset.univ fun c : Fin 2 => bigSep Finset.univ fun i : Fin 16 => Φ (c, i)) = bigSep Finset.univ Φ := by
  rw [← SparseCore.bigSep_product Finset.univ Finset.univ Φ, Finset.univ_product_univ]

end Call1

open Call1 in
theorem split1 (d : Dev nD) (A : Ops1 F d) :
    (iprop((tuLoc d ↦{fullShare} A.fu) ∗ (tiLoc d ↦{fullShare} A.fi) ∗ (iuLoc d ↦{fullShare} A.gu) ∗ (iiLoc d ↦{fullShare} A.gi)
        ∗ (ouLoc d ↦{fullShare} A.ou) ∗ (oiLoc d ↦{fullShare} A.oi)) : sProp 𝕄)
      ⊢ iprop(((tuLoc d ↦{Transfers.shareDrop fullShare 32} A.fu) ∗ (tiLoc d ↦{Transfers.shareDrop fullShare 32} A.fi))
        ∗ bigSep Finset.univ fun c : Fin 2 => bigSep Finset.univ fun i : Fin 16 => go1 d A c i) := by
  have e : (bigSep Finset.univ fun c : Fin 2 => bigSep Finset.univ fun i : Fin 16 => go1 d A c i)
      = bigSep Finset.univ fun c : Fin 2 => bigSep Finset.univ fun i : Fin 16 =>
          resT d (c, i) A.fu A.fi A.gu A.gi A.ou A.oi :=
    bigSep_congr fun c _ => bigSep_congr fun i _ => go1_eq d A c i
  have h6 := tiles_eq d A.fu A.fi A.gu A.gi (fun _ => A.ou) (fun _ => A.oi)
  beta_reduce at h6
  rw [e, h6, ← iu_slabs, ← ii_slabs, ← ou_rows, ← oi_rows]
  iintro ⟨Htu, Hti, Hiu, Hii, Hou, Hoi⟩
  ihave Htu' := (tu_shares d A.fu).1 $$ Htu
  icases Htu' with ⟨HtuD, HtuT⟩
  ihave Hti' := (ti_shares d A.fi).1 $$ Hti
  icases Hti' with ⟨HtiD, HtiT⟩
  isplitl [HtuD HtiD]
  · isplitl [HtuD]; · iexact HtuD
    iexact HtiD
  isplitl [Hiu]; · iexact Hiu
  isplitl [Hii]; · iexact Hii
  isplitl [HtuT]; · iexact HtuT
  isplitl [HtiT]; · iexact HtiT
  isplitl [Hou]; · iexact Hou
  iexact Hoi

namespace Call1

/-- The tiles' hand-backs as one choice, per tile, of the contents of its rows of the two outputs. -/
theorem td1_choice (d : Dev nD) (A : Ops1 F d) :
    (bigSep Finset.univ fun c : Fin 2 => bigSep Finset.univ fun i : Fin 16 => td1 d A c i)
      ⊢ (iprop(∃ y : Fin 2 × Fin 16 → Buf (Elt F) (ouLoc d) × Buf (Elt F) (oiLoc d),
          bigSep Finset.univ fun c : Fin 2 => bigSep Finset.univ fun i : Fin 16 =>
            resT d (c, i) A.fu A.fi A.gu A.gi (y (c, i)).1 (y (c, i)).2) : sProp 𝕄) := by
  haveI : Nonempty (Buf (Elt F) (ouLoc d) × Buf (Elt F) (oiLoc d)) := ⟨(A.ou, A.oi)⟩
  rw [bigSep_tiles fun t => td1 d A t.1 t.2]
  refine (bigSep_mono (Ψ := fun t : Fin 2 × Fin 16 =>
      iprop(∃ y : Buf (Elt F) (ouLoc d) × Buf (Elt F) (oiLoc d), resT d t A.fu A.fi A.gu A.gi y.1 y.2)) fun t _ => ?_).trans
    ((bigSep_exists_pi Finset.univ fun (t : Fin 2 × Fin 16) (y : Buf (Elt F) (ouLoc d) × Buf (Elt F) (oiLoc d)) =>
      resT d t A.fu A.fi A.gu A.gi y.1 y.2).trans ?_)
  · rw [td1_eq]
    show (iprop(∃ ou' oi', resT d (t.1, t.2) A.fu A.fi A.gu A.gi ou' oi') : sProp 𝕄)
      ⊢ iprop(∃ y : Buf (Elt F) (ouLoc d) × Buf (Elt F) (oiLoc d), resT d t A.fu A.fi A.gu A.gi y.1 y.2)
    iintro ⟨%ou', %oi', H⟩
    iexists (ou', oi'); iexact H
  · iintro ⟨%y, H⟩
    iexists y
    rw [bigSep_tiles fun t => resT d t A.fu A.fi A.gu A.gi (y t).1 (y t).2]
    iexact H

end Call1

open Call1 in
theorem join1 (d : Dev nD) (A : Ops1 F d) :
    (iprop(((tuLoc d ↦{Transfers.shareDrop fullShare 32} A.fu) ∗ (tiLoc d ↦{Transfers.shareDrop fullShare 32} A.fi))
        ∗ bigSep Finset.univ fun c : Fin 2 => bigSep Finset.univ fun i : Fin 16 => td1 d A c i) : sProp 𝕄)
      ⊢ iprop((tuLoc d ↦{fullShare} A.fu) ∗ (tiLoc d ↦{fullShare} A.fi) ∗ (iuLoc d ↦{fullShare} A.gu) ∗ (iiLoc d ↦{fullShare} A.gi)
        ∗ ∃ ou' oi', (ouLoc d ↦{fullShare} ou') ∗ (oiLoc d ↦{fullShare} oi')) := by
  refine (sep_mono_right (td1_choice d A)).trans ?_
  iintro ⟨⟨HtuD, HtiD⟩, %y, HT⟩
  have h6 := tiles_eq d A.fu A.fi A.gu A.gi (fun t => (y t).1) (fun t => (y t).2)
  beta_reduce at h6
  ihave H6 := (Entails.of_eq h6) $$ HT
  icases H6 with ⟨Hiu, Hii, HtuT, HtiT, Hou, Hoi⟩
  isplitl [HtuD HtuT]
  · iapply (tu_shares d A.fu).2
    isplitl [HtuD]; · iexact HtuD
    iexact HtuT
  isplitl [HtiD HtiT]
  · iapply (ti_shares d A.fi).2
    isplitl [HtiD]; · iexact HtiD
    iexact HtiT
  isplitl [Hiu]
  · rw [iu_slabs]; iexact Hiu
  isplitl [Hii]
  · rw [ii_slabs]; iexact Hii
  ihave Ho := (ou_join d fun t => (y t).1) $$ Hou
  icases Ho with ⟨%gu', Hou⟩
  ihave Ho2 := (oi_join d fun t => (y t).2) $$ Hoi
  icases Ho2 with ⟨%gi', Hoi⟩
  iexists gu'; iexists gi'
  isplitl [Hou]; · iexact Hou
  iexact Hoi

end Cert.Kernel.Launch

end
-- ==== Proof.FramesB.lean ====
/-
  The kernel program's frame: under the precondition every weakly fair execution terminates, nothing faulting, and the six
  argument arrays end unchanged — from one tile's task per core and call and the two TensorCore regions as steps.
-/
import proofs.«204681_g65575560675685_cont_9to1_m_144_57_alg».proof.Proof.PartsPreB
import proofs.«204681_g65575560675685_cont_9to1_m_144_57_alg».proof.Proof.SplitB
import proofs.«204681_g65575560675685_cont_9to1_m_144_57_alg».proof.Proof.Split1B

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

omit [FloatOps F] in
theorem hs0 : Split0 F := fun d A => by unfold sixPts0 rem0; exact split0 d A
omit [FloatOps F] in
theorem hs1 : Split1 F := fun d A => by unfold sixPts1 rem1; exact split1 d A
omit [FloatOps F] in
theorem hj0 : Join0 F := fun d A => by
  unfold rem0 sixPts0
  refine (join0 d A).trans ?_
  iintro ⟨Htu, Hti, Hiu, Hii, %ou', %oi', Hou, Hoi⟩
  iexists ou'; iexists oi'
  isplitl [Htu]; · iexact Htu
  isplitl [Hti]; · iexact Hti
  isplitl [Hiu]; · iexact Hiu
  isplitl [Hii]; · iexact Hii
  isplitl [Hou]; · iexact Hou
  iexact Hoi
omit [FloatOps F] in
theorem hj1 : Join1 F := fun d A => by
  unfold rem1 sixPts1
  refine (join1 d A).trans ?_
  iintro ⟨Htu, Hti, Hiu, Hii, %ou', %oi', Hou, Hoi⟩
  iexists ou'; iexists oi'
  isplitl [Htu]; · iexact Htu
  isplitl [Hti]; · iexact Hti
  isplitl [Hiu]; · iexact Hiu
  isplitl [Hii]; · iexact Hii
  isplitl [Hou]; · iexact Hou
  iexact Hoi

/-- The ingredients of the frame that depend on the float instance: one tile's task on each core of each call, and the two
    TensorCore regions as steps of @main with their exit contents. -/
structure Core (F : FTy → Type) [FloatOps F] where
  hb00 : Cert.Proof.Kernel.ScTile0.TileBody0 F UU
  hb01 : Cert.Proof.Kernel.ScTile0.TileBody1 F UU
  hb10 : Cert.Proof.Kernel.ScTile1.TileBody0 F UU
  hb11 : Cert.Proof.Kernel.ScTile1.TileBody1 F UU
  ex0 : Dev nD → Waits sig (HIx 2) → Valuation τ sig (Elt F) → Valuation τ sig (Elt F)
  ex1 : Dev nD → Waits sig (HIx 2) → Valuation τ sig (Elt F) → Valuation τ sig (Elt F)
  hr0 : RegionStep (F := F) 0 ex0
  hr1 : RegionStep (F := F) 1 ex1
  hex0 : ∀ d Wt W (b : DevRef τ sig), b ≠ Proc.devRef .tc main_v96 → ex0 d Wt W b = W b
  hex1 : ∀ d Wt W (b : DevRef τ sig), b ≠ Proc.devRef .tc main_v97 → ex1 d Wt W b = W b

variable [Cert.Pre_input_domain.Facts]

def Core.parts (co : Core F) (m : (ℓ : Loc nD τ sig) → Buf (Elt F) ℓ) (h : PreM m) : Parts F m where
  hb00 := co.hb00
  hb01 := co.hb01
  hb10 := co.hb10
  hb11 := co.hb11
  hs0 := hs0
  hj0 := hj0
  hs1 := hs1
  hj1 := hj1
  ex0 := co.ex0
  ex1 := co.ex1
  hr0 := co.hr0
  hr1 := co.hr1
  hex0 := co.hex0
  hex1 := co.hex1
  hkeep := keep_args m
  hpre0 := fun d => (pre_ok m h d).1
  hpre1 := fun d => (pre_ok m h d).2

/-- The frame, in the claim's spelling. -/
theorem frame_of_core [∀ e, Nonempty (Elt F e)] (co : Core F) (m : (ℓ : Loc nD τ sig) → Buf (Elt F) ℓ) (g : Dev nD → PrngReg) (h : PreM m) :
    θ_run (Cert.Kernel.defs (F := F)) (Cert.Kernel.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.Kernel.defs _ _).mono (fun r hr c =>
    ⟨hr c _ (by simp [argRefs]), hr c _ (by simp [argRefs]), hr c _ (by simp [argRefs]), hr c _ (by simp [argRefs]), hr c _ (by simp [argRefs]), hr c _ (by simp [argRefs])⟩)
    (run_main m g (co.parts m h))

end Cert.Kernel.Launch

end
-- ==== Proof.TcDataB.lean ====
import proofs.«204681_g65575560675685_cont_9to1_m_144_57_alg».proof.Proof.Gen.Kernel.Launch
import proofs.«204681_g65575560675685_cont_9to1_m_144_57_alg».proof.Proof.Gen.Kernel.Skeleton
import proofs.«204681_g65575560675685_cont_9to1_m_144_57_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.SparseCore.Threads
import Idealize.ShloMosaic.Lib.Tactic

set_option maxRecDepth 16384

noncomputable section

namespace Cert.Kernel.Tc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # The two matrix-product pipelines: their blocks, what a point writes, and their proof data

Both pipelines compute, block by block of 800 rows, max(r · w[0:128] + u · w[128:256] + v · w[256:384], 0):
windows 0, 1, 2 are the three 800×128 operands' blocks, window 3 is the whole 384×128 weight matrix, window 4 is the
output block. Everything is stated at a parameter V, the TensorCore's buffer contents when the region is entered. -/

section Regions

variable (V : (c : Dev nD) → (b : Ref sig .tc) → Buf (Elt F) ((c : Thread nD τ).loc b))
variable (B : Set (SemLoc sig × SparseCore.Cfg.HIx 2))

/-! ## The rectangles the body reads and writes -/

/-- A whole 800×128 block. -/
abbrev rBlk : Rect S800x128 := Rect.unit (s := S800x128) ![0, 0] S800x128.size inb_S800x128_S800x128_0_0
/-- Rows 0 … 127, 128 … 255, 256 … 383 of the weight matrix. -/
abbrev rW0 : Rect S384x128 := Rect.unit (s := S384x128) ![0, 0] S128x128.size inb_S384x128_S128x128_0_0
abbrev rW1 : Rect S384x128 := Rect.unit (s := S384x128) ![128, 0] S128x128.size inb_S384x128_S128x128_128_0
abbrev rW2 : Rect S384x128 := Rect.unit (s := S384x128) ![256, 0] S128x128.size inb_S384x128_S128x128_256_0

/-- One store of a whole block covers the block. -/
theorem cover_blk (p0 : Vec F S800x128 .f32) (y : S800x128.Idx) :
    ∃ pc ∈ ([⟨rBlk, p0⟩] : List (View.Piece (Elt F) S800x128 .f32)), y ∈ pc.1.set :=
  View.cover_of_tiled [⟨rBlk, p0⟩] S800x128.size (by rfl) y

/-! ## Pipeline 0 (64 points) -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block from the three operand blocks and the weights: the body's one store over the generated payload. -/
def out2_4 (x0 x1 x2 : Vec F S800x128 .f32) (x3 : Vec F S384x128 .f32) : Vec F S800x128 .f32 :=
  View.canon [⟨rBlk, k2_pay1 (View.ld x0 rBlk) (View.ld x3 rW0) (View.ld x1 rBlk) (View.ld x3 rW1) (View.ld x2 rBlk) (View.ld x3 rW2)⟩]

/-- The pipeline's invariant: the scoped buffers that are no staging buffer of it, untouched. -/
abbrev Φ2 (c : Dev nD) : sProp 𝕄 :=
  Pipeline.scopedRest (Ix := SparseCore.Cfg.HIx 2) (Name := Name) (U := U) (Lvl := ℕ) (Val := Elt F) spec2 c

/-- The proof data of this pipeline on core c: the arrays as the region finds them; after the body at point t each
    operand's buffer at its block and the output's at the body's result of them; nothing owed; full shares; the pairs
    the core's waits recorded before the region lie in B (the pipeline's own waits add pairs at the index none only).
     -/
def dat2 (c : Dev nD) : Dat τ (Elt F) (SparseCore.Cfg.HIx 2) Name U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Φ2 c
  q _ := fullShare
  owed _ := 0
  recorded _ := B

theorem A_eq2 (c : Dev nD) (w : Fin cfg2.W) : (dat2 (Name := Name) (U := U) V B c).A w = V c (Pipeline.arrRef spec2 w) := by
  dsimp only [dat2]
theorem after2_0 (c : Dev nD) (t : Fin cfg2.N) : (dat2 (Name := Name) (U := U) V B c).after 0 t = iblk2 V c 0 t := by dsimp only [dat2]
theorem after2_1 (c : Dev nD) (t : Fin cfg2.N) : (dat2 (Name := Name) (U := U) V B c).after 1 t = iblk2 V c 1 t := by dsimp only [dat2]
theorem after2_2 (c : Dev nD) (t : Fin cfg2.N) : (dat2 (Name := Name) (U := U) V B c).after 2 t = iblk2 V c 2 t := by dsimp only [dat2]
theorem after2_3 (c : Dev nD) (t : Fin cfg2.N) : (dat2 (Name := Name) (U := U) V B c).after 3 t = iblk2 V c 3 t := by dsimp only [dat2]
theorem after2_4 (c : Dev nD) (t : Fin cfg2.N) : (dat2 (Name := Name) (U := U) V B c).after 4 t
    = out2_4 (iblk2 V c 0 t) (iblk2 V c 1 t) (iblk2 V c 2 t) (iblk2 V c 3 t) := by dsimp only [dat2]

/-! ## Pipeline 1 (61 points) -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output block from the three operand blocks and the weights: the body's one store over the generated payload. -/
def out3_4 (x0 x1 x2 : Vec F S800x128 .f32) (x3 : Vec F S384x128 .f32) : Vec F S800x128 .f32 :=
  View.canon [⟨rBlk, k3_pay1 (View.ld x0 rBlk) (View.ld x3 rW0) (View.ld x1 rBlk) (View.ld x3 rW1) (View.ld x2 rBlk) (View.ld x3 rW2)⟩]

/-- The pipeline's invariant: the scoped buffers that are no staging buffer of it, untouched. -/
abbrev Φ3 (c : Dev nD) : sProp 𝕄 :=
  Pipeline.scopedRest (Ix := SparseCore.Cfg.HIx 2) (Name := Name) (U := U) (Lvl := ℕ) (Val := Elt F) spec3 c

/-- The proof data of this pipeline on core c: the arrays as the region finds them; after the body at point t each
    operand's buffer at its block and the output's at the body's result of them; nothing owed; full shares; the pairs
    the core's waits recorded before the region lie in B (the pipeline's own waits add pairs at the index none only).
    Its output array (window 4) enters at V's contents of its buffer: the copy of pipeline 0's result, of which this pipeline writes only the blocks 64 … 124. -/
def dat3 (c : Dev nD) : Dat τ (Elt F) (SparseCore.Cfg.HIx 2) Name U ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Φ3 c
  q _ := fullShare
  owed _ := 0
  recorded _ := B

theorem A_eq3 (c : Dev nD) (w : Fin cfg3.W) : (dat3 (Name := Name) (U := U) V B c).A w = V c (Pipeline.arrRef spec3 w) := by
  dsimp only [dat3]
theorem after3_0 (c : Dev nD) (t : Fin cfg3.N) : (dat3 (Name := Name) (U := U) V B c).after 0 t = iblk3 V c 0 t := by dsimp only [dat3]
theorem after3_1 (c : Dev nD) (t : Fin cfg3.N) : (dat3 (Name := Name) (U := U) V B c).after 1 t = iblk3 V c 1 t := by dsimp only [dat3]
theorem after3_2 (c : Dev nD) (t : Fin cfg3.N) : (dat3 (Name := Name) (U := U) V B c).after 2 t = iblk3 V c 2 t := by dsimp only [dat3]
theorem after3_3 (c : Dev nD) (t : Fin cfg3.N) : (dat3 (Name := Name) (U := U) V B c).after 3 t = iblk3 V c 3 t := by dsimp only [dat3]
theorem after3_4 (c : Dev nD) (t : Fin cfg3.N) : (dat3 (Name := Name) (U := U) V B c).after 4 t
    = out3_4 (iblk3 V c 0 t) (iblk3 V c 1 t) (iblk3 V c 2 t) (iblk3 V c 3 t) := by dsimp only [dat3]

end Regions

/-! ## The proof data of both pipelines at once -/

/-- No pipeline has a prefetched table. -/
abbrev adm : (p : Fin 2) → (pcfgs (F := F) p).Adm := fun p => (cfgs p).toPCfg_adm

/-- Every pipeline's proof data, each at its own region's entry contents (Va for pipeline 0, Vb for pipeline 1) and
    recorded pairs (Ba, Bb): a literal match on the pipeline, so that the pinned configuration at a numeral is the
    printed one. -/
def pdats (Va Vb : (c : Dev nD) → (b : Ref sig .tc) → Buf (Elt F) ((c : Thread nD τ).loc b)) (Ba Bb : Set (SemLoc sig × SparseCore.Cfg.HIx 2)) :
    (p : Fin 2) → (c : Dev nD) → Dat τ (Elt F) (SparseCore.Cfg.HIx 2) Name U ℕ (Pipeline.pin (pcfgs (F := F)) adm p) c
  | ⟨0, _⟩ => fun c => dat2 Va Ba c
  | ⟨1, _⟩ => fun c => dat3 Vb Bb c

end Cert.Kernel.Tc

end
-- ==== Proof.TcBody3B.lean ====
import proofs.«204681_g65575560675685_cont_9to1_m_144_57_alg».proof.Proof.TcDataB

set_option maxRecDepth 16384

noncomputable section

namespace Cert.Kernel.Tc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 1: the body obligation

The body loads the three operand blocks and the three 128-row slices of the weights, and stores the payload over the
whole output block; the obligation follows from that one triple and from each input window's buffer holding its block
at every point. -/

section

variable (V : (c : Dev nD) → (b : Ref sig .tc) → Buf (Elt F) ((c : Thread nD τ).loc b))
variable (B : Set (SemLoc sig × SparseCore.Cfg.HIx 2))

/-! ## Each input window's current buffer holds its block at every point, fetched there or not -/

theorem before3_0 (c : Dev nD) (t : Fin cfg3.N) (d) : (dat3 (Name := Name) (U := U) V B c).before 0 t d = iblk3 V c 0 t :=
  ((dat3 (Name := Name) (U := U) V B c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 (Name := Name) (U := U) V B c).before 1 t d = iblk3 V c 1 t :=
  ((dat3 (Name := Name) (U := U) V B c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 (Name := Name) (U := U) V B c).before 2 t d = iblk3 V c 2 t :=
  ((dat3 (Name := Name) (U := U) V B c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 (Name := Name) (U := U) V B c).before 3 t d = iblk3 V c 3 t :=
  ((dat3 (Name := Name) (U := U) V B c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body's triple -/

set_option maxHeartbeats 4000000 in
/-- The body on whole staging memrefs, the inputs' at contents x0 … x3 and the output's at anything, runs to the
    continuation holding the inputs' as they were and the output's at the payload's block. -/
theorem sound_kernel3 (c : Dev nD) (E : Set Name) (i : grid3.Coords)
    (arg1 : Memref sig .tc .vmem S800x128 .f32) (harg1 : arg1.IsWhole) (arg2 : Memref sig .tc .vmem S800x128 .f32) (harg2 : arg2.IsWhole)
    (arg3 : Memref sig .tc .vmem S800x128 .f32) (harg3 : arg3.IsWhole) (arg4 : Memref sig .tc .vmem S384x128 .f32) (harg4 : arg4.IsWhole) (arg5 : Memref sig .tc .hbm S100000x128 .f32) (harg5 : arg5.IsWhole)
    (arg6 : Memref sig .tc .vmem S800x128 .f32) (harg6 : arg6.IsWhole)
    (x0 x1 x2 : Vec F S800x128 .f32) (x3 : Vec F S384x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out3_4 x0 x1 x2 x3)) -∗ K ⟨⟩))
      ⊢ wp frame (wpE (defs₀ (F := F)) Variants.none c none) E (cc3__mm_body2 i arg1 harg1 arg2 harg2 arg3 harg3 arg4 harg4 arg5 harg5 arg6 harg6) K := by
  simp only [cc3__mm_body2_eq_skeleton]; unfold cc3__mm_body2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_blk _)

/-! ## The body obligation, at a generic point -/

/-- What the body is called with at point t, the windows one by one, -/
def bodyPre3 (c : Dev nD) (t : Fin cfg3.N) : sProp 𝕄 :=
  iprop((dat3 (Name := Name) (U := U) V B c).Φ t.castSucc ∗ (dat3 (Name := Name) (U := U) V B c).owesAt none t.castSucc
    ∗ (∃ d, owns (c : Thread nD τ) (st3_0 t) fullShare ((dat3 (Name := Name) (U := U) V B c).before 0 t d))
    ∗ (∃ d, owns (c : Thread nD τ) (st3_1 t) fullShare ((dat3 (Name := Name) (U := U) V B c).before 1 t d))
    ∗ (∃ d, owns (c : Thread nD τ) (st3_2 t) fullShare ((dat3 (Name := Name) (U := U) V B c).before 2 t d))
    ∗ (∃ d, owns (c : Thread nD τ) (st3_3 t) fullShare ((dat3 (Name := Name) (U := U) V B c).before 3 t d))
    ∗ (∃ d, owns (c : Thread nD τ) (st3_4 t) fullShare ((dat3 (Name := Name) (U := U) V B c).before 4 t d)))

/-- and what it returns. -/
def bodyPost3 (c : Dev nD) (t : Fin cfg3.N) : sProp 𝕄 :=
  iprop((dat3 (Name := Name) (U := U) V B c).Φ t.succ ∗ (dat3 (Name := Name) (U := U) V B c).owesAt none t.succ
    ∗ owns (c : Thread nD τ) (st3_0 t) fullShare ((dat3 (Name := Name) (U := U) V B c).after 0 t)
    ∗ owns (c : Thread nD τ) (st3_1 t) fullShare ((dat3 (Name := Name) (U := U) V B c).after 1 t)
    ∗ owns (c : Thread nD τ) (st3_2 t) fullShare ((dat3 (Name := Name) (U := U) V B c).after 2 t)
    ∗ owns (c : Thread nD τ) (st3_3 t) fullShare ((dat3 (Name := Name) (U := U) V B c).after 3 t)
    ∗ owns (c : Thread nD τ) (st3_4 t) fullShare ((dat3 (Name := Name) (U := U) V B c).after 4 t))

/-- The body at any point: the inputs' memrefs hold their blocks, so the triple applies; the invariant and what the
    core owes pass through unread. -/
theorem sound_body3 (c : Dev nD) (t : Fin cfg3.N) :
    bodyPre3 (Name := Name) (U := U) V B c t ⊢ wp frame (wpE (defs₀ (F := F)) Variants.none c none) Set.univ (bodyAt3 t) (fun _ => bodyPost3 (Name := Name) (U := U) V B c t) := by
  unfold bodyPre3 bodyPost3 bodyAt3
  simp only [before3_0, before3_1, before3_2, before3_3]
  rw [show (dat3 (Name := Name) (U := U) V B c).Φ t.succ = (dat3 (Name := Name) (U := U) V B c).Φ t.castSucc from rfl,
    show (dat3 (Name := Name) (U := U) V B c).owesAt none t.succ = (dat3 (Name := Name) (U := U) V B c).owesAt none t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 1, at every point. -/
theorem body_obligation3 (c : Dev nD) :
    BodyObligation (dat3 (F := F) (Name := Name) (U := U) V B c) (defs₀ (F := F)) Variants.none (none : SparseCore.Cfg.HIx 2) Set.univ := fun t => by
  rw [bigSep_W3, bigSep_W3]
  exact sound_body3 V B c t

end

end Cert.Kernel.Tc

end
-- ==== Proof.TcBody2B.lean ====
import proofs.«204681_g65575560675685_cont_9to1_m_144_57_alg».proof.Proof.TcDataB

set_option maxRecDepth 16384

noncomputable section

namespace Cert.Kernel.Tc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 0: the body obligation

The body loads the three operand blocks and the three 128-row slices of the weights, and stores the payload over the
whole output block; the obligation follows from that one triple and from each input window's buffer holding its block
at every point. -/

section

variable (V : (c : Dev nD) → (b : Ref sig .tc) → Buf (Elt F) ((c : Thread nD τ).loc b))
variable (B : Set (SemLoc sig × SparseCore.Cfg.HIx 2))

/-! ## Each input window's current buffer holds its block at every point, fetched there or not -/

theorem before2_0 (c : Dev nD) (t : Fin cfg2.N) (d) : (dat2 (Name := Name) (U := U) V B c).before 0 t d = iblk2 V c 0 t :=
  ((dat2 (Name := Name) (U := U) V B c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 (Name := Name) (U := U) V B c).before 1 t d = iblk2 V c 1 t :=
  ((dat2 (Name := Name) (U := U) V B c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 (Name := Name) (U := U) V B c).before 2 t d = iblk2 V c 2 t :=
  ((dat2 (Name := Name) (U := U) V B c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 (Name := Name) (U := U) V B c).before 3 t d = iblk2 V c 3 t :=
  ((dat2 (Name := Name) (U := U) V B c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body's triple -/

set_option maxHeartbeats 4000000 in
/-- The body on whole staging memrefs, the inputs' at contents x0 … x3 and the output's at anything, runs to the
    continuation holding the inputs' as they were and the output's at the payload's block. -/
theorem sound_kernel2 (c : Dev nD) (E : Set Name) (i : grid2.Coords)
    (arg1 : Memref sig .tc .vmem S800x128 .f32) (harg1 : arg1.IsWhole) (arg2 : Memref sig .tc .vmem S800x128 .f32) (harg2 : arg2.IsWhole)
    (arg3 : Memref sig .tc .vmem S800x128 .f32) (harg3 : arg3.IsWhole) (arg4 : Memref sig .tc .vmem S384x128 .f32) (harg4 : arg4.IsWhole)
    (arg5 : Memref sig .tc .vmem S800x128 .f32) (harg5 : arg5.IsWhole)
    (x0 x1 x2 : Vec F S800x128 .f32) (x3 : Vec F S384x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__mm_body i arg1 harg1 arg2 harg2 arg3 harg3 arg4 harg4 arg5 harg5) K := by
  simp only [cc2__mm_body_eq_skeleton]; unfold cc2__mm_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_blk _)

/-! ## The body obligation, at a generic point -/

/-- What the body is called with at point t, the windows one by one, -/
def bodyPre2 (c : Dev nD) (t : Fin cfg2.N) : sProp 𝕄 :=
  iprop((dat2 (Name := Name) (U := U) V B c).Φ t.castSucc ∗ (dat2 (Name := Name) (U := U) V B c).owesAt none t.castSucc
    ∗ (∃ d, owns (c : Thread nD τ) (st2_0 t) fullShare ((dat2 (Name := Name) (U := U) V B c).before 0 t d))
    ∗ (∃ d, owns (c : Thread nD τ) (st2_1 t) fullShare ((dat2 (Name := Name) (U := U) V B c).before 1 t d))
    ∗ (∃ d, owns (c : Thread nD τ) (st2_2 t) fullShare ((dat2 (Name := Name) (U := U) V B c).before 2 t d))
    ∗ (∃ d, owns (c : Thread nD τ) (st2_3 t) fullShare ((dat2 (Name := Name) (U := U) V B c).before 3 t d))
    ∗ (∃ d, owns (c : Thread nD τ) (st2_4 t) fullShare ((dat2 (Name := Name) (U := U) V B c).before 4 t d)))

/-- and what it returns. -/
def bodyPost2 (c : Dev nD) (t : Fin cfg2.N) : sProp 𝕄 :=
  iprop((dat2 (Name := Name) (U := U) V B c).Φ t.succ ∗ (dat2 (Name := Name) (U := U) V B c).owesAt none t.succ
    ∗ owns (c : Thread nD τ) (st2_0 t) fullShare ((dat2 (Name := Name) (U := U) V B c).after 0 t)
    ∗ owns (c : Thread nD τ) (st2_1 t) fullShare ((dat2 (Name := Name) (U := U) V B c).after 1 t)
    ∗ owns (c : Thread nD τ) (st2_2 t) fullShare ((dat2 (Name := Name) (U := U) V B c).after 2 t)
    ∗ owns (c : Thread nD τ) (st2_3 t) fullShare ((dat2 (Name := Name) (U := U) V B c).after 3 t)
    ∗ owns (c : Thread nD τ) (st2_4 t) fullShare ((dat2 (Name := Name) (U := U) V B c).after 4 t))

/-- The body at any point: the inputs' memrefs hold their blocks, so the triple applies; the invariant and what the
    core owes pass through unread. -/
theorem sound_body2 (c : Dev nD) (t : Fin cfg2.N) :
    bodyPre2 (Name := Name) (U := U) V B c t ⊢ wp frame (wpE (defs₀ (F := F)) Variants.none c none) Set.univ (bodyAt2 t) (fun _ => bodyPost2 (Name := Name) (U := U) V B c t) := by
  unfold bodyPre2 bodyPost2 bodyAt2
  simp only [before2_0, before2_1, before2_2, before2_3]
  rw [show (dat2 (Name := Name) (U := U) V B c).Φ t.succ = (dat2 (Name := Name) (U := U) V B c).Φ t.castSucc from rfl,
    show (dat2 (Name := Name) (U := U) V B c).owesAt none t.succ = (dat2 (Name := Name) (U := U) V B c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 0, at every point. -/
theorem body_obligation2 (c : Dev nD) :
    BodyObligation (dat2 (F := F) (Name := Name) (U := U) V B c) (defs₀ (F := F)) Variants.none (none : SparseCore.Cfg.HIx 2) Set.univ := fun t => by
  rw [bigSep_W2, bigSep_W2]
  exact sound_body2 V B c t

end

end Cert.Kernel.Tc

end
-- ==== Proof.TcSeg0B.lean ====
import proofs.«204681_g65575560675685_cont_9to1_m_144_57_alg».proof.Proof.TcBody2B
import Idealize.ShloMosaic.Lib.SparseCore.Threads

set_option maxRecDepth 16384

noncomputable section

namespace Cert.Kernel.Tc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 0 as a region of the main program

The region is entered from every unscoped TensorCore buffer at a valuation and left at the valuation that has the
pipeline's arrays at what its write-backs leave and every other buffer as entered; the core owes nothing throughout, and
the pairs its waits have recorded grow by the pipeline's own waits only (all at the index none). -/

section Segs

/-- A valuation of the device's buffers read at the TensorCore's references. -/
abbrev Vof (W : Dev nD → Valuation τ sig (Elt F)) : (c : Dev nD) → (b : Ref sig .tc) → Buf (Elt F) ((c : Thread nD τ).loc b) :=
  fun c b => W c b

/-- No bound is in force in a region's body. -/
abbrev 𝒱₀ : Variants := Variants.none

variable (Wa Wb : Dev nD → Valuation τ sig (Elt F)) (Ba Bb : Set (SemLoc sig × SparseCore.Cfg.HIx 2))
variable (L : GSem nD τ sig → Finset (SparseCore.Cfg.HIx 2)) (lv : GSem nD τ sig → SparseCore.Cfg.HIx 2 → ℕ)

/-- At the region's exit: its arrays at what the pipeline leaves (the inputs as entered, the output's write-backs
    folded), every other buffer as entered. -/
def exit0 (c : Dev nD) : Valuation τ sig (Elt F) :=
  Pipeline.withArrays spec2 c (Wa c) fun w => (dat2 (Name := Name) (U := U) (Vof Wa) Ba c).arrAt w cfg2.N

theorem exit0_arr (c : Dev nD) (w : Fin cfg2.W) :
    exit0 (Name := Name) (U := U) Wa Ba c (Proc.devRef .tc (Pipeline.arrRef spec2 w)) = (dat2 (Name := Name) (U := U) (Vof Wa) Ba c).arrAt w cfg2.N := by
  unfold exit0; exact Pipeline.withArrays_arr spec2 launch2.win.arr_inj c _ _ w

theorem exit0_of_ne (c : Dev nD) (b : Ref sig .tc) (hb : ∀ w, Pipeline.arrRef spec2 w ≠ b) :
    exit0 (Name := Name) (U := U) Wa Ba c (Proc.devRef .tc b) = Wa c (Proc.devRef .tc b) := by
  unfold exit0; exact Pipeline.withArrays_of_ne spec2 c _ _ b hb

theorem hF0 (c : Dev nD) (w : Fin cfg2.W) :
    (dat2 (Name := Name) (U := U) (Vof Wa) Ba c).arrAt w cfg2.N = Vof (exit0 (Name := Name) (U := U) Wa Ba) c (Pipeline.arrRef spec2 w) :=
  (exit0_arr Wa Ba c w).symm

theorem hrest0 (c : Dev nD) : ∀ b, b ∉ Finset.univ.image (Pipeline.arrRef spec2) → Vof (exit0 (Name := Name) (U := U) Wa Ba) c b = Vof Wa c b :=
  fun b hb => exit0_of_ne Wa Ba c b fun w e => hb (Finset.mem_image.mpr ⟨w, Finset.mem_univ _, e⟩)

/-- Every buffer but the output array's is left as entered: the input windows' arrays are never written back. -/
theorem exit0_frame (c : Dev nD) (b : DevRef τ sig) (hb : b ≠ Proc.devRef .tc main_v96) :
    exit0 (Name := Name) (U := U) Wa Ba c b = Wa c b := by
  by_cases h : ∃ w, Proc.devRef .tc (Pipeline.arrRef spec2 w) = b
  · obtain ⟨w, rfl⟩ := h
    rw [exit0_arr]
    match w with
    | ⟨0, _⟩ => exact ((dat2 (Name := Name) (U := U) (Vof Wa) Ba c).arrAt_in 0 rfl _).trans (A_eq2 (Vof Wa) Ba c 0)
    | ⟨1, _⟩ => exact ((dat2 (Name := Name) (U := U) (Vof Wa) Ba c).arrAt_in 1 rfl _).trans (A_eq2 (Vof Wa) Ba c 1)
    | ⟨2, _⟩ => exact ((dat2 (Name := Name) (U := U) (Vof Wa) Ba c).arrAt_in 2 rfl _).trans (A_eq2 (Vof Wa) Ba c 2)
    | ⟨3, _⟩ => exact ((dat2 (Name := Name) (U := U) (Vof Wa) Ba c).arrAt_in 3 rfl _).trans (A_eq2 (Vof Wa) Ba c 3)
    | ⟨4, _⟩ => exact absurd rfl hb
  · unfold exit0 Pipeline.withArrays
    rw [dif_neg h]

/-- The thread state the region is entered from: every unscoped buffer at the entry valuation, the core owing nothing
    with its recorded pairs within the given set. -/
def pre0 (c : Dev nD) : sProp 𝕄 :=
  iprop(StableHlo.held (c : Thread nD τ) (Pipeline.ucRefs τ sig) (Wa c) ∗ Pipeline.owesWithin c (0 : CellTallies nD τ sig (SparseCore.Cfg.HIx 2)) Ba)
/-- The thread state it leaves: the buffers at the exit valuation, nothing owed, the recorded pairs within the given set
    and the pipeline's own wait pairs. -/
def post0 (c : Dev nD) : sProp 𝕄 :=
  iprop(StableHlo.held (c : Thread nD τ) (Pipeline.ucRefs τ sig) (exit0 (Name := Name) (U := U) Wa Ba c)
    ∗ Pipeline.owesWithin c (0 : CellTallies nD τ sig (SparseCore.Cfg.HIx 2)) (Ba ∪ cfg2.waitPairs none))
/-- What bypasses the region: the unscoped buffers that are no array of the pipeline. -/
def byp0 (c : Dev nD) : sProp 𝕄 :=
  Pipeline.unscopedRest (Ix := SparseCore.Cfg.HIx 2) (Name := Name) (U := U) (Lvl := ℕ) spec2 c (Vof Wa c)

set_option backward.isDefEq.respectTransparency.types false in
/-- The region: its arrays split out of the unscoped buffers at entry and put back at the exit contents; nothing owed;
    no semaphore of the kernel's own; the invariant is the scoped buffers the pipeline does not stage. -/
def reg0 : Pipeline.RegionSeg (pcfgs (F := F)) adm (pdats (Name := Name) (U := U) (Vof Wa) (Vof Wb) Ba Bb) (none : SparseCore.Cfg.HIx 2) defs₀ 𝒱₀ L lv 0 where
  win := launch2.win.to₀
  block_pos := launch2.block_pos
  stage_whole := launch2.stage_whole
  K := PEmpty
  osem k := k.elim
  ho := Pipeline.OwnSemFacts.none _
  hbody c := (body_obligation2 (Vof Wa) Ba c).loose
  hwaits := Pipeline.hwaits_of_owed_zero _ _ _ _ L lv 0 fun _ _ => rfl
  pre := pre0 (Name := Name) (U := U) Wa Ba
  post := post0 (Name := Name) (U := U) Wa Ba
  X c := iprop(emp)
  Y c := iprop(emp)
  Z := byp0 (Name := Name) (U := U) Wa
  hentry c := by
    rw [Pipeline.ownSems0_none]; unfold pre0 byp0
    have hsplit := Pipeline.arrays_of_unscopedBufs (p := 0) (pcfgs (F := F)) adm (pdats (Name := Name) (U := U) (Vof Wa) (Vof Wb) Ba Bb) launch2.win launch2.arr_whole c
      (((pdats (Name := Name) (U := U) (Vof Wa) (Vof Wb) Ba Bb) 0 c).share_full fun _ => rfl) (Vof Wa c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show ((pdats (Name := Name) (U := U) (Vof Wa) (Vof Wb) Ba Bb) 0 c).Φ 0 = Pipeline.scopedRest spec2 c from rfl]
    iintro ⟨-, -, Hr⟩
    iexact Hr
  hout c := by
    rw [Pipeline.ownSems0_none, show ((pdats (Name := Name) (U := U) (Vof Wa) (Vof Wb) Ba Bb) 0 c).Φ (Fin.last _) = Pipeline.scopedRest spec2 c from rfl]
    iintro Hr
    isplitr; · iempintro
    isplitr; · iempintro
    iexact Hr
  hexit c := by
    have hjoin := Pipeline.unscopedBufs_of_arrays (p := 0) (pcfgs (F := F)) adm (Ix := SparseCore.Cfg.HIx 2) (Name := Name) (U := U) (Lvl := ℕ)
      launch2.win launch2.arr_whole c (pdats (Name := Name) (U := U) (Vof Wa) (Vof Wb) Ba Bb) (((pdats (Name := Name) (U := U) (Vof Wa) (Vof Wb) Ba Bb) 0 c).share_full fun _ => rfl)
      (Vof Wa c) (Vof (exit0 (Name := Name) (U := U) Wa Ba) c) (((pdats (Name := Name) (U := U) (Vof Wa) (Vof Wb) Ba Bb) 0 c).arrAt · cfg2.N) (hF0 Wa Ba c) (hrest0 Wa Ba c)
    rw [Pipeline.unscopedBufs_held] at hjoin
    unfold post0 byp0
    iintro ⟨Ha, HO, -, Hrest⟩
    imodintro
    isplitl [Ha Hrest]
    · iapply hjoin; isplitl [Ha] <;> iassumption
    iexact HO

end Segs

end Cert.Kernel.Tc

end
-- ==== Proof.TcSeg1B.lean ====
import proofs.«204681_g65575560675685_cont_9to1_m_144_57_alg».proof.Proof.TcBody3B
import proofs.«204681_g65575560675685_cont_9to1_m_144_57_alg».proof.Proof.TcSeg0B
import Idealize.ShloMosaic.Lib.SparseCore.Threads

set_option maxRecDepth 16384

noncomputable section

namespace Cert.Kernel.Tc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 1 as a region of the main program

The region is entered from every unscoped TensorCore buffer at a valuation and left at the valuation that has the
pipeline's arrays at what its write-backs leave and every other buffer as entered; the core owes nothing throughout, and
the pairs its waits have recorded grow by the pipeline's own waits only (all at the index none). -/

section Segs

variable (Wa Wb : Dev nD → Valuation τ sig (Elt F)) (Ba Bb : Set (SemLoc sig × SparseCore.Cfg.HIx 2))
variable (L : GSem nD τ sig → Finset (SparseCore.Cfg.HIx 2)) (lv : GSem nD τ sig → SparseCore.Cfg.HIx 2 → ℕ)

/-- At the region's exit: its arrays at what the pipeline leaves (the inputs as entered, the output's write-backs
    folded), every other buffer as entered. -/
def exit1 (c : Dev nD) : Valuation τ sig (Elt F) :=
  Pipeline.withArrays spec3 c (Wb c) fun w => (dat3 (Name := Name) (U := U) (Vof Wb) Bb c).arrAt w cfg3.N

theorem exit1_arr (c : Dev nD) (w : Fin cfg3.W) :
    exit1 (Name := Name) (U := U) Wb Bb c (Proc.devRef .tc (Pipeline.arrRef spec3 w)) = (dat3 (Name := Name) (U := U) (Vof Wb) Bb c).arrAt w cfg3.N := by
  unfold exit1; exact Pipeline.withArrays_arr spec3 launch3.win.arr_inj c _ _ w

theorem exit1_of_ne (c : Dev nD) (b : Ref sig .tc) (hb : ∀ w, Pipeline.arrRef spec3 w ≠ b) :
    exit1 (Name := Name) (U := U) Wb Bb c (Proc.devRef .tc b) = Wb c (Proc.devRef .tc b) := by
  unfold exit1; exact Pipeline.withArrays_of_ne spec3 c _ _ b hb

theorem hF1 (c : Dev nD) (w : Fin cfg3.W) :
    (dat3 (Name := Name) (U := U) (Vof Wb) Bb c).arrAt w cfg3.N = Vof (exit1 (Name := Name) (U := U) Wb Bb) c (Pipeline.arrRef spec3 w) :=
  (exit1_arr Wb Bb c w).symm

theorem hrest1 (c : Dev nD) : ∀ b, b ∉ Finset.univ.image (Pipeline.arrRef spec3) → Vof (exit1 (Name := Name) (U := U) Wb Bb) c b = Vof Wb c b :=
  fun b hb => exit1_of_ne Wb Bb c b fun w e => hb (Finset.mem_image.mpr ⟨w, Finset.mem_univ _, e⟩)

/-- Every buffer but the output array's is left as entered: the input windows' arrays are never written back. -/
theorem exit1_frame (c : Dev nD) (b : DevRef τ sig) (hb : b ≠ Proc.devRef .tc main_v97) :
    exit1 (Name := Name) (U := U) Wb Bb c b = Wb c b := by
  by_cases h : ∃ w, Proc.devRef .tc (Pipeline.arrRef spec3 w) = b
  · obtain ⟨w, rfl⟩ := h
    rw [exit1_arr]
    match w with
    | ⟨0, _⟩ => exact ((dat3 (Name := Name) (U := U) (Vof Wb) Bb c).arrAt_in 0 rfl _).trans (A_eq3 (Vof Wb) Bb c 0)
    | ⟨1, _⟩ => exact ((dat3 (Name := Name) (U := U) (Vof Wb) Bb c).arrAt_in 1 rfl _).trans (A_eq3 (Vof Wb) Bb c 1)
    | ⟨2, _⟩ => exact ((dat3 (Name := Name) (U := U) (Vof Wb) Bb c).arrAt_in 2 rfl _).trans (A_eq3 (Vof Wb) Bb c 2)
    | ⟨3, _⟩ => exact ((dat3 (Name := Name) (U := U) (Vof Wb) Bb c).arrAt_in 3 rfl _).trans (A_eq3 (Vof Wb) Bb c 3)
    | ⟨4, _⟩ => exact absurd rfl hb
  · unfold exit1 Pipeline.withArrays
    rw [dif_neg h]

/-- The thread state the region is entered from: every unscoped buffer at the entry valuation, the core owing nothing
    with its recorded pairs within the given set. -/
def pre1 (c : Dev nD) : sProp 𝕄 :=
  iprop(StableHlo.held (c : Thread nD τ) (Pipeline.ucRefs τ sig) (Wb c) ∗ Pipeline.owesWithin c (0 : CellTallies nD τ sig (SparseCore.Cfg.HIx 2)) Bb)
/-- The thread state it leaves: the buffers at the exit valuation, nothing owed, the recorded pairs within the given set
    and the pipeline's own wait pairs. -/
def post1 (c : Dev nD) : sProp 𝕄 :=
  iprop(StableHlo.held (c : Thread nD τ) (Pipeline.ucRefs τ sig) (exit1 (Name := Name) (U := U) Wb Bb c)
    ∗ Pipeline.owesWithin c (0 : CellTallies nD τ sig (SparseCore.Cfg.HIx 2)) (Bb ∪ cfg3.waitPairs none))
/-- What bypasses the region: the unscoped buffers that are no array of the pipeline. -/
def byp1 (c : Dev nD) : sProp 𝕄 :=
  Pipeline.unscopedRest (Ix := SparseCore.Cfg.HIx 2) (Name := Name) (U := U) (Lvl := ℕ) spec3 c (Vof Wb c)

set_option backward.isDefEq.respectTransparency.types false in
/-- The region: its arrays split out of the unscoped buffers at entry and put back at the exit contents; nothing owed;
    no semaphore of the kernel's own; the invariant is the scoped buffers the pipeline does not stage. -/
def reg1 : Pipeline.RegionSeg (pcfgs (F := F)) adm (pdats (Name := Name) (U := U) (Vof Wa) (Vof Wb) Ba Bb) (none : SparseCore.Cfg.HIx 2) defs₀ 𝒱₀ L lv 1 where
  win := launch3.win.to₀
  block_pos := launch3.block_pos
  stage_whole := launch3.stage_whole
  K := PEmpty
  osem k := k.elim
  ho := Pipeline.OwnSemFacts.none _
  hbody c := (body_obligation3 (Vof Wb) Bb c).loose
  hwaits := Pipeline.hwaits_of_owed_zero _ _ _ _ L lv 1 fun _ _ => rfl
  pre := pre1 (Name := Name) (U := U) Wb Bb
  post := post1 (Name := Name) (U := U) Wb Bb
  X c := iprop(emp)
  Y c := iprop(emp)
  Z := byp1 (Name := Name) (U := U) Wb
  hentry c := by
    rw [Pipeline.ownSems0_none]; unfold pre1 byp1
    have hsplit := Pipeline.arrays_of_unscopedBufs (p := 1) (pcfgs (F := F)) adm (pdats (Name := Name) (U := U) (Vof Wa) (Vof Wb) Ba Bb) launch3.win launch3.arr_whole c
      (((pdats (Name := Name) (U := U) (Vof Wa) (Vof Wb) Ba Bb) 1 c).share_full fun _ => rfl) (Vof Wb c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show ((pdats (Name := Name) (U := U) (Vof Wa) (Vof Wb) Ba Bb) 1 c).Φ 0 = Pipeline.scopedRest spec3 c from rfl]
    iintro ⟨-, -, Hr⟩
    iexact Hr
  hout c := by
    rw [Pipeline.ownSems0_none, show ((pdats (Name := Name) (U := U) (Vof Wa) (Vof Wb) Ba Bb) 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := SparseCore.Cfg.HIx 2) (Name := Name) (U := U) (Lvl := ℕ)
      launch3.win launch3.arr_whole c (pdats (Name := Name) (U := U) (Vof Wa) (Vof Wb) Ba Bb) (((pdats (Name := Name) (U := U) (Vof Wa) (Vof Wb) Ba Bb) 1 c).share_full fun _ => rfl)
      (Vof Wb c) (Vof (exit1 (Name := Name) (U := U) Wb Bb) c) (((pdats (Name := Name) (U := U) (Vof Wa) (Vof Wb) Ba Bb) 1 c).arrAt · cfg3.N) (hF1 Wb Bb c) (hrest1 Wb Bb c)
    rw [Pipeline.unscopedBufs_held] at hjoin
    unfold post1 byp1
    iintro ⟨Ha, HO, -, Hrest⟩
    imodintro
    isplitl [Ha Hrest]
    · iapply hjoin; isplitl [Ha] <;> iassumption
    iexact HO

end Segs

end Cert.Kernel.Tc

end
-- ==== Proof.TcStep0B.lean ====
import proofs.«204681_g65575560675685_cont_9to1_m_144_57_alg».proof.Proof.TcSeg0B

set_option maxRecDepth 16384

noncomputable section

namespace Cert.Kernel.Tc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 0's region as one step of the main program's TensorCore thread

From the boundary, every unscoped buffer at a valuation W, the core owing nothing with recorded pairs Wt, the level
facts and the pipeline's rounds ghost state, the call of the pipeline's entry runs to the boundary, the buffers at the
exit valuation and the core owing nothing with recorded pairs that are old or at the index none. -/

section Step

/-- The call of a pipeline's entry, lifted to the body table extended by the SparseCore launch's labels, is the call of
    its inner label. -/
theorem lift_entry (p : Fin 2) :
    (SparseCore.liftProg (Q := 2) (Prog.op (.customCall (Pipeline.entry p) ()) (fun _ => Prog.ret PUnit.unit) :
        Prog (TpuEff nD τ sig (Elt F) (Pipeline.Sig Λ₀ (Fin 2) fun p => (pcfgs (F := F) p).Adm) .tc) PUnit))
      = Prog.lift (.customCall (SparseCore.inner (Pipeline.entry p)) ()) := rfl

set_option backward.isDefEq.respectTransparency.types false in
set_option maxHeartbeats 400000 in
theorem region0_step [Infinite Name]
    (EP : Emb (URounds (GSem nD τ sig) Unit) 𝕄) [EP.LandsIn (upEmb : UEmb _ 𝕄)]
    (L : GSem nD τ sig → Finset (SparseCore.Cfg.HIx 2)) (lv : GSem nD τ sig → SparseCore.Cfg.HIx 2 → ℕ)
    (d : Dev nD) (W : Valuation τ sig (Elt F)) (Wt : Waits sig (SparseCore.Cfg.HIx 2)) {β : Type}
    (k : PUnit.{1} → Prog (TpuEff nD τ sig (Elt F) (SparseCore.Sig (Pipeline.Sig Λ₀ (Fin 2) fun p => (pcfgs (F := F) p).Adm) 2) .tc) β)
    (Φ : β → sProp 𝕄) :
    iprop(levAts L lv ∗ boundary (d.tc : Thread nD τ)
        ∗ (Pipeline.cellsGhost cfgs EP 0 d ∗ Pipeline.toksInit cfgs EP 0 d)
        ∗ StableHlo.held (d.tc : Thread nD τ) (Pipeline.ucRefs τ sig) W
        ∗ owes (d.tc : Thread nD τ) (0 : CellTallies nD τ sig (SparseCore.Cfg.HIx 2)) Wt
        ∗ (∀ Wt' : Waits sig (SparseCore.Cfg.HIx 2), ⌜∀ p ∈ Wt', p ∈ Wt ∨ p.2 = none⌝
            -∗ iprop(boundary (d.tc : Thread nD τ) ∗ StableHlo.held (d.tc : Thread nD τ) (Pipeline.ucRefs τ sig) (exit0 (Name := Name) (U := U) (fun _ => W) (↑Wt : Set (SemLoc sig × SparseCore.Cfg.HIx 2)) d)
                ∗ owes (d.tc : Thread nD τ) (0 : CellTallies nD τ sig (SparseCore.Cfg.HIx 2)) Wt')
            -∗ wp frame (wpE (defs (F := F)) (Variants.lift 𝒱₀) (d.tc : Thread nD τ) none) Set.univ (k ⟨⟩) Φ))
      ⊢ wp frame (wpE (defs (F := F)) (Variants.lift 𝒱₀) (d.tc : Thread nD τ) none) Set.univ
          (Prog.lift (.customCall (SparseCore.inner (Pipeline.entry 0)) ()) >>= k) Φ := by
  have h := Pipeline.RegionSeg.wp (pcfgs (F := F)) adm (pdats (Name := Name) (U := U) (Vof (fun _ => W)) (Vof (fun _ => W)) (↑Wt : Set (SemLoc sig × SparseCore.Cfg.HIx 2)) (↑Wt : Set (SemLoc sig × SparseCore.Cfg.HIx 2))) (none : SparseCore.Cfg.HIx 2) cellOf_inj EP defs₀ 𝒱₀ L lv
    (reg0 (Name := Name) (U := U) (fun _ => W) (fun _ => W) (↑Wt : Set (SemLoc sig × SparseCore.Cfg.HIx 2)) (↑Wt : Set (SemLoc sig × SparseCore.Cfg.HIx 2)) L lv) d none (fun _ h => nomatch h) (fun _ => .ret ⟨⟩)
    (fun a => wp frame (wpE (sc.defs (Pipeline.defs (pcfgs (F := F)) defs₀)) (Variants.lift 𝒱₀) (d.tc : Thread nD τ) none) Set.univ (k a) Φ)
  have hl := sc.wp_liftProg (Pipeline.defs (pcfgs (F := F)) defs₀) (Variants.lift 𝒱₀) (d.tc : Thread nD τ) (Set.univ : Set Name) none
    (Prog.op (.customCall (Pipeline.entry 0) ()) (fun _ => Prog.ret PUnit.unit) : Prog (TpuEff nD τ sig (Elt F) (Pipeline.Sig Λ₀ (Fin 2) fun p => (pcfgs (F := F) p).Adm) .tc) PUnit)
    (fun a => wp frame (wpE (sc.defs (Pipeline.defs (pcfgs (F := F)) defs₀)) (Variants.lift 𝒱₀) (d.tc : Thread nD τ) none) Set.univ (k a) Φ)
  rw [wp_bind, ← lift_entry 0]
  unfold defs
  refine BIBase.Entails.trans ?_ (BIBase.Entails.trans h hl)
  iintro ⟨Hlev, Hb, ⟨Hg, Ht⟩, Hh, HO, Hk⟩
  isplitl [Hk]
  · iintro ⟨Hb, Hpost⟩
    rw [wp_ret]
    imodintro
    unfold reg0 post0 Pipeline.owesWithin
    icases Hpost with ⟨Hh, ⟨%Wt', %hW, HO⟩⟩
    have hp : ∀ p ∈ Wt', p ∈ Wt ∨ p.2 = none := fun p hp => by
      rcases hW (Finset.mem_coe.mpr hp) with h | ⟨w, s, rfl⟩
      · exact Or.inl (Finset.mem_coe.mp h)
      · exact Or.inr rfl
    iapply Hk $$ %Wt' %hp
    isplitl [Hb]; · iexact Hb
    isplitl [Hh]; · iexact Hh
    iexact HO
  isplitl [Hb]; · iexact Hb
  isplitl [Hh HO]
  · unfold reg0 pre0 Pipeline.owesWithin
    isplitl [Hh]; · iexact Hh
    iexists Wt; isplitr; · ipureintro; exact subset_rfl
    iexact HO
  isplitl [Hlev]; · iexact Hlev
  isplitl [Hg]; · iexact Hg
  iexact Ht

end Step

end Cert.Kernel.Tc

end
-- ==== Proof.TcStep1B.lean ====
import proofs.«204681_g65575560675685_cont_9to1_m_144_57_alg».proof.Proof.TcSeg1B
import proofs.«204681_g65575560675685_cont_9to1_m_144_57_alg».proof.Proof.TcStep0B

set_option maxRecDepth 16384

noncomputable section

namespace Cert.Kernel.Tc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 1's region as one step of the main program's TensorCore thread

From the boundary, every unscoped buffer at a valuation W, the core owing nothing with recorded pairs Wt, the level
facts and the pipeline's rounds ghost state, the call of the pipeline's entry runs to the boundary, the buffers at the
exit valuation and the core owing nothing with recorded pairs that are old or at the index none. -/

section Step

set_option backward.isDefEq.respectTransparency.types false in
set_option maxHeartbeats 400000 in
theorem region1_step [Infinite Name]
    (EP : Emb (URounds (GSem nD τ sig) Unit) 𝕄) [EP.LandsIn (upEmb : UEmb _ 𝕄)]
    (L : GSem nD τ sig → Finset (SparseCore.Cfg.HIx 2)) (lv : GSem nD τ sig → SparseCore.Cfg.HIx 2 → ℕ)
    (d : Dev nD) (W : Valuation τ sig (Elt F)) (Wt : Waits sig (SparseCore.Cfg.HIx 2)) {β : Type}
    (k : PUnit.{1} → Prog (TpuEff nD τ sig (Elt F) (SparseCore.Sig (Pipeline.Sig Λ₀ (Fin 2) fun p => (pcfgs (F := F) p).Adm) 2) .tc) β)
    (Φ : β → sProp 𝕄) :
    iprop(levAts L lv ∗ boundary (d.tc : Thread nD τ)
        ∗ (Pipeline.cellsGhost cfgs EP 1 d ∗ Pipeline.toksInit cfgs EP 1 d)
        ∗ StableHlo.held (d.tc : Thread nD τ) (Pipeline.ucRefs τ sig) W
        ∗ owes (d.tc : Thread nD τ) (0 : CellTallies nD τ sig (SparseCore.Cfg.HIx 2)) Wt
        ∗ (∀ Wt' : Waits sig (SparseCore.Cfg.HIx 2), ⌜∀ p ∈ Wt', p ∈ Wt ∨ p.2 = none⌝
            -∗ iprop(boundary (d.tc : Thread nD τ) ∗ StableHlo.held (d.tc : Thread nD τ) (Pipeline.ucRefs τ sig) (exit1 (Name := Name) (U := U) (fun _ => W) (↑Wt : Set (SemLoc sig × SparseCore.Cfg.HIx 2)) d)
                ∗ owes (d.tc : Thread nD τ) (0 : CellTallies nD τ sig (SparseCore.Cfg.HIx 2)) Wt')
            -∗ wp frame (wpE (defs (F := F)) (Variants.lift 𝒱₀) (d.tc : Thread nD τ) none) Set.univ (k ⟨⟩) Φ))
      ⊢ wp frame (wpE (defs (F := F)) (Variants.lift 𝒱₀) (d.tc : Thread nD τ) none) Set.univ
          (Prog.lift (.customCall (SparseCore.inner (Pipeline.entry 1)) ()) >>= k) Φ := by
  have h := Pipeline.RegionSeg.wp (pcfgs (F := F)) adm (pdats (Name := Name) (U := U) (Vof (fun _ => W)) (Vof (fun _ => W)) (↑Wt : Set (SemLoc sig × SparseCore.Cfg.HIx 2)) (↑Wt : Set (SemLoc sig × SparseCore.Cfg.HIx 2))) (none : SparseCore.Cfg.HIx 2) cellOf_inj EP defs₀ 𝒱₀ L lv
    (reg1 (Name := Name) (U := U) (fun _ => W) (fun _ => W) (↑Wt : Set (SemLoc sig × SparseCore.Cfg.HIx 2)) (↑Wt : Set (SemLoc sig × SparseCore.Cfg.HIx 2)) L lv) d none (fun _ h => nomatch h) (fun _ => .ret ⟨⟩)
    (fun a => wp frame (wpE (sc.defs (Pipeline.defs (pcfgs (F := F)) defs₀)) (Variants.lift 𝒱₀) (d.tc : Thread nD τ) none) Set.univ (k a) Φ)
  have hl := sc.wp_liftProg (Pipeline.defs (pcfgs (F := F)) defs₀) (Variants.lift 𝒱₀) (d.tc : Thread nD τ) (Set.univ : Set Name) none
    (Prog.op (.customCall (Pipeline.entry 1) ()) (fun _ => Prog.ret PUnit.unit) : Prog (TpuEff nD τ sig (Elt F) (Pipeline.Sig Λ₀ (Fin 2) fun p => (pcfgs (F := F) p).Adm) .tc) PUnit)
    (fun a => wp frame (wpE (sc.defs (Pipeline.defs (pcfgs (F := F)) defs₀)) (Variants.lift 𝒱₀) (d.tc : Thread nD τ) none) Set.univ (k a) Φ)
  rw [wp_bind, ← lift_entry 1]
  unfold defs
  refine BIBase.Entails.trans ?_ (BIBase.Entails.trans h hl)
  iintro ⟨Hlev, Hb, ⟨Hg, Ht⟩, Hh, HO, Hk⟩
  isplitl [Hk]
  · iintro ⟨Hb, Hpost⟩
    rw [wp_ret]
    imodintro
    unfold reg1 post1 Pipeline.owesWithin
    icases Hpost with ⟨Hh, ⟨%Wt', %hW, HO⟩⟩
    have hp : ∀ p ∈ Wt', p ∈ Wt ∨ p.2 = none := fun p hp => by
      rcases hW (Finset.mem_coe.mpr hp) with h | ⟨w, s, rfl⟩
      · exact Or.inl (Finset.mem_coe.mp h)
      · exact Or.inr rfl
    iapply Hk $$ %Wt' %hp
    isplitl [Hb]; · iexact Hb
    isplitl [Hh]; · iexact Hh
    iexact HO
  isplitl [Hb]; · iexact Hb
  isplitl [Hh HO]
  · unfold reg1 pre1 Pipeline.owesWithin
    isplitl [Hh]; · iexact Hh
    iexists Wt; isplitr; · ipureintro; exact subset_rfl
    iexact HO
  isplitl [Hlev]; · iexact Hlev
  isplitl [Hg]; · iexact Hg
  iexact Ht

end Step

end Cert.Kernel.Tc

end
-- ==== Proof.CoreRegionsB.lean ====
/-
  The two TensorCore regions as steps of @main under the launch's resource algebra.
-/
import proofs.«204681_g65575560675685_cont_9to1_m_144_57_alg».proof.Proof.HmainTopB
import proofs.«204681_g65575560675685_cont_9to1_m_144_57_alg».proof.Proof.TcStep1B

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The buffers' contents at a region's exit: the region's arrays at what its grid points wrote, the rest as they were. -/
def ex0 (d : Dev nD) (Wt : Waits sig (HIx 2)) (W : Valuation τ sig (Elt F)) : Valuation τ sig (Elt F) :=
  Cert.Kernel.Tc.exit0 (Name := ℕ) (U := UU) (fun _ => W) (↑Wt : Set (SemLoc sig × HIx 2)) d
def ex1 (d : Dev nD) (Wt : Waits sig (HIx 2)) (W : Valuation τ sig (Elt F)) : Valuation τ sig (Elt F) :=
  Cert.Kernel.Tc.exit1 (Name := ℕ) (U := UU) (fun _ => W) (↑Wt : Set (SemLoc sig × HIx 2)) d

theorem hr0 : RegionStep (F := F) 0 ex0 := fun d W Wt _ k Φ =>
  Cert.Kernel.Tc.region0_step (F := F) (Name := ℕ) (U := UU) EP (K (F := F)).L (K (F := F)).lev d W Wt k Φ
theorem hr1 : RegionStep (F := F) 1 ex1 := fun d W Wt _ k Φ =>
  Cert.Kernel.Tc.region1_step (F := F) (Name := ℕ) (U := UU) EP (K (F := F)).L (K (F := F)).lev d W Wt k Φ

theorem hex0 (d : Dev nD) (Wt : Waits sig (HIx 2)) (W : Valuation τ sig (Elt F)) (b : DevRef τ sig) (hb : b ≠ Proc.devRef .tc main_v96) :
    ex0 d Wt W b = W b := Cert.Kernel.Tc.exit0_frame (Name := ℕ) (U := UU) (fun _ => W) (↑Wt : Set (SemLoc sig × HIx 2)) d b hb
theorem hex1 (d : Dev nD) (Wt : Waits sig (HIx 2)) (W : Valuation τ sig (Elt F)) (b : DevRef τ sig) (hb : b ≠ Proc.devRef .tc main_v97) :
    ex1 d Wt W b = W b := Cert.Kernel.Tc.exit1_frame (Name := ℕ) (U := UU) (fun _ => W) (↑Wt : Set (SemLoc sig × HIx 2)) d b hb

end Cert.Kernel.Launch

end
-- ==== Proof.ScTileLib0B.lean ====
/-
  What both cores' tile tasks of the first gather kernel share: separating products over an initial segment written
  out, the tile's own sixteen cells and nine scratch buffers laid out, a read share as seven read tokens, the fetched
  lists' words in range, and the bookkeeping of recorded waits.
-/
import proofs.«204681_g65575560675685_cont_9to1_m_144_57_alg».proof.Proof.ScTileDefs0B
import proofs.«204681_g65575560675685_cont_9to1_m_144_57_alg».proof.Proof.ScTileStmt0B
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.Kernel
import proofs.«204681_g65575560675685_cont_9to1_m_144_57_alg».proof.Proof.Gen.Kernel.Skeleton

noncomputable section

namespace Cert.Proof.Kernel.ScTile0

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

/-! ## A separating product over an initial segment, written out -/

section Fin
variable {M : Type} [URA M]

theorem bigSep_fin_one (Φ : Fin 1 → sProp M) : bigSep Finset.univ Φ = Φ 0 :=
  bigSep_univ_of_subsingleton (0 : Fin 1)

theorem bigSep_fin_succ {n : ℕ} (Φ : Fin (n + 1) → sProp M) :
    bigSep Finset.univ Φ = iprop(Φ 0 ∗ bigSep Finset.univ fun i : Fin n => Φ i.succ) := by
  rw [Fin.univ_succ, Finset.cons_eq_insert, SparseCore.bigSep_insert' (by simp [Fin.succ_ne_zero]), bigSep_map]
  rfl

theorem bigSep_fin7 (Φ : Fin 7 → sProp M) :
    bigSep Finset.univ Φ = iprop(Φ 0 ∗ Φ 1 ∗ Φ 2 ∗ Φ 3 ∗ Φ 4 ∗ Φ 5 ∗ Φ 6) := by
  iterate 6 rw [bigSep_fin_succ]
  rw [bigSep_fin_one]; rfl

theorem bigSep_fin9 (Φ : Fin 9 → sProp M) :
    bigSep Finset.univ Φ = iprop(Φ 0 ∗ Φ 1 ∗ Φ 2 ∗ Φ 3 ∗ Φ 4 ∗ Φ 5 ∗ Φ 6 ∗ Φ 7 ∗ Φ 8) := by
  iterate 8 rw [bigSep_fin_succ]
  rw [bigSep_fin_one]; rfl

theorem bigSep_fin16 (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  iterate 15 rw [bigSep_fin_succ]
  rw [bigSep_fin_one]; rfl

theorem bigSep_fin18 (Φ : Fin 18 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  iterate 17 rw [bigSep_fin_succ]
  rw [bigSep_fin_one]; rfl

end Fin

section Tile

variable (d : Dev nD) (L : grid0.Coords)

/-! ## The tile's own cells and buffers, laid out -/

/-- The kernel's sixteen DMA semaphores: seven gather cells, seven write-out cells, the two fetches' cells. -/
def semOf : Fin 16 → DmaSem sig := ![cc0_scratch9.sem, cc0_scratch10.sem, cc0_scratch11.sem, cc0_scratch12.sem, cc0_scratch13.sem, cc0_scratch14.sem, cc0_scratch15.sem, cc0_scratch16.sem, cc0_scratch17.sem, cc0_scratch18.sem, cc0_scratch19.sem, cc0_scratch20.sem, cc0_scratch21.sem, cc0_scratch22.sem, cc0_scoped0.sem, cc0_scoped1.sem]
/-- The kernel's nine scratch buffers: the two lists, the seven row buffers. -/
def bufOf : Fin 9 → Ref sig .scVector := ![cc0_scratch0, cc0_scratch1, cc0_scratch2, cc0_scratch3, cc0_scratch4, cc0_scratch5, cc0_scratch6, cc0_scratch7, cc0_scratch8]

theorem semOf_inj : Function.Injective semOf := by decide +kernel
theorem semOf_scoped : ∀ k, (SemLoc.dma (semOf k) : SemLoc sig).isScoped .scVector = true := by decide +kernel
theorem bufOf_inj : Function.Injective bufOf := by decide +kernel

abbrev cellOf (d : Dev nD) (L : grid0.Coords) (n : DmaSem sig) : GSem nD τ sig := (V d (cV L) (jV L), SemLoc.dma n)

theorem ownSems0_V :
    (ownSems0 (V d (cV L) (jV L)) : sProp 𝕄)
      = iprop((semVal ((V d (cV L) (jV L), SemLoc.dma cc0_scratch9.sem) : GSem nD τ sig) 0
        ∗ semVal ((V d (cV L) (jV L), SemLoc.dma cc0_scratch10.sem) : GSem nD τ sig) 0
        ∗ semVal ((V d (cV L) (jV L), SemLoc.dma cc0_scratch11.sem) : GSem nD τ sig) 0
        ∗ semVal ((V d (cV L) (jV L), SemLoc.dma cc0_scratch12.sem) : GSem nD τ sig) 0
        ∗ semVal ((V d (cV L) (jV L), SemLoc.dma cc0_scratch13.sem) : GSem nD τ sig) 0
        ∗ semVal ((V d (cV L) (jV L), SemLoc.dma cc0_scratch14.sem) : GSem nD τ sig) 0
        ∗ semVal ((V d (cV L) (jV L), SemLoc.dma cc0_scratch15.sem) : GSem nD τ sig) 0
        ∗ semVal ((V d (cV L) (jV L), SemLoc.dma cc0_scratch16.sem) : GSem nD τ sig) 0
        ∗ semVal ((V d (cV L) (jV L), SemLoc.dma cc0_scratch17.sem) : GSem nD τ sig) 0
        ∗ semVal ((V d (cV L) (jV L), SemLoc.dma cc0_scratch18.sem) : GSem nD τ sig) 0
        ∗ semVal ((V d (cV L) (jV L), SemLoc.dma cc0_scratch19.sem) : GSem nD τ sig) 0
        ∗ semVal ((V d (cV L) (jV L), SemLoc.dma cc0_scratch20.sem) : GSem nD τ sig) 0
        ∗ semVal ((V d (cV L) (jV L), SemLoc.dma cc0_scratch21.sem) : GSem nD τ sig) 0
        ∗ semVal ((V d (cV L) (jV L), SemLoc.dma cc0_scratch22.sem) : GSem nD τ sig) 0
        ∗ semVal ((V d (cV L) (jV L), SemLoc.dma cc0_scoped0.sem) : GSem nD τ sig) 0
        ∗ semVal ((V d (cV L) (jV L), SemLoc.dma cc0_scoped1.sem) : GSem nD τ sig) 0)
        ∗ bigSep (ownCells (V d (cV L) (jV L)) \ Finset.univ.image fun k => cellOf d L (semOf k)) fun g => semVal g 0) := by
  unfold SparseCore.Cfg.ownSems0
  have hsub : (Finset.univ.image fun k => cellOf d L (semOf k)) ⊆ ownCells (V d (cV L) (jV L)) := by
    intro g hg
    obtain ⟨k, -, rfl⟩ := Finset.mem_image.mp hg
    exact mem_ownCells.mpr ⟨rfl, semOf_scoped k⟩
  have hinj : Set.InjOn (fun k => cellOf d L (semOf k)) ((Finset.univ : Finset (Fin 16)) : Set (Fin 16)) := fun a _ b _ e =>
    semOf_inj (SemLoc.dma.inj (congrArg Prod.snd e))
  rw [SparseCore.bigSep_sdiff_split' hsub, Idealize.SL.BI.bigSep_image_of_injOn hinj, bigSep_fin16]
  rfl

theorem ownBufs_V :
    (ownBufs (V d (cV L) (jV L)) : sProp 𝕄)
      = iprop(((∃ f, (V d (cV L) (jV L)).loc cc0_scratch0 ↦{fullShare} f)
        ∗ (∃ f, (V d (cV L) (jV L)).loc cc0_scratch1 ↦{fullShare} f)
        ∗ (∃ f, (V d (cV L) (jV L)).loc cc0_scratch2 ↦{fullShare} f)
        ∗ (∃ f, (V d (cV L) (jV L)).loc cc0_scratch3 ↦{fullShare} f)
        ∗ (∃ f, (V d (cV L) (jV L)).loc cc0_scratch4 ↦{fullShare} f)
        ∗ (∃ f, (V d (cV L) (jV L)).loc cc0_scratch5 ↦{fullShare} f)
        ∗ (∃ f, (V d (cV L) (jV L)).loc cc0_scratch6 ↦{fullShare} f)
        ∗ (∃ f, (V d (cV L) (jV L)).loc cc0_scratch7 ↦{fullShare} f)
        ∗ (∃ f, (V d (cV L) (jV L)).loc cc0_scratch8 ↦{fullShare} f))
        ∗ bigSep (ownRefs (τ := τ) (.scVector (cV L) (jV L)) \ Finset.univ.image fun k => (Proc.scVector (cV L) (jV L)).devRef (bufOf k))
            fun b => iprop(∃ f, ((d, b) : Loc nD τ sig) ↦{fullShare} f)) := by
  unfold SparseCore.Cfg.ownBufs
  have hsub : (Finset.univ.image fun k => (Proc.scVector (cV L) (jV L)).devRef (bufOf k)) ⊆ ownRefs (τ := τ) (.scVector (cV L) (jV L)) := by
    intro b hb
    obtain ⟨k, -, rfl⟩ := Finset.mem_image.mp hb
    refine SparseCore.Cfg.mem_ownRefs_of_owner ?_
    fin_cases k <;> rfl
  have hinj : Set.InjOn (fun k => (Proc.scVector (cV L) (jV L)).devRef (bufOf k)) ((Finset.univ : Finset (Fin 9)) : Set (Fin 9)) := fun a _ b _ e =>
    bufOf_inj (Proc.devRef_injective _ e)
  rw [SparseCore.bigSep_sdiff_split' hsub, Idealize.SL.BI.bigSep_image_of_injOn hinj, bigSep_fin9]
  rfl

variable [FloatOps F]

/-- The two cores' branches exclude each other. -/
theorem cond_excl : ∀ L : grid0.Coords, k0_cond2 L = 1#1 → ¬ k0_cond1 L = 1#1 := by decide +kernel
theorem cond_excl' : ∀ L : grid0.Coords, k0_cond1 L = 1#1 → ¬ k0_cond2 L = 1#1 := by decide +kernel

/-- A read share is seven read tokens, one per gather cell, and a remainder. -/
theorem toks7 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 7} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f)
      ∗ (ℓ ↦[S]{Transfers.shareTokN q 5} f) ∗ (ℓ ↦[S]{Transfers.shareTokN q 6} f)) := by
  have h := Transfers.pointsTo_toks (nD := nD) (τ := τ) (sig := sig) (Ix := HIx 2) (Val := Elt F) (Name := ℕ) (U := U) (Lvl := ℕ) (ℓ := ℓ) (S := S) (f := f) q 7
  rw [bigSep_fin7] at h
  exact h

/-! ## The fetched lists name rows of the tables -/

/-- Row j of a list scratch, as the tile addresses it for a gather. -/
abbrev rowU (j : ℕ) (h : ∀ a, (![j, 0] : Fin 2 → ℕ) a + S1x128.size a ≤ S18x128.size a) : Memref sig .scVector .vmem S128 .i32 :=
  ((luV).slice (Rect.unit (s := S18x128) ![j, 0] S1x128.size h) (fun _ => rfl)).squeeze S128 squeezes_S1x128_S128
abbrev rowI (j : ℕ) (h : ∀ a, (![j, 0] : Fin 2 → ℕ) a + S1x128.size a ≤ S18x128.size a) : Memref sig .scVector .vmem S128 .i32 :=
  ((liV).slice (Rect.unit (s := S18x128) ![j, 0] S1x128.size h) (fun _ => rfl)).squeeze S128 squeezes_S1x128_S128

/-- Every word of the user list, once the tile's slab has landed in it, is a word of the index operand: below 100000. -/
theorem list_inbU (gu : Buf (Elt F) (iuLoc d)) (hgu : ∀ j : S32x18x128.Idx, (gu j).toNat < 100000)
    (j : ℕ) (h : ∀ a, (![j, 0] : Fin 2 → ℕ) a + S1x128.size a ≤ S18x128.size a)
    (fl : Buf (Elt F) ((luV).view.loc (V d (cV L) (jV L)))) (pay : S18x128.Idx → Elt F .i32)
    (hpay : pay = (iuSlab L).view.read (Elt F) gu) :
    ∀ x, ((rowU j h).view.read (Elt F) (View.write (Elt F) (luV).view fl pay Finset.univ) x).toNat
      < S100000x128.size gathers_S100000x128_S128x128.axis := by
  subst hpay; intro x
  rw [View.write_whole_univ]
  rw [show ∀ (f : Buf (Elt F) ((luV).view.loc (V d (cV L) (jV L)))) y, (rowU j h).view.read (Elt F) f y = f ((rowU j h).view.emb y) from
    fun f y => (View.read_apply _ _).trans (cast_eq _ _)]
  rw [show ∀ y, (iuSlab L).view.read (Elt F) gu y = gu ((iuSlab L).view.emb y) from fun y => (View.read_apply _ _).trans (cast_eq _ _)]
  exact hgu _

theorem list_inbI (gi : Buf (Elt F) (iiLoc d)) (hgi : ∀ j : S32x18x128.Idx, (gi j).toNat < 100000)
    (j : ℕ) (h : ∀ a, (![j, 0] : Fin 2 → ℕ) a + S1x128.size a ≤ S18x128.size a)
    (fl : Buf (Elt F) ((liV).view.loc (V d (cV L) (jV L)))) (pay : S18x128.Idx → Elt F .i32)
    (hpay : pay = (iiSlab L).view.read (Elt F) gi) :
    ∀ x, ((rowI j h).view.read (Elt F) (View.write (Elt F) (liV).view fl pay Finset.univ) x).toNat
      < S100000x128.size gathers_S100000x128_S128x128.axis := by
  subst hpay; intro x
  rw [View.write_whole_univ]
  rw [show ∀ (f : Buf (Elt F) ((liV).view.loc (V d (cV L) (jV L)))) y, (rowI j h).view.read (Elt F) f y = f ((rowI j h).view.emb y) from
    fun f y => (View.read_apply _ _).trans (cast_eq _ _)]
  rw [show ∀ y, (iiSlab L).view.read (Elt F) gi y = gi ((iiSlab L).view.emb y) from fun y => (View.read_apply _ _).trans (cast_eq _ _)]
  exact hgi _

/-- A wait recorded at the default index keeps the recorded waits within the old ones and the unindexed. -/
theorem waits_ok {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with hp | hp
  · exact .inr (hp ▸ rfl)
  · exact h p hp

end Tile

end Cert.Proof.Kernel.ScTile0

end
-- ==== Proof.ScTile0c0B.lean ====
/-
  The task of a tile of core 0 of the first gather kernel: the tile fetches its two index slabs into its list
  scratches, then runs thirty-six windows through a ring of seven row buffers; window w gathers the 128 table rows named
  by row (w / 2) of the fetched list (the user table for even w, the item table for odd w) into slot (w mod 7) and copies
  the slot out to chunk (w / 2) of the tile's rows of the matching output. Every slot has its own gather cell and its
  own write-out cell, so on each cell at most one copy is outstanding, and no slot is touched while a copy on it is
  pending. The tile's rows of each output are held chunk by chunk for the run and joined again at the end.
-/
import proofs.«204681_g65575560675685_cont_9to1_m_144_57_alg».proof.Proof.ScTileLib0B
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.Kernel
import proofs.«204681_g65575560675685_cont_9to1_m_144_57_alg».proof.Proof.Gen.Kernel.Skeleton

noncomputable section

namespace Cert.Proof.Kernel.ScTile0

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

section Tile

variable (d : Dev nD) (L : grid0.Coords)
variable [FloatOps F]

/-- Two chunks of a core-0 tile are disjoint row ranges. -/
theorem chunk0_disj : ∀ (L : grid0.Coords) (h1 : k0_cond1 L = 1#1) (r r' : Fin 18), r ≠ r' →
    LoadRect.disj (Rect.unit (s := S51200x128) (k0_off2 L (BitVec.ofNat 32 (128 * r.val))) S128x128.size (k0_off2_inb L h1 r))
      (Rect.unit (s := S51200x128) (k0_off2 L (BitVec.ofNat 32 (128 * r'.val))) S128x128.size (k0_off2_inb L h1 r')).toLoadRect = true := by
  decide +kernel

theorem ouC0_disj (h1 : k0_cond1 L = 1#1) (r r' : Fin 18) (hne : r ≠ r') : Disjoint (ouC0 L h1 r).view.set (ouC0 L h1 r').view.set :=
  View.disjoint_slice_of_disj _ _ _ (chunk0_disj L h1 r r' hne)

/-- The tile's rows of the user output, chunk by chunk. -/
theorem outPts0 (h1 : k0_cond1 L = 1#1) (f : Buf (Elt F) (ouLoc d)) :
    (ouLoc d ↦[outSet0 L h1]{fullShare} f : sProp 𝕄)
      = iprop((ouLoc d ↦[(ouC0 L h1 0).view.set]{fullShare} f) ∗ (ouLoc d ↦[(ouC0 L h1 1).view.set]{fullShare} f) ∗ (ouLoc d ↦[(ouC0 L h1 2).view.set]{fullShare} f) ∗ (ouLoc d ↦[(ouC0 L h1 3).view.set]{fullShare} f) ∗ (ouLoc d ↦[(ouC0 L h1 4).view.set]{fullShare} f) ∗ (ouLoc d ↦[(ouC0 L h1 5).view.set]{fullShare} f) ∗ (ouLoc d ↦[(ouC0 L h1 6).view.set]{fullShare} f) ∗ (ouLoc d ↦[(ouC0 L h1 7).view.set]{fullShare} f) ∗ (ouLoc d ↦[(ouC0 L h1 8).view.set]{fullShare} f) ∗ (ouLoc d ↦[(ouC0 L h1 9).view.set]{fullShare} f) ∗ (ouLoc d ↦[(ouC0 L h1 10).view.set]{fullShare} f) ∗ (ouLoc d ↦[(ouC0 L h1 11).view.set]{fullShare} f) ∗ (ouLoc d ↦[(ouC0 L h1 12).view.set]{fullShare} f) ∗ (ouLoc d ↦[(ouC0 L h1 13).view.set]{fullShare} f) ∗ (ouLoc d ↦[(ouC0 L h1 14).view.set]{fullShare} f) ∗ (ouLoc d ↦[(ouC0 L h1 15).view.set]{fullShare} f) ∗ (ouLoc d ↦[(ouC0 L h1 16).view.set]{fullShare} f) ∗ (ouLoc d ↦[(ouC0 L h1 17).view.set]{fullShare} f)) := by
  unfold outSet0
  rw [pointsTo_biUnion _ _ (fun r _ r' _ hne => ouC0_disj L h1 r r' hne), bigSep_fin18]
/-- The tile's rows of the item output, chunk by chunk. -/
theorem outPts0i (h1 : k0_cond1 L = 1#1) (f : Buf (Elt F) (oiLoc d)) :
    (oiLoc d ↦[outSet0 L h1]{fullShare} f : sProp 𝕄)
      = iprop((oiLoc d ↦[(oiC0 L h1 0).view.set]{fullShare} f) ∗ (oiLoc d ↦[(oiC0 L h1 1).view.set]{fullShare} f) ∗ (oiLoc d ↦[(oiC0 L h1 2).view.set]{fullShare} f) ∗ (oiLoc d ↦[(oiC0 L h1 3).view.set]{fullShare} f) ∗ (oiLoc d ↦[(oiC0 L h1 4).view.set]{fullShare} f) ∗ (oiLoc d ↦[(oiC0 L h1 5).view.set]{fullShare} f) ∗ (oiLoc d ↦[(oiC0 L h1 6).view.set]{fullShare} f) ∗ (oiLoc d ↦[(oiC0 L h1 7).view.set]{fullShare} f) ∗ (oiLoc d ↦[(oiC0 L h1 8).view.set]{fullShare} f) ∗ (oiLoc d ↦[(oiC0 L h1 9).view.set]{fullShare} f) ∗ (oiLoc d ↦[(oiC0 L h1 10).view.set]{fullShare} f) ∗ (oiLoc d ↦[(oiC0 L h1 11).view.set]{fullShare} f) ∗ (oiLoc d ↦[(oiC0 L h1 12).view.set]{fullShare} f) ∗ (oiLoc d ↦[(oiC0 L h1 13).view.set]{fullShare} f) ∗ (oiLoc d ↦[(oiC0 L h1 14).view.set]{fullShare} f) ∗ (oiLoc d ↦[(oiC0 L h1 15).view.set]{fullShare} f) ∗ (oiLoc d ↦[(oiC0 L h1 16).view.set]{fullShare} f) ∗ (oiLoc d ↦[(oiC0 L h1 17).view.set]{fullShare} f)) := by
  unfold outSet0
  rw [pointsTo_biUnion (ℓ := oiLoc d) _ _ (fun r _ r' _ hne => ouC0_disj L h1 r r' hne), bigSep_fin18]
  rfl

set_option maxHeartbeats 40000000 in
/-- The chunks joined: whatever each holds, together they are the tile's rows at one contents. -/
theorem outJoin0 (h1 : k0_cond1 L = 1#1) (c0 c1 c2 c3 c4 c5 c6 c7 c8 c9 c10 c11 c12 c13 c14 c15 c16 c17 : Buf (Elt F) (ouLoc d)) :
    (iprop((ouLoc d ↦[(ouC0 L h1 0).view.set]{fullShare} c0) ∗ (ouLoc d ↦[(ouC0 L h1 1).view.set]{fullShare} c1) ∗ (ouLoc d ↦[(ouC0 L h1 2).view.set]{fullShare} c2) ∗ (ouLoc d ↦[(ouC0 L h1 3).view.set]{fullShare} c3) ∗ (ouLoc d ↦[(ouC0 L h1 4).view.set]{fullShare} c4) ∗ (ouLoc d ↦[(ouC0 L h1 5).view.set]{fullShare} c5) ∗ (ouLoc d ↦[(ouC0 L h1 6).view.set]{fullShare} c6) ∗ (ouLoc d ↦[(ouC0 L h1 7).view.set]{fullShare} c7) ∗ (ouLoc d ↦[(ouC0 L h1 8).view.set]{fullShare} c8) ∗ (ouLoc d ↦[(ouC0 L h1 9).view.set]{fullShare} c9) ∗ (ouLoc d ↦[(ouC0 L h1 10).view.set]{fullShare} c10) ∗ (ouLoc d ↦[(ouC0 L h1 11).view.set]{fullShare} c11) ∗ (ouLoc d ↦[(ouC0 L h1 12).view.set]{fullShare} c12) ∗ (ouLoc d ↦[(ouC0 L h1 13).view.set]{fullShare} c13) ∗ (ouLoc d ↦[(ouC0 L h1 14).view.set]{fullShare} c14) ∗ (ouLoc d ↦[(ouC0 L h1 15).view.set]{fullShare} c15) ∗ (ouLoc d ↦[(ouC0 L h1 16).view.set]{fullShare} c16) ∗ (ouLoc d ↦[(ouC0 L h1 17).view.set]{fullShare} c17)) : sProp 𝕄)
      ⊢ iprop(∃ g, ouLoc d ↦[outSet0 L h1]{fullShare} g) := by
  have hj : (bigSep (Finset.univ : Finset (Fin 18)) (fun r => ouLoc d ↦[(ouC0 L h1 r).view.set]{fullShare} ((![c0, c1, c2, c3, c4, c5, c6, c7, c8, c9, c10, c11, c12, c13, c14, c15, c16, c17] : Fin 18 → Buf (Elt F) (ouLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (ouLoc d)) t) i⌝
          ∗ ouLoc d ↦[Finset.univ.biUnion fun r => (ouC0 L h1 r).view.set]{fullShare} g) :=
    pointsTo_biUnion_join _ _ _ c0 (fun r _ r' _ hne => ouC0_disj L h1 r r' hne)
  rw [bigSep_fin18] at hj
  refine BIBase.Entails.trans (show _ ⊢ _ from hj) ?_
  iintro ⟨%g, -, H⟩
  iexists g
  unfold outSet0
  iexact H

set_option maxHeartbeats 40000000 in
theorem outJoin0i (h1 : k0_cond1 L = 1#1) (c0 c1 c2 c3 c4 c5 c6 c7 c8 c9 c10 c11 c12 c13 c14 c15 c16 c17 : Buf (Elt F) (oiLoc d)) :
    (iprop((oiLoc d ↦[(oiC0 L h1 0).view.set]{fullShare} c0) ∗ (oiLoc d ↦[(oiC0 L h1 1).view.set]{fullShare} c1) ∗ (oiLoc d ↦[(oiC0 L h1 2).view.set]{fullShare} c2) ∗ (oiLoc d ↦[(oiC0 L h1 3).view.set]{fullShare} c3) ∗ (oiLoc d ↦[(oiC0 L h1 4).view.set]{fullShare} c4) ∗ (oiLoc d ↦[(oiC0 L h1 5).view.set]{fullShare} c5) ∗ (oiLoc d ↦[(oiC0 L h1 6).view.set]{fullShare} c6) ∗ (oiLoc d ↦[(oiC0 L h1 7).view.set]{fullShare} c7) ∗ (oiLoc d ↦[(oiC0 L h1 8).view.set]{fullShare} c8) ∗ (oiLoc d ↦[(oiC0 L h1 9).view.set]{fullShare} c9) ∗ (oiLoc d ↦[(oiC0 L h1 10).view.set]{fullShare} c10) ∗ (oiLoc d ↦[(oiC0 L h1 11).view.set]{fullShare} c11) ∗ (oiLoc d ↦[(oiC0 L h1 12).view.set]{fullShare} c12) ∗ (oiLoc d ↦[(oiC0 L h1 13).view.set]{fullShare} c13) ∗ (oiLoc d ↦[(oiC0 L h1 14).view.set]{fullShare} c14) ∗ (oiLoc d ↦[(oiC0 L h1 15).view.set]{fullShare} c15) ∗ (oiLoc d ↦[(oiC0 L h1 16).view.set]{fullShare} c16) ∗ (oiLoc d ↦[(oiC0 L h1 17).view.set]{fullShare} c17)) : sProp 𝕄)
      ⊢ iprop(∃ g, oiLoc d ↦[outSet0 L h1]{fullShare} g) := by
  have hj : (bigSep (Finset.univ : Finset (Fin 18)) (fun r => oiLoc d ↦[(ouC0 L h1 r).view.set]{fullShare} ((![c0, c1, c2, c3, c4, c5, c6, c7, c8, c9, c10, c11, c12, c13, c14, c15, c16, c17] : Fin 18 → Buf (Elt F) (oiLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (oiLoc d)) t) i⌝
          ∗ oiLoc d ↦[Finset.univ.biUnion fun r => (ouC0 L h1 r).view.set]{fullShare} g) :=
    pointsTo_biUnion_join _ _ _ c0 (fun r _ r' _ hne => ouC0_disj L h1 r r' hne)
  rw [bigSep_fin18] at hj
  refine BIBase.Entails.trans (show _ ⊢ _ from hj) ?_
  iintro ⟨%g, -, H⟩
  iexists g
  unfold outSet0
  iexact H

set_option maxHeartbeats 400000000 in
/-- The task of a tile of core 0: the two fetches, thirty-six windows through the ring of seven slots, the drain. -/
theorem tile_body0 : TileBody0 F U := by
  intro d L hF h1 q fu fi gu gi ou oi hpre O W hO
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  have hn2 : ¬ k0_cond2 L = 1#1 := cond_excl' L h1
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  have hinU7 : ∀ (fl : Buf (Elt F) ((luV).view.loc (V d (cV L) (jV L)))) x, ((rowU 7 inb_S18x128_S1x128_7_0).view.read (Elt F) (View.write (Elt F) (luV).view fl ((iuSlab L).view.read (Elt F) gu) Finset.univ) x).toNat < S100000x128.size gathers_S100000x128_S128x128.axis :=
    fun fl => list_inbU d L gu hpre.1 7 _ fl _ rfl
  have hinI7 : ∀ (fl : Buf (Elt F) ((liV).view.loc (V d (cV L) (jV L)))) x, ((rowI 7 inb_S18x128_S1x128_7_0).view.read (Elt F) (View.write (Elt F) (liV).view fl ((iiSlab L).view.read (Elt F) gi) Finset.univ) x).toNat < S100000x128.size gathers_S100000x128_S128x128.axis :=
    fun fl => list_inbI d L gi hpre.2 7 _ fl _ rfl
  have hinU8 : ∀ (fl : Buf (Elt F) ((luV).view.loc (V d (cV L) (jV L)))) x, ((rowU 8 inb_S18x128_S1x128_8_0).view.read (Elt F) (View.write (Elt F) (luV).view fl ((iuSlab L).view.read (Elt F) gu) Finset.univ) x).toNat < S100000x128.size gathers_S100000x128_S128x128.axis :=
    fun fl => list_inbU d L gu hpre.1 8 _ fl _ rfl
  have hinI8 : ∀ (fl : Buf (Elt F) ((liV).view.loc (V d (cV L) (jV L)))) x, ((rowI 8 inb_S18x128_S1x128_8_0).view.read (Elt F) (View.write (Elt F) (liV).view fl ((iiSlab L).view.read (Elt F) gi) Finset.univ) x).toNat < S100000x128.size gathers_S100000x128_S128x128.axis :=
    fun fl => list_inbI d L gi hpre.2 8 _ fl _ rfl
  have hinU9 : ∀ (fl : Buf (Elt F) ((luV).view.loc (V d (cV L) (jV L)))) x, ((rowU 9 inb_S18x128_S1x128_9_0).view.read (Elt F) (View.write (Elt F) (luV).view fl ((iuSlab L).view.read (Elt F) gu) Finset.univ) x).toNat < S100000x128.size gathers_S100000x128_S128x128.axis :=
    fun fl => list_inbU d L gu hpre.1 9 _ fl _ rfl
  have hinI9 : ∀ (fl : Buf (Elt F) ((liV).view.loc (V d (cV L) (jV L)))) x, ((rowI 9 inb_S18x128_S1x128_9_0).view.read (Elt F) (View.write (Elt F) (liV).view fl ((iiSlab L).view.read (Elt F) gi) Finset.univ) x).toNat < S100000x128.size gathers_S100000x128_S128x128.axis :=
    fun fl => list_inbI d L gi hpre.2 9 _ fl _ rfl
  have hinU10 : ∀ (fl : Buf (Elt F) ((luV).view.loc (V d (cV L) (jV L)))) x, ((rowU 10 inb_S18x128_S1x128_10_0).view.read (Elt F) (View.write (Elt F) (luV).view fl ((iuSlab L).view.read (Elt F) gu) Finset.univ) x).toNat < S100000x128.size gathers_S100000x128_S128x128.axis :=
    fun fl => list_inbU d L gu hpre.1 10 _ fl _ rfl
  have hinI10 : ∀ (fl : Buf (Elt F) ((liV).view.loc (V d (cV L) (jV L)))) x, ((rowI 10 inb_S18x128_S1x128_10_0).view.read (Elt F) (View.write (Elt F) (liV).view fl ((iiSlab L).view.read (Elt F) gi) Finset.univ) x).toNat < S100000x128.size gathers_S100000x128_S128x128.axis :=
    fun fl => list_inbI d L gi hpre.2 10 _ fl _ rfl
  have hinU11 : ∀ (fl : Buf (Elt F) ((luV).view.loc (V d (cV L) (jV L)))) x, ((rowU 11 inb_S18x128_S1x128_11_0).view.read (Elt F) (View.write (Elt F) (luV).view fl ((iuSlab L).view.read (Elt F) gu) Finset.univ) x).toNat < S100000x128.size gathers_S100000x128_S128x128.axis :=
    fun fl => list_inbU d L gu hpre.1 11 _ fl _ rfl
  have hinI11 : ∀ (fl : Buf (Elt F) ((liV).view.loc (V d (cV L) (jV L)))) x, ((rowI 11 inb_S18x128_S1x128_11_0).view.read (Elt F) (View.write (Elt F) (liV).view fl ((iiSlab L).view.read (Elt F) gi) Finset.univ) x).toNat < S100000x128.size gathers_S100000x128_S128x128.axis :=
    fun fl => list_inbI d L gi hpre.2 11 _ fl _ rfl
  have hinU12 : ∀ (fl : Buf (Elt F) ((luV).view.loc (V d (cV L) (jV L)))) x, ((rowU 12 inb_S18x128_S1x128_12_0).view.read (Elt F) (View.write (Elt F) (luV).view fl ((iuSlab L).view.read (Elt F) gu) Finset.univ) x).toNat < S100000x128.size gathers_S100000x128_S128x128.axis :=
    fun fl => list_inbU d L gu hpre.1 12 _ fl _ rfl
  have hinI12 : ∀ (fl : Buf (Elt F) ((liV).view.loc (V d (cV L) (jV L)))) x, ((rowI 12 inb_S18x128_S1x128_12_0).view.read (Elt F) (View.write (Elt F) (liV).view fl ((iiSlab L).view.read (Elt F) gi) Finset.univ) x).toNat < S100000x128.size gathers_S100000x128_S128x128.axis :=
    fun fl => list_inbI d L gi hpre.2 12 _ fl _ rfl
  have hinU13 : ∀ (fl : Buf (Elt F) ((luV).view.loc (V d (cV L) (jV L)))) x, ((rowU 13 inb_S18x128_S1x128_13_0).view.read (Elt F) (View.write (Elt F) (luV).view fl ((iuSlab L).view.read (Elt F) gu) Finset.univ) x).toNat < S100000x128.size gathers_S100000x128_S128x128.axis :=
    fun fl => list_inbU d L gu hpre.1 13 _ fl _ rfl
  have hinI13 : ∀ (fl : Buf (Elt F) ((liV).view.loc (V d (cV L) (jV L)))) x, ((rowI 13 inb_S18x128_S1x128_13_0).view.read (Elt F) (View.write (Elt F) (liV).view fl ((iiSlab L).view.read (Elt F) gi) Finset.univ) x).toNat < S100000x128.size gathers_S100000x128_S128x128.axis :=
    fun fl => list_inbI d L gi hpre.2 13 _ fl _ rfl
  have hinU14 : ∀ (fl : Buf (Elt F) ((luV).view.loc (V d (cV L) (jV L)))) x, ((rowU 14 inb_S18x128_S1x128_14_0).view.read (Elt F) (View.write (Elt F) (luV).view fl ((iuSlab L).view.read (Elt F) gu) Finset.univ) x).toNat < S100000x128.size gathers_S100000x128_S128x128.axis :=
    fun fl => list_inbU d L gu hpre.1 14 _ fl _ rfl
  have hinI14 : ∀ (fl : Buf (Elt F) ((liV).view.loc (V d (cV L) (jV L)))) x, ((rowI 14 inb_S18x128_S1x128_14_0).view.read (Elt F) (View.write (Elt F) (liV).view fl ((iiSlab L).view.read (Elt F) gi) Finset.univ) x).toNat < S100000x128.size gathers_S100000x128_S128x128.axis :=
    fun fl => list_inbI d L gi hpre.2 14 _ fl _ rfl
  have hinU15 : ∀ (fl : Buf (Elt F) ((luV).view.loc (V d (cV L) (jV L)))) x, ((rowU 15 inb_S18x128_S1x128_15_0).view.read (Elt F) (View.write (Elt F) (luV).view fl ((iuSlab L).view.read (Elt F) gu) Finset.univ) x).toNat < S100000x128.size gathers_S100000x128_S128x128.axis :=
    fun fl => list_inbU d L gu hpre.1 15 _ fl _ rfl
  have hinI15 : ∀ (fl : Buf (Elt F) ((liV).view.loc (V d (cV L) (jV L)))) x, ((rowI 15 inb_S18x128_S1x128_15_0).view.read (Elt F) (View.write (Elt F) (liV).view fl ((iiSlab L).view.read (Elt F) gi) Finset.univ) x).toNat < S100000x128.size gathers_S100000x128_S128x128.axis :=
    fun fl => list_inbI d L gi hpre.2 15 _ fl _ rfl
  have hinU16 : ∀ (fl : Buf (Elt F) ((luV).view.loc (V d (cV L) (jV L)))) x, ((rowU 16 inb_S18x128_S1x128_16_0).view.read (Elt F) (View.write (Elt F) (luV).view fl ((iuSlab L).view.read (Elt F) gu) Finset.univ) x).toNat < S100000x128.size gathers_S100000x128_S128x128.axis :=
    fun fl => list_inbU d L gu hpre.1 16 _ fl _ rfl
  have hinI16 : ∀ (fl : Buf (Elt F) ((liV).view.loc (V d (cV L) (jV L)))) x, ((rowI 16 inb_S18x128_S1x128_16_0).view.read (Elt F) (View.write (Elt F) (liV).view fl ((iiSlab L).view.read (Elt F) gi) Finset.univ) x).toNat < S100000x128.size gathers_S100000x128_S128x128.axis :=
    fun fl => list_inbI d L gi hpre.2 16 _ fl _ rfl
  have hinU17 : ∀ (fl : Buf (Elt F) ((luV).view.loc (V d (cV L) (jV L)))) x, ((rowU 17 inb_S18x128_S1x128_17_0).view.read (Elt F) (View.write (Elt F) (luV).view fl ((iuSlab L).view.read (Elt F) gu) Finset.univ) x).toNat < S100000x128.size gathers_S100000x128_S128x128.axis :=
    fun fl => list_inbU d L gu hpre.1 17 _ fl _ rfl
  have hinI17 : ∀ (fl : Buf (Elt F) ((liV).view.loc (V d (cV L) (jV L)))) x, ((rowI 17 inb_S18x128_S1x128_17_0).view.read (Elt F) (View.write (Elt F) (liV).view fl ((iiSlab L).view.read (Elt F) gi) Finset.univ) x).toNat < S100000x128.size gathers_S100000x128_S128x128.axis :=
    fun fl => list_inbI d L gi hpre.2 17 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc0_scratch0 ↦{fullShare} fl0 : sProp 𝕄) = ((luV).view.loc (V d (cV L) (jV L)) ↦{fullShare} fl0) from rfl)) $$ Hl0
  ihave Hl1' := (Entails.of_eq (show ((V d (cV L) (jV L)).loc cc0_scratch1 ↦{fullShare} fl1 : sProp 𝕄) = ((liV).view.loc (V d (cV L) (jV L)) ↦{fullShare} fl1) from rfl)) $$ Hl1
  ihave Hb0' := (Entails.of_eq (show ((V d (cV L) (jV L)).loc cc0_scratch2 ↦{fullShare} fb0 : sProp 𝕄) = ((b0V).view.loc (V d (cV L) (jV L)) ↦{fullShare} fb0) from rfl)) $$ Hb0
  ihave Hb1' := (Entails.of_eq (show ((V d (cV L) (jV L)).loc cc0_scratch3 ↦{fullShare} fb1 : sProp 𝕄) = ((b1V).view.loc (V d (cV L) (jV L)) ↦{fullShare} fb1) from rfl)) $$ Hb1
  ihave Hb2' := (Entails.of_eq (show ((V d (cV L) (jV L)).loc cc0_scratch4 ↦{fullShare} fb2 : sProp 𝕄) = ((b2V).view.loc (V d (cV L) (jV L)) ↦{fullShare} fb2) from rfl)) $$ Hb2
  ihave Hb3' := (Entails.of_eq (show ((V d (cV L) (jV L)).loc cc0_scratch5 ↦{fullShare} fb3 : sProp 𝕄) = ((b3V).view.loc (V d (cV L) (jV L)) ↦{fullShare} fb3) from rfl)) $$ Hb3
  ihave Hb4' := (Entails.of_eq (show ((V d (cV L) (jV L)).loc cc0_scratch6 ↦{fullShare} fb4 : sProp 𝕄) = ((b4V).view.loc (V d (cV L) (jV L)) ↦{fullShare} fb4) from rfl)) $$ Hb4
  ihave Hb5' := (Entails.of_eq (show ((V d (cV L) (jV L)).loc cc0_scratch7 ↦{fullShare} fb5 : sProp 𝕄) = ((b5V).view.loc (V d (cV L) (jV L)) ↦{fullShare} fb5) from rfl)) $$ Hb5
  ihave Hb6' := (Entails.of_eq (show ((V d (cV L) (jV L)).loc cc0_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 0} fu : sProp 𝕄) = ((tuV).view.loc (V d (cV L) (jV L)) ↦{Transfers.shareTokN q 0} fu) from rfl)) $$ Htu0
  ihave Hti0' := (Entails.of_eq (show (tiLoc d ↦{Transfers.shareTokN q 0} fi : sProp 𝕄) = ((tiV).view.loc (V d (cV L) (jV L)) ↦{Transfers.shareTokN q 0} fi) from rfl)) $$ Hti0
  ihave Htu1' := (Entails.of_eq (show (tuLoc d ↦{Transfers.shareTokN q 1} fu : sProp 𝕄) = ((tuV).view.loc (V d (cV L) (jV L)) ↦{Transfers.shareTokN q 1} fu) from rfl)) $$ Htu1
  ihave Hti1' := (Entails.of_eq (show (tiLoc d ↦{Transfers.shareTokN q 1} fi : sProp 𝕄) = ((tiV).view.loc (V d (cV L) (jV L)) ↦{Transfers.shareTokN q 1} fi) from rfl)) $$ Hti1
  ihave Htu2' := (Entails.of_eq (show (tuLoc d ↦{Transfers.shareTokN q 2} fu : sProp 𝕄) = ((tuV).view.loc (V d (cV L) (jV L)) ↦{Transfers.shareTokN q 2} fu) from rfl)) $$ Htu2
  ihave Hti2' := (Entails.of_eq (show (tiLoc d ↦{Transfers.shareTokN q 2} fi : sProp 𝕄) = ((tiV).view.loc (V d (cV L) (jV L)) ↦{Transfers.shareTokN q 2} fi) from rfl)) $$ Hti2
  ihave Htu3' := (Entails.of_eq (show (tuLoc d ↦{Transfers.shareTokN q 3} fu : sProp 𝕄) = ((tuV).view.loc (V d (cV L) (jV L)) ↦{Transfers.shareTokN q 3} fu) from rfl)) $$ Htu3
  ihave Hti3' := (Entails.of_eq (show (tiLoc d ↦{Transfers.shareTokN q 3} fi : sProp 𝕄) = ((tiV).view.loc (V d (cV L) (jV L)) ↦{Transfers.shareTokN q 3} fi) from rfl)) $$ Hti3
  ihave Htu4' := (Entails.of_eq (show (tuLoc d ↦{Transfers.shareTokN q 4} fu : sProp 𝕄) = ((tuV).view.loc (V d (cV L) (jV L)) ↦{Transfers.shareTokN q 4} fu) from rfl)) $$ Htu4
  ihave Hti4' := (Entails.of_eq (show (tiLoc d ↦{Transfers.shareTokN q 4} fi : sProp 𝕄) = ((tiV).view.loc (V d (cV L) (jV L)) ↦{Transfers.shareTokN q 4} fi) from rfl)) $$ Hti4
  ihave Htu5' := (Entails.of_eq (show (tuLoc d ↦{Transfers.shareTokN q 5} fu : sProp 𝕄) = ((tuV).view.loc (V d (cV L) (jV L)) ↦{Transfers.shareTokN q 5} fu) from rfl)) $$ Htu5
  ihave Hti5' := (Entails.of_eq (show (tiLoc d ↦{Transfers.shareTokN q 5} fi : sProp 𝕄) = ((tiV).view.loc (V d (cV L) (jV L)) ↦{Transfers.shareTokN q 5} fi) from rfl)) $$ Hti5
  ihave Htu6' := (Entails.of_eq (show (tuLoc d ↦{Transfers.shareTokN q 6} fu : sProp 𝕄) = ((tuV).view.loc (V d (cV L) (jV L)) ↦{Transfers.shareTokN q 6} fu) from rfl)) $$ Htu6
  ihave Hti6' := (Entails.of_eq (show (tiLoc d ↦{Transfers.shareTokN q 6} fi : sProp 𝕄) = ((tiV).view.loc (V d (cV L) (jV L)) ↦{Transfers.shareTokN q 6} fi) from rfl)) $$ Hti6
  ihave Hou' := (Entails.of_eq (outPts0 (F := F) (U := U) d L h1 ou)) $$ Hou
  icases Hou' with ⟨Hou0, Hou1, Hou2, Hou3, Hou4, Hou5, Hou6, Hou7, Hou8, Hou9, Hou10, Hou11, Hou12, Hou13, Hou14, Hou15, Hou16, Hou17⟩
  ihave Hoi' := (Entails.of_eq (outPts0i (F := F) (U := U) d L h1 oi)) $$ Hoi
  icases Hoi' with ⟨Hoi0, Hoi1, Hoi2, Hoi3, Hoi4, Hoi5, Hoi6, Hoi7, Hoi8, Hoi9, Hoi10, Hoi11, Hoi12, Hoi13, Hoi14, Hoi15, Hoi16, Hoi17⟩
  ihave Hou0' := (Entails.of_eq (show (ouLoc d ↦[(ouC0 L h1 0).view.set]{fullShare} ou : sProp 𝕄) = (((ouV).slice (Rect.unit (s := S51200x128) (k0_off2 L 0#32) S128x128.size (k0_off2_inb L h1 0)) (fun _ => rfl)).view.loc (V d (cV L) (jV L)) ↦[((ouV).slice (Rect.unit (s := S51200x128) (k0_off2 L 0#32) S128x128.size (k0_off2_inb L h1 0)) (fun _ => rfl)).view.set]{fullShare} ou) from rfl)) $$ Hou0
  ihave Hoi0' := (Entails.of_eq (show (oiLoc d ↦[(oiC0 L h1 0).view.set]{fullShare} oi : sProp 𝕄) = (((oiV).slice (Rect.unit (s := S51200x128) (k0_off2 L 0#32) S128x128.size (k0_off2_inb L h1 0)) (fun _ => rfl)).view.loc (V d (cV L) (jV L)) ↦[((oiV).slice (Rect.unit (s := S51200x128) (k0_off2 L 0#32) S128x128.size (k0_off2_inb L h1 0)) (fun _ => rfl)).view.set]{fullShare} oi) from rfl)) $$ Hoi0
  ihave Hou1' := (Entails.of_eq (show (ouLoc d ↦[(ouC0 L h1 1).view.set]{fullShare} ou : sProp 𝕄) = (((ouV).slice (Rect.unit (s := S51200x128) (k0_off2 L 128#32) S128x128.size (k0_off2_inb L h1 1)) (fun _ => rfl)).view.loc (V d (cV L) (jV L)) ↦[((ouV).slice (Rect.unit (s := S51200x128) (k0_off2 L 128#32) S128x128.size (k0_off2_inb L h1 1)) (fun _ => rfl)).view.set]{fullShare} ou) from rfl)) $$ Hou1
  ihave Hoi1' := (Entails.of_eq (show (oiLoc d ↦[(oiC0 L h1 1).view.set]{fullShare} oi : sProp 𝕄) = (((oiV).slice (Rect.unit (s := S51200x128) (k0_off2 L 128#32) S128x128.size (k0_off2_inb L h1 1)) (fun _ => rfl)).view.loc (V d (cV L) (jV L)) ↦[((oiV).slice (Rect.unit (s := S51200x128) (k0_off2 L 128#32) S128x128.size (k0_off2_inb L h1 1)) (fun _ => rfl)).view.set]{fullShare} oi) from rfl)) $$ Hoi1
  ihave Hou2' := (Entails.of_eq (show (ouLoc d ↦[(ouC0 L h1 2).view.set]{fullShare} ou : sProp 𝕄) = (((ouV).slice (Rect.unit (s := S51200x128) (k0_off2 L 256#32) S128x128.size (k0_off2_inb L h1 2)) (fun _ => rfl)).view.loc (V d (cV L) (jV L)) ↦[((ouV).slice (Rect.unit (s := S51200x128) (k0_off2 L 256#32) S128x128.size (k0_off2_inb L h1 2)) (fun _ => rfl)).view.set]{fullShare} ou) from rfl)) $$ Hou2
  ihave Hoi2' := (Entails.of_eq (show (oiLoc d ↦[(oiC0 L h1 2).view.set]{fullShare} oi : sProp 𝕄) = (((oiV).slice (Rect.unit (s := S51200x128) (k0_off2 L 256#32) S128x128.size (k0_off2_inb L h1 2)) (fun _ => rfl)).view.loc (V d (cV L) (jV L)) ↦[((oiV).slice (Rect.unit (s := S51200x128) (k0_off2 L 256#32) S128x128.size (k0_off2_inb L h1 2)) (fun _ => rfl)).view.set]{fullShare} oi) from rfl)) $$ Hoi2
  ihave Hou3' := (Entails.of_eq (show (ouLoc d ↦[(ouC0 L h1 3).view.set]{fullShare} ou : sProp 𝕄) = (((ouV).slice (Rect.unit (s := S51200x128) (k0_off2 L 384#32) S128x128.size (k0_off2_inb L h1 3)) (fun _ => rfl)).view.loc (V d (cV L) (jV L)) ↦[((ouV).slice (Rect.unit (s := S51200x128) (k0_off2 L 384#32) S128x128.size (k0_off2_inb L h1 3)) (fun _ => rfl)).view.set]{fullShare} ou) from rfl)) $$ Hou3
  ihave Hoi3' := (Entails.of_eq (show (oiLoc d ↦[(oiC0 L h1 3).view.set]{fullShare} oi : sProp 𝕄) = (((oiV).slice (Rect.unit (s := S51200x128) (k0_off2 L 384#32) S128x128.size (k0_off2_inb L h1 3)) (fun _ => rfl)).view.loc (V d (cV L) (jV L)) ↦[((oiV).slice (Rect.unit (s := S51200x128) (k0_off2 L 384#32) S128x128.size (k0_off2_inb L h1 3)) (fun _ => rfl)).view.set]{fullShare} oi) from rfl)) $$ Hoi3
  ihave Hou4' := (Entails.of_eq (show (ouLoc d ↦[(ouC0 L h1 4).view.set]{fullShare} ou : sProp 𝕄) = (((ouV).slice (Rect.unit (s := S51200x128) (k0_off2 L 512#32) S128x128.size (k0_off2_inb L h1 4)) (fun _ => rfl)).view.loc (V d (cV L) (jV L)) ↦[((ouV).slice (Rect.unit (s := S51200x128) (k0_off2 L 512#32) S128x128.size (k0_off2_inb L h1 4)) (fun _ => rfl)).view.set]{fullShare} ou) from rfl)) $$ Hou4
  ihave Hoi4' := (Entails.of_eq (show (oiLoc d ↦[(oiC0 L h1 4).view.set]{fullShare} oi : sProp 𝕄) = (((oiV).slice (Rect.unit (s := S51200x128) (k0_off2 L 512#32) S128x128.size (k0_off2_inb L h1 4)) (fun _ => rfl)).view.loc (V d (cV L) (jV L)) ↦[((oiV).slice (Rect.unit (s := S51200x128) (k0_off2 L 512#32) S128x128.size (k0_off2_inb L h1 4)) (fun _ => rfl)).view.set]{fullShare} oi) from rfl)) $$ Hoi4
  ihave Hou5' := (Entails.of_eq (show (ouLoc d ↦[(ouC0 L h1 5).view.set]{fullShare} ou : sProp 𝕄) = (((ouV).slice (Rect.unit (s := S51200x128) (k0_off2 L 640#32) S128x128.size (k0_off2_inb L h1 5)) (fun _ => rfl)).view.loc (V d (cV L) (jV L)) ↦[((ouV).slice (Rect.unit (s := S51200x128) (k0_off2 L 640#32) S128x128.size (k0_off2_inb L h1 5)) (fun _ => rfl)).view.set]{fullShare} ou) from rfl)) $$ Hou5
  ihave Hoi5' := (Entails.of_eq (show (oiLoc d ↦[(oiC0 L h1 5).view.set]{fullShare} oi : sProp 𝕄) = (((oiV).slice (Rect.unit (s := S51200x128) (k0_off2 L 640#32) S128x128.size (k0_off2_inb L h1 5)) (fun _ => rfl)).view.loc (V d (cV L) (jV L)) ↦[((oiV).slice (Rect.unit (s := S51200x128) (k0_off2 L 640#32) S128x128.size (k0_off2_inb L h1 5)) (fun _ => rfl)).view.set]{fullShare} oi) from rfl)) $$ Hoi5
  ihave Hou6' := (Entails.of_eq (show (ouLoc d ↦[(ouC0 L h1 6).view.set]{fullShare} ou : sProp 𝕄) = (((ouV).slice (Rect.unit (s := S51200x128) (k0_off2 L 768#32) S128x128.size (k0_off2_inb L h1 6)) (fun _ => rfl)).view.loc (V d (cV L) (jV L)) ↦[((ouV).slice (Rect.unit (s := S51200x128) (k0_off2 L 768#32) S128x128.size (k0_off2_inb L h1 6)) (fun _ => rfl)).view.set]{fullShare} ou) from rfl)) $$ Hou6
  ihave Hoi6' := (Entails.of_eq (show (oiLoc d ↦[(oiC0 L h1 6).view.set]{fullShare} oi : sProp 𝕄) = (((oiV).slice (Rect.unit (s := S51200x128) (k0_off2 L 768#32) S128x128.size (k0_off2_inb L h1 6)) (fun _ => rfl)).view.loc (V d (cV L) (jV L)) ↦[((oiV).slice (Rect.unit (s := S51200x128) (k0_off2 L 768#32) S128x128.size (k0_off2_inb L h1 6)) (fun _ => rfl)).view.set]{fullShare} oi) from rfl)) $$ Hoi6
  ihave Hou7' := (Entails.of_eq (show (ouLoc d ↦[(ouC0 L h1 7).view.set]{fullShare} ou : sProp 𝕄) = (((ouV).slice (Rect.unit (s := S51200x128) (k0_off2 L 896#32) S128x128.size (k0_off2_inb L h1 7)) (fun _ => rfl)).view.loc (V d (cV L) (jV L)) ↦[((ouV).slice (Rect.unit (s := S51200x128) (k0_off2 L 896#32) S128x128.size (k0_off2_inb L h1 7)) (fun _ => rfl)).view.set]{fullShare} ou) from rfl)) $$ Hou7
  ihave Hoi7' := (Entails.of_eq (show (oiLoc d ↦[(oiC0 L h1 7).view.set]{fullShare} oi : sProp 𝕄) = (((oiV).slice (Rect.unit (s := S51200x128) (k0_off2 L 896#32) S128x128.size (k0_off2_inb L h1 7)) (fun _ => rfl)).view.loc (V d (cV L) (jV L)) ↦[((oiV).slice (Rect.unit (s := S51200x128) (k0_off2 L 896#32) S128x128.size (k0_off2_inb L h1 7)) (fun _ => rfl)).view.set]{fullShare} oi) from rfl)) $$ Hoi7
  ihave Hou8' := (Entails.of_eq (show (ouLoc d ↦[(ouC0 L h1 8).view.set]{fullShare} ou : sProp 𝕄) = (((ouV).slice (Rect.unit (s := S51200x128) (k0_off2 L 1024#32) S128x128.size (k0_off2_inb L h1 8)) (fun _ => rfl)).view.loc (V d (cV L) (jV L)) ↦[((ouV).slice (Rect.unit (s := S51200x128) (k0_off2 L 1024#32) S128x128.size (k0_off2_inb L h1 8)) (fun _ => rfl)).view.set]{fullShare} ou) from rfl)) $$ Hou8
  ihave Hoi8' := (Entails.of_eq (show (oiLoc d ↦[(oiC0 L h1 8).view.set]{fullShare} oi : sProp 𝕄) = (((oiV).slice (Rect.unit (s := S51200x128) (k0_off2 L 1024#32) S128x128.size (k0_off2_inb L h1 8)) (fun _ => rfl)).view.loc (V d (cV L) (jV L)) ↦[((oiV).slice (Rect.unit (s := S51200x128) (k0_off2 L 1024#32) S128x128.size (k0_off2_inb L h1 8)) (fun _ => rfl)).view.set]{fullShare} oi) from rfl)) $$ Hoi8
  ihave Hou9' := (Entails.of_eq (show (ouLoc d ↦[(ouC0 L h1 9).view.set]{fullShare} ou : sProp 𝕄) = (((ouV).slice (Rect.unit (s := S51200x128) (k0_off2 L 1152#32) S128x128.size (k0_off2_inb L h1 9)) (fun _ => rfl)).view.loc (V d (cV L) (jV L)) ↦[((ouV).slice (Rect.unit (s := S51200x128) (k0_off2 L 1152#32) S128x128.size (k0_off2_inb L h1 9)) (fun _ => rfl)).view.set]{fullShare} ou) from rfl)) $$ Hou9
  ihave Hoi9' := (Entails.of_eq (show (oiLoc d ↦[(oiC0 L h1 9).view.set]{fullShare} oi : sProp 𝕄) = (((oiV).slice (Rect.unit (s := S51200x128) (k0_off2 L 1152#32) S128x128.size (k0_off2_inb L h1 9)) (fun _ => rfl)).view.loc (V d (cV L) (jV L)) ↦[((oiV).slice (Rect.unit (s := S51200x128) (k0_off2 L 1152#32) S128x128.size (k0_off2_inb L h1 9)) (fun _ => rfl)).view.set]{fullShare} oi) from rfl)) $$ Hoi9
  ihave Hou10' := (Entails.of_eq (show (ouLoc d ↦[(ouC0 L h1 10).view.set]{fullShare} ou : sProp 𝕄) = (((ouV).slice (Rect.unit (s := S51200x128) (k0_off2 L 1280#32) S128x128.size (k0_off2_inb L h1 10)) (fun _ => rfl)).view.loc (V d (cV L) (jV L)) ↦[((ouV).slice (Rect.unit (s := S51200x128) (k0_off2 L 1280#32) S128x128.size (k0_off2_inb L h1 10)) (fun _ => rfl)).view.set]{fullShare} ou) from rfl)) $$ Hou10
  ihave Hoi10' := (Entails.of_eq (show (oiLoc d ↦[(oiC0 L h1 10).view.set]{fullShare} oi : sProp 𝕄) = (((oiV).slice (Rect.unit (s := S51200x128) (k0_off2 L 1280#32) S128x128.size (k0_off2_inb L h1 10)) (fun _ => rfl)).view.loc (V d (cV L) (jV L)) ↦[((oiV).slice (Rect.unit (s := S51200x128) (k0_off2 L 1280#32) S128x128.size (k0_off2_inb L h1 10)) (fun _ => rfl)).view.set]{fullShare} oi) from rfl)) $$ Hoi10
  ihave Hou11' := (Entails.of_eq (show (ouLoc d ↦[(ouC0 L h1 11).view.set]{fullShare} ou : sProp 𝕄) = (((ouV).slice (Rect.unit (s := S51200x128) (k0_off2 L 1408#32) S128x128.size (k0_off2_inb L h1 11)) (fun _ => rfl)).view.loc (V d (cV L) (jV L)) ↦[((ouV).slice (Rect.unit (s := S51200x128) (k0_off2 L 1408#32) S128x128.size (k0_off2_inb L h1 11)) (fun _ => rfl)).view.set]{fullShare} ou) from rfl)) $$ Hou11
  ihave Hoi11' := (Entails.of_eq (show (oiLoc d ↦[(oiC0 L h1 11).view.set]{fullShare} oi : sProp 𝕄) = (((oiV).slice (Rect.unit (s := S51200x128) (k0_off2 L 1408#32) S128x128.size (k0_off2_inb L h1 11)) (fun _ => rfl)).view.loc (V d (cV L) (jV L)) ↦[((oiV).slice (Rect.unit (s := S51200x128) (k0_off2 L 1408#32) S128x128.size (k0_off2_inb L h1 11)) (fun _ => rfl)).view.set]{fullShare} oi) from rfl)) $$ Hoi11
  ihave Hou12' := (Entails.of_eq (show (ouLoc d ↦[(ouC0 L h1 12).view.set]{fullShare} ou : sProp 𝕄) = (((ouV).slice (Rect.unit (s := S51200x128) (k0_off2 L 1536#32) S128x128.size (k0_off2_inb L h1 12)) (fun _ => rfl)).view.loc (V d (cV L) (jV L)) ↦[((ouV).slice (Rect.unit (s := S51200x128) (k0_off2 L 1536#32) S128x128.size (k0_off2_inb L h1 12)) (fun _ => rfl)).view.set]{fullShare} ou) from rfl)) $$ Hou12
  ihave Hoi12' := (Entails.of_eq (show (oiLoc d ↦[(oiC0 L h1 12).view.set]{fullShare} oi : sProp 𝕄) = (((oiV).slice (Rect.unit (s := S51200x128) (k0_off2 L 1536#32) S128x128.size (k0_off2_inb L h1 12)) (fun _ => rfl)).view.loc (V d (cV L) (jV L)) ↦[((oiV).slice (Rect.unit (s := S51200x128) (k0_off2 L 1536#32) S128x128.size (k0_off2_inb L h1 12)) (fun _ => rfl)).view.set]{fullShare} oi) from rfl)) $$ Hoi12
  ihave Hou13' := (Entails.of_eq (show (ouLoc d ↦[(ouC0 L h1 13).view.set]{fullShare} ou : sProp 𝕄) = (((ouV).slice (Rect.unit (s := S51200x128) (k0_off2 L 1664#32) S128x128.size (k0_off2_inb L h1 13)) (fun _ => rfl)).view.loc (V d (cV L) (jV L)) ↦[((ouV).slice (Rect.unit (s := S51200x128) (k0_off2 L 1664#32) S128x128.size (k0_off2_inb L h1 13)) (fun _ => rfl)).view.set]{fullShare} ou) from rfl)) $$ Hou13
  ihave Hoi13' := (Entails.of_eq (show (oiLoc d ↦[(oiC0 L h1 13).view.set]{fullShare} oi : sProp 𝕄) = (((oiV).slice (Rect.unit (s := S51200x128) (k0_off2 L 1664#32) S128x128.size (k0_off2_inb L h1 13)) (fun _ => rfl)).view.loc (V d (cV L) (jV L)) ↦[((oiV).slice (Rect.unit (s := S51200x128) (k0_off2 L 1664#32) S128x128.size (k0_off2_inb L h1 13)) (fun _ => rfl)).view.set]{fullShare} oi) from rfl)) $$ Hoi13
  ihave Hou14' := (Entails.of_eq (show (ouLoc d ↦[(ouC0 L h1 14).view.set]{fullShare} ou : sProp 𝕄) = (((ouV).slice (Rect.unit (s := S51200x128) (k0_off2 L 1792#32) S128x128.size (k0_off2_inb L h1 14)) (fun _ => rfl)).view.loc (V d (cV L) (jV L)) ↦[((ouV).slice (Rect.unit (s := S51200x128) (k0_off2 L 1792#32) S128x128.size (k0_off2_inb L h1 14)) (fun _ => rfl)).view.set]{fullShare} ou) from rfl)) $$ Hou14
  ihave Hoi14' := (Entails.of_eq (show (oiLoc d ↦[(oiC0 L h1 14).view.set]{fullShare} oi : sProp 𝕄) = (((oiV).slice (Rect.unit (s := S51200x128) (k0_off2 L 1792#32) S128x128.size (k0_off2_inb L h1 14)) (fun _ => rfl)).view.loc (V d (cV L) (jV L)) ↦[((oiV).slice (Rect.unit (s := S51200x128) (k0_off2 L 1792#32) S128x128.size (k0_off2_inb L h1 14)) (fun _ => rfl)).view.set]{fullShare} oi) from rfl)) $$ Hoi14
  ihave Hou15' := (Entails.of_eq (show (ouLoc d ↦[(ouC0 L h1 15).view.set]{fullShare} ou : sProp 𝕄) = (((ouV).slice (Rect.unit (s := S51200x128) (k0_off2 L 1920#32) S128x128.size (k0_off2_inb L h1 15)) (fun _ => rfl)).view.loc (V d (cV L) (jV L)) ↦[((ouV).slice (Rect.unit (s := S51200x128) (k0_off2 L 1920#32) S128x128.size (k0_off2_inb L h1 15)) (fun _ => rfl)).view.set]{fullShare} ou) from rfl)) $$ Hou15
  ihave Hoi15' := (Entails.of_eq (show (oiLoc d ↦[(oiC0 L h1 15).view.set]{fullShare} oi : sProp 𝕄) = (((oiV).slice (Rect.unit (s := S51200x128) (k0_off2 L 1920#32) S128x128.size (k0_off2_inb L h1 15)) (fun _ => rfl)).view.loc (V d (cV L) (jV L)) ↦[((oiV).slice (Rect.unit (s := S51200x128) (k0_off2 L 1920#32) S128x128.size (k0_off2_inb L h1 15)) (fun _ => rfl)).view.set]{fullShare} oi) from rfl)) $$ Hoi15
  ihave Hou16' := (Entails.of_eq (show (ouLoc d ↦[(ouC0 L h1 16).view.set]{fullShare} ou : sProp 𝕄) = (((ouV).slice (Rect.unit (s := S51200x128) (k0_off2 L 2048#32) S128x128.size (k0_off2_inb L h1 16)) (fun _ => rfl)).view.loc (V d (cV L) (jV L)) ↦[((ouV).slice (Rect.unit (s := S51200x128) (k0_off2 L 2048#32) S128x128.size (k0_off2_inb L h1 16)) (fun _ => rfl)).view.set]{fullShare} ou) from rfl)) $$ Hou16
  ihave Hoi16' := (Entails.of_eq (show (oiLoc d ↦[(oiC0 L h1 16).view.set]{fullShare} oi : sProp 𝕄) = (((oiV).slice (Rect.unit (s := S51200x128) (k0_off2 L 2048#32) S128x128.size (k0_off2_inb L h1 16)) (fun _ => rfl)).view.loc (V d (cV L) (jV L)) ↦[((oiV).slice (Rect.unit (s := S51200x128) (k0_off2 L 2048#32) S128x128.size (k0_off2_inb L h1 16)) (fun _ => rfl)).view.set]{fullShare} oi) from rfl)) $$ Hoi16
  ihave Hou17' := (Entails.of_eq (show (ouLoc d ↦[(ouC0 L h1 17).view.set]{fullShare} ou : sProp 𝕄) = (((ouV).slice (Rect.unit (s := S51200x128) (k0_off2 L 2176#32) S128x128.size (k0_off2_inb L h1 17)) (fun _ => rfl)).view.loc (V d (cV L) (jV L)) ↦[((ouV).slice (Rect.unit (s := S51200x128) (k0_off2 L 2176#32) S128x128.size (k0_off2_inb L h1 17)) (fun _ => rfl)).view.set]{fullShare} ou) from rfl)) $$ Hou17
  ihave Hoi17' := (Entails.of_eq (show (oiLoc d ↦[(oiC0 L h1 17).view.set]{fullShare} oi : sProp 𝕄) = (((oiV).slice (Rect.unit (s := S51200x128) (k0_off2 L 2176#32) S128x128.size (k0_off2_inb L h1 17)) (fun _ => rfl)).view.loc (V d (cV L) (jV L)) ↦[((oiV).slice (Rect.unit (s := S51200x128) (k0_off2 L 2176#32) S128x128.size (k0_off2_inb L h1 17)) (fun _ => rfl)).view.set]{fullShare} oi) from rfl)) $$ Hoi17
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin0 (F := F) (U := U) d L h1 _ _ _ _ _ _ _ _ _ _ _ _ _ _ _ _ _ _) $$ [Hou0' Hou1' Hou2' Hou3' Hou4' Hou5' Hou6' Hou7' Hou8' Hou9' Hou10' Hou11' Hou12' Hou13' Hou14' Hou15' Hou16' Hou17']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    isplitl [Hou6']; · iexact Hou6'
    isplitl [Hou7']; · iexact Hou7'
    isplitl [Hou8']; · iexact Hou8'
    isplitl [Hou9']; · iexact Hou9'
    isplitl [Hou10']; · iexact Hou10'
    isplitl [Hou11']; · iexact Hou11'
    isplitl [Hou12']; · iexact Hou12'
    isplitl [Hou13']; · iexact Hou13'
    isplitl [Hou14']; · iexact Hou14'
    isplitl [Hou15']; · iexact Hou15'
    isplitl [Hou16']; · iexact Hou16'
    iexact Hou17'
  icases HouJ with ⟨%gU, HouJ⟩
  ihave HoiJ := (outJoin0i (F := F) (U := U) d L h1 _ _ _ _ _ _ _ _ _ _ _ _ _ _ _ _ _ _) $$ [Hoi0' Hoi1' Hoi2' Hoi3' Hoi4' Hoi5' Hoi6' Hoi7' Hoi8' Hoi9' Hoi10' Hoi11' Hoi12' Hoi13' Hoi14' Hoi15' Hoi16' Hoi17']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    isplitl [Hoi6']; · iexact Hoi6'
    isplitl [Hoi7']; · iexact Hoi7'
    isplitl [Hoi8']; · iexact Hoi8'
    isplitl [Hoi9']; · iexact Hoi9'
    isplitl [Hoi10']; · iexact Hoi10'
    isplitl [Hoi11']; · iexact Hoi11'
    isplitl [Hoi12']; · iexact Hoi12'
    isplitl [Hoi13']; · iexact Hoi13'
    isplitl [Hoi14']; · iexact Hoi14'
    isplitl [Hoi15']; · iexact Hoi15'
    isplitl [Hoi16']; · iexact Hoi16'
    iexact Hoi17'
  icases HoiJ with ⟨%gI, HoiJ⟩
  isplitl [Hgu' Hgi' Htu Hti HouJ HoiJ]
  · iexists gU, gI
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.Kernel.ScTile0

end
-- ==== Proof.ScTile0c1B.lean ====
/-
  The task of a tile of core 1 of the first gather kernel: the tile fetches its two index slabs into its list
  scratches, then runs fourteen windows through a ring of seven row buffers; window w gathers the 128 table rows named
  by row (w / 2) of the fetched list (the user table for even w, the item table for odd w) into slot (w mod 7) and copies
  the slot out to chunk (w / 2) of the tile's rows of the matching output. Every slot has its own gather cell and its
  own write-out cell, so on each cell at most one copy is outstanding, and no slot is touched while a copy on it is
  pending. The tile's rows of each output are held chunk by chunk for the run and joined again at the end.
-/
import proofs.«204681_g65575560675685_cont_9to1_m_144_57_alg».proof.Proof.ScTileLib0B
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.Kernel
import proofs.«204681_g65575560675685_cont_9to1_m_144_57_alg».proof.Proof.Gen.Kernel.Skeleton

noncomputable section

namespace Cert.Proof.Kernel.ScTile0

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

section Tile

variable (d : Dev nD) (L : grid0.Coords)
variable [FloatOps F]

/-- Two chunks of a core-1 tile are disjoint row ranges. -/
theorem chunk1_disj : ∀ (L : grid0.Coords) (h2 : k0_cond2 L = 1#1) (r r' : Fin 7), r ≠ r' →
    LoadRect.disj (Rect.unit (s := S51200x128) (k0_off3 L (BitVec.ofNat 32 (128 * r.val))) S128x128.size (k0_off3_inb L h2 r))
      (Rect.unit (s := S51200x128) (k0_off3 L (BitVec.ofNat 32 (128 * r'.val))) S128x128.size (k0_off3_inb L h2 r')).toLoadRect = true := by
  decide +kernel

theorem ouC1_disj (h2 : k0_cond2 L = 1#1) (r r' : Fin 7) (hne : r ≠ r') : Disjoint (ouC1 L h2 r).view.set (ouC1 L h2 r').view.set :=
  View.disjoint_slice_of_disj _ _ _ (chunk1_disj L h2 r r' hne)

/-- The tile's rows of the user output, chunk by chunk. -/
theorem outPts1 (h2 : k0_cond2 L = 1#1) (f : Buf (Elt F) (ouLoc d)) :
    (ouLoc d ↦[outSet1 L h2]{fullShare} f : sProp 𝕄)
      = iprop((ouLoc d ↦[(ouC1 L h2 0).view.set]{fullShare} f) ∗ (ouLoc d ↦[(ouC1 L h2 1).view.set]{fullShare} f) ∗ (ouLoc d ↦[(ouC1 L h2 2).view.set]{fullShare} f) ∗ (ouLoc d ↦[(ouC1 L h2 3).view.set]{fullShare} f) ∗ (ouLoc d ↦[(ouC1 L h2 4).view.set]{fullShare} f) ∗ (ouLoc d ↦[(ouC1 L h2 5).view.set]{fullShare} f) ∗ (ouLoc d ↦[(ouC1 L h2 6).view.set]{fullShare} f)) := by
  unfold outSet1
  rw [pointsTo_biUnion _ _ (fun r _ r' _ hne => ouC1_disj L h2 r r' hne), bigSep_fin7]
/-- The tile's rows of the item output, chunk by chunk. -/
theorem outPts1i (h2 : k0_cond2 L = 1#1) (f : Buf (Elt F) (oiLoc d)) :
    (oiLoc d ↦[outSet1 L h2]{fullShare} f : sProp 𝕄)
      = iprop((oiLoc d ↦[(oiC1 L h2 0).view.set]{fullShare} f) ∗ (oiLoc d ↦[(oiC1 L h2 1).view.set]{fullShare} f) ∗ (oiLoc d ↦[(oiC1 L h2 2).view.set]{fullShare} f) ∗ (oiLoc d ↦[(oiC1 L h2 3).view.set]{fullShare} f) ∗ (oiLoc d ↦[(oiC1 L h2 4).view.set]{fullShare} f) ∗ (oiLoc d ↦[(oiC1 L h2 5).view.set]{fullShare} f) ∗ (oiLoc d ↦[(oiC1 L h2 6).view.set]{fullShare} f)) := by
  unfold outSet1
  rw [pointsTo_biUnion (ℓ := oiLoc d) _ _ (fun r _ r' _ hne => ouC1_disj L h2 r r' hne), bigSep_fin7]
  rfl

set_option maxHeartbeats 40000000 in
/-- The chunks joined: whatever each holds, together they are the tile's rows at one contents. -/
theorem outJoin1 (h2 : k0_cond2 L = 1#1) (c0 c1 c2 c3 c4 c5 c6 : Buf (Elt F) (ouLoc d)) :
    (iprop((ouLoc d ↦[(ouC1 L h2 0).view.set]{fullShare} c0) ∗ (ouLoc d ↦[(ouC1 L h2 1).view.set]{fullShare} c1) ∗ (ouLoc d ↦[(ouC1 L h2 2).view.set]{fullShare} c2) ∗ (ouLoc d ↦[(ouC1 L h2 3).view.set]{fullShare} c3) ∗ (ouLoc d ↦[(ouC1 L h2 4).view.set]{fullShare} c4) ∗ (ouLoc d ↦[(ouC1 L h2 5).view.set]{fullShare} c5) ∗ (ouLoc d ↦[(ouC1 L h2 6).view.set]{fullShare} c6)) : sProp 𝕄)
      ⊢ iprop(∃ g, ouLoc d ↦[outSet1 L h2]{fullShare} g) := by
  have hj : (bigSep (Finset.univ : Finset (Fin 7)) (fun r => ouLoc d ↦[(ouC1 L h2 r).view.set]{fullShare} ((![c0, c1, c2, c3, c4, c5, c6] : Fin 7 → Buf (Elt F) (ouLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (ouLoc d)) t) i⌝
          ∗ ouLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, -, H⟩
  iexists g
  unfold outSet1
  iexact H

set_option maxHeartbeats 40000000 in
theorem outJoin1i (h2 : k0_cond2 L = 1#1) (c0 c1 c2 c3 c4 c5 c6 : Buf (Elt F) (oiLoc d)) :
    (iprop((oiLoc d ↦[(oiC1 L h2 0).view.set]{fullShare} c0) ∗ (oiLoc d ↦[(oiC1 L h2 1).view.set]{fullShare} c1) ∗ (oiLoc d ↦[(oiC1 L h2 2).view.set]{fullShare} c2) ∗ (oiLoc d ↦[(oiC1 L h2 3).view.set]{fullShare} c3) ∗ (oiLoc d ↦[(oiC1 L h2 4).view.set]{fullShare} c4) ∗ (oiLoc d ↦[(oiC1 L h2 5).view.set]{fullShare} c5) ∗ (oiLoc d ↦[(oiC1 L h2 6).view.set]{fullShare} c6)) : sProp 𝕄)
      ⊢ iprop(∃ g, oiLoc d ↦[outSet1 L h2]{fullShare} g) := by
  have hj : (bigSep (Finset.univ : Finset (Fin 7)) (fun r => oiLoc d ↦[(ouC1 L h2 r).view.set]{fullShare} ((![c0, c1, c2, c3, c4, c5, c6] : Fin 7 → Buf (Elt F) (oiLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (oiLoc d)) t) i⌝
          ∗ oiLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, -, H⟩
  iexists g
  unfold outSet1
  iexact H

set_option maxHeartbeats 400000000 in
/-- The task of a tile of core 1: the two fetches, fourteen windows through the ring of seven slots, the drain. -/
theorem tile_body1 : TileBody1 F U := by
  intro d L hF h2 q fu fi gu gi ou oi hpre O W hO
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  have hn1 : ¬ k0_cond1 L = 1#1 := cond_excl L h2
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc0_scratch0 ↦{fullShare} fl0 : sProp 𝕄) = ((luV).view.loc (V d (cV L) (jV L)) ↦{fullShare} fl0) from rfl)) $$ Hl0
  ihave Hl1' := (Entails.of_eq (show ((V d (cV L) (jV L)).loc cc0_scratch1 ↦{fullShare} fl1 : sProp 𝕄) = ((liV).view.loc (V d (cV L) (jV L)) ↦{fullShare} fl1) from rfl)) $$ Hl1
  ihave Hb0' := (Entails.of_eq (show ((V d (cV L) (jV L)).loc cc0_scratch2 ↦{fullShare} fb0 : sProp 𝕄) = ((b0V).view.loc (V d (cV L) (jV L)) ↦{fullShare} fb0) from rfl)) $$ Hb0
  ihave Hb1' := (Entails.of_eq (show ((V d (cV L) (jV L)).loc cc0_scratch3 ↦{fullShare} fb1 : sProp 𝕄) = ((b1V).view.loc (V d (cV L) (jV L)) ↦{fullShare} fb1) from rfl)) $$ Hb1
  ihave Hb2' := (Entails.of_eq (show ((V d (cV L) (jV L)).loc cc0_scratch4 ↦{fullShare} fb2 : sProp 𝕄) = ((b2V).view.loc (V d (cV L) (jV L)) ↦{fullShare} fb2) from rfl)) $$ Hb2
  ihave Hb3' := (Entails.of_eq (show ((V d (cV L) (jV L)).loc cc0_scratch5 ↦{fullShare} fb3 : sProp 𝕄) = ((b3V).view.loc (V d (cV L) (jV L)) ↦{fullShare} fb3) from rfl)) $$ Hb3
  ihave Hb4' := (Entails.of_eq (show ((V d (cV L) (jV L)).loc cc0_scratch6 ↦{fullShare} fb4 : sProp 𝕄) = ((b4V).view.loc (V d (cV L) (jV L)) ↦{fullShare} fb4) from rfl)) $$ Hb4
  ihave Hb5' := (Entails.of_eq (show ((V d (cV L) (jV L)).loc cc0_scratch7 ↦{fullShare} fb5 : sProp 𝕄) = ((b5V).view.loc (V d (cV L) (jV L)) ↦{fullShare} fb5) from rfl)) $$ Hb5
  ihave Hb6' := (Entails.of_eq (show ((V d (cV L) (jV L)).loc cc0_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 0} fu : sProp 𝕄) = ((tuV).view.loc (V d (cV L) (jV L)) ↦{Transfers.shareTokN q 0} fu) from rfl)) $$ Htu0
  ihave Hti0' := (Entails.of_eq (show (tiLoc d ↦{Transfers.shareTokN q 0} fi : sProp 𝕄) = ((tiV).view.loc (V d (cV L) (jV L)) ↦{Transfers.shareTokN q 0} fi) from rfl)) $$ Hti0
  ihave Htu1' := (Entails.of_eq (show (tuLoc d ↦{Transfers.shareTokN q 1} fu : sProp 𝕄) = ((tuV).view.loc (V d (cV L) (jV L)) ↦{Transfers.shareTokN q 1} fu) from rfl)) $$ Htu1
  ihave Hti1' := (Entails.of_eq (show (tiLoc d ↦{Transfers.shareTokN q 1} fi : sProp 𝕄) = ((tiV).view.loc (V d (cV L) (jV L)) ↦{Transfers.shareTokN q 1} fi) from rfl)) $$ Hti1
  ihave Htu2' := (Entails.of_eq (show (tuLoc d ↦{Transfers.shareTokN q 2} fu : sProp 𝕄) = ((tuV).view.loc (V d (cV L) (jV L)) ↦{Transfers.shareTokN q 2} fu) from rfl)) $$ Htu2
  ihave Hti2' := (Entails.of_eq (show (tiLoc d ↦{Transfers.shareTokN q 2} fi : sProp 𝕄) = ((tiV).view.loc (V d (cV L) (jV L)) ↦{Transfers.shareTokN q 2} fi) from rfl)) $$ Hti2
  ihave Htu3' := (Entails.of_eq (show (tuLoc d ↦{Transfers.shareTokN q 3} fu : sProp 𝕄) = ((tuV).view.loc (V d (cV L) (jV L)) ↦{Transfers.shareTokN q 3} fu) from rfl)) $$ Htu3
  ihave Hti3' := (Entails.of_eq (show (tiLoc d ↦{Transfers.shareTokN q 3} fi : sProp 𝕄) = ((tiV).view.loc (V d (cV L) (jV L)) ↦{Transfers.shareTokN q 3} fi) from rfl)) $$ Hti3
  ihave Htu4' := (Entails.of_eq (show (tuLoc d ↦{Transfers.shareTokN q 4} fu : sProp 𝕄) = ((tuV).view.loc (V d (cV L) (jV L)) ↦{Transfers.shareTokN q 4} fu) from rfl)) $$ Htu4
  ihave Hti4' := (Entails.of_eq (show (tiLoc d ↦{Transfers.shareTokN q 4} fi : sProp 𝕄) = ((tiV).view.loc (V d (cV L) (jV L)) ↦{Transfers.shareTokN q 4} fi) from rfl)) $$ Hti4
  ihave Htu5' := (Entails.of_eq (show (tuLoc d ↦{Transfers.shareTokN q 5} fu : sProp 𝕄) = ((tuV).view.loc (V d (cV L) (jV L)) ↦{Transfers.shareTokN q 5} fu) from rfl)) $$ Htu5
  ihave Hti5' := (Entails.of_eq (show (tiLoc d ↦{Transfers.shareTokN q 5} fi : sProp 𝕄) = ((tiV).view.loc (V d (cV L) (jV L)) ↦{Transfers.shareTokN q 5} fi) from rfl)) $$ Hti5
  ihave Htu6' := (Entails.of_eq (show (tuLoc d ↦{Transfers.shareTokN q 6} fu : sProp 𝕄) = ((tuV).view.loc (V d (cV L) (jV L)) ↦{Transfers.shareTokN q 6} fu) from rfl)) $$ Htu6
  ihave Hti6' := (Entails.of_eq (show (tiLoc d ↦{Transfers.shareTokN q 6} fi : sProp 𝕄) = ((tiV).view.loc (V d (cV L) (jV L)) ↦{Transfers.shareTokN q 6} fi) from rfl)) $$ Hti6
  ihave Hou' := (Entails.of_eq (outPts1 (F := F) (U := U) d L h2 ou)) $$ Hou
  icases Hou' with ⟨Hou0, Hou1, Hou2, Hou3, Hou4, Hou5, Hou6⟩
  ihave Hoi' := (Entails.of_eq (outPts1i (F := F) (U := U) d L h2 oi)) $$ Hoi
  icases Hoi' with ⟨Hoi0, Hoi1, Hoi2, Hoi3, Hoi4, Hoi5, Hoi6⟩
  ihave Hou0' := (Entails.of_eq (show (ouLoc d ↦[(ouC1 L h2 0).view.set]{fullShare} ou : sProp 𝕄) = (((ouV).slice (Rect.unit (s := S51200x128) (k0_off3 L 0#32) S128x128.size (k0_off3_inb L h2 0)) (fun _ => rfl)).view.loc (V d (cV L) (jV L)) ↦[((ouV).slice (Rect.unit (s := S51200x128) (k0_off3 L 0#32) S128x128.size (k0_off3_inb L h2 0)) (fun _ => rfl)).view.set]{fullShare} ou) from rfl)) $$ Hou0
  ihave Hoi0' := (Entails.of_eq (show (oiLoc d ↦[(oiC1 L h2 0).view.set]{fullShare} oi : sProp 𝕄) = (((oiV).slice (Rect.unit (s := S51200x128) (k0_off3 L 0#32) S128x128.size (k0_off3_inb L h2 0)) (fun _ => rfl)).view.loc (V d (cV L) (jV L)) ↦[((oiV).slice (Rect.unit (s := S51200x128) (k0_off3 L 0#32) S128x128.size (k0_off3_inb L h2 0)) (fun _ => rfl)).view.set]{fullShare} oi) from rfl)) $$ Hoi0
  ihave Hou1' := (Entails.of_eq (show (ouLoc d ↦[(ouC1 L h2 1).view.set]{fullShare} ou : sProp 𝕄) = (((ouV).slice (Rect.unit (s := S51200x128) (k0_off3 L 128#32) S128x128.size (k0_off3_inb L h2 1)) (fun _ => rfl)).view.loc (V d (cV L) (jV L)) ↦[((ouV).slice (Rect.unit (s := S51200x128) (k0_off3 L 128#32) S128x128.size (k0_off3_inb L h2 1)) (fun _ => rfl)).view.set]{fullShare} ou) from rfl)) $$ Hou1
  ihave Hoi1' := (Entails.of_eq (show (oiLoc d ↦[(oiC1 L h2 1).view.set]{fullShare} oi : sProp 𝕄) = (((oiV).slice (Rect.unit (s := S51200x128) (k0_off3 L 128#32) S128x128.size (k0_off3_inb L h2 1)) (fun _ => rfl)).view.loc (V d (cV L) (jV L)) ↦[((oiV).slice (Rect.unit (s := S51200x128) (k0_off3 L 128#32) S128x128.size (k0_off3_inb L h2 1)) (fun _ => rfl)).view.set]{fullShare} oi) from rfl)) $$ Hoi1
  ihave Hou2' := (Entails.of_eq (show (ouLoc d ↦[(ouC1 L h2 2).view.set]{fullShare} ou : sProp 𝕄) = (((ouV).slice (Rect.unit (s := S51200x128) (k0_off3 L 256#32) S128x128.size (k0_off3_inb L h2 2)) (fun _ => rfl)).view.loc (V d (cV L) (jV L)) ↦[((ouV).slice (Rect.unit (s := S51200x128) (k0_off3 L 256#32) S128x128.size (k0_off3_inb L h2 2)) (fun _ => rfl)).view.set]{fullShare} ou) from rfl)) $$ Hou2
  ihave Hoi2' := (Entails.of_eq (show (oiLoc d ↦[(oiC1 L h2 2).view.set]{fullShare} oi : sProp 𝕄) = (((oiV).slice (Rect.unit (s := S51200x128) (k0_off3 L 256#32) S128x128.size (k0_off3_inb L h2 2)) (fun _ => rfl)).view.loc (V d (cV L) (jV L)) ↦[((oiV).slice (Rect.unit (s := S51200x128) (k0_off3 L 256#32) S128x128.size (k0_off3_inb L h2 2)) (fun _ => rfl)).view.set]{fullShare} oi) from rfl)) $$ Hoi2
  ihave Hou3' := (Entails.of_eq (show (ouLoc d ↦[(ouC1 L h2 3).view.set]{fullShare} ou : sProp 𝕄) = (((ouV).slice (Rect.unit (s := S51200x128) (k0_off3 L 384#32) S128x128.size (k0_off3_inb L h2 3)) (fun _ => rfl)).view.loc (V d (cV L) (jV L)) ↦[((ouV).slice (Rect.unit (s := S51200x128) (k0_off3 L 384#32) S128x128.size (k0_off3_inb L h2 3)) (fun _ => rfl)).view.set]{fullShare} ou) from rfl)) $$ Hou3
  ihave Hoi3' := (Entails.of_eq (show (oiLoc d ↦[(oiC1 L h2 3).view.set]{fullShare} oi : sProp 𝕄) = (((oiV).slice (Rect.unit (s := S51200x128) (k0_off3 L 384#32) S128x128.size (k0_off3_inb L h2 3)) (fun _ => rfl)).view.loc (V d (cV L) (jV L)) ↦[((oiV).slice (Rect.unit (s := S51200x128) (k0_off3 L 384#32) S128x128.size (k0_off3_inb L h2 3)) (fun _ => rfl)).view.set]{fullShare} oi) from rfl)) $$ Hoi3
  ihave Hou4' := (Entails.of_eq (show (ouLoc d ↦[(ouC1 L h2 4).view.set]{fullShare} ou : sProp 𝕄) = (((ouV).slice (Rect.unit (s := S51200x128) (k0_off3 L 512#32) S128x128.size (k0_off3_inb L h2 4)) (fun _ => rfl)).view.loc (V d (cV L) (jV L)) ↦[((ouV).slice (Rect.unit (s := S51200x128) (k0_off3 L 512#32) S128x128.size (k0_off3_inb L h2 4)) (fun _ => rfl)).view.set]{fullShare} ou) from rfl)) $$ Hou4
  ihave Hoi4' := (Entails.of_eq (show (oiLoc d ↦[(oiC1 L h2 4).view.set]{fullShare} oi : sProp 𝕄) = (((oiV).slice (Rect.unit (s := S51200x128) (k0_off3 L 512#32) S128x128.size (k0_off3_inb L h2 4)) (fun _ => rfl)).view.loc (V d (cV L) (jV L)) ↦[((oiV).slice (Rect.unit (s := S51200x128) (k0_off3 L 512#32) S128x128.size (k0_off3_inb L h2 4)) (fun _ => rfl)).view.set]{fullShare} oi) from rfl)) $$ Hoi4
  ihave Hou5' := (Entails.of_eq (show (ouLoc d ↦[(ouC1 L h2 5).view.set]{fullShare} ou : sProp 𝕄) = (((ouV).slice (Rect.unit (s := S51200x128) (k0_off3 L 640#32) S128x128.size (k0_off3_inb L h2 5)) (fun _ => rfl)).view.loc (V d (cV L) (jV L)) ↦[((ouV).slice (Rect.unit (s := S51200x128) (k0_off3 L 640#32) S128x128.size (k0_off3_inb L h2 5)) (fun _ => rfl)).view.set]{fullShare} ou) from rfl)) $$ Hou5
  ihave Hoi5' := (Entails.of_eq (show (oiLoc d ↦[(oiC1 L h2 5).view.set]{fullShare} oi : sProp 𝕄) = (((oiV).slice (Rect.unit (s := S51200x128) (k0_off3 L 640#32) S128x128.size (k0_off3_inb L h2 5)) (fun _ => rfl)).view.loc (V d (cV L) (jV L)) ↦[((oiV).slice (Rect.unit (s := S51200x128) (k0_off3 L 640#32) S128x128.size (k0_off3_inb L h2 5)) (fun _ => rfl)).view.set]{fullShare} oi) from rfl)) $$ Hoi5
  ihave Hou6' := (Entails.of_eq (show (ouLoc d ↦[(ouC1 L h2 6).view.set]{fullShare} ou : sProp 𝕄) = (((ouV).slice (Rect.unit (s := S51200x128) (k0_off3 L 768#32) S128x128.size (k0_off3_inb L h2 6)) (fun _ => rfl)).view.loc (V d (cV L) (jV L)) ↦[((ouV).slice (Rect.unit (s := S51200x128) (k0_off3 L 768#32) S128x128.size (k0_off3_inb L h2 6)) (fun _ => rfl)).view.set]{fullShare} ou) from rfl)) $$ Hou6
  ihave Hoi6' := (Entails.of_eq (show (oiLoc d ↦[(oiC1 L h2 6).view.set]{fullShare} oi : sProp 𝕄) = (((oiV).slice (Rect.unit (s := S51200x128) (k0_off3 L 768#32) S128x128.size (k0_off3_inb L h2 6)) (fun _ => rfl)).view.loc (V d (cV L) (jV L)) ↦[((oiV).slice (Rect.unit (s := S51200x128) (k0_off3 L 768#32) S128x128.size (k0_off3_inb L h2 6)) (fun _ => rfl)).view.set]{fullShare} oi) from rfl)) $$ Hoi6
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin1 (F := F) (U := U) d L h2 _ _ _ _ _ _ _) $$ [Hou0' Hou1' Hou2' Hou3' Hou4' Hou5' Hou6']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    iexact Hou6'
  icases HouJ with ⟨%gU, HouJ⟩
  ihave HoiJ := (outJoin1i (F := F) (U := U) d L h2 _ _ _ _ _ _ _) $$ [Hoi0' Hoi1' Hoi2' Hoi3' Hoi4' Hoi5' Hoi6']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    iexact Hoi6'
  icases HoiJ with ⟨%gI, HoiJ⟩
  isplitl [Hgu' Hgi' Htu Hti HouJ HoiJ]
  · iexists gU, gI
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.Kernel.ScTile0

end
-- ==== Proof.ScTileLib1B.lean ====
/-
  What both cores' tile tasks of the second gather kernel share: separating products over an initial segment written
  out, the tile's own sixteen cells and nine scratch buffers laid out, a read share as seven read tokens, the fetched
  lists' words in range, and the bookkeeping of recorded waits.
-/
import proofs.«204681_g65575560675685_cont_9to1_m_144_57_alg».proof.Proof.ScTileDefs1B
import proofs.«204681_g65575560675685_cont_9to1_m_144_57_alg».proof.Proof.ScTileStmt1B
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.Kernel
import proofs.«204681_g65575560675685_cont_9to1_m_144_57_alg».proof.Proof.Gen.Kernel.Skeleton

noncomputable section

namespace Cert.Proof.Kernel.ScTile1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

/-! ## A separating product over an initial segment, written out -/

section Fin
variable {M : Type} [URA M]

theorem bigSep_fin_one (Φ : Fin 1 → sProp M) : bigSep Finset.univ Φ = Φ 0 :=
  bigSep_univ_of_subsingleton (0 : Fin 1)

theorem bigSep_fin_succ {n : ℕ} (Φ : Fin (n + 1) → sProp M) :
    bigSep Finset.univ Φ = iprop(Φ 0 ∗ bigSep Finset.univ fun i : Fin n => Φ i.succ) := by
  rw [Fin.univ_succ, Finset.cons_eq_insert, SparseCore.bigSep_insert' (by simp [Fin.succ_ne_zero]), bigSep_map]
  rfl

theorem bigSep_fin7 (Φ : Fin 7 → sProp M) :
    bigSep Finset.univ Φ = iprop(Φ 0 ∗ Φ 1 ∗ Φ 2 ∗ Φ 3 ∗ Φ 4 ∗ Φ 5 ∗ Φ 6) := by
  iterate 6 rw [bigSep_fin_succ]
  rw [bigSep_fin_one]; rfl

theorem bigSep_fin9 (Φ : Fin 9 → sProp M) :
    bigSep Finset.univ Φ = iprop(Φ 0 ∗ Φ 1 ∗ Φ 2 ∗ Φ 3 ∗ Φ 4 ∗ Φ 5 ∗ Φ 6 ∗ Φ 7 ∗ Φ 8) := by
  iterate 8 rw [bigSep_fin_succ]
  rw [bigSep_fin_one]; rfl

theorem bigSep_fin16 (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  iterate 15 rw [bigSep_fin_succ]
  rw [bigSep_fin_one]; rfl

theorem bigSep_fin18 (Φ : Fin 18 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  iterate 17 rw [bigSep_fin_succ]
  rw [bigSep_fin_one]; rfl

end Fin

section Tile

variable (d : Dev nD) (L : grid1.Coords)

/-! ## The tile's own cells and buffers, laid out -/

/-- The kernel's sixteen DMA semaphores: seven gather cells, seven write-out cells, the two fetches' cells. -/
def semOf : Fin 16 → DmaSem sig := ![cc1_scratch9.sem, cc1_scratch10.sem, cc1_scratch11.sem, cc1_scratch12.sem, cc1_scratch13.sem, cc1_scratch14.sem, cc1_scratch15.sem, cc1_scratch16.sem, cc1_scratch17.sem, cc1_scratch18.sem, cc1_scratch19.sem, cc1_scratch20.sem, cc1_scratch21.sem, cc1_scratch22.sem, cc1_scoped0.sem, cc1_scoped1.sem]
/-- The kernel's nine scratch buffers: the two lists, the seven row buffers. -/
def bufOf : Fin 9 → Ref sig .scVector := ![cc1_scratch0, cc1_scratch1, cc1_scratch2, cc1_scratch3, cc1_scratch4, cc1_scratch5, cc1_scratch6, cc1_scratch7, cc1_scratch8]

theorem semOf_inj : Function.Injective semOf := by decide +kernel
theorem semOf_scoped : ∀ k, (SemLoc.dma (semOf k) : SemLoc sig).isScoped .scVector = true := by decide +kernel
theorem bufOf_inj : Function.Injective bufOf := by decide +kernel

abbrev cellOf (d : Dev nD) (L : grid1.Coords) (n : DmaSem sig) : GSem nD τ sig := (V d (cV L) (jV L), SemLoc.dma n)

theorem ownSems0_V :
    (ownSems0 (V d (cV L) (jV L)) : sProp 𝕄)
      = iprop((semVal ((V d (cV L) (jV L), SemLoc.dma cc1_scratch9.sem) : GSem nD τ sig) 0
        ∗ semVal ((V d (cV L) (jV L), SemLoc.dma cc1_scratch10.sem) : GSem nD τ sig) 0
        ∗ semVal ((V d (cV L) (jV L), SemLoc.dma cc1_scratch11.sem) : GSem nD τ sig) 0
        ∗ semVal ((V d (cV L) (jV L), SemLoc.dma cc1_scratch12.sem) : GSem nD τ sig) 0
        ∗ semVal ((V d (cV L) (jV L), SemLoc.dma cc1_scratch13.sem) : GSem nD τ sig) 0
        ∗ semVal ((V d (cV L) (jV L), SemLoc.dma cc1_scratch14.sem) : GSem nD τ sig) 0
        ∗ semVal ((V d (cV L) (jV L), SemLoc.dma cc1_scratch15.sem) : GSem nD τ sig) 0
        ∗ semVal ((V d (cV L) (jV L), SemLoc.dma cc1_scratch16.sem) : GSem nD τ sig) 0
        ∗ semVal ((V d (cV L) (jV L), SemLoc.dma cc1_scratch17.sem) : GSem nD τ sig) 0
        ∗ semVal ((V d (cV L) (jV L), SemLoc.dma cc1_scratch18.sem) : GSem nD τ sig) 0
        ∗ semVal ((V d (cV L) (jV L), SemLoc.dma cc1_scratch19.sem) : GSem nD τ sig) 0
        ∗ semVal ((V d (cV L) (jV L), SemLoc.dma cc1_scratch20.sem) : GSem nD τ sig) 0
        ∗ semVal ((V d (cV L) (jV L), SemLoc.dma cc1_scratch21.sem) : GSem nD τ sig) 0
        ∗ semVal ((V d (cV L) (jV L), SemLoc.dma cc1_scratch22.sem) : GSem nD τ sig) 0
        ∗ semVal ((V d (cV L) (jV L), SemLoc.dma cc1_scoped0.sem) : GSem nD τ sig) 0
        ∗ semVal ((V d (cV L) (jV L), SemLoc.dma cc1_scoped1.sem) : GSem nD τ sig) 0)
        ∗ bigSep (ownCells (V d (cV L) (jV L)) \ Finset.univ.image fun k => cellOf d L (semOf k)) fun g => semVal g 0) := by
  unfold SparseCore.Cfg.ownSems0
  have hsub : (Finset.univ.image fun k => cellOf d L (semOf k)) ⊆ ownCells (V d (cV L) (jV L)) := by
    intro g hg
    obtain ⟨k, -, rfl⟩ := Finset.mem_image.mp hg
    exact mem_ownCells.mpr ⟨rfl, semOf_scoped k⟩
  have hinj : Set.InjOn (fun k => cellOf d L (semOf k)) ((Finset.univ : Finset (Fin 16)) : Set (Fin 16)) := fun a _ b _ e =>
    semOf_inj (SemLoc.dma.inj (congrArg Prod.snd e))
  rw [SparseCore.bigSep_sdiff_split' hsub, Idealize.SL.BI.bigSep_image_of_injOn hinj, bigSep_fin16]
  rfl

theorem ownBufs_V :
    (ownBufs (V d (cV L) (jV L)) : sProp 𝕄)
      = iprop(((∃ f, (V d (cV L) (jV L)).loc cc1_scratch0 ↦{fullShare} f)
        ∗ (∃ f, (V d (cV L) (jV L)).loc cc1_scratch1 ↦{fullShare} f)
        ∗ (∃ f, (V d (cV L) (jV L)).loc cc1_scratch2 ↦{fullShare} f)
        ∗ (∃ f, (V d (cV L) (jV L)).loc cc1_scratch3 ↦{fullShare} f)
        ∗ (∃ f, (V d (cV L) (jV L)).loc cc1_scratch4 ↦{fullShare} f)
        ∗ (∃ f, (V d (cV L) (jV L)).loc cc1_scratch5 ↦{fullShare} f)
        ∗ (∃ f, (V d (cV L) (jV L)).loc cc1_scratch6 ↦{fullShare} f)
        ∗ (∃ f, (V d (cV L) (jV L)).loc cc1_scratch7 ↦{fullShare} f)
        ∗ (∃ f, (V d (cV L) (jV L)).loc cc1_scratch8 ↦{fullShare} f))
        ∗ bigSep (ownRefs (τ := τ) (.scVector (cV L) (jV L)) \ Finset.univ.image fun k => (Proc.scVector (cV L) (jV L)).devRef (bufOf k))
            fun b => iprop(∃ f, ((d, b) : Loc nD τ sig) ↦{fullShare} f)) := by
  unfold SparseCore.Cfg.ownBufs
  have hsub : (Finset.univ.image fun k => (Proc.scVector (cV L) (jV L)).devRef (bufOf k)) ⊆ ownRefs (τ := τ) (.scVector (cV L) (jV L)) := by
    intro b hb
    obtain ⟨k, -, rfl⟩ := Finset.mem_image.mp hb
    refine SparseCore.Cfg.mem_ownRefs_of_owner ?_
    fin_cases k <;> rfl
  have hinj : Set.InjOn (fun k => (Proc.scVector (cV L) (jV L)).devRef (bufOf k)) ((Finset.univ : Finset (Fin 9)) : Set (Fin 9)) := fun a _ b _ e =>
    bufOf_inj (Proc.devRef_injective _ e)
  rw [SparseCore.bigSep_sdiff_split' hsub, Idealize.SL.BI.bigSep_image_of_injOn hinj, bigSep_fin9]
  rfl

variable [FloatOps F]

/-- The two cores' branches exclude each other. -/
theorem cond_excl : ∀ L : grid1.Coords, k1_cond2 L = 1#1 → ¬ k1_cond1 L = 1#1 := by decide +kernel
theorem cond_excl' : ∀ L : grid1.Coords, k1_cond1 L = 1#1 → ¬ k1_cond2 L = 1#1 := by decide +kernel

/-- A read share is seven read tokens, one per gather cell, and a remainder. -/
theorem toks7base {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 7} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f)
      ∗ (ℓ ↦[S]{Transfers.shareTokN q 5} f) ∗ (ℓ ↦[S]{Transfers.shareTokN q 6} f)) := by
  have h := Transfers.pointsTo_toks (nD := nD) (τ := τ) (sig := sig) (Ix := HIx 2) (Val := Elt F) (Name := ℕ) (U := U) (Lvl := ℕ) (ℓ := ℓ) (S := S) (f := f) q 7
  rw [bigSep_fin7] at h
  exact h

/-- Halving `a` times and then `b` times is halving `a + b` times. -/
theorem shareDrop_add (q : PosShare TreeShare) (a b : ℕ) :
    Transfers.shareDrop (Transfers.shareDrop q a) b = Transfers.shareDrop q (a + b) := by
  induction b with
  | zero => rfl
  | succ b ih =>
    show (Transfers.shareDrop (Transfers.shareDrop q a) b).left = (Transfers.shareDrop q (a + b)).left
    rw [ih]

/-- The `k`-th token of what remains after `a` tokens is the `(a + k)`-th token. -/
theorem shareTokN_add (q : PosShare TreeShare) (a k : ℕ) :
    Transfers.shareTokN (Transfers.shareDrop q a) k = Transfers.shareTokN q (a + k) := by
  unfold Transfers.shareTokN
  rw [shareDrop_add]

/-- A read share is a remainder and seven read tokens, one per gather cell: this call's gather cells are the DMA
    semaphores 16 to 22, so the tokens are the sixteenth to the twenty-second of the share's halvings; the remainder keeps
    the first sixteen. -/
theorem toks7 {ℓ : Loc nD τ sig} {S : Finset (Idx ℓ)} {f : Buf (Elt F) ℓ} (q : PosShare TreeShare) :
    (ℓ ↦[S]{q} f : sProp 𝕄) ⊣⊢ iprop(((ℓ ↦[S]{Transfers.shareDrop q 23} f) ∗ bigSep (Finset.range 16) (fun i => ℓ ↦[S]{Transfers.shareTokN q i} f))
      ∗ (ℓ ↦[S]{Transfers.shareTokN q 16} f) ∗ (ℓ ↦[S]{Transfers.shareTokN q 17} f)
      ∗ (ℓ ↦[S]{Transfers.shareTokN q 18} f) ∗ (ℓ ↦[S]{Transfers.shareTokN q 19} f) ∗ (ℓ ↦[S]{Transfers.shareTokN q 20} f)
      ∗ (ℓ ↦[S]{Transfers.shareTokN q 21} f) ∗ (ℓ ↦[S]{Transfers.shareTokN q 22} f)) := by
  have h16 := Transfers.pointsTo_toks_range (nD := nD) (τ := τ) (sig := sig) (Ix := HIx 2) (Val := Elt F) (Name := ℕ) (U := U) (Lvl := ℕ) (ℓ := ℓ) (S := S) (f := f) q 16
  have h7 := toks7base (F := F) (U := U) (ℓ := ℓ) (S := S) (f := f) (Transfers.shareDrop q 16)
  simp only [shareDrop_add, shareTokN_add, Nat.reduceAdd] at h7
  constructor
  · refine h16.1.trans ((sep_mono_left h7.1).trans ?_)
    iintro ⟨⟨Hr, H0, H1, H2, H3, H4, H5, H6⟩, Ht⟩
    isplitl [Hr Ht]
    · isplitl [Hr]
      · iexact Hr
      · iexact Ht
    isplitl [H0]
    · iexact H0
    isplitl [H1]
    · iexact H1
    isplitl [H2]
    · iexact H2
    isplitl [H3]
    · iexact H3
    isplitl [H4]
    · iexact H4
    isplitl [H5]
    · iexact H5
    iexact H6
  · refine BIBase.Entails.trans ?_ ((sep_mono_left h7.2).trans h16.2)
    iintro ⟨⟨Hr, Ht⟩, H0, H1, H2, H3, H4, H5, H6⟩
    isplitr [Ht]
    · isplitl [Hr]
      · iexact Hr
      isplitl [H0]
      · iexact H0
      isplitl [H1]
      · iexact H1
      isplitl [H2]
      · iexact H2
      isplitl [H3]
      · iexact H3
      isplitl [H4]
      · iexact H4
      isplitl [H5]
      · iexact H5
      iexact H6
    · iexact Ht

/-! ## The fetched lists name rows of the tables -/

/-- Row j of a list scratch, as the tile addresses it for a gather. -/
abbrev rowU (j : ℕ) (h : ∀ a, (![j, 0] : Fin 2 → ℕ) a + S1x128.size a ≤ S18x128.size a) : Memref sig .scVector .vmem S128 .i32 :=
  ((luV).slice (Rect.unit (s := S18x128) ![j, 0] S1x128.size h) (fun _ => rfl)).squeeze S128 squeezes_S1x128_S128
abbrev rowI (j : ℕ) (h : ∀ a, (![j, 0] : Fin 2 → ℕ) a + S1x128.size a ≤ S18x128.size a) : Memref sig .scVector .vmem S128 .i32 :=
  ((liV).slice (Rect.unit (s := S18x128) ![j, 0] S1x128.size h) (fun _ => rfl)).squeeze S128 squeezes_S1x128_S128

/-- Every word of the user list, once the tile's slab has landed in it, is a word of the index operand: below 100000. -/
theorem list_inbU (gu : Buf (Elt F) (iuLoc d)) (hgu : ∀ j : S32x18x128.Idx, (gu j).toNat < 100000)
    (j : ℕ) (h : ∀ a, (![j, 0] : Fin 2 → ℕ) a + S1x128.size a ≤ S18x128.size a)
    (fl : Buf (Elt F) ((luV).view.loc (V d (cV L) (jV L)))) (pay : S18x128.Idx → Elt F .i32)
    (hpay : pay = (iuSlab L).view.read (Elt F) gu) :
    ∀ x, ((rowU j h).view.read (Elt F) (View.write (Elt F) (luV).view fl pay Finset.univ) x).toNat
      < S100000x128.size gathers_S100000x128_S128x128.axis := by
  subst hpay; intro x
  rw [View.write_whole_univ]
  rw [show ∀ (f : Buf (Elt F) ((luV).view.loc (V d (cV L) (jV L)))) y, (rowU j h).view.read (Elt F) f y = f ((rowU j h).view.emb y) from
    fun f y => (View.read_apply _ _).trans (cast_eq _ _)]
  rw [show ∀ y, (iuSlab L).view.read (Elt F) gu y = gu ((iuSlab L).view.emb y) from fun y => (View.read_apply _ _).trans (cast_eq _ _)]
  exact hgu _

theorem list_inbI (gi : Buf (Elt F) (iiLoc d)) (hgi : ∀ j : S32x18x128.Idx, (gi j).toNat < 100000)
    (j : ℕ) (h : ∀ a, (![j, 0] : Fin 2 → ℕ) a + S1x128.size a ≤ S18x128.size a)
    (fl : Buf (Elt F) ((liV).view.loc (V d (cV L) (jV L)))) (pay : S18x128.Idx → Elt F .i32)
    (hpay : pay = (iiSlab L).view.read (Elt F) gi) :
    ∀ x, ((rowI j h).view.read (Elt F) (View.write (Elt F) (liV).view fl pay Finset.univ) x).toNat
      < S100000x128.size gathers_S100000x128_S128x128.axis := by
  subst hpay; intro x
  rw [View.write_whole_univ]
  rw [show ∀ (f : Buf (Elt F) ((liV).view.loc (V d (cV L) (jV L)))) y, (rowI j h).view.read (Elt F) f y = f ((rowI j h).view.emb y) from
    fun f y => (View.read_apply _ _).trans (cast_eq _ _)]
  rw [show ∀ y, (iiSlab L).view.read (Elt F) gi y = gi ((iiSlab L).view.emb y) from fun y => (View.read_apply _ _).trans (cast_eq _ _)]
  exact hgi _

/-- A wait recorded at the default index keeps the recorded waits within the old ones and the unindexed. -/
theorem waits_ok {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with hp | hp
  · exact .inr (hp ▸ rfl)
  · exact h p hp

end Tile

end Cert.Proof.Kernel.ScTile1

end
-- ==== Proof.ScTile1c0B.lean ====
/-
  The task of a tile of core 0 of the second gather kernel: the tile fetches its two index slabs into its list
  scratches, then runs thirty-six windows through a ring of seven row buffers; window w gathers the 128 table rows named
  by row (w / 2) of the fetched list (the user table for even w, the item table for odd w) into slot (w mod 7) and copies
  the slot out to chunk (w / 2) of the tile's rows of the matching output. Every slot has its own gather cell and its
  own write-out cell, so on each cell at most one copy is outstanding, and no slot is touched while a copy on it is
  pending. The tile's rows of each output are held chunk by chunk for the run and joined again at the end.
-/
import proofs.«204681_g65575560675685_cont_9to1_m_144_57_alg».proof.Proof.ScTileLib1B
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.Kernel
import proofs.«204681_g65575560675685_cont_9to1_m_144_57_alg».proof.Proof.Gen.Kernel.Skeleton

noncomputable section

namespace Cert.Proof.Kernel.ScTile1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

section Tile

variable (d : Dev nD) (L : grid1.Coords)
variable [FloatOps F]

/-- Two chunks of a core-0 tile are disjoint row ranges. -/
theorem chunk1_disj : ∀ (L : grid1.Coords) (h1 : k1_cond1 L = 1#1) (r r' : Fin 18), r ≠ r' →
    LoadRect.disj (Rect.unit (s := S51200x128) (k1_off2 L (BitVec.ofNat 32 (128 * r.val))) S128x128.size (k1_off2_inb L h1 r))
      (Rect.unit (s := S51200x128) (k1_off2 L (BitVec.ofNat 32 (128 * r'.val))) S128x128.size (k1_off2_inb L h1 r')).toLoadRect = true := by
  decide +kernel

theorem ouC0_disj (h1 : k1_cond1 L = 1#1) (r r' : Fin 18) (hne : r ≠ r') : Disjoint (ouC0 L h1 r).view.set (ouC0 L h1 r').view.set :=
  View.disjoint_slice_of_disj _ _ _ (chunk1_disj L h1 r r' hne)

/-- The tile's rows of the user output, chunk by chunk. -/
theorem outPts0 (h1 : k1_cond1 L = 1#1) (f : Buf (Elt F) (ouLoc d)) :
    (ouLoc d ↦[outSet0 L h1]{fullShare} f : sProp 𝕄)
      = iprop((ouLoc d ↦[(ouC0 L h1 0).view.set]{fullShare} f) ∗ (ouLoc d ↦[(ouC0 L h1 1).view.set]{fullShare} f) ∗ (ouLoc d ↦[(ouC0 L h1 2).view.set]{fullShare} f) ∗ (ouLoc d ↦[(ouC0 L h1 3).view.set]{fullShare} f) ∗ (ouLoc d ↦[(ouC0 L h1 4).view.set]{fullShare} f) ∗ (ouLoc d ↦[(ouC0 L h1 5).view.set]{fullShare} f) ∗ (ouLoc d ↦[(ouC0 L h1 6).view.set]{fullShare} f) ∗ (ouLoc d ↦[(ouC0 L h1 7).view.set]{fullShare} f) ∗ (ouLoc d ↦[(ouC0 L h1 8).view.set]{fullShare} f) ∗ (ouLoc d ↦[(ouC0 L h1 9).view.set]{fullShare} f) ∗ (ouLoc d ↦[(ouC0 L h1 10).view.set]{fullShare} f) ∗ (ouLoc d ↦[(ouC0 L h1 11).view.set]{fullShare} f) ∗ (ouLoc d ↦[(ouC0 L h1 12).view.set]{fullShare} f) ∗ (ouLoc d ↦[(ouC0 L h1 13).view.set]{fullShare} f) ∗ (ouLoc d ↦[(ouC0 L h1 14).view.set]{fullShare} f) ∗ (ouLoc d ↦[(ouC0 L h1 15).view.set]{fullShare} f) ∗ (ouLoc d ↦[(ouC0 L h1 16).view.set]{fullShare} f) ∗ (ouLoc d ↦[(ouC0 L h1 17).view.set]{fullShare} f)) := by
  unfold outSet0
  rw [pointsTo_biUnion _ _ (fun r _ r' _ hne => ouC0_disj L h1 r r' hne), bigSep_fin18]
/-- The tile's rows of the item output, chunk by chunk. -/
theorem outPts0i (h1 : k1_cond1 L = 1#1) (f : Buf (Elt F) (oiLoc d)) :
    (oiLoc d ↦[outSet0 L h1]{fullShare} f : sProp 𝕄)
      = iprop((oiLoc d ↦[(oiC0 L h1 0).view.set]{fullShare} f) ∗ (oiLoc d ↦[(oiC0 L h1 1).view.set]{fullShare} f) ∗ (oiLoc d ↦[(oiC0 L h1 2).view.set]{fullShare} f) ∗ (oiLoc d ↦[(oiC0 L h1 3).view.set]{fullShare} f) ∗ (oiLoc d ↦[(oiC0 L h1 4).view.set]{fullShare} f) ∗ (oiLoc d ↦[(oiC0 L h1 5).view.set]{fullShare} f) ∗ (oiLoc d ↦[(oiC0 L h1 6).view.set]{fullShare} f) ∗ (oiLoc d ↦[(oiC0 L h1 7).view.set]{fullShare} f) ∗ (oiLoc d ↦[(oiC0 L h1 8).view.set]{fullShare} f) ∗ (oiLoc d ↦[(oiC0 L h1 9).view.set]{fullShare} f) ∗ (oiLoc d ↦[(oiC0 L h1 10).view.set]{fullShare} f) ∗ (oiLoc d ↦[(oiC0 L h1 11).view.set]{fullShare} f) ∗ (oiLoc d ↦[(oiC0 L h1 12).view.set]{fullShare} f) ∗ (oiLoc d ↦[(oiC0 L h1 13).view.set]{fullShare} f) ∗ (oiLoc d ↦[(oiC0 L h1 14).view.set]{fullShare} f) ∗ (oiLoc d ↦[(oiC0 L h1 15).view.set]{fullShare} f) ∗ (oiLoc d ↦[(oiC0 L h1 16).view.set]{fullShare} f) ∗ (oiLoc d ↦[(oiC0 L h1 17).view.set]{fullShare} f)) := by
  unfold outSet0
  rw [pointsTo_biUnion (ℓ := oiLoc d) _ _ (fun r _ r' _ hne => ouC0_disj L h1 r r' hne), bigSep_fin18]
  rfl

set_option maxHeartbeats 40000000 in
/-- The chunks joined: whatever each holds, together they are the tile's rows at one contents. -/
theorem outJoin0 (h1 : k1_cond1 L = 1#1) (c0 c1 c2 c3 c4 c5 c6 c7 c8 c9 c10 c11 c12 c13 c14 c15 c16 c17 : Buf (Elt F) (ouLoc d)) :
    (iprop((ouLoc d ↦[(ouC0 L h1 0).view.set]{fullShare} c0) ∗ (ouLoc d ↦[(ouC0 L h1 1).view.set]{fullShare} c1) ∗ (ouLoc d ↦[(ouC0 L h1 2).view.set]{fullShare} c2) ∗ (ouLoc d ↦[(ouC0 L h1 3).view.set]{fullShare} c3) ∗ (ouLoc d ↦[(ouC0 L h1 4).view.set]{fullShare} c4) ∗ (ouLoc d ↦[(ouC0 L h1 5).view.set]{fullShare} c5) ∗ (ouLoc d ↦[(ouC0 L h1 6).view.set]{fullShare} c6) ∗ (ouLoc d ↦[(ouC0 L h1 7).view.set]{fullShare} c7) ∗ (ouLoc d ↦[(ouC0 L h1 8).view.set]{fullShare} c8) ∗ (ouLoc d ↦[(ouC0 L h1 9).view.set]{fullShare} c9) ∗ (ouLoc d ↦[(ouC0 L h1 10).view.set]{fullShare} c10) ∗ (ouLoc d ↦[(ouC0 L h1 11).view.set]{fullShare} c11) ∗ (ouLoc d ↦[(ouC0 L h1 12).view.set]{fullShare} c12) ∗ (ouLoc d ↦[(ouC0 L h1 13).view.set]{fullShare} c13) ∗ (ouLoc d ↦[(ouC0 L h1 14).view.set]{fullShare} c14) ∗ (ouLoc d ↦[(ouC0 L h1 15).view.set]{fullShare} c15) ∗ (ouLoc d ↦[(ouC0 L h1 16).view.set]{fullShare} c16) ∗ (ouLoc d ↦[(ouC0 L h1 17).view.set]{fullShare} c17)) : sProp 𝕄)
      ⊢ iprop(∃ g, ouLoc d ↦[outSet0 L h1]{fullShare} g) := by
  have hj : (bigSep (Finset.univ : Finset (Fin 18)) (fun r => ouLoc d ↦[(ouC0 L h1 r).view.set]{fullShare} ((![c0, c1, c2, c3, c4, c5, c6, c7, c8, c9, c10, c11, c12, c13, c14, c15, c16, c17] : Fin 18 → Buf (Elt F) (ouLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (ouLoc d)) t) i⌝
          ∗ ouLoc d ↦[Finset.univ.biUnion fun r => (ouC0 L h1 r).view.set]{fullShare} g) :=
    pointsTo_biUnion_join _ _ _ c0 (fun r _ r' _ hne => ouC0_disj L h1 r r' hne)
  rw [bigSep_fin18] at hj
  refine BIBase.Entails.trans (show _ ⊢ _ from hj) ?_
  iintro ⟨%g, -, H⟩
  iexists g
  unfold outSet0
  iexact H

set_option maxHeartbeats 40000000 in
theorem outJoin0i (h1 : k1_cond1 L = 1#1) (c0 c1 c2 c3 c4 c5 c6 c7 c8 c9 c10 c11 c12 c13 c14 c15 c16 c17 : Buf (Elt F) (oiLoc d)) :
    (iprop((oiLoc d ↦[(oiC0 L h1 0).view.set]{fullShare} c0) ∗ (oiLoc d ↦[(oiC0 L h1 1).view.set]{fullShare} c1) ∗ (oiLoc d ↦[(oiC0 L h1 2).view.set]{fullShare} c2) ∗ (oiLoc d ↦[(oiC0 L h1 3).view.set]{fullShare} c3) ∗ (oiLoc d ↦[(oiC0 L h1 4).view.set]{fullShare} c4) ∗ (oiLoc d ↦[(oiC0 L h1 5).view.set]{fullShare} c5) ∗ (oiLoc d ↦[(oiC0 L h1 6).view.set]{fullShare} c6) ∗ (oiLoc d ↦[(oiC0 L h1 7).view.set]{fullShare} c7) ∗ (oiLoc d ↦[(oiC0 L h1 8).view.set]{fullShare} c8) ∗ (oiLoc d ↦[(oiC0 L h1 9).view.set]{fullShare} c9) ∗ (oiLoc d ↦[(oiC0 L h1 10).view.set]{fullShare} c10) ∗ (oiLoc d ↦[(oiC0 L h1 11).view.set]{fullShare} c11) ∗ (oiLoc d ↦[(oiC0 L h1 12).view.set]{fullShare} c12) ∗ (oiLoc d ↦[(oiC0 L h1 13).view.set]{fullShare} c13) ∗ (oiLoc d ↦[(oiC0 L h1 14).view.set]{fullShare} c14) ∗ (oiLoc d ↦[(oiC0 L h1 15).view.set]{fullShare} c15) ∗ (oiLoc d ↦[(oiC0 L h1 16).view.set]{fullShare} c16) ∗ (oiLoc d ↦[(oiC0 L h1 17).view.set]{fullShare} c17)) : sProp 𝕄)
      ⊢ iprop(∃ g, oiLoc d ↦[outSet0 L h1]{fullShare} g) := by
  have hj : (bigSep (Finset.univ : Finset (Fin 18)) (fun r => oiLoc d ↦[(ouC0 L h1 r).view.set]{fullShare} ((![c0, c1, c2, c3, c4, c5, c6, c7, c8, c9, c10, c11, c12, c13, c14, c15, c16, c17] : Fin 18 → Buf (Elt F) (oiLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (oiLoc d)) t) i⌝
          ∗ oiLoc d ↦[Finset.univ.biUnion fun r => (ouC0 L h1 r).view.set]{fullShare} g) :=
    pointsTo_biUnion_join _ _ _ c0 (fun r _ r' _ hne => ouC0_disj L h1 r r' hne)
  rw [bigSep_fin18] at hj
  refine BIBase.Entails.trans (show _ ⊢ _ from hj) ?_
  iintro ⟨%g, -, H⟩
  iexists g
  unfold outSet0
  iexact H

set_option maxHeartbeats 400000000 in
/-- The task of a tile of core 0: the two fetches, thirty-six windows through the ring of seven slots, the drain. -/
theorem tile_body0 : TileBody0 F U := by
  intro d L hF h1 q fu fi gu gi ou oi hpre O W hO
  simp only [cc1_gather_k_eq_skeleton]; unfold cc1_gather_k_skel
  rw [(K (F := F)).scopedBufs_V hF d (cV L) (jV L), SparseCore.Cfg.scopedSems0_V (Val := Elt F) d (cV L) (jV L), ownSems0_V, ownBufs_V]
  have hn2 : ¬ k1_cond2 L = 1#1 := cond_excl' L h1
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  have hinU7 : ∀ (fl : Buf (Elt F) ((luV).view.loc (V d (cV L) (jV L)))) x, ((rowU 7 inb_S18x128_S1x128_7_0).view.read (Elt F) (View.write (Elt F) (luV).view fl ((iuSlab L).view.read (Elt F) gu) Finset.univ) x).toNat < S100000x128.size gathers_S100000x128_S128x128.axis :=
    fun fl => list_inbU d L gu hpre.1 7 _ fl _ rfl
  have hinI7 : ∀ (fl : Buf (Elt F) ((liV).view.loc (V d (cV L) (jV L)))) x, ((rowI 7 inb_S18x128_S1x128_7_0).view.read (Elt F) (View.write (Elt F) (liV).view fl ((iiSlab L).view.read (Elt F) gi) Finset.univ) x).toNat < S100000x128.size gathers_S100000x128_S128x128.axis :=
    fun fl => list_inbI d L gi hpre.2 7 _ fl _ rfl
  have hinU8 : ∀ (fl : Buf (Elt F) ((luV).view.loc (V d (cV L) (jV L)))) x, ((rowU 8 inb_S18x128_S1x128_8_0).view.read (Elt F) (View.write (Elt F) (luV).view fl ((iuSlab L).view.read (Elt F) gu) Finset.univ) x).toNat < S100000x128.size gathers_S100000x128_S128x128.axis :=
    fun fl => list_inbU d L gu hpre.1 8 _ fl _ rfl
  have hinI8 : ∀ (fl : Buf (Elt F) ((liV).view.loc (V d (cV L) (jV L)))) x, ((rowI 8 inb_S18x128_S1x128_8_0).view.read (Elt F) (View.write (Elt F) (liV).view fl ((iiSlab L).view.read (Elt F) gi) Finset.univ) x).toNat < S100000x128.size gathers_S100000x128_S128x128.axis :=
    fun fl => list_inbI d L gi hpre.2 8 _ fl _ rfl
  have hinU9 : ∀ (fl : Buf (Elt F) ((luV).view.loc (V d (cV L) (jV L)))) x, ((rowU 9 inb_S18x128_S1x128_9_0).view.read (Elt F) (View.write (Elt F) (luV).view fl ((iuSlab L).view.read (Elt F) gu) Finset.univ) x).toNat < S100000x128.size gathers_S100000x128_S128x128.axis :=
    fun fl => list_inbU d L gu hpre.1 9 _ fl _ rfl
  have hinI9 : ∀ (fl : Buf (Elt F) ((liV).view.loc (V d (cV L) (jV L)))) x, ((rowI 9 inb_S18x128_S1x128_9_0).view.read (Elt F) (View.write (Elt F) (liV).view fl ((iiSlab L).view.read (Elt F) gi) Finset.univ) x).toNat < S100000x128.size gathers_S100000x128_S128x128.axis :=
    fun fl => list_inbI d L gi hpre.2 9 _ fl _ rfl
  have hinU10 : ∀ (fl : Buf (Elt F) ((luV).view.loc (V d (cV L) (jV L)))) x, ((rowU 10 inb_S18x128_S1x128_10_0).view.read (Elt F) (View.write (Elt F) (luV).view fl ((iuSlab L).view.read (Elt F) gu) Finset.univ) x).toNat < S100000x128.size gathers_S100000x128_S128x128.axis :=
    fun fl => list_inbU d L gu hpre.1 10 _ fl _ rfl
  have hinI10 : ∀ (fl : Buf (Elt F) ((liV).view.loc (V d (cV L) (jV L)))) x, ((rowI 10 inb_S18x128_S1x128_10_0).view.read (Elt F) (View.write (Elt F) (liV).view fl ((iiSlab L).view.read (Elt F) gi) Finset.univ) x).toNat < S100000x128.size gathers_S100000x128_S128x128.axis :=
    fun fl => list_inbI d L gi hpre.2 10 _ fl _ rfl
  have hinU11 : ∀ (fl : Buf (Elt F) ((luV).view.loc (V d (cV L) (jV L)))) x, ((rowU 11 inb_S18x128_S1x128_11_0).view.read (Elt F) (View.write (Elt F) (luV).view fl ((iuSlab L).view.read (Elt F) gu) Finset.univ) x).toNat < S100000x128.size gathers_S100000x128_S128x128.axis :=
    fun fl => list_inbU d L gu hpre.1 11 _ fl _ rfl
  have hinI11 : ∀ (fl : Buf (Elt F) ((liV).view.loc (V d (cV L) (jV L)))) x, ((rowI 11 inb_S18x128_S1x128_11_0).view.read (Elt F) (View.write (Elt F) (liV).view fl ((iiSlab L).view.read (Elt F) gi) Finset.univ) x).toNat < S100000x128.size gathers_S100000x128_S128x128.axis :=
    fun fl => list_inbI d L gi hpre.2 11 _ fl _ rfl
  have hinU12 : ∀ (fl : Buf (Elt F) ((luV).view.loc (V d (cV L) (jV L)))) x, ((rowU 12 inb_S18x128_S1x128_12_0).view.read (Elt F) (View.write (Elt F) (luV).view fl ((iuSlab L).view.read (Elt F) gu) Finset.univ) x).toNat < S100000x128.size gathers_S100000x128_S128x128.axis :=
    fun fl => list_inbU d L gu hpre.1 12 _ fl _ rfl
  have hinI12 : ∀ (fl : Buf (Elt F) ((liV).view.loc (V d (cV L) (jV L)))) x, ((rowI 12 inb_S18x128_S1x128_12_0).view.read (Elt F) (View.write (Elt F) (liV).view fl ((iiSlab L).view.read (Elt F) gi) Finset.univ) x).toNat < S100000x128.size gathers_S100000x128_S128x128.axis :=
    fun fl => list_inbI d L gi hpre.2 12 _ fl _ rfl
  have hinU13 : ∀ (fl : Buf (Elt F) ((luV).view.loc (V d (cV L) (jV L)))) x, ((rowU 13 inb_S18x128_S1x128_13_0).view.read (Elt F) (View.write (Elt F) (luV).view fl ((iuSlab L).view.read (Elt F) gu) Finset.univ) x).toNat < S100000x128.size gathers_S100000x128_S128x128.axis :=
    fun fl => list_inbU d L gu hpre.1 13 _ fl _ rfl
  have hinI13 : ∀ (fl : Buf (Elt F) ((liV).view.loc (V d (cV L) (jV L)))) x, ((rowI 13 inb_S18x128_S1x128_13_0).view.read (Elt F) (View.write (Elt F) (liV).view fl ((iiSlab L).view.read (Elt F) gi) Finset.univ) x).toNat < S100000x128.size gathers_S100000x128_S128x128.axis :=
    fun fl => list_inbI d L gi hpre.2 13 _ fl _ rfl
  have hinU14 : ∀ (fl : Buf (Elt F) ((luV).view.loc (V d (cV L) (jV L)))) x, ((rowU 14 inb_S18x128_S1x128_14_0).view.read (Elt F) (View.write (Elt F) (luV).view fl ((iuSlab L).view.read (Elt F) gu) Finset.univ) x).toNat < S100000x128.size gathers_S100000x128_S128x128.axis :=
    fun fl => list_inbU d L gu hpre.1 14 _ fl _ rfl
  have hinI14 : ∀ (fl : Buf (Elt F) ((liV).view.loc (V d (cV L) (jV L)))) x, ((rowI 14 inb_S18x128_S1x128_14_0).view.read (Elt F) (View.write (Elt F) (liV).view fl ((iiSlab L).view.read (Elt F) gi) Finset.univ) x).toNat < S100000x128.size gathers_S100000x128_S128x128.axis :=
    fun fl => list_inbI d L gi hpre.2 14 _ fl _ rfl
  have hinU15 : ∀ (fl : Buf (Elt F) ((luV).view.loc (V d (cV L) (jV L)))) x, ((rowU 15 inb_S18x128_S1x128_15_0).view.read (Elt F) (View.write (Elt F) (luV).view fl ((iuSlab L).view.read (Elt F) gu) Finset.univ) x).toNat < S100000x128.size gathers_S100000x128_S128x128.axis :=
    fun fl => list_inbU d L gu hpre.1 15 _ fl _ rfl
  have hinI15 : ∀ (fl : Buf (Elt F) ((liV).view.loc (V d (cV L) (jV L)))) x, ((rowI 15 inb_S18x128_S1x128_15_0).view.read (Elt F) (View.write (Elt F) (liV).view fl ((iiSlab L).view.read (Elt F) gi) Finset.univ) x).toNat < S100000x128.size gathers_S100000x128_S128x128.axis :=
    fun fl => list_inbI d L gi hpre.2 15 _ fl _ rfl
  have hinU16 : ∀ (fl : Buf (Elt F) ((luV).view.loc (V d (cV L) (jV L)))) x, ((rowU 16 inb_S18x128_S1x128_16_0).view.read (Elt F) (View.write (Elt F) (luV).view fl ((iuSlab L).view.read (Elt F) gu) Finset.univ) x).toNat < S100000x128.size gathers_S100000x128_S128x128.axis :=
    fun fl => list_inbU d L gu hpre.1 16 _ fl _ rfl
  have hinI16 : ∀ (fl : Buf (Elt F) ((liV).view.loc (V d (cV L) (jV L)))) x, ((rowI 16 inb_S18x128_S1x128_16_0).view.read (Elt F) (View.write (Elt F) (liV).view fl ((iiSlab L).view.read (Elt F) gi) Finset.univ) x).toNat < S100000x128.size gathers_S100000x128_S128x128.axis :=
    fun fl => list_inbI d L gi hpre.2 16 _ fl _ rfl
  have hinU17 : ∀ (fl : Buf (Elt F) ((luV).view.loc (V d (cV L) (jV L)))) x, ((rowU 17 inb_S18x128_S1x128_17_0).view.read (Elt F) (View.write (Elt F) (luV).view fl ((iuSlab L).view.read (Elt F) gu) Finset.univ) x).toNat < S100000x128.size gathers_S100000x128_S128x128.axis :=
    fun fl => list_inbU d L gu hpre.1 17 _ fl _ rfl
  have hinI17 : ∀ (fl : Buf (Elt F) ((liV).view.loc (V d (cV L) (jV L)))) x, ((rowI 17 inb_S18x128_S1x128_17_0).view.read (Elt F) (View.write (Elt F) (liV).view fl ((iiSlab L).view.read (Elt F) gi) Finset.univ) x).toNat < S100000x128.size gathers_S100000x128_S128x128.axis :=
    fun fl => list_inbI d L gi hpre.2 17 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc1_scratch0 ↦{fullShare} fl0 : sProp 𝕄) = ((luV).view.loc (V d (cV L) (jV L)) ↦{fullShare} fl0) from rfl)) $$ Hl0
  ihave Hl1' := (Entails.of_eq (show ((V d (cV L) (jV L)).loc cc1_scratch1 ↦{fullShare} fl1 : sProp 𝕄) = ((liV).view.loc (V d (cV L) (jV L)) ↦{fullShare} fl1) from rfl)) $$ Hl1
  ihave Hb0' := (Entails.of_eq (show ((V d (cV L) (jV L)).loc cc1_scratch2 ↦{fullShare} fb0 : sProp 𝕄) = ((b0V).view.loc (V d (cV L) (jV L)) ↦{fullShare} fb0) from rfl)) $$ Hb0
  ihave Hb1' := (Entails.of_eq (show ((V d (cV L) (jV L)).loc cc1_scratch3 ↦{fullShare} fb1 : sProp 𝕄) = ((b1V).view.loc (V d (cV L) (jV L)) ↦{fullShare} fb1) from rfl)) $$ Hb1
  ihave Hb2' := (Entails.of_eq (show ((V d (cV L) (jV L)).loc cc1_scratch4 ↦{fullShare} fb2 : sProp 𝕄) = ((b2V).view.loc (V d (cV L) (jV L)) ↦{fullShare} fb2) from rfl)) $$ Hb2
  ihave Hb3' := (Entails.of_eq (show ((V d (cV L) (jV L)).loc cc1_scratch5 ↦{fullShare} fb3 : sProp 𝕄) = ((b3V).view.loc (V d (cV L) (jV L)) ↦{fullShare} fb3) from rfl)) $$ Hb3
  ihave Hb4' := (Entails.of_eq (show ((V d (cV L) (jV L)).loc cc1_scratch6 ↦{fullShare} fb4 : sProp 𝕄) = ((b4V).view.loc (V d (cV L) (jV L)) ↦{fullShare} fb4) from rfl)) $$ Hb4
  ihave Hb5' := (Entails.of_eq (show ((V d (cV L) (jV L)).loc cc1_scratch7 ↦{fullShare} fb5 : sProp 𝕄) = ((b5V).view.loc (V d (cV L) (jV L)) ↦{fullShare} fb5) from rfl)) $$ Hb5
  ihave Hb6' := (Entails.of_eq (show ((V d (cV L) (jV L)).loc cc1_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 16} fu : sProp 𝕄) = ((tuV).view.loc (V d (cV L) (jV L)) ↦{Transfers.shareTokN q 16} fu) from rfl)) $$ Htu0
  ihave Hti0' := (Entails.of_eq (show (tiLoc d ↦{Transfers.shareTokN q 16} fi : sProp 𝕄) = ((tiV).view.loc (V d (cV L) (jV L)) ↦{Transfers.shareTokN q 16} fi) from rfl)) $$ Hti0
  ihave Htu1' := (Entails.of_eq (show (tuLoc d ↦{Transfers.shareTokN q 17} fu : sProp 𝕄) = ((tuV).view.loc (V d (cV L) (jV L)) ↦{Transfers.shareTokN q 17} fu) from rfl)) $$ Htu1
  ihave Hti1' := (Entails.of_eq (show (tiLoc d ↦{Transfers.shareTokN q 17} fi : sProp 𝕄) = ((tiV).view.loc (V d (cV L) (jV L)) ↦{Transfers.shareTokN q 17} fi) from rfl)) $$ Hti1
  ihave Htu2' := (Entails.of_eq (show (tuLoc d ↦{Transfers.shareTokN q 18} fu : sProp 𝕄) = ((tuV).view.loc (V d (cV L) (jV L)) ↦{Transfers.shareTokN q 18} fu) from rfl)) $$ Htu2
  ihave Hti2' := (Entails.of_eq (show (tiLoc d ↦{Transfers.shareTokN q 18} fi : sProp 𝕄) = ((tiV).view.loc (V d (cV L) (jV L)) ↦{Transfers.shareTokN q 18} fi) from rfl)) $$ Hti2
  ihave Htu3' := (Entails.of_eq (show (tuLoc d ↦{Transfers.shareTokN q 19} fu : sProp 𝕄) = ((tuV).view.loc (V d (cV L) (jV L)) ↦{Transfers.shareTokN q 19} fu) from rfl)) $$ Htu3
  ihave Hti3' := (Entails.of_eq (show (tiLoc d ↦{Transfers.shareTokN q 19} fi : sProp 𝕄) = ((tiV).view.loc (V d (cV L) (jV L)) ↦{Transfers.shareTokN q 19} fi) from rfl)) $$ Hti3
  ihave Htu4' := (Entails.of_eq (show (tuLoc d ↦{Transfers.shareTokN q 20} fu : sProp 𝕄) = ((tuV).view.loc (V d (cV L) (jV L)) ↦{Transfers.shareTokN q 20} fu) from rfl)) $$ Htu4
  ihave Hti4' := (Entails.of_eq (show (tiLoc d ↦{Transfers.shareTokN q 20} fi : sProp 𝕄) = ((tiV).view.loc (V d (cV L) (jV L)) ↦{Transfers.shareTokN q 20} fi) from rfl)) $$ Hti4
  ihave Htu5' := (Entails.of_eq (show (tuLoc d ↦{Transfers.shareTokN q 21} fu : sProp 𝕄) = ((tuV).view.loc (V d (cV L) (jV L)) ↦{Transfers.shareTokN q 21} fu) from rfl)) $$ Htu5
  ihave Hti5' := (Entails.of_eq (show (tiLoc d ↦{Transfers.shareTokN q 21} fi : sProp 𝕄) = ((tiV).view.loc (V d (cV L) (jV L)) ↦{Transfers.shareTokN q 21} fi) from rfl)) $$ Hti5
  ihave Htu6' := (Entails.of_eq (show (tuLoc d ↦{Transfers.shareTokN q 22} fu : sProp 𝕄) = ((tuV).view.loc (V d (cV L) (jV L)) ↦{Transfers.shareTokN q 22} fu) from rfl)) $$ Htu6
  ihave Hti6' := (Entails.of_eq (show (tiLoc d ↦{Transfers.shareTokN q 22} fi : sProp 𝕄) = ((tiV).view.loc (V d (cV L) (jV L)) ↦{Transfers.shareTokN q 22} fi) from rfl)) $$ Hti6
  ihave Hou' := (Entails.of_eq (outPts0 (F := F) (U := U) d L h1 ou)) $$ Hou
  icases Hou' with ⟨Hou0, Hou1, Hou2, Hou3, Hou4, Hou5, Hou6, Hou7, Hou8, Hou9, Hou10, Hou11, Hou12, Hou13, Hou14, Hou15, Hou16, Hou17⟩
  ihave Hoi' := (Entails.of_eq (outPts0i (F := F) (U := U) d L h1 oi)) $$ Hoi
  icases Hoi' with ⟨Hoi0, Hoi1, Hoi2, Hoi3, Hoi4, Hoi5, Hoi6, Hoi7, Hoi8, Hoi9, Hoi10, Hoi11, Hoi12, Hoi13, Hoi14, Hoi15, Hoi16, Hoi17⟩
  ihave Hou0' := (Entails.of_eq (show (ouLoc d ↦[(ouC0 L h1 0).view.set]{fullShare} ou : sProp 𝕄) = (((ouV).slice (Rect.unit (s := S51200x128) (k1_off2 L 0#32) S128x128.size (k1_off2_inb L h1 0)) (fun _ => rfl)).view.loc (V d (cV L) (jV L)) ↦[((ouV).slice (Rect.unit (s := S51200x128) (k1_off2 L 0#32) S128x128.size (k1_off2_inb L h1 0)) (fun _ => rfl)).view.set]{fullShare} ou) from rfl)) $$ Hou0
  ihave Hoi0' := (Entails.of_eq (show (oiLoc d ↦[(oiC0 L h1 0).view.set]{fullShare} oi : sProp 𝕄) = (((oiV).slice (Rect.unit (s := S51200x128) (k1_off2 L 0#32) S128x128.size (k1_off2_inb L h1 0)) (fun _ => rfl)).view.loc (V d (cV L) (jV L)) ↦[((oiV).slice (Rect.unit (s := S51200x128) (k1_off2 L 0#32) S128x128.size (k1_off2_inb L h1 0)) (fun _ => rfl)).view.set]{fullShare} oi) from rfl)) $$ Hoi0
  ihave Hou1' := (Entails.of_eq (show (ouLoc d ↦[(ouC0 L h1 1).view.set]{fullShare} ou : sProp 𝕄) = (((ouV).slice (Rect.unit (s := S51200x128) (k1_off2 L 128#32) S128x128.size (k1_off2_inb L h1 1)) (fun _ => rfl)).view.loc (V d (cV L) (jV L)) ↦[((ouV).slice (Rect.unit (s := S51200x128) (k1_off2 L 128#32) S128x128.size (k1_off2_inb L h1 1)) (fun _ => rfl)).view.set]{fullShare} ou) from rfl)) $$ Hou1
  ihave Hoi1' := (Entails.of_eq (show (oiLoc d ↦[(oiC0 L h1 1).view.set]{fullShare} oi : sProp 𝕄) = (((oiV).slice (Rect.unit (s := S51200x128) (k1_off2 L 128#32) S128x128.size (k1_off2_inb L h1 1)) (fun _ => rfl)).view.loc (V d (cV L) (jV L)) ↦[((oiV).slice (Rect.unit (s := S51200x128) (k1_off2 L 128#32) S128x128.size (k1_off2_inb L h1 1)) (fun _ => rfl)).view.set]{fullShare} oi) from rfl)) $$ Hoi1
  ihave Hou2' := (Entails.of_eq (show (ouLoc d ↦[(ouC0 L h1 2).view.set]{fullShare} ou : sProp 𝕄) = (((ouV).slice (Rect.unit (s := S51200x128) (k1_off2 L 256#32) S128x128.size (k1_off2_inb L h1 2)) (fun _ => rfl)).view.loc (V d (cV L) (jV L)) ↦[((ouV).slice (Rect.unit (s := S51200x128) (k1_off2 L 256#32) S128x128.size (k1_off2_inb L h1 2)) (fun _ => rfl)).view.set]{fullShare} ou) from rfl)) $$ Hou2
  ihave Hoi2' := (Entails.of_eq (show (oiLoc d ↦[(oiC0 L h1 2).view.set]{fullShare} oi : sProp 𝕄) = (((oiV).slice (Rect.unit (s := S51200x128) (k1_off2 L 256#32) S128x128.size (k1_off2_inb L h1 2)) (fun _ => rfl)).view.loc (V d (cV L) (jV L)) ↦[((oiV).slice (Rect.unit (s := S51200x128) (k1_off2 L 256#32) S128x128.size (k1_off2_inb L h1 2)) (fun _ => rfl)).view.set]{fullShare} oi) from rfl)) $$ Hoi2
  ihave Hou3' := (Entails.of_eq (show (ouLoc d ↦[(ouC0 L h1 3).view.set]{fullShare} ou : sProp 𝕄) = (((ouV).slice (Rect.unit (s := S51200x128) (k1_off2 L 384#32) S128x128.size (k1_off2_inb L h1 3)) (fun _ => rfl)).view.loc (V d (cV L) (jV L)) ↦[((ouV).slice (Rect.unit (s := S51200x128) (k1_off2 L 384#32) S128x128.size (k1_off2_inb L h1 3)) (fun _ => rfl)).view.set]{fullShare} ou) from rfl)) $$ Hou3
  ihave Hoi3' := (Entails.of_eq (show (oiLoc d ↦[(oiC0 L h1 3).view.set]{fullShare} oi : sProp 𝕄) = (((oiV).slice (Rect.unit (s := S51200x128) (k1_off2 L 384#32) S128x128.size (k1_off2_inb L h1 3)) (fun _ => rfl)).view.loc (V d (cV L) (jV L)) ↦[((oiV).slice (Rect.unit (s := S51200x128) (k1_off2 L 384#32) S128x128.size (k1_off2_inb L h1 3)) (fun _ => rfl)).view.set]{fullShare} oi) from rfl)) $$ Hoi3
  ihave Hou4' := (Entails.of_eq (show (ouLoc d ↦[(ouC0 L h1 4).view.set]{fullShare} ou : sProp 𝕄) = (((ouV).slice (Rect.unit (s := S51200x128) (k1_off2 L 512#32) S128x128.size (k1_off2_inb L h1 4)) (fun _ => rfl)).view.loc (V d (cV L) (jV L)) ↦[((ouV).slice (Rect.unit (s := S51200x128) (k1_off2 L 512#32) S128x128.size (k1_off2_inb L h1 4)) (fun _ => rfl)).view.set]{fullShare} ou) from rfl)) $$ Hou4
  ihave Hoi4' := (Entails.of_eq (show (oiLoc d ↦[(oiC0 L h1 4).view.set]{fullShare} oi : sProp 𝕄) = (((oiV).slice (Rect.unit (s := S51200x128) (k1_off2 L 512#32) S128x128.size (k1_off2_inb L h1 4)) (fun _ => rfl)).view.loc (V d (cV L) (jV L)) ↦[((oiV).slice (Rect.unit (s := S51200x128) (k1_off2 L 512#32) S128x128.size (k1_off2_inb L h1 4)) (fun _ => rfl)).view.set]{fullShare} oi) from rfl)) $$ Hoi4
  ihave Hou5' := (Entails.of_eq (show (ouLoc d ↦[(ouC0 L h1 5).view.set]{fullShare} ou : sProp 𝕄) = (((ouV).slice (Rect.unit (s := S51200x128) (k1_off2 L 640#32) S128x128.size (k1_off2_inb L h1 5)) (fun _ => rfl)).view.loc (V d (cV L) (jV L)) ↦[((ouV).slice (Rect.unit (s := S51200x128) (k1_off2 L 640#32) S128x128.size (k1_off2_inb L h1 5)) (fun _ => rfl)).view.set]{fullShare} ou) from rfl)) $$ Hou5
  ihave Hoi5' := (Entails.of_eq (show (oiLoc d ↦[(oiC0 L h1 5).view.set]{fullShare} oi : sProp 𝕄) = (((oiV).slice (Rect.unit (s := S51200x128) (k1_off2 L 640#32) S128x128.size (k1_off2_inb L h1 5)) (fun _ => rfl)).view.loc (V d (cV L) (jV L)) ↦[((oiV).slice (Rect.unit (s := S51200x128) (k1_off2 L 640#32) S128x128.size (k1_off2_inb L h1 5)) (fun _ => rfl)).view.set]{fullShare} oi) from rfl)) $$ Hoi5
  ihave Hou6' := (Entails.of_eq (show (ouLoc d ↦[(ouC0 L h1 6).view.set]{fullShare} ou : sProp 𝕄) = (((ouV).slice (Rect.unit (s := S51200x128) (k1_off2 L 768#32) S128x128.size (k1_off2_inb L h1 6)) (fun _ => rfl)).view.loc (V d (cV L) (jV L)) ↦[((ouV).slice (Rect.unit (s := S51200x128) (k1_off2 L 768#32) S128x128.size (k1_off2_inb L h1 6)) (fun _ => rfl)).view.set]{fullShare} ou) from rfl)) $$ Hou6
  ihave Hoi6' := (Entails.of_eq (show (oiLoc d ↦[(oiC0 L h1 6).view.set]{fullShare} oi : sProp 𝕄) = (((oiV).slice (Rect.unit (s := S51200x128) (k1_off2 L 768#32) S128x128.size (k1_off2_inb L h1 6)) (fun _ => rfl)).view.loc (V d (cV L) (jV L)) ↦[((oiV).slice (Rect.unit (s := S51200x128) (k1_off2 L 768#32) S128x128.size (k1_off2_inb L h1 6)) (fun _ => rfl)).view.set]{fullShare} oi) from rfl)) $$ Hoi6
  ihave Hou7' := (Entails.of_eq (show (ouLoc d ↦[(ouC0 L h1 7).view.set]{fullShare} ou : sProp 𝕄) = (((ouV).slice (Rect.unit (s := S51200x128) (k1_off2 L 896#32) S128x128.size (k1_off2_inb L h1 7)) (fun _ => rfl)).view.loc (V d (cV L) (jV L)) ↦[((ouV).slice (Rect.unit (s := S51200x128) (k1_off2 L 896#32) S128x128.size (k1_off2_inb L h1 7)) (fun _ => rfl)).view.set]{fullShare} ou) from rfl)) $$ Hou7
  ihave Hoi7' := (Entails.of_eq (show (oiLoc d ↦[(oiC0 L h1 7).view.set]{fullShare} oi : sProp 𝕄) = (((oiV).slice (Rect.unit (s := S51200x128) (k1_off2 L 896#32) S128x128.size (k1_off2_inb L h1 7)) (fun _ => rfl)).view.loc (V d (cV L) (jV L)) ↦[((oiV).slice (Rect.unit (s := S51200x128) (k1_off2 L 896#32) S128x128.size (k1_off2_inb L h1 7)) (fun _ => rfl)).view.set]{fullShare} oi) from rfl)) $$ Hoi7
  ihave Hou8' := (Entails.of_eq (show (ouLoc d ↦[(ouC0 L h1 8).view.set]{fullShare} ou : sProp 𝕄) = (((ouV).slice (Rect.unit (s := S51200x128) (k1_off2 L 1024#32) S128x128.size (k1_off2_inb L h1 8)) (fun _ => rfl)).view.loc (V d (cV L) (jV L)) ↦[((ouV).slice (Rect.unit (s := S51200x128) (k1_off2 L 1024#32) S128x128.size (k1_off2_inb L h1 8)) (fun _ => rfl)).view.set]{fullShare} ou) from rfl)) $$ Hou8
  ihave Hoi8' := (Entails.of_eq (show (oiLoc d ↦[(oiC0 L h1 8).view.set]{fullShare} oi : sProp 𝕄) = (((oiV).slice (Rect.unit (s := S51200x128) (k1_off2 L 1024#32) S128x128.size (k1_off2_inb L h1 8)) (fun _ => rfl)).view.loc (V d (cV L) (jV L)) ↦[((oiV).slice (Rect.unit (s := S51200x128) (k1_off2 L 1024#32) S128x128.size (k1_off2_inb L h1 8)) (fun _ => rfl)).view.set]{fullShare} oi) from rfl)) $$ Hoi8
  ihave Hou9' := (Entails.of_eq (show (ouLoc d ↦[(ouC0 L h1 9).view.set]{fullShare} ou : sProp 𝕄) = (((ouV).slice (Rect.unit (s := S51200x128) (k1_off2 L 1152#32) S128x128.size (k1_off2_inb L h1 9)) (fun _ => rfl)).view.loc (V d (cV L) (jV L)) ↦[((ouV).slice (Rect.unit (s := S51200x128) (k1_off2 L 1152#32) S128x128.size (k1_off2_inb L h1 9)) (fun _ => rfl)).view.set]{fullShare} ou) from rfl)) $$ Hou9
  ihave Hoi9' := (Entails.of_eq (show (oiLoc d ↦[(oiC0 L h1 9).view.set]{fullShare} oi : sProp 𝕄) = (((oiV).slice (Rect.unit (s := S51200x128) (k1_off2 L 1152#32) S128x128.size (k1_off2_inb L h1 9)) (fun _ => rfl)).view.loc (V d (cV L) (jV L)) ↦[((oiV).slice (Rect.unit (s := S51200x128) (k1_off2 L 1152#32) S128x128.size (k1_off2_inb L h1 9)) (fun _ => rfl)).view.set]{fullShare} oi) from rfl)) $$ Hoi9
  ihave Hou10' := (Entails.of_eq (show (ouLoc d ↦[(ouC0 L h1 10).view.set]{fullShare} ou : sProp 𝕄) = (((ouV).slice (Rect.unit (s := S51200x128) (k1_off2 L 1280#32) S128x128.size (k1_off2_inb L h1 10)) (fun _ => rfl)).view.loc (V d (cV L) (jV L)) ↦[((ouV).slice (Rect.unit (s := S51200x128) (k1_off2 L 1280#32) S128x128.size (k1_off2_inb L h1 10)) (fun _ => rfl)).view.set]{fullShare} ou) from rfl)) $$ Hou10
  ihave Hoi10' := (Entails.of_eq (show (oiLoc d ↦[(oiC0 L h1 10).view.set]{fullShare} oi : sProp 𝕄) = (((oiV).slice (Rect.unit (s := S51200x128) (k1_off2 L 1280#32) S128x128.size (k1_off2_inb L h1 10)) (fun _ => rfl)).view.loc (V d (cV L) (jV L)) ↦[((oiV).slice (Rect.unit (s := S51200x128) (k1_off2 L 1280#32) S128x128.size (k1_off2_inb L h1 10)) (fun _ => rfl)).view.set]{fullShare} oi) from rfl)) $$ Hoi10
  ihave Hou11' := (Entails.of_eq (show (ouLoc d ↦[(ouC0 L h1 11).view.set]{fullShare} ou : sProp 𝕄) = (((ouV).slice (Rect.unit (s := S51200x128) (k1_off2 L 1408#32) S128x128.size (k1_off2_inb L h1 11)) (fun _ => rfl)).view.loc (V d (cV L) (jV L)) ↦[((ouV).slice (Rect.unit (s := S51200x128) (k1_off2 L 1408#32) S128x128.size (k1_off2_inb L h1 11)) (fun _ => rfl)).view.set]{fullShare} ou) from rfl)) $$ Hou11
  ihave Hoi11' := (Entails.of_eq (show (oiLoc d ↦[(oiC0 L h1 11).view.set]{fullShare} oi : sProp 𝕄) = (((oiV).slice (Rect.unit (s := S51200x128) (k1_off2 L 1408#32) S128x128.size (k1_off2_inb L h1 11)) (fun _ => rfl)).view.loc (V d (cV L) (jV L)) ↦[((oiV).slice (Rect.unit (s := S51200x128) (k1_off2 L 1408#32) S128x128.size (k1_off2_inb L h1 11)) (fun _ => rfl)).view.set]{fullShare} oi) from rfl)) $$ Hoi11
  ihave Hou12' := (Entails.of_eq (show (ouLoc d ↦[(ouC0 L h1 12).view.set]{fullShare} ou : sProp 𝕄) = (((ouV).slice (Rect.unit (s := S51200x128) (k1_off2 L 1536#32) S128x128.size (k1_off2_inb L h1 12)) (fun _ => rfl)).view.loc (V d (cV L) (jV L)) ↦[((ouV).slice (Rect.unit (s := S51200x128) (k1_off2 L 1536#32) S128x128.size (k1_off2_inb L h1 12)) (fun _ => rfl)).view.set]{fullShare} ou) from rfl)) $$ Hou12
  ihave Hoi12' := (Entails.of_eq (show (oiLoc d ↦[(oiC0 L h1 12).view.set]{fullShare} oi : sProp 𝕄) = (((oiV).slice (Rect.unit (s := S51200x128) (k1_off2 L 1536#32) S128x128.size (k1_off2_inb L h1 12)) (fun _ => rfl)).view.loc (V d (cV L) (jV L)) ↦[((oiV).slice (Rect.unit (s := S51200x128) (k1_off2 L 1536#32) S128x128.size (k1_off2_inb L h1 12)) (fun _ => rfl)).view.set]{fullShare} oi) from rfl)) $$ Hoi12
  ihave Hou13' := (Entails.of_eq (show (ouLoc d ↦[(ouC0 L h1 13).view.set]{fullShare} ou : sProp 𝕄) = (((ouV).slice (Rect.unit (s := S51200x128) (k1_off2 L 1664#32) S128x128.size (k1_off2_inb L h1 13)) (fun _ => rfl)).view.loc (V d (cV L) (jV L)) ↦[((ouV).slice (Rect.unit (s := S51200x128) (k1_off2 L 1664#32) S128x128.size (k1_off2_inb L h1 13)) (fun _ => rfl)).view.set]{fullShare} ou) from rfl)) $$ Hou13
  ihave Hoi13' := (Entails.of_eq (show (oiLoc d ↦[(oiC0 L h1 13).view.set]{fullShare} oi : sProp 𝕄) = (((oiV).slice (Rect.unit (s := S51200x128) (k1_off2 L 1664#32) S128x128.size (k1_off2_inb L h1 13)) (fun _ => rfl)).view.loc (V d (cV L) (jV L)) ↦[((oiV).slice (Rect.unit (s := S51200x128) (k1_off2 L 1664#32) S128x128.size (k1_off2_inb L h1 13)) (fun _ => rfl)).view.set]{fullShare} oi) from rfl)) $$ Hoi13
  ihave Hou14' := (Entails.of_eq (show (ouLoc d ↦[(ouC0 L h1 14).view.set]{fullShare} ou : sProp 𝕄) = (((ouV).slice (Rect.unit (s := S51200x128) (k1_off2 L 1792#32) S128x128.size (k1_off2_inb L h1 14)) (fun _ => rfl)).view.loc (V d (cV L) (jV L)) ↦[((ouV).slice (Rect.unit (s := S51200x128) (k1_off2 L 1792#32) S128x128.size (k1_off2_inb L h1 14)) (fun _ => rfl)).view.set]{fullShare} ou) from rfl)) $$ Hou14
  ihave Hoi14' := (Entails.of_eq (show (oiLoc d ↦[(oiC0 L h1 14).view.set]{fullShare} oi : sProp 𝕄) = (((oiV).slice (Rect.unit (s := S51200x128) (k1_off2 L 1792#32) S128x128.size (k1_off2_inb L h1 14)) (fun _ => rfl)).view.loc (V d (cV L) (jV L)) ↦[((oiV).slice (Rect.unit (s := S51200x128) (k1_off2 L 1792#32) S128x128.size (k1_off2_inb L h1 14)) (fun _ => rfl)).view.set]{fullShare} oi) from rfl)) $$ Hoi14
  ihave Hou15' := (Entails.of_eq (show (ouLoc d ↦[(ouC0 L h1 15).view.set]{fullShare} ou : sProp 𝕄) = (((ouV).slice (Rect.unit (s := S51200x128) (k1_off2 L 1920#32) S128x128.size (k1_off2_inb L h1 15)) (fun _ => rfl)).view.loc (V d (cV L) (jV L)) ↦[((ouV).slice (Rect.unit (s := S51200x128) (k1_off2 L 1920#32) S128x128.size (k1_off2_inb L h1 15)) (fun _ => rfl)).view.set]{fullShare} ou) from rfl)) $$ Hou15
  ihave Hoi15' := (Entails.of_eq (show (oiLoc d ↦[(oiC0 L h1 15).view.set]{fullShare} oi : sProp 𝕄) = (((oiV).slice (Rect.unit (s := S51200x128) (k1_off2 L 1920#32) S128x128.size (k1_off2_inb L h1 15)) (fun _ => rfl)).view.loc (V d (cV L) (jV L)) ↦[((oiV).slice (Rect.unit (s := S51200x128) (k1_off2 L 1920#32) S128x128.size (k1_off2_inb L h1 15)) (fun _ => rfl)).view.set]{fullShare} oi) from rfl)) $$ Hoi15
  ihave Hou16' := (Entails.of_eq (show (ouLoc d ↦[(ouC0 L h1 16).view.set]{fullShare} ou : sProp 𝕄) = (((ouV).slice (Rect.unit (s := S51200x128) (k1_off2 L 2048#32) S128x128.size (k1_off2_inb L h1 16)) (fun _ => rfl)).view.loc (V d (cV L) (jV L)) ↦[((ouV).slice (Rect.unit (s := S51200x128) (k1_off2 L 2048#32) S128x128.size (k1_off2_inb L h1 16)) (fun _ => rfl)).view.set]{fullShare} ou) from rfl)) $$ Hou16
  ihave Hoi16' := (Entails.of_eq (show (oiLoc d ↦[(oiC0 L h1 16).view.set]{fullShare} oi : sProp 𝕄) = (((oiV).slice (Rect.unit (s := S51200x128) (k1_off2 L 2048#32) S128x128.size (k1_off2_inb L h1 16)) (fun _ => rfl)).view.loc (V d (cV L) (jV L)) ↦[((oiV).slice (Rect.unit (s := S51200x128) (k1_off2 L 2048#32) S128x128.size (k1_off2_inb L h1 16)) (fun _ => rfl)).view.set]{fullShare} oi) from rfl)) $$ Hoi16
  ihave Hou17' := (Entails.of_eq (show (ouLoc d ↦[(ouC0 L h1 17).view.set]{fullShare} ou : sProp 𝕄) = (((ouV).slice (Rect.unit (s := S51200x128) (k1_off2 L 2176#32) S128x128.size (k1_off2_inb L h1 17)) (fun _ => rfl)).view.loc (V d (cV L) (jV L)) ↦[((ouV).slice (Rect.unit (s := S51200x128) (k1_off2 L 2176#32) S128x128.size (k1_off2_inb L h1 17)) (fun _ => rfl)).view.set]{fullShare} ou) from rfl)) $$ Hou17
  ihave Hoi17' := (Entails.of_eq (show (oiLoc d ↦[(oiC0 L h1 17).view.set]{fullShare} oi : sProp 𝕄) = (((oiV).slice (Rect.unit (s := S51200x128) (k1_off2 L 2176#32) S128x128.size (k1_off2_inb L h1 17)) (fun _ => rfl)).view.loc (V d (cV L) (jV L)) ↦[((oiV).slice (Rect.unit (s := S51200x128) (k1_off2 L 2176#32) S128x128.size (k1_off2_inb L h1 17)) (fun _ => rfl)).view.set]{fullShare} oi) from rfl)) $$ Hoi17
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin0 (F := F) (U := U) d L h1 _ _ _ _ _ _ _ _ _ _ _ _ _ _ _ _ _ _) $$ [Hou0' Hou1' Hou2' Hou3' Hou4' Hou5' Hou6' Hou7' Hou8' Hou9' Hou10' Hou11' Hou12' Hou13' Hou14' Hou15' Hou16' Hou17']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    isplitl [Hou6']; · iexact Hou6'
    isplitl [Hou7']; · iexact Hou7'
    isplitl [Hou8']; · iexact Hou8'
    isplitl [Hou9']; · iexact Hou9'
    isplitl [Hou10']; · iexact Hou10'
    isplitl [Hou11']; · iexact Hou11'
    isplitl [Hou12']; · iexact Hou12'
    isplitl [Hou13']; · iexact Hou13'
    isplitl [Hou14']; · iexact Hou14'
    isplitl [Hou15']; · iexact Hou15'
    isplitl [Hou16']; · iexact Hou16'
    iexact Hou17'
  icases HouJ with ⟨%gU, HouJ⟩
  ihave HoiJ := (outJoin0i (F := F) (U := U) d L h1 _ _ _ _ _ _ _ _ _ _ _ _ _ _ _ _ _ _) $$ [Hoi0' Hoi1' Hoi2' Hoi3' Hoi4' Hoi5' Hoi6' Hoi7' Hoi8' Hoi9' Hoi10' Hoi11' Hoi12' Hoi13' Hoi14' Hoi15' Hoi16' Hoi17']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    isplitl [Hoi6']; · iexact Hoi6'
    isplitl [Hoi7']; · iexact Hoi7'
    isplitl [Hoi8']; · iexact Hoi8'
    isplitl [Hoi9']; · iexact Hoi9'
    isplitl [Hoi10']; · iexact Hoi10'
    isplitl [Hoi11']; · iexact Hoi11'
    isplitl [Hoi12']; · iexact Hoi12'
    isplitl [Hoi13']; · iexact Hoi13'
    isplitl [Hoi14']; · iexact Hoi14'
    isplitl [Hoi15']; · iexact Hoi15'
    isplitl [Hoi16']; · iexact Hoi16'
    iexact Hoi17'
  icases HoiJ with ⟨%gI, HoiJ⟩
  isplitl [Hgu' Hgi' Htu Hti HouJ HoiJ]
  · iexists gU, gI
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.Kernel.ScTile1

end
-- ==== Proof.ScTile1c1B.lean ====
/-
  The task of a tile of core 1 of the second gather kernel: the tile fetches its two index slabs into its list
  scratches, then runs fourteen windows through a ring of seven row buffers; window w gathers the 128 table rows named
  by row (w / 2) of the fetched list (the user table for even w, the item table for odd w) into slot (w mod 7) and copies
  the slot out to chunk (w / 2) of the tile's rows of the matching output. Every slot has its own gather cell and its
  own write-out cell, so on each cell at most one copy is outstanding, and no slot is touched while a copy on it is
  pending. The tile's rows of each output are held chunk by chunk for the run and joined again at the end.
-/
import proofs.«204681_g65575560675685_cont_9to1_m_144_57_alg».proof.Proof.ScTileLib1B
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.Kernel
import proofs.«204681_g65575560675685_cont_9to1_m_144_57_alg».proof.Proof.Gen.Kernel.Skeleton

noncomputable section

namespace Cert.Proof.Kernel.ScTile1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

section Tile

variable (d : Dev nD) (L : grid1.Coords)
variable [FloatOps F]

/-- Two chunks of a core-1 tile are disjoint row ranges. -/
theorem chunkA1_disj : ∀ (L : grid1.Coords) (h2 : k1_cond2 L = 1#1) (r r' : Fin 7), r ≠ r' →
    LoadRect.disj (Rect.unit (s := S51200x128) (k1_off3 L (BitVec.ofNat 32 (128 * r.val))) S128x128.size (k1_off3_inb L h2 r))
      (Rect.unit (s := S51200x128) (k1_off3 L (BitVec.ofNat 32 (128 * r'.val))) S128x128.size (k1_off3_inb L h2 r')).toLoadRect = true := by
  decide +kernel

theorem ouC1_disj (h2 : k1_cond2 L = 1#1) (r r' : Fin 7) (hne : r ≠ r') : Disjoint (ouC1 L h2 r).view.set (ouC1 L h2 r').view.set :=
  View.disjoint_slice_of_disj _ _ _ (chunkA1_disj L h2 r r' hne)

/-- The tile's rows of the user output, chunk by chunk. -/
theorem outPts1 (h2 : k1_cond2 L = 1#1) (f : Buf (Elt F) (ouLoc d)) :
    (ouLoc d ↦[outSet1 L h2]{fullShare} f : sProp 𝕄)
      = iprop((ouLoc d ↦[(ouC1 L h2 0).view.set]{fullShare} f) ∗ (ouLoc d ↦[(ouC1 L h2 1).view.set]{fullShare} f) ∗ (ouLoc d ↦[(ouC1 L h2 2).view.set]{fullShare} f) ∗ (ouLoc d ↦[(ouC1 L h2 3).view.set]{fullShare} f) ∗ (ouLoc d ↦[(ouC1 L h2 4).view.set]{fullShare} f) ∗ (ouLoc d ↦[(ouC1 L h2 5).view.set]{fullShare} f) ∗ (ouLoc d ↦[(ouC1 L h2 6).view.set]{fullShare} f)) := by
  unfold outSet1
  rw [pointsTo_biUnion _ _ (fun r _ r' _ hne => ouC1_disj L h2 r r' hne), bigSep_fin7]
/-- The tile's rows of the item output, chunk by chunk. -/
theorem outPts1i (h2 : k1_cond2 L = 1#1) (f : Buf (Elt F) (oiLoc d)) :
    (oiLoc d ↦[outSet1 L h2]{fullShare} f : sProp 𝕄)
      = iprop((oiLoc d ↦[(oiC1 L h2 0).view.set]{fullShare} f) ∗ (oiLoc d ↦[(oiC1 L h2 1).view.set]{fullShare} f) ∗ (oiLoc d ↦[(oiC1 L h2 2).view.set]{fullShare} f) ∗ (oiLoc d ↦[(oiC1 L h2 3).view.set]{fullShare} f) ∗ (oiLoc d ↦[(oiC1 L h2 4).view.set]{fullShare} f) ∗ (oiLoc d ↦[(oiC1 L h2 5).view.set]{fullShare} f) ∗ (oiLoc d ↦[(oiC1 L h2 6).view.set]{fullShare} f)) := by
  unfold outSet1
  rw [pointsTo_biUnion (ℓ := oiLoc d) _ _ (fun r _ r' _ hne => ouC1_disj L h2 r r' hne), bigSep_fin7]
  rfl

set_option maxHeartbeats 40000000 in
/-- The chunks joined: whatever each holds, together they are the tile's rows at one contents. -/
theorem outJoin1 (h2 : k1_cond2 L = 1#1) (c0 c1 c2 c3 c4 c5 c6 : Buf (Elt F) (ouLoc d)) :
    (iprop((ouLoc d ↦[(ouC1 L h2 0).view.set]{fullShare} c0) ∗ (ouLoc d ↦[(ouC1 L h2 1).view.set]{fullShare} c1) ∗ (ouLoc d ↦[(ouC1 L h2 2).view.set]{fullShare} c2) ∗ (ouLoc d ↦[(ouC1 L h2 3).view.set]{fullShare} c3) ∗ (ouLoc d ↦[(ouC1 L h2 4).view.set]{fullShare} c4) ∗ (ouLoc d ↦[(ouC1 L h2 5).view.set]{fullShare} c5) ∗ (ouLoc d ↦[(ouC1 L h2 6).view.set]{fullShare} c6)) : sProp 𝕄)
      ⊢ iprop(∃ g, ouLoc d ↦[outSet1 L h2]{fullShare} g) := by
  have hj : (bigSep (Finset.univ : Finset (Fin 7)) (fun r => ouLoc d ↦[(ouC1 L h2 r).view.set]{fullShare} ((![c0, c1, c2, c3, c4, c5, c6] : Fin 7 → Buf (Elt F) (ouLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (ouLoc d)) t) i⌝
          ∗ ouLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, -, H⟩
  iexists g
  unfold outSet1
  iexact H

set_option maxHeartbeats 40000000 in
theorem outJoin1i (h2 : k1_cond2 L = 1#1) (c0 c1 c2 c3 c4 c5 c6 : Buf (Elt F) (oiLoc d)) :
    (iprop((oiLoc d ↦[(oiC1 L h2 0).view.set]{fullShare} c0) ∗ (oiLoc d ↦[(oiC1 L h2 1).view.set]{fullShare} c1) ∗ (oiLoc d ↦[(oiC1 L h2 2).view.set]{fullShare} c2) ∗ (oiLoc d ↦[(oiC1 L h2 3).view.set]{fullShare} c3) ∗ (oiLoc d ↦[(oiC1 L h2 4).view.set]{fullShare} c4) ∗ (oiLoc d ↦[(oiC1 L h2 5).view.set]{fullShare} c5) ∗ (oiLoc d ↦[(oiC1 L h2 6).view.set]{fullShare} c6)) : sProp 𝕄)
      ⊢ iprop(∃ g, oiLoc d ↦[outSet1 L h2]{fullShare} g) := by
  have hj : (bigSep (Finset.univ : Finset (Fin 7)) (fun r => oiLoc d ↦[(ouC1 L h2 r).view.set]{fullShare} ((![c0, c1, c2, c3, c4, c5, c6] : Fin 7 → Buf (Elt F) (oiLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (oiLoc d)) t) i⌝
          ∗ oiLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, -, H⟩
  iexists g
  unfold outSet1
  iexact H

set_option maxHeartbeats 400000000 in
/-- The task of a tile of core 1: the two fetches, fourteen windows through the ring of seven slots, the drain. -/
theorem tile_body1 : TileBody1 F U := by
  intro d L hF h2 q fu fi gu gi ou oi hpre O W hO
  simp only [cc1_gather_k_eq_skeleton]; unfold cc1_gather_k_skel
  rw [(K (F := F)).scopedBufs_V hF d (cV L) (jV L), SparseCore.Cfg.scopedSems0_V (Val := Elt F) d (cV L) (jV L), ownSems0_V, ownBufs_V]
  have hn1 : ¬ k1_cond1 L = 1#1 := cond_excl L h2
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc1_scratch0 ↦{fullShare} fl0 : sProp 𝕄) = ((luV).view.loc (V d (cV L) (jV L)) ↦{fullShare} fl0) from rfl)) $$ Hl0
  ihave Hl1' := (Entails.of_eq (show ((V d (cV L) (jV L)).loc cc1_scratch1 ↦{fullShare} fl1 : sProp 𝕄) = ((liV).view.loc (V d (cV L) (jV L)) ↦{fullShare} fl1) from rfl)) $$ Hl1
  ihave Hb0' := (Entails.of_eq (show ((V d (cV L) (jV L)).loc cc1_scratch2 ↦{fullShare} fb0 : sProp 𝕄) = ((b0V).view.loc (V d (cV L) (jV L)) ↦{fullShare} fb0) from rfl)) $$ Hb0
  ihave Hb1' := (Entails.of_eq (show ((V d (cV L) (jV L)).loc cc1_scratch3 ↦{fullShare} fb1 : sProp 𝕄) = ((b1V).view.loc (V d (cV L) (jV L)) ↦{fullShare} fb1) from rfl)) $$ Hb1
  ihave Hb2' := (Entails.of_eq (show ((V d (cV L) (jV L)).loc cc1_scratch4 ↦{fullShare} fb2 : sProp 𝕄) = ((b2V).view.loc (V d (cV L) (jV L)) ↦{fullShare} fb2) from rfl)) $$ Hb2
  ihave Hb3' := (Entails.of_eq (show ((V d (cV L) (jV L)).loc cc1_scratch5 ↦{fullShare} fb3 : sProp 𝕄) = ((b3V).view.loc (V d (cV L) (jV L)) ↦{fullShare} fb3) from rfl)) $$ Hb3
  ihave Hb4' := (Entails.of_eq (show ((V d (cV L) (jV L)).loc cc1_scratch6 ↦{fullShare} fb4 : sProp 𝕄) = ((b4V).view.loc (V d (cV L) (jV L)) ↦{fullShare} fb4) from rfl)) $$ Hb4
  ihave Hb5' := (Entails.of_eq (show ((V d (cV L) (jV L)).loc cc1_scratch7 ↦{fullShare} fb5 : sProp 𝕄) = ((b5V).view.loc (V d (cV L) (jV L)) ↦{fullShare} fb5) from rfl)) $$ Hb5
  ihave Hb6' := (Entails.of_eq (show ((V d (cV L) (jV L)).loc cc1_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 16} fu : sProp 𝕄) = ((tuV).view.loc (V d (cV L) (jV L)) ↦{Transfers.shareTokN q 16} fu) from rfl)) $$ Htu0
  ihave Hti0' := (Entails.of_eq (show (tiLoc d ↦{Transfers.shareTokN q 16} fi : sProp 𝕄) = ((tiV).view.loc (V d (cV L) (jV L)) ↦{Transfers.shareTokN q 16} fi) from rfl)) $$ Hti0
  ihave Htu1' := (Entails.of_eq (show (tuLoc d ↦{Transfers.shareTokN q 17} fu : sProp 𝕄) = ((tuV).view.loc (V d (cV L) (jV L)) ↦{Transfers.shareTokN q 17} fu) from rfl)) $$ Htu1
  ihave Hti1' := (Entails.of_eq (show (tiLoc d ↦{Transfers.shareTokN q 17} fi : sProp 𝕄) = ((tiV).view.loc (V d (cV L) (jV L)) ↦{Transfers.shareTokN q 17} fi) from rfl)) $$ Hti1
  ihave Htu2' := (Entails.of_eq (show (tuLoc d ↦{Transfers.shareTokN q 18} fu : sProp 𝕄) = ((tuV).view.loc (V d (cV L) (jV L)) ↦{Transfers.shareTokN q 18} fu) from rfl)) $$ Htu2
  ihave Hti2' := (Entails.of_eq (show (tiLoc d ↦{Transfers.shareTokN q 18} fi : sProp 𝕄) = ((tiV).view.loc (V d (cV L) (jV L)) ↦{Transfers.shareTokN q 18} fi) from rfl)) $$ Hti2
  ihave Htu3' := (Entails.of_eq (show (tuLoc d ↦{Transfers.shareTokN q 19} fu : sProp 𝕄) = ((tuV).view.loc (V d (cV L) (jV L)) ↦{Transfers.shareTokN q 19} fu) from rfl)) $$ Htu3
  ihave Hti3' := (Entails.of_eq (show (tiLoc d ↦{Transfers.shareTokN q 19} fi : sProp 𝕄) = ((tiV).view.loc (V d (cV L) (jV L)) ↦{Transfers.shareTokN q 19} fi) from rfl)) $$ Hti3
  ihave Htu4' := (Entails.of_eq (show (tuLoc d ↦{Transfers.shareTokN q 20} fu : sProp 𝕄) = ((tuV).view.loc (V d (cV L) (jV L)) ↦{Transfers.shareTokN q 20} fu) from rfl)) $$ Htu4
  ihave Hti4' := (Entails.of_eq (show (tiLoc d ↦{Transfers.shareTokN q 20} fi : sProp 𝕄) = ((tiV).view.loc (V d (cV L) (jV L)) ↦{Transfers.shareTokN q 20} fi) from rfl)) $$ Hti4
  ihave Htu5' := (Entails.of_eq (show (tuLoc d ↦{Transfers.shareTokN q 21} fu : sProp 𝕄) = ((tuV).view.loc (V d (cV L) (jV L)) ↦{Transfers.shareTokN q 21} fu) from rfl)) $$ Htu5
  ihave Hti5' := (Entails.of_eq (show (tiLoc d ↦{Transfers.shareTokN q 21} fi : sProp 𝕄) = ((tiV).view.loc (V d (cV L) (jV L)) ↦{Transfers.shareTokN q 21} fi) from rfl)) $$ Hti5
  ihave Htu6' := (Entails.of_eq (show (tuLoc d ↦{Transfers.shareTokN q 22} fu : sProp 𝕄) = ((tuV).view.loc (V d (cV L) (jV L)) ↦{Transfers.shareTokN q 22} fu) from rfl)) $$ Htu6
  ihave Hti6' := (Entails.of_eq (show (tiLoc d ↦{Transfers.shareTokN q 22} fi : sProp 𝕄) = ((tiV).view.loc (V d (cV L) (jV L)) ↦{Transfers.shareTokN q 22} fi) from rfl)) $$ Hti6
  ihave Hou' := (Entails.of_eq (outPts1 (F := F) (U := U) d L h2 ou)) $$ Hou
  icases Hou' with ⟨Hou0, Hou1, Hou2, Hou3, Hou4, Hou5, Hou6⟩
  ihave Hoi' := (Entails.of_eq (outPts1i (F := F) (U := U) d L h2 oi)) $$ Hoi
  icases Hoi' with ⟨Hoi0, Hoi1, Hoi2, Hoi3, Hoi4, Hoi5, Hoi6⟩
  ihave Hou0' := (Entails.of_eq (show (ouLoc d ↦[(ouC1 L h2 0).view.set]{fullShare} ou : sProp 𝕄) = (((ouV).slice (Rect.unit (s := S51200x128) (k1_off3 L 0#32) S128x128.size (k1_off3_inb L h2 0)) (fun _ => rfl)).view.loc (V d (cV L) (jV L)) ↦[((ouV).slice (Rect.unit (s := S51200x128) (k1_off3 L 0#32) S128x128.size (k1_off3_inb L h2 0)) (fun _ => rfl)).view.set]{fullShare} ou) from rfl)) $$ Hou0
  ihave Hoi0' := (Entails.of_eq (show (oiLoc d ↦[(oiC1 L h2 0).view.set]{fullShare} oi : sProp 𝕄) = (((oiV).slice (Rect.unit (s := S51200x128) (k1_off3 L 0#32) S128x128.size (k1_off3_inb L h2 0)) (fun _ => rfl)).view.loc (V d (cV L) (jV L)) ↦[((oiV).slice (Rect.unit (s := S51200x128) (k1_off3 L 0#32) S128x128.size (k1_off3_inb L h2 0)) (fun _ => rfl)).view.set]{fullShare} oi) from rfl)) $$ Hoi0
  ihave Hou1' := (Entails.of_eq (show (ouLoc d ↦[(ouC1 L h2 1).view.set]{fullShare} ou : sProp 𝕄) = (((ouV).slice (Rect.unit (s := S51200x128) (k1_off3 L 128#32) S128x128.size (k1_off3_inb L h2 1)) (fun _ => rfl)).view.loc (V d (cV L) (jV L)) ↦[((ouV).slice (Rect.unit (s := S51200x128) (k1_off3 L 128#32) S128x128.size (k1_off3_inb L h2 1)) (fun _ => rfl)).view.set]{fullShare} ou) from rfl)) $$ Hou1
  ihave Hoi1' := (Entails.of_eq (show (oiLoc d ↦[(oiC1 L h2 1).view.set]{fullShare} oi : sProp 𝕄) = (((oiV).slice (Rect.unit (s := S51200x128) (k1_off3 L 128#32) S128x128.size (k1_off3_inb L h2 1)) (fun _ => rfl)).view.loc (V d (cV L) (jV L)) ↦[((oiV).slice (Rect.unit (s := S51200x128) (k1_off3 L 128#32) S128x128.size (k1_off3_inb L h2 1)) (fun _ => rfl)).view.set]{fullShare} oi) from rfl)) $$ Hoi1
  ihave Hou2' := (Entails.of_eq (show (ouLoc d ↦[(ouC1 L h2 2).view.set]{fullShare} ou : sProp 𝕄) = (((ouV).slice (Rect.unit (s := S51200x128) (k1_off3 L 256#32) S128x128.size (k1_off3_inb L h2 2)) (fun _ => rfl)).view.loc (V d (cV L) (jV L)) ↦[((ouV).slice (Rect.unit (s := S51200x128) (k1_off3 L 256#32) S128x128.size (k1_off3_inb L h2 2)) (fun _ => rfl)).view.set]{fullShare} ou) from rfl)) $$ Hou2
  ihave Hoi2' := (Entails.of_eq (show (oiLoc d ↦[(oiC1 L h2 2).view.set]{fullShare} oi : sProp 𝕄) = (((oiV).slice (Rect.unit (s := S51200x128) (k1_off3 L 256#32) S128x128.size (k1_off3_inb L h2 2)) (fun _ => rfl)).view.loc (V d (cV L) (jV L)) ↦[((oiV).slice (Rect.unit (s := S51200x128) (k1_off3 L 256#32) S128x128.size (k1_off3_inb L h2 2)) (fun _ => rfl)).view.set]{fullShare} oi) from rfl)) $$ Hoi2
  ihave Hou3' := (Entails.of_eq (show (ouLoc d ↦[(ouC1 L h2 3).view.set]{fullShare} ou : sProp 𝕄) = (((ouV).slice (Rect.unit (s := S51200x128) (k1_off3 L 384#32) S128x128.size (k1_off3_inb L h2 3)) (fun _ => rfl)).view.loc (V d (cV L) (jV L)) ↦[((ouV).slice (Rect.unit (s := S51200x128) (k1_off3 L 384#32) S128x128.size (k1_off3_inb L h2 3)) (fun _ => rfl)).view.set]{fullShare} ou) from rfl)) $$ Hou3
  ihave Hoi3' := (Entails.of_eq (show (oiLoc d ↦[(oiC1 L h2 3).view.set]{fullShare} oi : sProp 𝕄) = (((oiV).slice (Rect.unit (s := S51200x128) (k1_off3 L 384#32) S128x128.size (k1_off3_inb L h2 3)) (fun _ => rfl)).view.loc (V d (cV L) (jV L)) ↦[((oiV).slice (Rect.unit (s := S51200x128) (k1_off3 L 384#32) S128x128.size (k1_off3_inb L h2 3)) (fun _ => rfl)).view.set]{fullShare} oi) from rfl)) $$ Hoi3
  ihave Hou4' := (Entails.of_eq (show (ouLoc d ↦[(ouC1 L h2 4).view.set]{fullShare} ou : sProp 𝕄) = (((ouV).slice (Rect.unit (s := S51200x128) (k1_off3 L 512#32) S128x128.size (k1_off3_inb L h2 4)) (fun _ => rfl)).view.loc (V d (cV L) (jV L)) ↦[((ouV).slice (Rect.unit (s := S51200x128) (k1_off3 L 512#32) S128x128.size (k1_off3_inb L h2 4)) (fun _ => rfl)).view.set]{fullShare} ou) from rfl)) $$ Hou4
  ihave Hoi4' := (Entails.of_eq (show (oiLoc d ↦[(oiC1 L h2 4).view.set]{fullShare} oi : sProp 𝕄) = (((oiV).slice (Rect.unit (s := S51200x128) (k1_off3 L 512#32) S128x128.size (k1_off3_inb L h2 4)) (fun _ => rfl)).view.loc (V d (cV L) (jV L)) ↦[((oiV).slice (Rect.unit (s := S51200x128) (k1_off3 L 512#32) S128x128.size (k1_off3_inb L h2 4)) (fun _ => rfl)).view.set]{fullShare} oi) from rfl)) $$ Hoi4
  ihave Hou5' := (Entails.of_eq (show (ouLoc d ↦[(ouC1 L h2 5).view.set]{fullShare} ou : sProp 𝕄) = (((ouV).slice (Rect.unit (s := S51200x128) (k1_off3 L 640#32) S128x128.size (k1_off3_inb L h2 5)) (fun _ => rfl)).view.loc (V d (cV L) (jV L)) ↦[((ouV).slice (Rect.unit (s := S51200x128) (k1_off3 L 640#32) S128x128.size (k1_off3_inb L h2 5)) (fun _ => rfl)).view.set]{fullShare} ou) from rfl)) $$ Hou5
  ihave Hoi5' := (Entails.of_eq (show (oiLoc d ↦[(oiC1 L h2 5).view.set]{fullShare} oi : sProp 𝕄) = (((oiV).slice (Rect.unit (s := S51200x128) (k1_off3 L 640#32) S128x128.size (k1_off3_inb L h2 5)) (fun _ => rfl)).view.loc (V d (cV L) (jV L)) ↦[((oiV).slice (Rect.unit (s := S51200x128) (k1_off3 L 640#32) S128x128.size (k1_off3_inb L h2 5)) (fun _ => rfl)).view.set]{fullShare} oi) from rfl)) $$ Hoi5
  ihave Hou6' := (Entails.of_eq (show (ouLoc d ↦[(ouC1 L h2 6).view.set]{fullShare} ou : sProp 𝕄) = (((ouV).slice (Rect.unit (s := S51200x128) (k1_off3 L 768#32) S128x128.size (k1_off3_inb L h2 6)) (fun _ => rfl)).view.loc (V d (cV L) (jV L)) ↦[((ouV).slice (Rect.unit (s := S51200x128) (k1_off3 L 768#32) S128x128.size (k1_off3_inb L h2 6)) (fun _ => rfl)).view.set]{fullShare} ou) from rfl)) $$ Hou6
  ihave Hoi6' := (Entails.of_eq (show (oiLoc d ↦[(oiC1 L h2 6).view.set]{fullShare} oi : sProp 𝕄) = (((oiV).slice (Rect.unit (s := S51200x128) (k1_off3 L 768#32) S128x128.size (k1_off3_inb L h2 6)) (fun _ => rfl)).view.loc (V d (cV L) (jV L)) ↦[((oiV).slice (Rect.unit (s := S51200x128) (k1_off3 L 768#32) S128x128.size (k1_off3_inb L h2 6)) (fun _ => rfl)).view.set]{fullShare} oi) from rfl)) $$ Hoi6
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin1 (F := F) (U := U) d L h2 _ _ _ _ _ _ _) $$ [Hou0' Hou1' Hou2' Hou3' Hou4' Hou5' Hou6']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    iexact Hou6'
  icases HouJ with ⟨%gU, HouJ⟩
  ihave HoiJ := (outJoin1i (F := F) (U := U) d L h2 _ _ _ _ _ _ _) $$ [Hoi0' Hoi1' Hoi2' Hoi3' Hoi4' Hoi5' Hoi6']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    iexact Hoi6'
  icases HoiJ with ⟨%gI, HoiJ⟩
  isplitl [Hgu' Hgi' Htu Hti HouJ HoiJ]
  · iexists gU, gI
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.Kernel.ScTile1

end
-- ==== Proof.CoreB.lean ====
/-
  The kernel program's frame at any float instance: the tiles' tasks of both calls and the two TensorCore regions put
  together.
-/
import proofs.«204681_g65575560675685_cont_9to1_m_144_57_alg».proof.Proof.FramesB
import proofs.«204681_g65575560675685_cont_9to1_m_144_57_alg».proof.Proof.CoreRegionsB
import proofs.«204681_g65575560675685_cont_9to1_m_144_57_alg».proof.Proof.ScTile0c0B
import proofs.«204681_g65575560675685_cont_9to1_m_144_57_alg».proof.Proof.ScTile0c1B
import proofs.«204681_g65575560675685_cont_9to1_m_144_57_alg».proof.Proof.ScTile1c0B
import proofs.«204681_g65575560675685_cont_9to1_m_144_57_alg».proof.Proof.ScTile1c1B

noncomputable section

namespace Cert.Kernel.Launch

open Cert.Kernel Idealize.ShloMosaic

variable {F : FTy → Type} [FloatOps F]

/-- Everything the frame asks for. -/
def core : Core F where
  hb00 := Cert.Proof.Kernel.ScTile0.tile_body0
  hb01 := Cert.Proof.Kernel.ScTile0.tile_body1
  hb10 := Cert.Proof.Kernel.ScTile1.tile_body0
  hb11 := Cert.Proof.Kernel.ScTile1.tile_body1
  ex0 := ex0
  ex1 := ex1
  hr0 := hr0
  hr1 := hr1
  hex0 := hex0
  hex1 := hex1

end Cert.Kernel.Launch

end
-- ==== Proof.SetupI.lean ====
/-
  The SparseCore program as the launch theorem sees it: the configuration of its two gather calls, the extended body
  table, the variants, and the decided facts about the launch semaphores.
-/
import proofs.«204681_g65575560675685_cont_9to1_m_144_57_alg».proof.Proof.Gen.KernelIdeal
import Idealize.ShloMosaic.Lib.SparseCore.Launch
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by match q with
      | 0 => rfl
      | 1 => rfl⟩

end Cert.KernelIdeal.Setup

end
-- ==== Proof.ScTileDefs0.lean ====
/-
  The vocabulary of one tile's task of the first gather kernel: where the six operands live, the tile's slab of each
  index operand, the chunks of 128 rows of each output the tile writes (7 on core 1, 18 on core 0) and their union, the
  range condition on the index operands, and the tile's resources.
-/
import proofs.«204681_g65575560675685_cont_9to1_m_144_57_alg».proof.Proof.Gen.KernelIdeal
import Idealize.ShloMosaic.Lib.SparseCore.Launch
import Idealize.ShloMosaic.Lib.Transfers

noncomputable section

namespace Cert.Proof.KernelIdeal.ScTile0

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev 𝒱₀ : Variants := Variants.none

/-! ## The machine's algebra over any user algebra -/

/-- The machine's resource algebra at the float instance F over the user algebra U. -/
abbrev Mach (F : FTy → Type) (U : Type) [URA U] : Type := MT nD τ sig (HIx 2) (Elt F) ℕ U ℕ

variable {U : Type} [URA U]

/-! ## The operands -/

abbrev tuLoc (d : Dev nD) : Loc nD τ sig := (SparseCore.T d).loc main_arg1
abbrev tiLoc (d : Dev nD) : Loc nD τ sig := (SparseCore.T d).loc main_arg2
abbrev iuLoc (d : Dev nD) : Loc nD τ sig := (SparseCore.T d).loc main_v53
abbrev iiLoc (d : Dev nD) : Loc nD τ sig := (SparseCore.T d).loc main_v81
abbrev ouLoc (d : Dev nD) : Loc nD τ sig := (SparseCore.T d).loc main_v94_0
abbrev oiLoc (d : Dev nD) : Loc nD τ sig := (SparseCore.T d).loc main_v94_1

abbrev cV (L : grid0.Coords) : Fin τ.nSC := (L 0).castLE hcore0
abbrev jV (L : grid0.Coords) : Fin τ.nSub := (L 1).castLE hsub0

/-- The tile's slab of an index operand, as the tile addresses it: slab 16 c + s, squeezed to its 18 rows of 128. -/
abbrev iuSlab (L : grid0.Coords) : Memref sig .scVector .hbm S18x128 .i32 :=
  ((Memref.whole main_v53_scv : Memref sig .scVector .hbm S32x18x128 .i32).slice
    (Rect.unit (s := S32x18x128) (k0_off1 L) S1x18x128.size (k0_off1_inb L)) (fun _ => rfl)).squeeze S18x128 squeezes_S1x18x128_S18x128
abbrev iiSlab (L : grid0.Coords) : Memref sig .scVector .hbm S18x128 .i32 :=
  ((Memref.whole main_v81_scv : Memref sig .scVector .hbm S32x18x128 .i32).slice
    (Rect.unit (s := S32x18x128) (k0_off1 L) S1x18x128.size (k0_off1_inb L)) (fun _ => rfl)).squeeze S18x128 squeezes_S1x18x128_S18x128

/-- Chunk r of the tile's rows of an output on core 1: 128 rows from row (288 + 7 s + r) * 128. -/
abbrev ouC1 (L : grid0.Coords) (h2 : k0_cond2 L = 1#1) (r : Fin 7) : Memref sig .scVector .hbm S128x128 .f32 :=
  (Memref.whole main_v94_0_scv : Memref sig .scVector .hbm S51200x128 .f32).slice
    (Rect.unit (s := S51200x128) (k0_off3 L (BitVec.ofNat 32 (128 * r.val))) S128x128.size (k0_off3_inb L h2 r)) (fun _ => rfl)
abbrev oiC1 (L : grid0.Coords) (h2 : k0_cond2 L = 1#1) (r : Fin 7) : Memref sig .scVector .hbm S128x128 .f32 :=
  (Memref.whole main_v94_1_scv : Memref sig .scVector .hbm S51200x128 .f32).slice
    (Rect.unit (s := S51200x128) (k0_off3 L (BitVec.ofNat 32 (128 * r.val))) S128x128.size (k0_off3_inb L h2 r)) (fun _ => rfl)
/-- Chunk r of the tile's rows of an output on core 0: 128 rows from row (18 s + r) * 128. -/
abbrev ouC0 (L : grid0.Coords) (h1 : k0_cond1 L = 1#1) (r : Fin 18) : Memref sig .scVector .hbm S128x128 .f32 :=
  (Memref.whole main_v94_0_scv : Memref sig .scVector .hbm S51200x128 .f32).slice
    (Rect.unit (s := S51200x128) (k0_off2 L (BitVec.ofNat 32 (128 * r.val))) S128x128.size (k0_off2_inb L h1 r)) (fun _ => rfl)
abbrev oiC0 (L : grid0.Coords) (h1 : k0_cond1 L = 1#1) (r : Fin 18) : Memref sig .scVector .hbm S128x128 .f32 :=
  (Memref.whole main_v94_1_scv : Memref sig .scVector .hbm S51200x128 .f32).slice
    (Rect.unit (s := S51200x128) (k0_off2 L (BitVec.ofNat 32 (128 * r.val))) S128x128.size (k0_off2_inb L h1 r)) (fun _ => rfl)

/-- The tile's rows of an output: its chunks' elements (the same index set for both outputs). -/
def outSet1 (L : grid0.Coords) (h2 : k0_cond2 L = 1#1) : Finset S51200x128.Idx := Finset.univ.biUnion fun r : Fin 7 => (ouC1 L h2 r).view.set
def outSet0 (L : grid0.Coords) (h1 : k0_cond1 L = 1#1) : Finset S51200x128.Idx := Finset.univ.biUnion fun r : Fin 18 => (ouC0 L h1 r).view.set

/-- Every word of the two index operands names a row of the tables. -/
def PreOK (d : Dev nD) (gu : Buf (Elt F) (iuLoc d)) (gi : Buf (Elt F) (iiLoc d)) : Prop :=
  (∀ j : S32x18x128.Idx, (gu j).toNat < 100000) ∧ (∀ j : S32x18x128.Idx, (gi j).toNat < 100000)

/-- The tile's resources on core 1: its slab of each index operand, a read share of each table, its rows of each output. -/
abbrev res1 (d : Dev nD) (L : grid0.Coords) (h2 : k0_cond2 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet1 L h2]{fullShare} ou) ∗ (oiLoc d ↦[outSet1 L h2]{fullShare} oi))
/-- The tile's resources on core 0. -/
abbrev res0 (d : Dev nD) (L : grid0.Coords) (h1 : k0_cond1 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet0 L h1]{fullShare} ou) ∗ (oiLoc d ↦[outSet0 L h1]{fullShare} oi))

end Cert.Proof.KernelIdeal.ScTile0

end
-- ==== Proof.ScTileDefs1.lean ====
/-
  The vocabulary of one tile's task of the second gather kernel: where the six operands live, the tile's slab of each
  index operand, the chunks of 128 rows of each output the tile writes (7 on core 1, 18 on core 0) and their union, the
  range condition on the index operands, and the tile's resources.
-/
import proofs.«204681_g65575560675685_cont_9to1_m_144_57_alg».proof.Proof.Gen.KernelIdeal
import Idealize.ShloMosaic.Lib.SparseCore.Launch
import Idealize.ShloMosaic.Lib.Transfers

noncomputable section

namespace Cert.Proof.KernelIdeal.ScTile1

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev 𝒱₀ : Variants := Variants.none

/-! ## The machine's algebra over any user algebra -/

/-- The machine's resource algebra at the float instance F over the user algebra U. -/
abbrev Mach (F : FTy → Type) (U : Type) [URA U] : Type := MT nD τ sig (HIx 2) (Elt F) ℕ U ℕ

variable {U : Type} [URA U]

/-! ## The operands -/

abbrev tuLoc (d : Dev nD) : Loc nD τ sig := (SparseCore.T d).loc main_arg1
abbrev tiLoc (d : Dev nD) : Loc nD τ sig := (SparseCore.T d).loc main_arg2
abbrev iuLoc (d : Dev nD) : Loc nD τ sig := (SparseCore.T d).loc main_v65
abbrev iiLoc (d : Dev nD) : Loc nD τ sig := (SparseCore.T d).loc main_v93
abbrev ouLoc (d : Dev nD) : Loc nD τ sig := (SparseCore.T d).loc main_v95_0
abbrev oiLoc (d : Dev nD) : Loc nD τ sig := (SparseCore.T d).loc main_v95_1

abbrev cV (L : grid1.Coords) : Fin τ.nSC := (L 0).castLE hcore1
abbrev jV (L : grid1.Coords) : Fin τ.nSub := (L 1).castLE hsub1

/-- The tile's slab of an index operand, as the tile addresses it: slab 16 c + s, squeezed to its 18 rows of 128. -/
abbrev iuSlab (L : grid1.Coords) : Memref sig .scVector .hbm S18x128 .i32 :=
  ((Memref.whole main_v65_scv : Memref sig .scVector .hbm S32x18x128 .i32).slice
    (Rect.unit (s := S32x18x128) (k1_off1 L) S1x18x128.size (k1_off1_inb L)) (fun _ => rfl)).squeeze S18x128 squeezes_S1x18x128_S18x128
abbrev iiSlab (L : grid1.Coords) : Memref sig .scVector .hbm S18x128 .i32 :=
  ((Memref.whole main_v93_scv : Memref sig .scVector .hbm S32x18x128 .i32).slice
    (Rect.unit (s := S32x18x128) (k1_off1 L) S1x18x128.size (k1_off1_inb L)) (fun _ => rfl)).squeeze S18x128 squeezes_S1x18x128_S18x128

/-- Chunk r of the tile's rows of an output on core 1: 128 rows from row (288 + 7 s + r) * 128. -/
abbrev ouC1 (L : grid1.Coords) (h2 : k1_cond2 L = 1#1) (r : Fin 7) : Memref sig .scVector .hbm S128x128 .f32 :=
  (Memref.whole main_v95_0_scv : Memref sig .scVector .hbm S51200x128 .f32).slice
    (Rect.unit (s := S51200x128) (k1_off3 L (BitVec.ofNat 32 (128 * r.val))) S128x128.size (k1_off3_inb L h2 r)) (fun _ => rfl)
abbrev oiC1 (L : grid1.Coords) (h2 : k1_cond2 L = 1#1) (r : Fin 7) : Memref sig .scVector .hbm S128x128 .f32 :=
  (Memref.whole main_v95_1_scv : Memref sig .scVector .hbm S51200x128 .f32).slice
    (Rect.unit (s := S51200x128) (k1_off3 L (BitVec.ofNat 32 (128 * r.val))) S128x128.size (k1_off3_inb L h2 r)) (fun _ => rfl)
/-- Chunk r of the tile's rows of an output on core 0: 128 rows from row (18 s + r) * 128. -/
abbrev ouC0 (L : grid1.Coords) (h1 : k1_cond1 L = 1#1) (r : Fin 18) : Memref sig .scVector .hbm S128x128 .f32 :=
  (Memref.whole main_v95_0_scv : Memref sig .scVector .hbm S51200x128 .f32).slice
    (Rect.unit (s := S51200x128) (k1_off2 L (BitVec.ofNat 32 (128 * r.val))) S128x128.size (k1_off2_inb L h1 r)) (fun _ => rfl)
abbrev oiC0 (L : grid1.Coords) (h1 : k1_cond1 L = 1#1) (r : Fin 18) : Memref sig .scVector .hbm S128x128 .f32 :=
  (Memref.whole main_v95_1_scv : Memref sig .scVector .hbm S51200x128 .f32).slice
    (Rect.unit (s := S51200x128) (k1_off2 L (BitVec.ofNat 32 (128 * r.val))) S128x128.size (k1_off2_inb L h1 r)) (fun _ => rfl)

/-- The tile's rows of an output: its chunks' elements (the same index set for both outputs). -/
def outSet1 (L : grid1.Coords) (h2 : k1_cond2 L = 1#1) : Finset S51200x128.Idx := Finset.univ.biUnion fun r : Fin 7 => (ouC1 L h2 r).view.set
def outSet0 (L : grid1.Coords) (h1 : k1_cond1 L = 1#1) : Finset S51200x128.Idx := Finset.univ.biUnion fun r : Fin 18 => (ouC0 L h1 r).view.set

/-- Every word of the two index operands names a row of the tables. -/
def PreOK (d : Dev nD) (gu : Buf (Elt F) (iuLoc d)) (gi : Buf (Elt F) (iiLoc d)) : Prop :=
  (∀ j : S32x18x128.Idx, (gu j).toNat < 100000) ∧ (∀ j : S32x18x128.Idx, (gi j).toNat < 100000)

/-- The tile's resources on core 1: its slab of each index operand, a read share of each table, its rows of each output. -/
abbrev res1 (d : Dev nD) (L : grid1.Coords) (h2 : k1_cond2 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet1 L h2]{fullShare} ou) ∗ (oiLoc d ↦[outSet1 L h2]{fullShare} oi))
/-- The tile's resources on core 0. -/
abbrev res0 (d : Dev nD) (L : grid1.Coords) (h1 : k1_cond1 L = 1#1) (q : PosShare TreeShare) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) : sProp (Mach F U) :=
  iprop((iuLoc d ↦[(iuSlab L).view.set]{fullShare} gu) ∗ (iiLoc d ↦[(iiSlab L).view.set]{fullShare} gi)
    ∗ (tuLoc d ↦{q} fu) ∗ (tiLoc d ↦{q} fi)
    ∗ (ouLoc d ↦[outSet0 L h1]{fullShare} ou) ∗ (oiLoc d ↦[outSet0 L h1]{fullShare} oi))

end Cert.Proof.KernelIdeal.ScTile1

end
-- ==== Proof.PayI.lean ====
/-
  The launch's resource algebra and what its handshakes carry: each tile's task takes its slab of the two index operands,
  a read share of the two tables and its rows of the two outputs, and brings them back, the outputs' rows rewritten.
-/
import proofs.«204681_g65575560675685_cont_9to1_m_144_57_alg».proof.Proof.SetupI
import proofs.«204681_g65575560675685_cont_9to1_m_144_57_alg».proof.Proof.ScTileDefs0
import proofs.«204681_g65575560675685_cont_9to1_m_144_57_alg».proof.Proof.ScTileDefs1
import Idealize.ShloMosaic.Lib.Pipeline.Kit

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the pipelines' rounds, the transfers' counters -/

abbrev UH : Type := URounds (GSem nD τ sig) ℕ
abbrev UPp : Type := URounds (GSem nD τ sig) Unit
abbrev UU : Type := UH × (UPp × Counters)

local notation "𝕄" => MT nD τ sig (HIx 2) (Elt F) ℕ UU ℕ

abbrev EH : Emb UH (MT nD τ sig (HIx 2) (Elt F) ℕ UU ℕ) := embL
abbrev EP : Emb UPp (MT nD τ sig (HIx 2) (Elt F) ℕ UU ℕ) := (Emb.inl : Emb UPp (UPp × Counters)).trans embR
instance EP_landsIn : (EP : Emb UPp (MT nD τ sig (HIx 2) (Elt F) ℕ UU ℕ)).LandsIn (upEmb : UEmb _ (MT nD τ sig (HIx 2) (Elt F) ℕ UU ℕ)) := by
  unfold EP; infer_instance

/-! ## The grid points -/

theorem bound0_0 : grid0.bound 0 = 2 := rfl
theorem bound0_1 : grid0.bound 1 = 16 := rfl
theorem bound1_0 : grid1.bound 0 = 2 := rfl
theorem bound1_1 : grid1.bound 1 = 16 := rfl

/-- Core `c`, subcore `i` as a point of the first call's grid. -/
def pt0 (c : Fin 2) (i : Fin 16) : grid0.Coords :=
  fun | 0 => Fin.cast bound0_0.symm c | 1 => Fin.cast bound0_1.symm i | ⟨_ + 2, h⟩ => absurd h (Nat.not_lt.2 (Nat.le_add_left _ _))
def pt1 (c : Fin 2) (i : Fin 16) : grid1.Coords :=
  fun | 0 => Fin.cast bound1_0.symm c | 1 => Fin.cast bound1_1.symm i | ⟨_ + 2, h⟩ => absurd h (Nat.not_lt.2 (Nat.le_add_left _ _))

theorem cond1_pt0 : ∀ (c : Fin 2) (i : Fin 16), c.val = 0 → k0_cond1 (pt0 c i) = 1#1 := by decide
theorem cond2_pt0 : ∀ (c : Fin 2) (i : Fin 16), ¬ c.val = 0 → k0_cond2 (pt0 c i) = 1#1 := by decide
theorem cond1_pt1 : ∀ (c : Fin 2) (i : Fin 16), c.val = 0 → k1_cond1 (pt1 c i) = 1#1 := by decide
theorem cond2_pt1 : ∀ (c : Fin 2) (i : Fin 16), ¬ c.val = 0 → k1_cond2 (pt1 c i) = 1#1 := by decide

/-- The read share of a table that tile `(c, i)` takes: one of thirty-two cut off the full share. -/
abbrev tq (c : Fin 2) (i : Fin 16) : PosShare TreeShare := Transfers.shareTok fullShare 32 ⟨16 * c.val + i.val, by omega⟩

/-! ## What a call finds in its operands, and what the handshakes carry -/

/-- The contents the first gather call finds in its six operands on device `d`: the two tables, the two index operands, the
    two outputs. -/
structure Ops0 (F : FTy → Type) (d : Dev nD) where
  fu : Buf (Elt F) (Cert.Proof.KernelIdeal.ScTile0.tuLoc d)
  fi : Buf (Elt F) (Cert.Proof.KernelIdeal.ScTile0.tiLoc d)
  gu : Buf (Elt F) (Cert.Proof.KernelIdeal.ScTile0.iuLoc d)
  gi : Buf (Elt F) (Cert.Proof.KernelIdeal.ScTile0.iiLoc d)
  ou : Buf (Elt F) (Cert.Proof.KernelIdeal.ScTile0.ouLoc d)
  oi : Buf (Elt F) (Cert.Proof.KernelIdeal.ScTile0.oiLoc d)
/-- The same for the second gather call. -/
structure Ops1 (F : FTy → Type) (d : Dev nD) where
  fu : Buf (Elt F) (Cert.Proof.KernelIdeal.ScTile1.tuLoc d)
  fi : Buf (Elt F) (Cert.Proof.KernelIdeal.ScTile1.tiLoc d)
  gu : Buf (Elt F) (Cert.Proof.KernelIdeal.ScTile1.iuLoc d)
  gi : Buf (Elt F) (Cert.Proof.KernelIdeal.ScTile1.iiLoc d)
  ou : Buf (Elt F) (Cert.Proof.KernelIdeal.ScTile1.ouLoc d)
  oi : Buf (Elt F) (Cert.Proof.KernelIdeal.ScTile1.oiLoc d)

/-- What tile `(c, i)` is handed for the first call: on core 0 its eighteen chunks of rows, on core 1 its seven. -/
def go0 (d : Dev nD) (A : Ops0 F d) (c : Fin 2) (i : Fin 16) : sProp (MT nD τ sig (HIx 2) (Elt F) ℕ UU ℕ) :=
  if h : c.val = 0 then Cert.Proof.KernelIdeal.ScTile0.res0 d (pt0 c i) (cond1_pt0 c i h) (tq c i) A.fu A.fi A.gu A.gi A.ou A.oi
  else Cert.Proof.KernelIdeal.ScTile0.res1 d (pt0 c i) (cond2_pt0 c i h) (tq c i) A.fu A.fi A.gu A.gi A.ou A.oi
/-- What it brings back: the same, its rows of the outputs at contents of the task's making. -/
def td0 (d : Dev nD) (A : Ops0 F d) (c : Fin 2) (i : Fin 16) : sProp (MT nD τ sig (HIx 2) (Elt F) ℕ UU ℕ) :=
  if h : c.val = 0 then iprop(∃ ou' oi', Cert.Proof.KernelIdeal.ScTile0.res0 d (pt0 c i) (cond1_pt0 c i h) (tq c i) A.fu A.fi A.gu A.gi ou' oi')
  else iprop(∃ ou' oi', Cert.Proof.KernelIdeal.ScTile0.res1 d (pt0 c i) (cond2_pt0 c i h) (tq c i) A.fu A.fi A.gu A.gi ou' oi')
def go1 (d : Dev nD) (A : Ops1 F d) (c : Fin 2) (i : Fin 16) : sProp (MT nD τ sig (HIx 2) (Elt F) ℕ UU ℕ) :=
  if h : c.val = 0 then Cert.Proof.KernelIdeal.ScTile1.res0 d (pt1 c i) (cond1_pt1 c i h) (tq c i) A.fu A.fi A.gu A.gi A.ou A.oi
  else Cert.Proof.KernelIdeal.ScTile1.res1 d (pt1 c i) (cond2_pt1 c i h) (tq c i) A.fu A.fi A.gu A.gi A.ou A.oi
def td1 (d : Dev nD) (A : Ops1 F d) (c : Fin 2) (i : Fin 16) : sProp (MT nD τ sig (HIx 2) (Elt F) ℕ UU ℕ) :=
  if h : c.val = 0 then iprop(∃ ou' oi', Cert.Proof.KernelIdeal.ScTile1.res0 d (pt1 c i) (cond1_pt1 c i h) (tq c i) A.fu A.fi A.gu A.gi ou' oi')
  else iprop(∃ ou' oi', Cert.Proof.KernelIdeal.ScTile1.res1 d (pt1 c i) (cond2_pt1 c i h) (tq c i) A.fu A.fi A.gu A.gi ou' oi')

variable (A0 : (d : Dev nD) → Ops0 F d) (A1 : (d : Dev nD) → Ops1 F d)

/-- A task's hand-out and hand-back at call `q`. -/
def goQ (q : Fin 2) (d : Dev nD) (c : Fin ((K (F := F)).nCore q)) (i : Fin ((K (F := F)).nSub q)) : sProp (MT nD τ sig (HIx 2) (Elt F) ℕ UU ℕ) :=
  match q with
  | 0 => go0 d (A0 d) (Fin.cast (nCore_eq 0) c) (Fin.cast (nSub_eq 0) i)
  | 1 => go1 d (A1 d) (Fin.cast (nCore_eq 1) c) (Fin.cast (nSub_eq 1) i)
def tdQ (q : Fin 2) (d : Dev nD) (c : Fin ((K (F := F)).nCore q)) (i : Fin ((K (F := F)).nSub q)) : sProp (MT nD τ sig (HIx 2) (Elt F) ℕ UU ℕ) :=
  match q with
  | 0 => td0 d (A0 d) (Fin.cast (nCore_eq 0) c) (Fin.cast (nSub_eq 0) i)
  | 1 => td1 d (A1 d) (Fin.cast (nCore_eq 1) c) (Fin.cast (nSub_eq 1) i)

/-- Each call hands a SparseCore its sixteen tasks' resources at once and gets them back at once; the tasks take and
    bring back theirs; nothing else is dealt. -/
def P : (K (F := F)).Pay (nD := nD) (Val := Elt F) (Name := ℕ) (U := UU) where
  st := fun q d c => bigSep Finset.univ fun i => goQ A0 A1 q d c i
  dn := fun q d c => bigSep Finset.univ fun i => tdQ A0 A1 q d c i
  go := goQ A0 A1
  td := tdQ A0 A1
  x := fun _ _ => iprop(emp)

/-- A SparseCore's operands are its tasks' and its results theirs: nothing to split. -/
theorem vecSplit (q : Fin 2) : (K (F := F)).VecSplit' (P A0 A1) q := by
  intro d c
  show (bigSep Finset.univ fun i => goQ A0 A1 q d c i) ⊢ |={Set.univ}=> iprop((bigSep Finset.univ fun i => goQ A0 A1 q d c i)
    ∗ ((bigSep Finset.univ fun i => tdQ A0 A1 q d c i) -∗ bigSep Finset.univ fun i => tdQ A0 A1 q d c i))
  iintro H; imodintro
  isplitl [H]; · iexact H
  iintro H; iexact H

/-! ## The handshakes' payloads can be stored -/

instance go0_storable (d : Dev nD) (A : Ops0 F d) (c : Fin 2) (i : Fin 16) :
    BI.Storable (upEmb : UEmb _ (MT nD τ sig (HIx 2) (Elt F) ℕ UU ℕ)) (go0 d A c i) := by unfold go0; split <;> infer_instance
instance td0_storable (d : Dev nD) (A : Ops0 F d) (c : Fin 2) (i : Fin 16) :
    BI.Storable (upEmb : UEmb _ (MT nD τ sig (HIx 2) (Elt F) ℕ UU ℕ)) (td0 d A c i) := by unfold td0; split <;> infer_instance
instance go1_storable (d : Dev nD) (A : Ops1 F d) (c : Fin 2) (i : Fin 16) :
    BI.Storable (upEmb : UEmb _ (MT nD τ sig (HIx 2) (Elt F) ℕ UU ℕ)) (go1 d A c i) := by unfold go1; split <;> infer_instance
instance td1_storable (d : Dev nD) (A : Ops1 F d) (c : Fin 2) (i : Fin 16) :
    BI.Storable (upEmb : UEmb _ (MT nD τ sig (HIx 2) (Elt F) ℕ UU ℕ)) (td1 d A c i) := by unfold td1; split <;> infer_instance
instance goQ_storable (q : Fin 2) (d : Dev nD) (c : Fin ((K (F := F)).nCore q)) (i : Fin ((K (F := F)).nSub q)) :
    BI.Storable (upEmb : UEmb _ (MT nD τ sig (HIx 2) (Elt F) ℕ UU ℕ)) (goQ A0 A1 q d c i) := by
  match q with
  | 0 => exact go0_storable d (A0 d) _ _
  | 1 => exact go1_storable d (A1 d) _ _
instance tdQ_storable (q : Fin 2) (d : Dev nD) (c : Fin ((K (F := F)).nCore q)) (i : Fin ((K (F := F)).nSub q)) :
    BI.Storable (upEmb : UEmb _ (MT nD τ sig (HIx 2) (Elt F) ℕ UU ℕ)) (tdQ A0 A1 q d c i) := by
  match q with
  | 0 => exact td0_storable d (A0 d) _ _
  | 1 => exact td1_storable d (A1 d) _ _

instance P_storable : (P A0 A1).IsStorable where
  st q d c := by show BI.Storable _ (bigSep Finset.univ fun i => goQ A0 A1 q d c i); infer_instance
  dn q d c := by show BI.Storable _ (bigSep Finset.univ fun i => tdQ A0 A1 q d c i); infer_instance
  go q d c i := goQ_storable A0 A1 q d c i
  td q d c i := tdQ_storable A0 A1 q d c i

end Cert.KernelIdeal.Launch

end
-- ==== Proof.HostOpsI.lean ====
import proofs.«204681_g65575560675685_cont_9to1_m_144_57_alg».proof.KernelIdeal
import Idealize.ShloMosaic.Lib.StableHlo.Run
import Idealize.ShloMosaic.Lib.Pipeline.Regions

noncomputable section

namespace Cert.KernelIdeal.HostOps

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

def fn_threefry2x32.ops0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S2 ![] bcast_S_S2),
    StableHlo.TRef.binary arg2 φ.v2 φ.v3 addi,
    StableHlo.TRef.unary arg1 φ.v4 (broadcastInDim S2 ![] bcast_S_S2),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S2 ![] bcast_S_S2),
    StableHlo.TRef.binary φ.v5 φ.v7 φ.v8 Host.shli,
    StableHlo.TRef.nullary φ.c_1 (constantI S_ 32 19#32),
    StableHlo.TRef.unary φ.c_1 φ.v9 (broadcastInDim S2 ![] bcast_S_S2),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S2 ![] bcast_S_S2),
    StableHlo.TRef.binary φ.v12 φ.v14 φ.v15 Host.shli,
    StableHlo.TRef.nullary φ.c_3 (constantI S_ 32 17#32),
    StableHlo.TRef.unary φ.c_3 φ.v16 (broadcastInDim S2 ![] bcast_S_S2),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S2 ![] bcast_S_S2),
    StableHlo.TRef.binary φ.v19 φ.v21 φ.v22 Host.shli,
    StableHlo.TRef.nullary φ.c_5 (constantI S_ 32 6#32),
    StableHlo.TRef.unary φ.c_5 φ.v23 (broadcastInDim S2 ![] bcast_S_S2),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S2 ![] bcast_S_S2),
    StableHlo.TRef.binary φ.v26 φ.v28 φ.v29 Host.shli,
    StableHlo.TRef.nullary φ.c_7 (constantI S_ 32 26#32),
    StableHlo.TRef.unary φ.c_7 φ.v30 (broadcastInDim S2 ![] bcast_S_S2),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S2 ![] bcast_S_S2),
    StableHlo.TRef.binary φ.v27 φ.v34 φ.v35 addi,
    StableHlo.TRef.unary φ.v1 φ.v36 (broadcastInDim S2 ![] bcast_S_S2),
    StableHlo.TRef.binary φ.v33 φ.v36 φ.v37 addi,
    StableHlo.TRef.nullary φ.c_8 (constantI S_ 32 1#32),
    StableHlo.TRef.unary φ.c_8 φ.v38 (broadcastInDim S2 ![] bcast_S_S2),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S2 ![] bcast_S_S2),
    StableHlo.TRef.binary φ.v39 φ.v41 φ.v42 Host.shli,
    StableHlo.TRef.nullary φ.c_10 (constantI S_ 32 15#32),
    StableHlo.TRef.unary φ.c_10 φ.v43 (broadcastInDim S2 ![] bcast_S_S2),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]
theorem fn_threefry2x32.ops0_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops0 (F := F) arg0 arg1 arg2 arg3 φ).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
theorem fn_threefry2x32.ops0_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops0 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part0_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part0 (F := F) arg0 arg1 arg2 arg3 φ = seq (fn_threefry2x32.ops0 arg0 arg1 arg2 arg3 φ) := by chain_rfl

def fn_threefry2x32.ops1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_11 (constantI S_ 32 29#32),
    StableHlo.TRef.unary φ.c_11 φ.v48 (broadcastInDim S2 ![] bcast_S_S2),
    StableHlo.TRef.binary φ.v46 φ.v48 φ.v49 Host.shli,
    StableHlo.TRef.nullary φ.c_12 (constantI S_ 32 3#32),
    StableHlo.TRef.unary φ.c_12 φ.v50 (broadcastInDim S2 ![] bcast_S_S2),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S2 ![] bcast_S_S2),
    StableHlo.TRef.binary φ.v53 φ.v55 φ.v56 Host.shli,
    StableHlo.TRef.nullary φ.c_14 (constantI S_ 32 16#32),
    StableHlo.TRef.unary φ.c_14 φ.v57 (broadcastInDim S2 ![] bcast_S_S2),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S2 ![] bcast_S_S2),
    StableHlo.TRef.binary φ.v60 φ.v62 φ.v63 Host.shli,
    StableHlo.TRef.nullary φ.c_16 (constantI S_ 32 8#32),
    StableHlo.TRef.unary φ.c_16 φ.v64 (broadcastInDim S2 ![] bcast_S_S2),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S2 ![] bcast_S_S2),
    StableHlo.TRef.binary φ.v61 φ.v68 φ.v69 addi,
    StableHlo.TRef.unary arg0 φ.v70 (broadcastInDim S2 ![] bcast_S_S2),
    StableHlo.TRef.binary φ.v67 φ.v70 φ.v71 addi,
    StableHlo.TRef.nullary φ.c_17 (constantI S_ 32 2#32),
    StableHlo.TRef.unary φ.c_17 φ.v72 (broadcastInDim S2 ![] bcast_S_S2),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S2 ![] bcast_S_S2),
    StableHlo.TRef.binary φ.v73 φ.v75 φ.v76 Host.shli,
    StableHlo.TRef.nullary φ.c_19 (constantI S_ 32 19#32),
    StableHlo.TRef.unary φ.c_19 φ.v77 (broadcastInDim S2 ![] bcast_S_S2),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S2 ![] bcast_S_S2),
    StableHlo.TRef.binary φ.v80 φ.v82 φ.v83 Host.shli,
    StableHlo.TRef.nullary φ.c_21 (constantI S_ 32 17#32),
    StableHlo.TRef.unary φ.c_21 φ.v84 (broadcastInDim S2 ![] bcast_S_S2),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S2 ![] bcast_S_S2),
    StableHlo.TRef.binary φ.v87 φ.v89 φ.v90 Host.shli,
    StableHlo.TRef.nullary φ.c_23 (constantI S_ 32 6#32),
    StableHlo.TRef.unary φ.c_23 φ.v91 (broadcastInDim S2 ![] bcast_S_S2),
    StableHlo.TRef.binary φ.v87 φ.v91 φ.v92 Host.shrui,
    StableHlo.TRef.binary φ.v90 φ.v92 φ.v93 ori,
    StableHlo.TRef.binary φ.v88 φ.v93 φ.v94 xori ]
theorem fn_threefry2x32.ops1_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops1 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem fn_threefry2x32.ops1_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops1 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part1_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part1 (F := F) arg0 arg1 arg2 arg3 φ = seq (fn_threefry2x32.ops1 arg0 arg1 arg2 arg3 φ) := by chain_rfl

def fn_threefry2x32.ops2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S2 ![] bcast_S_S2),
    StableHlo.TRef.binary φ.v94 φ.v96 φ.v97 Host.shli,
    StableHlo.TRef.nullary φ.c_25 (constantI S_ 32 26#32),
    StableHlo.TRef.unary φ.c_25 φ.v98 (broadcastInDim S2 ![] bcast_S_S2),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S2 ![] bcast_S_S2),
    StableHlo.TRef.binary φ.v95 φ.v102 φ.v103 addi,
    StableHlo.TRef.unary arg1 φ.v104 (broadcastInDim S2 ![] bcast_S_S2),
    StableHlo.TRef.binary φ.v101 φ.v104 φ.v105 addi,
    StableHlo.TRef.nullary φ.c_26 (constantI S_ 32 3#32),
    StableHlo.TRef.unary φ.c_26 φ.v106 (broadcastInDim S2 ![] bcast_S_S2),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S2 ![] bcast_S_S2),
    StableHlo.TRef.binary φ.v107 φ.v109 φ.v110 Host.shli,
    StableHlo.TRef.nullary φ.c_28 (constantI S_ 32 15#32),
    StableHlo.TRef.unary φ.c_28 φ.v111 (broadcastInDim S2 ![] bcast_S_S2),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S2 ![] bcast_S_S2),
    StableHlo.TRef.binary φ.v114 φ.v116 φ.v117 Host.shli,
    StableHlo.TRef.nullary φ.c_30 (constantI S_ 32 3#32),
    StableHlo.TRef.unary φ.c_30 φ.v118 (broadcastInDim S2 ![] bcast_S_S2),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S2 ![] bcast_S_S2),
    StableHlo.TRef.binary φ.v121 φ.v123 φ.v124 Host.shli,
    StableHlo.TRef.nullary φ.c_32 (constantI S_ 32 16#32),
    StableHlo.TRef.unary φ.c_32 φ.v125 (broadcastInDim S2 ![] bcast_S_S2),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S2 ![] bcast_S_S2),
    StableHlo.TRef.binary φ.v128 φ.v130 φ.v131 Host.shli,
    StableHlo.TRef.nullary φ.c_34 (constantI S_ 32 8#32),
    StableHlo.TRef.unary φ.c_34 φ.v132 (broadcastInDim S2 ![] bcast_S_S2),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S2 ![] bcast_S_S2),
    StableHlo.TRef.binary φ.v129 φ.v136 φ.v137 addi,
    StableHlo.TRef.unary φ.v1 φ.v138 (broadcastInDim S2 ![] bcast_S_S2),
    StableHlo.TRef.binary φ.v135 φ.v138 φ.v139 addi,
    StableHlo.TRef.nullary φ.c_35 (constantI S_ 32 4#32),
    StableHlo.TRef.unary φ.c_35 φ.v140 (broadcastInDim S2 ![] bcast_S_S2),
    StableHlo.TRef.binary φ.v139 φ.v140 φ.v141 addi,
    StableHlo.TRef.binary φ.v137 φ.v141 φ.v142 addi ]
theorem fn_threefry2x32.ops2_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops2 (F := F) arg0 arg1 arg2 arg3 φ).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem fn_threefry2x32.ops2_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops2 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part2_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part2 (F := F) arg0 arg1 arg2 arg3 φ = seq (fn_threefry2x32.ops2 arg0 arg1 arg2 arg3 φ) := by chain_rfl

def fn_threefry2x32.ops3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_36 (constantI S_ 32 13#32),
    StableHlo.TRef.unary φ.c_36 φ.v143 (broadcastInDim S2 ![] bcast_S_S2),
    StableHlo.TRef.binary φ.v141 φ.v143 φ.v144 Host.shli,
    StableHlo.TRef.nullary φ.c_37 (constantI S_ 32 19#32),
    StableHlo.TRef.unary φ.c_37 φ.v145 (broadcastInDim S2 ![] bcast_S_S2),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S2 ![] bcast_S_S2),
    StableHlo.TRef.binary φ.v148 φ.v150 φ.v151 Host.shli,
    StableHlo.TRef.nullary φ.c_39 (constantI S_ 32 17#32),
    StableHlo.TRef.unary φ.c_39 φ.v152 (broadcastInDim S2 ![] bcast_S_S2),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S2 ![] bcast_S_S2),
    StableHlo.TRef.binary φ.v155 φ.v157 φ.v158 Host.shli,
    StableHlo.TRef.nullary φ.c_41 (constantI S_ 32 6#32),
    StableHlo.TRef.unary φ.c_41 φ.v159 (broadcastInDim S2 ![] bcast_S_S2),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S2 ![] bcast_S_S2),
    StableHlo.TRef.binary φ.v162 φ.v164 φ.v165 Host.shli,
    StableHlo.TRef.nullary φ.c_43 (constantI S_ 32 26#32),
    StableHlo.TRef.unary φ.c_43 φ.v166 (broadcastInDim S2 ![] bcast_S_S2),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S2 ![] bcast_S_S2),
    StableHlo.TRef.binary φ.v163 φ.v170 φ.v171 addi,
    StableHlo.TRef.unary arg0 φ.v172 (broadcastInDim S2 ![] bcast_S_S2),
    StableHlo.TRef.binary φ.v169 φ.v172 φ.v173 addi,
    StableHlo.TRef.nullary φ.c_44 (constantI S_ 32 5#32),
    StableHlo.TRef.unary φ.c_44 φ.v174 (broadcastInDim S2 ![] bcast_S_S2),
    StableHlo.TRef.binary φ.v173 φ.v174 φ.v175 addi ]
theorem fn_threefry2x32.ops3_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops3 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem fn_threefry2x32.ops3_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops3 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32.part3_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part3 (F := F) arg0 arg1 arg2 arg3 φ = seq (fn_threefry2x32.ops3 arg0 arg1 arg2 arg3 φ) := by chain_rfl

def fn_threefry2x32.ops (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  fn_threefry2x32.ops0 arg0 arg1 arg2 arg3 φ ++ fn_threefry2x32.ops1 arg0 arg1 arg2 arg3 φ ++ fn_threefry2x32.ops2 arg0 arg1 arg2 arg3 φ ++ fn_threefry2x32.ops3 arg0 arg1 arg2 arg3 φ
theorem fn_threefry2x32.body_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body (F := F) arg0 arg1 arg2 arg3 φ = seq (fn_threefry2x32.ops arg0 arg1 arg2 arg3 φ) := by
  unfold fn_threefry2x32.body fn_threefry2x32.ops
  rw [fn_threefry2x32.part0_eq, fn_threefry2x32.part1_eq, fn_threefry2x32.part2_eq, fn_threefry2x32.part3_eq]
  simp only [seq_append, bind_assoc]

theorem fn_threefry2x32.ops_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops (F := F) arg0 arg1 arg2 arg3 φ).Forall fun op => op.bufs ⊆ tcRefs τ sig := by
  unfold fn_threefry2x32.ops
  simp only [List.forall_append, and_assoc]
  exact ⟨fn_threefry2x32.ops0_sub arg0 arg1 arg2 arg3 φ, fn_threefry2x32.ops1_sub arg0 arg1 arg2 arg3 φ, fn_threefry2x32.ops2_sub arg0 arg1 arg2 arg3 φ, fn_threefry2x32.ops3_sub arg0 arg1 arg2 arg3 φ⟩
theorem fn_threefry2x32.ops_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (fn_threefry2x32.ops (F := F) arg0 arg1 arg2 arg3 φ).Forall fun op => op.fresh = ∅ := by
  unfold fn_threefry2x32.ops
  simp only [List.forall_append, and_assoc]
  exact ⟨fn_threefry2x32.ops0_fresh arg0 arg1 arg2 arg3 φ, fn_threefry2x32.ops1_fresh arg0 arg1 arg2 arg3 φ, fn_threefry2x32.ops2_fresh arg0 arg1 arg2 arg3 φ, fn_threefry2x32.ops3_fresh arg0 arg1 arg2 arg3 φ⟩

def fn_threefry2x32_0.ops0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S128 ![] bcast_S_S128),
    StableHlo.TRef.binary arg2 φ.v2 φ.v3 addi,
    StableHlo.TRef.unary arg1 φ.v4 (broadcastInDim S128 ![] bcast_S_S128),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S128 ![] bcast_S_S128),
    StableHlo.TRef.binary φ.v5 φ.v7 φ.v8 Host.shli,
    StableHlo.TRef.nullary φ.c_1 (constantI S_ 32 19#32),
    StableHlo.TRef.unary φ.c_1 φ.v9 (broadcastInDim S128 ![] bcast_S_S128),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S128 ![] bcast_S_S128),
    StableHlo.TRef.binary φ.v12 φ.v14 φ.v15 Host.shli,
    StableHlo.TRef.nullary φ.c_3 (constantI S_ 32 17#32),
    StableHlo.TRef.unary φ.c_3 φ.v16 (broadcastInDim S128 ![] bcast_S_S128),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S128 ![] bcast_S_S128),
    StableHlo.TRef.binary φ.v19 φ.v21 φ.v22 Host.shli,
    StableHlo.TRef.nullary φ.c_5 (constantI S_ 32 6#32),
    StableHlo.TRef.unary φ.c_5 φ.v23 (broadcastInDim S128 ![] bcast_S_S128),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S128 ![] bcast_S_S128),
    StableHlo.TRef.binary φ.v26 φ.v28 φ.v29 Host.shli,
    StableHlo.TRef.nullary φ.c_7 (constantI S_ 32 26#32),
    StableHlo.TRef.unary φ.c_7 φ.v30 (broadcastInDim S128 ![] bcast_S_S128),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S128 ![] bcast_S_S128),
    StableHlo.TRef.binary φ.v27 φ.v34 φ.v35 addi,
    StableHlo.TRef.unary φ.v1 φ.v36 (broadcastInDim S128 ![] bcast_S_S128),
    StableHlo.TRef.binary φ.v33 φ.v36 φ.v37 addi,
    StableHlo.TRef.nullary φ.c_8 (constantI S_ 32 1#32),
    StableHlo.TRef.unary φ.c_8 φ.v38 (broadcastInDim S128 ![] bcast_S_S128),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S128 ![] bcast_S_S128),
    StableHlo.TRef.binary φ.v39 φ.v41 φ.v42 Host.shli,
    StableHlo.TRef.nullary φ.c_10 (constantI S_ 32 15#32),
    StableHlo.TRef.unary φ.c_10 φ.v43 (broadcastInDim S128 ![] bcast_S_S128),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]
theorem fn_threefry2x32_0.ops0_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops0 (F := F) arg0 arg1 arg2 arg3 φ).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
theorem fn_threefry2x32_0.ops0_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops0 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part0_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part0 (F := F) arg0 arg1 arg2 arg3 φ = seq (fn_threefry2x32_0.ops0 arg0 arg1 arg2 arg3 φ) := by chain_rfl

def fn_threefry2x32_0.ops1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_11 (constantI S_ 32 29#32),
    StableHlo.TRef.unary φ.c_11 φ.v48 (broadcastInDim S128 ![] bcast_S_S128),
    StableHlo.TRef.binary φ.v46 φ.v48 φ.v49 Host.shli,
    StableHlo.TRef.nullary φ.c_12 (constantI S_ 32 3#32),
    StableHlo.TRef.unary φ.c_12 φ.v50 (broadcastInDim S128 ![] bcast_S_S128),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S128 ![] bcast_S_S128),
    StableHlo.TRef.binary φ.v53 φ.v55 φ.v56 Host.shli,
    StableHlo.TRef.nullary φ.c_14 (constantI S_ 32 16#32),
    StableHlo.TRef.unary φ.c_14 φ.v57 (broadcastInDim S128 ![] bcast_S_S128),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S128 ![] bcast_S_S128),
    StableHlo.TRef.binary φ.v60 φ.v62 φ.v63 Host.shli,
    StableHlo.TRef.nullary φ.c_16 (constantI S_ 32 8#32),
    StableHlo.TRef.unary φ.c_16 φ.v64 (broadcastInDim S128 ![] bcast_S_S128),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S128 ![] bcast_S_S128),
    StableHlo.TRef.binary φ.v61 φ.v68 φ.v69 addi,
    StableHlo.TRef.unary arg0 φ.v70 (broadcastInDim S128 ![] bcast_S_S128),
    StableHlo.TRef.binary φ.v67 φ.v70 φ.v71 addi,
    StableHlo.TRef.nullary φ.c_17 (constantI S_ 32 2#32),
    StableHlo.TRef.unary φ.c_17 φ.v72 (broadcastInDim S128 ![] bcast_S_S128),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S128 ![] bcast_S_S128),
    StableHlo.TRef.binary φ.v73 φ.v75 φ.v76 Host.shli,
    StableHlo.TRef.nullary φ.c_19 (constantI S_ 32 19#32),
    StableHlo.TRef.unary φ.c_19 φ.v77 (broadcastInDim S128 ![] bcast_S_S128),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S128 ![] bcast_S_S128),
    StableHlo.TRef.binary φ.v80 φ.v82 φ.v83 Host.shli,
    StableHlo.TRef.nullary φ.c_21 (constantI S_ 32 17#32),
    StableHlo.TRef.unary φ.c_21 φ.v84 (broadcastInDim S128 ![] bcast_S_S128),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S128 ![] bcast_S_S128),
    StableHlo.TRef.binary φ.v87 φ.v89 φ.v90 Host.shli,
    StableHlo.TRef.nullary φ.c_23 (constantI S_ 32 6#32),
    StableHlo.TRef.unary φ.c_23 φ.v91 (broadcastInDim S128 ![] bcast_S_S128),
    StableHlo.TRef.binary φ.v87 φ.v91 φ.v92 Host.shrui,
    StableHlo.TRef.binary φ.v90 φ.v92 φ.v93 ori,
    StableHlo.TRef.binary φ.v88 φ.v93 φ.v94 xori ]
theorem fn_threefry2x32_0.ops1_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops1 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem fn_threefry2x32_0.ops1_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops1 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part1_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part1 (F := F) arg0 arg1 arg2 arg3 φ = seq (fn_threefry2x32_0.ops1 arg0 arg1 arg2 arg3 φ) := by chain_rfl

def fn_threefry2x32_0.ops2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S128 ![] bcast_S_S128),
    StableHlo.TRef.binary φ.v94 φ.v96 φ.v97 Host.shli,
    StableHlo.TRef.nullary φ.c_25 (constantI S_ 32 26#32),
    StableHlo.TRef.unary φ.c_25 φ.v98 (broadcastInDim S128 ![] bcast_S_S128),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S128 ![] bcast_S_S128),
    StableHlo.TRef.binary φ.v95 φ.v102 φ.v103 addi,
    StableHlo.TRef.unary arg1 φ.v104 (broadcastInDim S128 ![] bcast_S_S128),
    StableHlo.TRef.binary φ.v101 φ.v104 φ.v105 addi,
    StableHlo.TRef.nullary φ.c_26 (constantI S_ 32 3#32),
    StableHlo.TRef.unary φ.c_26 φ.v106 (broadcastInDim S128 ![] bcast_S_S128),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S128 ![] bcast_S_S128),
    StableHlo.TRef.binary φ.v107 φ.v109 φ.v110 Host.shli,
    StableHlo.TRef.nullary φ.c_28 (constantI S_ 32 15#32),
    StableHlo.TRef.unary φ.c_28 φ.v111 (broadcastInDim S128 ![] bcast_S_S128),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S128 ![] bcast_S_S128),
    StableHlo.TRef.binary φ.v114 φ.v116 φ.v117 Host.shli,
    StableHlo.TRef.nullary φ.c_30 (constantI S_ 32 3#32),
    StableHlo.TRef.unary φ.c_30 φ.v118 (broadcastInDim S128 ![] bcast_S_S128),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S128 ![] bcast_S_S128),
    StableHlo.TRef.binary φ.v121 φ.v123 φ.v124 Host.shli,
    StableHlo.TRef.nullary φ.c_32 (constantI S_ 32 16#32),
    StableHlo.TRef.unary φ.c_32 φ.v125 (broadcastInDim S128 ![] bcast_S_S128),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S128 ![] bcast_S_S128),
    StableHlo.TRef.binary φ.v128 φ.v130 φ.v131 Host.shli,
    StableHlo.TRef.nullary φ.c_34 (constantI S_ 32 8#32),
    StableHlo.TRef.unary φ.c_34 φ.v132 (broadcastInDim S128 ![] bcast_S_S128),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S128 ![] bcast_S_S128),
    StableHlo.TRef.binary φ.v129 φ.v136 φ.v137 addi,
    StableHlo.TRef.unary φ.v1 φ.v138 (broadcastInDim S128 ![] bcast_S_S128),
    StableHlo.TRef.binary φ.v135 φ.v138 φ.v139 addi,
    StableHlo.TRef.nullary φ.c_35 (constantI S_ 32 4#32),
    StableHlo.TRef.unary φ.c_35 φ.v140 (broadcastInDim S128 ![] bcast_S_S128),
    StableHlo.TRef.binary φ.v139 φ.v140 φ.v141 addi,
    StableHlo.TRef.binary φ.v137 φ.v141 φ.v142 addi ]
theorem fn_threefry2x32_0.ops2_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops2 (F := F) arg0 arg1 arg2 arg3 φ).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
theorem fn_threefry2x32_0.ops2_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops2 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part2_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part2 (F := F) arg0 arg1 arg2 arg3 φ = seq (fn_threefry2x32_0.ops2 arg0 arg1 arg2 arg3 φ) := by chain_rfl

def fn_threefry2x32_0.ops3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_36 (constantI S_ 32 13#32),
    StableHlo.TRef.unary φ.c_36 φ.v143 (broadcastInDim S128 ![] bcast_S_S128),
    StableHlo.TRef.binary φ.v141 φ.v143 φ.v144 Host.shli,
    StableHlo.TRef.nullary φ.c_37 (constantI S_ 32 19#32),
    StableHlo.TRef.unary φ.c_37 φ.v145 (broadcastInDim S128 ![] bcast_S_S128),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S128 ![] bcast_S_S128),
    StableHlo.TRef.binary φ.v148 φ.v150 φ.v151 Host.shli,
    StableHlo.TRef.nullary φ.c_39 (constantI S_ 32 17#32),
    StableHlo.TRef.unary φ.c_39 φ.v152 (broadcastInDim S128 ![] bcast_S_S128),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S128 ![] bcast_S_S128),
    StableHlo.TRef.binary φ.v155 φ.v157 φ.v158 Host.shli,
    StableHlo.TRef.nullary φ.c_41 (constantI S_ 32 6#32),
    StableHlo.TRef.unary φ.c_41 φ.v159 (broadcastInDim S128 ![] bcast_S_S128),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S128 ![] bcast_S_S128),
    StableHlo.TRef.binary φ.v162 φ.v164 φ.v165 Host.shli,
    StableHlo.TRef.nullary φ.c_43 (constantI S_ 32 26#32),
    StableHlo.TRef.unary φ.c_43 φ.v166 (broadcastInDim S128 ![] bcast_S_S128),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S128 ![] bcast_S_S128),
    StableHlo.TRef.binary φ.v163 φ.v170 φ.v171 addi,
    StableHlo.TRef.unary arg0 φ.v172 (broadcastInDim S128 ![] bcast_S_S128),
    StableHlo.TRef.binary φ.v169 φ.v172 φ.v173 addi,
    StableHlo.TRef.nullary φ.c_44 (constantI S_ 32 5#32),
    StableHlo.TRef.unary φ.c_44 φ.v174 (broadcastInDim S128 ![] bcast_S_S128),
    StableHlo.TRef.binary φ.v173 φ.v174 φ.v175 addi ]
theorem fn_threefry2x32_0.ops3_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops3 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem fn_threefry2x32_0.ops3_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops3 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem fn_threefry2x32_0.part3_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part3 (F := F) arg0 arg1 arg2 arg3 φ = seq (fn_threefry2x32_0.ops3 arg0 arg1 arg2 arg3 φ) := by chain_rfl

def fn_threefry2x32_0.ops (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  fn_threefry2x32_0.ops0 arg0 arg1 arg2 arg3 φ ++ fn_threefry2x32_0.ops1 arg0 arg1 arg2 arg3 φ ++ fn_threefry2x32_0.ops2 arg0 arg1 arg2 arg3 φ ++ fn_threefry2x32_0.ops3 arg0 arg1 arg2 arg3 φ
theorem fn_threefry2x32_0.body_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body (F := F) arg0 arg1 arg2 arg3 φ = seq (fn_threefry2x32_0.ops arg0 arg1 arg2 arg3 φ) := by
  unfold fn_threefry2x32_0.body fn_threefry2x32_0.ops
  rw [fn_threefry2x32_0.part0_eq, fn_threefry2x32_0.part1_eq, fn_threefry2x32_0.part2_eq, fn_threefry2x32_0.part3_eq]
  simp only [seq_append, bind_assoc]

theorem fn_threefry2x32_0.ops_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops (F := F) arg0 arg1 arg2 arg3 φ).Forall fun op => op.bufs ⊆ tcRefs τ sig := by
  unfold fn_threefry2x32_0.ops
  simp only [List.forall_append, and_assoc]
  exact ⟨fn_threefry2x32_0.ops0_sub arg0 arg1 arg2 arg3 φ, fn_threefry2x32_0.ops1_sub arg0 arg1 arg2 arg3 φ, fn_threefry2x32_0.ops2_sub arg0 arg1 arg2 arg3 φ, fn_threefry2x32_0.ops3_sub arg0 arg1 arg2 arg3 φ⟩
theorem fn_threefry2x32_0.ops_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (fn_threefry2x32_0.ops (F := F) arg0 arg1 arg2 arg3 φ).Forall fun op => op.fresh = ∅ := by
  unfold fn_threefry2x32_0.ops
  simp only [List.forall_append, and_assoc]
  exact ⟨fn_threefry2x32_0.ops0_fresh arg0 arg1 arg2 arg3 φ, fn_threefry2x32_0.ops1_fresh arg0 arg1 arg2 arg3 φ, fn_threefry2x32_0.ops2_fresh arg0 arg1 arg2 arg3 φ, fn_threefry2x32_0.ops3_fresh arg0 arg1 arg2 arg3 φ⟩

def fn_threefry_split.seg0 (arg0 : StableHlo.TRef sig ⟨S2, .i32⟩) (φ : fn_threefry_split.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]
theorem fn_threefry_split.seg0_sub (arg0 : StableHlo.TRef sig ⟨S2, .i32⟩) (φ : fn_threefry_split.Bufs) : (fn_threefry_split.seg0 (F := F) arg0 φ).Forall fun op => op.bufs ⊆ tcRefs τ sig :=
  ⟨unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩
theorem fn_threefry_split.seg0_fresh (arg0 : StableHlo.TRef sig ⟨S2, .i32⟩) (φ : fn_threefry_split.Bufs) : (fn_threefry_split.seg0 (F := F) arg0 φ).Forall fun op => op.fresh = ∅ :=
  ⟨rfl, rfl, rfl, rfl, rfl, rfl, rfl, rfl, rfl, rfl, rfl, rfl, rfl⟩

def fn_threefry_split.seg1 (arg0 : StableHlo.TRef sig ⟨S2, .i32⟩) (φ : fn_threefry_split.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]
theorem fn_threefry_split.seg1_sub (arg0 : StableHlo.TRef sig ⟨S2, .i32⟩) (φ : fn_threefry_split.Bufs) : (fn_threefry_split.seg1 (F := F) arg0 φ).Forall fun op => op.bufs ⊆ tcRefs τ sig :=
  ⟨unary_bufs_sub .., unary_bufs_sub .., binary_bufs_sub ..⟩
theorem fn_threefry_split.seg1_fresh (arg0 : StableHlo.TRef sig ⟨S2, .i32⟩) (φ : fn_threefry_split.Bufs) : (fn_threefry_split.seg1 (F := F) arg0 φ).Forall fun op => op.fresh = ∅ :=
  ⟨rfl, rfl, rfl⟩

theorem fn_threefry_split.chain_eq (arg0 : StableHlo.TRef sig ⟨S2, .i32⟩) (φ : fn_threefry_split.Bufs) : fn_threefry_split.body (F := F) arg0 φ = Pipeline.chain [seq (fn_threefry_split.seg0 arg0 φ), fn_threefry2x32.body φ.v1 φ.v3 φ.v10 φ.v9 φ.call0, seq (fn_threefry_split.seg1 arg0 φ)] := by chain_rfl

def fn_threefry_split.ops (arg0 : StableHlo.TRef sig ⟨S2, .i32⟩) (φ : fn_threefry_split.Bufs) : List (HloOp τ sig (Elt F)) :=
  fn_threefry_split.seg0 arg0 φ ++ fn_threefry2x32.ops φ.v1 φ.v3 φ.v10 φ.v9 φ.call0 ++ fn_threefry_split.seg1 arg0 φ
theorem fn_threefry_split.body_eq (arg0 : StableHlo.TRef sig ⟨S2, .i32⟩) (φ : fn_threefry_split.Bufs) : fn_threefry_split.body (F := F) arg0 φ = seq (fn_threefry_split.ops arg0 φ) := by
  rw [fn_threefry_split.chain_eq]; unfold fn_threefry_split.ops
  simp only [fn_threefry2x32.body_eq, Pipeline.chain_cons, Pipeline.chain_nil, seq_append, bind_assoc, bind_pure_unit]

theorem fn_threefry_split.ops_sub (arg0 : StableHlo.TRef sig ⟨S2, .i32⟩) (φ : fn_threefry_split.Bufs) : (fn_threefry_split.ops (F := F) arg0 φ).Forall fun op => op.bufs ⊆ tcRefs τ sig := by
  unfold fn_threefry_split.ops
  simp only [List.forall_append, and_assoc]
  exact ⟨fn_threefry_split.seg0_sub arg0 φ, fn_threefry2x32.ops_sub φ.v1 φ.v3 φ.v10 φ.v9 φ.call0, fn_threefry_split.seg1_sub arg0 φ⟩
theorem fn_threefry_split.ops_fresh (arg0 : StableHlo.TRef sig ⟨S2, .i32⟩) (φ : fn_threefry_split.Bufs) : (fn_threefry_split.ops (F := F) arg0 φ).Forall fun op => op.fresh = ∅ := by
  unfold fn_threefry_split.ops
  simp only [List.forall_append, and_assoc]
  exact ⟨fn_threefry_split.seg0_fresh arg0 φ, fn_threefry2x32.ops_fresh φ.v1 φ.v3 φ.v10 φ.v9 φ.call0, fn_threefry_split.seg1_fresh arg0 φ⟩

def fn_shuffle.seg0 (arg0 : StableHlo.TRef sig ⟨S2, .i32⟩) (arg1 : StableHlo.TRef sig ⟨S128, .i32⟩) (φ : fn_shuffle.Bufs) : List (HloOp τ sig (Elt F)) :=
  [ StableHlo.TRef.unary φ.call0.v14 φ.v1 (extractStridedSlice S1x2 ![0, 0] · slices_S2x2_S1x2_0_0),
    StableHlo.TRef.reshape φ.v1 φ.v2 rfl shapeCasts_S1x2_S2,
    StableHlo.TRef.unary φ.call0.v14 φ.v3 (extractStridedSlice S1x2 ![1, 0] · slices_S2x2_S1x2_1_0),
    StableHlo.TRef.reshape φ.v3 φ.v4 rfl shapeCasts_S1x2_S2,
    StableHlo.TRef.unary φ.v4 φ.v5 (extractStridedSlice S1 ![0] · slices_S2_S1_0),
    StableHlo.TRef.reshape φ.v5 φ.v6 rfl shapeCasts_S1_S_,
    StableHlo.TRef.unary φ.v4 φ.v7 (extractStridedSlice S1 ![1] · slices_S2_S1_1),
    StableHlo.TRef.reshape φ.v7 φ.v8 rfl shapeCasts_S1_S_,
    StableHlo.TRef.nullary φ.v9 (iotaInDim S128 64 0),
    StableHlo.TRef.nullary φ.c (constantI S_ 64 1#64),
    StableHlo.TRef.unary φ.c φ.v10 (broadcastInDim S128 ![] bcast_S_S128),
    StableHlo.TRef.binary φ.v10 φ.v9 φ.v11 muli,
    StableHlo.TRef.nullary φ.c_0 (constantI S_ 64 32#64),
    StableHlo.TRef.unary φ.c_0 φ.v12 (broadcastInDim S128 ![] bcast_S_S128),
    StableHlo.TRef.binary φ.v11 φ.v12 φ.v13 Host.shrui,
    StableHlo.TRef.unary φ.v11 φ.v14 (trunci 32 · natLt_32_64),
    StableHlo.TRef.unary φ.v13 φ.v15 (trunci 32 · natLt_32_64) ]
theorem fn_shuffle.seg0_sub (arg0 : StableHlo.TRef sig ⟨S2, .i32⟩) (arg1 : StableHlo.TRef sig ⟨S128, .i32⟩) (φ : fn_shuffle.Bufs) : (fn_shuffle.seg0 (F := F) arg0 arg1 φ).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩
theorem fn_shuffle.seg0_fresh (arg0 : StableHlo.TRef sig ⟨S2, .i32⟩) (arg1 : StableHlo.TRef sig ⟨S128, .i32⟩) (φ : fn_shuffle.Bufs) : (fn_shuffle.seg0 (F := F) arg0 arg1 φ).Forall fun op => op.fresh = ∅ :=
  ⟨rfl, rfl, rfl, rfl, rfl, rfl, rfl, rfl, rfl, rfl, rfl, rfl, rfl, rfl, rfl, rfl, rfl⟩

def fn_shuffle.seg1 (arg0 : StableHlo.TRef sig ⟨S2, .i32⟩) (arg1 : StableHlo.TRef sig ⟨S128, .i32⟩) (φ : fn_shuffle.Bufs) : List (HloOp τ sig (Elt F)) :=
  [ StableHlo.TRef.binary φ.call1.v171 φ.call1.v175 φ.v17 xori,
    StableHlo.TRef.binary φ.v17 arg1 φ.v18_0 (fun x y => (Host.sort2 S128 0 comparator_i32_i32_d0 x y).1),
    StableHlo.TRef.binary φ.v17 arg1 φ.v18_1 (fun x y => (Host.sort2 S128 0 comparator_i32_i32_d0 x y).2) ]
theorem fn_shuffle.seg1_sub (arg0 : StableHlo.TRef sig ⟨S2, .i32⟩) (arg1 : StableHlo.TRef sig ⟨S128, .i32⟩) (φ : fn_shuffle.Bufs) : (fn_shuffle.seg1 (F := F) arg0 arg1 φ).Forall fun op => op.bufs ⊆ tcRefs τ sig :=
  ⟨binary_bufs_sub .., binary_bufs_sub .., binary_bufs_sub ..⟩
theorem fn_shuffle.seg1_fresh (arg0 : StableHlo.TRef sig ⟨S2, .i32⟩) (arg1 : StableHlo.TRef sig ⟨S128, .i32⟩) (φ : fn_shuffle.Bufs) : (fn_shuffle.seg1 (F := F) arg0 arg1 φ).Forall fun op => op.fresh = ∅ :=
  ⟨rfl, rfl, rfl⟩

theorem fn_shuffle.chain_eq (arg0 : StableHlo.TRef sig ⟨S2, .i32⟩) (arg1 : StableHlo.TRef sig ⟨S128, .i32⟩) (φ : fn_shuffle.Bufs) : fn_shuffle.body (F := F) arg0 arg1 φ = Pipeline.chain [fn_threefry_split.body arg0 φ.call0, seq (fn_shuffle.seg0 arg0 arg1 φ), fn_threefry2x32_0.body φ.v6 φ.v8 φ.v15 φ.v14 φ.call1, seq (fn_shuffle.seg1 arg0 arg1 φ)] := by chain_rfl

def fn_shuffle.ops (arg0 : StableHlo.TRef sig ⟨S2, .i32⟩) (arg1 : StableHlo.TRef sig ⟨S128, .i32⟩) (φ : fn_shuffle.Bufs) : List (HloOp τ sig (Elt F)) :=
  fn_threefry_split.ops arg0 φ.call0 ++ fn_shuffle.seg0 arg0 arg1 φ ++ fn_threefry2x32_0.ops φ.v6 φ.v8 φ.v15 φ.v14 φ.call1 ++ fn_shuffle.seg1 arg0 arg1 φ
theorem fn_shuffle.body_eq (arg0 : StableHlo.TRef sig ⟨S2, .i32⟩) (arg1 : StableHlo.TRef sig ⟨S128, .i32⟩) (φ : fn_shuffle.Bufs) : fn_shuffle.body (F := F) arg0 arg1 φ = seq (fn_shuffle.ops arg0 arg1 φ) := by
  rw [fn_shuffle.chain_eq]; unfold fn_shuffle.ops
  simp only [fn_threefry_split.body_eq, fn_threefry2x32_0.body_eq, Pipeline.chain_cons, Pipeline.chain_nil, seq_append, bind_assoc, bind_pure_unit]

theorem fn_shuffle.ops_sub (arg0 : StableHlo.TRef sig ⟨S2, .i32⟩) (arg1 : StableHlo.TRef sig ⟨S128, .i32⟩) (φ : fn_shuffle.Bufs) : (fn_shuffle.ops (F := F) arg0 arg1 φ).Forall fun op => op.bufs ⊆ tcRefs τ sig := by
  unfold fn_shuffle.ops
  simp only [List.forall_append, and_assoc]
  exact ⟨fn_threefry_split.ops_sub arg0 φ.call0, fn_shuffle.seg0_sub arg0 arg1 φ, fn_threefry2x32_0.ops_sub φ.v6 φ.v8 φ.v15 φ.v14 φ.call1, fn_shuffle.seg1_sub arg0 arg1 φ⟩
theorem fn_shuffle.ops_fresh (arg0 : StableHlo.TRef sig ⟨S2, .i32⟩) (arg1 : StableHlo.TRef sig ⟨S128, .i32⟩) (φ : fn_shuffle.Bufs) : (fn_shuffle.ops (F := F) arg0 arg1 φ).Forall fun op => op.fresh = ∅ := by
  unfold fn_shuffle.ops
  simp only [List.forall_append, and_assoc]
  exact ⟨fn_threefry_split.ops_fresh arg0 φ.call0, fn_shuffle.seg0_fresh arg0 arg1 φ, fn_threefry2x32_0.ops_fresh φ.v6 φ.v8 φ.v15 φ.v14 φ.call1, fn_shuffle.seg1_fresh arg0 arg1 φ⟩

def fn_argsort.seg0 (arg0 : StableHlo.TRef sig ⟨S128, .i32⟩) (φ : fn_argsort.Bufs) : List (HloOp τ sig (Elt F)) :=
  [ StableHlo.TRef.nullary φ.v0 (iotaInDim S128 32 0),
    StableHlo.TRef.binary arg0 φ.v0 φ.v1_0 (fun x y => (Host.sort2 S128 0 comparator_i32_i32_d0_2 x y).1),
    StableHlo.TRef.binary arg0 φ.v0 φ.v1_1 (fun x y => (Host.sort2 S128 0 comparator_i32_i32_d0_2 x y).2) ]
theorem fn_argsort.seg0_sub (arg0 : StableHlo.TRef sig ⟨S128, .i32⟩) (φ : fn_argsort.Bufs) : (fn_argsort.seg0 (F := F) arg0 φ).Forall fun op => op.bufs ⊆ tcRefs τ sig :=
  ⟨nullary_bufs_sub .., binary_bufs_sub .., binary_bufs_sub ..⟩
theorem fn_argsort.seg0_fresh (arg0 : StableHlo.TRef sig ⟨S128, .i32⟩) (φ : fn_argsort.Bufs) : (fn_argsort.seg0 (F := F) arg0 φ).Forall fun op => op.fresh = ∅ :=
  ⟨rfl, rfl, rfl⟩

theorem fn_argsort.chain_eq (arg0 : StableHlo.TRef sig ⟨S128, .i32⟩) (φ : fn_argsort.Bufs) : fn_argsort.body (F := F) arg0 φ = Pipeline.chain [seq (fn_argsort.seg0 arg0 φ)] := by chain_rfl

def fn_argsort.ops (arg0 : StableHlo.TRef sig ⟨S128, .i32⟩) (φ : fn_argsort.Bufs) : List (HloOp τ sig (Elt F)) :=
  fn_argsort.seg0 arg0 φ
theorem fn_argsort.body_eq (arg0 : StableHlo.TRef sig ⟨S128, .i32⟩) (φ : fn_argsort.Bufs) : fn_argsort.body (F := F) arg0 φ = seq (fn_argsort.ops arg0 φ) := by
  rw [fn_argsort.chain_eq]; unfold fn_argsort.ops
  simp only [Pipeline.chain_cons, Pipeline.chain_nil, seq_append, bind_assoc, bind_pure_unit]

theorem fn_argsort.ops_sub (arg0 : StableHlo.TRef sig ⟨S128, .i32⟩) (φ : fn_argsort.Bufs) : (fn_argsort.ops (F := F) arg0 φ).Forall fun op => op.bufs ⊆ tcRefs τ sig := by
  unfold fn_argsort.ops
  exact fn_argsort.seg0_sub arg0 φ
theorem fn_argsort.ops_fresh (arg0 : StableHlo.TRef sig ⟨S128, .i32⟩) (φ : fn_argsort.Bufs) : (fn_argsort.ops (F := F) arg0 φ).Forall fun op => op.fresh = ∅ := by
  unfold fn_argsort.ops
  exact fn_argsort.seg0_fresh arg0 φ

def mainOps0  : List (HloOp τ sig (Elt F)) :=
  [ StableHlo.nullary main_c (constantI S_ 32 1#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v7 (iotaInDim S128 32 0) ]
theorem mainOps0_sub  : (mainOps0 (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub ..⟩
theorem mainOps0_fresh  : (mainOps0 (F := F)).Forall fun op => op.fresh = ∅ :=
  ⟨rfl, rfl, rfl, rfl, rfl, rfl, rfl, rfl, rfl, rfl, rfl⟩

def mainOps1  : List (HloOp τ sig (Elt F)) :=
  [ StableHlo.nullary main_c_2 (constantI S_ 32 2#32),
    StableHlo.nullary main_c_3 (constantI S_ 32 32#32),
    StableHlo.binary main_c_2 main_c_3 main_v9 (Host.shrui : (⟨S_, .i32⟩ : BufTy).Contents (Elt F) → (⟨S_, .i32⟩ : BufTy).Contents (Elt F) → (⟨S_, .i32⟩ : BufTy).Contents (Elt F)),
    StableHlo.unary main_v9 main_v10 (id : (⟨S_, .i32⟩ : BufTy).Contents (Elt F) → (⟨S_, .i32⟩ : BufTy).Contents (Elt F)),
    StableHlo.unary main_v10 main_v11 (broadcastInDim S1 ![] bcast_S_S1 : (⟨S_, .i32⟩ : BufTy).Contents (Elt F) → (⟨S1, .i32⟩ : BufTy).Contents (Elt F)),
    StableHlo.nullary main_c_4 (constantI S_ 32 4294967295#32),
    StableHlo.binary main_c_2 main_c_4 main_v12 (andi : (⟨S_, .i32⟩ : BufTy).Contents (Elt F) → (⟨S_, .i32⟩ : BufTy).Contents (Elt F) → (⟨S_, .i32⟩ : BufTy).Contents (Elt F)),
    StableHlo.unary main_v12 main_v13 (id : (⟨S_, .i32⟩ : BufTy).Contents (Elt F) → (⟨S_, .i32⟩ : BufTy).Contents (Elt F)),
    StableHlo.unary main_v13 main_v14 (broadcastInDim S1 ![] bcast_S_S1 : (⟨S_, .i32⟩ : BufTy).Contents (Elt F) → (⟨S1, .i32⟩ : BufTy).Contents (Elt F)),
    StableHlo.binary main_v11 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v16 (iotaInDim S128 32 0) ]
theorem mainOps1_sub  : (mainOps1 (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub ..⟩
theorem mainOps1_fresh  : (mainOps1 (F := F)).Forall fun op => op.fresh = ∅ :=
  ⟨rfl, rfl, rfl, rfl, rfl, rfl, rfl, rfl, rfl, rfl, rfl⟩

def mainOps2  : List (HloOp τ sig (Elt F)) :=
  [ StableHlo.unary main_arg5 main_v18 ((extractStridedSlice S128x128 ![0, 0] · slices_S384x128_S128x128_0_0) : (⟨S384x128, .f32⟩ : BufTy).Contents (Elt F) → (⟨S128x128, .f32⟩ : BufTy).Contents (Elt F)),
    StableHlo.unary main_arg5 main_v19 ((extractStridedSlice S128x128 ![128, 0] · slices_S384x128_S128x128_128_0) : (⟨S384x128, .f32⟩ : BufTy).Contents (Elt F) → (⟨S128x128, .f32⟩ : BufTy).Contents (Elt F)) ]
theorem mainOps2_sub  : (mainOps2 (F := F)).Forall fun op => op.bufs ⊆ tcRefs τ sig :=
  ⟨unary_bufs_sub .., unary_bufs_sub ..⟩
theorem mainOps2_fresh  : (mainOps2 (F := F)).Forall fun op => op.fresh = ∅ :=
  ⟨rfl, rfl⟩

def mainOps3  : List (HloOp τ sig (Elt F)) :=
  [ StableHlo.nullary main_c_5 (constantI S_ 32 0#32),
    StableHlo.unary main_c_5 main_v21 (broadcastInDim S128 ![] bcast_S_S128 : (⟨S_, .i32⟩ : BufTy).Contents (Elt F) → (⟨S128, .i32⟩ : BufTy).Contents (Elt F)),
    StableHlo.binary main_v20 main_v21 main_v22 (cmpi .slt : (⟨S128, .i32⟩ : BufTy).Contents (Elt F) → (⟨S128, .i32⟩ : BufTy).Contents (Elt F) → (⟨S128, .i1⟩ : BufTy).Contents (Elt F)),
    StableHlo.nullary main_c_6 (constantI S_ 32 128#32),
    StableHlo.unary main_c_6 main_v23 (broadcastInDim S128 ![] bcast_S_S128 : (⟨S_, .i32⟩ : BufTy).Contents (Elt F) → (⟨S128, .i32⟩ : BufTy).Contents (Elt F)),
    StableHlo.binary main_v20 main_v23 main_v24 (addi : (⟨S128, .i32⟩ : BufTy).Contents (Elt F) → (⟨S128, .i32⟩ : BufTy).Contents (Elt F) → (⟨S128, .i32⟩ : BufTy).Contents (Elt F)),
    StableHlo.ternary main_v22 main_v24 main_v20 main_v25 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v25 main_v26 (broadcastInDim S128x1 ![0] bcast_S128_S128x1_0 : (⟨S128, .i32⟩ : BufTy).Contents (Elt F) → (⟨S128x1, .i32⟩ : BufTy).Contents (Elt F)),
    StableHlo.binary main_v19 main_v26 main_v27 ((fun x i => Host.gather gather_S128x128_S128x1_S128x128_1_0_n_n_0_1_1128 x i) : (⟨S128x128, .f32⟩ : BufTy).Contents (Elt F) → (⟨S128x1, .i32⟩ : BufTy).Contents (Elt F) → (⟨S128x128, .f32⟩ : BufTy).Contents (Elt F)),
    StableHlo.unary main_arg5 main_v28 ((extractStridedSlice S128x128 ![256, 0] · slices_S384x128_S128x128_256_0) : (⟨S384x128, .f32⟩ : BufTy).Contents (Elt F) → (⟨S128x128, .f32⟩ : BufTy).Contents (Elt F)) ]
theorem mainOps3_sub  : (mainOps3 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub ..⟩
theorem mainOps3_fresh  : (mainOps3 (F := F)).Forall fun op => op.fresh = ∅ :=
  ⟨rfl, rfl, rfl, rfl, rfl, rfl, rfl, rfl, rfl, rfl⟩

def mainOps4  : List (HloOp τ sig (Elt F)) :=
  [ StableHlo.nullary main_c_7 (constantI S_ 32 0#32),
    StableHlo.unary main_c_7 main_v30 (broadcastInDim S128 ![] bcast_S_S128 : (⟨S_, .i32⟩ : BufTy).Contents (Elt F) → (⟨S128, .i32⟩ : BufTy).Contents (Elt F)),
    StableHlo.binary main_v29 main_v30 main_v31 (cmpi .slt : (⟨S128, .i32⟩ : BufTy).Contents (Elt F) → (⟨S128, .i32⟩ : BufTy).Contents (Elt F) → (⟨S128, .i1⟩ : BufTy).Contents (Elt F)),
    StableHlo.nullary main_c_8 (constantI S_ 32 128#32),
    StableHlo.unary main_c_8 main_v32 (broadcastInDim S128 ![] bcast_S_S128 : (⟨S_, .i32⟩ : BufTy).Contents (Elt F) → (⟨S128, .i32⟩ : BufTy).Contents (Elt F)),
    StableHlo.binary main_v29 main_v32 main_v33 (addi : (⟨S128, .i32⟩ : BufTy).Contents (Elt F) → (⟨S128, .i32⟩ : BufTy).Contents (Elt F) → (⟨S128, .i32⟩ : BufTy).Contents (Elt F)),
    StableHlo.ternary main_v31 main_v33 main_v29 main_v34 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v34 main_v35 (broadcastInDim S128x1 ![0] bcast_S128_S128x1_0 : (⟨S128, .i32⟩ : BufTy).Contents (Elt F) → (⟨S128x1, .i32⟩ : BufTy).Contents (Elt F)),
    StableHlo.binary main_v28 main_v35 main_v36 ((fun x i => Host.gather gather_S128x128_S128x1_S128x128_1_0_n_n_0_1_1128 x i) : (⟨S128x128, .f32⟩ : BufTy).Contents (Elt F) → (⟨S128x1, .i32⟩ : BufTy).Contents (Elt F) → (⟨S128x128, .f32⟩ : BufTy).Contents (Elt F)),
    StableHlo.nary ![main_v18, main_v27, main_v36] main_v37 (fun u => concatenate S384x128 0 [⟨S128x128, u 0⟩, ⟨S128x128, u 1⟩, ⟨S128x128, u 2⟩] concatenates_S128x128_S128x128_S128x128_S384x128_d0),
    StableHlo.nullary main_c_9 (constantI S_ 32 0#32),
    StableHlo.unary main_c_9 main_v38 (broadcastInDim S102400 ![] bcast_S_S102400 : (⟨S_, .i32⟩ : BufTy).Contents (Elt F) → (⟨S102400, .i32⟩ : BufTy).Contents (Elt F)),
    StableHlo.nullary main_c_10 (constantI S_ 32 0#32),
    StableHlo.unary main_c_10 main_v39 (broadcastInDim S1 ![] bcast_S_S1 : (⟨S_, .i32⟩ : BufTy).Contents (Elt F) → (⟨S1, .i32⟩ : BufTy).Contents (Elt F)),
    StableHlo.ternary main_v38 main_v39 main_arg4 main_v40 ((fun x i u => Host.scatter scatter_S102400_S1_S100000_0_n_0_0 (fun _ b => b) x i u) : (⟨S102400, .i32⟩ : BufTy).Contents (Elt F) → (⟨S1, .i32⟩ : BufTy).Contents (Elt F) → (⟨S100000, .i32⟩ : BufTy).Contents (Elt F) → (⟨S102400, .i32⟩ : BufTy).Contents (Elt F)),
    StableHlo.reshape main_v40 main_v41 rfl shapeCasts_S102400_S800x128,
    StableHlo.unary main_v41 main_v42 ((extractStridedSlice S400x128 ![0, 0] · slices_S800x128_S400x128_0_0) : (⟨S800x128, .i32⟩ : BufTy).Contents (Elt F) → (⟨S400x128, .i32⟩ : BufTy).Contents (Elt F)),
    StableHlo.nullary main_c_11 (constantI S_ 32 0#32),
    StableHlo.unary main_c_11 main_v43 (broadcastInDim S32x18x128 ![] bcast_S_S32x18x128 : (⟨S_, .i32⟩ : BufTy).Contents (Elt F) → (⟨S32x18x128, .i32⟩ : BufTy).Contents (Elt F)),
    StableHlo.unary main_v42 main_v44 ((extractStridedSlice S288x128 ![0, 0] · slices_S400x128_S288x128_0_0) : (⟨S400x128, .i32⟩ : BufTy).Contents (Elt F) → (⟨S288x128, .i32⟩ : BufTy).Contents (Elt F)),
    StableHlo.reshape main_v44 main_v45 rfl shapeCasts_S288x128_S16x18x128,
    StableHlo.nullary main_c_12 (constantI S_ 32 0#32),
    StableHlo.unary main_c_12 main_v46 (broadcastInDim S1 ![] bcast_S_S1 : (⟨S_, .i32⟩ : BufTy).Contents (Elt F) → (⟨S1, .i32⟩ : BufTy).Contents (Elt F)),
    StableHlo.ternary main_v43 main_v46 main_v45 main_v47 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)),
    StableHlo.unary main_v42 main_v48 ((extractStridedSlice S112x128 ![288, 0] · slices_S400x128_S112x128_288_0) : (⟨S400x128, .i32⟩ : BufTy).Contents (Elt F) → (⟨S112x128, .i32⟩ : BufTy).Contents (Elt F)),
    StableHlo.reshape main_v48 main_v49 rfl shapeCasts_S112x128_S16x7x128,
    StableHlo.nullary main_c_13 (constantI S_ 32 16#32),
    StableHlo.unary main_c_13 main_v50 (broadcastInDim S1 ![] bcast_S_S1 : (⟨S_, .i32⟩ : BufTy).Contents (Elt F) → (⟨S1, .i32⟩ : BufTy).Contents (Elt F)),
    StableHlo.nullary main_c_14 (constantI S_ 32 0#32),
    StableHlo.unary main_c_14 main_v51 (broadcastInDim S1 ![] bcast_S_S1 : (⟨S_, .i32⟩ : BufTy).Contents (Elt F) → (⟨S1, .i32⟩ : BufTy).Contents (Elt F)),
    StableHlo.binary main_v50 main_v51 main_v52 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v47 main_v52 main_v49 main_v53 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)),
    StableHlo.unary main_v41 main_v54 ((extractStridedSlice S400x128 ![400, 0] · slices_S800x128_S400x128_400_0) : (⟨S800x128, .i32⟩ : BufTy).Contents (Elt F) → (⟨S400x128, .i32⟩ : BufTy).Contents (Elt F)),
    StableHlo.nullary main_c_15 (constantI S_ 32 0#32),
    StableHlo.unary main_c_15 main_v55 (broadcastInDim S32x18x128 ![] bcast_S_S32x18x128 : (⟨S_, .i32⟩ : BufTy).Contents (Elt F) → (⟨S32x18x128, .i32⟩ : BufTy).Contents (Elt F)),
    StableHlo.unary main_v54 main_v56 ((extractStridedSlice S288x128 ![0, 0] · slices_S400x128_S288x128_0_0) : (⟨S400x128, .i32⟩ : BufTy).Contents (Elt F) → (⟨S288x128, .i32⟩ : BufTy).Contents (Elt F)),
    StableHlo.reshape main_v56 main_v57 rfl shapeCasts_S288x128_S16x18x128,
    StableHlo.nullary main_c_16 (constantI S_ 32 0#32),
    StableHlo.unary main_c_16 main_v58 (broadcastInDim S1 ![] bcast_S_S1 : (⟨S_, .i32⟩ : BufTy).Contents (Elt F) → (⟨S1, .i32⟩ : BufTy).Contents (Elt F)),
    StableHlo.ternary main_v55 main_v58 main_v57 main_v59 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)) ]
theorem mainOps4_sub  : (mainOps4 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nary_bufs_sub .., nullary_bufs_sub .., unary_bufs_sub .., nullary_bufs_sub .., unary_bufs_sub .., ternary_bufs_sub .., reshape_bufs_sub .., unary_bufs_sub .., nullary_bufs_sub .., unary_bufs_sub .., unary_bufs_sub .., reshape_bufs_sub .., nullary_bufs_sub .., unary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., nullary_bufs_sub .., unary_bufs_sub .., unary_bufs_sub .., reshape_bufs_sub .., nullary_bufs_sub .., unary_bufs_sub .., ternary_bufs_sub ..⟩
theorem mainOps4_fresh  : (mainOps4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def mainOps5  : List (HloOp τ sig (Elt F)) :=
  [ StableHlo.unary main_v54 main_v60 ((extractStridedSlice S112x128 ![288, 0] · slices_S400x128_S112x128_288_0) : (⟨S400x128, .i32⟩ : BufTy).Contents (Elt F) → (⟨S112x128, .i32⟩ : BufTy).Contents (Elt F)),
    StableHlo.reshape main_v60 main_v61 rfl shapeCasts_S112x128_S16x7x128,
    StableHlo.nullary main_c_17 (constantI S_ 32 16#32),
    StableHlo.unary main_c_17 main_v62 (broadcastInDim S1 ![] bcast_S_S1 : (⟨S_, .i32⟩ : BufTy).Contents (Elt F) → (⟨S1, .i32⟩ : BufTy).Contents (Elt F)),
    StableHlo.nullary main_c_18 (constantI S_ 32 0#32),
    StableHlo.unary main_c_18 main_v63 (broadcastInDim S1 ![] bcast_S_S1 : (⟨S_, .i32⟩ : BufTy).Contents (Elt F) → (⟨S1, .i32⟩ : BufTy).Contents (Elt F)),
    StableHlo.binary main_v62 main_v63 main_v64 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v59 main_v64 main_v61 main_v65 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)),
    StableHlo.nullary main_c_19 (constantI S_ 32 0#32),
    StableHlo.unary main_c_19 main_v66 (broadcastInDim S102400 ![] bcast_S_S102400 : (⟨S_, .i32⟩ : BufTy).Contents (Elt F) → (⟨S102400, .i32⟩ : BufTy).Contents (Elt F)),
    StableHlo.nullary main_c_20 (constantI S_ 32 0#32),
    StableHlo.unary main_c_20 main_v67 (broadcastInDim S1 ![] bcast_S_S1 : (⟨S_, .i32⟩ : BufTy).Contents (Elt F) → (⟨S1, .i32⟩ : BufTy).Contents (Elt F)),
    StableHlo.ternary main_v66 main_v67 main_arg3 main_v68 ((fun x i u => Host.scatter scatter_S102400_S1_S100000_0_n_0_0 (fun _ b => b) x i u) : (⟨S102400, .i32⟩ : BufTy).Contents (Elt F) → (⟨S1, .i32⟩ : BufTy).Contents (Elt F) → (⟨S100000, .i32⟩ : BufTy).Contents (Elt F) → (⟨S102400, .i32⟩ : BufTy).Contents (Elt F)),
    StableHlo.reshape main_v68 main_v69 rfl shapeCasts_S102400_S800x128,
    StableHlo.unary main_v69 main_v70 ((extractStridedSlice S400x128 ![0, 0] · slices_S800x128_S400x128_0_0) : (⟨S800x128, .i32⟩ : BufTy).Contents (Elt F) → (⟨S400x128, .i32⟩ : BufTy).Contents (Elt F)),
    StableHlo.nullary main_c_21 (constantI S_ 32 0#32),
    StableHlo.unary main_c_21 main_v71 (broadcastInDim S32x18x128 ![] bcast_S_S32x18x128 : (⟨S_, .i32⟩ : BufTy).Contents (Elt F) → (⟨S32x18x128, .i32⟩ : BufTy).Contents (Elt F)),
    StableHlo.unary main_v70 main_v72 ((extractStridedSlice S288x128 ![0, 0] · slices_S400x128_S288x128_0_0) : (⟨S400x128, .i32⟩ : BufTy).Contents (Elt F) → (⟨S288x128, .i32⟩ : BufTy).Contents (Elt F)),
    StableHlo.reshape main_v72 main_v73 rfl shapeCasts_S288x128_S16x18x128,
    StableHlo.nullary main_c_22 (constantI S_ 32 0#32),
    StableHlo.unary main_c_22 main_v74 (broadcastInDim S1 ![] bcast_S_S1 : (⟨S_, .i32⟩ : BufTy).Contents (Elt F) → (⟨S1, .i32⟩ : BufTy).Contents (Elt F)),
    StableHlo.ternary main_v71 main_v74 main_v73 main_v75 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)),
    StableHlo.unary main_v70 main_v76 ((extractStridedSlice S112x128 ![288, 0] · slices_S400x128_S112x128_288_0) : (⟨S400x128, .i32⟩ : BufTy).Contents (Elt F) → (⟨S112x128, .i32⟩ : BufTy).Contents (Elt F)),
    StableHlo.reshape main_v76 main_v77 rfl shapeCasts_S112x128_S16x7x128,
    StableHlo.nullary main_c_23 (constantI S_ 32 16#32),
    StableHlo.unary main_c_23 main_v78 (broadcastInDim S1 ![] bcast_S_S1 : (⟨S_, .i32⟩ : BufTy).Contents (Elt F) → (⟨S1, .i32⟩ : BufTy).Contents (Elt F)),
    StableHlo.nullary main_c_24 (constantI S_ 32 0#32),
    StableHlo.unary main_c_24 main_v79 (broadcastInDim S1 ![] bcast_S_S1 : (⟨S_, .i32⟩ : BufTy).Contents (Elt F) → (⟨S1, .i32⟩ : BufTy).Contents (Elt F)),
    StableHlo.binary main_v78 main_v79 main_v80 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v75 main_v80 main_v77 main_v81 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)),
    StableHlo.unary main_v69 main_v82 ((extractStridedSlice S400x128 ![400, 0] · slices_S800x128_S400x128_400_0) : (⟨S800x128, .i32⟩ : BufTy).Contents (Elt F) → (⟨S400x128, .i32⟩ : BufTy).Contents (Elt F)),
    StableHlo.nullary main_c_25 (constantI S_ 32 0#32),
    StableHlo.unary main_c_25 main_v83 (broadcastInDim S32x18x128 ![] bcast_S_S32x18x128 : (⟨S_, .i32⟩ : BufTy).Contents (Elt F) → (⟨S32x18x128, .i32⟩ : BufTy).Contents (Elt F)),
    StableHlo.unary main_v82 main_v84 ((extractStridedSlice S288x128 ![0, 0] · slices_S400x128_S288x128_0_0) : (⟨S400x128, .i32⟩ : BufTy).Contents (Elt F) → (⟨S288x128, .i32⟩ : BufTy).Contents (Elt F)),
    StableHlo.reshape main_v84 main_v85 rfl shapeCasts_S288x128_S16x18x128,
    StableHlo.nullary main_c_26 (constantI S_ 32 0#32),
    StableHlo.unary main_c_26 main_v86 (broadcastInDim S1 ![] bcast_S_S1 : (⟨S_, .i32⟩ : BufTy).Contents (Elt F) → (⟨S1, .i32⟩ : BufTy).Contents (Elt F)),
    StableHlo.ternary main_v83 main_v86 main_v85 main_v87 ((fun x i u => Host.scatter scatter_S32x18x128_S1_S16x18x128_012_n_0_0 (fun _ b => b) x i u) : (⟨S32x18x128, .i32⟩ : BufTy).Contents (Elt F) → (⟨S1, .i32⟩ : BufTy).Contents (Elt F) → (⟨S16x18x128, .i32⟩ : BufTy).Contents (Elt F) → (⟨S32x18x128, .i32⟩ : BufTy).Contents (Elt F)),
    StableHlo.unary main_v82 main_v88 ((extractStridedSlice S112x128 ![288, 0] · slices_S400x128_S112x128_288_0) : (⟨S400x128, .i32⟩ : BufTy).Contents (Elt F) → (⟨S112x128, .i32⟩ : BufTy).Contents (Elt F)),
    StableHlo.reshape main_v88 main_v89 rfl shapeCasts_S112x128_S16x7x128 ]
theorem mainOps5_sub  : (mainOps5 (F := F)).Forall fun op => op.bufs ⊆ tcRefs τ sig :=
  ⟨unary_bufs_sub .., reshape_bufs_sub .., nullary_bufs_sub .., unary_bufs_sub .., nullary_bufs_sub .., unary_bufs_sub .., binary_bufs_sub .., ternary_bufs_sub .., nullary_bufs_sub .., unary_bufs_sub .., nullary_bufs_sub .., unary_bufs_sub .., ternary_bufs_sub .., reshape_bufs_sub .., unary_bufs_sub .., nullary_bufs_sub .., unary_bufs_sub .., unary_bufs_sub .., reshape_bufs_sub .., nullary_bufs_sub .., unary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., nullary_bufs_sub .., unary_bufs_sub .., unary_bufs_sub .., reshape_bufs_sub .., nullary_bufs_sub .., unary_bufs_sub .., ternary_bufs_sub .., unary_bufs_sub .., reshape_bufs_sub ..⟩
theorem mainOps5_fresh  : (mainOps5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def mainOps6  : List (HloOp τ sig (Elt F)) :=
  [ StableHlo.nullary main_c_27 (constantI S_ 32 16#32),
    StableHlo.unary main_c_27 main_v90 (broadcastInDim S1 ![] bcast_S_S1 : (⟨S_, .i32⟩ : BufTy).Contents (Elt F) → (⟨S1, .i32⟩ : BufTy).Contents (Elt F)),
    StableHlo.nullary main_c_28 (constantI S_ 32 0#32),
    StableHlo.unary main_c_28 main_v91 (broadcastInDim S1 ![] bcast_S_S1 : (⟨S_, .i32⟩ : BufTy).Contents (Elt F) → (⟨S1, .i32⟩ : BufTy).Contents (Elt F)),
    StableHlo.binary main_v90 main_v91 main_v92 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v87 main_v92 main_v89 main_v93 ((fun x i u => Host.scatter scatter_S32x18x128_S2_S16x7x128_012_n_01_0 (fun _ b => b) x i u) : (⟨S32x18x128, .i32⟩ : BufTy).Contents (Elt F) → (⟨S2, .i32⟩ : BufTy).Contents (Elt F) → (⟨S16x7x128, .i32⟩ : BufTy).Contents (Elt F) → (⟨S32x18x128, .i32⟩ : BufTy).Contents (Elt F)) ]
theorem mainOps6_sub  : (mainOps6 (F := F)).Forall fun op => op.bufs ⊆ tcRefs τ sig :=
  ⟨nullary_bufs_sub .., unary_bufs_sub .., nullary_bufs_sub .., unary_bufs_sub .., binary_bufs_sub .., ternary_bufs_sub ..⟩
theorem mainOps6_fresh  : (mainOps6 (F := F)).Forall fun op => op.fresh = ∅ :=
  ⟨rfl, rfl, rfl, rfl, rfl, rfl⟩

def mainOps7  : List (HloOp τ sig (Elt F)) :=
  [ StableHlo.unary main_v96 main_v97 id ]
theorem mainOps7_sub  : (mainOps7 (F := F)).Forall fun op => op.bufs ⊆ tcRefs τ sig :=
  unary_bufs_sub ..
theorem mainOps7_fresh  : (mainOps7 (F := F)).Forall fun op => op.fresh = ∅ :=
  rfl

/-- @main as the chain of its stretches of host operations, its calls, the two SparseCore calls and the two TensorCore regions. -/
theorem main_chain (d : Dev nD) : main (F := F) d = Pipeline.chain [seq (mainOps0),
    fn_shuffle.body (.of main_v6) (.of main_v7) main_call0,
    seq (mainOps1),
    fn_shuffle.body (.of main_v15) (.of main_v16) main_call1,
    seq (mainOps2),
    fn_argsort.body (.of main_v17) main_call2,
    seq (mainOps3),
    fn_argsort.body (.of main_v8) main_call3,
    seq (mainOps4 ++ mainOps5 ++ mainOps6),
    sc.run d 0,
    sc.run d 1,
    Prog.lift (.customCall (SparseCore.inner (Pipeline.entry 0)) ()),
    seq (mainOps7),
    Prog.lift (.customCall (SparseCore.inner (Pipeline.entry 1)) ())] := by chain_rfl

/-- Every host operation @main runs before the first SparseCore call, the called functions' inlined, in order. -/
def hostOps : List (HloOp τ sig (Elt F)) :=
  mainOps0 ++
  fn_shuffle.ops (.of main_v6) (.of main_v7) main_call0 ++
  mainOps1 ++
  fn_shuffle.ops (.of main_v15) (.of main_v16) main_call1 ++
  mainOps2 ++
  fn_argsort.ops (.of main_v17) main_call2 ++
  mainOps3 ++
  fn_argsort.ops (.of main_v8) main_call3 ++
  mainOps4 ++ mainOps5 ++ mainOps6

theorem hostOps_sub  : (hostOps (F := F)).Forall fun op => op.bufs ⊆ tcRefs τ sig := by
  unfold hostOps
  simp only [List.forall_append, and_assoc]
  exact ⟨mainOps0_sub, fn_shuffle.ops_sub (.of main_v6) (.of main_v7) main_call0, mainOps1_sub, fn_shuffle.ops_sub (.of main_v15) (.of main_v16) main_call1, mainOps2_sub, fn_argsort.ops_sub (.of main_v17) main_call2, mainOps3_sub, fn_argsort.ops_sub (.of main_v8) main_call3, mainOps4_sub, mainOps5_sub, mainOps6_sub⟩
theorem hostOps_fresh  : (hostOps (F := F)).Forall fun op => op.fresh = ∅ := by
  unfold hostOps
  simp only [List.forall_append, and_assoc]
  exact ⟨mainOps0_fresh, fn_shuffle.ops_fresh (.of main_v6) (.of main_v7) main_call0, mainOps1_fresh, fn_shuffle.ops_fresh (.of main_v15) (.of main_v16) main_call1, mainOps2_fresh, fn_argsort.ops_fresh (.of main_v17) main_call2, mainOps3_fresh, fn_argsort.ops_fresh (.of main_v8) main_call3, mainOps4_fresh, mainOps5_fresh, mainOps6_fresh⟩

/-- @main: the host operations, then the calls and regions. -/
theorem main_eq (d : Dev nD) : main (F := F) d = (seq hostOps >>= fun _ => Pipeline.chain [sc.run d 0, sc.run d 1, Prog.lift (.customCall (SparseCore.inner (Pipeline.entry 0)) ()), seq (mainOps7), Prog.lift (.customCall (SparseCore.inner (Pipeline.entry 1)) ())]) := by
  rw [main_chain]; unfold hostOps
  simp only [fn_shuffle.body_eq, fn_argsort.body_eq, Pipeline.chain_cons, Pipeline.chain_nil, seq_append, bind_assoc, bind_pure_unit]

end Cert.KernelIdeal.HostOps

end
-- ==== Proof.MainI.lean ====
/-
  @main of the SparseCore program on a device's TensorCore, step by step: first the stretch of host operations.
-/
import proofs.«204681_g65575560675685_cont_9to1_m_144_57_alg».proof.Proof.SetupI
import proofs.«204681_g65575560675685_cont_9to1_m_144_57_alg».proof.Proof.HostOpsI
import Idealize.ShloMosaic.Lib.Pipeline.Frame

noncomputable section

namespace Cert.KernelIdeal.MainTc

open Cert.KernelIdeal Cert.KernelIdeal.Gen Cert.KernelIdeal.Setup Cert.KernelIdeal.HostOps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Name : Type} [DecidableEq Name] {U : Type} [URA U]

local notation "𝕄" => MT nD τ sig (HIx 2) (Elt F) Name U ℕ

set_option backward.isDefEq.respectTransparency.types false in
/-- A stretch of host operations over the TensorCore's unscoped buffers, held at a valuation `W`, runs to its end:
    the buffers end at the operations' results over `W`. -/
theorem host_stretch (d : Dev nD) (ops : List (HloOp τ sig (Elt F))) (hsub : ops.Forall fun op => op.bufs ⊆ StableHlo.tcRefs τ sig)
    (hfresh : ops.Forall fun op => op.fresh = ∅) (W : Valuation τ sig (Elt F)) {β : Type}
    (k : PUnit → Prog (TpuEff nD τ sig (Elt F) (SparseCore.Sig (ΛP (F := F)) 2) .tc) β) {Φ : β → sProp 𝕄} (bd : Option 𝒱.V) :
    iprop(boundary (T d) ∗ (StableHlo.held (T d) (Pipeline.ucRefs τ sig) W : sProp 𝕄))
      ⊢ iprop(((boundary (T d) ∗ (StableHlo.held (T d) (Pipeline.ucRefs τ sig) (StableHlo.after ops W) : sProp 𝕄))
                -∗ wp frame (wpE ((K (F := F)).defs (D (F := F))) 𝒱 (T d) bd) Set.univ (k ⟨⟩) Φ)
        -∗ wp frame (wpE ((K (F := F)).defs (D (F := F))) 𝒱 (T d) bd) Set.univ (StableHlo.seq ops >>= k) Φ) :=
  StableHlo.wp_seq (defs := (K (F := F)).defs (D (F := F))) (𝒱 := 𝒱) (bd := bd) (E := Set.univ) d (Pipeline.ucRefs τ sig) k ops
    (fun op h => Pipeline.sub_ucRefs op (List.forall_iff_forall_mem.mp hsub op h))
    (fun op h => List.forall_iff_forall_mem.mp hfresh op h) W

end Cert.KernelIdeal.MainTc

end
-- ==== Proof.HmainI.lean ====
/-
  @main on a device's TensorCore under the launch theorem: the host operations, the two SparseCore calls, the two
  TensorCore regions.
-/
import proofs.«204681_g65575560675685_cont_9to1_m_144_57_alg».proof.Proof.PayI
import proofs.«204681_g65575560675685_cont_9to1_m_144_57_alg».proof.Proof.MainI

noncomputable section

namespace Cert.KernelIdeal.Launch

open Cert.KernelIdeal Cert.KernelIdeal.Gen Cert.KernelIdeal.Setup Cert.KernelIdeal.HostOps Cert.KernelIdeal.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)
variable (A0 : (d : Dev nD) → Ops0 F d) (A1 : (d : Dev nD) → Ops1 F d)

local notation "𝕄" => MT nD τ sig (HIx 2) (Elt F) ℕ UU ℕ

/-- The TensorCore's buffers as the launch finds them, and after the host operations. -/
abbrev V₀ (d : Dev nD) : Valuation τ sig (Elt F) := StableHlo.launchContents m d
def V₁ (d : Dev nD) : Valuation τ sig (Elt F) := StableHlo.after (hostOps (F := F)) (V₀ m d)

/-- What the launch element leaves each TensorCore for its two regions: their staging cells' ghost state and duty tokens. -/
def G (d : Dev nD) : sProp 𝕄 := bigSep Finset.univ fun p : Fin 2 => iprop(Pipeline.cellsGhost cfgs EP p d ∗ Pipeline.toksInit cfgs EP p d)

/-! ## A call's six operands among the TensorCore's held buffers -/

/-- The six operands of the first call, as device buffers. -/
def six0 : Finset (DevRef τ sig) :=
  {Proc.devRef .tc main_arg1, Proc.devRef .tc main_arg2, Proc.devRef .tc main_v53, Proc.devRef .tc main_v81, Proc.devRef .tc main_v94_0, Proc.devRef .tc main_v94_1}
def six1 : Finset (DevRef τ sig) :=
  {Proc.devRef .tc main_arg1, Proc.devRef .tc main_arg2, Proc.devRef .tc main_v65, Proc.devRef .tc main_v93, Proc.devRef .tc main_v95_0, Proc.devRef .tc main_v95_1}

omit [FloatOps F] in
theorem six0_sub : six0 ⊆ Pipeline.ucRefs τ sig := by
  intro b hb
  simp only [six0, Finset.mem_insert, Finset.mem_singleton] at hb
  rcases hb with rfl | rfl | rfl | rfl | rfl | rfl <;>
    exact Finset.mem_filter.mpr ⟨StableHlo.devRef_mem_tcRefs _, by decide⟩
omit [FloatOps F] in
theorem six1_sub : six1 ⊆ Pipeline.ucRefs τ sig := by
  intro b hb
  simp only [six1, Finset.mem_insert, Finset.mem_singleton] at hb
  rcases hb with rfl | rfl | rfl | rfl | rfl | rfl <;>
    exact Finset.mem_filter.mpr ⟨StableHlo.devRef_mem_tcRefs _, by decide⟩

/-- What the first call finds in its operands when the TensorCore's buffers stand at `W`. -/
def ops0Of (d : Dev nD) (W : Valuation τ sig (Elt F)) : Ops0 F d :=
  ⟨W (Proc.devRef .tc main_arg1), W (Proc.devRef .tc main_arg2), W (Proc.devRef .tc main_v53), W (Proc.devRef .tc main_v81),
    W (Proc.devRef .tc main_v94_0), W (Proc.devRef .tc main_v94_1)⟩
def ops1Of (d : Dev nD) (W : Valuation τ sig (Elt F)) : Ops1 F d :=
  ⟨W (Proc.devRef .tc main_arg1), W (Proc.devRef .tc main_arg2), W (Proc.devRef .tc main_v65), W (Proc.devRef .tc main_v93),
    W (Proc.devRef .tc main_v95_0), W (Proc.devRef .tc main_v95_1)⟩

/-- The six operands of a call at contents `A`, each whole. -/
def sixPts0 (d : Dev nD) (A : Ops0 F d) : sProp 𝕄 :=
  iprop((Cert.Proof.KernelIdeal.ScTile0.tuLoc d ↦{fullShare} A.fu) ∗ (Cert.Proof.KernelIdeal.ScTile0.tiLoc d ↦{fullShare} A.fi)
    ∗ (Cert.Proof.KernelIdeal.ScTile0.iuLoc d ↦{fullShare} A.gu) ∗ (Cert.Proof.KernelIdeal.ScTile0.iiLoc d ↦{fullShare} A.gi)
    ∗ (Cert.Proof.KernelIdeal.ScTile0.ouLoc d ↦{fullShare} A.ou) ∗ (Cert.Proof.KernelIdeal.ScTile0.oiLoc d ↦{fullShare} A.oi))
def sixPts1 (d : Dev nD) (A : Ops1 F d) : sProp 𝕄 :=
  iprop((Cert.Proof.KernelIdeal.ScTile1.tuLoc d ↦{fullShare} A.fu) ∗ (Cert.Proof.KernelIdeal.ScTile1.tiLoc d ↦{fullShare} A.fi)
    ∗ (Cert.Proof.KernelIdeal.ScTile1.iuLoc d ↦{fullShare} A.gu) ∗ (Cert.Proof.KernelIdeal.ScTile1.iiLoc d ↦{fullShare} A.gi)
    ∗ (Cert.Proof.KernelIdeal.ScTile1.ouLoc d ↦{fullShare} A.ou) ∗ (Cert.Proof.KernelIdeal.ScTile1.oiLoc d ↦{fullShare} A.oi))

omit [FloatOps F] in
/-- The held buffers are a call's six operands and the rest. -/
theorem held_take0 (d : Dev nD) (W : Valuation τ sig (Elt F)) :
    (StableHlo.held (T d) (Pipeline.ucRefs τ sig) W : sProp 𝕄)
      = iprop(sixPts0 d (ops0Of d W) ∗ StableHlo.held (T d) (Pipeline.ucRefs τ sig \ six0) W) := by
  rw [StableHlo.held_sub_split (T d) six0_sub W]
  congr 1
  unfold StableHlo.held six0 sixPts0 ops0Of
  rw [SparseCore.bigSep_insert' (by decide), SparseCore.bigSep_insert' (by decide), SparseCore.bigSep_insert' (by decide),
    SparseCore.bigSep_insert' (by decide), SparseCore.bigSep_insert' (by decide), bigSep_singleton]
omit [FloatOps F] in
theorem held_take1 (d : Dev nD) (W : Valuation τ sig (Elt F)) :
    (StableHlo.held (T d) (Pipeline.ucRefs τ sig) W : sProp 𝕄)
      = iprop(sixPts1 d (ops1Of d W) ∗ StableHlo.held (T d) (Pipeline.ucRefs τ sig \ six1) W) := by
  rw [StableHlo.held_sub_split (T d) six1_sub W]
  congr 1
  unfold StableHlo.held six1 sixPts1 ops1Of
  rw [SparseCore.bigSep_insert' (by decide), SparseCore.bigSep_insert' (by decide), SparseCore.bigSep_insert' (by decide),
    SparseCore.bigSep_insert' (by decide), SparseCore.bigSep_insert' (by decide), bigSep_singleton]

/-! ## Putting the operands back, the outputs rewritten -/

/-- The buffers' contents after the first call has rewritten its two outputs. -/
def upd0 (W : Valuation τ sig (Elt F)) (ou' : (Proc.devRef (τ := τ) (sig := sig) .tc main_v94_0).ty.Contents (Elt F))
    (oi' : (Proc.devRef (τ := τ) (sig := sig) .tc main_v94_1).ty.Contents (Elt F)) : Valuation τ sig (Elt F) :=
  Function.update (Function.update W (Proc.devRef .tc main_v94_0) ou') (Proc.devRef .tc main_v94_1) oi'
def upd1 (W : Valuation τ sig (Elt F)) (ou' : (Proc.devRef (τ := τ) (sig := sig) .tc main_v95_0).ty.Contents (Elt F))
    (oi' : (Proc.devRef (τ := τ) (sig := sig) .tc main_v95_1).ty.Contents (Elt F)) : Valuation τ sig (Elt F) :=
  Function.update (Function.update W (Proc.devRef .tc main_v95_0) ou') (Proc.devRef .tc main_v95_1) oi'

omit [FloatOps F] in
theorem upd0_of_ne (W : Valuation τ sig (Elt F)) (ou' oi') (b : DevRef τ sig) (h0 : b ≠ Proc.devRef .tc main_v94_0) (h1 : b ≠ Proc.devRef .tc main_v94_1) :
    upd0 W ou' oi' b = W b := by
  unfold upd0; rw [Function.update_of_ne h1, Function.update_of_ne h0]
omit [FloatOps F] in
theorem upd1_of_ne (W : Valuation τ sig (Elt F)) (ou' oi') (b : DevRef τ sig) (h0 : b ≠ Proc.devRef .tc main_v95_0) (h1 : b ≠ Proc.devRef .tc main_v95_1) :
    upd1 W ou' oi' b = W b := by
  unfold upd1; rw [Function.update_of_ne h1, Function.update_of_ne h0]

omit [FloatOps F] in
/-- The six operands, the outputs at new contents, and the rest are the held buffers at the updated contents. -/
theorem held_put0 (d : Dev nD) (W : Valuation τ sig (Elt F)) (ou' oi') :
    iprop(sixPts0 d { ops0Of d W with ou := ou', oi := oi' } ∗ StableHlo.held (T d) (Pipeline.ucRefs τ sig \ six0) W)
      ⊢ (StableHlo.held (T d) (Pipeline.ucRefs τ sig) (upd0 W ou' oi') : sProp 𝕄) := by
  rw [held_take0 d (upd0 W ou' oi')]
  have h4 : upd0 W ou' oi' (Proc.devRef .tc main_v94_0) = ou' := by unfold upd0; rw [Function.update_of_ne (by decide), Function.update_self]
  have h5 : upd0 W ou' oi' (Proc.devRef .tc main_v94_1) = oi' := by unfold upd0; rw [Function.update_self]
  have e : ops0Of d (upd0 W ou' oi') = { ops0Of d W with ou := ou', oi := oi' } := by
    unfold ops0Of
    rw [upd0_of_ne W ou' oi' (Proc.devRef .tc main_arg1) (by decide) (by decide), upd0_of_ne W ou' oi' (Proc.devRef .tc main_arg2) (by decide) (by decide),
      upd0_of_ne W ou' oi' (Proc.devRef .tc main_v53) (by decide) (by decide), upd0_of_ne W ou' oi' (Proc.devRef .tc main_v81) (by decide) (by decide), h4, h5]
  rw [e, StableHlo.held_congr (T d) (V := upd0 W ou' oi') (V' := W) (fun b hb => upd0_of_ne W ou' oi' b
    (fun h => (Finset.mem_sdiff.mp hb).2 (h ▸ by simp [six0])) (fun h => (Finset.mem_sdiff.mp hb).2 (h ▸ by simp [six0])))]

omit [FloatOps F] in
/-- The six operands, the outputs at new contents, and the rest are the held buffers at the updated contents. -/
theorem held_put1 (d : Dev nD) (W : Valuation τ sig (Elt F)) (ou' oi') :
    iprop(sixPts1 d { ops1Of d W with ou := ou', oi := oi' } ∗ StableHlo.held (T d) (Pipeline.ucRefs τ sig \ six1) W)
      ⊢ (StableHlo.held (T d) (Pipeline.ucRefs τ sig) (upd1 W ou' oi') : sProp 𝕄) := by
  rw [held_take1 d (upd1 W ou' oi')]
  have h4 : upd1 W ou' oi' (Proc.devRef .tc main_v95_0) = ou' := by unfold upd1; rw [Function.update_of_ne (by decide), Function.update_self]
  have h5 : upd1 W ou' oi' (Proc.devRef .tc main_v95_1) = oi' := by unfold upd1; rw [Function.update_self]
  have e : ops1Of d (upd1 W ou' oi') = { ops1Of d W with ou := ou', oi := oi' } := by
    unfold ops1Of
    rw [upd1_of_ne W ou' oi' (Proc.devRef .tc main_arg1) (by decide) (by decide), upd1_of_ne W ou' oi' (Proc.devRef .tc main_arg2) (by decide) (by decide),
      upd1_of_ne W ou' oi' (Proc.devRef .tc main_v65) (by decide) (by decide), upd1_of_ne W ou' oi' (Proc.devRef .tc main_v93) (by decide) (by decide), h4, h5]
  rw [e, StableHlo.held_congr (T d) (V := upd1 W ou' oi') (V' := W) (fun b hb => upd1_of_ne W ou' oi' b
    (fun h => (Finset.mem_sdiff.mp hb).2 (h ▸ by simp [six1])) (fun h => (Finset.mem_sdiff.mp hb).2 (h ▸ by simp [six1])))]

end Cert.KernelIdeal.Launch

end
-- ==== Proof.HmainRunI.lean ====
/-
  @main on a device's TensorCore under the launch theorem: each SparseCore call takes its six operands out of the held
  buffers, deals them to the thirty-two tiles, and puts them back with the two outputs rewritten.
-/
import proofs.«204681_g65575560675685_cont_9to1_m_144_57_alg».proof.Proof.HmainI

noncomputable section

namespace Cert.KernelIdeal.Launch

open Cert.KernelIdeal Cert.KernelIdeal.Gen Cert.KernelIdeal.Setup Cert.KernelIdeal.HostOps Cert.KernelIdeal.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

local notation "𝕄" => MT nD τ sig (HIx 2) (Elt F) ℕ UU ℕ

/-- The shares of the two tables that stay with the TensorCore while a call runs. -/
def rem0 (d : Dev nD) (A : Ops0 F d) : sProp 𝕄 :=
  iprop((Cert.Proof.KernelIdeal.ScTile0.tuLoc d ↦{Transfers.shareDrop fullShare 32} A.fu) ∗ (Cert.Proof.KernelIdeal.ScTile0.tiLoc d ↦{Transfers.shareDrop fullShare 32} A.fi))
def rem1 (d : Dev nD) (A : Ops1 F d) : sProp 𝕄 :=
  iprop((Cert.Proof.KernelIdeal.ScTile1.tuLoc d ↦{Transfers.shareDrop fullShare 32} A.fu) ∗ (Cert.Proof.KernelIdeal.ScTile1.tiLoc d ↦{Transfers.shareDrop fullShare 32} A.fi))

/-- A call's six operands deal out to the thirty-two tiles, a share of each table staying behind, -/
def Split0 (F : FTy → Type) : Prop := ∀ (d : Dev nD) (A : Ops0 F d),
  sixPts0 d A ⊢ iprop(rem0 d A ∗ bigSep Finset.univ fun c : Fin 2 => bigSep Finset.univ fun i : Fin 16 => go0 d A c i)
/-- and come back, the outputs at what the tiles left. -/
def Join0 (F : FTy → Type) : Prop := ∀ (d : Dev nD) (A : Ops0 F d),
  iprop(rem0 d A ∗ bigSep Finset.univ fun c : Fin 2 => bigSep Finset.univ fun i : Fin 16 => td0 d A c i)
    ⊢ iprop(∃ ou' oi', sixPts0 d { A with ou := ou', oi := oi' })
def Split1 (F : FTy → Type) : Prop := ∀ (d : Dev nD) (A : Ops1 F d),
  sixPts1 d A ⊢ iprop(rem1 d A ∗ bigSep Finset.univ fun c : Fin 2 => bigSep Finset.univ fun i : Fin 16 => go1 d A c i)
def Join1 (F : FTy → Type) : Prop := ∀ (d : Dev nD) (A : Ops1 F d),
  iprop(rem1 d A ∗ bigSep Finset.univ fun c : Fin 2 => bigSep Finset.univ fun i : Fin 16 => td1 d A c i)
    ⊢ iprop(∃ ou' oi', sixPts1 d { A with ou := ou', oi := oi' })

omit [FloatOps F] in
theorem st0_eq (d : Dev nD) :
    (bigSep Finset.univ fun c : Fin ((K (F := F)).nCore 0) => (P A0 A1).st 0 d c)
      = bigSep Finset.univ fun c : Fin 2 => bigSep Finset.univ fun i : Fin 16 => go0 d (A0 d) c i := rfl
omit [FloatOps F] in
theorem dn0_eq (d : Dev nD) :
    (bigSep Finset.univ fun c : Fin ((K (F := F)).nCore 0) => (P A0 A1).dn 0 d c)
      = bigSep Finset.univ fun c : Fin 2 => bigSep Finset.univ fun i : Fin 16 => td0 d (A0 d) c i := rfl
omit [FloatOps F] in
theorem st1_eq (d : Dev nD) :
    (bigSep Finset.univ fun c : Fin ((K (F := F)).nCore 1) => (P A0 A1).st 1 d c)
      = bigSep Finset.univ fun c : Fin 2 => bigSep Finset.univ fun i : Fin 16 => go1 d (A1 d) c i := rfl
omit [FloatOps F] in
theorem dn1_eq (d : Dev nD) :
    (bigSep Finset.univ fun c : Fin ((K (F := F)).nCore 1) => (P A0 A1).dn 1 d c)
      = bigSep Finset.univ fun c : Fin 2 => bigSep Finset.univ fun i : Fin 16 => td1 d (A1 d) c i := rfl

set_option maxHeartbeats 1000000 in
/-- The first SparseCore call, from the held buffers at `W` to the held buffers with the two outputs rewritten. -/
theorem call0_step (hs : Split0 F) (hj : Join0 F) (κ : GSem nD τ sig → ℕ) (d : Dev nD) (W : Valuation τ sig (Elt F)) (hA : A0 d = ops0Of d W)
    {Φ : PUnit → sProp 𝕄} :
    iprop((K (F := F)).ctx EH (P A0 A1) κ ∗ (K (F := F)).tcSt EH d 0 ∗ (StableHlo.held (T d) (Pipeline.ucRefs τ sig) W : sProp 𝕄)
        ∗ (∀ ou' oi', ((K (F := F)).tcSt EH d 1 ∗ (StableHlo.held (T d) (Pipeline.ucRefs τ sig) (upd0 W ou' oi') : sProp 𝕄)) -∗ Φ ⟨⟩))
      ⊢ wp frame (wpE ((K (F := F)).defs (D (F := F))) 𝒱 (T d) none) Set.univ ((K (F := F)).run d 0) Φ := by
  iintro ⟨#Hctx, Hst, Hheld, Hk⟩
  ihave H := (Entails.of_eq (held_take0 d W)) $$ Hheld
  icases H with ⟨H6, Hrest⟩
  ihave H := (hs d (ops0Of d W)) $$ H6
  icases H with ⟨Hrem, Hgo⟩
  iapply ((K (F := F)).wp_run (D (F := F)) 𝒱 (EH := EH) (P := P A0 A1) κ d 0) $$ [Hst Hgo Hk Hrem Hrest]
  isplitr; · iexact Hctx
  isplitl [Hst]; · iexact Hst
  isplitl [Hgo]
  · rw [st0_eq, hA]; iexact Hgo
  iintro ⟨Hst, Hdn⟩
  ihave Hdn' := (Entails.of_eq (show (bigSep Finset.univ fun c : Fin ((K (F := F)).nCore 0) => (P A0 A1).dn 0 d c)
      = bigSep Finset.univ fun c : Fin 2 => bigSep Finset.univ fun i : Fin 16 => td0 d (ops0Of d W) c i from by rw [dn0_eq, hA])) $$ Hdn
  ihave H := (hj d (ops0Of d W)) $$ [Hrem Hdn']
  · isplitl [Hrem]; · iexact Hrem
    iexact Hdn'
  icases H with ⟨%ou', %oi', H6⟩
  ispecialize Hk $$ %ou' %oi'
  iapply Hk
  isplitl [Hst]; · iexact Hst
  iapply (held_put0 d W ou' oi')
  isplitl [H6]; · iexact H6
  iexact Hrest

set_option maxHeartbeats 1000000 in
/-- The second SparseCore call, from the held buffers at `W` to the held buffers with the two outputs rewritten. -/
theorem call1_step (hs : Split1 F) (hj : Join1 F) (κ : GSem nD τ sig → ℕ) (d : Dev nD) (W : Valuation τ sig (Elt F)) (hA : A1 d = ops1Of d W)
    {Φ : PUnit → sProp 𝕄} :
    iprop((K (F := F)).ctx EH (P A0 A1) κ ∗ (K (F := F)).tcSt EH d 1 ∗ (StableHlo.held (T d) (Pipeline.ucRefs τ sig) W : sProp 𝕄)
        ∗ (∀ ou' oi', ((K (F := F)).tcSt EH d 2 ∗ (StableHlo.held (T d) (Pipeline.ucRefs τ sig) (upd1 W ou' oi') : sProp 𝕄)) -∗ Φ ⟨⟩))
      ⊢ wp frame (wpE ((K (F := F)).defs (D (F := F))) 𝒱 (T d) none) Set.univ ((K (F := F)).run d 1) Φ := by
  iintro ⟨#Hctx, Hst, Hheld, Hk⟩
  ihave H := (Entails.of_eq (held_take1 d W)) $$ Hheld
  icases H with ⟨H6, Hrest⟩
  ihave H := (hs d (ops1Of d W)) $$ H6
  icases H with ⟨Hrem, Hgo⟩
  iapply ((K (F := F)).wp_run (D (F := F)) 𝒱 (EH := EH) (P := P A0 A1) κ d 1) $$ [Hst Hgo Hk Hrem Hrest]
  isplitr; · iexact Hctx
  isplitl [Hst]; · iexact Hst
  isplitl [Hgo]
  · rw [st1_eq, hA]; iexact Hgo
  iintro ⟨Hst, Hdn⟩
  ihave Hdn' := (Entails.of_eq (show (bigSep Finset.univ fun c : Fin ((K (F := F)).nCore 1) => (P A0 A1).dn 1 d c)
      = bigSep Finset.univ fun c : Fin 2 => bigSep Finset.univ fun i : Fin 16 => td1 d (ops1Of d W) c i from by rw [dn1_eq, hA])) $$ Hdn
  ihave H := (hj d (ops1Of d W)) $$ [Hrem Hdn']
  · isplitl [Hrem]; · iexact Hrem
    iexact Hdn'
  icases H with ⟨%ou', %oi', H6⟩
  ispecialize Hk $$ %ou' %oi'
  iapply Hk
  isplitl [Hst]; · iexact Hst
  iapply (held_put1 d W ou' oi')
  isplitl [H6]; · iexact H6
  iexact Hrest

omit [FloatOps F] in
/-- The first call's rewriting of its outputs leaves the second call's operands as they were. -/
theorem ops1Of_upd0 (d : Dev nD) (W : Valuation τ sig (Elt F)) (ou' oi') : ops1Of d (upd0 W ou' oi') = ops1Of d W := by
  unfold ops1Of
  rw [upd0_of_ne W ou' oi' (Proc.devRef .tc main_arg1) (by decide) (by decide), upd0_of_ne W ou' oi' (Proc.devRef .tc main_arg2) (by decide) (by decide),
    upd0_of_ne W ou' oi' (Proc.devRef .tc main_v65) (by decide) (by decide), upd0_of_ne W ou' oi' (Proc.devRef .tc main_v93) (by decide) (by decide),
    upd0_of_ne W ou' oi' (Proc.devRef .tc main_v95_0) (by decide) (by decide), upd0_of_ne W ou' oi' (Proc.devRef .tc main_v95_1) (by decide) (by decide)]

end Cert.KernelIdeal.Launch

end
-- ==== Proof.LaunchElemI.lean ====
/-
  The launch element of the certificate's ghost state: the handshakes' rounds, the two pipelines' staging cells' rounds,
  the transfers' counters; it funds the handshakes and deals each TensorCore its two regions' ghost state.
-/
import proofs.«204681_g65575560675685_cont_9to1_m_144_57_alg».proof.Proof.PayI
import proofs.«204681_g65575560675685_cont_9to1_m_144_57_alg».proof.Proof.Gen.KernelIdeal.Launch

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

local notation "𝕄" => MT nD τ sig (HIx 2) (Elt F) ℕ UU ℕ

/-- What the launch element leaves each TensorCore for its two regions: each pipeline's staging cells' ghost state and
    duty tokens. -/
def Gp (d : Dev nD) : sProp 𝕄 :=
  iprop((Pipeline.cellsGhost cfgs EP 0 d ∗ Pipeline.toksInit cfgs EP 0 d) ∗ (Pipeline.cellsGhost cfgs EP 1 d ∗ Pipeline.toksInit cfgs EP 1 d))

def u₀ : UU :=
  (initOf (K (F := F)).hsCells (K (F := F)).hsToks, (initOf (Pipeline.cells cfgs cellOf_inj) (Pipeline.launchToks cfgs cellOf_inj), 1))

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem bigSep_emp' {I : Type} (s : Finset I) : (bigSep s fun _ => iprop(emp)) = (iprop(emp) : sProp 𝕄) := bigSep_emp_const s

omit [FloatOps F] in
theorem deal_one (c : Dev nD) :
    iprop(((Pipeline.cellsGhost cfgs EP 0 c : sProp 𝕄) ∗ Pipeline.cellsGhost cfgs EP 1 c) ∗ (Pipeline.toksInit cfgs EP 0 c ∗ Pipeline.toksInit cfgs EP 1 c))
      ⊢ (Gp (F := F) c) := by
  unfold Gp
  iintro ⟨⟨G0, G1⟩, ⟨T0, T1⟩⟩
  isplitl [G0 T0]
  · isplitl [G0] <;> iassumption
  · isplitl [G1] <;> iassumption

omit [FloatOps F] in
theorem deal_regions :
    iprop((bigSep Finset.univ fun c : Dev nD => bigSep Finset.univ fun p : Fin 2 => (Pipeline.cellsGhost cfgs EP p c : sProp 𝕄))
        ∗ (bigSep Finset.univ fun c : Dev nD => bigSep Finset.univ fun p : Fin 2 => (Pipeline.toksInit cfgs EP p c : sProp 𝕄)))
      ⊢ bigSep Finset.univ fun c : Dev nD => (Gp (F := F) c) := by
  rw [← bigSep_sep']
  refine bigSep_mono fun c _ => ?_
  rw [bigSep_fin2, bigSep_fin2]
  exact deal_one c

theorem hu₀ : iprop(ownU (u₀ (F := F)) ∗ (P A0 A1).oxCred ∗ (K (F := F)).freeSems0)
    ⊢ |={Set.univ}=> iprop(BI.own (EH (initOf (K (F := F)).hsCells (K (F := F)).hsToks)) ∗ (bigSep Finset.univ fun d : Dev nD => (Gp (F := F) d))
        ∗ bigSep Finset.univ fun thr : Thread nD τ => bigSep Finset.univ fun q : Fin 2 => (P A0 A1).x q thr) := by
  unfold u₀
  iintro ⟨Hu, -, -⟩
  ihave H := (ownU_pair (initOf (K (F := F)).hsCells (K (F := F)).hsToks)
    ((initOf (Pipeline.cells cfgs cellOf_inj) (Pipeline.launchToks cfgs cellOf_inj), (1 : Counters)) : UPp × Counters)) $$ Hu
  icases H with ⟨HH, HR⟩
  ihave H := (own_pair_emb (embR : Emb (UPp × Counters) 𝕄) (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · iapply deal_regions
    isplitl [Hg] <;> iassumption
  · rw [show (bigSep Finset.univ fun thr : Thread nD τ => bigSep Finset.univ fun q : Fin 2 => (P (F := F) A0 A1).x q thr) = bigSep Finset.univ fun _ => iprop(emp) from
      bigSep_congr fun _ _ => bigSep_emp' _, bigSep_emp']
    iempintro

end Cert.KernelIdeal.Launch

end
-- ==== Proof.HmainTopI.lean ====
/-
  @main on a device's TensorCore under the launch theorem, whole: the host operations, the two SparseCore calls, the
  first TensorCore region, the copy of its result into the second region's output, the second region.
-/
import proofs.«204681_g65575560675685_cont_9to1_m_144_57_alg».proof.Proof.HmainRunI
import proofs.«204681_g65575560675685_cont_9to1_m_144_57_alg».proof.Proof.LaunchElemI

noncomputable section

namespace Cert.KernelIdeal.Launch

open Cert.KernelIdeal Cert.KernelIdeal.Gen Cert.KernelIdeal.Setup Cert.KernelIdeal.HostOps Cert.KernelIdeal.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig (HIx 2) (Elt F) ℕ UU ℕ

/-- A TensorCore region as a step of @main: from the region boundary, its pipeline's ghost state, the held buffers at
    `W` and the core owing nothing, it runs to the boundary, the held buffers at the region's exit contents `ex d W`, and
    the core owing nothing, its new recorded waits at no call's index. -/
def RegionStep (p : Fin 2) (ex : Dev nD → Waits sig (HIx 2) → Valuation τ sig (Elt F) → Valuation τ sig (Elt F)) : Prop :=
  ∀ (d : Dev nD) (W : Valuation τ sig (Elt F)) (Wt : Waits sig (HIx 2)) {β : Type}
    (k : PUnit → Prog (TpuEff nD τ sig (Elt F) (SparseCore.Sig (ΛP (F := F)) 2) .tc) β) (Φ : β → sProp 𝕄),
    iprop(levAts (K (F := F)).L (K (F := F)).lev ∗ boundary (T d) ∗ (Pipeline.cellsGhost cfgs EP p d ∗ Pipeline.toksInit cfgs EP p d)
        ∗ (StableHlo.held (T d) (Pipeline.ucRefs τ sig) W : sProp 𝕄) ∗ owes (T d) 0 Wt
        ∗ (∀ Wt', ⌜∀ p ∈ Wt', p ∈ Wt ∨ p.2 = none⌝
            -∗ (boundary (T d) ∗ (StableHlo.held (T d) (Pipeline.ucRefs τ sig) (ex d Wt W) : sProp 𝕄) ∗ owes (T d) 0 Wt')
            -∗ wp frame (wpE ((K (F := F)).defs (D (F := F))) 𝒱 (T d) none) Set.univ (k ⟨⟩) Φ))
      ⊢ wp frame (wpE ((K (F := F)).defs (D (F := F))) 𝒱 (T d) none) Set.univ (Prog.lift (.customCall (SparseCore.inner (Pipeline.entry p)) ()) >>= k) Φ

/-- The six argument arrays, as device buffers. -/
def argRefs : Finset (DevRef τ sig) :=
  {Proc.devRef .tc main_arg0, Proc.devRef .tc main_arg1, Proc.devRef .tc main_arg2, Proc.devRef .tc main_arg3, Proc.devRef .tc main_arg4, Proc.devRef .tc main_arg5}

/-- What @main leaves: the TensorCore's buffers held at contents that agree with the launch's on the argument arrays. -/
def FIN (d : Dev nD) : sProp 𝕄 :=
  iprop(∃ Vf : Valuation τ sig (Elt F), ⌜∀ b ∈ argRefs, Vf b = V₀ m d b⌝ ∗ StableHlo.held (T d) (Pipeline.ucRefs τ sig) Vf)

/-- The copy of the first region's result into the second region's output leaves every other buffer alone. -/
theorem after_copy_ne (W : Valuation τ sig (Elt F)) (b : DevRef τ sig) (h : b ≠ Proc.devRef .tc main_v97) :
    StableHlo.after (mainOps7 (F := F)) W b = W b := by
  unfold mainOps7
  rw [StableHlo.after_cons, StableHlo.after_nil]
  exact HloOp.result_of_not_mem _ _ (by rw [StableHlo.unary_writes, Finset.mem_singleton]; exact h)

omit [FloatOps F] in
/-- No argument array is an output of a call or of a region. -/
theorem argRefs_ne (b : DevRef τ sig) (hb : b ∈ argRefs) :
    b ≠ Proc.devRef .tc main_v96 ∧ b ≠ Proc.devRef .tc main_v97 ∧ b ≠ Proc.devRef .tc main_v94_0 ∧ b ≠ Proc.devRef .tc main_v94_1
      ∧ b ≠ Proc.devRef .tc main_v95_0 ∧ b ≠ Proc.devRef .tc main_v95_1 := by
  simp only [argRefs, Finset.mem_insert, Finset.mem_singleton] at hb
  rcases hb with rfl | rfl | rfl | rfl | rfl | rfl <;> decide

abbrev A0 (d : Dev nD) : Ops0 F d := ops0Of d (V₁ m d)
abbrev A1 (d : Dev nD) : Ops1 F d := ops1Of d (V₁ m d)

set_option maxHeartbeats 4000000 in
theorem hmain (hs0 : Split0 F) (hj0 : Join0 F) (hs1 : Split1 F) (hj1 : Join1 F)
    (ex0 ex1 : Dev nD → Waits sig (HIx 2) → Valuation τ sig (Elt F) → Valuation τ sig (Elt F))
    (hr0 : RegionStep (F := F) 0 ex0) (hr1 : RegionStep (F := F) 1 ex1)
    (hex0 : ∀ d Wt W (b : DevRef τ sig), b ≠ Proc.devRef .tc main_v96 → ex0 d Wt W b = W b)
    (hex1 : ∀ d Wt W (b : DevRef τ sig), b ≠ Proc.devRef .tc main_v97 → ex1 d Wt W b = W b)
    (hkeep : ∀ d, ∀ b ∈ argRefs, V₁ m d b = V₀ m d b)
    (κ : GSem nD τ sig → ℕ) (d : Dev nD) :
    iprop((K (F := F)).ctx EH (P (A0 m) (A1 m)) κ ∗ (K (F := F)).tcSt EH d 0 ∗ (K (F := F)).tcRes m ρ d ∗ Gp d)
      ⊢ wp frame (wpE ((K (F := F)).defs (D (F := F))) 𝒱 (T d) none) Set.univ (main d)
          fun _ => iprop((K (F := F)).tcSt EH d 2 ∗ FIN m d) := by
  unfold SparseCore.Cfg.tcRes Gp
  rw [main_eq, Pipeline.unscopedBufs_held d (V₀ m d)]
  iintro ⟨#Hctx, Hst, ⟨Hb, Hbufs, Hsems, Hprng⟩, HG⟩
  iapply (host_stretch (F := F) d hostOps hostOps_sub hostOps_fresh (V₀ m d) _ none) $$ [Hb Hbufs]
  · isplitl [Hb]; · iexact Hb
    iexact Hbufs
  iintro ⟨Hb, Hbufs⟩
  simp only [Pipeline.chain_cons, Pipeline.chain_nil]
  rw [wp_bind]
  iapply (call0_step (A0 m) (A1 m) hs0 hj0 κ d (V₁ m d) rfl) $$ [Hst Hbufs Hb Hsems Hprng HG]
  isplitr; · iexact Hctx
  isplitl [Hst]; · iexact Hst
  isplitl [Hbufs]; · iexact Hbufs
  iintro %ou0 %oi0 ⟨Hst, Hbufs⟩
  rw [wp_bind]
  iapply (call1_step (A0 m) (A1 m) hs1 hj1 κ d (upd0 (V₁ m d) ou0 oi0) (ops1Of_upd0 d (V₁ m d) ou0 oi0).symm) $$ [Hst Hbufs Hb Hsems Hprng HG]
  isplitr; · iexact Hctx
  isplitl [Hst]; · iexact Hst
  isplitl [Hbufs]; · iexact Hbufs
  iintro %ou1 %oi1
  unfold SparseCore.Cfg.tcSt
  rw [(K (F := F)).Otc_end d (le_refl 2)]
  iintro ⟨⟨⟨%Wt, %hWt, HO⟩, Hrest⟩, Hbufs⟩
  icases HG with ⟨HG0, HG1⟩
  ihave #Hlev := ((K (F := F)).ctx_levAts (EH := EH) (P := P (A0 m) (A1 m)) κ) $$ Hctx
  iapply (hr0 d (upd1 (upd0 (V₁ m d) ou0 oi0) ou1 oi1) Wt _ _) $$ [Hb HG0 HG1 Hbufs HO Hrest Hsems Hprng]
  isplitr; · iexact Hlev
  isplitl [Hb]; · iexact Hb
  isplitl [HG0]; · iexact HG0
  isplitl [Hbufs]; · iexact Hbufs
  isplitl [HO]; · iexact HO
  iintro %Wt1 %hWt1 ⟨Hb, Hbufs, HO⟩
  iapply (host_stretch (F := F) d mainOps7 mainOps7_sub mainOps7_fresh _ _ none) $$ [Hb Hbufs]
  · isplitl [Hb]; · iexact Hb
    iexact Hbufs
  iintro ⟨Hb, Hbufs⟩
  iapply (hr1 d _ Wt1 _ _) $$ [Hb HG1 Hbufs HO Hrest Hsems Hprng]
  isplitr; · iexact Hlev
  isplitl [Hb]; · iexact Hb
  isplitl [HG1]; · iexact HG1
  isplitl [Hbufs]; · iexact Hbufs
  isplitl [HO]; · iexact HO
  iintro %Wt2 %hWt2 ⟨Hb, Hbufs, HO⟩
  rw [wp_pure]
  imodintro
  isplitl [HO Hrest]
  · isplitl [HO]
    · iexists Wt2
      isplitr
      · ipureintro
        intro p hp
        rcases hWt2 p hp with h | h
        · rcases hWt1 p h with h' | h'
          · exact hWt p h'
          · rw [h']; exact Nat.zero_le _
        · rw [h]; exact Nat.zero_le _
      · iexact HO
    · iexact Hrest
  · unfold FIN
    iexists _
    isplitr
    swap; · iexact Hbufs
    ipureintro
    intro b hb
    obtain ⟨h96, h97, h940, h941, h950, h951⟩ := argRefs_ne b hb
    rw [hex1 d _ _ b h97, after_copy_ne _ b h97, hex0 d _ _ b h96, upd1_of_ne _ _ _ b h950 h951, upd0_of_ne _ _ _ b h940 h941, hkeep d b hb]

end Cert.KernelIdeal.Launch

end
-- ==== Proof.ScTileVal0.lean ====
/-
  What one tile's task of the first gather kernel leaves in its rows of the two outputs: row l of chunk r holds the table's
  row named by word (r, l) of the tile's slab of the index operand.
-/
import proofs.«204681_g65575560675685_cont_9to1_m_144_57_alg».proof.Proof.ScTileDefs0
import Idealize.ShloMosaic.Lib.ValueIdx

noncomputable section

namespace Cert.Proof.KernelIdeal.ScTile0

open Cert.KernelIdeal Cert.KernelIdeal.Gen
open Idealize.ShloMosaic
open Idealize.ShloMosaic.ValueIdx (ix2)

variable {F : FTy → Type}

/-- The table row a word of an index operand names (the word itself when it is below the table's 100000 rows). -/
def rowOfWord (w : Elt F .i32) : Fin 100000 := ⟨w.toNat % 100000, Nat.mod_lt _ (by decide)⟩

/-- On core 1: the tile's seven chunks of each output hold the gathered rows. -/
def tileVal1 (d : Dev nD) (L : grid0.Coords) (h2 : k0_cond2 L = 1#1) (fu : Buf (Elt F) (tuLoc d)) (fi : Buf (Elt F) (tiLoc d))
    (gu : Buf (Elt F) (iuLoc d)) (gi : Buf (Elt F) (iiLoc d)) (ou' : Buf (Elt F) (ouLoc d)) (oi' : Buf (Elt F) (oiLoc d)) : Prop :=
  ∀ (r : Fin 7) (y : S128x128.Idx),
    ou' ((ouC1 L h2 r).view.emb y) = fu (ix2 (rowOfWord (gu ((iuSlab L).view.emb (ix2 (r.castLE (by decide : 7 ≤ 18)) (y 0))))) (y 1))
    ∧ oi' ((oiC1 L h2 r).view.emb y) = fi (ix2 (rowOfWord (gi ((iiSlab L).view.emb (ix2 (r.castLE (by decide : 7 ≤ 18)) (y 0))))) (y 1))

/-- On core 0: its eighteen chunks. -/
def tileVal0 (d : Dev nD) (L : grid0.Coords) (h1 : k0_cond1 L = 1#1) (fu : Buf (Elt F) (tuLoc d)) (fi : Buf (Elt F) (tiLoc d))
    (gu : Buf (Elt F) (iuLoc d)) (gi : Buf (Elt F) (iiLoc d)) (ou' : Buf (Elt F) (ouLoc d)) (oi' : Buf (Elt F) (oiLoc d)) : Prop :=
  ∀ (r : Fin 18) (y : S128x128.Idx),
    ou' ((ouC0 L h1 r).view.emb y) = fu (ix2 (rowOfWord (gu ((iuSlab L).view.emb (ix2 r (y 0))))) (y 1))
    ∧ oi' ((oiC0 L h1 r).view.emb y) = fi (ix2 (rowOfWord (gi ((iiSlab L).view.emb (ix2 r (y 0))))) (y 1))

end Cert.Proof.KernelIdeal.ScTile0

end
-- ==== Proof.ScTileVal1.lean ====
/-
  What one tile's task of the second gather kernel leaves in its rows of the two outputs: row l of chunk r holds the table's
  row named by word (r, l) of the tile's slab of the index operand.
-/
import proofs.«204681_g65575560675685_cont_9to1_m_144_57_alg».proof.Proof.ScTileDefs1
import Idealize.ShloMosaic.Lib.ValueIdx

noncomputable section

namespace Cert.Proof.KernelIdeal.ScTile1

open Cert.KernelIdeal Cert.KernelIdeal.Gen
open Idealize.ShloMosaic
open Idealize.ShloMosaic.ValueIdx (ix2)

variable {F : FTy → Type}

/-- The table row a word of an index operand names (the word itself when it is below the table's 100000 rows). -/
def rowOfWord (w : Elt F .i32) : Fin 100000 := ⟨w.toNat % 100000, Nat.mod_lt _ (by decide)⟩

/-- On core 1: the tile's seven chunks of each output hold the gathered rows. -/
def tileVal1 (d : Dev nD) (L : grid1.Coords) (h2 : k1_cond2 L = 1#1) (fu : Buf (Elt F) (tuLoc d)) (fi : Buf (Elt F) (tiLoc d))
    (gu : Buf (Elt F) (iuLoc d)) (gi : Buf (Elt F) (iiLoc d)) (ou' : Buf (Elt F) (ouLoc d)) (oi' : Buf (Elt F) (oiLoc d)) : Prop :=
  ∀ (r : Fin 7) (y : S128x128.Idx),
    ou' ((ouC1 L h2 r).view.emb y) = fu (ix2 (rowOfWord (gu ((iuSlab L).view.emb (ix2 (r.castLE (by decide : 7 ≤ 18)) (y 0))))) (y 1))
    ∧ oi' ((oiC1 L h2 r).view.emb y) = fi (ix2 (rowOfWord (gi ((iiSlab L).view.emb (ix2 (r.castLE (by decide : 7 ≤ 18)) (y 0))))) (y 1))

/-- On core 0: its eighteen chunks. -/
def tileVal0 (d : Dev nD) (L : grid1.Coords) (h1 : k1_cond1 L = 1#1) (fu : Buf (Elt F) (tuLoc d)) (fi : Buf (Elt F) (tiLoc d))
    (gu : Buf (Elt F) (iuLoc d)) (gi : Buf (Elt F) (iiLoc d)) (ou' : Buf (Elt F) (ouLoc d)) (oi' : Buf (Elt F) (oiLoc d)) : Prop :=
  ∀ (r : Fin 18) (y : S128x128.Idx),
    ou' ((ouC0 L h1 r).view.emb y) = fu (ix2 (rowOfWord (gu ((iuSlab L).view.emb (ix2 r (y 0))))) (y 1))
    ∧ oi' ((oiC0 L h1 r).view.emb y) = fi (ix2 (rowOfWord (gi ((iiSlab L).view.emb (ix2 r (y 0))))) (y 1))

end Cert.Proof.KernelIdeal.ScTile1

end
-- ==== Proof.PayVI.lean ====
/-
  What the handshakes carry when a task's hand-back names the contents it leaves: as before, with each tile's rows of the
  two outputs at the gathered rows.
-/
import proofs.«204681_g65575560675685_cont_9to1_m_144_57_alg».proof.Proof.PayI
import proofs.«204681_g65575560675685_cont_9to1_m_144_57_alg».proof.Proof.ScTileVal0
import proofs.«204681_g65575560675685_cont_9to1_m_144_57_alg».proof.Proof.ScTileVal1

noncomputable section

namespace Cert.KernelIdeal.LaunchV

open Cert.KernelIdeal Cert.KernelIdeal.Gen Cert.KernelIdeal.Setup Cert.KernelIdeal.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- What a tile brings back from the first call: its resources, its rows of the outputs at the gathered rows. -/
def td0 (d : Dev nD) (A : Ops0 F d) (c : Fin 2) (i : Fin 16) : sProp (MT nD τ sig (HIx 2) (Elt F) ℕ UU ℕ) :=
  if h : c.val = 0 then iprop(∃ ou' oi', ⌜Cert.Proof.KernelIdeal.ScTile0.tileVal0 d (pt0 c i) (cond1_pt0 c i h) A.fu A.fi A.gu A.gi ou' oi'⌝
      ∗ Cert.Proof.KernelIdeal.ScTile0.res0 d (pt0 c i) (cond1_pt0 c i h) (tq c i) A.fu A.fi A.gu A.gi ou' oi')
  else iprop(∃ ou' oi', ⌜Cert.Proof.KernelIdeal.ScTile0.tileVal1 d (pt0 c i) (cond2_pt0 c i h) A.fu A.fi A.gu A.gi ou' oi'⌝
      ∗ Cert.Proof.KernelIdeal.ScTile0.res1 d (pt0 c i) (cond2_pt0 c i h) (tq c i) A.fu A.fi A.gu A.gi ou' oi')
def td1 (d : Dev nD) (A : Ops1 F d) (c : Fin 2) (i : Fin 16) : sProp (MT nD τ sig (HIx 2) (Elt F) ℕ UU ℕ) :=
  if h : c.val = 0 then iprop(∃ ou' oi', ⌜Cert.Proof.KernelIdeal.ScTile1.tileVal0 d (pt1 c i) (cond1_pt1 c i h) A.fu A.fi A.gu A.gi ou' oi'⌝
      ∗ Cert.Proof.KernelIdeal.ScTile1.res0 d (pt1 c i) (cond1_pt1 c i h) (tq c i) A.fu A.fi A.gu A.gi ou' oi')
  else iprop(∃ ou' oi', ⌜Cert.Proof.KernelIdeal.ScTile1.tileVal1 d (pt1 c i) (cond2_pt1 c i h) A.fu A.fi A.gu A.gi ou' oi'⌝
      ∗ Cert.Proof.KernelIdeal.ScTile1.res1 d (pt1 c i) (cond2_pt1 c i h) (tq c i) A.fu A.fi A.gu A.gi ou' oi')

variable (A0 : (d : Dev nD) → Ops0 F d) (A1 : (d : Dev nD) → Ops1 F d)

def tdQ (q : Fin 2) (d : Dev nD) (c : Fin ((K (F := F)).nCore q)) (i : Fin ((K (F := F)).nSub q)) : sProp (MT nD τ sig (HIx 2) (Elt F) ℕ UU ℕ) :=
  match q with
  | 0 => td0 d (A0 d) (Fin.cast (nCore_eq 0) c) (Fin.cast (nSub_eq 0) i)
  | 1 => td1 d (A1 d) (Fin.cast (nCore_eq 1) c) (Fin.cast (nSub_eq 1) i)

def P : (K (F := F)).Pay (nD := nD) (Val := Elt F) (Name := ℕ) (U := UU) where
  st := fun q d c => bigSep Finset.univ fun i => goQ A0 A1 q d c i
  dn := fun q d c => bigSep Finset.univ fun i => tdQ A0 A1 q d c i
  go := goQ A0 A1
  td := tdQ A0 A1
  x := fun _ _ => iprop(emp)

theorem vecSplit (q : Fin 2) : (K (F := F)).VecSplit' (P A0 A1) q := by
  intro d c
  show (bigSep Finset.univ fun i => goQ A0 A1 q d c i) ⊢ |={Set.univ}=> iprop((bigSep Finset.univ fun i => goQ A0 A1 q d c i)
    ∗ ((bigSep Finset.univ fun i => tdQ A0 A1 q d c i) -∗ bigSep Finset.univ fun i => tdQ A0 A1 q d c i))
  iintro H; imodintro
  isplitl [H]; · iexact H
  iintro H; iexact H

instance td0_storable (d : Dev nD) (A : Ops0 F d) (c : Fin 2) (i : Fin 16) :
    BI.Storable (upEmb : UEmb _ (MT nD τ sig (HIx 2) (Elt F) ℕ UU ℕ)) (td0 d A c i) := by unfold td0; split <;> infer_instance
instance td1_storable (d : Dev nD) (A : Ops1 F d) (c : Fin 2) (i : Fin 16) :
    BI.Storable (upEmb : UEmb _ (MT nD τ sig (HIx 2) (Elt F) ℕ UU ℕ)) (td1 d A c i) := by unfold td1; split <;> infer_instance
instance tdQ_storable (q : Fin 2) (d : Dev nD) (c : Fin ((K (F := F)).nCore q)) (i : Fin ((K (F := F)).nSub q)) :
    BI.Storable (upEmb : UEmb _ (MT nD τ sig (HIx 2) (Elt F) ℕ UU ℕ)) (tdQ A0 A1 q d c i) := by
  match q with
  | 0 => exact td0_storable d (A0 d) _ _
  | 1 => exact td1_storable d (A1 d) _ _

instance P_storable : (P A0 A1).IsStorable where
  st q d c := by show BI.Storable _ (bigSep Finset.univ fun i => goQ A0 A1 q d c i); infer_instance
  dn q d c := by show BI.Storable _ (bigSep Finset.univ fun i => tdQ A0 A1 q d c i); infer_instance
  go q d c i := goQ_storable A0 A1 q d c i
  td q d c i := tdQ_storable A0 A1 q d c i

end Cert.KernelIdeal.LaunchV

end
-- ==== Proof.HmainRunVI.lean ====
/-
  The SparseCore calls as steps of @main when their outputs' contents are named: each call leaves in its two outputs the
  whole-array gather of its table by its index operand.
-/
import proofs.«204681_g65575560675685_cont_9to1_m_144_57_alg».proof.Proof.HmainRunI
import proofs.«204681_g65575560675685_cont_9to1_m_144_57_alg».proof.Proof.PayVI

noncomputable section

namespace Cert.KernelIdeal.LaunchV

open Cert.KernelIdeal Cert.KernelIdeal.Gen Cert.KernelIdeal.Setup Cert.KernelIdeal.HostOps Cert.KernelIdeal.MainTc Cert.KernelIdeal.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

local notation "𝕄" => MT nD τ sig (HIx 2) (Elt F) ℕ UU ℕ

/-- The whole-array gather a call computes, as a function of a table and an index operand. -/
abbrev GatherFn (F : FTy → Type) : Type :=
  (S100000x128.Idx → Elt F .f32) → (S32x18x128.Idx → Elt F .i32) → S51200x128.Idx → Elt F .f32

variable (g : GatherFn F)

/-- The tiles' hand-backs join into the call's six operands, the outputs at the gathers. -/
def Join0 (F : FTy → Type) (g : GatherFn F) : Prop := ∀ (d : Dev nD) (A : Ops0 F d),
  iprop(rem0 d A ∗ bigSep Finset.univ fun c : Fin 2 => bigSep Finset.univ fun i : Fin 16 => td0 d A c i)
    ⊢ sixPts0 d { A with ou := g A.fu A.gu, oi := g A.fi A.gi }
def Join1 (F : FTy → Type) (g : GatherFn F) : Prop := ∀ (d : Dev nD) (A : Ops1 F d),
  iprop(rem1 d A ∗ bigSep Finset.univ fun c : Fin 2 => bigSep Finset.univ fun i : Fin 16 => td1 d A c i)
    ⊢ sixPts1 d { A with ou := g A.fu A.gu, oi := g A.fi A.gi }

omit [FloatOps F] in
theorem st0_eq (d : Dev nD) :
    (bigSep Finset.univ fun c : Fin ((K (F := F)).nCore 0) => (P A0 A1).st 0 d c)
      = bigSep Finset.univ fun c : Fin 2 => bigSep Finset.univ fun i : Fin 16 => go0 d (A0 d) c i := rfl
omit [FloatOps F] in
theorem dn0_eq (d : Dev nD) :
    (bigSep Finset.univ fun c : Fin ((K (F := F)).nCore 0) => (P A0 A1).dn 0 d c)
      = bigSep Finset.univ fun c : Fin 2 => bigSep Finset.univ fun i : Fin 16 => td0 d (A0 d) c i := rfl
omit [FloatOps F] in
theorem st1_eq (d : Dev nD) :
    (bigSep Finset.univ fun c : Fin ((K (F := F)).nCore 1) => (P A0 A1).st 1 d c)
      = bigSep Finset.univ fun c : Fin 2 => bigSep Finset.univ fun i : Fin 16 => go1 d (A1 d) c i := rfl
omit [FloatOps F] in
theorem dn1_eq (d : Dev nD) :
    (bigSep Finset.univ fun c : Fin ((K (F := F)).nCore 1) => (P A0 A1).dn 1 d c)
      = bigSep Finset.univ fun c : Fin 2 => bigSep Finset.univ fun i : Fin 16 => td1 d (A1 d) c i := rfl

set_option maxHeartbeats 1000000 in
/-- The first SparseCore call, from the held buffers at `W` to the held buffers with the two outputs at the gathers. -/
theorem call0_step (hs : Split0 F) (hj : Join0 F g) (κ : GSem nD τ sig → ℕ) (d : Dev nD) (W : Valuation τ sig (Elt F)) (hA : A0 d = ops0Of d W)
    {Φ : PUnit → sProp 𝕄} :
    iprop((K (F := F)).ctx EH (P A0 A1) κ ∗ (K (F := F)).tcSt EH d 0 ∗ (StableHlo.held (T d) (Pipeline.ucRefs τ sig) W : sProp 𝕄)
        ∗ (((K (F := F)).tcSt EH d 1 ∗ (StableHlo.held (T d) (Pipeline.ucRefs τ sig)
              (upd0 W (g (ops0Of d W).fu (ops0Of d W).gu) (g (ops0Of d W).fi (ops0Of d W).gi)) : sProp 𝕄)) -∗ Φ ⟨⟩))
      ⊢ wp frame (wpE ((K (F := F)).defs (D (F := F))) 𝒱 (T d) none) Set.univ ((K (F := F)).run d 0) Φ := by
  iintro ⟨#Hctx, Hst, Hheld, Hk⟩
  ihave H := (Entails.of_eq (held_take0 d W)) $$ Hheld
  icases H with ⟨H6, Hrest⟩
  ihave H := (hs d (ops0Of d W)) $$ H6
  icases H with ⟨Hrem, Hgo⟩
  iapply ((K (F := F)).wp_run (D (F := F)) 𝒱 (EH := EH) (P := P A0 A1) κ d 0) $$ [Hst Hgo Hk Hrem Hrest]
  isplitr; · iexact Hctx
  isplitl [Hst]; · iexact Hst
  isplitl [Hgo]
  · rw [st0_eq, hA]; iexact Hgo
  iintro ⟨Hst, Hdn⟩
  ihave Hdn' := (Entails.of_eq (show (bigSep Finset.univ fun c : Fin ((K (F := F)).nCore 0) => (P A0 A1).dn 0 d c)
      = bigSep Finset.univ fun c : Fin 2 => bigSep Finset.univ fun i : Fin 16 => td0 d (ops0Of d W) c i from by rw [dn0_eq, hA])) $$ Hdn
  ihave H6 := (hj d (ops0Of d W)) $$ [Hrem Hdn']
  · isplitl [Hrem]; · iexact Hrem
    iexact Hdn'
  iapply Hk
  isplitl [Hst]; · iexact Hst
  iapply (held_put0 d W _ _)
  isplitl [H6]; · iexact H6
  iexact Hrest

set_option maxHeartbeats 1000000 in
/-- The second SparseCore call. -/
theorem call1_step (hs : Split1 F) (hj : Join1 F g) (κ : GSem nD τ sig → ℕ) (d : Dev nD) (W : Valuation τ sig (Elt F)) (hA : A1 d = ops1Of d W)
    {Φ : PUnit → sProp 𝕄} :
    iprop((K (F := F)).ctx EH (P A0 A1) κ ∗ (K (F := F)).tcSt EH d 1 ∗ (StableHlo.held (T d) (Pipeline.ucRefs τ sig) W : sProp 𝕄)
        ∗ (((K (F := F)).tcSt EH d 2 ∗ (StableHlo.held (T d) (Pipeline.ucRefs τ sig)
              (upd1 W (g (ops1Of d W).fu (ops1Of d W).gu) (g (ops1Of d W).fi (ops1Of d W).gi)) : sProp 𝕄)) -∗ Φ ⟨⟩))
      ⊢ wp frame (wpE ((K (F := F)).defs (D (F := F))) 𝒱 (T d) none) Set.univ ((K (F := F)).run d 1) Φ := by
  iintro ⟨#Hctx, Hst, Hheld, Hk⟩
  ihave H := (Entails.of_eq (held_take1 d W)) $$ Hheld
  icases H with ⟨H6, Hrest⟩
  ihave H := (hs d (ops1Of d W)) $$ H6
  icases H with ⟨Hrem, Hgo⟩
  iapply ((K (F := F)).wp_run (D (F := F)) 𝒱 (EH := EH) (P := P A0 A1) κ d 1) $$ [Hst Hgo Hk Hrem Hrest]
  isplitr; · iexact Hctx
  isplitl [Hst]; · iexact Hst
  isplitl [Hgo]
  · rw [st1_eq, hA]; iexact Hgo
  iintro ⟨Hst, Hdn⟩
  ihave Hdn' := (Entails.of_eq (show (bigSep Finset.univ fun c : Fin ((K (F := F)).nCore 1) => (P A0 A1).dn 1 d c)
      = bigSep Finset.univ fun c : Fin 2 => bigSep Finset.univ fun i : Fin 16 => td1 d (ops1Of d W) c i from by rw [dn1_eq, hA])) $$ Hdn
  ihave H6 := (hj d (ops1Of d W)) $$ [Hrem Hdn']
  · isplitl [Hrem]; · iexact Hrem
    iexact Hdn'
  iapply Hk
  isplitl [Hst]; · iexact Hst
  iapply (held_put1 d W _ _)
  isplitl [H6]; · iexact H6
  iexact Hrest

end Cert.KernelIdeal.LaunchV

end
-- ==== Proof.HmainTopVI.lean ====
/-
  @main on a device's TensorCore under the launch theorem, whole, with every buffer's final contents named: the host operations, the two SparseCore calls, the
  first TensorCore region, the copy of its result into the second region's output, the second region.
-/
import proofs.«204681_g65575560675685_cont_9to1_m_144_57_alg».proof.Proof.HmainTopI
import proofs.«204681_g65575560675685_cont_9to1_m_144_57_alg».proof.Proof.HmainRunVI

noncomputable section

namespace Cert.KernelIdeal.LaunchV

open Cert.KernelIdeal Cert.KernelIdeal.Gen Cert.KernelIdeal.Setup Cert.KernelIdeal.HostOps Cert.KernelIdeal.MainTc Cert.KernelIdeal.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig (HIx 2) (Elt F) ℕ UU ℕ

variable (g : GatherFn F)
variable (ex0 ex1 : Dev nD → Waits sig (HIx 2) → Valuation τ sig (Elt F) → Valuation τ sig (Elt F))

/-- The buffers' contents after the first call, after the second, and at @main's end. -/
def W2 (d : Dev nD) : Valuation τ sig (Elt F) :=
  upd0 (V₁ m d) (g (ops0Of d (V₁ m d)).fu (ops0Of d (V₁ m d)).gu) (g (ops0Of d (V₁ m d)).fi (ops0Of d (V₁ m d)).gi)
def W3 (d : Dev nD) : Valuation τ sig (Elt F) :=
  upd1 (W2 m g d) (g (ops1Of d (W2 m g d)).fu (ops1Of d (W2 m g d)).gu) (g (ops1Of d (W2 m g d)).fi (ops1Of d (W2 m g d)).gi)
def Vfin (d : Dev nD) (Wt0 Wt1 : Waits sig (HIx 2)) : Valuation τ sig (Elt F) :=
  ex1 d Wt1 (StableHlo.after (mainOps7 (F := F)) (ex0 d Wt0 (W3 m g d)))

/-- What @main leaves: the TensorCore's buffers held at the final contents. -/
def FIN (d : Dev nD) : sProp 𝕄 :=
  iprop(∃ Wt0 Wt1 : Waits sig (HIx 2), StableHlo.held (T d) (Pipeline.ucRefs τ sig) (Vfin m g ex0 ex1 d Wt0 Wt1))

set_option maxHeartbeats 4000000 in
theorem hmain (hs0 : Split0 F) (hj0 : Join0 F g) (hs1 : Split1 F) (hj1 : Join1 F g)
    (hr0 : RegionStep (F := F) 0 ex0) (hr1 : RegionStep (F := F) 1 ex1)
    (κ : GSem nD τ sig → ℕ) (d : Dev nD) :
    iprop((K (F := F)).ctx EH (LaunchV.P (A0 m) (A1 m)) κ ∗ (K (F := F)).tcSt EH d 0 ∗ (K (F := F)).tcRes m ρ d ∗ Gp d)
      ⊢ wp frame (wpE ((K (F := F)).defs (D (F := F))) 𝒱 (T d) none) Set.univ (main d)
          fun _ => iprop((K (F := F)).tcSt EH d 2 ∗ FIN m g ex0 ex1 d) := by
  unfold SparseCore.Cfg.tcRes Gp
  rw [main_eq, Pipeline.unscopedBufs_held d (V₀ m d)]
  iintro ⟨#Hctx, Hst, ⟨Hb, Hbufs, Hsems, Hprng⟩, HG⟩
  iapply (host_stretch (F := F) d hostOps hostOps_sub hostOps_fresh (V₀ m d) _ none) $$ [Hb Hbufs]
  · isplitl [Hb]; · iexact Hb
    iexact Hbufs
  iintro ⟨Hb, Hbufs⟩
  simp only [Pipeline.chain_cons, Pipeline.chain_nil]
  rw [wp_bind]
  iapply (call0_step (A0 m) (A1 m) g hs0 hj0 κ d (V₁ m d) rfl) $$ [Hst Hbufs Hb Hsems Hprng HG]
  isplitr; · iexact Hctx
  isplitl [Hst]; · iexact Hst
  isplitl [Hbufs]; · iexact Hbufs
  iintro ⟨Hst, Hbufs⟩
  rw [wp_bind]
  iapply (call1_step (A0 m) (A1 m) g hs1 hj1 κ d (W2 m g d) (ops1Of_upd0 d (V₁ m d) _ _).symm) $$ [Hst Hbufs Hb Hsems Hprng HG]
  isplitr; · iexact Hctx
  isplitl [Hst]; · iexact Hst
  isplitl [Hbufs]; · iexact Hbufs
  iintro
  unfold SparseCore.Cfg.tcSt
  rw [(K (F := F)).Otc_end d (le_refl 2)]
  iintro ⟨⟨⟨%Wt, %hWt, HO⟩, Hrest⟩, Hbufs⟩
  icases HG with ⟨HG0, HG1⟩
  ihave #Hlev := ((K (F := F)).ctx_levAts (EH := EH) (P := LaunchV.P (A0 m) (A1 m)) κ) $$ Hctx
  iapply (hr0 d (W3 m g d) Wt _ _) $$ [Hb HG0 HG1 Hbufs HO Hrest Hsems Hprng]
  isplitr; · iexact Hlev
  isplitl [Hb]; · iexact Hb
  isplitl [HG0]; · iexact HG0
  isplitl [Hbufs]; · iexact Hbufs
  isplitl [HO]; · iexact HO
  iintro %Wt1 %hWt1 ⟨Hb, Hbufs, HO⟩
  iapply (host_stretch (F := F) d mainOps7 mainOps7_sub mainOps7_fresh _ _ none) $$ [Hb Hbufs]
  · isplitl [Hb]; · iexact Hb
    iexact Hbufs
  iintro ⟨Hb, Hbufs⟩
  iapply (hr1 d _ Wt1 _ _) $$ [Hb HG1 Hbufs HO Hrest Hsems Hprng]
  isplitr; · iexact Hlev
  isplitl [Hb]; · iexact Hb
  isplitl [HG1]; · iexact HG1
  isplitl [Hbufs]; · iexact Hbufs
  isplitl [HO]; · iexact HO
  iintro %Wt2 %hWt2 ⟨Hb, Hbufs, HO⟩
  rw [wp_pure]
  imodintro
  isplitl [HO Hrest]
  · isplitl [HO]
    · iexists Wt2
      isplitr
      · ipureintro
        intro p hp
        rcases hWt2 p hp with h | h
        · rcases hWt1 p h with h' | h'
          · exact hWt p h'
          · rw [h']; exact Nat.zero_le _
        · rw [h]; exact Nat.zero_le _
      · iexact HO
    · iexact Hrest
  · unfold FIN Vfin
    iexists Wt; iexists Wt1
    iexact Hbufs

end Cert.KernelIdeal.LaunchV

end
-- ==== Proof.ScTileStmt0.lean ====
/-
  The statements of one tile's task of the first gather kernel, one per core: from the tile's resources, its scoped
  storage and what it owes, the body runs to the same resources with the tile's rows of the two outputs rewritten.
-/
import proofs.«204681_g65575560675685_cont_9to1_m_144_57_alg».proof.Proof.ScTileDefs0
import Idealize.ShloMosaic.Lib.SparseCore.Launch
import Idealize.ShloMosaic.Lib.Transfers

noncomputable section

namespace Cert.Proof.KernelIdeal.ScTile0

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

/-- The body obligation of a tile of core 1 (seven chunks of each output). -/
def TileBody1 (F : FTy → Type) [FloatOps F] (U : Type) [URA U] [CountersIn U] : Prop :=
  ∀ (d : Dev nD) (L : grid0.Coords) (hF : (K (F := F)).Facts) (h2 : k0_cond2 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res1 (U := U) d L h2 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc0_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch9 cc0_scratch10 cc0_scratch11 cc0_scratch12 cc0_scratch13 cc0_scratch14 cc0_scratch15
            cc0_scratch16 cc0_scratch17 cc0_scratch18 cc0_scratch19 cc0_scratch20 cc0_scratch21 cc0_scratch22 cc0_scoped0 cc0_scoped1)
          fun _ => iprop((∃ ou' oi', res1 (U := U) d L h2 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The body obligation of a tile of core 0 (eighteen chunks of each output). -/
def TileBody0 (F : FTy → Type) [FloatOps F] (U : Type) [URA U] [CountersIn U] : Prop :=
  ∀ (d : Dev nD) (L : grid0.Coords) (hF : (K (F := F)).Facts) (h1 : k0_cond1 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res0 (U := U) d L h1 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc0_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch9 cc0_scratch10 cc0_scratch11 cc0_scratch12 cc0_scratch13 cc0_scratch14 cc0_scratch15
            cc0_scratch16 cc0_scratch17 cc0_scratch18 cc0_scratch19 cc0_scratch20 cc0_scratch21 cc0_scratch22 cc0_scoped0 cc0_scoped1)
          fun _ => iprop((∃ ou' oi', res0 (U := U) d L h1 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KernelIdeal.ScTile0

end
-- ==== Proof.ScTileStmt1.lean ====
/-
  The statements of one tile's task of the second gather kernel, one per core: from the tile's resources, its scoped
  storage and what it owes, the body runs to the same resources with the tile's rows of the two outputs rewritten.
-/
import proofs.«204681_g65575560675685_cont_9to1_m_144_57_alg».proof.Proof.ScTileDefs1
import Idealize.ShloMosaic.Lib.SparseCore.Launch
import Idealize.ShloMosaic.Lib.Transfers

noncomputable section

namespace Cert.Proof.KernelIdeal.ScTile1

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

/-- The body obligation of a tile of core 1 (seven chunks of each output). -/
def TileBody1 (F : FTy → Type) [FloatOps F] (U : Type) [URA U] [CountersIn U] : Prop :=
  ∀ (d : Dev nD) (L : grid1.Coords) (hF : (K (F := F)).Facts) (h2 : k1_cond2 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res1 (U := U) d L h2 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc1_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc1_scratch9 cc1_scratch10 cc1_scratch11 cc1_scratch12 cc1_scratch13 cc1_scratch14 cc1_scratch15
            cc1_scratch16 cc1_scratch17 cc1_scratch18 cc1_scratch19 cc1_scratch20 cc1_scratch21 cc1_scratch22 cc1_scoped0 cc1_scoped1)
          fun _ => iprop((∃ ou' oi', res1 (U := U) d L h2 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The body obligation of a tile of core 0 (eighteen chunks of each output). -/
def TileBody0 (F : FTy → Type) [FloatOps F] (U : Type) [URA U] [CountersIn U] : Prop :=
  ∀ (d : Dev nD) (L : grid1.Coords) (hF : (K (F := F)).Facts) (h1 : k1_cond1 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res0 (U := U) d L h1 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc1_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc1_scratch9 cc1_scratch10 cc1_scratch11 cc1_scratch12 cc1_scratch13 cc1_scratch14 cc1_scratch15
            cc1_scratch16 cc1_scratch17 cc1_scratch18 cc1_scratch19 cc1_scratch20 cc1_scratch21 cc1_scratch22 cc1_scoped0 cc1_scoped1)
          fun _ => iprop((∃ ou' oi', res0 (U := U) d L h1 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KernelIdeal.ScTile1

end
-- ==== Proof.TileOblI.lean ====
/-
  The tiles' obligations of the launch theorem, from one tile's task on each core of each call.
-/
import proofs.«204681_g65575560675685_cont_9to1_m_144_57_alg».proof.Proof.PayI
import proofs.«204681_g65575560675685_cont_9to1_m_144_57_alg».proof.Proof.ScTileStmt0
import proofs.«204681_g65575560675685_cont_9to1_m_144_57_alg».proof.Proof.ScTileStmt1
import Idealize.ShloMosaic.Lib.Pipeline.Kit

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

omit [FloatOps F] in
/-- A task's post, with the waits it recorded at its own index allowed at the call's. -/
theorem obl_post {thr : Thread nD τ} {A B C : sProp (MT nD τ sig (HIx 2) (Elt F) ℕ UU ℕ)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts)
    (hb0 : Cert.Proof.KernelIdeal.ScTile0.TileBody0 F UU) (hb1 : Cert.Proof.KernelIdeal.ScTile0.TileBody1 F UU)
    (hpre : ∀ d, Cert.Proof.KernelIdeal.ScTile0.PreOK d (A0 d).gu (A0 d).gi) :
    (K (F := F)).TileObl (D (F := F)) 𝒱 (P A0 A1) v₀ 0 := by
  intro d c i O W hO _ _
  simp only [show (P A0 A1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  by_cases h : (Fin.cast (nCore_eq (F := F) 0) c).val = 0
  · have e : (P A0 A1).go 0 d c i = Cert.Proof.KernelIdeal.ScTile0.res0 d (pt0 (Fin.cast (nCore_eq (F := F) 0) c) (Fin.cast (nSub_eq (F := F) 0) i)) (cond1_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi (A0 d).ou (A0 d).oi := by
      show go0 d (A0 d) _ _ = _
      unfold go0; rw [dif_pos h]
    have e' : (P A0 A1).td 0 d c i = iprop(∃ ou' oi', Cert.Proof.KernelIdeal.ScTile0.res0 d (pt0 (Fin.cast (nCore_eq (F := F) 0) c) (Fin.cast (nSub_eq (F := F) 0) i)) (cond1_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi ou' oi') := by
      show td0 d (A0 d) _ _ = _
      unfold td0; rw [dif_pos h]
    rw [e, e']
    exact (hb0 d (pt0 (Fin.cast (nCore_eq (F := F) 0) c) (Fin.cast (nSub_eq (F := F) 0) i)) hF (cond1_pt0 (Fin.cast (nCore_eq (F := F) 0) c) (Fin.cast (nSub_eq (F := F) 0) i) h) (tq (Fin.cast (nCore_eq (F := F) 0) c) (Fin.cast (nSub_eq (F := F) 0) i)) _ _ _ _ _ _ (hpre d) O W hO).trans (wp_mono frame _ _ fun _ => obl_post)
  · have e : (P A0 A1).go 0 d c i = Cert.Proof.KernelIdeal.ScTile0.res1 d (pt0 (Fin.cast (nCore_eq (F := F) 0) c) (Fin.cast (nSub_eq (F := F) 0) i)) (cond2_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi (A0 d).ou (A0 d).oi := by
      show go0 d (A0 d) _ _ = _
      unfold go0; rw [dif_neg h]
    have e' : (P A0 A1).td 0 d c i = iprop(∃ ou' oi', Cert.Proof.KernelIdeal.ScTile0.res1 d (pt0 (Fin.cast (nCore_eq (F := F) 0) c) (Fin.cast (nSub_eq (F := F) 0) i)) (cond2_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi ou' oi') := by
      show td0 d (A0 d) _ _ = _
      unfold td0; rw [dif_neg h]
    rw [e, e']
    exact (hb1 d (pt0 (Fin.cast (nCore_eq (F := F) 0) c) (Fin.cast (nSub_eq (F := F) 0) i)) hF (cond2_pt0 (Fin.cast (nCore_eq (F := F) 0) c) (Fin.cast (nSub_eq (F := F) 0) i) h) (tq (Fin.cast (nCore_eq (F := F) 0) c) (Fin.cast (nSub_eq (F := F) 0) i)) _ _ _ _ _ _ (hpre d) O W hO).trans (wp_mono frame _ _ fun _ => obl_post)

set_option maxRecDepth 16384 in
theorem tileObl1 (hF : (K (F := F)).Facts)
    (hb0 : Cert.Proof.KernelIdeal.ScTile1.TileBody0 F UU) (hb1 : Cert.Proof.KernelIdeal.ScTile1.TileBody1 F UU)
    (hpre : ∀ d, Cert.Proof.KernelIdeal.ScTile1.PreOK d (A1 d).gu (A1 d).gi) :
    (K (F := F)).TileObl (D (F := F)) 𝒱 (P A0 A1) v₀ 1 := by
  intro d c i O W hO _ _
  simp only [show (P A0 A1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  by_cases h : (Fin.cast (nCore_eq (F := F) 1) c).val = 0
  · have e : (P A0 A1).go 1 d c i = Cert.Proof.KernelIdeal.ScTile1.res0 d (pt1 (Fin.cast (nCore_eq (F := F) 1) c) (Fin.cast (nSub_eq (F := F) 1) i)) (cond1_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi (A1 d).ou (A1 d).oi := by
      show go1 d (A1 d) _ _ = _
      unfold go1; rw [dif_pos h]
    have e' : (P A0 A1).td 1 d c i = iprop(∃ ou' oi', Cert.Proof.KernelIdeal.ScTile1.res0 d (pt1 (Fin.cast (nCore_eq (F := F) 1) c) (Fin.cast (nSub_eq (F := F) 1) i)) (cond1_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi ou' oi') := by
      show td1 d (A1 d) _ _ = _
      unfold td1; rw [dif_pos h]
    rw [e, e']
    exact (hb0 d (pt1 (Fin.cast (nCore_eq (F := F) 1) c) (Fin.cast (nSub_eq (F := F) 1) i)) hF (cond1_pt1 (Fin.cast (nCore_eq (F := F) 1) c) (Fin.cast (nSub_eq (F := F) 1) i) h) (tq (Fin.cast (nCore_eq (F := F) 1) c) (Fin.cast (nSub_eq (F := F) 1) i)) _ _ _ _ _ _ (hpre d) O W hO).trans (wp_mono frame _ _ fun _ => obl_post)
  · have e : (P A0 A1).go 1 d c i = Cert.Proof.KernelIdeal.ScTile1.res1 d (pt1 (Fin.cast (nCore_eq (F := F) 1) c) (Fin.cast (nSub_eq (F := F) 1) i)) (cond2_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi (A1 d).ou (A1 d).oi := by
      show go1 d (A1 d) _ _ = _
      unfold go1; rw [dif_neg h]
    have e' : (P A0 A1).td 1 d c i = iprop(∃ ou' oi', Cert.Proof.KernelIdeal.ScTile1.res1 d (pt1 (Fin.cast (nCore_eq (F := F) 1) c) (Fin.cast (nSub_eq (F := F) 1) i)) (cond2_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi ou' oi') := by
      show td1 d (A1 d) _ _ = _
      unfold td1; rw [dif_neg h]
    rw [e, e']
    exact (hb1 d (pt1 (Fin.cast (nCore_eq (F := F) 1) c) (Fin.cast (nSub_eq (F := F) 1) i)) hF (cond2_pt1 (Fin.cast (nCore_eq (F := F) 1) c) (Fin.cast (nSub_eq (F := F) 1) i) h) (tq (Fin.cast (nCore_eq (F := F) 1) c) (Fin.cast (nSub_eq (F := F) 1) i)) _ _ _ _ _ _ (hpre d) O W hO).trans (wp_mono frame _ _ fun _ => obl_post)

/-- Every call's tiles meet the launch theorem's obligation. -/
theorem tileObl (hF : (K (F := F)).Facts)
    (hb00 : Cert.Proof.KernelIdeal.ScTile0.TileBody0 F UU) (hb01 : Cert.Proof.KernelIdeal.ScTile0.TileBody1 F UU)
    (hb10 : Cert.Proof.KernelIdeal.ScTile1.TileBody0 F UU) (hb11 : Cert.Proof.KernelIdeal.ScTile1.TileBody1 F UU)
    (hpre0 : ∀ d, Cert.Proof.KernelIdeal.ScTile0.PreOK d (A0 d).gu (A0 d).gi)
    (hpre1 : ∀ d, Cert.Proof.KernelIdeal.ScTile1.PreOK d (A1 d).gu (A1 d).gi) :
    ∀ q, (K (F := F)).kind q = .scVector → (K (F := F)).TileObl (D (F := F)) 𝒱 (P A0 A1) v₀ q := fun q _ =>
  match q with
  | 0 => tileObl0 A0 A1 hF hb00 hb01 hpre0
  | 1 => tileObl1 A0 A1 hF hb10 hb11 hpre1

end Cert.KernelIdeal.Launch

end
-- ==== Proof.ScTileStmtV0.lean ====
/-
  The statements of one tile's task of the first gather kernel with the contents it leaves named, one per core: from the tile's resources, its scoped
  storage and what it owes, the body runs to the same resources with the tile's rows of the two outputs rewritten.
-/
import proofs.«204681_g65575560675685_cont_9to1_m_144_57_alg».proof.Proof.ScTileDefs0
import proofs.«204681_g65575560675685_cont_9to1_m_144_57_alg».proof.Proof.ScTileVal0
import proofs.«204681_g65575560675685_cont_9to1_m_144_57_alg».proof.Proof.ScTileStmt0
import Idealize.ShloMosaic.Lib.SparseCore.Launch
import Idealize.ShloMosaic.Lib.Transfers

noncomputable section

namespace Cert.Proof.KernelIdeal.ScTile0

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

/-- The body obligation of a tile of core 1 (seven chunks of each output). -/
def TileBodyV1 (F : FTy → Type) [FloatOps F] (U : Type) [URA U] [CountersIn U] : Prop :=
  ∀ (d : Dev nD) (L : grid0.Coords) (hF : (K (F := F)).Facts) (h2 : k0_cond2 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res1 (U := U) d L h2 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc0_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch9 cc0_scratch10 cc0_scratch11 cc0_scratch12 cc0_scratch13 cc0_scratch14 cc0_scratch15
            cc0_scratch16 cc0_scratch17 cc0_scratch18 cc0_scratch19 cc0_scratch20 cc0_scratch21 cc0_scratch22 cc0_scoped0 cc0_scoped1)
          fun _ => iprop((∃ ou' oi', ⌜tileVal1 d L h2 fu fi gu gi ou' oi'⌝ ∗ res1 (U := U) d L h2 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The body obligation of a tile of core 0 (eighteen chunks of each output). -/
def TileBodyV0 (F : FTy → Type) [FloatOps F] (U : Type) [URA U] [CountersIn U] : Prop :=
  ∀ (d : Dev nD) (L : grid0.Coords) (hF : (K (F := F)).Facts) (h1 : k0_cond1 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res0 (U := U) d L h1 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc0_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch9 cc0_scratch10 cc0_scratch11 cc0_scratch12 cc0_scratch13 cc0_scratch14 cc0_scratch15
            cc0_scratch16 cc0_scratch17 cc0_scratch18 cc0_scratch19 cc0_scratch20 cc0_scratch21 cc0_scratch22 cc0_scoped0 cc0_scoped1)
          fun _ => iprop((∃ ou' oi', ⌜tileVal0 d L h1 fu fi gu gi ou' oi'⌝ ∗ res0 (U := U) d L h1 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The task with its rows' contents named gives the task with them forgotten. -/
theorem TileBody1_of_V {F : FTy → Type} [FloatOps F] {U : Type} [URA U] [CountersIn U] (h : TileBodyV1 F U) : TileBody1 F U := by
  intro d L hF h2 q fu fi gu gi ou oi hpre O W hO
  refine (h d L hF h2 q fu fi gu gi ou oi hpre O W hO).trans (wp_mono frame _ _ fun _ => ?_)
  iintro ⟨⟨%ou', %oi', -, Hres⟩, Hrest⟩
  isplitl [Hres]
  · iexists ou'; iexists oi'; iexact Hres
  · iexact Hrest
theorem TileBody0_of_V {F : FTy → Type} [FloatOps F] {U : Type} [URA U] [CountersIn U] (h : TileBodyV0 F U) : TileBody0 F U := by
  intro d L hF h1 q fu fi gu gi ou oi hpre O W hO
  refine (h d L hF h1 q fu fi gu gi ou oi hpre O W hO).trans (wp_mono frame _ _ fun _ => ?_)
  iintro ⟨⟨%ou', %oi', -, Hres⟩, Hrest⟩
  isplitl [Hres]
  · iexists ou'; iexists oi'; iexact Hres
  · iexact Hrest

end Cert.Proof.KernelIdeal.ScTile0

end
-- ==== Proof.ScTileStmtV1.lean ====
/-
  The statements of one tile's task of the second gather kernel with the contents it leaves named, one per core: from the tile's resources, its scoped
  storage and what it owes, the body runs to the same resources with the tile's rows of the two outputs rewritten.
-/
import proofs.«204681_g65575560675685_cont_9to1_m_144_57_alg».proof.Proof.ScTileDefs1
import proofs.«204681_g65575560675685_cont_9to1_m_144_57_alg».proof.Proof.ScTileVal1
import proofs.«204681_g65575560675685_cont_9to1_m_144_57_alg».proof.Proof.ScTileStmt1
import Idealize.ShloMosaic.Lib.SparseCore.Launch
import Idealize.ShloMosaic.Lib.Transfers

noncomputable section

namespace Cert.Proof.KernelIdeal.ScTile1

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

/-- The body obligation of a tile of core 1 (seven chunks of each output). -/
def TileBodyV1 (F : FTy → Type) [FloatOps F] (U : Type) [URA U] [CountersIn U] : Prop :=
  ∀ (d : Dev nD) (L : grid1.Coords) (hF : (K (F := F)).Facts) (h2 : k1_cond2 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res1 (U := U) d L h2 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc1_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc1_scratch9 cc1_scratch10 cc1_scratch11 cc1_scratch12 cc1_scratch13 cc1_scratch14 cc1_scratch15
            cc1_scratch16 cc1_scratch17 cc1_scratch18 cc1_scratch19 cc1_scratch20 cc1_scratch21 cc1_scratch22 cc1_scoped0 cc1_scoped1)
          fun _ => iprop((∃ ou' oi', ⌜tileVal1 d L h2 fu fi gu gi ou' oi'⌝ ∗ res1 (U := U) d L h2 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The body obligation of a tile of core 0 (eighteen chunks of each output). -/
def TileBodyV0 (F : FTy → Type) [FloatOps F] (U : Type) [URA U] [CountersIn U] : Prop :=
  ∀ (d : Dev nD) (L : grid1.Coords) (hF : (K (F := F)).Facts) (h1 : k1_cond1 L = 1#1) (q : PosShare TreeShare)
    (fu : Buf (Elt F) (tuLoc d)) (fi : Buf (Elt F) (tiLoc d)) (gu : Buf (Elt F) (iuLoc d)) (gi : Buf (Elt F) (iiLoc d))
    (ou : Buf (Elt F) (ouLoc d)) (oi : Buf (Elt F) (oiLoc d)) (hpre : PreOK d gu gi)
    (O : CellTallies nD τ sig (HIx 2)) (W : Waits sig (HIx 2)) (hO : ∀ g, O g none = 0),
    (iprop(levAts (K (F := F)).L (K (F := F)).lev ∗ emp
        ∗ res0 (U := U) d L h1 q fu fi gu gi ou oi
        ∗ scopedBufs (V d (cV L) (jV L)) ∗ scopedSems0 (V d (cV L) (jV L)) ∗ owes (V d (cV L) (jV L)) O W) : sProp (Mach F U))
      ⊢ wp frame (wpE (defs₀ (F := F)) 𝒱₀ (V d (cV L) (jV L)) none) Set.univ
          (cc1_gather_k L tuV (Memref.isWhole_whole _) tiV (Memref.isWhole_whole _) iuV (Memref.isWhole_whole _) iiV (Memref.isWhole_whole _)
            ouV (Memref.isWhole_whole _) oiV (Memref.isWhole_whole _) luV (Memref.isWhole_whole _) liV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _)
            cc1_scratch9 cc1_scratch10 cc1_scratch11 cc1_scratch12 cc1_scratch13 cc1_scratch14 cc1_scratch15
            cc1_scratch16 cc1_scratch17 cc1_scratch18 cc1_scratch19 cc1_scratch20 cc1_scratch21 cc1_scratch22 cc1_scoped0 cc1_scoped1)
          fun _ => iprop((∃ ou' oi', ⌜tileVal0 d L h1 fu fi gu gi ou' oi'⌝ ∗ res0 (U := U) d L h1 q fu fi gu gi ou' oi')
            ∗ scopedBufs (V d (cV L) (jV L)) ∗ scopedSems0 (V d (cV L) (jV L))
            ∗ ∃ W', ⌜∀ p ∈ W', p ∈ W ∨ p.2 = none⌝ ∗ owes (V d (cV L) (jV L)) O W')

/-- The task with its rows' contents named gives the task with them forgotten. -/
theorem TileBody1_of_V {F : FTy → Type} [FloatOps F] {U : Type} [URA U] [CountersIn U] (h : TileBodyV1 F U) : TileBody1 F U := by
  intro d L hF h2 q fu fi gu gi ou oi hpre O W hO
  refine (h d L hF h2 q fu fi gu gi ou oi hpre O W hO).trans (wp_mono frame _ _ fun _ => ?_)
  iintro ⟨⟨%ou', %oi', -, Hres⟩, Hrest⟩
  isplitl [Hres]
  · iexists ou'; iexists oi'; iexact Hres
  · iexact Hrest
theorem TileBody0_of_V {F : FTy → Type} [FloatOps F] {U : Type} [URA U] [CountersIn U] (h : TileBodyV0 F U) : TileBody0 F U := by
  intro d L hF h1 q fu fi gu gi ou oi hpre O W hO
  refine (h d L hF h1 q fu fi gu gi ou oi hpre O W hO).trans (wp_mono frame _ _ fun _ => ?_)
  iintro ⟨⟨%ou', %oi', -, Hres⟩, Hrest⟩
  isplitl [Hres]
  · iexists ou'; iexists oi'; iexact Hres
  · iexact Hrest

end Cert.Proof.KernelIdeal.ScTile1

end
-- ==== Proof.TileOblVI.lean ====
/-
  The tiles' obligations of the launch theorem when a task's hand-back names the contents it leaves.
-/
import proofs.«204681_g65575560675685_cont_9to1_m_144_57_alg».proof.Proof.TileOblI
import proofs.«204681_g65575560675685_cont_9to1_m_144_57_alg».proof.Proof.PayVI
import proofs.«204681_g65575560675685_cont_9to1_m_144_57_alg».proof.Proof.ScTileStmtV0
import proofs.«204681_g65575560675685_cont_9to1_m_144_57_alg».proof.Proof.ScTileStmtV1
import Idealize.ShloMosaic.Lib.Pipeline.Kit

noncomputable section

namespace Cert.KernelIdeal.LaunchV

open Cert.KernelIdeal Cert.KernelIdeal.Gen Cert.KernelIdeal.Setup Cert.KernelIdeal.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A0 : (d : Dev nD) → Ops0 F d) (A1 : (d : Dev nD) → Ops1 F d)

set_option maxRecDepth 16384 in
theorem tileObl0 (hF : (K (F := F)).Facts)
    (hb0 : Cert.Proof.KernelIdeal.ScTile0.TileBodyV0 F UU) (hb1 : Cert.Proof.KernelIdeal.ScTile0.TileBodyV1 F UU)
    (hpre : ∀ d, Cert.Proof.KernelIdeal.ScTile0.PreOK d (A0 d).gu (A0 d).gi) :
    (K (F := F)).TileObl (D (F := F)) 𝒱 (P A0 A1) v₀ 0 := by
  intro d c i O W hO _ _
  simp only [show (P A0 A1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  by_cases h : (Fin.cast (nCore_eq (F := F) 0) c).val = 0
  · have e : (P A0 A1).go 0 d c i = Cert.Proof.KernelIdeal.ScTile0.res0 d (pt0 (Fin.cast (nCore_eq (F := F) 0) c) (Fin.cast (nSub_eq (F := F) 0) i)) (cond1_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi (A0 d).ou (A0 d).oi := by
      show go0 d (A0 d) _ _ = _
      unfold go0; rw [dif_pos h]
    have e' : (P A0 A1).td 0 d c i = iprop(∃ ou' oi', ⌜Cert.Proof.KernelIdeal.ScTile0.tileVal0 d (pt0 (Fin.cast (nCore_eq (F := F) 0) c) (Fin.cast (nSub_eq (F := F) 0) i)) (cond1_pt0 (Fin.cast (nCore_eq (F := F) 0) c) (Fin.cast (nSub_eq (F := F) 0) i) h) (A0 d).fu (A0 d).fi (A0 d).gu (A0 d).gi ou' oi'⌝ ∗ Cert.Proof.KernelIdeal.ScTile0.res0 d (pt0 (Fin.cast (nCore_eq (F := F) 0) c) (Fin.cast (nSub_eq (F := F) 0) i)) (cond1_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi ou' oi') := by
      show td0 d (A0 d) _ _ = _
      unfold td0; rw [dif_pos h]
    rw [e, e']
    exact (hb0 d (pt0 (Fin.cast (nCore_eq (F := F) 0) c) (Fin.cast (nSub_eq (F := F) 0) i)) hF (cond1_pt0 (Fin.cast (nCore_eq (F := F) 0) c) (Fin.cast (nSub_eq (F := F) 0) i) h) (tq (Fin.cast (nCore_eq (F := F) 0) c) (Fin.cast (nSub_eq (F := F) 0) i)) _ _ _ _ _ _ (hpre d) O W hO).trans (wp_mono frame _ _ fun _ => obl_post)
  · have e : (P A0 A1).go 0 d c i = Cert.Proof.KernelIdeal.ScTile0.res1 d (pt0 (Fin.cast (nCore_eq (F := F) 0) c) (Fin.cast (nSub_eq (F := F) 0) i)) (cond2_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi (A0 d).ou (A0 d).oi := by
      show go0 d (A0 d) _ _ = _
      unfold go0; rw [dif_neg h]
    have e' : (P A0 A1).td 0 d c i = iprop(∃ ou' oi', ⌜Cert.Proof.KernelIdeal.ScTile0.tileVal1 d (pt0 (Fin.cast (nCore_eq (F := F) 0) c) (Fin.cast (nSub_eq (F := F) 0) i)) (cond2_pt0 (Fin.cast (nCore_eq (F := F) 0) c) (Fin.cast (nSub_eq (F := F) 0) i) h) (A0 d).fu (A0 d).fi (A0 d).gu (A0 d).gi ou' oi'⌝ ∗ Cert.Proof.KernelIdeal.ScTile0.res1 d (pt0 (Fin.cast (nCore_eq (F := F) 0) c) (Fin.cast (nSub_eq (F := F) 0) i)) (cond2_pt0 (Fin.cast (nCore_eq (F := F) 0) c) (Fin.cast (nSub_eq (F := F) 0) i) h) (tq (Fin.cast (nCore_eq (F := F) 0) c) (Fin.cast (nSub_eq (F := F) 0) i)) (A0 d).fu (A0 d).fi (A0 d).gu (A0 d).gi ou' oi') := by
      show td0 d (A0 d) _ _ = _
      unfold td0; rw [dif_neg h]
    rw [e, e']
    exact (hb1 d (pt0 (Fin.cast (nCore_eq (F := F) 0) c) (Fin.cast (nSub_eq (F := F) 0) i)) hF (cond2_pt0 (Fin.cast (nCore_eq (F := F) 0) c) (Fin.cast (nSub_eq (F := F) 0) i) h) (tq (Fin.cast (nCore_eq (F := F) 0) c) (Fin.cast (nSub_eq (F := F) 0) i)) _ _ _ _ _ _ (hpre d) O W hO).trans (wp_mono frame _ _ fun _ => obl_post)

set_option maxRecDepth 16384 in
theorem tileObl1 (hF : (K (F := F)).Facts)
    (hb0 : Cert.Proof.KernelIdeal.ScTile1.TileBodyV0 F UU) (hb1 : Cert.Proof.KernelIdeal.ScTile1.TileBodyV1 F UU)
    (hpre : ∀ d, Cert.Proof.KernelIdeal.ScTile1.PreOK d (A1 d).gu (A1 d).gi) :
    (K (F := F)).TileObl (D (F := F)) 𝒱 (P A0 A1) v₀ 1 := by
  intro d c i O W hO _ _
  simp only [show (P A0 A1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  by_cases h : (Fin.cast (nCore_eq (F := F) 1) c).val = 0
  · have e : (P A0 A1).go 1 d c i = Cert.Proof.KernelIdeal.ScTile1.res0 d (pt1 (Fin.cast (nCore_eq (F := F) 1) c) (Fin.cast (nSub_eq (F := F) 1) i)) (cond1_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi (A1 d).ou (A1 d).oi := by
      show go1 d (A1 d) _ _ = _
      unfold go1; rw [dif_pos h]
    have e' : (P A0 A1).td 1 d c i = iprop(∃ ou' oi', ⌜Cert.Proof.KernelIdeal.ScTile1.tileVal0 d (pt1 (Fin.cast (nCore_eq (F := F) 1) c) (Fin.cast (nSub_eq (F := F) 1) i)) (cond1_pt1 (Fin.cast (nCore_eq (F := F) 1) c) (Fin.cast (nSub_eq (F := F) 1) i) h) (A1 d).fu (A1 d).fi (A1 d).gu (A1 d).gi ou' oi'⌝ ∗ Cert.Proof.KernelIdeal.ScTile1.res0 d (pt1 (Fin.cast (nCore_eq (F := F) 1) c) (Fin.cast (nSub_eq (F := F) 1) i)) (cond1_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi ou' oi') := by
      show td1 d (A1 d) _ _ = _
      unfold td1; rw [dif_pos h]
    rw [e, e']
    exact (hb0 d (pt1 (Fin.cast (nCore_eq (F := F) 1) c) (Fin.cast (nSub_eq (F := F) 1) i)) hF (cond1_pt1 (Fin.cast (nCore_eq (F := F) 1) c) (Fin.cast (nSub_eq (F := F) 1) i) h) (tq (Fin.cast (nCore_eq (F := F) 1) c) (Fin.cast (nSub_eq (F := F) 1) i)) _ _ _ _ _ _ (hpre d) O W hO).trans (wp_mono frame _ _ fun _ => obl_post)
  · have e : (P A0 A1).go 1 d c i = Cert.Proof.KernelIdeal.ScTile1.res1 d (pt1 (Fin.cast (nCore_eq (F := F) 1) c) (Fin.cast (nSub_eq (F := F) 1) i)) (cond2_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi (A1 d).ou (A1 d).oi := by
      show go1 d (A1 d) _ _ = _
      unfold go1; rw [dif_neg h]
    have e' : (P A0 A1).td 1 d c i = iprop(∃ ou' oi', ⌜Cert.Proof.KernelIdeal.ScTile1.tileVal1 d (pt1 (Fin.cast (nCore_eq (F := F) 1) c) (Fin.cast (nSub_eq (F := F) 1) i)) (cond2_pt1 (Fin.cast (nCore_eq (F := F) 1) c) (Fin.cast (nSub_eq (F := F) 1) i) h) (A1 d).fu (A1 d).fi (A1 d).gu (A1 d).gi ou' oi'⌝ ∗ Cert.Proof.KernelIdeal.ScTile1.res1 d (pt1 (Fin.cast (nCore_eq (F := F) 1) c) (Fin.cast (nSub_eq (F := F) 1) i)) (cond2_pt1 (Fin.cast (nCore_eq (F := F) 1) c) (Fin.cast (nSub_eq (F := F) 1) i) h) (tq (Fin.cast (nCore_eq (F := F) 1) c) (Fin.cast (nSub_eq (F := F) 1) i)) (A1 d).fu (A1 d).fi (A1 d).gu (A1 d).gi ou' oi') := by
      show td1 d (A1 d) _ _ = _
      unfold td1; rw [dif_neg h]
    rw [e, e']
    exact (hb1 d (pt1 (Fin.cast (nCore_eq (F := F) 1) c) (Fin.cast (nSub_eq (F := F) 1) i)) hF (cond2_pt1 (Fin.cast (nCore_eq (F := F) 1) c) (Fin.cast (nSub_eq (F := F) 1) i) h) (tq (Fin.cast (nCore_eq (F := F) 1) c) (Fin.cast (nSub_eq (F := F) 1) i)) _ _ _ _ _ _ (hpre d) O W hO).trans (wp_mono frame _ _ fun _ => obl_post)

/-- Every call's tiles meet the launch theorem's obligation. -/
theorem tileObl (hF : (K (F := F)).Facts)
    (hb00 : Cert.Proof.KernelIdeal.ScTile0.TileBodyV0 F UU) (hb01 : Cert.Proof.KernelIdeal.ScTile0.TileBodyV1 F UU)
    (hb10 : Cert.Proof.KernelIdeal.ScTile1.TileBodyV0 F UU) (hb11 : Cert.Proof.KernelIdeal.ScTile1.TileBodyV1 F UU)
    (hpre0 : ∀ d, Cert.Proof.KernelIdeal.ScTile0.PreOK d (A0 d).gu (A0 d).gi)
    (hpre1 : ∀ d, Cert.Proof.KernelIdeal.ScTile1.PreOK d (A1 d).gu (A1 d).gi) :
    ∀ q, (K (F := F)).kind q = .scVector → (K (F := F)).TileObl (D (F := F)) 𝒱 (P A0 A1) v₀ q := fun q _ =>
  match q with
  | 0 => tileObl0 A0 A1 hF hb00 hb01 hpre0
  | 1 => tileObl1 A0 A1 hF hb10 hb11 hpre1

end Cert.KernelIdeal.LaunchV

end
-- ==== Proof.RunI.lean ====
/-
  The SparseCore program's run: every weakly fair execution of its thirty-five threads terminates, nothing faulting,
  and leaves the six argument arrays as they were.
-/
import proofs.«204681_g65575560675685_cont_9to1_m_144_57_alg».proof.Proof.HmainTopI
import proofs.«204681_g65575560675685_cont_9to1_m_144_57_alg».proof.Proof.TileOblI

noncomputable section

namespace Cert.KernelIdeal.Launch

open Cert.KernelIdeal Cert.KernelIdeal.Gen Cert.KernelIdeal.Setup Cert.KernelIdeal.HostOps Cert.KernelIdeal.MainTc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig (HIx 2) (Elt F) ℕ UU ℕ

omit [FloatOps F] in
theorem argRefs_sub : argRefs ⊆ Pipeline.ucRefs τ sig := by
  intro b hb
  simp only [argRefs, Finset.mem_insert, Finset.mem_singleton] at hb
  rcases hb with rfl | rfl | rfl | rfl | rfl | rfl <;>
    exact Finset.mem_filter.mpr ⟨StableHlo.devRef_mem_tcRefs _, by decide⟩

/-- What the final memory shows of device `d`: its six argument arrays at the launch's contents. -/
def fq (d : Dev nD) (s' : Phys nD τ sig (Elt F)) : Prop := ∀ b ∈ argRefs, s'.mem.mem (d, b) = m (d, b)

omit [FloatOps F] in
theorem hfin (d : Dev nD) (s' : Phys nD τ sig (Elt F)) : iprop(FIN m d ∗ SI s') ⊢ (⌜fq m d s'⌝ : sProp 𝕄) := by
  unfold FIN StableHlo.held
  iintro ⟨⟨%Vf, %hVf, Hheld⟩, HSI⟩
  ihave %h := (SI_pointsTo_bufs_agree (st := s') (c := d) (qs := fun _ => fullShare) (F := Vf) (Pipeline.ucRefs τ sig)) $$ [HSI Hheld]
  · isplitl [HSI]; · iexact HSI
    iexact Hheld
  ipureintro
  intro b hb
  rw [h b (argRefs_sub hb), hVf b hb]

/-- The claim's post: on every device the six argument arrays are unchanged. -/
def QC : PUnit × MemSt nD τ sig (Elt F) → Prop := fun r => ∀ c : Dev nD, ∀ b ∈ argRefs, r.2.mem (c, b) = m (c, b)

/-- The ingredients of the run: one tile's task on each core of each call, the operands' split and join, the two
    TensorCore regions as steps, and that the host stretch leaves the arguments alone and the index operands in range. -/
structure Parts (F : FTy → Type) [FloatOps F] (m : (ℓ : Loc nD τ sig) → Buf (Elt F) ℓ) where
  hb00 : Cert.Proof.KernelIdeal.ScTile0.TileBody0 F UU
  hb01 : Cert.Proof.KernelIdeal.ScTile0.TileBody1 F UU
  hb10 : Cert.Proof.KernelIdeal.ScTile1.TileBody0 F UU
  hb11 : Cert.Proof.KernelIdeal.ScTile1.TileBody1 F UU
  hs0 : Split0 F
  hj0 : Join0 F
  hs1 : Split1 F
  hj1 : Join1 F
  ex0 : Dev nD → Waits sig (HIx 2) → Valuation τ sig (Elt F) → Valuation τ sig (Elt F)
  ex1 : Dev nD → Waits sig (HIx 2) → Valuation τ sig (Elt F) → Valuation τ sig (Elt F)
  hr0 : RegionStep (F := F) 0 ex0
  hr1 : RegionStep (F := F) 1 ex1
  hex0 : ∀ d Wt W (b : DevRef τ sig), b ≠ Proc.devRef .tc main_v96 → ex0 d Wt W b = W b
  hex1 : ∀ d Wt W (b : DevRef τ sig), b ≠ Proc.devRef .tc main_v97 → ex1 d Wt W b = W b
  hkeep : ∀ d, ∀ b ∈ argRefs, V₁ m d b = V₀ m d b
  hpre0 : ∀ d, Cert.Proof.KernelIdeal.ScTile0.PreOK d (A0 m d).gu (A0 m d).gi
  hpre1 : ∀ d, Cert.Proof.KernelIdeal.ScTile1.PreOK d (A1 m d).gu (A1 m d).gi

theorem run_main [∀ e, Nonempty (Elt F e)] (hp : Parts F m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (A0 m) (A1 m)) facts v₀
    (fun q hq => match q with | 0 => nomatch hq | 1 => nomatch hq)
    (tileObl (A0 m) (A1 m) facts hp.hb00 hp.hb01 hp.hb10 hp.hb11 hp.hpre0 hp.hpre1)
    (fun q _ => SparseCore.Cfg.VecSplit.of_plain (vecSplit (A0 m) (A1 m) q))
    m ρ main (fun d => Gp d) (FIN m) (u₀ (F := F)) (hu₀ (A0 m) (A1 m))
    (hmain m ρ hp.hs0 hp.hj0 hp.hs1 hp.hj1 hp.ex0 hp.ex1 hp.hr0 hp.hr1 hp.hex0 hp.hex1 hp.hkeep) (fq m) (hfin m) (QC m) (fun _ h => h)

end Cert.KernelIdeal.Launch

end
-- ==== Proof.HostValKeep.lean ====
import proofs.«204681_g65575560675685_cont_9to1_m_144_57_alg».proof.Proof.HostOpsI
import Idealize.ShloMosaic.Lib.StableHlo.Run
import Idealize.ShloMosaic.Lib.Pipeline.Frame

noncomputable section

namespace Cert.KernelIdeal.HostVal

open Cert.KernelIdeal Cert.KernelIdeal.HostOps Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

/-! # Buffers the host operations leave alone

Every buffer of the program is written by exactly one operation, and the operations are numbered in program order: a
stretch of operations writes only buffers whose index lies in the stretch's own range. A reference outside that range
therefore keeps its contents across the stretch. The statements are generic in the reference. -/

/-- Two references whose indices differ are different; stated through an index range. -/
theorem ne_of_range {r y : Ref sig .tc} {lo hi : Nat} (hr : r.idx.val < lo ∨ hi < r.idx.val)
    (hy : lo ≤ y.idx.val ∧ y.idx.val ≤ hi) : r ≠ y := by
  intro e; subst e; omega

/-- One pass over a literal list of operations: each leaves a reference outside the range as it was. -/
macro "keeps_simp " hr:term : tactic =>
  `(tactic| simp (disch := exact ne_of_range $hr (by decide)) only [after_cons, after_nil,
      nullary_result_ne', unary_result_ne', binary_result_ne', ternary_result_ne', quaternary_result_ne', reshape_result_ne',
      nary_result_ne', unaryIndexed_result_ne', binaryIndexed_result_ne'])

theorem keeps_c0_split0 (r : Ref sig .tc) (hr : r.idx.val < 17 ∨ 496 < r.idx.val) (a0) (W : Valuation τ sig (Elt F)) :
    after (fn_threefry_split.seg0 (F := F) a0 main_call0.call0) W (Proc.devRef .tc r) = W (Proc.devRef .tc r) := by
  unfold fn_threefry_split.seg0
  keeps_simp hr

theorem keeps_c0_tfA0 (r : Ref sig .tc) (hr : r.idx.val < 17 ∨ 496 < r.idx.val) (a0 a1 a2 a3) (W : Valuation τ sig (Elt F)) :
    after (fn_threefry2x32.ops0 (F := F) a0 a1 a2 a3 main_call0.call0.call0) W (Proc.devRef .tc r) = W (Proc.devRef .tc r) := by
  unfold fn_threefry2x32.ops0
  keeps_simp hr

theorem keeps_c0_tfA1 (r : Ref sig .tc) (hr : r.idx.val < 17 ∨ 496 < r.idx.val) (a0 a1 a2 a3) (W : Valuation τ sig (Elt F)) :
    after (fn_threefry2x32.ops1 (F := F) a0 a1 a2 a3 main_call0.call0.call0) W (Proc.devRef .tc r) = W (Proc.devRef .tc r) := by
  unfold fn_threefry2x32.ops1
  keeps_simp hr

theorem keeps_c0_tfA2 (r : Ref sig .tc) (hr : r.idx.val < 17 ∨ 496 < r.idx.val) (a0 a1 a2 a3) (W : Valuation τ sig (Elt F)) :
    after (fn_threefry2x32.ops2 (F := F) a0 a1 a2 a3 main_call0.call0.call0) W (Proc.devRef .tc r) = W (Proc.devRef .tc r) := by
  unfold fn_threefry2x32.ops2
  keeps_simp hr

theorem keeps_c0_tfA3 (r : Ref sig .tc) (hr : r.idx.val < 17 ∨ 496 < r.idx.val) (a0 a1 a2 a3) (W : Valuation τ sig (Elt F)) :
    after (fn_threefry2x32.ops3 (F := F) a0 a1 a2 a3 main_call0.call0.call0) W (Proc.devRef .tc r) = W (Proc.devRef .tc r) := by
  unfold fn_threefry2x32.ops3
  keeps_simp hr

theorem keeps_c0_split1 (r : Ref sig .tc) (hr : r.idx.val < 17 ∨ 496 < r.idx.val) (a0) (W : Valuation τ sig (Elt F)) :
    after (fn_threefry_split.seg1 (F := F) a0 main_call0.call0) W (Proc.devRef .tc r) = W (Proc.devRef .tc r) := by
  unfold fn_threefry_split.seg1
  keeps_simp hr

theorem keeps_c0_shuf0 (r : Ref sig .tc) (hr : r.idx.val < 17 ∨ 496 < r.idx.val) (a0 a1) (W : Valuation τ sig (Elt F)) :
    after (fn_shuffle.seg0 (F := F) a0 a1 main_call0) W (Proc.devRef .tc r) = W (Proc.devRef .tc r) := by
  unfold fn_shuffle.seg0
  keeps_simp hr

theorem keeps_c0_tfB0 (r : Ref sig .tc) (hr : r.idx.val < 17 ∨ 496 < r.idx.val) (a0 a1 a2 a3) (W : Valuation τ sig (Elt F)) :
    after (fn_threefry2x32_0.ops0 (F := F) a0 a1 a2 a3 main_call0.call1) W (Proc.devRef .tc r) = W (Proc.devRef .tc r) := by
  unfold fn_threefry2x32_0.ops0
  keeps_simp hr

theorem keeps_c0_tfB1 (r : Ref sig .tc) (hr : r.idx.val < 17 ∨ 496 < r.idx.val) (a0 a1 a2 a3) (W : Valuation τ sig (Elt F)) :
    after (fn_threefry2x32_0.ops1 (F := F) a0 a1 a2 a3 main_call0.call1) W (Proc.devRef .tc r) = W (Proc.devRef .tc r) := by
  unfold fn_threefry2x32_0.ops1
  keeps_simp hr

theorem keeps_c0_tfB2 (r : Ref sig .tc) (hr : r.idx.val < 17 ∨ 496 < r.idx.val) (a0 a1 a2 a3) (W : Valuation τ sig (Elt F)) :
    after (fn_threefry2x32_0.ops2 (F := F) a0 a1 a2 a3 main_call0.call1) W (Proc.devRef .tc r) = W (Proc.devRef .tc r) := by
  unfold fn_threefry2x32_0.ops2
  keeps_simp hr

theorem keeps_c0_tfB3 (r : Ref sig .tc) (hr : r.idx.val < 17 ∨ 496 < r.idx.val) (a0 a1 a2 a3) (W : Valuation τ sig (Elt F)) :
    after (fn_threefry2x32_0.ops3 (F := F) a0 a1 a2 a3 main_call0.call1) W (Proc.devRef .tc r) = W (Proc.devRef .tc r) := by
  unfold fn_threefry2x32_0.ops3
  keeps_simp hr

theorem keeps_c0_shuf1 (r : Ref sig .tc) (hr : r.idx.val < 17 ∨ 496 < r.idx.val) (a0 a1) (W : Valuation τ sig (Elt F)) :
    after (fn_shuffle.seg1 (F := F) a0 a1 main_call0) W (Proc.devRef .tc r) = W (Proc.devRef .tc r) := by
  unfold fn_shuffle.seg1
  keeps_simp hr

/-- The whole shuffle (call 0) leaves a reference outside its buffers' range as it was. -/
theorem keeps_shuffle0 (r : Ref sig .tc) (hr : r.idx.val < 17 ∨ 496 < r.idx.val) (a0 a1) (W : Valuation τ sig (Elt F)) :
    after (fn_shuffle.ops (F := F) a0 a1 main_call0) W (Proc.devRef .tc r) = W (Proc.devRef .tc r) := by
  simp only [fn_shuffle.ops, fn_threefry_split.ops, fn_threefry2x32.ops, fn_threefry2x32_0.ops, StableHlo.after_append]
  rw [keeps_c0_shuf1 r hr, keeps_c0_tfB3 r hr, keeps_c0_tfB2 r hr, keeps_c0_tfB1 r hr, keeps_c0_tfB0 r hr,
    keeps_c0_shuf0 r hr, keeps_c0_split1 r hr, keeps_c0_tfA3 r hr, keeps_c0_tfA2 r hr, keeps_c0_tfA1 r hr,
    keeps_c0_tfA0 r hr, keeps_c0_split0 r hr]

theorem keeps_c1_split0 (r : Ref sig .tc) (hr : r.idx.val < 508 ∨ 987 < r.idx.val) (a0) (W : Valuation τ sig (Elt F)) :
    after (fn_threefry_split.seg0 (F := F) a0 main_call1.call0) W (Proc.devRef .tc r) = W (Proc.devRef .tc r) := by
  unfold fn_threefry_split.seg0
  keeps_simp hr

theorem keeps_c1_tfA0 (r : Ref sig .tc) (hr : r.idx.val < 508 ∨ 987 < r.idx.val) (a0 a1 a2 a3) (W : Valuation τ sig (Elt F)) :
    after (fn_threefry2x32.ops0 (F := F) a0 a1 a2 a3 main_call1.call0.call0) W (Proc.devRef .tc r) = W (Proc.devRef .tc r) := by
  unfold fn_threefry2x32.ops0
  keeps_simp hr

theorem keeps_c1_tfA1 (r : Ref sig .tc) (hr : r.idx.val < 508 ∨ 987 < r.idx.val) (a0 a1 a2 a3) (W : Valuation τ sig (Elt F)) :
    after (fn_threefry2x32.ops1 (F := F) a0 a1 a2 a3 main_call1.call0.call0) W (Proc.devRef .tc r) = W (Proc.devRef .tc r) := by
  unfold fn_threefry2x32.ops1
  keeps_simp hr

theorem keeps_c1_tfA2 (r : Ref sig .tc) (hr : r.idx.val < 508 ∨ 987 < r.idx.val) (a0 a1 a2 a3) (W : Valuation τ sig (Elt F)) :
    after (fn_threefry2x32.ops2 (F := F) a0 a1 a2 a3 main_call1.call0.call0) W (Proc.devRef .tc r) = W (Proc.devRef .tc r) := by
  unfold fn_threefry2x32.ops2
  keeps_simp hr

theorem keeps_c1_tfA3 (r : Ref sig .tc) (hr : r.idx.val < 508 ∨ 987 < r.idx.val) (a0 a1 a2 a3) (W : Valuation τ sig (Elt F)) :
    after (fn_threefry2x32.ops3 (F := F) a0 a1 a2 a3 main_call1.call0.call0) W (Proc.devRef .tc r) = W (Proc.devRef .tc r) := by
  unfold fn_threefry2x32.ops3
  keeps_simp hr

theorem keeps_c1_split1 (r : Ref sig .tc) (hr : r.idx.val < 508 ∨ 987 < r.idx.val) (a0) (W : Valuation τ sig (Elt F)) :
    after (fn_threefry_split.seg1 (F := F) a0 main_call1.call0) W (Proc.devRef .tc r) = W (Proc.devRef .tc r) := by
  unfold fn_threefry_split.seg1
  keeps_simp hr

theorem keeps_c1_shuf0 (r : Ref sig .tc) (hr : r.idx.val < 508 ∨ 987 < r.idx.val) (a0 a1) (W : Valuation τ sig (Elt F)) :
    after (fn_shuffle.seg0 (F := F) a0 a1 main_call1) W (Proc.devRef .tc r) = W (Proc.devRef .tc r) := by
  unfold fn_shuffle.seg0
  keeps_simp hr

theorem keeps_c1_tfB0 (r : Ref sig .tc) (hr : r.idx.val < 508 ∨ 987 < r.idx.val) (a0 a1 a2 a3) (W : Valuation τ sig (Elt F)) :
    after (fn_threefry2x32_0.ops0 (F := F) a0 a1 a2 a3 main_call1.call1) W (Proc.devRef .tc r) = W (Proc.devRef .tc r) := by
  unfold fn_threefry2x32_0.ops0
  keeps_simp hr

theorem keeps_c1_tfB1 (r : Ref sig .tc) (hr : r.idx.val < 508 ∨ 987 < r.idx.val) (a0 a1 a2 a3) (W : Valuation τ sig (Elt F)) :
    after (fn_threefry2x32_0.ops1 (F := F) a0 a1 a2 a3 main_call1.call1) W (Proc.devRef .tc r) = W (Proc.devRef .tc r) := by
  unfold fn_threefry2x32_0.ops1
  keeps_simp hr

theorem keeps_c1_tfB2 (r : Ref sig .tc) (hr : r.idx.val < 508 ∨ 987 < r.idx.val) (a0 a1 a2 a3) (W : Valuation τ sig (Elt F)) :
    after (fn_threefry2x32_0.ops2 (F := F) a0 a1 a2 a3 main_call1.call1) W (Proc.devRef .tc r) = W (Proc.devRef .tc r) := by
  unfold fn_threefry2x32_0.ops2
  keeps_simp hr

theorem keeps_c1_tfB3 (r : Ref sig .tc) (hr : r.idx.val < 508 ∨ 987 < r.idx.val) (a0 a1 a2 a3) (W : Valuation τ sig (Elt F)) :
    after (fn_threefry2x32_0.ops3 (F := F) a0 a1 a2 a3 main_call1.call1) W (Proc.devRef .tc r) = W (Proc.devRef .tc r) := by
  unfold fn_threefry2x32_0.ops3
  keeps_simp hr

theorem keeps_c1_shuf1 (r : Ref sig .tc) (hr : r.idx.val < 508 ∨ 987 < r.idx.val) (a0 a1) (W : Valuation τ sig (Elt F)) :
    after (fn_shuffle.seg1 (F := F) a0 a1 main_call1) W (Proc.devRef .tc r) = W (Proc.devRef .tc r) := by
  unfold fn_shuffle.seg1
  keeps_simp hr

/-- The whole shuffle (call 1) leaves a reference outside its buffers' range as it was. -/
theorem keeps_shuffle1 (r : Ref sig .tc) (hr : r.idx.val < 508 ∨ 987 < r.idx.val) (a0 a1) (W : Valuation τ sig (Elt F)) :
    after (fn_shuffle.ops (F := F) a0 a1 main_call1) W (Proc.devRef .tc r) = W (Proc.devRef .tc r) := by
  simp only [fn_shuffle.ops, fn_threefry_split.ops, fn_threefry2x32.ops, fn_threefry2x32_0.ops, StableHlo.after_append]
  rw [keeps_c1_shuf1 r hr, keeps_c1_tfB3 r hr, keeps_c1_tfB2 r hr, keeps_c1_tfB1 r hr, keeps_c1_tfB0 r hr,
    keeps_c1_shuf0 r hr, keeps_c1_split1 r hr, keeps_c1_tfA3 r hr, keeps_c1_tfA2 r hr, keeps_c1_tfA1 r hr,
    keeps_c1_tfA0 r hr, keeps_c1_split0 r hr]

theorem keeps_mainOps0 (r : Ref sig .tc) (hr : r.idx.val < 6 ∨ 16 < r.idx.val)  (W : Valuation τ sig (Elt F)) :
    after (mainOps0 (F := F)) W (Proc.devRef .tc r) = W (Proc.devRef .tc r) := by
  unfold mainOps0
  keeps_simp hr

theorem keeps_mainOps1 (r : Ref sig .tc) (hr : r.idx.val < 497 ∨ 507 < r.idx.val)  (W : Valuation τ sig (Elt F)) :
    after (mainOps1 (F := F)) W (Proc.devRef .tc r) = W (Proc.devRef .tc r) := by
  unfold mainOps1
  keeps_simp hr

theorem keeps_mainOps2 (r : Ref sig .tc) (hr : r.idx.val < 988 ∨ 989 < r.idx.val)  (W : Valuation τ sig (Elt F)) :
    after (mainOps2 (F := F)) W (Proc.devRef .tc r) = W (Proc.devRef .tc r) := by
  unfold mainOps2
  keeps_simp hr

theorem keeps_mainOps3 (r : Ref sig .tc) (hr : r.idx.val < 993 ∨ 1002 < r.idx.val)  (W : Valuation τ sig (Elt F)) :
    after (mainOps3 (F := F)) W (Proc.devRef .tc r) = W (Proc.devRef .tc r) := by
  unfold mainOps3
  keeps_simp hr

theorem keeps_mainOps4 (r : Ref sig .tc) (hr : r.idx.val < 1006 ∨ 1045 < r.idx.val)  (W : Valuation τ sig (Elt F)) :
    after (mainOps4 (F := F)) W (Proc.devRef .tc r) = W (Proc.devRef .tc r) := by
  unfold mainOps4
  keeps_simp hr

theorem keeps_mainOps5 (r : Ref sig .tc) (hr : r.idx.val < 1046 ∨ 1085 < r.idx.val)  (W : Valuation τ sig (Elt F)) :
    after (mainOps5 (F := F)) W (Proc.devRef .tc r) = W (Proc.devRef .tc r) := by
  unfold mainOps5
  keeps_simp hr

theorem keeps_mainOps6 (r : Ref sig .tc) (hr : r.idx.val < 1086 ∨ 1091 < r.idx.val)  (W : Valuation τ sig (Elt F)) :
    after (mainOps6 (F := F)) W (Proc.devRef .tc r) = W (Proc.devRef .tc r) := by
  unfold mainOps6
  keeps_simp hr

theorem keeps_argsort2 (r : Ref sig .tc) (hr : r.idx.val < 990 ∨ 992 < r.idx.val) (a0) (W : Valuation τ sig (Elt F)) :
    after (fn_argsort.ops (F := F) a0 main_call2) W (Proc.devRef .tc r) = W (Proc.devRef .tc r) := by
  unfold fn_argsort.ops fn_argsort.seg0
  keeps_simp hr

theorem keeps_argsort3 (r : Ref sig .tc) (hr : r.idx.val < 1003 ∨ 1005 < r.idx.val) (a0) (W : Valuation τ sig (Elt F)) :
    after (fn_argsort.ops (F := F) a0 main_call3) W (Proc.devRef .tc r) = W (Proc.devRef .tc r) := by
  unfold fn_argsort.ops fn_argsort.seg0
  keeps_simp hr

/-- The host stretch as a composition of its eleven parts, in program order. -/
theorem after_hostOps (V : Valuation τ sig (Elt F)) :
    after (hostOps (F := F)) V =
      after mainOps6 (after mainOps5 (after mainOps4 (after (fn_argsort.ops (.of main_v8) main_call3)
        (after mainOps3 (after (fn_argsort.ops (.of main_v17) main_call2) (after mainOps2
          (after (fn_shuffle.ops (.of main_v15) (.of main_v16) main_call1) (after mainOps1
            (after (fn_shuffle.ops (.of main_v6) (.of main_v7) main_call0) (after mainOps0 V)))))))))) := by
  unfold hostOps
  simp only [StableHlo.after_append]

/-- No host operation writes an argument array (indices 0 to 5), nor anything past the last host result. -/
theorem keeps_hostOps (r : Ref sig .tc) (hr : r.idx.val < 6 ∨ 1091 < r.idx.val) (V : Valuation τ sig (Elt F)) :
    after (hostOps (F := F)) V (Proc.devRef .tc r) = V (Proc.devRef .tc r) := by
  rw [after_hostOps, keeps_mainOps6 r (by omega), keeps_mainOps5 r (by omega), keeps_mainOps4 r (by omega),
    keeps_argsort3 r (by omega), keeps_mainOps3 r (by omega), keeps_argsort2 r (by omega), keeps_mainOps2 r (by omega),
    keeps_shuffle1 r (by omega), keeps_mainOps1 r (by omega), keeps_shuffle0 r (by omega), keeps_mainOps0 r (by omega)]

end Cert.KernelIdeal.HostVal
end
-- ==== Proof.HostValIdx.lean ====
import proofs.«204681_g65575560675685_cont_9to1_m_144_57_alg».proof.Proof.HostValKeep

noncomputable section

namespace Cert.KernelIdeal.HostVal

open Cert.KernelIdeal Cert.KernelIdeal.HostOps Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

/-! # The index operands of the two gather calls, as terms of the adjacency arrays

Each adjacency array (100000 words) is padded with zeros to 102400 words and viewed as 800 rows of 128. Each half of
400 rows is dealt to 32 workers: the first sixteen take eighteen rows each (288 rows), the other sixteen take seven
rows each (112 rows) and keep zeros in their remaining eleven rows. -/

/-- Reads that remain inside the parts of a concatenation after the one-pass evaluation: done by rewriting. -/
macro "after_reads" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- `zeros(102400).at[:100000].set(adj)`, viewed as 800 rows of 128 words. -/
def padRows (adj : IVec S100000 32) : IVec S800x128 32 :=
  fun i => shapeCast S800x128 (Host.scatter scatter_S102400_S1_S100000_0_n_0_0 (fun _ b => b)
    (broadcastInDim S102400 ![] bcast_S_S102400 (constantI S_ 32 0#32))
    (broadcastInDim S1 ![] bcast_S_S1 (constantI S_ 32 0#32)) adj) shapeCasts_S102400_S800x128 i

/-- Rows 0 to 399. -/
def half0 (f : IVec S800x128 32) : IVec S400x128 32 :=
  extractStridedSlice S400x128 ![0, 0] f slices_S800x128_S400x128_0_0

/-- Rows 400 to 799. -/
def half1 (f : IVec S800x128 32) : IVec S400x128 32 :=
  extractStridedSlice S400x128 ![400, 0] f slices_S800x128_S400x128_400_0

/-- The first 288 rows of a half as sixteen blocks of eighteen rows. -/
def upd18 (fh : IVec S400x128 32) : IVec S16x18x128 32 :=
  fun i => shapeCast S16x18x128 (extractStridedSlice S288x128 ![0, 0] fh slices_S400x128_S288x128_0_0) shapeCasts_S288x128_S16x18x128 i

/-- The last 112 rows of a half as sixteen blocks of seven rows. -/
def upd7 (fh : IVec S400x128 32) : IVec S16x7x128 32 :=
  fun i => shapeCast S16x7x128 (extractStridedSlice S112x128 ![288, 0] fh slices_S400x128_S112x128_288_0) shapeCasts_S112x128_S16x7x128 i

/-- Zeros with the sixteen blocks of eighteen rows written at workers 0 to 15. -/
def dealA (u : IVec S16x18x128 32) : IVec S32x18x128 32 :=
  Host.scatter scatter_S32x18x128_S1_S16x18x128_012_n_0_0 (fun _ b => b)
    (broadcastInDim S32x18x128 ![] bcast_S_S32x18x128 (constantI S_ 32 0#32))
    (broadcastInDim S1 ![] bcast_S_S1 (constantI S_ 32 0#32)) u

/-- The sixteen blocks of seven rows written at workers 16 to 31, rows 0 to 6. -/
def dealB (big : IVec S32x18x128 32) (u : IVec S16x7x128 32) : IVec S32x18x128 32 :=
  Host.scatter scatter_S32x18x128_S2_S16x7x128_012_n_01_0 (fun _ b => b) big
    (concatenate S2 0 [⟨S1, broadcastInDim S1 ![] bcast_S_S1 (constantI S_ 32 16#32)⟩,
      ⟨S1, broadcastInDim S1 ![] bcast_S_S1 (constantI S_ 32 0#32)⟩] concatenates_S1_S1_S2_d0) u

/-- One half of the padded array dealt to the 32 workers. -/
def dealHalf (fh : IVec S400x128 32) : IVec S32x18x128 32 := dealB (dealA (upd18 fh)) (upd7 fh)

/-- The index operand of the first gather call (rows 0 to 399 of the padded array). -/
def idxOperand0 (adj : IVec S100000 32) : IVec S32x18x128 32 := dealHalf (half0 (padRows adj))

/-- The index operand of the second gather call (rows 400 to 799). -/
def idxOperand1 (adj : IVec S100000 32) : IVec S32x18x128 32 := dealHalf (half1 (padRows adj))

section Stretch
variable (W : Valuation τ sig (Elt F))

/-! ## The last three stretches of host operations, from any contents `W` -/

theorem val_v53 : after (mainOps4 (F := F)) W (Proc.devRef .tc main_v53) = idxOperand0 (W (Proc.devRef .tc main_arg4)) := by
  unfold mainOps4
  after_results_simp
  after_reads
  rfl

theorem val_v54 : after (mainOps4 (F := F)) W (Proc.devRef .tc main_v54) = half1 (padRows (W (Proc.devRef .tc main_arg4))) := by
  unfold mainOps4
  after_results_simp
  rfl

theorem val_v59 : after (mainOps4 (F := F)) W (Proc.devRef .tc main_v59)
    = dealA (upd18 (half1 (padRows (W (Proc.devRef .tc main_arg4))))) := by
  unfold mainOps4
  after_results_simp
  rfl

theorem val_v65 : after (mainOps5 (F := F)) W (Proc.devRef .tc main_v65)
    = dealB (W (Proc.devRef .tc main_v59)) (upd7 (W (Proc.devRef .tc main_v54))) := by
  unfold mainOps5
  after_results_simp
  after_reads
  rfl

theorem val_v81 : after (mainOps5 (F := F)) W (Proc.devRef .tc main_v81) = idxOperand0 (W (Proc.devRef .tc main_arg3)) := by
  unfold mainOps5
  after_results_simp
  after_reads
  rfl

theorem val_v87 : after (mainOps5 (F := F)) W (Proc.devRef .tc main_v87)
    = dealA (upd18 (half1 (padRows (W (Proc.devRef .tc main_arg3))))) := by
  unfold mainOps5
  after_results_simp
  rfl

theorem val_v89 : after (mainOps5 (F := F)) W (Proc.devRef .tc main_v89)
    = upd7 (half1 (padRows (W (Proc.devRef .tc main_arg3)))) := by
  unfold mainOps5
  after_results_simp
  rfl

theorem val_v93 : after (mainOps6 (F := F)) W (Proc.devRef .tc main_v93)
    = dealB (W (Proc.devRef .tc main_v87)) (W (Proc.devRef .tc main_v89)) := by
  unfold mainOps6
  after_results_simp
  after_reads
  rfl

end Stretch

/-! ## The four index operands after the whole host stretch -/

section Whole
variable (V : Valuation τ sig (Elt F))

/-- The contents when the last three stretches begin: the argument arrays are still the launch's. -/
theorem pre_arg (r : Ref sig .tc) (hr : r.idx.val < 6) :
    after (fn_argsort.ops (F := F) (.of main_v8) main_call3) (after mainOps3 (after (fn_argsort.ops (.of main_v17) main_call2)
      (after mainOps2 (after (fn_shuffle.ops (.of main_v15) (.of main_v16) main_call1) (after mainOps1
        (after (fn_shuffle.ops (.of main_v6) (.of main_v7) main_call0) (after mainOps0 V))))))) (Proc.devRef .tc r)
      = V (Proc.devRef .tc r) := by
  rw [keeps_argsort3 r (by omega), keeps_mainOps3 r (by omega), keeps_argsort2 r (by omega), keeps_mainOps2 r (by omega),
    keeps_shuffle1 r (by omega), keeps_mainOps1 r (by omega), keeps_shuffle0 r (by omega), keeps_mainOps0 r (by omega)]

/-- `idx_u` of the first gather call. -/
theorem idx_u0 : after (hostOps (F := F)) V (Proc.devRef .tc main_v53) = idxOperand0 (V (Proc.devRef .tc main_arg4)) := by
  rw [after_hostOps, keeps_mainOps6 main_v53 (by decide), keeps_mainOps5 main_v53 (by decide), val_v53,
    pre_arg V main_arg4 (by decide)]

/-- `idx_u` of the second gather call. -/
theorem idx_u1 : after (hostOps (F := F)) V (Proc.devRef .tc main_v65) = idxOperand1 (V (Proc.devRef .tc main_arg4)) := by
  rw [after_hostOps, keeps_mainOps6 main_v65 (by decide), val_v65, val_v59, val_v54, pre_arg V main_arg4 (by decide)]
  rfl

/-- `idx_i` of the first gather call. -/
theorem idx_i0 : after (hostOps (F := F)) V (Proc.devRef .tc main_v81) = idxOperand0 (V (Proc.devRef .tc main_arg3)) := by
  rw [after_hostOps, keeps_mainOps6 main_v81 (by decide), val_v81, keeps_mainOps4 main_arg3 (by decide),
    pre_arg V main_arg3 (by decide)]

/-- `idx_i` of the second gather call. -/
theorem idx_i1 : after (hostOps (F := F)) V (Proc.devRef .tc main_v93) = idxOperand1 (V (Proc.devRef .tc main_arg3)) := by
  rw [after_hostOps, val_v93, val_v87, val_v89, keeps_mainOps4 main_arg3 (by decide), pre_arg V main_arg3 (by decide)]
  rfl

end Whole

/-! ## A scatter that writes the update keeps any property of all operand elements and all updates -/

/-- A scatter whose body returns the update leaves every element either an element of the operand or an update:
    a property of all of those holds of every element of the result. -/
theorem scatter_set_forall {α : Type} {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  suffices h : ∀ (l : List (Fin u.numel)) (r : s.Idx → α), (∀ i, P (r i)) →
      ∀ i, P (l.foldl (fun r n => match d.resultIdx? (u.rowMajor.symm n) idx with
        | some i => fun i' => if i' = i then (fun _ b => b) (r i) (upd (u.rowMajor.symm n)) else r i'
        | none => r) r i) from h _ x hx i
  intro l
  induction l with
  | nil => intro r hr i; exact hr i
  | cons n l ih =>
    intro r hr i
    rw [List.foldl_cons]
    apply ih
    intro i'
    cases hres : d.resultIdx? (u.rowMajor.symm n) idx with
    | none => exact hr i'
    | some k =>
      dsimp only
      split
      · exact hu _
      · exact hr _

/-! ## Every word of an index operand is a word of the adjacency array or zero -/

section Range

/-- The range of row numbers the gathers may name. -/
abbrev InRange (w : BitVec 32) : Prop := w.toNat < 100000

theorem zeros_inRange {s : Shape} (h : S_.BroadcastsInDim s ![]) (i : s.Idx) :
    InRange (broadcastInDim s ![] h (constantI S_ 32 0#32) i) := by
  show (0#32 : BitVec 32).toNat < 100000
  decide

theorem half0_mem (f : IVec S800x128 32) (k : S400x128.Idx) : ∃ r, half0 f k = f r := ⟨_, rfl⟩
theorem half1_mem (f : IVec S800x128 32) (k : S400x128.Idx) : ∃ r, half1 f k = f r := ⟨_, rfl⟩
theorem upd18_mem (fh : IVec S400x128 32) (k : S16x18x128.Idx) : ∃ r, upd18 fh k = fh r := ⟨_, rfl⟩
theorem upd7_mem (fh : IVec S400x128 32) (k : S16x7x128.Idx) : ∃ r, upd7 fh k = fh r := ⟨_, rfl⟩

theorem padRows_inRange (adj : IVec S100000 32) (h : ∀ i, InRange (adj i)) (k : S800x128.Idx) : InRange (padRows adj k) := by
  unfold padRows shapeCast
  exact scatter_set_forall _ InRange _ _ _ (fun _ => zeros_inRange _ _) h _

theorem dealHalf_inRange (fh : IVec S400x128 32) (h : ∀ k, InRange (fh k)) (j : S32x18x128.Idx) : InRange (dealHalf fh j) := by
  unfold dealHalf dealB
  refine scatter_set_forall _ InRange _ _ _ (fun i => ?_) (fun k => ?_) j
  · unfold dealA
    refine scatter_set_forall _ InRange _ _ _ (fun _ => zeros_inRange _ _) (fun k => ?_) i
    obtain ⟨r, hr⟩ := upd18_mem fh k
    rw [hr]; exact h r
  · obtain ⟨r, hr⟩ := upd7_mem fh k
    rw [hr]; exact h r

theorem idxOperand0_inRange (adj : IVec S100000 32) (h : ∀ i, InRange (adj i)) (j : S32x18x128.Idx) :
    InRange (idxOperand0 adj j) :=
  dealHalf_inRange _ (fun k => by obtain ⟨r, hr⟩ := half0_mem (padRows adj) k; rw [hr]; exact padRows_inRange adj h r) j

theorem idxOperand1_inRange (adj : IVec S100000 32) (h : ∀ i, InRange (adj i)) (j : S32x18x128.Idx) :
    InRange (idxOperand1 adj j) :=
  dealHalf_inRange _ (fun k => by obtain ⟨r, hr⟩ := half1_mem (padRows adj) k; rw [hr]; exact padRows_inRange adj h r) j

/-- If every word of the two adjacency arrays names a row below 100000, so does every word of the four index operands. -/
theorem idx_words_inRange (V : Valuation τ sig (Elt F))
    (h4 : ∀ i, ((V (Proc.devRef .tc main_arg4) : IVec S100000 32) i).toNat < 100000)
    (h3 : ∀ i, ((V (Proc.devRef .tc main_arg3) : IVec S100000 32) i).toNat < 100000) :
    (∀ j, ((after (hostOps (F := F)) V (Proc.devRef .tc main_v53) : IVec S32x18x128 32) j).toNat < 100000) ∧
    (∀ j, ((after (hostOps (F := F)) V (Proc.devRef .tc main_v81) : IVec S32x18x128 32) j).toNat < 100000) ∧
    (∀ j, ((after (hostOps (F := F)) V (Proc.devRef .tc main_v65) : IVec S32x18x128 32) j).toNat < 100000) ∧
    (∀ j, ((after (hostOps (F := F)) V (Proc.devRef .tc main_v93) : IVec S32x18x128 32) j).toNat < 100000) := by
  rw [idx_u0, idx_i0, idx_u1, idx_i1]
  exact ⟨idxOperand0_inRange _ h4, idxOperand0_inRange _ h3, idxOperand1_inRange _ h4, idxOperand1_inRange _ h3⟩

end Range

end Cert.KernelIdeal.HostVal
end
-- ==== Proof.PartsPreI.lean ====
/-
  From the precondition: the host stretch leaves the argument arrays alone, and every word of the four index operands the
  two SparseCore calls read names a row of its table.
-/
import proofs.«204681_g65575560675685_cont_9to1_m_144_57_alg».proof.Proof.RunI
import proofs.«204681_g65575560675685_cont_9to1_m_144_57_alg».proof.Proof.PreRange
import proofs.«204681_g65575560675685_cont_9to1_m_144_57_alg».proof.Proof.HostValIdx

noncomputable section

namespace Cert.KernelIdeal.Launch

open Cert.KernelIdeal Cert.KernelIdeal.Gen Cert.KernelIdeal.Setup Cert.KernelIdeal.HostOps Cert.KernelIdeal.HostVal

open Idealize.ShloMosaic
open Idealize.ShloMosaic.SparseCore (S V T)
open Idealize.ShloMosaic.SparseCore.Cfg (HIx Pay)

variable {F : FTy → Type} [FloatOps F] [Cert.Pre_input_domain.Facts]
variable (m : (ℓ : Loc nD τ sig) → Buf (Elt F) ℓ)

/-- The precondition, as Defs.lean states it of a memory: `input_domain` of the six argument arrays is all ones on every device. -/
def PreM : Prop := ∀ c : Dev nD,
  Cert.Pre_input_domain.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = (fun _ => 1#1)

theorem keep_args (d : Dev nD) : ∀ b ∈ argRefs, V₁ m d b = V₀ m d b := by
  intro b hb
  simp only [argRefs, Finset.mem_insert, Finset.mem_singleton] at hb
  unfold V₁
  rcases hb with rfl | rfl | rfl | rfl | rfl | rfl
  · exact keeps_hostOps main_arg0 (Or.inl (by decide)) _
  · exact keeps_hostOps main_arg1 (Or.inl (by decide)) _
  · exact keeps_hostOps main_arg2 (Or.inl (by decide)) _
  · exact keeps_hostOps main_arg3 (Or.inl (by decide)) _
  · exact keeps_hostOps main_arg4 (Or.inl (by decide)) _
  · exact keeps_hostOps main_arg5 (Or.inl (by decide)) _

theorem pre_ok (h : PreM m) (d : Dev nD) :
    Cert.Proof.KernelIdeal.ScTile0.PreOK d (A0 m d).gu (A0 m d).gi ∧ Cert.Proof.KernelIdeal.ScTile1.PreOK d (A1 m d).gu (A1 m d).gi := by
  obtain ⟨h3, h4⟩ := Cert.Pre_input_domain.Range.range_of_pre _ _ _ _ _ _ (h d)
  obtain ⟨a, b, c, e⟩ := idx_words_inRange (F := F) (V₀ m d) h4 h3
  unfold Cert.Proof.KernelIdeal.ScTile0.PreOK Cert.Proof.KernelIdeal.ScTile1.PreOK A0 A1 ops0Of ops1Of V₁
  generalize StableHlo.after (hostOps (F := F)) (V₀ m d) = W at a b c e ⊢
  exact ⟨⟨a, b⟩, ⟨c, e⟩⟩

end Cert.KernelIdeal.Launch

end
-- ==== Proof.RunVI.lean ====
/-
  The SparseCore program's run with every TensorCore buffer's final contents named.
-/
import proofs.«204681_g65575560675685_cont_9to1_m_144_57_alg».proof.Proof.HmainTopVI
import proofs.«204681_g65575560675685_cont_9to1_m_144_57_alg».proof.Proof.TileOblVI
import proofs.«204681_g65575560675685_cont_9to1_m_144_57_alg».proof.Proof.PartsPreI

noncomputable section

namespace Cert.KernelIdeal.LaunchV

open Cert.KernelIdeal Cert.KernelIdeal.Gen Cert.KernelIdeal.Setup Cert.KernelIdeal.HostOps Cert.KernelIdeal.MainTc Cert.KernelIdeal.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)
variable (g : GatherFn F)
variable (ex0 ex1 : Dev nD → Waits sig (HIx 2) → Valuation τ sig (Elt F) → Valuation τ sig (Elt F))

local notation "𝕄" => MT nD τ sig (HIx 2) (Elt F) ℕ UU ℕ

theorem hu₀V (A0 : (d : Dev nD) → Ops0 F d) (A1 : (d : Dev nD) → Ops1 F d) : iprop(ownU (u₀ (F := F)) ∗ (LaunchV.P A0 A1).oxCred ∗ (K (F := F)).freeSems0)
    ⊢ |={Set.univ}=> iprop(BI.own (EH (initOf (K (F := F)).hsCells (K (F := F)).hsToks)) ∗ (bigSep Finset.univ fun d : Dev nD => (Gp (F := F) d))
        ∗ bigSep Finset.univ fun thr : Thread nD τ => bigSep Finset.univ fun q : Fin 2 => (LaunchV.P A0 A1).x q thr) := by
  unfold u₀
  iintro ⟨Hu, -, -⟩
  ihave H := (ownU_pair (initOf (K (F := F)).hsCells (K (F := F)).hsToks)
    ((initOf (Pipeline.cells cfgs cellOf_inj) (Pipeline.launchToks cfgs cellOf_inj), (1 : Counters)) : UPp × Counters)) $$ Hu
  icases H with ⟨HH, HR⟩
  ihave H := (own_pair_emb (embR : Emb (UPp × Counters) 𝕄) (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · iapply deal_regions
    isplitl [Hg] <;> iassumption
  · rw [show (bigSep Finset.univ fun thr : Thread nD τ => bigSep Finset.univ fun q : Fin 2 => (LaunchV.P (F := F) A0 A1).x q thr) = bigSep Finset.univ fun _ => iprop(emp) from
      bigSep_congr fun _ _ => bigSep_emp' _, bigSep_emp']
    iempintro

/-- What the final memory shows of device `d`: every unscoped TensorCore buffer at @main's final contents. -/
def fq (d : Dev nD) (s' : Phys nD τ sig (Elt F)) : Prop :=
  ∃ Wt0 Wt1 : Waits sig (HIx 2), ∀ b ∈ Pipeline.ucRefs τ sig, s'.mem.mem (d, b) = Vfin m g ex0 ex1 d Wt0 Wt1 b

omit [FloatOps F] in
theorem hfin (d : Dev nD) (s' : Phys nD τ sig (Elt F)) : iprop(FIN m g ex0 ex1 d ∗ SI s') ⊢ (⌜fq m g ex0 ex1 d s'⌝ : sProp 𝕄) := by
  unfold FIN StableHlo.held
  iintro ⟨⟨%Wt0, %Wt1, Hheld⟩, HSI⟩
  ihave %h := (SI_pointsTo_bufs_agree (st := s') (c := d) (qs := fun _ => fullShare) (F := Vfin m g ex0 ex1 d Wt0 Wt1) (Pipeline.ucRefs τ sig)) $$ [HSI Hheld]
  · isplitl [HSI]; · iexact HSI
    iexact Hheld
  ipureintro
  exact ⟨Wt0, Wt1, h⟩

def QC : PUnit × MemSt nD τ sig (Elt F) → Prop := fun r =>
  ∀ c : Dev nD, ∃ Wt0 Wt1 : Waits sig (HIx 2), ∀ b ∈ Pipeline.ucRefs τ sig, r.2.mem (c, b) = Vfin m g ex0 ex1 c Wt0 Wt1 b

/-- The ingredients of the run with values. -/
structure Parts (F : FTy → Type) [FloatOps F] (m : (ℓ : Loc nD τ sig) → Buf (Elt F) ℓ) (g : GatherFn F)
    (ex0 ex1 : Dev nD → Waits sig (HIx 2) → Valuation τ sig (Elt F) → Valuation τ sig (Elt F)) : Prop where
  hb00 : Cert.Proof.KernelIdeal.ScTile0.TileBodyV0 F UU
  hb01 : Cert.Proof.KernelIdeal.ScTile0.TileBodyV1 F UU
  hb10 : Cert.Proof.KernelIdeal.ScTile1.TileBodyV0 F UU
  hb11 : Cert.Proof.KernelIdeal.ScTile1.TileBodyV1 F UU
  hs0 : Split0 F
  hj0 : Join0 F g
  hs1 : Split1 F
  hj1 : Join1 F g
  hr0 : RegionStep (F := F) 0 ex0
  hr1 : RegionStep (F := F) 1 ex1
  hpre0 : ∀ d, Cert.Proof.KernelIdeal.ScTile0.PreOK d (A0 m d).gu (A0 m d).gi
  hpre1 : ∀ d, Cert.Proof.KernelIdeal.ScTile1.PreOK d (A1 m d).gu (A1 m d).gi

theorem run_main [∀ e, Nonempty (Elt F e)] (hp : Parts F m g ex0 ex1) :
    θ_run (Cert.KernelIdeal.defs (F := F)) (Cert.KernelIdeal.threads (F := F)) ⟨m, fun _ => 0, ρ⟩ (QC m g ex0 ex1) :=
  SparseCore.Cfg.θ_run_sc (K := K (F := F)) (D := D (F := F)) (𝒱 := 𝒱) (EH := EH) (P := LaunchV.P (A0 m) (A1 m)) facts v₀
    (fun q hq => match q with | 0 => nomatch hq | 1 => nomatch hq)
    (LaunchV.tileObl (A0 m) (A1 m) facts hp.hb00 hp.hb01 hp.hb10 hp.hb11 hp.hpre0 hp.hpre1)
    (fun q _ => SparseCore.Cfg.VecSplit.of_plain (LaunchV.vecSplit (A0 m) (A1 m) q))
    m ρ main (fun d => Gp d) (FIN m g ex0 ex1) (u₀ (F := F)) (hu₀V (A0 m) (A1 m))
    (LaunchV.hmain m ρ g ex0 ex1 hp.hs0 hp.hj0 hp.hs1 hp.hj1 hp.hr0 hp.hr1) (fq m g ex0 ex1) (hfin m g ex0 ex1) (QC m g ex0 ex1) (fun _ h => h)

end Cert.KernelIdeal.LaunchV

end
-- ==== Proof.SplitI.lean ====
/-
  The six operands of the first gather call split among the 32 tiles and joined back: each index operand into the
  tiles' slabs (slab 16 c + i of 32), each table into 32 read shares and a remainder, each output into the tiles'
  row ranges (core 0: 2304 rows from row 2304 i; core 1: 896 rows from row 36864 + 896 i; 16·2304 = 36864 and
  36864 + 16·896 = 51200, so the ranges tile the 51200 rows exactly).
-/
import proofs.«204681_g65575560675685_cont_9to1_m_144_57_alg».proof.Proof.PayI

noncomputable section

namespace Cert.KernelIdeal.Launch

open Cert.KernelIdeal Cert.KernelIdeal.Gen Cert.KernelIdeal.Setup
open Cert.Proof.KernelIdeal.ScTile0

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The tiles' index sets -/

/-- The two coordinates of a grid point. -/
theorem pt0_val0 (c : Fin 2) (i : Fin 16) : (pt0 c i 0).val = c.val := rfl
theorem pt0_val1 (c : Fin 2) (i : Fin 16) : (pt0 c i 1).val = i.val := rfl

/-- A tile's slab of an index operand is the unit rectangle of its one slab. -/
theorem iuSlab_set (L : grid0.Coords) :
    (iuSlab L).view.set = (Rect.unit (s := S32x18x128) (k0_off1 L) S1x18x128.size (k0_off1_inb L)).set := by
  simp only [Memref.view_squeeze, Memref.view_slice, Memref.view_whole, View.set_reshape, View.set_slice_whole]
theorem iiSlab_set (L : grid0.Coords) :
    (iiSlab L).view.set = (Rect.unit (s := S32x18x128) (k0_off1 L) S1x18x128.size (k0_off1_inb L)).set := by
  simp only [Memref.view_squeeze, Memref.view_slice, Memref.view_whole, View.set_reshape, View.set_slice_whole]

/-- An index of an index operand is in slab 16 c + i exactly when its first coordinate is 16 c + i. -/
theorem mem_slab (L : grid0.Coords) (j : S32x18x128.Idx) :
    j ∈ (Rect.unit (s := S32x18x128) (k0_off1 L) S1x18x128.size (k0_off1_inb L)).set
      ↔ (j 0).val = 16 * (L 0).val + (L 1).val := by
  rw [Rect.mem_set_unit, k0_off1_eq]
  have h1 := (j 1).isLt
  have h2 := (j 2).isLt
  constructor
  · intro h
    have := h 0
    simp at this
    omega
  · intro h a
    match a with
    | ⟨0, _⟩ => simp; omega
    | ⟨1, _⟩ => simp; exact h1
    | ⟨2, _⟩ => simp; exact h2

/-- The slabs of two different tiles are disjoint, and the 32 slabs cover an index operand. -/
theorem slab_disjoint (t t' : Fin 2 × Fin 16) (h : t ≠ t') :
    Disjoint (Rect.unit (s := S32x18x128) (k0_off1 (pt0 t.1 t.2)) S1x18x128.size (k0_off1_inb _)).set
      (Rect.unit (s := S32x18x128) (k0_off1 (pt0 t'.1 t'.2)) S1x18x128.size (k0_off1_inb _)).set := by
  rw [Finset.disjoint_left]
  intro j hj hj'
  rw [mem_slab, pt0_val0, pt0_val1] at hj hj'
  apply h
  have h2 := t.2.isLt
  have h2' := t'.2.isLt
  exact Prod.ext (Fin.ext (by omega)) (Fin.ext (by omega))

theorem slab_cover :
    (Finset.univ : Finset (Fin 2 × Fin 16)).biUnion (fun t =>
      (Rect.unit (s := S32x18x128) (k0_off1 (pt0 t.1 t.2)) S1x18x128.size (k0_off1_inb _)).set) = Finset.univ := by
  ext j
  simp only [Finset.mem_biUnion, Finset.mem_univ, true_and, iff_true]
  have h0 : (j 0).val < 32 := (j 0).isLt
  refine ⟨(⟨(j 0).val / 16, by omega⟩, ⟨(j 0).val % 16, by omega⟩), ?_⟩
  rw [mem_slab, pt0_val0, pt0_val1]
  show (j 0).val = 16 * ((j 0).val / 16) + (j 0).val % 16
  omega

/-- A chunk of a tile's rows of an output is the unit rectangle of its 128 rows. -/
theorem ouC0_set (L : grid0.Coords) (h1 : k0_cond1 L = 1#1) (r : Fin 18) :
    (ouC0 L h1 r).view.set
      = (Rect.unit (s := S51200x128) (k0_off2 L (BitVec.ofNat 32 (128 * r.val))) S128x128.size (k0_off2_inb L h1 r)).set := by
  simp only [Memref.view_slice, Memref.view_whole, View.set_slice_whole]
theorem ouC1_set (L : grid0.Coords) (h2 : k0_cond2 L = 1#1) (r : Fin 7) :
    (ouC1 L h2 r).view.set
      = (Rect.unit (s := S51200x128) (k0_off3 L (BitVec.ofNat 32 (128 * r.val))) S128x128.size (k0_off3_inb L h2 r)).set := by
  simp only [Memref.view_slice, Memref.view_whole, View.set_slice_whole]

theorem mem_chunk0 (L : grid0.Coords) (h1 : k0_cond1 L = 1#1) (r : Fin 18) (j : S51200x128.Idx) :
    j ∈ (Rect.unit (s := S51200x128) (k0_off2 L (BitVec.ofNat 32 (128 * r.val))) S128x128.size (k0_off2_inb L h1 r)).set
      ↔ 2304 * (L 1).val + 128 * r.val ≤ (j 0).val ∧ (j 0).val < 2304 * (L 1).val + 128 * r.val + 128 := by
  rw [Rect.mem_set_unit, k0_off2_eq]
  have h1' := (j 1).isLt
  constructor
  · intro h
    have := h 0
    simpa using this
  · intro h a
    match a with
    | ⟨0, _⟩ => simpa using h
    | ⟨1, _⟩ => simp; exact h1'

theorem mem_chunk1 (L : grid0.Coords) (h2 : k0_cond2 L = 1#1) (r : Fin 7) (j : S51200x128.Idx) :
    j ∈ (Rect.unit (s := S51200x128) (k0_off3 L (BitVec.ofNat 32 (128 * r.val))) S128x128.size (k0_off3_inb L h2 r)).set
      ↔ 896 * (L 1).val + 128 * r.val + 36864 ≤ (j 0).val ∧ (j 0).val < 896 * (L 1).val + 128 * r.val + 36864 + 128 := by
  rw [Rect.mem_set_unit, k0_off3_eq]
  have h1' := (j 1).isLt
  constructor
  · intro h
    have := h 0
    simpa using this
  · intro h a
    match a with
    | ⟨0, _⟩ => simpa using h
    | ⟨1, _⟩ => simp; exact h1'

/-- A tile's rows of an output on core 0: the 2304 rows from row 2304 i; on core 1: the 896 rows from row
    36864 + 896 i. -/
theorem mem_outSet0 (L : grid0.Coords) (h1 : k0_cond1 L = 1#1) (j : S51200x128.Idx) :
    j ∈ outSet0 L h1 ↔ 2304 * (L 1).val ≤ (j 0).val ∧ (j 0).val < 2304 * (L 1).val + 2304 := by
  unfold outSet0
  rw [Finset.mem_biUnion]
  constructor
  · rintro ⟨r, -, hr⟩
    rw [ouC0_set, mem_chunk0 L h1] at hr
    have := r.isLt
    omega
  · intro h
    refine ⟨⟨((j 0).val - 2304 * (L 1).val) / 128, by omega⟩, Finset.mem_univ _, ?_⟩
    rw [ouC0_set, mem_chunk0 L h1]
    show 2304 * (L 1).val + 128 * (((j 0).val - 2304 * (L 1).val) / 128) ≤ (j 0).val
      ∧ (j 0).val < 2304 * (L 1).val + 128 * (((j 0).val - 2304 * (L 1).val) / 128) + 128
    omega

theorem mem_outSet1 (L : grid0.Coords) (h2 : k0_cond2 L = 1#1) (j : S51200x128.Idx) :
    j ∈ outSet1 L h2 ↔ 36864 + 896 * (L 1).val ≤ (j 0).val ∧ (j 0).val < 36864 + 896 * (L 1).val + 896 := by
  unfold outSet1
  rw [Finset.mem_biUnion]
  constructor
  · rintro ⟨r, -, hr⟩
    rw [ouC1_set, mem_chunk1 L h2] at hr
    have := r.isLt
    omega
  · intro h
    refine ⟨⟨((j 0).val - 36864 - 896 * (L 1).val) / 128, by omega⟩, Finset.mem_univ _, ?_⟩
    rw [ouC1_set, mem_chunk1 L h2]
    show 896 * (L 1).val + 128 * (((j 0).val - 36864 - 896 * (L 1).val) / 128) + 36864 ≤ (j 0).val
      ∧ (j 0).val < 896 * (L 1).val + 128 * (((j 0).val - 36864 - 896 * (L 1).val) / 128) + 36864 + 128
    omega

/-- A tile's rows of an output, whichever core it is on. -/
def outSetT (t : Fin 2 × Fin 16) : Finset S51200x128.Idx :=
  if h : t.1.val = 0 then outSet0 (pt0 t.1 t.2) (cond1_pt0 t.1 t.2 h) else outSet1 (pt0 t.1 t.2) (cond2_pt0 t.1 t.2 h)

theorem mem_outSetT (t : Fin 2 × Fin 16) (j : S51200x128.Idx) :
    j ∈ outSetT t ↔ (if t.1.val = 0 then 2304 * t.2.val else 36864 + 896 * t.2.val) ≤ (j 0).val
      ∧ (j 0).val < (if t.1.val = 0 then 2304 * t.2.val + 2304 else 36864 + 896 * t.2.val + 896) := by
  unfold outSetT
  split
  · rename_i h
    rw [mem_outSet0, pt0_val1]
  · rename_i h
    rw [mem_outSet1, pt0_val1]

/-- The row ranges of two different tiles are disjoint, and the 32 ranges cover an output. -/
theorem outSetT_disjoint (t t' : Fin 2 × Fin 16) (h : t ≠ t') : Disjoint (outSetT t) (outSetT t') := by
  rw [Finset.disjoint_left]
  intro j hj hj'
  rw [mem_outSetT] at hj hj'
  apply h
  have h1 := t.1.isLt
  have h1' := t'.1.isLt
  have h2 := t.2.isLt
  have h2' := t'.2.isLt
  refine Prod.ext (Fin.ext ?_) (Fin.ext ?_) <;> (split_ifs at hj hj' <;> omega)

theorem outSetT_cover : (Finset.univ : Finset (Fin 2 × Fin 16)).biUnion outSetT = Finset.univ := by
  ext j
  simp only [Finset.mem_biUnion, Finset.mem_univ, true_and, iff_true]
  have h0 : (j 0).val < 51200 := (j 0).isLt
  by_cases hc : (j 0).val < 36864
  · refine ⟨(⟨0, by omega⟩, ⟨(j 0).val / 2304, by omega⟩), ?_⟩
    rw [mem_outSetT]
    show (if (0 : Nat) = 0 then 2304 * ((j 0).val / 2304) else 36864 + 896 * ((j 0).val / 2304)) ≤ (j 0).val
      ∧ (j 0).val < (if (0 : Nat) = 0 then 2304 * ((j 0).val / 2304) + 2304 else 36864 + 896 * ((j 0).val / 2304) + 896)
    rw [if_pos rfl, if_pos rfl]
    omega
  · refine ⟨(⟨1, by omega⟩, ⟨((j 0).val - 36864) / 896, by omega⟩), ?_⟩
    rw [mem_outSetT]
    show (if (1 : Nat) = 0 then 2304 * (((j 0).val - 36864) / 896) else 36864 + 896 * (((j 0).val - 36864) / 896)) ≤ (j 0).val
      ∧ (j 0).val < (if (1 : Nat) = 0 then 2304 * (((j 0).val - 36864) / 896) + 2304
          else 36864 + 896 * (((j 0).val - 36864) / 896) + 896)
    rw [if_neg Nat.one_ne_zero, if_neg Nat.one_ne_zero]
    omega

/-! ## The 32 tiles as one index type -/

/-- Tile (c, i) is cell 16 c + i of the 32. -/
def tileEquiv : Fin 2 × Fin 16 ≃ Fin 32 where
  toFun t := ⟨16 * t.1.val + t.2.val, by have := t.1.isLt; have := t.2.isLt; omega⟩
  invFun k := (⟨k.val / 16, by have := k.isLt; omega⟩, ⟨k.val % 16, by omega⟩)
  left_inv t := by
    have h1 := t.1.isLt
    have h2 := t.2.isLt
    refine Prod.ext (Fin.ext ?_) (Fin.ext ?_)
    · show (16 * t.1.val + t.2.val) / 16 = t.1.val
      omega
    · show (16 * t.1.val + t.2.val) % 16 = t.2.val
      omega
  right_inv k := by
    refine Fin.ext ?_
    show 16 * (k.val / 16) + k.val % 16 = k.val
    omega

/-- One tile's resources, the outputs' rows at any contents. -/
abbrev resT (d : Dev nD) (t : Fin 2 × Fin 16) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) :
    sProp (MT nD τ sig (HIx 2) (Elt F) ℕ UU ℕ) :=
  iprop((iuLoc d ↦[(iuSlab (pt0 t.1 t.2)).view.set]{fullShare} gu) ∗ (iiLoc d ↦[(iiSlab (pt0 t.1 t.2)).view.set]{fullShare} gi)
    ∗ (tuLoc d ↦{tq t.1 t.2} fu) ∗ (tiLoc d ↦{tq t.1 t.2} fi)
    ∗ (ouLoc d ↦[outSetT t]{fullShare} ou) ∗ (oiLoc d ↦[outSetT t]{fullShare} oi))

theorem go0_eq (d : Dev nD) (A : Ops0 F d) (c : Fin 2) (i : Fin 16) :
    go0 d A c i = resT d (c, i) A.fu A.fi A.gu A.gi A.ou A.oi := by
  by_cases h : c.val = 0
  · have e : outSetT (c, i) = outSet0 (pt0 c i) (cond1_pt0 c i h) := dif_pos h
    unfold go0 resT
    rw [dif_pos h, e]
  · have e : outSetT (c, i) = outSet1 (pt0 c i) (cond2_pt0 c i h) := dif_neg h
    unfold go0 resT
    rw [dif_neg h, e]

theorem td0_eq (d : Dev nD) (A : Ops0 F d) (c : Fin 2) (i : Fin 16) :
    td0 d A c i = iprop(∃ ou' oi', resT d (c, i) A.fu A.fi A.gu A.gi ou' oi') := by
  by_cases h : c.val = 0
  · have e : outSetT (c, i) = outSet0 (pt0 c i) (cond1_pt0 c i h) := dif_pos h
    unfold td0 resT
    rw [dif_pos h, e]
  · have e : outSetT (c, i) = outSet1 (pt0 c i) (cond2_pt0 c i h) := dif_neg h
    unfold td0 resT
    rw [dif_neg h, e]

/-- The 32 tiles' resources at once, regrouped by operand. -/
theorem tiles_eq (d : Dev nD) (fu : Buf (Elt F) (tuLoc d)) (fi : Buf (Elt F) (tiLoc d))
    (gu : Buf (Elt F) (iuLoc d)) (gi : Buf (Elt F) (iiLoc d))
    (ous : Fin 2 × Fin 16 → Buf (Elt F) (ouLoc d)) (ois : Fin 2 × Fin 16 → Buf (Elt F) (oiLoc d)) :
    (bigSep Finset.univ fun c : Fin 2 => bigSep Finset.univ fun i : Fin 16 => resT d (c, i) fu fi gu gi (ous (c, i)) (ois (c, i)))
      = (iprop((bigSep Finset.univ fun t : Fin 2 × Fin 16 => iuLoc d ↦[(iuSlab (pt0 t.1 t.2)).view.set]{fullShare} gu)
        ∗ (bigSep Finset.univ fun t : Fin 2 × Fin 16 => iiLoc d ↦[(iiSlab (pt0 t.1 t.2)).view.set]{fullShare} gi)
        ∗ (bigSep Finset.univ fun t : Fin 2 × Fin 16 => tuLoc d ↦{tq t.1 t.2} fu)
        ∗ (bigSep Finset.univ fun t : Fin 2 × Fin 16 => tiLoc d ↦{tq t.1 t.2} fi)
        ∗ (bigSep Finset.univ fun t : Fin 2 × Fin 16 => ouLoc d ↦[outSetT t]{fullShare} ous t)
        ∗ (bigSep Finset.univ fun t : Fin 2 × Fin 16 => oiLoc d ↦[outSetT t]{fullShare} ois t)) : sProp 𝕄) := by
  rw [← SparseCore.bigSep_product Finset.univ Finset.univ
    (fun t : Fin 2 × Fin 16 => resT d t fu fi gu gi (ous t) (ois t)), Finset.univ_product_univ]
  unfold resT
  rw [bigSep_sep', bigSep_sep', bigSep_sep', bigSep_sep', bigSep_sep']

/-! ## Each operand split and joined -/

/-- The tiles' slabs of the two index operands. -/
abbrev slabU (t : Fin 2 × Fin 16) : Finset S32x18x128.Idx := (iuSlab (pt0 t.1 t.2)).view.set
abbrev slabI (t : Fin 2 × Fin 16) : Finset S32x18x128.Idx := (iiSlab (pt0 t.1 t.2)).view.set

theorem slabU_disjoint : ∀ t ∈ (Finset.univ : Finset (Fin 2 × Fin 16)), ∀ t' ∈ (Finset.univ : Finset (Fin 2 × Fin 16)),
    t ≠ t' → Disjoint (slabU t) (slabU t') :=
  fun t _ t' _ h => by rw [slabU, slabU, iuSlab_set, iuSlab_set]; exact slab_disjoint t t' h
theorem slabI_disjoint : ∀ t ∈ (Finset.univ : Finset (Fin 2 × Fin 16)), ∀ t' ∈ (Finset.univ : Finset (Fin 2 × Fin 16)),
    t ≠ t' → Disjoint (slabI t) (slabI t') :=
  fun t _ t' _ h => by rw [slabI, slabI, iiSlab_set, iiSlab_set]; exact slab_disjoint t t' h
theorem slabU_cover : (Finset.univ : Finset (Fin 2 × Fin 16)).biUnion slabU = Finset.univ :=
  (Finset.biUnion_congr rfl fun t _ => iuSlab_set (pt0 t.1 t.2)).trans slab_cover
theorem slabI_cover : (Finset.univ : Finset (Fin 2 × Fin 16)).biUnion slabI = Finset.univ :=
  (Finset.biUnion_congr rfl fun t _ => iiSlab_set (pt0 t.1 t.2)).trans slab_cover
theorem outSetT_disjoint' : ∀ t ∈ (Finset.univ : Finset (Fin 2 × Fin 16)), ∀ t' ∈ (Finset.univ : Finset (Fin 2 × Fin 16)),
    t ≠ t' → Disjoint (outSetT t) (outSetT t') :=
  fun t _ t' _ h => outSetT_disjoint t t' h

/-- An index operand is its 32 slabs. -/
theorem iu_slabs (d : Dev nD) (gu : Buf (Elt F) (iuLoc d)) :
    (iuLoc d ↦{fullShare} gu : sProp 𝕄) = bigSep Finset.univ fun t : Fin 2 × Fin 16 => iuLoc d ↦[slabU t]{fullShare} gu := by
  rw [← pointsTo_biUnion Finset.univ (ℓ := iuLoc d) slabU slabU_disjoint, slabU_cover]; try rfl
theorem ii_slabs (d : Dev nD) (gi : Buf (Elt F) (iiLoc d)) :
    (iiLoc d ↦{fullShare} gi : sProp 𝕄) = bigSep Finset.univ fun t : Fin 2 × Fin 16 => iiLoc d ↦[slabI t]{fullShare} gi := by
  rw [← pointsTo_biUnion Finset.univ (ℓ := iiLoc d) slabI slabI_disjoint, slabI_cover]; try rfl

/-- An output is the 32 tiles' row ranges. -/
theorem ou_rows (d : Dev nD) (ou : Buf (Elt F) (ouLoc d)) :
    (ouLoc d ↦{fullShare} ou : sProp 𝕄) = bigSep Finset.univ fun t : Fin 2 × Fin 16 => ouLoc d ↦[outSetT t]{fullShare} ou := by
  rw [← pointsTo_biUnion Finset.univ (ℓ := ouLoc d) outSetT outSetT_disjoint', outSetT_cover]; try rfl
theorem oi_rows (d : Dev nD) (oi : Buf (Elt F) (oiLoc d)) :
    (oiLoc d ↦{fullShare} oi : sProp 𝕄) = bigSep Finset.univ fun t : Fin 2 × Fin 16 => oiLoc d ↦[outSetT t]{fullShare} oi := by
  rw [← pointsTo_biUnion Finset.univ (ℓ := oiLoc d) outSetT outSetT_disjoint', outSetT_cover]; try rfl

/-- The tiles' row ranges of an output, held at contents of the tiles' making, join into the output at some contents. -/
theorem ou_join (d : Dev nD) (ous : Fin 2 × Fin 16 → Buf (Elt F) (ouLoc d)) :
    (bigSep Finset.univ fun t : Fin 2 × Fin 16 => ouLoc d ↦[outSetT t]{fullShare} ous t)
      ⊢ (iprop(∃ g, ouLoc d ↦{fullShare} g) : sProp 𝕄) := by
  iintro H
  ihave H' := (pointsTo_biUnion_join (ℓ := ouLoc d) (q := fullShare) (Val := Elt F) Finset.univ outSetT ous
    (ous (0, 0)) outSetT_disjoint') $$ H
  icases H' with ⟨%g, -, Hg⟩
  rw [outSetT_cover]
  iexists g; iexact Hg
theorem oi_join (d : Dev nD) (ois : Fin 2 × Fin 16 → Buf (Elt F) (oiLoc d)) :
    (bigSep Finset.univ fun t : Fin 2 × Fin 16 => oiLoc d ↦[outSetT t]{fullShare} ois t)
      ⊢ (iprop(∃ g, oiLoc d ↦{fullShare} g) : sProp 𝕄) := by
  iintro H
  ihave H' := (pointsTo_biUnion_join (ℓ := oiLoc d) (q := fullShare) (Val := Elt F) Finset.univ outSetT ois
    (ois (0, 0)) outSetT_disjoint') $$ H
  icases H' with ⟨%g, -, Hg⟩
  rw [outSetT_cover]
  iexists g; iexact Hg

/-- A table at the full share is the remainder after 32 read shares and the 32 tiles' read shares. -/
theorem tu_shares (d : Dev nD) (fu : Buf (Elt F) (tuLoc d)) :
    (tuLoc d ↦{fullShare} fu : sProp 𝕄)
      ⊣⊢ iprop((tuLoc d ↦{Transfers.shareDrop fullShare 32} fu) ∗ bigSep Finset.univ fun t : Fin 2 × Fin 16 => tuLoc d ↦{tq t.1 t.2} fu) := by
  have e : (bigSep Finset.univ fun t : Fin 2 × Fin 16 => (tuLoc d ↦{tq t.1 t.2} fu : sProp 𝕄))
      = bigSep Finset.univ fun k : Fin 32 => tuLoc d ↦{Transfers.shareTok fullShare 32 k} fu :=
    (bigSep_univ_equiv tileEquiv fun k : Fin 32 => (tuLoc d ↦{Transfers.shareTok fullShare 32 k} fu : sProp 𝕄)).symm
  rw [e]
  exact Transfers.pointsTo_toks fullShare 32
theorem ti_shares (d : Dev nD) (fi : Buf (Elt F) (tiLoc d)) :
    (tiLoc d ↦{fullShare} fi : sProp 𝕄)
      ⊣⊢ iprop((tiLoc d ↦{Transfers.shareDrop fullShare 32} fi) ∗ bigSep Finset.univ fun t : Fin 2 × Fin 16 => tiLoc d ↦{tq t.1 t.2} fi) := by
  have e : (bigSep Finset.univ fun t : Fin 2 × Fin 16 => (tiLoc d ↦{tq t.1 t.2} fi : sProp 𝕄))
      = bigSep Finset.univ fun k : Fin 32 => tiLoc d ↦{Transfers.shareTok fullShare 32 k} fi :=
    (bigSep_univ_equiv tileEquiv fun k : Fin 32 => (tiLoc d ↦{Transfers.shareTok fullShare 32 k} fi : sProp 𝕄)).symm
  rw [e]
  exact Transfers.pointsTo_toks fullShare 32

/-! ## The call's operands split among the tiles, and joined back -/

/-- A sum over the cores of sums over the subcores is the sum over the 32 tiles. -/
theorem bigSep_tiles (Φ : Fin 2 × Fin 16 → sProp (MT nD τ sig (HIx 2) (Elt F) ℕ UU ℕ)) :
    (bigSep Finset.univ fun c : Fin 2 => bigSep Finset.univ fun i : Fin 16 => Φ (c, i)) = bigSep Finset.univ Φ := by
  rw [← SparseCore.bigSep_product Finset.univ Finset.univ Φ, Finset.univ_product_univ]

theorem split0 (d : Dev nD) (A : Ops0 F d) :
    (iprop((tuLoc d ↦{fullShare} A.fu) ∗ (tiLoc d ↦{fullShare} A.fi) ∗ (iuLoc d ↦{fullShare} A.gu) ∗ (iiLoc d ↦{fullShare} A.gi)
        ∗ (ouLoc d ↦{fullShare} A.ou) ∗ (oiLoc d ↦{fullShare} A.oi)) : sProp 𝕄)
      ⊢ iprop(((tuLoc d ↦{Transfers.shareDrop fullShare 32} A.fu) ∗ (tiLoc d ↦{Transfers.shareDrop fullShare 32} A.fi))
        ∗ bigSep Finset.univ fun c : Fin 2 => bigSep Finset.univ fun i : Fin 16 => go0 d A c i) := by
  have e : (bigSep Finset.univ fun c : Fin 2 => bigSep Finset.univ fun i : Fin 16 => go0 d A c i)
      = bigSep Finset.univ fun c : Fin 2 => bigSep Finset.univ fun i : Fin 16 =>
          resT d (c, i) A.fu A.fi A.gu A.gi A.ou A.oi :=
    bigSep_congr fun c _ => bigSep_congr fun i _ => go0_eq d A c i
  have h6 := tiles_eq d A.fu A.fi A.gu A.gi (fun _ => A.ou) (fun _ => A.oi)
  beta_reduce at h6
  rw [e, h6, ← iu_slabs, ← ii_slabs, ← ou_rows, ← oi_rows]
  iintro ⟨Htu, Hti, Hiu, Hii, Hou, Hoi⟩
  ihave Htu' := (tu_shares d A.fu).1 $$ Htu
  icases Htu' with ⟨HtuD, HtuT⟩
  ihave Hti' := (ti_shares d A.fi).1 $$ Hti
  icases Hti' with ⟨HtiD, HtiT⟩
  isplitl [HtuD HtiD]
  · isplitl [HtuD]; · iexact HtuD
    iexact HtiD
  isplitl [Hiu]; · iexact Hiu
  isplitl [Hii]; · iexact Hii
  isplitl [HtuT]; · iexact HtuT
  isplitl [HtiT]; · iexact HtiT
  isplitl [Hou]; · iexact Hou
  iexact Hoi

/-- The tiles' hand-backs as one choice, per tile, of the contents of its rows of the two outputs. -/
theorem td0_choice (d : Dev nD) (A : Ops0 F d) :
    (bigSep Finset.univ fun c : Fin 2 => bigSep Finset.univ fun i : Fin 16 => td0 d A c i)
      ⊢ (iprop(∃ y : Fin 2 × Fin 16 → Buf (Elt F) (ouLoc d) × Buf (Elt F) (oiLoc d),
          bigSep Finset.univ fun c : Fin 2 => bigSep Finset.univ fun i : Fin 16 =>
            resT d (c, i) A.fu A.fi A.gu A.gi (y (c, i)).1 (y (c, i)).2) : sProp 𝕄) := by
  haveI : Nonempty (Buf (Elt F) (ouLoc d) × Buf (Elt F) (oiLoc d)) := ⟨(A.ou, A.oi)⟩
  rw [bigSep_tiles fun t => td0 d A t.1 t.2]
  refine (bigSep_mono (Ψ := fun t : Fin 2 × Fin 16 =>
      iprop(∃ y : Buf (Elt F) (ouLoc d) × Buf (Elt F) (oiLoc d), resT d t A.fu A.fi A.gu A.gi y.1 y.2)) fun t _ => ?_).trans
    ((bigSep_exists_pi Finset.univ fun (t : Fin 2 × Fin 16) (y : Buf (Elt F) (ouLoc d) × Buf (Elt F) (oiLoc d)) =>
      resT d t A.fu A.fi A.gu A.gi y.1 y.2).trans ?_)
  · rw [td0_eq]
    show (iprop(∃ ou' oi', resT d (t.1, t.2) A.fu A.fi A.gu A.gi ou' oi') : sProp 𝕄)
      ⊢ iprop(∃ y : Buf (Elt F) (ouLoc d) × Buf (Elt F) (oiLoc d), resT d t A.fu A.fi A.gu A.gi y.1 y.2)
    iintro ⟨%ou', %oi', H⟩
    iexists (ou', oi'); iexact H
  · iintro ⟨%y, H⟩
    iexists y
    rw [bigSep_tiles fun t => resT d t A.fu A.fi A.gu A.gi (y t).1 (y t).2]
    iexact H

theorem join0 (d : Dev nD) (A : Ops0 F d) :
    (iprop(((tuLoc d ↦{Transfers.shareDrop fullShare 32} A.fu) ∗ (tiLoc d ↦{Transfers.shareDrop fullShare 32} A.fi))
        ∗ bigSep Finset.univ fun c : Fin 2 => bigSep Finset.univ fun i : Fin 16 => td0 d A c i) : sProp 𝕄)
      ⊢ iprop((tuLoc d ↦{fullShare} A.fu) ∗ (tiLoc d ↦{fullShare} A.fi) ∗ (iuLoc d ↦{fullShare} A.gu) ∗ (iiLoc d ↦{fullShare} A.gi)
        ∗ ∃ ou' oi', (ouLoc d ↦{fullShare} ou') ∗ (oiLoc d ↦{fullShare} oi')) := by
  refine (sep_mono_right (td0_choice d A)).trans ?_
  iintro ⟨⟨HtuD, HtiD⟩, %y, HT⟩
  have h6 := tiles_eq d A.fu A.fi A.gu A.gi (fun t => (y t).1) (fun t => (y t).2)
  beta_reduce at h6
  ihave H6 := (Entails.of_eq h6) $$ HT
  icases H6 with ⟨Hiu, Hii, HtuT, HtiT, Hou, Hoi⟩
  isplitl [HtuD HtuT]
  · iapply (tu_shares d A.fu).2
    isplitl [HtuD]; · iexact HtuD
    iexact HtuT
  isplitl [HtiD HtiT]
  · iapply (ti_shares d A.fi).2
    isplitl [HtiD]; · iexact HtiD
    iexact HtiT
  isplitl [Hiu]
  · rw [iu_slabs]; iexact Hiu
  isplitl [Hii]
  · rw [ii_slabs]; iexact Hii
  ihave Ho := (ou_join d fun t => (y t).1) $$ Hou
  icases Ho with ⟨%gu', Hou⟩
  ihave Ho2 := (oi_join d fun t => (y t).2) $$ Hoi
  icases Ho2 with ⟨%gi', Hoi⟩
  iexists gu'; iexists gi'
  isplitl [Hou]; · iexact Hou
  iexact Hoi

end Cert.KernelIdeal.Launch

end
-- ==== Proof.Split1I.lean ====
/-
  The six operands of the second gather call split among the 32 tiles and joined back: each index operand into the
  tiles' slabs (slab 16 c + i of 32), each table into 32 read shares and a remainder, each output into the tiles'
  row ranges (core 0: 2304 rows from row 2304 i; core 1: 896 rows from row 36864 + 896 i; 16·2304 = 36864 and
  36864 + 16·896 = 51200, so the ranges tile the 51200 rows exactly).
-/
import proofs.«204681_g65575560675685_cont_9to1_m_144_57_alg».proof.Proof.PayI

noncomputable section

namespace Cert.KernelIdeal.Launch

open Cert.KernelIdeal Cert.KernelIdeal.Gen Cert.KernelIdeal.Setup
open Cert.Proof.KernelIdeal.ScTile1

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

namespace Call1

/-! ## The tiles' index sets -/

/-- The two coordinates of a grid point. -/
theorem pt1_val0 (c : Fin 2) (i : Fin 16) : (pt1 c i 0).val = c.val := rfl
theorem pt1_val1 (c : Fin 2) (i : Fin 16) : (pt1 c i 1).val = i.val := rfl

/-- A tile's slab of an index operand is the unit rectangle of its one slab. -/
theorem iuSlab_set (L : grid1.Coords) :
    (iuSlab L).view.set = (Rect.unit (s := S32x18x128) (k1_off1 L) S1x18x128.size (k1_off1_inb L)).set := by
  simp only [Memref.view_squeeze, Memref.view_slice, Memref.view_whole, View.set_reshape, View.set_slice_whole]
theorem iiSlab_set (L : grid1.Coords) :
    (iiSlab L).view.set = (Rect.unit (s := S32x18x128) (k1_off1 L) S1x18x128.size (k1_off1_inb L)).set := by
  simp only [Memref.view_squeeze, Memref.view_slice, Memref.view_whole, View.set_reshape, View.set_slice_whole]

/-- An index of an index operand is in slab 16 c + i exactly when its first coordinate is 16 c + i. -/
theorem mem_slab (L : grid1.Coords) (j : S32x18x128.Idx) :
    j ∈ (Rect.unit (s := S32x18x128) (k1_off1 L) S1x18x128.size (k1_off1_inb L)).set
      ↔ (j 0).val = 16 * (L 0).val + (L 1).val := by
  rw [Rect.mem_set_unit, k1_off1_eq]
  have h1 := (j 1).isLt
  have h2 := (j 2).isLt
  constructor
  · intro h
    have := h 0
    simp at this
    omega
  · intro h a
    match a with
    | ⟨0, _⟩ => simp; omega
    | ⟨1, _⟩ => simp; exact h1
    | ⟨2, _⟩ => simp; exact h2

/-- The slabs of two different tiles are disjoint, and the 32 slabs cover an index operand. -/
theorem slab_disjoint (t t' : Fin 2 × Fin 16) (h : t ≠ t') :
    Disjoint (Rect.unit (s := S32x18x128) (k1_off1 (pt1 t.1 t.2)) S1x18x128.size (k1_off1_inb _)).set
      (Rect.unit (s := S32x18x128) (k1_off1 (pt1 t'.1 t'.2)) S1x18x128.size (k1_off1_inb _)).set := by
  rw [Finset.disjoint_left]
  intro j hj hj'
  rw [mem_slab, pt1_val0, pt1_val1] at hj hj'
  apply h
  have h2 := t.2.isLt
  have h2' := t'.2.isLt
  exact Prod.ext (Fin.ext (by omega)) (Fin.ext (by omega))

theorem slab_cover :
    (Finset.univ : Finset (Fin 2 × Fin 16)).biUnion (fun t =>
      (Rect.unit (s := S32x18x128) (k1_off1 (pt1 t.1 t.2)) S1x18x128.size (k1_off1_inb _)).set) = Finset.univ := by
  ext j
  simp only [Finset.mem_biUnion, Finset.mem_univ, true_and, iff_true]
  have h0 : (j 0).val < 32 := (j 0).isLt
  refine ⟨(⟨(j 0).val / 16, by omega⟩, ⟨(j 0).val % 16, by omega⟩), ?_⟩
  rw [mem_slab, pt1_val0, pt1_val1]
  show (j 0).val = 16 * ((j 0).val / 16) + (j 0).val % 16
  omega

/-- A chunk of a tile's rows of an output is the unit rectangle of its 128 rows. -/
theorem ouC0_set (L : grid1.Coords) (h1 : k1_cond1 L = 1#1) (r : Fin 18) :
    (ouC0 L h1 r).view.set
      = (Rect.unit (s := S51200x128) (k1_off2 L (BitVec.ofNat 32 (128 * r.val))) S128x128.size (k1_off2_inb L h1 r)).set := by
  simp only [Memref.view_slice, Memref.view_whole, View.set_slice_whole]
theorem ouC1_set (L : grid1.Coords) (h2 : k1_cond2 L = 1#1) (r : Fin 7) :
    (ouC1 L h2 r).view.set
      = (Rect.unit (s := S51200x128) (k1_off3 L (BitVec.ofNat 32 (128 * r.val))) S128x128.size (k1_off3_inb L h2 r)).set := by
  simp only [Memref.view_slice, Memref.view_whole, View.set_slice_whole]

theorem mem_chunk0 (L : grid1.Coords) (h1 : k1_cond1 L = 1#1) (r : Fin 18) (j : S51200x128.Idx) :
    j ∈ (Rect.unit (s := S51200x128) (k1_off2 L (BitVec.ofNat 32 (128 * r.val))) S128x128.size (k1_off2_inb L h1 r)).set
      ↔ 2304 * (L 1).val + 128 * r.val ≤ (j 0).val ∧ (j 0).val < 2304 * (L 1).val + 128 * r.val + 128 := by
  rw [Rect.mem_set_unit, k1_off2_eq]
  have h1' := (j 1).isLt
  constructor
  · intro h
    have := h 0
    simpa using this
  · intro h a
    match a with
    | ⟨0, _⟩ => simpa using h
    | ⟨1, _⟩ => simp; exact h1'

theorem mem_chunk1 (L : grid1.Coords) (h2 : k1_cond2 L = 1#1) (r : Fin 7) (j : S51200x128.Idx) :
    j ∈ (Rect.unit (s := S51200x128) (k1_off3 L (BitVec.ofNat 32 (128 * r.val))) S128x128.size (k1_off3_inb L h2 r)).set
      ↔ 896 * (L 1).val + 128 * r.val + 36864 ≤ (j 0).val ∧ (j 0).val < 896 * (L 1).val + 128 * r.val + 36864 + 128 := by
  rw [Rect.mem_set_unit, k1_off3_eq]
  have h1' := (j 1).isLt
  constructor
  · intro h
    have := h 0
    simpa using this
  · intro h a
    match a with
    | ⟨0, _⟩ => simpa using h
    | ⟨1, _⟩ => simp; exact h1'

/-- A tile's rows of an output on core 0: the 2304 rows from row 2304 i; on core 1: the 896 rows from row
    36864 + 896 i. -/
theorem mem_outSet0 (L : grid1.Coords) (h1 : k1_cond1 L = 1#1) (j : S51200x128.Idx) :
    j ∈ outSet0 L h1 ↔ 2304 * (L 1).val ≤ (j 0).val ∧ (j 0).val < 2304 * (L 1).val + 2304 := by
  unfold outSet0
  rw [Finset.mem_biUnion]
  constructor
  · rintro ⟨r, -, hr⟩
    rw [ouC0_set, mem_chunk0 L h1] at hr
    have := r.isLt
    omega
  · intro h
    refine ⟨⟨((j 0).val - 2304 * (L 1).val) / 128, by omega⟩, Finset.mem_univ _, ?_⟩
    rw [ouC0_set, mem_chunk0 L h1]
    show 2304 * (L 1).val + 128 * (((j 0).val - 2304 * (L 1).val) / 128) ≤ (j 0).val
      ∧ (j 0).val < 2304 * (L 1).val + 128 * (((j 0).val - 2304 * (L 1).val) / 128) + 128
    omega

theorem mem_outSet1 (L : grid1.Coords) (h2 : k1_cond2 L = 1#1) (j : S51200x128.Idx) :
    j ∈ outSet1 L h2 ↔ 36864 + 896 * (L 1).val ≤ (j 0).val ∧ (j 0).val < 36864 + 896 * (L 1).val + 896 := by
  unfold outSet1
  rw [Finset.mem_biUnion]
  constructor
  · rintro ⟨r, -, hr⟩
    rw [ouC1_set, mem_chunk1 L h2] at hr
    have := r.isLt
    omega
  · intro h
    refine ⟨⟨((j 0).val - 36864 - 896 * (L 1).val) / 128, by omega⟩, Finset.mem_univ _, ?_⟩
    rw [ouC1_set, mem_chunk1 L h2]
    show 896 * (L 1).val + 128 * (((j 0).val - 36864 - 896 * (L 1).val) / 128) + 36864 ≤ (j 0).val
      ∧ (j 0).val < 896 * (L 1).val + 128 * (((j 0).val - 36864 - 896 * (L 1).val) / 128) + 36864 + 128
    omega

/-- A tile's rows of an output, whichever core it is on. -/
def outSetT (t : Fin 2 × Fin 16) : Finset S51200x128.Idx :=
  if h : t.1.val = 0 then outSet0 (pt1 t.1 t.2) (cond1_pt1 t.1 t.2 h) else outSet1 (pt1 t.1 t.2) (cond2_pt1 t.1 t.2 h)

theorem mem_outSetT (t : Fin 2 × Fin 16) (j : S51200x128.Idx) :
    j ∈ outSetT t ↔ (if t.1.val = 0 then 2304 * t.2.val else 36864 + 896 * t.2.val) ≤ (j 0).val
      ∧ (j 0).val < (if t.1.val = 0 then 2304 * t.2.val + 2304 else 36864 + 896 * t.2.val + 896) := by
  unfold outSetT
  split
  · rename_i h
    rw [mem_outSet0, pt1_val1]
  · rename_i h
    rw [mem_outSet1, pt1_val1]

/-- The row ranges of two different tiles are disjoint, and the 32 ranges cover an output. -/
theorem outSetT_disjoint (t t' : Fin 2 × Fin 16) (h : t ≠ t') : Disjoint (outSetT t) (outSetT t') := by
  rw [Finset.disjoint_left]
  intro j hj hj'
  rw [mem_outSetT] at hj hj'
  apply h
  have h1 := t.1.isLt
  have h1' := t'.1.isLt
  have h2 := t.2.isLt
  have h2' := t'.2.isLt
  refine Prod.ext (Fin.ext ?_) (Fin.ext ?_) <;> (split_ifs at hj hj' <;> omega)

theorem outSetT_cover : (Finset.univ : Finset (Fin 2 × Fin 16)).biUnion outSetT = Finset.univ := by
  ext j
  simp only [Finset.mem_biUnion, Finset.mem_univ, true_and, iff_true]
  have h0 : (j 0).val < 51200 := (j 0).isLt
  by_cases hc : (j 0).val < 36864
  · refine ⟨(⟨0, by omega⟩, ⟨(j 0).val / 2304, by omega⟩), ?_⟩
    rw [mem_outSetT]
    show (if (0 : Nat) = 0 then 2304 * ((j 0).val / 2304) else 36864 + 896 * ((j 0).val / 2304)) ≤ (j 0).val
      ∧ (j 0).val < (if (0 : Nat) = 0 then 2304 * ((j 0).val / 2304) + 2304 else 36864 + 896 * ((j 0).val / 2304) + 896)
    rw [if_pos rfl, if_pos rfl]
    omega
  · refine ⟨(⟨1, by omega⟩, ⟨((j 0).val - 36864) / 896, by omega⟩), ?_⟩
    rw [mem_outSetT]
    show (if (1 : Nat) = 0 then 2304 * (((j 0).val - 36864) / 896) else 36864 + 896 * (((j 0).val - 36864) / 896)) ≤ (j 0).val
      ∧ (j 0).val < (if (1 : Nat) = 0 then 2304 * (((j 0).val - 36864) / 896) + 2304
          else 36864 + 896 * (((j 0).val - 36864) / 896) + 896)
    rw [if_neg Nat.one_ne_zero, if_neg Nat.one_ne_zero]
    omega

/-! ## The 32 tiles as one index type -/

/-- Tile (c, i) is cell 16 c + i of the 32. -/
def tileEquiv : Fin 2 × Fin 16 ≃ Fin 32 where
  toFun t := ⟨16 * t.1.val + t.2.val, by have := t.1.isLt; have := t.2.isLt; omega⟩
  invFun k := (⟨k.val / 16, by have := k.isLt; omega⟩, ⟨k.val % 16, by omega⟩)
  left_inv t := by
    have h1 := t.1.isLt
    have h2 := t.2.isLt
    refine Prod.ext (Fin.ext ?_) (Fin.ext ?_)
    · show (16 * t.1.val + t.2.val) / 16 = t.1.val
      omega
    · show (16 * t.1.val + t.2.val) % 16 = t.2.val
      omega
  right_inv k := by
    refine Fin.ext ?_
    show 16 * (k.val / 16) + k.val % 16 = k.val
    omega

/-- One tile's resources, the outputs' rows at any contents. -/
abbrev resT (d : Dev nD) (t : Fin 2 × Fin 16) (fu : Buf (Elt F) (tuLoc d)) (fi : Buf (Elt F) (tiLoc d))
    (gu : Buf (Elt F) (iuLoc d)) (gi : Buf (Elt F) (iiLoc d)) (ou : Buf (Elt F) (ouLoc d)) (oi : Buf (Elt F) (oiLoc d)) :
    sProp (MT nD τ sig (HIx 2) (Elt F) ℕ UU ℕ) :=
  iprop((iuLoc d ↦[(iuSlab (pt1 t.1 t.2)).view.set]{fullShare} gu) ∗ (iiLoc d ↦[(iiSlab (pt1 t.1 t.2)).view.set]{fullShare} gi)
    ∗ (tuLoc d ↦{tq t.1 t.2} fu) ∗ (tiLoc d ↦{tq t.1 t.2} fi)
    ∗ (ouLoc d ↦[outSetT t]{fullShare} ou) ∗ (oiLoc d ↦[outSetT t]{fullShare} oi))

theorem go1_eq (d : Dev nD) (A : Ops1 F d) (c : Fin 2) (i : Fin 16) :
    go1 d A c i = resT d (c, i) A.fu A.fi A.gu A.gi A.ou A.oi := by
  by_cases h : c.val = 0
  · have e : outSetT (c, i) = outSet0 (pt1 c i) (cond1_pt1 c i h) := dif_pos h
    unfold go1 resT
    rw [dif_pos h, e]
  · have e : outSetT (c, i) = outSet1 (pt1 c i) (cond2_pt1 c i h) := dif_neg h
    unfold go1 resT
    rw [dif_neg h, e]

theorem td1_eq (d : Dev nD) (A : Ops1 F d) (c : Fin 2) (i : Fin 16) :
    td1 d A c i = iprop(∃ ou' oi', resT d (c, i) A.fu A.fi A.gu A.gi ou' oi') := by
  by_cases h : c.val = 0
  · have e : outSetT (c, i) = outSet0 (pt1 c i) (cond1_pt1 c i h) := dif_pos h
    unfold td1 resT
    rw [dif_pos h, e]
  · have e : outSetT (c, i) = outSet1 (pt1 c i) (cond2_pt1 c i h) := dif_neg h
    unfold td1 resT
    rw [dif_neg h, e]

/-- The 32 tiles' resources at once, regrouped by operand. -/
theorem tiles_eq (d : Dev nD) (fu : Buf (Elt F) (tuLoc d)) (fi : Buf (Elt F) (tiLoc d))
    (gu : Buf (Elt F) (iuLoc d)) (gi : Buf (Elt F) (iiLoc d))
    (ous : Fin 2 × Fin 16 → Buf (Elt F) (ouLoc d)) (ois : Fin 2 × Fin 16 → Buf (Elt F) (oiLoc d)) :
    (bigSep Finset.univ fun c : Fin 2 => bigSep Finset.univ fun i : Fin 16 => resT d (c, i) fu fi gu gi (ous (c, i)) (ois (c, i)))
      = (iprop((bigSep Finset.univ fun t : Fin 2 × Fin 16 => iuLoc d ↦[(iuSlab (pt1 t.1 t.2)).view.set]{fullShare} gu)
        ∗ (bigSep Finset.univ fun t : Fin 2 × Fin 16 => iiLoc d ↦[(iiSlab (pt1 t.1 t.2)).view.set]{fullShare} gi)
        ∗ (bigSep Finset.univ fun t : Fin 2 × Fin 16 => tuLoc d ↦{tq t.1 t.2} fu)
        ∗ (bigSep Finset.univ fun t : Fin 2 × Fin 16 => tiLoc d ↦{tq t.1 t.2} fi)
        ∗ (bigSep Finset.univ fun t : Fin 2 × Fin 16 => ouLoc d ↦[outSetT t]{fullShare} ous t)
        ∗ (bigSep Finset.univ fun t : Fin 2 × Fin 16 => oiLoc d ↦[outSetT t]{fullShare} ois t)) : sProp 𝕄) := by
  rw [← SparseCore.bigSep_product Finset.univ Finset.univ
    (fun t : Fin 2 × Fin 16 => resT d t fu fi gu gi (ous t) (ois t)), Finset.univ_product_univ]
  unfold resT
  rw [bigSep_sep', bigSep_sep', bigSep_sep', bigSep_sep', bigSep_sep']

/-! ## Each operand split and joined -/

/-- The tiles' slabs of the two index operands. -/
abbrev slabU (t : Fin 2 × Fin 16) : Finset S32x18x128.Idx := (iuSlab (pt1 t.1 t.2)).view.set
abbrev slabI (t : Fin 2 × Fin 16) : Finset S32x18x128.Idx := (iiSlab (pt1 t.1 t.2)).view.set

theorem slabU_disjoint : ∀ t ∈ (Finset.univ : Finset (Fin 2 × Fin 16)), ∀ t' ∈ (Finset.univ : Finset (Fin 2 × Fin 16)),
    t ≠ t' → Disjoint (slabU t) (slabU t') :=
  fun t _ t' _ h => by rw [slabU, slabU, iuSlab_set, iuSlab_set]; exact slab_disjoint t t' h
theorem slabI_disjoint : ∀ t ∈ (Finset.univ : Finset (Fin 2 × Fin 16)), ∀ t' ∈ (Finset.univ : Finset (Fin 2 × Fin 16)),
    t ≠ t' → Disjoint (slabI t) (slabI t') :=
  fun t _ t' _ h => by rw [slabI, slabI, iiSlab_set, iiSlab_set]; exact slab_disjoint t t' h
theorem slabU_cover : (Finset.univ : Finset (Fin 2 × Fin 16)).biUnion slabU = Finset.univ :=
  (Finset.biUnion_congr rfl fun t _ => iuSlab_set (pt1 t.1 t.2)).trans slab_cover
theorem slabI_cover : (Finset.univ : Finset (Fin 2 × Fin 16)).biUnion slabI = Finset.univ :=
  (Finset.biUnion_congr rfl fun t _ => iiSlab_set (pt1 t.1 t.2)).trans slab_cover
theorem outSetT_disjoint' : ∀ t ∈ (Finset.univ : Finset (Fin 2 × Fin 16)), ∀ t' ∈ (Finset.univ : Finset (Fin 2 × Fin 16)),
    t ≠ t' → Disjoint (outSetT t) (outSetT t') :=
  fun t _ t' _ h => outSetT_disjoint t t' h

/-- An index operand is its 32 slabs. -/
theorem iu_slabs (d : Dev nD) (gu : Buf (Elt F) (iuLoc d)) :
    (iuLoc d ↦{fullShare} gu : sProp 𝕄) = bigSep Finset.univ fun t : Fin 2 × Fin 16 => iuLoc d ↦[slabU t]{fullShare} gu := by
  rw [← pointsTo_biUnion Finset.univ (ℓ := iuLoc d) slabU slabU_disjoint, slabU_cover]; try rfl
theorem ii_slabs (d : Dev nD) (gi : Buf (Elt F) (iiLoc d)) :
    (iiLoc d ↦{fullShare} gi : sProp 𝕄) = bigSep Finset.univ fun t : Fin 2 × Fin 16 => iiLoc d ↦[slabI t]{fullShare} gi := by
  rw [← pointsTo_biUnion Finset.univ (ℓ := iiLoc d) slabI slabI_disjoint, slabI_cover]; try rfl

/-- An output is the 32 tiles' row ranges. -/
theorem ou_rows (d : Dev nD) (ou : Buf (Elt F) (ouLoc d)) :
    (ouLoc d ↦{fullShare} ou : sProp 𝕄) = bigSep Finset.univ fun t : Fin 2 × Fin 16 => ouLoc d ↦[outSetT t]{fullShare} ou := by
  rw [← pointsTo_biUnion Finset.univ (ℓ := ouLoc d) outSetT outSetT_disjoint', outSetT_cover]; try rfl
theorem oi_rows (d : Dev nD) (oi : Buf (Elt F) (oiLoc d)) :
    (oiLoc d ↦{fullShare} oi : sProp 𝕄) = bigSep Finset.univ fun t : Fin 2 × Fin 16 => oiLoc d ↦[outSetT t]{fullShare} oi := by
  rw [← pointsTo_biUnion Finset.univ (ℓ := oiLoc d) outSetT outSetT_disjoint', outSetT_cover]; try rfl

/-- The tiles' row ranges of an output, held at contents of the tiles' making, join into the output at some contents. -/
theorem ou_join (d : Dev nD) (ous : Fin 2 × Fin 16 → Buf (Elt F) (ouLoc d)) :
    (bigSep Finset.univ fun t : Fin 2 × Fin 16 => ouLoc d ↦[outSetT t]{fullShare} ous t)
      ⊢ (iprop(∃ g, ouLoc d ↦{fullShare} g) : sProp 𝕄) := by
  iintro H
  ihave H' := (pointsTo_biUnion_join (ℓ := ouLoc d) (q := fullShare) (Val := Elt F) Finset.univ outSetT ous
    (ous (0, 0)) outSetT_disjoint') $$ H
  icases H' with ⟨%g, -, Hg⟩
  rw [outSetT_cover]
  iexists g; iexact Hg
theorem oi_join (d : Dev nD) (ois : Fin 2 × Fin 16 → Buf (Elt F) (oiLoc d)) :
    (bigSep Finset.univ fun t : Fin 2 × Fin 16 => oiLoc d ↦[outSetT t]{fullShare} ois t)
      ⊢ (iprop(∃ g, oiLoc d ↦{fullShare} g) : sProp 𝕄) := by
  iintro H
  ihave H' := (pointsTo_biUnion_join (ℓ := oiLoc d) (q := fullShare) (Val := Elt F) Finset.univ outSetT ois
    (ois (0, 0)) outSetT_disjoint') $$ H
  icases H' with ⟨%g, -, Hg⟩
  rw [outSetT_cover]
  iexists g; iexact Hg

/-- A table at the full share is the remainder after 32 read shares and the 32 tiles' read shares. -/
theorem tu_shares (d : Dev nD) (fu : Buf (Elt F) (tuLoc d)) :
    (tuLoc d ↦{fullShare} fu : sProp 𝕄)
      ⊣⊢ iprop((tuLoc d ↦{Transfers.shareDrop fullShare 32} fu) ∗ bigSep Finset.univ fun t : Fin 2 × Fin 16 => tuLoc d ↦{tq t.1 t.2} fu) := by
  have e : (bigSep Finset.univ fun t : Fin 2 × Fin 16 => (tuLoc d ↦{tq t.1 t.2} fu : sProp 𝕄))
      = bigSep Finset.univ fun k : Fin 32 => tuLoc d ↦{Transfers.shareTok fullShare 32 k} fu :=
    (bigSep_univ_equiv tileEquiv fun k : Fin 32 => (tuLoc d ↦{Transfers.shareTok fullShare 32 k} fu : sProp 𝕄)).symm
  rw [e]
  exact Transfers.pointsTo_toks fullShare 32
theorem ti_shares (d : Dev nD) (fi : Buf (Elt F) (tiLoc d)) :
    (tiLoc d ↦{fullShare} fi : sProp 𝕄)
      ⊣⊢ iprop((tiLoc d ↦{Transfers.shareDrop fullShare 32} fi) ∗ bigSep Finset.univ fun t : Fin 2 × Fin 16 => tiLoc d ↦{tq t.1 t.2} fi) := by
  have e : (bigSep Finset.univ fun t : Fin 2 × Fin 16 => (tiLoc d ↦{tq t.1 t.2} fi : sProp 𝕄))
      = bigSep Finset.univ fun k : Fin 32 => tiLoc d ↦{Transfers.shareTok fullShare 32 k} fi :=
    (bigSep_univ_equiv tileEquiv fun k : Fin 32 => (tiLoc d ↦{Transfers.shareTok fullShare 32 k} fi : sProp 𝕄)).symm
  rw [e]
  exact Transfers.pointsTo_toks fullShare 32

/-! ## The call's operands split among the tiles, and joined back -/

/-- A sum over the cores of sums over the subcores is the sum over the 32 tiles. -/
theorem bigSep_tiles (Φ : Fin 2 × Fin 16 → sProp (MT nD τ sig (HIx 2) (Elt F) ℕ UU ℕ)) :
    (bigSep Finset.univ fun c : Fin 2 => bigSep Finset.univ fun i : Fin 16 => Φ (c, i)) = bigSep Finset.univ Φ := by
  rw [← SparseCore.bigSep_product Finset.univ Finset.univ Φ, Finset.univ_product_univ]

end Call1

open Call1 in
theorem split1 (d : Dev nD) (A : Ops1 F d) :
    (iprop((tuLoc d ↦{fullShare} A.fu) ∗ (tiLoc d ↦{fullShare} A.fi) ∗ (iuLoc d ↦{fullShare} A.gu) ∗ (iiLoc d ↦{fullShare} A.gi)
        ∗ (ouLoc d ↦{fullShare} A.ou) ∗ (oiLoc d ↦{fullShare} A.oi)) : sProp 𝕄)
      ⊢ iprop(((tuLoc d ↦{Transfers.shareDrop fullShare 32} A.fu) ∗ (tiLoc d ↦{Transfers.shareDrop fullShare 32} A.fi))
        ∗ bigSep Finset.univ fun c : Fin 2 => bigSep Finset.univ fun i : Fin 16 => go1 d A c i) := by
  have e : (bigSep Finset.univ fun c : Fin 2 => bigSep Finset.univ fun i : Fin 16 => go1 d A c i)
      = bigSep Finset.univ fun c : Fin 2 => bigSep Finset.univ fun i : Fin 16 =>
          resT d (c, i) A.fu A.fi A.gu A.gi A.ou A.oi :=
    bigSep_congr fun c _ => bigSep_congr fun i _ => go1_eq d A c i
  have h6 := tiles_eq d A.fu A.fi A.gu A.gi (fun _ => A.ou) (fun _ => A.oi)
  beta_reduce at h6
  rw [e, h6, ← iu_slabs, ← ii_slabs, ← ou_rows, ← oi_rows]
  iintro ⟨Htu, Hti, Hiu, Hii, Hou, Hoi⟩
  ihave Htu' := (tu_shares d A.fu).1 $$ Htu
  icases Htu' with ⟨HtuD, HtuT⟩
  ihave Hti' := (ti_shares d A.fi).1 $$ Hti
  icases Hti' with ⟨HtiD, HtiT⟩
  isplitl [HtuD HtiD]
  · isplitl [HtuD]; · iexact HtuD
    iexact HtiD
  isplitl [Hiu]; · iexact Hiu
  isplitl [Hii]; · iexact Hii
  isplitl [HtuT]; · iexact HtuT
  isplitl [HtiT]; · iexact HtiT
  isplitl [Hou]; · iexact Hou
  iexact Hoi

namespace Call1

/-- The tiles' hand-backs as one choice, per tile, of the contents of its rows of the two outputs. -/
theorem td1_choice (d : Dev nD) (A : Ops1 F d) :
    (bigSep Finset.univ fun c : Fin 2 => bigSep Finset.univ fun i : Fin 16 => td1 d A c i)
      ⊢ (iprop(∃ y : Fin 2 × Fin 16 → Buf (Elt F) (ouLoc d) × Buf (Elt F) (oiLoc d),
          bigSep Finset.univ fun c : Fin 2 => bigSep Finset.univ fun i : Fin 16 =>
            resT d (c, i) A.fu A.fi A.gu A.gi (y (c, i)).1 (y (c, i)).2) : sProp 𝕄) := by
  haveI : Nonempty (Buf (Elt F) (ouLoc d) × Buf (Elt F) (oiLoc d)) := ⟨(A.ou, A.oi)⟩
  rw [bigSep_tiles fun t => td1 d A t.1 t.2]
  refine (bigSep_mono (Ψ := fun t : Fin 2 × Fin 16 =>
      iprop(∃ y : Buf (Elt F) (ouLoc d) × Buf (Elt F) (oiLoc d), resT d t A.fu A.fi A.gu A.gi y.1 y.2)) fun t _ => ?_).trans
    ((bigSep_exists_pi Finset.univ fun (t : Fin 2 × Fin 16) (y : Buf (Elt F) (ouLoc d) × Buf (Elt F) (oiLoc d)) =>
      resT d t A.fu A.fi A.gu A.gi y.1 y.2).trans ?_)
  · rw [td1_eq]
    show (iprop(∃ ou' oi', resT d (t.1, t.2) A.fu A.fi A.gu A.gi ou' oi') : sProp 𝕄)
      ⊢ iprop(∃ y : Buf (Elt F) (ouLoc d) × Buf (Elt F) (oiLoc d), resT d t A.fu A.fi A.gu A.gi y.1 y.2)
    iintro ⟨%ou', %oi', H⟩
    iexists (ou', oi'); iexact H
  · iintro ⟨%y, H⟩
    iexists y
    rw [bigSep_tiles fun t => resT d t A.fu A.fi A.gu A.gi (y t).1 (y t).2]
    iexact H

end Call1

open Call1 in
theorem join1 (d : Dev nD) (A : Ops1 F d) :
    (iprop(((tuLoc d ↦{Transfers.shareDrop fullShare 32} A.fu) ∗ (tiLoc d ↦{Transfers.shareDrop fullShare 32} A.fi))
        ∗ bigSep Finset.univ fun c : Fin 2 => bigSep Finset.univ fun i : Fin 16 => td1 d A c i) : sProp 𝕄)
      ⊢ iprop((tuLoc d ↦{fullShare} A.fu) ∗ (tiLoc d ↦{fullShare} A.fi) ∗ (iuLoc d ↦{fullShare} A.gu) ∗ (iiLoc d ↦{fullShare} A.gi)
        ∗ ∃ ou' oi', (ouLoc d ↦{fullShare} ou') ∗ (oiLoc d ↦{fullShare} oi')) := by
  refine (sep_mono_right (td1_choice d A)).trans ?_
  iintro ⟨⟨HtuD, HtiD⟩, %y, HT⟩
  have h6 := tiles_eq d A.fu A.fi A.gu A.gi (fun t => (y t).1) (fun t => (y t).2)
  beta_reduce at h6
  ihave H6 := (Entails.of_eq h6) $$ HT
  icases H6 with ⟨Hiu, Hii, HtuT, HtiT, Hou, Hoi⟩
  isplitl [HtuD HtuT]
  · iapply (tu_shares d A.fu).2
    isplitl [HtuD]; · iexact HtuD
    iexact HtuT
  isplitl [HtiD HtiT]
  · iapply (ti_shares d A.fi).2
    isplitl [HtiD]; · iexact HtiD
    iexact HtiT
  isplitl [Hiu]
  · rw [iu_slabs]; iexact Hiu
  isplitl [Hii]
  · rw [ii_slabs]; iexact Hii
  ihave Ho := (ou_join d fun t => (y t).1) $$ Hou
  icases Ho with ⟨%gu', Hou⟩
  ihave Ho2 := (oi_join d fun t => (y t).2) $$ Hoi
  icases Ho2 with ⟨%gi', Hoi⟩
  iexists gu'; iexists gi'
  isplitl [Hou]; · iexact Hou
  iexact Hoi

end Cert.KernelIdeal.Launch

end
-- ==== Proof.FramesI.lean ====
/-
  The kernel program's frame: under the precondition every weakly fair execution terminates, nothing faulting, and the six
  argument arrays end unchanged — from one tile's task per core and call and the two TensorCore regions as steps.
-/
import proofs.«204681_g65575560675685_cont_9to1_m_144_57_alg».proof.Proof.PartsPreI
import proofs.«204681_g65575560675685_cont_9to1_m_144_57_alg».proof.Proof.SplitI
import proofs.«204681_g65575560675685_cont_9to1_m_144_57_alg».proof.Proof.Split1I

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

omit [FloatOps F] in
theorem hs0 : Split0 F := fun d A => by unfold sixPts0 rem0; exact split0 d A
omit [FloatOps F] in
theorem hs1 : Split1 F := fun d A => by unfold sixPts1 rem1; exact split1 d A
omit [FloatOps F] in
theorem hj0 : Join0 F := fun d A => by
  unfold rem0 sixPts0
  refine (join0 d A).trans ?_
  iintro ⟨Htu, Hti, Hiu, Hii, %ou', %oi', Hou, Hoi⟩
  iexists ou'; iexists oi'
  isplitl [Htu]; · iexact Htu
  isplitl [Hti]; · iexact Hti
  isplitl [Hiu]; · iexact Hiu
  isplitl [Hii]; · iexact Hii
  isplitl [Hou]; · iexact Hou
  iexact Hoi
omit [FloatOps F] in
theorem hj1 : Join1 F := fun d A => by
  unfold rem1 sixPts1
  refine (join1 d A).trans ?_
  iintro ⟨Htu, Hti, Hiu, Hii, %ou', %oi', Hou, Hoi⟩
  iexists ou'; iexists oi'
  isplitl [Htu]; · iexact Htu
  isplitl [Hti]; · iexact Hti
  isplitl [Hiu]; · iexact Hiu
  isplitl [Hii]; · iexact Hii
  isplitl [Hou]; · iexact Hou
  iexact Hoi

/-- The ingredients of the frame that depend on the float instance: one tile's task on each core of each call, and the two
    TensorCore regions as steps of @main with their exit contents. -/
structure Core (F : FTy → Type) [FloatOps F] where
  hb00 : Cert.Proof.KernelIdeal.ScTile0.TileBody0 F UU
  hb01 : Cert.Proof.KernelIdeal.ScTile0.TileBody1 F UU
  hb10 : Cert.Proof.KernelIdeal.ScTile1.TileBody0 F UU
  hb11 : Cert.Proof.KernelIdeal.ScTile1.TileBody1 F UU
  ex0 : Dev nD → Waits sig (HIx 2) → Valuation τ sig (Elt F) → Valuation τ sig (Elt F)
  ex1 : Dev nD → Waits sig (HIx 2) → Valuation τ sig (Elt F) → Valuation τ sig (Elt F)
  hr0 : RegionStep (F := F) 0 ex0
  hr1 : RegionStep (F := F) 1 ex1
  hex0 : ∀ d Wt W (b : DevRef τ sig), b ≠ Proc.devRef .tc main_v96 → ex0 d Wt W b = W b
  hex1 : ∀ d Wt W (b : DevRef τ sig), b ≠ Proc.devRef .tc main_v97 → ex1 d Wt W b = W b

variable [Cert.Pre_input_domain.Facts]

def Core.parts (co : Core F) (m : (ℓ : Loc nD τ sig) → Buf (Elt F) ℓ) (h : PreM m) : Parts F m where
  hb00 := co.hb00
  hb01 := co.hb01
  hb10 := co.hb10
  hb11 := co.hb11
  hs0 := hs0
  hj0 := hj0
  hs1 := hs1
  hj1 := hj1
  ex0 := co.ex0
  ex1 := co.ex1
  hr0 := co.hr0
  hr1 := co.hr1
  hex0 := co.hex0
  hex1 := co.hex1
  hkeep := keep_args m
  hpre0 := fun d => (pre_ok m h d).1
  hpre1 := fun d => (pre_ok m h d).2

/-- The frame, in the claim's spelling. -/
theorem frame_of_core [∀ e, Nonempty (Elt F e)] (co : Core F) (m : (ℓ : Loc nD τ sig) → Buf (Elt F) ℓ) (g : Dev nD → PrngReg) (h : PreM m) :
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.KernelIdeal.defs _ _).mono (fun r hr c =>
    ⟨hr c _ (by simp [argRefs]), hr c _ (by simp [argRefs]), hr c _ (by simp [argRefs]), hr c _ (by simp [argRefs]), hr c _ (by simp [argRefs]), hr c _ (by simp [argRefs])⟩)
    (run_main m g (co.parts m h))

end Cert.KernelIdeal.Launch

end
-- ==== Proof.TcData.lean ====
import proofs.«204681_g65575560675685_cont_9to1_m_144_57_alg».proof.Proof.Gen.KernelIdeal.Launch
import proofs.«204681_g65575560675685_cont_9to1_m_144_57_alg».proof.Proof.Gen.KernelIdeal.Skeleton
import proofs.«204681_g65575560675685_cont_9to1_m_144_57_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.SparseCore.Threads
import Idealize.ShloMosaic.Lib.Tactic

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # The two matrix-product pipelines: their blocks, what a point writes, and their proof data

Both pipelines compute, block by block of 800 rows, max(r · w[0:128] + u · w[128:256] + v · w[256:384], 0):
windows 0, 1, 2 are the three 800×128 operands' blocks, window 3 is the whole 384×128 weight matrix, window 4 is the
output block. Everything is stated at a parameter V, the TensorCore's buffer contents when the region is entered. -/

section Regions

variable (V : (c : Dev nD) → (b : Ref sig .tc) → Buf (Elt F) ((c : Thread nD τ).loc b))
variable (B : Set (SemLoc sig × SparseCore.Cfg.HIx 2))

/-! ## The rectangles the body reads and writes -/

/-- A whole 800×128 block. -/
abbrev rBlk : Rect S800x128 := Rect.unit (s := S800x128) ![0, 0] S800x128.size inb_S800x128_S800x128_0_0
/-- Rows 0 … 127, 128 … 255, 256 … 383 of the weight matrix. -/
abbrev rW0 : Rect S384x128 := Rect.unit (s := S384x128) ![0, 0] S128x128.size inb_S384x128_S128x128_0_0
abbrev rW1 : Rect S384x128 := Rect.unit (s := S384x128) ![128, 0] S128x128.size inb_S384x128_S128x128_128_0
abbrev rW2 : Rect S384x128 := Rect.unit (s := S384x128) ![256, 0] S128x128.size inb_S384x128_S128x128_256_0

/-- One store of a whole block covers the block. -/
theorem cover_blk (p0 : Vec F S800x128 .f32) (y : S800x128.Idx) :
    ∃ pc ∈ ([⟨rBlk, p0⟩] : List (View.Piece (Elt F) S800x128 .f32)), y ∈ pc.1.set :=
  View.cover_of_tiled [⟨rBlk, p0⟩] S800x128.size (by rfl) y

/-! ## Pipeline 0 (64 points) -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block from the three operand blocks and the weights: the body's one store over the generated payload. -/
def out2_4 (x0 x1 x2 : Vec F S800x128 .f32) (x3 : Vec F S384x128 .f32) : Vec F S800x128 .f32 :=
  View.canon [⟨rBlk, k2_pay1 (View.ld x0 rBlk) (View.ld x3 rW0) (View.ld x1 rBlk) (View.ld x3 rW1) (View.ld x2 rBlk) (View.ld x3 rW2)⟩]

/-- The pipeline's invariant: the scoped buffers that are no staging buffer of it, untouched. -/
abbrev Φ2 (c : Dev nD) : sProp 𝕄 :=
  Pipeline.scopedRest (Ix := SparseCore.Cfg.HIx 2) (Name := Name) (U := U) (Lvl := ℕ) (Val := Elt F) spec2 c

/-- The proof data of this pipeline on core c: the arrays as the region finds them; after the body at point t each
    operand's buffer at its block and the output's at the body's result of them; nothing owed; full shares; the pairs
    the core's waits recorded before the region lie in B (the pipeline's own waits add pairs at the index none only).
     -/
def dat2 (c : Dev nD) : Dat τ (Elt F) (SparseCore.Cfg.HIx 2) Name U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Φ2 c
  q _ := fullShare
  owed _ := 0
  recorded _ := B

theorem A_eq2 (c : Dev nD) (w : Fin cfg2.W) : (dat2 (Name := Name) (U := U) V B c).A w = V c (Pipeline.arrRef spec2 w) := by
  dsimp only [dat2]
theorem after2_0 (c : Dev nD) (t : Fin cfg2.N) : (dat2 (Name := Name) (U := U) V B c).after 0 t = iblk2 V c 0 t := by dsimp only [dat2]
theorem after2_1 (c : Dev nD) (t : Fin cfg2.N) : (dat2 (Name := Name) (U := U) V B c).after 1 t = iblk2 V c 1 t := by dsimp only [dat2]
theorem after2_2 (c : Dev nD) (t : Fin cfg2.N) : (dat2 (Name := Name) (U := U) V B c).after 2 t = iblk2 V c 2 t := by dsimp only [dat2]
theorem after2_3 (c : Dev nD) (t : Fin cfg2.N) : (dat2 (Name := Name) (U := U) V B c).after 3 t = iblk2 V c 3 t := by dsimp only [dat2]
theorem after2_4 (c : Dev nD) (t : Fin cfg2.N) : (dat2 (Name := Name) (U := U) V B c).after 4 t
    = out2_4 (iblk2 V c 0 t) (iblk2 V c 1 t) (iblk2 V c 2 t) (iblk2 V c 3 t) := by dsimp only [dat2]

/-! ## Pipeline 1 (61 points) -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output block from the three operand blocks and the weights: the body's one store over the generated payload. -/
def out3_4 (x0 x1 x2 : Vec F S800x128 .f32) (x3 : Vec F S384x128 .f32) : Vec F S800x128 .f32 :=
  View.canon [⟨rBlk, k3_pay1 (View.ld x0 rBlk) (View.ld x3 rW0) (View.ld x1 rBlk) (View.ld x3 rW1) (View.ld x2 rBlk) (View.ld x3 rW2)⟩]

/-- The pipeline's invariant: the scoped buffers that are no staging buffer of it, untouched. -/
abbrev Φ3 (c : Dev nD) : sProp 𝕄 :=
  Pipeline.scopedRest (Ix := SparseCore.Cfg.HIx 2) (Name := Name) (U := U) (Lvl := ℕ) (Val := Elt F) spec3 c

/-- The proof data of this pipeline on core c: the arrays as the region finds them; after the body at point t each
    operand's buffer at its block and the output's at the body's result of them; nothing owed; full shares; the pairs
    the core's waits recorded before the region lie in B (the pipeline's own waits add pairs at the index none only).
    Its output array (window 4) enters at V's contents of its buffer: the copy of pipeline 0's result, of which this pipeline writes only the blocks 64 … 124. -/
def dat3 (c : Dev nD) : Dat τ (Elt F) (SparseCore.Cfg.HIx 2) Name U ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Φ3 c
  q _ := fullShare
  owed _ := 0
  recorded _ := B

theorem A_eq3 (c : Dev nD) (w : Fin cfg3.W) : (dat3 (Name := Name) (U := U) V B c).A w = V c (Pipeline.arrRef spec3 w) := by
  dsimp only [dat3]
theorem after3_0 (c : Dev nD) (t : Fin cfg3.N) : (dat3 (Name := Name) (U := U) V B c).after 0 t = iblk3 V c 0 t := by dsimp only [dat3]
theorem after3_1 (c : Dev nD) (t : Fin cfg3.N) : (dat3 (Name := Name) (U := U) V B c).after 1 t = iblk3 V c 1 t := by dsimp only [dat3]
theorem after3_2 (c : Dev nD) (t : Fin cfg3.N) : (dat3 (Name := Name) (U := U) V B c).after 2 t = iblk3 V c 2 t := by dsimp only [dat3]
theorem after3_3 (c : Dev nD) (t : Fin cfg3.N) : (dat3 (Name := Name) (U := U) V B c).after 3 t = iblk3 V c 3 t := by dsimp only [dat3]
theorem after3_4 (c : Dev nD) (t : Fin cfg3.N) : (dat3 (Name := Name) (U := U) V B c).after 4 t
    = out3_4 (iblk3 V c 0 t) (iblk3 V c 1 t) (iblk3 V c 2 t) (iblk3 V c 3 t) := by dsimp only [dat3]

end Regions

/-! ## The proof data of both pipelines at once -/

/-- No pipeline has a prefetched table. -/
abbrev adm : (p : Fin 2) → (pcfgs (F := F) p).Adm := fun p => (cfgs p).toPCfg_adm

/-- Every pipeline's proof data, each at its own region's entry contents (Va for pipeline 0, Vb for pipeline 1) and
    recorded pairs (Ba, Bb): a literal match on the pipeline, so that the pinned configuration at a numeral is the
    printed one. -/
def pdats (Va Vb : (c : Dev nD) → (b : Ref sig .tc) → Buf (Elt F) ((c : Thread nD τ).loc b)) (Ba Bb : Set (SemLoc sig × SparseCore.Cfg.HIx 2)) :
    (p : Fin 2) → (c : Dev nD) → Dat τ (Elt F) (SparseCore.Cfg.HIx 2) Name U ℕ (Pipeline.pin (pcfgs (F := F)) adm p) c
  | ⟨0, _⟩ => fun c => dat2 Va Ba c
  | ⟨1, _⟩ => fun c => dat3 Vb Bb c

end Cert.KernelIdeal.Tc

end
-- ==== Proof.TcBody3.lean ====
import proofs.«204681_g65575560675685_cont_9to1_m_144_57_alg».proof.Proof.TcData

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 1: the body obligation

The body loads the three operand blocks and the three 128-row slices of the weights, and stores the payload over the
whole output block; the obligation follows from that one triple and from each input window's buffer holding its block
at every point. -/

section

variable (V : (c : Dev nD) → (b : Ref sig .tc) → Buf (Elt F) ((c : Thread nD τ).loc b))
variable (B : Set (SemLoc sig × SparseCore.Cfg.HIx 2))

/-! ## Each input window's current buffer holds its block at every point, fetched there or not -/

theorem before3_0 (c : Dev nD) (t : Fin cfg3.N) (d) : (dat3 (Name := Name) (U := U) V B c).before 0 t d = iblk3 V c 0 t :=
  ((dat3 (Name := Name) (U := U) V B c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 (Name := Name) (U := U) V B c).before 1 t d = iblk3 V c 1 t :=
  ((dat3 (Name := Name) (U := U) V B c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 (Name := Name) (U := U) V B c).before 2 t d = iblk3 V c 2 t :=
  ((dat3 (Name := Name) (U := U) V B c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 (Name := Name) (U := U) V B c).before 3 t d = iblk3 V c 3 t :=
  ((dat3 (Name := Name) (U := U) V B c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body's triple -/

set_option maxHeartbeats 4000000 in
/-- The body on whole staging memrefs, the inputs' at contents x0 … x3 and the output's at anything, runs to the
    continuation holding the inputs' as they were and the output's at the payload's block. -/
theorem sound_kernel3 (c : Dev nD) (E : Set Name) (i : grid3.Coords)
    (arg1 : Memref sig .tc .vmem S800x128 .f32) (harg1 : arg1.IsWhole) (arg2 : Memref sig .tc .vmem S800x128 .f32) (harg2 : arg2.IsWhole)
    (arg3 : Memref sig .tc .vmem S800x128 .f32) (harg3 : arg3.IsWhole) (arg4 : Memref sig .tc .vmem S384x128 .f32) (harg4 : arg4.IsWhole) (arg5 : Memref sig .tc .hbm S100000x128 .f32) (harg5 : arg5.IsWhole)
    (arg6 : Memref sig .tc .vmem S800x128 .f32) (harg6 : arg6.IsWhole)
    (x0 x1 x2 : Vec F S800x128 .f32) (x3 : Vec F S384x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out3_4 x0 x1 x2 x3)) -∗ K ⟨⟩))
      ⊢ wp frame (wpE (defs₀ (F := F)) Variants.none c none) E (cc3__mm_body2 i arg1 harg1 arg2 harg2 arg3 harg3 arg4 harg4 arg5 harg5 arg6 harg6) K := by
  simp only [cc3__mm_body2_eq_skeleton]; unfold cc3__mm_body2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_blk _)

/-! ## The body obligation, at a generic point -/

/-- What the body is called with at point t, the windows one by one, -/
def bodyPre3 (c : Dev nD) (t : Fin cfg3.N) : sProp 𝕄 :=
  iprop((dat3 (Name := Name) (U := U) V B c).Φ t.castSucc ∗ (dat3 (Name := Name) (U := U) V B c).owesAt none t.castSucc
    ∗ (∃ d, owns (c : Thread nD τ) (st3_0 t) fullShare ((dat3 (Name := Name) (U := U) V B c).before 0 t d))
    ∗ (∃ d, owns (c : Thread nD τ) (st3_1 t) fullShare ((dat3 (Name := Name) (U := U) V B c).before 1 t d))
    ∗ (∃ d, owns (c : Thread nD τ) (st3_2 t) fullShare ((dat3 (Name := Name) (U := U) V B c).before 2 t d))
    ∗ (∃ d, owns (c : Thread nD τ) (st3_3 t) fullShare ((dat3 (Name := Name) (U := U) V B c).before 3 t d))
    ∗ (∃ d, owns (c : Thread nD τ) (st3_4 t) fullShare ((dat3 (Name := Name) (U := U) V B c).before 4 t d)))

/-- and what it returns. -/
def bodyPost3 (c : Dev nD) (t : Fin cfg3.N) : sProp 𝕄 :=
  iprop((dat3 (Name := Name) (U := U) V B c).Φ t.succ ∗ (dat3 (Name := Name) (U := U) V B c).owesAt none t.succ
    ∗ owns (c : Thread nD τ) (st3_0 t) fullShare ((dat3 (Name := Name) (U := U) V B c).after 0 t)
    ∗ owns (c : Thread nD τ) (st3_1 t) fullShare ((dat3 (Name := Name) (U := U) V B c).after 1 t)
    ∗ owns (c : Thread nD τ) (st3_2 t) fullShare ((dat3 (Name := Name) (U := U) V B c).after 2 t)
    ∗ owns (c : Thread nD τ) (st3_3 t) fullShare ((dat3 (Name := Name) (U := U) V B c).after 3 t)
    ∗ owns (c : Thread nD τ) (st3_4 t) fullShare ((dat3 (Name := Name) (U := U) V B c).after 4 t))

/-- The body at any point: the inputs' memrefs hold their blocks, so the triple applies; the invariant and what the
    core owes pass through unread. -/
theorem sound_body3 (c : Dev nD) (t : Fin cfg3.N) :
    bodyPre3 (Name := Name) (U := U) V B c t ⊢ wp frame (wpE (defs₀ (F := F)) Variants.none c none) Set.univ (bodyAt3 t) (fun _ => bodyPost3 (Name := Name) (U := U) V B c t) := by
  unfold bodyPre3 bodyPost3 bodyAt3
  simp only [before3_0, before3_1, before3_2, before3_3]
  rw [show (dat3 (Name := Name) (U := U) V B c).Φ t.succ = (dat3 (Name := Name) (U := U) V B c).Φ t.castSucc from rfl,
    show (dat3 (Name := Name) (U := U) V B c).owesAt none t.succ = (dat3 (Name := Name) (U := U) V B c).owesAt none t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 1, at every point. -/
theorem body_obligation3 (c : Dev nD) :
    BodyObligation (dat3 (F := F) (Name := Name) (U := U) V B c) (defs₀ (F := F)) Variants.none (none : SparseCore.Cfg.HIx 2) Set.univ := fun t => by
  rw [bigSep_W3, bigSep_W3]
  exact sound_body3 V B c t

end

end Cert.KernelIdeal.Tc

end
-- ==== Proof.TcBody2.lean ====
import proofs.«204681_g65575560675685_cont_9to1_m_144_57_alg».proof.Proof.TcData

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 0: the body obligation

The body loads the three operand blocks and the three 128-row slices of the weights, and stores the payload over the
whole output block; the obligation follows from that one triple and from each input window's buffer holding its block
at every point. -/

section

variable (V : (c : Dev nD) → (b : Ref sig .tc) → Buf (Elt F) ((c : Thread nD τ).loc b))
variable (B : Set (SemLoc sig × SparseCore.Cfg.HIx 2))

/-! ## Each input window's current buffer holds its block at every point, fetched there or not -/

theorem before2_0 (c : Dev nD) (t : Fin cfg2.N) (d) : (dat2 (Name := Name) (U := U) V B c).before 0 t d = iblk2 V c 0 t :=
  ((dat2 (Name := Name) (U := U) V B c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 (Name := Name) (U := U) V B c).before 1 t d = iblk2 V c 1 t :=
  ((dat2 (Name := Name) (U := U) V B c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 (Name := Name) (U := U) V B c).before 2 t d = iblk2 V c 2 t :=
  ((dat2 (Name := Name) (U := U) V B c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 (Name := Name) (U := U) V B c).before 3 t d = iblk2 V c 3 t :=
  ((dat2 (Name := Name) (U := U) V B c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body's triple -/

set_option maxHeartbeats 4000000 in
/-- The body on whole staging memrefs, the inputs' at contents x0 … x3 and the output's at anything, runs to the
    continuation holding the inputs' as they were and the output's at the payload's block. -/
theorem sound_kernel2 (c : Dev nD) (E : Set Name) (i : grid2.Coords)
    (arg1 : Memref sig .tc .vmem S800x128 .f32) (harg1 : arg1.IsWhole) (arg2 : Memref sig .tc .vmem S800x128 .f32) (harg2 : arg2.IsWhole)
    (arg3 : Memref sig .tc .vmem S800x128 .f32) (harg3 : arg3.IsWhole) (arg4 : Memref sig .tc .vmem S384x128 .f32) (harg4 : arg4.IsWhole)
    (arg5 : Memref sig .tc .vmem S800x128 .f32) (harg5 : arg5.IsWhole)
    (x0 x1 x2 : Vec F S800x128 .f32) (x3 : Vec F S384x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__mm_body i arg1 harg1 arg2 harg2 arg3 harg3 arg4 harg4 arg5 harg5) K := by
  simp only [cc2__mm_body_eq_skeleton]; unfold cc2__mm_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_blk _)

/-! ## The body obligation, at a generic point -/

/-- What the body is called with at point t, the windows one by one, -/
def bodyPre2 (c : Dev nD) (t : Fin cfg2.N) : sProp 𝕄 :=
  iprop((dat2 (Name := Name) (U := U) V B c).Φ t.castSucc ∗ (dat2 (Name := Name) (U := U) V B c).owesAt none t.castSucc
    ∗ (∃ d, owns (c : Thread nD τ) (st2_0 t) fullShare ((dat2 (Name := Name) (U := U) V B c).before 0 t d))
    ∗ (∃ d, owns (c : Thread nD τ) (st2_1 t) fullShare ((dat2 (Name := Name) (U := U) V B c).before 1 t d))
    ∗ (∃ d, owns (c : Thread nD τ) (st2_2 t) fullShare ((dat2 (Name := Name) (U := U) V B c).before 2 t d))
    ∗ (∃ d, owns (c : Thread nD τ) (st2_3 t) fullShare ((dat2 (Name := Name) (U := U) V B c).before 3 t d))
    ∗ (∃ d, owns (c : Thread nD τ) (st2_4 t) fullShare ((dat2 (Name := Name) (U := U) V B c).before 4 t d)))

/-- and what it returns. -/
def bodyPost2 (c : Dev nD) (t : Fin cfg2.N) : sProp 𝕄 :=
  iprop((dat2 (Name := Name) (U := U) V B c).Φ t.succ ∗ (dat2 (Name := Name) (U := U) V B c).owesAt none t.succ
    ∗ owns (c : Thread nD τ) (st2_0 t) fullShare ((dat2 (Name := Name) (U := U) V B c).after 0 t)
    ∗ owns (c : Thread nD τ) (st2_1 t) fullShare ((dat2 (Name := Name) (U := U) V B c).after 1 t)
    ∗ owns (c : Thread nD τ) (st2_2 t) fullShare ((dat2 (Name := Name) (U := U) V B c).after 2 t)
    ∗ owns (c : Thread nD τ) (st2_3 t) fullShare ((dat2 (Name := Name) (U := U) V B c).after 3 t)
    ∗ owns (c : Thread nD τ) (st2_4 t) fullShare ((dat2 (Name := Name) (U := U) V B c).after 4 t))

/-- The body at any point: the inputs' memrefs hold their blocks, so the triple applies; the invariant and what the
    core owes pass through unread. -/
theorem sound_body2 (c : Dev nD) (t : Fin cfg2.N) :
    bodyPre2 (Name := Name) (U := U) V B c t ⊢ wp frame (wpE (defs₀ (F := F)) Variants.none c none) Set.univ (bodyAt2 t) (fun _ => bodyPost2 (Name := Name) (U := U) V B c t) := by
  unfold bodyPre2 bodyPost2 bodyAt2
  simp only [before2_0, before2_1, before2_2, before2_3]
  rw [show (dat2 (Name := Name) (U := U) V B c).Φ t.succ = (dat2 (Name := Name) (U := U) V B c).Φ t.castSucc from rfl,
    show (dat2 (Name := Name) (U := U) V B c).owesAt none t.succ = (dat2 (Name := Name) (U := U) V B c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 0, at every point. -/
theorem body_obligation2 (c : Dev nD) :
    BodyObligation (dat2 (F := F) (Name := Name) (U := U) V B c) (defs₀ (F := F)) Variants.none (none : SparseCore.Cfg.HIx 2) Set.univ := fun t => by
  rw [bigSep_W2, bigSep_W2]
  exact sound_body2 V B c t

end

end Cert.KernelIdeal.Tc

end
-- ==== Proof.TcSeg0.lean ====
import proofs.«204681_g65575560675685_cont_9to1_m_144_57_alg».proof.Proof.TcBody2
import Idealize.ShloMosaic.Lib.SparseCore.Threads

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 0 as a region of the main program

The region is entered from every unscoped TensorCore buffer at a valuation and left at the valuation that has the
pipeline's arrays at what its write-backs leave and every other buffer as entered; the core owes nothing throughout, and
the pairs its waits have recorded grow by the pipeline's own waits only (all at the index none). -/

section Segs

/-- A valuation of the device's buffers read at the TensorCore's references. -/
abbrev Vof (W : Dev nD → Valuation τ sig (Elt F)) : (c : Dev nD) → (b : Ref sig .tc) → Buf (Elt F) ((c : Thread nD τ).loc b) :=
  fun c b => W c b

/-- No bound is in force in a region's body. -/
abbrev 𝒱₀ : Variants := Variants.none

variable (Wa Wb : Dev nD → Valuation τ sig (Elt F)) (Ba Bb : Set (SemLoc sig × SparseCore.Cfg.HIx 2))
variable (L : GSem nD τ sig → Finset (SparseCore.Cfg.HIx 2)) (lv : GSem nD τ sig → SparseCore.Cfg.HIx 2 → ℕ)

/-- At the region's exit: its arrays at what the pipeline leaves (the inputs as entered, the output's write-backs
    folded), every other buffer as entered. -/
def exit0 (c : Dev nD) : Valuation τ sig (Elt F) :=
  Pipeline.withArrays spec2 c (Wa c) fun w => (dat2 (Name := Name) (U := U) (Vof Wa) Ba c).arrAt w cfg2.N

theorem exit0_arr (c : Dev nD) (w : Fin cfg2.W) :
    exit0 (Name := Name) (U := U) Wa Ba c (Proc.devRef .tc (Pipeline.arrRef spec2 w)) = (dat2 (Name := Name) (U := U) (Vof Wa) Ba c).arrAt w cfg2.N := by
  unfold exit0; exact Pipeline.withArrays_arr spec2 launch2.win.arr_inj c _ _ w

theorem exit0_of_ne (c : Dev nD) (b : Ref sig .tc) (hb : ∀ w, Pipeline.arrRef spec2 w ≠ b) :
    exit0 (Name := Name) (U := U) Wa Ba c (Proc.devRef .tc b) = Wa c (Proc.devRef .tc b) := by
  unfold exit0; exact Pipeline.withArrays_of_ne spec2 c _ _ b hb

theorem hF0 (c : Dev nD) (w : Fin cfg2.W) :
    (dat2 (Name := Name) (U := U) (Vof Wa) Ba c).arrAt w cfg2.N = Vof (exit0 (Name := Name) (U := U) Wa Ba) c (Pipeline.arrRef spec2 w) :=
  (exit0_arr Wa Ba c w).symm

theorem hrest0 (c : Dev nD) : ∀ b, b ∉ Finset.univ.image (Pipeline.arrRef spec2) → Vof (exit0 (Name := Name) (U := U) Wa Ba) c b = Vof Wa c b :=
  fun b hb => exit0_of_ne Wa Ba c b fun w e => hb (Finset.mem_image.mpr ⟨w, Finset.mem_univ _, e⟩)

/-- Every buffer but the output array's is left as entered: the input windows' arrays are never written back. -/
theorem exit0_frame (c : Dev nD) (b : DevRef τ sig) (hb : b ≠ Proc.devRef .tc main_v96) :
    exit0 (Name := Name) (U := U) Wa Ba c b = Wa c b := by
  by_cases h : ∃ w, Proc.devRef .tc (Pipeline.arrRef spec2 w) = b
  · obtain ⟨w, rfl⟩ := h
    rw [exit0_arr]
    match w with
    | ⟨0, _⟩ => exact ((dat2 (Name := Name) (U := U) (Vof Wa) Ba c).arrAt_in 0 rfl _).trans (A_eq2 (Vof Wa) Ba c 0)
    | ⟨1, _⟩ => exact ((dat2 (Name := Name) (U := U) (Vof Wa) Ba c).arrAt_in 1 rfl _).trans (A_eq2 (Vof Wa) Ba c 1)
    | ⟨2, _⟩ => exact ((dat2 (Name := Name) (U := U) (Vof Wa) Ba c).arrAt_in 2 rfl _).trans (A_eq2 (Vof Wa) Ba c 2)
    | ⟨3, _⟩ => exact ((dat2 (Name := Name) (U := U) (Vof Wa) Ba c).arrAt_in 3 rfl _).trans (A_eq2 (Vof Wa) Ba c 3)
    | ⟨4, _⟩ => exact absurd rfl hb
  · unfold exit0 Pipeline.withArrays
    rw [dif_neg h]

/-- The thread state the region is entered from: every unscoped buffer at the entry valuation, the core owing nothing
    with its recorded pairs within the given set. -/
def pre0 (c : Dev nD) : sProp 𝕄 :=
  iprop(StableHlo.held (c : Thread nD τ) (Pipeline.ucRefs τ sig) (Wa c) ∗ Pipeline.owesWithin c (0 : CellTallies nD τ sig (SparseCore.Cfg.HIx 2)) Ba)
/-- The thread state it leaves: the buffers at the exit valuation, nothing owed, the recorded pairs within the given set
    and the pipeline's own wait pairs. -/
def post0 (c : Dev nD) : sProp 𝕄 :=
  iprop(StableHlo.held (c : Thread nD τ) (Pipeline.ucRefs τ sig) (exit0 (Name := Name) (U := U) Wa Ba c)
    ∗ Pipeline.owesWithin c (0 : CellTallies nD τ sig (SparseCore.Cfg.HIx 2)) (Ba ∪ cfg2.waitPairs none))
/-- What bypasses the region: the unscoped buffers that are no array of the pipeline. -/
def byp0 (c : Dev nD) : sProp 𝕄 :=
  Pipeline.unscopedRest (Ix := SparseCore.Cfg.HIx 2) (Name := Name) (U := U) (Lvl := ℕ) spec2 c (Vof Wa c)

set_option backward.isDefEq.respectTransparency.types false in
/-- The region: its arrays split out of the unscoped buffers at entry and put back at the exit contents; nothing owed;
    no semaphore of the kernel's own; the invariant is the scoped buffers the pipeline does not stage. -/
def reg0 : Pipeline.RegionSeg (pcfgs (F := F)) adm (pdats (Name := Name) (U := U) (Vof Wa) (Vof Wb) Ba Bb) (none : SparseCore.Cfg.HIx 2) defs₀ 𝒱₀ L lv 0 where
  win := launch2.win.to₀
  block_pos := launch2.block_pos
  stage_whole := launch2.stage_whole
  K := PEmpty
  osem k := k.elim
  ho := Pipeline.OwnSemFacts.none _
  hbody c := (body_obligation2 (Vof Wa) Ba c).loose
  hwaits := Pipeline.hwaits_of_owed_zero _ _ _ _ L lv 0 fun _ _ => rfl
  pre := pre0 (Name := Name) (U := U) Wa Ba
  post := post0 (Name := Name) (U := U) Wa Ba
  X c := iprop(emp)
  Y c := iprop(emp)
  Z := byp0 (Name := Name) (U := U) Wa
  hentry c := by
    rw [Pipeline.ownSems0_none]; unfold pre0 byp0
    have hsplit := Pipeline.arrays_of_unscopedBufs (p := 0) (pcfgs (F := F)) adm (pdats (Name := Name) (U := U) (Vof Wa) (Vof Wb) Ba Bb) launch2.win launch2.arr_whole c
      (((pdats (Name := Name) (U := U) (Vof Wa) (Vof Wb) Ba Bb) 0 c).share_full fun _ => rfl) (Vof Wa c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show ((pdats (Name := Name) (U := U) (Vof Wa) (Vof Wb) Ba Bb) 0 c).Φ 0 = Pipeline.scopedRest spec2 c from rfl]
    iintro ⟨-, -, Hr⟩
    iexact Hr
  hout c := by
    rw [Pipeline.ownSems0_none, show ((pdats (Name := Name) (U := U) (Vof Wa) (Vof Wb) Ba Bb) 0 c).Φ (Fin.last _) = Pipeline.scopedRest spec2 c from rfl]
    iintro Hr
    isplitr; · iempintro
    isplitr; · iempintro
    iexact Hr
  hexit c := by
    have hjoin := Pipeline.unscopedBufs_of_arrays (p := 0) (pcfgs (F := F)) adm (Ix := SparseCore.Cfg.HIx 2) (Name := Name) (U := U) (Lvl := ℕ)
      launch2.win launch2.arr_whole c (pdats (Name := Name) (U := U) (Vof Wa) (Vof Wb) Ba Bb) (((pdats (Name := Name) (U := U) (Vof Wa) (Vof Wb) Ba Bb) 0 c).share_full fun _ => rfl)
      (Vof Wa c) (Vof (exit0 (Name := Name) (U := U) Wa Ba) c) (((pdats (Name := Name) (U := U) (Vof Wa) (Vof Wb) Ba Bb) 0 c).arrAt · cfg2.N) (hF0 Wa Ba c) (hrest0 Wa Ba c)
    rw [Pipeline.unscopedBufs_held] at hjoin
    unfold post0 byp0
    iintro ⟨Ha, HO, -, Hrest⟩
    imodintro
    isplitl [Ha Hrest]
    · iapply hjoin; isplitl [Ha] <;> iassumption
    iexact HO

end Segs

end Cert.KernelIdeal.Tc

end
-- ==== Proof.TcSeg1.lean ====
import proofs.«204681_g65575560675685_cont_9to1_m_144_57_alg».proof.Proof.TcBody3
import proofs.«204681_g65575560675685_cont_9to1_m_144_57_alg».proof.Proof.TcSeg0
import Idealize.ShloMosaic.Lib.SparseCore.Threads

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 1 as a region of the main program

The region is entered from every unscoped TensorCore buffer at a valuation and left at the valuation that has the
pipeline's arrays at what its write-backs leave and every other buffer as entered; the core owes nothing throughout, and
the pairs its waits have recorded grow by the pipeline's own waits only (all at the index none). -/

section Segs

variable (Wa Wb : Dev nD → Valuation τ sig (Elt F)) (Ba Bb : Set (SemLoc sig × SparseCore.Cfg.HIx 2))
variable (L : GSem nD τ sig → Finset (SparseCore.Cfg.HIx 2)) (lv : GSem nD τ sig → SparseCore.Cfg.HIx 2 → ℕ)

/-- At the region's exit: its arrays at what the pipeline leaves (the inputs as entered, the output's write-backs
    folded), every other buffer as entered. -/
def exit1 (c : Dev nD) : Valuation τ sig (Elt F) :=
  Pipeline.withArrays spec3 c (Wb c) fun w => (dat3 (Name := Name) (U := U) (Vof Wb) Bb c).arrAt w cfg3.N

theorem exit1_arr (c : Dev nD) (w : Fin cfg3.W) :
    exit1 (Name := Name) (U := U) Wb Bb c (Proc.devRef .tc (Pipeline.arrRef spec3 w)) = (dat3 (Name := Name) (U := U) (Vof Wb) Bb c).arrAt w cfg3.N := by
  unfold exit1; exact Pipeline.withArrays_arr spec3 launch3.win.arr_inj c _ _ w

theorem exit1_of_ne (c : Dev nD) (b : Ref sig .tc) (hb : ∀ w, Pipeline.arrRef spec3 w ≠ b) :
    exit1 (Name := Name) (U := U) Wb Bb c (Proc.devRef .tc b) = Wb c (Proc.devRef .tc b) := by
  unfold exit1; exact Pipeline.withArrays_of_ne spec3 c _ _ b hb

theorem hF1 (c : Dev nD) (w : Fin cfg3.W) :
    (dat3 (Name := Name) (U := U) (Vof Wb) Bb c).arrAt w cfg3.N = Vof (exit1 (Name := Name) (U := U) Wb Bb) c (Pipeline.arrRef spec3 w) :=
  (exit1_arr Wb Bb c w).symm

theorem hrest1 (c : Dev nD) : ∀ b, b ∉ Finset.univ.image (Pipeline.arrRef spec3) → Vof (exit1 (Name := Name) (U := U) Wb Bb) c b = Vof Wb c b :=
  fun b hb => exit1_of_ne Wb Bb c b fun w e => hb (Finset.mem_image.mpr ⟨w, Finset.mem_univ _, e⟩)

/-- Every buffer but the output array's is left as entered: the input windows' arrays are never written back. -/
theorem exit1_frame (c : Dev nD) (b : DevRef τ sig) (hb : b ≠ Proc.devRef .tc main_v97) :
    exit1 (Name := Name) (U := U) Wb Bb c b = Wb c b := by
  by_cases h : ∃ w, Proc.devRef .tc (Pipeline.arrRef spec3 w) = b
  · obtain ⟨w, rfl⟩ := h
    rw [exit1_arr]
    match w with
    | ⟨0, _⟩ => exact ((dat3 (Name := Name) (U := U) (Vof Wb) Bb c).arrAt_in 0 rfl _).trans (A_eq3 (Vof Wb) Bb c 0)
    | ⟨1, _⟩ => exact ((dat3 (Name := Name) (U := U) (Vof Wb) Bb c).arrAt_in 1 rfl _).trans (A_eq3 (Vof Wb) Bb c 1)
    | ⟨2, _⟩ => exact ((dat3 (Name := Name) (U := U) (Vof Wb) Bb c).arrAt_in 2 rfl _).trans (A_eq3 (Vof Wb) Bb c 2)
    | ⟨3, _⟩ => exact ((dat3 (Name := Name) (U := U) (Vof Wb) Bb c).arrAt_in 3 rfl _).trans (A_eq3 (Vof Wb) Bb c 3)
    | ⟨4, _⟩ => exact absurd rfl hb
  · unfold exit1 Pipeline.withArrays
    rw [dif_neg h]

/-- The thread state the region is entered from: every unscoped buffer at the entry valuation, the core owing nothing
    with its recorded pairs within the given set. -/
def pre1 (c : Dev nD) : sProp 𝕄 :=
  iprop(StableHlo.held (c : Thread nD τ) (Pipeline.ucRefs τ sig) (Wb c) ∗ Pipeline.owesWithin c (0 : CellTallies nD τ sig (SparseCore.Cfg.HIx 2)) Bb)
/-- The thread state it leaves: the buffers at the exit valuation, nothing owed, the recorded pairs within the given set
    and the pipeline's own wait pairs. -/
def post1 (c : Dev nD) : sProp 𝕄 :=
  iprop(StableHlo.held (c : Thread nD τ) (Pipeline.ucRefs τ sig) (exit1 (Name := Name) (U := U) Wb Bb c)
    ∗ Pipeline.owesWithin c (0 : CellTallies nD τ sig (SparseCore.Cfg.HIx 2)) (Bb ∪ cfg3.waitPairs none))
/-- What bypasses the region: the unscoped buffers that are no array of the pipeline. -/
def byp1 (c : Dev nD) : sProp 𝕄 :=
  Pipeline.unscopedRest (Ix := SparseCore.Cfg.HIx 2) (Name := Name) (U := U) (Lvl := ℕ) spec3 c (Vof Wb c)

set_option backward.isDefEq.respectTransparency.types false in
/-- The region: its arrays split out of the unscoped buffers at entry and put back at the exit contents; nothing owed;
    no semaphore of the kernel's own; the invariant is the scoped buffers the pipeline does not stage. -/
def reg1 : Pipeline.RegionSeg (pcfgs (F := F)) adm (pdats (Name := Name) (U := U) (Vof Wa) (Vof Wb) Ba Bb) (none : SparseCore.Cfg.HIx 2) defs₀ 𝒱₀ L lv 1 where
  win := launch3.win.to₀
  block_pos := launch3.block_pos
  stage_whole := launch3.stage_whole
  K := PEmpty
  osem k := k.elim
  ho := Pipeline.OwnSemFacts.none _
  hbody c := (body_obligation3 (Vof Wb) Bb c).loose
  hwaits := Pipeline.hwaits_of_owed_zero _ _ _ _ L lv 1 fun _ _ => rfl
  pre := pre1 (Name := Name) (U := U) Wb Bb
  post := post1 (Name := Name) (U := U) Wb Bb
  X c := iprop(emp)
  Y c := iprop(emp)
  Z := byp1 (Name := Name) (U := U) Wb
  hentry c := by
    rw [Pipeline.ownSems0_none]; unfold pre1 byp1
    have hsplit := Pipeline.arrays_of_unscopedBufs (p := 1) (pcfgs (F := F)) adm (pdats (Name := Name) (U := U) (Vof Wa) (Vof Wb) Ba Bb) launch3.win launch3.arr_whole c
      (((pdats (Name := Name) (U := U) (Vof Wa) (Vof Wb) Ba Bb) 1 c).share_full fun _ => rfl) (Vof Wb c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show ((pdats (Name := Name) (U := U) (Vof Wa) (Vof Wb) Ba Bb) 1 c).Φ 0 = Pipeline.scopedRest spec3 c from rfl]
    iintro ⟨-, -, Hr⟩
    iexact Hr
  hout c := by
    rw [Pipeline.ownSems0_none, show ((pdats (Name := Name) (U := U) (Vof Wa) (Vof Wb) Ba Bb) 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := SparseCore.Cfg.HIx 2) (Name := Name) (U := U) (Lvl := ℕ)
      launch3.win launch3.arr_whole c (pdats (Name := Name) (U := U) (Vof Wa) (Vof Wb) Ba Bb) (((pdats (Name := Name) (U := U) (Vof Wa) (Vof Wb) Ba Bb) 1 c).share_full fun _ => rfl)
      (Vof Wb c) (Vof (exit1 (Name := Name) (U := U) Wb Bb) c) (((pdats (Name := Name) (U := U) (Vof Wa) (Vof Wb) Ba Bb) 1 c).arrAt · cfg3.N) (hF1 Wb Bb c) (hrest1 Wb Bb c)
    rw [Pipeline.unscopedBufs_held] at hjoin
    unfold post1 byp1
    iintro ⟨Ha, HO, -, Hrest⟩
    imodintro
    isplitl [Ha Hrest]
    · iapply hjoin; isplitl [Ha] <;> iassumption
    iexact HO

end Segs

end Cert.KernelIdeal.Tc

end
-- ==== Proof.TcStep0.lean ====
import proofs.«204681_g65575560675685_cont_9to1_m_144_57_alg».proof.Proof.TcSeg0

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 0's region as one step of the main program's TensorCore thread

From the boundary, every unscoped buffer at a valuation W, the core owing nothing with recorded pairs Wt, the level
facts and the pipeline's rounds ghost state, the call of the pipeline's entry runs to the boundary, the buffers at the
exit valuation and the core owing nothing with recorded pairs that are old or at the index none. -/

section Step

/-- The call of a pipeline's entry, lifted to the body table extended by the SparseCore launch's labels, is the call of
    its inner label. -/
theorem lift_entry (p : Fin 2) :
    (SparseCore.liftProg (Q := 2) (Prog.op (.customCall (Pipeline.entry p) ()) (fun _ => Prog.ret PUnit.unit) :
        Prog (TpuEff nD τ sig (Elt F) (Pipeline.Sig Λ₀ (Fin 2) fun p => (pcfgs (F := F) p).Adm) .tc) PUnit))
      = Prog.lift (.customCall (SparseCore.inner (Pipeline.entry p)) ()) := rfl

set_option backward.isDefEq.respectTransparency.types false in
set_option maxHeartbeats 400000 in
theorem region0_step [Infinite Name]
    (EP : Emb (URounds (GSem nD τ sig) Unit) 𝕄) [EP.LandsIn (upEmb : UEmb _ 𝕄)]
    (L : GSem nD τ sig → Finset (SparseCore.Cfg.HIx 2)) (lv : GSem nD τ sig → SparseCore.Cfg.HIx 2 → ℕ)
    (d : Dev nD) (W : Valuation τ sig (Elt F)) (Wt : Waits sig (SparseCore.Cfg.HIx 2)) {β : Type}
    (k : PUnit.{1} → Prog (TpuEff nD τ sig (Elt F) (SparseCore.Sig (Pipeline.Sig Λ₀ (Fin 2) fun p => (pcfgs (F := F) p).Adm) 2) .tc) β)
    (Φ : β → sProp 𝕄) :
    iprop(levAts L lv ∗ boundary (d.tc : Thread nD τ)
        ∗ (Pipeline.cellsGhost cfgs EP 0 d ∗ Pipeline.toksInit cfgs EP 0 d)
        ∗ StableHlo.held (d.tc : Thread nD τ) (Pipeline.ucRefs τ sig) W
        ∗ owes (d.tc : Thread nD τ) (0 : CellTallies nD τ sig (SparseCore.Cfg.HIx 2)) Wt
        ∗ (∀ Wt' : Waits sig (SparseCore.Cfg.HIx 2), ⌜∀ p ∈ Wt', p ∈ Wt ∨ p.2 = none⌝
            -∗ iprop(boundary (d.tc : Thread nD τ) ∗ StableHlo.held (d.tc : Thread nD τ) (Pipeline.ucRefs τ sig) (exit0 (Name := Name) (U := U) (fun _ => W) (↑Wt : Set (SemLoc sig × SparseCore.Cfg.HIx 2)) d)
                ∗ owes (d.tc : Thread nD τ) (0 : CellTallies nD τ sig (SparseCore.Cfg.HIx 2)) Wt')
            -∗ wp frame (wpE (defs (F := F)) (Variants.lift 𝒱₀) (d.tc : Thread nD τ) none) Set.univ (k ⟨⟩) Φ))
      ⊢ wp frame (wpE (defs (F := F)) (Variants.lift 𝒱₀) (d.tc : Thread nD τ) none) Set.univ
          (Prog.lift (.customCall (SparseCore.inner (Pipeline.entry 0)) ()) >>= k) Φ := by
  have h := Pipeline.RegionSeg.wp (pcfgs (F := F)) adm (pdats (Name := Name) (U := U) (Vof (fun _ => W)) (Vof (fun _ => W)) (↑Wt : Set (SemLoc sig × SparseCore.Cfg.HIx 2)) (↑Wt : Set (SemLoc sig × SparseCore.Cfg.HIx 2))) (none : SparseCore.Cfg.HIx 2) cellOf_inj EP defs₀ 𝒱₀ L lv
    (reg0 (Name := Name) (U := U) (fun _ => W) (fun _ => W) (↑Wt : Set (SemLoc sig × SparseCore.Cfg.HIx 2)) (↑Wt : Set (SemLoc sig × SparseCore.Cfg.HIx 2)) L lv) d none (fun _ h => nomatch h) (fun _ => .ret ⟨⟩)
    (fun a => wp frame (wpE (sc.defs (Pipeline.defs (pcfgs (F := F)) defs₀)) (Variants.lift 𝒱₀) (d.tc : Thread nD τ) none) Set.univ (k a) Φ)
  have hl := sc.wp_liftProg (Pipeline.defs (pcfgs (F := F)) defs₀) (Variants.lift 𝒱₀) (d.tc : Thread nD τ) (Set.univ : Set Name) none
    (Prog.op (.customCall (Pipeline.entry 0) ()) (fun _ => Prog.ret PUnit.unit) : Prog (TpuEff nD τ sig (Elt F) (Pipeline.Sig Λ₀ (Fin 2) fun p => (pcfgs (F := F) p).Adm) .tc) PUnit)
    (fun a => wp frame (wpE (sc.defs (Pipeline.defs (pcfgs (F := F)) defs₀)) (Variants.lift 𝒱₀) (d.tc : Thread nD τ) none) Set.univ (k a) Φ)
  rw [wp_bind, ← lift_entry 0]
  unfold defs
  refine BIBase.Entails.trans ?_ (BIBase.Entails.trans h hl)
  iintro ⟨Hlev, Hb, ⟨Hg, Ht⟩, Hh, HO, Hk⟩
  isplitl [Hk]
  · iintro ⟨Hb, Hpost⟩
    rw [wp_ret]
    imodintro
    unfold reg0 post0 Pipeline.owesWithin
    icases Hpost with ⟨Hh, ⟨%Wt', %hW, HO⟩⟩
    have hp : ∀ p ∈ Wt', p ∈ Wt ∨ p.2 = none := fun p hp => by
      rcases hW (Finset.mem_coe.mpr hp) with h | ⟨w, s, rfl⟩
      · exact Or.inl (Finset.mem_coe.mp h)
      · exact Or.inr rfl
    iapply Hk $$ %Wt' %hp
    isplitl [Hb]; · iexact Hb
    isplitl [Hh]; · iexact Hh
    iexact HO
  isplitl [Hb]; · iexact Hb
  isplitl [Hh HO]
  · unfold reg0 pre0 Pipeline.owesWithin
    isplitl [Hh]; · iexact Hh
    iexists Wt; isplitr; · ipureintro; exact subset_rfl
    iexact HO
  isplitl [Hlev]; · iexact Hlev
  isplitl [Hg]; · iexact Hg
  iexact Ht

end Step

end Cert.KernelIdeal.Tc

end
-- ==== Proof.TcStep1.lean ====
import proofs.«204681_g65575560675685_cont_9to1_m_144_57_alg».proof.Proof.TcSeg1
import proofs.«204681_g65575560675685_cont_9to1_m_144_57_alg».proof.Proof.TcStep0

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 1's region as one step of the main program's TensorCore thread

From the boundary, every unscoped buffer at a valuation W, the core owing nothing with recorded pairs Wt, the level
facts and the pipeline's rounds ghost state, the call of the pipeline's entry runs to the boundary, the buffers at the
exit valuation and the core owing nothing with recorded pairs that are old or at the index none. -/

section Step

set_option backward.isDefEq.respectTransparency.types false in
set_option maxHeartbeats 400000 in
theorem region1_step [Infinite Name]
    (EP : Emb (URounds (GSem nD τ sig) Unit) 𝕄) [EP.LandsIn (upEmb : UEmb _ 𝕄)]
    (L : GSem nD τ sig → Finset (SparseCore.Cfg.HIx 2)) (lv : GSem nD τ sig → SparseCore.Cfg.HIx 2 → ℕ)
    (d : Dev nD) (W : Valuation τ sig (Elt F)) (Wt : Waits sig (SparseCore.Cfg.HIx 2)) {β : Type}
    (k : PUnit.{1} → Prog (TpuEff nD τ sig (Elt F) (SparseCore.Sig (Pipeline.Sig Λ₀ (Fin 2) fun p => (pcfgs (F := F) p).Adm) 2) .tc) β)
    (Φ : β → sProp 𝕄) :
    iprop(levAts L lv ∗ boundary (d.tc : Thread nD τ)
        ∗ (Pipeline.cellsGhost cfgs EP 1 d ∗ Pipeline.toksInit cfgs EP 1 d)
        ∗ StableHlo.held (d.tc : Thread nD τ) (Pipeline.ucRefs τ sig) W
        ∗ owes (d.tc : Thread nD τ) (0 : CellTallies nD τ sig (SparseCore.Cfg.HIx 2)) Wt
        ∗ (∀ Wt' : Waits sig (SparseCore.Cfg.HIx 2), ⌜∀ p ∈ Wt', p ∈ Wt ∨ p.2 = none⌝
            -∗ iprop(boundary (d.tc : Thread nD τ) ∗ StableHlo.held (d.tc : Thread nD τ) (Pipeline.ucRefs τ sig) (exit1 (Name := Name) (U := U) (fun _ => W) (↑Wt : Set (SemLoc sig × SparseCore.Cfg.HIx 2)) d)
                ∗ owes (d.tc : Thread nD τ) (0 : CellTallies nD τ sig (SparseCore.Cfg.HIx 2)) Wt')
            -∗ wp frame (wpE (defs (F := F)) (Variants.lift 𝒱₀) (d.tc : Thread nD τ) none) Set.univ (k ⟨⟩) Φ))
      ⊢ wp frame (wpE (defs (F := F)) (Variants.lift 𝒱₀) (d.tc : Thread nD τ) none) Set.univ
          (Prog.lift (.customCall (SparseCore.inner (Pipeline.entry 1)) ()) >>= k) Φ := by
  have h := Pipeline.RegionSeg.wp (pcfgs (F := F)) adm (pdats (Name := Name) (U := U) (Vof (fun _ => W)) (Vof (fun _ => W)) (↑Wt : Set (SemLoc sig × SparseCore.Cfg.HIx 2)) (↑Wt : Set (SemLoc sig × SparseCore.Cfg.HIx 2))) (none : SparseCore.Cfg.HIx 2) cellOf_inj EP defs₀ 𝒱₀ L lv
    (reg1 (Name := Name) (U := U) (fun _ => W) (fun _ => W) (↑Wt : Set (SemLoc sig × SparseCore.Cfg.HIx 2)) (↑Wt : Set (SemLoc sig × SparseCore.Cfg.HIx 2)) L lv) d none (fun _ h => nomatch h) (fun _ => .ret ⟨⟩)
    (fun a => wp frame (wpE (sc.defs (Pipeline.defs (pcfgs (F := F)) defs₀)) (Variants.lift 𝒱₀) (d.tc : Thread nD τ) none) Set.univ (k a) Φ)
  have hl := sc.wp_liftProg (Pipeline.defs (pcfgs (F := F)) defs₀) (Variants.lift 𝒱₀) (d.tc : Thread nD τ) (Set.univ : Set Name) none
    (Prog.op (.customCall (Pipeline.entry 1) ()) (fun _ => Prog.ret PUnit.unit) : Prog (TpuEff nD τ sig (Elt F) (Pipeline.Sig Λ₀ (Fin 2) fun p => (pcfgs (F := F) p).Adm) .tc) PUnit)
    (fun a => wp frame (wpE (sc.defs (Pipeline.defs (pcfgs (F := F)) defs₀)) (Variants.lift 𝒱₀) (d.tc : Thread nD τ) none) Set.univ (k a) Φ)
  rw [wp_bind, ← lift_entry 1]
  unfold defs
  refine BIBase.Entails.trans ?_ (BIBase.Entails.trans h hl)
  iintro ⟨Hlev, Hb, ⟨Hg, Ht⟩, Hh, HO, Hk⟩
  isplitl [Hk]
  · iintro ⟨Hb, Hpost⟩
    rw [wp_ret]
    imodintro
    unfold reg1 post1 Pipeline.owesWithin
    icases Hpost with ⟨Hh, ⟨%Wt', %hW, HO⟩⟩
    have hp : ∀ p ∈ Wt', p ∈ Wt ∨ p.2 = none := fun p hp => by
      rcases hW (Finset.mem_coe.mpr hp) with h | ⟨w, s, rfl⟩
      · exact Or.inl (Finset.mem_coe.mp h)
      · exact Or.inr rfl
    iapply Hk $$ %Wt' %hp
    isplitl [Hb]; · iexact Hb
    isplitl [Hh]; · iexact Hh
    iexact HO
  isplitl [Hb]; · iexact Hb
  isplitl [Hh HO]
  · unfold reg1 pre1 Pipeline.owesWithin
    isplitl [Hh]; · iexact Hh
    iexists Wt; isplitr; · ipureintro; exact subset_rfl
    iexact HO
  isplitl [Hlev]; · iexact Hlev
  isplitl [Hg]; · iexact Hg
  iexact Ht

end Step

end Cert.KernelIdeal.Tc

end
-- ==== Proof.CoreRegionsI.lean ====
/-
  The two TensorCore regions as steps of @main under the launch's resource algebra.
-/
import proofs.«204681_g65575560675685_cont_9to1_m_144_57_alg».proof.Proof.HmainTopI
import proofs.«204681_g65575560675685_cont_9to1_m_144_57_alg».proof.Proof.TcStep1

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The buffers' contents at a region's exit: the region's arrays at what its grid points wrote, the rest as they were. -/
def ex0 (d : Dev nD) (Wt : Waits sig (HIx 2)) (W : Valuation τ sig (Elt F)) : Valuation τ sig (Elt F) :=
  Cert.KernelIdeal.Tc.exit0 (Name := ℕ) (U := UU) (fun _ => W) (↑Wt : Set (SemLoc sig × HIx 2)) d
def ex1 (d : Dev nD) (Wt : Waits sig (HIx 2)) (W : Valuation τ sig (Elt F)) : Valuation τ sig (Elt F) :=
  Cert.KernelIdeal.Tc.exit1 (Name := ℕ) (U := UU) (fun _ => W) (↑Wt : Set (SemLoc sig × HIx 2)) d

theorem hr0 : RegionStep (F := F) 0 ex0 := fun d W Wt _ k Φ =>
  Cert.KernelIdeal.Tc.region0_step (F := F) (Name := ℕ) (U := UU) EP (K (F := F)).L (K (F := F)).lev d W Wt k Φ
theorem hr1 : RegionStep (F := F) 1 ex1 := fun d W Wt _ k Φ =>
  Cert.KernelIdeal.Tc.region1_step (F := F) (Name := ℕ) (U := UU) EP (K (F := F)).L (K (F := F)).lev d W Wt k Φ

theorem hex0 (d : Dev nD) (Wt : Waits sig (HIx 2)) (W : Valuation τ sig (Elt F)) (b : DevRef τ sig) (hb : b ≠ Proc.devRef .tc main_v96) :
    ex0 d Wt W b = W b := Cert.KernelIdeal.Tc.exit0_frame (Name := ℕ) (U := UU) (fun _ => W) (↑Wt : Set (SemLoc sig × HIx 2)) d b hb
theorem hex1 (d : Dev nD) (Wt : Waits sig (HIx 2)) (W : Valuation τ sig (Elt F)) (b : DevRef τ sig) (hb : b ≠ Proc.devRef .tc main_v97) :
    ex1 d Wt W b = W b := Cert.KernelIdeal.Tc.exit1_frame (Name := ℕ) (U := UU) (fun _ => W) (↑Wt : Set (SemLoc sig × HIx 2)) d b hb

end Cert.KernelIdeal.Launch

end
-- ==== Proof.FramesVI.lean ====
/-
  The kernel program's run with its result named: under the precondition every weakly fair execution terminates, nothing
  faulting, with the result array at the final contents of the launch's @main proof and the six arguments unchanged.
-/
import proofs.«204681_g65575560675685_cont_9to1_m_144_57_alg».proof.Proof.RunVI
import proofs.«204681_g65575560675685_cont_9to1_m_144_57_alg».proof.Proof.FramesI
import proofs.«204681_g65575560675685_cont_9to1_m_144_57_alg».proof.Proof.CoreRegionsI

noncomputable section

namespace Cert.KernelIdeal.LaunchV

open Cert.KernelIdeal Cert.KernelIdeal.Gen Cert.KernelIdeal.Setup Cert.KernelIdeal.HostOps Cert.KernelIdeal.Launch

open Idealize.ShloMosaic
open Idealize.ShloMosaic.SparseCore (S V T)
open Idealize.ShloMosaic.SparseCore.Cfg (HIx Pay)
open Idealize.SL.Sem

variable {F : FTy → Type} [FloatOps F]
variable (m : (ℓ : Loc nD τ sig) → Buf (Elt F) ℓ)
variable (g : GatherFn F)
variable [Cert.Pre_input_domain.Facts]

omit [FloatOps F] [Cert.Pre_input_domain.Facts] in
theorem v97_mem : (Proc.devRef .tc main_v97 : DevRef τ sig) ∈ Pipeline.ucRefs τ sig :=
  Finset.mem_filter.mpr ⟨StableHlo.devRef_mem_tcRefs _, by decide⟩

/-- No step of @main after the host stretch writes an argument array: the final contents agree with the launch's there. -/
theorem Vfin_args (d : Dev nD) (Wt0 Wt1 : Waits sig (HIx 2)) (b : DevRef τ sig) (hb : b ∈ argRefs) :
    Vfin m g Launch.ex0 Launch.ex1 d Wt0 Wt1 b = V₀ m d b := by
  obtain ⟨h96, h97, h940, h941, h950, h951⟩ := argRefs_ne b hb
  unfold Vfin W3 W2
  rw [hex1 d _ _ b h97, after_copy_ne _ b h97, hex0 d _ _ b h96, upd1_of_ne _ _ _ b h950 h951, upd0_of_ne _ _ _ b h940 h941, keep_args m d b hb]

/-- The ingredients of the run with values that depend on the float instance: one tile's task on each core of each call
    with its rows' contents named, and the join of the tiles' hand-backs into the whole-array gather `g`. -/
structure Core (F : FTy → Type) [FloatOps F] (g : GatherFn F) : Prop where
  hb00 : Cert.Proof.KernelIdeal.ScTile0.TileBodyV0 F UU
  hb01 : Cert.Proof.KernelIdeal.ScTile0.TileBodyV1 F UU
  hb10 : Cert.Proof.KernelIdeal.ScTile1.TileBodyV0 F UU
  hb11 : Cert.Proof.KernelIdeal.ScTile1.TileBodyV1 F UU
  hj0 : Join0 F g
  hj1 : Join1 F g

theorem Core.parts {g : GatherFn F} (co : Core F g) (m : (ℓ : Loc nD τ sig) → Buf (Elt F) ℓ) (h : PreM m) :
    Parts F m g Launch.ex0 Launch.ex1 where
  hb00 := co.hb00
  hb01 := co.hb01
  hb10 := co.hb10
  hb11 := co.hb11
  hs0 := Launch.hs0
  hj0 := co.hj0
  hs1 := Launch.hs1
  hj1 := co.hj1
  hr0 := Launch.hr0
  hr1 := Launch.hr1
  hpre0 := fun d => (pre_ok m h d).1
  hpre1 := fun d => (pre_ok m h d).2

/-- The run, in the claim's spelling: the result array named, the arguments unchanged. -/
theorem run_val [∀ e, Nonempty (Elt F e)] {g : GatherFn F} (co : Core F g) (m : (ℓ : Loc nD τ sig) → Buf (Elt F) ℓ) (ρ : Dev nD → PrngReg) (h : PreM m) :
    θ_run (Cert.KernelIdeal.defs (F := F)) (Cert.KernelIdeal.threads (F := F)) ⟨m, fun _ => 0, ρ⟩ (fun r => ∀ c : Dev nD,
      (∃ Wt0 Wt1 : Waits sig (HIx 2), r.2.mem ((c.tc : Thread nD τ).loc main_v97) = Vfin m g Launch.ex0 Launch.ex1 c Wt0 Wt1 (Proc.devRef .tc main_v97))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.KernelIdeal.defs _ _).mono (fun r hr c => by
    obtain ⟨Wt0, Wt1, hv⟩ := hr c
    have ha : ∀ b ∈ argRefs, r.2.mem (c, b) = m (c, b) := fun b hb =>
      (hv b (argRefs_sub hb)).trans (Vfin_args m g c Wt0 Wt1 b hb)
    exact ⟨⟨Wt0, Wt1, hv (Proc.devRef .tc main_v97) v97_mem⟩,
      ha _ (by simp [argRefs]), ha _ (by simp [argRefs]), ha _ (by simp [argRefs]), ha _ (by simp [argRefs]), ha _ (by simp [argRefs]), ha _ (by simp [argRefs])⟩)
    (run_main m ρ g Launch.ex0 Launch.ex1 (co.parts m h))

end Cert.KernelIdeal.LaunchV

end
-- ==== Proof.LibGatherAll.lean ====
/-
  What a gather call of the program computes as ONE function of a table [100000, 128] and an index operand
  [32, 18, 128]: output row ρ of the 51200 reads the table at the row named by one word of the index operand. Tile
  (c, i) of the 2 × 16 tiles holds slab 16 c + i of the index operand and writes output rows 2304 i + 128 r + l
  (core 0, r < 18) or 36864 + 896 i + 128 r + l (core 1, r < 7) from its slab's word (r, l); 16·2304 = 36864 and
  36864 + 16·896 = 51200, so every output row is written once.
-/
import Idealize.ShloMosaic.Lib.ValueIdx

namespace LibGatherAll

open Idealize.ShloMosaic Idealize.ShloMosaic.ValueIdx

/-- The table row a word names: the word as a natural, reduced into the table's 100000 rows (itself when in range). -/
def rowOfWord (w : BitVec 32) : Fin 100000 := ⟨w.toNat % 100000, Nat.mod_lt _ (by decide)⟩

theorem rowOfWord_of_lt (w : BitVec 32) (h : w.toNat < 100000) : rowOfWord w = ⟨w.toNat, h⟩ :=
  Fin.ext (Nat.mod_eq_of_lt h)

/-- Where output row ρ's word sits in an index operand: (slab, row, lane). -/
def slabOfRow (ρ : Fin 51200) : (⟨3, ![32, 18, 128]⟩ : Shape).Idx :=
  if h : ρ.val < 36864 then
    ix3 ⟨ρ.val / 2304, by omega⟩ ⟨ρ.val % 2304 / 128, by omega⟩ ⟨ρ.val % 128, by omega⟩
  else
    ix3 ⟨16 + (ρ.val - 36864) / 896, by have := ρ.isLt; omega⟩ ⟨(ρ.val - 36864) % 896 / 128, by omega⟩
      ⟨ρ.val % 128, by omega⟩

/-- A core-0 tile's row: tile i, chunk r, lane l. -/
theorem slabOfRow_core0 (i : Fin 16) (r : Fin 18) (l : Fin 128) (ρ : Fin 51200)
    (hρ : ρ.val = 2304 * i.val + 128 * r.val + l.val) :
    slabOfRow ρ = ix3 ⟨i.val, by omega⟩ r l := by
  have hi := i.isLt
  have hr := r.isLt
  have hl := l.isLt
  unfold slabOfRow
  rw [dif_pos (by omega)]
  funext a
  match a with
  | ⟨0, _⟩ => exact Fin.ext (by show ρ.val / 2304 = i.val; omega)
  | ⟨1, _⟩ => exact Fin.ext (by show ρ.val % 2304 / 128 = r.val; omega)
  | ⟨2, _⟩ => exact Fin.ext (by show ρ.val % 128 = l.val; omega)

/-- A core-1 tile's row: tile i, chunk r < 7, lane l. -/
theorem slabOfRow_core1 (i : Fin 16) (r : Fin 7) (l : Fin 128) (ρ : Fin 51200)
    (hρ : ρ.val = 36864 + 896 * i.val + 128 * r.val + l.val) :
    slabOfRow ρ = ix3 ⟨16 + i.val, by omega⟩ ⟨r.val, by omega⟩ l := by
  have hi := i.isLt
  have hr := r.isLt
  have hl := l.isLt
  unfold slabOfRow
  rw [dif_neg (by omega)]
  funext a
  match a with
  | ⟨0, _⟩ => exact Fin.ext (by show 16 + (ρ.val - 36864) / 896 = 16 + i.val; omega)
  | ⟨1, _⟩ => exact Fin.ext (by show (ρ.val - 36864) % 896 / 128 = r.val; omega)
  | ⟨2, _⟩ => exact Fin.ext (by show ρ.val % 128 = l.val; omega)

/-- The gather of a whole call: output element (ρ, k) is the table's element (row named by ρ's word, k). -/
def gatherAll {α : Type} (tab : (⟨2, ![100000, 128]⟩ : Shape).Idx → α)
    (idx : (⟨3, ![32, 18, 128]⟩ : Shape).Idx → BitVec 32) : (⟨2, ![51200, 128]⟩ : Shape).Idx → α :=
  fun j => tab (ix2 (rowOfWord (idx (slabOfRow ⟨(j 0).val, idx2_lt0 j⟩))) ⟨(j 1).val, idx2_lt1 j⟩)

theorem gatherAll_apply {α : Type} (tab : (⟨2, ![100000, 128]⟩ : Shape).Idx → α)
    (idx : (⟨3, ![32, 18, 128]⟩ : Shape).Idx → BitVec 32) (ρ : Fin 51200) (k : Fin 128) :
    gatherAll tab idx (ix2 ρ k) = tab (ix2 (rowOfWord (idx (slabOfRow ρ))) k) := rfl

end LibGatherAll
-- ==== Proof.JoinVI.lean ====
/-
  The first gather call's outputs after all 32 tiles have handed their rows back, NAMED: each tile's rows hold the
  gather of the whole call (one function of a table and an index operand), so the joined outputs are that function
  of the call's operands.
-/
import proofs.«204681_g65575560675685_cont_9to1_m_144_57_alg».proof.Proof.PayVI
import proofs.«204681_g65575560675685_cont_9to1_m_144_57_alg».proof.Proof.SplitI
import proofs.«204681_g65575560675685_cont_9to1_m_144_57_alg».proof.Proof.LibGatherAll

noncomputable section

namespace Cert.KernelIdeal.LaunchV

open Cert.KernelIdeal Cert.KernelIdeal.Gen Cert.KernelIdeal.Setup Cert.KernelIdeal.Launch
open Cert.Proof.KernelIdeal.ScTile0

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## Where a tile's views sit -/

/-- Row j, lane l of a tile's slab of an index operand is element (16 c + i, j, l) of the operand. -/
theorem iuSlab_emb (L : grid0.Coords) (j : Fin 18) (l : Fin 128) :
    (iuSlab L).view.emb (ix2 j l)
      = ix3 (⟨16 * (L 0).val + (L 1).val, by have h0 : (L 0).val < 2 := (L 0).isLt; have h1 : (L 1).val < 16 := (L 1).isLt; omega⟩ : Fin 32) j l := by
  have hq : Shape.reshapeEquiv (Shape.Squeezes.numel_eq squeezes_S1x18x128_S18x128) (ix2 j l : S18x128.Idx)
      = (ix3 (0 : Fin 1) j l : S1x18x128.Idx) :=
    Shape.reshapeEquiv_eq_of_rowMajor _ (by
      rw [Shape.rowMajor_val_three, Shape.rowMajor_val_two]
      show ((0 : Nat) * 18 + j.val) * 128 + l.val = j.val * 128 + l.val
      omega)
  funext a
  refine Fin.ext ?_
  simp only [Memref.view_squeeze, Memref.view_slice, Memref.view_whole, View.emb_reshape, View.emb_slice, View.emb_whole,
    Function.Embedding.trans_apply, Equiv.coe_toEmbedding, Function.Embedding.refl_apply, hq, Rect.emb_apply,
    Rect.off_unit, Rect.stride_unit, k0_off1_eq]
  match a with
  | ⟨0, _⟩ => simp
  | ⟨1, _⟩ => simp
  | ⟨2, _⟩ => simp

theorem iiSlab_emb (L : grid0.Coords) (j : Fin 18) (l : Fin 128) :
    (iiSlab L).view.emb (ix2 j l)
      = ix3 (⟨16 * (L 0).val + (L 1).val, by have h0 : (L 0).val < 2 := (L 0).isLt; have h1 : (L 1).val < 16 := (L 1).isLt; omega⟩ : Fin 32) j l := by
  have hq : Shape.reshapeEquiv (Shape.Squeezes.numel_eq squeezes_S1x18x128_S18x128) (ix2 j l : S18x128.Idx)
      = (ix3 (0 : Fin 1) j l : S1x18x128.Idx) :=
    Shape.reshapeEquiv_eq_of_rowMajor _ (by
      rw [Shape.rowMajor_val_three, Shape.rowMajor_val_two]
      show ((0 : Nat) * 18 + j.val) * 128 + l.val = j.val * 128 + l.val
      omega)
  funext a
  refine Fin.ext ?_
  simp only [Memref.view_squeeze, Memref.view_slice, Memref.view_whole, View.emb_reshape, View.emb_slice, View.emb_whole,
    Function.Embedding.trans_apply, Equiv.coe_toEmbedding, Function.Embedding.refl_apply, hq, Rect.emb_apply,
    Rect.off_unit, Rect.stride_unit, k0_off1_eq]
  match a with
  | ⟨0, _⟩ => simp
  | ⟨1, _⟩ => simp
  | ⟨2, _⟩ => simp

/-- Element y of chunk r of a tile's rows of an output: its row and its column. -/
theorem ouC1_emb (L : grid0.Coords) (h2 : k0_cond2 L = 1#1) (r : Fin 7) (y : S128x128.Idx) :
    (((ouC1 L h2 r).view.emb y) 0).val = 896 * (L 1).val + 128 * r.val + 36864 + (y 0).val
      ∧ (((ouC1 L h2 r).view.emb y) 1).val = (y 1).val := by
  constructor <;>
    simp only [Memref.view_slice, Memref.view_whole, View.emb_slice, View.emb_whole, Function.Embedding.trans_apply,
      Function.Embedding.refl_apply] <;> rw [Rect.emb_apply] <;> simp [k0_off3_eq]
theorem oiC1_emb (L : grid0.Coords) (h2 : k0_cond2 L = 1#1) (r : Fin 7) (y : S128x128.Idx) :
    (((oiC1 L h2 r).view.emb y) 0).val = 896 * (L 1).val + 128 * r.val + 36864 + (y 0).val
      ∧ (((oiC1 L h2 r).view.emb y) 1).val = (y 1).val := by
  constructor <;>
    simp only [Memref.view_slice, Memref.view_whole, View.emb_slice, View.emb_whole, Function.Embedding.trans_apply,
      Function.Embedding.refl_apply] <;> rw [Rect.emb_apply] <;> simp [k0_off3_eq]
theorem ouC0_emb (L : grid0.Coords) (h1 : k0_cond1 L = 1#1) (r : Fin 18) (y : S128x128.Idx) :
    (((ouC0 L h1 r).view.emb y) 0).val = 2304 * (L 1).val + 128 * r.val + (y 0).val
      ∧ (((ouC0 L h1 r).view.emb y) 1).val = (y 1).val := by
  constructor <;>
    simp only [Memref.view_slice, Memref.view_whole, View.emb_slice, View.emb_whole, Function.Embedding.trans_apply,
      Function.Embedding.refl_apply] <;> rw [Rect.emb_apply] <;> simp [k0_off2_eq]
theorem oiC0_emb (L : grid0.Coords) (h1 : k0_cond1 L = 1#1) (r : Fin 18) (y : S128x128.Idx) :
    (((oiC0 L h1 r).view.emb y) 0).val = 2304 * (L 1).val + 128 * r.val + (y 0).val
      ∧ (((oiC0 L h1 r).view.emb y) 1).val = (y 1).val := by
  constructor <;>
    simp only [Memref.view_slice, Memref.view_whole, View.emb_slice, View.emb_whole, Function.Embedding.trans_apply,
      Function.Embedding.refl_apply] <;> rw [Rect.emb_apply] <;> simp [k0_off2_eq]

/-! ## A tile's rows hold the gather of the whole call -/

set_option maxHeartbeats 4000000 in
/-- On core 1 (the tile's grid point has first coordinate 1): what the tile's task leaves in its rows is the call's gather. -/
theorem gather_of_tileVal1 (d : Dev nD) (L : grid0.Coords) (h2 : k0_cond2 L = 1#1) (hL : (L 0).val = 1)
    (fu : Buf (Elt F) (tuLoc d)) (fi : Buf (Elt F) (tiLoc d)) (gu : Buf (Elt F) (iuLoc d)) (gi : Buf (Elt F) (iiLoc d))
    (ou' : Buf (Elt F) (ouLoc d)) (oi' : Buf (Elt F) (oiLoc d)) (H : tileVal1 d L h2 fu fi gu gi ou' oi') :
    ∀ j ∈ outSet1 L h2, ou' j = LibGatherAll.gatherAll fu gu j ∧ oi' j = LibGatherAll.gatherAll fi gi j := by
  intro j hj
  unfold outSet1 at hj
  rw [Finset.mem_biUnion] at hj
  obtain ⟨r, -, hr⟩ := hj
  obtain ⟨y, -, rfl⟩ := Finset.mem_map.mp hr
  obtain ⟨eu0, eu1⟩ := ouC1_emb L h2 r y
  obtain ⟨ei0, ei1⟩ := oiC1_emb L h2 r y
  have hL1 : (L 1).val < 16 := (L 1).isLt
  have hy0 : (y 0).val < 128 := (y 0).isLt
  have hr7 := r.isLt
  -- the two outputs' chunks sit at the same place
  have hsame : (oiC1 L h2 r).view.emb y = (ouC1 L h2 r).view.emb y := by
    funext a
    match a with
    | ⟨0, _⟩ => exact Fin.ext (ei0.trans eu0.symm)
    | ⟨1, _⟩ => exact Fin.ext (ei1.trans eu1.symm)
  -- the word the row reads
  have hslab : LibGatherAll.slabOfRow ⟨(((ouC1 L h2 r).view.emb y) 0).val, idx2_lt0 _⟩
      = ix3 (⟨16 * (L 0).val + (L 1).val, by omega⟩ : Fin 32) (r.castLE (by decide : 7 ≤ 18)) (y 0) := by
    rw [LibGatherAll.slabOfRow_core1 ⟨(L 1).val, hL1⟩ r ⟨(y 0).val, hy0⟩ _ (by show (((ouC1 L h2 r).view.emb y) 0).val = 36864 + 896 * (L 1).val + 128 * r.val + (y 0).val; omega)]
    funext a
    match a with
    | ⟨0, _⟩ => exact Fin.ext (by show 16 + (L 1).val = 16 * (L 0).val + (L 1).val; omega)
    | ⟨1, _⟩ => rfl
    | ⟨2, _⟩ => rfl
  have hcol : (⟨(((ouC1 L h2 r).view.emb y) 1).val, idx2_lt1 _⟩ : Fin 128) = y 1 := Fin.ext eu1
  obtain ⟨Hu, Hi⟩ := H r y
  rw [hsame] at Hi
  have hXu := (iuSlab_emb L (r.castLE (by decide : 7 ≤ 18)) (y 0)).trans hslab.symm
  have hXi := (iiSlab_emb L (r.castLE (by decide : 7 ≤ 18)) (y 0)).trans hslab.symm
  constructor
  · rw [Hu]
    exact congrArg fu (congr (congrArg ix2 (congrArg (fun x => LibGatherAll.rowOfWord (gu x)) hXu)) hcol.symm)
  · rw [Hi]
    exact congrArg fi (congr (congrArg ix2 (congrArg (fun x => LibGatherAll.rowOfWord (gi x)) hXi)) hcol.symm)

set_option maxHeartbeats 4000000 in
/-- On core 0 (first coordinate 0). -/
theorem gather_of_tileVal0 (d : Dev nD) (L : grid0.Coords) (h1 : k0_cond1 L = 1#1) (hL : (L 0).val = 0)
    (fu : Buf (Elt F) (tuLoc d)) (fi : Buf (Elt F) (tiLoc d)) (gu : Buf (Elt F) (iuLoc d)) (gi : Buf (Elt F) (iiLoc d))
    (ou' : Buf (Elt F) (ouLoc d)) (oi' : Buf (Elt F) (oiLoc d)) (H : tileVal0 d L h1 fu fi gu gi ou' oi') :
    ∀ j ∈ outSet0 L h1, ou' j = LibGatherAll.gatherAll fu gu j ∧ oi' j = LibGatherAll.gatherAll fi gi j := by
  intro j hj
  unfold outSet0 at hj
  rw [Finset.mem_biUnion] at hj
  obtain ⟨r, -, hr⟩ := hj
  obtain ⟨y, -, rfl⟩ := Finset.mem_map.mp hr
  obtain ⟨eu0, eu1⟩ := ouC0_emb L h1 r y
  obtain ⟨ei0, ei1⟩ := oiC0_emb L h1 r y
  have hL1 : (L 1).val < 16 := (L 1).isLt
  have hy0 : (y 0).val < 128 := (y 0).isLt
  have hr18 := r.isLt
  have hsame : (oiC0 L h1 r).view.emb y = (ouC0 L h1 r).view.emb y := by
    funext a
    match a with
    | ⟨0, _⟩ => exact Fin.ext (ei0.trans eu0.symm)
    | ⟨1, _⟩ => exact Fin.ext (ei1.trans eu1.symm)
  have hslab : LibGatherAll.slabOfRow ⟨(((ouC0 L h1 r).view.emb y) 0).val, idx2_lt0 _⟩
      = ix3 (⟨16 * (L 0).val + (L 1).val, by omega⟩ : Fin 32) r (y 0) := by
    rw [LibGatherAll.slabOfRow_core0 ⟨(L 1).val, hL1⟩ r ⟨(y 0).val, hy0⟩ _ (by show (((ouC0 L h1 r).view.emb y) 0).val = 2304 * (L 1).val + 128 * r.val + (y 0).val; omega)]
    funext a
    match a with
    | ⟨0, _⟩ => exact Fin.ext (by show (L 1).val = 16 * (L 0).val + (L 1).val; omega)
    | ⟨1, _⟩ => rfl
    | ⟨2, _⟩ => rfl
  have hcol : (⟨(((ouC0 L h1 r).view.emb y) 1).val, idx2_lt1 _⟩ : Fin 128) = y 1 := Fin.ext eu1
  obtain ⟨Hu, Hi⟩ := H r y
  rw [hsame] at Hi
  have hXu := (iuSlab_emb L r (y 0)).trans hslab.symm
  have hXi := (iiSlab_emb L r (y 0)).trans hslab.symm
  constructor
  · rw [Hu]
    exact congrArg fu (congr (congrArg ix2 (congrArg (fun x => LibGatherAll.rowOfWord (gu x)) hXu)) hcol.symm)
  · rw [Hi]
    exact congrArg fi (congr (congrArg ix2 (congrArg (fun x => LibGatherAll.rowOfWord (gi x)) hXi)) hcol.symm)

/-! ## The named join -/

/-- A tile's hand-back, its rows of the two outputs at the call's gather. -/
theorem td0_named (d : Dev nD) (A : Ops0 F d) (c : Fin 2) (i : Fin 16) :
    td0 d A c i ⊢ (resT d (c, i) A.fu A.fi A.gu A.gi (LibGatherAll.gatherAll A.fu A.gu) (LibGatherAll.gatherAll A.fi A.gi)
      : sProp (MT nD τ sig (HIx 2) (Elt F) ℕ UU ℕ)) := by
  have hc := c.isLt
  by_cases h : c.val = 0
  · have e : outSetT (c, i) = outSet0 (pt0 c i) (cond1_pt0 c i h) := dif_pos h
    unfold td0
    rw [dif_pos h]
    iintro ⟨%ou', %oi', %H, R⟩
    have HG := gather_of_tileVal0 d (pt0 c i) (cond1_pt0 c i h) ((pt0_val0 c i).trans h) A.fu A.fi A.gu A.gi ou' oi' H
    have eu : (ouLoc d ↦[outSet0 (pt0 c i) (cond1_pt0 c i h)]{fullShare} (LibGatherAll.gatherAll A.fu A.gu) : sProp 𝕄)
        = ouLoc d ↦[outSet0 (pt0 c i) (cond1_pt0 c i h)]{fullShare} ou' := pointsTo_congr fun j hj => ((HG j hj).1).symm
    have ei : (oiLoc d ↦[outSet0 (pt0 c i) (cond1_pt0 c i h)]{fullShare} (LibGatherAll.gatherAll A.fi A.gi) : sProp 𝕄)
        = oiLoc d ↦[outSet0 (pt0 c i) (cond1_pt0 c i h)]{fullShare} oi' := pointsTo_congr fun j hj => ((HG j hj).2).symm
    unfold resT
    rw [e, eu, ei]
    iexact R
  · have e : outSetT (c, i) = outSet1 (pt0 c i) (cond2_pt0 c i h) := dif_neg h
    unfold td0
    rw [dif_neg h]
    iintro ⟨%ou', %oi', %H, R⟩
    have HG := gather_of_tileVal1 d (pt0 c i) (cond2_pt0 c i h) ((pt0_val0 c i).trans (by omega)) A.fu A.fi A.gu A.gi ou' oi' H
    have eu : (ouLoc d ↦[outSet1 (pt0 c i) (cond2_pt0 c i h)]{fullShare} (LibGatherAll.gatherAll A.fu A.gu) : sProp 𝕄)
        = ouLoc d ↦[outSet1 (pt0 c i) (cond2_pt0 c i h)]{fullShare} ou' := pointsTo_congr fun j hj => ((HG j hj).1).symm
    have ei : (oiLoc d ↦[outSet1 (pt0 c i) (cond2_pt0 c i h)]{fullShare} (LibGatherAll.gatherAll A.fi A.gi) : sProp 𝕄)
        = oiLoc d ↦[outSet1 (pt0 c i) (cond2_pt0 c i h)]{fullShare} oi' := pointsTo_congr fun j hj => ((HG j hj).2).symm
    unfold resT
    rw [e, eu, ei]
    iexact R

/-- The call's operands joined back from the 32 tiles' hand-backs, the two outputs at the call's gather of its tables
    and index operands. -/
theorem joinV0 (d : Dev nD) (A : Ops0 F d) :
    (iprop(((tuLoc d ↦{Transfers.shareDrop fullShare 32} A.fu) ∗ (tiLoc d ↦{Transfers.shareDrop fullShare 32} A.fi))
        ∗ bigSep Finset.univ fun c : Fin 2 => bigSep Finset.univ fun i : Fin 16 => td0 d A c i) : sProp 𝕄)
      ⊢ iprop((tuLoc d ↦{fullShare} A.fu) ∗ (tiLoc d ↦{fullShare} A.fi) ∗ (iuLoc d ↦{fullShare} A.gu) ∗ (iiLoc d ↦{fullShare} A.gi)
        ∗ (ouLoc d ↦{fullShare} LibGatherAll.gatherAll A.fu A.gu) ∗ (oiLoc d ↦{fullShare} LibGatherAll.gatherAll A.fi A.gi)) := by
  have hT : (bigSep Finset.univ fun c : Fin 2 => bigSep Finset.univ fun i : Fin 16 => td0 d A c i)
      ⊢ (bigSep Finset.univ fun c : Fin 2 => bigSep Finset.univ fun i : Fin 16 =>
          resT d (c, i) A.fu A.fi A.gu A.gi (LibGatherAll.gatherAll A.fu A.gu) (LibGatherAll.gatherAll A.fi A.gi) : sProp 𝕄) :=
    bigSep_mono fun c _ => bigSep_mono fun i _ => td0_named d A c i
  refine (sep_mono_right hT).trans ?_
  have h6 := tiles_eq d A.fu A.fi A.gu A.gi (fun _ => LibGatherAll.gatherAll A.fu A.gu) (fun _ => LibGatherAll.gatherAll A.fi A.gi)
  beta_reduce at h6
  rw [h6, ← iu_slabs, ← ii_slabs, ← ou_rows, ← oi_rows]
  iintro ⟨⟨HtuD, HtiD⟩, Hiu, Hii, HtuT, HtiT, Hou, Hoi⟩
  isplitl [HtuD HtuT]
  · iapply (tu_shares d A.fu).2
    isplitl [HtuD]; · iexact HtuD
    iexact HtuT
  isplitl [HtiD HtiT]
  · iapply (ti_shares d A.fi).2
    isplitl [HtiD]; · iexact HtiD
    iexact HtiT
  isplitl [Hiu]; · iexact Hiu
  isplitl [Hii]; · iexact Hii
  isplitl [Hou]; · iexact Hou
  iexact Hoi

end Cert.KernelIdeal.LaunchV

end
-- ==== Proof.Join1VI.lean ====
/-
  The second gather call's outputs after all 32 tiles have handed their rows back, NAMED: each tile's rows hold the
  gather of the whole call (one function of a table and an index operand), so the joined outputs are that function
  of the call's operands.
-/
import proofs.«204681_g65575560675685_cont_9to1_m_144_57_alg».proof.Proof.PayVI
import proofs.«204681_g65575560675685_cont_9to1_m_144_57_alg».proof.Proof.Split1I
import proofs.«204681_g65575560675685_cont_9to1_m_144_57_alg».proof.Proof.LibGatherAll

noncomputable section

namespace Cert.KernelIdeal.LaunchV

open Cert.KernelIdeal Cert.KernelIdeal.Gen Cert.KernelIdeal.Setup Cert.KernelIdeal.Launch
open Cert.Proof.KernelIdeal.ScTile1
open Cert.KernelIdeal.Launch.Call1

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

namespace Call1

/-! ## Where a tile's views sit -/

/-- Row j, lane l of a tile's slab of an index operand is element (16 c + i, j, l) of the operand. -/
theorem iuSlab_emb (L : grid1.Coords) (j : Fin 18) (l : Fin 128) :
    (iuSlab L).view.emb (ix2 j l)
      = ix3 (⟨16 * (L 0).val + (L 1).val, by have h0 : (L 0).val < 2 := (L 0).isLt; have h1 : (L 1).val < 16 := (L 1).isLt; omega⟩ : Fin 32) j l := by
  have hq : Shape.reshapeEquiv (Shape.Squeezes.numel_eq squeezes_S1x18x128_S18x128) (ix2 j l : S18x128.Idx)
      = (ix3 (0 : Fin 1) j l : S1x18x128.Idx) :=
    Shape.reshapeEquiv_eq_of_rowMajor _ (by
      rw [Shape.rowMajor_val_three, Shape.rowMajor_val_two]
      show ((0 : Nat) * 18 + j.val) * 128 + l.val = j.val * 128 + l.val
      omega)
  funext a
  refine Fin.ext ?_
  simp only [Memref.view_squeeze, Memref.view_slice, Memref.view_whole, View.emb_reshape, View.emb_slice, View.emb_whole,
    Function.Embedding.trans_apply, Equiv.coe_toEmbedding, Function.Embedding.refl_apply, hq, Rect.emb_apply,
    Rect.off_unit, Rect.stride_unit, k1_off1_eq]
  match a with
  | ⟨0, _⟩ => simp
  | ⟨1, _⟩ => simp
  | ⟨2, _⟩ => simp

theorem iiSlab_emb (L : grid1.Coords) (j : Fin 18) (l : Fin 128) :
    (iiSlab L).view.emb (ix2 j l)
      = ix3 (⟨16 * (L 0).val + (L 1).val, by have h0 : (L 0).val < 2 := (L 0).isLt; have h1 : (L 1).val < 16 := (L 1).isLt; omega⟩ : Fin 32) j l := by
  have hq : Shape.reshapeEquiv (Shape.Squeezes.numel_eq squeezes_S1x18x128_S18x128) (ix2 j l : S18x128.Idx)
      = (ix3 (0 : Fin 1) j l : S1x18x128.Idx) :=
    Shape.reshapeEquiv_eq_of_rowMajor _ (by
      rw [Shape.rowMajor_val_three, Shape.rowMajor_val_two]
      show ((0 : Nat) * 18 + j.val) * 128 + l.val = j.val * 128 + l.val
      omega)
  funext a
  refine Fin.ext ?_
  simp only [Memref.view_squeeze, Memref.view_slice, Memref.view_whole, View.emb_reshape, View.emb_slice, View.emb_whole,
    Function.Embedding.trans_apply, Equiv.coe_toEmbedding, Function.Embedding.refl_apply, hq, Rect.emb_apply,
    Rect.off_unit, Rect.stride_unit, k1_off1_eq]
  match a with
  | ⟨0, _⟩ => simp
  | ⟨1, _⟩ => simp
  | ⟨2, _⟩ => simp

/-- Element y of chunk r of a tile's rows of an output: its row and its column. -/
theorem ouC1_emb (L : grid1.Coords) (h2 : k1_cond2 L = 1#1) (r : Fin 7) (y : S128x128.Idx) :
    (((ouC1 L h2 r).view.emb y) 0).val = 896 * (L 1).val + 128 * r.val + 36864 + (y 0).val
      ∧ (((ouC1 L h2 r).view.emb y) 1).val = (y 1).val := by
  constructor <;>
    simp only [Memref.view_slice, Memref.view_whole, View.emb_slice, View.emb_whole, Function.Embedding.trans_apply,
      Function.Embedding.refl_apply] <;> rw [Rect.emb_apply] <;> simp [k1_off3_eq]
theorem oiC1_emb (L : grid1.Coords) (h2 : k1_cond2 L = 1#1) (r : Fin 7) (y : S128x128.Idx) :
    (((oiC1 L h2 r).view.emb y) 0).val = 896 * (L 1).val + 128 * r.val + 36864 + (y 0).val
      ∧ (((oiC1 L h2 r).view.emb y) 1).val = (y 1).val := by
  constructor <;>
    simp only [Memref.view_slice, Memref.view_whole, View.emb_slice, View.emb_whole, Function.Embedding.trans_apply,
      Function.Embedding.refl_apply] <;> rw [Rect.emb_apply] <;> simp [k1_off3_eq]
theorem ouC0_emb (L : grid1.Coords) (h1 : k1_cond1 L = 1#1) (r : Fin 18) (y : S128x128.Idx) :
    (((ouC0 L h1 r).view.emb y) 0).val = 2304 * (L 1).val + 128 * r.val + (y 0).val
      ∧ (((ouC0 L h1 r).view.emb y) 1).val = (y 1).val := by
  constructor <;>
    simp only [Memref.view_slice, Memref.view_whole, View.emb_slice, View.emb_whole, Function.Embedding.trans_apply,
      Function.Embedding.refl_apply] <;> rw [Rect.emb_apply] <;> simp [k1_off2_eq]
theorem oiC0_emb (L : grid1.Coords) (h1 : k1_cond1 L = 1#1) (r : Fin 18) (y : S128x128.Idx) :
    (((oiC0 L h1 r).view.emb y) 0).val = 2304 * (L 1).val + 128 * r.val + (y 0).val
      ∧ (((oiC0 L h1 r).view.emb y) 1).val = (y 1).val := by
  constructor <;>
    simp only [Memref.view_slice, Memref.view_whole, View.emb_slice, View.emb_whole, Function.Embedding.trans_apply,
      Function.Embedding.refl_apply] <;> rw [Rect.emb_apply] <;> simp [k1_off2_eq]

/-! ## A tile's rows hold the gather of the whole call -/

set_option maxHeartbeats 4000000 in
/-- On core 1 (the tile's grid point has first coordinate 1): what the tile's task leaves in its rows is the call's gather. -/
theorem gather_of_tileVal1 (d : Dev nD) (L : grid1.Coords) (h2 : k1_cond2 L = 1#1) (hL : (L 0).val = 1)
    (fu : Buf (Elt F) (tuLoc d)) (fi : Buf (Elt F) (tiLoc d)) (gu : Buf (Elt F) (iuLoc d)) (gi : Buf (Elt F) (iiLoc d))
    (ou' : Buf (Elt F) (ouLoc d)) (oi' : Buf (Elt F) (oiLoc d)) (H : tileVal1 d L h2 fu fi gu gi ou' oi') :
    ∀ j ∈ outSet1 L h2, ou' j = LibGatherAll.gatherAll fu gu j ∧ oi' j = LibGatherAll.gatherAll fi gi j := by
  intro j hj
  unfold outSet1 at hj
  rw [Finset.mem_biUnion] at hj
  obtain ⟨r, -, hr⟩ := hj
  obtain ⟨y, -, rfl⟩ := Finset.mem_map.mp hr
  obtain ⟨eu0, eu1⟩ := ouC1_emb L h2 r y
  obtain ⟨ei0, ei1⟩ := oiC1_emb L h2 r y
  have hL1 : (L 1).val < 16 := (L 1).isLt
  have hy0 : (y 0).val < 128 := (y 0).isLt
  have hr7 := r.isLt
  -- the two outputs' chunks sit at the same place
  have hsame : (oiC1 L h2 r).view.emb y = (ouC1 L h2 r).view.emb y := by
    funext a
    match a with
    | ⟨0, _⟩ => exact Fin.ext (ei0.trans eu0.symm)
    | ⟨1, _⟩ => exact Fin.ext (ei1.trans eu1.symm)
  -- the word the row reads
  have hslab : LibGatherAll.slabOfRow ⟨(((ouC1 L h2 r).view.emb y) 0).val, idx2_lt0 _⟩
      = ix3 (⟨16 * (L 0).val + (L 1).val, by omega⟩ : Fin 32) (r.castLE (by decide : 7 ≤ 18)) (y 0) := by
    rw [LibGatherAll.slabOfRow_core1 ⟨(L 1).val, hL1⟩ r ⟨(y 0).val, hy0⟩ _ (by show (((ouC1 L h2 r).view.emb y) 0).val = 36864 + 896 * (L 1).val + 128 * r.val + (y 0).val; omega)]
    funext a
    match a with
    | ⟨0, _⟩ => exact Fin.ext (by show 16 + (L 1).val = 16 * (L 0).val + (L 1).val; omega)
    | ⟨1, _⟩ => rfl
    | ⟨2, _⟩ => rfl
  have hcol : (⟨(((ouC1 L h2 r).view.emb y) 1).val, idx2_lt1 _⟩ : Fin 128) = y 1 := Fin.ext eu1
  obtain ⟨Hu, Hi⟩ := H r y
  rw [hsame] at Hi
  have hXu := (iuSlab_emb L (r.castLE (by decide : 7 ≤ 18)) (y 0)).trans hslab.symm
  have hXi := (iiSlab_emb L (r.castLE (by decide : 7 ≤ 18)) (y 0)).trans hslab.symm
  constructor
  · rw [Hu]
    exact congrArg fu (congr (congrArg ix2 (congrArg (fun x => LibGatherAll.rowOfWord (gu x)) hXu)) hcol.symm)
  · rw [Hi]
    exact congrArg fi (congr (congrArg ix2 (congrArg (fun x => LibGatherAll.rowOfWord (gi x)) hXi)) hcol.symm)

set_option maxHeartbeats 4000000 in
/-- On core 0 (first coordinate 0). -/
theorem gather_of_tileVal0 (d : Dev nD) (L : grid1.Coords) (h1 : k1_cond1 L = 1#1) (hL : (L 0).val = 0)
    (fu : Buf (Elt F) (tuLoc d)) (fi : Buf (Elt F) (tiLoc d)) (gu : Buf (Elt F) (iuLoc d)) (gi : Buf (Elt F) (iiLoc d))
    (ou' : Buf (Elt F) (ouLoc d)) (oi' : Buf (Elt F) (oiLoc d)) (H : tileVal0 d L h1 fu fi gu gi ou' oi') :
    ∀ j ∈ outSet0 L h1, ou' j = LibGatherAll.gatherAll fu gu j ∧ oi' j = LibGatherAll.gatherAll fi gi j := by
  intro j hj
  unfold outSet0 at hj
  rw [Finset.mem_biUnion] at hj
  obtain ⟨r, -, hr⟩ := hj
  obtain ⟨y, -, rfl⟩ := Finset.mem_map.mp hr
  obtain ⟨eu0, eu1⟩ := ouC0_emb L h1 r y
  obtain ⟨ei0, ei1⟩ := oiC0_emb L h1 r y
  have hL1 : (L 1).val < 16 := (L 1).isLt
  have hy0 : (y 0).val < 128 := (y 0).isLt
  have hr18 := r.isLt
  have hsame : (oiC0 L h1 r).view.emb y = (ouC0 L h1 r).view.emb y := by
    funext a
    match a with
    | ⟨0, _⟩ => exact Fin.ext (ei0.trans eu0.symm)
    | ⟨1, _⟩ => exact Fin.ext (ei1.trans eu1.symm)
  have hslab : LibGatherAll.slabOfRow ⟨(((ouC0 L h1 r).view.emb y) 0).val, idx2_lt0 _⟩
      = ix3 (⟨16 * (L 0).val + (L 1).val, by omega⟩ : Fin 32) r (y 0) := by
    rw [LibGatherAll.slabOfRow_core0 ⟨(L 1).val, hL1⟩ r ⟨(y 0).val, hy0⟩ _ (by show (((ouC0 L h1 r).view.emb y) 0).val = 2304 * (L 1).val + 128 * r.val + (y 0).val; omega)]
    funext a
    match a with
    | ⟨0, _⟩ => exact Fin.ext (by show (L 1).val = 16 * (L 0).val + (L 1).val; omega)
    | ⟨1, _⟩ => rfl
    | ⟨2, _⟩ => rfl
  have hcol : (⟨(((ouC0 L h1 r).view.emb y) 1).val, idx2_lt1 _⟩ : Fin 128) = y 1 := Fin.ext eu1
  obtain ⟨Hu, Hi⟩ := H r y
  rw [hsame] at Hi
  have hXu := (iuSlab_emb L r (y 0)).trans hslab.symm
  have hXi := (iiSlab_emb L r (y 0)).trans hslab.symm
  constructor
  · rw [Hu]
    exact congrArg fu (congr (congrArg ix2 (congrArg (fun x => LibGatherAll.rowOfWord (gu x)) hXu)) hcol.symm)
  · rw [Hi]
    exact congrArg fi (congr (congrArg ix2 (congrArg (fun x => LibGatherAll.rowOfWord (gi x)) hXi)) hcol.symm)

/-! ## The named join -/

/-- A tile's hand-back, its rows of the two outputs at the call's gather. -/
theorem td1_named (d : Dev nD) (A : Ops1 F d) (c : Fin 2) (i : Fin 16) :
    td1 d A c i ⊢ (resT d (c, i) A.fu A.fi A.gu A.gi (LibGatherAll.gatherAll A.fu A.gu) (LibGatherAll.gatherAll A.fi A.gi)
      : sProp (MT nD τ sig (HIx 2) (Elt F) ℕ UU ℕ)) := by
  have hc := c.isLt
  by_cases h : c.val = 0
  · have e : outSetT (c, i) = outSet0 (pt1 c i) (cond1_pt1 c i h) := dif_pos h
    unfold td1
    rw [dif_pos h]
    iintro ⟨%ou', %oi', %H, R⟩
    have HG := gather_of_tileVal0 d (pt1 c i) (cond1_pt1 c i h) ((pt1_val0 c i).trans h) A.fu A.fi A.gu A.gi ou' oi' H
    have eu : (ouLoc d ↦[outSet0 (pt1 c i) (cond1_pt1 c i h)]{fullShare} (LibGatherAll.gatherAll A.fu A.gu) : sProp 𝕄)
        = ouLoc d ↦[outSet0 (pt1 c i) (cond1_pt1 c i h)]{fullShare} ou' := pointsTo_congr fun j hj => ((HG j hj).1).symm
    have ei : (oiLoc d ↦[outSet0 (pt1 c i) (cond1_pt1 c i h)]{fullShare} (LibGatherAll.gatherAll A.fi A.gi) : sProp 𝕄)
        = oiLoc d ↦[outSet0 (pt1 c i) (cond1_pt1 c i h)]{fullShare} oi' := pointsTo_congr fun j hj => ((HG j hj).2).symm
    unfold resT
    rw [e, eu, ei]
    iexact R
  · have e : outSetT (c, i) = outSet1 (pt1 c i) (cond2_pt1 c i h) := dif_neg h
    unfold td1
    rw [dif_neg h]
    iintro ⟨%ou', %oi', %H, R⟩
    have HG := gather_of_tileVal1 d (pt1 c i) (cond2_pt1 c i h) ((pt1_val0 c i).trans (by omega)) A.fu A.fi A.gu A.gi ou' oi' H
    have eu : (ouLoc d ↦[outSet1 (pt1 c i) (cond2_pt1 c i h)]{fullShare} (LibGatherAll.gatherAll A.fu A.gu) : sProp 𝕄)
        = ouLoc d ↦[outSet1 (pt1 c i) (cond2_pt1 c i h)]{fullShare} ou' := pointsTo_congr fun j hj => ((HG j hj).1).symm
    have ei : (oiLoc d ↦[outSet1 (pt1 c i) (cond2_pt1 c i h)]{fullShare} (LibGatherAll.gatherAll A.fi A.gi) : sProp 𝕄)
        = oiLoc d ↦[outSet1 (pt1 c i) (cond2_pt1 c i h)]{fullShare} oi' := pointsTo_congr fun j hj => ((HG j hj).2).symm
    unfold resT
    rw [e, eu, ei]
    iexact R

end Call1

open Call1 in
/-- The call's operands joined back from the 32 tiles' hand-backs, the two outputs at the call's gather of its tables
    and index operands. -/
theorem joinV1 (d : Dev nD) (A : Ops1 F d) :
    (iprop(((tuLoc d ↦{Transfers.shareDrop fullShare 32} A.fu) ∗ (tiLoc d ↦{Transfers.shareDrop fullShare 32} A.fi))
        ∗ bigSep Finset.univ fun c : Fin 2 => bigSep Finset.univ fun i : Fin 16 => td1 d A c i) : sProp 𝕄)
      ⊢ iprop((tuLoc d ↦{fullShare} A.fu) ∗ (tiLoc d ↦{fullShare} A.fi) ∗ (iuLoc d ↦{fullShare} A.gu) ∗ (iiLoc d ↦{fullShare} A.gi)
        ∗ (ouLoc d ↦{fullShare} LibGatherAll.gatherAll A.fu A.gu) ∗ (oiLoc d ↦{fullShare} LibGatherAll.gatherAll A.fi A.gi)) := by
  have hT : (bigSep Finset.univ fun c : Fin 2 => bigSep Finset.univ fun i : Fin 16 => td1 d A c i)
      ⊢ (bigSep Finset.univ fun c : Fin 2 => bigSep Finset.univ fun i : Fin 16 =>
          resT d (c, i) A.fu A.fi A.gu A.gi (LibGatherAll.gatherAll A.fu A.gu) (LibGatherAll.gatherAll A.fi A.gi) : sProp 𝕄) :=
    bigSep_mono fun c _ => bigSep_mono fun i _ => td1_named d A c i
  refine (sep_mono_right hT).trans ?_
  have h6 := tiles_eq d A.fu A.fi A.gu A.gi (fun _ => LibGatherAll.gatherAll A.fu A.gu) (fun _ => LibGatherAll.gatherAll A.fi A.gi)
  beta_reduce at h6
  rw [h6, ← iu_slabs, ← ii_slabs, ← ou_rows, ← oi_rows]
  iintro ⟨⟨HtuD, HtiD⟩, Hiu, Hii, HtuT, HtiT, Hou, Hoi⟩
  isplitl [HtuD HtuT]
  · iapply (tu_shares d A.fu).2
    isplitl [HtuD]; · iexact HtuD
    iexact HtuT
  isplitl [HtiD HtiT]
  · iapply (ti_shares d A.fi).2
    isplitl [HtiD]; · iexact HtiD
    iexact HtiT
  isplitl [Hiu]; · iexact Hiu
  isplitl [Hii]; · iexact Hii
  isplitl [Hou]; · iexact Hou
  iexact Hoi

end Cert.KernelIdeal.LaunchV

end
-- ==== Proof.JoinAdaptI.lean ====
/-
  The tiles' hand-backs join into the whole-array gather: the named join in the form the call steps use.
-/
import proofs.«204681_g65575560675685_cont_9to1_m_144_57_alg».proof.Proof.HmainRunVI
import proofs.«204681_g65575560675685_cont_9to1_m_144_57_alg».proof.Proof.JoinVI
import proofs.«204681_g65575560675685_cont_9to1_m_144_57_alg».proof.Proof.Join1VI

noncomputable section

namespace Cert.KernelIdeal.LaunchV

open Cert.KernelIdeal Cert.KernelIdeal.Gen Cert.KernelIdeal.Setup Cert.KernelIdeal.Launch

open Idealize.ShloMosaic
open Idealize.ShloMosaic.SparseCore.Cfg (HIx Pay)
open Idealize.SL Idealize.SL.RA Idealize.SL.BI
open scoped Idealize.SL.BI

variable {F : FTy → Type} [FloatOps F]

/-- The whole-array gather: output row ρ holds the table's row named by the index operand's word for ρ. -/
def gAll : GatherFn F := fun tab idx => LibGatherAll.gatherAll tab idx

omit [FloatOps F] in
theorem hjV0 : Join0 F gAll := fun d A => by unfold rem0 sixPts0 gAll; exact joinV0 d A
omit [FloatOps F] in
theorem hjV1 : Join1 F gAll := fun d A => by unfold rem1 sixPts1 gAll; exact joinV1 d A

end Cert.KernelIdeal.LaunchV

end
-- ==== Proof.ScTileLib0.lean ====
/-
  What both cores' tile tasks of the first gather kernel share: separating products over an initial segment written
  out, the tile's own sixteen cells and nine scratch buffers laid out, a read share as seven read tokens, the fetched
  lists' words in range, and the bookkeeping of recorded waits.
-/
import proofs.«204681_g65575560675685_cont_9to1_m_144_57_alg».proof.Proof.ScTileDefs0
import proofs.«204681_g65575560675685_cont_9to1_m_144_57_alg».proof.Proof.ScTileStmt0
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.KernelIdeal
import proofs.«204681_g65575560675685_cont_9to1_m_144_57_alg».proof.Proof.Gen.KernelIdeal.Skeleton

noncomputable section

namespace Cert.Proof.KernelIdeal.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

/-! ## A separating product over an initial segment, written out -/

section Fin
variable {M : Type} [URA M]

theorem bigSep_fin_one (Φ : Fin 1 → sProp M) : bigSep Finset.univ Φ = Φ 0 :=
  bigSep_univ_of_subsingleton (0 : Fin 1)

theorem bigSep_fin_succ {n : ℕ} (Φ : Fin (n + 1) → sProp M) :
    bigSep Finset.univ Φ = iprop(Φ 0 ∗ bigSep Finset.univ fun i : Fin n => Φ i.succ) := by
  rw [Fin.univ_succ, Finset.cons_eq_insert, SparseCore.bigSep_insert' (by simp [Fin.succ_ne_zero]), bigSep_map]
  rfl

theorem bigSep_fin7 (Φ : Fin 7 → sProp M) :
    bigSep Finset.univ Φ = iprop(Φ 0 ∗ Φ 1 ∗ Φ 2 ∗ Φ 3 ∗ Φ 4 ∗ Φ 5 ∗ Φ 6) := by
  iterate 6 rw [bigSep_fin_succ]
  rw [bigSep_fin_one]; rfl

theorem bigSep_fin9 (Φ : Fin 9 → sProp M) :
    bigSep Finset.univ Φ = iprop(Φ 0 ∗ Φ 1 ∗ Φ 2 ∗ Φ 3 ∗ Φ 4 ∗ Φ 5 ∗ Φ 6 ∗ Φ 7 ∗ Φ 8) := by
  iterate 8 rw [bigSep_fin_succ]
  rw [bigSep_fin_one]; rfl

theorem bigSep_fin16 (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  iterate 15 rw [bigSep_fin_succ]
  rw [bigSep_fin_one]; rfl

theorem bigSep_fin18 (Φ : Fin 18 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  iterate 17 rw [bigSep_fin_succ]
  rw [bigSep_fin_one]; rfl

end Fin

section Tile

variable (d : Dev nD) (L : grid0.Coords)

/-! ## The tile's own cells and buffers, laid out -/

/-- The kernel's sixteen DMA semaphores: seven gather cells, seven write-out cells, the two fetches' cells. -/
def semOf : Fin 16 → DmaSem sig := ![cc0_scratch9.sem, cc0_scratch10.sem, cc0_scratch11.sem, cc0_scratch12.sem, cc0_scratch13.sem, cc0_scratch14.sem, cc0_scratch15.sem, cc0_scratch16.sem, cc0_scratch17.sem, cc0_scratch18.sem, cc0_scratch19.sem, cc0_scratch20.sem, cc0_scratch21.sem, cc0_scratch22.sem, cc0_scoped0.sem, cc0_scoped1.sem]
/-- The kernel's nine scratch buffers: the two lists, the seven row buffers. -/
def bufOf : Fin 9 → Ref sig .scVector := ![cc0_scratch0, cc0_scratch1, cc0_scratch2, cc0_scratch3, cc0_scratch4, cc0_scratch5, cc0_scratch6, cc0_scratch7, cc0_scratch8]

theorem semOf_inj : Function.Injective semOf := by decide +kernel
theorem semOf_scoped : ∀ k, (SemLoc.dma (semOf k) : SemLoc sig).isScoped .scVector = true := by decide +kernel
theorem bufOf_inj : Function.Injective bufOf := by decide +kernel

abbrev cellOf (d : Dev nD) (L : grid0.Coords) (n : DmaSem sig) : GSem nD τ sig := (V d (cV L) (jV L), SemLoc.dma n)

theorem ownSems0_V :
    (ownSems0 (V d (cV L) (jV L)) : sProp 𝕄)
      = iprop((semVal ((V d (cV L) (jV L), SemLoc.dma cc0_scratch9.sem) : GSem nD τ sig) 0
        ∗ semVal ((V d (cV L) (jV L), SemLoc.dma cc0_scratch10.sem) : GSem nD τ sig) 0
        ∗ semVal ((V d (cV L) (jV L), SemLoc.dma cc0_scratch11.sem) : GSem nD τ sig) 0
        ∗ semVal ((V d (cV L) (jV L), SemLoc.dma cc0_scratch12.sem) : GSem nD τ sig) 0
        ∗ semVal ((V d (cV L) (jV L), SemLoc.dma cc0_scratch13.sem) : GSem nD τ sig) 0
        ∗ semVal ((V d (cV L) (jV L), SemLoc.dma cc0_scratch14.sem) : GSem nD τ sig) 0
        ∗ semVal ((V d (cV L) (jV L), SemLoc.dma cc0_scratch15.sem) : GSem nD τ sig) 0
        ∗ semVal ((V d (cV L) (jV L), SemLoc.dma cc0_scratch16.sem) : GSem nD τ sig) 0
        ∗ semVal ((V d (cV L) (jV L), SemLoc.dma cc0_scratch17.sem) : GSem nD τ sig) 0
        ∗ semVal ((V d (cV L) (jV L), SemLoc.dma cc0_scratch18.sem) : GSem nD τ sig) 0
        ∗ semVal ((V d (cV L) (jV L), SemLoc.dma cc0_scratch19.sem) : GSem nD τ sig) 0
        ∗ semVal ((V d (cV L) (jV L), SemLoc.dma cc0_scratch20.sem) : GSem nD τ sig) 0
        ∗ semVal ((V d (cV L) (jV L), SemLoc.dma cc0_scratch21.sem) : GSem nD τ sig) 0
        ∗ semVal ((V d (cV L) (jV L), SemLoc.dma cc0_scratch22.sem) : GSem nD τ sig) 0
        ∗ semVal ((V d (cV L) (jV L), SemLoc.dma cc0_scoped0.sem) : GSem nD τ sig) 0
        ∗ semVal ((V d (cV L) (jV L), SemLoc.dma cc0_scoped1.sem) : GSem nD τ sig) 0)
        ∗ bigSep (ownCells (V d (cV L) (jV L)) \ Finset.univ.image fun k => cellOf d L (semOf k)) fun g => semVal g 0) := by
  unfold SparseCore.Cfg.ownSems0
  have hsub : (Finset.univ.image fun k => cellOf d L (semOf k)) ⊆ ownCells (V d (cV L) (jV L)) := by
    intro g hg
    obtain ⟨k, -, rfl⟩ := Finset.mem_image.mp hg
    exact mem_ownCells.mpr ⟨rfl, semOf_scoped k⟩
  have hinj : Set.InjOn (fun k => cellOf d L (semOf k)) ((Finset.univ : Finset (Fin 16)) : Set (Fin 16)) := fun a _ b _ e =>
    semOf_inj (SemLoc.dma.inj (congrArg Prod.snd e))
  rw [SparseCore.bigSep_sdiff_split' hsub, Idealize.SL.BI.bigSep_image_of_injOn hinj, bigSep_fin16]
  rfl

theorem ownBufs_V :
    (ownBufs (V d (cV L) (jV L)) : sProp 𝕄)
      = iprop(((∃ f, (V d (cV L) (jV L)).loc cc0_scratch0 ↦{fullShare} f)
        ∗ (∃ f, (V d (cV L) (jV L)).loc cc0_scratch1 ↦{fullShare} f)
        ∗ (∃ f, (V d (cV L) (jV L)).loc cc0_scratch2 ↦{fullShare} f)
        ∗ (∃ f, (V d (cV L) (jV L)).loc cc0_scratch3 ↦{fullShare} f)
        ∗ (∃ f, (V d (cV L) (jV L)).loc cc0_scratch4 ↦{fullShare} f)
        ∗ (∃ f, (V d (cV L) (jV L)).loc cc0_scratch5 ↦{fullShare} f)
        ∗ (∃ f, (V d (cV L) (jV L)).loc cc0_scratch6 ↦{fullShare} f)
        ∗ (∃ f, (V d (cV L) (jV L)).loc cc0_scratch7 ↦{fullShare} f)
        ∗ (∃ f, (V d (cV L) (jV L)).loc cc0_scratch8 ↦{fullShare} f))
        ∗ bigSep (ownRefs (τ := τ) (.scVector (cV L) (jV L)) \ Finset.univ.image fun k => (Proc.scVector (cV L) (jV L)).devRef (bufOf k))
            fun b => iprop(∃ f, ((d, b) : Loc nD τ sig) ↦{fullShare} f)) := by
  unfold SparseCore.Cfg.ownBufs
  have hsub : (Finset.univ.image fun k => (Proc.scVector (cV L) (jV L)).devRef (bufOf k)) ⊆ ownRefs (τ := τ) (.scVector (cV L) (jV L)) := by
    intro b hb
    obtain ⟨k, -, rfl⟩ := Finset.mem_image.mp hb
    refine SparseCore.Cfg.mem_ownRefs_of_owner ?_
    fin_cases k <;> rfl
  have hinj : Set.InjOn (fun k => (Proc.scVector (cV L) (jV L)).devRef (bufOf k)) ((Finset.univ : Finset (Fin 9)) : Set (Fin 9)) := fun a _ b _ e =>
    bufOf_inj (Proc.devRef_injective _ e)
  rw [SparseCore.bigSep_sdiff_split' hsub, Idealize.SL.BI.bigSep_image_of_injOn hinj, bigSep_fin9]
  rfl

variable [FloatOps F]

/-- The two cores' branches exclude each other. -/
theorem cond_excl : ∀ L : grid0.Coords, k0_cond2 L = 1#1 → ¬ k0_cond1 L = 1#1 := by decide +kernel
theorem cond_excl' : ∀ L : grid0.Coords, k0_cond1 L = 1#1 → ¬ k0_cond2 L = 1#1 := by decide +kernel

/-- A read share is seven read tokens, one per gather cell, and a remainder. -/
theorem toks7 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 7} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f)
      ∗ (ℓ ↦[S]{Transfers.shareTokN q 5} f) ∗ (ℓ ↦[S]{Transfers.shareTokN q 6} f)) := by
  have h := Transfers.pointsTo_toks (nD := nD) (τ := τ) (sig := sig) (Ix := HIx 2) (Val := Elt F) (Name := ℕ) (U := U) (Lvl := ℕ) (ℓ := ℓ) (S := S) (f := f) q 7
  rw [bigSep_fin7] at h
  exact h

/-! ## The fetched lists name rows of the tables -/

/-- Row j of a list scratch, as the tile addresses it for a gather. -/
abbrev rowU (j : ℕ) (h : ∀ a, (![j, 0] : Fin 2 → ℕ) a + S1x128.size a ≤ S18x128.size a) : Memref sig .scVector .vmem S128 .i32 :=
  ((luV).slice (Rect.unit (s := S18x128) ![j, 0] S1x128.size h) (fun _ => rfl)).squeeze S128 squeezes_S1x128_S128
abbrev rowI (j : ℕ) (h : ∀ a, (![j, 0] : Fin 2 → ℕ) a + S1x128.size a ≤ S18x128.size a) : Memref sig .scVector .vmem S128 .i32 :=
  ((liV).slice (Rect.unit (s := S18x128) ![j, 0] S1x128.size h) (fun _ => rfl)).squeeze S128 squeezes_S1x128_S128

/-- Every word of the user list, once the tile's slab has landed in it, is a word of the index operand: below 100000. -/
theorem list_inbU (gu : Buf (Elt F) (iuLoc d)) (hgu : ∀ j : S32x18x128.Idx, (gu j).toNat < 100000)
    (j : ℕ) (h : ∀ a, (![j, 0] : Fin 2 → ℕ) a + S1x128.size a ≤ S18x128.size a)
    (fl : Buf (Elt F) ((luV).view.loc (V d (cV L) (jV L)))) (pay : S18x128.Idx → Elt F .i32)
    (hpay : pay = (iuSlab L).view.read (Elt F) gu) :
    ∀ x, ((rowU j h).view.read (Elt F) (View.write (Elt F) (luV).view fl pay Finset.univ) x).toNat
      < S100000x128.size gathers_S100000x128_S128x128.axis := by
  subst hpay; intro x
  rw [View.write_whole_univ]
  rw [show ∀ (f : Buf (Elt F) ((luV).view.loc (V d (cV L) (jV L)))) y, (rowU j h).view.read (Elt F) f y = f ((rowU j h).view.emb y) from
    fun f y => (View.read_apply _ _).trans (cast_eq _ _)]
  rw [show ∀ y, (iuSlab L).view.read (Elt F) gu y = gu ((iuSlab L).view.emb y) from fun y => (View.read_apply _ _).trans (cast_eq _ _)]
  exact hgu _

theorem list_inbI (gi : Buf (Elt F) (iiLoc d)) (hgi : ∀ j : S32x18x128.Idx, (gi j).toNat < 100000)
    (j : ℕ) (h : ∀ a, (![j, 0] : Fin 2 → ℕ) a + S1x128.size a ≤ S18x128.size a)
    (fl : Buf (Elt F) ((liV).view.loc (V d (cV L) (jV L)))) (pay : S18x128.Idx → Elt F .i32)
    (hpay : pay = (iiSlab L).view.read (Elt F) gi) :
    ∀ x, ((rowI j h).view.read (Elt F) (View.write (Elt F) (liV).view fl pay Finset.univ) x).toNat
      < S100000x128.size gathers_S100000x128_S128x128.axis := by
  subst hpay; intro x
  rw [View.write_whole_univ]
  rw [show ∀ (f : Buf (Elt F) ((liV).view.loc (V d (cV L) (jV L)))) y, (rowI j h).view.read (Elt F) f y = f ((rowI j h).view.emb y) from
    fun f y => (View.read_apply _ _).trans (cast_eq _ _)]
  rw [show ∀ y, (iiSlab L).view.read (Elt F) gi y = gi ((iiSlab L).view.emb y) from fun y => (View.read_apply _ _).trans (cast_eq _ _)]
  exact hgi _

/-- A wait recorded at the default index keeps the recorded waits within the old ones and the unindexed. -/
theorem waits_ok {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with hp | hp
  · exact .inr (hp ▸ rfl)
  · exact h p hp

end Tile

end Cert.Proof.KernelIdeal.ScTile0

end
-- ==== Proof.ScTileRead0.lean ====
/-
  Reading a tile's output chunk after the run: the chunk holds what its write-out copied from a slot, the slot what the
  gather landed in it, and the gather's row y is the table's row named by word y of a row of the fetched list, which is
  the tile's slab of the index operand. Entry by entry this is an equation between an element of the output and an
  element of the table.
-/
import proofs.«204681_g65575560675685_cont_9to1_m_144_57_alg».proof.Proof.ScTileLib0
import proofs.«204681_g65575560675685_cont_9to1_m_144_57_alg».proof.Proof.ScTileVal0
import Idealize.ShloMosaic.Lib.Writes
import Idealize.ShloMosaic.Lib.ValueIdx
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KernelIdeal.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

section Tile

variable (d : Dev nD) (L : grid0.Coords)
variable [FloatOps F]

/-- A slot read whole after a gather landed in it whole is the gather's payload, whatever it held before. -/
theorem slot_read {κ : Kind} {sp : Space} {s : Shape} {e : EltTy} (v : View sig κ sp s e) (f : v.ty.Contents (Elt F))
    (G : (Rect.whole s).shape.Idx → Elt F e) (rest : List (View.Piece (Elt F) s e)) (y : s.Idx) :
    v.read (Elt F) (v.writes (Elt F) f (⟨Rect.whole s, G⟩ :: rest)) y = G y := by
  have hw : (Rect.whole s).emb y = y := by
    funext a; apply Fin.ext; rw [Rect.emb_apply]; simp [Rect.whole]
  have hr := View.read_writes_cons_emb v f (Rect.whole s) G rest y
  rw [hw] at hr
  exact hr

/-- Word x of row j of the user list sits at (j, x) of the scratch. -/
theorem rowU_emb (j : ℕ) (h : ∀ a, (![j, 0] : Fin 2 → ℕ) a + S1x128.size a ≤ S18x128.size a) (hj : j < 18) (x : S128.Idx) :
    (rowU j h).view.emb x = (ix2 (⟨j, hj⟩ : Fin 18) (⟨(x 0).val, (x 0).isLt⟩ : Fin 128) : S18x128.Idx) := by
  have e : Shape.reshapeEquiv (s := S1x128) (s' := S128) squeezes_S1x128_S128.numel_eq x
      = (ix2 (0 : Fin 1) (⟨(x 0).val, (x 0).isLt⟩ : Fin 128) : S1x128.Idx) :=
    Shape.reshapeEquiv_eq_of_rowMajor _ (by rw [Shape.rowMajor_val_two, Shape.rowMajor_val_one]; simp)
  show (Rect.unit (s := S18x128) ![j, 0] S1x128.size h).emb (Shape.reshapeEquiv (s := S1x128) (s' := S128) squeezes_S1x128_S128.numel_eq x) = _
  rw [e]
  funext a
  apply Fin.ext
  rw [Rect.emb_apply]
  match a with
  | ⟨0, _⟩ => simp
  | ⟨1, _⟩ => simp

/-- What a gather reads off row j of the user list once the tile's slab has landed in it: the index operand's word at
    (slab, j, x). -/
theorem rowU_read (gu : Buf (Elt F) (iuLoc d)) (j : ℕ) (h : ∀ a, (![j, 0] : Fin 2 → ℕ) a + S1x128.size a ≤ S18x128.size a) (hj : j < 18)
    (fl : Buf (Elt F) ((luV).view.loc (V d (cV L) (jV L)))) (x : S128.Idx) :
    (rowU j h).view.read (Elt F) (View.write (Elt F) (luV).view fl ((iuSlab L).view.read (Elt F) gu) Finset.univ) x
      = gu ((iuSlab L).view.emb (ix2 (⟨j, hj⟩ : Fin 18) (⟨(x 0).val, (x 0).isLt⟩ : Fin 128))) := by
  rw [View.write_whole_univ]
  rw [show ∀ (f : Buf (Elt F) ((luV).view.loc (V d (cV L) (jV L)))) y, (rowU j h).view.read (Elt F) f y = f ((rowU j h).view.emb y) from
    fun f y => (View.read_apply _ _).trans (cast_eq _ _)]
  rw [show ∀ y, (iuSlab L).view.read (Elt F) gu y = gu ((iuSlab L).view.emb y) from fun y => (View.read_apply _ _).trans (cast_eq _ _)]
  rw [rowU_emb j h hj x]

/-- The gather's payload, entry by entry: row y 0 of the slot is the table's row named by word y 0 of the list's row j. -/
theorem gather_valU (fu : Buf (Elt F) (tuLoc d)) (gu : Buf (Elt F) (iuLoc d)) (hgu : ∀ j : S32x18x128.Idx, (gu j).toNat < 100000)
    (j : ℕ) (h : ∀ a, (![j, 0] : Fin 2 → ℕ) a + S1x128.size a ≤ S18x128.size a) (hj : j < 18)
    (fl : Buf (Elt F) ((luV).view.loc (V d (cV L) (jV L))))
    (hn : S128.numel = S128x128.size gathers_S100000x128_S128x128.axis')
    (hin : ∀ x, ((rowU j h).view.read (Elt F) (View.write (Elt F) (luV).view fl ((iuSlab L).view.read (Elt F) gu) Finset.univ) x).toNat
      < S100000x128.size gathers_S100000x128_S128x128.axis)
    (y : S128x128.Idx) :
    SparseCore.gatherPayload gathers_S100000x128_S128x128
        (((tuV).slice (Rect.unit (s := S100000x128) ![0, 0] S100000x128.size inb_S100000x128_S100000x128_0_0) (fun _ => rfl)).view.read (Elt F) fu)
        (SparseCore.rows ((rowU j h).view.read (Elt F) (View.write (Elt F) (luV).view fl ((iuSlab L).view.read (Elt F) gu) Finset.univ)) hn hin) y
      = fu (ix2 (rowOfWord (F := F) (gu ((iuSlab L).view.emb (ix2 (⟨j, hj⟩ : Fin 18) (y 0))))) (y 1)) := by
  unfold SparseCore.gatherPayload
  rw [show ∀ z, ((tuV).slice (Rect.unit (s := S100000x128) ![0, 0] S100000x128.size inb_S100000x128_S100000x128_0_0) (fun _ => rfl)).view.read (Elt F) fu z
      = fu (((tuV).slice (Rect.unit (s := S100000x128) ![0, 0] S100000x128.size inb_S100000x128_S100000x128_0_0) (fun _ => rfl)).view.emb z) from
    fun z => (View.read_apply _ _).trans (cast_eq _ _)]
  congr 1
  funext a
  apply Fin.ext
  show ((Rect.unit (s := S100000x128) ![0, 0] S100000x128.size inb_S100000x128_S100000x128_0_0).emb _ a : ℕ) = _
  rw [Rect.emb_apply]
  match a with
  | ⟨0, _⟩ =>
    have hax : (⟨0, by decide⟩ : Fin S100000x128.rank) = gathers_S100000x128_S128x128.axis := Fin.ext rfl
    rw [hax, Shape.Gathers.idx_axis]
    show 0 + 1 * (((rowU j h).view.read (Elt F) (View.write (Elt F) (luV).view fl ((iuSlab L).view.read (Elt F) gu) Finset.univ) _).toNat) = _
    rw [rowU_read d L gu j h hj fl]
    have hy : (S128.rowMajor.symm ((y gathers_S100000x128_S128x128.axis').cast hn.symm) 0).val = (y 0).val := by
      have := Shape.rowMajor_val_one (S128.rowMajor.symm ((y gathers_S100000x128_S128x128.axis').cast hn.symm))
      rw [Equiv.apply_symm_apply] at this
      exact this.symm
    have hw := hgu ((iuSlab L).view.emb (ix2 (⟨j, hj⟩ : Fin 18) (y 0)))
    have e2 : (⟨(S128.rowMajor.symm ((y gathers_S100000x128_S128x128.axis').cast hn.symm) 0).val, (S128.rowMajor.symm ((y gathers_S100000x128_S128x128.axis').cast hn.symm) 0).isLt⟩ : Fin 128) = y 0 :=
      Fin.ext hy
    rw [e2]
    show _ = (gu ((iuSlab L).view.emb (ix2 (⟨j, hj⟩ : Fin 18) (y 0)))).toNat % 100000
    rw [Nat.mod_eq_of_lt hw]
    omega
  | ⟨1, _⟩ =>
    rw [Shape.Gathers.idx_of_ne _ _ _ _ (by simp)]
    show 0 + 1 * (y 1).val = (y 1).val
    omega

/-- A chunk of the user output after its write-out: at its element y, the table's row named by word y 0 of row j of the tile's
    slab, column y 1 — whatever the chunk, the list scratch and the slot held before. P is the write-out's payload: what it
    read from the slot, the gather's payload. -/
theorem chunk_valU (fu : Buf (Elt F) (tuLoc d)) (gu : Buf (Elt F) (iuLoc d)) (hgu : ∀ j : S32x18x128.Idx, (gu j).toNat < 100000)
    (off : Fin 2 → ℕ) (inb : ∀ a, off a + S128x128.size a ≤ S51200x128.size a) (ou : Buf (Elt F) (ouLoc d))
    (j : ℕ) (h : ∀ a, (![j, 0] : Fin 2 → ℕ) a + S1x128.size a ≤ S18x128.size a) (hj : j < 18)
    (fl : Buf (Elt F) ((luV).view.loc (V d (cV L) (jV L))))
    (hn : S128.numel = S128x128.size gathers_S100000x128_S128x128.axis')
    (hin : ∀ x, ((rowU j h).view.read (Elt F) (View.write (Elt F) (luV).view fl ((iuSlab L).view.read (Elt F) gu) Finset.univ) x).toNat
      < S100000x128.size gathers_S100000x128_S128x128.axis)
    (P : S128x128.Idx → Elt F .f32)
    (hP : ∀ y, P y = SparseCore.gatherPayload gathers_S100000x128_S128x128
        (((tuV).slice (Rect.unit (s := S100000x128) ![0, 0] S100000x128.size inb_S100000x128_S100000x128_0_0) (fun _ => rfl)).view.read (Elt F) fu)
        (SparseCore.rows ((rowU j h).view.read (Elt F) (View.write (Elt F) (luV).view fl ((iuSlab L).view.read (Elt F) gu) Finset.univ)) hn hin) y)
    (y : S128x128.Idx) :
    (((ouV).slice (Rect.unit (s := S51200x128) off S128x128.size inb) (fun _ => rfl)).view.writes (Elt F) ou
        [⟨Rect.whole (Rect.unit (s := S51200x128) off S128x128.size inb).shape, P⟩])
      (((ouV).slice (Rect.unit (s := S51200x128) off S128x128.size inb) (fun _ => rfl)).view.emb y)
      = fu (ix2 (rowOfWord (F := F) (gu ((iuSlab L).view.emb (ix2 (⟨j, hj⟩ : Fin 18) (y 0))))) (y 1)) := by
  have hw : (Rect.whole (Rect.unit (s := S51200x128) off S128x128.size inb).shape).emb y = y := by
    funext a; apply Fin.ext; rw [Rect.emb_apply]; simp [Rect.whole]
  have hr := View.read_writes_cons_emb ((ouV).slice (Rect.unit (s := S51200x128) off S128x128.size inb) (fun _ => rfl)).view ou
    (Rect.whole (Rect.unit (s := S51200x128) off S128x128.size inb).shape) P [] y
  rw [hw] at hr
  have e1 : ∀ (c : Buf (Elt F) (ouLoc d)) z, ((ouV).slice (Rect.unit (s := S51200x128) off S128x128.size inb) (fun _ => rfl)).view.read (Elt F) c z
      = c (((ouV).slice (Rect.unit (s := S51200x128) off S128x128.size inb) (fun _ => rfl)).view.emb z) :=
    fun c z => (View.read_apply _ _).trans (cast_eq _ _)
  exact (e1 _ y).symm.trans (hr.trans ((hP y).trans (gather_valU d L fu gu hgu j h hj fl hn hin y)))

/-- Word x of row j of the item list sits at (j, x) of the scratch. -/
theorem rowI_emb (j : ℕ) (h : ∀ a, (![j, 0] : Fin 2 → ℕ) a + S1x128.size a ≤ S18x128.size a) (hj : j < 18) (x : S128.Idx) :
    (rowI j h).view.emb x = (ix2 (⟨j, hj⟩ : Fin 18) (⟨(x 0).val, (x 0).isLt⟩ : Fin 128) : S18x128.Idx) := by
  have e : Shape.reshapeEquiv (s := S1x128) (s' := S128) squeezes_S1x128_S128.numel_eq x
      = (ix2 (0 : Fin 1) (⟨(x 0).val, (x 0).isLt⟩ : Fin 128) : S1x128.Idx) :=
    Shape.reshapeEquiv_eq_of_rowMajor _ (by rw [Shape.rowMajor_val_two, Shape.rowMajor_val_one]; simp)
  show (Rect.unit (s := S18x128) ![j, 0] S1x128.size h).emb (Shape.reshapeEquiv (s := S1x128) (s' := S128) squeezes_S1x128_S128.numel_eq x) = _
  rw [e]
  funext a
  apply Fin.ext
  rw [Rect.emb_apply]
  match a with
  | ⟨0, _⟩ => simp
  | ⟨1, _⟩ => simp

/-- What a gather reads off row j of the item list once the tile's slab has landed in it: the index operand's word at
    (slab, j, x). -/
theorem rowI_read (gi : Buf (Elt F) (iiLoc d)) (j : ℕ) (h : ∀ a, (![j, 0] : Fin 2 → ℕ) a + S1x128.size a ≤ S18x128.size a) (hj : j < 18)
    (fl : Buf (Elt F) ((liV).view.loc (V d (cV L) (jV L)))) (x : S128.Idx) :
    (rowI j h).view.read (Elt F) (View.write (Elt F) (liV).view fl ((iiSlab L).view.read (Elt F) gi) Finset.univ) x
      = gi ((iiSlab L).view.emb (ix2 (⟨j, hj⟩ : Fin 18) (⟨(x 0).val, (x 0).isLt⟩ : Fin 128))) := by
  rw [View.write_whole_univ]
  rw [show ∀ (f : Buf (Elt F) ((liV).view.loc (V d (cV L) (jV L)))) y, (rowI j h).view.read (Elt F) f y = f ((rowI j h).view.emb y) from
    fun f y => (View.read_apply _ _).trans (cast_eq _ _)]
  rw [show ∀ y, (iiSlab L).view.read (Elt F) gi y = gi ((iiSlab L).view.emb y) from fun y => (View.read_apply _ _).trans (cast_eq _ _)]
  rw [rowI_emb j h hj x]

/-- The gather's payload, entry by entry: row y 0 of the slot is the table's row named by word y 0 of the list's row j. -/
theorem gather_valI (fi : Buf (Elt F) (tiLoc d)) (gi : Buf (Elt F) (iiLoc d)) (hgi : ∀ j : S32x18x128.Idx, (gi j).toNat < 100000)
    (j : ℕ) (h : ∀ a, (![j, 0] : Fin 2 → ℕ) a + S1x128.size a ≤ S18x128.size a) (hj : j < 18)
    (fl : Buf (Elt F) ((liV).view.loc (V d (cV L) (jV L))))
    (hn : S128.numel = S128x128.size gathers_S100000x128_S128x128.axis')
    (hin : ∀ x, ((rowI j h).view.read (Elt F) (View.write (Elt F) (liV).view fl ((iiSlab L).view.read (Elt F) gi) Finset.univ) x).toNat
      < S100000x128.size gathers_S100000x128_S128x128.axis)
    (y : S128x128.Idx) :
    SparseCore.gatherPayload gathers_S100000x128_S128x128
        (((tiV).slice (Rect.unit (s := S100000x128) ![0, 0] S100000x128.size inb_S100000x128_S100000x128_0_0) (fun _ => rfl)).view.read (Elt F) fi)
        (SparseCore.rows ((rowI j h).view.read (Elt F) (View.write (Elt F) (liV).view fl ((iiSlab L).view.read (Elt F) gi) Finset.univ)) hn hin) y
      = fi (ix2 (rowOfWord (F := F) (gi ((iiSlab L).view.emb (ix2 (⟨j, hj⟩ : Fin 18) (y 0))))) (y 1)) := by
  unfold SparseCore.gatherPayload
  rw [show ∀ z, ((tiV).slice (Rect.unit (s := S100000x128) ![0, 0] S100000x128.size inb_S100000x128_S100000x128_0_0) (fun _ => rfl)).view.read (Elt F) fi z
      = fi (((tiV).slice (Rect.unit (s := S100000x128) ![0, 0] S100000x128.size inb_S100000x128_S100000x128_0_0) (fun _ => rfl)).view.emb z) from
    fun z => (View.read_apply _ _).trans (cast_eq _ _)]
  congr 1
  funext a
  apply Fin.ext
  show ((Rect.unit (s := S100000x128) ![0, 0] S100000x128.size inb_S100000x128_S100000x128_0_0).emb _ a : ℕ) = _
  rw [Rect.emb_apply]
  match a with
  | ⟨0, _⟩ =>
    have hax : (⟨0, by decide⟩ : Fin S100000x128.rank) = gathers_S100000x128_S128x128.axis := Fin.ext rfl
    rw [hax, Shape.Gathers.idx_axis]
    show 0 + 1 * (((rowI j h).view.read (Elt F) (View.write (Elt F) (liV).view fl ((iiSlab L).view.read (Elt F) gi) Finset.univ) _).toNat) = _
    rw [rowI_read d L gi j h hj fl]
    have hy : (S128.rowMajor.symm ((y gathers_S100000x128_S128x128.axis').cast hn.symm) 0).val = (y 0).val := by
      have := Shape.rowMajor_val_one (S128.rowMajor.symm ((y gathers_S100000x128_S128x128.axis').cast hn.symm))
      rw [Equiv.apply_symm_apply] at this
      exact this.symm
    have hw := hgi ((iiSlab L).view.emb (ix2 (⟨j, hj⟩ : Fin 18) (y 0)))
    have e2 : (⟨(S128.rowMajor.symm ((y gathers_S100000x128_S128x128.axis').cast hn.symm) 0).val, (S128.rowMajor.symm ((y gathers_S100000x128_S128x128.axis').cast hn.symm) 0).isLt⟩ : Fin 128) = y 0 :=
      Fin.ext hy
    rw [e2]
    show _ = (gi ((iiSlab L).view.emb (ix2 (⟨j, hj⟩ : Fin 18) (y 0)))).toNat % 100000
    rw [Nat.mod_eq_of_lt hw]
    omega
  | ⟨1, _⟩ =>
    rw [Shape.Gathers.idx_of_ne _ _ _ _ (by simp)]
    show 0 + 1 * (y 1).val = (y 1).val
    omega

/-- A chunk of the item output after its write-out: at its element y, the table's row named by word y 0 of row j of the tile's
    slab, column y 1 — whatever the chunk, the list scratch and the slot held before. P is the write-out's payload: what it
    read from the slot, the gather's payload. -/
theorem chunk_valI (fi : Buf (Elt F) (tiLoc d)) (gi : Buf (Elt F) (iiLoc d)) (hgi : ∀ j : S32x18x128.Idx, (gi j).toNat < 100000)
    (off : Fin 2 → ℕ) (inb : ∀ a, off a + S128x128.size a ≤ S51200x128.size a) (oi : Buf (Elt F) (oiLoc d))
    (j : ℕ) (h : ∀ a, (![j, 0] : Fin 2 → ℕ) a + S1x128.size a ≤ S18x128.size a) (hj : j < 18)
    (fl : Buf (Elt F) ((liV).view.loc (V d (cV L) (jV L))))
    (hn : S128.numel = S128x128.size gathers_S100000x128_S128x128.axis')
    (hin : ∀ x, ((rowI j h).view.read (Elt F) (View.write (Elt F) (liV).view fl ((iiSlab L).view.read (Elt F) gi) Finset.univ) x).toNat
      < S100000x128.size gathers_S100000x128_S128x128.axis)
    (P : S128x128.Idx → Elt F .f32)
    (hP : ∀ y, P y = SparseCore.gatherPayload gathers_S100000x128_S128x128
        (((tiV).slice (Rect.unit (s := S100000x128) ![0, 0] S100000x128.size inb_S100000x128_S100000x128_0_0) (fun _ => rfl)).view.read (Elt F) fi)
        (SparseCore.rows ((rowI j h).view.read (Elt F) (View.write (Elt F) (liV).view fl ((iiSlab L).view.read (Elt F) gi) Finset.univ)) hn hin) y)
    (y : S128x128.Idx) :
    (((oiV).slice (Rect.unit (s := S51200x128) off S128x128.size inb) (fun _ => rfl)).view.writes (Elt F) oi
        [⟨Rect.whole (Rect.unit (s := S51200x128) off S128x128.size inb).shape, P⟩])
      (((oiV).slice (Rect.unit (s := S51200x128) off S128x128.size inb) (fun _ => rfl)).view.emb y)
      = fi (ix2 (rowOfWord (F := F) (gi ((iiSlab L).view.emb (ix2 (⟨j, hj⟩ : Fin 18) (y 0))))) (y 1)) := by
  have hw : (Rect.whole (Rect.unit (s := S51200x128) off S128x128.size inb).shape).emb y = y := by
    funext a; apply Fin.ext; rw [Rect.emb_apply]; simp [Rect.whole]
  have hr := View.read_writes_cons_emb ((oiV).slice (Rect.unit (s := S51200x128) off S128x128.size inb) (fun _ => rfl)).view oi
    (Rect.whole (Rect.unit (s := S51200x128) off S128x128.size inb).shape) P [] y
  rw [hw] at hr
  have e1 : ∀ (c : Buf (Elt F) (oiLoc d)) z, ((oiV).slice (Rect.unit (s := S51200x128) off S128x128.size inb) (fun _ => rfl)).view.read (Elt F) c z
      = c (((oiV).slice (Rect.unit (s := S51200x128) off S128x128.size inb) (fun _ => rfl)).view.emb z) :=
    fun c z => (View.read_apply _ _).trans (cast_eq _ _)
  exact (e1 _ y).symm.trans (hr.trans ((hP y).trans (gather_valI d L fi gi hgi j h hj fl hn hin y)))

end Tile

end Cert.Proof.KernelIdeal.ScTile0

end
-- ==== Proof.ScTileV0c0.lean ====
/-
  The task of a tile of core 0 of the first gather kernel, with the contents it leaves named: row l of chunk r of each
  of the tile's outputs holds the table row named by word (r, l) of the tile's slab of the matching index operand. The
  run is the one of the frame version; at the end each chunk is read back where the joined contents are asked for.
-/
import proofs.«204681_g65575560675685_cont_9to1_m_144_57_alg».proof.Proof.ScTileLib0
import proofs.«204681_g65575560675685_cont_9to1_m_144_57_alg».proof.Proof.ScTileStmtV0
import proofs.«204681_g65575560675685_cont_9to1_m_144_57_alg».proof.Proof.ScTileRead0
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.KernelIdeal
import proofs.«204681_g65575560675685_cont_9to1_m_144_57_alg».proof.Proof.Gen.KernelIdeal.Skeleton

noncomputable section

namespace Cert.Proof.KernelIdeal.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

section Tile

variable (d : Dev nD) (L : grid0.Coords)
variable [FloatOps F]

/-- Two chunks of a core-0 tile are disjoint row ranges. -/
theorem chunk0_disjV : ∀ (L : grid0.Coords) (h1 : k0_cond1 L = 1#1) (r r' : Fin 18), r ≠ r' →
    LoadRect.disj (Rect.unit (s := S51200x128) (k0_off2 L (BitVec.ofNat 32 (128 * r.val))) S128x128.size (k0_off2_inb L h1 r))
      (Rect.unit (s := S51200x128) (k0_off2 L (BitVec.ofNat 32 (128 * r'.val))) S128x128.size (k0_off2_inb L h1 r')).toLoadRect = true := by
  decide +kernel

theorem ouC0_disjV (h1 : k0_cond1 L = 1#1) (r r' : Fin 18) (hne : r ≠ r') : Disjoint (ouC0 L h1 r).view.set (ouC0 L h1 r').view.set :=
  View.disjoint_slice_of_disj _ _ _ (chunk0_disjV L h1 r r' hne)

/-- The tile's rows of the user output, chunk by chunk. -/
theorem outPts0V (h1 : k0_cond1 L = 1#1) (f : Buf (Elt F) (ouLoc d)) :
    (ouLoc d ↦[outSet0 L h1]{fullShare} f : sProp 𝕄)
      = iprop((ouLoc d ↦[(ouC0 L h1 0).view.set]{fullShare} f) ∗ (ouLoc d ↦[(ouC0 L h1 1).view.set]{fullShare} f) ∗ (ouLoc d ↦[(ouC0 L h1 2).view.set]{fullShare} f) ∗ (ouLoc d ↦[(ouC0 L h1 3).view.set]{fullShare} f) ∗ (ouLoc d ↦[(ouC0 L h1 4).view.set]{fullShare} f) ∗ (ouLoc d ↦[(ouC0 L h1 5).view.set]{fullShare} f) ∗ (ouLoc d ↦[(ouC0 L h1 6).view.set]{fullShare} f) ∗ (ouLoc d ↦[(ouC0 L h1 7).view.set]{fullShare} f) ∗ (ouLoc d ↦[(ouC0 L h1 8).view.set]{fullShare} f) ∗ (ouLoc d ↦[(ouC0 L h1 9).view.set]{fullShare} f) ∗ (ouLoc d ↦[(ouC0 L h1 10).view.set]{fullShare} f) ∗ (ouLoc d ↦[(ouC0 L h1 11).view.set]{fullShare} f) ∗ (ouLoc d ↦[(ouC0 L h1 12).view.set]{fullShare} f) ∗ (ouLoc d ↦[(ouC0 L h1 13).view.set]{fullShare} f) ∗ (ouLoc d ↦[(ouC0 L h1 14).view.set]{fullShare} f) ∗ (ouLoc d ↦[(ouC0 L h1 15).view.set]{fullShare} f) ∗ (ouLoc d ↦[(ouC0 L h1 16).view.set]{fullShare} f) ∗ (ouLoc d ↦[(ouC0 L h1 17).view.set]{fullShare} f)) := by
  unfold outSet0
  rw [pointsTo_biUnion _ _ (fun r _ r' _ hne => ouC0_disjV L h1 r r' hne), bigSep_fin18]
/-- The tile's rows of the item output, chunk by chunk. -/
theorem outPts0iV (h1 : k0_cond1 L = 1#1) (f : Buf (Elt F) (oiLoc d)) :
    (oiLoc d ↦[outSet0 L h1]{fullShare} f : sProp 𝕄)
      = iprop((oiLoc d ↦[(oiC0 L h1 0).view.set]{fullShare} f) ∗ (oiLoc d ↦[(oiC0 L h1 1).view.set]{fullShare} f) ∗ (oiLoc d ↦[(oiC0 L h1 2).view.set]{fullShare} f) ∗ (oiLoc d ↦[(oiC0 L h1 3).view.set]{fullShare} f) ∗ (oiLoc d ↦[(oiC0 L h1 4).view.set]{fullShare} f) ∗ (oiLoc d ↦[(oiC0 L h1 5).view.set]{fullShare} f) ∗ (oiLoc d ↦[(oiC0 L h1 6).view.set]{fullShare} f) ∗ (oiLoc d ↦[(oiC0 L h1 7).view.set]{fullShare} f) ∗ (oiLoc d ↦[(oiC0 L h1 8).view.set]{fullShare} f) ∗ (oiLoc d ↦[(oiC0 L h1 9).view.set]{fullShare} f) ∗ (oiLoc d ↦[(oiC0 L h1 10).view.set]{fullShare} f) ∗ (oiLoc d ↦[(oiC0 L h1 11).view.set]{fullShare} f) ∗ (oiLoc d ↦[(oiC0 L h1 12).view.set]{fullShare} f) ∗ (oiLoc d ↦[(oiC0 L h1 13).view.set]{fullShare} f) ∗ (oiLoc d ↦[(oiC0 L h1 14).view.set]{fullShare} f) ∗ (oiLoc d ↦[(oiC0 L h1 15).view.set]{fullShare} f) ∗ (oiLoc d ↦[(oiC0 L h1 16).view.set]{fullShare} f) ∗ (oiLoc d ↦[(oiC0 L h1 17).view.set]{fullShare} f)) := by
  unfold outSet0
  rw [pointsTo_biUnion (ℓ := oiLoc d) _ _ (fun r _ r' _ hne => ouC0_disjV L h1 r r' hne), bigSep_fin18]
  rfl

set_option maxHeartbeats 40000000 in
/-- The chunks joined: whatever each holds, together they are the tile's rows at one contents. -/
theorem outJoin0V (h1 : k0_cond1 L = 1#1) (c0 c1 c2 c3 c4 c5 c6 c7 c8 c9 c10 c11 c12 c13 c14 c15 c16 c17 : Buf (Elt F) (ouLoc d)) :
    (iprop((ouLoc d ↦[(ouC0 L h1 0).view.set]{fullShare} c0) ∗ (ouLoc d ↦[(ouC0 L h1 1).view.set]{fullShare} c1) ∗ (ouLoc d ↦[(ouC0 L h1 2).view.set]{fullShare} c2) ∗ (ouLoc d ↦[(ouC0 L h1 3).view.set]{fullShare} c3) ∗ (ouLoc d ↦[(ouC0 L h1 4).view.set]{fullShare} c4) ∗ (ouLoc d ↦[(ouC0 L h1 5).view.set]{fullShare} c5) ∗ (ouLoc d ↦[(ouC0 L h1 6).view.set]{fullShare} c6) ∗ (ouLoc d ↦[(ouC0 L h1 7).view.set]{fullShare} c7) ∗ (ouLoc d ↦[(ouC0 L h1 8).view.set]{fullShare} c8) ∗ (ouLoc d ↦[(ouC0 L h1 9).view.set]{fullShare} c9) ∗ (ouLoc d ↦[(ouC0 L h1 10).view.set]{fullShare} c10) ∗ (ouLoc d ↦[(ouC0 L h1 11).view.set]{fullShare} c11) ∗ (ouLoc d ↦[(ouC0 L h1 12).view.set]{fullShare} c12) ∗ (ouLoc d ↦[(ouC0 L h1 13).view.set]{fullShare} c13) ∗ (ouLoc d ↦[(ouC0 L h1 14).view.set]{fullShare} c14) ∗ (ouLoc d ↦[(ouC0 L h1 15).view.set]{fullShare} c15) ∗ (ouLoc d ↦[(ouC0 L h1 16).view.set]{fullShare} c16) ∗ (ouLoc d ↦[(ouC0 L h1 17).view.set]{fullShare} c17)) : sProp 𝕄)
      ⊢ iprop(∃ g, ⌜∀ (r : Fin 18) (y : S128x128.Idx), g ((ouC0 L h1 r).view.emb y)
            = ((![c0, c1, c2, c3, c4, c5, c6, c7, c8, c9, c10, c11, c12, c13, c14, c15, c16, c17] : Fin 18 → Buf (Elt F) (ouLoc d)) r) ((ouC0 L h1 r).view.emb y)⌝
          ∗ ouLoc d ↦[outSet0 L h1]{fullShare} g) := by
  have hj : (bigSep (Finset.univ : Finset (Fin 18)) (fun r => ouLoc d ↦[(ouC0 L h1 r).view.set]{fullShare} ((![c0, c1, c2, c3, c4, c5, c6, c7, c8, c9, c10, c11, c12, c13, c14, c15, c16, c17] : Fin 18 → Buf (Elt F) (ouLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (ouLoc d)) t) i⌝
          ∗ ouLoc d ↦[Finset.univ.biUnion fun r => (ouC0 L h1 r).view.set]{fullShare} g) :=
    pointsTo_biUnion_join _ _ _ c0 (fun r _ r' _ hne => ouC0_disjV L h1 r r' hne)
  rw [bigSep_fin18] at hj
  refine BIBase.Entails.trans (show _ ⊢ _ from hj) ?_
  iintro ⟨%g, %hg, H⟩
  iexists g
  isplitr
  · ipureintro
    exact fun r y => hg r (Finset.mem_univ r) _ ((ouC0 L h1 r).view.emb_mem_set y)
  unfold outSet0
  iexact H

set_option maxHeartbeats 40000000 in
theorem outJoin0iV (h1 : k0_cond1 L = 1#1) (c0 c1 c2 c3 c4 c5 c6 c7 c8 c9 c10 c11 c12 c13 c14 c15 c16 c17 : Buf (Elt F) (oiLoc d)) :
    (iprop((oiLoc d ↦[(oiC0 L h1 0).view.set]{fullShare} c0) ∗ (oiLoc d ↦[(oiC0 L h1 1).view.set]{fullShare} c1) ∗ (oiLoc d ↦[(oiC0 L h1 2).view.set]{fullShare} c2) ∗ (oiLoc d ↦[(oiC0 L h1 3).view.set]{fullShare} c3) ∗ (oiLoc d ↦[(oiC0 L h1 4).view.set]{fullShare} c4) ∗ (oiLoc d ↦[(oiC0 L h1 5).view.set]{fullShare} c5) ∗ (oiLoc d ↦[(oiC0 L h1 6).view.set]{fullShare} c6) ∗ (oiLoc d ↦[(oiC0 L h1 7).view.set]{fullShare} c7) ∗ (oiLoc d ↦[(oiC0 L h1 8).view.set]{fullShare} c8) ∗ (oiLoc d ↦[(oiC0 L h1 9).view.set]{fullShare} c9) ∗ (oiLoc d ↦[(oiC0 L h1 10).view.set]{fullShare} c10) ∗ (oiLoc d ↦[(oiC0 L h1 11).view.set]{fullShare} c11) ∗ (oiLoc d ↦[(oiC0 L h1 12).view.set]{fullShare} c12) ∗ (oiLoc d ↦[(oiC0 L h1 13).view.set]{fullShare} c13) ∗ (oiLoc d ↦[(oiC0 L h1 14).view.set]{fullShare} c14) ∗ (oiLoc d ↦[(oiC0 L h1 15).view.set]{fullShare} c15) ∗ (oiLoc d ↦[(oiC0 L h1 16).view.set]{fullShare} c16) ∗ (oiLoc d ↦[(oiC0 L h1 17).view.set]{fullShare} c17)) : sProp 𝕄)
      ⊢ iprop(∃ g, ⌜∀ (r : Fin 18) (y : S128x128.Idx), g ((oiC0 L h1 r).view.emb y)
            = ((![c0, c1, c2, c3, c4, c5, c6, c7, c8, c9, c10, c11, c12, c13, c14, c15, c16, c17] : Fin 18 → Buf (Elt F) (oiLoc d)) r) ((oiC0 L h1 r).view.emb y)⌝
          ∗ oiLoc d ↦[outSet0 L h1]{fullShare} g) := by
  have hj : (bigSep (Finset.univ : Finset (Fin 18)) (fun r => oiLoc d ↦[(ouC0 L h1 r).view.set]{fullShare} ((![c0, c1, c2, c3, c4, c5, c6, c7, c8, c9, c10, c11, c12, c13, c14, c15, c16, c17] : Fin 18 → Buf (Elt F) (oiLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (oiLoc d)) t) i⌝
          ∗ oiLoc d ↦[Finset.univ.biUnion fun r => (ouC0 L h1 r).view.set]{fullShare} g) :=
    pointsTo_biUnion_join _ _ _ c0 (fun r _ r' _ hne => ouC0_disjV L h1 r r' hne)
  rw [bigSep_fin18] at hj
  refine BIBase.Entails.trans (show _ ⊢ _ from hj) ?_
  iintro ⟨%g, %hg, H⟩
  iexists g
  isplitr
  · ipureintro
    exact fun r y => hg r (Finset.mem_univ r) _ ((ouC0 L h1 r).view.emb_mem_set y)
  unfold outSet0
  iexact H

set_option maxHeartbeats 400000000 in
/-- The task of a tile of core 0 with the rows it leaves named: the run, then each chunk read back. -/
theorem tile_bodyV0 : TileBodyV0 F U := by
  intro d L hF h1 q fu fi gu gi ou oi hpre O W hO
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  have hn2 : ¬ k0_cond2 L = 1#1 := cond_excl' L h1
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  have hinU7 : ∀ (fl : Buf (Elt F) ((luV).view.loc (V d (cV L) (jV L)))) x, ((rowU 7 inb_S18x128_S1x128_7_0).view.read (Elt F) (View.write (Elt F) (luV).view fl ((iuSlab L).view.read (Elt F) gu) Finset.univ) x).toNat < S100000x128.size gathers_S100000x128_S128x128.axis :=
    fun fl => list_inbU d L gu hpre.1 7 _ fl _ rfl
  have hinI7 : ∀ (fl : Buf (Elt F) ((liV).view.loc (V d (cV L) (jV L)))) x, ((rowI 7 inb_S18x128_S1x128_7_0).view.read (Elt F) (View.write (Elt F) (liV).view fl ((iiSlab L).view.read (Elt F) gi) Finset.univ) x).toNat < S100000x128.size gathers_S100000x128_S128x128.axis :=
    fun fl => list_inbI d L gi hpre.2 7 _ fl _ rfl
  have hinU8 : ∀ (fl : Buf (Elt F) ((luV).view.loc (V d (cV L) (jV L)))) x, ((rowU 8 inb_S18x128_S1x128_8_0).view.read (Elt F) (View.write (Elt F) (luV).view fl ((iuSlab L).view.read (Elt F) gu) Finset.univ) x).toNat < S100000x128.size gathers_S100000x128_S128x128.axis :=
    fun fl => list_inbU d L gu hpre.1 8 _ fl _ rfl
  have hinI8 : ∀ (fl : Buf (Elt F) ((liV).view.loc (V d (cV L) (jV L)))) x, ((rowI 8 inb_S18x128_S1x128_8_0).view.read (Elt F) (View.write (Elt F) (liV).view fl ((iiSlab L).view.read (Elt F) gi) Finset.univ) x).toNat < S100000x128.size gathers_S100000x128_S128x128.axis :=
    fun fl => list_inbI d L gi hpre.2 8 _ fl _ rfl
  have hinU9 : ∀ (fl : Buf (Elt F) ((luV).view.loc (V d (cV L) (jV L)))) x, ((rowU 9 inb_S18x128_S1x128_9_0).view.read (Elt F) (View.write (Elt F) (luV).view fl ((iuSlab L).view.read (Elt F) gu) Finset.univ) x).toNat < S100000x128.size gathers_S100000x128_S128x128.axis :=
    fun fl => list_inbU d L gu hpre.1 9 _ fl _ rfl
  have hinI9 : ∀ (fl : Buf (Elt F) ((liV).view.loc (V d (cV L) (jV L)))) x, ((rowI 9 inb_S18x128_S1x128_9_0).view.read (Elt F) (View.write (Elt F) (liV).view fl ((iiSlab L).view.read (Elt F) gi) Finset.univ) x).toNat < S100000x128.size gathers_S100000x128_S128x128.axis :=
    fun fl => list_inbI d L gi hpre.2 9 _ fl _ rfl
  have hinU10 : ∀ (fl : Buf (Elt F) ((luV).view.loc (V d (cV L) (jV L)))) x, ((rowU 10 inb_S18x128_S1x128_10_0).view.read (Elt F) (View.write (Elt F) (luV).view fl ((iuSlab L).view.read (Elt F) gu) Finset.univ) x).toNat < S100000x128.size gathers_S100000x128_S128x128.axis :=
    fun fl => list_inbU d L gu hpre.1 10 _ fl _ rfl
  have hinI10 : ∀ (fl : Buf (Elt F) ((liV).view.loc (V d (cV L) (jV L)))) x, ((rowI 10 inb_S18x128_S1x128_10_0).view.read (Elt F) (View.write (Elt F) (liV).view fl ((iiSlab L).view.read (Elt F) gi) Finset.univ) x).toNat < S100000x128.size gathers_S100000x128_S128x128.axis :=
    fun fl => list_inbI d L gi hpre.2 10 _ fl _ rfl
  have hinU11 : ∀ (fl : Buf (Elt F) ((luV).view.loc (V d (cV L) (jV L)))) x, ((rowU 11 inb_S18x128_S1x128_11_0).view.read (Elt F) (View.write (Elt F) (luV).view fl ((iuSlab L).view.read (Elt F) gu) Finset.univ) x).toNat < S100000x128.size gathers_S100000x128_S128x128.axis :=
    fun fl => list_inbU d L gu hpre.1 11 _ fl _ rfl
  have hinI11 : ∀ (fl : Buf (Elt F) ((liV).view.loc (V d (cV L) (jV L)))) x, ((rowI 11 inb_S18x128_S1x128_11_0).view.read (Elt F) (View.write (Elt F) (liV).view fl ((iiSlab L).view.read (Elt F) gi) Finset.univ) x).toNat < S100000x128.size gathers_S100000x128_S128x128.axis :=
    fun fl => list_inbI d L gi hpre.2 11 _ fl _ rfl
  have hinU12 : ∀ (fl : Buf (Elt F) ((luV).view.loc (V d (cV L) (jV L)))) x, ((rowU 12 inb_S18x128_S1x128_12_0).view.read (Elt F) (View.write (Elt F) (luV).view fl ((iuSlab L).view.read (Elt F) gu) Finset.univ) x).toNat < S100000x128.size gathers_S100000x128_S128x128.axis :=
    fun fl => list_inbU d L gu hpre.1 12 _ fl _ rfl
  have hinI12 : ∀ (fl : Buf (Elt F) ((liV).view.loc (V d (cV L) (jV L)))) x, ((rowI 12 inb_S18x128_S1x128_12_0).view.read (Elt F) (View.write (Elt F) (liV).view fl ((iiSlab L).view.read (Elt F) gi) Finset.univ) x).toNat < S100000x128.size gathers_S100000x128_S128x128.axis :=
    fun fl => list_inbI d L gi hpre.2 12 _ fl _ rfl
  have hinU13 : ∀ (fl : Buf (Elt F) ((luV).view.loc (V d (cV L) (jV L)))) x, ((rowU 13 inb_S18x128_S1x128_13_0).view.read (Elt F) (View.write (Elt F) (luV).view fl ((iuSlab L).view.read (Elt F) gu) Finset.univ) x).toNat < S100000x128.size gathers_S100000x128_S128x128.axis :=
    fun fl => list_inbU d L gu hpre.1 13 _ fl _ rfl
  have hinI13 : ∀ (fl : Buf (Elt F) ((liV).view.loc (V d (cV L) (jV L)))) x, ((rowI 13 inb_S18x128_S1x128_13_0).view.read (Elt F) (View.write (Elt F) (liV).view fl ((iiSlab L).view.read (Elt F) gi) Finset.univ) x).toNat < S100000x128.size gathers_S100000x128_S128x128.axis :=
    fun fl => list_inbI d L gi hpre.2 13 _ fl _ rfl
  have hinU14 : ∀ (fl : Buf (Elt F) ((luV).view.loc (V d (cV L) (jV L)))) x, ((rowU 14 inb_S18x128_S1x128_14_0).view.read (Elt F) (View.write (Elt F) (luV).view fl ((iuSlab L).view.read (Elt F) gu) Finset.univ) x).toNat < S100000x128.size gathers_S100000x128_S128x128.axis :=
    fun fl => list_inbU d L gu hpre.1 14 _ fl _ rfl
  have hinI14 : ∀ (fl : Buf (Elt F) ((liV).view.loc (V d (cV L) (jV L)))) x, ((rowI 14 inb_S18x128_S1x128_14_0).view.read (Elt F) (View.write (Elt F) (liV).view fl ((iiSlab L).view.read (Elt F) gi) Finset.univ) x).toNat < S100000x128.size gathers_S100000x128_S128x128.axis :=
    fun fl => list_inbI d L gi hpre.2 14 _ fl _ rfl
  have hinU15 : ∀ (fl : Buf (Elt F) ((luV).view.loc (V d (cV L) (jV L)))) x, ((rowU 15 inb_S18x128_S1x128_15_0).view.read (Elt F) (View.write (Elt F) (luV).view fl ((iuSlab L).view.read (Elt F) gu) Finset.univ) x).toNat < S100000x128.size gathers_S100000x128_S128x128.axis :=
    fun fl => list_inbU d L gu hpre.1 15 _ fl _ rfl
  have hinI15 : ∀ (fl : Buf (Elt F) ((liV).view.loc (V d (cV L) (jV L)))) x, ((rowI 15 inb_S18x128_S1x128_15_0).view.read (Elt F) (View.write (Elt F) (liV).view fl ((iiSlab L).view.read (Elt F) gi) Finset.univ) x).toNat < S100000x128.size gathers_S100000x128_S128x128.axis :=
    fun fl => list_inbI d L gi hpre.2 15 _ fl _ rfl
  have hinU16 : ∀ (fl : Buf (Elt F) ((luV).view.loc (V d (cV L) (jV L)))) x, ((rowU 16 inb_S18x128_S1x128_16_0).view.read (Elt F) (View.write (Elt F) (luV).view fl ((iuSlab L).view.read (Elt F) gu) Finset.univ) x).toNat < S100000x128.size gathers_S100000x128_S128x128.axis :=
    fun fl => list_inbU d L gu hpre.1 16 _ fl _ rfl
  have hinI16 : ∀ (fl : Buf (Elt F) ((liV).view.loc (V d (cV L) (jV L)))) x, ((rowI 16 inb_S18x128_S1x128_16_0).view.read (Elt F) (View.write (Elt F) (liV).view fl ((iiSlab L).view.read (Elt F) gi) Finset.univ) x).toNat < S100000x128.size gathers_S100000x128_S128x128.axis :=
    fun fl => list_inbI d L gi hpre.2 16 _ fl _ rfl
  have hinU17 : ∀ (fl : Buf (Elt F) ((luV).view.loc (V d (cV L) (jV L)))) x, ((rowU 17 inb_S18x128_S1x128_17_0).view.read (Elt F) (View.write (Elt F) (luV).view fl ((iuSlab L).view.read (Elt F) gu) Finset.univ) x).toNat < S100000x128.size gathers_S100000x128_S128x128.axis :=
    fun fl => list_inbU d L gu hpre.1 17 _ fl _ rfl
  have hinI17 : ∀ (fl : Buf (Elt F) ((liV).view.loc (V d (cV L) (jV L)))) x, ((rowI 17 inb_S18x128_S1x128_17_0).view.read (Elt F) (View.write (Elt F) (liV).view fl ((iiSlab L).view.read (Elt F) gi) Finset.univ) x).toNat < S100000x128.size gathers_S100000x128_S128x128.axis :=
    fun fl => list_inbI d L gi hpre.2 17 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc0_scratch0 ↦{fullShare} fl0 : sProp 𝕄) = ((luV).view.loc (V d (cV L) (jV L)) ↦{fullShare} fl0) from rfl)) $$ Hl0
  ihave Hl1' := (Entails.of_eq (show ((V d (cV L) (jV L)).loc cc0_scratch1 ↦{fullShare} fl1 : sProp 𝕄) = ((liV).view.loc (V d (cV L) (jV L)) ↦{fullShare} fl1) from rfl)) $$ Hl1
  ihave Hb0' := (Entails.of_eq (show ((V d (cV L) (jV L)).loc cc0_scratch2 ↦{fullShare} fb0 : sProp 𝕄) = ((b0V).view.loc (V d (cV L) (jV L)) ↦{fullShare} fb0) from rfl)) $$ Hb0
  ihave Hb1' := (Entails.of_eq (show ((V d (cV L) (jV L)).loc cc0_scratch3 ↦{fullShare} fb1 : sProp 𝕄) = ((b1V).view.loc (V d (cV L) (jV L)) ↦{fullShare} fb1) from rfl)) $$ Hb1
  ihave Hb2' := (Entails.of_eq (show ((V d (cV L) (jV L)).loc cc0_scratch4 ↦{fullShare} fb2 : sProp 𝕄) = ((b2V).view.loc (V d (cV L) (jV L)) ↦{fullShare} fb2) from rfl)) $$ Hb2
  ihave Hb3' := (Entails.of_eq (show ((V d (cV L) (jV L)).loc cc0_scratch5 ↦{fullShare} fb3 : sProp 𝕄) = ((b3V).view.loc (V d (cV L) (jV L)) ↦{fullShare} fb3) from rfl)) $$ Hb3
  ihave Hb4' := (Entails.of_eq (show ((V d (cV L) (jV L)).loc cc0_scratch6 ↦{fullShare} fb4 : sProp 𝕄) = ((b4V).view.loc (V d (cV L) (jV L)) ↦{fullShare} fb4) from rfl)) $$ Hb4
  ihave Hb5' := (Entails.of_eq (show ((V d (cV L) (jV L)).loc cc0_scratch7 ↦{fullShare} fb5 : sProp 𝕄) = ((b5V).view.loc (V d (cV L) (jV L)) ↦{fullShare} fb5) from rfl)) $$ Hb5
  ihave Hb6' := (Entails.of_eq (show ((V d (cV L) (jV L)).loc cc0_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 0} fu : sProp 𝕄) = ((tuV).view.loc (V d (cV L) (jV L)) ↦{Transfers.shareTokN q 0} fu) from rfl)) $$ Htu0
  ihave Hti0' := (Entails.of_eq (show (tiLoc d ↦{Transfers.shareTokN q 0} fi : sProp 𝕄) = ((tiV).view.loc (V d (cV L) (jV L)) ↦{Transfers.shareTokN q 0} fi) from rfl)) $$ Hti0
  ihave Htu1' := (Entails.of_eq (show (tuLoc d ↦{Transfers.shareTokN q 1} fu : sProp 𝕄) = ((tuV).view.loc (V d (cV L) (jV L)) ↦{Transfers.shareTokN q 1} fu) from rfl)) $$ Htu1
  ihave Hti1' := (Entails.of_eq (show (tiLoc d ↦{Transfers.shareTokN q 1} fi : sProp 𝕄) = ((tiV).view.loc (V d (cV L) (jV L)) ↦{Transfers.shareTokN q 1} fi) from rfl)) $$ Hti1
  ihave Htu2' := (Entails.of_eq (show (tuLoc d ↦{Transfers.shareTokN q 2} fu : sProp 𝕄) = ((tuV).view.loc (V d (cV L) (jV L)) ↦{Transfers.shareTokN q 2} fu) from rfl)) $$ Htu2
  ihave Hti2' := (Entails.of_eq (show (tiLoc d ↦{Transfers.shareTokN q 2} fi : sProp 𝕄) = ((tiV).view.loc (V d (cV L) (jV L)) ↦{Transfers.shareTokN q 2} fi) from rfl)) $$ Hti2
  ihave Htu3' := (Entails.of_eq (show (tuLoc d ↦{Transfers.shareTokN q 3} fu : sProp 𝕄) = ((tuV).view.loc (V d (cV L) (jV L)) ↦{Transfers.shareTokN q 3} fu) from rfl)) $$ Htu3
  ihave Hti3' := (Entails.of_eq (show (tiLoc d ↦{Transfers.shareTokN q 3} fi : sProp 𝕄) = ((tiV).view.loc (V d (cV L) (jV L)) ↦{Transfers.shareTokN q 3} fi) from rfl)) $$ Hti3
  ihave Htu4' := (Entails.of_eq (show (tuLoc d ↦{Transfers.shareTokN q 4} fu : sProp 𝕄) = ((tuV).view.loc (V d (cV L) (jV L)) ↦{Transfers.shareTokN q 4} fu) from rfl)) $$ Htu4
  ihave Hti4' := (Entails.of_eq (show (tiLoc d ↦{Transfers.shareTokN q 4} fi : sProp 𝕄) = ((tiV).view.loc (V d (cV L) (jV L)) ↦{Transfers.shareTokN q 4} fi) from rfl)) $$ Hti4
  ihave Htu5' := (Entails.of_eq (show (tuLoc d ↦{Transfers.shareTokN q 5} fu : sProp 𝕄) = ((tuV).view.loc (V d (cV L) (jV L)) ↦{Transfers.shareTokN q 5} fu) from rfl)) $$ Htu5
  ihave Hti5' := (Entails.of_eq (show (tiLoc d ↦{Transfers.shareTokN q 5} fi : sProp 𝕄) = ((tiV).view.loc (V d (cV L) (jV L)) ↦{Transfers.shareTokN q 5} fi) from rfl)) $$ Hti5
  ihave Htu6' := (Entails.of_eq (show (tuLoc d ↦{Transfers.shareTokN q 6} fu : sProp 𝕄) = ((tuV).view.loc (V d (cV L) (jV L)) ↦{Transfers.shareTokN q 6} fu) from rfl)) $$ Htu6
  ihave Hti6' := (Entails.of_eq (show (tiLoc d ↦{Transfers.shareTokN q 6} fi : sProp 𝕄) = ((tiV).view.loc (V d (cV L) (jV L)) ↦{Transfers.shareTokN q 6} fi) from rfl)) $$ Hti6
  ihave Hou' := (Entails.of_eq (outPts0V (F := F) (U := U) d L h1 ou)) $$ Hou
  icases Hou' with ⟨Hou0, Hou1, Hou2, Hou3, Hou4, Hou5, Hou6, Hou7, Hou8, Hou9, Hou10, Hou11, Hou12, Hou13, Hou14, Hou15, Hou16, Hou17⟩
  ihave Hoi' := (Entails.of_eq (outPts0iV (F := F) (U := U) d L h1 oi)) $$ Hoi
  icases Hoi' with ⟨Hoi0, Hoi1, Hoi2, Hoi3, Hoi4, Hoi5, Hoi6, Hoi7, Hoi8, Hoi9, Hoi10, Hoi11, Hoi12, Hoi13, Hoi14, Hoi15, Hoi16, Hoi17⟩
  ihave Hou0' := (Entails.of_eq (show (ouLoc d ↦[(ouC0 L h1 0).view.set]{fullShare} ou : sProp 𝕄) = (((ouV).slice (Rect.unit (s := S51200x128) (k0_off2 L 0#32) S128x128.size (k0_off2_inb L h1 0)) (fun _ => rfl)).view.loc (V d (cV L) (jV L)) ↦[((ouV).slice (Rect.unit (s := S51200x128) (k0_off2 L 0#32) S128x128.size (k0_off2_inb L h1 0)) (fun _ => rfl)).view.set]{fullShare} ou) from rfl)) $$ Hou0
  ihave Hoi0' := (Entails.of_eq (show (oiLoc d ↦[(oiC0 L h1 0).view.set]{fullShare} oi : sProp 𝕄) = (((oiV).slice (Rect.unit (s := S51200x128) (k0_off2 L 0#32) S128x128.size (k0_off2_inb L h1 0)) (fun _ => rfl)).view.loc (V d (cV L) (jV L)) ↦[((oiV).slice (Rect.unit (s := S51200x128) (k0_off2 L 0#32) S128x128.size (k0_off2_inb L h1 0)) (fun _ => rfl)).view.set]{fullShare} oi) from rfl)) $$ Hoi0
  ihave Hou1' := (Entails.of_eq (show (ouLoc d ↦[(ouC0 L h1 1).view.set]{fullShare} ou : sProp 𝕄) = (((ouV).slice (Rect.unit (s := S51200x128) (k0_off2 L 128#32) S128x128.size (k0_off2_inb L h1 1)) (fun _ => rfl)).view.loc (V d (cV L) (jV L)) ↦[((ouV).slice (Rect.unit (s := S51200x128) (k0_off2 L 128#32) S128x128.size (k0_off2_inb L h1 1)) (fun _ => rfl)).view.set]{fullShare} ou) from rfl)) $$ Hou1
  ihave Hoi1' := (Entails.of_eq (show (oiLoc d ↦[(oiC0 L h1 1).view.set]{fullShare} oi : sProp 𝕄) = (((oiV).slice (Rect.unit (s := S51200x128) (k0_off2 L 128#32) S128x128.size (k0_off2_inb L h1 1)) (fun _ => rfl)).view.loc (V d (cV L) (jV L)) ↦[((oiV).slice (Rect.unit (s := S51200x128) (k0_off2 L 128#32) S128x128.size (k0_off2_inb L h1 1)) (fun _ => rfl)).view.set]{fullShare} oi) from rfl)) $$ Hoi1
  ihave Hou2' := (Entails.of_eq (show (ouLoc d ↦[(ouC0 L h1 2).view.set]{fullShare} ou : sProp 𝕄) = (((ouV).slice (Rect.unit (s := S51200x128) (k0_off2 L 256#32) S128x128.size (k0_off2_inb L h1 2)) (fun _ => rfl)).view.loc (V d (cV L) (jV L)) ↦[((ouV).slice (Rect.unit (s := S51200x128) (k0_off2 L 256#32) S128x128.size (k0_off2_inb L h1 2)) (fun _ => rfl)).view.set]{fullShare} ou) from rfl)) $$ Hou2
  ihave Hoi2' := (Entails.of_eq (show (oiLoc d ↦[(oiC0 L h1 2).view.set]{fullShare} oi : sProp 𝕄) = (((oiV).slice (Rect.unit (s := S51200x128) (k0_off2 L 256#32) S128x128.size (k0_off2_inb L h1 2)) (fun _ => rfl)).view.loc (V d (cV L) (jV L)) ↦[((oiV).slice (Rect.unit (s := S51200x128) (k0_off2 L 256#32) S128x128.size (k0_off2_inb L h1 2)) (fun _ => rfl)).view.set]{fullShare} oi) from rfl)) $$ Hoi2
  ihave Hou3' := (Entails.of_eq (show (ouLoc d ↦[(ouC0 L h1 3).view.set]{fullShare} ou : sProp 𝕄) = (((ouV).slice (Rect.unit (s := S51200x128) (k0_off2 L 384#32) S128x128.size (k0_off2_inb L h1 3)) (fun _ => rfl)).view.loc (V d (cV L) (jV L)) ↦[((ouV).slice (Rect.unit (s := S51200x128) (k0_off2 L 384#32) S128x128.size (k0_off2_inb L h1 3)) (fun _ => rfl)).view.set]{fullShare} ou) from rfl)) $$ Hou3
  ihave Hoi3' := (Entails.of_eq (show (oiLoc d ↦[(oiC0 L h1 3).view.set]{fullShare} oi : sProp 𝕄) = (((oiV).slice (Rect.unit (s := S51200x128) (k0_off2 L 384#32) S128x128.size (k0_off2_inb L h1 3)) (fun _ => rfl)).view.loc (V d (cV L) (jV L)) ↦[((oiV).slice (Rect.unit (s := S51200x128) (k0_off2 L 384#32) S128x128.size (k0_off2_inb L h1 3)) (fun _ => rfl)).view.set]{fullShare} oi) from rfl)) $$ Hoi3
  ihave Hou4' := (Entails.of_eq (show (ouLoc d ↦[(ouC0 L h1 4).view.set]{fullShare} ou : sProp 𝕄) = (((ouV).slice (Rect.unit (s := S51200x128) (k0_off2 L 512#32) S128x128.size (k0_off2_inb L h1 4)) (fun _ => rfl)).view.loc (V d (cV L) (jV L)) ↦[((ouV).slice (Rect.unit (s := S51200x128) (k0_off2 L 512#32) S128x128.size (k0_off2_inb L h1 4)) (fun _ => rfl)).view.set]{fullShare} ou) from rfl)) $$ Hou4
  ihave Hoi4' := (Entails.of_eq (show (oiLoc d ↦[(oiC0 L h1 4).view.set]{fullShare} oi : sProp 𝕄) = (((oiV).slice (Rect.unit (s := S51200x128) (k0_off2 L 512#32) S128x128.size (k0_off2_inb L h1 4)) (fun _ => rfl)).view.loc (V d (cV L) (jV L)) ↦[((oiV).slice (Rect.unit (s := S51200x128) (k0_off2 L 512#32) S128x128.size (k0_off2_inb L h1 4)) (fun _ => rfl)).view.set]{fullShare} oi) from rfl)) $$ Hoi4
  ihave Hou5' := (Entails.of_eq (show (ouLoc d ↦[(ouC0 L h1 5).view.set]{fullShare} ou : sProp 𝕄) = (((ouV).slice (Rect.unit (s := S51200x128) (k0_off2 L 640#32) S128x128.size (k0_off2_inb L h1 5)) (fun _ => rfl)).view.loc (V d (cV L) (jV L)) ↦[((ouV).slice (Rect.unit (s := S51200x128) (k0_off2 L 640#32) S128x128.size (k0_off2_inb L h1 5)) (fun _ => rfl)).view.set]{fullShare} ou) from rfl)) $$ Hou5
  ihave Hoi5' := (Entails.of_eq (show (oiLoc d ↦[(oiC0 L h1 5).view.set]{fullShare} oi : sProp 𝕄) = (((oiV).slice (Rect.unit (s := S51200x128) (k0_off2 L 640#32) S128x128.size (k0_off2_inb L h1 5)) (fun _ => rfl)).view.loc (V d (cV L) (jV L)) ↦[((oiV).slice (Rect.unit (s := S51200x128) (k0_off2 L 640#32) S128x128.size (k0_off2_inb L h1 5)) (fun _ => rfl)).view.set]{fullShare} oi) from rfl)) $$ Hoi5
  ihave Hou6' := (Entails.of_eq (show (ouLoc d ↦[(ouC0 L h1 6).view.set]{fullShare} ou : sProp 𝕄) = (((ouV).slice (Rect.unit (s := S51200x128) (k0_off2 L 768#32) S128x128.size (k0_off2_inb L h1 6)) (fun _ => rfl)).view.loc (V d (cV L) (jV L)) ↦[((ouV).slice (Rect.unit (s := S51200x128) (k0_off2 L 768#32) S128x128.size (k0_off2_inb L h1 6)) (fun _ => rfl)).view.set]{fullShare} ou) from rfl)) $$ Hou6
  ihave Hoi6' := (Entails.of_eq (show (oiLoc d ↦[(oiC0 L h1 6).view.set]{fullShare} oi : sProp 𝕄) = (((oiV).slice (Rect.unit (s := S51200x128) (k0_off2 L 768#32) S128x128.size (k0_off2_inb L h1 6)) (fun _ => rfl)).view.loc (V d (cV L) (jV L)) ↦[((oiV).slice (Rect.unit (s := S51200x128) (k0_off2 L 768#32) S128x128.size (k0_off2_inb L h1 6)) (fun _ => rfl)).view.set]{fullShare} oi) from rfl)) $$ Hoi6
  ihave Hou7' := (Entails.of_eq (show (ouLoc d ↦[(ouC0 L h1 7).view.set]{fullShare} ou : sProp 𝕄) = (((ouV).slice (Rect.unit (s := S51200x128) (k0_off2 L 896#32) S128x128.size (k0_off2_inb L h1 7)) (fun _ => rfl)).view.loc (V d (cV L) (jV L)) ↦[((ouV).slice (Rect.unit (s := S51200x128) (k0_off2 L 896#32) S128x128.size (k0_off2_inb L h1 7)) (fun _ => rfl)).view.set]{fullShare} ou) from rfl)) $$ Hou7
  ihave Hoi7' := (Entails.of_eq (show (oiLoc d ↦[(oiC0 L h1 7).view.set]{fullShare} oi : sProp 𝕄) = (((oiV).slice (Rect.unit (s := S51200x128) (k0_off2 L 896#32) S128x128.size (k0_off2_inb L h1 7)) (fun _ => rfl)).view.loc (V d (cV L) (jV L)) ↦[((oiV).slice (Rect.unit (s := S51200x128) (k0_off2 L 896#32) S128x128.size (k0_off2_inb L h1 7)) (fun _ => rfl)).view.set]{fullShare} oi) from rfl)) $$ Hoi7
  ihave Hou8' := (Entails.of_eq (show (ouLoc d ↦[(ouC0 L h1 8).view.set]{fullShare} ou : sProp 𝕄) = (((ouV).slice (Rect.unit (s := S51200x128) (k0_off2 L 1024#32) S128x128.size (k0_off2_inb L h1 8)) (fun _ => rfl)).view.loc (V d (cV L) (jV L)) ↦[((ouV).slice (Rect.unit (s := S51200x128) (k0_off2 L 1024#32) S128x128.size (k0_off2_inb L h1 8)) (fun _ => rfl)).view.set]{fullShare} ou) from rfl)) $$ Hou8
  ihave Hoi8' := (Entails.of_eq (show (oiLoc d ↦[(oiC0 L h1 8).view.set]{fullShare} oi : sProp 𝕄) = (((oiV).slice (Rect.unit (s := S51200x128) (k0_off2 L 1024#32) S128x128.size (k0_off2_inb L h1 8)) (fun _ => rfl)).view.loc (V d (cV L) (jV L)) ↦[((oiV).slice (Rect.unit (s := S51200x128) (k0_off2 L 1024#32) S128x128.size (k0_off2_inb L h1 8)) (fun _ => rfl)).view.set]{fullShare} oi) from rfl)) $$ Hoi8
  ihave Hou9' := (Entails.of_eq (show (ouLoc d ↦[(ouC0 L h1 9).view.set]{fullShare} ou : sProp 𝕄) = (((ouV).slice (Rect.unit (s := S51200x128) (k0_off2 L 1152#32) S128x128.size (k0_off2_inb L h1 9)) (fun _ => rfl)).view.loc (V d (cV L) (jV L)) ↦[((ouV).slice (Rect.unit (s := S51200x128) (k0_off2 L 1152#32) S128x128.size (k0_off2_inb L h1 9)) (fun _ => rfl)).view.set]{fullShare} ou) from rfl)) $$ Hou9
  ihave Hoi9' := (Entails.of_eq (show (oiLoc d ↦[(oiC0 L h1 9).view.set]{fullShare} oi : sProp 𝕄) = (((oiV).slice (Rect.unit (s := S51200x128) (k0_off2 L 1152#32) S128x128.size (k0_off2_inb L h1 9)) (fun _ => rfl)).view.loc (V d (cV L) (jV L)) ↦[((oiV).slice (Rect.unit (s := S51200x128) (k0_off2 L 1152#32) S128x128.size (k0_off2_inb L h1 9)) (fun _ => rfl)).view.set]{fullShare} oi) from rfl)) $$ Hoi9
  ihave Hou10' := (Entails.of_eq (show (ouLoc d ↦[(ouC0 L h1 10).view.set]{fullShare} ou : sProp 𝕄) = (((ouV).slice (Rect.unit (s := S51200x128) (k0_off2 L 1280#32) S128x128.size (k0_off2_inb L h1 10)) (fun _ => rfl)).view.loc (V d (cV L) (jV L)) ↦[((ouV).slice (Rect.unit (s := S51200x128) (k0_off2 L 1280#32) S128x128.size (k0_off2_inb L h1 10)) (fun _ => rfl)).view.set]{fullShare} ou) from rfl)) $$ Hou10
  ihave Hoi10' := (Entails.of_eq (show (oiLoc d ↦[(oiC0 L h1 10).view.set]{fullShare} oi : sProp 𝕄) = (((oiV).slice (Rect.unit (s := S51200x128) (k0_off2 L 1280#32) S128x128.size (k0_off2_inb L h1 10)) (fun _ => rfl)).view.loc (V d (cV L) (jV L)) ↦[((oiV).slice (Rect.unit (s := S51200x128) (k0_off2 L 1280#32) S128x128.size (k0_off2_inb L h1 10)) (fun _ => rfl)).view.set]{fullShare} oi) from rfl)) $$ Hoi10
  ihave Hou11' := (Entails.of_eq (show (ouLoc d ↦[(ouC0 L h1 11).view.set]{fullShare} ou : sProp 𝕄) = (((ouV).slice (Rect.unit (s := S51200x128) (k0_off2 L 1408#32) S128x128.size (k0_off2_inb L h1 11)) (fun _ => rfl)).view.loc (V d (cV L) (jV L)) ↦[((ouV).slice (Rect.unit (s := S51200x128) (k0_off2 L 1408#32) S128x128.size (k0_off2_inb L h1 11)) (fun _ => rfl)).view.set]{fullShare} ou) from rfl)) $$ Hou11
  ihave Hoi11' := (Entails.of_eq (show (oiLoc d ↦[(oiC0 L h1 11).view.set]{fullShare} oi : sProp 𝕄) = (((oiV).slice (Rect.unit (s := S51200x128) (k0_off2 L 1408#32) S128x128.size (k0_off2_inb L h1 11)) (fun _ => rfl)).view.loc (V d (cV L) (jV L)) ↦[((oiV).slice (Rect.unit (s := S51200x128) (k0_off2 L 1408#32) S128x128.size (k0_off2_inb L h1 11)) (fun _ => rfl)).view.set]{fullShare} oi) from rfl)) $$ Hoi11
  ihave Hou12' := (Entails.of_eq (show (ouLoc d ↦[(ouC0 L h1 12).view.set]{fullShare} ou : sProp 𝕄) = (((ouV).slice (Rect.unit (s := S51200x128) (k0_off2 L 1536#32) S128x128.size (k0_off2_inb L h1 12)) (fun _ => rfl)).view.loc (V d (cV L) (jV L)) ↦[((ouV).slice (Rect.unit (s := S51200x128) (k0_off2 L 1536#32) S128x128.size (k0_off2_inb L h1 12)) (fun _ => rfl)).view.set]{fullShare} ou) from rfl)) $$ Hou12
  ihave Hoi12' := (Entails.of_eq (show (oiLoc d ↦[(oiC0 L h1 12).view.set]{fullShare} oi : sProp 𝕄) = (((oiV).slice (Rect.unit (s := S51200x128) (k0_off2 L 1536#32) S128x128.size (k0_off2_inb L h1 12)) (fun _ => rfl)).view.loc (V d (cV L) (jV L)) ↦[((oiV).slice (Rect.unit (s := S51200x128) (k0_off2 L 1536#32) S128x128.size (k0_off2_inb L h1 12)) (fun _ => rfl)).view.set]{fullShare} oi) from rfl)) $$ Hoi12
  ihave Hou13' := (Entails.of_eq (show (ouLoc d ↦[(ouC0 L h1 13).view.set]{fullShare} ou : sProp 𝕄) = (((ouV).slice (Rect.unit (s := S51200x128) (k0_off2 L 1664#32) S128x128.size (k0_off2_inb L h1 13)) (fun _ => rfl)).view.loc (V d (cV L) (jV L)) ↦[((ouV).slice (Rect.unit (s := S51200x128) (k0_off2 L 1664#32) S128x128.size (k0_off2_inb L h1 13)) (fun _ => rfl)).view.set]{fullShare} ou) from rfl)) $$ Hou13
  ihave Hoi13' := (Entails.of_eq (show (oiLoc d ↦[(oiC0 L h1 13).view.set]{fullShare} oi : sProp 𝕄) = (((oiV).slice (Rect.unit (s := S51200x128) (k0_off2 L 1664#32) S128x128.size (k0_off2_inb L h1 13)) (fun _ => rfl)).view.loc (V d (cV L) (jV L)) ↦[((oiV).slice (Rect.unit (s := S51200x128) (k0_off2 L 1664#32) S128x128.size (k0_off2_inb L h1 13)) (fun _ => rfl)).view.set]{fullShare} oi) from rfl)) $$ Hoi13
  ihave Hou14' := (Entails.of_eq (show (ouLoc d ↦[(ouC0 L h1 14).view.set]{fullShare} ou : sProp 𝕄) = (((ouV).slice (Rect.unit (s := S51200x128) (k0_off2 L 1792#32) S128x128.size (k0_off2_inb L h1 14)) (fun _ => rfl)).view.loc (V d (cV L) (jV L)) ↦[((ouV).slice (Rect.unit (s := S51200x128) (k0_off2 L 1792#32) S128x128.size (k0_off2_inb L h1 14)) (fun _ => rfl)).view.set]{fullShare} ou) from rfl)) $$ Hou14
  ihave Hoi14' := (Entails.of_eq (show (oiLoc d ↦[(oiC0 L h1 14).view.set]{fullShare} oi : sProp 𝕄) = (((oiV).slice (Rect.unit (s := S51200x128) (k0_off2 L 1792#32) S128x128.size (k0_off2_inb L h1 14)) (fun _ => rfl)).view.loc (V d (cV L) (jV L)) ↦[((oiV).slice (Rect.unit (s := S51200x128) (k0_off2 L 1792#32) S128x128.size (k0_off2_inb L h1 14)) (fun _ => rfl)).view.set]{fullShare} oi) from rfl)) $$ Hoi14
  ihave Hou15' := (Entails.of_eq (show (ouLoc d ↦[(ouC0 L h1 15).view.set]{fullShare} ou : sProp 𝕄) = (((ouV).slice (Rect.unit (s := S51200x128) (k0_off2 L 1920#32) S128x128.size (k0_off2_inb L h1 15)) (fun _ => rfl)).view.loc (V d (cV L) (jV L)) ↦[((ouV).slice (Rect.unit (s := S51200x128) (k0_off2 L 1920#32) S128x128.size (k0_off2_inb L h1 15)) (fun _ => rfl)).view.set]{fullShare} ou) from rfl)) $$ Hou15
  ihave Hoi15' := (Entails.of_eq (show (oiLoc d ↦[(oiC0 L h1 15).view.set]{fullShare} oi : sProp 𝕄) = (((oiV).slice (Rect.unit (s := S51200x128) (k0_off2 L 1920#32) S128x128.size (k0_off2_inb L h1 15)) (fun _ => rfl)).view.loc (V d (cV L) (jV L)) ↦[((oiV).slice (Rect.unit (s := S51200x128) (k0_off2 L 1920#32) S128x128.size (k0_off2_inb L h1 15)) (fun _ => rfl)).view.set]{fullShare} oi) from rfl)) $$ Hoi15
  ihave Hou16' := (Entails.of_eq (show (ouLoc d ↦[(ouC0 L h1 16).view.set]{fullShare} ou : sProp 𝕄) = (((ouV).slice (Rect.unit (s := S51200x128) (k0_off2 L 2048#32) S128x128.size (k0_off2_inb L h1 16)) (fun _ => rfl)).view.loc (V d (cV L) (jV L)) ↦[((ouV).slice (Rect.unit (s := S51200x128) (k0_off2 L 2048#32) S128x128.size (k0_off2_inb L h1 16)) (fun _ => rfl)).view.set]{fullShare} ou) from rfl)) $$ Hou16
  ihave Hoi16' := (Entails.of_eq (show (oiLoc d ↦[(oiC0 L h1 16).view.set]{fullShare} oi : sProp 𝕄) = (((oiV).slice (Rect.unit (s := S51200x128) (k0_off2 L 2048#32) S128x128.size (k0_off2_inb L h1 16)) (fun _ => rfl)).view.loc (V d (cV L) (jV L)) ↦[((oiV).slice (Rect.unit (s := S51200x128) (k0_off2 L 2048#32) S128x128.size (k0_off2_inb L h1 16)) (fun _ => rfl)).view.set]{fullShare} oi) from rfl)) $$ Hoi16
  ihave Hou17' := (Entails.of_eq (show (ouLoc d ↦[(ouC0 L h1 17).view.set]{fullShare} ou : sProp 𝕄) = (((ouV).slice (Rect.unit (s := S51200x128) (k0_off2 L 2176#32) S128x128.size (k0_off2_inb L h1 17)) (fun _ => rfl)).view.loc (V d (cV L) (jV L)) ↦[((ouV).slice (Rect.unit (s := S51200x128) (k0_off2 L 2176#32) S128x128.size (k0_off2_inb L h1 17)) (fun _ => rfl)).view.set]{fullShare} ou) from rfl)) $$ Hou17
  ihave Hoi17' := (Entails.of_eq (show (oiLoc d ↦[(oiC0 L h1 17).view.set]{fullShare} oi : sProp 𝕄) = (((oiV).slice (Rect.unit (s := S51200x128) (k0_off2 L 2176#32) S128x128.size (k0_off2_inb L h1 17)) (fun _ => rfl)).view.loc (V d (cV L) (jV L)) ↦[((oiV).slice (Rect.unit (s := S51200x128) (k0_off2 L 2176#32) S128x128.size (k0_off2_inb L h1 17)) (fun _ => rfl)).view.set]{fullShare} oi) from rfl)) $$ Hoi17
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin0V (F := F) (U := U) d L h1 _ _ _ _ _ _ _ _ _ _ _ _ _ _ _ _ _ _) $$ [Hou0' Hou1' Hou2' Hou3' Hou4' Hou5' Hou6' Hou7' Hou8' Hou9' Hou10' Hou11' Hou12' Hou13' Hou14' Hou15' Hou16' Hou17']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    isplitl [Hou6']; · iexact Hou6'
    isplitl [Hou7']; · iexact Hou7'
    isplitl [Hou8']; · iexact Hou8'
    isplitl [Hou9']; · iexact Hou9'
    isplitl [Hou10']; · iexact Hou10'
    isplitl [Hou11']; · iexact Hou11'
    isplitl [Hou12']; · iexact Hou12'
    isplitl [Hou13']; · iexact Hou13'
    isplitl [Hou14']; · iexact Hou14'
    isplitl [Hou15']; · iexact Hou15'
    isplitl [Hou16']; · iexact Hou16'
    iexact Hou17'
  icases HouJ with ⟨%gU, %hgU, HouJ⟩
  ihave HoiJ := (outJoin0iV (F := F) (U := U) d L h1 _ _ _ _ _ _ _ _ _ _ _ _ _ _ _ _ _ _) $$ [Hoi0' Hoi1' Hoi2' Hoi3' Hoi4' Hoi5' Hoi6' Hoi7' Hoi8' Hoi9' Hoi10' Hoi11' Hoi12' Hoi13' Hoi14' Hoi15' Hoi16' Hoi17']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    isplitl [Hoi6']; · iexact Hoi6'
    isplitl [Hoi7']; · iexact Hoi7'
    isplitl [Hoi8']; · iexact Hoi8'
    isplitl [Hoi9']; · iexact Hoi9'
    isplitl [Hoi10']; · iexact Hoi10'
    isplitl [Hoi11']; · iexact Hoi11'
    isplitl [Hoi12']; · iexact Hoi12'
    isplitl [Hoi13']; · iexact Hoi13'
    isplitl [Hoi14']; · iexact Hoi14'
    isplitl [Hoi15']; · iexact Hoi15'
    isplitl [Hoi16']; · iexact Hoi16'
    iexact Hoi17'
  icases HoiJ with ⟨%gI, %hgI, HoiJ⟩
  isplitl [Hgu' Hgi' Htu Hti HouJ HoiJ]
  · iexists gU, gI
    isplitr
    · ipureintro
      intro r y; rw [hgU r y, hgI r y]
      fin_cases r
      · refine ⟨?_, ?_⟩
        · exact chunk_valU d L fu gu hpre.1 _ _ ou 0 _ (by decide) _ _ (hinU0 _) _ (fun y => slot_read _ _ _ _ y) y
        · exact chunk_valI d L fi gi hpre.2 _ _ oi 0 _ (by decide) _ _ (hinI0 _) _ (fun y => slot_read _ _ _ _ y) y
      · refine ⟨?_, ?_⟩
        · exact chunk_valU d L fu gu hpre.1 _ _ ou 1 _ (by decide) _ _ (hinU1 _) _ (fun y => slot_read _ _ _ _ y) y
        · exact chunk_valI d L fi gi hpre.2 _ _ oi 1 _ (by decide) _ _ (hinI1 _) _ (fun y => slot_read _ _ _ _ y) y
      · refine ⟨?_, ?_⟩
        · exact chunk_valU d L fu gu hpre.1 _ _ ou 2 _ (by decide) _ _ (hinU2 _) _ (fun y => slot_read _ _ _ _ y) y
        · exact chunk_valI d L fi gi hpre.2 _ _ oi 2 _ (by decide) _ _ (hinI2 _) _ (fun y => slot_read _ _ _ _ y) y
      · refine ⟨?_, ?_⟩
        · exact chunk_valU d L fu gu hpre.1 _ _ ou 3 _ (by decide) _ _ (hinU3 _) _ (fun y => slot_read _ _ _ _ y) y
        · exact chunk_valI d L fi gi hpre.2 _ _ oi 3 _ (by decide) _ _ (hinI3 _) _ (fun y => slot_read _ _ _ _ y) y
      · refine ⟨?_, ?_⟩
        · exact chunk_valU d L fu gu hpre.1 _ _ ou 4 _ (by decide) _ _ (hinU4 _) _ (fun y => slot_read _ _ _ _ y) y
        · exact chunk_valI d L fi gi hpre.2 _ _ oi 4 _ (by decide) _ _ (hinI4 _) _ (fun y => slot_read _ _ _ _ y) y
      · refine ⟨?_, ?_⟩
        · exact chunk_valU d L fu gu hpre.1 _ _ ou 5 _ (by decide) _ _ (hinU5 _) _ (fun y => slot_read _ _ _ _ y) y
        · exact chunk_valI d L fi gi hpre.2 _ _ oi 5 _ (by decide) _ _ (hinI5 _) _ (fun y => slot_read _ _ _ _ y) y
      · refine ⟨?_, ?_⟩
        · exact chunk_valU d L fu gu hpre.1 _ _ ou 6 _ (by decide) _ _ (hinU6 _) _ (fun y => slot_read _ _ _ _ y) y
        · exact chunk_valI d L fi gi hpre.2 _ _ oi 6 _ (by decide) _ _ (hinI6 _) _ (fun y => slot_read _ _ _ _ y) y
      · refine ⟨?_, ?_⟩
        · exact chunk_valU d L fu gu hpre.1 _ _ ou 7 _ (by decide) _ _ (hinU7 _) _ (fun y => slot_read _ _ _ _ y) y
        · exact chunk_valI d L fi gi hpre.2 _ _ oi 7 _ (by decide) _ _ (hinI7 _) _ (fun y => slot_read _ _ _ _ y) y
      · refine ⟨?_, ?_⟩
        · exact chunk_valU d L fu gu hpre.1 _ _ ou 8 _ (by decide) _ _ (hinU8 _) _ (fun y => slot_read _ _ _ _ y) y
        · exact chunk_valI d L fi gi hpre.2 _ _ oi 8 _ (by decide) _ _ (hinI8 _) _ (fun y => slot_read _ _ _ _ y) y
      · refine ⟨?_, ?_⟩
        · exact chunk_valU d L fu gu hpre.1 _ _ ou 9 _ (by decide) _ _ (hinU9 _) _ (fun y => slot_read _ _ _ _ y) y
        · exact chunk_valI d L fi gi hpre.2 _ _ oi 9 _ (by decide) _ _ (hinI9 _) _ (fun y => slot_read _ _ _ _ y) y
      · refine ⟨?_, ?_⟩
        · exact chunk_valU d L fu gu hpre.1 _ _ ou 10 _ (by decide) _ _ (hinU10 _) _ (fun y => slot_read _ _ _ _ y) y
        · exact chunk_valI d L fi gi hpre.2 _ _ oi 10 _ (by decide) _ _ (hinI10 _) _ (fun y => slot_read _ _ _ _ y) y
      · refine ⟨?_, ?_⟩
        · exact chunk_valU d L fu gu hpre.1 _ _ ou 11 _ (by decide) _ _ (hinU11 _) _ (fun y => slot_read _ _ _ _ y) y
        · exact chunk_valI d L fi gi hpre.2 _ _ oi 11 _ (by decide) _ _ (hinI11 _) _ (fun y => slot_read _ _ _ _ y) y
      · refine ⟨?_, ?_⟩
        · exact chunk_valU d L fu gu hpre.1 _ _ ou 12 _ (by decide) _ _ (hinU12 _) _ (fun y => slot_read _ _ _ _ y) y
        · exact chunk_valI d L fi gi hpre.2 _ _ oi 12 _ (by decide) _ _ (hinI12 _) _ (fun y => slot_read _ _ _ _ y) y
      · refine ⟨?_, ?_⟩
        · exact chunk_valU d L fu gu hpre.1 _ _ ou 13 _ (by decide) _ _ (hinU13 _) _ (fun y => slot_read _ _ _ _ y) y
        · exact chunk_valI d L fi gi hpre.2 _ _ oi 13 _ (by decide) _ _ (hinI13 _) _ (fun y => slot_read _ _ _ _ y) y
      · refine ⟨?_, ?_⟩
        · exact chunk_valU d L fu gu hpre.1 _ _ ou 14 _ (by decide) _ _ (hinU14 _) _ (fun y => slot_read _ _ _ _ y) y
        · exact chunk_valI d L fi gi hpre.2 _ _ oi 14 _ (by decide) _ _ (hinI14 _) _ (fun y => slot_read _ _ _ _ y) y
      · refine ⟨?_, ?_⟩
        · exact chunk_valU d L fu gu hpre.1 _ _ ou 15 _ (by decide) _ _ (hinU15 _) _ (fun y => slot_read _ _ _ _ y) y
        · exact chunk_valI d L fi gi hpre.2 _ _ oi 15 _ (by decide) _ _ (hinI15 _) _ (fun y => slot_read _ _ _ _ y) y
      · refine ⟨?_, ?_⟩
        · exact chunk_valU d L fu gu hpre.1 _ _ ou 16 _ (by decide) _ _ (hinU16 _) _ (fun y => slot_read _ _ _ _ y) y
        · exact chunk_valI d L fi gi hpre.2 _ _ oi 16 _ (by decide) _ _ (hinI16 _) _ (fun y => slot_read _ _ _ _ y) y
      · refine ⟨?_, ?_⟩
        · exact chunk_valU d L fu gu hpre.1 _ _ ou 17 _ (by decide) _ _ (hinU17 _) _ (fun y => slot_read _ _ _ _ y) y
        · exact chunk_valI d L fi gi hpre.2 _ _ oi 17 _ (by decide) _ _ (hinI17 _) _ (fun y => slot_read _ _ _ _ y) y
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.KernelIdeal.ScTile0

end
-- ==== Proof.ScTileV0c1.lean ====
/-
  The task of a tile of core 1 of the first gather kernel: the tile fetches its two index slabs into its list
  scratches, then runs fourteen windows through a ring of seven row buffers; window w gathers the 128 table rows named
  by row (w / 2) of the fetched list (the user table for even w, the item table for odd w) into slot (w mod 7) and copies
  the slot out to chunk (w / 2) of the tile's rows of the matching output. Every slot has its own gather cell and its
  own write-out cell, so on each cell at most one copy is outstanding, and no slot is touched while a copy on it is
  pending. The tile's rows of each output are held chunk by chunk for the run and joined again at the end.
-/
import proofs.«204681_g65575560675685_cont_9to1_m_144_57_alg».proof.Proof.ScTileLib0
import proofs.«204681_g65575560675685_cont_9to1_m_144_57_alg».proof.Proof.ScTileStmtV0
import proofs.«204681_g65575560675685_cont_9to1_m_144_57_alg».proof.Proof.ScTileRead0
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.KernelIdeal
import proofs.«204681_g65575560675685_cont_9to1_m_144_57_alg».proof.Proof.Gen.KernelIdeal.Skeleton

noncomputable section

namespace Cert.Proof.KernelIdeal.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v53_scv : Memref sig Kind.scVector Space.hbm S32x18x128 EltTy.i32)
local notation "iiV" => (Memref.whole main_v81_scv : Memref sig Kind.scVector Space.hbm S32x18x128 EltTy.i32)
local notation "ouV" => (Memref.whole main_v94_0_scv : Memref sig Kind.scVector Space.hbm S51200x128 EltTy.f32)
local notation "oiV" => (Memref.whole main_v94_1_scv : Memref sig Kind.scVector Space.hbm S51200x128 EltTy.f32)
local notation "luV" => (Memref.whole cc0_scratch0 : Memref sig Kind.scVector Space.vmem S18x128 EltTy.i32)
local notation "liV" => (Memref.whole cc0_scratch1 : Memref sig Kind.scVector Space.vmem S18x128 EltTy.i32)
local notation "b0V" => (Memref.whole cc0_scratch2 : Memref sig Kind.scVector Space.vmem S128x128 EltTy.f32)
local notation "b1V" => (Memref.whole cc0_scratch3 : Memref sig Kind.scVector Space.vmem S128x128 EltTy.f32)
local notation "b2V" => (Memref.whole cc0_scratch4 : Memref sig Kind.scVector Space.vmem S128x128 EltTy.f32)
local notation "b3V" => (Memref.whole cc0_scratch5 : Memref sig Kind.scVector Space.vmem S128x128 EltTy.f32)
local notation "b4V" => (Memref.whole cc0_scratch6 : Memref sig Kind.scVector Space.vmem S128x128 EltTy.f32)
local notation "b5V" => (Memref.whole cc0_scratch7 : Memref sig Kind.scVector Space.vmem S128x128 EltTy.f32)
local notation "b6V" => (Memref.whole cc0_scratch8 : Memref sig Kind.scVector Space.vmem S128x128 EltTy.f32)

section Tile

variable (d : Dev nD) (L : grid0.Coords)
variable [FloatOps F]

/-- Two chunks of a core-1 tile are disjoint row ranges. -/
theorem chunk1_disj : ∀ (L : grid0.Coords) (h2 : k0_cond2 L = 1#1) (r r' : Fin 7), r ≠ r' →
    LoadRect.disj (Rect.unit (s := S51200x128) (k0_off3 L (BitVec.ofNat 32 (128 * r.val))) S128x128.size (k0_off3_inb L h2 r))
      (Rect.unit (s := S51200x128) (k0_off3 L (BitVec.ofNat 32 (128 * r'.val))) S128x128.size (k0_off3_inb L h2 r')).toLoadRect = true := by
  decide +kernel

theorem ouC1_disj (h2 : k0_cond2 L = 1#1) (r r' : Fin 7) (hne : r ≠ r') : Disjoint (ouC1 L h2 r).view.set (ouC1 L h2 r').view.set :=
  View.disjoint_slice_of_disj _ _ _ (chunk1_disj L h2 r r' hne)

/-- The tile's rows of the user output, chunk by chunk. -/
theorem outPts1 (h2 : k0_cond2 L = 1#1) (f : Buf (Elt F) (ouLoc d)) :
    (ouLoc d ↦[outSet1 L h2]{fullShare} f : sProp 𝕄)
      = iprop((ouLoc d ↦[(ouC1 L h2 0).view.set]{fullShare} f) ∗ (ouLoc d ↦[(ouC1 L h2 1).view.set]{fullShare} f) ∗ (ouLoc d ↦[(ouC1 L h2 2).view.set]{fullShare} f) ∗ (ouLoc d ↦[(ouC1 L h2 3).view.set]{fullShare} f) ∗ (ouLoc d ↦[(ouC1 L h2 4).view.set]{fullShare} f) ∗ (ouLoc d ↦[(ouC1 L h2 5).view.set]{fullShare} f) ∗ (ouLoc d ↦[(ouC1 L h2 6).view.set]{fullShare} f)) := by
  unfold outSet1
  rw [pointsTo_biUnion _ _ (fun r _ r' _ hne => ouC1_disj L h2 r r' hne), bigSep_fin7]
/-- The tile's rows of the item output, chunk by chunk. -/
theorem outPts1i (h2 : k0_cond2 L = 1#1) (f : Buf (Elt F) (oiLoc d)) :
    (oiLoc d ↦[outSet1 L h2]{fullShare} f : sProp 𝕄)
      = iprop((oiLoc d ↦[(oiC1 L h2 0).view.set]{fullShare} f) ∗ (oiLoc d ↦[(oiC1 L h2 1).view.set]{fullShare} f) ∗ (oiLoc d ↦[(oiC1 L h2 2).view.set]{fullShare} f) ∗ (oiLoc d ↦[(oiC1 L h2 3).view.set]{fullShare} f) ∗ (oiLoc d ↦[(oiC1 L h2 4).view.set]{fullShare} f) ∗ (oiLoc d ↦[(oiC1 L h2 5).view.set]{fullShare} f) ∗ (oiLoc d ↦[(oiC1 L h2 6).view.set]{fullShare} f)) := by
  unfold outSet1
  rw [pointsTo_biUnion (ℓ := oiLoc d) _ _ (fun r _ r' _ hne => ouC1_disj L h2 r r' hne), bigSep_fin7]
  rfl

set_option maxHeartbeats 40000000 in
/-- The chunks joined: together they are the tile's rows at one contents, which agrees with each chunk's own on the
    chunk's elements. -/
theorem outJoin1V (h2 : k0_cond2 L = 1#1) (c0 c1 c2 c3 c4 c5 c6 : Buf (Elt F) (ouLoc d)) :
    (iprop((ouLoc d ↦[(ouC1 L h2 0).view.set]{fullShare} c0) ∗ (ouLoc d ↦[(ouC1 L h2 1).view.set]{fullShare} c1) ∗ (ouLoc d ↦[(ouC1 L h2 2).view.set]{fullShare} c2) ∗ (ouLoc d ↦[(ouC1 L h2 3).view.set]{fullShare} c3) ∗ (ouLoc d ↦[(ouC1 L h2 4).view.set]{fullShare} c4) ∗ (ouLoc d ↦[(ouC1 L h2 5).view.set]{fullShare} c5) ∗ (ouLoc d ↦[(ouC1 L h2 6).view.set]{fullShare} c6)) : sProp 𝕄)
      ⊢ iprop(∃ g, ⌜∀ (r : Fin 7) (y : S128x128.Idx), g ((ouC1 L h2 r).view.emb y) = ((![c0, c1, c2, c3, c4, c5, c6] : Fin 7 → Buf (Elt F) (ouLoc d)) r) ((ouC1 L h2 r).view.emb y)⌝
          ∗ ouLoc d ↦[outSet1 L h2]{fullShare} g) := by
  have hj : (bigSep (Finset.univ : Finset (Fin 7)) (fun r => ouLoc d ↦[(ouC1 L h2 r).view.set]{fullShare} ((![c0, c1, c2, c3, c4, c5, c6] : Fin 7 → Buf (Elt F) (ouLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (ouLoc d)) t) i⌝
          ∗ ouLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, %hg, H⟩
  iexists g
  isplitr
  · ipureintro
    intro r y
    exact hg r (Finset.mem_univ r) _ (View.emb_mem_set (ouC1 L h2 r).view y)
  · unfold outSet1
    iexact H

set_option maxHeartbeats 40000000 in
theorem outJoin1iV (h2 : k0_cond2 L = 1#1) (c0 c1 c2 c3 c4 c5 c6 : Buf (Elt F) (oiLoc d)) :
    (iprop((oiLoc d ↦[(oiC1 L h2 0).view.set]{fullShare} c0) ∗ (oiLoc d ↦[(oiC1 L h2 1).view.set]{fullShare} c1) ∗ (oiLoc d ↦[(oiC1 L h2 2).view.set]{fullShare} c2) ∗ (oiLoc d ↦[(oiC1 L h2 3).view.set]{fullShare} c3) ∗ (oiLoc d ↦[(oiC1 L h2 4).view.set]{fullShare} c4) ∗ (oiLoc d ↦[(oiC1 L h2 5).view.set]{fullShare} c5) ∗ (oiLoc d ↦[(oiC1 L h2 6).view.set]{fullShare} c6)) : sProp 𝕄)
      ⊢ iprop(∃ g, ⌜∀ (r : Fin 7) (y : S128x128.Idx), g ((oiC1 L h2 r).view.emb y) = ((![c0, c1, c2, c3, c4, c5, c6] : Fin 7 → Buf (Elt F) (oiLoc d)) r) ((oiC1 L h2 r).view.emb y)⌝
          ∗ oiLoc d ↦[outSet1 L h2]{fullShare} g) := by
  have hj : (bigSep (Finset.univ : Finset (Fin 7)) (fun r => oiLoc d ↦[(ouC1 L h2 r).view.set]{fullShare} ((![c0, c1, c2, c3, c4, c5, c6] : Fin 7 → Buf (Elt F) (oiLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (oiLoc d)) t) i⌝
          ∗ oiLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, %hg, H⟩
  iexists g
  isplitr
  · ipureintro
    intro r y
    exact hg r (Finset.mem_univ r) _ (View.emb_mem_set (oiC1 L h2 r).view y)
  · unfold outSet1
    iexact H

set_option maxHeartbeats 400000000 in
/-- The task of a tile of core 1: the two fetches, fourteen windows through the ring of seven slots, the drain. -/
theorem tile_bodyV1 : TileBodyV1 F U := by
  intro d L hF h2 q fu fi gu gi ou oi hpre O W hO
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  have hn1 : ¬ k0_cond1 L = 1#1 := cond_excl L h2
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc0_scratch0 ↦{fullShare} fl0 : sProp 𝕄) = ((luV).view.loc (V d (cV L) (jV L)) ↦{fullShare} fl0) from rfl)) $$ Hl0
  ihave Hl1' := (Entails.of_eq (show ((V d (cV L) (jV L)).loc cc0_scratch1 ↦{fullShare} fl1 : sProp 𝕄) = ((liV).view.loc (V d (cV L) (jV L)) ↦{fullShare} fl1) from rfl)) $$ Hl1
  ihave Hb0' := (Entails.of_eq (show ((V d (cV L) (jV L)).loc cc0_scratch2 ↦{fullShare} fb0 : sProp 𝕄) = ((b0V).view.loc (V d (cV L) (jV L)) ↦{fullShare} fb0) from rfl)) $$ Hb0
  ihave Hb1' := (Entails.of_eq (show ((V d (cV L) (jV L)).loc cc0_scratch3 ↦{fullShare} fb1 : sProp 𝕄) = ((b1V).view.loc (V d (cV L) (jV L)) ↦{fullShare} fb1) from rfl)) $$ Hb1
  ihave Hb2' := (Entails.of_eq (show ((V d (cV L) (jV L)).loc cc0_scratch4 ↦{fullShare} fb2 : sProp 𝕄) = ((b2V).view.loc (V d (cV L) (jV L)) ↦{fullShare} fb2) from rfl)) $$ Hb2
  ihave Hb3' := (Entails.of_eq (show ((V d (cV L) (jV L)).loc cc0_scratch5 ↦{fullShare} fb3 : sProp 𝕄) = ((b3V).view.loc (V d (cV L) (jV L)) ↦{fullShare} fb3) from rfl)) $$ Hb3
  ihave Hb4' := (Entails.of_eq (show ((V d (cV L) (jV L)).loc cc0_scratch6 ↦{fullShare} fb4 : sProp 𝕄) = ((b4V).view.loc (V d (cV L) (jV L)) ↦{fullShare} fb4) from rfl)) $$ Hb4
  ihave Hb5' := (Entails.of_eq (show ((V d (cV L) (jV L)).loc cc0_scratch7 ↦{fullShare} fb5 : sProp 𝕄) = ((b5V).view.loc (V d (cV L) (jV L)) ↦{fullShare} fb5) from rfl)) $$ Hb5
  ihave Hb6' := (Entails.of_eq (show ((V d (cV L) (jV L)).loc cc0_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 0} fu : sProp 𝕄) = ((tuV).view.loc (V d (cV L) (jV L)) ↦{Transfers.shareTokN q 0} fu) from rfl)) $$ Htu0
  ihave Hti0' := (Entails.of_eq (show (tiLoc d ↦{Transfers.shareTokN q 0} fi : sProp 𝕄) = ((tiV).view.loc (V d (cV L) (jV L)) ↦{Transfers.shareTokN q 0} fi) from rfl)) $$ Hti0
  ihave Htu1' := (Entails.of_eq (show (tuLoc d ↦{Transfers.shareTokN q 1} fu : sProp 𝕄) = ((tuV).view.loc (V d (cV L) (jV L)) ↦{Transfers.shareTokN q 1} fu) from rfl)) $$ Htu1
  ihave Hti1' := (Entails.of_eq (show (tiLoc d ↦{Transfers.shareTokN q 1} fi : sProp 𝕄) = ((tiV).view.loc (V d (cV L) (jV L)) ↦{Transfers.shareTokN q 1} fi) from rfl)) $$ Hti1
  ihave Htu2' := (Entails.of_eq (show (tuLoc d ↦{Transfers.shareTokN q 2} fu : sProp 𝕄) = ((tuV).view.loc (V d (cV L) (jV L)) ↦{Transfers.shareTokN q 2} fu) from rfl)) $$ Htu2
  ihave Hti2' := (Entails.of_eq (show (tiLoc d ↦{Transfers.shareTokN q 2} fi : sProp 𝕄) = ((tiV).view.loc (V d (cV L) (jV L)) ↦{Transfers.shareTokN q 2} fi) from rfl)) $$ Hti2
  ihave Htu3' := (Entails.of_eq (show (tuLoc d ↦{Transfers.shareTokN q 3} fu : sProp 𝕄) = ((tuV).view.loc (V d (cV L) (jV L)) ↦{Transfers.shareTokN q 3} fu) from rfl)) $$ Htu3
  ihave Hti3' := (Entails.of_eq (show (tiLoc d ↦{Transfers.shareTokN q 3} fi : sProp 𝕄) = ((tiV).view.loc (V d (cV L) (jV L)) ↦{Transfers.shareTokN q 3} fi) from rfl)) $$ Hti3
  ihave Htu4' := (Entails.of_eq (show (tuLoc d ↦{Transfers.shareTokN q 4} fu : sProp 𝕄) = ((tuV).view.loc (V d (cV L) (jV L)) ↦{Transfers.shareTokN q 4} fu) from rfl)) $$ Htu4
  ihave Hti4' := (Entails.of_eq (show (tiLoc d ↦{Transfers.shareTokN q 4} fi : sProp 𝕄) = ((tiV).view.loc (V d (cV L) (jV L)) ↦{Transfers.shareTokN q 4} fi) from rfl)) $$ Hti4
  ihave Htu5' := (Entails.of_eq (show (tuLoc d ↦{Transfers.shareTokN q 5} fu : sProp 𝕄) = ((tuV).view.loc (V d (cV L) (jV L)) ↦{Transfers.shareTokN q 5} fu) from rfl)) $$ Htu5
  ihave Hti5' := (Entails.of_eq (show (tiLoc d ↦{Transfers.shareTokN q 5} fi : sProp 𝕄) = ((tiV).view.loc (V d (cV L) (jV L)) ↦{Transfers.shareTokN q 5} fi) from rfl)) $$ Hti5
  ihave Htu6' := (Entails.of_eq (show (tuLoc d ↦{Transfers.shareTokN q 6} fu : sProp 𝕄) = ((tuV).view.loc (V d (cV L) (jV L)) ↦{Transfers.shareTokN q 6} fu) from rfl)) $$ Htu6
  ihave Hti6' := (Entails.of_eq (show (tiLoc d ↦{Transfers.shareTokN q 6} fi : sProp 𝕄) = ((tiV).view.loc (V d (cV L) (jV L)) ↦{Transfers.shareTokN q 6} fi) from rfl)) $$ Hti6
  ihave Hou' := (Entails.of_eq (outPts1 (F := F) (U := U) d L h2 ou)) $$ Hou
  icases Hou' with ⟨Hou0, Hou1, Hou2, Hou3, Hou4, Hou5, Hou6⟩
  ihave Hoi' := (Entails.of_eq (outPts1i (F := F) (U := U) d L h2 oi)) $$ Hoi
  icases Hoi' with ⟨Hoi0, Hoi1, Hoi2, Hoi3, Hoi4, Hoi5, Hoi6⟩
  ihave Hou0' := (Entails.of_eq (show (ouLoc d ↦[(ouC1 L h2 0).view.set]{fullShare} ou : sProp 𝕄) = (((ouV).slice (Rect.unit (s := S51200x128) (k0_off3 L 0#32) S128x128.size (k0_off3_inb L h2 0)) (fun _ => rfl)).view.loc (V d (cV L) (jV L)) ↦[((ouV).slice (Rect.unit (s := S51200x128) (k0_off3 L 0#32) S128x128.size (k0_off3_inb L h2 0)) (fun _ => rfl)).view.set]{fullShare} ou) from rfl)) $$ Hou0
  ihave Hoi0' := (Entails.of_eq (show (oiLoc d ↦[(oiC1 L h2 0).view.set]{fullShare} oi : sProp 𝕄) = (((oiV).slice (Rect.unit (s := S51200x128) (k0_off3 L 0#32) S128x128.size (k0_off3_inb L h2 0)) (fun _ => rfl)).view.loc (V d (cV L) (jV L)) ↦[((oiV).slice (Rect.unit (s := S51200x128) (k0_off3 L 0#32) S128x128.size (k0_off3_inb L h2 0)) (fun _ => rfl)).view.set]{fullShare} oi) from rfl)) $$ Hoi0
  ihave Hou1' := (Entails.of_eq (show (ouLoc d ↦[(ouC1 L h2 1).view.set]{fullShare} ou : sProp 𝕄) = (((ouV).slice (Rect.unit (s := S51200x128) (k0_off3 L 128#32) S128x128.size (k0_off3_inb L h2 1)) (fun _ => rfl)).view.loc (V d (cV L) (jV L)) ↦[((ouV).slice (Rect.unit (s := S51200x128) (k0_off3 L 128#32) S128x128.size (k0_off3_inb L h2 1)) (fun _ => rfl)).view.set]{fullShare} ou) from rfl)) $$ Hou1
  ihave Hoi1' := (Entails.of_eq (show (oiLoc d ↦[(oiC1 L h2 1).view.set]{fullShare} oi : sProp 𝕄) = (((oiV).slice (Rect.unit (s := S51200x128) (k0_off3 L 128#32) S128x128.size (k0_off3_inb L h2 1)) (fun _ => rfl)).view.loc (V d (cV L) (jV L)) ↦[((oiV).slice (Rect.unit (s := S51200x128) (k0_off3 L 128#32) S128x128.size (k0_off3_inb L h2 1)) (fun _ => rfl)).view.set]{fullShare} oi) from rfl)) $$ Hoi1
  ihave Hou2' := (Entails.of_eq (show (ouLoc d ↦[(ouC1 L h2 2).view.set]{fullShare} ou : sProp 𝕄) = (((ouV).slice (Rect.unit (s := S51200x128) (k0_off3 L 256#32) S128x128.size (k0_off3_inb L h2 2)) (fun _ => rfl)).view.loc (V d (cV L) (jV L)) ↦[((ouV).slice (Rect.unit (s := S51200x128) (k0_off3 L 256#32) S128x128.size (k0_off3_inb L h2 2)) (fun _ => rfl)).view.set]{fullShare} ou) from rfl)) $$ Hou2
  ihave Hoi2' := (Entails.of_eq (show (oiLoc d ↦[(oiC1 L h2 2).view.set]{fullShare} oi : sProp 𝕄) = (((oiV).slice (Rect.unit (s := S51200x128) (k0_off3 L 256#32) S128x128.size (k0_off3_inb L h2 2)) (fun _ => rfl)).view.loc (V d (cV L) (jV L)) ↦[((oiV).slice (Rect.unit (s := S51200x128) (k0_off3 L 256#32) S128x128.size (k0_off3_inb L h2 2)) (fun _ => rfl)).view.set]{fullShare} oi) from rfl)) $$ Hoi2
  ihave Hou3' := (Entails.of_eq (show (ouLoc d ↦[(ouC1 L h2 3).view.set]{fullShare} ou : sProp 𝕄) = (((ouV).slice (Rect.unit (s := S51200x128) (k0_off3 L 384#32) S128x128.size (k0_off3_inb L h2 3)) (fun _ => rfl)).view.loc (V d (cV L) (jV L)) ↦[((ouV).slice (Rect.unit (s := S51200x128) (k0_off3 L 384#32) S128x128.size (k0_off3_inb L h2 3)) (fun _ => rfl)).view.set]{fullShare} ou) from rfl)) $$ Hou3
  ihave Hoi3' := (Entails.of_eq (show (oiLoc d ↦[(oiC1 L h2 3).view.set]{fullShare} oi : sProp 𝕄) = (((oiV).slice (Rect.unit (s := S51200x128) (k0_off3 L 384#32) S128x128.size (k0_off3_inb L h2 3)) (fun _ => rfl)).view.loc (V d (cV L) (jV L)) ↦[((oiV).slice (Rect.unit (s := S51200x128) (k0_off3 L 384#32) S128x128.size (k0_off3_inb L h2 3)) (fun _ => rfl)).view.set]{fullShare} oi) from rfl)) $$ Hoi3
  ihave Hou4' := (Entails.of_eq (show (ouLoc d ↦[(ouC1 L h2 4).view.set]{fullShare} ou : sProp 𝕄) = (((ouV).slice (Rect.unit (s := S51200x128) (k0_off3 L 512#32) S128x128.size (k0_off3_inb L h2 4)) (fun _ => rfl)).view.loc (V d (cV L) (jV L)) ↦[((ouV).slice (Rect.unit (s := S51200x128) (k0_off3 L 512#32) S128x128.size (k0_off3_inb L h2 4)) (fun _ => rfl)).view.set]{fullShare} ou) from rfl)) $$ Hou4
  ihave Hoi4' := (Entails.of_eq (show (oiLoc d ↦[(oiC1 L h2 4).view.set]{fullShare} oi : sProp 𝕄) = (((oiV).slice (Rect.unit (s := S51200x128) (k0_off3 L 512#32) S128x128.size (k0_off3_inb L h2 4)) (fun _ => rfl)).view.loc (V d (cV L) (jV L)) ↦[((oiV).slice (Rect.unit (s := S51200x128) (k0_off3 L 512#32) S128x128.size (k0_off3_inb L h2 4)) (fun _ => rfl)).view.set]{fullShare} oi) from rfl)) $$ Hoi4
  ihave Hou5' := (Entails.of_eq (show (ouLoc d ↦[(ouC1 L h2 5).view.set]{fullShare} ou : sProp 𝕄) = (((ouV).slice (Rect.unit (s := S51200x128) (k0_off3 L 640#32) S128x128.size (k0_off3_inb L h2 5)) (fun _ => rfl)).view.loc (V d (cV L) (jV L)) ↦[((ouV).slice (Rect.unit (s := S51200x128) (k0_off3 L 640#32) S128x128.size (k0_off3_inb L h2 5)) (fun _ => rfl)).view.set]{fullShare} ou) from rfl)) $$ Hou5
  ihave Hoi5' := (Entails.of_eq (show (oiLoc d ↦[(oiC1 L h2 5).view.set]{fullShare} oi : sProp 𝕄) = (((oiV).slice (Rect.unit (s := S51200x128) (k0_off3 L 640#32) S128x128.size (k0_off3_inb L h2 5)) (fun _ => rfl)).view.loc (V d (cV L) (jV L)) ↦[((oiV).slice (Rect.unit (s := S51200x128) (k0_off3 L 640#32) S128x128.size (k0_off3_inb L h2 5)) (fun _ => rfl)).view.set]{fullShare} oi) from rfl)) $$ Hoi5
  ihave Hou6' := (Entails.of_eq (show (ouLoc d ↦[(ouC1 L h2 6).view.set]{fullShare} ou : sProp 𝕄) = (((ouV).slice (Rect.unit (s := S51200x128) (k0_off3 L 768#32) S128x128.size (k0_off3_inb L h2 6)) (fun _ => rfl)).view.loc (V d (cV L) (jV L)) ↦[((ouV).slice (Rect.unit (s := S51200x128) (k0_off3 L 768#32) S128x128.size (k0_off3_inb L h2 6)) (fun _ => rfl)).view.set]{fullShare} ou) from rfl)) $$ Hou6
  ihave Hoi6' := (Entails.of_eq (show (oiLoc d ↦[(oiC1 L h2 6).view.set]{fullShare} oi : sProp 𝕄) = (((oiV).slice (Rect.unit (s := S51200x128) (k0_off3 L 768#32) S128x128.size (k0_off3_inb L h2 6)) (fun _ => rfl)).view.loc (V d (cV L) (jV L)) ↦[((oiV).slice (Rect.unit (s := S51200x128) (k0_off3 L 768#32) S128x128.size (k0_off3_inb L h2 6)) (fun _ => rfl)).view.set]{fullShare} oi) from rfl)) $$ Hoi6
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin1V (F := F) (U := U) d L h2 _ _ _ _ _ _ _) $$ [Hou0' Hou1' Hou2' Hou3' Hou4' Hou5' Hou6']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    iexact Hou6'
  icases HouJ with ⟨%gU, %hgU, HouJ⟩
  ihave HoiJ := (outJoin1iV (F := F) (U := U) d L h2 _ _ _ _ _ _ _) $$ [Hoi0' Hoi1' Hoi2' Hoi3' Hoi4' Hoi5' Hoi6']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    iexact Hoi6'
  icases HoiJ with ⟨%gI, %hgI, HoiJ⟩
  isplitl [Hgu' Hgi' Htu Hti HouJ HoiJ]
  · iexists gU, gI
    isplitr
    · ipureintro
      unfold tileVal1
      intro r y
      rw [hgU r y, hgI r y]
      fin_cases r
      · exact ⟨chunk_valU d L fu gu hpre.1 _ _ ou 0 _ (by decide) _ _ (hinU0 _) _ (fun y => slot_read _ _ _ _ y) y,
          chunk_valI d L fi gi hpre.2 _ _ oi 0 _ (by decide) _ _ (hinI0 _) _ (fun y => slot_read _ _ _ _ y) y⟩
      · exact ⟨chunk_valU d L fu gu hpre.1 _ _ ou 1 _ (by decide) _ _ (hinU1 _) _ (fun y => slot_read _ _ _ _ y) y,
          chunk_valI d L fi gi hpre.2 _ _ oi 1 _ (by decide) _ _ (hinI1 _) _ (fun y => slot_read _ _ _ _ y) y⟩
      · exact ⟨chunk_valU d L fu gu hpre.1 _ _ ou 2 _ (by decide) _ _ (hinU2 _) _ (fun y => slot_read _ _ _ _ y) y,
          chunk_valI d L fi gi hpre.2 _ _ oi 2 _ (by decide) _ _ (hinI2 _) _ (fun y => slot_read _ _ _ _ y) y⟩
      · exact ⟨chunk_valU d L fu gu hpre.1 _ _ ou 3 _ (by decide) _ _ (hinU3 _) _ (fun y => slot_read _ _ _ _ y) y,
          chunk_valI d L fi gi hpre.2 _ _ oi 3 _ (by decide) _ _ (hinI3 _) _ (fun y => slot_read _ _ _ _ y) y⟩
      · exact ⟨chunk_valU d L fu gu hpre.1 _ _ ou 4 _ (by decide) _ _ (hinU4 _) _ (fun y => slot_read _ _ _ _ y) y,
          chunk_valI d L fi gi hpre.2 _ _ oi 4 _ (by decide) _ _ (hinI4 _) _ (fun y => slot_read _ _ _ _ y) y⟩
      · exact ⟨chunk_valU d L fu gu hpre.1 _ _ ou 5 _ (by decide) _ _ (hinU5 _) _ (fun y => slot_read _ _ _ _ y) y,
          chunk_valI d L fi gi hpre.2 _ _ oi 5 _ (by decide) _ _ (hinI5 _) _ (fun y => slot_read _ _ _ _ y) y⟩
      · exact ⟨chunk_valU d L fu gu hpre.1 _ _ ou 6 _ (by decide) _ _ (hinU6 _) _ (fun y => slot_read _ _ _ _ y) y,
          chunk_valI d L fi gi hpre.2 _ _ oi 6 _ (by decide) _ _ (hinI6 _) _ (fun y => slot_read _ _ _ _ y) y⟩
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.KernelIdeal.ScTile0

end
-- ==== Proof.ScTileLib1.lean ====
/-
  What both cores' tile tasks of the second gather kernel share: separating products over an initial segment written
  out, the tile's own sixteen cells and nine scratch buffers laid out, a read share as seven read tokens, the fetched
  lists' words in range, and the bookkeeping of recorded waits.
-/
import proofs.«204681_g65575560675685_cont_9to1_m_144_57_alg».proof.Proof.ScTileDefs1
import proofs.«204681_g65575560675685_cont_9to1_m_144_57_alg».proof.Proof.ScTileStmt1
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.KernelIdeal
import proofs.«204681_g65575560675685_cont_9to1_m_144_57_alg».proof.Proof.Gen.KernelIdeal.Skeleton

noncomputable section

namespace Cert.Proof.KernelIdeal.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

/-! ## A separating product over an initial segment, written out -/

section Fin
variable {M : Type} [URA M]

theorem bigSep_fin_one (Φ : Fin 1 → sProp M) : bigSep Finset.univ Φ = Φ 0 :=
  bigSep_univ_of_subsingleton (0 : Fin 1)

theorem bigSep_fin_succ {n : ℕ} (Φ : Fin (n + 1) → sProp M) :
    bigSep Finset.univ Φ = iprop(Φ 0 ∗ bigSep Finset.univ fun i : Fin n => Φ i.succ) := by
  rw [Fin.univ_succ, Finset.cons_eq_insert, SparseCore.bigSep_insert' (by simp [Fin.succ_ne_zero]), bigSep_map]
  rfl

theorem bigSep_fin7 (Φ : Fin 7 → sProp M) :
    bigSep Finset.univ Φ = iprop(Φ 0 ∗ Φ 1 ∗ Φ 2 ∗ Φ 3 ∗ Φ 4 ∗ Φ 5 ∗ Φ 6) := by
  iterate 6 rw [bigSep_fin_succ]
  rw [bigSep_fin_one]; rfl

theorem bigSep_fin9 (Φ : Fin 9 → sProp M) :
    bigSep Finset.univ Φ = iprop(Φ 0 ∗ Φ 1 ∗ Φ 2 ∗ Φ 3 ∗ Φ 4 ∗ Φ 5 ∗ Φ 6 ∗ Φ 7 ∗ Φ 8) := by
  iterate 8 rw [bigSep_fin_succ]
  rw [bigSep_fin_one]; rfl

theorem bigSep_fin16 (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  iterate 15 rw [bigSep_fin_succ]
  rw [bigSep_fin_one]; rfl

theorem bigSep_fin18 (Φ : Fin 18 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  iterate 17 rw [bigSep_fin_succ]
  rw [bigSep_fin_one]; rfl

end Fin

section Tile

variable (d : Dev nD) (L : grid1.Coords)

/-! ## The tile's own cells and buffers, laid out -/

/-- The kernel's sixteen DMA semaphores: seven gather cells, seven write-out cells, the two fetches' cells. -/
def semOf : Fin 16 → DmaSem sig := ![cc1_scratch9.sem, cc1_scratch10.sem, cc1_scratch11.sem, cc1_scratch12.sem, cc1_scratch13.sem, cc1_scratch14.sem, cc1_scratch15.sem, cc1_scratch16.sem, cc1_scratch17.sem, cc1_scratch18.sem, cc1_scratch19.sem, cc1_scratch20.sem, cc1_scratch21.sem, cc1_scratch22.sem, cc1_scoped0.sem, cc1_scoped1.sem]
/-- The kernel's nine scratch buffers: the two lists, the seven row buffers. -/
def bufOf : Fin 9 → Ref sig .scVector := ![cc1_scratch0, cc1_scratch1, cc1_scratch2, cc1_scratch3, cc1_scratch4, cc1_scratch5, cc1_scratch6, cc1_scratch7, cc1_scratch8]

theorem semOf_inj : Function.Injective semOf := by decide +kernel
theorem semOf_scoped : ∀ k, (SemLoc.dma (semOf k) : SemLoc sig).isScoped .scVector = true := by decide +kernel
theorem bufOf_inj : Function.Injective bufOf := by decide +kernel

abbrev cellOf (d : Dev nD) (L : grid1.Coords) (n : DmaSem sig) : GSem nD τ sig := (V d (cV L) (jV L), SemLoc.dma n)

theorem ownSems0_V :
    (ownSems0 (V d (cV L) (jV L)) : sProp 𝕄)
      = iprop((semVal ((V d (cV L) (jV L), SemLoc.dma cc1_scratch9.sem) : GSem nD τ sig) 0
        ∗ semVal ((V d (cV L) (jV L), SemLoc.dma cc1_scratch10.sem) : GSem nD τ sig) 0
        ∗ semVal ((V d (cV L) (jV L), SemLoc.dma cc1_scratch11.sem) : GSem nD τ sig) 0
        ∗ semVal ((V d (cV L) (jV L), SemLoc.dma cc1_scratch12.sem) : GSem nD τ sig) 0
        ∗ semVal ((V d (cV L) (jV L), SemLoc.dma cc1_scratch13.sem) : GSem nD τ sig) 0
        ∗ semVal ((V d (cV L) (jV L), SemLoc.dma cc1_scratch14.sem) : GSem nD τ sig) 0
        ∗ semVal ((V d (cV L) (jV L), SemLoc.dma cc1_scratch15.sem) : GSem nD τ sig) 0
        ∗ semVal ((V d (cV L) (jV L), SemLoc.dma cc1_scratch16.sem) : GSem nD τ sig) 0
        ∗ semVal ((V d (cV L) (jV L), SemLoc.dma cc1_scratch17.sem) : GSem nD τ sig) 0
        ∗ semVal ((V d (cV L) (jV L), SemLoc.dma cc1_scratch18.sem) : GSem nD τ sig) 0
        ∗ semVal ((V d (cV L) (jV L), SemLoc.dma cc1_scratch19.sem) : GSem nD τ sig) 0
        ∗ semVal ((V d (cV L) (jV L), SemLoc.dma cc1_scratch20.sem) : GSem nD τ sig) 0
        ∗ semVal ((V d (cV L) (jV L), SemLoc.dma cc1_scratch21.sem) : GSem nD τ sig) 0
        ∗ semVal ((V d (cV L) (jV L), SemLoc.dma cc1_scratch22.sem) : GSem nD τ sig) 0
        ∗ semVal ((V d (cV L) (jV L), SemLoc.dma cc1_scoped0.sem) : GSem nD τ sig) 0
        ∗ semVal ((V d (cV L) (jV L), SemLoc.dma cc1_scoped1.sem) : GSem nD τ sig) 0)
        ∗ bigSep (ownCells (V d (cV L) (jV L)) \ Finset.univ.image fun k => cellOf d L (semOf k)) fun g => semVal g 0) := by
  unfold SparseCore.Cfg.ownSems0
  have hsub : (Finset.univ.image fun k => cellOf d L (semOf k)) ⊆ ownCells (V d (cV L) (jV L)) := by
    intro g hg
    obtain ⟨k, -, rfl⟩ := Finset.mem_image.mp hg
    exact mem_ownCells.mpr ⟨rfl, semOf_scoped k⟩
  have hinj : Set.InjOn (fun k => cellOf d L (semOf k)) ((Finset.univ : Finset (Fin 16)) : Set (Fin 16)) := fun a _ b _ e =>
    semOf_inj (SemLoc.dma.inj (congrArg Prod.snd e))
  rw [SparseCore.bigSep_sdiff_split' hsub, Idealize.SL.BI.bigSep_image_of_injOn hinj, bigSep_fin16]
  rfl

theorem ownBufs_V :
    (ownBufs (V d (cV L) (jV L)) : sProp 𝕄)
      = iprop(((∃ f, (V d (cV L) (jV L)).loc cc1_scratch0 ↦{fullShare} f)
        ∗ (∃ f, (V d (cV L) (jV L)).loc cc1_scratch1 ↦{fullShare} f)
        ∗ (∃ f, (V d (cV L) (jV L)).loc cc1_scratch2 ↦{fullShare} f)
        ∗ (∃ f, (V d (cV L) (jV L)).loc cc1_scratch3 ↦{fullShare} f)
        ∗ (∃ f, (V d (cV L) (jV L)).loc cc1_scratch4 ↦{fullShare} f)
        ∗ (∃ f, (V d (cV L) (jV L)).loc cc1_scratch5 ↦{fullShare} f)
        ∗ (∃ f, (V d (cV L) (jV L)).loc cc1_scratch6 ↦{fullShare} f)
        ∗ (∃ f, (V d (cV L) (jV L)).loc cc1_scratch7 ↦{fullShare} f)
        ∗ (∃ f, (V d (cV L) (jV L)).loc cc1_scratch8 ↦{fullShare} f))
        ∗ bigSep (ownRefs (τ := τ) (.scVector (cV L) (jV L)) \ Finset.univ.image fun k => (Proc.scVector (cV L) (jV L)).devRef (bufOf k))
            fun b => iprop(∃ f, ((d, b) : Loc nD τ sig) ↦{fullShare} f)) := by
  unfold SparseCore.Cfg.ownBufs
  have hsub : (Finset.univ.image fun k => (Proc.scVector (cV L) (jV L)).devRef (bufOf k)) ⊆ ownRefs (τ := τ) (.scVector (cV L) (jV L)) := by
    intro b hb
    obtain ⟨k, -, rfl⟩ := Finset.mem_image.mp hb
    refine SparseCore.Cfg.mem_ownRefs_of_owner ?_
    fin_cases k <;> rfl
  have hinj : Set.InjOn (fun k => (Proc.scVector (cV L) (jV L)).devRef (bufOf k)) ((Finset.univ : Finset (Fin 9)) : Set (Fin 9)) := fun a _ b _ e =>
    bufOf_inj (Proc.devRef_injective _ e)
  rw [SparseCore.bigSep_sdiff_split' hsub, Idealize.SL.BI.bigSep_image_of_injOn hinj, bigSep_fin9]
  rfl

variable [FloatOps F]

/-- The two cores' branches exclude each other. -/
theorem cond_excl : ∀ L : grid1.Coords, k1_cond2 L = 1#1 → ¬ k1_cond1 L = 1#1 := by decide +kernel
theorem cond_excl' : ∀ L : grid1.Coords, k1_cond1 L = 1#1 → ¬ k1_cond2 L = 1#1 := by decide +kernel

/-- A read share is seven read tokens, one per gather cell, and a remainder. -/
theorem toks7base {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 7} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f)
      ∗ (ℓ ↦[S]{Transfers.shareTokN q 5} f) ∗ (ℓ ↦[S]{Transfers.shareTokN q 6} f)) := by
  have h := Transfers.pointsTo_toks (nD := nD) (τ := τ) (sig := sig) (Ix := HIx 2) (Val := Elt F) (Name := ℕ) (U := U) (Lvl := ℕ) (ℓ := ℓ) (S := S) (f := f) q 7
  rw [bigSep_fin7] at h
  exact h

/-- Halving `a` times and then `b` times is halving `a + b` times. -/
theorem shareDrop_add (q : PosShare TreeShare) (a b : ℕ) :
    Transfers.shareDrop (Transfers.shareDrop q a) b = Transfers.shareDrop q (a + b) := by
  induction b with
  | zero => rfl
  | succ b ih =>
    show (Transfers.shareDrop (Transfers.shareDrop q a) b).left = (Transfers.shareDrop q (a + b)).left
    rw [ih]

/-- The `k`-th token of what remains after `a` tokens is the `(a + k)`-th token. -/
theorem shareTokN_add (q : PosShare TreeShare) (a k : ℕ) :
    Transfers.shareTokN (Transfers.shareDrop q a) k = Transfers.shareTokN q (a + k) := by
  unfold Transfers.shareTokN
  rw [shareDrop_add]

/-- A read share is a remainder and seven read tokens, one per gather cell: this call's gather cells are the DMA
    semaphores 16 to 22, so the tokens are the sixteenth to the twenty-second of the share's halvings; the remainder keeps
    the first sixteen. -/
theorem toks7 {ℓ : Loc nD τ sig} {S : Finset (Idx ℓ)} {f : Buf (Elt F) ℓ} (q : PosShare TreeShare) :
    (ℓ ↦[S]{q} f : sProp 𝕄) ⊣⊢ iprop(((ℓ ↦[S]{Transfers.shareDrop q 23} f) ∗ bigSep (Finset.range 16) (fun i => ℓ ↦[S]{Transfers.shareTokN q i} f))
      ∗ (ℓ ↦[S]{Transfers.shareTokN q 16} f) ∗ (ℓ ↦[S]{Transfers.shareTokN q 17} f)
      ∗ (ℓ ↦[S]{Transfers.shareTokN q 18} f) ∗ (ℓ ↦[S]{Transfers.shareTokN q 19} f) ∗ (ℓ ↦[S]{Transfers.shareTokN q 20} f)
      ∗ (ℓ ↦[S]{Transfers.shareTokN q 21} f) ∗ (ℓ ↦[S]{Transfers.shareTokN q 22} f)) := by
  have h16 := Transfers.pointsTo_toks_range (nD := nD) (τ := τ) (sig := sig) (Ix := HIx 2) (Val := Elt F) (Name := ℕ) (U := U) (Lvl := ℕ) (ℓ := ℓ) (S := S) (f := f) q 16
  have h7 := toks7base (F := F) (U := U) (ℓ := ℓ) (S := S) (f := f) (Transfers.shareDrop q 16)
  simp only [shareDrop_add, shareTokN_add, Nat.reduceAdd] at h7
  constructor
  · refine h16.1.trans ((sep_mono_left h7.1).trans ?_)
    iintro ⟨⟨Hr, H0, H1, H2, H3, H4, H5, H6⟩, Ht⟩
    isplitl [Hr Ht]
    · isplitl [Hr]
      · iexact Hr
      · iexact Ht
    isplitl [H0]
    · iexact H0
    isplitl [H1]
    · iexact H1
    isplitl [H2]
    · iexact H2
    isplitl [H3]
    · iexact H3
    isplitl [H4]
    · iexact H4
    isplitl [H5]
    · iexact H5
    iexact H6
  · refine BIBase.Entails.trans ?_ ((sep_mono_left h7.2).trans h16.2)
    iintro ⟨⟨Hr, Ht⟩, H0, H1, H2, H3, H4, H5, H6⟩
    isplitr [Ht]
    · isplitl [Hr]
      · iexact Hr
      isplitl [H0]
      · iexact H0
      isplitl [H1]
      · iexact H1
      isplitl [H2]
      · iexact H2
      isplitl [H3]
      · iexact H3
      isplitl [H4]
      · iexact H4
      isplitl [H5]
      · iexact H5
      iexact H6
    · iexact Ht

/-! ## The fetched lists name rows of the tables -/

/-- Row j of a list scratch, as the tile addresses it for a gather. -/
abbrev rowU (j : ℕ) (h : ∀ a, (![j, 0] : Fin 2 → ℕ) a + S1x128.size a ≤ S18x128.size a) : Memref sig .scVector .vmem S128 .i32 :=
  ((luV).slice (Rect.unit (s := S18x128) ![j, 0] S1x128.size h) (fun _ => rfl)).squeeze S128 squeezes_S1x128_S128
abbrev rowI (j : ℕ) (h : ∀ a, (![j, 0] : Fin 2 → ℕ) a + S1x128.size a ≤ S18x128.size a) : Memref sig .scVector .vmem S128 .i32 :=
  ((liV).slice (Rect.unit (s := S18x128) ![j, 0] S1x128.size h) (fun _ => rfl)).squeeze S128 squeezes_S1x128_S128

/-- Every word of the user list, once the tile's slab has landed in it, is a word of the index operand: below 100000. -/
theorem list_inbU (gu : Buf (Elt F) (iuLoc d)) (hgu : ∀ j : S32x18x128.Idx, (gu j).toNat < 100000)
    (j : ℕ) (h : ∀ a, (![j, 0] : Fin 2 → ℕ) a + S1x128.size a ≤ S18x128.size a)
    (fl : Buf (Elt F) ((luV).view.loc (V d (cV L) (jV L)))) (pay : S18x128.Idx → Elt F .i32)
    (hpay : pay = (iuSlab L).view.read (Elt F) gu) :
    ∀ x, ((rowU j h).view.read (Elt F) (View.write (Elt F) (luV).view fl pay Finset.univ) x).toNat
      < S100000x128.size gathers_S100000x128_S128x128.axis := by
  subst hpay; intro x
  rw [View.write_whole_univ]
  rw [show ∀ (f : Buf (Elt F) ((luV).view.loc (V d (cV L) (jV L)))) y, (rowU j h).view.read (Elt F) f y = f ((rowU j h).view.emb y) from
    fun f y => (View.read_apply _ _).trans (cast_eq _ _)]
  rw [show ∀ y, (iuSlab L).view.read (Elt F) gu y = gu ((iuSlab L).view.emb y) from fun y => (View.read_apply _ _).trans (cast_eq _ _)]
  exact hgu _

theorem list_inbI (gi : Buf (Elt F) (iiLoc d)) (hgi : ∀ j : S32x18x128.Idx, (gi j).toNat < 100000)
    (j : ℕ) (h : ∀ a, (![j, 0] : Fin 2 → ℕ) a + S1x128.size a ≤ S18x128.size a)
    (fl : Buf (Elt F) ((liV).view.loc (V d (cV L) (jV L)))) (pay : S18x128.Idx → Elt F .i32)
    (hpay : pay = (iiSlab L).view.read (Elt F) gi) :
    ∀ x, ((rowI j h).view.read (Elt F) (View.write (Elt F) (liV).view fl pay Finset.univ) x).toNat
      < S100000x128.size gathers_S100000x128_S128x128.axis := by
  subst hpay; intro x
  rw [View.write_whole_univ]
  rw [show ∀ (f : Buf (Elt F) ((liV).view.loc (V d (cV L) (jV L)))) y, (rowI j h).view.read (Elt F) f y = f ((rowI j h).view.emb y) from
    fun f y => (View.read_apply _ _).trans (cast_eq _ _)]
  rw [show ∀ y, (iiSlab L).view.read (Elt F) gi y = gi ((iiSlab L).view.emb y) from fun y => (View.read_apply _ _).trans (cast_eq _ _)]
  exact hgi _

/-- A wait recorded at the default index keeps the recorded waits within the old ones and the unindexed. -/
theorem waits_ok {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with hp | hp
  · exact .inr (hp ▸ rfl)
  · exact h p hp

end Tile

end Cert.Proof.KernelIdeal.ScTile1

end
-- ==== Proof.ScTileRead1.lean ====
/-
  Reading a tile's output chunk after the run: the chunk holds what its write-out copied from a slot, the slot what the
  gather landed in it, and the gather's row y is the table's row named by word y of a row of the fetched list, which is
  the tile's slab of the index operand. Entry by entry this is an equation between an element of the output and an
  element of the table.
-/
import proofs.«204681_g65575560675685_cont_9to1_m_144_57_alg».proof.Proof.ScTileLib1
import proofs.«204681_g65575560675685_cont_9to1_m_144_57_alg».proof.Proof.ScTileVal1
import Idealize.ShloMosaic.Lib.Writes
import Idealize.ShloMosaic.Lib.ValueIdx
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KernelIdeal.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

section Tile

variable (d : Dev nD) (L : grid1.Coords)
variable [FloatOps F]

/-- A slot read whole after a gather landed in it whole is the gather's payload, whatever it held before. -/
theorem slot_read {κ : Kind} {sp : Space} {s : Shape} {e : EltTy} (v : View sig κ sp s e) (f : v.ty.Contents (Elt F))
    (G : (Rect.whole s).shape.Idx → Elt F e) (rest : List (View.Piece (Elt F) s e)) (y : s.Idx) :
    v.read (Elt F) (v.writes (Elt F) f (⟨Rect.whole s, G⟩ :: rest)) y = G y := by
  have hw : (Rect.whole s).emb y = y := by
    funext a; apply Fin.ext; rw [Rect.emb_apply]; simp [Rect.whole]
  have hr := View.read_writes_cons_emb v f (Rect.whole s) G rest y
  rw [hw] at hr
  exact hr

/-- Word x of row j of the user list sits at (j, x) of the scratch. -/
theorem rowU_emb (j : ℕ) (h : ∀ a, (![j, 0] : Fin 2 → ℕ) a + S1x128.size a ≤ S18x128.size a) (hj : j < 18) (x : S128.Idx) :
    (rowU j h).view.emb x = (ix2 (⟨j, hj⟩ : Fin 18) (⟨(x 0).val, (x 0).isLt⟩ : Fin 128) : S18x128.Idx) := by
  have e : Shape.reshapeEquiv (s := S1x128) (s' := S128) squeezes_S1x128_S128.numel_eq x
      = (ix2 (0 : Fin 1) (⟨(x 0).val, (x 0).isLt⟩ : Fin 128) : S1x128.Idx) :=
    Shape.reshapeEquiv_eq_of_rowMajor _ (by rw [Shape.rowMajor_val_two, Shape.rowMajor_val_one]; simp)
  show (Rect.unit (s := S18x128) ![j, 0] S1x128.size h).emb (Shape.reshapeEquiv (s := S1x128) (s' := S128) squeezes_S1x128_S128.numel_eq x) = _
  rw [e]
  funext a
  apply Fin.ext
  rw [Rect.emb_apply]
  match a with
  | ⟨0, _⟩ => simp
  | ⟨1, _⟩ => simp

/-- What a gather reads off row j of the user list once the tile's slab has landed in it: the index operand's word at
    (slab, j, x). -/
theorem rowU_read (gu : Buf (Elt F) (iuLoc d)) (j : ℕ) (h : ∀ a, (![j, 0] : Fin 2 → ℕ) a + S1x128.size a ≤ S18x128.size a) (hj : j < 18)
    (fl : Buf (Elt F) ((luV).view.loc (V d (cV L) (jV L)))) (x : S128.Idx) :
    (rowU j h).view.read (Elt F) (View.write (Elt F) (luV).view fl ((iuSlab L).view.read (Elt F) gu) Finset.univ) x
      = gu ((iuSlab L).view.emb (ix2 (⟨j, hj⟩ : Fin 18) (⟨(x 0).val, (x 0).isLt⟩ : Fin 128))) := by
  rw [View.write_whole_univ]
  rw [show ∀ (f : Buf (Elt F) ((luV).view.loc (V d (cV L) (jV L)))) y, (rowU j h).view.read (Elt F) f y = f ((rowU j h).view.emb y) from
    fun f y => (View.read_apply _ _).trans (cast_eq _ _)]
  rw [show ∀ y, (iuSlab L).view.read (Elt F) gu y = gu ((iuSlab L).view.emb y) from fun y => (View.read_apply _ _).trans (cast_eq _ _)]
  rw [rowU_emb j h hj x]

/-- The gather's payload, entry by entry: row y 0 of the slot is the table's row named by word y 0 of the list's row j. -/
theorem gather_valU (fu : Buf (Elt F) (tuLoc d)) (gu : Buf (Elt F) (iuLoc d)) (hgu : ∀ j : S32x18x128.Idx, (gu j).toNat < 100000)
    (j : ℕ) (h : ∀ a, (![j, 0] : Fin 2 → ℕ) a + S1x128.size a ≤ S18x128.size a) (hj : j < 18)
    (fl : Buf (Elt F) ((luV).view.loc (V d (cV L) (jV L))))
    (hn : S128.numel = S128x128.size gathers_S100000x128_S128x128.axis')
    (hin : ∀ x, ((rowU j h).view.read (Elt F) (View.write (Elt F) (luV).view fl ((iuSlab L).view.read (Elt F) gu) Finset.univ) x).toNat
      < S100000x128.size gathers_S100000x128_S128x128.axis)
    (y : S128x128.Idx) :
    SparseCore.gatherPayload gathers_S100000x128_S128x128
        (((tuV).slice (Rect.unit (s := S100000x128) ![0, 0] S100000x128.size inb_S100000x128_S100000x128_0_0) (fun _ => rfl)).view.read (Elt F) fu)
        (SparseCore.rows ((rowU j h).view.read (Elt F) (View.write (Elt F) (luV).view fl ((iuSlab L).view.read (Elt F) gu) Finset.univ)) hn hin) y
      = fu (ix2 (rowOfWord (F := F) (gu ((iuSlab L).view.emb (ix2 (⟨j, hj⟩ : Fin 18) (y 0))))) (y 1)) := by
  unfold SparseCore.gatherPayload
  rw [show ∀ z, ((tuV).slice (Rect.unit (s := S100000x128) ![0, 0] S100000x128.size inb_S100000x128_S100000x128_0_0) (fun _ => rfl)).view.read (Elt F) fu z
      = fu (((tuV).slice (Rect.unit (s := S100000x128) ![0, 0] S100000x128.size inb_S100000x128_S100000x128_0_0) (fun _ => rfl)).view.emb z) from
    fun z => (View.read_apply _ _).trans (cast_eq _ _)]
  congr 1
  funext a
  apply Fin.ext
  show ((Rect.unit (s := S100000x128) ![0, 0] S100000x128.size inb_S100000x128_S100000x128_0_0).emb _ a : ℕ) = _
  rw [Rect.emb_apply]
  match a with
  | ⟨0, _⟩ =>
    have hax : (⟨0, by decide⟩ : Fin S100000x128.rank) = gathers_S100000x128_S128x128.axis := Fin.ext rfl
    rw [hax, Shape.Gathers.idx_axis]
    show 0 + 1 * (((rowU j h).view.read (Elt F) (View.write (Elt F) (luV).view fl ((iuSlab L).view.read (Elt F) gu) Finset.univ) _).toNat) = _
    rw [rowU_read d L gu j h hj fl]
    have hy : (S128.rowMajor.symm ((y gathers_S100000x128_S128x128.axis').cast hn.symm) 0).val = (y 0).val := by
      have := Shape.rowMajor_val_one (S128.rowMajor.symm ((y gathers_S100000x128_S128x128.axis').cast hn.symm))
      rw [Equiv.apply_symm_apply] at this
      exact this.symm
    have hw := hgu ((iuSlab L).view.emb (ix2 (⟨j, hj⟩ : Fin 18) (y 0)))
    have e2 : (⟨(S128.rowMajor.symm ((y gathers_S100000x128_S128x128.axis').cast hn.symm) 0).val, (S128.rowMajor.symm ((y gathers_S100000x128_S128x128.axis').cast hn.symm) 0).isLt⟩ : Fin 128) = y 0 :=
      Fin.ext hy
    rw [e2]
    show _ = (gu ((iuSlab L).view.emb (ix2 (⟨j, hj⟩ : Fin 18) (y 0)))).toNat % 100000
    rw [Nat.mod_eq_of_lt hw]
    omega
  | ⟨1, _⟩ =>
    rw [Shape.Gathers.idx_of_ne _ _ _ _ (by simp)]
    show 0 + 1 * (y 1).val = (y 1).val
    omega

/-- A chunk of the user output after its write-out: at its element y, the table's row named by word y 0 of row j of the tile's
    slab, column y 1 — whatever the chunk, the list scratch and the slot held before. P is the write-out's payload: what it
    read from the slot, the gather's payload. -/
theorem chunk_valU (fu : Buf (Elt F) (tuLoc d)) (gu : Buf (Elt F) (iuLoc d)) (hgu : ∀ j : S32x18x128.Idx, (gu j).toNat < 100000)
    (off : Fin 2 → ℕ) (inb : ∀ a, off a + S128x128.size a ≤ S51200x128.size a) (ou : Buf (Elt F) (ouLoc d))
    (j : ℕ) (h : ∀ a, (![j, 0] : Fin 2 → ℕ) a + S1x128.size a ≤ S18x128.size a) (hj : j < 18)
    (fl : Buf (Elt F) ((luV).view.loc (V d (cV L) (jV L))))
    (hn : S128.numel = S128x128.size gathers_S100000x128_S128x128.axis')
    (hin : ∀ x, ((rowU j h).view.read (Elt F) (View.write (Elt F) (luV).view fl ((iuSlab L).view.read (Elt F) gu) Finset.univ) x).toNat
      < S100000x128.size gathers_S100000x128_S128x128.axis)
    (P : S128x128.Idx → Elt F .f32)
    (hP : ∀ y, P y = SparseCore.gatherPayload gathers_S100000x128_S128x128
        (((tuV).slice (Rect.unit (s := S100000x128) ![0, 0] S100000x128.size inb_S100000x128_S100000x128_0_0) (fun _ => rfl)).view.read (Elt F) fu)
        (SparseCore.rows ((rowU j h).view.read (Elt F) (View.write (Elt F) (luV).view fl ((iuSlab L).view.read (Elt F) gu) Finset.univ)) hn hin) y)
    (y : S128x128.Idx) :
    (((ouV).slice (Rect.unit (s := S51200x128) off S128x128.size inb) (fun _ => rfl)).view.writes (Elt F) ou
        [⟨Rect.whole (Rect.unit (s := S51200x128) off S128x128.size inb).shape, P⟩])
      (((ouV).slice (Rect.unit (s := S51200x128) off S128x128.size inb) (fun _ => rfl)).view.emb y)
      = fu (ix2 (rowOfWord (F := F) (gu ((iuSlab L).view.emb (ix2 (⟨j, hj⟩ : Fin 18) (y 0))))) (y 1)) := by
  have hw : (Rect.whole (Rect.unit (s := S51200x128) off S128x128.size inb).shape).emb y = y := by
    funext a; apply Fin.ext; rw [Rect.emb_apply]; simp [Rect.whole]
  have hr := View.read_writes_cons_emb ((ouV).slice (Rect.unit (s := S51200x128) off S128x128.size inb) (fun _ => rfl)).view ou
    (Rect.whole (Rect.unit (s := S51200x128) off S128x128.size inb).shape) P [] y
  rw [hw] at hr
  have e1 : ∀ (c : Buf (Elt F) (ouLoc d)) z, ((ouV).slice (Rect.unit (s := S51200x128) off S128x128.size inb) (fun _ => rfl)).view.read (Elt F) c z
      = c (((ouV).slice (Rect.unit (s := S51200x128) off S128x128.size inb) (fun _ => rfl)).view.emb z) :=
    fun c z => (View.read_apply _ _).trans (cast_eq _ _)
  exact (e1 _ y).symm.trans (hr.trans ((hP y).trans (gather_valU d L fu gu hgu j h hj fl hn hin y)))

/-- Word x of row j of the item list sits at (j, x) of the scratch. -/
theorem rowI_emb (j : ℕ) (h : ∀ a, (![j, 0] : Fin 2 → ℕ) a + S1x128.size a ≤ S18x128.size a) (hj : j < 18) (x : S128.Idx) :
    (rowI j h).view.emb x = (ix2 (⟨j, hj⟩ : Fin 18) (⟨(x 0).val, (x 0).isLt⟩ : Fin 128) : S18x128.Idx) := by
  have e : Shape.reshapeEquiv (s := S1x128) (s' := S128) squeezes_S1x128_S128.numel_eq x
      = (ix2 (0 : Fin 1) (⟨(x 0).val, (x 0).isLt⟩ : Fin 128) : S1x128.Idx) :=
    Shape.reshapeEquiv_eq_of_rowMajor _ (by rw [Shape.rowMajor_val_two, Shape.rowMajor_val_one]; simp)
  show (Rect.unit (s := S18x128) ![j, 0] S1x128.size h).emb (Shape.reshapeEquiv (s := S1x128) (s' := S128) squeezes_S1x128_S128.numel_eq x) = _
  rw [e]
  funext a
  apply Fin.ext
  rw [Rect.emb_apply]
  match a with
  | ⟨0, _⟩ => simp
  | ⟨1, _⟩ => simp

/-- What a gather reads off row j of the item list once the tile's slab has landed in it: the index operand's word at
    (slab, j, x). -/
theorem rowI_read (gi : Buf (Elt F) (iiLoc d)) (j : ℕ) (h : ∀ a, (![j, 0] : Fin 2 → ℕ) a + S1x128.size a ≤ S18x128.size a) (hj : j < 18)
    (fl : Buf (Elt F) ((liV).view.loc (V d (cV L) (jV L)))) (x : S128.Idx) :
    (rowI j h).view.read (Elt F) (View.write (Elt F) (liV).view fl ((iiSlab L).view.read (Elt F) gi) Finset.univ) x
      = gi ((iiSlab L).view.emb (ix2 (⟨j, hj⟩ : Fin 18) (⟨(x 0).val, (x 0).isLt⟩ : Fin 128))) := by
  rw [View.write_whole_univ]
  rw [show ∀ (f : Buf (Elt F) ((liV).view.loc (V d (cV L) (jV L)))) y, (rowI j h).view.read (Elt F) f y = f ((rowI j h).view.emb y) from
    fun f y => (View.read_apply _ _).trans (cast_eq _ _)]
  rw [show ∀ y, (iiSlab L).view.read (Elt F) gi y = gi ((iiSlab L).view.emb y) from fun y => (View.read_apply _ _).trans (cast_eq _ _)]
  rw [rowI_emb j h hj x]

/-- The gather's payload, entry by entry: row y 0 of the slot is the table's row named by word y 0 of the list's row j. -/
theorem gather_valI (fi : Buf (Elt F) (tiLoc d)) (gi : Buf (Elt F) (iiLoc d)) (hgi : ∀ j : S32x18x128.Idx, (gi j).toNat < 100000)
    (j : ℕ) (h : ∀ a, (![j, 0] : Fin 2 → ℕ) a + S1x128.size a ≤ S18x128.size a) (hj : j < 18)
    (fl : Buf (Elt F) ((liV).view.loc (V d (cV L) (jV L))))
    (hn : S128.numel = S128x128.size gathers_S100000x128_S128x128.axis')
    (hin : ∀ x, ((rowI j h).view.read (Elt F) (View.write (Elt F) (liV).view fl ((iiSlab L).view.read (Elt F) gi) Finset.univ) x).toNat
      < S100000x128.size gathers_S100000x128_S128x128.axis)
    (y : S128x128.Idx) :
    SparseCore.gatherPayload gathers_S100000x128_S128x128
        (((tiV).slice (Rect.unit (s := S100000x128) ![0, 0] S100000x128.size inb_S100000x128_S100000x128_0_0) (fun _ => rfl)).view.read (Elt F) fi)
        (SparseCore.rows ((rowI j h).view.read (Elt F) (View.write (Elt F) (liV).view fl ((iiSlab L).view.read (Elt F) gi) Finset.univ)) hn hin) y
      = fi (ix2 (rowOfWord (F := F) (gi ((iiSlab L).view.emb (ix2 (⟨j, hj⟩ : Fin 18) (y 0))))) (y 1)) := by
  unfold SparseCore.gatherPayload
  rw [show ∀ z, ((tiV).slice (Rect.unit (s := S100000x128) ![0, 0] S100000x128.size inb_S100000x128_S100000x128_0_0) (fun _ => rfl)).view.read (Elt F) fi z
      = fi (((tiV).slice (Rect.unit (s := S100000x128) ![0, 0] S100000x128.size inb_S100000x128_S100000x128_0_0) (fun _ => rfl)).view.emb z) from
    fun z => (View.read_apply _ _).trans (cast_eq _ _)]
  congr 1
  funext a
  apply Fin.ext
  show ((Rect.unit (s := S100000x128) ![0, 0] S100000x128.size inb_S100000x128_S100000x128_0_0).emb _ a : ℕ) = _
  rw [Rect.emb_apply]
  match a with
  | ⟨0, _⟩ =>
    have hax : (⟨0, by decide⟩ : Fin S100000x128.rank) = gathers_S100000x128_S128x128.axis := Fin.ext rfl
    rw [hax, Shape.Gathers.idx_axis]
    show 0 + 1 * (((rowI j h).view.read (Elt F) (View.write (Elt F) (liV).view fl ((iiSlab L).view.read (Elt F) gi) Finset.univ) _).toNat) = _
    rw [rowI_read d L gi j h hj fl]
    have hy : (S128.rowMajor.symm ((y gathers_S100000x128_S128x128.axis').cast hn.symm) 0).val = (y 0).val := by
      have := Shape.rowMajor_val_one (S128.rowMajor.symm ((y gathers_S100000x128_S128x128.axis').cast hn.symm))
      rw [Equiv.apply_symm_apply] at this
      exact this.symm
    have hw := hgi ((iiSlab L).view.emb (ix2 (⟨j, hj⟩ : Fin 18) (y 0)))
    have e2 : (⟨(S128.rowMajor.symm ((y gathers_S100000x128_S128x128.axis').cast hn.symm) 0).val, (S128.rowMajor.symm ((y gathers_S100000x128_S128x128.axis').cast hn.symm) 0).isLt⟩ : Fin 128) = y 0 :=
      Fin.ext hy
    rw [e2]
    show _ = (gi ((iiSlab L).view.emb (ix2 (⟨j, hj⟩ : Fin 18) (y 0)))).toNat % 100000
    rw [Nat.mod_eq_of_lt hw]
    omega
  | ⟨1, _⟩ =>
    rw [Shape.Gathers.idx_of_ne _ _ _ _ (by simp)]
    show 0 + 1 * (y 1).val = (y 1).val
    omega

/-- A chunk of the item output after its write-out: at its element y, the table's row named by word y 0 of row j of the tile's
    slab, column y 1 — whatever the chunk, the list scratch and the slot held before. P is the write-out's payload: what it
    read from the slot, the gather's payload. -/
theorem chunk_valI (fi : Buf (Elt F) (tiLoc d)) (gi : Buf (Elt F) (iiLoc d)) (hgi : ∀ j : S32x18x128.Idx, (gi j).toNat < 100000)
    (off : Fin 2 → ℕ) (inb : ∀ a, off a + S128x128.size a ≤ S51200x128.size a) (oi : Buf (Elt F) (oiLoc d))
    (j : ℕ) (h : ∀ a, (![j, 0] : Fin 2 → ℕ) a + S1x128.size a ≤ S18x128.size a) (hj : j < 18)
    (fl : Buf (Elt F) ((liV).view.loc (V d (cV L) (jV L))))
    (hn : S128.numel = S128x128.size gathers_S100000x128_S128x128.axis')
    (hin : ∀ x, ((rowI j h).view.read (Elt F) (View.write (Elt F) (liV).view fl ((iiSlab L).view.read (Elt F) gi) Finset.univ) x).toNat
      < S100000x128.size gathers_S100000x128_S128x128.axis)
    (P : S128x128.Idx → Elt F .f32)
    (hP : ∀ y, P y = SparseCore.gatherPayload gathers_S100000x128_S128x128
        (((tiV).slice (Rect.unit (s := S100000x128) ![0, 0] S100000x128.size inb_S100000x128_S100000x128_0_0) (fun _ => rfl)).view.read (Elt F) fi)
        (SparseCore.rows ((rowI j h).view.read (Elt F) (View.write (Elt F) (liV).view fl ((iiSlab L).view.read (Elt F) gi) Finset.univ)) hn hin) y)
    (y : S128x128.Idx) :
    (((oiV).slice (Rect.unit (s := S51200x128) off S128x128.size inb) (fun _ => rfl)).view.writes (Elt F) oi
        [⟨Rect.whole (Rect.unit (s := S51200x128) off S128x128.size inb).shape, P⟩])
      (((oiV).slice (Rect.unit (s := S51200x128) off S128x128.size inb) (fun _ => rfl)).view.emb y)
      = fi (ix2 (rowOfWord (F := F) (gi ((iiSlab L).view.emb (ix2 (⟨j, hj⟩ : Fin 18) (y 0))))) (y 1)) := by
  have hw : (Rect.whole (Rect.unit (s := S51200x128) off S128x128.size inb).shape).emb y = y := by
    funext a; apply Fin.ext; rw [Rect.emb_apply]; simp [Rect.whole]
  have hr := View.read_writes_cons_emb ((oiV).slice (Rect.unit (s := S51200x128) off S128x128.size inb) (fun _ => rfl)).view oi
    (Rect.whole (Rect.unit (s := S51200x128) off S128x128.size inb).shape) P [] y
  rw [hw] at hr
  have e1 : ∀ (c : Buf (Elt F) (oiLoc d)) z, ((oiV).slice (Rect.unit (s := S51200x128) off S128x128.size inb) (fun _ => rfl)).view.read (Elt F) c z
      = c (((oiV).slice (Rect.unit (s := S51200x128) off S128x128.size inb) (fun _ => rfl)).view.emb z) :=
    fun c z => (View.read_apply _ _).trans (cast_eq _ _)
  exact (e1 _ y).symm.trans (hr.trans ((hP y).trans (gather_valI d L fi gi hgi j h hj fl hn hin y)))

end Tile

end Cert.Proof.KernelIdeal.ScTile1

end
-- ==== Proof.ScTileV1c0.lean ====
/-
  The task of a tile of core 0 of the second gather kernel: the tile fetches its two index slabs into its list
  scratches, then runs thirty-six windows through a ring of seven row buffers; window w gathers the 128 table rows named
  by row (w / 2) of the fetched list (the user table for even w, the item table for odd w) into slot (w mod 7) and copies
  the slot out to chunk (w / 2) of the tile's rows of the matching output. Every slot has its own gather cell and its
  own write-out cell, so on each cell at most one copy is outstanding, and no slot is touched while a copy on it is
  pending. The tile's rows of each output are held chunk by chunk for the run and joined again at the end.
-/
import proofs.«204681_g65575560675685_cont_9to1_m_144_57_alg».proof.Proof.ScTileLib1
import proofs.«204681_g65575560675685_cont_9to1_m_144_57_alg».proof.Proof.ScTileStmtV1
import proofs.«204681_g65575560675685_cont_9to1_m_144_57_alg».proof.Proof.ScTileRead1
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.KernelIdeal
import proofs.«204681_g65575560675685_cont_9to1_m_144_57_alg».proof.Proof.Gen.KernelIdeal.Skeleton

noncomputable section

namespace Cert.Proof.KernelIdeal.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

section Tile

variable (d : Dev nD) (L : grid1.Coords)
variable [FloatOps F]

/-- Two chunks of a core-0 tile are disjoint row ranges. -/
theorem chunk1_disj : ∀ (L : grid1.Coords) (h1 : k1_cond1 L = 1#1) (r r' : Fin 18), r ≠ r' →
    LoadRect.disj (Rect.unit (s := S51200x128) (k1_off2 L (BitVec.ofNat 32 (128 * r.val))) S128x128.size (k1_off2_inb L h1 r))
      (Rect.unit (s := S51200x128) (k1_off2 L (BitVec.ofNat 32 (128 * r'.val))) S128x128.size (k1_off2_inb L h1 r')).toLoadRect = true := by
  decide +kernel

theorem ouC0_disj (h1 : k1_cond1 L = 1#1) (r r' : Fin 18) (hne : r ≠ r') : Disjoint (ouC0 L h1 r).view.set (ouC0 L h1 r').view.set :=
  View.disjoint_slice_of_disj _ _ _ (chunk1_disj L h1 r r' hne)

/-- The tile's rows of the user output, chunk by chunk. -/
theorem outPts0 (h1 : k1_cond1 L = 1#1) (f : Buf (Elt F) (ouLoc d)) :
    (ouLoc d ↦[outSet0 L h1]{fullShare} f : sProp 𝕄)
      = iprop((ouLoc d ↦[(ouC0 L h1 0).view.set]{fullShare} f) ∗ (ouLoc d ↦[(ouC0 L h1 1).view.set]{fullShare} f) ∗ (ouLoc d ↦[(ouC0 L h1 2).view.set]{fullShare} f) ∗ (ouLoc d ↦[(ouC0 L h1 3).view.set]{fullShare} f) ∗ (ouLoc d ↦[(ouC0 L h1 4).view.set]{fullShare} f) ∗ (ouLoc d ↦[(ouC0 L h1 5).view.set]{fullShare} f) ∗ (ouLoc d ↦[(ouC0 L h1 6).view.set]{fullShare} f) ∗ (ouLoc d ↦[(ouC0 L h1 7).view.set]{fullShare} f) ∗ (ouLoc d ↦[(ouC0 L h1 8).view.set]{fullShare} f) ∗ (ouLoc d ↦[(ouC0 L h1 9).view.set]{fullShare} f) ∗ (ouLoc d ↦[(ouC0 L h1 10).view.set]{fullShare} f) ∗ (ouLoc d ↦[(ouC0 L h1 11).view.set]{fullShare} f) ∗ (ouLoc d ↦[(ouC0 L h1 12).view.set]{fullShare} f) ∗ (ouLoc d ↦[(ouC0 L h1 13).view.set]{fullShare} f) ∗ (ouLoc d ↦[(ouC0 L h1 14).view.set]{fullShare} f) ∗ (ouLoc d ↦[(ouC0 L h1 15).view.set]{fullShare} f) ∗ (ouLoc d ↦[(ouC0 L h1 16).view.set]{fullShare} f) ∗ (ouLoc d ↦[(ouC0 L h1 17).view.set]{fullShare} f)) := by
  unfold outSet0
  rw [pointsTo_biUnion _ _ (fun r _ r' _ hne => ouC0_disj L h1 r r' hne), bigSep_fin18]
/-- The tile's rows of the item output, chunk by chunk. -/
theorem outPts0i (h1 : k1_cond1 L = 1#1) (f : Buf (Elt F) (oiLoc d)) :
    (oiLoc d ↦[outSet0 L h1]{fullShare} f : sProp 𝕄)
      = iprop((oiLoc d ↦[(oiC0 L h1 0).view.set]{fullShare} f) ∗ (oiLoc d ↦[(oiC0 L h1 1).view.set]{fullShare} f) ∗ (oiLoc d ↦[(oiC0 L h1 2).view.set]{fullShare} f) ∗ (oiLoc d ↦[(oiC0 L h1 3).view.set]{fullShare} f) ∗ (oiLoc d ↦[(oiC0 L h1 4).view.set]{fullShare} f) ∗ (oiLoc d ↦[(oiC0 L h1 5).view.set]{fullShare} f) ∗ (oiLoc d ↦[(oiC0 L h1 6).view.set]{fullShare} f) ∗ (oiLoc d ↦[(oiC0 L h1 7).view.set]{fullShare} f) ∗ (oiLoc d ↦[(oiC0 L h1 8).view.set]{fullShare} f) ∗ (oiLoc d ↦[(oiC0 L h1 9).view.set]{fullShare} f) ∗ (oiLoc d ↦[(oiC0 L h1 10).view.set]{fullShare} f) ∗ (oiLoc d ↦[(oiC0 L h1 11).view.set]{fullShare} f) ∗ (oiLoc d ↦[(oiC0 L h1 12).view.set]{fullShare} f) ∗ (oiLoc d ↦[(oiC0 L h1 13).view.set]{fullShare} f) ∗ (oiLoc d ↦[(oiC0 L h1 14).view.set]{fullShare} f) ∗ (oiLoc d ↦[(oiC0 L h1 15).view.set]{fullShare} f) ∗ (oiLoc d ↦[(oiC0 L h1 16).view.set]{fullShare} f) ∗ (oiLoc d ↦[(oiC0 L h1 17).view.set]{fullShare} f)) := by
  unfold outSet0
  rw [pointsTo_biUnion (ℓ := oiLoc d) _ _ (fun r _ r' _ hne => ouC0_disj L h1 r r' hne), bigSep_fin18]
  rfl

set_option maxHeartbeats 40000000 in
/-- The chunks joined: together they are the tile's rows at one contents, which agrees with each chunk's own on the
    chunk's elements. -/
theorem outJoin0V (h1 : k1_cond1 L = 1#1) (c0 c1 c2 c3 c4 c5 c6 c7 c8 c9 c10 c11 c12 c13 c14 c15 c16 c17 : Buf (Elt F) (ouLoc d)) :
    (iprop((ouLoc d ↦[(ouC0 L h1 0).view.set]{fullShare} c0) ∗ (ouLoc d ↦[(ouC0 L h1 1).view.set]{fullShare} c1) ∗ (ouLoc d ↦[(ouC0 L h1 2).view.set]{fullShare} c2) ∗ (ouLoc d ↦[(ouC0 L h1 3).view.set]{fullShare} c3) ∗ (ouLoc d ↦[(ouC0 L h1 4).view.set]{fullShare} c4) ∗ (ouLoc d ↦[(ouC0 L h1 5).view.set]{fullShare} c5) ∗ (ouLoc d ↦[(ouC0 L h1 6).view.set]{fullShare} c6) ∗ (ouLoc d ↦[(ouC0 L h1 7).view.set]{fullShare} c7) ∗ (ouLoc d ↦[(ouC0 L h1 8).view.set]{fullShare} c8) ∗ (ouLoc d ↦[(ouC0 L h1 9).view.set]{fullShare} c9) ∗ (ouLoc d ↦[(ouC0 L h1 10).view.set]{fullShare} c10) ∗ (ouLoc d ↦[(ouC0 L h1 11).view.set]{fullShare} c11) ∗ (ouLoc d ↦[(ouC0 L h1 12).view.set]{fullShare} c12) ∗ (ouLoc d ↦[(ouC0 L h1 13).view.set]{fullShare} c13) ∗ (ouLoc d ↦[(ouC0 L h1 14).view.set]{fullShare} c14) ∗ (ouLoc d ↦[(ouC0 L h1 15).view.set]{fullShare} c15) ∗ (ouLoc d ↦[(ouC0 L h1 16).view.set]{fullShare} c16) ∗ (ouLoc d ↦[(ouC0 L h1 17).view.set]{fullShare} c17)) : sProp 𝕄)
      ⊢ iprop(∃ g, ⌜∀ (r : Fin 18) (y : S128x128.Idx), g ((ouC0 L h1 r).view.emb y) = ((![c0, c1, c2, c3, c4, c5, c6, c7, c8, c9, c10, c11, c12, c13, c14, c15, c16, c17] : Fin 18 → Buf (Elt F) (ouLoc d)) r) ((ouC0 L h1 r).view.emb y)⌝
          ∗ ouLoc d ↦[outSet0 L h1]{fullShare} g) := by
  have hj : (bigSep (Finset.univ : Finset (Fin 18)) (fun r => ouLoc d ↦[(ouC0 L h1 r).view.set]{fullShare} ((![c0, c1, c2, c3, c4, c5, c6, c7, c8, c9, c10, c11, c12, c13, c14, c15, c16, c17] : Fin 18 → Buf (Elt F) (ouLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (ouLoc d)) t) i⌝
          ∗ ouLoc d ↦[Finset.univ.biUnion fun r => (ouC0 L h1 r).view.set]{fullShare} g) :=
    pointsTo_biUnion_join _ _ _ c0 (fun r _ r' _ hne => ouC0_disj L h1 r r' hne)
  rw [bigSep_fin18] at hj
  refine BIBase.Entails.trans (show _ ⊢ _ from hj) ?_
  iintro ⟨%g, %hg, H⟩
  iexists g
  isplitr
  · ipureintro
    intro r y
    exact hg r (Finset.mem_univ r) _ (View.emb_mem_set (ouC0 L h1 r).view y)
  · unfold outSet0
    iexact H

set_option maxHeartbeats 40000000 in
theorem outJoin0iV (h1 : k1_cond1 L = 1#1) (c0 c1 c2 c3 c4 c5 c6 c7 c8 c9 c10 c11 c12 c13 c14 c15 c16 c17 : Buf (Elt F) (oiLoc d)) :
    (iprop((oiLoc d ↦[(oiC0 L h1 0).view.set]{fullShare} c0) ∗ (oiLoc d ↦[(oiC0 L h1 1).view.set]{fullShare} c1) ∗ (oiLoc d ↦[(oiC0 L h1 2).view.set]{fullShare} c2) ∗ (oiLoc d ↦[(oiC0 L h1 3).view.set]{fullShare} c3) ∗ (oiLoc d ↦[(oiC0 L h1 4).view.set]{fullShare} c4) ∗ (oiLoc d ↦[(oiC0 L h1 5).view.set]{fullShare} c5) ∗ (oiLoc d ↦[(oiC0 L h1 6).view.set]{fullShare} c6) ∗ (oiLoc d ↦[(oiC0 L h1 7).view.set]{fullShare} c7) ∗ (oiLoc d ↦[(oiC0 L h1 8).view.set]{fullShare} c8) ∗ (oiLoc d ↦[(oiC0 L h1 9).view.set]{fullShare} c9) ∗ (oiLoc d ↦[(oiC0 L h1 10).view.set]{fullShare} c10) ∗ (oiLoc d ↦[(oiC0 L h1 11).view.set]{fullShare} c11) ∗ (oiLoc d ↦[(oiC0 L h1 12).view.set]{fullShare} c12) ∗ (oiLoc d ↦[(oiC0 L h1 13).view.set]{fullShare} c13) ∗ (oiLoc d ↦[(oiC0 L h1 14).view.set]{fullShare} c14) ∗ (oiLoc d ↦[(oiC0 L h1 15).view.set]{fullShare} c15) ∗ (oiLoc d ↦[(oiC0 L h1 16).view.set]{fullShare} c16) ∗ (oiLoc d ↦[(oiC0 L h1 17).view.set]{fullShare} c17)) : sProp 𝕄)
      ⊢ iprop(∃ g, ⌜∀ (r : Fin 18) (y : S128x128.Idx), g ((oiC0 L h1 r).view.emb y) = ((![c0, c1, c2, c3, c4, c5, c6, c7, c8, c9, c10, c11, c12, c13, c14, c15, c16, c17] : Fin 18 → Buf (Elt F) (oiLoc d)) r) ((oiC0 L h1 r).view.emb y)⌝
          ∗ oiLoc d ↦[outSet0 L h1]{fullShare} g) := by
  have hj : (bigSep (Finset.univ : Finset (Fin 18)) (fun r => oiLoc d ↦[(ouC0 L h1 r).view.set]{fullShare} ((![c0, c1, c2, c3, c4, c5, c6, c7, c8, c9, c10, c11, c12, c13, c14, c15, c16, c17] : Fin 18 → Buf (Elt F) (oiLoc d)) r)) : sProp 𝕄)
      ⊢ iprop(∃ g, ⌜∀ t ∈ (Finset.univ : Finset (Fin 18)), ∀ i ∈ (ouC0 L h1 t).view.set, g i = ((![c0, c1, c2, c3, c4, c5, c6, c7, c8, c9, c10, c11, c12, c13, c14, c15, c16, c17] : Fin 18 → Buf (Elt F) (oiLoc d)) t) i⌝
          ∗ oiLoc d ↦[Finset.univ.biUnion fun r => (ouC0 L h1 r).view.set]{fullShare} g) :=
    pointsTo_biUnion_join _ _ _ c0 (fun r _ r' _ hne => ouC0_disj L h1 r r' hne)
  rw [bigSep_fin18] at hj
  refine BIBase.Entails.trans (show _ ⊢ _ from hj) ?_
  iintro ⟨%g, %hg, H⟩
  iexists g
  isplitr
  · ipureintro
    intro r y
    exact hg r (Finset.mem_univ r) _ (View.emb_mem_set (oiC0 L h1 r).view y)
  · unfold outSet0
    iexact H

set_option maxHeartbeats 400000000 in
/-- The task of a tile of core 0: the two fetches, thirty-six windows through the ring of seven slots, the drain. -/
theorem tile_bodyV0 : TileBodyV0 F U := by
  intro d L hF h1 q fu fi gu gi ou oi hpre O W hO
  simp only [cc1_gather_k_eq_skeleton]; unfold cc1_gather_k_skel
  rw [(K (F := F)).scopedBufs_V hF d (cV L) (jV L), SparseCore.Cfg.scopedSems0_V (Val := Elt F) d (cV L) (jV L), ownSems0_V, ownBufs_V]
  have hn2 : ¬ k1_cond2 L = 1#1 := cond_excl' L h1
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  have hinU7 : ∀ (fl : Buf (Elt F) ((luV).view.loc (V d (cV L) (jV L)))) x, ((rowU 7 inb_S18x128_S1x128_7_0).view.read (Elt F) (View.write (Elt F) (luV).view fl ((iuSlab L).view.read (Elt F) gu) Finset.univ) x).toNat < S100000x128.size gathers_S100000x128_S128x128.axis :=
    fun fl => list_inbU d L gu hpre.1 7 _ fl _ rfl
  have hinI7 : ∀ (fl : Buf (Elt F) ((liV).view.loc (V d (cV L) (jV L)))) x, ((rowI 7 inb_S18x128_S1x128_7_0).view.read (Elt F) (View.write (Elt F) (liV).view fl ((iiSlab L).view.read (Elt F) gi) Finset.univ) x).toNat < S100000x128.size gathers_S100000x128_S128x128.axis :=
    fun fl => list_inbI d L gi hpre.2 7 _ fl _ rfl
  have hinU8 : ∀ (fl : Buf (Elt F) ((luV).view.loc (V d (cV L) (jV L)))) x, ((rowU 8 inb_S18x128_S1x128_8_0).view.read (Elt F) (View.write (Elt F) (luV).view fl ((iuSlab L).view.read (Elt F) gu) Finset.univ) x).toNat < S100000x128.size gathers_S100000x128_S128x128.axis :=
    fun fl => list_inbU d L gu hpre.1 8 _ fl _ rfl
  have hinI8 : ∀ (fl : Buf (Elt F) ((liV).view.loc (V d (cV L) (jV L)))) x, ((rowI 8 inb_S18x128_S1x128_8_0).view.read (Elt F) (View.write (Elt F) (liV).view fl ((iiSlab L).view.read (Elt F) gi) Finset.univ) x).toNat < S100000x128.size gathers_S100000x128_S128x128.axis :=
    fun fl => list_inbI d L gi hpre.2 8 _ fl _ rfl
  have hinU9 : ∀ (fl : Buf (Elt F) ((luV).view.loc (V d (cV L) (jV L)))) x, ((rowU 9 inb_S18x128_S1x128_9_0).view.read (Elt F) (View.write (Elt F) (luV).view fl ((iuSlab L).view.read (Elt F) gu) Finset.univ) x).toNat < S100000x128.size gathers_S100000x128_S128x128.axis :=
    fun fl => list_inbU d L gu hpre.1 9 _ fl _ rfl
  have hinI9 : ∀ (fl : Buf (Elt F) ((liV).view.loc (V d (cV L) (jV L)))) x, ((rowI 9 inb_S18x128_S1x128_9_0).view.read (Elt F) (View.write (Elt F) (liV).view fl ((iiSlab L).view.read (Elt F) gi) Finset.univ) x).toNat < S100000x128.size gathers_S100000x128_S128x128.axis :=
    fun fl => list_inbI d L gi hpre.2 9 _ fl _ rfl
  have hinU10 : ∀ (fl : Buf (Elt F) ((luV).view.loc (V d (cV L) (jV L)))) x, ((rowU 10 inb_S18x128_S1x128_10_0).view.read (Elt F) (View.write (Elt F) (luV).view fl ((iuSlab L).view.read (Elt F) gu) Finset.univ) x).toNat < S100000x128.size gathers_S100000x128_S128x128.axis :=
    fun fl => list_inbU d L gu hpre.1 10 _ fl _ rfl
  have hinI10 : ∀ (fl : Buf (Elt F) ((liV).view.loc (V d (cV L) (jV L)))) x, ((rowI 10 inb_S18x128_S1x128_10_0).view.read (Elt F) (View.write (Elt F) (liV).view fl ((iiSlab L).view.read (Elt F) gi) Finset.univ) x).toNat < S100000x128.size gathers_S100000x128_S128x128.axis :=
    fun fl => list_inbI d L gi hpre.2 10 _ fl _ rfl
  have hinU11 : ∀ (fl : Buf (Elt F) ((luV).view.loc (V d (cV L) (jV L)))) x, ((rowU 11 inb_S18x128_S1x128_11_0).view.read (Elt F) (View.write (Elt F) (luV).view fl ((iuSlab L).view.read (Elt F) gu) Finset.univ) x).toNat < S100000x128.size gathers_S100000x128_S128x128.axis :=
    fun fl => list_inbU d L gu hpre.1 11 _ fl _ rfl
  have hinI11 : ∀ (fl : Buf (Elt F) ((liV).view.loc (V d (cV L) (jV L)))) x, ((rowI 11 inb_S18x128_S1x128_11_0).view.read (Elt F) (View.write (Elt F) (liV).view fl ((iiSlab L).view.read (Elt F) gi) Finset.univ) x).toNat < S100000x128.size gathers_S100000x128_S128x128.axis :=
    fun fl => list_inbI d L gi hpre.2 11 _ fl _ rfl
  have hinU12 : ∀ (fl : Buf (Elt F) ((luV).view.loc (V d (cV L) (jV L)))) x, ((rowU 12 inb_S18x128_S1x128_12_0).view.read (Elt F) (View.write (Elt F) (luV).view fl ((iuSlab L).view.read (Elt F) gu) Finset.univ) x).toNat < S100000x128.size gathers_S100000x128_S128x128.axis :=
    fun fl => list_inbU d L gu hpre.1 12 _ fl _ rfl
  have hinI12 : ∀ (fl : Buf (Elt F) ((liV).view.loc (V d (cV L) (jV L)))) x, ((rowI 12 inb_S18x128_S1x128_12_0).view.read (Elt F) (View.write (Elt F) (liV).view fl ((iiSlab L).view.read (Elt F) gi) Finset.univ) x).toNat < S100000x128.size gathers_S100000x128_S128x128.axis :=
    fun fl => list_inbI d L gi hpre.2 12 _ fl _ rfl
  have hinU13 : ∀ (fl : Buf (Elt F) ((luV).view.loc (V d (cV L) (jV L)))) x, ((rowU 13 inb_S18x128_S1x128_13_0).view.read (Elt F) (View.write (Elt F) (luV).view fl ((iuSlab L).view.read (Elt F) gu) Finset.univ) x).toNat < S100000x128.size gathers_S100000x128_S128x128.axis :=
    fun fl => list_inbU d L gu hpre.1 13 _ fl _ rfl
  have hinI13 : ∀ (fl : Buf (Elt F) ((liV).view.loc (V d (cV L) (jV L)))) x, ((rowI 13 inb_S18x128_S1x128_13_0).view.read (Elt F) (View.write (Elt F) (liV).view fl ((iiSlab L).view.read (Elt F) gi) Finset.univ) x).toNat < S100000x128.size gathers_S100000x128_S128x128.axis :=
    fun fl => list_inbI d L gi hpre.2 13 _ fl _ rfl
  have hinU14 : ∀ (fl : Buf (Elt F) ((luV).view.loc (V d (cV L) (jV L)))) x, ((rowU 14 inb_S18x128_S1x128_14_0).view.read (Elt F) (View.write (Elt F) (luV).view fl ((iuSlab L).view.read (Elt F) gu) Finset.univ) x).toNat < S100000x128.size gathers_S100000x128_S128x128.axis :=
    fun fl => list_inbU d L gu hpre.1 14 _ fl _ rfl
  have hinI14 : ∀ (fl : Buf (Elt F) ((liV).view.loc (V d (cV L) (jV L)))) x, ((rowI 14 inb_S18x128_S1x128_14_0).view.read (Elt F) (View.write (Elt F) (liV).view fl ((iiSlab L).view.read (Elt F) gi) Finset.univ) x).toNat < S100000x128.size gathers_S100000x128_S128x128.axis :=
    fun fl => list_inbI d L gi hpre.2 14 _ fl _ rfl
  have hinU15 : ∀ (fl : Buf (Elt F) ((luV).view.loc (V d (cV L) (jV L)))) x, ((rowU 15 inb_S18x128_S1x128_15_0).view.read (Elt F) (View.write (Elt F) (luV).view fl ((iuSlab L).view.read (Elt F) gu) Finset.univ) x).toNat < S100000x128.size gathers_S100000x128_S128x128.axis :=
    fun fl => list_inbU d L gu hpre.1 15 _ fl _ rfl
  have hinI15 : ∀ (fl : Buf (Elt F) ((liV).view.loc (V d (cV L) (jV L)))) x, ((rowI 15 inb_S18x128_S1x128_15_0).view.read (Elt F) (View.write (Elt F) (liV).view fl ((iiSlab L).view.read (Elt F) gi) Finset.univ) x).toNat < S100000x128.size gathers_S100000x128_S128x128.axis :=
    fun fl => list_inbI d L gi hpre.2 15 _ fl _ rfl
  have hinU16 : ∀ (fl : Buf (Elt F) ((luV).view.loc (V d (cV L) (jV L)))) x, ((rowU 16 inb_S18x128_S1x128_16_0).view.read (Elt F) (View.write (Elt F) (luV).view fl ((iuSlab L).view.read (Elt F) gu) Finset.univ) x).toNat < S100000x128.size gathers_S100000x128_S128x128.axis :=
    fun fl => list_inbU d L gu hpre.1 16 _ fl _ rfl
  have hinI16 : ∀ (fl : Buf (Elt F) ((liV).view.loc (V d (cV L) (jV L)))) x, ((rowI 16 inb_S18x128_S1x128_16_0).view.read (Elt F) (View.write (Elt F) (liV).view fl ((iiSlab L).view.read (Elt F) gi) Finset.univ) x).toNat < S100000x128.size gathers_S100000x128_S128x128.axis :=
    fun fl => list_inbI d L gi hpre.2 16 _ fl _ rfl
  have hinU17 : ∀ (fl : Buf (Elt F) ((luV).view.loc (V d (cV L) (jV L)))) x, ((rowU 17 inb_S18x128_S1x128_17_0).view.read (Elt F) (View.write (Elt F) (luV).view fl ((iuSlab L).view.read (Elt F) gu) Finset.univ) x).toNat < S100000x128.size gathers_S100000x128_S128x128.axis :=
    fun fl => list_inbU d L gu hpre.1 17 _ fl _ rfl
  have hinI17 : ∀ (fl : Buf (Elt F) ((liV).view.loc (V d (cV L) (jV L)))) x, ((rowI 17 inb_S18x128_S1x128_17_0).view.read (Elt F) (View.write (Elt F) (liV).view fl ((iiSlab L).view.read (Elt F) gi) Finset.univ) x).toNat < S100000x128.size gathers_S100000x128_S128x128.axis :=
    fun fl => list_inbI d L gi hpre.2 17 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc1_scratch0 ↦{fullShare} fl0 : sProp 𝕄) = ((luV).view.loc (V d (cV L) (jV L)) ↦{fullShare} fl0) from rfl)) $$ Hl0
  ihave Hl1' := (Entails.of_eq (show ((V d (cV L) (jV L)).loc cc1_scratch1 ↦{fullShare} fl1 : sProp 𝕄) = ((liV).view.loc (V d (cV L) (jV L)) ↦{fullShare} fl1) from rfl)) $$ Hl1
  ihave Hb0' := (Entails.of_eq (show ((V d (cV L) (jV L)).loc cc1_scratch2 ↦{fullShare} fb0 : sProp 𝕄) = ((b0V).view.loc (V d (cV L) (jV L)) ↦{fullShare} fb0) from rfl)) $$ Hb0
  ihave Hb1' := (Entails.of_eq (show ((V d (cV L) (jV L)).loc cc1_scratch3 ↦{fullShare} fb1 : sProp 𝕄) = ((b1V).view.loc (V d (cV L) (jV L)) ↦{fullShare} fb1) from rfl)) $$ Hb1
  ihave Hb2' := (Entails.of_eq (show ((V d (cV L) (jV L)).loc cc1_scratch4 ↦{fullShare} fb2 : sProp 𝕄) = ((b2V).view.loc (V d (cV L) (jV L)) ↦{fullShare} fb2) from rfl)) $$ Hb2
  ihave Hb3' := (Entails.of_eq (show ((V d (cV L) (jV L)).loc cc1_scratch5 ↦{fullShare} fb3 : sProp 𝕄) = ((b3V).view.loc (V d (cV L) (jV L)) ↦{fullShare} fb3) from rfl)) $$ Hb3
  ihave Hb4' := (Entails.of_eq (show ((V d (cV L) (jV L)).loc cc1_scratch6 ↦{fullShare} fb4 : sProp 𝕄) = ((b4V).view.loc (V d (cV L) (jV L)) ↦{fullShare} fb4) from rfl)) $$ Hb4
  ihave Hb5' := (Entails.of_eq (show ((V d (cV L) (jV L)).loc cc1_scratch7 ↦{fullShare} fb5 : sProp 𝕄) = ((b5V).view.loc (V d (cV L) (jV L)) ↦{fullShare} fb5) from rfl)) $$ Hb5
  ihave Hb6' := (Entails.of_eq (show ((V d (cV L) (jV L)).loc cc1_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 16} fu : sProp 𝕄) = ((tuV).view.loc (V d (cV L) (jV L)) ↦{Transfers.shareTokN q 16} fu) from rfl)) $$ Htu0
  ihave Hti0' := (Entails.of_eq (show (tiLoc d ↦{Transfers.shareTokN q 16} fi : sProp 𝕄) = ((tiV).view.loc (V d (cV L) (jV L)) ↦{Transfers.shareTokN q 16} fi) from rfl)) $$ Hti0
  ihave Htu1' := (Entails.of_eq (show (tuLoc d ↦{Transfers.shareTokN q 17} fu : sProp 𝕄) = ((tuV).view.loc (V d (cV L) (jV L)) ↦{Transfers.shareTokN q 17} fu) from rfl)) $$ Htu1
  ihave Hti1' := (Entails.of_eq (show (tiLoc d ↦{Transfers.shareTokN q 17} fi : sProp 𝕄) = ((tiV).view.loc (V d (cV L) (jV L)) ↦{Transfers.shareTokN q 17} fi) from rfl)) $$ Hti1
  ihave Htu2' := (Entails.of_eq (show (tuLoc d ↦{Transfers.shareTokN q 18} fu : sProp 𝕄) = ((tuV).view.loc (V d (cV L) (jV L)) ↦{Transfers.shareTokN q 18} fu) from rfl)) $$ Htu2
  ihave Hti2' := (Entails.of_eq (show (tiLoc d ↦{Transfers.shareTokN q 18} fi : sProp 𝕄) = ((tiV).view.loc (V d (cV L) (jV L)) ↦{Transfers.shareTokN q 18} fi) from rfl)) $$ Hti2
  ihave Htu3' := (Entails.of_eq (show (tuLoc d ↦{Transfers.shareTokN q 19} fu : sProp 𝕄) = ((tuV).view.loc (V d (cV L) (jV L)) ↦{Transfers.shareTokN q 19} fu) from rfl)) $$ Htu3
  ihave Hti3' := (Entails.of_eq (show (tiLoc d ↦{Transfers.shareTokN q 19} fi : sProp 𝕄) = ((tiV).view.loc (V d (cV L) (jV L)) ↦{Transfers.shareTokN q 19} fi) from rfl)) $$ Hti3
  ihave Htu4' := (Entails.of_eq (show (tuLoc d ↦{Transfers.shareTokN q 20} fu : sProp 𝕄) = ((tuV).view.loc (V d (cV L) (jV L)) ↦{Transfers.shareTokN q 20} fu) from rfl)) $$ Htu4
  ihave Hti4' := (Entails.of_eq (show (tiLoc d ↦{Transfers.shareTokN q 20} fi : sProp 𝕄) = ((tiV).view.loc (V d (cV L) (jV L)) ↦{Transfers.shareTokN q 20} fi) from rfl)) $$ Hti4
  ihave Htu5' := (Entails.of_eq (show (tuLoc d ↦{Transfers.shareTokN q 21} fu : sProp 𝕄) = ((tuV).view.loc (V d (cV L) (jV L)) ↦{Transfers.shareTokN q 21} fu) from rfl)) $$ Htu5
  ihave Hti5' := (Entails.of_eq (show (tiLoc d ↦{Transfers.shareTokN q 21} fi : sProp 𝕄) = ((tiV).view.loc (V d (cV L) (jV L)) ↦{Transfers.shareTokN q 21} fi) from rfl)) $$ Hti5
  ihave Htu6' := (Entails.of_eq (show (tuLoc d ↦{Transfers.shareTokN q 22} fu : sProp 𝕄) = ((tuV).view.loc (V d (cV L) (jV L)) ↦{Transfers.shareTokN q 22} fu) from rfl)) $$ Htu6
  ihave Hti6' := (Entails.of_eq (show (tiLoc d ↦{Transfers.shareTokN q 22} fi : sProp 𝕄) = ((tiV).view.loc (V d (cV L) (jV L)) ↦{Transfers.shareTokN q 22} fi) from rfl)) $$ Hti6
  ihave Hou' := (Entails.of_eq (outPts0 (F := F) (U := U) d L h1 ou)) $$ Hou
  icases Hou' with ⟨Hou0, Hou1, Hou2, Hou3, Hou4, Hou5, Hou6, Hou7, Hou8, Hou9, Hou10, Hou11, Hou12, Hou13, Hou14, Hou15, Hou16, Hou17⟩
  ihave Hoi' := (Entails.of_eq (outPts0i (F := F) (U := U) d L h1 oi)) $$ Hoi
  icases Hoi' with ⟨Hoi0, Hoi1, Hoi2, Hoi3, Hoi4, Hoi5, Hoi6, Hoi7, Hoi8, Hoi9, Hoi10, Hoi11, Hoi12, Hoi13, Hoi14, Hoi15, Hoi16, Hoi17⟩
  ihave Hou0' := (Entails.of_eq (show (ouLoc d ↦[(ouC0 L h1 0).view.set]{fullShare} ou : sProp 𝕄) = (((ouV).slice (Rect.unit (s := S51200x128) (k1_off2 L 0#32) S128x128.size (k1_off2_inb L h1 0)) (fun _ => rfl)).view.loc (V d (cV L) (jV L)) ↦[((ouV).slice (Rect.unit (s := S51200x128) (k1_off2 L 0#32) S128x128.size (k1_off2_inb L h1 0)) (fun _ => rfl)).view.set]{fullShare} ou) from rfl)) $$ Hou0
  ihave Hoi0' := (Entails.of_eq (show (oiLoc d ↦[(oiC0 L h1 0).view.set]{fullShare} oi : sProp 𝕄) = (((oiV).slice (Rect.unit (s := S51200x128) (k1_off2 L 0#32) S128x128.size (k1_off2_inb L h1 0)) (fun _ => rfl)).view.loc (V d (cV L) (jV L)) ↦[((oiV).slice (Rect.unit (s := S51200x128) (k1_off2 L 0#32) S128x128.size (k1_off2_inb L h1 0)) (fun _ => rfl)).view.set]{fullShare} oi) from rfl)) $$ Hoi0
  ihave Hou1' := (Entails.of_eq (show (ouLoc d ↦[(ouC0 L h1 1).view.set]{fullShare} ou : sProp 𝕄) = (((ouV).slice (Rect.unit (s := S51200x128) (k1_off2 L 128#32) S128x128.size (k1_off2_inb L h1 1)) (fun _ => rfl)).view.loc (V d (cV L) (jV L)) ↦[((ouV).slice (Rect.unit (s := S51200x128) (k1_off2 L 128#32) S128x128.size (k1_off2_inb L h1 1)) (fun _ => rfl)).view.set]{fullShare} ou) from rfl)) $$ Hou1
  ihave Hoi1' := (Entails.of_eq (show (oiLoc d ↦[(oiC0 L h1 1).view.set]{fullShare} oi : sProp 𝕄) = (((oiV).slice (Rect.unit (s := S51200x128) (k1_off2 L 128#32) S128x128.size (k1_off2_inb L h1 1)) (fun _ => rfl)).view.loc (V d (cV L) (jV L)) ↦[((oiV).slice (Rect.unit (s := S51200x128) (k1_off2 L 128#32) S128x128.size (k1_off2_inb L h1 1)) (fun _ => rfl)).view.set]{fullShare} oi) from rfl)) $$ Hoi1
  ihave Hou2' := (Entails.of_eq (show (ouLoc d ↦[(ouC0 L h1 2).view.set]{fullShare} ou : sProp 𝕄) = (((ouV).slice (Rect.unit (s := S51200x128) (k1_off2 L 256#32) S128x128.size (k1_off2_inb L h1 2)) (fun _ => rfl)).view.loc (V d (cV L) (jV L)) ↦[((ouV).slice (Rect.unit (s := S51200x128) (k1_off2 L 256#32) S128x128.size (k1_off2_inb L h1 2)) (fun _ => rfl)).view.set]{fullShare} ou) from rfl)) $$ Hou2
  ihave Hoi2' := (Entails.of_eq (show (oiLoc d ↦[(oiC0 L h1 2).view.set]{fullShare} oi : sProp 𝕄) = (((oiV).slice (Rect.unit (s := S51200x128) (k1_off2 L 256#32) S128x128.size (k1_off2_inb L h1 2)) (fun _ => rfl)).view.loc (V d (cV L) (jV L)) ↦[((oiV).slice (Rect.unit (s := S51200x128) (k1_off2 L 256#32) S128x128.size (k1_off2_inb L h1 2)) (fun _ => rfl)).view.set]{fullShare} oi) from rfl)) $$ Hoi2
  ihave Hou3' := (Entails.of_eq (show (ouLoc d ↦[(ouC0 L h1 3).view.set]{fullShare} ou : sProp 𝕄) = (((ouV).slice (Rect.unit (s := S51200x128) (k1_off2 L 384#32) S128x128.size (k1_off2_inb L h1 3)) (fun _ => rfl)).view.loc (V d (cV L) (jV L)) ↦[((ouV).slice (Rect.unit (s := S51200x128) (k1_off2 L 384#32) S128x128.size (k1_off2_inb L h1 3)) (fun _ => rfl)).view.set]{fullShare} ou) from rfl)) $$ Hou3
  ihave Hoi3' := (Entails.of_eq (show (oiLoc d ↦[(oiC0 L h1 3).view.set]{fullShare} oi : sProp 𝕄) = (((oiV).slice (Rect.unit (s := S51200x128) (k1_off2 L 384#32) S128x128.size (k1_off2_inb L h1 3)) (fun _ => rfl)).view.loc (V d (cV L) (jV L)) ↦[((oiV).slice (Rect.unit (s := S51200x128) (k1_off2 L 384#32) S128x128.size (k1_off2_inb L h1 3)) (fun _ => rfl)).view.set]{fullShare} oi) from rfl)) $$ Hoi3
  ihave Hou4' := (Entails.of_eq (show (ouLoc d ↦[(ouC0 L h1 4).view.set]{fullShare} ou : sProp 𝕄) = (((ouV).slice (Rect.unit (s := S51200x128) (k1_off2 L 512#32) S128x128.size (k1_off2_inb L h1 4)) (fun _ => rfl)).view.loc (V d (cV L) (jV L)) ↦[((ouV).slice (Rect.unit (s := S51200x128) (k1_off2 L 512#32) S128x128.size (k1_off2_inb L h1 4)) (fun _ => rfl)).view.set]{fullShare} ou) from rfl)) $$ Hou4
  ihave Hoi4' := (Entails.of_eq (show (oiLoc d ↦[(oiC0 L h1 4).view.set]{fullShare} oi : sProp 𝕄) = (((oiV).slice (Rect.unit (s := S51200x128) (k1_off2 L 512#32) S128x128.size (k1_off2_inb L h1 4)) (fun _ => rfl)).view.loc (V d (cV L) (jV L)) ↦[((oiV).slice (Rect.unit (s := S51200x128) (k1_off2 L 512#32) S128x128.size (k1_off2_inb L h1 4)) (fun _ => rfl)).view.set]{fullShare} oi) from rfl)) $$ Hoi4
  ihave Hou5' := (Entails.of_eq (show (ouLoc d ↦[(ouC0 L h1 5).view.set]{fullShare} ou : sProp 𝕄) = (((ouV).slice (Rect.unit (s := S51200x128) (k1_off2 L 640#32) S128x128.size (k1_off2_inb L h1 5)) (fun _ => rfl)).view.loc (V d (cV L) (jV L)) ↦[((ouV).slice (Rect.unit (s := S51200x128) (k1_off2 L 640#32) S128x128.size (k1_off2_inb L h1 5)) (fun _ => rfl)).view.set]{fullShare} ou) from rfl)) $$ Hou5
  ihave Hoi5' := (Entails.of_eq (show (oiLoc d ↦[(oiC0 L h1 5).view.set]{fullShare} oi : sProp 𝕄) = (((oiV).slice (Rect.unit (s := S51200x128) (k1_off2 L 640#32) S128x128.size (k1_off2_inb L h1 5)) (fun _ => rfl)).view.loc (V d (cV L) (jV L)) ↦[((oiV).slice (Rect.unit (s := S51200x128) (k1_off2 L 640#32) S128x128.size (k1_off2_inb L h1 5)) (fun _ => rfl)).view.set]{fullShare} oi) from rfl)) $$ Hoi5
  ihave Hou6' := (Entails.of_eq (show (ouLoc d ↦[(ouC0 L h1 6).view.set]{fullShare} ou : sProp 𝕄) = (((ouV).slice (Rect.unit (s := S51200x128) (k1_off2 L 768#32) S128x128.size (k1_off2_inb L h1 6)) (fun _ => rfl)).view.loc (V d (cV L) (jV L)) ↦[((ouV).slice (Rect.unit (s := S51200x128) (k1_off2 L 768#32) S128x128.size (k1_off2_inb L h1 6)) (fun _ => rfl)).view.set]{fullShare} ou) from rfl)) $$ Hou6
  ihave Hoi6' := (Entails.of_eq (show (oiLoc d ↦[(oiC0 L h1 6).view.set]{fullShare} oi : sProp 𝕄) = (((oiV).slice (Rect.unit (s := S51200x128) (k1_off2 L 768#32) S128x128.size (k1_off2_inb L h1 6)) (fun _ => rfl)).view.loc (V d (cV L) (jV L)) ↦[((oiV).slice (Rect.unit (s := S51200x128) (k1_off2 L 768#32) S128x128.size (k1_off2_inb L h1 6)) (fun _ => rfl)).view.set]{fullShare} oi) from rfl)) $$ Hoi6
  ihave Hou7' := (Entails.of_eq (show (ouLoc d ↦[(ouC0 L h1 7).view.set]{fullShare} ou : sProp 𝕄) = (((ouV).slice (Rect.unit (s := S51200x128) (k1_off2 L 896#32) S128x128.size (k1_off2_inb L h1 7)) (fun _ => rfl)).view.loc (V d (cV L) (jV L)) ↦[((ouV).slice (Rect.unit (s := S51200x128) (k1_off2 L 896#32) S128x128.size (k1_off2_inb L h1 7)) (fun _ => rfl)).view.set]{fullShare} ou) from rfl)) $$ Hou7
  ihave Hoi7' := (Entails.of_eq (show (oiLoc d ↦[(oiC0 L h1 7).view.set]{fullShare} oi : sProp 𝕄) = (((oiV).slice (Rect.unit (s := S51200x128) (k1_off2 L 896#32) S128x128.size (k1_off2_inb L h1 7)) (fun _ => rfl)).view.loc (V d (cV L) (jV L)) ↦[((oiV).slice (Rect.unit (s := S51200x128) (k1_off2 L 896#32) S128x128.size (k1_off2_inb L h1 7)) (fun _ => rfl)).view.set]{fullShare} oi) from rfl)) $$ Hoi7
  ihave Hou8' := (Entails.of_eq (show (ouLoc d ↦[(ouC0 L h1 8).view.set]{fullShare} ou : sProp 𝕄) = (((ouV).slice (Rect.unit (s := S51200x128) (k1_off2 L 1024#32) S128x128.size (k1_off2_inb L h1 8)) (fun _ => rfl)).view.loc (V d (cV L) (jV L)) ↦[((ouV).slice (Rect.unit (s := S51200x128) (k1_off2 L 1024#32) S128x128.size (k1_off2_inb L h1 8)) (fun _ => rfl)).view.set]{fullShare} ou) from rfl)) $$ Hou8
  ihave Hoi8' := (Entails.of_eq (show (oiLoc d ↦[(oiC0 L h1 8).view.set]{fullShare} oi : sProp 𝕄) = (((oiV).slice (Rect.unit (s := S51200x128) (k1_off2 L 1024#32) S128x128.size (k1_off2_inb L h1 8)) (fun _ => rfl)).view.loc (V d (cV L) (jV L)) ↦[((oiV).slice (Rect.unit (s := S51200x128) (k1_off2 L 1024#32) S128x128.size (k1_off2_inb L h1 8)) (fun _ => rfl)).view.set]{fullShare} oi) from rfl)) $$ Hoi8
  ihave Hou9' := (Entails.of_eq (show (ouLoc d ↦[(ouC0 L h1 9).view.set]{fullShare} ou : sProp 𝕄) = (((ouV).slice (Rect.unit (s := S51200x128) (k1_off2 L 1152#32) S128x128.size (k1_off2_inb L h1 9)) (fun _ => rfl)).view.loc (V d (cV L) (jV L)) ↦[((ouV).slice (Rect.unit (s := S51200x128) (k1_off2 L 1152#32) S128x128.size (k1_off2_inb L h1 9)) (fun _ => rfl)).view.set]{fullShare} ou) from rfl)) $$ Hou9
  ihave Hoi9' := (Entails.of_eq (show (oiLoc d ↦[(oiC0 L h1 9).view.set]{fullShare} oi : sProp 𝕄) = (((oiV).slice (Rect.unit (s := S51200x128) (k1_off2 L 1152#32) S128x128.size (k1_off2_inb L h1 9)) (fun _ => rfl)).view.loc (V d (cV L) (jV L)) ↦[((oiV).slice (Rect.unit (s := S51200x128) (k1_off2 L 1152#32) S128x128.size (k1_off2_inb L h1 9)) (fun _ => rfl)).view.set]{fullShare} oi) from rfl)) $$ Hoi9
  ihave Hou10' := (Entails.of_eq (show (ouLoc d ↦[(ouC0 L h1 10).view.set]{fullShare} ou : sProp 𝕄) = (((ouV).slice (Rect.unit (s := S51200x128) (k1_off2 L 1280#32) S128x128.size (k1_off2_inb L h1 10)) (fun _ => rfl)).view.loc (V d (cV L) (jV L)) ↦[((ouV).slice (Rect.unit (s := S51200x128) (k1_off2 L 1280#32) S128x128.size (k1_off2_inb L h1 10)) (fun _ => rfl)).view.set]{fullShare} ou) from rfl)) $$ Hou10
  ihave Hoi10' := (Entails.of_eq (show (oiLoc d ↦[(oiC0 L h1 10).view.set]{fullShare} oi : sProp 𝕄) = (((oiV).slice (Rect.unit (s := S51200x128) (k1_off2 L 1280#32) S128x128.size (k1_off2_inb L h1 10)) (fun _ => rfl)).view.loc (V d (cV L) (jV L)) ↦[((oiV).slice (Rect.unit (s := S51200x128) (k1_off2 L 1280#32) S128x128.size (k1_off2_inb L h1 10)) (fun _ => rfl)).view.set]{fullShare} oi) from rfl)) $$ Hoi10
  ihave Hou11' := (Entails.of_eq (show (ouLoc d ↦[(ouC0 L h1 11).view.set]{fullShare} ou : sProp 𝕄) = (((ouV).slice (Rect.unit (s := S51200x128) (k1_off2 L 1408#32) S128x128.size (k1_off2_inb L h1 11)) (fun _ => rfl)).view.loc (V d (cV L) (jV L)) ↦[((ouV).slice (Rect.unit (s := S51200x128) (k1_off2 L 1408#32) S128x128.size (k1_off2_inb L h1 11)) (fun _ => rfl)).view.set]{fullShare} ou) from rfl)) $$ Hou11
  ihave Hoi11' := (Entails.of_eq (show (oiLoc d ↦[(oiC0 L h1 11).view.set]{fullShare} oi : sProp 𝕄) = (((oiV).slice (Rect.unit (s := S51200x128) (k1_off2 L 1408#32) S128x128.size (k1_off2_inb L h1 11)) (fun _ => rfl)).view.loc (V d (cV L) (jV L)) ↦[((oiV).slice (Rect.unit (s := S51200x128) (k1_off2 L 1408#32) S128x128.size (k1_off2_inb L h1 11)) (fun _ => rfl)).view.set]{fullShare} oi) from rfl)) $$ Hoi11
  ihave Hou12' := (Entails.of_eq (show (ouLoc d ↦[(ouC0 L h1 12).view.set]{fullShare} ou : sProp 𝕄) = (((ouV).slice (Rect.unit (s := S51200x128) (k1_off2 L 1536#32) S128x128.size (k1_off2_inb L h1 12)) (fun _ => rfl)).view.loc (V d (cV L) (jV L)) ↦[((ouV).slice (Rect.unit (s := S51200x128) (k1_off2 L 1536#32) S128x128.size (k1_off2_inb L h1 12)) (fun _ => rfl)).view.set]{fullShare} ou) from rfl)) $$ Hou12
  ihave Hoi12' := (Entails.of_eq (show (oiLoc d ↦[(oiC0 L h1 12).view.set]{fullShare} oi : sProp 𝕄) = (((oiV).slice (Rect.unit (s := S51200x128) (k1_off2 L 1536#32) S128x128.size (k1_off2_inb L h1 12)) (fun _ => rfl)).view.loc (V d (cV L) (jV L)) ↦[((oiV).slice (Rect.unit (s := S51200x128) (k1_off2 L 1536#32) S128x128.size (k1_off2_inb L h1 12)) (fun _ => rfl)).view.set]{fullShare} oi) from rfl)) $$ Hoi12
  ihave Hou13' := (Entails.of_eq (show (ouLoc d ↦[(ouC0 L h1 13).view.set]{fullShare} ou : sProp 𝕄) = (((ouV).slice (Rect.unit (s := S51200x128) (k1_off2 L 1664#32) S128x128.size (k1_off2_inb L h1 13)) (fun _ => rfl)).view.loc (V d (cV L) (jV L)) ↦[((ouV).slice (Rect.unit (s := S51200x128) (k1_off2 L 1664#32) S128x128.size (k1_off2_inb L h1 13)) (fun _ => rfl)).view.set]{fullShare} ou) from rfl)) $$ Hou13
  ihave Hoi13' := (Entails.of_eq (show (oiLoc d ↦[(oiC0 L h1 13).view.set]{fullShare} oi : sProp 𝕄) = (((oiV).slice (Rect.unit (s := S51200x128) (k1_off2 L 1664#32) S128x128.size (k1_off2_inb L h1 13)) (fun _ => rfl)).view.loc (V d (cV L) (jV L)) ↦[((oiV).slice (Rect.unit (s := S51200x128) (k1_off2 L 1664#32) S128x128.size (k1_off2_inb L h1 13)) (fun _ => rfl)).view.set]{fullShare} oi) from rfl)) $$ Hoi13
  ihave Hou14' := (Entails.of_eq (show (ouLoc d ↦[(ouC0 L h1 14).view.set]{fullShare} ou : sProp 𝕄) = (((ouV).slice (Rect.unit (s := S51200x128) (k1_off2 L 1792#32) S128x128.size (k1_off2_inb L h1 14)) (fun _ => rfl)).view.loc (V d (cV L) (jV L)) ↦[((ouV).slice (Rect.unit (s := S51200x128) (k1_off2 L 1792#32) S128x128.size (k1_off2_inb L h1 14)) (fun _ => rfl)).view.set]{fullShare} ou) from rfl)) $$ Hou14
  ihave Hoi14' := (Entails.of_eq (show (oiLoc d ↦[(oiC0 L h1 14).view.set]{fullShare} oi : sProp 𝕄) = (((oiV).slice (Rect.unit (s := S51200x128) (k1_off2 L 1792#32) S128x128.size (k1_off2_inb L h1 14)) (fun _ => rfl)).view.loc (V d (cV L) (jV L)) ↦[((oiV).slice (Rect.unit (s := S51200x128) (k1_off2 L 1792#32) S128x128.size (k1_off2_inb L h1 14)) (fun _ => rfl)).view.set]{fullShare} oi) from rfl)) $$ Hoi14
  ihave Hou15' := (Entails.of_eq (show (ouLoc d ↦[(ouC0 L h1 15).view.set]{fullShare} ou : sProp 𝕄) = (((ouV).slice (Rect.unit (s := S51200x128) (k1_off2 L 1920#32) S128x128.size (k1_off2_inb L h1 15)) (fun _ => rfl)).view.loc (V d (cV L) (jV L)) ↦[((ouV).slice (Rect.unit (s := S51200x128) (k1_off2 L 1920#32) S128x128.size (k1_off2_inb L h1 15)) (fun _ => rfl)).view.set]{fullShare} ou) from rfl)) $$ Hou15
  ihave Hoi15' := (Entails.of_eq (show (oiLoc d ↦[(oiC0 L h1 15).view.set]{fullShare} oi : sProp 𝕄) = (((oiV).slice (Rect.unit (s := S51200x128) (k1_off2 L 1920#32) S128x128.size (k1_off2_inb L h1 15)) (fun _ => rfl)).view.loc (V d (cV L) (jV L)) ↦[((oiV).slice (Rect.unit (s := S51200x128) (k1_off2 L 1920#32) S128x128.size (k1_off2_inb L h1 15)) (fun _ => rfl)).view.set]{fullShare} oi) from rfl)) $$ Hoi15
  ihave Hou16' := (Entails.of_eq (show (ouLoc d ↦[(ouC0 L h1 16).view.set]{fullShare} ou : sProp 𝕄) = (((ouV).slice (Rect.unit (s := S51200x128) (k1_off2 L 2048#32) S128x128.size (k1_off2_inb L h1 16)) (fun _ => rfl)).view.loc (V d (cV L) (jV L)) ↦[((ouV).slice (Rect.unit (s := S51200x128) (k1_off2 L 2048#32) S128x128.size (k1_off2_inb L h1 16)) (fun _ => rfl)).view.set]{fullShare} ou) from rfl)) $$ Hou16
  ihave Hoi16' := (Entails.of_eq (show (oiLoc d ↦[(oiC0 L h1 16).view.set]{fullShare} oi : sProp 𝕄) = (((oiV).slice (Rect.unit (s := S51200x128) (k1_off2 L 2048#32) S128x128.size (k1_off2_inb L h1 16)) (fun _ => rfl)).view.loc (V d (cV L) (jV L)) ↦[((oiV).slice (Rect.unit (s := S51200x128) (k1_off2 L 2048#32) S128x128.size (k1_off2_inb L h1 16)) (fun _ => rfl)).view.set]{fullShare} oi) from rfl)) $$ Hoi16
  ihave Hou17' := (Entails.of_eq (show (ouLoc d ↦[(ouC0 L h1 17).view.set]{fullShare} ou : sProp 𝕄) = (((ouV).slice (Rect.unit (s := S51200x128) (k1_off2 L 2176#32) S128x128.size (k1_off2_inb L h1 17)) (fun _ => rfl)).view.loc (V d (cV L) (jV L)) ↦[((ouV).slice (Rect.unit (s := S51200x128) (k1_off2 L 2176#32) S128x128.size (k1_off2_inb L h1 17)) (fun _ => rfl)).view.set]{fullShare} ou) from rfl)) $$ Hou17
  ihave Hoi17' := (Entails.of_eq (show (oiLoc d ↦[(oiC0 L h1 17).view.set]{fullShare} oi : sProp 𝕄) = (((oiV).slice (Rect.unit (s := S51200x128) (k1_off2 L 2176#32) S128x128.size (k1_off2_inb L h1 17)) (fun _ => rfl)).view.loc (V d (cV L) (jV L)) ↦[((oiV).slice (Rect.unit (s := S51200x128) (k1_off2 L 2176#32) S128x128.size (k1_off2_inb L h1 17)) (fun _ => rfl)).view.set]{fullShare} oi) from rfl)) $$ Hoi17
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin0V (F := F) (U := U) d L h1 _ _ _ _ _ _ _ _ _ _ _ _ _ _ _ _ _ _) $$ [Hou0' Hou1' Hou2' Hou3' Hou4' Hou5' Hou6' Hou7' Hou8' Hou9' Hou10' Hou11' Hou12' Hou13' Hou14' Hou15' Hou16' Hou17']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    isplitl [Hou6']; · iexact Hou6'
    isplitl [Hou7']; · iexact Hou7'
    isplitl [Hou8']; · iexact Hou8'
    isplitl [Hou9']; · iexact Hou9'
    isplitl [Hou10']; · iexact Hou10'
    isplitl [Hou11']; · iexact Hou11'
    isplitl [Hou12']; · iexact Hou12'
    isplitl [Hou13']; · iexact Hou13'
    isplitl [Hou14']; · iexact Hou14'
    isplitl [Hou15']; · iexact Hou15'
    isplitl [Hou16']; · iexact Hou16'
    iexact Hou17'
  icases HouJ with ⟨%gU, %hgU, HouJ⟩
  ihave HoiJ := (outJoin0iV (F := F) (U := U) d L h1 _ _ _ _ _ _ _ _ _ _ _ _ _ _ _ _ _ _) $$ [Hoi0' Hoi1' Hoi2' Hoi3' Hoi4' Hoi5' Hoi6' Hoi7' Hoi8' Hoi9' Hoi10' Hoi11' Hoi12' Hoi13' Hoi14' Hoi15' Hoi16' Hoi17']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    isplitl [Hoi6']; · iexact Hoi6'
    isplitl [Hoi7']; · iexact Hoi7'
    isplitl [Hoi8']; · iexact Hoi8'
    isplitl [Hoi9']; · iexact Hoi9'
    isplitl [Hoi10']; · iexact Hoi10'
    isplitl [Hoi11']; · iexact Hoi11'
    isplitl [Hoi12']; · iexact Hoi12'
    isplitl [Hoi13']; · iexact Hoi13'
    isplitl [Hoi14']; · iexact Hoi14'
    isplitl [Hoi15']; · iexact Hoi15'
    isplitl [Hoi16']; · iexact Hoi16'
    iexact Hoi17'
  icases HoiJ with ⟨%gI, %hgI, HoiJ⟩
  isplitl [Hgu' Hgi' Htu Hti HouJ HoiJ]
  · iexists gU, gI
    isplitr
    · ipureintro
      unfold tileVal0
      intro r y
      rw [hgU r y, hgI r y]
      fin_cases r
      · exact ⟨chunk_valU d L fu gu hpre.1 _ _ ou 0 _ (by decide) _ _ (hinU0 _) _ (fun y => slot_read _ _ _ _ y) y,
          chunk_valI d L fi gi hpre.2 _ _ oi 0 _ (by decide) _ _ (hinI0 _) _ (fun y => slot_read _ _ _ _ y) y⟩
      · exact ⟨chunk_valU d L fu gu hpre.1 _ _ ou 1 _ (by decide) _ _ (hinU1 _) _ (fun y => slot_read _ _ _ _ y) y,
          chunk_valI d L fi gi hpre.2 _ _ oi 1 _ (by decide) _ _ (hinI1 _) _ (fun y => slot_read _ _ _ _ y) y⟩
      · exact ⟨chunk_valU d L fu gu hpre.1 _ _ ou 2 _ (by decide) _ _ (hinU2 _) _ (fun y => slot_read _ _ _ _ y) y,
          chunk_valI d L fi gi hpre.2 _ _ oi 2 _ (by decide) _ _ (hinI2 _) _ (fun y => slot_read _ _ _ _ y) y⟩
      · exact ⟨chunk_valU d L fu gu hpre.1 _ _ ou 3 _ (by decide) _ _ (hinU3 _) _ (fun y => slot_read _ _ _ _ y) y,
          chunk_valI d L fi gi hpre.2 _ _ oi 3 _ (by decide) _ _ (hinI3 _) _ (fun y => slot_read _ _ _ _ y) y⟩
      · exact ⟨chunk_valU d L fu gu hpre.1 _ _ ou 4 _ (by decide) _ _ (hinU4 _) _ (fun y => slot_read _ _ _ _ y) y,
          chunk_valI d L fi gi hpre.2 _ _ oi 4 _ (by decide) _ _ (hinI4 _) _ (fun y => slot_read _ _ _ _ y) y⟩
      · exact ⟨chunk_valU d L fu gu hpre.1 _ _ ou 5 _ (by decide) _ _ (hinU5 _) _ (fun y => slot_read _ _ _ _ y) y,
          chunk_valI d L fi gi hpre.2 _ _ oi 5 _ (by decide) _ _ (hinI5 _) _ (fun y => slot_read _ _ _ _ y) y⟩
      · exact ⟨chunk_valU d L fu gu hpre.1 _ _ ou 6 _ (by decide) _ _ (hinU6 _) _ (fun y => slot_read _ _ _ _ y) y,
          chunk_valI d L fi gi hpre.2 _ _ oi 6 _ (by decide) _ _ (hinI6 _) _ (fun y => slot_read _ _ _ _ y) y⟩
      · exact ⟨chunk_valU d L fu gu hpre.1 _ _ ou 7 _ (by decide) _ _ (hinU7 _) _ (fun y => slot_read _ _ _ _ y) y,
          chunk_valI d L fi gi hpre.2 _ _ oi 7 _ (by decide) _ _ (hinI7 _) _ (fun y => slot_read _ _ _ _ y) y⟩
      · exact ⟨chunk_valU d L fu gu hpre.1 _ _ ou 8 _ (by decide) _ _ (hinU8 _) _ (fun y => slot_read _ _ _ _ y) y,
          chunk_valI d L fi gi hpre.2 _ _ oi 8 _ (by decide) _ _ (hinI8 _) _ (fun y => slot_read _ _ _ _ y) y⟩
      · exact ⟨chunk_valU d L fu gu hpre.1 _ _ ou 9 _ (by decide) _ _ (hinU9 _) _ (fun y => slot_read _ _ _ _ y) y,
          chunk_valI d L fi gi hpre.2 _ _ oi 9 _ (by decide) _ _ (hinI9 _) _ (fun y => slot_read _ _ _ _ y) y⟩
      · exact ⟨chunk_valU d L fu gu hpre.1 _ _ ou 10 _ (by decide) _ _ (hinU10 _) _ (fun y => slot_read _ _ _ _ y) y,
          chunk_valI d L fi gi hpre.2 _ _ oi 10 _ (by decide) _ _ (hinI10 _) _ (fun y => slot_read _ _ _ _ y) y⟩
      · exact ⟨chunk_valU d L fu gu hpre.1 _ _ ou 11 _ (by decide) _ _ (hinU11 _) _ (fun y => slot_read _ _ _ _ y) y,
          chunk_valI d L fi gi hpre.2 _ _ oi 11 _ (by decide) _ _ (hinI11 _) _ (fun y => slot_read _ _ _ _ y) y⟩
      · exact ⟨chunk_valU d L fu gu hpre.1 _ _ ou 12 _ (by decide) _ _ (hinU12 _) _ (fun y => slot_read _ _ _ _ y) y,
          chunk_valI d L fi gi hpre.2 _ _ oi 12 _ (by decide) _ _ (hinI12 _) _ (fun y => slot_read _ _ _ _ y) y⟩
      · exact ⟨chunk_valU d L fu gu hpre.1 _ _ ou 13 _ (by decide) _ _ (hinU13 _) _ (fun y => slot_read _ _ _ _ y) y,
          chunk_valI d L fi gi hpre.2 _ _ oi 13 _ (by decide) _ _ (hinI13 _) _ (fun y => slot_read _ _ _ _ y) y⟩
      · exact ⟨chunk_valU d L fu gu hpre.1 _ _ ou 14 _ (by decide) _ _ (hinU14 _) _ (fun y => slot_read _ _ _ _ y) y,
          chunk_valI d L fi gi hpre.2 _ _ oi 14 _ (by decide) _ _ (hinI14 _) _ (fun y => slot_read _ _ _ _ y) y⟩
      · exact ⟨chunk_valU d L fu gu hpre.1 _ _ ou 15 _ (by decide) _ _ (hinU15 _) _ (fun y => slot_read _ _ _ _ y) y,
          chunk_valI d L fi gi hpre.2 _ _ oi 15 _ (by decide) _ _ (hinI15 _) _ (fun y => slot_read _ _ _ _ y) y⟩
      · exact ⟨chunk_valU d L fu gu hpre.1 _ _ ou 16 _ (by decide) _ _ (hinU16 _) _ (fun y => slot_read _ _ _ _ y) y,
          chunk_valI d L fi gi hpre.2 _ _ oi 16 _ (by decide) _ _ (hinI16 _) _ (fun y => slot_read _ _ _ _ y) y⟩
      · exact ⟨chunk_valU d L fu gu hpre.1 _ _ ou 17 _ (by decide) _ _ (hinU17 _) _ (fun y => slot_read _ _ _ _ y) y,
          chunk_valI d L fi gi hpre.2 _ _ oi 17 _ (by decide) _ _ (hinI17 _) _ (fun y => slot_read _ _ _ _ y) y⟩
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.KernelIdeal.ScTile1

end
-- ==== Proof.ScTileV1c1.lean ====
/-
  The task of a tile of core 1 of the second gather kernel: the tile fetches its two index slabs into its list
  scratches, then runs fourteen windows through a ring of seven row buffers; window w gathers the 128 table rows named
  by row (w / 2) of the fetched list (the user table for even w, the item table for odd w) into slot (w mod 7) and copies
  the slot out to chunk (w / 2) of the tile's rows of the matching output. Every slot has its own gather cell and its
  own write-out cell, so on each cell at most one copy is outstanding, and no slot is touched while a copy on it is
  pending. The tile's rows of each output are held chunk by chunk for the run and joined again at the end.
-/
import proofs.«204681_g65575560675685_cont_9to1_m_144_57_alg».proof.Proof.ScTileLib1
import proofs.«204681_g65575560675685_cont_9to1_m_144_57_alg».proof.Proof.ScTileStmtV1
import proofs.«204681_g65575560675685_cont_9to1_m_144_57_alg».proof.Proof.ScTileRead1
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204681_g65575560675685_cont_9to1_m_144_57_alg».proof.Proof.Gen.KernelIdeal
import proofs.«204681_g65575560675685_cont_9to1_m_144_57_alg».proof.Proof.Gen.KernelIdeal.Skeleton

noncomputable section

namespace Cert.Proof.KernelIdeal.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} {U : Type} [URA U] [CountersIn U]

set_option quotPrecheck false in
local notation "𝕄" => Mach F U

local notation "tuV" => (Memref.whole main_arg1_scv : Memref sig Kind.scVector Space.hbm S100000x128 EltTy.f32)
local notation "tiV" => (Memref.whole main_arg2_scv : Memref sig Kind.scVector Space.hbm S100000x128 EltTy.f32)
local notation "iuV" => (Memref.whole main_v65_scv : Memref sig Kind.scVector Space.hbm S32x18x128 EltTy.i32)
local notation "iiV" => (Memref.whole main_v93_scv : Memref sig Kind.scVector Space.hbm S32x18x128 EltTy.i32)
local notation "ouV" => (Memref.whole main_v95_0_scv : Memref sig Kind.scVector Space.hbm S51200x128 EltTy.f32)
local notation "oiV" => (Memref.whole main_v95_1_scv : Memref sig Kind.scVector Space.hbm S51200x128 EltTy.f32)
local notation "luV" => (Memref.whole cc1_scratch0 : Memref sig Kind.scVector Space.vmem S18x128 EltTy.i32)
local notation "liV" => (Memref.whole cc1_scratch1 : Memref sig Kind.scVector Space.vmem S18x128 EltTy.i32)
local notation "b0V" => (Memref.whole cc1_scratch2 : Memref sig Kind.scVector Space.vmem S128x128 EltTy.f32)
local notation "b1V" => (Memref.whole cc1_scratch3 : Memref sig Kind.scVector Space.vmem S128x128 EltTy.f32)
local notation "b2V" => (Memref.whole cc1_scratch4 : Memref sig Kind.scVector Space.vmem S128x128 EltTy.f32)
local notation "b3V" => (Memref.whole cc1_scratch5 : Memref sig Kind.scVector Space.vmem S128x128 EltTy.f32)
local notation "b4V" => (Memref.whole cc1_scratch6 : Memref sig Kind.scVector Space.vmem S128x128 EltTy.f32)
local notation "b5V" => (Memref.whole cc1_scratch7 : Memref sig Kind.scVector Space.vmem S128x128 EltTy.f32)
local notation "b6V" => (Memref.whole cc1_scratch8 : Memref sig Kind.scVector Space.vmem S128x128 EltTy.f32)

section Tile

variable (d : Dev nD) (L : grid1.Coords)
variable [FloatOps F]

/-- Two chunks of a core-1 tile are disjoint row ranges. -/
theorem chunkA1_disj : ∀ (L : grid1.Coords) (h2 : k1_cond2 L = 1#1) (r r' : Fin 7), r ≠ r' →
    LoadRect.disj (Rect.unit (s := S51200x128) (k1_off3 L (BitVec.ofNat 32 (128 * r.val))) S128x128.size (k1_off3_inb L h2 r))
      (Rect.unit (s := S51200x128) (k1_off3 L (BitVec.ofNat 32 (128 * r'.val))) S128x128.size (k1_off3_inb L h2 r')).toLoadRect = true := by
  decide +kernel

theorem ouC1_disj (h2 : k1_cond2 L = 1#1) (r r' : Fin 7) (hne : r ≠ r') : Disjoint (ouC1 L h2 r).view.set (ouC1 L h2 r').view.set :=
  View.disjoint_slice_of_disj _ _ _ (chunkA1_disj L h2 r r' hne)

/-- The tile's rows of the user output, chunk by chunk. -/
theorem outPts1 (h2 : k1_cond2 L = 1#1) (f : Buf (Elt F) (ouLoc d)) :
    (ouLoc d ↦[outSet1 L h2]{fullShare} f : sProp 𝕄)
      = iprop((ouLoc d ↦[(ouC1 L h2 0).view.set]{fullShare} f) ∗ (ouLoc d ↦[(ouC1 L h2 1).view.set]{fullShare} f) ∗ (ouLoc d ↦[(ouC1 L h2 2).view.set]{fullShare} f) ∗ (ouLoc d ↦[(ouC1 L h2 3).view.set]{fullShare} f) ∗ (ouLoc d ↦[(ouC1 L h2 4).view.set]{fullShare} f) ∗ (ouLoc d ↦[(ouC1 L h2 5).view.set]{fullShare} f) ∗ (ouLoc d ↦[(ouC1 L h2 6).view.set]{fullShare} f)) := by
  unfold outSet1
  rw [pointsTo_biUnion _ _ (fun r _ r' _ hne => ouC1_disj L h2 r r' hne), bigSep_fin7]
/-- The tile's rows of the item output, chunk by chunk. -/
theorem outPts1i (h2 : k1_cond2 L = 1#1) (f : Buf (Elt F) (oiLoc d)) :
    (oiLoc d ↦[outSet1 L h2]{fullShare} f : sProp 𝕄)
      = iprop((oiLoc d ↦[(oiC1 L h2 0).view.set]{fullShare} f) ∗ (oiLoc d ↦[(oiC1 L h2 1).view.set]{fullShare} f) ∗ (oiLoc d ↦[(oiC1 L h2 2).view.set]{fullShare} f) ∗ (oiLoc d ↦[(oiC1 L h2 3).view.set]{fullShare} f) ∗ (oiLoc d ↦[(oiC1 L h2 4).view.set]{fullShare} f) ∗ (oiLoc d ↦[(oiC1 L h2 5).view.set]{fullShare} f) ∗ (oiLoc d ↦[(oiC1 L h2 6).view.set]{fullShare} f)) := by
  unfold outSet1
  rw [pointsTo_biUnion (ℓ := oiLoc d) _ _ (fun r _ r' _ hne => ouC1_disj L h2 r r' hne), bigSep_fin7]
  rfl

set_option maxHeartbeats 40000000 in
/-- The chunks joined: together they are the tile's rows at one contents, which agrees with each chunk's own on the
    chunk's elements. -/
theorem outJoin1V (h2 : k1_cond2 L = 1#1) (c0 c1 c2 c3 c4 c5 c6 : Buf (Elt F) (ouLoc d)) :
    (iprop((ouLoc d ↦[(ouC1 L h2 0).view.set]{fullShare} c0) ∗ (ouLoc d ↦[(ouC1 L h2 1).view.set]{fullShare} c1) ∗ (ouLoc d ↦[(ouC1 L h2 2).view.set]{fullShare} c2) ∗ (ouLoc d ↦[(ouC1 L h2 3).view.set]{fullShare} c3) ∗ (ouLoc d ↦[(ouC1 L h2 4).view.set]{fullShare} c4) ∗ (ouLoc d ↦[(ouC1 L h2 5).view.set]{fullShare} c5) ∗ (ouLoc d ↦[(ouC1 L h2 6).view.set]{fullShare} c6)) : sProp 𝕄)
      ⊢ iprop(∃ g, ⌜∀ (r : Fin 7) (y : S128x128.Idx), g ((ouC1 L h2 r).view.emb y) = ((![c0, c1, c2, c3, c4, c5, c6] : Fin 7 → Buf (Elt F) (ouLoc d)) r) ((ouC1 L h2 r).view.emb y)⌝
          ∗ ouLoc d ↦[outSet1 L h2]{fullShare} g) := by
  have hj : (bigSep (Finset.univ : Finset (Fin 7)) (fun r => ouLoc d ↦[(ouC1 L h2 r).view.set]{fullShare} ((![c0, c1, c2, c3, c4, c5, c6] : Fin 7 → Buf (Elt F) (ouLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (ouLoc d)) t) i⌝
          ∗ ouLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, %hg, H⟩
  iexists g
  isplitr
  · ipureintro
    intro r y
    exact hg r (Finset.mem_univ r) _ (View.emb_mem_set (ouC1 L h2 r).view y)
  · unfold outSet1
    iexact H

set_option maxHeartbeats 40000000 in
theorem outJoin1iV (h2 : k1_cond2 L = 1#1) (c0 c1 c2 c3 c4 c5 c6 : Buf (Elt F) (oiLoc d)) :
    (iprop((oiLoc d ↦[(oiC1 L h2 0).view.set]{fullShare} c0) ∗ (oiLoc d ↦[(oiC1 L h2 1).view.set]{fullShare} c1) ∗ (oiLoc d ↦[(oiC1 L h2 2).view.set]{fullShare} c2) ∗ (oiLoc d ↦[(oiC1 L h2 3).view.set]{fullShare} c3) ∗ (oiLoc d ↦[(oiC1 L h2 4).view.set]{fullShare} c4) ∗ (oiLoc d ↦[(oiC1 L h2 5).view.set]{fullShare} c5) ∗ (oiLoc d ↦[(oiC1 L h2 6).view.set]{fullShare} c6)) : sProp 𝕄)
      ⊢ iprop(∃ g, ⌜∀ (r : Fin 7) (y : S128x128.Idx), g ((oiC1 L h2 r).view.emb y) = ((![c0, c1, c2, c3, c4, c5, c6] : Fin 7 → Buf (Elt F) (oiLoc d)) r) ((oiC1 L h2 r).view.emb y)⌝
          ∗ oiLoc d ↦[outSet1 L h2]{fullShare} g) := by
  have hj : (bigSep (Finset.univ : Finset (Fin 7)) (fun r => oiLoc d ↦[(ouC1 L h2 r).view.set]{fullShare} ((![c0, c1, c2, c3, c4, c5, c6] : Fin 7 → Buf (Elt F) (oiLoc d)) r)) : sProp 𝕄)
      ⊢ iprop(∃ g, ⌜∀ t ∈ (Finset.univ : Finset (Fin 7)), ∀ i ∈ (ouC1 L h2 t).view.set, g i = ((![c0, c1, c2, c3, c4, c5, c6] : Fin 7 → Buf (Elt F) (oiLoc d)) t) i⌝
          ∗ oiLoc d ↦[Finset.univ.biUnion fun r => (ouC1 L h2 r).view.set]{fullShare} g) :=
    pointsTo_biUnion_join _ _ _ c0 (fun r _ r' _ hne => ouC1_disj L h2 r r' hne)
  rw [bigSep_fin7] at hj
  refine BIBase.Entails.trans (show _ ⊢ _ from hj) ?_
  iintro ⟨%g, %hg, H⟩
  iexists g
  isplitr
  · ipureintro
    intro r y
    exact hg r (Finset.mem_univ r) _ (View.emb_mem_set (oiC1 L h2 r).view y)
  · unfold outSet1
    iexact H

set_option maxHeartbeats 400000000 in
/-- The task of a tile of core 1: the two fetches, fourteen windows through the ring of seven slots, the drain. -/
theorem tile_bodyV1 : TileBodyV1 F U := by
  intro d L hF h2 q fu fi gu gi ou oi hpre O W hO
  simp only [cc1_gather_k_eq_skeleton]; unfold cc1_gather_k_skel
  rw [(K (F := F)).scopedBufs_V hF d (cV L) (jV L), SparseCore.Cfg.scopedSems0_V (Val := Elt F) d (cV L) (jV L), ownSems0_V, ownBufs_V]
  have hn1 : ¬ k1_cond1 L = 1#1 := cond_excl L h2
  have hinU0 : ∀ (fl : Buf (Elt F) ((luV).view.loc (V d (cV L) (jV L)))) x, ((rowU 0 inb_S18x128_S1x128_0_0).view.read (Elt F) (View.write (Elt F) (luV).view fl ((iuSlab L).view.read (Elt F) gu) Finset.univ) x).toNat < S100000x128.size gathers_S100000x128_S128x128.axis :=
    fun fl => list_inbU d L gu hpre.1 0 _ fl _ rfl
  have hinI0 : ∀ (fl : Buf (Elt F) ((liV).view.loc (V d (cV L) (jV L)))) x, ((rowI 0 inb_S18x128_S1x128_0_0).view.read (Elt F) (View.write (Elt F) (liV).view fl ((iiSlab L).view.read (Elt F) gi) Finset.univ) x).toNat < S100000x128.size gathers_S100000x128_S128x128.axis :=
    fun fl => list_inbI d L gi hpre.2 0 _ fl _ rfl
  have hinU1 : ∀ (fl : Buf (Elt F) ((luV).view.loc (V d (cV L) (jV L)))) x, ((rowU 1 inb_S18x128_S1x128_1_0).view.read (Elt F) (View.write (Elt F) (luV).view fl ((iuSlab L).view.read (Elt F) gu) Finset.univ) x).toNat < S100000x128.size gathers_S100000x128_S128x128.axis :=
    fun fl => list_inbU d L gu hpre.1 1 _ fl _ rfl
  have hinI1 : ∀ (fl : Buf (Elt F) ((liV).view.loc (V d (cV L) (jV L)))) x, ((rowI 1 inb_S18x128_S1x128_1_0).view.read (Elt F) (View.write (Elt F) (liV).view fl ((iiSlab L).view.read (Elt F) gi) Finset.univ) x).toNat < S100000x128.size gathers_S100000x128_S128x128.axis :=
    fun fl => list_inbI d L gi hpre.2 1 _ fl _ rfl
  have hinU2 : ∀ (fl : Buf (Elt F) ((luV).view.loc (V d (cV L) (jV L)))) x, ((rowU 2 inb_S18x128_S1x128_2_0).view.read (Elt F) (View.write (Elt F) (luV).view fl ((iuSlab L).view.read (Elt F) gu) Finset.univ) x).toNat < S100000x128.size gathers_S100000x128_S128x128.axis :=
    fun fl => list_inbU d L gu hpre.1 2 _ fl _ rfl
  have hinI2 : ∀ (fl : Buf (Elt F) ((liV).view.loc (V d (cV L) (jV L)))) x, ((rowI 2 inb_S18x128_S1x128_2_0).view.read (Elt F) (View.write (Elt F) (liV).view fl ((iiSlab L).view.read (Elt F) gi) Finset.univ) x).toNat < S100000x128.size gathers_S100000x128_S128x128.axis :=
    fun fl => list_inbI d L gi hpre.2 2 _ fl _ rfl
  have hinU3 : ∀ (fl : Buf (Elt F) ((luV).view.loc (V d (cV L) (jV L)))) x, ((rowU 3 inb_S18x128_S1x128_3_0).view.read (Elt F) (View.write (Elt F) (luV).view fl ((iuSlab L).view.read (Elt F) gu) Finset.univ) x).toNat < S100000x128.size gathers_S100000x128_S128x128.axis :=
    fun fl => list_inbU d L gu hpre.1 3 _ fl _ rfl
  have hinI3 : ∀ (fl : Buf (Elt F) ((liV).view.loc (V d (cV L) (jV L)))) x, ((rowI 3 inb_S18x128_S1x128_3_0).view.read (Elt F) (View.write (Elt F) (liV).view fl ((iiSlab L).view.read (Elt F) gi) Finset.univ) x).toNat < S100000x128.size gathers_S100000x128_S128x128.axis :=
    fun fl => list_inbI d L gi hpre.2 3 _ fl _ rfl
  have hinU4 : ∀ (fl : Buf (Elt F) ((luV).view.loc (V d (cV L) (jV L)))) x, ((rowU 4 inb_S18x128_S1x128_4_0).view.read (Elt F) (View.write (Elt F) (luV).view fl ((iuSlab L).view.read (Elt F) gu) Finset.univ) x).toNat < S100000x128.size gathers_S100000x128_S128x128.axis :=
    fun fl => list_inbU d L gu hpre.1 4 _ fl _ rfl
  have hinI4 : ∀ (fl : Buf (Elt F) ((liV).view.loc (V d (cV L) (jV L)))) x, ((rowI 4 inb_S18x128_S1x128_4_0).view.read (Elt F) (View.write (Elt F) (liV).view fl ((iiSlab L).view.read (Elt F) gi) Finset.univ) x).toNat < S100000x128.size gathers_S100000x128_S128x128.axis :=
    fun fl => list_inbI d L gi hpre.2 4 _ fl _ rfl
  have hinU5 : ∀ (fl : Buf (Elt F) ((luV).view.loc (V d (cV L) (jV L)))) x, ((rowU 5 inb_S18x128_S1x128_5_0).view.read (Elt F) (View.write (Elt F) (luV).view fl ((iuSlab L).view.read (Elt F) gu) Finset.univ) x).toNat < S100000x128.size gathers_S100000x128_S128x128.axis :=
    fun fl => list_inbU d L gu hpre.1 5 _ fl _ rfl
  have hinI5 : ∀ (fl : Buf (Elt F) ((liV).view.loc (V d (cV L) (jV L)))) x, ((rowI 5 inb_S18x128_S1x128_5_0).view.read (Elt F) (View.write (Elt F) (liV).view fl ((iiSlab L).view.read (Elt F) gi) Finset.univ) x).toNat < S100000x128.size gathers_S100000x128_S128x128.axis :=
    fun fl => list_inbI d L gi hpre.2 5 _ fl _ rfl
  have hinU6 : ∀ (fl : Buf (Elt F) ((luV).view.loc (V d (cV L) (jV L)))) x, ((rowU 6 inb_S18x128_S1x128_6_0).view.read (Elt F) (View.write (Elt F) (luV).view fl ((iuSlab L).view.read (Elt F) gu) Finset.univ) x).toNat < S100000x128.size gathers_S100000x128_S128x128.axis :=
    fun fl => list_inbU d L gu hpre.1 6 _ fl _ rfl
  have hinI6 : ∀ (fl : Buf (Elt F) ((liV).view.loc (V d (cV L) (jV L)))) x, ((rowI 6 inb_S18x128_S1x128_6_0).view.read (Elt F) (View.write (Elt F) (liV).view fl ((iiSlab L).view.read (Elt F) gi) Finset.univ) x).toNat < S100000x128.size gathers_S100000x128_S128x128.axis :=
    fun fl => list_inbI d L gi hpre.2 6 _ fl _ rfl
  iintro ⟨#Hlv, -, ⟨Hgu, Hgi, Htu, Hti, Hou, Hoi⟩, ⟨⟨⟨%fl0, Hl0⟩, ⟨%fl1, Hl1⟩, ⟨%fb0, Hb0⟩, ⟨%fb1, Hb1⟩, ⟨%fb2, Hb2⟩, ⟨%fb3, Hb3⟩, ⟨%fb4, Hb4⟩, ⟨%fb5, Hb5⟩, ⟨%fb6, Hb6⟩⟩, Hbufs⟩, ⟨⟨Hg0, Hg1, Hg2, Hg3, Hg4, Hg5, Hg6, Hw0, Hw1, Hw2, Hw3, Hw4, Hw5, Hw6, Hf0, Hf1⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hgu' := (Entails.of_eq (show (iuLoc d ↦[(iuSlab L).view.set]{fullShare} gu : sProp 𝕄) = ((iuSlab L).view.loc (V d (cV L) (jV L)) ↦[(iuSlab L).view.set]{fullShare} gu) from rfl)) $$ Hgu
  ihave Hgi' := (Entails.of_eq (show (iiLoc d ↦[(iiSlab L).view.set]{fullShare} gi : sProp 𝕄) = ((iiSlab L).view.loc (V d (cV L) (jV L)) ↦[(iiSlab L).view.set]{fullShare} gi) from rfl)) $$ Hgi
  ihave Hl0' := (Entails.of_eq (show ((V d (cV L) (jV L)).loc cc1_scratch0 ↦{fullShare} fl0 : sProp 𝕄) = ((luV).view.loc (V d (cV L) (jV L)) ↦{fullShare} fl0) from rfl)) $$ Hl0
  ihave Hl1' := (Entails.of_eq (show ((V d (cV L) (jV L)).loc cc1_scratch1 ↦{fullShare} fl1 : sProp 𝕄) = ((liV).view.loc (V d (cV L) (jV L)) ↦{fullShare} fl1) from rfl)) $$ Hl1
  ihave Hb0' := (Entails.of_eq (show ((V d (cV L) (jV L)).loc cc1_scratch2 ↦{fullShare} fb0 : sProp 𝕄) = ((b0V).view.loc (V d (cV L) (jV L)) ↦{fullShare} fb0) from rfl)) $$ Hb0
  ihave Hb1' := (Entails.of_eq (show ((V d (cV L) (jV L)).loc cc1_scratch3 ↦{fullShare} fb1 : sProp 𝕄) = ((b1V).view.loc (V d (cV L) (jV L)) ↦{fullShare} fb1) from rfl)) $$ Hb1
  ihave Hb2' := (Entails.of_eq (show ((V d (cV L) (jV L)).loc cc1_scratch4 ↦{fullShare} fb2 : sProp 𝕄) = ((b2V).view.loc (V d (cV L) (jV L)) ↦{fullShare} fb2) from rfl)) $$ Hb2
  ihave Hb3' := (Entails.of_eq (show ((V d (cV L) (jV L)).loc cc1_scratch5 ↦{fullShare} fb3 : sProp 𝕄) = ((b3V).view.loc (V d (cV L) (jV L)) ↦{fullShare} fb3) from rfl)) $$ Hb3
  ihave Hb4' := (Entails.of_eq (show ((V d (cV L) (jV L)).loc cc1_scratch6 ↦{fullShare} fb4 : sProp 𝕄) = ((b4V).view.loc (V d (cV L) (jV L)) ↦{fullShare} fb4) from rfl)) $$ Hb4
  ihave Hb5' := (Entails.of_eq (show ((V d (cV L) (jV L)).loc cc1_scratch7 ↦{fullShare} fb5 : sProp 𝕄) = ((b5V).view.loc (V d (cV L) (jV L)) ↦{fullShare} fb5) from rfl)) $$ Hb5
  ihave Hb6' := (Entails.of_eq (show ((V d (cV L) (jV L)).loc cc1_scratch8 ↦{fullShare} fb6 : sProp 𝕄) = ((b6V).view.loc (V d (cV L) (jV L)) ↦{fullShare} fb6) from rfl)) $$ Hb6
  ihave Htu' := (toks7 (F := F) (U := U) (ℓ := tuLoc d) (S := Finset.univ) (f := fu) q).1 $$ Htu
  icases Htu' with ⟨Htur, Htu0, Htu1, Htu2, Htu3, Htu4, Htu5, Htu6⟩
  ihave Hti' := (toks7 (F := F) (U := U) (ℓ := tiLoc d) (S := Finset.univ) (f := fi) q).1 $$ Hti
  icases Hti' with ⟨Htir, Hti0, Hti1, Hti2, Hti3, Hti4, Hti5, Hti6⟩
  ihave Htu0' := (Entails.of_eq (show (tuLoc d ↦{Transfers.shareTokN q 16} fu : sProp 𝕄) = ((tuV).view.loc (V d (cV L) (jV L)) ↦{Transfers.shareTokN q 16} fu) from rfl)) $$ Htu0
  ihave Hti0' := (Entails.of_eq (show (tiLoc d ↦{Transfers.shareTokN q 16} fi : sProp 𝕄) = ((tiV).view.loc (V d (cV L) (jV L)) ↦{Transfers.shareTokN q 16} fi) from rfl)) $$ Hti0
  ihave Htu1' := (Entails.of_eq (show (tuLoc d ↦{Transfers.shareTokN q 17} fu : sProp 𝕄) = ((tuV).view.loc (V d (cV L) (jV L)) ↦{Transfers.shareTokN q 17} fu) from rfl)) $$ Htu1
  ihave Hti1' := (Entails.of_eq (show (tiLoc d ↦{Transfers.shareTokN q 17} fi : sProp 𝕄) = ((tiV).view.loc (V d (cV L) (jV L)) ↦{Transfers.shareTokN q 17} fi) from rfl)) $$ Hti1
  ihave Htu2' := (Entails.of_eq (show (tuLoc d ↦{Transfers.shareTokN q 18} fu : sProp 𝕄) = ((tuV).view.loc (V d (cV L) (jV L)) ↦{Transfers.shareTokN q 18} fu) from rfl)) $$ Htu2
  ihave Hti2' := (Entails.of_eq (show (tiLoc d ↦{Transfers.shareTokN q 18} fi : sProp 𝕄) = ((tiV).view.loc (V d (cV L) (jV L)) ↦{Transfers.shareTokN q 18} fi) from rfl)) $$ Hti2
  ihave Htu3' := (Entails.of_eq (show (tuLoc d ↦{Transfers.shareTokN q 19} fu : sProp 𝕄) = ((tuV).view.loc (V d (cV L) (jV L)) ↦{Transfers.shareTokN q 19} fu) from rfl)) $$ Htu3
  ihave Hti3' := (Entails.of_eq (show (tiLoc d ↦{Transfers.shareTokN q 19} fi : sProp 𝕄) = ((tiV).view.loc (V d (cV L) (jV L)) ↦{Transfers.shareTokN q 19} fi) from rfl)) $$ Hti3
  ihave Htu4' := (Entails.of_eq (show (tuLoc d ↦{Transfers.shareTokN q 20} fu : sProp 𝕄) = ((tuV).view.loc (V d (cV L) (jV L)) ↦{Transfers.shareTokN q 20} fu) from rfl)) $$ Htu4
  ihave Hti4' := (Entails.of_eq (show (tiLoc d ↦{Transfers.shareTokN q 20} fi : sProp 𝕄) = ((tiV).view.loc (V d (cV L) (jV L)) ↦{Transfers.shareTokN q 20} fi) from rfl)) $$ Hti4
  ihave Htu5' := (Entails.of_eq (show (tuLoc d ↦{Transfers.shareTokN q 21} fu : sProp 𝕄) = ((tuV).view.loc (V d (cV L) (jV L)) ↦{Transfers.shareTokN q 21} fu) from rfl)) $$ Htu5
  ihave Hti5' := (Entails.of_eq (show (tiLoc d ↦{Transfers.shareTokN q 21} fi : sProp 𝕄) = ((tiV).view.loc (V d (cV L) (jV L)) ↦{Transfers.shareTokN q 21} fi) from rfl)) $$ Hti5
  ihave Htu6' := (Entails.of_eq (show (tuLoc d ↦{Transfers.shareTokN q 22} fu : sProp 𝕄) = ((tuV).view.loc (V d (cV L) (jV L)) ↦{Transfers.shareTokN q 22} fu) from rfl)) $$ Htu6
  ihave Hti6' := (Entails.of_eq (show (tiLoc d ↦{Transfers.shareTokN q 22} fi : sProp 𝕄) = ((tiV).view.loc (V d (cV L) (jV L)) ↦{Transfers.shareTokN q 22} fi) from rfl)) $$ Hti6
  ihave Hou' := (Entails.of_eq (outPts1 (F := F) (U := U) d L h2 ou)) $$ Hou
  icases Hou' with ⟨Hou0, Hou1, Hou2, Hou3, Hou4, Hou5, Hou6⟩
  ihave Hoi' := (Entails.of_eq (outPts1i (F := F) (U := U) d L h2 oi)) $$ Hoi
  icases Hoi' with ⟨Hoi0, Hoi1, Hoi2, Hoi3, Hoi4, Hoi5, Hoi6⟩
  ihave Hou0' := (Entails.of_eq (show (ouLoc d ↦[(ouC1 L h2 0).view.set]{fullShare} ou : sProp 𝕄) = (((ouV).slice (Rect.unit (s := S51200x128) (k1_off3 L 0#32) S128x128.size (k1_off3_inb L h2 0)) (fun _ => rfl)).view.loc (V d (cV L) (jV L)) ↦[((ouV).slice (Rect.unit (s := S51200x128) (k1_off3 L 0#32) S128x128.size (k1_off3_inb L h2 0)) (fun _ => rfl)).view.set]{fullShare} ou) from rfl)) $$ Hou0
  ihave Hoi0' := (Entails.of_eq (show (oiLoc d ↦[(oiC1 L h2 0).view.set]{fullShare} oi : sProp 𝕄) = (((oiV).slice (Rect.unit (s := S51200x128) (k1_off3 L 0#32) S128x128.size (k1_off3_inb L h2 0)) (fun _ => rfl)).view.loc (V d (cV L) (jV L)) ↦[((oiV).slice (Rect.unit (s := S51200x128) (k1_off3 L 0#32) S128x128.size (k1_off3_inb L h2 0)) (fun _ => rfl)).view.set]{fullShare} oi) from rfl)) $$ Hoi0
  ihave Hou1' := (Entails.of_eq (show (ouLoc d ↦[(ouC1 L h2 1).view.set]{fullShare} ou : sProp 𝕄) = (((ouV).slice (Rect.unit (s := S51200x128) (k1_off3 L 128#32) S128x128.size (k1_off3_inb L h2 1)) (fun _ => rfl)).view.loc (V d (cV L) (jV L)) ↦[((ouV).slice (Rect.unit (s := S51200x128) (k1_off3 L 128#32) S128x128.size (k1_off3_inb L h2 1)) (fun _ => rfl)).view.set]{fullShare} ou) from rfl)) $$ Hou1
  ihave Hoi1' := (Entails.of_eq (show (oiLoc d ↦[(oiC1 L h2 1).view.set]{fullShare} oi : sProp 𝕄) = (((oiV).slice (Rect.unit (s := S51200x128) (k1_off3 L 128#32) S128x128.size (k1_off3_inb L h2 1)) (fun _ => rfl)).view.loc (V d (cV L) (jV L)) ↦[((oiV).slice (Rect.unit (s := S51200x128) (k1_off3 L 128#32) S128x128.size (k1_off3_inb L h2 1)) (fun _ => rfl)).view.set]{fullShare} oi) from rfl)) $$ Hoi1
  ihave Hou2' := (Entails.of_eq (show (ouLoc d ↦[(ouC1 L h2 2).view.set]{fullShare} ou : sProp 𝕄) = (((ouV).slice (Rect.unit (s := S51200x128) (k1_off3 L 256#32) S128x128.size (k1_off3_inb L h2 2)) (fun _ => rfl)).view.loc (V d (cV L) (jV L)) ↦[((ouV).slice (Rect.unit (s := S51200x128) (k1_off3 L 256#32) S128x128.size (k1_off3_inb L h2 2)) (fun _ => rfl)).view.set]{fullShare} ou) from rfl)) $$ Hou2
  ihave Hoi2' := (Entails.of_eq (show (oiLoc d ↦[(oiC1 L h2 2).view.set]{fullShare} oi : sProp 𝕄) = (((oiV).slice (Rect.unit (s := S51200x128) (k1_off3 L 256#32) S128x128.size (k1_off3_inb L h2 2)) (fun _ => rfl)).view.loc (V d (cV L) (jV L)) ↦[((oiV).slice (Rect.unit (s := S51200x128) (k1_off3 L 256#32) S128x128.size (k1_off3_inb L h2 2)) (fun _ => rfl)).view.set]{fullShare} oi) from rfl)) $$ Hoi2
  ihave Hou3' := (Entails.of_eq (show (ouLoc d ↦[(ouC1 L h2 3).view.set]{fullShare} ou : sProp 𝕄) = (((ouV).slice (Rect.unit (s := S51200x128) (k1_off3 L 384#32) S128x128.size (k1_off3_inb L h2 3)) (fun _ => rfl)).view.loc (V d (cV L) (jV L)) ↦[((ouV).slice (Rect.unit (s := S51200x128) (k1_off3 L 384#32) S128x128.size (k1_off3_inb L h2 3)) (fun _ => rfl)).view.set]{fullShare} ou) from rfl)) $$ Hou3
  ihave Hoi3' := (Entails.of_eq (show (oiLoc d ↦[(oiC1 L h2 3).view.set]{fullShare} oi : sProp 𝕄) = (((oiV).slice (Rect.unit (s := S51200x128) (k1_off3 L 384#32) S128x128.size (k1_off3_inb L h2 3)) (fun _ => rfl)).view.loc (V d (cV L) (jV L)) ↦[((oiV).slice (Rect.unit (s := S51200x128) (k1_off3 L 384#32) S128x128.size (k1_off3_inb L h2 3)) (fun _ => rfl)).view.set]{fullShare} oi) from rfl)) $$ Hoi3
  ihave Hou4' := (Entails.of_eq (show (ouLoc d ↦[(ouC1 L h2 4).view.set]{fullShare} ou : sProp 𝕄) = (((ouV).slice (Rect.unit (s := S51200x128) (k1_off3 L 512#32) S128x128.size (k1_off3_inb L h2 4)) (fun _ => rfl)).view.loc (V d (cV L) (jV L)) ↦[((ouV).slice (Rect.unit (s := S51200x128) (k1_off3 L 512#32) S128x128.size (k1_off3_inb L h2 4)) (fun _ => rfl)).view.set]{fullShare} ou) from rfl)) $$ Hou4
  ihave Hoi4' := (Entails.of_eq (show (oiLoc d ↦[(oiC1 L h2 4).view.set]{fullShare} oi : sProp 𝕄) = (((oiV).slice (Rect.unit (s := S51200x128) (k1_off3 L 512#32) S128x128.size (k1_off3_inb L h2 4)) (fun _ => rfl)).view.loc (V d (cV L) (jV L)) ↦[((oiV).slice (Rect.unit (s := S51200x128) (k1_off3 L 512#32) S128x128.size (k1_off3_inb L h2 4)) (fun _ => rfl)).view.set]{fullShare} oi) from rfl)) $$ Hoi4
  ihave Hou5' := (Entails.of_eq (show (ouLoc d ↦[(ouC1 L h2 5).view.set]{fullShare} ou : sProp 𝕄) = (((ouV).slice (Rect.unit (s := S51200x128) (k1_off3 L 640#32) S128x128.size (k1_off3_inb L h2 5)) (fun _ => rfl)).view.loc (V d (cV L) (jV L)) ↦[((ouV).slice (Rect.unit (s := S51200x128) (k1_off3 L 640#32) S128x128.size (k1_off3_inb L h2 5)) (fun _ => rfl)).view.set]{fullShare} ou) from rfl)) $$ Hou5
  ihave Hoi5' := (Entails.of_eq (show (oiLoc d ↦[(oiC1 L h2 5).view.set]{fullShare} oi : sProp 𝕄) = (((oiV).slice (Rect.unit (s := S51200x128) (k1_off3 L 640#32) S128x128.size (k1_off3_inb L h2 5)) (fun _ => rfl)).view.loc (V d (cV L) (jV L)) ↦[((oiV).slice (Rect.unit (s := S51200x128) (k1_off3 L 640#32) S128x128.size (k1_off3_inb L h2 5)) (fun _ => rfl)).view.set]{fullShare} oi) from rfl)) $$ Hoi5
  ihave Hou6' := (Entails.of_eq (show (ouLoc d ↦[(ouC1 L h2 6).view.set]{fullShare} ou : sProp 𝕄) = (((ouV).slice (Rect.unit (s := S51200x128) (k1_off3 L 768#32) S128x128.size (k1_off3_inb L h2 6)) (fun _ => rfl)).view.loc (V d (cV L) (jV L)) ↦[((ouV).slice (Rect.unit (s := S51200x128) (k1_off3 L 768#32) S128x128.size (k1_off3_inb L h2 6)) (fun _ => rfl)).view.set]{fullShare} ou) from rfl)) $$ Hou6
  ihave Hoi6' := (Entails.of_eq (show (oiLoc d ↦[(oiC1 L h2 6).view.set]{fullShare} oi : sProp 𝕄) = (((oiV).slice (Rect.unit (s := S51200x128) (k1_off3 L 768#32) S128x128.size (k1_off3_inb L h2 6)) (fun _ => rfl)).view.loc (V d (cV L) (jV L)) ↦[((oiV).slice (Rect.unit (s := S51200x128) (k1_off3 L 768#32) S128x128.size (k1_off3_inb L h2 6)) (fun _ => rfl)).view.set]{fullShare} oi) from rfl)) $$ Hoi6
  sl_exec
  sl_step
  ihave Htu := (toks7 (F := F) (U := U) (ℓ := tuLoc d) (S := Finset.univ) (f := fu) q).2 $$ [Htur Htu0' Htu1' Htu2' Htu3' Htu4' Htu5' Htu6']
  · isplitl [Htur]; · iexact Htur
    isplitl [Htu0']; · iexact Htu0'
    isplitl [Htu1']; · iexact Htu1'
    isplitl [Htu2']; · iexact Htu2'
    isplitl [Htu3']; · iexact Htu3'
    isplitl [Htu4']; · iexact Htu4'
    isplitl [Htu5']; · iexact Htu5'
    iexact Htu6'
  ihave Hti := (toks7 (F := F) (U := U) (ℓ := tiLoc d) (S := Finset.univ) (f := fi) q).2 $$ [Htir Hti0' Hti1' Hti2' Hti3' Hti4' Hti5' Hti6']
  · isplitl [Htir]; · iexact Htir
    isplitl [Hti0']; · iexact Hti0'
    isplitl [Hti1']; · iexact Hti1'
    isplitl [Hti2']; · iexact Hti2'
    isplitl [Hti3']; · iexact Hti3'
    isplitl [Hti4']; · iexact Hti4'
    isplitl [Hti5']; · iexact Hti5'
    iexact Hti6'
  ihave HouJ := (outJoin1V (F := F) (U := U) d L h2 _ _ _ _ _ _ _) $$ [Hou0' Hou1' Hou2' Hou3' Hou4' Hou5' Hou6']
  · isplitl [Hou0']; · iexact Hou0'
    isplitl [Hou1']; · iexact Hou1'
    isplitl [Hou2']; · iexact Hou2'
    isplitl [Hou3']; · iexact Hou3'
    isplitl [Hou4']; · iexact Hou4'
    isplitl [Hou5']; · iexact Hou5'
    iexact Hou6'
  icases HouJ with ⟨%gU, %hgU, HouJ⟩
  ihave HoiJ := (outJoin1iV (F := F) (U := U) d L h2 _ _ _ _ _ _ _) $$ [Hoi0' Hoi1' Hoi2' Hoi3' Hoi4' Hoi5' Hoi6']
  · isplitl [Hoi0']; · iexact Hoi0'
    isplitl [Hoi1']; · iexact Hoi1'
    isplitl [Hoi2']; · iexact Hoi2'
    isplitl [Hoi3']; · iexact Hoi3'
    isplitl [Hoi4']; · iexact Hoi4'
    isplitl [Hoi5']; · iexact Hoi5'
    iexact Hoi6'
  icases HoiJ with ⟨%gI, %hgI, HoiJ⟩
  isplitl [Hgu' Hgi' Htu Hti HouJ HoiJ]
  · iexists gU, gI
    isplitr
    · ipureintro
      unfold tileVal1
      intro r y
      rw [hgU r y, hgI r y]
      fin_cases r
      · exact ⟨chunk_valU d L fu gu hpre.1 _ _ ou 0 _ (by decide) _ _ (hinU0 _) _ (fun y => slot_read _ _ _ _ y) y,
          chunk_valI d L fi gi hpre.2 _ _ oi 0 _ (by decide) _ _ (hinI0 _) _ (fun y => slot_read _ _ _ _ y) y⟩
      · exact ⟨chunk_valU d L fu gu hpre.1 _ _ ou 1 _ (by decide) _ _ (hinU1 _) _ (fun y => slot_read _ _ _ _ y) y,
          chunk_valI d L fi gi hpre.2 _ _ oi 1 _ (by decide) _ _ (hinI1 _) _ (fun y => slot_read _ _ _ _ y) y⟩
      · exact ⟨chunk_valU d L fu gu hpre.1 _ _ ou 2 _ (by decide) _ _ (hinU2 _) _ (fun y => slot_read _ _ _ _ y) y,
          chunk_valI d L fi gi hpre.2 _ _ oi 2 _ (by decide) _ _ (hinI2 _) _ (fun y => slot_read _ _ _ _ y) y⟩
      · exact ⟨chunk_valU d L fu gu hpre.1 _ _ ou 3 _ (by decide) _ _ (hinU3 _) _ (fun y => slot_read _ _ _ _ y) y,
          chunk_valI d L fi gi hpre.2 _ _ oi 3 _ (by decide) _ _ (hinI3 _) _ (fun y => slot_read _ _ _ _ y) y⟩
      · exact ⟨chunk_valU d L fu gu hpre.1 _ _ ou 4 _ (by decide) _ _ (hinU4 _) _ (fun y => slot_read _ _ _ _ y) y,
          chunk_valI d L fi gi hpre.2 _ _ oi 4 _ (by decide) _ _ (hinI4 _) _ (fun y => slot_read _ _ _ _ y) y⟩
      · exact ⟨chunk_valU d L fu gu hpre.1 _ _ ou 5 _ (by decide) _ _ (hinU5 _) _ (fun y => slot_read _ _ _ _ y) y,
          chunk_valI d L fi gi hpre.2 _ _ oi 5 _ (by decide) _ _ (hinI5 _) _ (fun y => slot_read _ _ _ _ y) y⟩
      · exact ⟨chunk_valU d L fu gu hpre.1 _ _ ou 6 _ (by decide) _ _ (hinU6 _) _ (fun y => slot_read _ _ _ _ y) y,
          chunk_valI d L fi gi hpre.2 _ _ oi 6 _ (by decide) _ _ (hinI6 _) _ (fun y => slot_read _ _ _ _ y) y⟩
    isplitl [Hgu']; · iexact Hgu'
    isplitl [Hgi']; · iexact Hgi'
    isplitl [Htu]; · iexact Htu
    isplitl [Hti]; · iexact Hti
    isplitl [HouJ]; · iexact HouJ
    iexact HoiJ
  isplitl [Hl0' Hl1' Hb0' Hb1' Hb2' Hb3' Hb4' Hb5' Hb6' Hbufs]
  · isplitr [Hbufs]
    · isplitl [Hl0']; · iexists _; iexact Hl0'
      isplitl [Hl1']; · iexists _; iexact Hl1'
      isplitl [Hb0']; · iexists _; iexact Hb0'
      isplitl [Hb1']; · iexists _; iexact Hb1'
      isplitl [Hb2']; · iexists _; iexact Hb2'
      isplitl [Hb3']; · iexists _; iexact Hb3'
      isplitl [Hb4']; · iexists _; iexact Hb4'
      isplitl [Hb5']; · iexists _; iexact Hb5'
      iexists _; iexact Hb6'
    · iexact Hbufs
  isplitl [Hg0 Hg1 Hg2 Hg3 Hg4 Hg5 Hg6 Hw0 Hw1 Hw2 Hw3 Hw4 Hw5 Hw6 Hf0 Hf1 Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hf0]; · iexact Hf0
      iexact Hf1
    · iexact Hsems
  iexists _; isplitr
  swap; · iexact HO
  ipureintro
  repeat (first | exact fun p hp => Or.inl hp | refine waits_ok _ ?_)

end Tile

end Cert.Proof.KernelIdeal.ScTile1

end
-- ==== Proof.CoreVI.lean ====
/-
  The kernel program's run with values at any float instance: every tile's task with its rows' contents named and the
  named join put together.
-/
import proofs.«204681_g65575560675685_cont_9to1_m_144_57_alg».proof.Proof.FramesVI
import proofs.«204681_g65575560675685_cont_9to1_m_144_57_alg».proof.Proof.JoinAdaptI
import proofs.«204681_g65575560675685_cont_9to1_m_144_57_alg».proof.Proof.ScTileV0c0
import proofs.«204681_g65575560675685_cont_9to1_m_144_57_alg».proof.Proof.ScTileV0c1
import proofs.«204681_g65575560675685_cont_9to1_m_144_57_alg».proof.Proof.ScTileV1c0
import proofs.«204681_g65575560675685_cont_9to1_m_144_57_alg».proof.Proof.ScTileV1c1

noncomputable section

namespace Cert.KernelIdeal.LaunchV

open Cert.KernelIdeal Idealize.ShloMosaic

variable {F : FTy → Type} [FloatOps F]

theorem coreV : Core F (gAll (F := F)) where
  hb00 := Cert.Proof.KernelIdeal.ScTile0.tile_bodyV0
  hb01 := Cert.Proof.KernelIdeal.ScTile0.tile_bodyV1
  hb10 := Cert.Proof.KernelIdeal.ScTile1.tile_bodyV0
  hb11 := Cert.Proof.KernelIdeal.ScTile1.tile_bodyV1
  hj0 := hjV0
  hj1 := hjV1

end Cert.KernelIdeal.LaunchV

end
-- ==== Proof.CoreFromVI.lean ====
/-
  The idealized kernel program's frame from the tiles' tasks with their rows' contents named: forgetting the names.
-/
import proofs.«204681_g65575560675685_cont_9to1_m_144_57_alg».proof.Proof.CoreVI
import proofs.«204681_g65575560675685_cont_9to1_m_144_57_alg».proof.Proof.CoreRegionsI

noncomputable section

namespace Cert.KernelIdeal.LaunchV

open Cert.KernelIdeal Idealize.ShloMosaic

variable {F : FTy → Type} [FloatOps F]

/-- Everything the frame asks for, the tile bodies by forgetting what they leave in the outputs. -/
def coreOfV : Launch.Core F where
  hb00 := Cert.Proof.KernelIdeal.ScTile0.TileBody0_of_V (coreV (F := F)).hb00
  hb01 := Cert.Proof.KernelIdeal.ScTile0.TileBody1_of_V (coreV (F := F)).hb01
  hb10 := Cert.Proof.KernelIdeal.ScTile1.TileBody0_of_V (coreV (F := F)).hb10
  hb11 := Cert.Proof.KernelIdeal.ScTile1.TileBody1_of_V (coreV (F := F)).hb11
  ex0 := Launch.ex0
  ex1 := Launch.ex1
  hr0 := Launch.hr0
  hr1 := Launch.hr1
  hex0 := Launch.hex0
  hex1 := Launch.hex1

end Cert.KernelIdeal.LaunchV

end
-- ==== Proof.TcPay.lean ====
import proofs.«204681_g65575560675685_cont_9to1_m_144_57_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Tc

open Cert.KernelIdeal.Gen
open Idealize.ShloMosaic Idealize.ShloMosaic.ValueIdx

/-! # The matrix-product body's payload at an index, over the extended reals

Row p, column n of the stored block is max((x0 · w0 + x1 · w1) + x2 · w2, 0) with each product the plain sum over the
128 contracted positions. -/

local notation "D" => dot_S800x128_S128x128_S800x128_1_0_0_1_n_n

/-- The left operand is read at the result's row and the contracted position. -/
theorem lhsIdx_eq (p : Fin 800) (n : Fin 128) (k : (D).contr.Idx) :
    (D).lhsIdx (ix2 p n) k = ix2 p (contrEquiv1 D 128 rfl rfl k) := by
  funext a
  apply Fin.ext
  match a with
  | ⟨0, _⟩ => simp [DotDims.lhsIdx, dot_S800x128_S128x128_S800x128_1_0_0_1_n_n]; rfl
  | ⟨1, _⟩ => simp [DotDims.lhsIdx, dot_S800x128_S128x128_S800x128_1_0_0_1_n_n, contrEquiv1]; rfl

/-- The right operand is read at the contracted position and the result's column. -/
theorem rhsIdx_eq (p : Fin 800) (n : Fin 128) (k : (D).contr.Idx) :
    (D).rhsIdx (ix2 p n) k = ix2 (contrEquiv1 D 128 rfl rfl k) n := by
  funext a
  apply Fin.ext
  match a with
  | ⟨0, _⟩ => simp [DotDims.rhsIdx, dot_S800x128_S128x128_S800x128_1_0_0_1_n_n, contrEquiv1]; rfl
  | ⟨1, _⟩ => simp [DotDims.rhsIdx, dot_S800x128_S128x128_S800x128_1_0_0_1_n_n]; rfl

/-- An 800×128 by 128×128 product into the zero accumulator, at an index. -/
theorem mm_apply (x : FVec Ideal S800x128 .f32) (w : FVec Ideal S128x128 .f32) (p : Fin 800) (n : Fin 128) :
    matmul D none x w (constant S800x128 .f32 0x00000000#32) (ix2 p n)
      = ∑ k : Fin 128, x (ix2 p k) * w (ix2 k n) := by
  simp only [matmul]
  rw [Ideal.matmul_constant_zero_apply]
  rw [← Equiv.sum_comp (contrEquiv1 D 128 rfl rfl)]
  exact Finset.sum_congr rfl fun k _ => by rw [lhsIdx_eq, rhsIdx_eq]

/-- The payload of pipeline 0's body at row p, column n. -/
theorem k2_pay1_apply (x0 : Vec Ideal S800x128 .f32) (w0 : Vec Ideal S128x128 .f32) (x1 : Vec Ideal S800x128 .f32) (w1 : Vec Ideal S128x128 .f32)
    (x2 : Vec Ideal S800x128 .f32) (w2 : Vec Ideal S128x128 .f32) (p : Fin 800) (n : Fin 128) :
    k2_pay1 x0 w0 x1 w1 x2 w2 (ix2 p n)
      = max ((∑ k : Fin 128, x0 (ix2 p k) * w0 (ix2 k n)) + (∑ k : Fin 128, x1 (ix2 p k) * w1 (ix2 k n))
          + ∑ k : Fin 128, x2 (ix2 p k) * w2 (ix2 k n)) (Ideal.ofBits .f32 0x00000000#32) := by
  unfold k2_pay1
  simp only [shapeCast_self]
  rw [maximumf_apply, addf_apply, addf_apply, mm_apply, mm_apply, mm_apply]
  rfl

/-- The payload of pipeline 1's body at row p, column n. -/
theorem k3_pay1_apply (x0 : Vec Ideal S800x128 .f32) (w0 : Vec Ideal S128x128 .f32) (x1 : Vec Ideal S800x128 .f32) (w1 : Vec Ideal S128x128 .f32)
    (x2 : Vec Ideal S800x128 .f32) (w2 : Vec Ideal S128x128 .f32) (p : Fin 800) (n : Fin 128) :
    k3_pay1 x0 w0 x1 w1 x2 w2 (ix2 p n)
      = max ((∑ k : Fin 128, x0 (ix2 p k) * w0 (ix2 k n)) + (∑ k : Fin 128, x1 (ix2 p k) * w1 (ix2 k n))
          + ∑ k : Fin 128, x2 (ix2 p k) * w2 (ix2 k n)) (Ideal.ofBits .f32 0x00000000#32) := by
  unfold k3_pay1
  simp only [shapeCast_self]
  rw [maximumf_apply, addf_apply, addf_apply, mm_apply, mm_apply, mm_apply]
  rfl

end Cert.KernelIdeal.Tc

end
-- ==== Proof.TcVal0.lean ====
import proofs.«204681_g65575560675685_cont_9to1_m_144_57_alg».proof.Proof.TcData
import proofs.«204681_g65575560675685_cont_9to1_m_144_57_alg».proof.Proof.TcPay
import Idealize.ShloMosaic.Lib.ValueIdx
import Idealize.ShloMosaic.Lib.Pipeline.Value

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 0: the output array after the region, as one function of the arrays at its entry (extended reals)

Point t writes the rows 800·(t + 0) … 800·(t + 0) + 799 of the output; row r, column n of what it writes is
max((∑ k, a0[r, k] · w[k, n]) + (∑ k, a1[r', k] · w[128 + k, n]) + (∑ k, a2[r', k] · w[256 + k, n]), 0), where a0 is the
100000-row operand, a1 and a2 the two 51200-row operands read at row r' = r − 0, and w the 384-row weight matrix. -/

section

variable (V : (c : Dev nD) → (b : Ref sig .tc) → Buf (Elt Ideal) ((c : Thread nD τ).loc b))
variable (B : Set (SemLoc sig × SparseCore.Cfg.HIx 2))

theorem hz : (![0, 0] : Fin 2 → Nat) = fun _ => 0 := funext fun a => by fin_cases a <;> rfl

/-- A row of a 51200-row operand, from any natural number (the number itself when it is below 51200). -/
abbrev rowS (r : ℕ) : Fin 51200 := ⟨r % 51200, Nat.mod_lt _ (by norm_num)⟩
theorem rowS_of_lt {r : ℕ} (h : r < 51200) : rowS r = ⟨r, h⟩ := Fin.ext (Nat.mod_eq_of_lt h)

/-- The value at row r of the 100000-row operand and of the output, row s of the two 51200-row operands, column n. -/
def gval (a0 : S100000x128.Idx → EReal) (a1 a2 : S51200x128.Idx → EReal) (w : S384x128.Idx → EReal)
    (r : Fin 100000) (s : Fin 51200) (n : Fin 128) : EReal :=
  max ((∑ k : Fin 128, a0 (ix2 r k) * w (ix2 (⟨0 + k.val, by have := k.isLt; omega⟩ : Fin 384) n))
      + (∑ k : Fin 128, a1 (ix2 s k) * w (ix2 (⟨128 + k.val, by have := k.isLt; omega⟩ : Fin 384) n))
      + ∑ k : Fin 128, a2 (ix2 s k) * w (ix2 (⟨256 + k.val, by have := k.isLt; omega⟩ : Fin 384) n)) (Ideal.ofBits .f32 0x00000000#32)

/-- The windows' block indices at every point, decided over the grid. -/
theorem idx_facts2 : ∀ t : Fin cfg2.N,
    win2_0.index t (0 : Fin 2) = t.val + 0 ∧ win2_0.index t (1 : Fin 2) = 0
  ∧ win2_1.index t (0 : Fin 2) = t.val ∧ win2_1.index t (1 : Fin 2) = 0
  ∧ win2_2.index t (0 : Fin 2) = t.val ∧ win2_2.index t (1 : Fin 2) = 0
  ∧ win2_3.index t (0 : Fin 2) = 0 ∧ win2_3.index t (1 : Fin 2) = 0
  ∧ win2_4.index t (0 : Fin 2) = t.val + 0 ∧ win2_4.index t (1 : Fin 2) = 0 :=
  (by decide +kernel : ∀ t : Fin grid2.N, _)

/-- The whole-array function the region leaves on the rows it covers. -/
def G2 (a0 : S100000x128.Idx → EReal) (a1 a2 : S51200x128.Idx → EReal) (w : S384x128.Idx → EReal) : S100000x128.Idx → EReal :=
  fun i => gval a0 a1 a2 w (i 0) (rowS ((i 0).val)) (i 1)

/-! ## The blocks read at an index -/

theorem blk2_x0 (c : Dev nD) (t : Fin cfg2.N) (p : Fin 800) (k : Fin 128) :
    iblk2 V c 0 t (ix2 p k) = V c main_arg0 (ix2 (⟨800 * (t.val + 0) + p.val, by have := t.isLt; have := p.isLt; have h64 : cfg2.N = 64 := N_2; omega⟩ : Fin 100000) k) := by
  obtain ⟨e00, e01, -⟩ := idx_facts2 t
  show V c main_arg0 (((cfg2.win 0).blk t).view.emb (ix2 p k)) = V c main_arg0 _
  congr 1
  funext a; apply Fin.ext
  match a with
  | ⟨0, _⟩ => show win2_0.index t (0 : Fin 2) * 800 + 1 * p.val = 800 * (t.val + 0) + p.val; omega
  | ⟨1, _⟩ => show win2_0.index t (1 : Fin 2) * 128 + 1 * k.val = k.val; omega

theorem blk2_x1 (c : Dev nD) (t : Fin cfg2.N) (p : Fin 800) (k : Fin 128) :
    iblk2 V c 1 t (ix2 p k) = V c main_v94_0 (ix2 (⟨800 * t.val + p.val, by have := t.isLt; have := p.isLt; have h64 : cfg2.N = 64 := N_2; omega⟩ : Fin 51200) k) := by
  obtain ⟨-, -, e10, e11, -⟩ := idx_facts2 t
  show V c main_v94_0 (((cfg2.win 1).blk t).view.emb (ix2 p k)) = V c main_v94_0 _
  congr 1
  funext a; apply Fin.ext
  match a with
  | ⟨0, _⟩ => show win2_1.index t (0 : Fin 2) * 800 + 1 * p.val = 800 * t.val + p.val; omega
  | ⟨1, _⟩ => show win2_1.index t (1 : Fin 2) * 128 + 1 * k.val = k.val; omega

theorem blk2_x2 (c : Dev nD) (t : Fin cfg2.N) (p : Fin 800) (k : Fin 128) :
    iblk2 V c 2 t (ix2 p k) = V c main_v94_1 (ix2 (⟨800 * t.val + p.val, by have := t.isLt; have := p.isLt; have h64 : cfg2.N = 64 := N_2; omega⟩ : Fin 51200) k) := by
  obtain ⟨-, -, -, -, e20, e21, -⟩ := idx_facts2 t
  show V c main_v94_1 (((cfg2.win 2).blk t).view.emb (ix2 p k)) = V c main_v94_1 _
  congr 1
  funext a; apply Fin.ext
  match a with
  | ⟨0, _⟩ => show win2_2.index t (0 : Fin 2) * 800 + 1 * p.val = 800 * t.val + p.val; omega
  | ⟨1, _⟩ => show win2_2.index t (1 : Fin 2) * 128 + 1 * k.val = k.val; omega

theorem blk2_w0 (c : Dev nD) (t : Fin cfg2.N) (k n : Fin 128) :
    View.ld (iblk2 V c 3 t) rW0 (ix2 k n) = V c main_v37 (ix2 (⟨0 + k.val, by have := k.isLt; omega⟩ : Fin 384) n) := by
  obtain ⟨-, -, -, -, -, -, e30, e31, -⟩ := idx_facts2 t
  show V c main_v37 (((cfg2.win 3).blk t).view.emb (rW0.emb (ix2 k n))) = V c main_v37 _
  congr 1
  funext a; apply Fin.ext
  match a with
  | ⟨0, _⟩ => show win2_3.index t (0 : Fin 2) * 384 + 1 * (0 + 1 * k.val) = 0 + k.val; omega
  | ⟨1, _⟩ => show win2_3.index t (1 : Fin 2) * 128 + 1 * (0 + 1 * n.val) = n.val; omega

theorem blk2_w1 (c : Dev nD) (t : Fin cfg2.N) (k n : Fin 128) :
    View.ld (iblk2 V c 3 t) rW1 (ix2 k n) = V c main_v37 (ix2 (⟨128 + k.val, by have := k.isLt; omega⟩ : Fin 384) n) := by
  obtain ⟨-, -, -, -, -, -, e30, e31, -⟩ := idx_facts2 t
  show V c main_v37 (((cfg2.win 3).blk t).view.emb (rW1.emb (ix2 k n))) = V c main_v37 _
  congr 1
  funext a; apply Fin.ext
  match a with
  | ⟨0, _⟩ => show win2_3.index t (0 : Fin 2) * 384 + 1 * (128 + 1 * k.val) = 128 + k.val; omega
  | ⟨1, _⟩ => show win2_3.index t (1 : Fin 2) * 128 + 1 * (0 + 1 * n.val) = n.val; omega

theorem blk2_w2 (c : Dev nD) (t : Fin cfg2.N) (k n : Fin 128) :
    View.ld (iblk2 V c 3 t) rW2 (ix2 k n) = V c main_v37 (ix2 (⟨256 + k.val, by have := k.isLt; omega⟩ : Fin 384) n) := by
  obtain ⟨-, -, -, -, -, -, e30, e31, -⟩ := idx_facts2 t
  show V c main_v37 (((cfg2.win 3).blk t).view.emb (rW2.emb (ix2 k n))) = V c main_v37 _
  congr 1
  funext a; apply Fin.ext
  match a with
  | ⟨0, _⟩ => show win2_3.index t (0 : Fin 2) * 384 + 1 * (256 + 1 * k.val) = 256 + k.val; omega
  | ⟨1, _⟩ => show win2_3.index t (1 : Fin 2) * 128 + 1 * (0 + 1 * n.val) = n.val; omega

/-- Where an element of the output's block at point t sits in the output array. -/
theorem emb2_out (t : Fin cfg2.N) (p : Fin 800) (n : Fin 128) :
    ((cfg2.win 4).blk t).view.emb (ix2 p n) = ix2 (⟨800 * (t.val + 0) + p.val, by have := t.isLt; have := p.isLt; have h64 : cfg2.N = 64 := N_2; omega⟩ : Fin 100000) n := by
  obtain ⟨-, -, -, -, -, -, -, -, e40, e41⟩ := idx_facts2 t
  funext a; apply Fin.ext
  match a with
  | ⟨0, _⟩ => show win2_4.index t (0 : Fin 2) * 800 + 1 * p.val = 800 * (t.val + 0) + p.val; omega
  | ⟨1, _⟩ => show win2_4.index t (1 : Fin 2) * 128 + 1 * n.val = n.val; omega

/-! ## What a point writes back -/

/-- What point t writes back is block t of G2 of the arrays as the region finds them. -/
theorem flushed2_eq (c : Dev nD) (t : Fin cfg2.N) :
    (dat2 (F := Ideal) (Name := Name) (U := U) V B c).flushed 4 t
      = ((cfg2.win 4).blk t).view.read (Elt Ideal) (G2 (V c main_arg0) (V c main_v94_0) (V c main_v94_1) (V c main_v37)) := by
  show (cfg2.win 4).cut (grid2.coords t) ((dat2 (F := Ideal) (Name := Name) (U := U) V B c).after 4 t) = _
  rw [after2_4]
  unfold out2_4
  rw [View.canon_unit_zero hz]
  simp only [View.ld_unit_zero (S := S800x128) hz]
  funext j
  obtain ⟨p, n, rfl⟩ : ∃ (p : Fin 800) (n : Fin 128), j = ix2 p n := ⟨j 0, j 1, eq_ix2 j⟩
  show k2_pay1 (iblk2 V c 0 t) (View.ld (iblk2 V c 3 t) rW0) (iblk2 V c 1 t) (View.ld (iblk2 V c 3 t) rW1)
      (iblk2 V c 2 t) (View.ld (iblk2 V c 3 t) rW2) (ix2 p n)
    = G2 (V c main_arg0) (V c main_v94_0) (V c main_v94_1) (V c main_v37) (((cfg2.win 4).blk t).view.emb (ix2 p n))
  rw [k2_pay1_apply, emb2_out]
  have hlt : 800 * (t.val + 0) + p.val < 51200 := by have := t.isLt; have := p.isLt; have h64 : cfg2.N = 64 := N_2; omega
  show _ = gval _ _ _ _ (⟨800 * (t.val + 0) + p.val, _⟩ : Fin 100000) (rowS (800 * (t.val + 0) + p.val)) n
  rw [rowS_of_lt hlt]
  have hrow : (⟨800 * t.val + p.val, by have := t.isLt; have := p.isLt; have h64 : cfg2.N = 64 := N_2; omega⟩ : Fin 51200) = ⟨800 * (t.val + 0) + p.val, hlt⟩ :=
    Fin.ext (by show 800 * t.val + p.val = 800 * (t.val + 0) + p.val; have := t.isLt; have h64 : cfg2.N = 64 := N_2; omega)
  unfold gval
  refine congrArg₂ max ?_ rfl
  refine congrArg₂ (· + ·) (congrArg₂ (· + ·) ?_ ?_) ?_
  · exact Finset.sum_congr rfl fun k _ => by rw [blk2_x0 V c t p k, blk2_w0 V c t k n]
  · refine Finset.sum_congr rfl fun k _ => ?_
    rw [blk2_x1 V c t p k, blk2_w1 V c t k n, hrow]
  · refine Finset.sum_congr rfl fun k _ => ?_
    rw [blk2_x2 V c t p k, blk2_w2 V c t k n, hrow]

/-! ## Which indices the write-backs cover -/

theorem mem_blk2 (t : Fin cfg2.N) (i : S100000x128.Idx) :
    i ∈ ((cfg2.win 4).blk t).view.set ↔ ∀ a : Fin 2, win2_4.index t a * S800x128.size a ≤ (i a).val ∧ (i a).val < win2_4.index t a * S800x128.size a + S800x128.size a := by
  show i ∈ ((View.whole main_v96).slice (win2_4.rect t)).set ↔ _
  rw [View.set_slice_whole, Rect.mem_set_unit]
  exact Iff.rfl

/-- The covered indices: those of the rows the pipeline's blocks fill. -/
theorem covered_iff2 (i : S100000x128.Idx) :
    (∃ t : Fin cfg2.N, (cfg2.win 4).flush t = true ∧ i ∈ ((cfg2.win 4).blk t).view.set) ↔ (i 0).val < 51200 := by
  have h64 : cfg2.N = 64 := N_2
  have hi0 : (i 0).val < 100000 := (i 0).isLt
  have hi1 : (i 1).val < 128 := (i 1).isLt
  constructor
  · rintro ⟨t, -, hi⟩
    rw [mem_blk2] at hi
    have b0 : win2_4.index t (0 : Fin 2) * 800 ≤ (i 0).val ∧ (i 0).val < win2_4.index t (0 : Fin 2) * 800 + 800 := hi 0
    obtain ⟨-, -, -, -, -, -, -, -, e40, e41⟩ := idx_facts2 t
    have := t.isLt
    omega
  · intro h
    let t : Fin cfg2.N := ⟨(i 0).val / 800 - 0, by omega⟩
    obtain ⟨-, -, -, -, -, -, -, -, e40, e41⟩ := idx_facts2 t
    have ht : t.val = (i 0).val / 800 - 0 := rfl
    refine ⟨t, flush2_4 t, ?_⟩
    rw [mem_blk2]
    intro a
    match a with
    | ⟨0, _⟩ => show win2_4.index t (0 : Fin 2) * 800 ≤ (i 0).val ∧ (i 0).val < win2_4.index t (0 : Fin 2) * 800 + 800; omega
    | ⟨1, _⟩ => show win2_4.index t (1 : Fin 2) * 128 ≤ (i 1).val ∧ (i 1).val < win2_4.index t (1 : Fin 2) * 128 + 128; omega

/-! ## The array after the region -/

/-- The output array after the region: G2 of the entry arrays on the covered rows, its entry contents elsewhere. -/
theorem final2 (c : Dev nD) :
    (dat2 (F := Ideal) (Name := Name) (U := U) V B c).arrAt 4 cfg2.N
      = fun i => if (i 0).val < 51200 then G2 (V c main_arg0) (V c main_v94_0) (V c main_v94_1) (V c main_v37) i else V c main_v96 i := by
  funext i
  rw [(dat2 (F := Ideal) (Name := Name) (U := U) V B c).arrAt_eq_piecewise 4 _ (fun t _ => flushed2_eq V B c t) i, A_eq2]
  exact if_congr (covered_iff2 i) rfl rfl

end

end Cert.KernelIdeal.Tc

end
-- ==== Proof.TcVal1.lean ====
import proofs.«204681_g65575560675685_cont_9to1_m_144_57_alg».proof.Proof.TcData
import proofs.«204681_g65575560675685_cont_9to1_m_144_57_alg».proof.Proof.TcPay
import proofs.«204681_g65575560675685_cont_9to1_m_144_57_alg».proof.Proof.TcVal0
import Idealize.ShloMosaic.Lib.ValueIdx
import Idealize.ShloMosaic.Lib.Pipeline.Value

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # Pipeline 1: the output array after the region, as one function of the arrays at its entry (extended reals)

Point t writes the rows 800·(t + 64) … 800·(t + 64) + 799 of the output; row r, column n of what it writes is
max((∑ k, a0[r, k] · w[k, n]) + (∑ k, a1[r', k] · w[128 + k, n]) + (∑ k, a2[r', k] · w[256 + k, n]), 0), where a0 is the
100000-row operand, a1 and a2 the two 51200-row operands read at row r' = r − 51200, and w the 384-row weight matrix. -/

section

variable (V : (c : Dev nD) → (b : Ref sig .tc) → Buf (Elt Ideal) ((c : Thread nD τ).loc b))
variable (B : Set (SemLoc sig × SparseCore.Cfg.HIx 2))

/-- The windows' block indices at every point, decided over the grid. -/
theorem idx_facts3 : ∀ t : Fin cfg3.N,
    win3_0.index t (0 : Fin 2) = t.val + 64 ∧ win3_0.index t (1 : Fin 2) = 0
  ∧ win3_1.index t (0 : Fin 2) = t.val ∧ win3_1.index t (1 : Fin 2) = 0
  ∧ win3_2.index t (0 : Fin 2) = t.val ∧ win3_2.index t (1 : Fin 2) = 0
  ∧ win3_3.index t (0 : Fin 2) = 0 ∧ win3_3.index t (1 : Fin 2) = 0
  ∧ win3_4.index t (0 : Fin 2) = t.val + 64 ∧ win3_4.index t (1 : Fin 2) = 0 :=
  (by decide +kernel : ∀ t : Fin grid3.N, _)

/-- The whole-array function the region leaves on the rows it covers. -/
def G3 (a0 : S100000x128.Idx → EReal) (a1 a2 : S51200x128.Idx → EReal) (w : S384x128.Idx → EReal) : S100000x128.Idx → EReal :=
  fun i => gval a0 a1 a2 w (i 0) (rowS ((i 0).val - 51200)) (i 1)

/-! ## The blocks read at an index -/

theorem blk3_x0 (c : Dev nD) (t : Fin cfg3.N) (p : Fin 800) (k : Fin 128) :
    iblk3 V c 0 t (ix2 p k) = V c main_arg0 (ix2 (⟨800 * (t.val + 64) + p.val, by have := t.isLt; have := p.isLt; have h64 : cfg3.N = 61 := N_3; omega⟩ : Fin 100000) k) := by
  obtain ⟨e00, e01, -⟩ := idx_facts3 t
  show V c main_arg0 (((cfg3.win 0).blk t).view.emb (ix2 p k)) = V c main_arg0 _
  congr 1
  funext a; apply Fin.ext
  match a with
  | ⟨0, _⟩ => show win3_0.index t (0 : Fin 2) * 800 + 1 * p.val = 800 * (t.val + 64) + p.val; omega
  | ⟨1, _⟩ => show win3_0.index t (1 : Fin 2) * 128 + 1 * k.val = k.val; omega

theorem blk3_x1 (c : Dev nD) (t : Fin cfg3.N) (p : Fin 800) (k : Fin 128) :
    iblk3 V c 1 t (ix2 p k) = V c main_v95_0 (ix2 (⟨800 * t.val + p.val, by have := t.isLt; have := p.isLt; have h64 : cfg3.N = 61 := N_3; omega⟩ : Fin 51200) k) := by
  obtain ⟨-, -, e10, e11, -⟩ := idx_facts3 t
  show V c main_v95_0 (((cfg3.win 1).blk t).view.emb (ix2 p k)) = V c main_v95_0 _
  congr 1
  funext a; apply Fin.ext
  match a with
  | ⟨0, _⟩ => show win3_1.index t (0 : Fin 2) * 800 + 1 * p.val = 800 * t.val + p.val; omega
  | ⟨1, _⟩ => show win3_1.index t (1 : Fin 2) * 128 + 1 * k.val = k.val; omega

theorem blk3_x2 (c : Dev nD) (t : Fin cfg3.N) (p : Fin 800) (k : Fin 128) :
    iblk3 V c 2 t (ix2 p k) = V c main_v95_1 (ix2 (⟨800 * t.val + p.val, by have := t.isLt; have := p.isLt; have h64 : cfg3.N = 61 := N_3; omega⟩ : Fin 51200) k) := by
  obtain ⟨-, -, -, -, e20, e21, -⟩ := idx_facts3 t
  show V c main_v95_1 (((cfg3.win 2).blk t).view.emb (ix2 p k)) = V c main_v95_1 _
  congr 1
  funext a; apply Fin.ext
  match a with
  | ⟨0, _⟩ => show win3_2.index t (0 : Fin 2) * 800 + 1 * p.val = 800 * t.val + p.val; omega
  | ⟨1, _⟩ => show win3_2.index t (1 : Fin 2) * 128 + 1 * k.val = k.val; omega

theorem blk3_w0 (c : Dev nD) (t : Fin cfg3.N) (k n : Fin 128) :
    View.ld (iblk3 V c 3 t) rW0 (ix2 k n) = V c main_v37 (ix2 (⟨0 + k.val, by have := k.isLt; omega⟩ : Fin 384) n) := by
  obtain ⟨-, -, -, -, -, -, e30, e31, -⟩ := idx_facts3 t
  show V c main_v37 (((cfg3.win 3).blk t).view.emb (rW0.emb (ix2 k n))) = V c main_v37 _
  congr 1
  funext a; apply Fin.ext
  match a with
  | ⟨0, _⟩ => show win3_3.index t (0 : Fin 2) * 384 + 1 * (0 + 1 * k.val) = 0 + k.val; omega
  | ⟨1, _⟩ => show win3_3.index t (1 : Fin 2) * 128 + 1 * (0 + 1 * n.val) = n.val; omega

theorem blk3_w1 (c : Dev nD) (t : Fin cfg3.N) (k n : Fin 128) :
    View.ld (iblk3 V c 3 t) rW1 (ix2 k n) = V c main_v37 (ix2 (⟨128 + k.val, by have := k.isLt; omega⟩ : Fin 384) n) := by
  obtain ⟨-, -, -, -, -, -, e30, e31, -⟩ := idx_facts3 t
  show V c main_v37 (((cfg3.win 3).blk t).view.emb (rW1.emb (ix2 k n))) = V c main_v37 _
  congr 1
  funext a; apply Fin.ext
  match a with
  | ⟨0, _⟩ => show win3_3.index t (0 : Fin 2) * 384 + 1 * (128 + 1 * k.val) = 128 + k.val; omega
  | ⟨1, _⟩ => show win3_3.index t (1 : Fin 2) * 128 + 1 * (0 + 1 * n.val) = n.val; omega

theorem blk3_w2 (c : Dev nD) (t : Fin cfg3.N) (k n : Fin 128) :
    View.ld (iblk3 V c 3 t) rW2 (ix2 k n) = V c main_v37 (ix2 (⟨256 + k.val, by have := k.isLt; omega⟩ : Fin 384) n) := by
  obtain ⟨-, -, -, -, -, -, e30, e31, -⟩ := idx_facts3 t
  show V c main_v37 (((cfg3.win 3).blk t).view.emb (rW2.emb (ix2 k n))) = V c main_v37 _
  congr 1
  funext a; apply Fin.ext
  match a with
  | ⟨0, _⟩ => show win3_3.index t (0 : Fin 2) * 384 + 1 * (256 + 1 * k.val) = 256 + k.val; omega
  | ⟨1, _⟩ => show win3_3.index t (1 : Fin 2) * 128 + 1 * (0 + 1 * n.val) = n.val; omega

/-- Where an element of the output's block at point t sits in the output array. -/
theorem emb3_out (t : Fin cfg3.N) (p : Fin 800) (n : Fin 128) :
    ((cfg3.win 4).blk t).view.emb (ix2 p n) = ix2 (⟨800 * (t.val + 64) + p.val, by have := t.isLt; have := p.isLt; have h64 : cfg3.N = 61 := N_3; omega⟩ : Fin 100000) n := by
  obtain ⟨-, -, -, -, -, -, -, -, e40, e41⟩ := idx_facts3 t
  funext a; apply Fin.ext
  match a with
  | ⟨0, _⟩ => show win3_4.index t (0 : Fin 2) * 800 + 1 * p.val = 800 * (t.val + 64) + p.val; omega
  | ⟨1, _⟩ => show win3_4.index t (1 : Fin 2) * 128 + 1 * n.val = n.val; omega

/-! ## What a point writes back -/

/-- What point t writes back is block t of G3 of the arrays as the region finds them. -/
theorem flushed3_eq (c : Dev nD) (t : Fin cfg3.N) :
    (dat3 (F := Ideal) (Name := Name) (U := U) V B c).flushed 4 t
      = ((cfg3.win 4).blk t).view.read (Elt Ideal) (G3 (V c main_arg0) (V c main_v95_0) (V c main_v95_1) (V c main_v37)) := by
  show (cfg3.win 4).cut (grid3.coords t) ((dat3 (F := Ideal) (Name := Name) (U := U) V B c).after 4 t) = _
  rw [after3_4]
  unfold out3_4
  rw [View.canon_unit_zero hz]
  simp only [View.ld_unit_zero (S := S800x128) hz]
  funext j
  obtain ⟨p, n, rfl⟩ : ∃ (p : Fin 800) (n : Fin 128), j = ix2 p n := ⟨j 0, j 1, eq_ix2 j⟩
  show k3_pay1 (iblk3 V c 0 t) (View.ld (iblk3 V c 3 t) rW0) (iblk3 V c 1 t) (View.ld (iblk3 V c 3 t) rW1)
      (iblk3 V c 2 t) (View.ld (iblk3 V c 3 t) rW2) (ix2 p n)
    = G3 (V c main_arg0) (V c main_v95_0) (V c main_v95_1) (V c main_v37) (((cfg3.win 4).blk t).view.emb (ix2 p n))
  rw [k3_pay1_apply, emb3_out]
  have hlt : 800 * (t.val + 64) + p.val - 51200 < 51200 := by have := t.isLt; have := p.isLt; have h64 : cfg3.N = 61 := N_3; omega
  show _ = gval _ _ _ _ (⟨800 * (t.val + 64) + p.val, _⟩ : Fin 100000) (rowS (800 * (t.val + 64) + p.val - 51200)) n
  rw [rowS_of_lt hlt]
  have hrow : (⟨800 * t.val + p.val, by have := t.isLt; have := p.isLt; have h64 : cfg3.N = 61 := N_3; omega⟩ : Fin 51200) = ⟨800 * (t.val + 64) + p.val - 51200, hlt⟩ :=
    Fin.ext (by show 800 * t.val + p.val = 800 * (t.val + 64) + p.val - 51200; have := t.isLt; have h64 : cfg3.N = 61 := N_3; omega)
  unfold gval
  refine congrArg₂ max ?_ rfl
  refine congrArg₂ (· + ·) (congrArg₂ (· + ·) ?_ ?_) ?_
  · exact Finset.sum_congr rfl fun k _ => by rw [blk3_x0 V c t p k, blk3_w0 V c t k n]
  · refine Finset.sum_congr rfl fun k _ => ?_
    rw [blk3_x1 V c t p k, blk3_w1 V c t k n, hrow]
  · refine Finset.sum_congr rfl fun k _ => ?_
    rw [blk3_x2 V c t p k, blk3_w2 V c t k n, hrow]

/-! ## Which indices the write-backs cover -/

theorem mem_blk3 (t : Fin cfg3.N) (i : S100000x128.Idx) :
    i ∈ ((cfg3.win 4).blk t).view.set ↔ ∀ a : Fin 2, win3_4.index t a * S800x128.size a ≤ (i a).val ∧ (i a).val < win3_4.index t a * S800x128.size a + S800x128.size a := by
  show i ∈ ((View.whole main_v97).slice (win3_4.rect t)).set ↔ _
  rw [View.set_slice_whole, Rect.mem_set_unit]
  exact Iff.rfl

/-- The covered indices: those of the rows the pipeline's blocks fill. -/
theorem covered_iff3 (i : S100000x128.Idx) :
    (∃ t : Fin cfg3.N, (cfg3.win 4).flush t = true ∧ i ∈ ((cfg3.win 4).blk t).view.set) ↔ 51200 ≤ (i 0).val := by
  have h64 : cfg3.N = 61 := N_3
  have hi0 : (i 0).val < 100000 := (i 0).isLt
  have hi1 : (i 1).val < 128 := (i 1).isLt
  constructor
  · rintro ⟨t, -, hi⟩
    rw [mem_blk3] at hi
    have b0 : win3_4.index t (0 : Fin 2) * 800 ≤ (i 0).val ∧ (i 0).val < win3_4.index t (0 : Fin 2) * 800 + 800 := hi 0
    obtain ⟨-, -, -, -, -, -, -, -, e40, e41⟩ := idx_facts3 t
    have := t.isLt
    omega
  · intro h
    let t : Fin cfg3.N := ⟨(i 0).val / 800 - 64, by omega⟩
    obtain ⟨-, -, -, -, -, -, -, -, e40, e41⟩ := idx_facts3 t
    have ht : t.val = (i 0).val / 800 - 64 := rfl
    refine ⟨t, flush3_4 t, ?_⟩
    rw [mem_blk3]
    intro a
    match a with
    | ⟨0, _⟩ => show win3_4.index t (0 : Fin 2) * 800 ≤ (i 0).val ∧ (i 0).val < win3_4.index t (0 : Fin 2) * 800 + 800; omega
    | ⟨1, _⟩ => show win3_4.index t (1 : Fin 2) * 128 ≤ (i 1).val ∧ (i 1).val < win3_4.index t (1 : Fin 2) * 128 + 128; omega

/-! ## The array after the region -/

/-- The output array after the region: G3 of the entry arrays on the covered rows, its entry contents elsewhere. -/
theorem final3 (c : Dev nD) :
    (dat3 (F := Ideal) (Name := Name) (U := U) V B c).arrAt 4 cfg3.N
      = fun i => if 51200 ≤ (i 0).val then G3 (V c main_arg0) (V c main_v95_0) (V c main_v95_1) (V c main_v37) i else V c main_v97 i := by
  funext i
  rw [(dat3 (F := Ideal) (Name := Name) (U := U) V B c).arrAt_eq_piecewise 4 _ (fun t _ => flushed3_eq V B c t) i, A_eq3]
  exact if_congr (covered_iff3 i) rfl rfl

end

end Cert.KernelIdeal.Tc

end
-- ==== Proof.TcResult.lean ====
import proofs.«204681_g65575560675685_cont_9to1_m_144_57_alg».proof.Proof.TcSeg1
import proofs.«204681_g65575560675685_cont_9to1_m_144_57_alg».proof.Proof.TcVal1

set_option maxRecDepth 16384

noncomputable section

namespace Cert.KernelIdeal.Tc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 2) (Elt F) Name U ℕ

/-! # The result array after both regions (extended reals)

Region 0 runs from the valuation W; the valuation W2 region 1 runs from has the result array's buffer at what region 0
left in its output array and every other buffer as region 0 left it. Then the result array ends holding, on rows below
51200, region 0's function of W's arrays, and on the rows from 51200, region 1's. -/

section

variable (W W2 : Dev nD → Valuation τ sig (Elt Ideal)) (Ba Bb : Set (SemLoc sig × SparseCore.Cfg.HIx 2))

theorem result_value (c : Dev nD)
    (h97 : ∀ i : S100000x128.Idx, W2 c (Proc.devRef .tc main_v97) i = exit0 (Name := Name) (U := U) W Ba c (Proc.devRef .tc main_v96) i)
    (hrest : ∀ b : DevRef τ sig, b ≠ Proc.devRef .tc main_v97 → W2 c b = exit0 (Name := Name) (U := U) W Ba c b) :
    exit1 (Name := Name) (U := U) W2 Bb c (Proc.devRef .tc main_v97)
      = fun i : S100000x128.Idx => if (i 0).val < 51200
          then G2 (W c (Proc.devRef .tc main_arg0)) (W c (Proc.devRef .tc main_v94_0)) (W c (Proc.devRef .tc main_v94_1)) (W c (Proc.devRef .tc main_v37)) i
          else G3 (W c (Proc.devRef .tc main_arg0)) (W c (Proc.devRef .tc main_v95_0)) (W c (Proc.devRef .tc main_v95_1)) (W c (Proc.devRef .tc main_v37)) i := by
  have hk : ∀ b : Ref sig .tc, b ≠ main_v97 → b ≠ main_v96 → W2 c (Proc.devRef .tc b) = W c (Proc.devRef .tc b) :=
    fun b h1 h2 => (hrest _ (StableHlo.devRef_ne_of_ne h1)).trans (exit0_frame W Ba c _ (StableHlo.devRef_ne_of_ne h2))
  refine (exit1_arr (Name := Name) (U := U) W2 Bb c 4).trans ?_
  rw [final3]
  funext i
  by_cases h : (i 0).val < 51200
  · rw [if_neg (by omega), if_pos h]
    show W2 c (Proc.devRef .tc main_v97) i = _
    rw [h97 i]
    exact (congrFun ((exit0_arr (Name := Name) (U := U) W Ba c 4).trans (final2 (Vof W) Ba c)) i).trans (if_pos h)
  · rw [if_pos (by omega), if_neg h]
    show G3 (W2 c (Proc.devRef .tc main_arg0)) (W2 c (Proc.devRef .tc main_v95_0)) (W2 c (Proc.devRef .tc main_v95_1)) (W2 c (Proc.devRef .tc main_v37)) i = _
    rw [hk main_arg0 (by decide) (by decide), hk main_v95_0 (by decide) (by decide), hk main_v95_1 (by decide) (by decide),
      hk main_v37 (by decide) (by decide)]

end

end Cert.KernelIdeal.Tc

end
-- ==== Proof.TcValBoth.lean ====
import proofs.«204681_g65575560675685_cont_9to1_m_144_57_alg».proof.Proof.CoreRegionsI
import proofs.«204681_g65575560675685_cont_9to1_m_144_57_alg».proof.Proof.TcResult

set_option maxRecDepth 16384

noncomputable section

namespace Cert.KernelIdeal.Launch

open Cert.KernelIdeal Cert.KernelIdeal.Gen Cert.KernelIdeal.Tc Cert.KernelIdeal.HostOps
open Idealize.ShloMosaic Idealize.ShloMosaic.TcCoe Idealize.ShloMosaic.ValueIdx
open Idealize.ShloMosaic.SparseCore.Cfg (HIx)
open Idealize.SL.Sem

/-! # The result array after both regions and the copy between them (extended reals)

Rows below 51200 hold region 0's function of the arrays it was entered with, the rows from 51200 region 1's: the copy of
region 0's output into the result array changes no other buffer, and region 1 overwrites only the rows from 51200. -/

theorem final_v97 (d : Dev nD) (Wt0 Wt1 : Waits sig (HIx 2)) (W : Valuation τ sig (Elt Ideal)) :
    ex1 d Wt1 (StableHlo.after (mainOps7 (F := Ideal)) (ex0 d Wt0 W)) (Proc.devRef .tc main_v97)
      = fun i : S100000x128.Idx => if (i 0).val < 51200
          then G2 (W (Proc.devRef .tc main_arg0)) (W (Proc.devRef .tc main_v94_0)) (W (Proc.devRef .tc main_v94_1)) (W (Proc.devRef .tc main_v37)) i
          else G3 (W (Proc.devRef .tc main_arg0)) (W (Proc.devRef .tc main_v95_0)) (W (Proc.devRef .tc main_v95_1)) (W (Proc.devRef .tc main_v37)) i := by
  refine Tc.result_value (Name := ℕ) (U := UU) (fun _ => W) (fun _ => StableHlo.after (mainOps7 (F := Ideal)) (ex0 d Wt0 W))
    (↑Wt0 : Set (SemLoc sig × HIx 2)) (↑Wt1 : Set (SemLoc sig × HIx 2)) d ?_ ?_
  · intro i
    show StableHlo.after (mainOps7 (F := Ideal)) (ex0 d Wt0 W) (Proc.devRef .tc main_v97) i = ex0 d Wt0 W (Proc.devRef .tc main_v96) i
    unfold mainOps7
    rw [StableHlo.after_cons, StableHlo.after_nil, StableHlo.unary_result']
    rfl
  · intro b hb
    show StableHlo.after (mainOps7 (F := Ideal)) (ex0 d Wt0 W) b = ex0 d Wt0 W b
    refine StableHlo.after_of_forall_not_mem _ _ fun op hop => ?_
    rw [mainOps7, List.mem_singleton] at hop
    subst hop
    rw [StableHlo.unary_writes, Finset.mem_singleton]
    exact hb

end Cert.KernelIdeal.Launch

end
-- ==== Proof.HostValIdxAt.lean ====
import proofs.«204681_g65575560675685_cont_9to1_m_144_57_alg».proof.Proof.HostValIdx
import Idealize.ShloMosaic.Lib.ValueIdx
import Idealize.ShloMosaic.Lib.ValueLayout
import Idealize.ShloMosaic.Lib.Pipeline.Value

noncomputable section

namespace Cert.KernelIdeal.HostVal

open Cert.KernelIdeal Cert.KernelIdeal.HostOps Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

open Idealize.ShloMosaic.ValueIdx

/-! # The index operands read at a worker, a row and a lane

A scatter that writes the update folds over the update indices; each lands at its result index and replaces what is
there. When the result-index map is injective, an element the map reaches holds its update and every other element
holds the operand's. Each of the three scatters of the padding is of that kind, with an explicit map. -/

section Fold
variable {I ι α : Type} [DecidableEq I]

/-- One step of the fold: update `n` written at its result index, if it has one. -/
def stepSet (g : ι → Option I) (upd : ι → α) (r : I → α) (n : ι) : I → α :=
  match g n with
  | some i => fun i' => if i' = i then upd n else r i'
  | none => r

theorem stepSet_of_ne (g : ι → Option I) (upd : ι → α) (r : I → α) (n : ι) (i : I) (h : g n ≠ some i) :
    stepSet g upd r n i = r i := by
  unfold stepSet
  cases hg : g n with
  | none => rfl
  | some k =>
    dsimp only
    rw [if_neg]
    intro e; exact h (by rw [hg, e])

theorem stepSet_of_eq (g : ι → Option I) (upd : ι → α) (r : I → α) (n : ι) (i : I) (h : g n = some i) :
    stepSet g upd r n i = upd n := by
  unfold stepSet
  rw [h]
  dsimp only
  rw [if_pos rfl]

theorem foldl_stepSet_miss (g : ι → Option I) (upd : ι → α) (i : I) :
    ∀ (l : List ι) (r : I → α), (∀ n ∈ l, g n ≠ some i) → l.foldl (stepSet g upd) r i = r i
  | [], _, _ => rfl
  | n :: l, r, h => by
    rw [List.foldl_cons, foldl_stepSet_miss g upd i l _ (fun m hm => h m (List.mem_cons_of_mem _ hm)),
      stepSet_of_ne g upd r n i (h n List.mem_cons_self)]

theorem foldl_stepSet_hit (g : ι → Option I) (upd : ι → α) (i : I) (n₀ : ι) (hg : g n₀ = some i) :
    ∀ (l : List ι) (r : I → α), l.Nodup → n₀ ∈ l → (∀ n ∈ l, g n = some i → n = n₀) → l.foldl (stepSet g upd) r i = upd n₀
  | [], _, _, hn, _ => absurd hn List.not_mem_nil
  | n :: l, r, hl, hn, hu => by
    rw [List.foldl_cons]
    rcases List.mem_cons.mp hn with rfl | hn'
    · have hnl : n₀ ∉ l := (List.nodup_cons.mp hl).1
      rw [foldl_stepSet_miss g upd i l _ (fun m hm hgm => hnl (hu m (List.mem_cons_of_mem _ hm) hgm ▸ hm)),
        stepSet_of_eq g upd r n₀ i hg]
    · exact foldl_stepSet_hit g upd i n₀ hg l _ (List.nodup_cons.mp hl).2 hn'
        (fun m hm => hu m (List.mem_cons_of_mem _ hm))

end Fold

section Scatter
variable {α : Type} {s si u : Shape} {w : Nat}

theorem scatter_eq_foldl (d : ScatterDims s si u) (x : s.Idx → α) (idx : IVec si w) (upd : u.Idx → α) :
    Host.scatter d (fun _ b => b) x idx upd
      = (List.finRange u.numel).foldl (stepSet (fun n => d.resultIdx? (u.rowMajor.symm n) idx)
          (fun n => upd (u.rowMajor.symm n))) x := by
  unfold Host.scatter
  refine congrArg (fun f => List.foldl f x (List.finRange u.numel)) ?_
  funext r n
  unfold stepSet
  dsimp only
  cases d.resultIdx? (u.rowMajor.symm n) idx with
  | none => rfl
  | some k => rfl

/-- An element the result-index map reaches, from exactly one update index, holds that update. -/
theorem scatter_set_hit (d : ScatterDims s si u) (x : s.Idx → α) (idx : IVec si w) (upd : u.Idx → α) (i : s.Idx) (j₀ : u.Idx)
    (hg : d.resultIdx? j₀ idx = some i) (hu : ∀ j, d.resultIdx? j idx = some i → j = j₀) :
    Host.scatter d (fun _ b => b) x idx upd i = upd j₀ := by
  rw [scatter_eq_foldl]
  have := foldl_stepSet_hit (fun n => d.resultIdx? (u.rowMajor.symm n) idx) (fun n => upd (u.rowMajor.symm n)) i
    (u.rowMajor j₀) (by simpa using hg) (List.finRange u.numel) x (List.nodup_finRange _) (List.mem_finRange _)
    (fun n _ hn => by
      have := hu _ hn
      rw [← this]; simp)
  simpa using this

/-- An element no update lands at holds the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl]
  exact foldl_stepSet_miss _ _ i _ x (fun n _ => h _)

/-- With every update landing inside the operand, at an injective place: the update there, the operand elsewhere. -/
theorem scatter_set_emb (d : ScatterDims s si u) (x : s.Idx → α) (idx : IVec si w) (upd : u.Idx → α) (emb : u.Idx → s.Idx)
    (hemb : Function.Injective emb) (hres : ∀ j, d.resultIdx? j idx = some (emb j)) :
    (∀ j, Host.scatter d (fun _ b => b) x idx upd (emb j) = upd j) ∧
    (∀ i, (∀ j, emb j ≠ i) → Host.scatter d (fun _ b => b) x idx upd i = x i) := by
  refine ⟨fun j => scatter_set_hit d x idx upd (emb j) j (hres j) (fun j' hj' => ?_), fun i hi => scatter_set_miss d x idx upd i (fun j hj => ?_)⟩
  · rw [hres j'] at hj'
    exact hemb (Option.some.inj hj')
  · rw [hres j] at hj
    exact hi j (Option.some.inj hj)

end Scatter

/-- The result index of an update: start plus window coordinate on every axis, when that is a place of the operand. -/
theorem resultIdx?_eq {s si u : Shape} {w : Nat} (d : ScatterDims s si u) (j : u.Idx) (idx : IVec si w) (e : s.Idx)
    (h : ∀ a, d.start j idx a + (d.window j a : Int) = ((e a).val : Int)) : d.resultIdx? j idx = some e := by
  unfold ScatterDims.resultIdx?
  rw [dif_pos (fun a => by rw [h a]; exact ⟨Int.natCast_nonneg _, by exact_mod_cast (e a).isLt⟩)]
  refine congrArg some (funext fun a => Fin.ext ?_)
  show (d.start j idx a + (d.window j a : Int)).toNat = (e a).val
  rw [h a]
  exact Int.toNat_natCast _

/-! ## The three scatters' result indices -/

/-- Update word `p` of the adjacency array lands at word `p` of the padded array. -/
def emb1 (j : S100000.Idx) : S102400.Idx :=
  ix1 (⟨(j 0).val, Nat.lt_trans (j 0).isLt (by decide : (100000 : Nat) < 102400)⟩ : Fin 102400)

theorem emb1_inj : Function.Injective emb1 := by
  intro j j' h
  have h0 : (j 0).val = (j' 0).val := congrArg (fun k : S102400.Idx => (k 0).val) h
  have e : j 0 = j' 0 := Fin.ext h0
  exact (eq_ix1 j).trans ((congrArg ix1 e).trans (eq_ix1 j').symm)

theorem res1 (j : S100000.Idx) :
    scatter_S102400_S1_S100000_0_n_0_0.resultIdx? j (broadcastInDim S1 ![] bcast_S_S1 (constantI S_ 32 0#32)) = some (emb1 j) :=
  resultIdx?_eq _ _ _ _ (fun a => by
    match a with
    | ⟨0, _⟩ => exact Int.zero_add _)

/-- Block `b` of eighteen rows lands at worker `b`. -/
def emb2 (j : S16x18x128.Idx) : S32x18x128.Idx :=
  ix3 (⟨(j 0).val, Nat.lt_trans (j 0).isLt (by decide : (16 : Nat) < 32)⟩ : Fin 32) (⟨(j 1).val, (j 1).isLt⟩ : Fin 18)
    (⟨(j 2).val, (j 2).isLt⟩ : Fin 128)

theorem emb2_inj : Function.Injective emb2 := by
  intro j j' h
  have h0 : (j 0).val = (j' 0).val := congrArg (fun k : S32x18x128.Idx => (k 0).val) h
  have h1 : (j 1).val = (j' 1).val := congrArg (fun k : S32x18x128.Idx => (k 1).val) h
  have h2 : (j 2).val = (j' 2).val := congrArg (fun k : S32x18x128.Idx => (k 2).val) h
  have e0 : j 0 = j' 0 := Fin.ext h0
  have e1 : j 1 = j' 1 := Fin.ext h1
  have e2 : j 2 = j' 2 := Fin.ext h2
  refine (eq_ix3 j).trans (Eq.trans ?_ (eq_ix3 j').symm)
  rw [e0, e1, e2]

theorem res2 (j : S16x18x128.Idx) :
    scatter_S32x18x128_S1_S16x18x128_012_n_0_0.resultIdx? j (broadcastInDim S1 ![] bcast_S_S1 (constantI S_ 32 0#32)) = some (emb2 j) :=
  resultIdx?_eq _ _ _ _ (fun a => by
    match a with
    | ⟨0, _⟩ => exact Int.zero_add _
    | ⟨1, _⟩ => exact Int.zero_add _
    | ⟨2, _⟩ => exact Int.zero_add _)

/-- Block `b` of seven rows lands at worker `16 + b`, rows 0 to 6. -/
def emb3 (j : S16x7x128.Idx) : S32x18x128.Idx :=
  ix3 (⟨16 + (j 0).val, by have h : (j 0).val < 16 := (j 0).isLt; omega⟩ : Fin 32)
    (⟨(j 1).val, Nat.lt_trans (j 1).isLt (by decide : (7 : Nat) < 18)⟩ : Fin 18) (⟨(j 2).val, (j 2).isLt⟩ : Fin 128)

theorem emb3_inj : Function.Injective emb3 := by
  intro j j' h
  have h0 : 16 + (j 0).val = 16 + (j' 0).val := congrArg (fun k : S32x18x128.Idx => (k 0).val) h
  have h1 : (j 1).val = (j' 1).val := congrArg (fun k : S32x18x128.Idx => (k 1).val) h
  have h2 : (j 2).val = (j' 2).val := congrArg (fun k : S32x18x128.Idx => (k 2).val) h
  have e0 : j 0 = j' 0 := Fin.ext (by omega)
  have e1 : j 1 = j' 1 := Fin.ext h1
  have e2 : j 2 = j' 2 := Fin.ext h2
  refine (eq_ix3 j).trans (Eq.trans ?_ (eq_ix3 j').symm)
  rw [e0, e1, e2]

theorem res3 (j : S16x7x128.Idx) :
    scatter_S32x18x128_S2_S16x7x128_012_n_01_0.resultIdx? j
      (concatenate S2 0 [⟨S1, broadcastInDim S1 ![] bcast_S_S1 (constantI S_ 32 16#32)⟩,
        ⟨S1, broadcastInDim S1 ![] bcast_S_S1 (constantI S_ 32 0#32)⟩] concatenates_S1_S1_S2_d0) = some (emb3 j) :=
  resultIdx?_eq _ _ _ _ (fun a => by
    match a with
    | ⟨0, _⟩ => exact (Int.natCast_add 16 (j 0).val).symm
    | ⟨1, _⟩ => exact Int.zero_add _
    | ⟨2, _⟩ => exact Int.zero_add _)

/-! ## The layers read at an index -/

theorem padRows_apply (adj : IVec S100000 32) (r : Fin 800) (l : Fin 128) :
    padRows adj (ix2 r l) = if h : 128 * r.val + l.val < 100000 then adj (ix1 ⟨128 * r.val + l.val, h⟩) else 0#32 := by
  have hr := r.isLt
  have hl := l.isLt
  obtain ⟨hit, miss⟩ := scatter_set_emb scatter_S102400_S1_S100000_0_n_0_0
    (broadcastInDim S102400 ![] bcast_S_S102400 (constantI S_ 32 0#32)) (broadcastInDim S1 ![] bcast_S_S1 (constantI S_ 32 0#32))
    adj emb1 emb1_inj res1
  unfold padRows
  refine (shapeCast_apply _ _ (ix2 r l) (ix1 (⟨128 * r.val + l.val, by omega⟩ : Fin 102400)) ?_).trans ?_
  · rw [Shape.rowMajor_val_one, Shape.rowMajor_val_two]
    show 128 * r.val + l.val = r.val * 128 + l.val
    omega
  · by_cases h : 128 * r.val + l.val < 100000
    · rw [dif_pos h]
      exact hit (ix1 ⟨128 * r.val + l.val, h⟩)
    · rw [dif_neg h]
      refine (miss _ (fun j hj => h ?_)).trans rfl
      have h0 : (j 0).val = 128 * r.val + l.val := congrArg (fun k : S102400.Idx => (k 0).val) hj
      have hj0 : (j 0).val < 100000 := (j 0).isLt
      omega

theorem half0_apply (f : IVec S800x128 32) (c : Fin 400) (l : Fin 128) :
    half0 f (ix2 c l) = f (ix2 (⟨c.val, Nat.lt_trans c.isLt (by decide)⟩ : Fin 800) l) := by
  unfold half0
  refine extractStridedSlice_apply _ _ _ _ _ (fun a => ?_)
  match a with
  | ⟨0, _⟩ => exact (Nat.zero_add _).symm
  | ⟨1, _⟩ => exact (Nat.zero_add _).symm

theorem half1_apply (f : IVec S800x128 32) (c : Fin 400) (l : Fin 128) :
    half1 f (ix2 c l) = f (ix2 (⟨400 + c.val, by have := c.isLt; omega⟩ : Fin 800) l) := by
  unfold half1
  refine extractStridedSlice_apply _ _ _ _ _ (fun a => ?_)
  match a with
  | ⟨0, _⟩ => rfl
  | ⟨1, _⟩ => exact (Nat.zero_add _).symm

theorem upd18_apply (fh : IVec S400x128 32) (b : Fin 16) (jj : Fin 18) (l : Fin 128) :
    upd18 fh (ix3 b jj l) = fh (ix2 (⟨18 * b.val + jj.val, by have := b.isLt; have := jj.isLt; omega⟩ : Fin 400) l) := by
  have hb := b.isLt
  have hjj := jj.isLt
  unfold upd18
  refine (shapeCast_apply _ _ (ix3 b jj l) (ix2 (⟨18 * b.val + jj.val, by omega⟩ : Fin 288) l) ?_).trans ?_
  · rw [Shape.rowMajor_val_two, Shape.rowMajor_val_three]
    show (18 * b.val + jj.val) * 128 + l.val = (b.val * 18 + jj.val) * 128 + l.val
    omega
  · refine extractStridedSlice_apply _ _ _ _ _ (fun a => ?_)
    match a with
    | ⟨0, _⟩ => exact (Nat.zero_add _).symm
    | ⟨1, _⟩ => exact (Nat.zero_add _).symm

theorem upd7_apply (fh : IVec S400x128 32) (b : Fin 16) (jj : Fin 7) (l : Fin 128) :
    upd7 fh (ix3 b jj l) = fh (ix2 (⟨288 + (7 * b.val + jj.val), by have := b.isLt; have := jj.isLt; omega⟩ : Fin 400) l) := by
  have hb := b.isLt
  have hjj := jj.isLt
  unfold upd7
  refine (shapeCast_apply _ _ (ix3 b jj l) (ix2 (⟨7 * b.val + jj.val, by omega⟩ : Fin 112) l) ?_).trans ?_
  · rw [Shape.rowMajor_val_two, Shape.rowMajor_val_three]
    show (7 * b.val + jj.val) * 128 + l.val = (b.val * 7 + jj.val) * 128 + l.val
    omega
  · refine extractStridedSlice_apply _ _ _ _ _ (fun a => ?_)
    match a with
    | ⟨0, _⟩ => rfl
    | ⟨1, _⟩ => exact (Nat.zero_add _).symm

theorem dealA_apply (u : IVec S16x18x128 32) (wid : Fin 32) (jj : Fin 18) (l : Fin 128) :
    dealA u (ix3 wid jj l) = if h : wid.val < 16 then u (ix3 (⟨wid.val, h⟩ : Fin 16) jj l) else 0#32 := by
  obtain ⟨hit, miss⟩ := scatter_set_emb scatter_S32x18x128_S1_S16x18x128_012_n_0_0
    (broadcastInDim S32x18x128 ![] bcast_S_S32x18x128 (constantI S_ 32 0#32)) (broadcastInDim S1 ![] bcast_S_S1 (constantI S_ 32 0#32))
    u emb2 emb2_inj res2
  unfold dealA
  by_cases h : wid.val < 16
  · rw [dif_pos h]
    exact hit (ix3 (⟨wid.val, h⟩ : Fin 16) jj l)
  · rw [dif_neg h]
    refine (miss _ (fun j hj => h ?_)).trans rfl
    have h0 : (j 0).val = wid.val := congrArg (fun k : S32x18x128.Idx => (k 0).val) hj
    have hj0 : (j 0).val < 16 := (j 0).isLt
    omega

theorem dealB_apply (big : IVec S32x18x128 32) (u : IVec S16x7x128 32) (wid : Fin 32) (jj : Fin 18) (l : Fin 128) :
    dealB big u (ix3 wid jj l)
      = if h : 16 ≤ wid.val ∧ jj.val < 7 then
          u (ix3 (⟨wid.val - 16, by have := wid.isLt; omega⟩ : Fin 16) (⟨jj.val, h.2⟩ : Fin 7) l)
        else big (ix3 wid jj l) := by
  have hwid := wid.isLt
  obtain ⟨hit, miss⟩ := scatter_set_emb scatter_S32x18x128_S2_S16x7x128_012_n_01_0 big
    (concatenate S2 0 [⟨S1, broadcastInDim S1 ![] bcast_S_S1 (constantI S_ 32 16#32)⟩,
      ⟨S1, broadcastInDim S1 ![] bcast_S_S1 (constantI S_ 32 0#32)⟩] concatenates_S1_S1_S2_d0) u emb3 emb3_inj res3
  unfold dealB
  by_cases h : 16 ≤ wid.val ∧ jj.val < 7
  · rw [dif_pos h]
    have e : emb3 (ix3 (⟨wid.val - 16, by omega⟩ : Fin 16) (⟨jj.val, h.2⟩ : Fin 7) l) = ix3 wid jj l := by
      funext a
      match a with
      | ⟨0, _⟩ => exact Fin.ext (by show 16 + (wid.val - 16) = wid.val; omega)
      | ⟨1, _⟩ => rfl
      | ⟨2, _⟩ => rfl
    have := hit (ix3 (⟨wid.val - 16, by omega⟩ : Fin 16) (⟨jj.val, h.2⟩ : Fin 7) l)
    rw [e] at this
    exact this
  · rw [dif_neg h]
    refine miss _ (fun j hj => h ?_)
    have h0 : 16 + (j 0).val = wid.val := congrArg (fun k : S32x18x128.Idx => (k 0).val) hj
    have h1 : (j 1).val = jj.val := congrArg (fun k : S32x18x128.Idx => (k 1).val) hj
    have hj1 : (j 1).val < 7 := (j 1).isLt
    exact ⟨by omega, by omega⟩

/-! ## A half dealt to the workers, and the two index operands -/

theorem dealHalf_lo (fh : IVec S400x128 32) (wid : Fin 32) (jj : Fin 18) (l : Fin 128) (hw : wid.val < 16) :
    dealHalf fh (ix3 wid jj l) = fh (ix2 (⟨18 * wid.val + jj.val, by have := jj.isLt; omega⟩ : Fin 400) l) := by
  unfold dealHalf
  rw [dealB_apply, dif_neg (fun h => by omega), dealA_apply, dif_pos hw, upd18_apply]

theorem dealHalf_hi (fh : IVec S400x128 32) (wid : Fin 32) (jj : Fin 18) (l : Fin 128) (hw : 16 ≤ wid.val) (hj : jj.val < 7) :
    dealHalf fh (ix3 wid jj l)
      = fh (ix2 (⟨288 + (7 * (wid.val - 16) + jj.val), by have := wid.isLt; omega⟩ : Fin 400) l) := by
  unfold dealHalf
  rw [dealB_apply, dif_pos ⟨hw, hj⟩, upd7_apply]

theorem dealHalf_pad (fh : IVec S400x128 32) (wid : Fin 32) (jj : Fin 18) (l : Fin 128) (hw : 16 ≤ wid.val) (hj : 7 ≤ jj.val) :
    dealHalf fh (ix3 wid jj l) = 0#32 := by
  unfold dealHalf
  rw [dealB_apply, dif_neg (fun h => by omega), dealA_apply, dif_neg (by omega)]

/-- Rows 0 to 399 of the padded array are all inside the adjacency array. -/
theorem rows0_apply (adj : IVec S100000 32) (c : Fin 400) (l : Fin 128) :
    half0 (padRows adj) (ix2 c l)
      = adj (ix1 (⟨128 * c.val + l.val, by have := c.isLt; have := l.isLt; omega⟩ : Fin 100000)) := by
  have hc := c.isLt
  have hl := l.isLt
  rw [half0_apply, padRows_apply, dif_pos (by show 128 * c.val + l.val < 100000; omega)]

/-- Rows 400 to 799: word 51200 + 128 c + l of the adjacency array while that is inside it, zero past its end. -/
theorem rows1_apply (adj : IVec S100000 32) (c : Fin 400) (l : Fin 128) :
    half1 (padRows adj) (ix2 c l)
      = if h : 128 * (400 + c.val) + l.val < 100000 then adj (ix1 ⟨128 * (400 + c.val) + l.val, h⟩) else 0#32 := by
  rw [half1_apply, padRows_apply]

/-- The chunk (row of 128 words, of a half's 400) a worker's row `jj` holds; none for the padding rows. -/
def chunkOf (wid : Fin 32) (jj : Fin 18) : Option (Fin 400) :=
  if hw : wid.val < 16 then some ⟨18 * wid.val + jj.val, by have := jj.isLt; omega⟩
  else if hj : jj.val < 7 then some ⟨288 + (7 * (wid.val - 16) + jj.val), by have := wid.isLt; omega⟩
  else none

theorem dealHalf_chunk (fh : IVec S400x128 32) (wid : Fin 32) (jj : Fin 18) (l : Fin 128) :
    dealHalf fh (ix3 wid jj l) = match chunkOf wid jj with
      | some c => fh (ix2 c l)
      | none => 0#32 := by
  unfold chunkOf
  by_cases hw : wid.val < 16
  · rw [dif_pos hw]; exact dealHalf_lo fh wid jj l hw
  · rw [dif_neg hw]
    by_cases hj : jj.val < 7
    · rw [dif_pos hj]; exact dealHalf_hi fh wid jj l (by omega) hj
    · rw [dif_neg hj]; exact dealHalf_pad fh wid jj l (by omega) (by omega)

/-- The first call's index operand at worker `wid`, row `jj`, lane `l`, when that row holds chunk `c`:
    word 128 c + l of the adjacency array. -/
theorem idxOperand0_apply (adj : IVec S100000 32) (wid : Fin 32) (jj : Fin 18) (l : Fin 128) (c : Fin 400)
    (hc : chunkOf wid jj = some c) :
    idxOperand0 adj (ix3 wid jj l)
      = adj (ix1 (⟨128 * c.val + l.val, by have := c.isLt; have := l.isLt; omega⟩ : Fin 100000)) := by
  unfold idxOperand0
  rw [dealHalf_chunk, hc]
  exact rows0_apply adj c l

/-- The second call's index operand: word 51200 + 128 c + l while inside the array, zero past its end. -/
theorem idxOperand1_apply (adj : IVec S100000 32) (wid : Fin 32) (jj : Fin 18) (l : Fin 128) (c : Fin 400)
    (hc : chunkOf wid jj = some c) :
    idxOperand1 adj (ix3 wid jj l)
      = if h : 128 * (400 + c.val) + l.val < 100000 then adj (ix1 ⟨128 * (400 + c.val) + l.val, h⟩) else 0#32 := by
  unfold idxOperand1
  rw [dealHalf_chunk, hc]
  exact rows1_apply adj c l

/-- A padding row (workers 16 to 31, rows 7 to 17) of either operand is zero. -/
theorem idxOperand_pad (adj : IVec S100000 32) (wid : Fin 32) (jj : Fin 18) (l : Fin 128) (hc : chunkOf wid jj = none) :
    idxOperand0 adj (ix3 wid jj l) = 0#32 ∧ idxOperand1 adj (ix3 wid jj l) = 0#32 := by
  unfold idxOperand0 idxOperand1
  rw [dealHalf_chunk, dealHalf_chunk, hc]
  exact ⟨rfl, rfl⟩

theorem chunkOf_lo (wid : Fin 32) (jj : Fin 18) (hw : wid.val < 16) :
    chunkOf wid jj = some ⟨18 * wid.val + jj.val, by have := jj.isLt; omega⟩ := by
  unfold chunkOf; rw [dif_pos hw]

theorem chunkOf_hi (wid : Fin 32) (jj : Fin 18) (hw : 16 ≤ wid.val) (hj : jj.val < 7) :
    chunkOf wid jj = some ⟨288 + (7 * (wid.val - 16) + jj.val), by have := wid.isLt; omega⟩ := by
  unfold chunkOf; rw [dif_neg (by omega), dif_pos hj]

theorem chunkOf_pad (wid : Fin 32) (jj : Fin 18) (hw : 16 ≤ wid.val) (hj : 7 ≤ jj.val) : chunkOf wid jj = none := by
  unfold chunkOf; rw [dif_neg (by omega), dif_neg (by omega)]

/-! ## The four operands after the whole host stretch, read at an index -/

section Whole
variable (V : Valuation τ sig (Elt F)) (wid : Fin 32) (jj : Fin 18) (l : Fin 128) (c : Fin 400)

theorem idx_u0_apply (hc : chunkOf wid jj = some c) :
    (after (hostOps (F := F)) V (Proc.devRef .tc main_v53) : IVec S32x18x128 32) (ix3 wid jj l)
      = (V (Proc.devRef .tc main_arg4) : IVec S100000 32)
          (ix1 (⟨128 * c.val + l.val, by have := c.isLt; have := l.isLt; omega⟩ : Fin 100000)) := by
  rw [idx_u0]; exact idxOperand0_apply _ wid jj l c hc

theorem idx_i0_apply (hc : chunkOf wid jj = some c) :
    (after (hostOps (F := F)) V (Proc.devRef .tc main_v81) : IVec S32x18x128 32) (ix3 wid jj l)
      = (V (Proc.devRef .tc main_arg3) : IVec S100000 32)
          (ix1 (⟨128 * c.val + l.val, by have := c.isLt; have := l.isLt; omega⟩ : Fin 100000)) := by
  rw [idx_i0]; exact idxOperand0_apply _ wid jj l c hc

theorem idx_u1_apply (hc : chunkOf wid jj = some c) :
    (after (hostOps (F := F)) V (Proc.devRef .tc main_v65) : IVec S32x18x128 32) (ix3 wid jj l)
      = if h : 128 * (400 + c.val) + l.val < 100000 then
          (V (Proc.devRef .tc main_arg4) : IVec S100000 32) (ix1 ⟨128 * (400 + c.val) + l.val, h⟩)
        else 0#32 := by
  rw [idx_u1]; exact idxOperand1_apply _ wid jj l c hc

theorem idx_i1_apply (hc : chunkOf wid jj = some c) :
    (after (hostOps (F := F)) V (Proc.devRef .tc main_v93) : IVec S32x18x128 32) (ix3 wid jj l)
      = if h : 128 * (400 + c.val) + l.val < 100000 then
          (V (Proc.devRef .tc main_arg3) : IVec S100000 32) (ix1 ⟨128 * (400 + c.val) + l.val, h⟩)
        else 0#32 := by
  rw [idx_i1]; exact idxOperand1_apply _ wid jj l c hc

end Whole

end Cert.KernelIdeal.HostVal
end
-- ==== Proof.GatherReadI.lean ====
import proofs.«204681_g65575560675685_cont_9to1_m_144_57_alg».proof.Proof.HostValIdxAt
import proofs.«204681_g65575560675685_cont_9to1_m_144_57_alg».proof.Proof.LibGatherAll

/-! The gather calls' index operands composed with the layout of their output rows: output row ρ of the first call takes
the table row that word ρ of the adjacency array names, output row ρ of the second call the row that word 51200 + ρ
names. Row ρ sits at worker ρ / 2304 (row ρ % 2304 / 128, lane ρ % 128) below row 36864 and at worker
16 + (ρ − 36864) / 896 from it on; in both cases the worker's row holds chunk c with 128 c + lane = ρ. -/

noncomputable section

namespace Cert.KernelIdeal.HostVal

open Cert.KernelIdeal Cert.KernelIdeal.HostOps Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

open Idealize.ShloMosaic.ValueIdx LibGatherAll

/-- Output row ρ's place in an index operand is a worker, a row and a lane whose row holds a chunk c with
    128 c + lane = ρ. -/
theorem slab_chunk (ρ : Fin 51200) :
    ∃ (wid : Fin 32) (jj : Fin 18) (l : Fin 128) (c : Fin 400),
      slabOfRow ρ = ix3 wid jj l ∧ chunkOf wid jj = some c ∧ 128 * c.val + l.val = ρ.val := by
  have hρ := ρ.isLt
  by_cases h : ρ.val < 36864
  · refine ⟨⟨ρ.val / 2304, by omega⟩, ⟨ρ.val % 2304 / 128, by omega⟩, ⟨ρ.val % 128, by omega⟩,
      ⟨18 * (ρ.val / 2304) + ρ.val % 2304 / 128, by omega⟩, ?_, ?_, ?_⟩
    · unfold slabOfRow; rw [dif_pos h]
    · exact chunkOf_lo _ _ (by show ρ.val / 2304 < 16; omega)
    · show 128 * (18 * (ρ.val / 2304) + ρ.val % 2304 / 128) + ρ.val % 128 = ρ.val; omega
  · refine ⟨⟨16 + (ρ.val - 36864) / 896, by omega⟩, ⟨(ρ.val - 36864) % 896 / 128, by omega⟩, ⟨ρ.val % 128, by omega⟩,
      ⟨288 + (7 * ((ρ.val - 36864) / 896) + (ρ.val - 36864) % 896 / 128), by omega⟩, ?_, ?_, ?_⟩
    · unfold slabOfRow; rw [dif_neg h]
    · refine (chunkOf_hi _ _ (by show 16 ≤ 16 + (ρ.val - 36864) / 896; omega)
        (by show (ρ.val - 36864) % 896 / 128 < 7; omega)).trans ?_
      refine congrArg some (Fin.ext ?_)
      show 288 + (7 * (16 + (ρ.val - 36864) / 896 - 16) + (ρ.val - 36864) % 896 / 128)
        = 288 + (7 * ((ρ.val - 36864) / 896) + (ρ.val - 36864) % 896 / 128)
      omega
    · show 128 * (288 + (7 * ((ρ.val - 36864) / 896) + (ρ.val - 36864) % 896 / 128)) + ρ.val % 128 = ρ.val; omega

section Calls
variable {α : Type} (V : Valuation τ sig (Elt F)) (tab : S100000x128.Idx → α)

/-- First call, users: output row ρ is the table row that word ρ of the user adjacency names. -/
theorem gatherAll_u0 (h : ∀ j, ((V (Proc.devRef .tc main_arg4) : IVec S100000 32) j).toNat < 100000)
    (ρ : Fin 51200) (k : Fin 128) :
    gatherAll tab (after (hostOps (F := F)) V (Proc.devRef .tc main_v53) : IVec S32x18x128 32) (ix2 ρ k)
      = tab (ix2 ⟨((V (Proc.devRef .tc main_arg4) : IVec S100000 32)
          (ix1 ⟨ρ.val, by have := ρ.isLt; omega⟩)).toNat, h _⟩ k) := by
  obtain ⟨wid, jj, l, c, hs, hc, he⟩ := slab_chunk ρ
  rw [gatherAll_apply, hs, idx_u0_apply V wid jj l c hc]
  have e : (⟨128 * c.val + l.val, by have := c.isLt; have := l.isLt; omega⟩ : Fin 100000)
      = ⟨ρ.val, by have := ρ.isLt; omega⟩ := Fin.ext he
  rw [e, rowOfWord_of_lt _ (h _)]

/-- First call, items. -/
theorem gatherAll_i0 (h : ∀ j, ((V (Proc.devRef .tc main_arg3) : IVec S100000 32) j).toNat < 100000)
    (ρ : Fin 51200) (k : Fin 128) :
    gatherAll tab (after (hostOps (F := F)) V (Proc.devRef .tc main_v81) : IVec S32x18x128 32) (ix2 ρ k)
      = tab (ix2 ⟨((V (Proc.devRef .tc main_arg3) : IVec S100000 32)
          (ix1 ⟨ρ.val, by have := ρ.isLt; omega⟩)).toNat, h _⟩ k) := by
  obtain ⟨wid, jj, l, c, hs, hc, he⟩ := slab_chunk ρ
  rw [gatherAll_apply, hs, idx_i0_apply V wid jj l c hc]
  have e : (⟨128 * c.val + l.val, by have := c.isLt; have := l.isLt; omega⟩ : Fin 100000)
      = ⟨ρ.val, by have := ρ.isLt; omega⟩ := Fin.ext he
  rw [e, rowOfWord_of_lt _ (h _)]

/-- Second call, users: output row ρ is the table row that word 51200 + ρ names, while that word is inside the array. -/
theorem gatherAll_u1 (h : ∀ j, ((V (Proc.devRef .tc main_arg4) : IVec S100000 32) j).toNat < 100000)
    (ρ : Fin 51200) (hρ : 51200 + ρ.val < 100000) (k : Fin 128) :
    gatherAll tab (after (hostOps (F := F)) V (Proc.devRef .tc main_v65) : IVec S32x18x128 32) (ix2 ρ k)
      = tab (ix2 ⟨((V (Proc.devRef .tc main_arg4) : IVec S100000 32) (ix1 ⟨51200 + ρ.val, hρ⟩)).toNat, h _⟩ k) := by
  obtain ⟨wid, jj, l, c, hs, hc, he⟩ := slab_chunk ρ
  have hlt : 128 * (400 + c.val) + l.val < 100000 := by omega
  rw [gatherAll_apply, hs, idx_u1_apply V wid jj l c hc, dif_pos hlt]
  have e : (⟨128 * (400 + c.val) + l.val, hlt⟩ : Fin 100000) = ⟨51200 + ρ.val, hρ⟩ := Fin.ext (by show 128 * (400 + c.val) + l.val = 51200 + ρ.val; omega)
  rw [e, rowOfWord_of_lt _ (h _)]

/-- Second call, items. -/
theorem gatherAll_i1 (h : ∀ j, ((V (Proc.devRef .tc main_arg3) : IVec S100000 32) j).toNat < 100000)
    (ρ : Fin 51200) (hρ : 51200 + ρ.val < 100000) (k : Fin 128) :
    gatherAll tab (after (hostOps (F := F)) V (Proc.devRef .tc main_v93) : IVec S32x18x128 32) (ix2 ρ k)
      = tab (ix2 ⟨((V (Proc.devRef .tc main_arg3) : IVec S100000 32) (ix1 ⟨51200 + ρ.val, hρ⟩)).toNat, h _⟩ k) := by
  obtain ⟨wid, jj, l, c, hs, hc, he⟩ := slab_chunk ρ
  have hlt : 128 * (400 + c.val) + l.val < 100000 := by omega
  rw [gatherAll_apply, hs, idx_i1_apply V wid jj l c hc, dif_pos hlt]
  have e : (⟨128 * (400 + c.val) + l.val, hlt⟩ : Fin 100000) = ⟨51200 + ρ.val, hρ⟩ := Fin.ext (by show 128 * (400 + c.val) + l.val = 51200 + ρ.val; omega)
  rw [e, rowOfWord_of_lt _ (h _)]

end Calls

end Cert.KernelIdeal.HostVal

end
-- ==== Proof.LibSortPerm.lean ====
/-
  What a stable two-operand sort of a rank-1 table computes, by the sort's specification only (nothing is
  evaluated): (i) the payload output of a sort that carries the identity table is a permutation of the positions,
  whatever the keys and the comparator; (ii) sorting the word table of a permutation π of the positions by the
  signed order returns, on a carried identity table, the inverse permutation π⁻¹ (the stable sort of distinct keys
  0 … n-1 puts key j at position j); (iii) adding n to the negative words of a table (the normalisation of a
  possibly negative index) changes nothing on words that are not negative.
-/
import Idealize.ShloMosaic.Lib.SortFacts

namespace Idealize.ShloMosaic.LibSortPerm

open Idealize.ShloMosaic

/-! ## A two-operand sort of a rank-1 table -/

/-- The relation on positions a two-operand sort of the rank-1 tables x, y orders by: position k's pair sorts
    before position k''s under the comparator. -/
def before2 {n : Nat} {α β : Type} (cmp : α × β → α × β → BitVec 1)
    (x : (⟨1, ![n]⟩ : Shape).Idx → α) (y : (⟨1, ![n]⟩ : Shape).Idx → β) (k k' : Fin n) : Bool :=
  cmp (x (Shape.Idx.ofFin k), y (Shape.Idx.ofFin k)) (x (Shape.Idx.ofFin k'), y (Shape.Idx.ofFin k')) == 1#1

/-- The stable sorting permutation under a relation on the positions, as a permutation: output position k
    holds the element of source position sortPerm before k. -/
noncomputable def sortPerm {n : Nat} (before : Fin n → Fin n → Bool) : Equiv.Perm (Fin n) :=
  Equiv.ofBijective (sortedFrom before) ⟨sortedFrom_injective before, sortedFrom_surjective before⟩

@[simp] theorem sortPerm_apply {n : Nat} (before : Fin n → Fin n → Bool) (k : Fin n) :
    sortPerm before k = sortedFrom before k := rfl

/-- On a rank-1 shape a two-operand sort along axis 0 reads BOTH tables through one permutation of the positions,
    the stable sorting permutation of the comparator on the pairs. -/
theorem sort2_rank1 {n : Nat} {α β : Type} (cmp : α × β → α × β → BitVec 1)
    (x : (⟨1, ![n]⟩ : Shape).Idx → α) (y : (⟨1, ![n]⟩ : Shape).Idx → β) :
    Host.sort2 ⟨1, ![n]⟩ 0 cmp x y
      = (fun j => x (Shape.Idx.ofFin (sortPerm (before2 cmp x y) (j 0))),
         fun j => y (Shape.Idx.ofFin (sortPerm (before2 cmp x y) (j 0)))) := by
  unfold Host.sort2
  simp
  exact ⟨rfl, rfl⟩

/-! ## (i) A sort that carries the identity table returns a permutation of the positions -/

/-- The payload output of a two-operand sort whose payload is the identity table (position k holds the word k) is
    the table of the sorting permutation: position j holds the word of the source position of what landed at j.
    Nothing is assumed of the keys or of the comparator. -/
theorem sort2_iota_snd {n w : Nat} {α : Type} (cmp : α × BitVec w → α × BitVec w → BitVec 1)
    (keys : (⟨1, ![n]⟩ : Shape).Idx → α) (j : (⟨1, ![n]⟩ : Shape).Idx) :
    (Host.sort2 ⟨1, ![n]⟩ 0 cmp keys (iotaInDim ⟨1, ![n]⟩ w 0)).2 j
      = BitVec.ofNat w (sortPerm (before2 cmp keys (iotaInDim ⟨1, ![n]⟩ w 0)) (j 0)).val := by
  rw [sort2_rank1]
  simp [iotaInDim]

/-- … as naturals, while the n positions fit in w bits. -/
theorem sort2_iota_snd_toNat {n w : Nat} (hn : n ≤ 2 ^ w) {α : Type} (cmp : α × BitVec w → α × BitVec w → BitVec 1)
    (keys : (⟨1, ![n]⟩ : Shape).Idx → α) (j : (⟨1, ![n]⟩ : Shape).Idx) :
    ((Host.sort2 ⟨1, ![n]⟩ 0 cmp keys (iotaInDim ⟨1, ![n]⟩ w 0)).2 j).toNat
      = (sortPerm (before2 cmp keys (iotaInDim ⟨1, ![n]⟩ w 0)) (j 0)).val := by
  rw [sort2_iota_snd, BitVec.toNat_ofNat, Nat.mod_eq_of_lt (lt_of_lt_of_le (Fin.isLt _) hn)]

/-- The existence form: for ANY key table and comparator there is a permutation π of the positions whose word
    table the sort's payload output is. -/
theorem exists_perm_sort2_iota {n w : Nat} {α : Type} (cmp : α × BitVec w → α × BitVec w → BitVec 1)
    (keys : (⟨1, ![n]⟩ : Shape).Idx → α) :
    ∃ π : Equiv.Perm (Fin n), ∀ j : (⟨1, ![n]⟩ : Shape).Idx,
      (Host.sort2 ⟨1, ![n]⟩ 0 cmp keys (iotaInDim ⟨1, ![n]⟩ w 0)).2 j = BitVec.ofNat w (π (j 0)).val :=
  ⟨_, sort2_iota_snd cmp keys⟩

/-! ## (ii) Sorting the table of a permutation by the signed order inverts it -/

/-- The stable sort under the relation "π k < π k'", π a permutation of the positions, puts source position
    π⁻¹ j at output position j: the keys π k are distinct and fill 0 … n-1, so key j lands at position j. -/
theorem sortedFrom_of_lt_perm {n : Nat} (before : Fin n → Fin n → Bool) (π : Equiv.Perm (Fin n))
    (h : ∀ k k', before k k' = decide (π k < π k')) : sortedFrom before = π.symm := by
  have hR : before = fun k k' => decide (π.symm.symm k < π.symm.symm k') := by
    funext k k'
    rw [h k k']
    rfl
  funext k
  unfold sortedFrom
  rw [List.get_of_eq ((congrArg (sortPositions n) hR).trans (sortPositions_of_perm π.symm))]
  simp

/-- On words below half the range the signed "less than" is the order of the naturals. -/
theorem cmpi_slt_beq_one {w : Nat} (a b : BitVec w) (ha : 2 * a.toNat < 2 ^ w) (hb : 2 * b.toNat < 2 ^ w) :
    (IntOp.cmpi .slt a b == 1#1) = decide (a.toNat < b.toNat) := by
  unfold IntOp.cmpi
  simp only
  rw [BitVec.slt_eq_decide, BitVec.toInt_eq_toNat_of_lt ha, BitVec.toInt_eq_toNat_of_lt hb]
  by_cases h : a.toNat < b.toNat <;> simp [h]

/-- Sorting by the signed order on the keys, where the key table p is the word table of a permutation π of the
    positions (position k holds the word π k; 2n ≤ 2^w, so no word is negative): both operands are read through
    π⁻¹ — output position j holds what source position π⁻¹ j held. -/
theorem sort2_slt_of_perm {n w : Nat} {β : Type} (hn : 2 * n ≤ 2 ^ w)
    (cmp : BitVec w × β → BitVec w × β → BitVec 1) (hcmp : ∀ l r, cmp l r = IntOp.cmpi .slt l.1 r.1)
    (π : Equiv.Perm (Fin n)) (p : IVec ⟨1, ![n]⟩ w) (hp : ∀ j, (p j).toNat = (π (j 0)).val)
    (y : (⟨1, ![n]⟩ : Shape).Idx → β) :
    Host.sort2 ⟨1, ![n]⟩ 0 cmp p y
      = (fun j => p (Shape.Idx.ofFin (π.symm (j 0))), fun j => y (Shape.Idx.ofFin (π.symm (j 0)))) := by
  have hp' : ∀ k : Fin n, (p (Shape.Idx.ofFin k)).toNat = (π k).val := fun k => by
    rw [hp, Shape.Idx.ofFin_zero]
  have hlt : ∀ k : Fin n, 2 * (p (Shape.Idx.ofFin k)).toNat < 2 ^ w := fun k => by
    rw [hp' k]
    have := (π k).isLt
    omega
  have hs : sortedFrom (before2 cmp p y) = π.symm := sortedFrom_of_lt_perm _ π fun k k' => by
    unfold before2
    rw [hcmp, cmpi_slt_beq_one _ _ (hlt k) (hlt k'), hp' k, hp' k']
    simp only [Fin.lt_def]
  have hs' : sortPerm (before2 cmp p y) = π.symm := Equiv.ext fun k => by rw [sortPerm_apply, hs]
  rw [sort2_rank1, hs']

/-- … so on a carried identity table the payload output is the table of the INVERSE permutation: the argsort of
    a permutation is its inverse. -/
theorem sort2_slt_iota_snd {n w : Nat} (hn : 2 * n ≤ 2 ^ w)
    (cmp : BitVec w × BitVec w → BitVec w × BitVec w → BitVec 1) (hcmp : ∀ l r, cmp l r = IntOp.cmpi .slt l.1 r.1)
    (π : Equiv.Perm (Fin n)) (p : IVec ⟨1, ![n]⟩ w) (hp : ∀ j, (p j).toNat = (π (j 0)).val)
    (j : (⟨1, ![n]⟩ : Shape).Idx) :
    (Host.sort2 ⟨1, ![n]⟩ 0 cmp p (iotaInDim ⟨1, ![n]⟩ w 0)).2 j = BitVec.ofNat w (π.symm (j 0)).val := by
  rw [sort2_slt_of_perm hn cmp hcmp π p hp]
  simp [iotaInDim]

/-- … as naturals. -/
theorem sort2_slt_iota_snd_toNat {n w : Nat} (hn : 2 * n ≤ 2 ^ w)
    (cmp : BitVec w × BitVec w → BitVec w × BitVec w → BitVec 1) (hcmp : ∀ l r, cmp l r = IntOp.cmpi .slt l.1 r.1)
    (π : Equiv.Perm (Fin n)) (p : IVec ⟨1, ![n]⟩ w) (hp : ∀ j, (p j).toNat = (π (j 0)).val)
    (j : (⟨1, ![n]⟩ : Shape).Idx) :
    ((Host.sort2 ⟨1, ![n]⟩ 0 cmp p (iotaInDim ⟨1, ![n]⟩ w 0)).2 j).toNat = (π.symm (j 0)).val := by
  rw [sort2_slt_iota_snd hn cmp hcmp π p hp, BitVec.toNat_ofNat,
    Nat.mod_eq_of_lt (by have := (π.symm (j 0)).isLt; omega)]

/-- … and the sorted keys are the identity table. -/
theorem sort2_slt_fst_toNat {n w : Nat} {β : Type} (hn : 2 * n ≤ 2 ^ w)
    (cmp : BitVec w × β → BitVec w × β → BitVec 1) (hcmp : ∀ l r, cmp l r = IntOp.cmpi .slt l.1 r.1)
    (π : Equiv.Perm (Fin n)) (p : IVec ⟨1, ![n]⟩ w) (hp : ∀ j, (p j).toNat = (π (j 0)).val)
    (y : (⟨1, ![n]⟩ : Shape).Idx → β) (j : (⟨1, ![n]⟩ : Shape).Idx) :
    ((Host.sort2 ⟨1, ![n]⟩ 0 cmp p y).1 j).toNat = (j 0).val := by
  rw [sort2_slt_of_perm hn cmp hcmp π p hp]
  show (p (Shape.Idx.ofFin (π.symm (j 0)))).toNat = _
  rw [hp, Shape.Idx.ofFin_zero]
  exact congrArg Fin.val (π.apply_symm_apply (j 0))

/-- The two sorts in a row: a shuffle of the identity table by ANY keys under ANY comparator, then its argsort by
    the signed order. There is one permutation π of the positions such that the shuffle is π's word table and
    the argsort is π⁻¹'s. -/
theorem exists_perm_shuffle_argsort {n w : Nat} (hn : 2 * n ≤ 2 ^ w) {α : Type}
    (cmpK : α × BitVec w → α × BitVec w → BitVec 1) (keys : (⟨1, ![n]⟩ : Shape).Idx → α)
    (cmpS : BitVec w × BitVec w → BitVec w × BitVec w → BitVec 1)
    (hcmpS : ∀ l r, cmpS l r = IntOp.cmpi .slt l.1 r.1) :
    ∃ π : Equiv.Perm (Fin n),
      (∀ j : (⟨1, ![n]⟩ : Shape).Idx,
        (Host.sort2 ⟨1, ![n]⟩ 0 cmpK keys (iotaInDim ⟨1, ![n]⟩ w 0)).2 j = BitVec.ofNat w (π (j 0)).val) ∧
      (∀ j : (⟨1, ![n]⟩ : Shape).Idx,
        (Host.sort2 ⟨1, ![n]⟩ 0 cmpS (Host.sort2 ⟨1, ![n]⟩ 0 cmpK keys (iotaInDim ⟨1, ![n]⟩ w 0)).2
          (iotaInDim ⟨1, ![n]⟩ w 0)).2 j = BitVec.ofNat w (π.symm (j 0)).val) := by
  refine ⟨sortPerm (before2 cmpK keys (iotaInDim ⟨1, ![n]⟩ w 0)), sort2_iota_snd cmpK keys, fun j => ?_⟩
  exact sort2_slt_iota_snd hn cmpS hcmpS _ _ (sort2_iota_snd_toNat (by omega) cmpK keys) j

/-! ## (iii) The normalisation of a possibly negative index -/

/-- A word that is not negative (below half the range) is not signed-less-than zero, so the normalisation
    "add c where negative" returns it. -/
theorem normalize_word {w : Nat} (a c : BitVec w) (ha : 2 * a.toNat < 2 ^ w) :
    Scalar.select (IntOp.cmpi .slt a 0#w) (IntOp.addi a c) a = a := by
  have h : IntOp.cmpi .slt a 0#w = 0#1 := by
    unfold IntOp.cmpi
    simp only
    rw [BitVec.slt_eq_decide, BitVec.toInt_eq_toNat_of_lt ha, BitVec.toInt_zero,
      decide_eq_false (by omega : ¬ ((a.toNat : Int) < 0))]
    rfl
  rw [h]
  rfl

/-- The same on tables: where every word of x is not negative, z is the zero table and c any table,
    select (x <s z) (x + c) x is x. -/
theorem normalize_table {s : Shape} {w : Nat} (x z c : IVec s w) (hz : ∀ j, z j = 0#w)
    (hx : ∀ j, 2 * (x j).toNat < 2 ^ w) : select (cmpi .slt x z) (addi x c) x = x := by
  funext j
  show Scalar.select (IntOp.cmpi .slt (x j) (z j)) (IntOp.addi (x j) (c j)) (x j) = x j
  rw [hz j]
  exact normalize_word _ _ (hx j)

end Idealize.ShloMosaic.LibSortPerm
-- ==== Proof.LibGatherRead.lean ====
/-
  Two gathers read at an index, by the gather's definition (StableHLO's operand_index: on each operand axis the
  clamped start plus the batching coordinate plus the offset coordinate).

  The ROW gather: what x[idx] of a table x : [N, C] at a column of row numbers idx : [R, 1] lowers to — offset_dims
  [1], collapsed_slice_dims [0], start_index_map [0], index_vector_dim 1, slice_sizes [1, C]. Result element (r, c)
  is x at row idx[r, 0] and column c.

  The COLUMN gather: what x[:, idx] of a table x : [N, C] at a column of column numbers idx : [K, 1] lowers to —
  offset_dims [0], collapsed_slice_dims [1], start_index_map [1], index_vector_dim 1, slice_sizes [N, 1]. Result
  element (r, c) is x at row r and column idx[c, 0].

  In both the start index is read as a signed integer and clamped so that the slice fits, as the gather clamps
  every start index; where the word is in range (and the range fits the signed half of the words) it is the word.
-/
import Idealize.ShloMosaic.Lib.ValueIdx

namespace Idealize.ShloMosaic.LibGatherRead

open Idealize.ShloMosaic Idealize.ShloMosaic.ValueIdx

variable {α : Type}

/-- A word below a bound that fits the signed half of the words, read signed and clamped to the bound, is itself. -/
theorem clamp_toInt_of_lt {w N : Nat} (a : BitVec w) (ha : a.toNat < N) (hw : 2 * N ≤ 2 ^ w) :
    min a.toInt.toNat (N - 1) = a.toNat := by
  rw [BitVec.toInt_eq_toNat_of_lt (by omega), Int.toNat_natCast]
  omega

/-! ## Rows -/

/-- The row gather's dimension numbers for an operand [N, C], start indices [R, 1] and a result [R, C]; their
    conditions wf are decided on literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index [r, 0] of result index (r, c). -/
abbrev rowIdx {R C : Nat} (y : (⟨2, ![R, C]⟩ : Shape).Idx) : (⟨2, ![R, 1]⟩ : Shape).Idx :=
  ix2 ⟨(y 0).val, idx2_lt0 y⟩ (0 : Fin 1)

/-- THE ROW GATHER READ AT (r, c): the operand at row idx[r, 0], read signed and clamped into [0, N - 1], and
    column c. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowsDims N R C wf).start y idx 0 + (rowsDims N R C wf).batchCoord y 0 + (rowsDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowsDims N R C wf).start y idx 1 + (rowsDims N R C wf).batchCoord y 1 + (rowsDims N R C wf).offCoord y 1
      = (y 1).val
    rw [GatherDims.batchCoord_eq_zero _ _ _ List.not_mem_nil]
    unfold GatherDims.start
    rw [dif_neg (show (1 : Fin 2) ∉ (rowsDims N R C wf).startIndexMap from
      fun h => absurd (congrArg Fin.val (List.mem_singleton.mp h)) Nat.one_ne_zero)]
    simp only [Nat.add_zero, Nat.zero_add]
    rfl

/-- … where the row number idx[r, 0] is in range (and 2N ≤ 2^w, so that it reads the same signed): the operand at
    that row. -/
theorem gather_rows_apply_of_lt {N R C w : Nat} (hw : 2 * N ≤ 2 ^ w)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx)
    (h : (idx (rowIdx y)).toNat < N) :
    Host.gather (rowsDims N R C wf) x idx y = x (ix2 ⟨(idx (rowIdx y)).toNat, h⟩ ⟨(y 1).val, idx2_lt1 y⟩) := by
  rw [gather_rows_apply (by omega)]
  congr 2
  exact Fin.ext (clamp_toInt_of_lt _ h hw)

/-- … at an index written from its coordinates: row idx[r, 0] of the operand, column c. -/
theorem gather_rows_ix2_of_lt {N R C w : Nat} (hw : 2 * N ≤ 2 ^ w)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C)
    (h : (idx (ix2 r (0 : Fin 1))).toNat < N) :
    Host.gather (rowsDims N R C wf) x idx (ix2 r c) = x (ix2 ⟨(idx (ix2 r (0 : Fin 1))).toNat, h⟩ c) :=
  gather_rows_apply_of_lt hw wf x idx (ix2 r c) h

/-! ## Columns -/

/-- The column gather's dimension numbers for an operand [N, C], start indices [K, 1] and a result [N, K]; their
    conditions wf are decided on literal shapes. -/
abbrev colsDims (N C K : Nat)
    (wf : GatherDims.WF ⟨2, ![N, C]⟩ ⟨2, ![K, 1]⟩ ⟨2, ![N, K]⟩ [0] [1] [] [1] [] 1 ![N, 1]) :
    GatherDims ⟨2, ![N, C]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- The start-indices index [c, 0] of result index (r, c). -/
abbrev colIdx {N K : Nat} (y : (⟨2, ![N, K]⟩ : Shape).Idx) : (⟨2, ![K, 1]⟩ : Shape).Idx :=
  ix2 ⟨(y 1).val, idx2_lt1 y⟩ (0 : Fin 1)

/-- THE COLUMN GATHER READ AT (r, c): the operand at row r and column idx[c, 0], read signed and clamped into
    [0, C - 1]. -/
theorem gather_cols_apply {N C K w : Nat} (hC : 0 < C)
    (wf : GatherDims.WF ⟨2, ![N, C]⟩ ⟨2, ![K, 1]⟩ ⟨2, ![N, K]⟩ [0] [1] [] [1] [] 1 ![N, 1])
    (x : (⟨2, ![N, C]⟩ : Shape).Idx → α) (idx : IVec ⟨2, ![K, 1]⟩ w) (y : (⟨2, ![N, K]⟩ : Shape).Idx) :
    Host.gather (colsDims N C K wf) x idx y
      = x (ix2 ⟨(y 0).val, idx2_lt0 y⟩ ⟨min (idx (colIdx y)).toInt.toNat (C - 1), by omega⟩) := by
  unfold Host.gather
  congr 1
  funext a
  refine Fin.ext ?_
  match a with
  | ⟨0, _⟩ =>
    show (colsDims N C K wf).start y idx 0 + (colsDims N C K wf).batchCoord y 0 + (colsDims N C K wf).offCoord y 0
      = (y 0).val
    rw [GatherDims.batchCoord_eq_zero _ _ _ List.not_mem_nil]
    unfold GatherDims.start
    rw [dif_neg (show (0 : Fin 2) ∉ (colsDims N C K wf).startIndexMap from
      fun h => absurd (congrArg Fin.val (List.mem_singleton.mp h)) Nat.zero_ne_one)]
    simp only [Nat.add_zero, Nat.zero_add]
    rfl
  | ⟨1, _⟩ =>
    show (colsDims N C K wf).start y idx 1 + (colsDims N C K wf).batchCoord y 1 + (colsDims N C K wf).offCoord y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C K wf).startIndexMap from List.mem_singleton.mpr rfl)]
    have hsi : (colsDims N C K wf).siIdx y ⟨List.idxOf (1 : Fin 2) (colsDims N C K wf).startIndexMap,
        List.idxOf_lt_length_iff.2 (List.mem_singleton.mpr rfl)⟩ = colIdx y := by
      funext b; refine Fin.ext ?_
      match b with
      | ⟨0, _⟩ => rfl
      | ⟨1, _⟩ => rfl
    rw [hsi]
    rfl

/-- … where the column number idx[c, 0] is in range (and 2C ≤ 2^w): the operand at that column. -/
theorem gather_cols_apply_of_lt {N C K w : Nat} (hw : 2 * C ≤ 2 ^ w)
    (wf : GatherDims.WF ⟨2, ![N, C]⟩ ⟨2, ![K, 1]⟩ ⟨2, ![N, K]⟩ [0] [1] [] [1] [] 1 ![N, 1])
    (x : (⟨2, ![N, C]⟩ : Shape).Idx → α) (idx : IVec ⟨2, ![K, 1]⟩ w) (y : (⟨2, ![N, K]⟩ : Shape).Idx)
    (h : (idx (colIdx y)).toNat < C) :
    Host.gather (colsDims N C K wf) x idx y = x (ix2 ⟨(y 0).val, idx2_lt0 y⟩ ⟨(idx (colIdx y)).toNat, h⟩) := by
  rw [gather_cols_apply (by omega)]
  congr 2
  exact Fin.ext (clamp_toInt_of_lt _ h hw)

/-- … at an index written from its coordinates: row r of the operand, column idx[c, 0]. -/
theorem gather_cols_ix2_of_lt {N C K w : Nat} (hw : 2 * C ≤ 2 ^ w)
    (wf : GatherDims.WF ⟨2, ![N, C]⟩ ⟨2, ![K, 1]⟩ ⟨2, ![N, K]⟩ [0] [1] [] [1] [] 1 ![N, 1])
    (x : (⟨2, ![N, C]⟩ : Shape).Idx → α) (idx : IVec ⟨2, ![K, 1]⟩ w) (r : Fin N) (c : Fin K)
    (h : (idx (ix2 c (0 : Fin 1))).toNat < C) :
    Host.gather (colsDims N C K wf) x idx (ix2 r c) = x (ix2 r ⟨(idx (ix2 c (0 : Fin 1))).toNat, h⟩) :=
  gather_cols_apply_of_lt hw wf x idx (ix2 r c) h

end Idealize.ShloMosaic.LibGatherRead
-- ==== Proof.LibLayoutRead.lean ====
/-
  Two layout operations of rank-2 tables read at an index: a unit-stride slice of a block of rows, and a
  concatenation of three equal tables along the rows (axis 0) or along the columns (axis 1), read in the piece the
  index falls in. Each is the general read-at-an-index lemma of the operation with the operand index chosen.
-/
import Idealize.ShloMosaic.Lib.ValueIdx
import Idealize.ShloMosaic.Lib.Pipeline.Value

namespace Idealize.ShloMosaic.LibLayoutRead

open Idealize.ShloMosaic Idealize.ShloMosaic.ValueIdx

variable {α : Type}

/-! ## A slice of rows -/

/-- The slice of R rows from row a of a table [N, C], all columns, read at (r, c): the table at (a + r, c). -/
theorem slice_rows_apply {N R C a : Nat} (ha : a + R ≤ N) (x : (⟨2, ![N, C]⟩ : Shape).Idx → α)
    (h : (⟨2, ![N, C]⟩ : Shape).Slices ![a, 0] ⟨2, ![R, C]⟩) (y : (⟨2, ![R, C]⟩ : Shape).Idx) :
    extractStridedSlice ⟨2, ![R, C]⟩ ![a, 0] x h y
      = x (ix2 ⟨a + (y 0).val, by have := idx2_lt0 y; omega⟩ ⟨(y 1).val, idx2_lt1 y⟩) :=
  extractStridedSlice_apply ![a, 0] x h y _ fun b =>
    match b with
    | ⟨0, _⟩ => rfl
    | ⟨1, _⟩ => (Nat.zero_add _).symm

/-! ## Three equal tables laid end to end along the rows -/

section Rows
variable {N R C : Nat} (u₀ u₁ u₂ : (⟨2, ![R, C]⟩ : Shape).Idx → α)
  (h : Shape.Concatenates [⟨2, ![R, C]⟩, ⟨2, ![R, C]⟩, ⟨2, ![R, C]⟩] ⟨2, ![N, C]⟩ 0)
  (y : (⟨2, ![N, C]⟩ : Shape).Idx) (j : Fin R)

/-- At a row r = j of the first R rows: the first table at (j, c). -/
theorem concat3_rows_apply_0 (hy : (y 0).val = j.val) :
    concatenate ⟨2, ![N, C]⟩ 0 [⟨⟨2, ![R, C]⟩, u₀⟩, ⟨⟨2, ![R, C]⟩, u₁⟩, ⟨⟨2, ![R, C]⟩, u₂⟩] h y
      = u₀ (ix2 j ⟨(y 1).val, idx2_lt1 y⟩) :=
  concatenate_apply_piece 0 [⟨⟨2, ![R, C]⟩, u₀⟩, ⟨⟨2, ![R, C]⟩, u₁⟩, ⟨⟨2, ![R, C]⟩, u₂⟩] h y 0 (by simp) _ u₀ rfl rfl
    0 rfl (ix2 j ⟨(y 1).val, idx2_lt1 y⟩)
    (fun b hb => match b with
      | ⟨0, _⟩ => absurd rfl hb
      | ⟨1, _⟩ => rfl)
    ((Nat.zero_add _).trans hy.symm)

/-- At a row r = R + j of the second R rows: the second table at (j, c). -/
theorem concat3_rows_apply_1 (hy : (y 0).val = R + j.val) :
    concatenate ⟨2, ![N, C]⟩ 0 [⟨⟨2, ![R, C]⟩, u₀⟩, ⟨⟨2, ![R, C]⟩, u₁⟩, ⟨⟨2, ![R, C]⟩, u₂⟩] h y
      = u₁ (ix2 j ⟨(y 1).val, idx2_lt1 y⟩) :=
  concatenate_apply_piece 0 [⟨⟨2, ![R, C]⟩, u₀⟩, ⟨⟨2, ![R, C]⟩, u₁⟩, ⟨⟨2, ![R, C]⟩, u₂⟩] h y 1 (by simp) _ u₁ rfl rfl
    R (by simp) (ix2 j ⟨(y 1).val, idx2_lt1 y⟩)
    (fun b hb => match b with
      | ⟨0, _⟩ => absurd rfl hb
      | ⟨1, _⟩ => rfl)
    hy.symm

/-- At a row r = R + R + j of the third R rows: the third table at (j, c). -/
theorem concat3_rows_apply_2 (hy : (y 0).val = R + R + j.val) :
    concatenate ⟨2, ![N, C]⟩ 0 [⟨⟨2, ![R, C]⟩, u₀⟩, ⟨⟨2, ![R, C]⟩, u₁⟩, ⟨⟨2, ![R, C]⟩, u₂⟩] h y
      = u₂ (ix2 j ⟨(y 1).val, idx2_lt1 y⟩) :=
  concatenate_apply_piece 0 [⟨⟨2, ![R, C]⟩, u₀⟩, ⟨⟨2, ![R, C]⟩, u₁⟩, ⟨⟨2, ![R, C]⟩, u₂⟩] h y 2 (by simp) _ u₂ rfl rfl
    (R + R) (by simp) (ix2 j ⟨(y 1).val, idx2_lt1 y⟩)
    (fun b hb => match b with
      | ⟨0, _⟩ => absurd rfl hb
      | ⟨1, _⟩ => rfl)
    hy.symm

end Rows

/-! ## Three equal tables laid end to end along the columns -/

section Cols
variable {N R C : Nat} (u₀ u₁ u₂ : (⟨2, ![R, C]⟩ : Shape).Idx → α)
  (h : Shape.Concatenates [⟨2, ![R, C]⟩, ⟨2, ![R, C]⟩, ⟨2, ![R, C]⟩] ⟨2, ![R, N]⟩ 1)
  (y : (⟨2, ![R, N]⟩ : Shape).Idx) (j : Fin C)

/-- At a column c = j of the first C columns: the first table at (r, j). -/
theorem concat3_cols_apply_0 (hy : (y 1).val = j.val) :
    concatenate ⟨2, ![R, N]⟩ 1 [⟨⟨2, ![R, C]⟩, u₀⟩, ⟨⟨2, ![R, C]⟩, u₁⟩, ⟨⟨2, ![R, C]⟩, u₂⟩] h y
      = u₀ (ix2 ⟨(y 0).val, idx2_lt0 y⟩ j) :=
  concatenate_apply_piece 1 [⟨⟨2, ![R, C]⟩, u₀⟩, ⟨⟨2, ![R, C]⟩, u₁⟩, ⟨⟨2, ![R, C]⟩, u₂⟩] h y 0 (by simp) _ u₀ rfl rfl
    0 rfl (ix2 ⟨(y 0).val, idx2_lt0 y⟩ j)
    (fun b hb => match b with
      | ⟨0, _⟩ => rfl
      | ⟨1, _⟩ => absurd rfl hb)
    ((Nat.zero_add _).trans hy.symm)

/-- At a column c = C + j of the second C columns: the second table at (r, j). -/
theorem concat3_cols_apply_1 (hy : (y 1).val = C + j.val) :
    concatenate ⟨2, ![R, N]⟩ 1 [⟨⟨2, ![R, C]⟩, u₀⟩, ⟨⟨2, ![R, C]⟩, u₁⟩, ⟨⟨2, ![R, C]⟩, u₂⟩] h y
      = u₁ (ix2 ⟨(y 0).val, idx2_lt0 y⟩ j) :=
  concatenate_apply_piece 1 [⟨⟨2, ![R, C]⟩, u₀⟩, ⟨⟨2, ![R, C]⟩, u₁⟩, ⟨⟨2, ![R, C]⟩, u₂⟩] h y 1 (by simp) _ u₁ rfl rfl
    C (by simp) (ix2 ⟨(y 0).val, idx2_lt0 y⟩ j)
    (fun b hb => match b with
      | ⟨0, _⟩ => rfl
      | ⟨1, _⟩ => absurd rfl hb)
    hy.symm

/-- At a column c = C + C + j of the third C columns: the third table at (r, j). -/
theorem concat3_cols_apply_2 (hy : (y 1).val = C + C + j.val) :
    concatenate ⟨2, ![R, N]⟩ 1 [⟨⟨2, ![R, C]⟩, u₀⟩, ⟨⟨2, ![R, C]⟩, u₁⟩, ⟨⟨2, ![R, C]⟩, u₂⟩] h y
      = u₂ (ix2 ⟨(y 0).val, idx2_lt0 y⟩ j) :=
  concatenate_apply_piece 1 [⟨⟨2, ![R, C]⟩, u₀⟩, ⟨⟨2, ![R, C]⟩, u₁⟩, ⟨⟨2, ![R, C]⟩, u₂⟩] h y 2 (by simp) _ u₂ rfl rfl
    (C + C) (by simp) (ix2 ⟨(y 0).val, idx2_lt0 y⟩ j)
    (fun b hb => match b with
      | ⟨0, _⟩ => rfl
      | ⟨1, _⟩ => absurd rfl hb)
    hy.symm

end Cols

end Idealize.ShloMosaic.LibLayoutRead
-- ==== Proof.LibPermRows.lean ====
/-
  Rows and columns of a table picked by the word table of a self-map of the positions. A table v : [R] of words
  whose value at position j is τ j, broadcast to a column [R, 1], gathers rows τ j of a block of R rows of a
  matrix (the rows of the block permuted by τ), or columns τ c of a matrix (its columns permuted by τ). With τ a
  permutation this is how a matrix product against a column-permuted left factor is moved onto the rows of the right
  factor.
-/
import Idealize.ShloMosaic.Lib.ValueIdx
import Idealize.ShloMosaic.Lib.Pipeline.Value
import proofs.«204681_g65575560675685_cont_9to1_m_144_57_alg».proof.Proof.LibGatherRead
import proofs.«204681_g65575560675685_cont_9to1_m_144_57_alg».proof.Proof.LibLayoutRead

namespace Idealize.ShloMosaic.LibPermRows

open Idealize.ShloMosaic Idealize.ShloMosaic.ValueIdx

variable {α : Type}

/-- A table [R] broadcast to a column [R, 1] (operand axis 0 to result axis 0) read at (r, 0): the table at r. -/
theorem bcast_col_apply {R : Nat} {β : Type} (hb : (⟨1, ![R]⟩ : Shape).BroadcastsInDim ⟨2, ![R, 1]⟩ ![0])
    (v : (⟨1, ![R]⟩ : Shape).Idx → β) (y : (⟨2, ![R, 1]⟩ : Shape).Idx) :
    broadcastInDim ⟨2, ![R, 1]⟩ ![0] hb v y = v (ix1 ⟨(y 0).val, idx2_lt0 y⟩) :=
  broadcastInDim_apply ![0] hb v y _ fun a =>
    match a with
    | ⟨0, _⟩ => by
      show (y 0).val = if R = 1 then 0 else (y 0).val
      have := idx2_lt0 y
      split <;> omega

/-- ROWS OF A BLOCK PICKED BY A WORD TABLE: the block of R rows from row a of W : [N, C], its rows gathered by the
    column broadcast of a word table v with v j = τ j (τ any self-map of the R positions; 2R ≤ 2^w), read at
    (j, n), is W at (a + τ j, n). -/
theorem gather_slice_rows_of_table {N R C a w : Nat} (ha : a + R ≤ N) (hw : 2 * R ≤ 2 ^ w)
    (W : (⟨2, ![N, C]⟩ : Shape).Idx → α) (hs : (⟨2, ![N, C]⟩ : Shape).Slices ![a, 0] ⟨2, ![R, C]⟩)
    (wf : GatherDims.WF ⟨2, ![R, C]⟩ ⟨2, ![R, 1]⟩ ⟨2, ![R, C]⟩ [1] [0] [] [0] [] 1 ![1, C])
    (hb : (⟨1, ![R]⟩ : Shape).BroadcastsInDim ⟨2, ![R, 1]⟩ ![0]) (v : IVec ⟨1, ![R]⟩ w) (τ : Fin R → Fin R)
    (hv : ∀ j, (v j).toNat = (τ (j 0)).val) (j : Fin R) (n : Fin C) :
    Host.gather (LibGatherRead.rowsDims R R C wf) (extractStridedSlice ⟨2, ![R, C]⟩ ![a, 0] W hs)
        (broadcastInDim ⟨2, ![R, 1]⟩ ![0] hb v) (ix2 j n)
      = W (ix2 ⟨a + (τ j).val, by have := (τ j).isLt; omega⟩ n) := by
  have hidx : (broadcastInDim ⟨2, ![R, 1]⟩ ![0] hb v (ix2 j (0 : Fin 1))).toNat = (τ j).val := by
    rw [bcast_col_apply, hv]
    rfl
  rw [LibGatherRead.gather_rows_ix2_of_lt hw wf _ _ j n (by rw [hidx]; exact (τ j).isLt),
    LibLayoutRead.slice_rows_apply ha]
  congr 2
  exact Fin.ext (congrArg (fun t => a + t) hidx)

/-- COLUMNS PICKED BY A WORD TABLE: the columns of x : [N, C] gathered by the column broadcast of a word table v
    with v c = σ c (σ any self-map of the C positions; 2C ≤ 2^w), read at (r, c), is x at (r, σ c). -/
theorem gather_cols_of_table {N C w : Nat} (hw : 2 * C ≤ 2 ^ w) (x : (⟨2, ![N, C]⟩ : Shape).Idx → α)
    (wf : GatherDims.WF ⟨2, ![N, C]⟩ ⟨2, ![C, 1]⟩ ⟨2, ![N, C]⟩ [0] [1] [] [1] [] 1 ![N, 1])
    (hb : (⟨1, ![C]⟩ : Shape).BroadcastsInDim ⟨2, ![C, 1]⟩ ![0]) (v : IVec ⟨1, ![C]⟩ w) (σ : Fin C → Fin C)
    (hv : ∀ j, (v j).toNat = (σ (j 0)).val) (r : Fin N) (c : Fin C) :
    Host.gather (LibGatherRead.colsDims N C C wf) x (broadcastInDim ⟨2, ![C, 1]⟩ ![0] hb v) (ix2 r c)
      = x (ix2 r (σ c)) := by
  have hidx : (broadcastInDim ⟨2, ![C, 1]⟩ ![0] hb v (ix2 c (0 : Fin 1))).toNat = (σ c).val := by
    rw [bcast_col_apply, hv]
    rfl
  rw [LibGatherRead.gather_cols_ix2_of_lt hw wf _ _ r c (by rw [hidx]; exact (σ c).isLt)]
  congr 2
  exact Fin.ext hidx

end Idealize.ShloMosaic.LibPermRows
-- ==== Proof.HostValW.lean ====
import proofs.«204681_g65575560675685_cont_9to1_m_144_57_alg».proof.Proof.HostValKeep
import proofs.«204681_g65575560675685_cont_9to1_m_144_57_alg».proof.Proof.LibSortPerm
import proofs.«204681_g65575560675685_cont_9to1_m_144_57_alg».proof.Proof.LibPermRows

noncomputable section

namespace Cert.KernelIdeal.HostVal

open Cert.KernelIdeal Cert.KernelIdeal.HostOps Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

open Idealize.ShloMosaic.ValueIdx

/-! # The weight matrix the two matrix products read

Rows 0 to 127 are the weight array's own; rows 128 to 255 are its rows 128 to 255 taken through the argsort of one
shuffle of 0..127, rows 256 to 383 its rows 256 to 383 taken through the argsort of the other shuffle. The shuffles
themselves are left as they stand: only that each is a stable sort's second result over some keys is used. -/

/-- Reads that remain inside the parts of a concatenation after the one-pass evaluation: done by rewriting. -/
macro "after_reads_w" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- The argsort of a table of 128 words (the second result of the stable sort by signed comparison against 0..127). -/
def argsort (p : IVec S128 32) : IVec S128 32 :=
  (Host.sort2 S128 0 comparator_i32_i32_d0_2 p (iotaInDim S128 32 0)).2

/-- jnp's normalisation of a possibly negative index: `where(i < 0, i + 128, i)`. -/
def normIdx (s : IVec S128 32) : IVec S128 32 :=
  select (cmpi .slt s (broadcastInDim S128 ![] bcast_S_S128 (constantI S_ 32 0#32)))
    (addi s (broadcastInDim S128 ![] bcast_S_S128 (constantI S_ 32 128#32))) s

/-- A block of 128 rows taken through a table of row numbers. -/
def permRows (x : (⟨S128x128, .f32⟩ : BufTy).Contents (Elt F)) (t : IVec S128 32) : (⟨S128x128, .f32⟩ : BufTy).Contents (Elt F) :=
  Host.gather gather_S128x128_S128x1_S128x128_1_0_n_n_0_1_1128 x (broadcastInDim S128x1 ![0] bcast_S128_S128x1_0 t)

/-- The weight matrix as the program builds it from the weight array and the two shuffles. -/
def wMatrix (w : (⟨S384x128, .f32⟩ : BufTy).Contents (Elt F)) (pu pi : IVec S128 32) : (⟨S384x128, .f32⟩ : BufTy).Contents (Elt F) :=
  concatenate S384x128 0
    [⟨S128x128, extractStridedSlice S128x128 ![0, 0] w slices_S384x128_S128x128_0_0⟩,
     ⟨S128x128, permRows (extractStridedSlice S128x128 ![128, 0] w slices_S384x128_S128x128_128_0) (normIdx (argsort pu))⟩,
     ⟨S128x128, permRows (extractStridedSlice S128x128 ![256, 0] w slices_S384x128_S128x128_256_0) (normIdx (argsort pi))⟩]
    concatenates_S128x128_S128x128_S128x128_S384x128_d0

section Stretch
variable (W : Valuation τ sig (Elt F))

theorem val_v18 : after (mainOps2 (F := F)) W (Proc.devRef .tc main_v18)
    = extractStridedSlice S128x128 ![0, 0] (W (Proc.devRef .tc main_arg5)) slices_S384x128_S128x128_0_0 := by
  unfold mainOps2
  after_results_simp

theorem val_v19 : after (mainOps2 (F := F)) W (Proc.devRef .tc main_v19)
    = extractStridedSlice S128x128 ![128, 0] (W (Proc.devRef .tc main_arg5)) slices_S384x128_S128x128_128_0 := by
  unfold mainOps2
  after_results_simp

theorem val_v20 : after (fn_argsort.ops (F := F) (.of main_v17) main_call2) W (Proc.devRef .tc main_v20)
    = argsort (W (Proc.devRef .tc main_v17)) := by
  unfold fn_argsort.ops fn_argsort.seg0
  after_results_simp
  rfl

theorem val_v29 : after (fn_argsort.ops (F := F) (.of main_v8) main_call3) W (Proc.devRef .tc main_v29)
    = argsort (W (Proc.devRef .tc main_v8)) := by
  unfold fn_argsort.ops fn_argsort.seg0
  after_results_simp
  rfl

theorem val_v27 : after (mainOps3 (F := F)) W (Proc.devRef .tc main_v27)
    = permRows (W (Proc.devRef .tc main_v19)) (normIdx (W (Proc.devRef .tc main_v20))) := by
  unfold mainOps3
  after_results_simp
  rfl

theorem val_v28 : after (mainOps3 (F := F)) W (Proc.devRef .tc main_v28)
    = extractStridedSlice S128x128 ![256, 0] (W (Proc.devRef .tc main_arg5)) slices_S384x128_S128x128_256_0 := by
  unfold mainOps3
  after_results_simp

theorem val_v37 : after (mainOps4 (F := F)) W (Proc.devRef .tc main_v37)
    = concatenate S384x128 0
        [⟨S128x128, W (Proc.devRef .tc main_v18)⟩, ⟨S128x128, W (Proc.devRef .tc main_v27)⟩,
         ⟨S128x128, permRows (W (Proc.devRef .tc main_v28)) (normIdx (W (Proc.devRef .tc main_v29)))⟩]
        concatenates_S128x128_S128x128_S128x128_S384x128_d0 := by
  unfold mainOps4
  after_results_simp
  after_reads_w
  rfl

end Stretch

section Whole
variable (V : Valuation τ sig (Elt F))

/-- The weight matrix after the whole host stretch, over the weight array and the two shuffles' results. -/
theorem weight_eq : after (hostOps (F := F)) V (Proc.devRef .tc main_v37)
    = wMatrix (V (Proc.devRef .tc main_arg5)) (after (hostOps (F := F)) V (Proc.devRef .tc main_v17))
        (after (hostOps (F := F)) V (Proc.devRef .tc main_v8)) := by
  rw [after_hostOps]
  repeat (first
    | rw [val_v37] | rw [val_v27] | rw [val_v28] | rw [val_v18] | rw [val_v19] | rw [val_v20] | rw [val_v29]
    | rw [keeps_mainOps0 main_v37 (by decide)]
    | rw [keeps_shuffle0 main_v37 (by decide)]
    | rw [keeps_mainOps1 main_v37 (by decide)]
    | rw [keeps_shuffle1 main_v37 (by decide)]
    | rw [keeps_mainOps2 main_v37 (by decide)]
    | rw [keeps_argsort2 main_v37 (by decide)]
    | rw [keeps_mainOps3 main_v37 (by decide)]
    | rw [keeps_argsort3 main_v37 (by decide)]
    | rw [keeps_mainOps5 main_v37 (by decide)]
    | rw [keeps_mainOps6 main_v37 (by decide)]
    | rw [keeps_mainOps0 main_v18 (by decide)]
    | rw [keeps_shuffle0 main_v18 (by decide)]
    | rw [keeps_mainOps1 main_v18 (by decide)]
    | rw [keeps_shuffle1 main_v18 (by decide)]
    | rw [keeps_argsort2 main_v18 (by decide)]
    | rw [keeps_mainOps3 main_v18 (by decide)]
    | rw [keeps_argsort3 main_v18 (by decide)]
    | rw [keeps_mainOps4 main_v18 (by decide)]
    | rw [keeps_mainOps5 main_v18 (by decide)]
    | rw [keeps_mainOps6 main_v18 (by decide)]
    | rw [keeps_mainOps0 main_v27 (by decide)]
    | rw [keeps_shuffle0 main_v27 (by decide)]
    | rw [keeps_mainOps1 main_v27 (by decide)]
    | rw [keeps_shuffle1 main_v27 (by decide)]
    | rw [keeps_mainOps2 main_v27 (by decide)]
    | rw [keeps_argsort2 main_v27 (by decide)]
    | rw [keeps_argsort3 main_v27 (by decide)]
    | rw [keeps_mainOps4 main_v27 (by decide)]
    | rw [keeps_mainOps5 main_v27 (by decide)]
    | rw [keeps_mainOps6 main_v27 (by decide)]
    | rw [keeps_mainOps0 main_v19 (by decide)]
    | rw [keeps_shuffle0 main_v19 (by decide)]
    | rw [keeps_mainOps1 main_v19 (by decide)]
    | rw [keeps_shuffle1 main_v19 (by decide)]
    | rw [keeps_argsort2 main_v19 (by decide)]
    | rw [keeps_mainOps3 main_v19 (by decide)]
    | rw [keeps_argsort3 main_v19 (by decide)]
    | rw [keeps_mainOps4 main_v19 (by decide)]
    | rw [keeps_mainOps5 main_v19 (by decide)]
    | rw [keeps_mainOps6 main_v19 (by decide)]
    | rw [keeps_mainOps0 main_v28 (by decide)]
    | rw [keeps_shuffle0 main_v28 (by decide)]
    | rw [keeps_mainOps1 main_v28 (by decide)]
    | rw [keeps_shuffle1 main_v28 (by decide)]
    | rw [keeps_mainOps2 main_v28 (by decide)]
    | rw [keeps_argsort2 main_v28 (by decide)]
    | rw [keeps_argsort3 main_v28 (by decide)]
    | rw [keeps_mainOps4 main_v28 (by decide)]
    | rw [keeps_mainOps5 main_v28 (by decide)]
    | rw [keeps_mainOps6 main_v28 (by decide)]
    | rw [keeps_mainOps0 main_v17 (by decide)]
    | rw [keeps_shuffle0 main_v17 (by decide)]
    | rw [keeps_mainOps1 main_v17 (by decide)]
    | rw [keeps_mainOps2 main_v17 (by decide)]
    | rw [keeps_argsort2 main_v17 (by decide)]
    | rw [keeps_mainOps3 main_v17 (by decide)]
    | rw [keeps_argsort3 main_v17 (by decide)]
    | rw [keeps_mainOps4 main_v17 (by decide)]
    | rw [keeps_mainOps5 main_v17 (by decide)]
    | rw [keeps_mainOps6 main_v17 (by decide)]
    | rw [keeps_mainOps0 main_v8 (by decide)]
    | rw [keeps_mainOps1 main_v8 (by decide)]
    | rw [keeps_shuffle1 main_v8 (by decide)]
    | rw [keeps_mainOps2 main_v8 (by decide)]
    | rw [keeps_argsort2 main_v8 (by decide)]
    | rw [keeps_mainOps3 main_v8 (by decide)]
    | rw [keeps_argsort3 main_v8 (by decide)]
    | rw [keeps_mainOps4 main_v8 (by decide)]
    | rw [keeps_mainOps5 main_v8 (by decide)]
    | rw [keeps_mainOps6 main_v8 (by decide)]
    | rw [keeps_mainOps0 main_arg5 (by decide)]
    | rw [keeps_shuffle0 main_arg5 (by decide)]
    | rw [keeps_mainOps1 main_arg5 (by decide)]
    | rw [keeps_shuffle1 main_arg5 (by decide)]
    | rw [keeps_mainOps2 main_arg5 (by decide)]
    | rw [keeps_argsort2 main_arg5 (by decide)]
    | rw [keeps_mainOps3 main_arg5 (by decide)]
    | rw [keeps_argsort3 main_arg5 (by decide)]
    | rw [keeps_mainOps4 main_arg5 (by decide)]
    | rw [keeps_mainOps5 main_arg5 (by decide)]
    | rw [keeps_mainOps6 main_arg5 (by decide)])
  rfl

end Whole

/-! ## Each shuffle's result is a stable sort's second result -/
section Shuffle

/-- The last three operations of shuffle 0: the keys are the exclusive-or of two hash words, and the result is the
    second result of the stable sort of (keys, 0..127). -/
theorem shuffle0_last (a0 : StableHlo.TRef sig ⟨S2, .i32⟩) (W : Valuation τ sig (Elt F)) :
    ∃ keys : IVec S128 32, after (fn_shuffle.seg1 (F := F) a0 (.of main_v7) main_call0) W (Proc.devRef .tc main_v8)
      = (Host.sort2 S128 0 comparator_i32_i32_d0 keys (W (Proc.devRef .tc main_v7))).2 := by
  refine ⟨xori (W (Proc.devRef .tc main_call0.call1.v171.ref)) (W (Proc.devRef .tc main_call0.call1.v175.ref)), ?_⟩
  unfold fn_shuffle.seg1
  after_results_simp
  rfl

theorem val_main_v7 (W : Valuation τ sig (Elt F)) :
    after (mainOps0 (F := F)) W (Proc.devRef .tc main_v7) = iotaInDim S128 32 0 := by
  unfold mainOps0
  after_results_simp

/-- Shuffle 0's result after the whole host stretch is a stable sort's second result over some keys and 0..127. -/
theorem shuffle0_eq (V : Valuation τ sig (Elt F)) :
    ∃ keys : IVec S128 32, after (hostOps (F := F)) V (Proc.devRef .tc main_v8)
      = (Host.sort2 S128 0 comparator_i32_i32_d0 keys (iotaInDim S128 32 0)).2 := by
  rw [after_hostOps]
  repeat (first
    | rw [keeps_mainOps1 main_v8 (by decide)]
    | rw [keeps_shuffle1 main_v8 (by decide)]
    | rw [keeps_mainOps2 main_v8 (by decide)]
    | rw [keeps_argsort2 main_v8 (by decide)]
    | rw [keeps_mainOps3 main_v8 (by decide)]
    | rw [keeps_argsort3 main_v8 (by decide)]
    | rw [keeps_mainOps4 main_v8 (by decide)]
    | rw [keeps_mainOps5 main_v8 (by decide)]
    | rw [keeps_mainOps6 main_v8 (by decide)])
  generalize hA : after (mainOps0 (F := F)) V = A
  have hsplit : after (fn_shuffle.ops (F := F) (.of main_v6) (.of main_v7) main_call0) A
      = after (fn_shuffle.seg1 (.of main_v6) (.of main_v7) main_call0) (after (fn_threefry_split.ops (.of main_v6) main_call0.call0 ++ fn_shuffle.seg0 (.of main_v6) (.of main_v7) main_call0
          ++ fn_threefry2x32_0.ops main_call0.v6 main_call0.v8 main_call0.v15 main_call0.v14 main_call0.call1) A) := by
    unfold fn_shuffle.ops
    rw [StableHlo.after_append]
  have h16 : after (fn_threefry_split.ops (F := F) (.of main_v6) main_call0.call0 ++ fn_shuffle.seg0 (.of main_v6) (.of main_v7) main_call0
      ++ fn_threefry2x32_0.ops main_call0.v6 main_call0.v8 main_call0.v15 main_call0.v14 main_call0.call1) A (Proc.devRef .tc main_v7) = iotaInDim S128 32 0 := by
    have h1 := keeps_c0_shuf1 (F := F) main_v7 (by decide) (.of main_v6) (.of main_v7) (after (fn_threefry_split.ops (F := F) (.of main_v6) main_call0.call0 ++ fn_shuffle.seg0 (.of main_v6) (.of main_v7) main_call0
      ++ fn_threefry2x32_0.ops main_call0.v6 main_call0.v8 main_call0.v15 main_call0.v14 main_call0.call1) A)
    rw [← h1, ← hsplit, keeps_shuffle0 main_v7 (by decide), ← hA, val_main_v7]
  rw [hsplit]
  obtain ⟨keys, hk⟩ := shuffle0_last (F := F) (.of main_v6) (after (fn_threefry_split.ops (F := F) (.of main_v6) main_call0.call0 ++ fn_shuffle.seg0 (.of main_v6) (.of main_v7) main_call0
      ++ fn_threefry2x32_0.ops main_call0.v6 main_call0.v8 main_call0.v15 main_call0.v14 main_call0.call1) A)
  exact ⟨keys, by rw [hk, h16]⟩

/-- The last three operations of shuffle 1: the keys are the exclusive-or of two hash words, and the result is the
    second result of the stable sort of (keys, 0..127). -/
theorem shuffle1_last (a0 : StableHlo.TRef sig ⟨S2, .i32⟩) (W : Valuation τ sig (Elt F)) :
    ∃ keys : IVec S128 32, after (fn_shuffle.seg1 (F := F) a0 (.of main_v16) main_call1) W (Proc.devRef .tc main_v17)
      = (Host.sort2 S128 0 comparator_i32_i32_d0 keys (W (Proc.devRef .tc main_v16))).2 := by
  refine ⟨xori (W (Proc.devRef .tc main_call1.call1.v171.ref)) (W (Proc.devRef .tc main_call1.call1.v175.ref)), ?_⟩
  unfold fn_shuffle.seg1
  after_results_simp
  rfl

theorem val_main_v16 (W : Valuation τ sig (Elt F)) :
    after (mainOps1 (F := F)) W (Proc.devRef .tc main_v16) = iotaInDim S128 32 0 := by
  unfold mainOps1
  after_results_simp

/-- Shuffle 1's result after the whole host stretch is a stable sort's second result over some keys and 0..127. -/
theorem shuffle1_eq (V : Valuation τ sig (Elt F)) :
    ∃ keys : IVec S128 32, after (hostOps (F := F)) V (Proc.devRef .tc main_v17)
      = (Host.sort2 S128 0 comparator_i32_i32_d0 keys (iotaInDim S128 32 0)).2 := by
  rw [after_hostOps]
  repeat (first
    | rw [keeps_mainOps2 main_v17 (by decide)]
    | rw [keeps_argsort2 main_v17 (by decide)]
    | rw [keeps_mainOps3 main_v17 (by decide)]
    | rw [keeps_argsort3 main_v17 (by decide)]
    | rw [keeps_mainOps4 main_v17 (by decide)]
    | rw [keeps_mainOps5 main_v17 (by decide)]
    | rw [keeps_mainOps6 main_v17 (by decide)])
  generalize hA : after (mainOps1 (F := F)) (after (fn_shuffle.ops (.of main_v6) (.of main_v7) main_call0) (after mainOps0 V)) = A
  have hsplit : after (fn_shuffle.ops (F := F) (.of main_v15) (.of main_v16) main_call1) A
      = after (fn_shuffle.seg1 (.of main_v15) (.of main_v16) main_call1) (after (fn_threefry_split.ops (.of main_v15) main_call1.call0 ++ fn_shuffle.seg0 (.of main_v15) (.of main_v16) main_call1
          ++ fn_threefry2x32_0.ops main_call1.v6 main_call1.v8 main_call1.v15 main_call1.v14 main_call1.call1) A) := by
    unfold fn_shuffle.ops
    rw [StableHlo.after_append]
  have h16 : after (fn_threefry_split.ops (F := F) (.of main_v15) main_call1.call0 ++ fn_shuffle.seg0 (.of main_v15) (.of main_v16) main_call1
      ++ fn_threefry2x32_0.ops main_call1.v6 main_call1.v8 main_call1.v15 main_call1.v14 main_call1.call1) A (Proc.devRef .tc main_v16) = iotaInDim S128 32 0 := by
    have h1 := keeps_c1_shuf1 (F := F) main_v16 (by decide) (.of main_v15) (.of main_v16) (after (fn_threefry_split.ops (F := F) (.of main_v15) main_call1.call0 ++ fn_shuffle.seg0 (.of main_v15) (.of main_v16) main_call1
      ++ fn_threefry2x32_0.ops main_call1.v6 main_call1.v8 main_call1.v15 main_call1.v14 main_call1.call1) A)
    rw [← h1, ← hsplit, keeps_shuffle1 main_v16 (by decide), ← hA, val_main_v16]
  rw [hsplit]
  obtain ⟨keys, hk⟩ := shuffle1_last (F := F) (.of main_v15) (after (fn_threefry_split.ops (F := F) (.of main_v15) main_call1.call0 ++ fn_shuffle.seg0 (.of main_v15) (.of main_v16) main_call1
      ++ fn_threefry2x32_0.ops main_call1.v6 main_call1.v8 main_call1.v15 main_call1.v14 main_call1.call1) A)
  exact ⟨keys, by rw [hk, h16]⟩

end Shuffle

/-! ## The weight matrix read at a row and a column -/
section Rows
open Idealize.ShloMosaic.LibSortPerm Idealize.ShloMosaic.LibPermRows Idealize.ShloMosaic.LibLayoutRead Idealize.ShloMosaic.LibGatherRead

/-- A word below 128 is not negative as a signed 32-bit word. -/
theorem small_word (k : Fin 128) : 2 * (BitVec.ofNat 32 k.val).toNat < 2 ^ 32 := by
  rw [BitVec.toNat_ofNat]
  have := k.isLt
  omega

theorem small_word_toNat (k : Fin 128) : (BitVec.ofNat 32 k.val).toNat = k.val := by
  rw [BitVec.toNat_ofNat]
  have := k.isLt
  omega

/-- The normalised argsort of a table that is a permutation's inverse, word by word, is that table. -/
theorem normIdx_of_perm (s : IVec S128 32) (τ : Fin 128 → Fin 128) (hs : ∀ j : S128.Idx, s j = BitVec.ofNat 32 (τ (j 0)).val) :
    normIdx s = s :=
  normalize_table _ _ _ (fun _ => rfl) (fun j => by rw [hs j]; exact small_word _)

/-- The weight matrix the matrix products read, row by row: rows 0 to 127 are the weight array's; row 128 + j is its
    row 128 + πU⁻¹ j and row 256 + j its row 256 + πI⁻¹ j, for the permutations πU, πI of 0..127 that the two shuffles
    are. -/
theorem weight_rows (V : Valuation τ sig (Elt F)) : ∃ πU πI : Equiv.Perm (Fin 128),
    (∀ j : S128.Idx, (after (hostOps (F := F)) V (Proc.devRef .tc main_v17) : IVec S128 32) j = BitVec.ofNat 32 (πU (j 0)).val) ∧
    (∀ j : S128.Idx, (after (hostOps (F := F)) V (Proc.devRef .tc main_v8) : IVec S128 32) j = BitVec.ofNat 32 (πI (j 0)).val) ∧
    ∀ (j n : Fin 128),
      (after (hostOps (F := F)) V (Proc.devRef .tc main_v37) : (⟨S384x128, .f32⟩ : BufTy).Contents (Elt F)) (ix2 ⟨j.val, by omega⟩ n)
        = (V (Proc.devRef .tc main_arg5) : (⟨S384x128, .f32⟩ : BufTy).Contents (Elt F)) (ix2 ⟨j.val, by omega⟩ n) ∧
      (after (hostOps (F := F)) V (Proc.devRef .tc main_v37) : (⟨S384x128, .f32⟩ : BufTy).Contents (Elt F)) (ix2 ⟨128 + j.val, by omega⟩ n)
        = (V (Proc.devRef .tc main_arg5) : (⟨S384x128, .f32⟩ : BufTy).Contents (Elt F)) (ix2 ⟨128 + (πU.symm j).val, by omega⟩ n) ∧
      (after (hostOps (F := F)) V (Proc.devRef .tc main_v37) : (⟨S384x128, .f32⟩ : BufTy).Contents (Elt F)) (ix2 ⟨128 + 128 + j.val, by omega⟩ n)
        = (V (Proc.devRef .tc main_arg5) : (⟨S384x128, .f32⟩ : BufTy).Contents (Elt F)) (ix2 ⟨256 + (πI.symm j).val, by omega⟩ n) := by
  obtain ⟨kU, hU⟩ := shuffle1_eq (F := F) V
  obtain ⟨kI, hI⟩ := shuffle0_eq (F := F) V
  obtain ⟨πU, hπU, hπU'⟩ := exists_perm_shuffle_argsort (n := 128) (w := 32) (by decide) comparator_i32_i32_d0 kU
    comparator_i32_i32_d0_2 (fun _ _ => rfl)
  obtain ⟨πI, hπI, hπI'⟩ := exists_perm_shuffle_argsort (n := 128) (w := 32) (by decide) comparator_i32_i32_d0 kI
    comparator_i32_i32_d0_2 (fun _ _ => rfl)
  refine ⟨πU, πI, fun j => by rw [hU]; exact hπU j, fun j => by rw [hI]; exact hπI j, fun j n => ?_⟩
  rw [weight_eq, hU, hI]
  unfold wMatrix argsort
  rw [normIdx_of_perm _ πU.symm hπU', normIdx_of_perm _ πI.symm hπI']
  refine ⟨?_, ?_, ?_⟩
  · refine (concat3_rows_apply_0 _ _ _ _ _ j rfl).trans ?_
    refine (slice_rows_apply (by decide) _ _ _).trans ?_
    exact congrArg (fun a : Fin 384 => (V (Proc.devRef .tc main_arg5) : (⟨S384x128, .f32⟩ : BufTy).Contents (Elt F)) (ix2 a n))
      (Fin.ext (Nat.zero_add j.val))
  · refine (concat3_rows_apply_1 _ _ _ _ _ j rfl).trans ?_
    unfold permRows
    exact gather_slice_rows_of_table (by decide) (by decide) _ _ _ _ _ πU.symm
      (fun j => by rw [hπU' j]; exact small_word_toNat _) j _
  · refine (concat3_rows_apply_2 _ _ _ _ _ j rfl).trans ?_
    unfold permRows
    exact gather_slice_rows_of_table (by decide) (by decide) _ _ _ _ _ πI.symm
      (fun j => by rw [hπI' j]; exact small_word_toNat _) j _

end Rows

end Cert.KernelIdeal.HostVal
end
-- ==== Proof.RefLib.lean ====
import Idealize.ShloMosaic.Lib.StableHlo.Run

/-! Straight lines of host operations, cut and joined: a line whose last step is followed by no return,
a line continued by a program, the fold over a concatenation, and which references a line may write. -/

noncomputable section

namespace Cert.RefRunLib

open Idealize.SL Idealize.SL.Sem Idealize.ShloMosaic Idealize.ShloMosaic.TcCoe Idealize.ShloMosaic.StableHlo

variable {nD : Nat} {τ : Topo} {sig : RefSig} {Val : EltTy → Type} {Λ : Labels}

/-- A nonempty line whose last operation is followed by no return. -/
def seq1 : HloOp τ sig Val → List (HloOp τ sig Val) → Prog (TpuEff nD τ sig Val Λ .tc) PUnit
  | op, [] => hlo rfl op fun _ => .ret (⟨⟩ : PUnit)
  | op, op' :: ops => (hlo rfl op fun _ => .ret (⟨⟩ : PUnit)) >>= fun _ => seq1 op' ops

/-- Returning after the last operation changes nothing. -/
theorem seq1_eq (op : HloOp τ sig Val) (ops : List (HloOp τ sig Val)) :
    (seq1 op ops : Prog (TpuEff nD τ sig Val Λ .tc) PUnit) = seq (op :: ops) := by
  induction ops generalizing op with
  | nil =>
    show (hlo rfl op fun _ => .ret (⟨⟩ : PUnit))
      = ((hlo rfl op fun _ => .ret (⟨⟩ : PUnit)) >>= fun _ => (pure ⟨⟩ : Prog (TpuEff nD τ sig Val Λ .tc) PUnit))
    exact (bind_pure _).symm
  | cons o l ih =>
    show ((hlo rfl op fun _ => .ret (⟨⟩ : PUnit)) >>= fun _ => seq1 o l)
      = ((hlo rfl op fun _ => .ret (⟨⟩ : PUnit)) >>= fun _ => seq (o :: l))
    rw [ih]

/-- A line continued by a program. -/
def chain : List (HloOp τ sig Val) → Prog (TpuEff nD τ sig Val Λ .tc) PUnit → Prog (TpuEff nD τ sig Val Λ .tc) PUnit
  | [], p => p
  | op :: ops, p => (hlo rfl op fun _ => .ret (⟨⟩ : PUnit)) >>= fun _ => chain ops p

theorem seq_bind (ops : List (HloOp τ sig Val)) (p : Prog (TpuEff nD τ sig Val Λ .tc) PUnit) :
    (seq ops >>= fun _ => p) = chain ops p := by
  induction ops with
  | nil => simp only [seq, chain, pure_bind]
  | cons o l ih => simp only [seq, chain, bind_assoc, ih]

/-- The fold over a concatenation is the folds one after the other. -/
theorem after_append (l₁ l₂ : List (HloOp τ sig Val)) (V : Valuation τ sig Val) :
    after (l₁ ++ l₂) V = after l₂ (after l₁ V) := by
  induction l₁ generalizing V with
  | nil => rfl
  | cons o l ih => simp only [List.cons_append, after_cons, ih]

theorem forall_append {α : Type} {P : α → Prop} {l₁ l₂ : List α} (h₁ : l₁.Forall P) (h₂ : l₂.Forall P) :
    (l₁ ++ l₂).Forall P :=
  List.forall_iff_forall_mem.2 fun x hx =>
    (List.mem_append.1 hx).elim (List.forall_iff_forall_mem.1 h₁ x) (List.forall_iff_forall_mem.1 h₂ x)

/-- Every operation of the line writes only references satisfying `P`. -/
def WritesOnly (P : Ref sig .tc → Prop) (ops : List (HloOp τ sig Val)) : Prop :=
  ops.Forall fun op => ∀ b ∈ op.writes, ∃ r : Ref sig .tc, b = Proc.devRef (τ := τ) .tc r ∧ P r

theorem WritesOnly.append {P : Ref sig .tc → Prop} {l₁ l₂ : List (HloOp τ sig Val)}
    (h₁ : WritesOnly P l₁) (h₂ : WritesOnly P l₂) : WritesOnly P (l₁ ++ l₂) := forall_append h₁ h₂

theorem WritesOnly.mono {P Q : Ref sig .tc → Prop} (hPQ : ∀ r, P r → Q r) {l : List (HloOp τ sig Val)}
    (h : WritesOnly P l) : WritesOnly Q l :=
  List.forall_iff_forall_mem.2 fun op hop b hb => by
    obtain ⟨r, he, hp⟩ := List.forall_iff_forall_mem.1 h op hop b hb
    exact ⟨r, he, hPQ r hp⟩

/-- A reference outside `P` keeps its contents through a line that writes only inside `P`. -/
theorem after_of_writesOnly {P : Ref sig .tc → Prop} {ops : List (HloOp τ sig Val)} (h : WritesOnly P ops)
    (V : Valuation τ sig Val) {r : Ref sig .tc} (hr : ¬ P r) :
    after ops V (Proc.devRef .tc r) = V (Proc.devRef .tc r) :=
  after_of_forall_not_mem ops V fun op hop hb => by
    obtain ⟨r', he, hp⟩ := List.forall_iff_forall_mem.1 h op hop _ hb
    exact hr (Proc.devRef_injective _ he ▸ hp)

section Builders
variable {P : Ref sig .tc → Prop} {x a b c y : Ref sig .tc}

theorem wo_nullary {v : y.ty.Contents Val} {hy} (h : P y) :
    ∀ d ∈ (nullary (τ := τ) y v hy).writes, ∃ r : Ref sig .tc, d = Proc.devRef (τ := τ) .tc r ∧ P r := by
  intro d hd; rw [nullary_writes, Finset.mem_singleton] at hd; exact ⟨y, hd, h⟩
theorem wo_unary {f : x.ty.Contents Val → y.ty.Contents Val} {hx hy} (h : P y) :
    ∀ d ∈ (unary (τ := τ) x y f hx hy).writes, ∃ r : Ref sig .tc, d = Proc.devRef (τ := τ) .tc r ∧ P r := by
  intro d hd; rw [unary_writes, Finset.mem_singleton] at hd; exact ⟨y, hd, h⟩
theorem wo_binary {f : a.ty.Contents Val → b.ty.Contents Val → y.ty.Contents Val} {ha hb hy} (h : P y) :
    ∀ d ∈ (binary (τ := τ) a b y f ha hb hy).writes, ∃ r : Ref sig .tc, d = Proc.devRef (τ := τ) .tc r ∧ P r := by
  intro d hd; rw [binary_writes, Finset.mem_singleton] at hd; exact ⟨y, hd, h⟩
theorem wo_ternary {f : c.ty.Contents Val → a.ty.Contents Val → b.ty.Contents Val → y.ty.Contents Val} {hc ha hb hy} (h : P y) :
    ∀ d ∈ (ternary (τ := τ) c a b y f hc ha hb hy).writes, ∃ r : Ref sig .tc, d = Proc.devRef (τ := τ) .tc r ∧ P r := by
  intro d hd; rw [ternary_writes, Finset.mem_singleton] at hd; exact ⟨y, hd, h⟩
theorem wo_reshape {he hn hx hy} (h : P y) :
    ∀ d ∈ (reshape (τ := τ) (Val := Val) x y he hn hx hy).writes, ∃ r : Ref sig .tc, d = Proc.devRef (τ := τ) .tc r ∧ P r := by
  intro d hd; rw [reshape_writes, Finset.mem_singleton] at hd; exact ⟨y, hd, h⟩
theorem wo_nary {n : Nat} {xs : Fin n → Ref sig .tc}
    {f : ((k : Fin n) → (xs k).ty.Contents Val) → y.ty.Contents Val} {hxs hy} (h : P y) :
    ∀ d ∈ (nary (τ := τ) xs y f hxs hy).writes, ∃ r : Ref sig .tc, d = Proc.devRef (τ := τ) .tc r ∧ P r := by
  intro d hd; rw [nary_writes, Finset.mem_singleton] at hd; exact ⟨y, hd, h⟩

end Builders

/-- The references whose index is at least `lo`: operations are numbered in program order, so a stretch of a
    program writes a range of indices. -/
abbrev Ge (lo : Nat) : Ref sig .tc → Prop := fun r => lo ≤ r.idx.val

theorem WritesOnly.ge_mono {lo lo' : Nat} (h : lo' ≤ lo) {l : List (HloOp τ sig Val)}
    (hl : WritesOnly (Ge (sig := sig) lo) l) : WritesOnly (Ge (sig := sig) lo') l :=
  hl.mono fun _ hr => Nat.le_trans h hr

theorem WritesOnly.nil {P : Ref sig .tc → Prop} : WritesOnly (τ := τ) (Val := Val) P [] := trivial

end Cert.RefRunLib

end
-- ==== Proof.RefOpsTfA.lean ====
import proofs.«204681_g65575560675685_cont_9to1_m_144_57_alg».proof.Proof.Gen.ReferenceIdeal
import proofs.«204681_g65575560675685_cont_9to1_m_144_57_alg».proof.Proof.RefLib

/-! The hash on two-word vectors: the printed function's operations as a list, and its body as the straight line of them. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]
/-- Statements of part 0 of the function's body, in order. -/
def ops_tfA_p0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S2 ![] bcast_S_S2),
    StableHlo.TRef.binary arg2 φ.v2 φ.v3 addi,
    StableHlo.TRef.unary arg1 φ.v4 (broadcastInDim S2 ![] bcast_S_S2),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S2 ![] bcast_S_S2),
    StableHlo.TRef.binary φ.v5 φ.v7 φ.v8 Host.shli,
    StableHlo.TRef.nullary φ.c_1 (constantI S_ 32 19#32),
    StableHlo.TRef.unary φ.c_1 φ.v9 (broadcastInDim S2 ![] bcast_S_S2),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S2 ![] bcast_S_S2),
    StableHlo.TRef.binary φ.v12 φ.v14 φ.v15 Host.shli,
    StableHlo.TRef.nullary φ.c_3 (constantI S_ 32 17#32),
    StableHlo.TRef.unary φ.c_3 φ.v16 (broadcastInDim S2 ![] bcast_S_S2),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S2 ![] bcast_S_S2),
    StableHlo.TRef.binary φ.v19 φ.v21 φ.v22 Host.shli,
    StableHlo.TRef.nullary φ.c_5 (constantI S_ 32 6#32),
    StableHlo.TRef.unary φ.c_5 φ.v23 (broadcastInDim S2 ![] bcast_S_S2),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S2 ![] bcast_S_S2),
    StableHlo.TRef.binary φ.v26 φ.v28 φ.v29 Host.shli,
    StableHlo.TRef.nullary φ.c_7 (constantI S_ 32 26#32),
    StableHlo.TRef.unary φ.c_7 φ.v30 (broadcastInDim S2 ![] bcast_S_S2),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S2 ![] bcast_S_S2),
    StableHlo.TRef.binary φ.v27 φ.v34 φ.v35 addi,
    StableHlo.TRef.unary φ.v1 φ.v36 (broadcastInDim S2 ![] bcast_S_S2),
    StableHlo.TRef.binary φ.v33 φ.v36 φ.v37 addi,
    StableHlo.TRef.nullary φ.c_8 (constantI S_ 32 1#32),
    StableHlo.TRef.unary φ.c_8 φ.v38 (broadcastInDim S2 ![] bcast_S_S2),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S2 ![] bcast_S_S2),
    StableHlo.TRef.binary φ.v39 φ.v41 φ.v42 Host.shli,
    StableHlo.TRef.nullary φ.c_10 (constantI S_ 32 15#32),
    StableHlo.TRef.unary φ.c_10 φ.v43 (broadcastInDim S2 ![] bcast_S_S2),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]
theorem ops_tfA_p0_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p0 (F := F) arg0 arg1 arg2 arg3 φ).Forall fun op => op.bufs ⊆ tcRefs τ sig :=
  ⟨binary_bufs_sub .., nullary_bufs_sub .., binary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..⟩
theorem ops_tfA_p0_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p0 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem ops_tfA_p0_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    fn_threefry2x32.body_part0 (F := F) arg0 arg1 arg2 arg3 φ = seq (ops_tfA_p0 arg0 arg1 arg2 arg3 φ) := by
  unfold ops_tfA_p0
  rw [← seq1_eq]
  rfl

/-- Statements of part 1 of the function's body, in order. -/
def ops_tfA_p1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_11 (constantI S_ 32 29#32),
    StableHlo.TRef.unary φ.c_11 φ.v48 (broadcastInDim S2 ![] bcast_S_S2),
    StableHlo.TRef.binary φ.v46 φ.v48 φ.v49 Host.shli,
    StableHlo.TRef.nullary φ.c_12 (constantI S_ 32 3#32),
    StableHlo.TRef.unary φ.c_12 φ.v50 (broadcastInDim S2 ![] bcast_S_S2),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S2 ![] bcast_S_S2),
    StableHlo.TRef.binary φ.v53 φ.v55 φ.v56 Host.shli,
    StableHlo.TRef.nullary φ.c_14 (constantI S_ 32 16#32),
    StableHlo.TRef.unary φ.c_14 φ.v57 (broadcastInDim S2 ![] bcast_S_S2),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S2 ![] bcast_S_S2),
    StableHlo.TRef.binary φ.v60 φ.v62 φ.v63 Host.shli,
    StableHlo.TRef.nullary φ.c_16 (constantI S_ 32 8#32),
    StableHlo.TRef.unary φ.c_16 φ.v64 (broadcastInDim S2 ![] bcast_S_S2),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S2 ![] bcast_S_S2),
    StableHlo.TRef.binary φ.v61 φ.v68 φ.v69 addi,
    StableHlo.TRef.unary arg0 φ.v70 (broadcastInDim S2 ![] bcast_S_S2),
    StableHlo.TRef.binary φ.v67 φ.v70 φ.v71 addi,
    StableHlo.TRef.nullary φ.c_17 (constantI S_ 32 2#32),
    StableHlo.TRef.unary φ.c_17 φ.v72 (broadcastInDim S2 ![] bcast_S_S2),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S2 ![] bcast_S_S2),
    StableHlo.TRef.binary φ.v73 φ.v75 φ.v76 Host.shli,
    StableHlo.TRef.nullary φ.c_19 (constantI S_ 32 19#32),
    StableHlo.TRef.unary φ.c_19 φ.v77 (broadcastInDim S2 ![] bcast_S_S2),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S2 ![] bcast_S_S2),
    StableHlo.TRef.binary φ.v80 φ.v82 φ.v83 Host.shli,
    StableHlo.TRef.nullary φ.c_21 (constantI S_ 32 17#32),
    StableHlo.TRef.unary φ.c_21 φ.v84 (broadcastInDim S2 ![] bcast_S_S2),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S2 ![] bcast_S_S2),
    StableHlo.TRef.binary φ.v87 φ.v89 φ.v90 Host.shli,
    StableHlo.TRef.nullary φ.c_23 (constantI S_ 32 6#32),
    StableHlo.TRef.unary φ.c_23 φ.v91 (broadcastInDim S2 ![] bcast_S_S2),
    StableHlo.TRef.binary φ.v87 φ.v91 φ.v92 Host.shrui,
    StableHlo.TRef.binary φ.v90 φ.v92 φ.v93 ori,
    StableHlo.TRef.binary φ.v88 φ.v93 φ.v94 xori ]
theorem ops_tfA_p1_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p1 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..⟩
theorem ops_tfA_p1_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p1 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem ops_tfA_p1_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    fn_threefry2x32.body_part1 (F := F) arg0 arg1 arg2 arg3 φ = seq (ops_tfA_p1 arg0 arg1 arg2 arg3 φ) := by
  unfold ops_tfA_p1
  rw [← seq1_eq]
  rfl

/-- Statements of part 2 of the function's body, in order. -/
def ops_tfA_p2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S2 ![] bcast_S_S2),
    StableHlo.TRef.binary φ.v94 φ.v96 φ.v97 Host.shli,
    StableHlo.TRef.nullary φ.c_25 (constantI S_ 32 26#32),
    StableHlo.TRef.unary φ.c_25 φ.v98 (broadcastInDim S2 ![] bcast_S_S2),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S2 ![] bcast_S_S2),
    StableHlo.TRef.binary φ.v95 φ.v102 φ.v103 addi,
    StableHlo.TRef.unary arg1 φ.v104 (broadcastInDim S2 ![] bcast_S_S2),
    StableHlo.TRef.binary φ.v101 φ.v104 φ.v105 addi,
    StableHlo.TRef.nullary φ.c_26 (constantI S_ 32 3#32),
    StableHlo.TRef.unary φ.c_26 φ.v106 (broadcastInDim S2 ![] bcast_S_S2),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S2 ![] bcast_S_S2),
    StableHlo.TRef.binary φ.v107 φ.v109 φ.v110 Host.shli,
    StableHlo.TRef.nullary φ.c_28 (constantI S_ 32 15#32),
    StableHlo.TRef.unary φ.c_28 φ.v111 (broadcastInDim S2 ![] bcast_S_S2),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S2 ![] bcast_S_S2),
    StableHlo.TRef.binary φ.v114 φ.v116 φ.v117 Host.shli,
    StableHlo.TRef.nullary φ.c_30 (constantI S_ 32 3#32),
    StableHlo.TRef.unary φ.c_30 φ.v118 (broadcastInDim S2 ![] bcast_S_S2),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S2 ![] bcast_S_S2),
    StableHlo.TRef.binary φ.v121 φ.v123 φ.v124 Host.shli,
    StableHlo.TRef.nullary φ.c_32 (constantI S_ 32 16#32),
    StableHlo.TRef.unary φ.c_32 φ.v125 (broadcastInDim S2 ![] bcast_S_S2),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S2 ![] bcast_S_S2),
    StableHlo.TRef.binary φ.v128 φ.v130 φ.v131 Host.shli,
    StableHlo.TRef.nullary φ.c_34 (constantI S_ 32 8#32),
    StableHlo.TRef.unary φ.c_34 φ.v132 (broadcastInDim S2 ![] bcast_S_S2),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S2 ![] bcast_S_S2),
    StableHlo.TRef.binary φ.v129 φ.v136 φ.v137 addi,
    StableHlo.TRef.unary φ.v1 φ.v138 (broadcastInDim S2 ![] bcast_S_S2),
    StableHlo.TRef.binary φ.v135 φ.v138 φ.v139 addi,
    StableHlo.TRef.nullary φ.c_35 (constantI S_ 32 4#32),
    StableHlo.TRef.unary φ.c_35 φ.v140 (broadcastInDim S2 ![] bcast_S_S2),
    StableHlo.TRef.binary φ.v139 φ.v140 φ.v141 addi,
    StableHlo.TRef.binary φ.v137 φ.v141 φ.v142 addi ]
theorem ops_tfA_p2_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p2 (F := F) arg0 arg1 arg2 arg3 φ).Forall fun op => op.bufs ⊆ tcRefs τ sig :=
  ⟨binary_bufs_sub .., nullary_bufs_sub .., unary_bufs_sub .., binary_bufs_sub .., nullary_bufs_sub .., unary_bufs_sub ..,
    binary_bufs_sub .., binary_bufs_sub .., binary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., binary_bufs_sub ..,
    unary_bufs_sub .., binary_bufs_sub .., nullary_bufs_sub .., unary_bufs_sub .., binary_bufs_sub .., binary_bufs_sub ..⟩
theorem ops_tfA_p2_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p2 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem ops_tfA_p2_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    fn_threefry2x32.body_part2 (F := F) arg0 arg1 arg2 arg3 φ = seq (ops_tfA_p2 arg0 arg1 arg2 arg3 φ) := by
  unfold ops_tfA_p2
  rw [← seq1_eq]
  rfl

/-- Statements of part 3 of the function's body, in order. -/
def ops_tfA_p3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_36 (constantI S_ 32 13#32),
    StableHlo.TRef.unary φ.c_36 φ.v143 (broadcastInDim S2 ![] bcast_S_S2),
    StableHlo.TRef.binary φ.v141 φ.v143 φ.v144 Host.shli,
    StableHlo.TRef.nullary φ.c_37 (constantI S_ 32 19#32),
    StableHlo.TRef.unary φ.c_37 φ.v145 (broadcastInDim S2 ![] bcast_S_S2),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S2 ![] bcast_S_S2),
    StableHlo.TRef.binary φ.v148 φ.v150 φ.v151 Host.shli,
    StableHlo.TRef.nullary φ.c_39 (constantI S_ 32 17#32),
    StableHlo.TRef.unary φ.c_39 φ.v152 (broadcastInDim S2 ![] bcast_S_S2),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S2 ![] bcast_S_S2),
    StableHlo.TRef.binary φ.v155 φ.v157 φ.v158 Host.shli,
    StableHlo.TRef.nullary φ.c_41 (constantI S_ 32 6#32),
    StableHlo.TRef.unary φ.c_41 φ.v159 (broadcastInDim S2 ![] bcast_S_S2),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S2 ![] bcast_S_S2),
    StableHlo.TRef.binary φ.v162 φ.v164 φ.v165 Host.shli,
    StableHlo.TRef.nullary φ.c_43 (constantI S_ 32 26#32),
    StableHlo.TRef.unary φ.c_43 φ.v166 (broadcastInDim S2 ![] bcast_S_S2),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S2 ![] bcast_S_S2),
    StableHlo.TRef.binary φ.v163 φ.v170 φ.v171 addi,
    StableHlo.TRef.unary arg0 φ.v172 (broadcastInDim S2 ![] bcast_S_S2),
    StableHlo.TRef.binary φ.v169 φ.v172 φ.v173 addi,
    StableHlo.TRef.nullary φ.c_44 (constantI S_ 32 5#32),
    StableHlo.TRef.unary φ.c_44 φ.v174 (broadcastInDim S2 ![] bcast_S_S2),
    StableHlo.TRef.binary φ.v173 φ.v174 φ.v175 addi ]
theorem ops_tfA_p3_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p3 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    binary_bufs_sub .., unary_bufs_sub .., binary_bufs_sub .., nullary_bufs_sub .., unary_bufs_sub .., binary_bufs_sub ..⟩
theorem ops_tfA_p3_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA_p3 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩
theorem ops_tfA_p3_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    fn_threefry2x32.body_part3 (F := F) arg0 arg1 arg2 arg3 φ = seq (ops_tfA_p3 arg0 arg1 arg2 arg3 φ) := rfl

/-- The function's operations: its four parts one after the other. -/
def ops_tfA (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  ops_tfA_p0 arg0 arg1 arg2 arg3 φ ++ (ops_tfA_p1 arg0 arg1 arg2 arg3 φ ++ (ops_tfA_p2 arg0 arg1 arg2 arg3 φ ++ ops_tfA_p3 arg0 arg1 arg2 arg3 φ))

theorem ops_tfA_sub (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA (F := F) arg0 arg1 arg2 arg3 φ).Forall fun op => op.bufs ⊆ tcRefs τ sig :=
  forall_append (ops_tfA_p0_sub ..) (forall_append (ops_tfA_p1_sub ..) (forall_append (ops_tfA_p2_sub ..) (ops_tfA_p3_sub ..)))
theorem ops_tfA_fresh (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    (ops_tfA (F := F) arg0 arg1 arg2 arg3 φ).Forall fun op => op.fresh = ∅ :=
  forall_append (ops_tfA_p0_fresh ..) (forall_append (ops_tfA_p1_fresh ..) (forall_append (ops_tfA_p2_fresh ..) (ops_tfA_p3_fresh ..)))

/-- The function's body is the straight line of its operations. -/
theorem ops_tfA_eq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) :
    fn_threefry2x32.body (F := F) arg0 arg1 arg2 arg3 φ = seq (ops_tfA arg0 arg1 arg2 arg3 φ) := by
  unfold fn_threefry2x32.body ops_tfA
  rw [ops_tfA_p0_eq, ops_tfA_p1_eq, ops_tfA_p2_eq, ops_tfA_p3_eq, seq_append, seq_append, seq_append]

end Cert.ReferenceIdeal.RefRun

end
-- ==== Proof.RefOpsTfB.lean ====
import proofs.«204681_g65575560675685_cont_9to1_m_144_57_alg».proof.Proof.Gen.ReferenceIdeal
import proofs.«204681_g65575560675685_cont_9to1_m_144_57_alg».proof.Proof.RefLib

/-! The hash on 128-word vectors: the printed function's operations as a list, and its body as the straight line of them. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]
/-- Statements of part 0 of the function's body, in order. -/
def ops_tfB_p0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S128 ![] bcast_S_S128),
    StableHlo.TRef.binary arg2 φ.v2 φ.v3 addi,
    StableHlo.TRef.unary arg1 φ.v4 (broadcastInDim S128 ![] bcast_S_S128),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S128 ![] bcast_S_S128),
    StableHlo.TRef.binary φ.v5 φ.v7 φ.v8 Host.shli,
    StableHlo.TRef.nullary φ.c_1 (constantI S_ 32 19#32),
    StableHlo.TRef.unary φ.c_1 φ.v9 (broadcastInDim S128 ![] bcast_S_S128),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S128 ![] bcast_S_S128),
    StableHlo.TRef.binary φ.v12 φ.v14 φ.v15 Host.shli,
    StableHlo.TRef.nullary φ.c_3 (constantI S_ 32 17#32),
    StableHlo.TRef.unary φ.c_3 φ.v16 (broadcastInDim S128 ![] bcast_S_S128),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S128 ![] bcast_S_S128),
    StableHlo.TRef.binary φ.v19 φ.v21 φ.v22 Host.shli,
    StableHlo.TRef.nullary φ.c_5 (constantI S_ 32 6#32),
    StableHlo.TRef.unary φ.c_5 φ.v23 (broadcastInDim S128 ![] bcast_S_S128),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S128 ![] bcast_S_S128),
    StableHlo.TRef.binary φ.v26 φ.v28 φ.v29 Host.shli,
    StableHlo.TRef.nullary φ.c_7 (constantI S_ 32 26#32),
    StableHlo.TRef.unary φ.c_7 φ.v30 (broadcastInDim S128 ![] bcast_S_S128),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S128 ![] bcast_S_S128),
    StableHlo.TRef.binary φ.v27 φ.v34 φ.v35 addi,
    StableHlo.TRef.unary φ.v1 φ.v36 (broadcastInDim S128 ![] bcast_S_S128),
    StableHlo.TRef.binary φ.v33 φ.v36 φ.v37 addi,
    StableHlo.TRef.nullary φ.c_8 (constantI S_ 32 1#32),
    StableHlo.TRef.unary φ.c_8 φ.v38 (broadcastInDim S128 ![] bcast_S_S128),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S128 ![] bcast_S_S128),
    StableHlo.TRef.binary φ.v39 φ.v41 φ.v42 Host.shli,
    StableHlo.TRef.nullary φ.c_10 (constantI S_ 32 15#32),
    StableHlo.TRef.unary φ.c_10 φ.v43 (broadcastInDim S128 ![] bcast_S_S128),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]
theorem ops_tfB_p0_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p0 (F := F) arg0 arg1 arg2 arg3 φ).Forall fun op => op.bufs ⊆ tcRefs τ sig :=
  ⟨binary_bufs_sub .., nullary_bufs_sub .., binary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..⟩
theorem ops_tfB_p0_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p0 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem ops_tfB_p0_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    fn_threefry2x32_0.body_part0 (F := F) arg0 arg1 arg2 arg3 φ = seq (ops_tfB_p0 arg0 arg1 arg2 arg3 φ) := by
  unfold ops_tfB_p0
  rw [← seq1_eq]
  rfl

/-- Statements of part 1 of the function's body, in order. -/
def ops_tfB_p1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_11 (constantI S_ 32 29#32),
    StableHlo.TRef.unary φ.c_11 φ.v48 (broadcastInDim S128 ![] bcast_S_S128),
    StableHlo.TRef.binary φ.v46 φ.v48 φ.v49 Host.shli,
    StableHlo.TRef.nullary φ.c_12 (constantI S_ 32 3#32),
    StableHlo.TRef.unary φ.c_12 φ.v50 (broadcastInDim S128 ![] bcast_S_S128),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S128 ![] bcast_S_S128),
    StableHlo.TRef.binary φ.v53 φ.v55 φ.v56 Host.shli,
    StableHlo.TRef.nullary φ.c_14 (constantI S_ 32 16#32),
    StableHlo.TRef.unary φ.c_14 φ.v57 (broadcastInDim S128 ![] bcast_S_S128),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S128 ![] bcast_S_S128),
    StableHlo.TRef.binary φ.v60 φ.v62 φ.v63 Host.shli,
    StableHlo.TRef.nullary φ.c_16 (constantI S_ 32 8#32),
    StableHlo.TRef.unary φ.c_16 φ.v64 (broadcastInDim S128 ![] bcast_S_S128),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S128 ![] bcast_S_S128),
    StableHlo.TRef.binary φ.v61 φ.v68 φ.v69 addi,
    StableHlo.TRef.unary arg0 φ.v70 (broadcastInDim S128 ![] bcast_S_S128),
    StableHlo.TRef.binary φ.v67 φ.v70 φ.v71 addi,
    StableHlo.TRef.nullary φ.c_17 (constantI S_ 32 2#32),
    StableHlo.TRef.unary φ.c_17 φ.v72 (broadcastInDim S128 ![] bcast_S_S128),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S128 ![] bcast_S_S128),
    StableHlo.TRef.binary φ.v73 φ.v75 φ.v76 Host.shli,
    StableHlo.TRef.nullary φ.c_19 (constantI S_ 32 19#32),
    StableHlo.TRef.unary φ.c_19 φ.v77 (broadcastInDim S128 ![] bcast_S_S128),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S128 ![] bcast_S_S128),
    StableHlo.TRef.binary φ.v80 φ.v82 φ.v83 Host.shli,
    StableHlo.TRef.nullary φ.c_21 (constantI S_ 32 17#32),
    StableHlo.TRef.unary φ.c_21 φ.v84 (broadcastInDim S128 ![] bcast_S_S128),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S128 ![] bcast_S_S128),
    StableHlo.TRef.binary φ.v87 φ.v89 φ.v90 Host.shli,
    StableHlo.TRef.nullary φ.c_23 (constantI S_ 32 6#32),
    StableHlo.TRef.unary φ.c_23 φ.v91 (broadcastInDim S128 ![] bcast_S_S128),
    StableHlo.TRef.binary φ.v87 φ.v91 φ.v92 Host.shrui,
    StableHlo.TRef.binary φ.v90 φ.v92 φ.v93 ori,
    StableHlo.TRef.binary φ.v88 φ.v93 φ.v94 xori ]
theorem ops_tfB_p1_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p1 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..⟩
theorem ops_tfB_p1_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p1 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem ops_tfB_p1_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    fn_threefry2x32_0.body_part1 (F := F) arg0 arg1 arg2 arg3 φ = seq (ops_tfB_p1 arg0 arg1 arg2 arg3 φ) := by
  unfold ops_tfB_p1
  rw [← seq1_eq]
  rfl

/-- Statements of part 2 of the function's body, in order. -/
def ops_tfB_p2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S128 ![] bcast_S_S128),
    StableHlo.TRef.binary φ.v94 φ.v96 φ.v97 Host.shli,
    StableHlo.TRef.nullary φ.c_25 (constantI S_ 32 26#32),
    StableHlo.TRef.unary φ.c_25 φ.v98 (broadcastInDim S128 ![] bcast_S_S128),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S128 ![] bcast_S_S128),
    StableHlo.TRef.binary φ.v95 φ.v102 φ.v103 addi,
    StableHlo.TRef.unary arg1 φ.v104 (broadcastInDim S128 ![] bcast_S_S128),
    StableHlo.TRef.binary φ.v101 φ.v104 φ.v105 addi,
    StableHlo.TRef.nullary φ.c_26 (constantI S_ 32 3#32),
    StableHlo.TRef.unary φ.c_26 φ.v106 (broadcastInDim S128 ![] bcast_S_S128),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S128 ![] bcast_S_S128),
    StableHlo.TRef.binary φ.v107 φ.v109 φ.v110 Host.shli,
    StableHlo.TRef.nullary φ.c_28 (constantI S_ 32 15#32),
    StableHlo.TRef.unary φ.c_28 φ.v111 (broadcastInDim S128 ![] bcast_S_S128),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S128 ![] bcast_S_S128),
    StableHlo.TRef.binary φ.v114 φ.v116 φ.v117 Host.shli,
    StableHlo.TRef.nullary φ.c_30 (constantI S_ 32 3#32),
    StableHlo.TRef.unary φ.c_30 φ.v118 (broadcastInDim S128 ![] bcast_S_S128),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S128 ![] bcast_S_S128),
    StableHlo.TRef.binary φ.v121 φ.v123 φ.v124 Host.shli,
    StableHlo.TRef.nullary φ.c_32 (constantI S_ 32 16#32),
    StableHlo.TRef.unary φ.c_32 φ.v125 (broadcastInDim S128 ![] bcast_S_S128),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S128 ![] bcast_S_S128),
    StableHlo.TRef.binary φ.v128 φ.v130 φ.v131 Host.shli,
    StableHlo.TRef.nullary φ.c_34 (constantI S_ 32 8#32),
    StableHlo.TRef.unary φ.c_34 φ.v132 (broadcastInDim S128 ![] bcast_S_S128),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S128 ![] bcast_S_S128),
    StableHlo.TRef.binary φ.v129 φ.v136 φ.v137 addi,
    StableHlo.TRef.unary φ.v1 φ.v138 (broadcastInDim S128 ![] bcast_S_S128),
    StableHlo.TRef.binary φ.v135 φ.v138 φ.v139 addi,
    StableHlo.TRef.nullary φ.c_35 (constantI S_ 32 4#32),
    StableHlo.TRef.unary φ.c_35 φ.v140 (broadcastInDim S128 ![] bcast_S_S128),
    StableHlo.TRef.binary φ.v139 φ.v140 φ.v141 addi,
    StableHlo.TRef.binary φ.v137 φ.v141 φ.v142 addi ]
theorem ops_tfB_p2_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p2 (F := F) arg0 arg1 arg2 arg3 φ).Forall fun op => op.bufs ⊆ tcRefs τ sig :=
  ⟨binary_bufs_sub .., nullary_bufs_sub .., unary_bufs_sub .., binary_bufs_sub .., nullary_bufs_sub .., unary_bufs_sub ..,
    binary_bufs_sub .., binary_bufs_sub .., binary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., binary_bufs_sub ..,
    unary_bufs_sub .., binary_bufs_sub .., nullary_bufs_sub .., unary_bufs_sub .., binary_bufs_sub .., binary_bufs_sub ..⟩
theorem ops_tfB_p2_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p2 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem ops_tfB_p2_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    fn_threefry2x32_0.body_part2 (F := F) arg0 arg1 arg2 arg3 φ = seq (ops_tfB_p2 arg0 arg1 arg2 arg3 φ) := by
  unfold ops_tfB_p2
  rw [← seq1_eq]
  rfl

/-- Statements of part 3 of the function's body, in order. -/
def ops_tfB_p3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_36 (constantI S_ 32 13#32),
    StableHlo.TRef.unary φ.c_36 φ.v143 (broadcastInDim S128 ![] bcast_S_S128),
    StableHlo.TRef.binary φ.v141 φ.v143 φ.v144 Host.shli,
    StableHlo.TRef.nullary φ.c_37 (constantI S_ 32 19#32),
    StableHlo.TRef.unary φ.c_37 φ.v145 (broadcastInDim S128 ![] bcast_S_S128),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S128 ![] bcast_S_S128),
    StableHlo.TRef.binary φ.v148 φ.v150 φ.v151 Host.shli,
    StableHlo.TRef.nullary φ.c_39 (constantI S_ 32 17#32),
    StableHlo.TRef.unary φ.c_39 φ.v152 (broadcastInDim S128 ![] bcast_S_S128),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S128 ![] bcast_S_S128),
    StableHlo.TRef.binary φ.v155 φ.v157 φ.v158 Host.shli,
    StableHlo.TRef.nullary φ.c_41 (constantI S_ 32 6#32),
    StableHlo.TRef.unary φ.c_41 φ.v159 (broadcastInDim S128 ![] bcast_S_S128),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S128 ![] bcast_S_S128),
    StableHlo.TRef.binary φ.v162 φ.v164 φ.v165 Host.shli,
    StableHlo.TRef.nullary φ.c_43 (constantI S_ 32 26#32),
    StableHlo.TRef.unary φ.c_43 φ.v166 (broadcastInDim S128 ![] bcast_S_S128),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S128 ![] bcast_S_S128),
    StableHlo.TRef.binary φ.v163 φ.v170 φ.v171 addi,
    StableHlo.TRef.unary arg0 φ.v172 (broadcastInDim S128 ![] bcast_S_S128),
    StableHlo.TRef.binary φ.v169 φ.v172 φ.v173 addi,
    StableHlo.TRef.nullary φ.c_44 (constantI S_ 32 5#32),
    StableHlo.TRef.unary φ.c_44 φ.v174 (broadcastInDim S128 ![] bcast_S_S128),
    StableHlo.TRef.binary φ.v173 φ.v174 φ.v175 addi ]
theorem ops_tfB_p3_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p3 (F := F) arg0 arg1 arg2 arg3 φ).Forall fun op => op.bufs ⊆ tcRefs τ sig :=
  ⟨nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    binary_bufs_sub .., unary_bufs_sub .., binary_bufs_sub .., nullary_bufs_sub .., unary_bufs_sub .., binary_bufs_sub ..⟩
theorem ops_tfB_p3_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB_p3 (F := F) arg0 arg1 arg2 arg3 φ).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩
theorem ops_tfB_p3_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    fn_threefry2x32_0.body_part3 (F := F) arg0 arg1 arg2 arg3 φ = seq (ops_tfB_p3 arg0 arg1 arg2 arg3 φ) := rfl

/-- The function's operations: its four parts one after the other. -/
def ops_tfB (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  ops_tfB_p0 arg0 arg1 arg2 arg3 φ ++ (ops_tfB_p1 arg0 arg1 arg2 arg3 φ ++ (ops_tfB_p2 arg0 arg1 arg2 arg3 φ ++ ops_tfB_p3 arg0 arg1 arg2 arg3 φ))

theorem ops_tfB_sub (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB (F := F) arg0 arg1 arg2 arg3 φ).Forall fun op => op.bufs ⊆ tcRefs τ sig :=
  forall_append (ops_tfB_p0_sub ..) (forall_append (ops_tfB_p1_sub ..) (forall_append (ops_tfB_p2_sub ..) (ops_tfB_p3_sub ..)))
theorem ops_tfB_fresh (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    (ops_tfB (F := F) arg0 arg1 arg2 arg3 φ).Forall fun op => op.fresh = ∅ :=
  forall_append (ops_tfB_p0_fresh ..) (forall_append (ops_tfB_p1_fresh ..) (forall_append (ops_tfB_p2_fresh ..) (ops_tfB_p3_fresh ..)))

/-- The function's body is the straight line of its operations. -/
theorem ops_tfB_eq (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) :
    fn_threefry2x32_0.body (F := F) arg0 arg1 arg2 arg3 φ = seq (ops_tfB arg0 arg1 arg2 arg3 φ) := by
  unfold fn_threefry2x32_0.body ops_tfB
  rw [ops_tfB_p0_eq, ops_tfB_p1_eq, ops_tfB_p2_eq, ops_tfB_p3_eq, seq_append, seq_append, seq_append]

end Cert.ReferenceIdeal.RefRun

end
-- ==== Proof.RefOps.lean ====
import proofs.«204681_g65575560675685_cont_9to1_m_144_57_alg».proof.Proof.RefOpsTfA
import proofs.«204681_g65575560675685_cont_9to1_m_144_57_alg».proof.Proof.RefOpsTfB

/-! The reference's functions as lists of operations, each body the straight line of its list, and @main the straight line of all of them. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]
/-- A stretch of the function's own operations, in order. -/
def ops_split_s0 (arg0 : StableHlo.TRef sig ⟨S2, .i32⟩) (φ : fn_threefry_split.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]
theorem ops_split_s0_sub (arg0 : StableHlo.TRef sig ⟨S2, .i32⟩) (φ : fn_threefry_split.Bufs) :
    (ops_split_s0 (F := F) arg0 φ).Forall fun op => op.bufs ⊆ tcRefs τ sig :=
  ⟨unary_bufs_sub .., reshape_bufs_sub .., unary_bufs_sub .., reshape_bufs_sub .., nullary_bufs_sub .., nullary_bufs_sub ..,
    unary_bufs_sub .., binary_bufs_sub .., nullary_bufs_sub .., unary_bufs_sub .., binary_bufs_sub .., unary_bufs_sub ..,
    unary_bufs_sub ..⟩
theorem ops_split_s0_fresh (arg0 : StableHlo.TRef sig ⟨S2, .i32⟩) (φ : fn_threefry_split.Bufs) :
    (ops_split_s0 (F := F) arg0 φ).Forall fun op => op.fresh = ∅ :=
  ⟨rfl, rfl, rfl, rfl, rfl, rfl, rfl, rfl, rfl, rfl, rfl, rfl, rfl⟩
/-- A stretch of the function's own operations, in order. -/
def ops_split_s1 (arg0 : StableHlo.TRef sig ⟨S2, .i32⟩) (φ : fn_threefry_split.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]
theorem ops_split_s1_sub (arg0 : StableHlo.TRef sig ⟨S2, .i32⟩) (φ : fn_threefry_split.Bufs) :
    (ops_split_s1 (F := F) arg0 φ).Forall fun op => op.bufs ⊆ tcRefs τ sig :=
  ⟨unary_bufs_sub .., unary_bufs_sub .., binary_bufs_sub ..⟩
theorem ops_split_s1_fresh (arg0 : StableHlo.TRef sig ⟨S2, .i32⟩) (φ : fn_threefry_split.Bufs) :
    (ops_split_s1 (F := F) arg0 φ).Forall fun op => op.fresh = ∅ :=
  ⟨rfl, rfl, rfl⟩
/-- The function's operations in order, its calls' operations in place. -/
def ops_split (arg0 : StableHlo.TRef sig ⟨S2, .i32⟩) (φ : fn_threefry_split.Bufs) : List (HloOp τ sig (Elt F)) :=
  ops_split_s0 arg0 φ ++ (ops_tfA φ.v1 φ.v3 φ.v10 φ.v9 φ.call0 ++ (ops_split_s1 arg0 φ))

theorem ops_split_sub (arg0 : StableHlo.TRef sig ⟨S2, .i32⟩) (φ : fn_threefry_split.Bufs) :
    (ops_split (F := F) arg0 φ).Forall fun op => op.bufs ⊆ tcRefs τ sig :=
  forall_append (ops_split_s0_sub ..) (forall_append (ops_tfA_sub ..) ((ops_split_s1_sub ..)))
theorem ops_split_fresh (arg0 : StableHlo.TRef sig ⟨S2, .i32⟩) (φ : fn_threefry_split.Bufs) :
    (ops_split (F := F) arg0 φ).Forall fun op => op.fresh = ∅ :=
  forall_append (ops_split_s0_fresh ..) (forall_append (ops_tfA_fresh ..) ((ops_split_s1_fresh ..)))

/-- The function's body is the straight line of its operations. -/
theorem ops_split_eq (arg0 : StableHlo.TRef sig ⟨S2, .i32⟩) (φ : fn_threefry_split.Bufs) :
    fn_threefry_split.body (F := F) arg0 φ = seq (ops_split arg0 φ) := by
  unfold fn_threefry_split.body ops_split ops_split_s0 ops_split_s1
  simp only [ops_tfA_eq, seq_append, seq_bind]
  rfl

/-- A stretch of the function's own operations, in order. -/
def ops_shuffle_s0 (arg0 : StableHlo.TRef sig ⟨S2, .i32⟩) (arg1 : StableHlo.TRef sig ⟨S128, .i32⟩) (φ : fn_shuffle.Bufs) : List (HloOp τ sig (Elt F)) :=
  [ StableHlo.TRef.unary φ.call0.v14 φ.v1 (extractStridedSlice S1x2 ![0, 0] · slices_S2x2_S1x2_0_0),
    StableHlo.TRef.reshape φ.v1 φ.v2 rfl shapeCasts_S1x2_S2,
    StableHlo.TRef.unary φ.call0.v14 φ.v3 (extractStridedSlice S1x2 ![1, 0] · slices_S2x2_S1x2_1_0),
    StableHlo.TRef.reshape φ.v3 φ.v4 rfl shapeCasts_S1x2_S2,
    StableHlo.TRef.unary φ.v4 φ.v5 (extractStridedSlice S1 ![0] · slices_S2_S1_0),
    StableHlo.TRef.reshape φ.v5 φ.v6 rfl shapeCasts_S1_S_,
    StableHlo.TRef.unary φ.v4 φ.v7 (extractStridedSlice S1 ![1] · slices_S2_S1_1),
    StableHlo.TRef.reshape φ.v7 φ.v8 rfl shapeCasts_S1_S_,
    StableHlo.TRef.nullary φ.v9 (iotaInDim S128 64 0),
    StableHlo.TRef.nullary φ.c (constantI S_ 64 1#64),
    StableHlo.TRef.unary φ.c φ.v10 (broadcastInDim S128 ![] bcast_S_S128),
    StableHlo.TRef.binary φ.v10 φ.v9 φ.v11 muli,
    StableHlo.TRef.nullary φ.c_0 (constantI S_ 64 32#64),
    StableHlo.TRef.unary φ.c_0 φ.v12 (broadcastInDim S128 ![] bcast_S_S128),
    StableHlo.TRef.binary φ.v11 φ.v12 φ.v13 Host.shrui,
    StableHlo.TRef.unary φ.v11 φ.v14 (trunci 32 · natLt_32_64),
    StableHlo.TRef.unary φ.v13 φ.v15 (trunci 32 · natLt_32_64) ]
theorem ops_shuffle_s0_sub (arg0 : StableHlo.TRef sig ⟨S2, .i32⟩) (arg1 : StableHlo.TRef sig ⟨S128, .i32⟩) (φ : fn_shuffle.Bufs) :
    (ops_shuffle_s0 (F := F) arg0 arg1 φ).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., nullary_bufs_sub .., unary_bufs_sub .., binary_bufs_sub ..,
    nullary_bufs_sub .., unary_bufs_sub .., binary_bufs_sub .., unary_bufs_sub .., unary_bufs_sub ..⟩
theorem ops_shuffle_s0_fresh (arg0 : StableHlo.TRef sig ⟨S2, .i32⟩) (arg1 : StableHlo.TRef sig ⟨S128, .i32⟩) (φ : fn_shuffle.Bufs) :
    (ops_shuffle_s0 (F := F) arg0 arg1 φ).Forall fun op => op.fresh = ∅ :=
  ⟨rfl, rfl, rfl, rfl, rfl, rfl, rfl, rfl, rfl, rfl, rfl, rfl, rfl, rfl, rfl, rfl, rfl⟩
/-- A stretch of the function's own operations, in order. -/
def ops_shuffle_s1 (arg0 : StableHlo.TRef sig ⟨S2, .i32⟩) (arg1 : StableHlo.TRef sig ⟨S128, .i32⟩) (φ : fn_shuffle.Bufs) : List (HloOp τ sig (Elt F)) :=
  [ StableHlo.TRef.binary φ.call1.v171 φ.call1.v175 φ.v17 xori,
    StableHlo.TRef.binary φ.v17 arg1 φ.v18_0 (fun x y => (Host.sort2 S128 0 comparator_i32_i32_d0 x y).1),
    StableHlo.TRef.binary φ.v17 arg1 φ.v18_1 (fun x y => (Host.sort2 S128 0 comparator_i32_i32_d0 x y).2) ]
theorem ops_shuffle_s1_sub (arg0 : StableHlo.TRef sig ⟨S2, .i32⟩) (arg1 : StableHlo.TRef sig ⟨S128, .i32⟩) (φ : fn_shuffle.Bufs) :
    (ops_shuffle_s1 (F := F) arg0 arg1 φ).Forall fun op => op.bufs ⊆ tcRefs τ sig :=
  ⟨binary_bufs_sub .., binary_bufs_sub .., binary_bufs_sub ..⟩
theorem ops_shuffle_s1_fresh (arg0 : StableHlo.TRef sig ⟨S2, .i32⟩) (arg1 : StableHlo.TRef sig ⟨S128, .i32⟩) (φ : fn_shuffle.Bufs) :
    (ops_shuffle_s1 (F := F) arg0 arg1 φ).Forall fun op => op.fresh = ∅ :=
  ⟨rfl, rfl, rfl⟩
/-- The function's operations in order, its calls' operations in place. -/
def ops_shuffle (arg0 : StableHlo.TRef sig ⟨S2, .i32⟩) (arg1 : StableHlo.TRef sig ⟨S128, .i32⟩) (φ : fn_shuffle.Bufs) : List (HloOp τ sig (Elt F)) :=
  [] ++ (ops_split arg0 φ.call0 ++ (ops_shuffle_s0 arg0 arg1 φ ++ (ops_tfB φ.v6 φ.v8 φ.v15 φ.v14 φ.call1 ++ (ops_shuffle_s1 arg0 arg1 φ))))

theorem ops_shuffle_sub (arg0 : StableHlo.TRef sig ⟨S2, .i32⟩) (arg1 : StableHlo.TRef sig ⟨S128, .i32⟩) (φ : fn_shuffle.Bufs) :
    (ops_shuffle (F := F) arg0 arg1 φ).Forall fun op => op.bufs ⊆ tcRefs τ sig :=
  forall_append trivial (forall_append (ops_split_sub ..) (forall_append (ops_shuffle_s0_sub ..) (forall_append (ops_tfB_sub ..) ((ops_shuffle_s1_sub ..)))))
theorem ops_shuffle_fresh (arg0 : StableHlo.TRef sig ⟨S2, .i32⟩) (arg1 : StableHlo.TRef sig ⟨S128, .i32⟩) (φ : fn_shuffle.Bufs) :
    (ops_shuffle (F := F) arg0 arg1 φ).Forall fun op => op.fresh = ∅ :=
  forall_append trivial (forall_append (ops_split_fresh ..) (forall_append (ops_shuffle_s0_fresh ..) (forall_append (ops_tfB_fresh ..) ((ops_shuffle_s1_fresh ..)))))

/-- The function's body is the straight line of its operations. -/
theorem ops_shuffle_eq (arg0 : StableHlo.TRef sig ⟨S2, .i32⟩) (arg1 : StableHlo.TRef sig ⟨S128, .i32⟩) (φ : fn_shuffle.Bufs) :
    fn_shuffle.body (F := F) arg0 arg1 φ = seq (ops_shuffle arg0 arg1 φ) := by
  unfold fn_shuffle.body ops_shuffle ops_shuffle_s0 ops_shuffle_s1
  simp only [ops_split_eq, ops_tfB_eq, seq_append, seq_bind]
  rfl

/-- A stretch of the function's own operations, in order. -/
def ops_where_s0 (arg0 : StableHlo.TRef sig ⟨S100000, .i1⟩) (arg1 : StableHlo.TRef sig ⟨S100000, .i32⟩) (arg2 : StableHlo.TRef sig ⟨S100000, .i32⟩) (φ : fn_where.Bufs) : List (HloOp τ sig (Elt F)) :=
  [ StableHlo.TRef.ternary arg0 arg1 arg2 φ.v0 select ]
theorem ops_where_s0_sub (arg0 : StableHlo.TRef sig ⟨S100000, .i1⟩) (arg1 : StableHlo.TRef sig ⟨S100000, .i32⟩) (arg2 : StableHlo.TRef sig ⟨S100000, .i32⟩) (φ : fn_where.Bufs) :
    (ops_where_s0 (F := F) arg0 arg1 arg2 φ).Forall fun op => op.bufs ⊆ tcRefs τ sig :=
  ternary_bufs_sub ..
theorem ops_where_s0_fresh (arg0 : StableHlo.TRef sig ⟨S100000, .i1⟩) (arg1 : StableHlo.TRef sig ⟨S100000, .i32⟩) (arg2 : StableHlo.TRef sig ⟨S100000, .i32⟩) (φ : fn_where.Bufs) :
    (ops_where_s0 (F := F) arg0 arg1 arg2 φ).Forall fun op => op.fresh = ∅ :=
  rfl
/-- The function's operations in order, its calls' operations in place. -/
def ops_where (arg0 : StableHlo.TRef sig ⟨S100000, .i1⟩) (arg1 : StableHlo.TRef sig ⟨S100000, .i32⟩) (arg2 : StableHlo.TRef sig ⟨S100000, .i32⟩) (φ : fn_where.Bufs) : List (HloOp τ sig (Elt F)) :=
  ops_where_s0 arg0 arg1 arg2 φ

theorem ops_where_sub (arg0 : StableHlo.TRef sig ⟨S100000, .i1⟩) (arg1 : StableHlo.TRef sig ⟨S100000, .i32⟩) (arg2 : StableHlo.TRef sig ⟨S100000, .i32⟩) (φ : fn_where.Bufs) :
    (ops_where (F := F) arg0 arg1 arg2 φ).Forall fun op => op.bufs ⊆ tcRefs τ sig :=
  (ops_where_s0_sub ..)
theorem ops_where_fresh (arg0 : StableHlo.TRef sig ⟨S100000, .i1⟩) (arg1 : StableHlo.TRef sig ⟨S100000, .i32⟩) (arg2 : StableHlo.TRef sig ⟨S100000, .i32⟩) (φ : fn_where.Bufs) :
    (ops_where (F := F) arg0 arg1 arg2 φ).Forall fun op => op.fresh = ∅ :=
  (ops_where_s0_fresh ..)

theorem ops_where_eq (arg0 : StableHlo.TRef sig ⟨S100000, .i1⟩) (arg1 : StableHlo.TRef sig ⟨S100000, .i32⟩) (arg2 : StableHlo.TRef sig ⟨S100000, .i32⟩) (φ : fn_where.Bufs) :
    fn_where.body (F := F) arg0 arg1 arg2 φ = seq (ops_where arg0 arg1 arg2 φ) := rfl

/-- A stretch of the function's own operations, in order. -/
def ops_take_s0 (arg0 : StableHlo.TRef sig ⟨S100000x128, .f32⟩) (arg1 : StableHlo.TRef sig ⟨S100000, .i32⟩) (φ : fn_take.Bufs) : List (HloOp τ sig (Elt F)) :=
  [ StableHlo.TRef.nullary φ.c (constantI S_ 32 0#32),
    StableHlo.TRef.unary φ.c φ.v0 (broadcastInDim S100000 ![] bcast_S_S100000),
    StableHlo.TRef.binary arg1 φ.v0 φ.v1 (cmpi .slt),
    StableHlo.TRef.nullary φ.c_0 (constantI S_ 32 100000#32),
    StableHlo.TRef.unary φ.c_0 φ.v2 (broadcastInDim S100000 ![] bcast_S_S100000),
    StableHlo.TRef.binary arg1 φ.v2 φ.v3 addi ]
theorem ops_take_s0_sub (arg0 : StableHlo.TRef sig ⟨S100000x128, .f32⟩) (arg1 : StableHlo.TRef sig ⟨S100000, .i32⟩) (φ : fn_take.Bufs) :
    (ops_take_s0 (F := F) arg0 arg1 φ).Forall fun op => op.bufs ⊆ tcRefs τ sig :=
  ⟨nullary_bufs_sub .., unary_bufs_sub .., binary_bufs_sub .., nullary_bufs_sub .., unary_bufs_sub .., binary_bufs_sub ..⟩
theorem ops_take_s0_fresh (arg0 : StableHlo.TRef sig ⟨S100000x128, .f32⟩) (arg1 : StableHlo.TRef sig ⟨S100000, .i32⟩) (φ : fn_take.Bufs) :
    (ops_take_s0 (F := F) arg0 arg1 φ).Forall fun op => op.fresh = ∅ :=
  ⟨rfl, rfl, rfl, rfl, rfl, rfl⟩
/-- A stretch of the function's own operations, in order. -/
def ops_take_s1 (arg0 : StableHlo.TRef sig ⟨S100000x128, .f32⟩) (arg1 : StableHlo.TRef sig ⟨S100000, .i32⟩) (φ : fn_take.Bufs) : List (HloOp τ sig (Elt F)) :=
  [ StableHlo.TRef.unary φ.call0.v0 φ.v5 (broadcastInDim S100000x1 ![0] bcast_S100000_S100000x1_0),
    StableHlo.TRef.nullary φ.c_1 (constantI S1 32 99999#32),
    StableHlo.TRef.nullary φ.c_2 (constantI S_ 32 0#32),
    StableHlo.TRef.unary φ.c_2 φ.v6 (broadcastInDim S100000x1 ![] bcast_S_S100000x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S100000x1 ![0, 1] bcast_S1x1_S100000x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S100000x1_S100000_d1 h_S_),
    StableHlo.TRef.binary arg0 φ.v5 φ.v13 (fun x i => Host.gather gather_S100000x128_S100000x1_S100000x128_1_0_n_n_0_1_1128 x i),
    StableHlo.TRef.unary φ.v12 φ.v14 (broadcastInDim S100000x128 ![0] bcast_S100000_S100000x128_0),
    StableHlo.TRef.nullary φ.cst (constant S_ .f32 0x7FC00000#32),
    StableHlo.TRef.unary φ.cst φ.v15 (broadcastInDim S100000x128 ![] bcast_S_S100000x128),
    StableHlo.TRef.ternary φ.v14 φ.v13 φ.v15 φ.v16 select ]
theorem ops_take_s1_sub (arg0 : StableHlo.TRef sig ⟨S100000x128, .f32⟩) (arg1 : StableHlo.TRef sig ⟨S100000, .i32⟩) (φ : fn_take.Bufs) :
    (ops_take_s1 (F := F) arg0 arg1 φ).Forall fun op => op.bufs ⊆ tcRefs τ sig :=
  ⟨unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..⟩
theorem ops_take_s1_fresh (arg0 : StableHlo.TRef sig ⟨S100000x128, .f32⟩) (arg1 : StableHlo.TRef sig ⟨S100000, .i32⟩) (φ : fn_take.Bufs) :
    (ops_take_s1 (F := F) arg0 arg1 φ).Forall fun op => op.fresh = ∅ :=
  ⟨rfl, rfl, rfl, rfl, rfl, rfl, rfl, rfl, rfl, rfl, rfl, rfl, rfl, rfl, rfl, rfl⟩
/-- The function's operations in order, its calls' operations in place. -/
def ops_take (arg0 : StableHlo.TRef sig ⟨S100000x128, .f32⟩) (arg1 : StableHlo.TRef sig ⟨S100000, .i32⟩) (φ : fn_take.Bufs) : List (HloOp τ sig (Elt F)) :=
  ops_take_s0 arg0 arg1 φ ++ (ops_where φ.v1 φ.v3 arg1 φ.call0 ++ (ops_take_s1 arg0 arg1 φ))

theorem ops_take_sub (arg0 : StableHlo.TRef sig ⟨S100000x128, .f32⟩) (arg1 : StableHlo.TRef sig ⟨S100000, .i32⟩) (φ : fn_take.Bufs) :
    (ops_take (F := F) arg0 arg1 φ).Forall fun op => op.bufs ⊆ tcRefs τ sig :=
  forall_append (ops_take_s0_sub ..) (forall_append (ops_where_sub ..) ((ops_take_s1_sub ..)))
theorem ops_take_fresh (arg0 : StableHlo.TRef sig ⟨S100000x128, .f32⟩) (arg1 : StableHlo.TRef sig ⟨S100000, .i32⟩) (φ : fn_take.Bufs) :
    (ops_take (F := F) arg0 arg1 φ).Forall fun op => op.fresh = ∅ :=
  forall_append (ops_take_s0_fresh ..) (forall_append (ops_where_fresh ..) ((ops_take_s1_fresh ..)))

/-- The function's body is the straight line of its operations. -/
theorem ops_take_eq (arg0 : StableHlo.TRef sig ⟨S100000x128, .f32⟩) (arg1 : StableHlo.TRef sig ⟨S100000, .i32⟩) (φ : fn_take.Bufs) :
    fn_take.body (F := F) arg0 arg1 φ = seq (ops_take arg0 arg1 φ) := by
  unfold fn_take.body ops_take ops_take_s0 ops_take_s1
  simp only [ops_where_eq, seq_append, seq_bind]
  rfl

/-- A stretch of the function's own operations, in order. -/
def ops_relu_s0 (arg0 : StableHlo.TRef sig ⟨S100000x128, .f32⟩) (φ : fn_relu.Bufs) : List (HloOp τ sig (Elt F)) :=
  [ StableHlo.TRef.nullary φ.cst (constant S_ .f32 0x00000000#32),
    StableHlo.TRef.unary φ.cst φ.v0 (broadcastInDim S100000x128 ![] bcast_S_S100000x128),
    StableHlo.TRef.binary arg0 φ.v0 φ.v1 maximumf ]
theorem ops_relu_s0_sub (arg0 : StableHlo.TRef sig ⟨S100000x128, .f32⟩) (φ : fn_relu.Bufs) :
    (ops_relu_s0 (F := F) arg0 φ).Forall fun op => op.bufs ⊆ tcRefs τ sig :=
  ⟨nullary_bufs_sub .., unary_bufs_sub .., binary_bufs_sub ..⟩
theorem ops_relu_s0_fresh (arg0 : StableHlo.TRef sig ⟨S100000x128, .f32⟩) (φ : fn_relu.Bufs) :
    (ops_relu_s0 (F := F) arg0 φ).Forall fun op => op.fresh = ∅ :=
  ⟨rfl, rfl, rfl⟩
/-- The function's operations in order, its calls' operations in place. -/
def ops_relu (arg0 : StableHlo.TRef sig ⟨S100000x128, .f32⟩) (φ : fn_relu.Bufs) : List (HloOp τ sig (Elt F)) :=
  ops_relu_s0 arg0 φ

theorem ops_relu_sub (arg0 : StableHlo.TRef sig ⟨S100000x128, .f32⟩) (φ : fn_relu.Bufs) :
    (ops_relu (F := F) arg0 φ).Forall fun op => op.bufs ⊆ tcRefs τ sig :=
  (ops_relu_s0_sub ..)
theorem ops_relu_fresh (arg0 : StableHlo.TRef sig ⟨S100000x128, .f32⟩) (φ : fn_relu.Bufs) :
    (ops_relu (F := F) arg0 φ).Forall fun op => op.fresh = ∅ :=
  (ops_relu_s0_fresh ..)

theorem ops_relu_eq (arg0 : StableHlo.TRef sig ⟨S100000x128, .f32⟩) (φ : fn_relu.Bufs) :
    fn_relu.body (F := F) arg0 φ = seq (ops_relu arg0 φ) := rfl

/-- A stretch of the function's own operations, in order. -/
def ops_main_s0  : List (HloOp τ sig (Elt F)) :=
  [ StableHlo.nullary main_c (constantI S_ 32 1#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v7 (iotaInDim S128 32 0) ]
theorem ops_main_s0_sub  :
    (ops_main_s0 (F := F) ).Forall fun op => op.bufs ⊆ tcRefs τ sig :=
  ⟨nullary_bufs_sub .., nullary_bufs_sub .., binary_bufs_sub .., unary_bufs_sub .., unary_bufs_sub .., nullary_bufs_sub ..,
    binary_bufs_sub .., unary_bufs_sub .., unary_bufs_sub .., binary_bufs_sub .., nullary_bufs_sub ..⟩
theorem ops_main_s0_fresh  :
    (ops_main_s0 (F := F) ).Forall fun op => op.fresh = ∅ :=
  ⟨rfl, rfl, rfl, rfl, rfl, rfl, rfl, rfl, rfl, rfl, rfl⟩
/-- A stretch of the function's own operations, in order. -/
def ops_main_s1  : List (HloOp τ sig (Elt F)) :=
  [ StableHlo.nullary main_c_2 (constantI S_ 32 2#32),
    StableHlo.nullary main_c_3 (constantI S_ 32 32#32),
    StableHlo.binary main_c_2 main_c_3 main_v9 (Host.shrui : (⟨S_, .i32⟩ : BufTy).Contents (Elt F) → (⟨S_, .i32⟩ : BufTy).Contents (Elt F) → (⟨S_, .i32⟩ : BufTy).Contents (Elt F)),
    StableHlo.unary main_v9 main_v10 (id : (⟨S_, .i32⟩ : BufTy).Contents (Elt F) → (⟨S_, .i32⟩ : BufTy).Contents (Elt F)),
    StableHlo.unary main_v10 main_v11 (broadcastInDim S1 ![] bcast_S_S1 : (⟨S_, .i32⟩ : BufTy).Contents (Elt F) → (⟨S1, .i32⟩ : BufTy).Contents (Elt F)),
    StableHlo.nullary main_c_4 (constantI S_ 32 4294967295#32),
    StableHlo.binary main_c_2 main_c_4 main_v12 (andi : (⟨S_, .i32⟩ : BufTy).Contents (Elt F) → (⟨S_, .i32⟩ : BufTy).Contents (Elt F) → (⟨S_, .i32⟩ : BufTy).Contents (Elt F)),
    StableHlo.unary main_v12 main_v13 (id : (⟨S_, .i32⟩ : BufTy).Contents (Elt F) → (⟨S_, .i32⟩ : BufTy).Contents (Elt F)),
    StableHlo.unary main_v13 main_v14 (broadcastInDim S1 ![] bcast_S_S1 : (⟨S_, .i32⟩ : BufTy).Contents (Elt F) → (⟨S1, .i32⟩ : BufTy).Contents (Elt F)),
    StableHlo.binary main_v11 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v16 (iotaInDim S128 32 0) ]
theorem ops_main_s1_sub  :
    (ops_main_s1 (F := F) ).Forall fun op => op.bufs ⊆ tcRefs τ sig :=
  ⟨nullary_bufs_sub .., nullary_bufs_sub .., binary_bufs_sub .., unary_bufs_sub .., unary_bufs_sub .., nullary_bufs_sub ..,
    binary_bufs_sub .., unary_bufs_sub .., unary_bufs_sub .., binary_bufs_sub .., nullary_bufs_sub ..⟩
theorem ops_main_s1_fresh  :
    (ops_main_s1 (F := F) ).Forall fun op => op.fresh = ∅ :=
  ⟨rfl, rfl, rfl, rfl, rfl, rfl, rfl, rfl, rfl, rfl, rfl⟩
/-- A stretch of the function's own operations, in order. -/
def ops_main_s2  : List (HloOp τ sig (Elt F)) :=
  [ StableHlo.nullary main_c_5 (constantI S_ 32 0#32),
    StableHlo.unary main_c_5 main_v19 (broadcastInDim S128 ![] bcast_S_S128 : (⟨S_, .i32⟩ : BufTy).Contents (Elt F) → (⟨S128, .i32⟩ : BufTy).Contents (Elt F)),
    StableHlo.binary main_v8 main_v19 main_v20 (cmpi .slt : (⟨S128, .i32⟩ : BufTy).Contents (Elt F) → (⟨S128, .i32⟩ : BufTy).Contents (Elt F) → (⟨S128, .i1⟩ : BufTy).Contents (Elt F)),
    StableHlo.nullary main_c_6 (constantI S_ 32 128#32),
    StableHlo.unary main_c_6 main_v21 (broadcastInDim S128 ![] bcast_S_S128 : (⟨S_, .i32⟩ : BufTy).Contents (Elt F) → (⟨S128, .i32⟩ : BufTy).Contents (Elt F)),
    StableHlo.binary main_v8 main_v21 main_v22 (addi : (⟨S128, .i32⟩ : BufTy).Contents (Elt F) → (⟨S128, .i32⟩ : BufTy).Contents (Elt F) → (⟨S128, .i32⟩ : BufTy).Contents (Elt F)),
    StableHlo.ternary main_v20 main_v22 main_v8 main_v23 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v23 main_v24 (broadcastInDim S128x1 ![0] bcast_S128_S128x1_0 : (⟨S128, .i32⟩ : BufTy).Contents (Elt F) → (⟨S128x1, .i32⟩ : BufTy).Contents (Elt F)),
    StableHlo.binary main_v18 main_v24 main_v25 ((fun x i => Host.gather gather_S100000x128_S128x1_S100000x128_0_1_n_n_1_1_1000001 x i) : (⟨S100000x128, .f32⟩ : BufTy).Contents (Elt F) → (⟨S128x1, .i32⟩ : BufTy).Contents (Elt F) → (⟨S100000x128, .f32⟩ : BufTy).Contents (Elt F)) ]
theorem ops_main_s2_sub  :
    (ops_main_s2 (F := F) ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩
theorem ops_main_s2_fresh  :
    (ops_main_s2 (F := F) ).Forall fun op => op.fresh = ∅ :=
  ⟨rfl, rfl, rfl, rfl, rfl, rfl, rfl, rfl, rfl⟩
/-- A stretch of the function's own operations, in order. -/
def ops_main_s3  : List (HloOp τ sig (Elt F)) :=
  [ StableHlo.nullary main_c_7 (constantI S_ 32 0#32),
    StableHlo.unary main_c_7 main_v27 (broadcastInDim S128 ![] bcast_S_S128 : (⟨S_, .i32⟩ : BufTy).Contents (Elt F) → (⟨S128, .i32⟩ : BufTy).Contents (Elt F)),
    StableHlo.binary main_v17 main_v27 main_v28 (cmpi .slt : (⟨S128, .i32⟩ : BufTy).Contents (Elt F) → (⟨S128, .i32⟩ : BufTy).Contents (Elt F) → (⟨S128, .i1⟩ : BufTy).Contents (Elt F)),
    StableHlo.nullary main_c_8 (constantI S_ 32 128#32),
    StableHlo.unary main_c_8 main_v29 (broadcastInDim S128 ![] bcast_S_S128 : (⟨S_, .i32⟩ : BufTy).Contents (Elt F) → (⟨S128, .i32⟩ : BufTy).Contents (Elt F)),
    StableHlo.binary main_v17 main_v29 main_v30 (addi : (⟨S128, .i32⟩ : BufTy).Contents (Elt F) → (⟨S128, .i32⟩ : BufTy).Contents (Elt F) → (⟨S128, .i32⟩ : BufTy).Contents (Elt F)),
    StableHlo.ternary main_v28 main_v30 main_v17 main_v31 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v31 main_v32 (broadcastInDim S128x1 ![0] bcast_S128_S128x1_0 : (⟨S128, .i32⟩ : BufTy).Contents (Elt F) → (⟨S128x1, .i32⟩ : BufTy).Contents (Elt F)),
    StableHlo.binary main_v26 main_v32 main_v33 ((fun x i => Host.gather gather_S100000x128_S128x1_S100000x128_0_1_n_n_1_1_1000001 x i) : (⟨S100000x128, .f32⟩ : BufTy).Contents (Elt F) → (⟨S128x1, .i32⟩ : BufTy).Contents (Elt F) → (⟨S100000x128, .f32⟩ : BufTy).Contents (Elt F)),
    StableHlo.nary ![main_arg0, main_v33, main_v25] main_v34 (fun u => concatenate S100000x384 1 [⟨S100000x128, u 0⟩, ⟨S100000x128, u 1⟩, ⟨S100000x128, u 2⟩] concatenates_S100000x128_S100000x128_S100000x128_S100000x384_d1),
    StableHlo.binary main_v34 main_arg5 main_v35 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)) ]
theorem ops_main_s3_sub  :
    (ops_main_s3 (F := F) ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nary_bufs_sub .., binary_bufs_sub ..⟩
theorem ops_main_s3_fresh  :
    (ops_main_s3 (F := F) ).Forall fun op => op.fresh = ∅ :=
  ⟨rfl, rfl, rfl, rfl, rfl, rfl, rfl, rfl, rfl, rfl, rfl⟩
/-- The function's operations in order, its calls' operations in place. -/
def ops_main  : List (HloOp τ sig (Elt F)) :=
  ops_main_s0 ++ (ops_shuffle (.of main_v6) (.of main_v7) main_call0 ++ (ops_main_s1 ++ (ops_shuffle (.of main_v15) (.of main_v16) main_call1 ++ ([] ++ (ops_take (.of main_arg2) (.of main_arg3) main_call2 ++ (ops_main_s2 ++ (ops_take (.of main_arg1) (.of main_arg4) main_call3 ++ (ops_main_s3 ++ (ops_relu (.of main_v35) main_call4 ++ ([]))))))))))

theorem ops_main_sub  :
    (ops_main (F := F) ).Forall fun op => op.bufs ⊆ tcRefs τ sig :=
  forall_append (ops_main_s0_sub ..) (forall_append (ops_shuffle_sub ..) (forall_append (ops_main_s1_sub ..) (forall_append (ops_shuffle_sub ..) (forall_append trivial (forall_append (ops_take_sub ..) (forall_append (ops_main_s2_sub ..) (forall_append (ops_take_sub ..) (forall_append (ops_main_s3_sub ..) (forall_append (ops_relu_sub ..) (trivial))))))))))
theorem ops_main_fresh  :
    (ops_main (F := F) ).Forall fun op => op.fresh = ∅ :=
  forall_append (ops_main_s0_fresh ..) (forall_append (ops_shuffle_fresh ..) (forall_append (ops_main_s1_fresh ..) (forall_append (ops_shuffle_fresh ..) (forall_append trivial (forall_append (ops_take_fresh ..) (forall_append (ops_main_s2_fresh ..) (forall_append (ops_take_fresh ..) (forall_append (ops_main_s3_fresh ..) (forall_append (ops_relu_fresh ..) (trivial))))))))))

/-- @main is the straight line of its operations. -/
theorem ops_main_eq (c : Dev nD) : main (F := F) c = seq (ops_main (F := F)) := by
  unfold main ops_main ops_main_s0 ops_main_s1 ops_main_s2 ops_main_s3
  simp only [ops_shuffle_eq, ops_take_eq, ops_relu_eq, seq_append, seq_bind]
  rfl

end Cert.ReferenceIdeal.RefRun

end
-- ==== Proof.KeysRelDefs.lean ====
import proofs.«204681_g65575560675685_cont_9to1_m_144_57_alg».proof.KernelIdeal
import proofs.«204681_g65575560675685_cont_9to1_m_144_57_alg».proof.ReferenceIdeal
import Idealize.ShloMosaic.Lib.StableHlo.Run

/-! What the two programs' shuffles are handed (the seed and the identity table of each of the two calls), as typed
    references, and the contents after a concatenation of operation lists. -/

open Idealize.ShloMosaic Idealize.ShloMosaic.TcCoe Idealize.SL.Sem Idealize.ShloMosaic.StableHlo

noncomputable section

namespace Cert.Proof.KeysRel

/-- The contents after two lists of operations in a row. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

abbrev kTop0c0 : StableHlo.TRef Cert.KernelIdeal.sig ⟨Cert.KernelIdeal.S2, .i32⟩ := .of Cert.KernelIdeal.main_v6
abbrev kTop1c0 : StableHlo.TRef Cert.KernelIdeal.sig ⟨Cert.KernelIdeal.S128, .i32⟩ := .of Cert.KernelIdeal.main_v7
abbrev kTop0c1 : StableHlo.TRef Cert.KernelIdeal.sig ⟨Cert.KernelIdeal.S2, .i32⟩ := .of Cert.KernelIdeal.main_v15
abbrev kTop1c1 : StableHlo.TRef Cert.KernelIdeal.sig ⟨Cert.KernelIdeal.S128, .i32⟩ := .of Cert.KernelIdeal.main_v16
abbrev rTop0c0 : StableHlo.TRef Cert.ReferenceIdeal.sig ⟨Cert.ReferenceIdeal.S2, .i32⟩ := .of Cert.ReferenceIdeal.main_v6
abbrev rTop1c0 : StableHlo.TRef Cert.ReferenceIdeal.sig ⟨Cert.ReferenceIdeal.S128, .i32⟩ := .of Cert.ReferenceIdeal.main_v7
abbrev rTop0c1 : StableHlo.TRef Cert.ReferenceIdeal.sig ⟨Cert.ReferenceIdeal.S2, .i32⟩ := .of Cert.ReferenceIdeal.main_v15
abbrev rTop1c1 : StableHlo.TRef Cert.ReferenceIdeal.sig ⟨Cert.ReferenceIdeal.S128, .i32⟩ := .of Cert.ReferenceIdeal.main_v16

end Cert.Proof.KeysRel

end
-- ==== Proof.KeysRelC0A.lean ====
import proofs.«204681_g65575560675685_cont_9to1_m_144_57_alg».proof.Proof.HostOpsI
import proofs.«204681_g65575560675685_cont_9to1_m_144_57_alg».proof.Proof.RefOpsTfA
import proofs.«204681_g65575560675685_cont_9to1_m_144_57_alg».proof.Proof.RefOpsTfB
import proofs.«204681_g65575560675685_cont_9to1_m_144_57_alg».proof.Proof.RefOps
import proofs.«204681_g65575560675685_cont_9to1_m_144_57_alg».proof.Proof.KeysRelDefs
/-! The two programs' shuffle of call 0, first half (the split of the seed: its own hash on two-word vectors), part by
    part: valuations of the two programs that agree at a part's live-in buffers agree at its live-out buffers. -/

open Idealize.ShloMosaic Idealize.ShloMosaic.TcCoe Idealize.SL.Sem Idealize.ShloMosaic.StableHlo

noncomputable section

namespace Cert.Proof.KeysRel

variable {F : FTy → Type} [FloatOps F] [Cert.KernelIdeal.Facts] [Cert.ReferenceIdeal.Facts]
set_option maxHeartbeats 8000000 in
/-- Part 0 of the shuffle of call 0: the two programs' valuations agreeing at the part's live-in buffers agree, after
    the part, at its live-out buffers (both sides are the same operations of the same values). -/
theorem c0_p0 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_TOP0 : VK (Proc.devRef .tc (kTop0c0).ref) = VR (Proc.devRef .tc (rTop0c0).ref)) :
    (after (Cert.KernelIdeal.HostOps.fn_threefry_split.seg0 (F := F) kTop0c0 Cert.KernelIdeal.main_call0.call0) VK (Proc.devRef .tc (kTop1c0).ref)
        = after (Cert.ReferenceIdeal.RefRun.ops_split_s0 (F := F) rTop0c0 Cert.ReferenceIdeal.main_call0.call0) VR (Proc.devRef .tc (rTop1c0).ref))
      ∧ (after (Cert.KernelIdeal.HostOps.fn_threefry_split.seg0 (F := F) kTop0c0 Cert.KernelIdeal.main_call0.call0) VK (Proc.devRef .tc (Cert.KernelIdeal.main_call0.call0.v1).ref)
        = after (Cert.ReferenceIdeal.RefRun.ops_split_s0 (F := F) rTop0c0 Cert.ReferenceIdeal.main_call0.call0) VR (Proc.devRef .tc (Cert.ReferenceIdeal.main_call0.call0.v1).ref))
      ∧ (after (Cert.KernelIdeal.HostOps.fn_threefry_split.seg0 (F := F) kTop0c0 Cert.KernelIdeal.main_call0.call0) VK (Proc.devRef .tc (Cert.KernelIdeal.main_call0.call0.v3).ref)
        = after (Cert.ReferenceIdeal.RefRun.ops_split_s0 (F := F) rTop0c0 Cert.ReferenceIdeal.main_call0.call0) VR (Proc.devRef .tc (Cert.ReferenceIdeal.main_call0.call0.v3).ref))
      ∧ (after (Cert.KernelIdeal.HostOps.fn_threefry_split.seg0 (F := F) kTop0c0 Cert.KernelIdeal.main_call0.call0) VK (Proc.devRef .tc (Cert.KernelIdeal.main_call0.call0.v9).ref)
        = after (Cert.ReferenceIdeal.RefRun.ops_split_s0 (F := F) rTop0c0 Cert.ReferenceIdeal.main_call0.call0) VR (Proc.devRef .tc (Cert.ReferenceIdeal.main_call0.call0.v9).ref))
      ∧ (after (Cert.KernelIdeal.HostOps.fn_threefry_split.seg0 (F := F) kTop0c0 Cert.KernelIdeal.main_call0.call0) VK (Proc.devRef .tc (Cert.KernelIdeal.main_call0.call0.v10).ref)
        = after (Cert.ReferenceIdeal.RefRun.ops_split_s0 (F := F) rTop0c0 Cert.ReferenceIdeal.main_call0.call0) VR (Proc.devRef .tc (Cert.ReferenceIdeal.main_call0.call0.v10).ref)) := by
  refine ⟨?_, ?_, ?_, ?_, ?_⟩ <;>
    (unfold Cert.KernelIdeal.HostOps.fn_threefry_split.seg0 Cert.ReferenceIdeal.RefRun.ops_split_s0
     after_results_simp
     try simp only [h_TOP1, h_TOP0]
     try rfl)

set_option maxHeartbeats 8000000 in
/-- Part 1 of the shuffle of call 0: the two programs' valuations agreeing at the part's live-in buffers agree, after
    the part, at its live-out buffers (both sides are the same operations of the same values). -/
theorem c0_p1 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_call0_v1 : VK (Proc.devRef .tc (Cert.KernelIdeal.main_call0.call0.v1).ref) = VR (Proc.devRef .tc (Cert.ReferenceIdeal.main_call0.call0.v1).ref))
    (h_call0_v3 : VK (Proc.devRef .tc (Cert.KernelIdeal.main_call0.call0.v3).ref) = VR (Proc.devRef .tc (Cert.ReferenceIdeal.main_call0.call0.v3).ref))
    (h_call0_v9 : VK (Proc.devRef .tc (Cert.KernelIdeal.main_call0.call0.v9).ref) = VR (Proc.devRef .tc (Cert.ReferenceIdeal.main_call0.call0.v9).ref))
    (h_call0_v10 : VK (Proc.devRef .tc (Cert.KernelIdeal.main_call0.call0.v10).ref) = VR (Proc.devRef .tc (Cert.ReferenceIdeal.main_call0.call0.v10).ref)) :
    (after (Cert.KernelIdeal.HostOps.fn_threefry2x32.ops0 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (kTop1c0).ref)
        = after (Cert.ReferenceIdeal.RefRun.ops_tfA_p0 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (rTop1c0).ref))
      ∧ (after (Cert.KernelIdeal.HostOps.fn_threefry2x32.ops0 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.v1).ref)
        = after (Cert.ReferenceIdeal.RefRun.ops_tfA_p0 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.v1).ref))
      ∧ (after (Cert.KernelIdeal.HostOps.fn_threefry2x32.ops0 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v1).ref)
        = after (Cert.ReferenceIdeal.RefRun.ops_tfA_p0 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v1).ref))
      ∧ (after (Cert.KernelIdeal.HostOps.fn_threefry2x32.ops0 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.v3).ref)
        = after (Cert.ReferenceIdeal.RefRun.ops_tfA_p0 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.v3).ref))
      ∧ (after (Cert.KernelIdeal.HostOps.fn_threefry2x32.ops0 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v47).ref)
        = after (Cert.ReferenceIdeal.RefRun.ops_tfA_p0 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v47).ref))
      ∧ (after (Cert.KernelIdeal.HostOps.fn_threefry2x32.ops0 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v46).ref)
        = after (Cert.ReferenceIdeal.RefRun.ops_tfA_p0 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v46).ref)) := by
  refine ⟨?_, ?_, ?_, ?_, ?_, ?_⟩ <;>
    (unfold Cert.KernelIdeal.HostOps.fn_threefry2x32.ops0 Cert.ReferenceIdeal.RefRun.ops_tfA_p0
     after_results_simp
     try simp only [h_TOP1, h_call0_v1, h_call0_v3, h_call0_v9, h_call0_v10]
     try rfl)

set_option maxHeartbeats 8000000 in
/-- Part 2 of the shuffle of call 0: the two programs' valuations agreeing at the part's live-in buffers agree, after
    the part, at its live-out buffers (both sides are the same operations of the same values). -/
theorem c0_p2 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_call0_v1 : VK (Proc.devRef .tc (Cert.KernelIdeal.main_call0.call0.v1).ref) = VR (Proc.devRef .tc (Cert.ReferenceIdeal.main_call0.call0.v1).ref))
    (h_call0_call0_v1 : VK (Proc.devRef .tc (Cert.KernelIdeal.main_call0.call0.call0.v1).ref) = VR (Proc.devRef .tc (Cert.ReferenceIdeal.main_call0.call0.call0.v1).ref))
    (h_call0_v3 : VK (Proc.devRef .tc (Cert.KernelIdeal.main_call0.call0.v3).ref) = VR (Proc.devRef .tc (Cert.ReferenceIdeal.main_call0.call0.v3).ref))
    (h_call0_call0_v47 : VK (Proc.devRef .tc (Cert.KernelIdeal.main_call0.call0.call0.v47).ref) = VR (Proc.devRef .tc (Cert.ReferenceIdeal.main_call0.call0.call0.v47).ref))
    (h_call0_call0_v46 : VK (Proc.devRef .tc (Cert.KernelIdeal.main_call0.call0.call0.v46).ref) = VR (Proc.devRef .tc (Cert.ReferenceIdeal.main_call0.call0.call0.v46).ref)) :
    (after (Cert.KernelIdeal.HostOps.fn_threefry2x32.ops1 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (kTop1c0).ref)
        = after (Cert.ReferenceIdeal.RefRun.ops_tfA_p1 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (rTop1c0).ref))
      ∧ (after (Cert.KernelIdeal.HostOps.fn_threefry2x32.ops1 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.v1).ref)
        = after (Cert.ReferenceIdeal.RefRun.ops_tfA_p1 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.v1).ref))
      ∧ (after (Cert.KernelIdeal.HostOps.fn_threefry2x32.ops1 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v1).ref)
        = after (Cert.ReferenceIdeal.RefRun.ops_tfA_p1 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v1).ref))
      ∧ (after (Cert.KernelIdeal.HostOps.fn_threefry2x32.ops1 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.v3).ref)
        = after (Cert.ReferenceIdeal.RefRun.ops_tfA_p1 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.v3).ref))
      ∧ (after (Cert.KernelIdeal.HostOps.fn_threefry2x32.ops1 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v94).ref)
        = after (Cert.ReferenceIdeal.RefRun.ops_tfA_p1 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v94).ref))
      ∧ (after (Cert.KernelIdeal.HostOps.fn_threefry2x32.ops1 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v88).ref)
        = after (Cert.ReferenceIdeal.RefRun.ops_tfA_p1 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v88).ref)) := by
  refine ⟨?_, ?_, ?_, ?_, ?_, ?_⟩ <;>
    (unfold Cert.KernelIdeal.HostOps.fn_threefry2x32.ops1 Cert.ReferenceIdeal.RefRun.ops_tfA_p1
     after_results_simp
     try simp only [h_TOP1, h_call0_v1, h_call0_call0_v1, h_call0_v3, h_call0_call0_v47, h_call0_call0_v46]
     try rfl)

set_option maxHeartbeats 8000000 in
/-- Part 3 of the shuffle of call 0: the two programs' valuations agreeing at the part's live-in buffers agree, after
    the part, at its live-out buffers (both sides are the same operations of the same values). -/
theorem c0_p3 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_call0_v1 : VK (Proc.devRef .tc (Cert.KernelIdeal.main_call0.call0.v1).ref) = VR (Proc.devRef .tc (Cert.ReferenceIdeal.main_call0.call0.v1).ref))
    (h_call0_call0_v1 : VK (Proc.devRef .tc (Cert.KernelIdeal.main_call0.call0.call0.v1).ref) = VR (Proc.devRef .tc (Cert.ReferenceIdeal.main_call0.call0.call0.v1).ref))
    (h_call0_v3 : VK (Proc.devRef .tc (Cert.KernelIdeal.main_call0.call0.v3).ref) = VR (Proc.devRef .tc (Cert.ReferenceIdeal.main_call0.call0.v3).ref))
    (h_call0_call0_v94 : VK (Proc.devRef .tc (Cert.KernelIdeal.main_call0.call0.call0.v94).ref) = VR (Proc.devRef .tc (Cert.ReferenceIdeal.main_call0.call0.call0.v94).ref))
    (h_call0_call0_v88 : VK (Proc.devRef .tc (Cert.KernelIdeal.main_call0.call0.call0.v88).ref) = VR (Proc.devRef .tc (Cert.ReferenceIdeal.main_call0.call0.call0.v88).ref)) :
    (after (Cert.KernelIdeal.HostOps.fn_threefry2x32.ops2 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (kTop1c0).ref)
        = after (Cert.ReferenceIdeal.RefRun.ops_tfA_p2 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (rTop1c0).ref))
      ∧ (after (Cert.KernelIdeal.HostOps.fn_threefry2x32.ops2 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.v1).ref)
        = after (Cert.ReferenceIdeal.RefRun.ops_tfA_p2 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.v1).ref))
      ∧ (after (Cert.KernelIdeal.HostOps.fn_threefry2x32.ops2 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v1).ref)
        = after (Cert.ReferenceIdeal.RefRun.ops_tfA_p2 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v1).ref))
      ∧ (after (Cert.KernelIdeal.HostOps.fn_threefry2x32.ops2 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v142).ref)
        = after (Cert.ReferenceIdeal.RefRun.ops_tfA_p2 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v142).ref))
      ∧ (after (Cert.KernelIdeal.HostOps.fn_threefry2x32.ops2 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v141).ref)
        = after (Cert.ReferenceIdeal.RefRun.ops_tfA_p2 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v141).ref)) := by
  refine ⟨?_, ?_, ?_, ?_, ?_⟩ <;>
    (unfold Cert.KernelIdeal.HostOps.fn_threefry2x32.ops2 Cert.ReferenceIdeal.RefRun.ops_tfA_p2
     after_results_simp
     try simp only [h_TOP1, h_call0_v1, h_call0_call0_v1, h_call0_v3, h_call0_call0_v94, h_call0_call0_v88]
     try rfl)

set_option maxHeartbeats 8000000 in
/-- Part 4 of the shuffle of call 0: the two programs' valuations agreeing at the part's live-in buffers agree, after
    the part, at its live-out buffers (both sides are the same operations of the same values). -/
theorem c0_p4 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_call0_v1 : VK (Proc.devRef .tc (Cert.KernelIdeal.main_call0.call0.v1).ref) = VR (Proc.devRef .tc (Cert.ReferenceIdeal.main_call0.call0.v1).ref))
    (h_call0_call0_v1 : VK (Proc.devRef .tc (Cert.KernelIdeal.main_call0.call0.call0.v1).ref) = VR (Proc.devRef .tc (Cert.ReferenceIdeal.main_call0.call0.call0.v1).ref))
    (h_call0_call0_v142 : VK (Proc.devRef .tc (Cert.KernelIdeal.main_call0.call0.call0.v142).ref) = VR (Proc.devRef .tc (Cert.ReferenceIdeal.main_call0.call0.call0.v142).ref))
    (h_call0_call0_v141 : VK (Proc.devRef .tc (Cert.KernelIdeal.main_call0.call0.call0.v141).ref) = VR (Proc.devRef .tc (Cert.ReferenceIdeal.main_call0.call0.call0.v141).ref)) :
    (after (Cert.KernelIdeal.HostOps.fn_threefry2x32.ops3 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (kTop1c0).ref)
        = after (Cert.ReferenceIdeal.RefRun.ops_tfA_p3 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (rTop1c0).ref))
      ∧ (after (Cert.KernelIdeal.HostOps.fn_threefry2x32.ops3 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v175).ref)
        = after (Cert.ReferenceIdeal.RefRun.ops_tfA_p3 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v175).ref))
      ∧ (after (Cert.KernelIdeal.HostOps.fn_threefry2x32.ops3 (F := F) Cert.KernelIdeal.main_call0.call0.v1 Cert.KernelIdeal.main_call0.call0.v3 Cert.KernelIdeal.main_call0.call0.v10 Cert.KernelIdeal.main_call0.call0.v9 Cert.KernelIdeal.main_call0.call0.call0) VK (Proc.devRef .tc (Cert.KernelIdeal.main_call0.call0.call0.v171).ref)
        = after (Cert.ReferenceIdeal.RefRun.ops_tfA_p3 (F := F) Cert.ReferenceIdeal.main_call0.call0.v1 Cert.ReferenceIdeal.main_call0.call0.v3 Cert.ReferenceIdeal.main_call0.call0.v10 Cert.ReferenceIdeal.main_call0.call0.v9 Cert.ReferenceIdeal.main_call0.call0.call0) VR (Proc.devRef .tc (Cert.ReferenceIdeal.main_call0.call0.call0.v171).ref)) := by
  refine ⟨?_, ?_, ?_⟩ <;>
    (unfold Cert.KernelIdeal.HostOps.fn_threefry2x32.ops3 Cert.ReferenceIdeal.RefRun.ops_tfA_p3
     after_results_simp
     try simp only [h_TOP1, h_call0_v1, h_call0_call0_v1, h_call0_call0_v142, h_call0_call0_v141]
     try rfl)

set_option maxHeartbeats 8000000 in
/-- Part 5 of the shuffle of call 0: the two programs' valuations agreeing at the part's live-in buffers agree, after
    the part, at its live-out buffers (both sides are the same operations of the same values). -/
theorem c0_p5 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_call0_call0_v175 : VK (Proc.devRef .tc (Cert.KernelIdeal.main_call0.call0.call0.v175).ref) = VR (Proc.devRef .tc (Cert.ReferenceIdeal.main_call0.call0.call0.v175).ref))
    (h_call0_call0_v171 : VK (Proc.devRef .tc (Cert.KernelIdeal.main_call0.call0.call0.v171).ref) = VR (Proc.devRef .tc (Cert.ReferenceIdeal.main_call0.call0.call0.v171).ref)) :
    (after (Cert.KernelIdeal.HostOps.fn_threefry_split.seg1 (F := F) kTop0c0 Cert.KernelIdeal.main_call0.call0) VK (Proc.devRef .tc (kTop1c0).ref)
        = after (Cert.ReferenceIdeal.RefRun.ops_split_s1 (F := F) rTop0c0 Cert.ReferenceIdeal.main_call0.call0) VR (Proc.devRef .tc (rTop1c0).ref))
      ∧ (after (Cert.KernelIdeal.HostOps.fn_threefry_split.seg1 (F := F) kTop0c0 Cert.KernelIdeal.main_call0.call0) VK (Proc.devRef .tc (Cert.KernelIdeal.main_call0.call0.v14).ref)
        = after (Cert.ReferenceIdeal.RefRun.ops_split_s1 (F := F) rTop0c0 Cert.ReferenceIdeal.main_call0.call0) VR (Proc.devRef .tc (Cert.ReferenceIdeal.main_call0.call0.v14).ref)) := by
  refine ⟨?_, ?_⟩ <;>
    (unfold Cert.KernelIdeal.HostOps.fn_threefry_split.seg1 Cert.ReferenceIdeal.RefRun.ops_split_s1
     after_results
     try rw [h_TOP1]
     try rw [h_call0_call0_v175]
     try rw [h_call0_call0_v171]
     try rfl)

end Cert.Proof.KeysRel

end
-- ==== Proof.KeysRelC0B.lean ====
import proofs.«204681_g65575560675685_cont_9to1_m_144_57_alg».proof.Proof.HostOpsI
import proofs.«204681_g65575560675685_cont_9to1_m_144_57_alg».proof.Proof.RefOpsTfA
import proofs.«204681_g65575560675685_cont_9to1_m_144_57_alg».proof.Proof.RefOpsTfB
import proofs.«204681_g65575560675685_cont_9to1_m_144_57_alg».proof.Proof.RefOps
import proofs.«204681_g65575560675685_cont_9to1_m_144_57_alg».proof.Proof.KeysRelDefs
/-! The two programs' shuffle of call 0, second half (the hash on 128-word vectors, the key table and the sort), part by
    part. -/

open Idealize.ShloMosaic Idealize.ShloMosaic.TcCoe Idealize.SL.Sem Idealize.ShloMosaic.StableHlo

noncomputable section

namespace Cert.Proof.KeysRel

variable {F : FTy → Type} [FloatOps F] [Cert.KernelIdeal.Facts] [Cert.ReferenceIdeal.Facts]
set_option maxHeartbeats 8000000 in
/-- Part 6 of the shuffle of call 0: the two programs' valuations agreeing at the part's live-in buffers agree, after
    the part, at its live-out buffers (both sides are the same operations of the same values). -/
theorem c0_p6 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_call0_v14 : VK (Proc.devRef .tc (Cert.KernelIdeal.main_call0.call0.v14).ref) = VR (Proc.devRef .tc (Cert.ReferenceIdeal.main_call0.call0.v14).ref)) :
    (after (Cert.KernelIdeal.HostOps.fn_shuffle.seg0 (F := F) kTop0c0 kTop1c0 Cert.KernelIdeal.main_call0) VK (Proc.devRef .tc (kTop1c0).ref)
        = after (Cert.ReferenceIdeal.RefRun.ops_shuffle_s0 (F := F) rTop0c0 rTop1c0 Cert.ReferenceIdeal.main_call0) VR (Proc.devRef .tc (rTop1c0).ref))
      ∧ (after (Cert.KernelIdeal.HostOps.fn_shuffle.seg0 (F := F) kTop0c0 kTop1c0 Cert.KernelIdeal.main_call0) VK (Proc.devRef .tc (Cert.KernelIdeal.main_call0.v6).ref)
        = after (Cert.ReferenceIdeal.RefRun.ops_shuffle_s0 (F := F) rTop0c0 rTop1c0 Cert.ReferenceIdeal.main_call0) VR (Proc.devRef .tc (Cert.ReferenceIdeal.main_call0.v6).ref))
      ∧ (after (Cert.KernelIdeal.HostOps.fn_shuffle.seg0 (F := F) kTop0c0 kTop1c0 Cert.KernelIdeal.main_call0) VK (Proc.devRef .tc (Cert.KernelIdeal.main_call0.v8).ref)
        = after (Cert.ReferenceIdeal.RefRun.ops_shuffle_s0 (F := F) rTop0c0 rTop1c0 Cert.ReferenceIdeal.main_call0) VR (Proc.devRef .tc (Cert.ReferenceIdeal.main_call0.v8).ref))
      ∧ (after (Cert.KernelIdeal.HostOps.fn_shuffle.seg0 (F := F) kTop0c0 kTop1c0 Cert.KernelIdeal.main_call0) VK (Proc.devRef .tc (Cert.KernelIdeal.main_call0.v14).ref)
        = after (Cert.ReferenceIdeal.RefRun.ops_shuffle_s0 (F := F) rTop0c0 rTop1c0 Cert.ReferenceIdeal.main_call0) VR (Proc.devRef .tc (Cert.ReferenceIdeal.main_call0.v14).ref))
      ∧ (after (Cert.KernelIdeal.HostOps.fn_shuffle.seg0 (F := F) kTop0c0 kTop1c0 Cert.KernelIdeal.main_call0) VK (Proc.devRef .tc (Cert.KernelIdeal.main_call0.v15).ref)
        = after (Cert.ReferenceIdeal.RefRun.ops_shuffle_s0 (F := F) rTop0c0 rTop1c0 Cert.ReferenceIdeal.main_call0) VR (Proc.devRef .tc (Cert.ReferenceIdeal.main_call0.v15).ref)) := by
  refine ⟨?_, ?_, ?_, ?_, ?_⟩ <;>
    (unfold Cert.KernelIdeal.HostOps.fn_shuffle.seg0 Cert.ReferenceIdeal.RefRun.ops_shuffle_s0
     after_results_simp
     try simp only [h_TOP1, h_call0_v14]
     try rfl)

set_option maxHeartbeats 8000000 in
/-- Part 7 of the shuffle of call 0: the two programs' valuations agreeing at the part's live-in buffers agree, after
    the part, at its live-out buffers (both sides are the same operations of the same values). -/
theorem c0_p7 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_v6 : VK (Proc.devRef .tc (Cert.KernelIdeal.main_call0.v6).ref) = VR (Proc.devRef .tc (Cert.ReferenceIdeal.main_call0.v6).ref))
    (h_v8 : VK (Proc.devRef .tc (Cert.KernelIdeal.main_call0.v8).ref) = VR (Proc.devRef .tc (Cert.ReferenceIdeal.main_call0.v8).ref))
    (h_v14 : VK (Proc.devRef .tc (Cert.KernelIdeal.main_call0.v14).ref) = VR (Proc.devRef .tc (Cert.ReferenceIdeal.main_call0.v14).ref))
    (h_v15 : VK (Proc.devRef .tc (Cert.KernelIdeal.main_call0.v15).ref) = VR (Proc.devRef .tc (Cert.ReferenceIdeal.main_call0.v15).ref)) :
    (after (Cert.KernelIdeal.HostOps.fn_threefry2x32_0.ops0 (F := F) Cert.KernelIdeal.main_call0.v6 Cert.KernelIdeal.main_call0.v8 Cert.KernelIdeal.main_call0.v15 Cert.KernelIdeal.main_call0.v14 Cert.KernelIdeal.main_call0.call1) VK (Proc.devRef .tc (kTop1c0).ref)
        = after (Cert.ReferenceIdeal.RefRun.ops_tfB_p0 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (rTop1c0).ref))
      ∧ (after (Cert.KernelIdeal.HostOps.fn_threefry2x32_0.ops0 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.v6).ref)
        = after (Cert.ReferenceIdeal.RefRun.ops_tfB_p0 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.v6).ref))
      ∧ (after (Cert.KernelIdeal.HostOps.fn_threefry2x32_0.ops0 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v1).ref)
        = after (Cert.ReferenceIdeal.RefRun.ops_tfB_p0 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v1).ref))
      ∧ (after (Cert.KernelIdeal.HostOps.fn_threefry2x32_0.ops0 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.v8).ref)
        = after (Cert.ReferenceIdeal.RefRun.ops_tfB_p0 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.v8).ref))
      ∧ (after (Cert.KernelIdeal.HostOps.fn_threefry2x32_0.ops0 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v47).ref)
        = after (Cert.ReferenceIdeal.RefRun.ops_tfB_p0 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v47).ref))
      ∧ (after (Cert.KernelIdeal.HostOps.fn_threefry2x32_0.ops0 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v46).ref)
        = after (Cert.ReferenceIdeal.RefRun.ops_tfB_p0 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v46).ref)) := by
  refine ⟨?_, ?_, ?_, ?_, ?_, ?_⟩ <;>
    (unfold Cert.KernelIdeal.HostOps.fn_threefry2x32_0.ops0 Cert.ReferenceIdeal.RefRun.ops_tfB_p0
     after_results_simp
     try simp only [h_TOP1, h_v6, h_v8, h_v14, h_v15]
     try rfl)

set_option maxHeartbeats 8000000 in
/-- Part 8 of the shuffle of call 0: the two programs' valuations agreeing at the part's live-in buffers agree, after
    the part, at its live-out buffers (both sides are the same operations of the same values). -/
theorem c0_p8 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_v6 : VK (Proc.devRef .tc (Cert.KernelIdeal.main_call0.v6).ref) = VR (Proc.devRef .tc (Cert.ReferenceIdeal.main_call0.v6).ref))
    (h_call1_v1 : VK (Proc.devRef .tc (Cert.KernelIdeal.main_call0.call1.v1).ref) = VR (Proc.devRef .tc (Cert.ReferenceIdeal.main_call0.call1.v1).ref))
    (h_v8 : VK (Proc.devRef .tc (Cert.KernelIdeal.main_call0.v8).ref) = VR (Proc.devRef .tc (Cert.ReferenceIdeal.main_call0.v8).ref))
    (h_call1_v47 : VK (Proc.devRef .tc (Cert.KernelIdeal.main_call0.call1.v47).ref) = VR (Proc.devRef .tc (Cert.ReferenceIdeal.main_call0.call1.v47).ref))
    (h_call1_v46 : VK (Proc.devRef .tc (Cert.KernelIdeal.main_call0.call1.v46).ref) = VR (Proc.devRef .tc (Cert.ReferenceIdeal.main_call0.call1.v46).ref)) :
    (after (Cert.KernelIdeal.HostOps.fn_threefry2x32_0.ops1 (F := F) Cert.KernelIdeal.main_call0.v6 Cert.KernelIdeal.main_call0.v8 Cert.KernelIdeal.main_call0.v15 Cert.KernelIdeal.main_call0.v14 Cert.KernelIdeal.main_call0.call1) VK (Proc.devRef .tc (kTop1c0).ref)
        = after (Cert.ReferenceIdeal.RefRun.ops_tfB_p1 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (rTop1c0).ref))
      ∧ (after (Cert.KernelIdeal.HostOps.fn_threefry2x32_0.ops1 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.v6).ref)
        = after (Cert.ReferenceIdeal.RefRun.ops_tfB_p1 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.v6).ref))
      ∧ (after (Cert.KernelIdeal.HostOps.fn_threefry2x32_0.ops1 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v1).ref)
        = after (Cert.ReferenceIdeal.RefRun.ops_tfB_p1 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v1).ref))
      ∧ (after (Cert.KernelIdeal.HostOps.fn_threefry2x32_0.ops1 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.v8).ref)
        = after (Cert.ReferenceIdeal.RefRun.ops_tfB_p1 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.v8).ref))
      ∧ (after (Cert.KernelIdeal.HostOps.fn_threefry2x32_0.ops1 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v94).ref)
        = after (Cert.ReferenceIdeal.RefRun.ops_tfB_p1 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v94).ref))
      ∧ (after (Cert.KernelIdeal.HostOps.fn_threefry2x32_0.ops1 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v88).ref)
        = after (Cert.ReferenceIdeal.RefRun.ops_tfB_p1 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v88).ref)) := by
  refine ⟨?_, ?_, ?_, ?_, ?_, ?_⟩ <;>
    (unfold Cert.KernelIdeal.HostOps.fn_threefry2x32_0.ops1 Cert.ReferenceIdeal.RefRun.ops_tfB_p1
     after_results_simp
     try simp only [h_TOP1, h_v6, h_call1_v1, h_v8, h_call1_v47, h_call1_v46]
     try rfl)

set_option maxHeartbeats 8000000 in
/-- Part 9 of the shuffle of call 0: the two programs' valuations agreeing at the part's live-in buffers agree, after
    the part, at its live-out buffers (both sides are the same operations of the same values). -/
theorem c0_p9 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_v6 : VK (Proc.devRef .tc (Cert.KernelIdeal.main_call0.v6).ref) = VR (Proc.devRef .tc (Cert.ReferenceIdeal.main_call0.v6).ref))
    (h_call1_v1 : VK (Proc.devRef .tc (Cert.KernelIdeal.main_call0.call1.v1).ref) = VR (Proc.devRef .tc (Cert.ReferenceIdeal.main_call0.call1.v1).ref))
    (h_v8 : VK (Proc.devRef .tc (Cert.KernelIdeal.main_call0.v8).ref) = VR (Proc.devRef .tc (Cert.ReferenceIdeal.main_call0.v8).ref))
    (h_call1_v94 : VK (Proc.devRef .tc (Cert.KernelIdeal.main_call0.call1.v94).ref) = VR (Proc.devRef .tc (Cert.ReferenceIdeal.main_call0.call1.v94).ref))
    (h_call1_v88 : VK (Proc.devRef .tc (Cert.KernelIdeal.main_call0.call1.v88).ref) = VR (Proc.devRef .tc (Cert.ReferenceIdeal.main_call0.call1.v88).ref)) :
    (after (Cert.KernelIdeal.HostOps.fn_threefry2x32_0.ops2 (F := F) Cert.KernelIdeal.main_call0.v6 Cert.KernelIdeal.main_call0.v8 Cert.KernelIdeal.main_call0.v15 Cert.KernelIdeal.main_call0.v14 Cert.KernelIdeal.main_call0.call1) VK (Proc.devRef .tc (kTop1c0).ref)
        = after (Cert.ReferenceIdeal.RefRun.ops_tfB_p2 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (rTop1c0).ref))
      ∧ (after (Cert.KernelIdeal.HostOps.fn_threefry2x32_0.ops2 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.v6).ref)
        = after (Cert.ReferenceIdeal.RefRun.ops_tfB_p2 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.v6).ref))
      ∧ (after (Cert.KernelIdeal.HostOps.fn_threefry2x32_0.ops2 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v1).ref)
        = after (Cert.ReferenceIdeal.RefRun.ops_tfB_p2 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v1).ref))
      ∧ (after (Cert.KernelIdeal.HostOps.fn_threefry2x32_0.ops2 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v142).ref)
        = after (Cert.ReferenceIdeal.RefRun.ops_tfB_p2 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v142).ref))
      ∧ (after (Cert.KernelIdeal.HostOps.fn_threefry2x32_0.ops2 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v141).ref)
        = after (Cert.ReferenceIdeal.RefRun.ops_tfB_p2 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v141).ref)) := by
  refine ⟨?_, ?_, ?_, ?_, ?_⟩ <;>
    (unfold Cert.KernelIdeal.HostOps.fn_threefry2x32_0.ops2 Cert.ReferenceIdeal.RefRun.ops_tfB_p2
     after_results_simp
     try simp only [h_TOP1, h_v6, h_call1_v1, h_v8, h_call1_v94, h_call1_v88]
     try rfl)

set_option maxHeartbeats 8000000 in
/-- Part 10 of the shuffle of call 0: the two programs' valuations agreeing at the part's live-in buffers agree, after
    the part, at its live-out buffers (both sides are the same operations of the same values). -/
theorem c0_p10 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_v6 : VK (Proc.devRef .tc (Cert.KernelIdeal.main_call0.v6).ref) = VR (Proc.devRef .tc (Cert.ReferenceIdeal.main_call0.v6).ref))
    (h_call1_v1 : VK (Proc.devRef .tc (Cert.KernelIdeal.main_call0.call1.v1).ref) = VR (Proc.devRef .tc (Cert.ReferenceIdeal.main_call0.call1.v1).ref))
    (h_call1_v142 : VK (Proc.devRef .tc (Cert.KernelIdeal.main_call0.call1.v142).ref) = VR (Proc.devRef .tc (Cert.ReferenceIdeal.main_call0.call1.v142).ref))
    (h_call1_v141 : VK (Proc.devRef .tc (Cert.KernelIdeal.main_call0.call1.v141).ref) = VR (Proc.devRef .tc (Cert.ReferenceIdeal.main_call0.call1.v141).ref)) :
    (after (Cert.KernelIdeal.HostOps.fn_threefry2x32_0.ops3 (F := F) Cert.KernelIdeal.main_call0.v6 Cert.KernelIdeal.main_call0.v8 Cert.KernelIdeal.main_call0.v15 Cert.KernelIdeal.main_call0.v14 Cert.KernelIdeal.main_call0.call1) VK (Proc.devRef .tc (kTop1c0).ref)
        = after (Cert.ReferenceIdeal.RefRun.ops_tfB_p3 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (rTop1c0).ref))
      ∧ (after (Cert.KernelIdeal.HostOps.fn_threefry2x32_0.ops3 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v171).ref)
        = after (Cert.ReferenceIdeal.RefRun.ops_tfB_p3 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v171).ref))
      ∧ (after (Cert.KernelIdeal.HostOps.fn_threefry2x32_0.ops3 (F := F) Cert.KernelIdeal.main_call0.v6 Cert.KernelIdeal.main_call0.v8 Cert.KernelIdeal.main_call0.v15 Cert.KernelIdeal.main_call0.v14 Cert.KernelIdeal.main_call0.call1) VK (Proc.devRef .tc (Cert.KernelIdeal.main_call0.call1.v175).ref)
        = after (Cert.ReferenceIdeal.RefRun.ops_tfB_p3 (F := F) Cert.ReferenceIdeal.main_call0.v6 Cert.ReferenceIdeal.main_call0.v8 Cert.ReferenceIdeal.main_call0.v15 Cert.ReferenceIdeal.main_call0.v14 Cert.ReferenceIdeal.main_call0.call1) VR (Proc.devRef .tc (Cert.ReferenceIdeal.main_call0.call1.v175).ref)) := by
  refine ⟨?_, ?_, ?_⟩ <;>
    (unfold Cert.KernelIdeal.HostOps.fn_threefry2x32_0.ops3 Cert.ReferenceIdeal.RefRun.ops_tfB_p3
     after_results_simp
     try simp only [h_TOP1, h_v6, h_call1_v1, h_call1_v142, h_call1_v141]
     try rfl)

set_option maxHeartbeats 8000000 in
/-- Part 11 of the shuffle of call 0: the two programs' valuations agreeing at the part's live-in buffers agree, after
    the part, at its live-out buffers (both sides are the same operations of the same values). -/
theorem c0_p11 (VK : Valuation Cert.KernelIdeal.τ Cert.KernelIdeal.sig (Elt F)) (VR : Valuation Cert.ReferenceIdeal.τ Cert.ReferenceIdeal.sig (Elt F))
    (h_TOP1 : VK (Proc.devRef .tc (kTop1c0).ref) = VR (Proc.devRef .tc (rTop1c0).ref))
    (h_call1_v171 : VK (Proc.devRef .tc (Cert.KernelIdeal.main_call0.call1.v171).ref) = VR (Proc.devRef .tc (Cert.ReferenceIdeal.main_call0.call1.v171).ref))
    (h_call1_v175 : VK (Proc.devRef .tc (Cert.KernelIdeal.main_call0.call1.v175).ref) = VR (Proc.devRef .tc (Cert.ReferenceIdeal.main_call0.call1.v175).ref)) :
    (after (Cert.KernelIdeal.HostOps.fn_shuffle.seg1 (F := F) kTop0c0 kTop1c0 Cert.KernelIdeal.main_call0) VK (Proc.devRef .tc (Cert.KernelIdeal.main_call0.v17).ref)
        = after (Cert.ReferenceIdeal.RefRun.ops_shuffle_s1 (F := F) rTop0c0 rTop1c0 Cert.ReferenceIdeal.main_call0) VR (Proc.devRef .tc (Cert.ReferenceIdeal.main_call0.v17).ref))
      ∧ (after (Cert.KernelIdeal.HostOps.fn_shuffle.seg1 (F := F) kTop0c0 kTop1c0 Cert.KernelIdeal.main_call0) VK (Proc.devRef .tc (Cert.KernelIdeal.main_call0.v18_1).ref)
        = after (Cert.ReferenceIdeal.RefRun.ops_shuffle_s1 (F := F) rTop0c0 rTop1c0 Cert.ReferenceIdeal.main_call0) VR (Proc.devRef .tc (Cert.ReferenceIdeal.main_call0.v18_1).ref)) := by
  refine ⟨?_, ?_⟩ <;>
    (unfold Cert.KernelIdeal.HostOps.fn_shuffle.seg1 Cert.ReferenceIdeal.RefRun.ops_shuffle_s1
     after_results_simp
     try simp only [h_TOP1, h_call1_v171, h_call1_v175]
     try rfl)

end Cert.Proof.KeysRel

end
-- ==== Proof.KeysRelC0.lean ====
import proofs.«204681_g65575560675685_cont_9to1_m_144_57_alg».proof.Proof.HostOpsI
import proofs.«204681_g65575560675685_cont_9to1_m_144_57_alg».proof.Proof.RefOpsTfA
import proofs.«204681_g65575560675685_cont_9to1_m_144_57_alg».proof.Proof.RefOpsTfB
import proofs.«204681_g65575560675685_cont_9to1_m_144_57_alg».proof.Proof.RefOps
import proofs.«204681_g65575560675685_cont_9to1_m_144_57_alg».proof.Proof.KeysRelC0A
import proofs.«204681_g65575560675685_cont_9to1_m_144_57_alg».proof.Proof.KeysRelC0B
/-! The two programs' shuffle of call 0 yields the same key table and the same shuffled table. -/

open Idealize.ShloMosaic Idealize.ShloMosaic.TcCoe Idealize.SL.Sem Idealize.ShloMosaic.StableHlo

noncomputable section

namespace Cert.Proof.KeysRel

variable {F : FTy → Type} [FloatOps F] [Cert.KernelIdeal.Facts] [Cert.ReferenceIdeal.Facts]
/-- The shuffle of call 0 in the two programs: from valuations agreeing at the seed and at the identity table, the key
    table (%17) and the shuffled table (%18#1) come out equal — the two bodies are the same operations, part by part. -/
theorem c0_shuffle (VK : Valuation Cert.KernelIdeal.τ Cert.KernelIdeal.sig (Elt F)) (VR : Valuation Cert.ReferenceIdeal.τ Cert.ReferenceIdeal.sig (Elt F))
    (h_TOP0 : VK (Proc.devRef .tc (kTop0c0).ref) = VR (Proc.devRef .tc (rTop0c0).ref))
    (h_TOP1 : VK (Proc.devRef .tc (kTop1c0).ref) = VR (Proc.devRef .tc (rTop1c0).ref)) :
    (after (Cert.KernelIdeal.HostOps.fn_shuffle.ops (F := F) kTop0c0 kTop1c0 Cert.KernelIdeal.main_call0) VK (Proc.devRef .tc (Cert.KernelIdeal.main_call0.v17).ref)
        = after (Cert.ReferenceIdeal.RefRun.ops_shuffle (F := F) rTop0c0 rTop1c0 Cert.ReferenceIdeal.main_call0) VR (Proc.devRef .tc (Cert.ReferenceIdeal.main_call0.v17).ref))
      ∧ (after (Cert.KernelIdeal.HostOps.fn_shuffle.ops (F := F) kTop0c0 kTop1c0 Cert.KernelIdeal.main_call0) VK (Proc.devRef .tc (Cert.KernelIdeal.main_call0.v18_1).ref)
        = after (Cert.ReferenceIdeal.RefRun.ops_shuffle (F := F) rTop0c0 rTop1c0 Cert.ReferenceIdeal.main_call0) VR (Proc.devRef .tc (Cert.ReferenceIdeal.main_call0.v18_1).ref)) := by
  unfold Cert.KernelIdeal.HostOps.fn_shuffle.ops Cert.KernelIdeal.HostOps.fn_threefry_split.ops Cert.KernelIdeal.HostOps.fn_threefry2x32.ops
    Cert.KernelIdeal.HostOps.fn_threefry2x32_0.ops Cert.ReferenceIdeal.RefRun.ops_shuffle Cert.ReferenceIdeal.RefRun.ops_split Cert.ReferenceIdeal.RefRun.ops_tfA
    Cert.ReferenceIdeal.RefRun.ops_tfB
  simp only [List.nil_append, List.append_assoc, after_append]
  obtain ⟨s0_TOP1, s0_call0_v1, s0_call0_v3, s0_call0_v9, s0_call0_v10⟩ := c0_p0 VK VR h_TOP1 h_TOP0
  obtain ⟨s1_TOP1, s1_call0_v1, s1_call0_call0_v1, s1_call0_v3, s1_call0_call0_v47, s1_call0_call0_v46⟩ := c0_p1 _ _ s0_TOP1 s0_call0_v1 s0_call0_v3 s0_call0_v9 s0_call0_v10
  obtain ⟨s2_TOP1, s2_call0_v1, s2_call0_call0_v1, s2_call0_v3, s2_call0_call0_v94, s2_call0_call0_v88⟩ := c0_p2 _ _ s1_TOP1 s1_call0_v1 s1_call0_call0_v1 s1_call0_v3 s1_call0_call0_v47 s1_call0_call0_v46
  obtain ⟨s3_TOP1, s3_call0_v1, s3_call0_call0_v1, s3_call0_call0_v142, s3_call0_call0_v141⟩ := c0_p3 _ _ s2_TOP1 s2_call0_v1 s2_call0_call0_v1 s2_call0_v3 s2_call0_call0_v94 s2_call0_call0_v88
  obtain ⟨s4_TOP1, s4_call0_call0_v175, s4_call0_call0_v171⟩ := c0_p4 _ _ s3_TOP1 s3_call0_v1 s3_call0_call0_v1 s3_call0_call0_v142 s3_call0_call0_v141
  obtain ⟨s5_TOP1, s5_call0_v14⟩ := c0_p5 _ _ s4_TOP1 s4_call0_call0_v175 s4_call0_call0_v171
  obtain ⟨s6_TOP1, s6_v6, s6_v8, s6_v14, s6_v15⟩ := c0_p6 _ _ s5_TOP1 s5_call0_v14
  obtain ⟨s7_TOP1, s7_v6, s7_call1_v1, s7_v8, s7_call1_v47, s7_call1_v46⟩ := c0_p7 _ _ s6_TOP1 s6_v6 s6_v8 s6_v14 s6_v15
  obtain ⟨s8_TOP1, s8_v6, s8_call1_v1, s8_v8, s8_call1_v94, s8_call1_v88⟩ := c0_p8 _ _ s7_TOP1 s7_v6 s7_call1_v1 s7_v8 s7_call1_v47 s7_call1_v46
  obtain ⟨s9_TOP1, s9_v6, s9_call1_v1, s9_call1_v142, s9_call1_v141⟩ := c0_p9 _ _ s8_TOP1 s8_v6 s8_call1_v1 s8_v8 s8_call1_v94 s8_call1_v88
  obtain ⟨s10_TOP1, s10_call1_v171, s10_call1_v175⟩ := c0_p10 _ _ s9_TOP1 s9_v6 s9_call1_v1 s9_call1_v142 s9_call1_v141
  obtain ⟨s11_v17, s11_v18_1⟩ := c0_p11 _ _ s10_TOP1 s10_call1_v171 s10_call1_v175
  exact ⟨s11_v17, s11_v18_1⟩

end Cert.Proof.KeysRel

end
-- ==== Proof.KeysRelC1A.lean ====
import proofs.«204681_g65575560675685_cont_9to1_m_144_57_alg».proof.Proof.HostOpsI
import proofs.«204681_g65575560675685_cont_9to1_m_144_57_alg».proof.Proof.RefOpsTfA
import proofs.«204681_g65575560675685_cont_9to1_m_144_57_alg».proof.Proof.RefOpsTfB
import proofs.«204681_g65575560675685_cont_9to1_m_144_57_alg».proof.Proof.RefOps
import proofs.«204681_g65575560675685_cont_9to1_m_144_57_alg».proof.Proof.KeysRelDefs
/-! The two programs' shuffle of call 1, first half (the split of the seed: its own hash on two-word vectors), part by
    part: valuations of the two programs that agree at a part's live-in buffers agree at its live-out buffers. -/

open Idealize.ShloMosaic Idealize.ShloMosaic.TcCoe Idealize.SL.Sem Idealize.ShloMosaic.StableHlo

noncomputable section

namespace Cert.Proof.KeysRel

variable {F : FTy → Type} [FloatOps F] [Cert.KernelIdeal.Facts] [Cert.ReferenceIdeal.Facts]
set_option maxHeartbeats 8000000 in
/-- Part 0 of the shuffle of call 1: the two programs' valuations agreeing at the part's live-in buffers agree, after
    the part, at its live-out buffers (both sides are the same operations of the same values). -/
theorem c1_p0 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_TOP0 : VK (Proc.devRef .tc (kTop0c1).ref) = VR (Proc.devRef .tc (rTop0c1).ref)) :
    (after (Cert.KernelIdeal.HostOps.fn_threefry_split.seg0 (F := F) kTop0c1 Cert.KernelIdeal.main_call1.call0) VK (Proc.devRef .tc (kTop1c1).ref)
        = after (Cert.ReferenceIdeal.RefRun.ops_split_s0 (F := F) rTop0c1 Cert.ReferenceIdeal.main_call1.call0) VR (Proc.devRef .tc (rTop1c1).ref))
      ∧ (after (Cert.KernelIdeal.HostOps.fn_threefry_split.seg0 (F := F) kTop0c1 Cert.KernelIdeal.main_call1.call0) VK (Proc.devRef .tc (Cert.KernelIdeal.main_call1.call0.v1).ref)
        = after (Cert.ReferenceIdeal.RefRun.ops_split_s0 (F := F) rTop0c1 Cert.ReferenceIdeal.main_call1.call0) VR (Proc.devRef .tc (Cert.ReferenceIdeal.main_call1.call0.v1).ref))
      ∧ (after (Cert.KernelIdeal.HostOps.fn_threefry_split.seg0 (F := F) kTop0c1 Cert.KernelIdeal.main_call1.call0) VK (Proc.devRef .tc (Cert.KernelIdeal.main_call1.call0.v3).ref)
        = after (Cert.ReferenceIdeal.RefRun.ops_split_s0 (F := F) rTop0c1 Cert.ReferenceIdeal.main_call1.call0) VR (Proc.devRef .tc (Cert.ReferenceIdeal.main_call1.call0.v3).ref))
      ∧ (after (Cert.KernelIdeal.HostOps.fn_threefry_split.seg0 (F := F) kTop0c1 Cert.KernelIdeal.main_call1.call0) VK (Proc.devRef .tc (Cert.KernelIdeal.main_call1.call0.v9).ref)
        = after (Cert.ReferenceIdeal.RefRun.ops_split_s0 (F := F) rTop0c1 Cert.ReferenceIdeal.main_call1.call0) VR (Proc.devRef .tc (Cert.ReferenceIdeal.main_call1.call0.v9).ref))
      ∧ (after (Cert.KernelIdeal.HostOps.fn_threefry_split.seg0 (F := F) kTop0c1 Cert.KernelIdeal.main_call1.call0) VK (Proc.devRef .tc (Cert.KernelIdeal.main_call1.call0.v10).ref)
        = after (Cert.ReferenceIdeal.RefRun.ops_split_s0 (F := F) rTop0c1 Cert.ReferenceIdeal.main_call1.call0) VR (Proc.devRef .tc (Cert.ReferenceIdeal.main_call1.call0.v10).ref)) := by
  refine ⟨?_, ?_, ?_, ?_, ?_⟩ <;>
    (unfold Cert.KernelIdeal.HostOps.fn_threefry_split.seg0 Cert.ReferenceIdeal.RefRun.ops_split_s0
     after_results_simp
     try simp only [h_TOP1, h_TOP0]
     try rfl)

set_option maxHeartbeats 8000000 in
/-- Part 1 of the shuffle of call 1: the two programs' valuations agreeing at the part's live-in buffers agree, after
    the part, at its live-out buffers (both sides are the same operations of the same values). -/
theorem c1_p1 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_call0_v1 : VK (Proc.devRef .tc (Cert.KernelIdeal.main_call1.call0.v1).ref) = VR (Proc.devRef .tc (Cert.ReferenceIdeal.main_call1.call0.v1).ref))
    (h_call0_v3 : VK (Proc.devRef .tc (Cert.KernelIdeal.main_call1.call0.v3).ref) = VR (Proc.devRef .tc (Cert.ReferenceIdeal.main_call1.call0.v3).ref))
    (h_call0_v9 : VK (Proc.devRef .tc (Cert.KernelIdeal.main_call1.call0.v9).ref) = VR (Proc.devRef .tc (Cert.ReferenceIdeal.main_call1.call0.v9).ref))
    (h_call0_v10 : VK (Proc.devRef .tc (Cert.KernelIdeal.main_call1.call0.v10).ref) = VR (Proc.devRef .tc (Cert.ReferenceIdeal.main_call1.call0.v10).ref)) :
    (after (Cert.KernelIdeal.HostOps.fn_threefry2x32.ops0 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (kTop1c1).ref)
        = after (Cert.ReferenceIdeal.RefRun.ops_tfA_p0 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (rTop1c1).ref))
      ∧ (after (Cert.KernelIdeal.HostOps.fn_threefry2x32.ops0 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.v1).ref)
        = after (Cert.ReferenceIdeal.RefRun.ops_tfA_p0 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.v1).ref))
      ∧ (after (Cert.KernelIdeal.HostOps.fn_threefry2x32.ops0 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v1).ref)
        = after (Cert.ReferenceIdeal.RefRun.ops_tfA_p0 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v1).ref))
      ∧ (after (Cert.KernelIdeal.HostOps.fn_threefry2x32.ops0 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.v3).ref)
        = after (Cert.ReferenceIdeal.RefRun.ops_tfA_p0 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.v3).ref))
      ∧ (after (Cert.KernelIdeal.HostOps.fn_threefry2x32.ops0 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v47).ref)
        = after (Cert.ReferenceIdeal.RefRun.ops_tfA_p0 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v47).ref))
      ∧ (after (Cert.KernelIdeal.HostOps.fn_threefry2x32.ops0 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v46).ref)
        = after (Cert.ReferenceIdeal.RefRun.ops_tfA_p0 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v46).ref)) := by
  refine ⟨?_, ?_, ?_, ?_, ?_, ?_⟩ <;>
    (unfold Cert.KernelIdeal.HostOps.fn_threefry2x32.ops0 Cert.ReferenceIdeal.RefRun.ops_tfA_p0
     after_results_simp
     try simp only [h_TOP1, h_call0_v1, h_call0_v3, h_call0_v9, h_call0_v10]
     try rfl)

set_option maxHeartbeats 8000000 in
/-- Part 2 of the shuffle of call 1: the two programs' valuations agreeing at the part's live-in buffers agree, after
    the part, at its live-out buffers (both sides are the same operations of the same values). -/
theorem c1_p2 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_call0_v1 : VK (Proc.devRef .tc (Cert.KernelIdeal.main_call1.call0.v1).ref) = VR (Proc.devRef .tc (Cert.ReferenceIdeal.main_call1.call0.v1).ref))
    (h_call0_call0_v1 : VK (Proc.devRef .tc (Cert.KernelIdeal.main_call1.call0.call0.v1).ref) = VR (Proc.devRef .tc (Cert.ReferenceIdeal.main_call1.call0.call0.v1).ref))
    (h_call0_v3 : VK (Proc.devRef .tc (Cert.KernelIdeal.main_call1.call0.v3).ref) = VR (Proc.devRef .tc (Cert.ReferenceIdeal.main_call1.call0.v3).ref))
    (h_call0_call0_v47 : VK (Proc.devRef .tc (Cert.KernelIdeal.main_call1.call0.call0.v47).ref) = VR (Proc.devRef .tc (Cert.ReferenceIdeal.main_call1.call0.call0.v47).ref))
    (h_call0_call0_v46 : VK (Proc.devRef .tc (Cert.KernelIdeal.main_call1.call0.call0.v46).ref) = VR (Proc.devRef .tc (Cert.ReferenceIdeal.main_call1.call0.call0.v46).ref)) :
    (after (Cert.KernelIdeal.HostOps.fn_threefry2x32.ops1 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (kTop1c1).ref)
        = after (Cert.ReferenceIdeal.RefRun.ops_tfA_p1 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (rTop1c1).ref))
      ∧ (after (Cert.KernelIdeal.HostOps.fn_threefry2x32.ops1 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.v1).ref)
        = after (Cert.ReferenceIdeal.RefRun.ops_tfA_p1 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.v1).ref))
      ∧ (after (Cert.KernelIdeal.HostOps.fn_threefry2x32.ops1 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v1).ref)
        = after (Cert.ReferenceIdeal.RefRun.ops_tfA_p1 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v1).ref))
      ∧ (after (Cert.KernelIdeal.HostOps.fn_threefry2x32.ops1 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.v3).ref)
        = after (Cert.ReferenceIdeal.RefRun.ops_tfA_p1 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.v3).ref))
      ∧ (after (Cert.KernelIdeal.HostOps.fn_threefry2x32.ops1 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v94).ref)
        = after (Cert.ReferenceIdeal.RefRun.ops_tfA_p1 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v94).ref))
      ∧ (after (Cert.KernelIdeal.HostOps.fn_threefry2x32.ops1 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v88).ref)
        = after (Cert.ReferenceIdeal.RefRun.ops_tfA_p1 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v88).ref)) := by
  refine ⟨?_, ?_, ?_, ?_, ?_, ?_⟩ <;>
    (unfold Cert.KernelIdeal.HostOps.fn_threefry2x32.ops1 Cert.ReferenceIdeal.RefRun.ops_tfA_p1
     after_results_simp
     try simp only [h_TOP1, h_call0_v1, h_call0_call0_v1, h_call0_v3, h_call0_call0_v47, h_call0_call0_v46]
     try rfl)

set_option maxHeartbeats 8000000 in
/-- Part 3 of the shuffle of call 1: the two programs' valuations agreeing at the part's live-in buffers agree, after
    the part, at its live-out buffers (both sides are the same operations of the same values). -/
theorem c1_p3 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_call0_v1 : VK (Proc.devRef .tc (Cert.KernelIdeal.main_call1.call0.v1).ref) = VR (Proc.devRef .tc (Cert.ReferenceIdeal.main_call1.call0.v1).ref))
    (h_call0_call0_v1 : VK (Proc.devRef .tc (Cert.KernelIdeal.main_call1.call0.call0.v1).ref) = VR (Proc.devRef .tc (Cert.ReferenceIdeal.main_call1.call0.call0.v1).ref))
    (h_call0_v3 : VK (Proc.devRef .tc (Cert.KernelIdeal.main_call1.call0.v3).ref) = VR (Proc.devRef .tc (Cert.ReferenceIdeal.main_call1.call0.v3).ref))
    (h_call0_call0_v94 : VK (Proc.devRef .tc (Cert.KernelIdeal.main_call1.call0.call0.v94).ref) = VR (Proc.devRef .tc (Cert.ReferenceIdeal.main_call1.call0.call0.v94).ref))
    (h_call0_call0_v88 : VK (Proc.devRef .tc (Cert.KernelIdeal.main_call1.call0.call0.v88).ref) = VR (Proc.devRef .tc (Cert.ReferenceIdeal.main_call1.call0.call0.v88).ref)) :
    (after (Cert.KernelIdeal.HostOps.fn_threefry2x32.ops2 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (kTop1c1).ref)
        = after (Cert.ReferenceIdeal.RefRun.ops_tfA_p2 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (rTop1c1).ref))
      ∧ (after (Cert.KernelIdeal.HostOps.fn_threefry2x32.ops2 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.v1).ref)
        = after (Cert.ReferenceIdeal.RefRun.ops_tfA_p2 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.v1).ref))
      ∧ (after (Cert.KernelIdeal.HostOps.fn_threefry2x32.ops2 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v1).ref)
        = after (Cert.ReferenceIdeal.RefRun.ops_tfA_p2 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v1).ref))
      ∧ (after (Cert.KernelIdeal.HostOps.fn_threefry2x32.ops2 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v142).ref)
        = after (Cert.ReferenceIdeal.RefRun.ops_tfA_p2 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v142).ref))
      ∧ (after (Cert.KernelIdeal.HostOps.fn_threefry2x32.ops2 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v141).ref)
        = after (Cert.ReferenceIdeal.RefRun.ops_tfA_p2 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v141).ref)) := by
  refine ⟨?_, ?_, ?_, ?_, ?_⟩ <;>
    (unfold Cert.KernelIdeal.HostOps.fn_threefry2x32.ops2 Cert.ReferenceIdeal.RefRun.ops_tfA_p2
     after_results_simp
     try simp only [h_TOP1, h_call0_v1, h_call0_call0_v1, h_call0_v3, h_call0_call0_v94, h_call0_call0_v88]
     try rfl)

set_option maxHeartbeats 8000000 in
/-- Part 4 of the shuffle of call 1: the two programs' valuations agreeing at the part's live-in buffers agree, after
    the part, at its live-out buffers (both sides are the same operations of the same values). -/
theorem c1_p4 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_call0_v1 : VK (Proc.devRef .tc (Cert.KernelIdeal.main_call1.call0.v1).ref) = VR (Proc.devRef .tc (Cert.ReferenceIdeal.main_call1.call0.v1).ref))
    (h_call0_call0_v1 : VK (Proc.devRef .tc (Cert.KernelIdeal.main_call1.call0.call0.v1).ref) = VR (Proc.devRef .tc (Cert.ReferenceIdeal.main_call1.call0.call0.v1).ref))
    (h_call0_call0_v142 : VK (Proc.devRef .tc (Cert.KernelIdeal.main_call1.call0.call0.v142).ref) = VR (Proc.devRef .tc (Cert.ReferenceIdeal.main_call1.call0.call0.v142).ref))
    (h_call0_call0_v141 : VK (Proc.devRef .tc (Cert.KernelIdeal.main_call1.call0.call0.v141).ref) = VR (Proc.devRef .tc (Cert.ReferenceIdeal.main_call1.call0.call0.v141).ref)) :
    (after (Cert.KernelIdeal.HostOps.fn_threefry2x32.ops3 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (kTop1c1).ref)
        = after (Cert.ReferenceIdeal.RefRun.ops_tfA_p3 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (rTop1c1).ref))
      ∧ (after (Cert.KernelIdeal.HostOps.fn_threefry2x32.ops3 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v175).ref)
        = after (Cert.ReferenceIdeal.RefRun.ops_tfA_p3 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v175).ref))
      ∧ (after (Cert.KernelIdeal.HostOps.fn_threefry2x32.ops3 (F := F) Cert.KernelIdeal.main_call1.call0.v1 Cert.KernelIdeal.main_call1.call0.v3 Cert.KernelIdeal.main_call1.call0.v10 Cert.KernelIdeal.main_call1.call0.v9 Cert.KernelIdeal.main_call1.call0.call0) VK (Proc.devRef .tc (Cert.KernelIdeal.main_call1.call0.call0.v171).ref)
        = after (Cert.ReferenceIdeal.RefRun.ops_tfA_p3 (F := F) Cert.ReferenceIdeal.main_call1.call0.v1 Cert.ReferenceIdeal.main_call1.call0.v3 Cert.ReferenceIdeal.main_call1.call0.v10 Cert.ReferenceIdeal.main_call1.call0.v9 Cert.ReferenceIdeal.main_call1.call0.call0) VR (Proc.devRef .tc (Cert.ReferenceIdeal.main_call1.call0.call0.v171).ref)) := by
  refine ⟨?_, ?_, ?_⟩ <;>
    (unfold Cert.KernelIdeal.HostOps.fn_threefry2x32.ops3 Cert.ReferenceIdeal.RefRun.ops_tfA_p3
     after_results_simp
     try simp only [h_TOP1, h_call0_v1, h_call0_call0_v1, h_call0_call0_v142, h_call0_call0_v141]
     try rfl)

set_option maxHeartbeats 8000000 in
/-- Part 5 of the shuffle of call 1: the two programs' valuations agreeing at the part's live-in buffers agree, after
    the part, at its live-out buffers (both sides are the same operations of the same values). -/
theorem c1_p5 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_call0_call0_v175 : VK (Proc.devRef .tc (Cert.KernelIdeal.main_call1.call0.call0.v175).ref) = VR (Proc.devRef .tc (Cert.ReferenceIdeal.main_call1.call0.call0.v175).ref))
    (h_call0_call0_v171 : VK (Proc.devRef .tc (Cert.KernelIdeal.main_call1.call0.call0.v171).ref) = VR (Proc.devRef .tc (Cert.ReferenceIdeal.main_call1.call0.call0.v171).ref)) :
    (after (Cert.KernelIdeal.HostOps.fn_threefry_split.seg1 (F := F) kTop0c1 Cert.KernelIdeal.main_call1.call0) VK (Proc.devRef .tc (kTop1c1).ref)
        = after (Cert.ReferenceIdeal.RefRun.ops_split_s1 (F := F) rTop0c1 Cert.ReferenceIdeal.main_call1.call0) VR (Proc.devRef .tc (rTop1c1).ref))
      ∧ (after (Cert.KernelIdeal.HostOps.fn_threefry_split.seg1 (F := F) kTop0c1 Cert.KernelIdeal.main_call1.call0) VK (Proc.devRef .tc (Cert.KernelIdeal.main_call1.call0.v14).ref)
        = after (Cert.ReferenceIdeal.RefRun.ops_split_s1 (F := F) rTop0c1 Cert.ReferenceIdeal.main_call1.call0) VR (Proc.devRef .tc (Cert.ReferenceIdeal.main_call1.call0.v14).ref)) := by
  refine ⟨?_, ?_⟩ <;>
    (unfold Cert.KernelIdeal.HostOps.fn_threefry_split.seg1 Cert.ReferenceIdeal.RefRun.ops_split_s1
     after_results
     try rw [h_TOP1]
     try rw [h_call0_call0_v175]
     try rw [h_call0_call0_v171]
     try rfl)

end Cert.Proof.KeysRel

end
-- ==== Proof.KeysRelC1B.lean ====
import proofs.«204681_g65575560675685_cont_9to1_m_144_57_alg».proof.Proof.HostOpsI
import proofs.«204681_g65575560675685_cont_9to1_m_144_57_alg».proof.Proof.RefOpsTfA
import proofs.«204681_g65575560675685_cont_9to1_m_144_57_alg».proof.Proof.RefOpsTfB
import proofs.«204681_g65575560675685_cont_9to1_m_144_57_alg».proof.Proof.RefOps
import proofs.«204681_g65575560675685_cont_9to1_m_144_57_alg».proof.Proof.KeysRelDefs
/-! The two programs' shuffle of call 1, second half (the hash on 128-word vectors, the key table and the sort), part by
    part. -/

open Idealize.ShloMosaic Idealize.ShloMosaic.TcCoe Idealize.SL.Sem Idealize.ShloMosaic.StableHlo

noncomputable section

namespace Cert.Proof.KeysRel

variable {F : FTy → Type} [FloatOps F] [Cert.KernelIdeal.Facts] [Cert.ReferenceIdeal.Facts]
set_option maxHeartbeats 8000000 in
/-- Part 6 of the shuffle of call 1: the two programs' valuations agreeing at the part's live-in buffers agree, after
    the part, at its live-out buffers (both sides are the same operations of the same values). -/
theorem c1_p6 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_call0_v14 : VK (Proc.devRef .tc (Cert.KernelIdeal.main_call1.call0.v14).ref) = VR (Proc.devRef .tc (Cert.ReferenceIdeal.main_call1.call0.v14).ref)) :
    (after (Cert.KernelIdeal.HostOps.fn_shuffle.seg0 (F := F) kTop0c1 kTop1c1 Cert.KernelIdeal.main_call1) VK (Proc.devRef .tc (kTop1c1).ref)
        = after (Cert.ReferenceIdeal.RefRun.ops_shuffle_s0 (F := F) rTop0c1 rTop1c1 Cert.ReferenceIdeal.main_call1) VR (Proc.devRef .tc (rTop1c1).ref))
      ∧ (after (Cert.KernelIdeal.HostOps.fn_shuffle.seg0 (F := F) kTop0c1 kTop1c1 Cert.KernelIdeal.main_call1) VK (Proc.devRef .tc (Cert.KernelIdeal.main_call1.v6).ref)
        = after (Cert.ReferenceIdeal.RefRun.ops_shuffle_s0 (F := F) rTop0c1 rTop1c1 Cert.ReferenceIdeal.main_call1) VR (Proc.devRef .tc (Cert.ReferenceIdeal.main_call1.v6).ref))
      ∧ (after (Cert.KernelIdeal.HostOps.fn_shuffle.seg0 (F := F) kTop0c1 kTop1c1 Cert.KernelIdeal.main_call1) VK (Proc.devRef .tc (Cert.KernelIdeal.main_call1.v8).ref)
        = after (Cert.ReferenceIdeal.RefRun.ops_shuffle_s0 (F := F) rTop0c1 rTop1c1 Cert.ReferenceIdeal.main_call1) VR (Proc.devRef .tc (Cert.ReferenceIdeal.main_call1.v8).ref))
      ∧ (after (Cert.KernelIdeal.HostOps.fn_shuffle.seg0 (F := F) kTop0c1 kTop1c1 Cert.KernelIdeal.main_call1) VK (Proc.devRef .tc (Cert.KernelIdeal.main_call1.v14).ref)
        = after (Cert.ReferenceIdeal.RefRun.ops_shuffle_s0 (F := F) rTop0c1 rTop1c1 Cert.ReferenceIdeal.main_call1) VR (Proc.devRef .tc (Cert.ReferenceIdeal.main_call1.v14).ref))
      ∧ (after (Cert.KernelIdeal.HostOps.fn_shuffle.seg0 (F := F) kTop0c1 kTop1c1 Cert.KernelIdeal.main_call1) VK (Proc.devRef .tc (Cert.KernelIdeal.main_call1.v15).ref)
        = after (Cert.ReferenceIdeal.RefRun.ops_shuffle_s0 (F := F) rTop0c1 rTop1c1 Cert.ReferenceIdeal.main_call1) VR (Proc.devRef .tc (Cert.ReferenceIdeal.main_call1.v15).ref)) := by
  refine ⟨?_, ?_, ?_, ?_, ?_⟩ <;>
    (unfold Cert.KernelIdeal.HostOps.fn_shuffle.seg0 Cert.ReferenceIdeal.RefRun.ops_shuffle_s0
     after_results_simp
     try simp only [h_TOP1, h_call0_v14]
     try rfl)

set_option maxHeartbeats 8000000 in
/-- Part 7 of the shuffle of call 1: the two programs' valuations agreeing at the part's live-in buffers agree, after
    the part, at its live-out buffers (both sides are the same operations of the same values). -/
theorem c1_p7 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_v6 : VK (Proc.devRef .tc (Cert.KernelIdeal.main_call1.v6).ref) = VR (Proc.devRef .tc (Cert.ReferenceIdeal.main_call1.v6).ref))
    (h_v8 : VK (Proc.devRef .tc (Cert.KernelIdeal.main_call1.v8).ref) = VR (Proc.devRef .tc (Cert.ReferenceIdeal.main_call1.v8).ref))
    (h_v14 : VK (Proc.devRef .tc (Cert.KernelIdeal.main_call1.v14).ref) = VR (Proc.devRef .tc (Cert.ReferenceIdeal.main_call1.v14).ref))
    (h_v15 : VK (Proc.devRef .tc (Cert.KernelIdeal.main_call1.v15).ref) = VR (Proc.devRef .tc (Cert.ReferenceIdeal.main_call1.v15).ref)) :
    (after (Cert.KernelIdeal.HostOps.fn_threefry2x32_0.ops0 (F := F) Cert.KernelIdeal.main_call1.v6 Cert.KernelIdeal.main_call1.v8 Cert.KernelIdeal.main_call1.v15 Cert.KernelIdeal.main_call1.v14 Cert.KernelIdeal.main_call1.call1) VK (Proc.devRef .tc (kTop1c1).ref)
        = after (Cert.ReferenceIdeal.RefRun.ops_tfB_p0 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (rTop1c1).ref))
      ∧ (after (Cert.KernelIdeal.HostOps.fn_threefry2x32_0.ops0 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.v6).ref)
        = after (Cert.ReferenceIdeal.RefRun.ops_tfB_p0 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.v6).ref))
      ∧ (after (Cert.KernelIdeal.HostOps.fn_threefry2x32_0.ops0 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v1).ref)
        = after (Cert.ReferenceIdeal.RefRun.ops_tfB_p0 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v1).ref))
      ∧ (after (Cert.KernelIdeal.HostOps.fn_threefry2x32_0.ops0 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.v8).ref)
        = after (Cert.ReferenceIdeal.RefRun.ops_tfB_p0 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.v8).ref))
      ∧ (after (Cert.KernelIdeal.HostOps.fn_threefry2x32_0.ops0 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v47).ref)
        = after (Cert.ReferenceIdeal.RefRun.ops_tfB_p0 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v47).ref))
      ∧ (after (Cert.KernelIdeal.HostOps.fn_threefry2x32_0.ops0 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v46).ref)
        = after (Cert.ReferenceIdeal.RefRun.ops_tfB_p0 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v46).ref)) := by
  refine ⟨?_, ?_, ?_, ?_, ?_, ?_⟩ <;>
    (unfold Cert.KernelIdeal.HostOps.fn_threefry2x32_0.ops0 Cert.ReferenceIdeal.RefRun.ops_tfB_p0
     after_results_simp
     try simp only [h_TOP1, h_v6, h_v8, h_v14, h_v15]
     try rfl)

set_option maxHeartbeats 8000000 in
/-- Part 8 of the shuffle of call 1: the two programs' valuations agreeing at the part's live-in buffers agree, after
    the part, at its live-out buffers (both sides are the same operations of the same values). -/
theorem c1_p8 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_v6 : VK (Proc.devRef .tc (Cert.KernelIdeal.main_call1.v6).ref) = VR (Proc.devRef .tc (Cert.ReferenceIdeal.main_call1.v6).ref))
    (h_call1_v1 : VK (Proc.devRef .tc (Cert.KernelIdeal.main_call1.call1.v1).ref) = VR (Proc.devRef .tc (Cert.ReferenceIdeal.main_call1.call1.v1).ref))
    (h_v8 : VK (Proc.devRef .tc (Cert.KernelIdeal.main_call1.v8).ref) = VR (Proc.devRef .tc (Cert.ReferenceIdeal.main_call1.v8).ref))
    (h_call1_v47 : VK (Proc.devRef .tc (Cert.KernelIdeal.main_call1.call1.v47).ref) = VR (Proc.devRef .tc (Cert.ReferenceIdeal.main_call1.call1.v47).ref))
    (h_call1_v46 : VK (Proc.devRef .tc (Cert.KernelIdeal.main_call1.call1.v46).ref) = VR (Proc.devRef .tc (Cert.ReferenceIdeal.main_call1.call1.v46).ref)) :
    (after (Cert.KernelIdeal.HostOps.fn_threefry2x32_0.ops1 (F := F) Cert.KernelIdeal.main_call1.v6 Cert.KernelIdeal.main_call1.v8 Cert.KernelIdeal.main_call1.v15 Cert.KernelIdeal.main_call1.v14 Cert.KernelIdeal.main_call1.call1) VK (Proc.devRef .tc (kTop1c1).ref)
        = after (Cert.ReferenceIdeal.RefRun.ops_tfB_p1 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (rTop1c1).ref))
      ∧ (after (Cert.KernelIdeal.HostOps.fn_threefry2x32_0.ops1 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.v6).ref)
        = after (Cert.ReferenceIdeal.RefRun.ops_tfB_p1 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.v6).ref))
      ∧ (after (Cert.KernelIdeal.HostOps.fn_threefry2x32_0.ops1 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v1).ref)
        = after (Cert.ReferenceIdeal.RefRun.ops_tfB_p1 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v1).ref))
      ∧ (after (Cert.KernelIdeal.HostOps.fn_threefry2x32_0.ops1 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.v8).ref)
        = after (Cert.ReferenceIdeal.RefRun.ops_tfB_p1 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.v8).ref))
      ∧ (after (Cert.KernelIdeal.HostOps.fn_threefry2x32_0.ops1 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v94).ref)
        = after (Cert.ReferenceIdeal.RefRun.ops_tfB_p1 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v94).ref))
      ∧ (after (Cert.KernelIdeal.HostOps.fn_threefry2x32_0.ops1 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v88).ref)
        = after (Cert.ReferenceIdeal.RefRun.ops_tfB_p1 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v88).ref)) := by
  refine ⟨?_, ?_, ?_, ?_, ?_, ?_⟩ <;>
    (unfold Cert.KernelIdeal.HostOps.fn_threefry2x32_0.ops1 Cert.ReferenceIdeal.RefRun.ops_tfB_p1
     after_results_simp
     try simp only [h_TOP1, h_v6, h_call1_v1, h_v8, h_call1_v47, h_call1_v46]
     try rfl)

set_option maxHeartbeats 8000000 in
/-- Part 9 of the shuffle of call 1: the two programs' valuations agreeing at the part's live-in buffers agree, after
    the part, at its live-out buffers (both sides are the same operations of the same values). -/
theorem c1_p9 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_v6 : VK (Proc.devRef .tc (Cert.KernelIdeal.main_call1.v6).ref) = VR (Proc.devRef .tc (Cert.ReferenceIdeal.main_call1.v6).ref))
    (h_call1_v1 : VK (Proc.devRef .tc (Cert.KernelIdeal.main_call1.call1.v1).ref) = VR (Proc.devRef .tc (Cert.ReferenceIdeal.main_call1.call1.v1).ref))
    (h_v8 : VK (Proc.devRef .tc (Cert.KernelIdeal.main_call1.v8).ref) = VR (Proc.devRef .tc (Cert.ReferenceIdeal.main_call1.v8).ref))
    (h_call1_v94 : VK (Proc.devRef .tc (Cert.KernelIdeal.main_call1.call1.v94).ref) = VR (Proc.devRef .tc (Cert.ReferenceIdeal.main_call1.call1.v94).ref))
    (h_call1_v88 : VK (Proc.devRef .tc (Cert.KernelIdeal.main_call1.call1.v88).ref) = VR (Proc.devRef .tc (Cert.ReferenceIdeal.main_call1.call1.v88).ref)) :
    (after (Cert.KernelIdeal.HostOps.fn_threefry2x32_0.ops2 (F := F) Cert.KernelIdeal.main_call1.v6 Cert.KernelIdeal.main_call1.v8 Cert.KernelIdeal.main_call1.v15 Cert.KernelIdeal.main_call1.v14 Cert.KernelIdeal.main_call1.call1) VK (Proc.devRef .tc (kTop1c1).ref)
        = after (Cert.ReferenceIdeal.RefRun.ops_tfB_p2 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (rTop1c1).ref))
      ∧ (after (Cert.KernelIdeal.HostOps.fn_threefry2x32_0.ops2 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.v6).ref)
        = after (Cert.ReferenceIdeal.RefRun.ops_tfB_p2 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.v6).ref))
      ∧ (after (Cert.KernelIdeal.HostOps.fn_threefry2x32_0.ops2 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v1).ref)
        = after (Cert.ReferenceIdeal.RefRun.ops_tfB_p2 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v1).ref))
      ∧ (after (Cert.KernelIdeal.HostOps.fn_threefry2x32_0.ops2 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v142).ref)
        = after (Cert.ReferenceIdeal.RefRun.ops_tfB_p2 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v142).ref))
      ∧ (after (Cert.KernelIdeal.HostOps.fn_threefry2x32_0.ops2 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v141).ref)
        = after (Cert.ReferenceIdeal.RefRun.ops_tfB_p2 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v141).ref)) := by
  refine ⟨?_, ?_, ?_, ?_, ?_⟩ <;>
    (unfold Cert.KernelIdeal.HostOps.fn_threefry2x32_0.ops2 Cert.ReferenceIdeal.RefRun.ops_tfB_p2
     after_results_simp
     try simp only [h_TOP1, h_v6, h_call1_v1, h_v8, h_call1_v94, h_call1_v88]
     try rfl)

set_option maxHeartbeats 8000000 in
/-- Part 10 of the shuffle of call 1: the two programs' valuations agreeing at the part's live-in buffers agree, after
    the part, at its live-out buffers (both sides are the same operations of the same values). -/
theorem c1_p10 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_v6 : VK (Proc.devRef .tc (Cert.KernelIdeal.main_call1.v6).ref) = VR (Proc.devRef .tc (Cert.ReferenceIdeal.main_call1.v6).ref))
    (h_call1_v1 : VK (Proc.devRef .tc (Cert.KernelIdeal.main_call1.call1.v1).ref) = VR (Proc.devRef .tc (Cert.ReferenceIdeal.main_call1.call1.v1).ref))
    (h_call1_v142 : VK (Proc.devRef .tc (Cert.KernelIdeal.main_call1.call1.v142).ref) = VR (Proc.devRef .tc (Cert.ReferenceIdeal.main_call1.call1.v142).ref))
    (h_call1_v141 : VK (Proc.devRef .tc (Cert.KernelIdeal.main_call1.call1.v141).ref) = VR (Proc.devRef .tc (Cert.ReferenceIdeal.main_call1.call1.v141).ref)) :
    (after (Cert.KernelIdeal.HostOps.fn_threefry2x32_0.ops3 (F := F) Cert.KernelIdeal.main_call1.v6 Cert.KernelIdeal.main_call1.v8 Cert.KernelIdeal.main_call1.v15 Cert.KernelIdeal.main_call1.v14 Cert.KernelIdeal.main_call1.call1) VK (Proc.devRef .tc (kTop1c1).ref)
        = after (Cert.ReferenceIdeal.RefRun.ops_tfB_p3 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (rTop1c1).ref))
      ∧ (after (Cert.KernelIdeal.HostOps.fn_threefry2x32_0.ops3 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v171).ref)
        = after (Cert.ReferenceIdeal.RefRun.ops_tfB_p3 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v171).ref))
      ∧ (after (Cert.KernelIdeal.HostOps.fn_threefry2x32_0.ops3 (F := F) Cert.KernelIdeal.main_call1.v6 Cert.KernelIdeal.main_call1.v8 Cert.KernelIdeal.main_call1.v15 Cert.KernelIdeal.main_call1.v14 Cert.KernelIdeal.main_call1.call1) VK (Proc.devRef .tc (Cert.KernelIdeal.main_call1.call1.v175).ref)
        = after (Cert.ReferenceIdeal.RefRun.ops_tfB_p3 (F := F) Cert.ReferenceIdeal.main_call1.v6 Cert.ReferenceIdeal.main_call1.v8 Cert.ReferenceIdeal.main_call1.v15 Cert.ReferenceIdeal.main_call1.v14 Cert.ReferenceIdeal.main_call1.call1) VR (Proc.devRef .tc (Cert.ReferenceIdeal.main_call1.call1.v175).ref)) := by
  refine ⟨?_, ?_, ?_⟩ <;>
    (unfold Cert.KernelIdeal.HostOps.fn_threefry2x32_0.ops3 Cert.ReferenceIdeal.RefRun.ops_tfB_p3
     after_results_simp
     try simp only [h_TOP1, h_v6, h_call1_v1, h_call1_v142, h_call1_v141]
     try rfl)

set_option maxHeartbeats 8000000 in
/-- Part 11 of the shuffle of call 1: the two programs' valuations agreeing at the part's live-in buffers agree, after
    the part, at its live-out buffers (both sides are the same operations of the same values). -/
theorem c1_p11 (VK : Valuation Cert.KernelIdeal.τ Cert.KernelIdeal.sig (Elt F)) (VR : Valuation Cert.ReferenceIdeal.τ Cert.ReferenceIdeal.sig (Elt F))
    (h_TOP1 : VK (Proc.devRef .tc (kTop1c1).ref) = VR (Proc.devRef .tc (rTop1c1).ref))
    (h_call1_v171 : VK (Proc.devRef .tc (Cert.KernelIdeal.main_call1.call1.v171).ref) = VR (Proc.devRef .tc (Cert.ReferenceIdeal.main_call1.call1.v171).ref))
    (h_call1_v175 : VK (Proc.devRef .tc (Cert.KernelIdeal.main_call1.call1.v175).ref) = VR (Proc.devRef .tc (Cert.ReferenceIdeal.main_call1.call1.v175).ref)) :
    (after (Cert.KernelIdeal.HostOps.fn_shuffle.seg1 (F := F) kTop0c1 kTop1c1 Cert.KernelIdeal.main_call1) VK (Proc.devRef .tc (Cert.KernelIdeal.main_call1.v17).ref)
        = after (Cert.ReferenceIdeal.RefRun.ops_shuffle_s1 (F := F) rTop0c1 rTop1c1 Cert.ReferenceIdeal.main_call1) VR (Proc.devRef .tc (Cert.ReferenceIdeal.main_call1.v17).ref))
      ∧ (after (Cert.KernelIdeal.HostOps.fn_shuffle.seg1 (F := F) kTop0c1 kTop1c1 Cert.KernelIdeal.main_call1) VK (Proc.devRef .tc (Cert.KernelIdeal.main_call1.v18_1).ref)
        = after (Cert.ReferenceIdeal.RefRun.ops_shuffle_s1 (F := F) rTop0c1 rTop1c1 Cert.ReferenceIdeal.main_call1) VR (Proc.devRef .tc (Cert.ReferenceIdeal.main_call1.v18_1).ref)) := by
  refine ⟨?_, ?_⟩ <;>
    (unfold Cert.KernelIdeal.HostOps.fn_shuffle.seg1 Cert.ReferenceIdeal.RefRun.ops_shuffle_s1
     after_results_simp
     try simp only [h_TOP1, h_call1_v171, h_call1_v175]
     try rfl)

end Cert.Proof.KeysRel

end
-- ==== Proof.KeysRelC1.lean ====
import proofs.«204681_g65575560675685_cont_9to1_m_144_57_alg».proof.Proof.HostOpsI
import proofs.«204681_g65575560675685_cont_9to1_m_144_57_alg».proof.Proof.RefOpsTfA
import proofs.«204681_g65575560675685_cont_9to1_m_144_57_alg».proof.Proof.RefOpsTfB
import proofs.«204681_g65575560675685_cont_9to1_m_144_57_alg».proof.Proof.RefOps
import proofs.«204681_g65575560675685_cont_9to1_m_144_57_alg».proof.Proof.KeysRelC1A
import proofs.«204681_g65575560675685_cont_9to1_m_144_57_alg».proof.Proof.KeysRelC1B
/-! The two programs' shuffle of call 1 yields the same key table and the same shuffled table. -/

open Idealize.ShloMosaic Idealize.ShloMosaic.TcCoe Idealize.SL.Sem Idealize.ShloMosaic.StableHlo

noncomputable section

namespace Cert.Proof.KeysRel

variable {F : FTy → Type} [FloatOps F] [Cert.KernelIdeal.Facts] [Cert.ReferenceIdeal.Facts]
/-- The shuffle of call 1 in the two programs: from valuations agreeing at the seed and at the identity table, the key
    table (%17) and the shuffled table (%18#1) come out equal — the two bodies are the same operations, part by part. -/
theorem c1_shuffle (VK : Valuation Cert.KernelIdeal.τ Cert.KernelIdeal.sig (Elt F)) (VR : Valuation Cert.ReferenceIdeal.τ Cert.ReferenceIdeal.sig (Elt F))
    (h_TOP0 : VK (Proc.devRef .tc (kTop0c1).ref) = VR (Proc.devRef .tc (rTop0c1).ref))
    (h_TOP1 : VK (Proc.devRef .tc (kTop1c1).ref) = VR (Proc.devRef .tc (rTop1c1).ref)) :
    (after (Cert.KernelIdeal.HostOps.fn_shuffle.ops (F := F) kTop0c1 kTop1c1 Cert.KernelIdeal.main_call1) VK (Proc.devRef .tc (Cert.KernelIdeal.main_call1.v17).ref)
        = after (Cert.ReferenceIdeal.RefRun.ops_shuffle (F := F) rTop0c1 rTop1c1 Cert.ReferenceIdeal.main_call1) VR (Proc.devRef .tc (Cert.ReferenceIdeal.main_call1.v17).ref))
      ∧ (after (Cert.KernelIdeal.HostOps.fn_shuffle.ops (F := F) kTop0c1 kTop1c1 Cert.KernelIdeal.main_call1) VK (Proc.devRef .tc (Cert.KernelIdeal.main_call1.v18_1).ref)
        = after (Cert.ReferenceIdeal.RefRun.ops_shuffle (F := F) rTop0c1 rTop1c1 Cert.ReferenceIdeal.main_call1) VR (Proc.devRef .tc (Cert.ReferenceIdeal.main_call1.v18_1).ref)) := by
  unfold Cert.KernelIdeal.HostOps.fn_shuffle.ops Cert.KernelIdeal.HostOps.fn_threefry_split.ops Cert.KernelIdeal.HostOps.fn_threefry2x32.ops
    Cert.KernelIdeal.HostOps.fn_threefry2x32_0.ops Cert.ReferenceIdeal.RefRun.ops_shuffle Cert.ReferenceIdeal.RefRun.ops_split Cert.ReferenceIdeal.RefRun.ops_tfA
    Cert.ReferenceIdeal.RefRun.ops_tfB
  simp only [List.nil_append, List.append_assoc, after_append]
  obtain ⟨s0_TOP1, s0_call0_v1, s0_call0_v3, s0_call0_v9, s0_call0_v10⟩ := c1_p0 VK VR h_TOP1 h_TOP0
  obtain ⟨s1_TOP1, s1_call0_v1, s1_call0_call0_v1, s1_call0_v3, s1_call0_call0_v47, s1_call0_call0_v46⟩ := c1_p1 _ _ s0_TOP1 s0_call0_v1 s0_call0_v3 s0_call0_v9 s0_call0_v10
  obtain ⟨s2_TOP1, s2_call0_v1, s2_call0_call0_v1, s2_call0_v3, s2_call0_call0_v94, s2_call0_call0_v88⟩ := c1_p2 _ _ s1_TOP1 s1_call0_v1 s1_call0_call0_v1 s1_call0_v3 s1_call0_call0_v47 s1_call0_call0_v46
  obtain ⟨s3_TOP1, s3_call0_v1, s3_call0_call0_v1, s3_call0_call0_v142, s3_call0_call0_v141⟩ := c1_p3 _ _ s2_TOP1 s2_call0_v1 s2_call0_call0_v1 s2_call0_v3 s2_call0_call0_v94 s2_call0_call0_v88
  obtain ⟨s4_TOP1, s4_call0_call0_v175, s4_call0_call0_v171⟩ := c1_p4 _ _ s3_TOP1 s3_call0_v1 s3_call0_call0_v1 s3_call0_call0_v142 s3_call0_call0_v141
  obtain ⟨s5_TOP1, s5_call0_v14⟩ := c1_p5 _ _ s4_TOP1 s4_call0_call0_v175 s4_call0_call0_v171
  obtain ⟨s6_TOP1, s6_v6, s6_v8, s6_v14, s6_v15⟩ := c1_p6 _ _ s5_TOP1 s5_call0_v14
  obtain ⟨s7_TOP1, s7_v6, s7_call1_v1, s7_v8, s7_call1_v47, s7_call1_v46⟩ := c1_p7 _ _ s6_TOP1 s6_v6 s6_v8 s6_v14 s6_v15
  obtain ⟨s8_TOP1, s8_v6, s8_call1_v1, s8_v8, s8_call1_v94, s8_call1_v88⟩ := c1_p8 _ _ s7_TOP1 s7_v6 s7_call1_v1 s7_v8 s7_call1_v47 s7_call1_v46
  obtain ⟨s9_TOP1, s9_v6, s9_call1_v1, s9_call1_v142, s9_call1_v141⟩ := c1_p9 _ _ s8_TOP1 s8_v6 s8_call1_v1 s8_v8 s8_call1_v94 s8_call1_v88
  obtain ⟨s10_TOP1, s10_call1_v171, s10_call1_v175⟩ := c1_p10 _ _ s9_TOP1 s9_v6 s9_call1_v1 s9_call1_v142 s9_call1_v141
  obtain ⟨s11_v17, s11_v18_1⟩ := c1_p11 _ _ s10_TOP1 s10_call1_v171 s10_call1_v175
  exact ⟨s11_v17, s11_v18_1⟩

end Cert.Proof.KeysRel

end
-- ==== Proof.KeysRel.lean ====
import proofs.«204681_g65575560675685_cont_9to1_m_144_57_alg».proof.Proof.HostOpsI
import proofs.«204681_g65575560675685_cont_9to1_m_144_57_alg».proof.Proof.RefOpsTfA
import proofs.«204681_g65575560675685_cont_9to1_m_144_57_alg».proof.Proof.RefOpsTfB
import proofs.«204681_g65575560675685_cont_9to1_m_144_57_alg».proof.Proof.RefOps
import proofs.«204681_g65575560675685_cont_9to1_m_144_57_alg».proof.Proof.KeysRelC0
import proofs.«204681_g65575560675685_cont_9to1_m_144_57_alg».proof.Proof.KeysRelC1
/-! The two programs shuffle alike: each computes the seed of a shuffle from the same literals, hashes it by the same
    operations and sorts the identity table by the resulting keys, so the shuffled tables (the permutations of the
    feature columns) of the two programs are equal, whatever the programs' arguments hold. -/

open Idealize.ShloMosaic Idealize.ShloMosaic.TcCoe Idealize.SL.Sem Idealize.ShloMosaic.StableHlo

noncomputable section

namespace Cert.Proof.KeysRel

variable {F : FTy → Type} [FloatOps F] [Cert.KernelIdeal.Facts] [Cert.ReferenceIdeal.Facts]
set_option maxHeartbeats 4000000 in
/-- The seed and the identity table of call 0's shuffle are computed from literals by the same operations in the two
    programs: equal, from any valuations. -/
theorem seed0 (VK : Valuation Cert.KernelIdeal.τ Cert.KernelIdeal.sig (Elt F)) (VR : Valuation Cert.ReferenceIdeal.τ Cert.ReferenceIdeal.sig (Elt F)) :
    (after (Cert.KernelIdeal.HostOps.mainOps0 (F := F)) VK (Proc.devRef .tc (kTop0c0).ref)
        = after (Cert.ReferenceIdeal.RefRun.ops_main_s0 (F := F)) VR (Proc.devRef .tc (rTop0c0).ref))
      ∧ (after (Cert.KernelIdeal.HostOps.mainOps0 (F := F)) VK (Proc.devRef .tc (kTop1c0).ref)
        = after (Cert.ReferenceIdeal.RefRun.ops_main_s0 (F := F)) VR (Proc.devRef .tc (rTop1c0).ref)) := by
  refine ⟨?_, ?_⟩ <;>
    (unfold Cert.KernelIdeal.HostOps.mainOps0 Cert.ReferenceIdeal.RefRun.ops_main_s0
     after_results
     try rfl)

/-- The shuffled table of call 0 (the result %8 of @main) is the same in the two programs, from any valuations. -/
theorem shuffled0 (VK : Valuation Cert.KernelIdeal.τ Cert.KernelIdeal.sig (Elt F)) (VR : Valuation Cert.ReferenceIdeal.τ Cert.ReferenceIdeal.sig (Elt F)) :
    after (Cert.KernelIdeal.HostOps.mainOps0 (F := F) ++ Cert.KernelIdeal.HostOps.fn_shuffle.ops (F := F) kTop0c0 kTop1c0 Cert.KernelIdeal.main_call0) VK
        (Proc.devRef .tc Cert.KernelIdeal.main_v8)
      = after (Cert.ReferenceIdeal.RefRun.ops_main_s0 (F := F) ++ Cert.ReferenceIdeal.RefRun.ops_shuffle (F := F) rTop0c0 rTop1c0 Cert.ReferenceIdeal.main_call0) VR
        (Proc.devRef .tc Cert.ReferenceIdeal.main_v8) := by
  rw [after_append, after_append]
  exact (c0_shuffle _ _ (seed0 VK VR).1 (seed0 VK VR).2).2

set_option maxHeartbeats 4000000 in
/-- The seed and the identity table of call 1's shuffle are computed from literals by the same operations in the two
    programs: equal, from any valuations. -/
theorem seed1 (VK : Valuation Cert.KernelIdeal.τ Cert.KernelIdeal.sig (Elt F)) (VR : Valuation Cert.ReferenceIdeal.τ Cert.ReferenceIdeal.sig (Elt F)) :
    (after (Cert.KernelIdeal.HostOps.mainOps1 (F := F)) VK (Proc.devRef .tc (kTop0c1).ref)
        = after (Cert.ReferenceIdeal.RefRun.ops_main_s1 (F := F)) VR (Proc.devRef .tc (rTop0c1).ref))
      ∧ (after (Cert.KernelIdeal.HostOps.mainOps1 (F := F)) VK (Proc.devRef .tc (kTop1c1).ref)
        = after (Cert.ReferenceIdeal.RefRun.ops_main_s1 (F := F)) VR (Proc.devRef .tc (rTop1c1).ref)) := by
  refine ⟨?_, ?_⟩ <;>
    (unfold Cert.KernelIdeal.HostOps.mainOps1 Cert.ReferenceIdeal.RefRun.ops_main_s1
     after_results
     try rfl)

/-- The shuffled table of call 1 (the result %17 of @main) is the same in the two programs, from any valuations. -/
theorem shuffled1 (VK : Valuation Cert.KernelIdeal.τ Cert.KernelIdeal.sig (Elt F)) (VR : Valuation Cert.ReferenceIdeal.τ Cert.ReferenceIdeal.sig (Elt F)) :
    after (Cert.KernelIdeal.HostOps.mainOps1 (F := F) ++ Cert.KernelIdeal.HostOps.fn_shuffle.ops (F := F) kTop0c1 kTop1c1 Cert.KernelIdeal.main_call1) VK
        (Proc.devRef .tc Cert.KernelIdeal.main_v17)
      = after (Cert.ReferenceIdeal.RefRun.ops_main_s1 (F := F) ++ Cert.ReferenceIdeal.RefRun.ops_shuffle (F := F) rTop0c1 rTop1c1 Cert.ReferenceIdeal.main_call1) VR
        (Proc.devRef .tc Cert.ReferenceIdeal.main_v17) := by
  rw [after_append, after_append]
  exact (c1_shuffle _ _ (seed1 VK VR).1 (seed1 VK VR).2).2

end Cert.Proof.KeysRel

end
-- ==== Proof.RefSegs.lean ====
import proofs.«204681_g65575560675685_cont_9to1_m_144_57_alg».proof.Proof.RefOps

/-! The reference's @main cut into named stretches — each call's own operations and each hash — and, per stretch, the range of buffer indices it writes (operations are numbered in program order). -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]
/-- @main before the first shuffle: the first key and the positions. -/
def mA : List (HloOp τ sig (Elt F)) := ops_main_s0
/-- Shuffle 1: the key's split, before its hash. -/
def spA1 : List (HloOp τ sig (Elt F)) := ops_split_s0 (.of main_v6) main_call0_call0
/-- Shuffle 1: the hash of the key's split. -/
def tfA1 : List (HloOp τ sig (Elt F)) := ops_tfA main_call0_call0.v1 main_call0_call0.v3 main_call0_call0.v10 main_call0_call0.v9 main_call0_call0_call0
/-- Shuffle 1: the split keys laid out. -/
def spB1 : List (HloOp τ sig (Elt F)) := ops_split_s1 (.of main_v6) main_call0_call0
/-- Shuffle 1: the subkey and the counters. -/
def shA1 : List (HloOp τ sig (Elt F)) := ops_shuffle_s0 (.of main_v6) (.of main_v7) main_call0
/-- Shuffle 1: the hash of the counters. -/
def tfB1 : List (HloOp τ sig (Elt F)) := ops_tfB main_call0.v6 main_call0.v8 main_call0.v15 main_call0.v14 main_call0_call1
/-- Shuffle 1: the sort keys and the stable sort. -/
def shB1 : List (HloOp τ sig (Elt F)) := ops_shuffle_s1 (.of main_v6) (.of main_v7) main_call0
/-- @main between the shuffles: the second key and the positions. -/
def mB : List (HloOp τ sig (Elt F)) := ops_main_s1
/-- Shuffle 2: the key's split, before its hash. -/
def spA2 : List (HloOp τ sig (Elt F)) := ops_split_s0 (.of main_v15) main_call1_call0
/-- Shuffle 2: the hash of the key's split. -/
def tfA2 : List (HloOp τ sig (Elt F)) := ops_tfA main_call1_call0.v1 main_call1_call0.v3 main_call1_call0.v10 main_call1_call0.v9 main_call1_call0_call0
/-- Shuffle 2: the split keys laid out. -/
def spB2 : List (HloOp τ sig (Elt F)) := ops_split_s1 (.of main_v15) main_call1_call0
/-- Shuffle 2: the subkey and the counters. -/
def shA2 : List (HloOp τ sig (Elt F)) := ops_shuffle_s0 (.of main_v15) (.of main_v16) main_call1
/-- Shuffle 2: the hash of the counters. -/
def tfB2 : List (HloOp τ sig (Elt F)) := ops_tfB main_call1.v6 main_call1.v8 main_call1.v15 main_call1.v14 main_call1_call1
/-- Shuffle 2: the sort keys and the stable sort. -/
def shB2 : List (HloOp τ sig (Elt F)) := ops_shuffle_s1 (.of main_v15) (.of main_v16) main_call1
/-- The first row gather. -/
def tk1 : List (HloOp τ sig (Elt F)) := ops_take (.of main_arg2) (.of main_arg3) main_call2
/-- @main between the row gathers: the first column gather. -/
def mC : List (HloOp τ sig (Elt F)) := ops_main_s2
/-- The second row gather. -/
def tk2 : List (HloOp τ sig (Elt F)) := ops_take (.of main_arg1) (.of main_arg4) main_call3
/-- @main after the row gathers: the second column gather, the concatenation, the product. -/
def mD : List (HloOp τ sig (Elt F)) := ops_main_s3
/-- The final maximum with zero. -/
def rl : List (HloOp τ sig (Elt F)) := ops_relu (.of main_v35) main_call4

/-- @main's operations are the named stretches in order. -/
theorem ops_main_eq_segs : ops_main (F := F)
    = mA ++ (((spA1 ++ (tfA1 ++ spB1)) ++ (shA1 ++ (tfB1 ++ shB1))) ++ (mB ++ (((spA2 ++ (tfA2 ++ spB2)) ++ (shA2 ++ (tfB2 ++ shB2)))
        ++ ([] ++ (tk1 ++ (mC ++ (tk2 ++ (mD ++ (rl ++ []))))))))) := rfl

theorem mA_wo : WritesOnly (Ge 6) (mA (F := F)) := by
  unfold mA ops_main_s0
  exact ⟨wo_nullary (by decide), wo_nullary (by decide), wo_binary (by decide), wo_unary (by decide), wo_unary (by decide),
    wo_nullary (by decide), wo_binary (by decide), wo_unary (by decide), wo_unary (by decide), wo_binary (by decide),
    wo_nullary (by decide)⟩
theorem spA1_wo : WritesOnly (Ge 17) (spA1 (F := F)) := by
  unfold spA1 ops_split_s0
  exact ⟨wo_unary (by decide), wo_reshape (by decide), wo_unary (by decide), wo_reshape (by decide), wo_nullary (by decide),
    wo_nullary (by decide), wo_unary (by decide), wo_binary (by decide), wo_nullary (by decide), wo_unary (by decide),
    wo_binary (by decide), wo_unary (by decide), wo_unary (by decide)⟩
theorem tfA1_p0_wo : WritesOnly (Ge 17) (ops_tfA_p0 (F := F) main_call0_call0.v1 main_call0_call0.v3 main_call0_call0.v10 main_call0_call0.v9 main_call0_call0_call0) := by
  unfold ops_tfA_p0
  exact ⟨wo_binary (by decide), wo_nullary (by decide), wo_binary (by decide), wo_unary (by decide), wo_binary (by decide),
    wo_unary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_unary (by decide), wo_binary (by decide),
    wo_unary (by decide), wo_binary (by decide), wo_nullary (by decide), wo_unary (by decide), wo_binary (by decide),
    wo_binary (by decide), wo_nullary (by decide), wo_unary (by decide), wo_binary (by decide), wo_nullary (by decide),
    wo_unary (by decide), wo_binary (by decide), wo_binary (by decide), wo_binary (by decide), wo_binary (by decide)⟩
theorem tfA1_p1_wo : WritesOnly (Ge 17) (ops_tfA_p1 (F := F) main_call0_call0.v1 main_call0_call0.v3 main_call0_call0.v10 main_call0_call0.v9 main_call0_call0_call0) := by
  unfold ops_tfA_p1
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_unary (by decide), wo_binary (by decide), wo_unary (by decide), wo_binary (by decide),
    wo_nullary (by decide), wo_unary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide)⟩
theorem tfA1_p2_wo : WritesOnly (Ge 17) (ops_tfA_p2 (F := F) main_call0_call0.v1 main_call0_call0.v3 main_call0_call0.v10 main_call0_call0.v9 main_call0_call0_call0) := by
  unfold ops_tfA_p2
  exact ⟨wo_binary (by decide), wo_nullary (by decide), wo_unary (by decide), wo_binary (by decide), wo_nullary (by decide),
    wo_unary (by decide), wo_binary (by decide), wo_binary (by decide), wo_binary (by decide), wo_unary (by decide),
    wo_binary (by decide), wo_unary (by decide), wo_binary (by decide), wo_nullary (by decide), wo_unary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_unary (by decide), wo_binary (by decide), wo_unary (by decide),
    wo_binary (by decide), wo_nullary (by decide), wo_unary (by decide), wo_binary (by decide), wo_binary (by decide)⟩
theorem tfA1_p3_wo : WritesOnly (Ge 17) (ops_tfA_p3 (F := F) main_call0_call0.v1 main_call0_call0.v3 main_call0_call0.v10 main_call0_call0.v9 main_call0_call0_call0) := by
  unfold ops_tfA_p3
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_unary (by decide), wo_binary (by decide), wo_unary (by decide), wo_binary (by decide), wo_nullary (by decide),
    wo_unary (by decide), wo_binary (by decide)⟩
theorem tfA1_wo : WritesOnly (Ge 17) (tfA1 (F := F)) :=
  (tfA1_p0_wo).append ((tfA1_p1_wo).append ((tfA1_p2_wo).append tfA1_p3_wo))
theorem spB1_wo : WritesOnly (Ge 17) (spB1 (F := F)) := by
  unfold spB1 ops_split_s1
  exact ⟨wo_unary (by decide), wo_unary (by decide), wo_binary (by decide)⟩
theorem shA1_wo : WritesOnly (Ge 17) (shA1 (F := F)) := by
  unfold shA1 ops_shuffle_s0
  exact ⟨wo_unary (by decide), wo_reshape (by decide), wo_unary (by decide), wo_reshape (by decide), wo_unary (by decide),
    wo_reshape (by decide), wo_unary (by decide), wo_reshape (by decide), wo_nullary (by decide), wo_nullary (by decide),
    wo_unary (by decide), wo_binary (by decide), wo_nullary (by decide), wo_unary (by decide), wo_binary (by decide),
    wo_unary (by decide), wo_unary (by decide)⟩
theorem tfB1_p0_wo : WritesOnly (Ge 17) (ops_tfB_p0 (F := F) main_call0.v6 main_call0.v8 main_call0.v15 main_call0.v14 main_call0_call1) := by
  unfold ops_tfB_p0
  exact ⟨wo_binary (by decide), wo_nullary (by decide), wo_binary (by decide), wo_unary (by decide), wo_binary (by decide),
    wo_unary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_unary (by decide), wo_binary (by decide),
    wo_unary (by decide), wo_binary (by decide), wo_nullary (by decide), wo_unary (by decide), wo_binary (by decide),
    wo_binary (by decide), wo_nullary (by decide), wo_unary (by decide), wo_binary (by decide), wo_nullary (by decide),
    wo_unary (by decide), wo_binary (by decide), wo_binary (by decide), wo_binary (by decide), wo_binary (by decide)⟩
theorem tfB1_p1_wo : WritesOnly (Ge 17) (ops_tfB_p1 (F := F) main_call0.v6 main_call0.v8 main_call0.v15 main_call0.v14 main_call0_call1) := by
  unfold ops_tfB_p1
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_unary (by decide), wo_binary (by decide), wo_unary (by decide), wo_binary (by decide),
    wo_nullary (by decide), wo_unary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide)⟩
theorem tfB1_p2_wo : WritesOnly (Ge 17) (ops_tfB_p2 (F := F) main_call0.v6 main_call0.v8 main_call0.v15 main_call0.v14 main_call0_call1) := by
  unfold ops_tfB_p2
  exact ⟨wo_binary (by decide), wo_nullary (by decide), wo_unary (by decide), wo_binary (by decide), wo_nullary (by decide),
    wo_unary (by decide), wo_binary (by decide), wo_binary (by decide), wo_binary (by decide), wo_unary (by decide),
    wo_binary (by decide), wo_unary (by decide), wo_binary (by decide), wo_nullary (by decide), wo_unary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_unary (by decide), wo_binary (by decide), wo_unary (by decide),
    wo_binary (by decide), wo_nullary (by decide), wo_unary (by decide), wo_binary (by decide), wo_binary (by decide)⟩
theorem tfB1_p3_wo : WritesOnly (Ge 17) (ops_tfB_p3 (F := F) main_call0.v6 main_call0.v8 main_call0.v15 main_call0.v14 main_call0_call1) := by
  unfold ops_tfB_p3
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_unary (by decide), wo_binary (by decide), wo_unary (by decide), wo_binary (by decide), wo_nullary (by decide),
    wo_unary (by decide), wo_binary (by decide)⟩
theorem tfB1_wo : WritesOnly (Ge 17) (tfB1 (F := F)) :=
  (tfB1_p0_wo).append ((tfB1_p1_wo).append ((tfB1_p2_wo).append tfB1_p3_wo))
theorem shB1_wo : WritesOnly (Ge 17) (shB1 (F := F)) := by
  unfold shB1 ops_shuffle_s1
  exact ⟨wo_binary (by decide), wo_binary (by decide), wo_binary (by decide)⟩
theorem mB_wo : WritesOnly (Ge 497) (mB (F := F)) := by
  unfold mB ops_main_s1
  exact ⟨wo_nullary (by decide), wo_nullary (by decide), wo_binary (by decide), wo_unary (by decide), wo_unary (by decide),
    wo_nullary (by decide), wo_binary (by decide), wo_unary (by decide), wo_unary (by decide), wo_binary (by decide),
    wo_nullary (by decide)⟩
theorem spA2_wo : WritesOnly (Ge 508) (spA2 (F := F)) := by
  unfold spA2 ops_split_s0
  exact ⟨wo_unary (by decide), wo_reshape (by decide), wo_unary (by decide), wo_reshape (by decide), wo_nullary (by decide),
    wo_nullary (by decide), wo_unary (by decide), wo_binary (by decide), wo_nullary (by decide), wo_unary (by decide),
    wo_binary (by decide), wo_unary (by decide), wo_unary (by decide)⟩
theorem tfA2_p0_wo : WritesOnly (Ge 508) (ops_tfA_p0 (F := F) main_call1_call0.v1 main_call1_call0.v3 main_call1_call0.v10 main_call1_call0.v9 main_call1_call0_call0) := by
  unfold ops_tfA_p0
  exact ⟨wo_binary (by decide), wo_nullary (by decide), wo_binary (by decide), wo_unary (by decide), wo_binary (by decide),
    wo_unary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_unary (by decide), wo_binary (by decide),
    wo_unary (by decide), wo_binary (by decide), wo_nullary (by decide), wo_unary (by decide), wo_binary (by decide),
    wo_binary (by decide), wo_nullary (by decide), wo_unary (by decide), wo_binary (by decide), wo_nullary (by decide),
    wo_unary (by decide), wo_binary (by decide), wo_binary (by decide), wo_binary (by decide), wo_binary (by decide)⟩
theorem tfA2_p1_wo : WritesOnly (Ge 508) (ops_tfA_p1 (F := F) main_call1_call0.v1 main_call1_call0.v3 main_call1_call0.v10 main_call1_call0.v9 main_call1_call0_call0) := by
  unfold ops_tfA_p1
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_unary (by decide), wo_binary (by decide), wo_unary (by decide), wo_binary (by decide),
    wo_nullary (by decide), wo_unary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide)⟩
theorem tfA2_p2_wo : WritesOnly (Ge 508) (ops_tfA_p2 (F := F) main_call1_call0.v1 main_call1_call0.v3 main_call1_call0.v10 main_call1_call0.v9 main_call1_call0_call0) := by
  unfold ops_tfA_p2
  exact ⟨wo_binary (by decide), wo_nullary (by decide), wo_unary (by decide), wo_binary (by decide), wo_nullary (by decide),
    wo_unary (by decide), wo_binary (by decide), wo_binary (by decide), wo_binary (by decide), wo_unary (by decide),
    wo_binary (by decide), wo_unary (by decide), wo_binary (by decide), wo_nullary (by decide), wo_unary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_unary (by decide), wo_binary (by decide), wo_unary (by decide),
    wo_binary (by decide), wo_nullary (by decide), wo_unary (by decide), wo_binary (by decide), wo_binary (by decide)⟩
theorem tfA2_p3_wo : WritesOnly (Ge 508) (ops_tfA_p3 (F := F) main_call1_call0.v1 main_call1_call0.v3 main_call1_call0.v10 main_call1_call0.v9 main_call1_call0_call0) := by
  unfold ops_tfA_p3
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_unary (by decide), wo_binary (by decide), wo_unary (by decide), wo_binary (by decide), wo_nullary (by decide),
    wo_unary (by decide), wo_binary (by decide)⟩
theorem tfA2_wo : WritesOnly (Ge 508) (tfA2 (F := F)) :=
  (tfA2_p0_wo).append ((tfA2_p1_wo).append ((tfA2_p2_wo).append tfA2_p3_wo))
theorem spB2_wo : WritesOnly (Ge 508) (spB2 (F := F)) := by
  unfold spB2 ops_split_s1
  exact ⟨wo_unary (by decide), wo_unary (by decide), wo_binary (by decide)⟩
theorem shA2_wo : WritesOnly (Ge 508) (shA2 (F := F)) := by
  unfold shA2 ops_shuffle_s0
  exact ⟨wo_unary (by decide), wo_reshape (by decide), wo_unary (by decide), wo_reshape (by decide), wo_unary (by decide),
    wo_reshape (by decide), wo_unary (by decide), wo_reshape (by decide), wo_nullary (by decide), wo_nullary (by decide),
    wo_unary (by decide), wo_binary (by decide), wo_nullary (by decide), wo_unary (by decide), wo_binary (by decide),
    wo_unary (by decide), wo_unary (by decide)⟩
theorem tfB2_p0_wo : WritesOnly (Ge 508) (ops_tfB_p0 (F := F) main_call1.v6 main_call1.v8 main_call1.v15 main_call1.v14 main_call1_call1) := by
  unfold ops_tfB_p0
  exact ⟨wo_binary (by decide), wo_nullary (by decide), wo_binary (by decide), wo_unary (by decide), wo_binary (by decide),
    wo_unary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_unary (by decide), wo_binary (by decide),
    wo_unary (by decide), wo_binary (by decide), wo_nullary (by decide), wo_unary (by decide), wo_binary (by decide),
    wo_binary (by decide), wo_nullary (by decide), wo_unary (by decide), wo_binary (by decide), wo_nullary (by decide),
    wo_unary (by decide), wo_binary (by decide), wo_binary (by decide), wo_binary (by decide), wo_binary (by decide)⟩
theorem tfB2_p1_wo : WritesOnly (Ge 508) (ops_tfB_p1 (F := F) main_call1.v6 main_call1.v8 main_call1.v15 main_call1.v14 main_call1_call1) := by
  unfold ops_tfB_p1
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_unary (by decide), wo_binary (by decide), wo_unary (by decide), wo_binary (by decide),
    wo_nullary (by decide), wo_unary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide)⟩
theorem tfB2_p2_wo : WritesOnly (Ge 508) (ops_tfB_p2 (F := F) main_call1.v6 main_call1.v8 main_call1.v15 main_call1.v14 main_call1_call1) := by
  unfold ops_tfB_p2
  exact ⟨wo_binary (by decide), wo_nullary (by decide), wo_unary (by decide), wo_binary (by decide), wo_nullary (by decide),
    wo_unary (by decide), wo_binary (by decide), wo_binary (by decide), wo_binary (by decide), wo_unary (by decide),
    wo_binary (by decide), wo_unary (by decide), wo_binary (by decide), wo_nullary (by decide), wo_unary (by decide),
    wo_binary (by decide), wo_binary (by decide), wo_nullary (by decide), wo_unary (by decide), wo_binary (by decide),
    wo_nullary (by decide), wo_unary (by decide), wo_binary (by decide), wo_binary (by decide), wo_binary (by decide),
    wo_binary (by decide), wo_nullary (by decide), wo_unary (by decide), wo_binary (by decide), wo_nullary (by decide),
    wo_unary (by decide), wo_binary (by decide), wo_binary (by decide), wo_binary (by decide), wo_binary (by decide),
    wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_unary (by decide), wo_binary (by decide), wo_unary (by decide),
    wo_binary (by decide), wo_nullary (by decide), wo_unary (by decide), wo_binary (by decide), wo_binary (by decide)⟩
theorem tfB2_p3_wo : WritesOnly (Ge 508) (ops_tfB_p3 (F := F) main_call1.v6 main_call1.v8 main_call1.v15 main_call1.v14 main_call1_call1) := by
  unfold ops_tfB_p3
  exact ⟨wo_nullary (by decide), wo_unary (by decide), wo_binary (by decide), wo_nullary (by decide), wo_unary (by decide),
    wo_binary (by decide), wo_binary (by decide), wo_binary (by decide), wo_binary (by decide), wo_nullary (by decide),
    wo_unary (by decide), wo_binary (by decide), wo_nullary (by decide), wo_unary (by decide), wo_binary (by decide),
    wo_binary (by decide), wo_binary (by decide), wo_binary (by decide), wo_nullary (by decide), wo_unary (by decide),
    wo_binary (by decide), wo_nullary (by decide), wo_unary (by decide), wo_binary (by decide), wo_binary (by decide),
    wo_binary (by decide), wo_binary (by decide), wo_nullary (by decide), wo_unary (by decide), wo_binary (by decide),
    wo_nullary (by decide), wo_unary (by decide), wo_binary (by decide), wo_binary (by decide), wo_binary (by decide),
    wo_unary (by decide), wo_binary (by decide), wo_unary (by decide), wo_binary (by decide), wo_nullary (by decide),
    wo_unary (by decide), wo_binary (by decide)⟩
theorem tfB2_wo : WritesOnly (Ge 508) (tfB2 (F := F)) :=
  (tfB2_p0_wo).append ((tfB2_p1_wo).append ((tfB2_p2_wo).append tfB2_p3_wo))
theorem shB2_wo : WritesOnly (Ge 508) (shB2 (F := F)) := by
  unfold shB2 ops_shuffle_s1
  exact ⟨wo_binary (by decide), wo_binary (by decide), wo_binary (by decide)⟩
theorem tk1_wo : WritesOnly (Ge 988) (tk1 (F := F)) := by
  unfold tk1 ops_take ops_take_s0 ops_take_s1 ops_where ops_where_s0
  simp only [List.cons_append, List.nil_append, List.append_nil]
  exact ⟨wo_nullary (by decide), wo_unary (by decide), wo_binary (by decide), wo_nullary (by decide), wo_unary (by decide),
    wo_binary (by decide), wo_ternary (by decide), wo_unary (by decide), wo_nullary (by decide), wo_nullary (by decide),
    wo_unary (by decide), wo_binary (by decide), wo_unary (by decide), wo_unary (by decide), wo_binary (by decide),
    wo_binary (by decide), wo_nullary (by decide), wo_binary (by decide), wo_binary (by decide), wo_unary (by decide),
    wo_nullary (by decide), wo_unary (by decide), wo_ternary (by decide)⟩
theorem tk2_wo : WritesOnly (Ge 988) (tk2 (F := F)) := by
  unfold tk2 ops_take ops_take_s0 ops_take_s1 ops_where ops_where_s0
  simp only [List.cons_append, List.nil_append, List.append_nil]
  exact ⟨wo_nullary (by decide), wo_unary (by decide), wo_binary (by decide), wo_nullary (by decide), wo_unary (by decide),
    wo_binary (by decide), wo_ternary (by decide), wo_unary (by decide), wo_nullary (by decide), wo_nullary (by decide),
    wo_unary (by decide), wo_binary (by decide), wo_unary (by decide), wo_unary (by decide), wo_binary (by decide),
    wo_binary (by decide), wo_nullary (by decide), wo_binary (by decide), wo_binary (by decide), wo_unary (by decide),
    wo_nullary (by decide), wo_unary (by decide), wo_ternary (by decide)⟩
theorem mC_wo : WritesOnly (Ge 988) (mC (F := F)) := by
  unfold mC ops_main_s2
  exact ⟨wo_nullary (by decide), wo_unary (by decide), wo_binary (by decide), wo_nullary (by decide), wo_unary (by decide),
    wo_binary (by decide), wo_ternary (by decide), wo_unary (by decide), wo_binary (by decide)⟩
theorem mD_wo : WritesOnly (Ge 988) (mD (F := F)) := by
  unfold mD ops_main_s3
  exact ⟨wo_nullary (by decide), wo_unary (by decide), wo_binary (by decide), wo_nullary (by decide), wo_unary (by decide),
    wo_binary (by decide), wo_ternary (by decide), wo_unary (by decide), wo_binary (by decide), wo_nary (by decide),
    wo_binary (by decide)⟩
theorem rl_wo : WritesOnly (Ge 988) (rl (F := F)) := by
  unfold rl ops_relu ops_relu_s0
  simp only [List.append_nil]
  exact ⟨wo_nullary (by decide), wo_unary (by decide), wo_binary (by decide)⟩

/-- The first shuffle writes only indices from 17 on. -/
theorem sh1_wo : WritesOnly (Ge 17) ((spA1 ++ (tfA1 ++ spB1)) ++ (shA1 ++ (tfB1 (F := F) ++ shB1))) :=
  (spA1_wo.append (tfA1_wo.append spB1_wo)).append (shA1_wo.append (tfB1_wo.append shB1_wo))
/-- The second shuffle writes only indices from 508 on. -/
theorem sh2_wo : WritesOnly (Ge 508) ((spA2 ++ (tfA2 ++ spB2)) ++ (shA2 ++ (tfB2 (F := F) ++ shB2))) :=
  (spA2_wo.append (tfA2_wo.append spB2_wo)).append (shA2_wo.append (tfB2_wo.append shB2_wo))
/-- The row gathers, the column gathers, the product and the maximum write only indices from 988 on. -/
theorem tail_wo : WritesOnly (Ge 988) ([] ++ (tk1 ++ (mC ++ (tk2 ++ (mD ++ (rl (F := F) ++ [])))))) :=
  WritesOnly.nil.append (tk1_wo.append (mC_wo.append (tk2_wo.append (mD_wo.append (rl_wo.append WritesOnly.nil)))))
/-- Everything after the first shuffle writes only indices from 497 on: the first shuffle's result, at 496, stays. -/
theorem rest_wo : WritesOnly (Ge 497) (mB ++ (((spA2 ++ (tfA2 ++ spB2)) ++ (shA2 ++ (tfB2 (F := F) ++ shB2)))
    ++ ([] ++ (tk1 ++ (mC ++ (tk2 ++ (mD ++ (rl ++ []))))))))  :=
  mB_wo.append ((sh2_wo.ge_mono (by decide)).append (tail_wo.ge_mono (by decide)))
/-- No operation of @main writes an argument (indices 0 … 5). -/
theorem ops_main_wo : WritesOnly (Ge 6) (ops_main (F := F)) := by
  rw [ops_main_eq_segs]
  exact mA_wo.append ((sh1_wo.ge_mono (by decide)).append (rest_wo.ge_mono (by decide)))

/-- A stretch of operations whose two results are functions of the contents of four buffers: the functions, and that
    the stretch computes them from any contents. The functions of a hash are never unfolded. -/
structure TfSpec (ops : List (HloOp τ sig (Elt F))) (a0 a1 a2 a3 r1 r2 : Ref sig .tc) where
  f1 : a0.ty.Contents (Elt F) → a1.ty.Contents (Elt F) → a2.ty.Contents (Elt F) → a3.ty.Contents (Elt F) → r1.ty.Contents (Elt F)
  f2 : a0.ty.Contents (Elt F) → a1.ty.Contents (Elt F) → a2.ty.Contents (Elt F) → a3.ty.Contents (Elt F) → r2.ty.Contents (Elt F)
  h : ∀ (W : Valuation τ sig (Elt F)) k0 k1 x0 x1, W (Proc.devRef .tc a0) = k0 → W (Proc.devRef .tc a1) = k1 →
    W (Proc.devRef .tc a2) = x0 → W (Proc.devRef .tc a3) = x1 →
    after ops W (Proc.devRef .tc r1) = f1 k0 k1 x0 x1 ∧ after ops W (Proc.devRef .tc r2) = f2 k0 k1 x0 x1

/-- A stretch of operations that leaves a buffer at contents depending on nothing: the contents, and that the stretch
    leaves them from any contents. -/
structure ClosedRead (ops : List (HloOp τ sig (Elt F))) (r : Ref sig .tc) where
  val : r.ty.Contents (Elt F)
  h : ∀ W : Valuation τ sig (Elt F), after ops W (Proc.devRef .tc r) = val

end Cert.ReferenceIdeal.RefRun

end
-- ==== Proof.KeysEq.lean ====
import proofs.«204681_g65575560675685_cont_9to1_m_144_57_alg».proof.Proof.KeysRel
import proofs.«204681_g65575560675685_cont_9to1_m_144_57_alg».proof.Proof.HostValKeep
import proofs.«204681_g65575560675685_cont_9to1_m_144_57_alg».proof.Proof.RefSegs

/-! The shuffled tables of the two programs are equal after the whole host stretches: the operations after each shuffle
    write neither shuffle's result, and up to the shuffle the two programs run the same operations on the same literals. -/

open Idealize.ShloMosaic Idealize.ShloMosaic.TcCoe Idealize.SL.Sem Idealize.ShloMosaic.StableHlo

noncomputable section

namespace Cert.Proof.KeysRel

open Cert.KernelIdeal.HostVal in
open Cert.KernelIdeal.HostOps in
/-- The second shuffle's result (%17 of @main: the permutation of the user features' columns) after the kernel program's
    host operations is what the reference's @main computes, whatever the two programs' arguments hold. -/
theorem perm_u_eq {F : FTy → Type} [FloatOps F] [Cert.KernelIdeal.Facts] [Cert.ReferenceIdeal.Facts]
    (VK : Valuation Cert.KernelIdeal.τ Cert.KernelIdeal.sig (Elt F)) (VR : Valuation Cert.ReferenceIdeal.τ Cert.ReferenceIdeal.sig (Elt F)) :
    after (Cert.KernelIdeal.HostOps.hostOps (F := F)) VK (Proc.devRef .tc Cert.KernelIdeal.main_v17)
      = after (Cert.ReferenceIdeal.RefRun.ops_main (F := F)) VR (Proc.devRef .tc Cert.ReferenceIdeal.main_v17) := by
  rw [after_hostOps, keeps_mainOps6 Cert.KernelIdeal.main_v17 (by decide), keeps_mainOps5 Cert.KernelIdeal.main_v17 (by decide),
    keeps_mainOps4 Cert.KernelIdeal.main_v17 (by decide), keeps_argsort3 Cert.KernelIdeal.main_v17 (by decide),
    keeps_mainOps3 Cert.KernelIdeal.main_v17 (by decide), keeps_argsort2 Cert.KernelIdeal.main_v17 (by decide),
    keeps_mainOps2 Cert.KernelIdeal.main_v17 (by decide)]
  rw [Cert.ReferenceIdeal.RefRun.ops_main_eq_segs, after_append (Cert.ReferenceIdeal.RefRun.mA (F := F)) _ VR,
    after_append ((Cert.ReferenceIdeal.RefRun.spA1 (F := F) ++ (Cert.ReferenceIdeal.RefRun.tfA1 ++ Cert.ReferenceIdeal.RefRun.spB1)) ++ (Cert.ReferenceIdeal.RefRun.shA1 ++ (Cert.ReferenceIdeal.RefRun.tfB1 ++ Cert.ReferenceIdeal.RefRun.shB1))) _ _,
    after_append (Cert.ReferenceIdeal.RefRun.mB (F := F)) _ _,
    after_append ((Cert.ReferenceIdeal.RefRun.spA2 (F := F) ++ (Cert.ReferenceIdeal.RefRun.tfA2 ++ Cert.ReferenceIdeal.RefRun.spB2)) ++ (Cert.ReferenceIdeal.RefRun.shA2 ++ (Cert.ReferenceIdeal.RefRun.tfB2 ++ Cert.ReferenceIdeal.RefRun.shB2))) _ _,
    Cert.RefRunLib.after_of_writesOnly Cert.ReferenceIdeal.RefRun.tail_wo _ (by decide)]
  have h := shuffled1 (F := F)
    (after (fn_shuffle.ops (F := F) (.of Cert.KernelIdeal.main_v6) (.of Cert.KernelIdeal.main_v7) Cert.KernelIdeal.main_call0) (after (mainOps0 (F := F)) VK))
    (after ((Cert.ReferenceIdeal.RefRun.spA1 (F := F) ++ (Cert.ReferenceIdeal.RefRun.tfA1 ++ Cert.ReferenceIdeal.RefRun.spB1)) ++ (Cert.ReferenceIdeal.RefRun.shA1 ++ (Cert.ReferenceIdeal.RefRun.tfB1 ++ Cert.ReferenceIdeal.RefRun.shB1))) (after (Cert.ReferenceIdeal.RefRun.mA (F := F)) VR))
  rw [after_append, after_append] at h
  exact h

open Cert.KernelIdeal.HostVal in
open Cert.KernelIdeal.HostOps in
/-- The first shuffle's result (%8 of @main: the permutation of the item features' columns), likewise. -/
theorem perm_i_eq {F : FTy → Type} [FloatOps F] [Cert.KernelIdeal.Facts] [Cert.ReferenceIdeal.Facts]
    (VK : Valuation Cert.KernelIdeal.τ Cert.KernelIdeal.sig (Elt F)) (VR : Valuation Cert.ReferenceIdeal.τ Cert.ReferenceIdeal.sig (Elt F)) :
    after (Cert.KernelIdeal.HostOps.hostOps (F := F)) VK (Proc.devRef .tc Cert.KernelIdeal.main_v8)
      = after (Cert.ReferenceIdeal.RefRun.ops_main (F := F)) VR (Proc.devRef .tc Cert.ReferenceIdeal.main_v8) := by
  rw [after_hostOps, keeps_mainOps6 Cert.KernelIdeal.main_v8 (by decide), keeps_mainOps5 Cert.KernelIdeal.main_v8 (by decide),
    keeps_mainOps4 Cert.KernelIdeal.main_v8 (by decide), keeps_argsort3 Cert.KernelIdeal.main_v8 (by decide),
    keeps_mainOps3 Cert.KernelIdeal.main_v8 (by decide), keeps_argsort2 Cert.KernelIdeal.main_v8 (by decide),
    keeps_mainOps2 Cert.KernelIdeal.main_v8 (by decide), keeps_shuffle1 Cert.KernelIdeal.main_v8 (by decide),
    keeps_mainOps1 Cert.KernelIdeal.main_v8 (by decide)]
  rw [Cert.ReferenceIdeal.RefRun.ops_main_eq_segs, after_append (Cert.ReferenceIdeal.RefRun.mA (F := F)) _ VR,
    after_append ((Cert.ReferenceIdeal.RefRun.spA1 (F := F) ++ (Cert.ReferenceIdeal.RefRun.tfA1 ++ Cert.ReferenceIdeal.RefRun.spB1)) ++ (Cert.ReferenceIdeal.RefRun.shA1 ++ (Cert.ReferenceIdeal.RefRun.tfB1 ++ Cert.ReferenceIdeal.RefRun.shB1))) _ _,
    Cert.RefRunLib.after_of_writesOnly Cert.ReferenceIdeal.RefRun.rest_wo _ (by decide)]
  have h := shuffled0 (F := F) VK VR
  rw [after_append, after_append] at h
  exact h

end Cert.Proof.KeysRel

end
-- ==== Proof.LibPermSum.lean ====
/-
  Reindexing a finite "dot product" through a pair of mutually inverse index maps, and splitting a sum over a
  concatenated index range Fin (a + b + c) into the sums over its three segments. Everything is stated over an
  arbitrary commutative additive monoid carrying a multiplication (no distributivity and no finiteness of the
  summands is used), so it applies to the extended reals, where addition is commutative and associative.
-/
import Mathlib.Algebra.BigOperators.Fin
import Mathlib.Algebra.BigOperators.Group.Finset.Basic
import Mathlib.Data.Fintype.BigOperators

open scoped BigOperators

namespace LibPermSum

/-- A dot product against a re-indexed left factor is the dot product against the inversely re-indexed right
    factor: if σ : κ → ι and τ : ι → κ are mutually inverse, then
    ∑ k, x (σ k) * w k = ∑ j, x j * w (τ j)  (substitute k = τ j). -/
theorem sum_mul_reindex {M : Type*} [AddCommMonoid M] [Mul M] {ι κ : Type*} [Fintype ι] [Fintype κ]
    (σ : κ → ι) (τ : ι → κ) (hστ : ∀ j, σ (τ j) = j) (hτσ : ∀ k, τ (σ k) = k) (x : ι → M) (w : κ → M) :
    ∑ k, x (σ k) * w k = ∑ j, x j * w (τ j) := by
  let e : ι ≃ κ := ⟨τ, σ, hστ, hτσ⟩
  rw [← Equiv.sum_comp e (fun k => x (σ k) * w k)]
  exact Finset.sum_congr rfl fun j _ => by show x (σ (τ j)) * w (τ j) = _; rw [hστ j]

/-- The same over Fin n: for mutually inverse self-maps σ, τ of Fin n,
    ∑ k, x (σ k) * w k = ∑ j, x j * w (τ j). -/
theorem sum_mul_perm {M : Type*} [AddCommMonoid M] [Mul M] {n : ℕ} (σ τ : Fin n → Fin n)
    (hστ : ∀ j, σ (τ j) = j) (hτσ : ∀ k, τ (σ k) = k) (x w : Fin n → M) :
    ∑ k, x (σ k) * w k = ∑ j, x j * w (τ j) :=
  sum_mul_reindex σ τ hστ hτσ x w

/-- A sum over Fin N with N = a + b + c is the sum of the sums over the three consecutive segments
    [0, a), [a, a + b), [a + b, a + b + c). -/
theorem sum_fin_split3 {M : Type*} [AddCommMonoid M] {N a b c : ℕ} (h : a + b + c = N) (f : Fin N → M) :
    ∑ k : Fin N, f k
      = ∑ k : Fin a, f ⟨k.val, by omega⟩ + ∑ k : Fin b, f ⟨a + k.val, by omega⟩
        + ∑ k : Fin c, f ⟨a + b + k.val, by omega⟩ := by
  subst h
  rw [Fin.sum_univ_add, Fin.sum_univ_add]
  rfl

/-- The sum over Fin 384 as three sums over Fin 128: indices k, 128 + k, 256 + k. -/
theorem sum_fin384 {M : Type*} [AddCommMonoid M] (f : Fin 384 → M) :
    ∑ k : Fin 384, f k
      = ∑ k : Fin 128, f ⟨k.val, by omega⟩ + ∑ k : Fin 128, f ⟨128 + k.val, by omega⟩
        + ∑ k : Fin 128, f ⟨256 + k.val, by omega⟩ :=
  sum_fin_split3 (a := 128) (b := 128) (c := 128) rfl f

/-- The dot product of a three-segment concatenation whose second and third segments are re-indexed by σ₁, σ₂
    (mutually inverse to τ₁, τ₂) is the sum of three dot products in which the RIGHT factor's second and third
    segments are re-indexed by the inverses: with L k = x₀ k, L (n + k) = x₁ (σ₁ k), L (2n + k) = x₂ (σ₂ k),
    ∑ k, L k * R k = ∑ k, x₀ k * R k + ∑ j, x₁ j * R (n + τ₁ j) + ∑ j, x₂ j * R (2n + τ₂ j). -/
theorem sum_concat3_perm {M : Type*} [AddCommMonoid M] [Mul M] {N n : ℕ} (h : n + n + n = N)
    (L R : Fin N → M) (x₀ x₁ x₂ : Fin n → M) (σ₁ τ₁ σ₂ τ₂ : Fin n → Fin n)
    (h₁ : ∀ j, σ₁ (τ₁ j) = j) (h₁' : ∀ k, τ₁ (σ₁ k) = k) (h₂ : ∀ j, σ₂ (τ₂ j) = j) (h₂' : ∀ k, τ₂ (σ₂ k) = k)
    (hL₀ : ∀ k : Fin n, L ⟨k.val, by omega⟩ = x₀ k)
    (hL₁ : ∀ k : Fin n, L ⟨n + k.val, by omega⟩ = x₁ (σ₁ k))
    (hL₂ : ∀ k : Fin n, L ⟨n + n + k.val, by omega⟩ = x₂ (σ₂ k)) :
    ∑ k : Fin N, L k * R k
      = ∑ k : Fin n, x₀ k * R ⟨k.val, by omega⟩ + ∑ j : Fin n, x₁ j * R ⟨n + (τ₁ j).val, by omega⟩
        + ∑ j : Fin n, x₂ j * R ⟨n + n + (τ₂ j).val, by omega⟩ := by
  rw [sum_fin_split3 h fun k => L k * R k]
  simp only [hL₀, hL₁, hL₂]
  rw [sum_mul_perm σ₁ τ₁ h₁ h₁' x₁ fun k => R ⟨n + k.val, by omega⟩,
    sum_mul_perm σ₂ τ₂ h₂ h₂' x₂ fun k => R ⟨n + n + k.val, by omega⟩]

end LibPermSum
-- ==== Proof.LibBridge.lean ====
/-
  The algebraic bridge between a matrix product against a concatenation of three blocks, the second and third
  with their columns permuted, and the sum of three block products in which the matching ROWS of the right factor
  are permuted by the inverse permutations. Over a commutative additive monoid with a multiplication (the extended
  reals: a re-indexing of a finite sum needs no finiteness), under any outer function (a rectifier max(·, 0)).
-/
import proofs.«204681_g65575560675685_cont_9to1_m_144_57_alg».proof.Proof.LibPermSum
import Mathlib.Logic.Equiv.Defs

open scoped BigOperators

namespace LibBridge

/-- One entry of the product: X is a row of the left factor [3·128], R a column of the right factor [3·128];
    X is x₀ on the first third, x₁ ∘ π₁ on the second, x₂ ∘ π₂ on the third. Then under any f,
    f (∑ k, X k * R k) = f ((∑ k, x₀ k * R k + ∑ j, x₁ j * R (128 + π₁⁻¹ j)) + ∑ j, x₂ j * R (256 + π₂⁻¹ j)). -/
theorem dot_concat3_perm {M : Type*} [AddCommMonoid M] [Mul M] {β : Type*} (f : M → β) (X R : Fin 384 → M)
    (x₀ x₁ x₂ : Fin 128 → M) (π₁ π₂ : Equiv.Perm (Fin 128))
    (h₀ : ∀ k : Fin 128, X ⟨k.val, by omega⟩ = x₀ k)
    (h₁ : ∀ k : Fin 128, X ⟨128 + k.val, by omega⟩ = x₁ (π₁ k))
    (h₂ : ∀ k : Fin 128, X ⟨256 + k.val, by omega⟩ = x₂ (π₂ k)) :
    f (∑ k : Fin 384, X k * R k)
      = f ((∑ k : Fin 128, x₀ k * R ⟨k.val, by omega⟩ + ∑ j : Fin 128, x₁ j * R ⟨128 + (π₁.symm j).val, by omega⟩)
          + ∑ j : Fin 128, x₂ j * R ⟨256 + (π₂.symm j).val, by omega⟩) :=
  congrArg f (LibPermSum.sum_concat3_perm (N := 384) (n := 128) rfl X R x₀ x₁ x₂ π₁ π₁.symm π₂ π₂.symm
    π₁.apply_symm_apply π₁.symm_apply_apply π₂.apply_symm_apply π₂.symm_apply_apply h₀ h₁ h₂)

/-- The same with the right-hand side written against an already permuted right factor R' (R' is R on the first
    third, R (128 + π₁⁻¹ ·) on the second, R (256 + π₂⁻¹ ·) on the third): the three plain block products. -/
theorem dot_concat3_perm' {M : Type*} [AddCommMonoid M] [Mul M] {β : Type*} (f : M → β) (X R R' : Fin 384 → M)
    (x₀ x₁ x₂ : Fin 128 → M) (π₁ π₂ : Equiv.Perm (Fin 128))
    (h₀ : ∀ k : Fin 128, X ⟨k.val, by omega⟩ = x₀ k)
    (h₁ : ∀ k : Fin 128, X ⟨128 + k.val, by omega⟩ = x₁ (π₁ k))
    (h₂ : ∀ k : Fin 128, X ⟨256 + k.val, by omega⟩ = x₂ (π₂ k))
    (r₀ : ∀ k : Fin 128, R' ⟨k.val, by omega⟩ = R ⟨k.val, by omega⟩)
    (r₁ : ∀ j : Fin 128, R' ⟨128 + j.val, by omega⟩ = R ⟨128 + (π₁.symm j).val, by omega⟩)
    (r₂ : ∀ j : Fin 128, R' ⟨256 + j.val, by omega⟩ = R ⟨256 + (π₂.symm j).val, by omega⟩) :
    f (∑ k : Fin 384, X k * R k)
      = f ((∑ k : Fin 128, x₀ k * R' ⟨k.val, by omega⟩ + ∑ j : Fin 128, x₁ j * R' ⟨128 + j.val, by omega⟩)
          + ∑ j : Fin 128, x₂ j * R' ⟨256 + j.val, by omega⟩) := by
  rw [dot_concat3_perm f X R x₀ x₁ x₂ π₁ π₂ h₀ h₁ h₂]
  simp only [r₀, r₁, r₂]

/-- The same with the third block's index spelt 128 + 128 + k (as a concatenation of three blocks of 128 reads it),
    on both factors. -/
theorem dot_concat3_perm'' {M : Type*} [AddCommMonoid M] [Mul M] {β : Type*} (f : M → β) (X R R' : Fin 384 → M)
    (x₀ x₁ x₂ : Fin 128 → M) (π₁ π₂ : Equiv.Perm (Fin 128))
    (h₀ : ∀ k : Fin 128, X ⟨k.val, by omega⟩ = x₀ k)
    (h₁ : ∀ k : Fin 128, X ⟨128 + k.val, by omega⟩ = x₁ (π₁ k))
    (h₂ : ∀ k : Fin 128, X ⟨128 + 128 + k.val, by omega⟩ = x₂ (π₂ k))
    (r₀ : ∀ k : Fin 128, R' ⟨k.val, by omega⟩ = R ⟨k.val, by omega⟩)
    (r₁ : ∀ j : Fin 128, R' ⟨128 + j.val, by omega⟩ = R ⟨128 + (π₁.symm j).val, by omega⟩)
    (r₂ : ∀ j : Fin 128, R' ⟨128 + 128 + j.val, by omega⟩ = R ⟨256 + (π₂.symm j).val, by omega⟩) :
    f (∑ k : Fin 384, X k * R k)
      = f ((∑ k : Fin 128, x₀ k * R' ⟨k.val, by omega⟩ + ∑ j : Fin 128, x₁ j * R' ⟨128 + j.val, by omega⟩)
          + ∑ j : Fin 128, x₂ j * R' ⟨256 + j.val, by omega⟩) :=
  dot_concat3_perm' f X R R' x₀ x₁ x₂ π₁ π₂ h₀ h₁ h₂ r₀ r₁ r₂

/-- A permutation of fewer than 2^w positions is determined by its table of w-bit words: two permutations whose
    word tables agree are equal (how the permutation read off one program's shuffle is identified with the one read
    off the other's). -/
theorem perm_ext_of_words {n w : Nat} (hn : n ≤ 2 ^ w) (π π' : Equiv.Perm (Fin n))
    (h : ∀ k : Fin n, BitVec.ofNat w (π k).val = BitVec.ofNat w (π' k).val) : π = π' := by
  refine Equiv.ext fun k => Fin.ext ?_
  have e := congrArg BitVec.toNat (h k)
  rw [BitVec.toNat_ofNat, BitVec.toNat_ofNat, Nat.mod_eq_of_lt (lt_of_lt_of_le (π k).isLt hn),
    Nat.mod_eq_of_lt (lt_of_lt_of_le (π' k).isLt hn)] at e
  exact e

end LibBridge
-- ==== Proof.RefHashA1.lean ====
import proofs.«204681_g65575560675685_cont_9to1_m_144_57_alg».proof.Proof.RefSegs

/-! Shuffle 1, the hash of the key's split: its two results as functions of its four operands. The chain of 223 operations is folded once; what it computes is kept as two functions that nothing unfolds. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

set_option maxHeartbeats 40000000 in
/-- The hash's two results from its four operands: each operation's result put in place of its reads, once. -/
def tfA1_spec : TfSpec (F := F) tfA1 main_call0_call0_v1 main_call0_call0_v3 main_call0_call0_v10 main_call0_call0_v9 main_call0_call0_v11_0 main_call0_call0_v11_1 := by
  apply TfSpec.mk
  case h =>
  intro W k0 k1 x0 x1 h0 h1 h2 h3
  unfold tfA1 ops_tfA ops_tfA_p0 ops_tfA_p1 ops_tfA_p2 ops_tfA_p3
  simp (disch := decide) only [List.cons_append, List.nil_append, after_cons, after_nil,
      nullary_result', unary_result', binary_result', ternary_result', reshape_result',
      nullary_result_ne', unary_result_ne', binary_result_ne', ternary_result_ne', reshape_result_ne', h0, h1, h2, h3]
  exact ⟨rfl, rfl⟩

theorem tfA1_read1 (W : Valuation τ sig (Elt F)) :
    after tfA1 W (no_index (Proc.devRef .tc main_call0_call0_v11_0))
      = (tfA1_spec (F := F)).f1 (W (Proc.devRef .tc main_call0_call0_v1)) (W (Proc.devRef .tc main_call0_call0_v3)) (W (Proc.devRef .tc main_call0_call0_v10)) (W (Proc.devRef .tc main_call0_call0_v9)) :=
  ((tfA1_spec (F := F)).h W _ _ _ _ rfl rfl rfl rfl).1
theorem tfA1_read2 (W : Valuation τ sig (Elt F)) :
    after tfA1 W (no_index (Proc.devRef .tc main_call0_call0_v11_1))
      = (tfA1_spec (F := F)).f2 (W (Proc.devRef .tc main_call0_call0_v1)) (W (Proc.devRef .tc main_call0_call0_v3)) (W (Proc.devRef .tc main_call0_call0_v10)) (W (Proc.devRef .tc main_call0_call0_v9)) :=
  ((tfA1_spec (F := F)).h W _ _ _ _ rfl rfl rfl rfl).2
/-- The hash writes only indices from 17 on: a buffer below keeps its contents. -/
theorem tfA1_keep (W : Valuation τ sig (Elt F)) {r : Ref sig .tc} (hr : r.idx.val < 17) :
    after tfA1 W (no_index (Proc.devRef .tc r)) = W (Proc.devRef .tc r) :=
  after_of_writesOnly tfA1_wo W (Nat.not_le.2 hr)

end Cert.ReferenceIdeal.RefRun

end
-- ==== Proof.RefHashB1.lean ====
import proofs.«204681_g65575560675685_cont_9to1_m_144_57_alg».proof.Proof.RefSegs

/-! Shuffle 1, the hash of the counters: its two results as functions of its four operands. The chain of 223 operations is folded once; what it computes is kept as two functions that nothing unfolds. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

set_option maxHeartbeats 40000000 in
/-- The hash's two results from its four operands: each operation's result put in place of its reads, once. -/
def tfB1_spec : TfSpec (F := F) tfB1 main_call0_v6 main_call0_v8 main_call0_v15 main_call0_v14 main_call0_v16_0 main_call0_v16_1 := by
  apply TfSpec.mk
  case h =>
  intro W k0 k1 x0 x1 h0 h1 h2 h3
  unfold tfB1 ops_tfB ops_tfB_p0 ops_tfB_p1 ops_tfB_p2 ops_tfB_p3
  simp (disch := decide) only [List.cons_append, List.nil_append, after_cons, after_nil,
      nullary_result', unary_result', binary_result', ternary_result', reshape_result',
      nullary_result_ne', unary_result_ne', binary_result_ne', ternary_result_ne', reshape_result_ne', h0, h1, h2, h3]
  exact ⟨rfl, rfl⟩

theorem tfB1_read1 (W : Valuation τ sig (Elt F)) :
    after tfB1 W (no_index (Proc.devRef .tc main_call0_v16_0))
      = (tfB1_spec (F := F)).f1 (W (Proc.devRef .tc main_call0_v6)) (W (Proc.devRef .tc main_call0_v8)) (W (Proc.devRef .tc main_call0_v15)) (W (Proc.devRef .tc main_call0_v14)) :=
  ((tfB1_spec (F := F)).h W _ _ _ _ rfl rfl rfl rfl).1
theorem tfB1_read2 (W : Valuation τ sig (Elt F)) :
    after tfB1 W (no_index (Proc.devRef .tc main_call0_v16_1))
      = (tfB1_spec (F := F)).f2 (W (Proc.devRef .tc main_call0_v6)) (W (Proc.devRef .tc main_call0_v8)) (W (Proc.devRef .tc main_call0_v15)) (W (Proc.devRef .tc main_call0_v14)) :=
  ((tfB1_spec (F := F)).h W _ _ _ _ rfl rfl rfl rfl).2
/-- The hash writes only indices from 17 on: a buffer below keeps its contents. -/
theorem tfB1_keep (W : Valuation τ sig (Elt F)) {r : Ref sig .tc} (hr : r.idx.val < 17) :
    after tfB1 W (no_index (Proc.devRef .tc r)) = W (Proc.devRef .tc r) :=
  after_of_writesOnly tfB1_wo W (Nat.not_le.2 hr)

end Cert.ReferenceIdeal.RefRun

end
-- ==== Proof.RefShuffle1.lean ====
import proofs.«204681_g65575560675685_cont_9to1_m_144_57_alg».proof.Proof.RefHashA1
import proofs.«204681_g65575560675685_cont_9to1_m_144_57_alg».proof.Proof.RefHashB1

/-! Shuffle 1: the sort keys it computes from its constant key depend on nothing, and its result is the stable sort of the positions 0 … 127 by those keys. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

/-- The constant key 1 as two words: its high word (a shift by 32, which the host's shift answers) and its low word. -/
def key1 : IVec S2 32 :=
  concatenate S2 0
    [⟨S1, broadcastInDim S1 ![] bcast_S_S1 (Host.shrui (constantI S_ 32 1#32) (constantI S_ 32 32#32))⟩,
     ⟨S1, broadcastInDim S1 ![] bcast_S_S1 (andi (constantI S_ 32 1#32) (constantI S_ 32 4294967295#32))⟩]
    concatenates_S1_S1_S2_d0

/-- @main's stretch before shuffle 1 leaves the key buffer at `key1`. -/
theorem mA_key (W : Valuation τ sig (Elt F)) : after mA W (no_index (Proc.devRef .tc main_v6)) = key1 := by
  unfold mA ops_main_s0
  simp (disch := decide) only [after_cons, after_nil,
      nullary_result', unary_result', binary_result', ternary_result', reshape_result',
      nullary_result_ne', unary_result_ne', binary_result_ne', ternary_result_ne', reshape_result_ne']
  rfl
/-- … and the positions buffer at 0 … 127. -/
theorem mA_iota (W : Valuation τ sig (Elt F)) : after mA W (no_index (Proc.devRef .tc main_v7)) = iotaInDim S128 32 0 := by
  unfold mA ops_main_s0
  simp (disch := decide) only [after_cons, after_nil,
      nullary_result', unary_result', binary_result', ternary_result', reshape_result',
      nullary_result_ne', unary_result_ne', binary_result_ne', ternary_result_ne', reshape_result_ne']

/-- Two pairs of words laid out as the rows' columns of a 2 × 2 table. -/
def splitLayout1 (a b : IVec S2 32) : IVec S2x2 32 :=
  concatenate S2x2 1
    [⟨S2x1, broadcastInDim S2x1 ![0] bcast_S2_S2x1_0 a⟩, ⟨S2x1, broadcastInDim S2x1 ![0] bcast_S2_S2x1_0 b⟩]
    concatenates_S2x1_S2x1_S2x2_d1

theorem spB1_read (X : Valuation τ sig (Elt F)) :
    after spB1 X (no_index (Proc.devRef .tc main_call0_v0))
      = splitLayout1 (X (Proc.devRef .tc main_call0_call0_v11_0)) (X (Proc.devRef .tc main_call0_call0_v11_1)) := by
  unfold spB1 ops_split_s1
  simp (disch := decide) only [after_cons, after_nil,
      nullary_result', unary_result', binary_result', ternary_result', reshape_result',
      nullary_result_ne', unary_result_ne', binary_result_ne', ternary_result_ne', reshape_result_ne']
  rfl
theorem spB1_keep (X : Valuation τ sig (Elt F)) {r : Ref sig .tc} (hr : r.idx.val < 17) :
    after spB1 X (no_index (Proc.devRef .tc r)) = X (Proc.devRef .tc r) :=
  after_of_writesOnly spB1_wo X (Nat.not_le.2 hr)

set_option maxHeartbeats 4000000 in
/-- The sort keys of shuffle 1: what the stretch leaves in the keys' buffer, from any contents. -/
def keys1_spec : ClosedRead (F := F) (mA ++ ((spA1 ++ (tfA1 ++ spB1)) ++ (shA1 ++ (tfB1 ++ shB1)))) main_call0_v17 := by
  apply ClosedRead.mk
  case h =>
  intro W
  unfold spA1 ops_split_s0 shA1 ops_shuffle_s0 shB1 ops_shuffle_s1
  simp (disch := decide) only [after_append, List.cons_append, List.nil_append, after_cons, after_nil,
      nullary_result', unary_result', binary_result', ternary_result', reshape_result',
      nullary_result_ne', unary_result_ne', binary_result_ne', ternary_result_ne', reshape_result_ne',
      tfA1_read1, tfA1_read2, tfB1_read1, tfB1_read2, tfA1_keep, tfB1_keep,
      spB1_read, spB1_keep, mA_key, mA_iota]
  exact rfl

/-- The 128 sort keys of shuffle 1 (a hash of the constant key 1; never unfolded). -/
def keys1 : IVec S128 32 := (keys1_spec (F := F)).val

/-- Shuffle 1's table: the positions 0 … 127 stably sorted by the keys. -/
def perm1 : IVec S128 32 :=
  (Host.sort2 S128 0 comparator_i32_i32_d0 (keys1 (F := F)) (iotaInDim S128 32 0)).2

attribute [local irreducible] Host.sort2 in
set_option maxHeartbeats 4000000 in
/-- From any contents, @main's stretch through shuffle 1 leaves the shuffle's result buffer at `perm1`. -/
theorem perm1_read (W : Valuation τ sig (Elt F)) :
    after (mA ++ ((spA1 ++ (tfA1 ++ spB1)) ++ (shA1 ++ (tfB1 ++ shB1)))) W (Proc.devRef .tc main_v8) = perm1 (F := F) := by
  unfold spA1 ops_split_s0 shA1 ops_shuffle_s0 shB1 ops_shuffle_s1
  simp (disch := decide) only [after_append, List.cons_append, List.nil_append, after_cons, after_nil,
      nullary_result', unary_result', binary_result', ternary_result', reshape_result',
      nullary_result_ne', unary_result_ne', binary_result_ne', ternary_result_ne', reshape_result_ne',
      tfA1_read1, tfA1_read2, tfB1_read1, tfB1_read2, tfA1_keep, tfB1_keep,
      spB1_read, spB1_keep, mA_key, mA_iota]
  rfl

/-- The stretch through shuffle 1 writes only indices from 6 on. -/
theorem pre1_wo : WritesOnly (Ge 6) (mA ++ ((spA1 ++ (tfA1 ++ spB1)) ++ (shA1 ++ (tfB1 (F := F) ++ shB1)))) :=
  mA_wo.append (sh1_wo.ge_mono (by decide))

end Cert.ReferenceIdeal.RefRun

end
-- ==== Proof.RefHashA2.lean ====
import proofs.«204681_g65575560675685_cont_9to1_m_144_57_alg».proof.Proof.RefSegs

/-! Shuffle 2, the hash of the key's split: its two results as functions of its four operands. The chain of 223 operations is folded once; what it computes is kept as two functions that nothing unfolds. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

set_option maxHeartbeats 40000000 in
/-- The hash's two results from its four operands: each operation's result put in place of its reads, once. -/
def tfA2_spec : TfSpec (F := F) tfA2 main_call1_call0_v1 main_call1_call0_v3 main_call1_call0_v10 main_call1_call0_v9 main_call1_call0_v11_0 main_call1_call0_v11_1 := by
  apply TfSpec.mk
  case h =>
  intro W k0 k1 x0 x1 h0 h1 h2 h3
  unfold tfA2 ops_tfA ops_tfA_p0 ops_tfA_p1 ops_tfA_p2 ops_tfA_p3
  simp (disch := decide) only [List.cons_append, List.nil_append, after_cons, after_nil,
      nullary_result', unary_result', binary_result', ternary_result', reshape_result',
      nullary_result_ne', unary_result_ne', binary_result_ne', ternary_result_ne', reshape_result_ne', h0, h1, h2, h3]
  exact ⟨rfl, rfl⟩

theorem tfA2_read1 (W : Valuation τ sig (Elt F)) :
    after tfA2 W (no_index (Proc.devRef .tc main_call1_call0_v11_0))
      = (tfA2_spec (F := F)).f1 (W (Proc.devRef .tc main_call1_call0_v1)) (W (Proc.devRef .tc main_call1_call0_v3)) (W (Proc.devRef .tc main_call1_call0_v10)) (W (Proc.devRef .tc main_call1_call0_v9)) :=
  ((tfA2_spec (F := F)).h W _ _ _ _ rfl rfl rfl rfl).1
theorem tfA2_read2 (W : Valuation τ sig (Elt F)) :
    after tfA2 W (no_index (Proc.devRef .tc main_call1_call0_v11_1))
      = (tfA2_spec (F := F)).f2 (W (Proc.devRef .tc main_call1_call0_v1)) (W (Proc.devRef .tc main_call1_call0_v3)) (W (Proc.devRef .tc main_call1_call0_v10)) (W (Proc.devRef .tc main_call1_call0_v9)) :=
  ((tfA2_spec (F := F)).h W _ _ _ _ rfl rfl rfl rfl).2
/-- The hash writes only indices from 508 on: a buffer below keeps its contents. -/
theorem tfA2_keep (W : Valuation τ sig (Elt F)) {r : Ref sig .tc} (hr : r.idx.val < 508) :
    after tfA2 W (no_index (Proc.devRef .tc r)) = W (Proc.devRef .tc r) :=
  after_of_writesOnly tfA2_wo W (Nat.not_le.2 hr)

end Cert.ReferenceIdeal.RefRun

end
-- ==== Proof.RefHashB2.lean ====
import proofs.«204681_g65575560675685_cont_9to1_m_144_57_alg».proof.Proof.RefSegs

/-! Shuffle 2, the hash of the counters: its two results as functions of its four operands. The chain of 223 operations is folded once; what it computes is kept as two functions that nothing unfolds. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

set_option maxHeartbeats 40000000 in
/-- The hash's two results from its four operands: each operation's result put in place of its reads, once. -/
def tfB2_spec : TfSpec (F := F) tfB2 main_call1_v6 main_call1_v8 main_call1_v15 main_call1_v14 main_call1_v16_0 main_call1_v16_1 := by
  apply TfSpec.mk
  case h =>
  intro W k0 k1 x0 x1 h0 h1 h2 h3
  unfold tfB2 ops_tfB ops_tfB_p0 ops_tfB_p1 ops_tfB_p2 ops_tfB_p3
  simp (disch := decide) only [List.cons_append, List.nil_append, after_cons, after_nil,
      nullary_result', unary_result', binary_result', ternary_result', reshape_result',
      nullary_result_ne', unary_result_ne', binary_result_ne', ternary_result_ne', reshape_result_ne', h0, h1, h2, h3]
  exact ⟨rfl, rfl⟩

theorem tfB2_read1 (W : Valuation τ sig (Elt F)) :
    after tfB2 W (no_index (Proc.devRef .tc main_call1_v16_0))
      = (tfB2_spec (F := F)).f1 (W (Proc.devRef .tc main_call1_v6)) (W (Proc.devRef .tc main_call1_v8)) (W (Proc.devRef .tc main_call1_v15)) (W (Proc.devRef .tc main_call1_v14)) :=
  ((tfB2_spec (F := F)).h W _ _ _ _ rfl rfl rfl rfl).1
theorem tfB2_read2 (W : Valuation τ sig (Elt F)) :
    after tfB2 W (no_index (Proc.devRef .tc main_call1_v16_1))
      = (tfB2_spec (F := F)).f2 (W (Proc.devRef .tc main_call1_v6)) (W (Proc.devRef .tc main_call1_v8)) (W (Proc.devRef .tc main_call1_v15)) (W (Proc.devRef .tc main_call1_v14)) :=
  ((tfB2_spec (F := F)).h W _ _ _ _ rfl rfl rfl rfl).2
/-- The hash writes only indices from 508 on: a buffer below keeps its contents. -/
theorem tfB2_keep (W : Valuation τ sig (Elt F)) {r : Ref sig .tc} (hr : r.idx.val < 508) :
    after tfB2 W (no_index (Proc.devRef .tc r)) = W (Proc.devRef .tc r) :=
  after_of_writesOnly tfB2_wo W (Nat.not_le.2 hr)

end Cert.ReferenceIdeal.RefRun

end
-- ==== Proof.RefShuffle2.lean ====
import proofs.«204681_g65575560675685_cont_9to1_m_144_57_alg».proof.Proof.RefHashA2
import proofs.«204681_g65575560675685_cont_9to1_m_144_57_alg».proof.Proof.RefHashB2

/-! Shuffle 2: the sort keys it computes from its constant key depend on nothing, and its result is the stable sort of the positions 0 … 127 by those keys. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

/-- The constant key 2 as two words: its high word (a shift by 32, which the host's shift answers) and its low word. -/
def key2 : IVec S2 32 :=
  concatenate S2 0
    [⟨S1, broadcastInDim S1 ![] bcast_S_S1 (Host.shrui (constantI S_ 32 2#32) (constantI S_ 32 32#32))⟩,
     ⟨S1, broadcastInDim S1 ![] bcast_S_S1 (andi (constantI S_ 32 2#32) (constantI S_ 32 4294967295#32))⟩]
    concatenates_S1_S1_S2_d0

/-- @main's stretch before shuffle 2 leaves the key buffer at `key2`. -/
theorem mB_key (W : Valuation τ sig (Elt F)) : after mB W (no_index (Proc.devRef .tc main_v15)) = key2 := by
  unfold mB ops_main_s1
  simp (disch := decide) only [after_cons, after_nil,
      nullary_result', unary_result', binary_result', ternary_result', reshape_result',
      nullary_result_ne', unary_result_ne', binary_result_ne', ternary_result_ne', reshape_result_ne']
  rfl
/-- … and the positions buffer at 0 … 127. -/
theorem mB_iota (W : Valuation τ sig (Elt F)) : after mB W (no_index (Proc.devRef .tc main_v16)) = iotaInDim S128 32 0 := by
  unfold mB ops_main_s1
  simp (disch := decide) only [after_cons, after_nil,
      nullary_result', unary_result', binary_result', ternary_result', reshape_result',
      nullary_result_ne', unary_result_ne', binary_result_ne', ternary_result_ne', reshape_result_ne']

/-- Two pairs of words laid out as the rows' columns of a 2 × 2 table. -/
def splitLayout2 (a b : IVec S2 32) : IVec S2x2 32 :=
  concatenate S2x2 1
    [⟨S2x1, broadcastInDim S2x1 ![0] bcast_S2_S2x1_0 a⟩, ⟨S2x1, broadcastInDim S2x1 ![0] bcast_S2_S2x1_0 b⟩]
    concatenates_S2x1_S2x1_S2x2_d1

theorem spB2_read (X : Valuation τ sig (Elt F)) :
    after spB2 X (no_index (Proc.devRef .tc main_call1_v0))
      = splitLayout2 (X (Proc.devRef .tc main_call1_call0_v11_0)) (X (Proc.devRef .tc main_call1_call0_v11_1)) := by
  unfold spB2 ops_split_s1
  simp (disch := decide) only [after_cons, after_nil,
      nullary_result', unary_result', binary_result', ternary_result', reshape_result',
      nullary_result_ne', unary_result_ne', binary_result_ne', ternary_result_ne', reshape_result_ne']
  rfl
theorem spB2_keep (X : Valuation τ sig (Elt F)) {r : Ref sig .tc} (hr : r.idx.val < 508) :
    after spB2 X (no_index (Proc.devRef .tc r)) = X (Proc.devRef .tc r) :=
  after_of_writesOnly spB2_wo X (Nat.not_le.2 hr)

set_option maxHeartbeats 4000000 in
/-- The sort keys of shuffle 2: what the stretch leaves in the keys' buffer, from any contents. -/
def keys2_spec : ClosedRead (F := F) (mB ++ ((spA2 ++ (tfA2 ++ spB2)) ++ (shA2 ++ (tfB2 ++ shB2)))) main_call1_v17 := by
  apply ClosedRead.mk
  case h =>
  intro W
  unfold spA2 ops_split_s0 shA2 ops_shuffle_s0 shB2 ops_shuffle_s1
  simp (disch := decide) only [after_append, List.cons_append, List.nil_append, after_cons, after_nil,
      nullary_result', unary_result', binary_result', ternary_result', reshape_result',
      nullary_result_ne', unary_result_ne', binary_result_ne', ternary_result_ne', reshape_result_ne',
      tfA2_read1, tfA2_read2, tfB2_read1, tfB2_read2, tfA2_keep, tfB2_keep,
      spB2_read, spB2_keep, mB_key, mB_iota]
  exact rfl

/-- The 128 sort keys of shuffle 2 (a hash of the constant key 2; never unfolded). -/
def keys2 : IVec S128 32 := (keys2_spec (F := F)).val

/-- Shuffle 2's table: the positions 0 … 127 stably sorted by the keys. -/
def perm2 : IVec S128 32 :=
  (Host.sort2 S128 0 comparator_i32_i32_d0 (keys2 (F := F)) (iotaInDim S128 32 0)).2

attribute [local irreducible] Host.sort2 in
set_option maxHeartbeats 4000000 in
/-- From any contents, @main's stretch through shuffle 2 leaves the shuffle's result buffer at `perm2`. -/
theorem perm2_read (W : Valuation τ sig (Elt F)) :
    after (mB ++ ((spA2 ++ (tfA2 ++ spB2)) ++ (shA2 ++ (tfB2 ++ shB2)))) W (Proc.devRef .tc main_v17) = perm2 (F := F) := by
  unfold spA2 ops_split_s0 shA2 ops_shuffle_s0 shB2 ops_shuffle_s1
  simp (disch := decide) only [after_append, List.cons_append, List.nil_append, after_cons, after_nil,
      nullary_result', unary_result', binary_result', ternary_result', reshape_result',
      nullary_result_ne', unary_result_ne', binary_result_ne', ternary_result_ne', reshape_result_ne',
      tfA2_read1, tfA2_read2, tfB2_read1, tfB2_read2, tfA2_keep, tfB2_keep,
      spB2_read, spB2_keep, mB_key, mB_iota]
  rfl

/-- The stretch through shuffle 2 writes only indices from 497 on. -/
theorem pre2_wo : WritesOnly (Ge 497) (mB ++ ((spA2 ++ (tfA2 ++ spB2)) ++ (shA2 ++ (tfB2 (F := F) ++ shB2)))) :=
  mB_wo.append (sh2_wo.ge_mono (by decide))

end Cert.ReferenceIdeal.RefRun

end
-- ==== Proof.RefTail.lean ====
import proofs.«204681_g65575560675685_cont_9to1_m_144_57_alg».proof.Proof.RefSegs

/-! The reference after its two shuffles, as one function of the six arguments and the two shuffled position tables:
row gathers (an index below zero moved up by the row count, an index out of range giving NaN), column gathers by the
tables, the three blocks side by side, the product with the weights, the maximum with zero. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

/-- A three-operand operation's result with each operand's contents at its own reference. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- A table of row indices as a column of start indices: an index below zero is moved up by the row count. -/
def rowIndex (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 100000#32))) idx)

/-- Which rows' indices lie in 0 … 99999. -/
def rowInRange (idx : IVec S100000 32) : IVec S100000 1 :=
  Host.reduce IntOp.andi
    (andi (cmpi .sge (rowIndex idx) (broadcastInDim S100000x1 ![] bcast_S_S100000x1 (constantI S_ 32 0#32)))
      (cmpi .sle (rowIndex idx) (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

/-- The rows of `x` named by `idx`: row `r` is row `idx r` of `x` where that is in range, NaN where it is not. -/
def takeRows (x : FVec F S100000x128 .f32) (idx : IVec S100000 32) : FVec F S100000x128 .f32 :=
  select (broadcastInDim S100000x128 ![0] bcast_S100000_S100000x128_0 (rowInRange idx))
    (Host.gather gather_S100000x128_S100000x1_S100000x128_1_0_n_n_0_1_1128 x (rowIndex idx))
    (broadcastInDim S100000x128 ![] bcast_S_S100000x128 (constant S_ .f32 0x7FC00000#32))

/-- A table of column positions as a column of start indices: a position below zero is moved up by 128. -/
def colIndex (p : IVec S128 32) : IVec S128x1 32 :=
  broadcastInDim S128x1 ![0] bcast_S128_S128x1_0
    (select (cmpi .slt p (broadcastInDim S128 ![] bcast_S_S128 (constantI S_ 32 0#32)))
      (addi p (broadcastInDim S128 ![] bcast_S_S128 (constantI S_ 32 128#32))) p)

/-- The columns of `x` in the order the table gives: column `c` is column `p c` of `x`. -/
def permCols (x : FVec F S100000x128 .f32) (p : IVec S128 32) : FVec F S100000x128 .f32 :=
  Host.gather gather_S100000x128_S128x1_S100000x128_0_1_n_n_1_1_1000001 x (colIndex p)

/-- The three blocks side by side: the reviews, the users' rows with their columns shuffled by `p2`, the items' rows
    with their columns shuffled by `p1`. -/
def RefX (a0 a1 a2 : FVec F S100000x128 .f32) (a3 a4 : IVec S100000 32) (p1 p2 : IVec S128 32) : FVec F S100000x384 .f32 :=
  concatenate S100000x384 1
    [⟨S100000x128, a0⟩, ⟨S100000x128, permCols (takeRows a1 a4) p2⟩, ⟨S100000x128, permCols (takeRows a2 a3) p1⟩]
    concatenates_S100000x128_S100000x128_S100000x128_S100000x384_d1

/-- The result from the six arguments and the two shuffled tables. -/
def RefTail (a0 a1 a2 : FVec F S100000x128 .f32) (a3 a4 : IVec S100000 32) (a5 : FVec F S384x128 .f32) (p1 p2 : IVec S128 32) :
    FVec F S100000x128 .f32 :=
  maximumf (Host.dotGeneral dot_S100000x384_S384x128_S100000x128_1_0_0_1_n_n none (RefX a0 a1 a2 a3 a4 p1 p2) a5)
    (broadcastInDim S100000x128 ![] bcast_S_S100000x128 (constant S_ .f32 0x00000000#32))

attribute [local irreducible] Host.gather Host.reduce in
set_option maxHeartbeats 4000000 in
/-- The stretch after the shuffles leaves the result buffer at `RefTail` of the contents it starts from. -/
theorem tail_read (W : Valuation τ sig (Elt F)) :
    after ([] ++ (tk1 ++ (mC ++ (tk2 ++ (mD ++ (rl ++ [])))))) W (Proc.devRef .tc main_v36)
      = RefTail (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_v8)) (W (Proc.devRef .tc main_v17)) := by
  unfold tk1 mC tk2 mD rl ops_take ops_take_s0 ops_take_s1 ops_where ops_where_s0 ops_main_s2 ops_main_s3 ops_relu ops_relu_s0
  simp (disch := decide) only [List.cons_append, List.nil_append, List.append_nil, after_cons, after_nil,
      nullary_result', unary_result', binary_result', ternary_result', reshape_result', nary3_result',
      nullary_result_ne', unary_result_ne', binary_result_ne', ternary_result_ne', reshape_result_ne', nary_result_ne']
  rfl

end Cert.ReferenceIdeal.RefRun

end
-- ==== Proof.RefRun.lean ====
import proofs.«204681_g65575560675685_cont_9to1_m_144_57_alg».proof.Proof.RefShuffle1
import proofs.«204681_g65575560675685_cont_9to1_m_144_57_alg».proof.Proof.RefShuffle2
import proofs.«204681_g65575560675685_cont_9to1_m_144_57_alg».proof.Proof.RefTail

/-! The reference's run: every weakly fair execution of @main terminates with the result buffer at `RefG` of the six
argument arrays and the arguments unchanged. `RefG` is the tail function at the two shuffles' tables. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

/-- The reference's result as one function of its six argument arrays. -/
def RefG (a0 a1 a2 : FVec F S100000x128 .f32) (a3 a4 : IVec S100000 32) (a5 : FVec F S384x128 .f32) : FVec F S100000x128 .f32 :=
  RefTail a0 a1 a2 a3 a4 a5 (perm1 (F := F)) (perm2 (F := F))

/-- @main's operations: through shuffle 1, through shuffle 2, the rest. -/
theorem ops_main_eq_three : ops_main (F := F) = ((mA ++ ((spA1 ++ (tfA1 ++ spB1)) ++ (shA1 ++ (tfB1 ++ shB1)))) ++ (mB ++ ((spA2 ++ (tfA2 ++ spB2)) ++ (shA2 ++ (tfB2 ++ shB2))))) ++ ([] ++ (tk1 ++ (mC ++ (tk2 ++ (mD ++ (rl ++ [])))))) := by
  rw [ops_main_eq_segs]
  simp only [List.append_assoc]

/-- The fold of @main's operations at the result buffer is `RefG` of the arguments' contents. -/
theorem value (V : Valuation τ sig (Elt F)) :
    after ops_main V (Proc.devRef .tc main_v36)
      = RefG (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_main_eq_three, after_append ((mA ++ ((spA1 ++ (tfA1 ++ spB1)) ++ (shA1 ++ (tfB1 ++ shB1)))) ++ (mB ++ ((spA2 ++ (tfA2 ++ spB2)) ++ (shA2 ++ (tfB2 ++ shB2))))) ([] ++ (tk1 ++ (mC ++ (tk2 ++ (mD ++ (rl ++ [])))))) V,
    after_append (mA ++ ((spA1 ++ (tfA1 ++ spB1)) ++ (shA1 ++ (tfB1 ++ shB1)))) (mB ++ ((spA2 ++ (tfA2 ++ spB2)) ++ (shA2 ++ (tfB2 ++ shB2)))) V, tail_read]
  have k2 : ∀ (X : Valuation τ sig (Elt F)) {r : Ref sig .tc}, r.idx.val < 497 →
      after (mB ++ ((spA2 ++ (tfA2 ++ spB2)) ++ (shA2 ++ (tfB2 ++ shB2)))) X (Proc.devRef .tc r) = X (Proc.devRef .tc r) :=
    fun X _ hr => after_of_writesOnly pre2_wo X (Nat.not_le.2 hr)
  have k1 : ∀ (X : Valuation τ sig (Elt F)) {r : Ref sig .tc}, r.idx.val < 6 →
      after (mA ++ ((spA1 ++ (tfA1 ++ spB1)) ++ (shA1 ++ (tfB1 ++ shB1)))) X (Proc.devRef .tc r) = X (Proc.devRef .tc r) :=
    fun X _ hr => after_of_writesOnly pre1_wo X (Nat.not_le.2 hr)
  rw [k2 _ (r := main_arg0) (by decide), k2 _ (r := main_arg1) (by decide), k2 _ (r := main_arg2) (by decide),
    k2 _ (r := main_arg3) (by decide), k2 _ (r := main_arg4) (by decide), k2 _ (r := main_arg5) (by decide),
    k2 _ (r := main_v8) (by decide), perm2_read,
    k1 _ (r := main_arg0) (by decide), k1 _ (r := main_arg1) (by decide), k1 _ (r := main_arg2) (by decide),
    k1 _ (r := main_arg3) (by decide), k1 _ (r := main_arg4) (by decide), k1 _ (r := main_arg5) (by decide), perm1_read]
  rfl

/-- No operation of @main writes an argument. -/
theorem arg_keep (V : Valuation τ sig (Elt F)) {r : Ref sig .tc} (hr : r.idx.val < 6) :
    after ops_main V (Proc.devRef .tc r) = V (Proc.devRef .tc r) :=
  after_of_writesOnly ops_main_wo V (Nat.not_le.2 hr)

/-- No TensorCore buffer of the reference is scoped: its buffers are all in HBM. -/
theorem scopedRefs_eq : (Finset.univ.filter fun b : Ref sig .tc => b.isScoped) = ∅ := by
  refine Finset.filter_eq_empty_iff.2 fun b _ => ?_
  obtain ⟨sp, i, h⟩ := b
  cases sp with
  | core cs => cases cs <;> exact i.elim0
  | shared => exact fun _ => Bool.false_ne_true h
  | hbm => exact Bool.false_ne_true
  | host => exact Bool.false_ne_true
theorem scopedSems_eq : (Finset.univ.filter fun sm : SemLoc sig => sm.isScoped .tc) = ∅ := by decide

/-- On every device, for any float values, from any memory with zero counters: every weakly fair execution of the
    reference's @main terminates with the result buffer at `RefG` of the arguments' launch contents and the six
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v36) = RefG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v36).trans (value (launchContents m c)),
      (h c main_arg0).trans (arg_keep _ (by decide)), (h c main_arg1).trans (arg_keep _ (by decide)),
      (h c main_arg2).trans (arg_keep _ (by decide)), (h c main_arg3).trans (arg_keep _ (by decide)),
      (h c main_arg4).trans (arg_keep _ (by decide)), (h c main_arg5).trans (arg_keep _ (by decide))⟩)
    (run_seq scopedRefs_eq scopedSems_eq defs main (fun _ => ops_main) ops_main_eq (fun _ => ops_main_sub) m ρ
      (fun _ => List.forall_iff_forall_mem.1 ops_main_fresh))

end Cert.ReferenceIdeal.RefRun

end
-- ==== Proof.RefValue.lean ====
import proofs.«204681_g65575560675685_cont_9to1_m_144_57_alg».proof.Proof.RefRun
import proofs.«204681_g65575560675685_cont_9to1_m_144_57_alg».proof.Proof.LibPermRows
import proofs.«204681_g65575560675685_cont_9to1_m_144_57_alg».proof.Proof.LibSortPerm
import Idealize.ShloMosaic.Lib.ValueIdx
import Idealize.ShloMosaic.Lib.Pipeline.Value
import Idealize.ShloMosaic.Lib.StackMember
import Idealize.ShloMosaic.PureOps.Ideal.Laws
import Idealize.ShloMosaic.Lib.Affine

/-! The reference's result read at an index, at the ideal values: entry (r, n) is the maximum with zero of the sum over the
384 concatenated columns of the row's entry times the weight, and the concatenated row is the review's row, the user's
row (the row the user index names) with its columns in the order shuffle 2 gives, and the item's row with its columns in
the order shuffle 1 gives. The row indices are assumed in range, where the row gather is the plain lookup. -/

noncomputable section

namespace Cert.ReferenceIdeal.RefRun

open Cert.ReferenceIdeal Cert.ReferenceIdeal.Gen Idealize.ShloMosaic Idealize.ShloMosaic.ValueIdx
open Idealize.ShloMosaic.LibGatherRead Idealize.ShloMosaic.LibLayoutRead Idealize.ShloMosaic.LibPermRows Idealize.ShloMosaic.LibSortPerm

/-- Shuffle 1's permutation of the 128 positions: output position k holds source position σ1 k. -/
def σ1 : Equiv.Perm (Fin 128) := sortPerm (before2 comparator_i32_i32_d0 (keys1 (F := Ideal)) (iotaInDim S128 32 0))
/-- Shuffle 2's permutation of the 128 positions. -/
def σ2 : Equiv.Perm (Fin 128) := sortPerm (before2 comparator_i32_i32_d0 (keys2 (F := Ideal)) (iotaInDim S128 32 0))

theorem perm1_toNat (j : S128.Idx) : ((perm1 (F := Ideal)) j).toNat = (σ1 (j 0)).val :=
  sort2_iota_snd_toNat (by decide) comparator_i32_i32_d0 (keys1 (F := Ideal)) j
theorem perm2_toNat (j : S128.Idx) : ((perm2 (F := Ideal)) j).toNat = (σ2 (j 0)).val :=
  sort2_iota_snd_toNat (by decide) comparator_i32_i32_d0 (keys2 (F := Ideal)) j

/-- A table of positions below 128 has no negative word: its column of start indices is the table itself. -/
theorem colIndex_of_lt (p : IVec S128 32) (hp : ∀ j, (p j).toNat < 128) :
    colIndex p = broadcastInDim S128x1 ![0] bcast_S128_S128x1_0 p := by
  unfold colIndex
  rw [normalize_table p (broadcastInDim S128 ![] bcast_S_S128 (constantI S_ 32 0#32))
    (broadcastInDim S128 ![] bcast_S_S128 (constantI S_ 32 128#32)) (fun j => rfl) (fun j => by have := hp j; show 2 * (p j).toNat < 4294967296; omega)]

/-- The columns in a shuffle's order: column c is the column the shuffle's permutation names. -/
theorem permCols_apply (x : FVec Ideal S100000x128 .f32) (p : IVec S128 32) (σ : Fin 128 → Fin 128)
    (hp : ∀ j, (p j).toNat = (σ (j 0)).val) (r : Fin 100000) (c : Fin 128) :
    permCols x p (ix2 r c) = x (ix2 r (σ c)) := by
  unfold permCols
  rw [colIndex_of_lt p fun j => by rw [hp j]; exact (σ (j 0)).isLt]
  exact gather_cols_of_table (N := 100000) (C := 128) (w := 32) (by decide) x _ bcast_S128_S128x1_0 p σ hp r c

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Row indices in range have no negative word: the column of start indices is the table itself. -/
theorem rowIndex_of_lt (idx : IVec S100000 32) (h : ∀ j, (idx j).toNat < 100000) :
    rowIndex idx = broadcastInDim S100000x1 ![0] bcast_S100000_S100000x1_0 idx := by
  unfold rowIndex
  rw [normalize_table idx (broadcastInDim S100000 ![] bcast_S_S100000 (constantI S_ 32 0#32))
    (broadcastInDim S100000 ![] bcast_S_S100000 (constantI S_ 32 100000#32)) (fun j => rfl) (fun j => by have := h j; show 2 * (idx j).toNat < 4294967296; omega)]

/-- With every row index in range the range test passes at every row. -/
theorem rowInRange_of_lt (idx : IVec S100000 32) (h : ∀ j, (idx j).toNat < 100000) (j : S100000.Idx) :
    rowInRange idx j = 1#1 := by
  unfold rowInRange
  rw [Host.reduce_eq_foldl]
  refine foldl_andi_one _ _ fun i _ => ?_
  show IntOp.andi (IntOp.cmpi .sge (rowIndex idx i) 0#32) (IntOp.cmpi .sle (rowIndex idx i) 99999#32) = 1#1
  rw [rowIndex_of_lt idx h, bcast_col_apply]
  have hi := h (ix1 ⟨(i 0).val, idx2_lt0 i⟩)
  have e : (idx (ix1 ⟨(i 0).val, idx2_lt0 i⟩)).toInt = ((idx (ix1 ⟨(i 0).val, idx2_lt0 i⟩)).toNat : Int) :=
    BitVec.toInt_eq_toNat_of_lt (by show 2 * _ < 4294967296; omega)
  rw [IntOp.andi_eq_one, IntOp.cmpi_sge, IntOp.cmpi_sle, e]
  exact ⟨by rw [BitVec.toInt_zero]; omega, by rw [show (99999#32 : BitVec 32).toInt = 99999 from by decide]; omega⟩

set_option maxHeartbeats 1000000 in
/-- With every row index in range the row gather is the plain lookup: row r is the row its index names. -/
theorem takeRows_apply (x : FVec Ideal S100000x128 .f32) (idx : IVec S100000 32) (h : ∀ j, (idx j).toNat < 100000)
    (r : Fin 100000) (c : Fin 128) :
    takeRows x idx (ix2 r c) = x (ix2 ⟨(idx (ix1 r)).toNat, h _⟩ c) := by
  unfold takeRows
  rw [select_apply]
  have e1 : broadcastInDim S100000x128 ![0] bcast_S100000_S100000x128_0 (rowInRange idx) (ix2 r c) = 1#1 := by
    rw [broadcastInDim_apply ![0] bcast_S100000_S100000x128_0 (rowInRange idx) (ix2 r c) (ix1 r)
      (fun a => by fin_cases a; rfl)]
    exact rowInRange_of_lt idx h _
  rw [e1, rowIndex_of_lt idx h]
  have hlt : (broadcastInDim S100000x1 ![0] bcast_S100000_S100000x1_0 idx (ix2 r (0 : Fin 1))).toNat < 100000 := by
    rw [bcast_col_apply]; exact h _
  have key := gather_rows_ix2_of_lt (N := 100000) (R := 100000) (C := 128) (w := 32) (by decide)
    gather_S100000x128_S100000x1_S100000x128_1_0_n_n_0_1_1128_wf x
    (broadcastInDim S100000x1 ![0] bcast_S100000_S100000x1_0 idx) r c hlt
  have e2 : (⟨(broadcastInDim S100000x1 ![0] bcast_S100000_S100000x1_0 idx (ix2 r (0 : Fin 1))).toNat, hlt⟩ : Fin 100000)
      = ⟨(idx (ix1 r)).toNat, h _⟩ :=
    Fin.ext (congrArg BitVec.toNat (bcast_col_apply bcast_S100000_S100000x1_0 idx (ix2 r (0 : Fin 1))))
  rw [e2] at key
  exact key

/-! ## The concatenated row -/

section Blocks
variable (a0 a1 a2 : FVec Ideal S100000x128 .f32) (a3 a4 : IVec S100000 32)
  (h3 : ∀ j, (a3 j).toNat < 100000) (h4 : ∀ j, (a4 j).toNat < 100000) (r : Fin 100000) (k : Fin 128)

/-- Columns 0 … 127: the review's row. -/
theorem RefX_0 : RefX a0 a1 a2 a3 a4 (perm1 (F := Ideal)) (perm2 (F := Ideal)) (ix2 r ⟨k.val, by omega⟩) = a0 (ix2 r k) := by
  unfold RefX
  exact concat3_cols_apply_0 _ _ _ _ _ k rfl

/-- Columns 128 … 255: the row the user index names, its columns in shuffle 2's order. -/
theorem RefX_1 : RefX a0 a1 a2 a3 a4 (perm1 (F := Ideal)) (perm2 (F := Ideal)) (ix2 r ⟨128 + k.val, by omega⟩)
    = a1 (ix2 ⟨(a4 (ix1 r)).toNat, h4 _⟩ (σ2 k)) := by
  unfold RefX
  refine (concat3_cols_apply_1 _ _ _ _ _ k rfl).trans ?_
  refine (permCols_apply _ _ σ2 perm2_toNat _ k).trans ?_
  exact takeRows_apply a1 a4 h4 _ _

/-- Columns 256 … 383: the row the item index names, its columns in shuffle 1's order. -/
theorem RefX_2 : RefX a0 a1 a2 a3 a4 (perm1 (F := Ideal)) (perm2 (F := Ideal)) (ix2 r ⟨128 + 128 + k.val, by omega⟩)
    = a2 (ix2 ⟨(a3 (ix1 r)).toNat, h3 _⟩ (σ1 k)) := by
  unfold RefX
  refine (concat3_cols_apply_2 _ _ _ _ _ k rfl).trans ?_
  refine (permCols_apply _ _ σ1 perm1_toNat _ k).trans ?_
  exact takeRows_apply a2 a3 h3 _ _

end Blocks

/-- THE RESULT AT AN INDEX: the maximum with zero of the row of `RefX` times the column of the weights. -/
theorem RefG_apply (a0 a1 a2 : FVec Ideal S100000x128 .f32) (a3 a4 : IVec S100000 32) (a5 : FVec Ideal S384x128 .f32)
    (r : Fin 100000) (n : Fin 128) :
    RefG a0 a1 a2 a3 a4 a5 (ix2 r n)
      = max (∑ k : Fin 384, RefX a0 a1 a2 a3 a4 (perm1 (F := Ideal)) (perm2 (F := Ideal)) (ix2 r k) * a5 (ix2 k n)) 0 := by
  unfold RefG RefTail
  rw [maximumf_apply]
  refine congrArg₂ max ?_ ?_
  · exact StackMember.dotGeneral_plain_apply none _ a5 r n
  · show Ideal.ofBits .f32 0x00000000#32 = 0
    exact Ideal.ofBits_zero_f32

end Cert.ReferenceIdeal.RefRun

end
-- ==== Proof.RefBlocks.lean ====
import proofs.«204681_g65575560675685_cont_9to1_m_144_57_alg».proof.Proof.RefValue
import proofs.«204681_g65575560675685_cont_9to1_m_144_57_alg».proof.Proof.LibPermSum

/-! The reference's result at an index as three sums over 128 columns: the review's row against the first 128 rows of
the weights, the user's row against rows 128 … 255 taken in the inverse of shuffle 2's order, the item's row against rows
256 … 383 taken in the inverse of shuffle 1's order. Shuffling a row's columns and summing against the weights is
summing the unshuffled row against the weights' rows shuffled back. -/

noncomputable section

namespace Cert.ReferenceIdeal.RefRun

open Cert.ReferenceIdeal Cert.ReferenceIdeal.Gen Idealize.ShloMosaic Idealize.ShloMosaic.ValueIdx

theorem RefG_apply_blocks (a0 a1 a2 : FVec Ideal S100000x128 .f32) (a3 a4 : IVec S100000 32) (a5 : FVec Ideal S384x128 .f32)
    (h3 : ∀ j, (a3 j).toNat < 100000) (h4 : ∀ j, (a4 j).toNat < 100000) (r : Fin 100000) (n : Fin 128) :
    RefG a0 a1 a2 a3 a4 a5 (ix2 r n)
      = max (∑ k : Fin 128, a0 (ix2 r k) * a5 (ix2 ⟨k.val, by omega⟩ n)
          + ∑ j : Fin 128, a1 (ix2 ⟨(a4 (ix1 r)).toNat, h4 _⟩ j) * a5 (ix2 ⟨128 + (σ2.symm j).val, by omega⟩ n)
          + ∑ j : Fin 128, a2 (ix2 ⟨(a3 (ix1 r)).toNat, h3 _⟩ j) * a5 (ix2 ⟨128 + 128 + (σ1.symm j).val, by omega⟩ n)) 0 := by
  rw [RefG_apply]
  refine congrArg (fun s => max s 0) ?_
  exact LibPermSum.sum_concat3_perm (N := 384) (n := 128) rfl
    (fun k => RefX a0 a1 a2 a3 a4 (perm1 (F := Ideal)) (perm2 (F := Ideal)) (ix2 r k)) (fun k => a5 (ix2 k n))
    (fun k => a0 (ix2 r k)) (fun j => a1 (ix2 ⟨(a4 (ix1 r)).toNat, h4 _⟩ j)) (fun j => a2 (ix2 ⟨(a3 (ix1 r)).toNat, h3 _⟩ j))
    σ2 σ2.symm σ1 σ1.symm σ2.apply_symm_apply σ2.symm_apply_apply σ1.apply_symm_apply σ1.symm_apply_apply
    (fun k => RefX_0 a0 a1 a2 a3 a4 r k) (fun k => RefX_1 a0 a1 a2 a3 a4 h4 r k) (fun k => RefX_2 a0 a1 a2 a3 a4 h3 r k)

/-- The same with the zero written as the zero word's value and the third block's rows spelt 256 + …. -/
theorem RefG_apply_blocks' (a0 a1 a2 : FVec Ideal S100000x128 .f32) (a3 a4 : IVec S100000 32) (a5 : FVec Ideal S384x128 .f32)
    (h3 : ∀ j, (a3 j).toNat < 100000) (h4 : ∀ j, (a4 j).toNat < 100000) (r : Fin 100000) (n : Fin 128) :
    RefG a0 a1 a2 a3 a4 a5 (ix2 r n)
      = max ((∑ k : Fin 128, a0 (ix2 r k) * a5 (ix2 ⟨k.val, by omega⟩ n)
          + ∑ j : Fin 128, a1 (ix2 ⟨(a4 (ix1 r)).toNat, h4 _⟩ j) * a5 (ix2 ⟨128 + (σ2.symm j).val, by omega⟩ n))
          + ∑ j : Fin 128, a2 (ix2 ⟨(a3 (ix1 r)).toNat, h3 _⟩ j) * a5 (ix2 ⟨256 + (σ1.symm j).val, by omega⟩ n))
        (Ideal.ofBits .f32 0x00000000#32) := by
  rw [RefG_apply_blocks a0 a1 a2 a3 a4 a5 h3 h4 r n, Ideal.ofBits_zero_f32]

/-- A shuffle's table, word by word: position j holds the word of the source position its permutation names. -/
theorem perm1_word (j : S128.Idx) : (perm1 (F := Ideal)) j = BitVec.ofNat 32 (σ1 (j 0)).val :=
  Idealize.ShloMosaic.LibSortPerm.sort2_iota_snd comparator_i32_i32_d0 (keys1 (F := Ideal)) j
theorem perm2_word (j : S128.Idx) : (perm2 (F := Ideal)) j = BitVec.ofNat 32 (σ2 (j 0)).val :=
  Idealize.ShloMosaic.LibSortPerm.sort2_iota_snd comparator_i32_i32_d0 (keys2 (F := Ideal)) j

end Cert.ReferenceIdeal.RefRun

end
-- ==== Proof.RefPerm.lean ====
import proofs.«204681_g65575560675685_cont_9to1_m_144_57_alg».proof.Proof.RefRun

/-! The two shuffles' tables after the whole of @main: nothing after a shuffle writes its result, and a shuffle's result depends on nothing. -/

noncomputable section

namespace Cert.ReferenceIdeal.RefRun

open Cert.ReferenceIdeal Cert.ReferenceIdeal.Gen Cert.RefRunLib Idealize.ShloMosaic Idealize.ShloMosaic.TcCoe Idealize.SL.Sem Idealize.ShloMosaic.StableHlo

variable {F : FTy → Type} [FloatOps F]

/-- After all of @main, from any contents, shuffle 2's result buffer holds `perm2`. -/
theorem ops_main_v17 (V : Valuation τ sig (Elt F)) :
    after ops_main V (Proc.devRef .tc main_v17) = perm2 (F := F) := by
  rw [ops_main_eq_three, after_append ((mA ++ ((spA1 ++ (tfA1 ++ spB1)) ++ (shA1 ++ (tfB1 ++ shB1)))) ++ (mB ++ ((spA2 ++ (tfA2 ++ spB2)) ++ (shA2 ++ (tfB2 ++ shB2))))) ([] ++ (tk1 ++ (mC ++ (tk2 ++ (mD ++ (rl ++ [])))))) V,
    after_append (mA ++ ((spA1 ++ (tfA1 ++ spB1)) ++ (shA1 ++ (tfB1 ++ shB1)))) (mB ++ ((spA2 ++ (tfA2 ++ spB2)) ++ (shA2 ++ (tfB2 ++ shB2)))) V,
    after_of_writesOnly tail_wo _ (by decide), perm2_read]

/-- After all of @main, from any contents, shuffle 1's result buffer holds `perm1`. -/
theorem ops_main_v8 (V : Valuation τ sig (Elt F)) :
    after ops_main V (Proc.devRef .tc main_v8) = perm1 (F := F) := by
  rw [ops_main_eq_three, after_append ((mA ++ ((spA1 ++ (tfA1 ++ spB1)) ++ (shA1 ++ (tfB1 ++ shB1)))) ++ (mB ++ ((spA2 ++ (tfA2 ++ spB2)) ++ (shA2 ++ (tfB2 ++ shB2))))) ([] ++ (tk1 ++ (mC ++ (tk2 ++ (mD ++ (rl ++ [])))))) V,
    after_append (mA ++ ((spA1 ++ (tfA1 ++ spB1)) ++ (shA1 ++ (tfB1 ++ shB1)))) (mB ++ ((spA2 ++ (tfA2 ++ spB2)) ++ (shA2 ++ (tfB2 ++ shB2)))) V,
    after_of_writesOnly tail_wo _ (by decide), after_of_writesOnly pre2_wo _ (by decide), perm1_read]

end Cert.ReferenceIdeal.RefRun

end
-- ==== Proof.PermEq.lean ====
import proofs.«204681_g65575560675685_cont_9to1_m_144_57_alg».proof.Proof.KeysEq
import proofs.«204681_g65575560675685_cont_9to1_m_144_57_alg».proof.Proof.RefPerm
import proofs.«204681_g65575560675685_cont_9to1_m_144_57_alg».proof.Proof.RefBlocks
import proofs.«204681_g65575560675685_cont_9to1_m_144_57_alg».proof.Proof.LibBridge

/-! The permutations read off the kernel program's two shuffled tables are the reference's: the two programs' shuffled
    tables are equal (whatever their arguments hold), and a permutation of 128 positions is determined by its table of
    32-bit words. -/

open Idealize.ShloMosaic Idealize.ShloMosaic.TcCoe Idealize.SL.Sem Idealize.ShloMosaic.StableHlo
open Idealize.ShloMosaic.ValueIdx

noncomputable section

namespace Cert.Proof.KeysRel

/-- Some element of every element type at the ideal instance. -/
def eltZero : ∀ e : EltTy, Elt Ideal e := fun e => by
  cases e <;> first | exact (0 : BitVec _) | exact (0 : EReal)

/-- Some valuation of the reference program's buffers (the shuffled tables do not depend on it). -/
def someRefValuation : Valuation Cert.ReferenceIdeal.τ Cert.ReferenceIdeal.sig (Elt Ideal) := fun b _ => eltZero b.ty.elt

theorem perm_eq_of_words [Cert.KernelIdeal.Facts] (VK : Valuation Cert.KernelIdeal.τ Cert.KernelIdeal.sig (Elt Ideal)) (πU πI : Equiv.Perm (Fin 128))
    (hU : ∀ j : Cert.KernelIdeal.S128.Idx, (after (Cert.KernelIdeal.HostOps.hostOps (F := Ideal)) VK (Proc.devRef .tc Cert.KernelIdeal.main_v17) : IVec Cert.KernelIdeal.S128 32) j = BitVec.ofNat 32 (πU (j 0)).val)
    (hI : ∀ j : Cert.KernelIdeal.S128.Idx, (after (Cert.KernelIdeal.HostOps.hostOps (F := Ideal)) VK (Proc.devRef .tc Cert.KernelIdeal.main_v8) : IVec Cert.KernelIdeal.S128 32) j = BitVec.ofNat 32 (πI (j 0)).val) :
    πU = Cert.ReferenceIdeal.RefRun.σ2 ∧ πI = Cert.ReferenceIdeal.RefRun.σ1 := by
  have eU := perm_u_eq (F := Ideal) VK someRefValuation
  have eI := perm_i_eq (F := Ideal) VK someRefValuation
  rw [Cert.ReferenceIdeal.RefRun.ops_main_v17] at eU
  rw [Cert.ReferenceIdeal.RefRun.ops_main_v8] at eI
  constructor
  · refine LibBridge.perm_ext_of_words (n := 128) (w := 32) (by decide) _ _ fun k => ?_
    have h1 := hU (ix1 k)
    have h2 := Cert.ReferenceIdeal.RefRun.perm2_word (ix1 k)
    exact h1.symm.trans ((congrFun eU (ix1 k)).trans h2)
  · refine LibBridge.perm_ext_of_words (n := 128) (w := 32) (by decide) _ _ fun k => ?_
    have h1 := hI (ix1 k)
    have h2 := Cert.ReferenceIdeal.RefRun.perm1_word (ix1 k)
    exact h1.symm.trans ((congrFun eI (ix1 k)).trans h2)

end Cert.Proof.KeysRel

end
-- ==== Proof.ValueI.lean ====
import proofs.«204681_g65575560675685_cont_9to1_m_144_57_alg».proof.Proof.HmainTopVI
import proofs.«204681_g65575560675685_cont_9to1_m_144_57_alg».proof.Proof.TcValBoth
import proofs.«204681_g65575560675685_cont_9to1_m_144_57_alg».proof.Proof.GatherReadI
import proofs.«204681_g65575560675685_cont_9to1_m_144_57_alg».proof.Proof.HostValW
import proofs.«204681_g65575560675685_cont_9to1_m_144_57_alg».proof.Proof.KeysEq
import proofs.«204681_g65575560675685_cont_9to1_m_144_57_alg».proof.Proof.PartsPreI
import proofs.«204681_g65575560675685_cont_9to1_m_144_57_alg».proof.Proof.LibBridge
import proofs.«204681_g65575560675685_cont_9to1_m_144_57_alg».proof.Proof.RefBlocks
import proofs.«204681_g65575560675685_cont_9to1_m_144_57_alg».proof.Proof.RefPerm
import proofs.«204681_g65575560675685_cont_9to1_m_144_57_alg».proof.Proof.PermEq
import proofs.«204681_g65575560675685_cont_9to1_m_144_57_alg».proof.Proof.Gen.Pre_input_domain

/-! The kernel program's result is the reference's function of the six argument arrays. After both gather calls and both
matrix-product regions, entry (r, n) of the result is the maximum with zero of three sums over 128 columns: the review's
row against the weights' first 128 rows, the gathered user row against the weight rows 128 … 255 as the host stretch
re-ordered them, the gathered item row against rows 256 … 383. The gathered rows are the rows the adjacency words name,
the re-ordered weight rows are the weights' rows through the inverses of the two shuffles, and the two programs' shuffles
are the same tables: that is the reference's value in its block form. -/

noncomputable section

namespace Cert.KernelIdeal.LaunchV

open Cert.KernelIdeal Cert.KernelIdeal.Gen Cert.KernelIdeal.Setup Cert.KernelIdeal.HostOps Cert.KernelIdeal.MainTc Cert.KernelIdeal.Launch
open Cert.KernelIdeal.HostVal Cert.KernelIdeal.Tc
open Idealize.ShloMosaic Idealize.ShloMosaic.TcCoe Idealize.ShloMosaic.ValueIdx LibGatherAll
open Idealize.ShloMosaic.SparseCore.Cfg (HIx)
open Idealize.SL.Sem

section Calls
variable {F : FTy → Type} [FloatOps F]
variable (m : (ℓ : Loc nD τ sig) → Buf (Elt F) ℓ) (g : GatherFn F) (d : Dev nD)

/-- A buffer that is no output of a gather call holds after both calls what the host stretch left. -/
theorem W3_keep (b : Ref sig .tc) (h0 : b ≠ main_v94_0) (h1 : b ≠ main_v94_1) (h2 : b ≠ main_v95_0) (h3 : b ≠ main_v95_1) :
    W3 m g d (Proc.devRef .tc b) = V₁ m d (Proc.devRef .tc b) := by
  unfold W3 W2
  rw [upd1_of_ne _ _ _ _ (StableHlo.devRef_ne_of_ne h2) (StableHlo.devRef_ne_of_ne h3),
    upd0_of_ne _ _ _ _ (StableHlo.devRef_ne_of_ne h0) (StableHlo.devRef_ne_of_ne h1)]

theorem W2_keep (b : Ref sig .tc) (h0 : b ≠ main_v94_0) (h1 : b ≠ main_v94_1) :
    W2 m g d (Proc.devRef .tc b) = V₁ m d (Proc.devRef .tc b) := by
  unfold W2
  rw [upd0_of_ne _ _ _ _ (StableHlo.devRef_ne_of_ne h0) (StableHlo.devRef_ne_of_ne h1)]

/-- The first call's outputs after both calls: the gathers of the two tables by the first call's index operands. -/
theorem W3_v94_0 : W3 m g d (Proc.devRef .tc main_v94_0)
    = g (V₁ m d (Proc.devRef .tc main_arg1)) (V₁ m d (Proc.devRef .tc main_v53)) := by
  unfold W3 W2
  generalize V₁ m d = W
  rw [upd1_of_ne _ _ _ _ (StableHlo.devRef_ne_of_ne (by decide)) (StableHlo.devRef_ne_of_ne (by decide))]
  unfold upd0
  rw [Function.update_of_ne (StableHlo.devRef_ne_of_ne (by decide)), Function.update_self]
  rfl
theorem W3_v94_1 : W3 m g d (Proc.devRef .tc main_v94_1)
    = g (V₁ m d (Proc.devRef .tc main_arg2)) (V₁ m d (Proc.devRef .tc main_v81)) := by
  unfold W3 W2
  generalize V₁ m d = W
  rw [upd1_of_ne _ _ _ _ (StableHlo.devRef_ne_of_ne (by decide)) (StableHlo.devRef_ne_of_ne (by decide))]
  unfold upd0
  rw [Function.update_self]
  rfl
/-- The second call's outputs: the gathers by the second call's index operands. -/
theorem W3_v95_0 : W3 m g d (Proc.devRef .tc main_v95_0)
    = g (V₁ m d (Proc.devRef .tc main_arg1)) (V₁ m d (Proc.devRef .tc main_v65)) := by
  unfold W3 W2
  generalize V₁ m d = W
  unfold upd1
  rw [Function.update_of_ne (StableHlo.devRef_ne_of_ne (by decide)), Function.update_self]
  refine congrArg₂ g ?_ ?_
  · show upd0 W (g (ops0Of d W).fu (ops0Of d W).gu) (g (ops0Of d W).fi (ops0Of d W).gi) (Proc.devRef .tc main_arg1) = _
    exact upd0_of_ne W _ _ _ (StableHlo.devRef_ne_of_ne (by decide)) (StableHlo.devRef_ne_of_ne (by decide))
  · show upd0 W (g (ops0Of d W).fu (ops0Of d W).gu) (g (ops0Of d W).fi (ops0Of d W).gi) (Proc.devRef .tc main_v65) = _
    exact upd0_of_ne W _ _ _ (StableHlo.devRef_ne_of_ne (by decide)) (StableHlo.devRef_ne_of_ne (by decide))
theorem W3_v95_1 : W3 m g d (Proc.devRef .tc main_v95_1)
    = g (V₁ m d (Proc.devRef .tc main_arg2)) (V₁ m d (Proc.devRef .tc main_v93)) := by
  unfold W3 W2
  generalize V₁ m d = W
  unfold upd1
  rw [Function.update_self]
  refine congrArg₂ g ?_ ?_
  · show upd0 W (g (ops0Of d W).fu (ops0Of d W).gu) (g (ops0Of d W).fi (ops0Of d W).gi) (Proc.devRef .tc main_arg2) = _
    exact upd0_of_ne W _ _ _ (StableHlo.devRef_ne_of_ne (by decide)) (StableHlo.devRef_ne_of_ne (by decide))
  · show upd0 W (g (ops0Of d W).fu (ops0Of d W).gu) (g (ops0Of d W).fi (ops0Of d W).gi) (Proc.devRef .tc main_v93) = _
    exact upd0_of_ne W _ _ _ (StableHlo.devRef_ne_of_ne (by decide)) (StableHlo.devRef_ne_of_ne (by decide))

end Calls

section Value

open Cert.ReferenceIdeal.RefRun in
/-- The kernel's entry formula is the reference's, once the gathered rows are the rows the adjacency words name and the
    re-ordered weight rows are the weights' rows through the inverses of the reference's two shuffles. -/
theorem gval_eq (A0 A1 A2 : FVec Ideal Cert.ReferenceIdeal.S100000x128 .f32) (A3 A4 : IVec Cert.ReferenceIdeal.S100000 32)
    (A5 : FVec Ideal Cert.ReferenceIdeal.S384x128 .f32)
    (h3 : ∀ j, (A3 j).toNat < 100000) (h4 : ∀ j, (A4 j).toNat < 100000)
    (a1 a2 : S51200x128.Idx → EReal) (w : S384x128.Idx → EReal) (r : Fin 100000) (s : Fin 51200) (n : Fin 128)
    (h1 : ∀ k : Fin 128, a1 (ix2 s k) = A1 (ix2 ⟨(A4 (ix1 r)).toNat, h4 _⟩ k))
    (h2 : ∀ k : Fin 128, a2 (ix2 s k) = A2 (ix2 ⟨(A3 (ix1 r)).toNat, h3 _⟩ k))
    (hw0 : ∀ k : Fin 128, w (ix2 (⟨0 + k.val, by have := k.isLt; omega⟩ : Fin 384) n) = A5 (ix2 ⟨k.val, by omega⟩ n))
    (hw1 : ∀ k : Fin 128, w (ix2 (⟨128 + k.val, by have := k.isLt; omega⟩ : Fin 384) n) = A5 (ix2 ⟨128 + (σ2.symm k).val, by omega⟩ n))
    (hw2 : ∀ k : Fin 128, w (ix2 (⟨256 + k.val, by have := k.isLt; omega⟩ : Fin 384) n) = A5 (ix2 ⟨256 + (σ1.symm k).val, by omega⟩ n)) :
    gval A0 a1 a2 w r s n = RefG A0 A1 A2 A3 A4 A5 (ix2 r n) := by
  rw [RefG_apply_blocks' A0 A1 A2 A3 A4 A5 h3 h4 r n]
  unfold gval
  simp only [h1, h2, hw0, hw1, hw2]

variable (m : (ℓ : Loc nD τ sig) → Buf (Elt Ideal) ℓ)

/-- The host stretch leaves an argument array at its launch contents. -/
theorem V1_arg (d : Dev nD) (b : Ref sig .tc) (hb : Proc.devRef .tc b ∈ argRefs) :
    V₁ m d (Proc.devRef .tc b) = m ((d.tc : Thread nD τ).loc b) :=
  keep_args m d _ hb

set_option maxHeartbeats 1000000 in
/-- THE KERNEL'S VALUE: after the whole program the result buffer holds the reference's function of the six argument
    arrays, whatever the regions' wait sets were. -/
theorem kernel_value (h : PreM m) (d : Dev nD) (Wt0 Wt1 : Waits sig (HIx 2)) :
    Vfin m (gatherAll (α := Elt Ideal .f32)) ex0 ex1 d Wt0 Wt1 (Proc.devRef .tc main_v97)
      = Cert.ReferenceIdeal.RefRun.RefG (F := Ideal) (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4)) (m ((d.tc : Thread nD τ).loc main_arg5)) := by
  obtain ⟨h3, h4⟩ := Cert.Pre_input_domain.Range.range_of_pre _ _ _ _ _ _ (h d)
  obtain ⟨πU, πI, hU, hI, hw⟩ := weight_rows (F := Ideal) (V₀ m d)
  obtain ⟨eU, eI⟩ := Cert.Proof.KeysRel.perm_eq_of_words (V₀ m d) πU πI hU hI
  subst eU eI
  unfold Vfin
  rw [final_v97 d Wt0 Wt1 (W3 m gatherAll d)]
  funext i
  obtain ⟨r, n, rfl⟩ : ∃ (r : Fin 100000) (n : Fin 128), i = ix2 r n := ⟨i 0, i 1, eq_ix2 i⟩
  have a0 := (W3_keep m gatherAll d main_arg0 (by decide) (by decide) (by decide) (by decide)).trans
    (V1_arg m d main_arg0 (by simp [argRefs]))
  have aw := W3_keep m gatherAll d main_v37 (by decide) (by decide) (by decide) (by decide)
  rw [a0, aw, W3_v94_0, W3_v94_1, W3_v95_0, W3_v95_1,
    V1_arg m d main_arg1 (by simp [argRefs]), V1_arg m d main_arg2 (by simp [argRefs])]
  unfold V₁
  have hw0 : ∀ k : Fin 128, (StableHlo.after (hostOps (F := Ideal)) (V₀ m d) (Proc.devRef .tc main_v37) : S384x128.Idx → EReal)
      (ix2 (⟨0 + k.val, by have := k.isLt; omega⟩ : Fin 384) n) = (m ((d.tc : Thread nD τ).loc main_arg5) : S384x128.Idx → EReal) (ix2 ⟨k.val, by omega⟩ n) := by
    intro k
    rw [show (⟨0 + k.val, by have := k.isLt; omega⟩ : Fin 384) = ⟨k.val, by omega⟩ from Fin.ext (Nat.zero_add _)]
    exact (hw k n).1
  have hw1 : ∀ k : Fin 128, (StableHlo.after (hostOps (F := Ideal)) (V₀ m d) (Proc.devRef .tc main_v37) : S384x128.Idx → EReal)
      (ix2 (⟨128 + k.val, by have := k.isLt; omega⟩ : Fin 384) n)
        = (m ((d.tc : Thread nD τ).loc main_arg5) : S384x128.Idx → EReal) (ix2 ⟨128 + (Cert.ReferenceIdeal.RefRun.σ2.symm k).val, by omega⟩ n) :=
    fun k => (hw k n).2.1
  have hw2 : ∀ k : Fin 128, (StableHlo.after (hostOps (F := Ideal)) (V₀ m d) (Proc.devRef .tc main_v37) : S384x128.Idx → EReal)
      (ix2 (⟨256 + k.val, by have := k.isLt; omega⟩ : Fin 384) n)
        = (m ((d.tc : Thread nD τ).loc main_arg5) : S384x128.Idx → EReal) (ix2 ⟨256 + (Cert.ReferenceIdeal.RefRun.σ1.symm k).val, by omega⟩ n) :=
    fun k => (hw k n).2.2
  by_cases hr : r.val < 51200
  · rw [if_pos (show ((ix2 r n : S100000x128.Idx) 0).val < 51200 from hr)]
    show gval _ _ _ _ r (rowS r.val) n = _
    rw [rowS_of_lt hr]
    exact gval_eq _ _ _ _ _ _ h3 h4 _ _ _ r ⟨r.val, hr⟩ n
      (fun k => gatherAll_u0 (V₀ m d) _ h4 ⟨r.val, hr⟩ k) (fun k => gatherAll_i0 (V₀ m d) _ h3 ⟨r.val, hr⟩ k) hw0 hw1 hw2
  · rw [if_neg (show ¬ ((ix2 r n : S100000x128.Idx) 0).val < 51200 from hr)]
    have hs : r.val - 51200 < 51200 := by have := r.isLt; omega
    have hρ : 51200 + (r.val - 51200) < 100000 := by have := r.isLt; omega
    have e : (⟨51200 + (r.val - 51200), hρ⟩ : Fin 100000) = r := Fin.ext (by show 51200 + (r.val - 51200) = r.val; omega)
    show gval _ _ _ _ r (rowS (r.val - 51200)) n = _
    rw [rowS_of_lt hs]
    refine gval_eq _ _ _ _ _ _ h3 h4 _ _ _ r ⟨r.val - 51200, hs⟩ n ?_ ?_ hw0 hw1 hw2
    · intro k
      have t := gatherAll_u1 (V₀ m d) (m ((d.tc : Thread nD τ).loc main_arg1)) h4 ⟨r.val - 51200, hs⟩ hρ k
      rw [e] at t
      exact t
    · intro k
      have t := gatherAll_i1 (V₀ m d) (m ((d.tc : Thread nD τ).loc main_arg2)) h3 ⟨r.val - 51200, hs⟩ hρ k
      rw [e] at t
      exact t

/-- The same for any gather function that is the whole-array gather. -/
theorem kernel_value' (g : GatherFn Ideal) (hg : ∀ tab idx, g tab idx = gatherAll tab idx) (h : PreM m) (d : Dev nD)
    (Wt0 Wt1 : Waits sig (HIx 2)) :
    Vfin m g ex0 ex1 d Wt0 Wt1 (Proc.devRef .tc main_v97)
      = Cert.ReferenceIdeal.RefRun.RefG (F := Ideal) (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4)) (m ((d.tc : Thread nD τ).loc main_arg5)) := by
  have e : g = gatherAll (α := Elt Ideal .f32) := funext fun tab => funext fun idx => hg tab idx
  subst e
  exact kernel_value m h d Wt0 Wt1

end Value

end Cert.KernelIdeal.LaunchV

end
-- ==== Proof.lean ====
/-
  The certificate's claim: the three programs' frames, the (empty) idealization ledger, and the equality of the idealized
  kernel's and the idealized reference's results.

  The kernel program gathers, on the SparseCores, the user and item rows each review names (two calls, thirty-two tiles
  each, a ring of seven row buffers per tile), and on the TensorCore multiplies review, user and item rows by three blocks
  of the weight matrix whose rows were permuted by the inverses of two fixed shuffles; the reference concatenates the
  review row with the shuffled user and item rows and multiplies by the weight matrix as given. Reindexing each of the two
  permuted sums by its shuffle makes the two results one function of the arguments.
-/
import proofs.«204681_g65575560675685_cont_9to1_m_144_57_alg».proof.Defs
import proofs.«204681_g65575560675685_cont_9to1_m_144_57_alg».proof.Proof.Gen.Kernel
import proofs.«204681_g65575560675685_cont_9to1_m_144_57_alg».proof.Proof.Gen.KernelIdeal
import proofs.«204681_g65575560675685_cont_9to1_m_144_57_alg».proof.Proof.Gen.ReferenceIdeal
import proofs.«204681_g65575560675685_cont_9to1_m_144_57_alg».proof.Proof.Gen.Pre_input_domain
import proofs.«204681_g65575560675685_cont_9to1_m_144_57_alg».proof.Proof.CoreB
import proofs.«204681_g65575560675685_cont_9to1_m_144_57_alg».proof.Proof.CoreFromVI
import proofs.«204681_g65575560675685_cont_9to1_m_144_57_alg».proof.Proof.ValueI
import proofs.«204681_g65575560675685_cont_9to1_m_144_57_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_input_domain := Cert.Pre_input_domain.Gen.facts) := fun m g hpre => Cert.Kernel.Launch.frame_of_core Cert.Kernel.Launch.core m g hpre
theorem frame_ki : Cert.frame_KernelIdeal (hKernelIdeal := Cert.KernelIdeal.Gen.facts) (hPre_input_domain := Cert.Pre_input_domain.Gen.facts) := fun m g hpre => Cert.KernelIdeal.Launch.frame_of_core Cert.KernelIdeal.LaunchV.coreOfV m g hpre
theorem frame_ri : Cert.frame_ReferenceIdeal (hReferenceIdeal := Cert.ReferenceIdeal.Gen.facts) (hPre_input_domain := Cert.Pre_input_domain.Gen.facts) := fun m g _ =>
  (θ_run Cert.ReferenceIdeal.defs _ _).mono (fun _ h c => (h c).2) (Cert.ReferenceIdeal.RefRun.run (F := Ideal) m g)

/-- Both idealized programs end with the reference's function of the arguments in their result: the kernel's run names
    its result array, which is that function by the value theorem; the reference's run names the same. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  refine ⟨fun c => Cert.ReferenceIdeal.RefRun.RefG (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)), ?_, ?_⟩
  · refine (θ_run Cert.KernelIdeal.defs _ _).mono (fun r h c => ?_) (Cert.KernelIdeal.LaunchV.run_val Cert.KernelIdeal.LaunchV.coreV m g hpre)
    obtain ⟨⟨Wt0, Wt1, hv⟩, hargs⟩ := h c
    refine ⟨?_, hargs⟩
    rw [hv, Cert.KernelIdeal.LaunchV.kernel_value' m Cert.KernelIdeal.LaunchV.gAll (fun _ _ => rfl) hpre c Wt0 Wt1]
    dsimp only
    rw [(hagree c).1, (hagree c).2.1, (hagree c).2.2.1, (hagree c).2.2.2.1, (hagree c).2.2.2.2.1, (hagree c).2.2.2.2.2]
  · exact Cert.ReferenceIdeal.RefRun.run (F := Ideal) m' g'

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
